-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v168)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v168) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1600000 : Shape := ⟨2, ![2, 1600000]⟩
abbrev S6x32 : Shape := ⟨2, ![6, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S128x32 : Shape := ⟨2, ![128, 32]⟩
abbrev S32x16 : Shape := ⟨2, ![32, 16]⟩
abbrev S16 : Shape := ⟨1, ![16]⟩
abbrev S16x3 : Shape := ⟨2, ![16, 3]⟩
abbrev S3 : Shape := ⟨1, ![3]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_arg22 : FVec F S16x3 .f32) (main_arg23 : FVec F S3 .f32) (main_v98 : IVec S_ 1) (main_v101 : IVec S16 1) (main_c_39 : IVec S_ 1) : IVec S_ 1 :=
  let main_v102 : IVec S_ 1 := (fun x v => Host.reduce IntOp.andi x v reducesTo_S16_S_d0 h_S_) main_v101 main_c_39
  let main_v103 : IVec S_ 1 := andi main_v98 main_v102
  let main_v104 : FVec F S16x3 .f32 := Host.absf main_arg22
  let main_cst_40 : FVec F S_ .f32 := constant S_ .f32 0x7F800000#32
  let main_v105 : FVec F S16x3 .f32 := broadcastInDim S16x3 ![] bcast_S_S16x3 main_cst_40
  let main_v106 : IVec S16x3 1 := cmpf .olt main_v104 main_v105
  let main_c_41 : IVec S_ 1 := constantI S_ 1 1#1
  let main_v107 : IVec S_ 1 := (fun x v => Host.reduce IntOp.andi x v reducesTo_S16x3_S_d0_1 h_S_) main_v106 main_c_41
  let main_v108 : IVec S_ 1 := andi main_v103 main_v107
  let main_v109 : FVec F S3 .f32 := Host.absf main_arg23
  let main_cst_42 : FVec F S_ .f32 := constant S_ .f32 0x7F800000#32
  let main_v110 : FVec F S3 .f32 := broadcastInDim S3 ![] bcast_S_S3 main_cst_42
  let main_v111 : IVec S3 1 := cmpf .olt main_v109 main_v110
  let main_c_43 : IVec S_ 1 := constantI S_ 1 1#1
  let main_v112 : IVec S_ 1 := (fun x v => Host.reduce IntOp.andi x v reducesTo_S3_S_d0 h_S_) main_v111 main_c_43
  let main_v113 : IVec S_ 1 := andi main_v108 main_v112
  main_v113

def fn_part5 {F : FTy → Type} [FloatOps F] (main_arg19 : FVec F S16 .f32) (main_arg20 : FVec F S16 .f32) (main_arg21 : FVec F S16 .f32) (main_arg22 : FVec F S16x3 .f32) (main_arg23 : FVec F S3 .f32) (main_v83 : IVec S_ 1) (main_v84 : FVec F S32x16 .f32) (main_cst_32 : FVec F S_ .f32) : IVec S_ 1 :=
  let main_v85 : FVec F S32x16 .f32 := broadcastInDim S32x16 ![] bcast_S_S32x16 main_cst_32
  let main_v86 : IVec S32x16 1 := cmpf .olt main_v84 main_v85
  let main_c_33 : IVec S_ 1 := constantI S_ 1 1#1
  let main_v87 : IVec S_ 1 := (fun x v => Host.reduce IntOp.andi x v reducesTo_S32x16_S_d0_1 h_S_) main_v86 main_c_33
  let main_v88 : IVec S_ 1 := andi main_v83 main_v87
  let main_v89 : FVec F S16 .f32 := Host.absf main_arg19
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S16 .f32 := Host.absf main_arg20
  let main_cst_36 : FVec F S_ .f32 := constant S_ .f32 0x7F800000#32
  let main_v95 : FVec F S16 .f32 := broadcastInDim S16 ![] bcast_S_S16 main_cst_36
  let main_v96 : IVec S16 1 := cmpf .olt main_v94 main_v95
  let main_c_37 : IVec S_ 1 := constantI S_ 1 1#1
  let main_v97 : IVec S_ 1 := (fun x v => Host.reduce IntOp.andi x v reducesTo_S16_S_d0 h_S_) main_v96 main_c_37
  let main_v98 : IVec S_ 1 := andi main_v93 main_v97
  let main_v99 : FVec F S16 .f32 := Host.absf main_arg21
  let main_cst_38 : FVec F S_ .f32 := constant S_ .f32 0x7F800000#32
  let main_v100 : FVec F S16 .f32 := broadcastInDim S16 ![] bcast_S_S16 main_cst_38
  let main_v101 : IVec S16 1 := cmpf .olt main_v99 main_v100
  let main_c_39 : IVec S_ 1 := constantI S_ 1 1#1
  fn_part6 (F := F) main_arg22 main_arg23 main_v98 main_v101 main_c_39

def fn_part4 {F : FTy → Type} [FloatOps F] (main_arg15 : FVec F S32 .f32) (main_arg16 : FVec F S32 .f32) (main_arg17 : FVec F S32 .f32) (main_arg18 : FVec F S32x16 .f32) (main_arg19 : FVec F S16 .f32) (main_arg20 : FVec F S16 .f32) (main_arg21 : FVec F S16 .f32) (main_arg22 : FVec F S16x3 .f32) (main_arg23 : FVec F S3 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x16 .f32 := Host.absf main_arg18
  let main_cst_32 : FVec F S_ .f32 := constant S_ .f32 0x7F800000#32
  fn_part5 (F := F) main_arg19 main_arg20 main_arg21 main_arg22 main_arg23 main_v83 main_v84 main_cst_32

def fn_part3 {F : FTy → Type} [FloatOps F] (main_arg12 : FVec F S128 .f32) (main_arg13 : FVec F S128 .f32) (main_arg14 : FVec F S128x32 .f32) (main_arg15 : FVec F S32 .f32) (main_arg16 : FVec F S32 .f32) (main_arg17 : FVec F S32 .f32) (main_arg18 : FVec F S32x16 .f32) (main_arg19 : FVec F S16 .f32) (main_arg20 : FVec F S16 .f32) (main_arg21 : FVec F S16 .f32) (main_arg22 : FVec F S16x3 .f32) (main_arg23 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x32 .f32 := Host.absf main_arg14
  let main_cst_24 : FVec F S_ .f32 := constant S_ .f32 0x7F800000#32
  let main_v65 : FVec F S128x32 .f32 := broadcastInDim S128x32 ![] bcast_S_S128x32 main_cst_24
  let main_v66 : IVec S128x32 1 := cmpf .olt main_v64 main_v65
  let main_c_25 : IVec S_ 1 := constantI S_ 1 1#1
  let main_v67 : IVec S_ 1 := (fun x v => Host.reduce IntOp.andi x v reducesTo_S128x32_S_d0_1 h_S_) main_v66 main_c_25
  fn_part4 (F := F) main_arg15 main_arg16 main_arg17 main_arg18 main_arg19 main_arg20 main_arg21 main_arg22 main_arg23 main_v63 main_v67

def fn_part2 {F : FTy → Type} [FloatOps F] (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x32 .f32) (main_arg15 : FVec F S32 .f32) (main_arg16 : FVec F S32 .f32) (main_arg17 : FVec F S32 .f32) (main_arg18 : FVec F S32x16 .f32) (main_arg19 : FVec F S16 .f32) (main_arg20 : FVec F S16 .f32) (main_arg21 : FVec F S16 .f32) (main_arg22 : FVec F S16x3 .f32) (main_arg23 : FVec F S3 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_arg23 main_v48 main_v49 main_v50

def fn_part1 {F : FTy → Type} [FloatOps F] (main_arg5 : FVec F S32 .f32) (main_arg6 : FVec F S32x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x32 .f32) (main_arg15 : FVec F S32 .f32) (main_arg16 : FVec F S32 .f32) (main_arg17 : FVec F S32 .f32) (main_arg18 : FVec F S32x16 .f32) (main_arg19 : FVec F S16 .f32) (main_arg20 : FVec F S16 .f32) (main_arg21 : FVec F S16 .f32) (main_arg22 : FVec F S16x3 .f32) (main_arg23 : FVec F S3 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x128 .f32 := Host.absf main_arg6
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x6 .f32) (main_arg1 : IVec S2x1600000 32) (main_arg2 : FVec F S6x32 .f32) (main_arg3 : FVec F S32 .f32) (main_arg4 : FVec F S32 .f32) (main_arg5 : FVec F S32 .f32) (main_arg6 : FVec F S32x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x32 .f32) (main_arg15 : FVec F S32 .f32) (main_arg16 : FVec F S32 .f32) (main_arg17 : FVec F S32 .f32) (main_arg18 : FVec F S32x16 .f32) (main_arg19 : FVec F S16 .f32) (main_arg20 : FVec F S16 .f32) (main_arg21 : FVec F S16 .f32) (main_arg22 : FVec F S16x3 .f32) (main_arg23 : FVec F S3 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x32 .f32 := Host.absf main_arg2
  let main_cst_0 : FVec F S_ .f32 := constant S_ .f32 0x7F800000#32
  let main_v5 : FVec F S6x32 .f32 := broadcastInDim S6x32 ![] bcast_S_S6x32 main_cst_0
  let main_v6 : IVec S6x32 1 := cmpf .olt main_v4 main_v5
  let main_c_1 : IVec S_ 1 := constantI S_ 1 1#1
  let main_v7 : IVec S_ 1 := (fun x v => Host.reduce IntOp.andi x v reducesTo_S6x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x6 : Shape := ⟨2, ![100000, 6]⟩
abbrev S2x1600000 : Shape := ⟨2, ![2, 1600000]⟩
abbrev S6x32 : Shape := ⟨2, ![6, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S128x32 : Shape := ⟨2, ![128, 32]⟩
abbrev S32x16 : Shape := ⟨2, ![32, 16]⟩
abbrev S16 : Shape := ⟨1, ![16]⟩
abbrev S16x3 : Shape := ⟨2, ![16, 3]⟩
abbrev S3 : Shape := ⟨1, ![3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x32 : Shape := ⟨2, ![1, 32]⟩
abbrev S100000x32 : Shape := ⟨2, ![100000, 32]⟩
abbrev S10000x6 : Shape := ⟨2, ![10000, 6]⟩
abbrev S10000x32 : Shape := ⟨2, ![10000, 32]⟩
abbrev S1700000x32 : Shape := ⟨2, ![1700000, 32]⟩
abbrev S1x128 : Shape := ⟨2, ![1, 128]⟩
abbrev S100000x128 : Shape := ⟨2, ![100000, 128]⟩
abbrev S10000x128 : Shape := ⟨2, ![10000, 128]⟩
abbrev S1700000x128 : Shape := ⟨2, ![1700000, 128]⟩
abbrev S1x16 : Shape := ⟨2, ![1, 16]⟩
abbrev S100000x16 : Shape := ⟨2, ![100000, 16]⟩
abbrev S10000x16 : Shape := ⟨2, ![10000, 16]⟩
abbrev S1700000x16 : Shape := ⟨2, ![1700000, 16]⟩
abbrev S1x3 : Shape := ⟨2, ![1, 3]⟩
abbrev S100000x3 : Shape := ⟨2, ![100000, 3]⟩
abbrev S10000x3 : Shape := ⟨2, ![10000, 3]⟩

abbrev nBuf : Space → Nat
  | .hbm => 236
  | .vmem => 116
  | .smem => 0
  | _ => 0

abbrev hbmTy0_0 (i : Nat) : BufTy := match i % 128 with
  | 0 => ⟨S100000x6, .f32⟩
  | 1 => ⟨S2x1600000, .i32⟩
  | 2 => ⟨S6x32, .f32⟩
  | 3 => ⟨S32, .f32⟩
  | 4 => ⟨S32, .f32⟩
  | 5 => ⟨S32, .f32⟩
  | 6 => ⟨S32x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128x32, .f32⟩
  | 15 => ⟨S32, .f32⟩
  | 16 => ⟨S32, .f32⟩
  | 17 => ⟨S32, .f32⟩
  | 18 => ⟨S32x16, .f32⟩
  | 19 => ⟨S16, .f32⟩
  | 20 => ⟨S16, .f32⟩
  | 21 => ⟨S16, .f32⟩
  | 22 => ⟨S16x3, .f32⟩
  | 23 => ⟨S3, .f32⟩
  | 24 => ⟨S100000, .i32⟩
  | 25 => ⟨S1x1600000, .i32⟩
  | 26 => ⟨S1600000, .i32⟩
  | 27 => ⟨S1700000, .i32⟩
  | 28 => ⟨S1x1600000, .i32⟩
  | 29 => ⟨S1600000, .i32⟩
  | 30 => ⟨S1700000, .i32⟩
  | 31 => ⟨S_, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S_, .f32⟩
  | 42 => ⟨S1700000, .f32⟩
  | 43 => ⟨S100000, .f32⟩
  | 44 => ⟨S100000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S1700000, .f32⟩
  | 64 => ⟨S_, .f32⟩
  | 65 => ⟨S32, .f32⟩
  | 66 => ⟨S1x32, .f32⟩
  | 67 => ⟨S100000x32, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x32, .f32⟩
  | 77 => ⟨S1700000x1, .f32⟩
  | 78 => ⟨S1700000x32, .f32⟩
  | 79 => ⟨S1700000x32, .f32⟩
  | 80 => ⟨S_, .f32⟩
  | 81 => ⟨S100000x32, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S100000x32, .f32⟩
  | 91 => ⟨S1x32, .f32⟩
  | 92 => ⟨S1x32, .f32⟩
  | 93 => ⟨S1x32, .f32⟩
  | 94 => ⟨S1x32, .f32⟩
  | 95 => ⟨S1x32, .f32⟩
  | 96 => ⟨S1x32, .f32⟩
  | 97 => ⟨S100000x32, .f32⟩
  | 98 => ⟨S_, .f32⟩
  | 99 => ⟨S128, .f32⟩
  | 100 => ⟨S1x128, .f32⟩
  | 101 => ⟨S100000x128, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x128, .f32⟩
  | 111 => ⟨S1700000x1, .f32⟩
  | 112 => ⟨S1700000x128, .f32⟩
  | 113 => ⟨S1700000x128, .f32⟩
  | 114 => ⟨S_, .f32⟩
  | 115 => ⟨S100000x128, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S100000x128, .f32⟩
  | 125 => ⟨S1x128, .f32⟩
  | 126 => ⟨S1x128, .f32⟩
  | 127 => ⟨S1x128, .f32⟩
  | _ => ⟨S100000x6, .f32⟩

abbrev hbmTy0_1 (i : Nat) : BufTy := match i % 128 with
  | 0 => ⟨S1x128, .f32⟩
  | 1 => ⟨S1x128, .f32⟩
  | 2 => ⟨S1x128, .f32⟩
  | 3 => ⟨S100000x128, .f32⟩
  | 4 => ⟨S_, .f32⟩
  | 5 => ⟨S128, .f32⟩
  | 6 => ⟨S1x128, .f32⟩
  | 7 => ⟨S100000x128, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x128, .f32⟩
  | 17 => ⟨S1700000x1, .f32⟩
  | 18 => ⟨S1700000x128, .f32⟩
  | 19 => ⟨S1700000x128, .f32⟩
  | 20 => ⟨S_, .f32⟩
  | 21 => ⟨S100000x128, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S100000x128, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S1x128, .f32⟩
  | 37 => ⟨S100000x128, .f32⟩
  | 38 => ⟨S_, .f32⟩
  | 39 => ⟨S32, .f32⟩
  | 40 => ⟨S1x32, .f32⟩
  | 41 => ⟨S100000x32, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000x32, .f32⟩
  | 51 => ⟨S1700000x1, .f32⟩
  | 52 => ⟨S1700000x32, .f32⟩
  | 53 => ⟨S1700000x32, .f32⟩
  | 54 => ⟨S_, .f32⟩
  | 55 => ⟨S100000x32, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S100000x32, .f32⟩
  | 65 => ⟨S1x32, .f32⟩
  | 66 => ⟨S1x32, .f32⟩
  | 67 => ⟨S1x32, .f32⟩
  | 68 => ⟨S1x32, .f32⟩
  | 69 => ⟨S1x32, .f32⟩
  | 70 => ⟨S1x32, .f32⟩
  | 71 => ⟨S100000x32, .f32⟩
  | 72 => ⟨S_, .f32⟩
  | 73 => ⟨S16, .f32⟩
  | 74 => ⟨S1x16, .f32⟩
  | 75 => ⟨S100000x16, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x16, .f32⟩
  | 85 => ⟨S1700000x1, .f32⟩
  | 86 => ⟨S1700000x16, .f32⟩
  | 87 => ⟨S1700000x16, .f32⟩
  | 88 => ⟨S_, .f32⟩
  | 89 => ⟨S100000x16, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S100000x16, .f32⟩
  | 99 => ⟨S1x16, .f32⟩
  | 100 => ⟨S1x16, .f32⟩
  | 101 => ⟨S1x16, .f32⟩
  | 102 => ⟨S1x16, .f32⟩
  | 103 => ⟨S1x16, .f32⟩
  | 104 => ⟨S1x16, .f32⟩
  | 105 => ⟨S100000x16, .f32⟩
  | 106 => ⟨S1x3, .f32⟩
  | 107 => ⟨S100000x3, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | .local _ .vmem, ⟨0, _⟩ => ⟨S10000x6, .f32⟩
  | .local _ .vmem, ⟨1, _⟩ => ⟨S10000x6, .f32⟩
  | .local _ .vmem, ⟨2, _⟩ => ⟨S6x32, .f32⟩
  | .local _ .vmem, ⟨3, _⟩ => ⟨S1x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S1x32, .f32⟩
  | .local _ .vmem, ⟨9, _⟩ => ⟨S1x32, .f32⟩
  | .local _ .vmem, ⟨10, _⟩ => ⟨S1x32, .f32⟩
  | .local _ .vmem, ⟨11, _⟩ => ⟨S1x32, .f32⟩
  | .local _ .vmem, ⟨12, _⟩ => ⟨S1x32, .f32⟩
  | .local _ .vmem, ⟨13, _⟩ => ⟨S10000x32, .f32⟩
  | .local _ .vmem, ⟨14, _⟩ => ⟨S10000x32, .f32⟩
  | .local _ .vmem, ⟨15, _⟩ => ⟨S1x32, .f32⟩
  | .local _ .vmem, ⟨16, _⟩ => ⟨S1x32, .f32⟩
  | .local _ .vmem, ⟨17, _⟩ => ⟨S1x32, .f32⟩
  | .local _ .vmem, ⟨18, _⟩ => ⟨S1x32, .f32⟩
  | .local _ .vmem, ⟨19, _⟩ => ⟨S1x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S32x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S10000x128, .f32⟩
  | .local _ .vmem, ⟨36, _⟩ => ⟨S10000x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S128x128, .f32⟩
  | .local _ .vmem, ⟨47, _⟩ => ⟨S1x128, .f32⟩
  | .local _ .vmem, ⟨48, _⟩ => ⟨S10000x128, .f32⟩
  | .local _ .vmem, ⟨49, _⟩ => ⟨S10000x128, .f32⟩
  | .local _ .vmem, ⟨50, _⟩ => ⟨S10000x128, .f32⟩
  | .local _ .vmem, ⟨51, _⟩ => ⟨S10000x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S10000x128, .f32⟩
  | .local _ .vmem, ⟨58, _⟩ => ⟨S10000x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S10000x128, .f32⟩
  | .local _ .vmem, ⟨65, _⟩ => ⟨S10000x128, .f32⟩
  | .local _ .vmem, ⟨66, _⟩ => ⟨S10000x128, .f32⟩
  | .local _ .vmem, ⟨67, _⟩ => ⟨S10000x128, .f32⟩
  | .local _ .vmem, ⟨68, _⟩ => ⟨S128x32, .f32⟩
  | .local _ .vmem, ⟨69, _⟩ => ⟨S1x32, .f32⟩
  | .local _ .vmem, ⟨70, _⟩ => ⟨S10000x32, .f32⟩
  | .local _ .vmem, ⟨71, _⟩ => ⟨S10000x32, .f32⟩
  | .local _ .vmem, ⟨72, _⟩ => ⟨S10000x32, .f32⟩
  | .local _ .vmem, ⟨73, _⟩ => ⟨S10000x32, .f32⟩
  | .local _ .vmem, ⟨74, _⟩ => ⟨S1x32, .f32⟩
  | .local _ .vmem, ⟨75, _⟩ => ⟨S1x32, .f32⟩
  | .local _ .vmem, ⟨76, _⟩ => ⟨S1x32, .f32⟩
  | .local _ .vmem, ⟨77, _⟩ => ⟨S1x32, .f32⟩
  | .local _ .vmem, ⟨78, _⟩ => ⟨S1x32, .f32⟩
  | .local _ .vmem, ⟨79, _⟩ => ⟨S10000x32, .f32⟩
  | .local _ .vmem, ⟨80, _⟩ => ⟨S10000x32, .f32⟩
  | .local _ .vmem, ⟨81, _⟩ => ⟨S1x32, .f32⟩
  | .local _ .vmem, ⟨82, _⟩ => ⟨S1x32, .f32⟩
  | .local _ .vmem, ⟨83, _⟩ => ⟨S1x32, .f32⟩
  | .local _ .vmem, ⟨84, _⟩ => ⟨S1x32, .f32⟩
  | .local _ .vmem, ⟨85, _⟩ => ⟨S1x32, .f32⟩
  | .local _ .vmem, ⟨86, _⟩ => ⟨S10000x32, .f32⟩
  | .local _ .vmem, ⟨87, _⟩ => ⟨S10000x32, .f32⟩
  | .local _ .vmem, ⟨88, _⟩ => ⟨S10000x32, .f32⟩
  | .local _ .vmem, ⟨89, _⟩ => ⟨S10000x32, .f32⟩
  | .local _ .vmem, ⟨90, _⟩ => ⟨S32x16, .f32⟩
  | .local _ .vmem, ⟨91, _⟩ => ⟨S1x16, .f32⟩
  | .local _ .vmem, ⟨92, _⟩ => ⟨S10000x16, .f32⟩
  | .local _ .vmem, ⟨93, _⟩ => ⟨S10000x16, .f32⟩
  | .local _ .vmem, ⟨94, _⟩ => ⟨S10000x16, .f32⟩
  | .local _ .vmem, ⟨95, _⟩ => ⟨S10000x16, .f32⟩
  | .local _ .vmem, ⟨96, _⟩ => ⟨S1x16, .f32⟩
  | .local _ .vmem, ⟨97, _⟩ => ⟨S1x16, .f32⟩
  | .local _ .vmem, ⟨98, _⟩ => ⟨S1x16, .f32⟩
  | .local _ .vmem, ⟨99, _⟩ => ⟨S1x16, .f32⟩
  | .local _ .vmem, ⟨100, _⟩ => ⟨S1x16, .f32⟩
  | .local _ .vmem, ⟨101, _⟩ => ⟨S10000x16, .f32⟩
  | .local _ .vmem, ⟨102, _⟩ => ⟨S10000x16, .f32⟩
  | .local _ .vmem, ⟨103, _⟩ => ⟨S1x16, .f32⟩
  | .local _ .vmem, ⟨104, _⟩ => ⟨S1x16, .f32⟩
  | .local _ .vmem, ⟨105, _⟩ => ⟨S1x16, .f32⟩
  | .local _ .vmem, ⟨106, _⟩ => ⟨S1x16, .f32⟩
  | .local _ .vmem, ⟨107, _⟩ => ⟨S1x16, .f32⟩
  | .local _ .vmem, ⟨108, _⟩ => ⟨S10000x16, .f32⟩
  | .local _ .vmem, ⟨109, _⟩ => ⟨S10000x16, .f32⟩
  | .local _ .vmem, ⟨110, _⟩ => ⟨S10000x16, .f32⟩
  | .local _ .vmem, ⟨111, _⟩ => ⟨S10000x16, .f32⟩
  | .local _ .vmem, ⟨112, _⟩ => ⟨S16x3, .f32⟩
  | .local _ .vmem, ⟨113, _⟩ => ⟨S1x3, .f32⟩
  | .local _ .vmem, ⟨114, _⟩ => ⟨S10000x3, .f32⟩
  | .local _ .vmem, ⟨115, _⟩ => ⟨S10000x3, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | _, _ => false

abbrev semScoped : Fin 0 → Bool
  | ⟨_, h⟩ => absurd h (Nat.not_lt_zero _)

abbrev dmaSemScoped : Fin 106 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | _ => false

abbrev sig : RefSig :=
  ofTc nBuf bufTy 0 106 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_c : Ref sig .tc := ⟨.hbm, 33, rfl⟩
abbrev main_v8 : Ref sig .tc := ⟨.hbm, 34, rfl⟩
abbrev main_v9 : Ref sig .tc := ⟨.hbm, 35, rfl⟩
abbrev main_c_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_2 : Ref sig .tc := ⟨.hbm, 45, rfl⟩
abbrev main_v17 : Ref sig .tc := ⟨.hbm, 46, rfl⟩
abbrev main_v18 : Ref sig .tc := ⟨.hbm, 47, rfl⟩
abbrev main_c_3 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_4 : Ref sig .tc := ⟨.hbm, 54, rfl⟩
abbrev main_v24 : Ref sig .tc := ⟨.hbm, 55, rfl⟩
abbrev main_v25 : Ref sig .tc := ⟨.hbm, 56, rfl⟩
abbrev main_c_5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_6 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_7 : Ref sig .tc := ⟨.hbm, 68, rfl⟩
abbrev main_v35 : Ref sig .tc := ⟨.hbm, 69, rfl⟩
abbrev main_v36 : Ref sig .tc := ⟨.hbm, 70, rfl⟩
abbrev main_c_8 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_9 : Ref sig .tc := ⟨.hbm, 80, rfl⟩
abbrev main_v45 : Ref sig .tc := ⟨.hbm, 81, rfl⟩
abbrev main_c_10 : Ref sig .tc := ⟨.hbm, 82, rfl⟩
abbrev main_v46 : Ref sig .tc := ⟨.hbm, 83, rfl⟩
abbrev main_v47 : Ref sig .tc := ⟨.hbm, 84, rfl⟩
abbrev main_c_11 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54_0 : Ref sig .tc := ⟨.hbm, 92, rfl⟩
abbrev main_v54_1 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_12 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_13 : Ref sig .tc := ⟨.hbm, 102, rfl⟩
abbrev main_v62 : Ref sig .tc := ⟨.hbm, 103, rfl⟩
abbrev main_v63 : Ref sig .tc := ⟨.hbm, 104, rfl⟩
abbrev main_c_14 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_15 : Ref sig .tc := ⟨.hbm, 114, rfl⟩
abbrev main_v72 : Ref sig .tc := ⟨.hbm, 115, rfl⟩
abbrev main_c_16 : Ref sig .tc := ⟨.hbm, 116, rfl⟩
abbrev main_v73 : Ref sig .tc := ⟨.hbm, 117, rfl⟩
abbrev main_v74 : Ref sig .tc := ⟨.hbm, 118, rfl⟩
abbrev main_c_17 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81_0 : Ref sig .tc := ⟨.hbm, 126, rfl⟩
abbrev main_v81_1 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_18 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_c_19 : Ref sig .tc := ⟨.hbm, 136, rfl⟩
abbrev main_v89 : Ref sig .tc := ⟨.hbm, 137, rfl⟩
abbrev main_v90 : Ref sig .tc := ⟨.hbm, 138, rfl⟩
abbrev main_c_20 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_21 : Ref sig .tc := ⟨.hbm, 148, rfl⟩
abbrev main_v99 : Ref sig .tc := ⟨.hbm, 149, rfl⟩
abbrev main_c_22 : Ref sig .tc := ⟨.hbm, 150, rfl⟩
abbrev main_v100 : Ref sig .tc := ⟨.hbm, 151, rfl⟩
abbrev main_v101 : Ref sig .tc := ⟨.hbm, 152, rfl⟩
abbrev main_c_23 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108_0 : Ref sig .tc := ⟨.hbm, 160, rfl⟩
abbrev main_v108_1 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_24 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_c_25 : Ref sig .tc := ⟨.hbm, 170, rfl⟩
abbrev main_v116 : Ref sig .tc := ⟨.hbm, 171, rfl⟩
abbrev main_v117 : Ref sig .tc := ⟨.hbm, 172, rfl⟩
abbrev main_c_26 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_27 : Ref sig .tc := ⟨.hbm, 182, rfl⟩
abbrev main_v126 : Ref sig .tc := ⟨.hbm, 183, rfl⟩
abbrev main_c_28 : Ref sig .tc := ⟨.hbm, 184, rfl⟩
abbrev main_v127 : Ref sig .tc := ⟨.hbm, 185, rfl⟩
abbrev main_v128 : Ref sig .tc := ⟨.hbm, 186, rfl⟩
abbrev main_c_29 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135_0 : Ref sig .tc := ⟨.hbm, 194, rfl⟩
abbrev main_v135_1 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_cst_30 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_c_31 : Ref sig .tc := ⟨.hbm, 204, rfl⟩
abbrev main_v143 : Ref sig .tc := ⟨.hbm, 205, rfl⟩
abbrev main_v144 : Ref sig .tc := ⟨.hbm, 206, rfl⟩
abbrev main_c_32 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_cst_33 : Ref sig .tc := ⟨.hbm, 216, rfl⟩
abbrev main_v153 : Ref sig .tc := ⟨.hbm, 217, rfl⟩
abbrev main_c_34 : Ref sig .tc := ⟨.hbm, 218, rfl⟩
abbrev main_v154 : Ref sig .tc := ⟨.hbm, 219, rfl⟩
abbrev main_v155 : Ref sig .tc := ⟨.hbm, 220, rfl⟩
abbrev main_c_35 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162_0 : Ref sig .tc := ⟨.hbm, 228, rfl⟩
abbrev main_v162_1 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc1_scratch1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_scratch0 : Ref sig .tc := ⟨.vmem, 33, rfl⟩
abbrev cc4_scratch1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg3_0 : Ref sig .tc := ⟨.vmem, 54, rfl⟩
abbrev cc7_scratch0 : Ref sig .tc := ⟨.vmem, 55, rfl⟩
abbrev cc7_scratch1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg4_0 : Ref sig .tc := ⟨.vmem, 62, rfl⟩
abbrev cc8_stg5_0 : Ref sig .tc := ⟨.vmem, 63, rfl⟩
abbrev cc8_stg6_0 : Ref sig .tc := ⟨.vmem, 64, rfl⟩
abbrev cc8_stg6_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg3_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg2_0 : Ref sig .tc := ⟨.vmem, 75, rfl⟩
abbrev cc10_stg3_0 : Ref sig .tc := ⟨.vmem, 76, rfl⟩
abbrev cc10_scratch0 : Ref sig .tc := ⟨.vmem, 77, rfl⟩
abbrev cc10_scratch1 : Ref sig .tc := ⟨.vmem, 78, rfl⟩
abbrev cc11_stg0_0 : Ref sig .tc := ⟨.vmem, 79, rfl⟩
abbrev cc11_stg0_1 : Ref sig .tc := ⟨.vmem, 80, rfl⟩
abbrev cc11_stg1_0 : Ref sig .tc := ⟨.vmem, 81, rfl⟩
abbrev cc11_stg2_0 : Ref sig .tc := ⟨.vmem, 82, rfl⟩
abbrev cc11_stg3_0 : Ref sig .tc := ⟨.vmem, 83, rfl⟩
abbrev cc11_stg4_0 : Ref sig .tc := ⟨.vmem, 84, rfl⟩
abbrev cc11_stg5_0 : Ref sig .tc := ⟨.vmem, 85, rfl⟩
abbrev cc11_stg6_0 : Ref sig .tc := ⟨.vmem, 86, rfl⟩
abbrev cc11_stg6_1 : Ref sig .tc := ⟨.vmem, 87, rfl⟩
abbrev cc12_stg0_0 : Ref sig .tc := ⟨.vmem, 88, rfl⟩
abbrev cc12_stg0_1 : Ref sig .tc := ⟨.vmem, 89, rfl⟩
abbrev cc12_stg1_0 : Ref sig .tc := ⟨.vmem, 90, rfl⟩
abbrev cc12_stg2_0 : Ref sig .tc := ⟨.vmem, 91, rfl⟩
abbrev cc12_stg3_0 : Ref sig .tc := ⟨.vmem, 92, rfl⟩
abbrev cc12_stg3_1 : Ref sig .tc := ⟨.vmem, 93, rfl⟩
abbrev cc13_stg0_0 : Ref sig .tc := ⟨.vmem, 94, rfl⟩
abbrev cc13_stg0_1 : Ref sig .tc := ⟨.vmem, 95, rfl⟩
abbrev cc13_stg1_0 : Ref sig .tc := ⟨.vmem, 96, rfl⟩
abbrev cc13_stg2_0 : Ref sig .tc := ⟨.vmem, 97, rfl⟩
abbrev cc13_stg3_0 : Ref sig .tc := ⟨.vmem, 98, rfl⟩
abbrev cc13_scratch0 : Ref sig .tc := ⟨.vmem, 99, rfl⟩
abbrev cc13_scratch1 : Ref sig .tc := ⟨.vmem, 100, rfl⟩
abbrev cc14_stg0_0 : Ref sig .tc := ⟨.vmem, 101, rfl⟩
abbrev cc14_stg0_1 : Ref sig .tc := ⟨.vmem, 102, rfl⟩
abbrev cc14_stg1_0 : Ref sig .tc := ⟨.vmem, 103, rfl⟩
abbrev cc14_stg2_0 : Ref sig .tc := ⟨.vmem, 104, rfl⟩
abbrev cc14_stg3_0 : Ref sig .tc := ⟨.vmem, 105, rfl⟩
abbrev cc14_stg4_0 : Ref sig .tc := ⟨.vmem, 106, rfl⟩
abbrev cc14_stg5_0 : Ref sig .tc := ⟨.vmem, 107, rfl⟩
abbrev cc14_stg6_0 : Ref sig .tc := ⟨.vmem, 108, rfl⟩
abbrev cc14_stg6_1 : Ref sig .tc := ⟨.vmem, 109, rfl⟩
abbrev cc15_stg0_0 : Ref sig .tc := ⟨.vmem, 110, rfl⟩
abbrev cc15_stg0_1 : Ref sig .tc := ⟨.vmem, 111, rfl⟩
abbrev cc15_stg1_0 : Ref sig .tc := ⟨.vmem, 112, rfl⟩
abbrev cc15_stg2_0 : Ref sig .tc := ⟨.vmem, 113, rfl⟩
abbrev cc15_stg3_0 : Ref sig .tc := ⟨.vmem, 114, rfl⟩
abbrev cc15_stg3_1 : Ref sig .tc := ⟨.vmem, 115, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem6_0 : DmaSem sig := 38
abbrev cc5_sem6_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem3_0 : DmaSem sig := 50
abbrev cc8_sem0_0 : DmaSem sig := 51
abbrev cc8_sem0_1 : DmaSem sig := 52
abbrev cc8_sem1_0 : DmaSem sig := 53
abbrev cc8_sem2_0 : DmaSem sig := 54
abbrev cc8_sem3_0 : DmaSem sig := 55
abbrev cc8_sem4_0 : DmaSem sig := 56
abbrev cc8_sem5_0 : DmaSem sig := 57
abbrev cc8_sem6_0 : DmaSem sig := 58
abbrev cc8_sem6_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem3_0 : DmaSem sig := 64
abbrev cc9_sem3_1 : DmaSem sig := 65
abbrev cc10_sem0_0 : DmaSem sig := 66
abbrev cc10_sem0_1 : DmaSem sig := 67
abbrev cc10_sem1_0 : DmaSem sig := 68
abbrev cc10_sem2_0 : DmaSem sig := 69
abbrev cc10_sem3_0 : DmaSem sig := 70
abbrev cc11_sem0_0 : DmaSem sig := 71
abbrev cc11_sem0_1 : DmaSem sig := 72
abbrev cc11_sem1_0 : DmaSem sig := 73
abbrev cc11_sem2_0 : DmaSem sig := 74
abbrev cc11_sem3_0 : DmaSem sig := 75
abbrev cc11_sem4_0 : DmaSem sig := 76
abbrev cc11_sem5_0 : DmaSem sig := 77
abbrev cc11_sem6_0 : DmaSem sig := 78
abbrev cc11_sem6_1 : DmaSem sig := 79
abbrev cc12_sem0_0 : DmaSem sig := 80
abbrev cc12_sem0_1 : DmaSem sig := 81
abbrev cc12_sem1_0 : DmaSem sig := 82
abbrev cc12_sem2_0 : DmaSem sig := 83
abbrev cc12_sem3_0 : DmaSem sig := 84
abbrev cc12_sem3_1 : DmaSem sig := 85
abbrev cc13_sem0_0 : DmaSem sig := 86
abbrev cc13_sem0_1 : DmaSem sig := 87
abbrev cc13_sem1_0 : DmaSem sig := 88
abbrev cc13_sem2_0 : DmaSem sig := 89
abbrev cc13_sem3_0 : DmaSem sig := 90
abbrev cc14_sem0_0 : DmaSem sig := 91
abbrev cc14_sem0_1 : DmaSem sig := 92
abbrev cc14_sem1_0 : DmaSem sig := 93
abbrev cc14_sem2_0 : DmaSem sig := 94
abbrev cc14_sem3_0 : DmaSem sig := 95
abbrev cc14_sem4_0 : DmaSem sig := 96
abbrev cc14_sem5_0 : DmaSem sig := 97
abbrev cc14_sem6_0 : DmaSem sig := 98
abbrev cc14_sem6_1 : DmaSem sig := 99
abbrev cc15_sem0_0 : DmaSem sig := 100
abbrev cc15_sem0_1 : DmaSem sig := 101
abbrev cc15_sem1_0 : DmaSem sig := 102
abbrev cc15_sem2_0 : DmaSem sig := 103
abbrev cc15_sem3_0 : DmaSem sig := 104
abbrev cc15_sem3_1 : DmaSem sig := 105

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S10000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x32 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def k10_cond2 (i : grid10.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S10000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x32 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x32 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x32 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x32 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x32 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x32 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x32 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x32 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S10000x32 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x32 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S32x16 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x16 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S10000x16 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![10], ![false]⟩

def k13_cond2 (i : grid13.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S10000x16 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x16 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x16 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x16 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x16 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x16 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x16 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x16 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x16 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S1x16 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 2 → Memref sig .tc .vmem S10000x16 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S10000x16 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S16x3 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x3 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S10000x3 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S32 : S_.BroadcastsInDim S32 (![] : Fin 0 → Fin S32.rank)
  shapeCasts_S32_S1x32 : S32.ShapeCasts S1x32
  inb_S10000x6_S10000x6_0_0 : ∀ a, (![0, 0] : Fin 2 → Nat) a + S10000x6.size a ≤ S10000x6.size a
  h_S10000x6 : 0 < S10000x6.numel
  bitsLt_bf16_f32 : FTy.bits .bf16 < FTy.bits .f32
  inb_S6x32_S6x32_0_0 : ∀ a, (![0, 0] : Fin 2 → Nat) a + S6x32.size a ≤ S6x32.size a
  h_S6x32 : 0 < S6x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S10000x32_S10000x32 : S10000x32.ShapeCasts S10000x32
  reduces_S10000x32_S32 : S10000x32.Reduces [0] S32
  bcast_S_S128 : S_.BroadcastsInDim S128 (![] : Fin 0 → Fin S128.rank)
  shapeCasts_S128_S1x128 : S128.ShapeCasts S1x128
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  reduces_S10000x128_S128 : S10000x128.Reduces [0] S128
  inb_S128x128_S128x128_0_0 : ∀ a, (![0, 0] : Fin 2 → Nat) a + S128x128.size a ≤ S128x128.size a
  h_S128x128 : 0 < S128x128.numel
  inb_S128x32_S128x32_0_0 : ∀ a, (![0, 0] : Fin 2 → Nat) a + S128x32.size a ≤ S128x32.size a
  h_S128x32 : 0 < S128x32.numel
  bcast_S_S16 : S_.BroadcastsInDim S16 (![] : Fin 0 → Fin S16.rank)
  shapeCasts_S16_S1x16 : S16.ShapeCasts S1x16
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S10000x16_S10000x16 : S10000x16.ShapeCasts S10000x16
  reduces_S10000x16_S16 : S10000x16.Reduces [0] S16
  shapeCasts_S3_S1x3 : S3.ShapeCasts S1x3
  inb_S16x3_S16x3_0_0 : ∀ a, (![0, 0] : Fin 2 → Nat) a + S16x3.size a ≤ S16x3.size a
  h_S16x3 : 0 < S16x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  inb_S10000x3_S10000x3_0_0 : ∀ a, (![0, 0] : Fin 2 → Nat) a + S10000x3.size a ≤ S10000x3.size a
  h_S10000x3 : 0 < S10000x3.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x6_S6x32_S10000x32_1_0_0_1_n_n_wf : DotDims.WF S10000x6 S6x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x128_S10000x128_1_0_0_1_n_n_wf : DotDims.WF S10000x32 S32x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  dot_S10000x128_S128x32_S10000x32_1_0_0_1_n_n_wf : DotDims.WF S10000x128 S128x32 S10000x32 [1] [0] [0] [1] [] []
  dot_S10000x32_S32x16_S10000x16_1_0_0_1_n_n_wf : DotDims.WF S10000x32 S32x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x16_S16x3_S10000x3_1_0_0_1_n_n_wf : DotDims.WF S10000x16 S16x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x32.size a ≤ S6x32.size a
  hwx0_1 : ∀ i : grid0.Coords, EltTy.bits .f32 = 32 ∨ (Rect.block (s := S6x32) S6x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x32.size a ≤ S100000x32.size a
  hwx2_6 : ∀ i : grid2.Coords, EltTy.bits .f32 = 32 ∨ (Rect.block (s := S100000x32) S10000x32.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x128.size a ≤ S32x128.size a
  hwx3_1 : ∀ i : grid3.Coords, EltTy.bits .f32 = 32 ∨ (Rect.block (s := S32x128) S32x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x128.size a ≤ S100000x128.size a
  hwx5_6 : ∀ i : grid5.Coords, EltTy.bits .f32 = 32 ∨ (Rect.block (s := S100000x128) S10000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x128.size a ≤ S100000x128.size a
  hwx6_3 : ∀ i : grid6.Coords, EltTy.bits .f32 = 32 ∨ (Rect.block (s := S100000x128) S10000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x128.size a ≤ S100000x128.size a
  hwx8_6 : ∀ i : grid8.Coords, EltTy.bits .f32 = 32 ∨ (Rect.block (s := S100000x128) S10000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x128.size a ≤ S100000x128.size a
  hwx9_0 : ∀ i : grid9.Coords, EltTy.bits .f32 = 32 ∨ (Rect.block (s := S100000x128) S10000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x32.size a ≤ S128x32.size a
  hwx9_1 : ∀ i : grid9.Coords, EltTy.bits .f32 = 32 ∨ (Rect.block (s := S128x32) S128x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x32.size a ≤ S100000x32.size a
  hwx9_3 : ∀ i : grid9.Coords, EltTy.bits .f32 = 32 ∨ (Rect.block (s := S100000x32) S10000x32.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x32.size a ≤ S100000x32.size a
  hwx10_0 : ∀ i : grid10.Coords, EltTy.bits .f32 = 32 ∨ (Rect.block (s := S100000x32) S10000x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x32.size a ≤ S1x32.size a
  hwx10_1 : ∀ i : grid10.Coords, EltTy.bits .f32 = 32 ∨ (Rect.block (s := S1x32) S1x32.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x32.size a ≤ S1x32.size a
  hwx10_2 : ∀ i : grid10.Coords, EltTy.bits .f32 = 32 ∨ (Rect.block (s := S1x32) S1x32.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x32.size a ≤ S1x32.size a
  hwx10_3 : ∀ i : grid10.Coords, EltTy.bits .f32 = 32 ∨ (Rect.block (s := S1x32) S1x32.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x32.size a ≤ S100000x32.size a
  hwx11_0 : ∀ i : grid11.Coords, EltTy.bits .f32 = 32 ∨ (Rect.block (s := S100000x32) S10000x32.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x32.size a ≤ S1x32.size a
  hwx11_1 : ∀ i : grid11.Coords, EltTy.bits .f32 = 32 ∨ (Rect.block (s := S1x32) S1x32.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x32.size a ≤ S1x32.size a
  hwx11_2 : ∀ i : grid11.Coords, EltTy.bits .f32 = 32 ∨ (Rect.block (s := S1x32) S1x32.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x32.size a ≤ S1x32.size a
  hwx11_3 : ∀ i : grid11.Coords, EltTy.bits .f32 = 32 ∨ (Rect.block (s := S1x32) S1x32.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x32.size a ≤ S1x32.size a
  hwx11_4 : ∀ i : grid11.Coords, EltTy.bits .f32 = 32 ∨ (Rect.block (s := S1x32) S1x32.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x32.size a ≤ S1x32.size a
  hwx11_5 : ∀ i : grid11.Coords, EltTy.bits .f32 = 32 ∨ (Rect.block (s := S1x32) S1x32.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S10000x32.size a ≤ S100000x32.size a
  hwx11_6 : ∀ i : grid11.Coords, EltTy.bits .f32 = 32 ∨ (Rect.block (s := S100000x32) S10000x32.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x32.size a ≤ S100000x32.size a
  hwx12_0 : ∀ i : grid12.Coords, EltTy.bits .f32 = 32 ∨ (Rect.block (s := S100000x32) S10000x32.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S32x16.size a ≤ S32x16.size a
  hwx12_1 : ∀ i : grid12.Coords, EltTy.bits .f32 = 32 ∨ (Rect.block (s := S32x16) S32x16.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x16.size a ≤ S1x16.size a
  hwx12_2 : ∀ i : grid12.Coords, EltTy.bits .f32 = 32 ∨ (Rect.block (s := S1x16) S1x16.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S10000x16.size a ≤ S100000x16.size a
  hwx12_3 : ∀ i : grid12.Coords, EltTy.bits .f32 = 32 ∨ (Rect.block (s := S100000x16) S10000x16.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x16.size a ≤ S100000x16.size a
  hwx13_0 : ∀ i : grid13.Coords, EltTy.bits .f32 = 32 ∨ (Rect.block (s := S100000x16) S10000x16.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x16.size a ≤ S1x16.size a
  hwx13_1 : ∀ i : grid13.Coords, EltTy.bits .f32 = 32 ∨ (Rect.block (s := S1x16) S1x16.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x16.size a ≤ S1x16.size a
  hwx13_2 : ∀ i : grid13.Coords, EltTy.bits .f32 = 32 ∨ (Rect.block (s := S1x16) S1x16.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x16.size a ≤ S1x16.size a
  hwx13_3 : ∀ i : grid13.Coords, EltTy.bits .f32 = 32 ∨ (Rect.block (s := S1x16) S1x16.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x16.size a ≤ S100000x16.size a
  hwx14_0 : ∀ i : grid14.Coords, EltTy.bits .f32 = 32 ∨ (Rect.block (s := S100000x16) S10000x16.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x16.size a ≤ S1x16.size a
  hwx14_1 : ∀ i : grid14.Coords, EltTy.bits .f32 = 32 ∨ (Rect.block (s := S1x16) S1x16.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x16.size a ≤ S1x16.size a
  hwx14_2 : ∀ i : grid14.Coords, EltTy.bits .f32 = 32 ∨ (Rect.block (s := S1x16) S1x16.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x16.size a ≤ S1x16.size a
  hwx14_3 : ∀ i : grid14.Coords, EltTy.bits .f32 = 32 ∨ (Rect.block (s := S1x16) S1x16.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x16.size a ≤ S1x16.size a
  hwx14_4 : ∀ i : grid14.Coords, EltTy.bits .f32 = 32 ∨ (Rect.block (s := S1x16) S1x16.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x16.size a ≤ S1x16.size a
  hwx14_5 : ∀ i : grid14.Coords, EltTy.bits .f32 = 32 ∨ (Rect.block (s := S1x16) S1x16.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S10000x16.size a ≤ S100000x16.size a
  hwx14_6 : ∀ i : grid14.Coords, EltTy.bits .f32 = 32 ∨ (Rect.block (s := S100000x16) S10000x16.size (cc14_transform_6 i) (hinb14_6 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x16.size a ≤ S100000x16.size a
  hwx15_0 : ∀ i : grid15.Coords, EltTy.bits .f32 = 32 ∨ (Rect.block (s := S100000x16) S10000x16.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S16x3.size a ≤ S16x3.size a
  hwx15_1 : ∀ i : grid15.Coords, EltTy.bits .f32 = 32 ∨ (Rect.block (s := S16x3) S16x3.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x3.size a ≤ S1x3.size a
  hwx15_2 : ∀ i : grid15.Coords, EltTy.bits .f32 = 32 ∨ (Rect.block (s := S1x3) S1x3.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S10000x3.size a ≤ S100000x3.size a
  hwx15_3 : ∀ i : grid15.Coords, EltTy.bits .f32 = 32 ∨ (Rect.block (s := S100000x3) S10000x3.size (cc15_transform_3 i) (hinb15_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x6_S6x32_S10000x32_1_0_0_1_n_n : DotDims S10000x6 S6x32 S10000x32 where
  lhsContracting := [1]
  rhsContracting := [0]
  lhsNonContracting := [0]
  rhsNonContracting := [1]
  lhsBatch := []
  rhsBatch := []
  wf := dot_S10000x6_S6x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x16_S16x3_S10000x3_1_0_0_1_n_n : DotDims S10000x16 S16x3 S10000x3 where
  lhsContracting := [1]
  rhsContracting := [0]
  lhsNonContracting := [0]
  rhsNonContracting := [1]
  lhsBatch := []
  rhsBatch := []
  wf := dot_S10000x16_S16x3_S10000x3_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v52) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54_0) S1x32.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54_1) S1x32.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v52) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54_0) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54_1) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S10000x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S32x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v79) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v81_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v79) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81_0) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81_1) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v85) S10000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v85) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S10000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v106) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v107) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v108_0) S1x128.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v108_1) S1x128.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun i => !(k7_cond2 i == 1#1) | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v106) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v109) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v108_0) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v108_1) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v110) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v111) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v112) S10000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v112) S10000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg14) S128x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v114) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v115) S10000x32.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v133) S10000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v134) S1x32.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v135_0) S1x32.size cc10_transform_2 reads10_2 true true 1 stage10_2 sem10_2
    hrank10 hreads10_2 hinb10_2 nbuf10_2 (Memref.isWhole_whole _) hwx10_2 hstage10_2

abbrev win10_3 : Pipeline.Window sig grid10 :=
  Pipeline.Window.ofSpec (Memref.whole main_v135_1) S1x32.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun i => !(k10_cond2 i == 1#1) | 3 => fun i => !(k10_cond2 i == 1#1) | ⟨_ + 4, h⟩ => absurd h (Nat.not_lt.2 (Nat.le_add_left _ _))

abbrev win11_0 : Pipeline.Window sig grid11 :=
  Pipeline.Window.ofSpec (Memref.whole main_v133) S10000x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v136) S1x32.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v135_0) S1x32.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v135_1) S1x32.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v137) S1x32.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v138) S1x32.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v139) S10000x32.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v139) S10000x32.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg18) S32x16.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v141) S1x16.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v142) S10000x16.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v160) S10000x16.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v161) S1x16.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v162_0) S1x16.size cc13_transform_2 reads13_2 true true 1 stage13_2 sem13_2
    hrank13 hreads13_2 hinb13_2 nbuf13_2 (Memref.isWhole_whole _) hwx13_2 hstage13_2

abbrev win13_3 : Pipeline.Window sig grid13 :=
  Pipeline.Window.ofSpec (Memref.whole main_v162_1) S1x16.size cc13_transform_3 reads13_3 true true 1 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev idle13 : Fin 4 → grid13.Coords → Bool := fun | 0 => fun _ => false | 1 => fun _ => false | 2 => fun i => !(k13_cond2 i == 1#1) | 3 => fun i => !(k13_cond2 i == 1#1) | ⟨_ + 4, h⟩ => absurd h (Nat.not_lt.2 (Nat.le_add_left _ _))

abbrev win14_0 : Pipeline.Window sig grid14 :=
  Pipeline.Window.ofSpec (Memref.whole main_v160) S10000x16.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v163) S1x16.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v162_0) S1x16.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v162_1) S1x16.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v164) S1x16.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v165) S1x16.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v166) S10000x16.size cc14_transform_6 reads14_6 true false 2 stage14_6 sem14_6
    hrank14 hreads14_6 hinb14_6 nbuf14_6 (Memref.isWhole_whole _) hwx14_6 hstage14_6

abbrev win14 : Fin 7 → Pipeline.Window sig grid14 := fun | 0 => win14_0 | 1 => win14_1 | 2 => win14_2 | 3 => win14_3 | 4 => win14_4 | 5 => win14_5 | 6 => win14_6 | ⟨_ + 7, h⟩ => absurd h (Nat.not_lt.2 (Nat.le_add_left _ _))
abbrev spec14 : Fin 7 → Pipeline.WinSpec sig grid14.rank := fun w => (win14 w).toWinSpec

abbrev win15_0 : Pipeline.Window sig grid15 :=
  Pipeline.Window.ofSpec (Memref.whole main_v166) S10000x16.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg22) S16x3.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v167) S1x3.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v168) S10000x3.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

class Facts : Prop extends Facts₀ where

variable [Facts]
-- ==== ReferenceIdeal.lean ====
abbrev S100000x6 : Shape := ⟨2, ![100000, 6]⟩
abbrev S2x1600000 : Shape := ⟨2, ![2, 1600000]⟩
abbrev S6x32 : Shape := ⟨2, ![6, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S128x32 : Shape := ⟨2, ![128, 32]⟩
abbrev S32x16 : Shape := ⟨2, ![32, 16]⟩
abbrev S16 : Shape := ⟨1, ![16]⟩
abbrev S16x3 : Shape := ⟨2, ![16, 3]⟩
abbrev S3 : Shape := ⟨1, ![3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S100000x128 : Shape := ⟨2, ![100000, 128]⟩
abbrev S1700000x128 : Shape := ⟨2, ![1700000, 128]⟩
abbrev S1x128 : Shape := ⟨2, ![1, 128]⟩
abbrev S100000x16 : Shape := ⟨2, ![100000, 16]⟩
abbrev S1700000x16 : Shape := ⟨2, ![1700000, 16]⟩
abbrev S1x16 : Shape := ⟨2, ![1, 16]⟩
abbrev S100000x3 : Shape := ⟨2, ![100000, 3]⟩
abbrev S1x3 : Shape := ⟨2, ![1, 3]⟩

abbrev nBuf : Space → Nat
  | .hbm => 458
  | .vmem => 0
  | .smem => 0
  | _ => 0

abbrev hbmTy0_0 (i : Nat) : BufTy := match i % 128 with
  | 0 => ⟨S100000x6, .f32⟩
  | 1 => ⟨S2x1600000, .i32⟩
  | 2 => ⟨S6x32, .f32⟩
  | 3 => ⟨S32, .f32⟩
  | 4 => ⟨S32, .f32⟩
  | 5 => ⟨S32, .f32⟩
  | 6 => ⟨S32x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128x32, .f32⟩
  | 15 => ⟨S32, .f32⟩
  | 16 => ⟨S32, .f32⟩
  | 17 => ⟨S32, .f32⟩
  | 18 => ⟨S32x16, .f32⟩
  | 19 => ⟨S16, .f32⟩
  | 20 => ⟨S16, .f32⟩
  | 21 => ⟨S16, .f32⟩
  | 22 => ⟨S16x3, .f32⟩
  | 23 => ⟨S3, .f32⟩
  | 24 => ⟨S100000, .i32⟩
  | 25 => ⟨S1x1600000, .i32⟩
  | 26 => ⟨S1600000, .i32⟩
  | 27 => ⟨S1700000, .i32⟩
  | 28 => ⟨S1x1600000, .i32⟩
  | 29 => ⟨S1600000, .i32⟩
  | 30 => ⟨S1700000, .i32⟩
  | 31 => ⟨S_, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S_, .f32⟩
  | 42 => ⟨S1700000, .f32⟩
  | 43 => ⟨S100000, .f32⟩
  | 44 => ⟨S100000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S1700000, .f32⟩
  | 64 => ⟨S100000x32, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000x32, .f32⟩
  | 74 => ⟨S1700000x1, .f32⟩
  | 75 => ⟨S1700000x32, .f32⟩
  | 76 => ⟨S1700000x32, .f32⟩
  | 77 => ⟨S_, .f32⟩
  | 78 => ⟨S100000x32, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S100000x32, .f32⟩
  | 88 => ⟨S1x32, .f32⟩
  | 89 => ⟨S100000x32, .f32⟩
  | 90 => ⟨S100000x32, .f32⟩
  | 91 => ⟨S_, .f32⟩
  | 92 => ⟨S32, .f32⟩
  | 93 => ⟨S_, .f32⟩
  | 94 => ⟨S32, .f32⟩
  | 95 => ⟨S32, .f32⟩
  | 96 => ⟨S_, .i32⟩
  | 97 => ⟨S_, .f32⟩
  | 98 => ⟨S32, .f32⟩
  | 99 => ⟨S1x32, .f32⟩
  | 100 => ⟨S_, .f32⟩
  | 101 => ⟨S1x32, .f32⟩
  | 102 => ⟨S1x32, .f32⟩
  | 103 => ⟨S100000x32, .f32⟩
  | 104 => ⟨S100000x32, .f32⟩
  | 105 => ⟨S100000x32, .f32⟩
  | 106 => ⟨S_, .f32⟩
  | 107 => ⟨S_, .f32⟩
  | 108 => ⟨S_, .f32⟩
  | 109 => ⟨S_, .f32⟩
  | 110 => ⟨S32, .f32⟩
  | 111 => ⟨S32, .f32⟩
  | 112 => ⟨S32, .f32⟩
  | 113 => ⟨S_, .f32⟩
  | 114 => ⟨S_, .i1⟩
  | 115 => ⟨S_, .f32⟩
  | 116 => ⟨S_, .f32⟩
  | 117 => ⟨S32, .f32⟩
  | 118 => ⟨S32, .f32⟩
  | 119 => ⟨S1x32, .f32⟩
  | 120 => ⟨S100000x32, .f32⟩
  | 121 => ⟨S100000x32, .f32⟩
  | 122 => ⟨S_, .f32⟩
  | 123 => ⟨S32, .f32⟩
  | 124 => ⟨S32, .f32⟩
  | 125 => ⟨S32, .f32⟩
  | 126 => ⟨S1x32, .f32⟩
  | 127 => ⟨S100000x32, .f32⟩
  | _ => ⟨S100000x6, .f32⟩

abbrev hbmTy0_1 (i : Nat) : BufTy := match i % 128 with
  | 0 => ⟨S100000x32, .f32⟩
  | 1 => ⟨S1x32, .f32⟩
  | 2 => ⟨S100000x32, .f32⟩
  | 3 => ⟨S100000x32, .f32⟩
  | 4 => ⟨S1x32, .f32⟩
  | 5 => ⟨S100000x32, .f32⟩
  | 6 => ⟨S100000x32, .f32⟩
  | 7 => ⟨S_, .f32⟩
  | 8 => ⟨S100000x32, .f32⟩
  | 9 => ⟨S100000x32, .i1⟩
  | 10 => ⟨S_, .f32⟩
  | 11 => ⟨S100000x32, .f32⟩
  | 12 => ⟨S100000x32, .f32⟩
  | 13 => ⟨S100000x32, .f32⟩
  | 14 => ⟨S100000x128, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000x128, .f32⟩
  | 24 => ⟨S1700000x1, .f32⟩
  | 25 => ⟨S1700000x128, .f32⟩
  | 26 => ⟨S1700000x128, .f32⟩
  | 27 => ⟨S_, .f32⟩
  | 28 => ⟨S100000x128, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S128, .f32⟩
  | 43 => ⟨S_, .f32⟩
  | 44 => ⟨S128, .f32⟩
  | 45 => ⟨S128, .f32⟩
  | 46 => ⟨S_, .i32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S100000x128, .f32⟩
  | 54 => ⟨S100000x128, .f32⟩
  | 55 => ⟨S100000x128, .f32⟩
  | 56 => ⟨S_, .f32⟩
  | 57 => ⟨S_, .f32⟩
  | 58 => ⟨S_, .f32⟩
  | 59 => ⟨S_, .f32⟩
  | 60 => ⟨S128, .f32⟩
  | 61 => ⟨S128, .f32⟩
  | 62 => ⟨S128, .f32⟩
  | 63 => ⟨S_, .f32⟩
  | 64 => ⟨S_, .i1⟩
  | 65 => ⟨S_, .f32⟩
  | 66 => ⟨S_, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .i1⟩
  | 88 => ⟨S_, .f32⟩
  | 89 => ⟨S100000x128, .f32⟩
  | 90 => ⟨S100000x128, .f32⟩
  | 91 => ⟨S100000x128, .f32⟩
  | 92 => ⟨S100000x128, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x128, .f32⟩
  | 102 => ⟨S1700000x1, .f32⟩
  | 103 => ⟨S1700000x128, .f32⟩
  | 104 => ⟨S1700000x128, .f32⟩
  | 105 => ⟨S_, .f32⟩
  | 106 => ⟨S100000x128, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S128, .f32⟩
  | 121 => ⟨S_, .f32⟩
  | 122 => ⟨S128, .f32⟩
  | 123 => ⟨S128, .f32⟩
  | 124 => ⟨S_, .i32⟩
  | 125 => ⟨S_, .f32⟩
  | 126 => ⟨S128, .f32⟩
  | 127 => ⟨S1x128, .f32⟩
  | _ => ⟨S100000x6, .f32⟩

abbrev hbmTy0_2 (i : Nat) : BufTy := match i % 128 with
  | 0 => ⟨S_, .f32⟩
  | 1 => ⟨S1x128, .f32⟩
  | 2 => ⟨S1x128, .f32⟩
  | 3 => ⟨S100000x128, .f32⟩
  | 4 => ⟨S100000x128, .f32⟩
  | 5 => ⟨S100000x128, .f32⟩
  | 6 => ⟨S_, .f32⟩
  | 7 => ⟨S_, .f32⟩
  | 8 => ⟨S_, .f32⟩
  | 9 => ⟨S_, .f32⟩
  | 10 => ⟨S128, .f32⟩
  | 11 => ⟨S128, .f32⟩
  | 12 => ⟨S128, .f32⟩
  | 13 => ⟨S_, .f32⟩
  | 14 => ⟨S_, .i1⟩
  | 15 => ⟨S_, .f32⟩
  | 16 => ⟨S_, .f32⟩
  | 17 => ⟨S128, .f32⟩
  | 18 => ⟨S128, .f32⟩
  | 19 => ⟨S1x128, .f32⟩
  | 20 => ⟨S100000x128, .f32⟩
  | 21 => ⟨S100000x128, .f32⟩
  | 22 => ⟨S_, .f32⟩
  | 23 => ⟨S128, .f32⟩
  | 24 => ⟨S128, .f32⟩
  | 25 => ⟨S128, .f32⟩
  | 26 => ⟨S1x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .i1⟩
  | 38 => ⟨S_, .f32⟩
  | 39 => ⟨S100000x128, .f32⟩
  | 40 => ⟨S100000x128, .f32⟩
  | 41 => ⟨S100000x128, .f32⟩
  | 42 => ⟨S100000x32, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000x32, .f32⟩
  | 52 => ⟨S1700000x1, .f32⟩
  | 53 => ⟨S1700000x32, .f32⟩
  | 54 => ⟨S1700000x32, .f32⟩
  | 55 => ⟨S_, .f32⟩
  | 56 => ⟨S100000x32, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S100000x32, .f32⟩
  | 66 => ⟨S1x32, .f32⟩
  | 67 => ⟨S100000x32, .f32⟩
  | 68 => ⟨S100000x32, .f32⟩
  | 69 => ⟨S_, .f32⟩
  | 70 => ⟨S32, .f32⟩
  | 71 => ⟨S_, .f32⟩
  | 72 => ⟨S32, .f32⟩
  | 73 => ⟨S32, .f32⟩
  | 74 => ⟨S_, .i32⟩
  | 75 => ⟨S_, .f32⟩
  | 76 => ⟨S32, .f32⟩
  | 77 => ⟨S1x32, .f32⟩
  | 78 => ⟨S_, .f32⟩
  | 79 => ⟨S1x32, .f32⟩
  | 80 => ⟨S1x32, .f32⟩
  | 81 => ⟨S100000x32, .f32⟩
  | 82 => ⟨S100000x32, .f32⟩
  | 83 => ⟨S100000x32, .f32⟩
  | 84 => ⟨S_, .f32⟩
  | 85 => ⟨S_, .f32⟩
  | 86 => ⟨S_, .f32⟩
  | 87 => ⟨S_, .f32⟩
  | 88 => ⟨S32, .f32⟩
  | 89 => ⟨S32, .f32⟩
  | 90 => ⟨S32, .f32⟩
  | 91 => ⟨S_, .f32⟩
  | 92 => ⟨S_, .i1⟩
  | 93 => ⟨S_, .f32⟩
  | 94 => ⟨S_, .f32⟩
  | 95 => ⟨S32, .f32⟩
  | 96 => ⟨S32, .f32⟩
  | 97 => ⟨S1x32, .f32⟩
  | 98 => ⟨S100000x32, .f32⟩
  | 99 => ⟨S100000x32, .f32⟩
  | 100 => ⟨S_, .f32⟩
  | 101 => ⟨S32, .f32⟩
  | 102 => ⟨S32, .f32⟩
  | 103 => ⟨S32, .f32⟩
  | 104 => ⟨S1x32, .f32⟩
  | 105 => ⟨S100000x32, .f32⟩
  | 106 => ⟨S100000x32, .f32⟩
  | 107 => ⟨S1x32, .f32⟩
  | 108 => ⟨S100000x32, .f32⟩
  | 109 => ⟨S100000x32, .f32⟩
  | 110 => ⟨S1x32, .f32⟩
  | 111 => ⟨S100000x32, .f32⟩
  | 112 => ⟨S100000x32, .f32⟩
  | 113 => ⟨S_, .f32⟩
  | 114 => ⟨S100000x32, .f32⟩
  | 115 => ⟨S100000x32, .i1⟩
  | 116 => ⟨S_, .f32⟩
  | 117 => ⟨S100000x32, .f32⟩
  | 118 => ⟨S100000x32, .f32⟩
  | 119 => ⟨S100000x32, .f32⟩
  | 120 => ⟨S100000x16, .f32⟩
  | 121 => ⟨S_, .i32⟩
  | 122 => ⟨S1700000, .i32⟩
  | 123 => ⟨S1700000, .i1⟩
  | 124 => ⟨S_, .i32⟩
  | 125 => ⟨S1700000, .i32⟩
  | 126 => ⟨S1700000, .i32⟩
  | 127 => ⟨S1700000, .i32⟩
  | _ => ⟨S100000x6, .f32⟩

abbrev hbmTy0_3 (i : Nat) : BufTy := match i % 128 with
  | 0 => ⟨S1700000x1, .i32⟩
  | 1 => ⟨S1700000x16, .f32⟩
  | 2 => ⟨S1700000x1, .f32⟩
  | 3 => ⟨S1700000x16, .f32⟩
  | 4 => ⟨S1700000x16, .f32⟩
  | 5 => ⟨S_, .f32⟩
  | 6 => ⟨S100000x16, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S100000x16, .f32⟩
  | 16 => ⟨S1x16, .f32⟩
  | 17 => ⟨S100000x16, .f32⟩
  | 18 => ⟨S100000x16, .f32⟩
  | 19 => ⟨S_, .f32⟩
  | 20 => ⟨S16, .f32⟩
  | 21 => ⟨S_, .f32⟩
  | 22 => ⟨S16, .f32⟩
  | 23 => ⟨S16, .f32⟩
  | 24 => ⟨S_, .i32⟩
  | 25 => ⟨S_, .f32⟩
  | 26 => ⟨S16, .f32⟩
  | 27 => ⟨S1x16, .f32⟩
  | 28 => ⟨S_, .f32⟩
  | 29 => ⟨S1x16, .f32⟩
  | 30 => ⟨S1x16, .f32⟩
  | 31 => ⟨S100000x16, .f32⟩
  | 32 => ⟨S100000x16, .f32⟩
  | 33 => ⟨S100000x16, .f32⟩
  | 34 => ⟨S_, .f32⟩
  | 35 => ⟨S_, .f32⟩
  | 36 => ⟨S_, .f32⟩
  | 37 => ⟨S_, .f32⟩
  | 38 => ⟨S16, .f32⟩
  | 39 => ⟨S16, .f32⟩
  | 40 => ⟨S16, .f32⟩
  | 41 => ⟨S_, .f32⟩
  | 42 => ⟨S_, .i1⟩
  | 43 => ⟨S_, .f32⟩
  | 44 => ⟨S_, .f32⟩
  | 45 => ⟨S16, .f32⟩
  | 46 => ⟨S16, .f32⟩
  | 47 => ⟨S1x16, .f32⟩
  | 48 => ⟨S100000x16, .f32⟩
  | 49 => ⟨S100000x16, .f32⟩
  | 50 => ⟨S_, .f32⟩
  | 51 => ⟨S16, .f32⟩
  | 52 => ⟨S16, .f32⟩
  | 53 => ⟨S16, .f32⟩
  | 54 => ⟨S1x16, .f32⟩
  | 55 => ⟨S100000x16, .f32⟩
  | 56 => ⟨S100000x16, .f32⟩
  | 57 => ⟨S1x16, .f32⟩
  | 58 => ⟨S100000x16, .f32⟩
  | 59 => ⟨S100000x16, .f32⟩
  | 60 => ⟨S1x16, .f32⟩
  | 61 => ⟨S100000x16, .f32⟩
  | 62 => ⟨S100000x16, .f32⟩
  | 63 => ⟨S_, .f32⟩
  | 64 => ⟨S100000x16, .f32⟩
  | 65 => ⟨S100000x16, .i1⟩
  | 66 => ⟨S_, .f32⟩
  | 67 => ⟨S100000x16, .f32⟩
  | 68 => ⟨S100000x16, .f32⟩
  | 69 => ⟨S100000x16, .f32⟩
  | 70 => ⟨S100000x3, .f32⟩
  | 71 => ⟨S1x3, .f32⟩
  | 72 => ⟨S100000x3, .f32⟩
  | 73 => ⟨S100000x3, .f32⟩
  | _ => ⟨S100000x6, .f32⟩

abbrev hbmTy (i : Nat) : BufTy := match i / 128 with
  | 0 => hbmTy0_0 i
  | 1 => hbmTy0_1 i
  | 2 => hbmTy0_2 i
  | 3 => hbmTy0_3 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_c : Ref sig .tc := ⟨.hbm, 33, rfl⟩
abbrev main_v8 : Ref sig .tc := ⟨.hbm, 34, rfl⟩
abbrev main_v9 : Ref sig .tc := ⟨.hbm, 35, rfl⟩
abbrev main_c_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_2 : Ref sig .tc := ⟨.hbm, 45, rfl⟩
abbrev main_v17 : Ref sig .tc := ⟨.hbm, 46, rfl⟩
abbrev main_v18 : Ref sig .tc := ⟨.hbm, 47, rfl⟩
abbrev main_c_3 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_4 : Ref sig .tc := ⟨.hbm, 54, rfl⟩
abbrev main_v24 : Ref sig .tc := ⟨.hbm, 55, rfl⟩
abbrev main_v25 : Ref sig .tc := ⟨.hbm, 56, rfl⟩
abbrev main_c_5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_6 : Ref sig .tc := ⟨.hbm, 65, rfl⟩
abbrev main_v33 : Ref sig .tc := ⟨.hbm, 66, rfl⟩
abbrev main_v34 : Ref sig .tc := ⟨.hbm, 67, rfl⟩
abbrev main_c_7 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_8 : Ref sig .tc := ⟨.hbm, 77, rfl⟩
abbrev main_v43 : Ref sig .tc := ⟨.hbm, 78, rfl⟩
abbrev main_c_9 : Ref sig .tc := ⟨.hbm, 79, rfl⟩
abbrev main_v44 : Ref sig .tc := ⟨.hbm, 80, rfl⟩
abbrev main_v45 : Ref sig .tc := ⟨.hbm, 81, rfl⟩
abbrev main_c_10 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_11 : Ref sig .tc := ⟨.hbm, 91, rfl⟩
abbrev main_v54 : Ref sig .tc := ⟨.hbm, 92, rfl⟩
abbrev main_cst_12 : Ref sig .tc := ⟨.hbm, 93, rfl⟩
abbrev main_v55 : Ref sig .tc := ⟨.hbm, 94, rfl⟩
abbrev main_v56 : Ref sig .tc := ⟨.hbm, 95, rfl⟩
abbrev main_c_13 : Ref sig .tc := ⟨.hbm, 96, rfl⟩
abbrev main_call0_cst : Ref sig .tc := ⟨.hbm, 97, rfl⟩
abbrev main_call0_v0 : Ref sig .tc := ⟨.hbm, 98, rfl⟩
abbrev main_call0_v1 : Ref sig .tc := ⟨.hbm, 99, rfl⟩
abbrev main_call0_cst_0 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_v7 : Ref sig .tc := ⟨.hbm, 106, rfl⟩
abbrev main_call0_cst_1 : Ref sig .tc := ⟨.hbm, 107, rfl⟩
abbrev main_call0_v8 : Ref sig .tc := ⟨.hbm, 108, rfl⟩
abbrev main_call0_cst_2 : Ref sig .tc := ⟨.hbm, 109, rfl⟩
abbrev main_call0_v9 : Ref sig .tc := ⟨.hbm, 110, rfl⟩
abbrev main_call0_v10 : Ref sig .tc := ⟨.hbm, 111, rfl⟩
abbrev main_call0_v11 : Ref sig .tc := ⟨.hbm, 112, rfl⟩
abbrev main_call0_cst_3 : Ref sig .tc := ⟨.hbm, 113, rfl⟩
abbrev main_call0_v12 : Ref sig .tc := ⟨.hbm, 114, rfl⟩
abbrev main_call0_cst_4 : Ref sig .tc := ⟨.hbm, 115, rfl⟩
abbrev main_call0_call0_v0 : Ref sig .tc := ⟨.hbm, 116, rfl⟩
abbrev main_call0_call0_v1 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_cst_14 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_cst_15 : Ref sig .tc := ⟨.hbm, 135, rfl⟩
abbrev main_v73 : Ref sig .tc := ⟨.hbm, 136, rfl⟩
abbrev main_v74 : Ref sig .tc := ⟨.hbm, 137, rfl⟩
abbrev main_cst_16 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_c_17 : Ref sig .tc := ⟨.hbm, 143, rfl⟩
abbrev main_v79 : Ref sig .tc := ⟨.hbm, 144, rfl⟩
abbrev main_v80 : Ref sig .tc := ⟨.hbm, 145, rfl⟩
abbrev main_c_18 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_cst_19 : Ref sig .tc := ⟨.hbm, 155, rfl⟩
abbrev main_v89 : Ref sig .tc := ⟨.hbm, 156, rfl⟩
abbrev main_c_20 : Ref sig .tc := ⟨.hbm, 157, rfl⟩
abbrev main_v90 : Ref sig .tc := ⟨.hbm, 158, rfl⟩
abbrev main_v91 : Ref sig .tc := ⟨.hbm, 159, rfl⟩
abbrev main_c_21 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_cst_22 : Ref sig .tc := ⟨.hbm, 169, rfl⟩
abbrev main_v100 : Ref sig .tc := ⟨.hbm, 170, rfl⟩
abbrev main_cst_23 : Ref sig .tc := ⟨.hbm, 171, rfl⟩
abbrev main_v101 : Ref sig .tc := ⟨.hbm, 172, rfl⟩
abbrev main_v102 : Ref sig .tc := ⟨.hbm, 173, rfl⟩
abbrev main_c_24 : Ref sig .tc := ⟨.hbm, 174, rfl⟩
abbrev main_call2_cst : Ref sig .tc := ⟨.hbm, 175, rfl⟩
abbrev main_call2_v0 : Ref sig .tc := ⟨.hbm, 176, rfl⟩
abbrev main_call2_v1 : Ref sig .tc := ⟨.hbm, 177, rfl⟩
abbrev main_call2_cst_0 : Ref sig .tc := ⟨.hbm, 178, rfl⟩
abbrev main_call2_v2 : Ref sig .tc := ⟨.hbm, 179, rfl⟩
abbrev main_call2_v3 : Ref sig .tc := ⟨.hbm, 180, rfl⟩
abbrev main_call2_v4 : Ref sig .tc := ⟨.hbm, 181, rfl⟩
abbrev main_call2_v5 : Ref sig .tc := ⟨.hbm, 182, rfl⟩
abbrev main_call2_v6 : Ref sig .tc := ⟨.hbm, 183, rfl⟩
abbrev main_call2_v7 : Ref sig .tc := ⟨.hbm, 184, rfl⟩
abbrev main_call2_cst_1 : Ref sig .tc := ⟨.hbm, 185, rfl⟩
abbrev main_call2_v8 : Ref sig .tc := ⟨.hbm, 186, rfl⟩
abbrev main_call2_cst_2 : Ref sig .tc := ⟨.hbm, 187, rfl⟩
abbrev main_call2_v9 : Ref sig .tc := ⟨.hbm, 188, rfl⟩
abbrev main_call2_v10 : Ref sig .tc := ⟨.hbm, 189, rfl⟩
abbrev main_call2_v11 : Ref sig .tc := ⟨.hbm, 190, rfl⟩
abbrev main_call2_cst_3 : Ref sig .tc := ⟨.hbm, 191, rfl⟩
abbrev main_call2_v12 : Ref sig .tc := ⟨.hbm, 192, rfl⟩
abbrev main_call2_cst_4 : Ref sig .tc := ⟨.hbm, 193, rfl⟩
abbrev main_call2_call0_v0 : Ref sig .tc := ⟨.hbm, 194, rfl⟩
abbrev main_call2_call0_v1 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_cst_25 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_cst_26 : Ref sig .tc := ⟨.hbm, 213, rfl⟩
abbrev main_v119 : Ref sig .tc := ⟨.hbm, 214, rfl⟩
abbrev main_v120 : Ref sig .tc := ⟨.hbm, 215, rfl⟩
abbrev main_cst_27 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_c_28 : Ref sig .tc := ⟨.hbm, 221, rfl⟩
abbrev main_v125 : Ref sig .tc := ⟨.hbm, 222, rfl⟩
abbrev main_v126 : Ref sig .tc := ⟨.hbm, 223, rfl⟩
abbrev main_c_29 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_cst_30 : Ref sig .tc := ⟨.hbm, 233, rfl⟩
abbrev main_v135 : Ref sig .tc := ⟨.hbm, 234, rfl⟩
abbrev main_c_31 : Ref sig .tc := ⟨.hbm, 235, rfl⟩
abbrev main_v136 : Ref sig .tc := ⟨.hbm, 236, rfl⟩
abbrev main_v137 : Ref sig .tc := ⟨.hbm, 237, rfl⟩
abbrev main_c_32 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_cst_33 : Ref sig .tc := ⟨.hbm, 247, rfl⟩
abbrev main_v146 : Ref sig .tc := ⟨.hbm, 248, rfl⟩
abbrev main_cst_34 : Ref sig .tc := ⟨.hbm, 249, rfl⟩
abbrev main_v147 : Ref sig .tc := ⟨.hbm, 250, rfl⟩
abbrev main_v148 : Ref sig .tc := ⟨.hbm, 251, rfl⟩
abbrev main_c_35 : Ref sig .tc := ⟨.hbm, 252, rfl⟩
abbrev main_call4_cst : Ref sig .tc := ⟨.hbm, 253, rfl⟩
abbrev main_call4_v0 : Ref sig .tc := ⟨.hbm, 254, rfl⟩
abbrev main_call4_v1 : Ref sig .tc := ⟨.hbm, 255, rfl⟩
abbrev main_call4_cst_0 : Ref sig .tc := ⟨.hbm, 256, rfl⟩
abbrev main_call4_v2 : Ref sig .tc := ⟨.hbm, 257, rfl⟩
abbrev main_call4_v3 : Ref sig .tc := ⟨.hbm, 258, rfl⟩
abbrev main_call4_v4 : Ref sig .tc := ⟨.hbm, 259, rfl⟩
abbrev main_call4_v5 : Ref sig .tc := ⟨.hbm, 260, rfl⟩
abbrev main_call4_v6 : Ref sig .tc := ⟨.hbm, 261, rfl⟩
abbrev main_call4_v7 : Ref sig .tc := ⟨.hbm, 262, rfl⟩
abbrev main_call4_cst_1 : Ref sig .tc := ⟨.hbm, 263, rfl⟩
abbrev main_call4_v8 : Ref sig .tc := ⟨.hbm, 264, rfl⟩
abbrev main_call4_cst_2 : Ref sig .tc := ⟨.hbm, 265, rfl⟩
abbrev main_call4_v9 : Ref sig .tc := ⟨.hbm, 266, rfl⟩
abbrev main_call4_v10 : Ref sig .tc := ⟨.hbm, 267, rfl⟩
abbrev main_call4_v11 : Ref sig .tc := ⟨.hbm, 268, rfl⟩
abbrev main_call4_cst_3 : Ref sig .tc := ⟨.hbm, 269, rfl⟩
abbrev main_call4_v12 : Ref sig .tc := ⟨.hbm, 270, rfl⟩
abbrev main_call4_cst_4 : Ref sig .tc := ⟨.hbm, 271, rfl⟩
abbrev main_call4_call0_v0 : Ref sig .tc := ⟨.hbm, 272, rfl⟩
abbrev main_call4_call0_v1 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_cst_36 : Ref sig .tc := ⟨.hbm, 278, rfl⟩
abbrev main_v153 : Ref sig .tc := ⟨.hbm, 279, rfl⟩
abbrev main_v154 : Ref sig .tc := ⟨.hbm, 280, rfl⟩
abbrev main_v155 : Ref sig .tc := ⟨.hbm, 281, rfl⟩
abbrev main_v156 : Ref sig .tc := ⟨.hbm, 282, rfl⟩
abbrev main_v157 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_v161 : Ref sig .tc := ⟨.hbm, 287, rfl⟩
abbrev main_v162 : Ref sig .tc := ⟨.hbm, 288, rfl⟩
abbrev main_v163 : Ref sig .tc := ⟨.hbm, 289, rfl⟩
abbrev main_v164 : Ref sig .tc := ⟨.hbm, 290, rfl⟩
abbrev main_cst_37 : Ref sig .tc := ⟨.hbm, 291, rfl⟩
abbrev main_v165 : Ref sig .tc := ⟨.hbm, 292, rfl⟩
abbrev main_v166 : Ref sig .tc := ⟨.hbm, 293, rfl⟩
abbrev main_cst_38 : Ref sig .tc := ⟨.hbm, 294, rfl⟩
abbrev main_v167 : Ref sig .tc := ⟨.hbm, 295, rfl⟩
abbrev main_v168 : Ref sig .tc := ⟨.hbm, 296, rfl⟩
abbrev main_v169 : Ref sig .tc := ⟨.hbm, 297, rfl⟩
abbrev main_v170 : Ref sig .tc := ⟨.hbm, 298, rfl⟩
abbrev main_c_39 : Ref sig .tc := ⟨.hbm, 299, rfl⟩
abbrev main_v171 : Ref sig .tc := ⟨.hbm, 300, rfl⟩
abbrev main_v172 : Ref sig .tc := ⟨.hbm, 301, rfl⟩
abbrev main_c_40 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_v177 : Ref sig .tc := ⟨.hbm, 307, rfl⟩
abbrev main_v178 : Ref sig .tc := ⟨.hbm, 308, rfl⟩
abbrev main_v179 : Ref sig .tc := ⟨.hbm, 309, rfl⟩
abbrev main_v180 : Ref sig .tc := ⟨.hbm, 310, rfl⟩
abbrev main_cst_41 : Ref sig .tc := ⟨.hbm, 311, rfl⟩
abbrev main_v181 : Ref sig .tc := ⟨.hbm, 312, rfl⟩
abbrev main_c_42 : Ref sig .tc := ⟨.hbm, 313, rfl⟩
abbrev main_v182 : Ref sig .tc := ⟨.hbm, 314, rfl⟩
abbrev main_v183 : Ref sig .tc := ⟨.hbm, 315, rfl⟩
abbrev main_c_43 : Ref sig .tc := ⟨.hbm, 316, rfl⟩
abbrev main_v184 : Ref sig .tc := ⟨.hbm, 317, rfl⟩
abbrev main_v185 : Ref sig .tc := ⟨.hbm, 318, rfl⟩
abbrev main_v186 : Ref sig .tc := ⟨.hbm, 319, rfl⟩
abbrev main_v187 : Ref sig .tc := ⟨.hbm, 320, rfl⟩
abbrev main_v188 : Ref sig .tc := ⟨.hbm, 321, rfl⟩
abbrev main_v189 : Ref sig .tc := ⟨.hbm, 322, rfl⟩
abbrev main_v190 : Ref sig .tc := ⟨.hbm, 323, rfl⟩
abbrev main_v191 : Ref sig .tc := ⟨.hbm, 324, rfl⟩
abbrev main_cst_44 : Ref sig .tc := ⟨.hbm, 325, rfl⟩
abbrev main_v192 : Ref sig .tc := ⟨.hbm, 326, rfl⟩
abbrev main_cst_45 : Ref sig .tc := ⟨.hbm, 327, rfl⟩
abbrev main_v193 : Ref sig .tc := ⟨.hbm, 328, rfl⟩
abbrev main_v194 : Ref sig .tc := ⟨.hbm, 329, rfl⟩
abbrev main_c_46 : Ref sig .tc := ⟨.hbm, 330, rfl⟩
abbrev main_call6_cst : Ref sig .tc := ⟨.hbm, 331, rfl⟩
abbrev main_call6_v0 : Ref sig .tc := ⟨.hbm, 332, rfl⟩
abbrev main_call6_v1 : Ref sig .tc := ⟨.hbm, 333, rfl⟩
abbrev main_call6_cst_0 : Ref sig .tc := ⟨.hbm, 334, rfl⟩
abbrev main_call6_v2 : Ref sig .tc := ⟨.hbm, 335, rfl⟩
abbrev main_call6_v3 : Ref sig .tc := ⟨.hbm, 336, rfl⟩
abbrev main_call6_v4 : Ref sig .tc := ⟨.hbm, 337, rfl⟩
abbrev main_call6_v5 : Ref sig .tc := ⟨.hbm, 338, rfl⟩
abbrev main_call6_v6 : Ref sig .tc := ⟨.hbm, 339, rfl⟩
abbrev main_call6_v7 : Ref sig .tc := ⟨.hbm, 340, rfl⟩
abbrev main_call6_cst_1 : Ref sig .tc := ⟨.hbm, 341, rfl⟩
abbrev main_call6_v8 : Ref sig .tc := ⟨.hbm, 342, rfl⟩
abbrev main_call6_cst_2 : Ref sig .tc := ⟨.hbm, 343, rfl⟩
abbrev main_call6_v9 : Ref sig .tc := ⟨.hbm, 344, rfl⟩
abbrev main_call6_v10 : Ref sig .tc := ⟨.hbm, 345, rfl⟩
abbrev main_call6_v11 : Ref sig .tc := ⟨.hbm, 346, rfl⟩
abbrev main_call6_cst_3 : Ref sig .tc := ⟨.hbm, 347, rfl⟩
abbrev main_call6_v12 : Ref sig .tc := ⟨.hbm, 348, rfl⟩
abbrev main_call6_cst_4 : Ref sig .tc := ⟨.hbm, 349, rfl⟩
abbrev main_call6_call0_v0 : Ref sig .tc := ⟨.hbm, 350, rfl⟩
abbrev main_call6_call0_v1 : Ref sig .tc := ⟨.hbm, 351, rfl⟩
abbrev main_v195 : Ref sig .tc := ⟨.hbm, 352, rfl⟩
abbrev main_v196 : Ref sig .tc := ⟨.hbm, 353, rfl⟩
abbrev main_v197 : Ref sig .tc := ⟨.hbm, 354, rfl⟩
abbrev main_v198 : Ref sig .tc := ⟨.hbm, 355, rfl⟩
abbrev main_cst_47 : Ref sig .tc := ⟨.hbm, 356, rfl⟩
abbrev main_v199 : Ref sig .tc := ⟨.hbm, 357, rfl⟩
abbrev main_v200 : Ref sig .tc := ⟨.hbm, 358, rfl⟩
abbrev main_v201 : Ref sig .tc := ⟨.hbm, 359, rfl⟩
abbrev main_v202 : Ref sig .tc := ⟨.hbm, 360, rfl⟩
abbrev main_v203 : Ref sig .tc := ⟨.hbm, 361, rfl⟩
abbrev main_v204 : Ref sig .tc := ⟨.hbm, 362, rfl⟩
abbrev main_v205 : Ref sig .tc := ⟨.hbm, 363, rfl⟩
abbrev main_v206 : Ref sig .tc := ⟨.hbm, 364, rfl⟩
abbrev main_v207 : Ref sig .tc := ⟨.hbm, 365, rfl⟩
abbrev main_v208 : Ref sig .tc := ⟨.hbm, 366, rfl⟩
abbrev main_v209 : Ref sig .tc := ⟨.hbm, 367, rfl⟩
abbrev main_v210 : Ref sig .tc := ⟨.hbm, 368, rfl⟩
abbrev main_cst_48 : Ref sig .tc := ⟨.hbm, 369, rfl⟩
abbrev main_v211 : Ref sig .tc := ⟨.hbm, 370, rfl⟩
abbrev main_v212 : Ref sig .tc := ⟨.hbm, 371, rfl⟩
abbrev main_cst_49 : Ref sig .tc := ⟨.hbm, 372, rfl⟩
abbrev main_v213 : Ref sig .tc := ⟨.hbm, 373, rfl⟩
abbrev main_v214 : Ref sig .tc := ⟨.hbm, 374, rfl⟩
abbrev main_v215 : Ref sig .tc := ⟨.hbm, 375, rfl⟩
abbrev main_v216 : Ref sig .tc := ⟨.hbm, 376, rfl⟩
abbrev main_c_50 : Ref sig .tc := ⟨.hbm, 377, rfl⟩
abbrev main_v217 : Ref sig .tc := ⟨.hbm, 378, rfl⟩
abbrev main_v218 : Ref sig .tc := ⟨.hbm, 379, rfl⟩
abbrev main_c_51 : Ref sig .tc := ⟨.hbm, 380, rfl⟩
abbrev main_v219 : Ref sig .tc := ⟨.hbm, 381, rfl⟩
abbrev main_v220 : Ref sig .tc := ⟨.hbm, 382, rfl⟩
abbrev main_v221 : Ref sig .tc := ⟨.hbm, 383, rfl⟩
abbrev main_v222 : Ref sig .tc := ⟨.hbm, 384, rfl⟩
abbrev main_v223 : Ref sig .tc := ⟨.hbm, 385, rfl⟩
abbrev main_v224 : Ref sig .tc := ⟨.hbm, 386, rfl⟩
abbrev main_v225 : Ref sig .tc := ⟨.hbm, 387, rfl⟩
abbrev main_v226 : Ref sig .tc := ⟨.hbm, 388, rfl⟩
abbrev main_cst_52 : Ref sig .tc := ⟨.hbm, 389, rfl⟩
abbrev main_v227 : Ref sig .tc := ⟨.hbm, 390, rfl⟩
abbrev main_c_53 : Ref sig .tc := ⟨.hbm, 391, rfl⟩
abbrev main_v228 : Ref sig .tc := ⟨.hbm, 392, rfl⟩
abbrev main_v229 : Ref sig .tc := ⟨.hbm, 393, rfl⟩
abbrev main_c_54 : Ref sig .tc := ⟨.hbm, 394, rfl⟩
abbrev main_v230 : Ref sig .tc := ⟨.hbm, 395, rfl⟩
abbrev main_v231 : Ref sig .tc := ⟨.hbm, 396, rfl⟩
abbrev main_v232 : Ref sig .tc := ⟨.hbm, 397, rfl⟩
abbrev main_v233 : Ref sig .tc := ⟨.hbm, 398, rfl⟩
abbrev main_v234 : Ref sig .tc := ⟨.hbm, 399, rfl⟩
abbrev main_v235 : Ref sig .tc := ⟨.hbm, 400, rfl⟩
abbrev main_v236 : Ref sig .tc := ⟨.hbm, 401, rfl⟩
abbrev main_v237 : Ref sig .tc := ⟨.hbm, 402, rfl⟩
abbrev main_cst_55 : Ref sig .tc := ⟨.hbm, 403, rfl⟩
abbrev main_v238 : Ref sig .tc := ⟨.hbm, 404, rfl⟩
abbrev main_cst_56 : Ref sig .tc := ⟨.hbm, 405, rfl⟩
abbrev main_v239 : Ref sig .tc := ⟨.hbm, 406, rfl⟩
abbrev main_v240 : Ref sig .tc := ⟨.hbm, 407, rfl⟩
abbrev main_c_57 : Ref sig .tc := ⟨.hbm, 408, rfl⟩
abbrev main_call8_cst : Ref sig .tc := ⟨.hbm, 409, rfl⟩
abbrev main_call8_v0 : Ref sig .tc := ⟨.hbm, 410, rfl⟩
abbrev main_call8_v1 : Ref sig .tc := ⟨.hbm, 411, rfl⟩
abbrev main_call8_cst_0 : Ref sig .tc := ⟨.hbm, 412, rfl⟩
abbrev main_call8_v2 : Ref sig .tc := ⟨.hbm, 413, rfl⟩
abbrev main_call8_v3 : Ref sig .tc := ⟨.hbm, 414, rfl⟩
abbrev main_call8_v4 : Ref sig .tc := ⟨.hbm, 415, rfl⟩
abbrev main_call8_v5 : Ref sig .tc := ⟨.hbm, 416, rfl⟩
abbrev main_call8_v6 : Ref sig .tc := ⟨.hbm, 417, rfl⟩
abbrev main_call8_v7 : Ref sig .tc := ⟨.hbm, 418, rfl⟩
abbrev main_call8_cst_1 : Ref sig .tc := ⟨.hbm, 419, rfl⟩
abbrev main_call8_v8 : Ref sig .tc := ⟨.hbm, 420, rfl⟩
abbrev main_call8_cst_2 : Ref sig .tc := ⟨.hbm, 421, rfl⟩
abbrev main_call8_v9 : Ref sig .tc := ⟨.hbm, 422, rfl⟩
abbrev main_call8_v10 : Ref sig .tc := ⟨.hbm, 423, rfl⟩
abbrev main_call8_v11 : Ref sig .tc := ⟨.hbm, 424, rfl⟩
abbrev main_call8_cst_3 : Ref sig .tc := ⟨.hbm, 425, rfl⟩
abbrev main_call8_v12 : Ref sig .tc := ⟨.hbm, 426, rfl⟩
abbrev main_call8_cst_4 : Ref sig .tc := ⟨.hbm, 427, rfl⟩
abbrev main_call8_call0_v0 : Ref sig .tc := ⟨.hbm, 428, rfl⟩
abbrev main_call8_call0_v1 : Ref sig .tc := ⟨.hbm, 429, rfl⟩
abbrev main_v241 : Ref sig .tc := ⟨.hbm, 430, rfl⟩
abbrev main_v242 : Ref sig .tc := ⟨.hbm, 431, rfl⟩
abbrev main_v243 : Ref sig .tc := ⟨.hbm, 432, rfl⟩
abbrev main_v244 : Ref sig .tc := ⟨.hbm, 433, rfl⟩
abbrev main_cst_58 : Ref sig .tc := ⟨.hbm, 434, rfl⟩
abbrev main_v245 : Ref sig .tc := ⟨.hbm, 435, rfl⟩
abbrev main_v246 : Ref sig .tc := ⟨.hbm, 436, rfl⟩
abbrev main_v247 : Ref sig .tc := ⟨.hbm, 437, rfl⟩
abbrev main_v248 : Ref sig .tc := ⟨.hbm, 438, rfl⟩
abbrev main_v249 : Ref sig .tc := ⟨.hbm, 439, rfl⟩
abbrev main_v250 : Ref sig .tc := ⟨.hbm, 440, rfl⟩
abbrev main_v251 : Ref sig .tc := ⟨.hbm, 441, rfl⟩
abbrev main_v252 : Ref sig .tc := ⟨.hbm, 442, rfl⟩
abbrev main_v253 : Ref sig .tc := ⟨.hbm, 443, rfl⟩
abbrev main_v254 : Ref sig .tc := ⟨.hbm, 444, rfl⟩
abbrev main_v255 : Ref sig .tc := ⟨.hbm, 445, rfl⟩
abbrev main_v256 : Ref sig .tc := ⟨.hbm, 446, rfl⟩
abbrev main_cst_59 : Ref sig .tc := ⟨.hbm, 447, rfl⟩
abbrev main_v257 : Ref sig .tc := ⟨.hbm, 448, rfl⟩
abbrev main_v258 : Ref sig .tc := ⟨.hbm, 449, rfl⟩
abbrev main_cst_60 : Ref sig .tc := ⟨.hbm, 450, rfl⟩
abbrev main_v259 : Ref sig .tc := ⟨.hbm, 451, rfl⟩
abbrev main_v260 : Ref sig .tc := ⟨.hbm, 452, rfl⟩
abbrev main_v261 : Ref sig .tc := ⟨.hbm, 453, rfl⟩
abbrev main_v262 : Ref sig .tc := ⟨.hbm, 454, rfl⟩
abbrev main_v263 : Ref sig .tc := ⟨.hbm, 455, rfl⟩
abbrev main_v264 : Ref sig .tc := ⟨.hbm, 456, rfl⟩
abbrev main_v265 : Ref sig .tc := ⟨.hbm, 457, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  bcast_S_S128 : S_.BroadcastsInDim S128 (![] : Fin 0 → Fin S128.rank)
  bcast_S_S1x128 : S_.BroadcastsInDim S1x128 (![] : Fin 0 → Fin S1x128.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S16_d0 : S100000x16.ReducesTo [0] S16
  bcast_S_S16 : S_.BroadcastsInDim S16 (![] : Fin 0 → Fin S16.rank)
  bcast_S_S1x16 : S_.BroadcastsInDim S1x16 (![] : Fin 0 → Fin S1x16.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x6_S6x32_S100000x32_1_0_0_1_n_n_wf : DotDims.WF S100000x6 S6x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x128_S100000x128_1_0_0_1_n_n_wf : DotDims.WF S100000x32 S32x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x3_S100000x3_1_0_0_1_n_n_wf : DotDims.WF S100000x16 S16x3 S100000x3 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x6_S6x32_S100000x32_1_0_0_1_n_n : DotDims S100000x6 S6x32 S100000x32 where
  lhsContracting := [1]
  rhsContracting := [0]
  lhsNonContracting := [0]
  rhsNonContracting := [1]
  lhsBatch := []
  rhsBatch := []
  wf := dot_S100000x6_S6x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x3_S100000x3_1_0_0_1_n_n : DotDims S100000x16 S16x3 S100000x3 where
  lhsContracting := [1]
  rhsContracting := [0]
  lhsNonContracting := [0]
  rhsNonContracting := [1]
  lhsBatch := []
  rhsBatch := []
  wf := dot_S100000x16_S16x3_S100000x3_1_0_0_1_n_n_wf

class Facts : Prop extends Facts₀ where

variable [Facts]
-- ==== Proof.KB.RunCond.lean ====
/-
  The kernel's @main as a chain of host stretches and sixteen kernel regions, run with its RESULT named:
  the statement and proof of the conditional frame of this program, with one more conjunct in the post — the result
  array `main_v168` read off the last valuation, where it holds what the last region (the output projection) leaves.
-/
import proofs.«109725_j21638045237575_1_alg».proof.Proof.Gen.Kernel.Regions

set_option maxRecDepth 1920

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ) (outs : Outs (F := F))

/-- After the last region the result array holds what that region leaves in it. -/
theorem V32_main_v168 (c : Dev nD) : V32 m outs c main_v168 = outs 32 main_v168 c := by
  simp only [V32]; exact Function.update_self _ _ _

set_option backward.isDefEq.respectTransparency.types false in
/-- The run of @main with its result named. Given, for each of the sixteen kernel regions, a segment record entered from
    the buffer contents before it and left at the contents after it, every weakly fair execution of @main from memory `m`
    terminates without a fault; the final memory holds the result array at what the last region leaves in it
    (`outs 32 main_v168`) and every argument array as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 16) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 17 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE16 : ∀ c : Dev nD, E 16 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V27 m outs c) ∗ E 13 c) ⊢ R13.pre c)
    (hpost13 : ∀ c : Dev nD, R13.post c ⊢ iprop(StableHlo.held (c : Thread nD τ) (Pipeline.ucRefs τ sig) (V28 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V29 m outs c) ∗ E 14 c) ⊢ R14.pre c)
    (hpost14 : ∀ c : Dev nD, R14.post c ⊢ iprop(StableHlo.held (c : Thread nD τ) (Pipeline.ucRefs τ sig) (V30 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V31 m outs c) ∗ E 15 c) ⊢ R15.pre c)
    (hpost15 : ∀ c : Dev nD, R15.post c ⊢ iprop(StableHlo.held (c : Thread nD τ) (Pipeline.ucRefs τ sig) (V32 m outs c) ∗ E 16 c)) :
    θ_run defs (onTc (τ := τ) (main (F := F))) ⟨m, fun _ => 0, ρ⟩ (fun r => ∀ c : Dev nD,
      r.2.mem ((c.tc : Thread nD τ).loc main_v168) = outs 32 main_v168 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15)
    (fun c Q => by
      rewrite [main_chain c, Seg.run_eq_chain,
        show (segs m outs 𝒱₀ L lv E ι pdats R0 R1 R2 R3 R4 R5 R6 R7 R8 R9 R10 R11 R12 R13 R14 R15 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V32 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, hpre14 c, hpost14 c, hpre15 c, (hpost15 c).trans (sep_mono .rfl (hE16 c))⟩)
    (hinit := ?_) (QY := fun c s => s.mem ((c.tc : Thread nD τ).loc main_v168) = outs 32 main_v168 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V32 m outs c) s') $$ [Hh HSI]
    · isplitl [Hh] <;> iassumption
    icases Hr with ⟨%h, HSI⟩
    imodintro
    isplitr
    · ipureintro
      exact ⟨(h (Proc.devRef .tc main_v168) (Finset.mem_filter.mpr ⟨StableHlo.devRef_mem_tcRefs main_v168, by decide⟩)).trans (V32_main_v168 m outs c),
        (h (Proc.devRef .tc main_arg0) (Finset.mem_filter.mpr ⟨StableHlo.devRef_mem_tcRefs main_arg0, by decide⟩)).trans (V32_main_arg0 m outs c),
        (h (Proc.devRef .tc main_arg1) (Finset.mem_filter.mpr ⟨StableHlo.devRef_mem_tcRefs main_arg1, by decide⟩)).trans (V32_main_arg1 m outs c),
        (h (Proc.devRef .tc main_arg2) (Finset.mem_filter.mpr ⟨StableHlo.devRef_mem_tcRefs main_arg2, by decide⟩)).trans (V32_main_arg2 m outs c),
        (h (Proc.devRef .tc main_arg3) (Finset.mem_filter.mpr ⟨StableHlo.devRef_mem_tcRefs main_arg3, by decide⟩)).trans (V32_main_arg3 m outs c),
        (h (Proc.devRef .tc main_arg4) (Finset.mem_filter.mpr ⟨StableHlo.devRef_mem_tcRefs main_arg4, by decide⟩)).trans (V32_main_arg4 m outs c),
        (h (Proc.devRef .tc main_arg5) (Finset.mem_filter.mpr ⟨StableHlo.devRef_mem_tcRefs main_arg5, by decide⟩)).trans (V32_main_arg5 m outs c),
        (h (Proc.devRef .tc main_arg6) (Finset.mem_filter.mpr ⟨StableHlo.devRef_mem_tcRefs main_arg6, by decide⟩)).trans (V32_main_arg6 m outs c),
        (h (Proc.devRef .tc main_arg7) (Finset.mem_filter.mpr ⟨StableHlo.devRef_mem_tcRefs main_arg7, by decide⟩)).trans (V32_main_arg7 m outs c),
        (h (Proc.devRef .tc main_arg8) (Finset.mem_filter.mpr ⟨StableHlo.devRef_mem_tcRefs main_arg8, by decide⟩)).trans (V32_main_arg8 m outs c),
        (h (Proc.devRef .tc main_arg9) (Finset.mem_filter.mpr ⟨StableHlo.devRef_mem_tcRefs main_arg9, by decide⟩)).trans (V32_main_arg9 m outs c),
        (h (Proc.devRef .tc main_arg10) (Finset.mem_filter.mpr ⟨StableHlo.devRef_mem_tcRefs main_arg10, by decide⟩)).trans (V32_main_arg10 m outs c),
        (h (Proc.devRef .tc main_arg11) (Finset.mem_filter.mpr ⟨StableHlo.devRef_mem_tcRefs main_arg11, by decide⟩)).trans (V32_main_arg11 m outs c),
        (h (Proc.devRef .tc main_arg12) (Finset.mem_filter.mpr ⟨StableHlo.devRef_mem_tcRefs main_arg12, by decide⟩)).trans (V32_main_arg12 m outs c),
        (h (Proc.devRef .tc main_arg13) (Finset.mem_filter.mpr ⟨StableHlo.devRef_mem_tcRefs main_arg13, by decide⟩)).trans (V32_main_arg13 m outs c),
        (h (Proc.devRef .tc main_arg14) (Finset.mem_filter.mpr ⟨StableHlo.devRef_mem_tcRefs main_arg14, by decide⟩)).trans (V32_main_arg14 m outs c),
        (h (Proc.devRef .tc main_arg15) (Finset.mem_filter.mpr ⟨StableHlo.devRef_mem_tcRefs main_arg15, by decide⟩)).trans (V32_main_arg15 m outs c),
        (h (Proc.devRef .tc main_arg16) (Finset.mem_filter.mpr ⟨StableHlo.devRef_mem_tcRefs main_arg16, by decide⟩)).trans (V32_main_arg16 m outs c),
        (h (Proc.devRef .tc main_arg17) (Finset.mem_filter.mpr ⟨StableHlo.devRef_mem_tcRefs main_arg17, by decide⟩)).trans (V32_main_arg17 m outs c),
        (h (Proc.devRef .tc main_arg18) (Finset.mem_filter.mpr ⟨StableHlo.devRef_mem_tcRefs main_arg18, by decide⟩)).trans (V32_main_arg18 m outs c),
        (h (Proc.devRef .tc main_arg19) (Finset.mem_filter.mpr ⟨StableHlo.devRef_mem_tcRefs main_arg19, by decide⟩)).trans (V32_main_arg19 m outs c),
        (h (Proc.devRef .tc main_arg20) (Finset.mem_filter.mpr ⟨StableHlo.devRef_mem_tcRefs main_arg20, by decide⟩)).trans (V32_main_arg20 m outs c),
        (h (Proc.devRef .tc main_arg21) (Finset.mem_filter.mpr ⟨StableHlo.devRef_mem_tcRefs main_arg21, by decide⟩)).trans (V32_main_arg21 m outs c),
        (h (Proc.devRef .tc main_arg22) (Finset.mem_filter.mpr ⟨StableHlo.devRef_mem_tcRefs main_arg22, by decide⟩)).trans (V32_main_arg22 m outs c),
        (h (Proc.devRef .tc main_arg23) (Finset.mem_filter.mpr ⟨StableHlo.devRef_mem_tcRefs main_arg23, by decide⟩)).trans (V32_main_arg23 m outs c)⟩
    · iexact HSI

end Cert.Kernel.Hand

end
-- ==== Proof.KB.Top.lean ====
/-
  The kernel's run from its sixteen region records, with the launch settled: the pipeline library's own
  algebra, no level assigned, nothing owed at launch, and beside the buffers between two items only the core's
  generator register and its (empty) dues. What is left to supply is, per region, its record entered from the buffer
  contents before it and left at the contents after it.
-/
import proofs.«109725_j21638045237575_1_alg».proof.Proof.KB.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)
open Cert.Kernel Cert.Kernel.Gen

variable {F : FTy → Type} [FloatOps F]

local notation "𝕄" => MT nD τ sig Unit (Elt F) ℕ (UR sig nD τ) ℕ

/-- What rides beside the buffers between two items of @main: the core's generator register at some state, and its
    dues, at nothing. -/
abbrev Rr (c : Dev nD) : sProp 𝕄 :=
  iprop((∃ r, prngReg c r) ∗ ∃ W, owes (c : Thread nD τ) (0 : CellTallies nD τ sig Unit) W)

variable (m : (ℓ : Loc nD τ sig) → Buf (Elt F) ℓ) (ρ : Dev nD → PrngReg) (outs : Outs (F := F))

set_option backward.isDefEq.respectTransparency.types false in
/-- The run of @main from the sixteen region records. -/
theorem run_top
    (pdats : (p : Fin 16) → (c : Dev nD) → Dat τ (Elt F) Unit ℕ (UR sig nD τ) ℕ (cfgs p) c)
    (R0 : RegionSeg (pcfgs (F := F)) adm pdats () defs₀ Variants.none (fun _ => (∅ : Finset Unit)) (fun _ _ => (0 : ℕ)) 0)
    (hpre0 : ∀ c : Dev nD, iprop(StableHlo.held (c : Thread nD τ) (Pipeline.ucRefs τ sig) (V1 m c) ∗ Rr (F := F) c) ⊢ R0.pre c)
    (hpost0 : ∀ c : Dev nD, R0.post c ⊢ iprop(StableHlo.held (c : Thread nD τ) (Pipeline.ucRefs τ sig) (V2 m outs c) ∗ Rr (F := F) c))
    (R1 : RegionSeg (pcfgs (F := F)) adm pdats () defs₀ Variants.none (fun _ => (∅ : Finset Unit)) (fun _ _ => (0 : ℕ)) 1)
    (hpre1 : ∀ c : Dev nD, iprop(StableHlo.held (c : Thread nD τ) (Pipeline.ucRefs τ sig) (V3 m outs c) ∗ Rr (F := F) c) ⊢ R1.pre c)
    (hpost1 : ∀ c : Dev nD, R1.post c ⊢ iprop(StableHlo.held (c : Thread nD τ) (Pipeline.ucRefs τ sig) (V4 m outs c) ∗ Rr (F := F) c))
    (R2 : RegionSeg (pcfgs (F := F)) adm pdats () defs₀ Variants.none (fun _ => (∅ : Finset Unit)) (fun _ _ => (0 : ℕ)) 2)
    (hpre2 : ∀ c : Dev nD, iprop(StableHlo.held (c : Thread nD τ) (Pipeline.ucRefs τ sig) (V5 m outs c) ∗ Rr (F := F) c) ⊢ R2.pre c)
    (hpost2 : ∀ c : Dev nD, R2.post c ⊢ iprop(StableHlo.held (c : Thread nD τ) (Pipeline.ucRefs τ sig) (V6 m outs c) ∗ Rr (F := F) c))
    (R3 : RegionSeg (pcfgs (F := F)) adm pdats () defs₀ Variants.none (fun _ => (∅ : Finset Unit)) (fun _ _ => (0 : ℕ)) 3)
    (hpre3 : ∀ c : Dev nD, iprop(StableHlo.held (c : Thread nD τ) (Pipeline.ucRefs τ sig) (V7 m outs c) ∗ Rr (F := F) c) ⊢ R3.pre c)
    (hpost3 : ∀ c : Dev nD, R3.post c ⊢ iprop(StableHlo.held (c : Thread nD τ) (Pipeline.ucRefs τ sig) (V8 m outs c) ∗ Rr (F := F) c))
    (R4 : RegionSeg (pcfgs (F := F)) adm pdats () defs₀ Variants.none (fun _ => (∅ : Finset Unit)) (fun _ _ => (0 : ℕ)) 4)
    (hpre4 : ∀ c : Dev nD, iprop(StableHlo.held (c : Thread nD τ) (Pipeline.ucRefs τ sig) (V9 m outs c) ∗ Rr (F := F) c) ⊢ R4.pre c)
    (hpost4 : ∀ c : Dev nD, R4.post c ⊢ iprop(StableHlo.held (c : Thread nD τ) (Pipeline.ucRefs τ sig) (V10 m outs c) ∗ Rr (F := F) c))
    (R5 : RegionSeg (pcfgs (F := F)) adm pdats () defs₀ Variants.none (fun _ => (∅ : Finset Unit)) (fun _ _ => (0 : ℕ)) 5)
    (hpre5 : ∀ c : Dev nD, iprop(StableHlo.held (c : Thread nD τ) (Pipeline.ucRefs τ sig) (V11 m outs c) ∗ Rr (F := F) c) ⊢ R5.pre c)
    (hpost5 : ∀ c : Dev nD, R5.post c ⊢ iprop(StableHlo.held (c : Thread nD τ) (Pipeline.ucRefs τ sig) (V12 m outs c) ∗ Rr (F := F) c))
    (R6 : RegionSeg (pcfgs (F := F)) adm pdats () defs₀ Variants.none (fun _ => (∅ : Finset Unit)) (fun _ _ => (0 : ℕ)) 6)
    (hpre6 : ∀ c : Dev nD, iprop(StableHlo.held (c : Thread nD τ) (Pipeline.ucRefs τ sig) (V13 m outs c) ∗ Rr (F := F) c) ⊢ R6.pre c)
    (hpost6 : ∀ c : Dev nD, R6.post c ⊢ iprop(StableHlo.held (c : Thread nD τ) (Pipeline.ucRefs τ sig) (V14 m outs c) ∗ Rr (F := F) c))
    (R7 : RegionSeg (pcfgs (F := F)) adm pdats () defs₀ Variants.none (fun _ => (∅ : Finset Unit)) (fun _ _ => (0 : ℕ)) 7)
    (hpre7 : ∀ c : Dev nD, iprop(StableHlo.held (c : Thread nD τ) (Pipeline.ucRefs τ sig) (V15 m outs c) ∗ Rr (F := F) c) ⊢ R7.pre c)
    (hpost7 : ∀ c : Dev nD, R7.post c ⊢ iprop(StableHlo.held (c : Thread nD τ) (Pipeline.ucRefs τ sig) (V16 m outs c) ∗ Rr (F := F) c))
    (R8 : RegionSeg (pcfgs (F := F)) adm pdats () defs₀ Variants.none (fun _ => (∅ : Finset Unit)) (fun _ _ => (0 : ℕ)) 8)
    (hpre8 : ∀ c : Dev nD, iprop(StableHlo.held (c : Thread nD τ) (Pipeline.ucRefs τ sig) (V17 m outs c) ∗ Rr (F := F) c) ⊢ R8.pre c)
    (hpost8 : ∀ c : Dev nD, R8.post c ⊢ iprop(StableHlo.held (c : Thread nD τ) (Pipeline.ucRefs τ sig) (V18 m outs c) ∗ Rr (F := F) c))
    (R9 : RegionSeg (pcfgs (F := F)) adm pdats () defs₀ Variants.none (fun _ => (∅ : Finset Unit)) (fun _ _ => (0 : ℕ)) 9)
    (hpre9 : ∀ c : Dev nD, iprop(StableHlo.held (c : Thread nD τ) (Pipeline.ucRefs τ sig) (V19 m outs c) ∗ Rr (F := F) c) ⊢ R9.pre c)
    (hpost9 : ∀ c : Dev nD, R9.post c ⊢ iprop(StableHlo.held (c : Thread nD τ) (Pipeline.ucRefs τ sig) (V20 m outs c) ∗ Rr (F := F) c))
    (R10 : RegionSeg (pcfgs (F := F)) adm pdats () defs₀ Variants.none (fun _ => (∅ : Finset Unit)) (fun _ _ => (0 : ℕ)) 10)
    (hpre10 : ∀ c : Dev nD, iprop(StableHlo.held (c : Thread nD τ) (Pipeline.ucRefs τ sig) (V21 m outs c) ∗ Rr (F := F) c) ⊢ R10.pre c)
    (hpost10 : ∀ c : Dev nD, R10.post c ⊢ iprop(StableHlo.held (c : Thread nD τ) (Pipeline.ucRefs τ sig) (V22 m outs c) ∗ Rr (F := F) c))
    (R11 : RegionSeg (pcfgs (F := F)) adm pdats () defs₀ Variants.none (fun _ => (∅ : Finset Unit)) (fun _ _ => (0 : ℕ)) 11)
    (hpre11 : ∀ c : Dev nD, iprop(StableHlo.held (c : Thread nD τ) (Pipeline.ucRefs τ sig) (V23 m outs c) ∗ Rr (F := F) c) ⊢ R11.pre c)
    (hpost11 : ∀ c : Dev nD, R11.post c ⊢ iprop(StableHlo.held (c : Thread nD τ) (Pipeline.ucRefs τ sig) (V24 m outs c) ∗ Rr (F := F) c))
    (R12 : RegionSeg (pcfgs (F := F)) adm pdats () defs₀ Variants.none (fun _ => (∅ : Finset Unit)) (fun _ _ => (0 : ℕ)) 12)
    (hpre12 : ∀ c : Dev nD, iprop(StableHlo.held (c : Thread nD τ) (Pipeline.ucRefs τ sig) (V25 m outs c) ∗ Rr (F := F) c) ⊢ R12.pre c)
    (hpost12 : ∀ c : Dev nD, R12.post c ⊢ iprop(StableHlo.held (c : Thread nD τ) (Pipeline.ucRefs τ sig) (V26 m outs c) ∗ Rr (F := F) c))
    (R13 : RegionSeg (pcfgs (F := F)) adm pdats () defs₀ Variants.none (fun _ => (∅ : Finset Unit)) (fun _ _ => (0 : ℕ)) 13)
    (hpre13 : ∀ c : Dev nD, iprop(StableHlo.held (c : Thread nD τ) (Pipeline.ucRefs τ sig) (V27 m outs c) ∗ Rr (F := F) c) ⊢ R13.pre c)
    (hpost13 : ∀ c : Dev nD, R13.post c ⊢ iprop(StableHlo.held (c : Thread nD τ) (Pipeline.ucRefs τ sig) (V28 m outs c) ∗ Rr (F := F) c))
    (R14 : RegionSeg (pcfgs (F := F)) adm pdats () defs₀ Variants.none (fun _ => (∅ : Finset Unit)) (fun _ _ => (0 : ℕ)) 14)
    (hpre14 : ∀ c : Dev nD, iprop(StableHlo.held (c : Thread nD τ) (Pipeline.ucRefs τ sig) (V29 m outs c) ∗ Rr (F := F) c) ⊢ R14.pre c)
    (hpost14 : ∀ c : Dev nD, R14.post c ⊢ iprop(StableHlo.held (c : Thread nD τ) (Pipeline.ucRefs τ sig) (V30 m outs c) ∗ Rr (F := F) c))
    (R15 : RegionSeg (pcfgs (F := F)) adm pdats () defs₀ Variants.none (fun _ => (∅ : Finset Unit)) (fun _ _ => (0 : ℕ)) 15)
    (hpre15 : ∀ c : Dev nD, iprop(StableHlo.held (c : Thread nD τ) (Pipeline.ucRefs τ sig) (V31 m outs c) ∗ Rr (F := F) c) ⊢ R15.pre c)
    (hpost15 : ∀ c : Dev nD, R15.post c ⊢ iprop(StableHlo.held (c : Thread nD τ) (Pipeline.ucRefs τ sig) (V32 m outs c) ∗ Rr (F := F) c)) :
    θ_run defs (onTc (τ := τ) (main (F := F))) ⟨m, fun _ => 0, ρ⟩ (fun r => ∀ c : Dev nD,
      r.2.mem ((c.tc : Thread nD τ).loc main_v168) = outs 32 main_v168 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine run_cond m emb₁ () Variants.none (fun _ => (∅ : Finset Unit)) (fun _ _ => (0 : ℕ)) (fun _ _ => rfl) ρ outs pdats
    (O₀ := 0) (G := fun _ => iprop(emp))
    (u₀ := initOf (Pipeline.cells cfgs cellOf_inj) (Pipeline.launchToks cfgs cellOf_inj))
    (hu₀ := ?_) (E := fun _ c => Rr (F := F) c) (hE0 := ?_) (hE16 := ?_)
    R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12 R13 hpre13 hpost13 R14 hpre14 hpost14 R15 hpre15 hpost15
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have h : ∀ c : Dev nD, (iprop(unscopedSems0 c ∗ owes (c : Thread nD τ) ((0 : Dev nD → CellTallies nD τ sig Unit) c) ∅
          ∗ Pipeline.launchCred (0 : Dev nD → CellTallies nD τ sig Unit) c ∗ prngReg c (ρ c) ∗ emp) : sProp 𝕄) ⊢ Rr (F := F) c := fun c => by
      iintro ⟨-, HO, -, Hp, -⟩
      isplitl [Hp]; · iexists _; iexact Hp
      iexists ∅; iexact HO
    iintro ⟨H, -⟩
    have hm : (bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ emp) : sProp 𝕄)
        ⊢ bigSep Finset.univ fun c : Dev nD => Rr (F := F) c := bigSep_mono fun c _ => h c
    ihave H' := hm $$ H
    imodintro
    iexact H'
  · intro c
    iintro ⟨-, HO⟩
    iexact HO

end Cert.Kernel.Hand

end
-- ==== Proof.KB.Reg0.lean ====
/-
  Region 0 of the kernel's @main: the linear kernel y = x·W + bias at widths 6 → 32, over a grid of
  ten row tiles of 10000 rows. Its four windows are the row tile of x (fetched at every point), the weight matrix
  and the bias row (whole, fetched once: their block index never moves), and the row tile of the result (written
  back at every point). The body reads the three input blocks whole and stores one value over the whole output
  block, so what a point leaves in the output's staging buffer is a pure function of the three input blocks
  (`out0_3`), and the inputs' buffers are left as found.

  Stated here, at any float model `F` and at a PARAMETER `V` (the core's buffer contents when the region is
  entered): each window's block at a point (`iblk0`), the body's triple (`sound_kernel0`), the pipeline's proof
  data (`dat0`), the body obligation (`body_obligation0`), and the region as a segment record (`reg0`) for any
  family of proof data whose member 0 is `dat0`, entered from every unscoped buffer at `W₁` and left at `W₂`, where
  `W₂` holds at each of the region's arrays what the pipeline's write-backs leave and elsewhere what `W₁` held.
-/
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the block kept from the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): where the window is not
    fetched its block index has not moved, so the block kept from the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): where the window is not
    fetched its block index has not moved, so the block kept from the point before is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S10000x6 := Rect.unit (s := S10000x6) ![0, 0] S10000x6.size inb_S10000x6_S10000x6_0_0
abbrev r0_w : Rect S6x32 := Rect.unit (s := S6x32) ![0, 0] S6x32.size inb_S6x32_S6x32_0_0
abbrev r0_b : Rect S1x32 := Rect.unit (s := S1x32) ![0, 0] S1x32.size inb_S1x32_S1x32_0_0
abbrev r0_o : Rect S10000x32 := Rect.unit (s := S10000x32) ![0, 0] S10000x32.size inb_S10000x32_S10000x32_0_0

/-! ## What the body leaves in the output window's buffer -/

/-- Window 3's staging buffer after the body, from the input windows' blocks: its one store, of the payload
    x·W + bias computed from the three blocks read whole. -/
def out0_3 (x0 : Vec F S10000x6 .f32) (x1 : Vec F S6x32 .f32) (x2 : Vec F S1x32 .f32) : Vec F S10000x32 .f32 :=
  View.canon [⟨r0_o, k0_pay1 (View.ld x0 r0_x) (View.ld x1 r0_w) (View.ld x2 r0_b)⟩]

/-- The one store is over the whole buffer, so it covers it. -/
theorem cover0_3 (p0 : Vec F S10000x32 .f32) (y : S10000x32.Idx) :
    ∃ pc ∈ ([⟨r0_o, p0⟩] : List (View.Piece (Elt F) S10000x32 .f32)), y ∈ pc.1.set :=
  View.cover_of_tiled [⟨r0_o, p0⟩] S10000x32.size (by rfl) y

/-! ## The body's triple -/

set_option maxHeartbeats 1000000 in
/-- The kernel body on whole staging memrefs, the inputs' at read contents `x0 x1 x2` and the output's at anything,
    runs to the continuation holding the inputs' as they were and the output's at `out0_3` of the inputs'. -/
theorem sound_kernel0 (c : Dev nD) (E : Set ℕ) (i : grid0.Coords) (arg1 : Memref sig .tc .vmem S10000x6 .f32) (harg1 : arg1.IsWhole) (arg2 : Memref sig .tc .vmem S6x32 .f32) (harg2 : arg2.IsWhole) (arg3 : Memref sig .tc .vmem S1x32 .f32) (harg3 : arg3.IsWhole) (arg4 : Memref sig .tc .vmem S10000x32 .f32) (harg4 : arg4.IsWhole)
    (x0 : Vec F S10000x6 .f32) (x1 : Vec F S6x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant is the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest0 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 0 over the thread state "every unscoped buffer whole at a valuation, the generator register at some state,
    nothing owed": entered from the buffers at `W₁`, left at `W₂`, for any family of proof data whose member 0 is
    `dat0` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg0 (hp : ∀ c, pdats 0 c = dat0 (fun c b => W₁ c b) c)
    (hF : ∀ c w, (dat0 (F := F) (fun c b => W₁ c b) c).arrAt w cfg0.N = W₂ c (Pipeline.arrRef spec0 w))
    (hrest : ∀ c (b : Ref sig .tc), b ∉ Finset.univ.image (Pipeline.arrRef spec0) → W₂ c b = W₁ c b) :
    Pipeline.RegionSeg (pcfgs (F := F)) adm pdats () defs₀ Variants.none L lv 0 where
  win := launch0.win.to₀
  block_pos := launch0.block_pos
  stage_whole := launch0.stage_whole
  K := PEmpty
  osem k := k.elim
  ho := Pipeline.OwnSemFacts.none _
  hbody c := by rw [hp c]; exact (body_obligation0 (fun c b => W₁ c b) c).loose
  hwaits := Pipeline.hwaits_of_owed_zero _ _ _ _ L lv 0 fun c _ => by rw [hp c]; rfl
  pre c := iprop(StableHlo.held (c : Thread nD τ) (Pipeline.ucRefs τ sig) (W₁ c) ∗ rest0 c)
  post c := iprop(StableHlo.held (c : Thread nD τ) (Pipeline.ucRefs τ sig) (W₂ c) ∗ rest0 c)
  X c := iprop(∃ r, prngReg c r)
  Y c := iprop(∃ r, prngReg c r)
  Z c := Pipeline.unscopedRest (Ix := Unit) (Name := ℕ) (U := UR sig nD τ) (Lvl := ℕ) spec0 c (fun b => W₁ c b)
  hentry c := by
    rw [Pipeline.ownSems0_none]
    have hq : ∀ w, (pdats 0 c).q w = fullShare := fun w => by rw [hp c]; rfl
    have hA : ∀ w, (pdats 0 c).A w = (fun b : Ref sig .tc => W₁ c b) (Pipeline.arrRef spec0 w) := fun w => by rw [hp c]; rfl
    have hsplit := Pipeline.arrays_of_unscopedBufs (p := 0) (pcfgs (F := F)) adm pdats launch0.win launch0.arr_whole c
      ((pdats 0 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 0 c).Φ 0 = Pipeline.ΦA spec0 c from by rw [hp c]; rfl]; unfold Pipeline.ΦA
    iintro ⟨Hp, -, Hr⟩
    isplitl [Hr]; · iexact Hr
    iexact Hp
  hout c := by
    rw [Pipeline.ownSems0_none, show (pdats 0 c).Φ (Fin.last _) = Pipeline.ΦA spec0 c from by rw [hp c]; rfl]; unfold Pipeline.ΦA
    iintro ⟨Hr, Hp⟩
    isplitl [Hp]; · iexact Hp
    isplitr; · iempintro
    iexact Hr
  hexit c := by
    have hq : ∀ w, (pdats 0 c).q w = fullShare := fun w => by rw [hp c]; rfl
    have hjoin := Pipeline.unscopedBufs_of_arrays (p := 0) (pcfgs (F := F)) adm (Ix := Unit) (Name := ℕ) (U := UR sig nD τ) (Lvl := ℕ)
      launch0.win launch0.arr_whole c pdats ((pdats 0 c).share_full hq)
      (fun b => W₁ c b) (fun b => W₂ c b) ((pdats 0 c).arrAt · cfg0.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Record

/-! ## The exit valuation as an update of the entry valuation at the result's buffer -/

section Update

variable (W₁ : Dev nD → Valuation τ sig (Elt F))

/-- A property of the four windows, checked window by window. -/
private theorem fin4_cases {P : Fin 4 → Prop} (h0 : P 0) (h1 : P 1) (h2 : P 2) (h3 : P 3) : ∀ w, P w
  | ⟨0, _⟩ => h0
  | ⟨1, _⟩ => h1
  | ⟨2, _⟩ => h2
  | ⟨3, _⟩ => h3

/-- When the exit valuation is the entry valuation updated at the result's buffer `main_v34` with what the pipeline's
    write-backs leave in it, every array of the region holds there what the pipeline leaves: an input's array is never
    written and is not the result's buffer; the result's array is the updated one. -/
theorem hF0_update (c : Dev nD) (x : Buf (Elt F) ((c : Thread nD τ).loc main_v34))
    (hx : x = (dat0 (F := F) (fun c b => W₁ c b) c).arrAt 3 cfg0.N) :
    ∀ w, (dat0 (F := F) (fun c b => W₁ c b) c).arrAt w cfg0.N = Function.update (W₁ c) main_v34 x (Pipeline.arrRef spec0 w) :=
  fin4_cases (P := fun w => (dat0 (F := F) (fun c b => W₁ c b) c).arrAt w cfg0.N = Function.update (W₁ c) main_v34 x (Pipeline.arrRef spec0 w))
    (((dat0 (F := F) (fun c b => W₁ c b) c).arrAt_in 0 rfl _).trans ((A_eq0 (fun c b => W₁ c b) c 0).trans (Function.update_of_ne (StableHlo.devRef_ne_of_ne (by decide)) _ _).symm))
    (((dat0 (F := F) (fun c b => W₁ c b) c).arrAt_in 1 rfl _).trans ((A_eq0 (fun c b => W₁ c b) c 1).trans (Function.update_of_ne (StableHlo.devRef_ne_of_ne (by decide)) _ _).symm))
    (((dat0 (F := F) (fun c b => W₁ c b) c).arrAt_in 2 rfl _).trans ((A_eq0 (fun c b => W₁ c b) c 2).trans (Function.update_of_ne (StableHlo.devRef_ne_of_ne (by decide)) _ _).symm))
    (hx.symm.trans (Function.update_self (β := fun b : DevRef τ sig => b.ty.Contents (Elt F)) _ _ _).symm)

/-- and every buffer that is no array of the region holds what it held at entry. -/
theorem hrest0_update (c : Dev nD) (x : Buf (Elt F) ((c : Thread nD τ).loc main_v34)) :
    ∀ b : Ref sig .tc, b ∉ Finset.univ.image (Pipeline.arrRef spec0) → Function.update (W₁ c) main_v34 x b = W₁ c b :=
  fun b hb => Function.update_of_ne (StableHlo.devRef_ne_of_ne fun e => hb (Finset.mem_image.mpr ⟨3, Finset.mem_univ _, e.symm⟩)) _ _

end Update

end Cert.Kernel.Hand

end
-- ==== Proof.KB.StatLib.lean ====
import Idealize.ShloMosaic.Lib.Pipeline.FrameBody
import Idealize.ShloMosaic.Lib.Pipeline.Frame
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Stores and loads through a buffer's whole rectangle

What the statistics kernels' bodies do to their two carried rows and their two outputs: every store and load is of
the whole (1, width) buffer, so a store leaves its payload whatever the buffer held. -/

/-- The zero offset of a rank-2 rectangle. -/
theorem stat_off2_zero : (![0, 0] : Fin 2 → Nat) = fun _ => 0 := by
  funext a; fin_cases a <;> rfl

/-- One store through the whole-shape rectangle leaves its payload, whatever the buffer held. -/
theorem stat_read_store {sig : RefSig} {κ : Kind} {sp : Space} {S : Shape} {e : EltTy}
    (v : View sig κ sp S e) (f : v.ty.Contents (Elt F)) {off : Fin S.rank → Nat} (hz : off = fun _ => 0)
    (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, by
    subst hz; show y ∈ (Rect.whole S).set; rw [Rect.set_whole]; exact Finset.mem_univ y⟩)).trans
    (View.canon_unit_zero hz inb w)

/-- A store through the whole-shape rectangle, made last, leaves its payload whatever the earlier stores were. -/
theorem stat_read_store_cons {sig : RefSig} {κ : Kind} {sp : Space} {S : Shape} {e : EltTy}
    (v : View sig κ sp S e) (f : v.ty.Contents (Elt F)) {off : Fin S.rank → Nat} (hz : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, by
    subst hz; show y ∈ (Rect.whole S).set; rw [Rect.set_whole]; exact Finset.mem_univ y⟩)).trans
    (View.canon_cons_unit_zero hz inb w L)

end Cert.Kernel.Hand

end
-- ==== Proof.KB.Reg1Run.lean ====
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.KB.StatLib
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the first layer (32 columns): the body's three control cases

The body adds the bias row to its block of 10000 rows, adds the column sums of the result and of its square to two
carried rows, having first zeroed those rows at the first grid point, and at the last grid point divides both rows
by the number of rows and writes the mean and the mean of squares less the squared mean. -/

/-- The first conditional (zero the two carried rows): taken where the grid coordinate is 0. -/
abbrev cond1_0 (i : grid1.Coords) : Prop :=
  (Scalar.cmpi .ne (Scalar.extui (Scalar.cmpi .eq (BitVec.ofNat 32 (i 0).val) 0#32)) 0#32) = 1#1
/-- The second conditional (write the two outputs): taken where the grid coordinate is 9. -/
abbrev cond1_1 (i : grid1.Coords) : Prop := k1_cond2 i = 1#1

theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ t.val = 9 :=
  (by decide +kernel : ∀ t : Fin grid1.N, cond1_1 (grid1.coords t) ↔ t.val = 9)

set_option maxHeartbeats 1000000 in
/-- A middle grid point: neither conditional is taken; the carried rows `s5`, `s6` receive the block's column sums. -/
theorem sound_kernel1_B (c : Dev nD) (E : Set ℕ) (i : grid1.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬ cond1_0 i) (hc1 : ¬ cond1_1 i)
    (x0 : Vec F S10000x32 .f32) (x1 : Vec F S1x32 .f32) (s5 s6 : Vec F S1x32 .f32) (K : PUnit → sProp 𝕄) :
    iprop(owns (c : Thread nD τ) arg1 fullShare x0 ∗ owns (c : Thread nD τ) arg2 fullShare x1 ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg5 fullShare (k1_pay4 x0 x1 s5) ∗ owns (c : Thread nD τ) arg6 fullShare (k1_pay5 x0 x1 s6)) -∗ K ⟨⟩))
      ⊢ wp frame (wpE (defs₀ (F := F)) Variants.none c none) E (cc1__reduce_kernel i arg1 harg1 arg2 harg2 arg3 harg3 arg4 harg4 arg5 harg5 arg6 harg6) K := by
  simp only [cc1__reduce_kernel_eq_skeleton]; unfold cc1__reduce_kernel_skel
  unfold owns
  iintro ⟨⟨%f0, %hf0, H0⟩, ⟨%f1, %hf1, H1⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store _ _ stat_off2_zero]
    simp only [View.readAt_eq_ld, View.ld_unit_zero (S := S10000x32) stat_off2_zero, View.ld_unit_zero (S := S1x32) stat_off2_zero]
  · iexists _; isplitr
    swap; · iexact H6
    ipureintro
    rw [stat_read_store _ _ stat_off2_zero]
    simp only [View.readAt_eq_ld, View.ld_unit_zero (S := S10000x32) stat_off2_zero, View.ld_unit_zero (S := S1x32) stat_off2_zero]

set_option maxHeartbeats 1000000 in
/-- The first grid point: the carried rows are zeroed, whatever they held, then receive the block's column sums. -/
theorem sound_kernel1_A (c : Dev nD) (E : Set ℕ) (i : grid1.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : cond1_0 i) (hc1 : ¬ cond1_1 i)
    (x0 : Vec F S10000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg5 fullShare (k1_pay4 x0 x1 k1_pay1) ∗ owns (c : Thread nD τ) arg6 fullShare (k1_pay5 x0 x1 k1_pay2)) -∗ K ⟨⟩))
      ⊢ wp frame (wpE (defs₀ (F := F)) Variants.none c none) E (cc1__reduce_kernel i arg1 harg1 arg2 harg2 arg3 harg3 arg4 harg4 arg5 harg5 arg6 harg6) K := by
  simp only [cc1__reduce_kernel_eq_skeleton]; unfold cc1__reduce_kernel_skel
  unfold owns
  iintro ⟨⟨%f0, %hf0, H0⟩, ⟨%f1, %hf1, H1⟩, ⟨%d5, %f5, -, H5⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store_cons _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"
  · iexists _; isplitr
    swap; · iexact H6
    ipureintro
    rw [stat_read_store_cons _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"

set_option maxHeartbeats 1000000 in
/-- The last grid point: the carried rows receive the block's column sums, then the two outputs are written from them. -/
theorem sound_kernel1_C (c : Dev nD) (E : Set ℕ) (i : grid1.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬ cond1_0 i) (hc1 : cond1_1 i)
    (x0 : Vec F S10000x32 .f32) (x1 : Vec F S1x32 .f32) (s5 s6 : Vec F S1x32 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg3 fullShare (k1_pay6 (k1_pay4 x0 x1 s5)) ∗ owns (c : Thread nD τ) arg4 fullShare (k1_pay7 (k1_pay4 x0 x1 s5) (k1_pay5 x0 x1 s6))
            ∗ owns (c : Thread nD τ) arg5 fullShare (k1_pay4 x0 x1 s5) ∗ owns (c : Thread nD τ) arg6 fullShare (k1_pay5 x0 x1 s6)) -∗ K ⟨⟩))
      ⊢ wp frame (wpE (defs₀ (F := F)) Variants.none c none) E (cc1__reduce_kernel i arg1 harg1 arg2 harg2 arg3 harg3 arg4 harg4 arg5 harg5 arg6 harg6) K := by
  simp only [cc1__reduce_kernel_eq_skeleton]; unfold cc1__reduce_kernel_skel
  unfold owns
  iintro ⟨⟨%f0, %hf0, H0⟩, ⟨%f1, %hf1, H1⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [stat_read_store _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"
  isplitl [H4]
  · iexists _; isplitr
    swap; · iexact H4
    ipureintro
    rw [stat_read_store _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"
  isplitl [H5]
  · iexists _; isplitr
    swap; · iexact H5
    ipureintro
    sl_unfold_run_names
    rw [stat_read_store_cons _ _ stat_off2_zero]
    first | (simp only [View.readAt_eq_ld, View.readCov_unit_zero (S := S1x32) _ stat_off2_zero, View.ld_unit_zero (S := S10000x32) stat_off2_zero, View.ld_unit_zero (S := S1x32) stat_off2_zero]) | fail "simp set did not close the read-back"
  · iexists _; isplitr
    swap; · iexact H6
    ipureintro
    sl_unfold_run_names
    rw [stat_read_store_cons _ _ stat_off2_zero]
    first | (simp only [View.readAt_eq_ld, View.readCov_unit_zero (S := S1x32) _ stat_off2_zero, View.ld_unit_zero (S := S10000x32) stat_off2_zero, View.ld_unit_zero (S := S1x32) stat_off2_zero]) | fail "simp set did not close the read-back"

end Cert.Kernel.Hand

end
-- ==== Proof.KB.Reg1.lean ====
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import proofs.«109725_j21638045237575_1_alg».proof.Proof.KB.Reg1Run
import Idealize.ShloMosaic.Lib.Pipeline.Frame
import Idealize.ShloMosaic.Lib.Pipeline.FrameBody
import Idealize.ShloMosaic.Lib.Pipeline.Kit
import Idealize.ShloMosaic.Lib.Pipeline.Regions
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the first layer (32 columns) as a region of @main

Ten grid points, each a block of 10000 rows of the aggregated features. Two rows of 32 are carried from point to
point in scratch memory: the column sums of (block + bias) and of its square over the blocks seen so far. The first
point zeroes them first; the last point writes mean = sum / 100000 and var = sumsq / 100000 − mean · mean into the
two outputs' staging buffers, which are written back there and nowhere else; at the other points the body leaves
the outputs' buffers as it found them. -/

section Region

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of aggregated rows is in its staging buffer at every point, for any proof data over `V` whose body
    leaves it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row is in its staging buffer at every point (fetched once: its block index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The carried rows -/

/-- The two carried rows when the accumulation of point `t` starts: both zero at the first point (after its zeroing),
    and after each point the sums of (block + bias), and of its square, down the block's columns added — a fold of the
    body's payload terms over the blocks seen so far, first component the sums, second the sums of squares. -/
def scr1 (c : Dev nD) : ℕ → Vec F S1x32 .f32 × Vec F S1x32 .f32
  | 0 => (k1_pay1, k1_pay2)
  | t + 1 =>
    if h : t < cfg1.N then
      (k1_pay4 (iblk1 V c 0 ⟨t, h⟩) (iblk1 V c 1 ⟨t, h⟩) (scr1 c t).1,
       k1_pay5 (iblk1 V c 0 ⟨t, h⟩) (iblk1 V c 1 ⟨t, h⟩) (scr1 c t).2)
    else scr1 c t

theorem scr1_zero (c : Dev nD) : scr1 V c 0 = (k1_pay1, k1_pay2) := by rw [scr1]

/-- One point's step of the fold. -/
theorem scr1_succ (c : Dev nD) (t : Fin cfg1.N) :
    scr1 V c (t.val + 1) = (k1_pay4 (iblk1 V c 0 t) (iblk1 V c 1 t) (scr1 V c t.val).1,
      k1_pay5 (iblk1 V c 0 t) (iblk1 V c 1 t) (scr1 V c t.val).2) := by
  rw [scr1, dif_pos t.isLt]

/-- The scratch rows between points, as the invariant holds them: before the first point at anything, before point
    `n > 0` at the fold's value there. -/
def scrAt1 (c : Dev nD) (n : ℕ) : sProp 𝕄 :=
  if n = 0 then
    iprop((∃ d, owns (c : Thread nD τ) (Memref.whole cc1_scratch0 : Memref sig .tc .vmem S1x32 .f32) fullShare d) ∗ (∃ d, owns (c : Thread nD τ) (Memref.whole cc1_scratch1 : Memref sig .tc .vmem S1x32 .f32) fullShare d))
  else
    iprop(owns (c : Thread nD τ) (Memref.whole cc1_scratch0 : Memref sig .tc .vmem S1x32 .f32) fullShare (scr1 V c n).1 ∗ owns (c : Thread nD τ) (Memref.whole cc1_scratch1 : Memref sig .tc .vmem S1x32 .f32) fullShare (scr1 V c n).2)

theorem scrAt1_zero (c : Dev nD) :
    scrAt1 V c 0 = iprop((∃ d, owns (c : Thread nD τ) (Memref.whole cc1_scratch0 : Memref sig .tc .vmem S1x32 .f32) fullShare d) ∗ (∃ d, owns (c : Thread nD τ) (Memref.whole cc1_scratch1 : Memref sig .tc .vmem S1x32 .f32) fullShare d)) := by
  unfold scrAt1; rw [if_pos rfl]

theorem scrAt1_pos (c : Dev nD) (n : ℕ) (h : n ≠ 0) :
    scrAt1 V c n = iprop(owns (c : Thread nD τ) (Memref.whole cc1_scratch0 : Memref sig .tc .vmem S1x32 .f32) fullShare (scr1 V c n).1 ∗ owns (c : Thread nD τ) (Memref.whole cc1_scratch1 : Memref sig .tc .vmem S1x32 .f32) fullShare (scr1 V c n).2) := by
  unfold scrAt1; rw [if_neg h]

/-! ## The pipeline's proof data -/

/-- The proof data of the pipeline on core `c`: the arrays as the region finds them; each input's buffer left at its
    block; the mean's and the variance's buffers, where the body stores them (the last point), at the body's two last
    payload terms of the carried rows after that point's accumulation; the invariant the scoped buffers other than
    the two scratch rows, the generator register, and the scratch rows at the fold's value; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay6 (scr1 V c (t.val + 1)).1
    | ⟨3, _⟩ => k1_pay7 (scr1 V c (t.val + 1)).1 (scr1 V c (t.val + 1)).2
  Φ t := iprop(Pipeline.scopedRestBut (Ix := Unit) (Name := ℕ) (U := UR sig nD τ) (Lvl := ℕ) (Val := Elt F) spec1 c [cc1_scratch0, cc1_scratch1]
    ∗ (∃ r, prngReg c r) ∗ scrAt1 V c t.val)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay6 (scr1 V c (t.val + 1)).1 := by dsimp only [dat1]
theorem after1_3 (c : Dev nD) (t : Fin cfg1.N) :
    (dat1 V c).after 3 t = k1_pay7 (scr1 V c (t.val + 1)).1 (scr1 V c (t.val + 1)).2 := by dsimp only [dat1]

theorem Φ1_eq (c : Dev nD) (t : Fin (cfg1.N + 1)) :
    (dat1 V c).Φ t = iprop(Pipeline.scopedRestBut (Ix := Unit) (Name := ℕ) (U := UR sig nD τ) (Lvl := ℕ) (Val := Elt F) spec1 c [cc1_scratch0, cc1_scratch1]
      ∗ (∃ r, prngReg c r) ∗ scrAt1 V c t.val) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The two outputs' buffers are idle (the body stores nothing there) at every point but the last, -/
theorem idle1_2 : ∀ t : Fin cfg1.N, cfg1.idle 2 (cfg1.grid.coords t) = true ↔ t.val ≠ 9 :=
  (by decide +kernel : ∀ t : Fin grid1.N, cfg1.idle 2 (grid1.coords t) = true ↔ t.val ≠ 9)
theorem idle1_3 : ∀ t : Fin cfg1.N, cfg1.idle 3 (cfg1.grid.coords t) = true ↔ t.val ≠ 9 :=
  (by decide +kernel : ∀ t : Fin grid1.N, cfg1.idle 3 (grid1.coords t) = true ↔ t.val ≠ 9)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the two outputs' buffers as found where they are idle, at the stated contents at the last point. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (dat1 V c).leavesExact 2 t
    ∗ (dat1 V c).leavesExact 3 t)

set_option maxHeartbeats 1000000 in
/-- The body at any point, by the three control cases: at the first point the scratch rows are found at anything and
    left at the fold's first step; at a middle point found at the fold's value and left at its next; at the last point
    also the two outputs' buffers, found at anything, are left at the mean and the variance of the final rows. The
    rest of the invariant and the core's `owes` pass through unread; where an output's buffer is idle it is handed back
    as it was found. -/
theorem sound_body1 (c : Dev nD) (t : Fin cfg1.N) :
    bodyPre1 V c t ⊢ wp frame (wpE (defs₀ (F := F)) Variants.none c none) Set.univ (bodyAt1 t) (fun _ => bodyPost1 V c t) := by
  have hlt : t.val < 10 := by
    have h := t.isLt
    have hN : cfg1.N = 10 := N_1
    omega
  unfold bodyPre1 bodyPost1 bodyAt1
  simp only [before1_0, before1_1]
  rw [show (dat1 V c).owesAt () t.succ = (dat1 V c).owesAt () t.castSucc from rfl, after1_0, after1_1,
    Φ1_eq, Φ1_eq, Fin.val_succ, Fin.val_castSucc, scrAt1_pos V c (t.val + 1) (Nat.succ_ne_zero _), scr1_succ]
  by_cases h0 : t.val = 0
  · -- the first point
    have h9 : t.val ≠ 9 := by omega
    have hc0 : cond1_0 (grid1.coords t) := (hcond1_0 t).mpr h0
    have hc1 : ¬ cond1_1 (grid1.coords t) := fun h => h9 ((hcond1_1 t).mp h)
    rw [Dat.leavesExact_idle _ 2 t ((idle1_2 t).mpr h9) (by rw [Bool.eq_false_iff]; intro h; have := (flush1_2 t).mp h; omega),
      Dat.leavesExact_idle _ 3 t ((idle1_3 t).mpr h9) (by rw [Bool.eq_false_iff]; intro h; have := (flush1_3 t).mp h; omega),
      h0, scrAt1_zero, scr1_zero]
    iintro ⟨⟨Hrest, Hprng, H5, H6⟩, Ho, ⟨%d0, H0⟩, ⟨%d1, H1⟩, H2, H3⟩
    iapply (sound_kernel1_A c Set.univ (grid1.coords t) _ _ _ _ _ _ _ _ _ _ _ _ hc0 hc1 (iblk1 V c 0 t) (iblk1 V c 1 t) _)
    isplitl [H0]; · iexact H0
    isplitl [H1]; · iexact H1
    isplitl [H5]; · iexact H5
    isplitl [H6]; · iexact H6
    iintro ⟨H0, H1, H5, H6⟩
    isplitl [Hrest Hprng H5 H6]
    · isplitl [Hrest]; · iexact Hrest
      isplitl [Hprng]; · iexact Hprng
      isplitl [H5]; · iexact H5
      iexact H6
    isplitl [Ho]; · iexact Ho
    isplitl [H0]; · iexact H0
    isplitl [H1]; · iexact H1
    isplitl [H2]; · iexact H2
    iexact H3
  · by_cases h9 : t.val = 9
    · -- the last point
      have hc0 : ¬ cond1_0 (grid1.coords t) := fun h => h0 ((hcond1_0 t).mp h)
      have hc1 : cond1_1 (grid1.coords t) := (hcond1_1 t).mpr h9
      have hi2 : cfg1.idle 2 (cfg1.grid.coords t) = false := by
        rw [Bool.eq_false_iff]; intro h; exact (idle1_2 t).mp h h9
      have hi3 : cfg1.idle 3 (cfg1.grid.coords t) = false := by
        rw [Bool.eq_false_iff]; intro h; exact (idle1_3 t).mp h h9
      rw [scrAt1_pos V c t.val h0]
      unfold Dat.leavesExact
      rw [hi2]
      try rw [hi3]
      dsimp only
      rw [after1_2, after1_3, scr1_succ]
      iintro ⟨⟨Hrest, Hprng, H5, H6⟩, Ho, ⟨%d0, H0⟩, ⟨%d1, H1⟩, ⟨%d2, H2⟩, ⟨%d3, H3⟩⟩
      iapply (sound_kernel1_C c Set.univ (grid1.coords t) _ _ _ _ _ _ _ _ _ _ _ _ hc0 hc1 (iblk1 V c 0 t) (iblk1 V c 1 t)
        (scr1 V c t.val).1 (scr1 V c t.val).2 _)
      isplitl [H0]; · iexact H0
      isplitl [H1]; · iexact H1
      isplitl [H2]; · iexists _; iexact H2
      isplitl [H3]; · iexists _; iexact H3
      isplitl [H5]; · iexact H5
      isplitl [H6]; · iexact H6
      iintro ⟨H0, H1, H2, H3, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3
    · -- a middle point
      have hc0 : ¬ cond1_0 (grid1.coords t) := fun h => h0 ((hcond1_0 t).mp h)
      have hc1 : ¬ cond1_1 (grid1.coords t) := fun h => h9 ((hcond1_1 t).mp h)
      rw [Dat.leavesExact_idle _ 2 t ((idle1_2 t).mpr h9) (by rw [Bool.eq_false_iff]; intro h; have := (flush1_2 t).mp h; omega),
        Dat.leavesExact_idle _ 3 t ((idle1_3 t).mpr h9) (by rw [Bool.eq_false_iff]; intro h; have := (flush1_3 t).mp h; omega),
        scrAt1_pos V c t.val h0]
      iintro ⟨⟨Hrest, Hprng, H5, H6⟩, Ho, ⟨%d0, H0⟩, ⟨%d1, H1⟩, H2, H3⟩
      iapply (sound_kernel1_B c Set.univ (grid1.coords t) _ _ _ _ _ _ _ _ _ _ _ _ hc0 hc1 (iblk1 V c 0 t) (iblk1 V c 1 t)
        (scr1 V c t.val).1 (scr1 V c t.val).2 _)
      isplitl [H0]; · iexact H0
      isplitl [H1]; · iexact H1
      isplitl [H5]; · iexact H5
      isplitl [H6]; · iexact H6
      iintro ⟨H0, H1, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest1 (c : Dev nD) : sProp 𝕄 := iprop((∃ r, prngReg c r) ∗ ∃ W, owes (c : Thread nD τ) (0 : CellTallies nD τ sig Unit) W)

/-- The grid is not empty. -/
theorem N1_ne_zero : cfg1.N ≠ 0 := by
  show grid1.N ≠ 0
  rw [N_1]; decide

-- a library lemma stated over the pinned configuration unifies with the printed one only when unification may unfold
-- plain definitions in a metavariable's type
set_option backward.isDefEq.respectTransparency.types false in
/-- The region over the thread state "every unscoped buffer whole at a valuation, the generator register at some state,
    nothing owed": entered from the buffers at `W₁`, left at `W₂`, for any family of proof data whose member 1 is
    `dat1` at `W₁` (`hp`), when `W₂` has each of the region's arrays at what the pipeline leaves there (`hF`) and every
    other buffer as `W₁` (`hrest`). The arrays are split out of the unscoped buffers at entry and put back at exit; the
    generator register goes into the invariant and comes back; of the scoped buffers no window stages, the kernel's two
    scratch rows are split off into the invariant at entry (held at anything before the first point) and, at the fold's
    last value, forgotten back into them at exit; the kernel has no semaphore of its own. -/
def reg1 (hp : ∀ c, pdats 1 c = dat1 (fun c b => W₁ c b) c)
    (hF : ∀ c w, (dat1 (F := F) (fun c b => W₁ c b) c).arrAt w cfg1.N = W₂ c (Pipeline.arrRef spec1 w))
    (hrest : ∀ c (b : Ref sig .tc), b ∉ Finset.univ.image (Pipeline.arrRef spec1) → W₂ c b = W₁ c b) :
    Pipeline.RegionSeg (pcfgs (F := F)) adm pdats () defs₀ Variants.none L lv 1 where
  win := launch1.win.to₀
  block_pos := launch1.block_pos
  stage_whole := launch1.stage_whole
  K := PEmpty
  osem k := k.elim
  ho := Pipeline.OwnSemFacts.none _
  hbody c := by rw [hp c]; exact (body_obligation1 (fun c b => W₁ c b) c).loose
  hwaits := Pipeline.hwaits_of_owed_zero _ _ _ _ L lv 1 fun c _ => by rw [hp c]; rfl
  pre c := iprop(StableHlo.held (c : Thread nD τ) (Pipeline.ucRefs τ sig) (W₁ c) ∗ rest1 c)
  post c := iprop(StableHlo.held (c : Thread nD τ) (Pipeline.ucRefs τ sig) (W₂ c) ∗ rest1 c)
  X c := iprop(∃ r, prngReg c r)
  Y c := iprop(∃ r, prngReg c r)
  Z c := Pipeline.unscopedRest (Ix := Unit) (Name := ℕ) (U := UR sig nD τ) (Lvl := ℕ) spec1 c (fun b => W₁ c b)
  hentry c := by
    rw [Pipeline.ownSems0_none]
    have hq : ∀ w, (pdats 1 c).q w = fullShare := fun w => by rw [hp c]; rfl
    have hA : ∀ w, (pdats 1 c).A w = (fun b : Ref sig .tc => W₁ c b) (Pipeline.arrRef spec1 w) := fun w => by rw [hp c]; rfl
    have hsplit := Pipeline.arrays_of_unscopedBufs (p := 1) (pcfgs (F := F)) adm pdats launch1.win launch1.arr_whole c
      ((pdats 1 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; trivial)
      rw [show (pdats 1 c).owed 0 = 0 from by rw [hp c]; rfl]
      iexact HO
    isplitl [Hp]; · iexact Hp
    iexact Hrest
  hin c := by
    rw [show (pdats 1 c).Φ 0 = (dat1 (fun c b => W₁ c b) c).Φ 0 from by rw [hp c], Φ1_eq,
      show ((0 : Fin (cfg1.N + 1)).val) = 0 from rfl, scrAt1_zero,
      show (Pipeline.scopedRest (Pipeline.pin (pcfgs (F := F)) adm 1).spec c : sProp 𝕄) = _ from
        scopedRest1_split (Ix := Unit) (Val := Elt F) (Name := ℕ) (U := UR sig nD τ) (Lvl := ℕ) c]
    simp only [owns_whole]
    iintro ⟨Hp, -, ⟨H5, H6⟩, Hr⟩
    isplitl [Hr]; · iexact Hr
    isplitl [Hp]; · iexact Hp
    isplitl [H5]; · iexact H5
    iexact H6
  hout c := by
    rw [Pipeline.ownSems0_none, show (pdats 1 c).Φ (Fin.last _) = (dat1 (fun c b => W₁ c b) c).Φ (Fin.last cfg1.N) from by rw [hp c]; rfl, Φ1_eq,
      Fin.val_last, scrAt1_pos _ c cfg1.N N1_ne_zero,
      show (Pipeline.scopedRest (Pipeline.pin (pcfgs (F := F)) adm 1).spec c : sProp 𝕄) = _ from
        scopedRest1_split (Ix := Unit) (Val := Elt F) (Name := ℕ) (U := UR sig nD τ) (Lvl := ℕ) c]
    simp only [owns_whole]
    iintro ⟨Hr, Hp, H5, H6⟩
    isplitl [Hp]; · iexact Hp
    isplitr; · iempintro
    isplitl [H5 H6]
    · isplitl [H5]
      · iexists _; iexact H5
      iexists _; iexact H6
    iexact Hr
  hexit c := by
    have hq : ∀ w, (pdats 1 c).q w = fullShare := fun w => by rw [hp c]; rfl
    have hjoin := Pipeline.unscopedBufs_of_arrays (p := 1) (pcfgs (F := F)) adm (Ix := Unit) (Name := ℕ) (U := UR sig nD τ) (Lvl := ℕ)
      launch1.win launch1.arr_whole c pdats ((pdats 1 c).share_full hq)
      (fun b => W₁ c b) (fun b => W₂ c b) ((pdats 1 c).arrAt · cfg1.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 1 c).owed (Fin.last _) = 0 from by rw [hp c]; rfl]
    iexact HO

end Record

end Cert.Kernel.Hand

end
-- ==== Proof.KB.Reg1Upd.lean ====
import proofs.«109725_j21638045237575_1_alg».proof.Proof.KB.Reg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region's exit valuation as an update of its entry valuation at the two results' buffers -/

section Update

variable (W₁ : Dev nD → Valuation τ sig (Elt F))

/-- Updating a valuation at the mean's buffer and at the variance's changes no other buffer. -/
theorem update1_of_ne (c : Dev nD) (x0 : Buf (Elt F) ((c : Thread nD τ).loc main_v54_0)) (x1 : Buf (Elt F) ((c : Thread nD τ).loc main_v54_1))
    (b : Ref sig .tc) (h0 : b ≠ main_v54_0) (h1 : b ≠ main_v54_1) :
    Function.update (Function.update (W₁ c) main_v54_0 x0) main_v54_1 x1 b = W₁ c b :=
  (Function.update_of_ne (StableHlo.devRef_ne_of_ne h1) x1 (Function.update (W₁ c) main_v54_0 x0)).trans
    (Function.update_of_ne (StableHlo.devRef_ne_of_ne h0) x0 (W₁ c))

/-- The update read at the variance's buffer, -/
theorem update1_at_3 (c : Dev nD) (x0 : Buf (Elt F) ((c : Thread nD τ).loc main_v54_0)) (x1 : Buf (Elt F) ((c : Thread nD τ).loc main_v54_1)) : Function.update (Function.update (W₁ c) main_v54_0 x0) main_v54_1 x1 main_v54_1 = x1 :=
  Function.update_self (β := fun b : DevRef τ sig => b.ty.Contents (Elt F)) (Proc.devRef .tc main_v54_1) x1 (Function.update (W₁ c) main_v54_0 x0)

/-- and at the mean's. -/
theorem update1_at_2 (c : Dev nD) (x0 : Buf (Elt F) ((c : Thread nD τ).loc main_v54_0)) (x1 : Buf (Elt F) ((c : Thread nD τ).loc main_v54_1)) : Function.update (Function.update (W₁ c) main_v54_0 x0) main_v54_1 x1 main_v54_0 = x0 :=
  (Function.update_of_ne (StableHlo.devRef_ne_of_ne (show (main_v54_0 : Ref sig .tc) ≠ main_v54_1 by decide)) x1 (Function.update (W₁ c) main_v54_0 x0)).trans
    (Function.update_self (β := fun b : DevRef τ sig => b.ty.Contents (Elt F)) (Proc.devRef .tc main_v54_0) x0 (W₁ c))

theorem hF1_update_0 (c : Dev nD) (x0 : Buf (Elt F) ((c : Thread nD τ).loc main_v54_0)) (x1 : Buf (Elt F) ((c : Thread nD τ).loc main_v54_1)) :
    (dat1 (F := F) (fun c b => W₁ c b) c).arrAt 0 cfg1.N = Function.update (Function.update (W₁ c) main_v54_0 x0) main_v54_1 x1 (Pipeline.arrRef spec1 0) :=
  ((dat1 (F := F) (fun c b => W₁ c b) c).arrAt_in 0 rfl _).trans ((A_eq1 (fun c b => W₁ c b) c 0).trans
      (update1_of_ne W₁ c x0 x1 (Pipeline.arrRef spec1 0) (by decide) (by decide)).symm)

theorem hF1_update_1 (c : Dev nD) (x0 : Buf (Elt F) ((c : Thread nD τ).loc main_v54_0)) (x1 : Buf (Elt F) ((c : Thread nD τ).loc main_v54_1)) :
    (dat1 (F := F) (fun c b => W₁ c b) c).arrAt 1 cfg1.N = Function.update (Function.update (W₁ c) main_v54_0 x0) main_v54_1 x1 (Pipeline.arrRef spec1 1) :=
  ((dat1 (F := F) (fun c b => W₁ c b) c).arrAt_in 1 rfl _).trans ((A_eq1 (fun c b => W₁ c b) c 1).trans
      (update1_of_ne W₁ c x0 x1 (Pipeline.arrRef spec1 1) (by decide) (by decide)).symm)

theorem hF1_update_2 (c : Dev nD) (x0 : Buf (Elt F) ((c : Thread nD τ).loc main_v54_0)) (x1 : Buf (Elt F) ((c : Thread nD τ).loc main_v54_1)) (hx0 : x0 = (dat1 (F := F) (fun c b => W₁ c b) c).arrAt 2 cfg1.N) :
    (dat1 (F := F) (fun c b => W₁ c b) c).arrAt 2 cfg1.N = Function.update (Function.update (W₁ c) main_v54_0 x0) main_v54_1 x1 (Pipeline.arrRef spec1 2) :=
  hx0.symm.trans (update1_at_2 W₁ c x0 x1).symm

theorem hF1_update_3 (c : Dev nD) (x0 : Buf (Elt F) ((c : Thread nD τ).loc main_v54_0)) (x1 : Buf (Elt F) ((c : Thread nD τ).loc main_v54_1)) (hx1 : x1 = (dat1 (F := F) (fun c b => W₁ c b) c).arrAt 3 cfg1.N) :
    (dat1 (F := F) (fun c b => W₁ c b) c).arrAt 3 cfg1.N = Function.update (Function.update (W₁ c) main_v54_0 x0) main_v54_1 x1 (Pipeline.arrRef spec1 3) :=
  hx1.symm.trans (update1_at_3 W₁ c x0 x1).symm

/-- When the exit valuation is the entry valuation updated at the mean's buffer and at the variance's with what the
    pipeline's write-backs leave in them, every array of the region holds there what the pipeline leaves: an input's
    array is never written and is neither result's buffer; each result's array is its updated one. -/
theorem hF1_update (c : Dev nD) (x0 : Buf (Elt F) ((c : Thread nD τ).loc main_v54_0)) (x1 : Buf (Elt F) ((c : Thread nD τ).loc main_v54_1))
    (hx0 : x0 = (dat1 (F := F) (fun c b => W₁ c b) c).arrAt 2 cfg1.N) (hx1 : x1 = (dat1 (F := F) (fun c b => W₁ c b) c).arrAt 3 cfg1.N) :
    ∀ w, (dat1 (F := F) (fun c b => W₁ c b) c).arrAt w cfg1.N = Function.update (Function.update (W₁ c) main_v54_0 x0) main_v54_1 x1 (Pipeline.arrRef spec1 w)
  | ⟨0, _⟩ => hF1_update_0 W₁ c x0 x1
  | ⟨1, _⟩ => hF1_update_1 W₁ c x0 x1
  | ⟨2, _⟩ => hF1_update_2 W₁ c x0 x1 hx0
  | ⟨3, _⟩ => hF1_update_3 W₁ c x0 x1 hx1

/-- and every buffer that is no array of the region holds what it held at entry. -/
theorem hrest1_update (c : Dev nD) (x0 : Buf (Elt F) ((c : Thread nD τ).loc main_v54_0)) (x1 : Buf (Elt F) ((c : Thread nD τ).loc main_v54_1)) :
    ∀ b : Ref sig .tc, b ∉ Finset.univ.image (Pipeline.arrRef spec1) → Function.update (Function.update (W₁ c) main_v54_0 x0) main_v54_1 x1 b = W₁ c b :=
  fun b hb => update1_of_ne W₁ c x0 x1 b
    (fun e => hb (Finset.mem_image.mpr ⟨2, Finset.mem_univ _, e.symm⟩))
    (fun e => hb (Finset.mem_image.mpr ⟨3, Finset.mem_univ _, e.symm⟩))

end Update

end Cert.Kernel.Hand

end
-- ==== Proof.KB.Reg2Body.lean ====
/-
  Region 2 of the kernel's @main: the normalise + LeakyReLU kernel at width 32, over a grid of ten row
  tiles of 10000 rows. Its seven windows are the row tile of the aggregated features (fetched at every point), five
  rows of 32 entries — the bias, the batch mean, the batch variance, the scale and the shift — (whole, fetched once:
  their block index never moves), and the row tile of the result (written back at every point). The body reads the
  six input blocks whole, computes h = agg + bias, inv = rsqrt(var + eps), hn = (h − mean)·inv·scale + shift and
  stores where(hn ≥ 0, hn, slope·hn) over the whole output block, so what a point leaves in the output's staging
  buffer is a pure function of the six input blocks (`out2_6`), and the inputs' buffers are left as found.

  Stated here, at any float model `F` and at a PARAMETER `V` (the core's buffer contents when the region is
  entered): each window's block at a point (`iblk2`), the body's triple (`sound_kernel2`), the pipeline's proof
  data (`dat2`), the body obligation (`body_obligation2`), and the region as a segment record (`reg2`) for any
  family of proof data whose member 2 is `dat2`, entered from every unscoped buffer at `W₁` and left at `W₂`, where
  `W₂` holds at each of the region's arrays what the pipeline's write-backs leave and elsewhere what `W₁` held.
-/
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the block kept from the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): where the window is not
    fetched its block index has not moved, so the block kept from the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): where the window is not
    fetched its block index has not moved, so the block kept from the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): where the window is not
    fetched its block index has not moved, so the block kept from the point before is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): where the window is not
    fetched its block index has not moved, so the block kept from the point before is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s (`hA`) and whose body leaves the block in place (`hafter`): where the window is not
    fetched its block index has not moved, so the block kept from the point before is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S10000x32 := Rect.unit (s := S10000x32) ![0, 0] S10000x32.size inb_S10000x32_S10000x32_0_0
abbrev r2_r : Rect S1x32 := Rect.unit (s := S1x32) ![0, 0] S1x32.size inb_S1x32_S1x32_0_0
abbrev r2_o : Rect S10000x32 := Rect.unit (s := S10000x32) ![0, 0] S10000x32.size inb_S10000x32_S10000x32_0_0

/-! ## What the body leaves in the output window's buffer -/

/-- Window 6's staging buffer after the body, from the input windows' blocks (the row tile, the bias, the mean, the
    variance, the scale and the shift, in the windows' order): its one store, of the normalised and rectified tile
    computed from the six blocks read whole. The payload takes the variance before the mean, as the body reads them. -/
def out2_6 (x0 : Vec F S10000x32 .f32) (x1 : Vec F S1x32 .f32) (x2 : Vec F S1x32 .f32) (x3 : Vec F S1x32 .f32) (x4 : Vec F S1x32 .f32) (x5 : Vec F S1x32 .f32) : Vec F S10000x32 .f32 :=
  View.canon [⟨r2_o, k2_pay1 (View.ld x0 r2_x) (View.ld x1 r2_r) (View.ld x3 r2_r) (View.ld x2 r2_r) (View.ld x4 r2_r) (View.ld x5 r2_r)⟩]

/-- The one store is over the whole buffer, so it covers it. -/
theorem cover2_6 (p0 : Vec F S10000x32 .f32) (y : S10000x32.Idx) :
    ∃ pc ∈ ([⟨r2_o, p0⟩] : List (View.Piece (Elt F) S10000x32 .f32)), y ∈ pc.1.set :=
  View.cover_of_tiled [⟨r2_o, p0⟩] S10000x32.size (by rfl) y

/-! ## The body's triple -/

set_option maxHeartbeats 1000000 in
/-- The kernel body on whole staging memrefs, the inputs' at read contents `x0 … x5` and the output's at anything,
    runs to the continuation holding the inputs' as they were and the output's at `out2_6` of the inputs'. -/
theorem sound_kernel2 (c : Dev nD) (E : Set ℕ) (i : grid2.Coords) (arg1 : Memref sig .tc .vmem S10000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S10000x32 .f32) (harg7 : arg7.IsWhole)
    (x0 : Vec F S10000x32 .f32) (x1 : Vec F S1x32 .f32) (x2 : Vec F S1x32 .f32) (x3 : Vec F S1x32 .f32) (x4 : Vec F S1x32 .f32) (x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__norm_kernel i arg1 harg1 arg2 harg2 arg3 harg3 arg4 harg4 arg5 harg5 arg6 harg6 arg7 harg7) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at point `t`
    each input's buffer at its block and the output's at `out2_6` of the input blocks; the invariant is the scoped
    buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.KB.Reg2.lean ====
/-
  Region 2 of the kernel's @main (the normalise + LeakyReLU kernel at width 32) as a segment of @main:
  the record `reg2` for any family of proof data whose member 2 is `dat2`, entered from every unscoped buffer at
  `W₁` and left at `W₂`, where `W₂` holds at each of the region's arrays what the pipeline's write-backs leave and
  elsewhere what `W₁` held; and the two facts that make `W₂ := W₁` updated at the output array `main_v58` such a
  valuation (`hF2_update`, `hrest2_update`): the six input arrays are never written back, so they end as
  entered, and the output array is the only one of the region's arrays that differs.
-/
import proofs.«109725_j21638045237575_1_alg».proof.Proof.KB.Reg2Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The exit valuation: the entry valuation updated at the output array -/

section Update

variable (W₁ : Dev nD → Valuation τ sig (Elt F)) (c : Dev nD) (x : Buf (Elt F) ((c : Thread nD τ).loc main_v58))

/-- An input window's array is never written back, so after all the points it holds what the region found, and the
    update at the output array does not touch it. -/
theorem hF2_in (w : Fin cfg2.W) (hin : (cfg2.win w).isOut = false) (hne : Pipeline.arrRef spec2 w ≠ main_v58) :
    (dat2 (F := F) (fun c b => W₁ c b) c).arrAt w cfg2.N = Function.update (W₁ c) main_v58 x (Pipeline.arrRef spec2 w) :=
  ((dat2 (F := F) (fun c b => W₁ c b) c).arrAt_in w hin _).trans
    ((A_eq2 (fun c b => W₁ c b) c w).trans (Function.update_of_ne (StableHlo.devRef_ne_of_ne hne) _ _).symm)

/-- Every window but the last is an input, staged from an array other than the output array. -/
theorem in_ne2 : ∀ w : Fin cfg2.W, w ≠ 6 → (cfg2.win w).isOut = false ∧ Pipeline.arrRef spec2 w ≠ main_v58 := by decide

/-- Each of the region's arrays after all the points is what the entry valuation updated at the output array holds
    there, when the update's value `x` is what the pipeline's write-backs leave in the output array. -/
theorem hF2_update (hx : x = (dat2 (F := F) (fun c b => W₁ c b) c).arrAt 6 cfg2.N) :
    ∀ w : Fin cfg2.W, (dat2 (F := F) (fun c b => W₁ c b) c).arrAt w cfg2.N = Function.update (W₁ c) main_v58 x (Pipeline.arrRef spec2 w) := fun w => by
  by_cases h : w = 6
  · subst h hx
    exact (Function.update_self (Proc.devRef .tc main_v58 : DevRef τ sig) _ (W₁ c)).symm
  · exact hF2_in W₁ c x w (in_ne2 w h).1 (in_ne2 w h).2

/-- Every buffer that is none of the region's arrays is not the output array, so the update leaves it as entered. -/
theorem hrest2_update : ∀ b : Ref sig .tc, b ∉ Finset.univ.image (Pipeline.arrRef spec2) → Function.update (W₁ c) main_v58 x b = W₁ c b :=
  fun b hb => Function.update_of_ne (StableHlo.devRef_ne_of_ne fun e =>
    hb (Finset.mem_image.mpr ⟨6, Finset.mem_univ _, (e.symm : Pipeline.arrRef spec2 6 = b)⟩)) _ _

end Update

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest2 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 2 over the thread state "every unscoped buffer whole at a valuation, the generator register at some state,
    nothing owed": entered from the buffers at `W₁`, left at `W₂`, for any family of proof data whose member 2 is
    `dat2` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg2 (hp : ∀ c, pdats 2 c = dat2 (fun c b => W₁ c b) c)
    (hF : ∀ c w, (dat2 (F := F) (fun c b => W₁ c b) c).arrAt w cfg2.N = W₂ c (Pipeline.arrRef spec2 w))
    (hrest : ∀ c (b : Ref sig .tc), b ∉ Finset.univ.image (Pipeline.arrRef spec2) → W₂ c b = W₁ c b) :
    Pipeline.RegionSeg (pcfgs (F := F)) adm pdats () defs₀ Variants.none L lv 2 where
  win := launch2.win.to₀
  block_pos := launch2.block_pos
  stage_whole := launch2.stage_whole
  K := PEmpty
  osem k := k.elim
  ho := Pipeline.OwnSemFacts.none _
  hbody c := by rw [hp c]; exact (body_obligation2 (fun c b => W₁ c b) c).loose
  hwaits := Pipeline.hwaits_of_owed_zero _ _ _ _ L lv 2 fun c _ => by rw [hp c]; rfl
  pre c := iprop(StableHlo.held (c : Thread nD τ) (Pipeline.ucRefs τ sig) (W₁ c) ∗ rest2 c)
  post c := iprop(StableHlo.held (c : Thread nD τ) (Pipeline.ucRefs τ sig) (W₂ c) ∗ rest2 c)
  X c := iprop(∃ r, prngReg c r)
  Y c := iprop(∃ r, prngReg c r)
  Z c := Pipeline.unscopedRest (Ix := Unit) (Name := ℕ) (U := UR sig nD τ) (Lvl := ℕ) spec2 c (fun b => W₁ c b)
  hentry c := by
    rw [Pipeline.ownSems0_none]
    have hq : ∀ w, (pdats 2 c).q w = fullShare := fun w => by rw [hp c]; rfl
    have hA : ∀ w, (pdats 2 c).A w = (fun b : Ref sig .tc => W₁ c b) (Pipeline.arrRef spec2 w) := fun w => by rw [hp c]; rfl
    have hsplit := Pipeline.arrays_of_unscopedBufs (p := 2) (pcfgs (F := F)) adm pdats launch2.win launch2.arr_whole c
      ((pdats 2 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; rw [hp c]; exact fun _ _ => Or.inl trivial
      rw [show (pdats 2 c).owed 0 = 0 from by rw [hp c]; rfl]
      iexact HO
    isplitl [Hp]; · iexact Hp
    iexact Hrest
  hin c := by
    rw [show (pdats 2 c).Φ 0 = Pipeline.ΦA spec2 c from by rw [hp c]; rfl]; unfold Pipeline.ΦA
    iintro ⟨Hp, -, Hr⟩
    isplitl [Hr]; · iexact Hr
    iexact Hp
  hout c := by
    rw [Pipeline.ownSems0_none, show (pdats 2 c).Φ (Fin.last _) = Pipeline.ΦA spec2 c from by rw [hp c]; rfl]; unfold Pipeline.ΦA
    iintro ⟨Hr, Hp⟩
    isplitl [Hp]; · iexact Hp
    isplitr; · iempintro
    iexact Hr
  hexit c := by
    have hq : ∀ w, (pdats 2 c).q w = fullShare := fun w => by rw [hp c]; rfl
    have hjoin := Pipeline.unscopedBufs_of_arrays (p := 2) (pcfgs (F := F)) adm (Ix := Unit) (Name := ℕ) (U := UR sig nD τ) (Lvl := ℕ)
      launch2.win launch2.arr_whole c pdats ((pdats 2 c).share_full hq)
      (fun b => W₁ c b) (fun b => W₂ c b) ((pdats 2 c).arrAt · cfg2.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 2 c).owed (Fin.last _) = 0 from by rw [hp c]; rfl]
    iexact HO

end Record

end Cert.Kernel.Hand

end
-- ==== Proof.KB.Reg3.lean ====
/-
  Region 3 of the kernel's @main: the linear kernel y = x·W + bias at widths 32 → 128, over a grid of
  ten row tiles of 10000 rows. Its four windows are the row tile of x (fetched at every point), the weight matrix
  and the bias row (whole, fetched once: their block index never moves), and the row tile of the result (written
  back at every point). The body reads the three input blocks whole and stores one value over the whole output
  block, so what a point leaves in the output's staging buffer is a pure function of the three input blocks
  (`out3_3`), and the inputs' buffers are left as found.

  Stated here, at any float model `F` and at a PARAMETER `V` (the core's buffer contents when the region is
  entered): each window's block at a point (`iblk3`), the body's triple (`sound_kernel3`), the pipeline's proof
  data (`dat3`), the body obligation (`body_obligation3`), and the region as a segment record (`reg3`) for any
  family of proof data whose member 3 is `dat3`, entered from every unscoped buffer at `W₁` and left at `W₂`, where
  `W₂` holds at each of the region's arrays what the pipeline's write-backs leave and elsewhere what `W₁` held.
-/
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, so the block kept from the point before is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): where the window is not
    fetched its block index has not moved, so the block kept from the point before is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): where the window is not
    fetched its block index has not moved, so the block kept from the point before is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_x : Rect S10000x32 := Rect.unit (s := S10000x32) ![0, 0] S10000x32.size inb_S10000x32_S10000x32_0_0
abbrev r3_w : Rect S32x128 := Rect.unit (s := S32x128) ![0, 0] S32x128.size inb_S32x128_S32x128_0_0
abbrev r3_b : Rect S1x128 := Rect.unit (s := S1x128) ![0, 0] S1x128.size inb_S1x128_S1x128_0_0
abbrev r3_o : Rect S10000x128 := Rect.unit (s := S10000x128) ![0, 0] S10000x128.size inb_S10000x128_S10000x128_0_0

/-! ## What the body leaves in the output window's buffer -/

/-- Window 3's staging buffer after the body, from the input windows' blocks: its one store, of the payload
    x·W + bias computed from the three blocks read whole. -/
def out3_3 (x0 : Vec F S10000x32 .f32) (x1 : Vec F S32x128 .f32) (x2 : Vec F S1x128 .f32) : Vec F S10000x128 .f32 :=
  View.canon [⟨r3_o, k3_pay1 (View.ld x0 r3_x) (View.ld x1 r3_w) (View.ld x2 r3_b)⟩]

/-- The one store is over the whole buffer, so it covers it. -/
theorem cover3_3 (p0 : Vec F S10000x128 .f32) (y : S10000x128.Idx) :
    ∃ pc ∈ ([⟨r3_o, p0⟩] : List (View.Piece (Elt F) S10000x128 .f32)), y ∈ pc.1.set :=
  View.cover_of_tiled [⟨r3_o, p0⟩] S10000x128.size (by rfl) y

/-! ## The body's triple -/

set_option maxHeartbeats 1000000 in
/-- The kernel body on whole staging memrefs, the inputs' at read contents `x0 x1 x2` and the output's at anything,
    runs to the continuation holding the inputs' as they were and the output's at `out3_3` of the inputs'. -/
theorem sound_kernel3 (c : Dev nD) (E : Set ℕ) (i : grid3.Coords) (arg1 : Memref sig .tc .vmem S10000x32 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x32 .f32) (x1 : Vec F S32x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the invariant is the scoped
    buffers no window stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest3 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 3 over the thread state "every unscoped buffer whole at a valuation, the generator register at some state,
    nothing owed": entered from the buffers at `W₁`, left at `W₂`, for any family of proof data whose member 3 is
    `dat3` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg3 (hp : ∀ c, pdats 3 c = dat3 (fun c b => W₁ c b) c)
    (hF : ∀ c w, (dat3 (F := F) (fun c b => W₁ c b) c).arrAt w cfg3.N = W₂ c (Pipeline.arrRef spec3 w))
    (hrest : ∀ c (b : Ref sig .tc), b ∉ Finset.univ.image (Pipeline.arrRef spec3) → W₂ c b = W₁ c b) :
    Pipeline.RegionSeg (pcfgs (F := F)) adm pdats () defs₀ Variants.none L lv 3 where
  win := launch3.win.to₀
  block_pos := launch3.block_pos
  stage_whole := launch3.stage_whole
  K := PEmpty
  osem k := k.elim
  ho := Pipeline.OwnSemFacts.none _
  hbody c := by rw [hp c]; exact (body_obligation3 (fun c b => W₁ c b) c).loose
  hwaits := Pipeline.hwaits_of_owed_zero _ _ _ _ L lv 3 fun c _ => by rw [hp c]; rfl
  pre c := iprop(StableHlo.held (c : Thread nD τ) (Pipeline.ucRefs τ sig) (W₁ c) ∗ rest3 c)
  post c := iprop(StableHlo.held (c : Thread nD τ) (Pipeline.ucRefs τ sig) (W₂ c) ∗ rest3 c)
  X c := iprop(∃ r, prngReg c r)
  Y c := iprop(∃ r, prngReg c r)
  Z c := Pipeline.unscopedRest (Ix := Unit) (Name := ℕ) (U := UR sig nD τ) (Lvl := ℕ) spec3 c (fun b => W₁ c b)
  hentry c := by
    rw [Pipeline.ownSems0_none]
    have hq : ∀ w, (pdats 3 c).q w = fullShare := fun w => by rw [hp c]; rfl
    have hA : ∀ w, (pdats 3 c).A w = (fun b : Ref sig .tc => W₁ c b) (Pipeline.arrRef spec3 w) := fun w => by rw [hp c]; rfl
    have hsplit := Pipeline.arrays_of_unscopedBufs (p := 3) (pcfgs (F := F)) adm pdats launch3.win launch3.arr_whole c
      ((pdats 3 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 3 c).Φ 0 = Pipeline.ΦA spec3 c from by rw [hp c]; rfl]; unfold Pipeline.ΦA
    iintro ⟨Hp, -, Hr⟩
    isplitl [Hr]; · iexact Hr
    iexact Hp
  hout c := by
    rw [Pipeline.ownSems0_none, show (pdats 3 c).Φ (Fin.last _) = Pipeline.ΦA spec3 c from by rw [hp c]; rfl]; unfold Pipeline.ΦA
    iintro ⟨Hr, Hp⟩
    isplitl [Hp]; · iexact Hp
    isplitr; · iempintro
    iexact Hr
  hexit c := by
    have hq : ∀ w, (pdats 3 c).q w = fullShare := fun w => by rw [hp c]; rfl
    have hjoin := Pipeline.unscopedBufs_of_arrays (p := 3) (pcfgs (F := F)) adm (Ix := Unit) (Name := ℕ) (U := UR sig nD τ) (Lvl := ℕ)
      launch3.win launch3.arr_whole c pdats ((pdats 3 c).share_full hq)
      (fun b => W₁ c b) (fun b => W₂ c b) ((pdats 3 c).arrAt · cfg3.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Record

/-! ## The exit valuation as an update of the entry valuation at the result's buffer -/

section Update

variable (W₁ : Dev nD → Valuation τ sig (Elt F))

/-- A property of the four windows, checked window by window. -/
private theorem fin4_cases {P : Fin 4 → Prop} (h0 : P 0) (h1 : P 1) (h2 : P 2) (h3 : P 3) : ∀ w, P w
  | ⟨0, _⟩ => h0
  | ⟨1, _⟩ => h1
  | ⟨2, _⟩ => h2
  | ⟨3, _⟩ => h3

/-- When the exit valuation is the entry valuation updated at the result's buffer `main_v61` with what the pipeline's
    write-backs leave in it, every array of the region holds there what the pipeline leaves: an input's array is never
    written and is not the result's buffer; the result's array is the updated one. -/
theorem hF3_update (c : Dev nD) (x : Buf (Elt F) ((c : Thread nD τ).loc main_v61))
    (hx : x = (dat3 (F := F) (fun c b => W₁ c b) c).arrAt 3 cfg3.N) :
    ∀ w, (dat3 (F := F) (fun c b => W₁ c b) c).arrAt w cfg3.N = Function.update (W₁ c) main_v61 x (Pipeline.arrRef spec3 w) :=
  fin4_cases (P := fun w => (dat3 (F := F) (fun c b => W₁ c b) c).arrAt w cfg3.N = Function.update (W₁ c) main_v61 x (Pipeline.arrRef spec3 w))
    (((dat3 (F := F) (fun c b => W₁ c b) c).arrAt_in 0 rfl _).trans ((A_eq3 (fun c b => W₁ c b) c 0).trans (Function.update_of_ne (StableHlo.devRef_ne_of_ne (by decide)) _ _).symm))
    (((dat3 (F := F) (fun c b => W₁ c b) c).arrAt_in 1 rfl _).trans ((A_eq3 (fun c b => W₁ c b) c 1).trans (Function.update_of_ne (StableHlo.devRef_ne_of_ne (by decide)) _ _).symm))
    (((dat3 (F := F) (fun c b => W₁ c b) c).arrAt_in 2 rfl _).trans ((A_eq3 (fun c b => W₁ c b) c 2).trans (Function.update_of_ne (StableHlo.devRef_ne_of_ne (by decide)) _ _).symm))
    (hx.symm.trans (Function.update_self (β := fun b : DevRef τ sig => b.ty.Contents (Elt F)) _ _ _).symm)

/-- and every buffer that is no array of the region holds what it held at entry. -/
theorem hrest3_update (c : Dev nD) (x : Buf (Elt F) ((c : Thread nD τ).loc main_v61)) :
    ∀ b : Ref sig .tc, b ∉ Finset.univ.image (Pipeline.arrRef spec3) → Function.update (W₁ c) main_v61 x b = W₁ c b :=
  fun b hb => Function.update_of_ne (StableHlo.devRef_ne_of_ne fun e => hb (Finset.mem_image.mpr ⟨3, Finset.mem_univ _, e.symm⟩)) _ _

end Update

end Cert.Kernel.Hand

end
-- ==== Proof.KB.Reg4Run.lean ====
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.KB.StatLib
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the second layer (128 columns): the body's three control cases

The body adds the bias row to its block of 10000 rows, adds the column sums of the result and of its square to two
carried rows, having first zeroed those rows at the first grid point, and at the last grid point divides both rows
by the number of rows and writes the mean and the mean of squares less the squared mean. -/

/-- The first conditional (zero the two carried rows): taken where the grid coordinate is 0. -/
abbrev cond4_0 (i : grid4.Coords) : Prop :=
  (Scalar.cmpi .ne (Scalar.extui (Scalar.cmpi .eq (BitVec.ofNat 32 (i 0).val) 0#32)) 0#32) = 1#1
/-- The second conditional (write the two outputs): taken where the grid coordinate is 9. -/
abbrev cond4_1 (i : grid4.Coords) : Prop := k4_cond2 i = 1#1

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 9 :=
  (by decide +kernel : ∀ t : Fin grid4.N, cond4_1 (grid4.coords t) ↔ t.val = 9)

set_option maxHeartbeats 1000000 in
/-- A middle grid point: neither conditional is taken; the carried rows `s5`, `s6` receive the block's column sums. -/
theorem sound_kernel4_B (c : Dev nD) (E : Set ℕ) (i : grid4.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬ cond4_0 i) (hc1 : ¬ cond4_1 i)
    (x0 : Vec F S10000x128 .f32) (x1 : Vec F S1x128 .f32) (s5 s6 : Vec F S1x128 .f32) (K : PUnit → sProp 𝕄) :
    iprop(owns (c : Thread nD τ) arg1 fullShare x0 ∗ owns (c : Thread nD τ) arg2 fullShare x1 ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg5 fullShare (k4_pay4 x0 x1 s5) ∗ owns (c : Thread nD τ) arg6 fullShare (k4_pay5 x0 x1 s6)) -∗ K ⟨⟩))
      ⊢ wp frame (wpE (defs₀ (F := F)) Variants.none c none) E (cc4__reduce_kernel i arg1 harg1 arg2 harg2 arg3 harg3 arg4 harg4 arg5 harg5 arg6 harg6) K := by
  simp only [cc4__reduce_kernel_eq_skeleton]; unfold cc4__reduce_kernel_skel
  unfold owns
  iintro ⟨⟨%f0, %hf0, H0⟩, ⟨%f1, %hf1, H1⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store _ _ stat_off2_zero]
    simp only [View.readAt_eq_ld, View.ld_unit_zero (S := S10000x128) stat_off2_zero, View.ld_unit_zero (S := S1x128) stat_off2_zero]
  · iexists _; isplitr
    swap; · iexact H6
    ipureintro
    rw [stat_read_store _ _ stat_off2_zero]
    simp only [View.readAt_eq_ld, View.ld_unit_zero (S := S10000x128) stat_off2_zero, View.ld_unit_zero (S := S1x128) stat_off2_zero]

set_option maxHeartbeats 1000000 in
/-- The first grid point: the carried rows are zeroed, whatever they held, then receive the block's column sums. -/
theorem sound_kernel4_A (c : Dev nD) (E : Set ℕ) (i : grid4.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (hc1 : ¬ cond4_1 i)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg5 fullShare (k4_pay4 x0 x1 k4_pay1) ∗ owns (c : Thread nD τ) arg6 fullShare (k4_pay5 x0 x1 k4_pay2)) -∗ K ⟨⟩))
      ⊢ wp frame (wpE (defs₀ (F := F)) Variants.none c none) E (cc4__reduce_kernel i arg1 harg1 arg2 harg2 arg3 harg3 arg4 harg4 arg5 harg5 arg6 harg6) K := by
  simp only [cc4__reduce_kernel_eq_skeleton]; unfold cc4__reduce_kernel_skel
  unfold owns
  iintro ⟨⟨%f0, %hf0, H0⟩, ⟨%f1, %hf1, H1⟩, ⟨%d5, %f5, -, H5⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store_cons _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"
  · iexists _; isplitr
    swap; · iexact H6
    ipureintro
    rw [stat_read_store_cons _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"

set_option maxHeartbeats 1000000 in
/-- The last grid point: the carried rows receive the block's column sums, then the two outputs are written from them. -/
theorem sound_kernel4_C (c : Dev nD) (E : Set ℕ) (i : grid4.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬ cond4_0 i) (hc1 : cond4_1 i)
    (x0 : Vec F S10000x128 .f32) (x1 : Vec F S1x128 .f32) (s5 s6 : Vec F S1x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg3 fullShare (k4_pay6 (k4_pay4 x0 x1 s5)) ∗ owns (c : Thread nD τ) arg4 fullShare (k4_pay7 (k4_pay4 x0 x1 s5) (k4_pay5 x0 x1 s6))
            ∗ owns (c : Thread nD τ) arg5 fullShare (k4_pay4 x0 x1 s5) ∗ owns (c : Thread nD τ) arg6 fullShare (k4_pay5 x0 x1 s6)) -∗ K ⟨⟩))
      ⊢ wp frame (wpE (defs₀ (F := F)) Variants.none c none) E (cc4__reduce_kernel i arg1 harg1 arg2 harg2 arg3 harg3 arg4 harg4 arg5 harg5 arg6 harg6) K := by
  simp only [cc4__reduce_kernel_eq_skeleton]; unfold cc4__reduce_kernel_skel
  unfold owns
  iintro ⟨⟨%f0, %hf0, H0⟩, ⟨%f1, %hf1, H1⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [stat_read_store _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"
  isplitl [H4]
  · iexists _; isplitr
    swap; · iexact H4
    ipureintro
    rw [stat_read_store _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"
  isplitl [H5]
  · iexists _; isplitr
    swap; · iexact H5
    ipureintro
    sl_unfold_run_names
    rw [stat_read_store_cons _ _ stat_off2_zero]
    first | (simp only [View.readAt_eq_ld, View.readCov_unit_zero (S := S1x128) _ stat_off2_zero, View.ld_unit_zero (S := S10000x128) stat_off2_zero, View.ld_unit_zero (S := S1x128) stat_off2_zero]) | fail "simp set did not close the read-back"
  · iexists _; isplitr
    swap; · iexact H6
    ipureintro
    sl_unfold_run_names
    rw [stat_read_store_cons _ _ stat_off2_zero]
    first | (simp only [View.readAt_eq_ld, View.readCov_unit_zero (S := S1x128) _ stat_off2_zero, View.ld_unit_zero (S := S10000x128) stat_off2_zero, View.ld_unit_zero (S := S1x128) stat_off2_zero]) | fail "simp set did not close the read-back"

end Cert.Kernel.Hand

end
-- ==== Proof.KB.Reg4.lean ====
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import proofs.«109725_j21638045237575_1_alg».proof.Proof.KB.Reg4Run
import Idealize.ShloMosaic.Lib.Pipeline.Frame
import Idealize.ShloMosaic.Lib.Pipeline.FrameBody
import Idealize.ShloMosaic.Lib.Pipeline.Kit
import Idealize.ShloMosaic.Lib.Pipeline.Regions
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the second layer (128 columns) as a region of @main

Ten grid points, each a block of 10000 rows of the aggregated features. Two rows of 128 are carried from point to
point in scratch memory: the column sums of (block + bias) and of its square over the blocks seen so far. The first
point zeroes them first; the last point writes mean = sum / 100000 and var = sumsq / 100000 − mean · mean into the
two outputs' staging buffers, which are written back there and nowhere else; at the other points the body leaves
the outputs' buffers as it found them. -/

section Region

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The block of aggregated rows is in its staging buffer at every point, for any proof data over `V` whose body
    leaves it there. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The bias row is in its staging buffer at every point (fetched once: its block index never moves). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The carried rows -/

/-- The two carried rows when the accumulation of point `t` starts: both zero at the first point (after its zeroing),
    and after each point the sums of (block + bias), and of its square, down the block's columns added — a fold of the
    body's payload terms over the blocks seen so far, first component the sums, second the sums of squares. -/
def scr4 (c : Dev nD) : ℕ → Vec F S1x128 .f32 × Vec F S1x128 .f32
  | 0 => (k4_pay1, k4_pay2)
  | t + 1 =>
    if h : t < cfg4.N then
      (k4_pay4 (iblk4 V c 0 ⟨t, h⟩) (iblk4 V c 1 ⟨t, h⟩) (scr4 c t).1,
       k4_pay5 (iblk4 V c 0 ⟨t, h⟩) (iblk4 V c 1 ⟨t, h⟩) (scr4 c t).2)
    else scr4 c t

theorem scr4_zero (c : Dev nD) : scr4 V c 0 = (k4_pay1, k4_pay2) := by rw [scr4]

/-- One point's step of the fold. -/
theorem scr4_succ (c : Dev nD) (t : Fin cfg4.N) :
    scr4 V c (t.val + 1) = (k4_pay4 (iblk4 V c 0 t) (iblk4 V c 1 t) (scr4 V c t.val).1,
      k4_pay5 (iblk4 V c 0 t) (iblk4 V c 1 t) (scr4 V c t.val).2) := by
  rw [scr4, dif_pos t.isLt]

/-- The scratch rows between points, as the invariant holds them: before the first point at anything, before point
    `n > 0` at the fold's value there. -/
def scrAt4 (c : Dev nD) (n : ℕ) : sProp 𝕄 :=
  if n = 0 then
    iprop((∃ d, owns (c : Thread nD τ) (Memref.whole cc4_scratch0 : Memref sig .tc .vmem S1x128 .f32) fullShare d) ∗ (∃ d, owns (c : Thread nD τ) (Memref.whole cc4_scratch1 : Memref sig .tc .vmem S1x128 .f32) fullShare d))
  else
    iprop(owns (c : Thread nD τ) (Memref.whole cc4_scratch0 : Memref sig .tc .vmem S1x128 .f32) fullShare (scr4 V c n).1 ∗ owns (c : Thread nD τ) (Memref.whole cc4_scratch1 : Memref sig .tc .vmem S1x128 .f32) fullShare (scr4 V c n).2)

theorem scrAt4_zero (c : Dev nD) :
    scrAt4 V c 0 = iprop((∃ d, owns (c : Thread nD τ) (Memref.whole cc4_scratch0 : Memref sig .tc .vmem S1x128 .f32) fullShare d) ∗ (∃ d, owns (c : Thread nD τ) (Memref.whole cc4_scratch1 : Memref sig .tc .vmem S1x128 .f32) fullShare d)) := by
  unfold scrAt4; rw [if_pos rfl]

theorem scrAt4_pos (c : Dev nD) (n : ℕ) (h : n ≠ 0) :
    scrAt4 V c n = iprop(owns (c : Thread nD τ) (Memref.whole cc4_scratch0 : Memref sig .tc .vmem S1x128 .f32) fullShare (scr4 V c n).1 ∗ owns (c : Thread nD τ) (Memref.whole cc4_scratch1 : Memref sig .tc .vmem S1x128 .f32) fullShare (scr4 V c n).2) := by
  unfold scrAt4; rw [if_neg h]

/-! ## The pipeline's proof data -/

/-- The proof data of the pipeline on core `c`: the arrays as the region finds them; each input's buffer left at its
    block; the mean's and the variance's buffers, where the body stores them (the last point), at the body's two last
    payload terms of the carried rows after that point's accumulation; the invariant the scoped buffers other than
    the two scratch rows, the generator register, and the scratch rows at the fold's value; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay6 (scr4 V c (t.val + 1)).1
    | ⟨3, _⟩ => k4_pay7 (scr4 V c (t.val + 1)).1 (scr4 V c (t.val + 1)).2
  Φ t := iprop(Pipeline.scopedRestBut (Ix := Unit) (Name := ℕ) (U := UR sig nD τ) (Lvl := ℕ) (Val := Elt F) spec4 c [cc4_scratch0, cc4_scratch1]
    ∗ (∃ r, prngReg c r) ∗ scrAt4 V c t.val)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay6 (scr4 V c (t.val + 1)).1 := by dsimp only [dat4]
theorem after4_3 (c : Dev nD) (t : Fin cfg4.N) :
    (dat4 V c).after 3 t = k4_pay7 (scr4 V c (t.val + 1)).1 (scr4 V c (t.val + 1)).2 := by dsimp only [dat4]

theorem Φ4_eq (c : Dev nD) (t : Fin (cfg4.N + 1)) :
    (dat4 V c).Φ t = iprop(Pipeline.scopedRestBut (Ix := Unit) (Name := ℕ) (U := UR sig nD τ) (Lvl := ℕ) (Val := Elt F) spec4 c [cc4_scratch0, cc4_scratch1]
      ∗ (∃ r, prngReg c r) ∗ scrAt4 V c t.val) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The two outputs' buffers are idle (the body stores nothing there) at every point but the last, -/
theorem idle4_2 : ∀ t : Fin cfg4.N, cfg4.idle 2 (cfg4.grid.coords t) = true ↔ t.val ≠ 9 :=
  (by decide +kernel : ∀ t : Fin grid4.N, cfg4.idle 2 (grid4.coords t) = true ↔ t.val ≠ 9)
theorem idle4_3 : ∀ t : Fin cfg4.N, cfg4.idle 3 (cfg4.grid.coords t) = true ↔ t.val ≠ 9 :=
  (by decide +kernel : ∀ t : Fin grid4.N, cfg4.idle 3 (grid4.coords t) = true ↔ t.val ≠ 9)

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns: the two outputs' buffers as found where they are idle, at the stated contents at the last point. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ (dat4 V c).leavesExact 2 t
    ∗ (dat4 V c).leavesExact 3 t)

set_option maxHeartbeats 1000000 in
/-- The body at any point, by the three control cases: at the first point the scratch rows are found at anything and
    left at the fold's first step; at a middle point found at the fold's value and left at its next; at the last point
    also the two outputs' buffers, found at anything, are left at the mean and the variance of the final rows. The
    rest of the invariant and the core's `owes` pass through unread; where an output's buffer is idle it is handed back
    as it was found. -/
theorem sound_body4 (c : Dev nD) (t : Fin cfg4.N) :
    bodyPre4 V c t ⊢ wp frame (wpE (defs₀ (F := F)) Variants.none c none) Set.univ (bodyAt4 t) (fun _ => bodyPost4 V c t) := by
  have hlt : t.val < 10 := by
    have h := t.isLt
    have hN : cfg4.N = 10 := N_4
    omega
  unfold bodyPre4 bodyPost4 bodyAt4
  simp only [before4_0, before4_1]
  rw [show (dat4 V c).owesAt () t.succ = (dat4 V c).owesAt () t.castSucc from rfl, after4_0, after4_1,
    Φ4_eq, Φ4_eq, Fin.val_succ, Fin.val_castSucc, scrAt4_pos V c (t.val + 1) (Nat.succ_ne_zero _), scr4_succ]
  by_cases h0 : t.val = 0
  · -- the first point
    have h9 : t.val ≠ 9 := by omega
    have hc0 : cond4_0 (grid4.coords t) := (hcond4_0 t).mpr h0
    have hc1 : ¬ cond4_1 (grid4.coords t) := fun h => h9 ((hcond4_1 t).mp h)
    rw [Dat.leavesExact_idle _ 2 t ((idle4_2 t).mpr h9) (by rw [Bool.eq_false_iff]; intro h; have := (flush4_2 t).mp h; omega),
      Dat.leavesExact_idle _ 3 t ((idle4_3 t).mpr h9) (by rw [Bool.eq_false_iff]; intro h; have := (flush4_3 t).mp h; omega),
      h0, scrAt4_zero, scr4_zero]
    iintro ⟨⟨Hrest, Hprng, H5, H6⟩, Ho, ⟨%d0, H0⟩, ⟨%d1, H1⟩, H2, H3⟩
    iapply (sound_kernel4_A c Set.univ (grid4.coords t) _ _ _ _ _ _ _ _ _ _ _ _ hc0 hc1 (iblk4 V c 0 t) (iblk4 V c 1 t) _)
    isplitl [H0]; · iexact H0
    isplitl [H1]; · iexact H1
    isplitl [H5]; · iexact H5
    isplitl [H6]; · iexact H6
    iintro ⟨H0, H1, H5, H6⟩
    isplitl [Hrest Hprng H5 H6]
    · isplitl [Hrest]; · iexact Hrest
      isplitl [Hprng]; · iexact Hprng
      isplitl [H5]; · iexact H5
      iexact H6
    isplitl [Ho]; · iexact Ho
    isplitl [H0]; · iexact H0
    isplitl [H1]; · iexact H1
    isplitl [H2]; · iexact H2
    iexact H3
  · by_cases h9 : t.val = 9
    · -- the last point
      have hc0 : ¬ cond4_0 (grid4.coords t) := fun h => h0 ((hcond4_0 t).mp h)
      have hc1 : cond4_1 (grid4.coords t) := (hcond4_1 t).mpr h9
      have hi2 : cfg4.idle 2 (cfg4.grid.coords t) = false := by
        rw [Bool.eq_false_iff]; intro h; exact (idle4_2 t).mp h h9
      have hi3 : cfg4.idle 3 (cfg4.grid.coords t) = false := by
        rw [Bool.eq_false_iff]; intro h; exact (idle4_3 t).mp h h9
      rw [scrAt4_pos V c t.val h0]
      unfold Dat.leavesExact
      rw [hi2]
      try rw [hi3]
      dsimp only
      rw [after4_2, after4_3, scr4_succ]
      iintro ⟨⟨Hrest, Hprng, H5, H6⟩, Ho, ⟨%d0, H0⟩, ⟨%d1, H1⟩, ⟨%d2, H2⟩, ⟨%d3, H3⟩⟩
      iapply (sound_kernel4_C c Set.univ (grid4.coords t) _ _ _ _ _ _ _ _ _ _ _ _ hc0 hc1 (iblk4 V c 0 t) (iblk4 V c 1 t)
        (scr4 V c t.val).1 (scr4 V c t.val).2 _)
      isplitl [H0]; · iexact H0
      isplitl [H1]; · iexact H1
      isplitl [H2]; · iexists _; iexact H2
      isplitl [H3]; · iexists _; iexact H3
      isplitl [H5]; · iexact H5
      isplitl [H6]; · iexact H6
      iintro ⟨H0, H1, H2, H3, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3
    · -- a middle point
      have hc0 : ¬ cond4_0 (grid4.coords t) := fun h => h0 ((hcond4_0 t).mp h)
      have hc1 : ¬ cond4_1 (grid4.coords t) := fun h => h9 ((hcond4_1 t).mp h)
      rw [Dat.leavesExact_idle _ 2 t ((idle4_2 t).mpr h9) (by rw [Bool.eq_false_iff]; intro h; have := (flush4_2 t).mp h; omega),
        Dat.leavesExact_idle _ 3 t ((idle4_3 t).mpr h9) (by rw [Bool.eq_false_iff]; intro h; have := (flush4_3 t).mp h; omega),
        scrAt4_pos V c t.val h0]
      iintro ⟨⟨Hrest, Hprng, H5, H6⟩, Ho, ⟨%d0, H0⟩, ⟨%d1, H1⟩, H2, H3⟩
      iapply (sound_kernel4_B c Set.univ (grid4.coords t) _ _ _ _ _ _ _ _ _ _ _ _ hc0 hc1 (iblk4 V c 0 t) (iblk4 V c 1 t)
        (scr4 V c t.val).1 (scr4 V c t.val).2 _)
      isplitl [H0]; · iexact H0
      isplitl [H1]; · iexact H1
      isplitl [H5]; · iexact H5
      isplitl [H6]; · iexact H6
      iintro ⟨H0, H1, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest4 (c : Dev nD) : sProp 𝕄 := iprop((∃ r, prngReg c r) ∗ ∃ W, owes (c : Thread nD τ) (0 : CellTallies nD τ sig Unit) W)

/-- The grid is not empty. -/
theorem N4_ne_zero : cfg4.N ≠ 0 := by
  show grid4.N ≠ 0
  rw [N_4]; decide

-- a library lemma stated over the pinned configuration unifies with the printed one only when unification may unfold
-- plain definitions in a metavariable's type
set_option backward.isDefEq.respectTransparency.types false in
/-- The region over the thread state "every unscoped buffer whole at a valuation, the generator register at some state,
    nothing owed": entered from the buffers at `W₁`, left at `W₂`, for any family of proof data whose member 4 is
    `dat4` at `W₁` (`hp`), when `W₂` has each of the region's arrays at what the pipeline leaves there (`hF`) and every
    other buffer as `W₁` (`hrest`). The arrays are split out of the unscoped buffers at entry and put back at exit; the
    generator register goes into the invariant and comes back; of the scoped buffers no window stages, the kernel's two
    scratch rows are split off into the invariant at entry (held at anything before the first point) and, at the fold's
    last value, forgotten back into them at exit; the kernel has no semaphore of its own. -/
def reg4 (hp : ∀ c, pdats 4 c = dat4 (fun c b => W₁ c b) c)
    (hF : ∀ c w, (dat4 (F := F) (fun c b => W₁ c b) c).arrAt w cfg4.N = W₂ c (Pipeline.arrRef spec4 w))
    (hrest : ∀ c (b : Ref sig .tc), b ∉ Finset.univ.image (Pipeline.arrRef spec4) → W₂ c b = W₁ c b) :
    Pipeline.RegionSeg (pcfgs (F := F)) adm pdats () defs₀ Variants.none L lv 4 where
  win := launch4.win.to₀
  block_pos := launch4.block_pos
  stage_whole := launch4.stage_whole
  K := PEmpty
  osem k := k.elim
  ho := Pipeline.OwnSemFacts.none _
  hbody c := by rw [hp c]; exact (body_obligation4 (fun c b => W₁ c b) c).loose
  hwaits := Pipeline.hwaits_of_owed_zero _ _ _ _ L lv 4 fun c _ => by rw [hp c]; rfl
  pre c := iprop(StableHlo.held (c : Thread nD τ) (Pipeline.ucRefs τ sig) (W₁ c) ∗ rest4 c)
  post c := iprop(StableHlo.held (c : Thread nD τ) (Pipeline.ucRefs τ sig) (W₂ c) ∗ rest4 c)
  X c := iprop(∃ r, prngReg c r)
  Y c := iprop(∃ r, prngReg c r)
  Z c := Pipeline.unscopedRest (Ix := Unit) (Name := ℕ) (U := UR sig nD τ) (Lvl := ℕ) spec4 c (fun b => W₁ c b)
  hentry c := by
    rw [Pipeline.ownSems0_none]
    have hq : ∀ w, (pdats 4 c).q w = fullShare := fun w => by rw [hp c]; rfl
    have hA : ∀ w, (pdats 4 c).A w = (fun b : Ref sig .tc => W₁ c b) (Pipeline.arrRef spec4 w) := fun w => by rw [hp c]; rfl
    have hsplit := Pipeline.arrays_of_unscopedBufs (p := 4) (pcfgs (F := F)) adm pdats launch4.win launch4.arr_whole c
      ((pdats 4 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; trivial)
      rw [show (pdats 4 c).owed 0 = 0 from by rw [hp c]; rfl]
      iexact HO
    isplitl [Hp]; · iexact Hp
    iexact Hrest
  hin c := by
    rw [show (pdats 4 c).Φ 0 = (dat4 (fun c b => W₁ c b) c).Φ 0 from by rw [hp c], Φ4_eq,
      show ((0 : Fin (cfg4.N + 1)).val) = 0 from rfl, scrAt4_zero,
      show (Pipeline.scopedRest (Pipeline.pin (pcfgs (F := F)) adm 4).spec c : sProp 𝕄) = _ from
        scopedRest4_split (Ix := Unit) (Val := Elt F) (Name := ℕ) (U := UR sig nD τ) (Lvl := ℕ) c]
    simp only [owns_whole]
    iintro ⟨Hp, -, ⟨H5, H6⟩, Hr⟩
    isplitl [Hr]; · iexact Hr
    isplitl [Hp]; · iexact Hp
    isplitl [H5]; · iexact H5
    iexact H6
  hout c := by
    rw [Pipeline.ownSems0_none, show (pdats 4 c).Φ (Fin.last _) = (dat4 (fun c b => W₁ c b) c).Φ (Fin.last cfg4.N) from by rw [hp c]; rfl, Φ4_eq,
      Fin.val_last, scrAt4_pos _ c cfg4.N N4_ne_zero,
      show (Pipeline.scopedRest (Pipeline.pin (pcfgs (F := F)) adm 4).spec c : sProp 𝕄) = _ from
        scopedRest4_split (Ix := Unit) (Val := Elt F) (Name := ℕ) (U := UR sig nD τ) (Lvl := ℕ) c]
    simp only [owns_whole]
    iintro ⟨Hr, Hp, H5, H6⟩
    isplitl [Hp]; · iexact Hp
    isplitr; · iempintro
    isplitl [H5 H6]
    · isplitl [H5]
      · iexists _; iexact H5
      iexists _; iexact H6
    iexact Hr
  hexit c := by
    have hq : ∀ w, (pdats 4 c).q w = fullShare := fun w => by rw [hp c]; rfl
    have hjoin := Pipeline.unscopedBufs_of_arrays (p := 4) (pcfgs (F := F)) adm (Ix := Unit) (Name := ℕ) (U := UR sig nD τ) (Lvl := ℕ)
      launch4.win launch4.arr_whole c pdats ((pdats 4 c).share_full hq)
      (fun b => W₁ c b) (fun b => W₂ c b) ((pdats 4 c).arrAt · cfg4.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 4 c).owed (Fin.last _) = 0 from by rw [hp c]; rfl]
    iexact HO

end Record

end Cert.Kernel.Hand

end
-- ==== Proof.KB.Reg4Upd.lean ====
import proofs.«109725_j21638045237575_1_alg».proof.Proof.KB.Reg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region's exit valuation as an update of its entry valuation at the two results' buffers -/

section Update

variable (W₁ : Dev nD → Valuation τ sig (Elt F))

/-- Updating a valuation at the mean's buffer and at the variance's changes no other buffer. -/
theorem update4_of_ne (c : Dev nD) (x0 : Buf (Elt F) ((c : Thread nD τ).loc main_v81_0)) (x1 : Buf (Elt F) ((c : Thread nD τ).loc main_v81_1))
    (b : Ref sig .tc) (h0 : b ≠ main_v81_0) (h1 : b ≠ main_v81_1) :
    Function.update (Function.update (W₁ c) main_v81_0 x0) main_v81_1 x1 b = W₁ c b :=
  (Function.update_of_ne (StableHlo.devRef_ne_of_ne h1) x1 (Function.update (W₁ c) main_v81_0 x0)).trans
    (Function.update_of_ne (StableHlo.devRef_ne_of_ne h0) x0 (W₁ c))

/-- The update read at the variance's buffer, -/
theorem update4_at_3 (c : Dev nD) (x0 : Buf (Elt F) ((c : Thread nD τ).loc main_v81_0)) (x1 : Buf (Elt F) ((c : Thread nD τ).loc main_v81_1)) : Function.update (Function.update (W₁ c) main_v81_0 x0) main_v81_1 x1 main_v81_1 = x1 :=
  Function.update_self (β := fun b : DevRef τ sig => b.ty.Contents (Elt F)) (Proc.devRef .tc main_v81_1) x1 (Function.update (W₁ c) main_v81_0 x0)

/-- and at the mean's. -/
theorem update4_at_2 (c : Dev nD) (x0 : Buf (Elt F) ((c : Thread nD τ).loc main_v81_0)) (x1 : Buf (Elt F) ((c : Thread nD τ).loc main_v81_1)) : Function.update (Function.update (W₁ c) main_v81_0 x0) main_v81_1 x1 main_v81_0 = x0 :=
  (Function.update_of_ne (StableHlo.devRef_ne_of_ne (show (main_v81_0 : Ref sig .tc) ≠ main_v81_1 by decide)) x1 (Function.update (W₁ c) main_v81_0 x0)).trans
    (Function.update_self (β := fun b : DevRef τ sig => b.ty.Contents (Elt F)) (Proc.devRef .tc main_v81_0) x0 (W₁ c))

theorem hF4_update_0 (c : Dev nD) (x0 : Buf (Elt F) ((c : Thread nD τ).loc main_v81_0)) (x1 : Buf (Elt F) ((c : Thread nD τ).loc main_v81_1)) :
    (dat4 (F := F) (fun c b => W₁ c b) c).arrAt 0 cfg4.N = Function.update (Function.update (W₁ c) main_v81_0 x0) main_v81_1 x1 (Pipeline.arrRef spec4 0) :=
  ((dat4 (F := F) (fun c b => W₁ c b) c).arrAt_in 0 rfl _).trans ((A_eq4 (fun c b => W₁ c b) c 0).trans
      (update4_of_ne W₁ c x0 x1 (Pipeline.arrRef spec4 0) (by decide) (by decide)).symm)

theorem hF4_update_1 (c : Dev nD) (x0 : Buf (Elt F) ((c : Thread nD τ).loc main_v81_0)) (x1 : Buf (Elt F) ((c : Thread nD τ).loc main_v81_1)) :
    (dat4 (F := F) (fun c b => W₁ c b) c).arrAt 1 cfg4.N = Function.update (Function.update (W₁ c) main_v81_0 x0) main_v81_1 x1 (Pipeline.arrRef spec4 1) :=
  ((dat4 (F := F) (fun c b => W₁ c b) c).arrAt_in 1 rfl _).trans ((A_eq4 (fun c b => W₁ c b) c 1).trans
      (update4_of_ne W₁ c x0 x1 (Pipeline.arrRef spec4 1) (by decide) (by decide)).symm)

theorem hF4_update_2 (c : Dev nD) (x0 : Buf (Elt F) ((c : Thread nD τ).loc main_v81_0)) (x1 : Buf (Elt F) ((c : Thread nD τ).loc main_v81_1)) (hx0 : x0 = (dat4 (F := F) (fun c b => W₁ c b) c).arrAt 2 cfg4.N) :
    (dat4 (F := F) (fun c b => W₁ c b) c).arrAt 2 cfg4.N = Function.update (Function.update (W₁ c) main_v81_0 x0) main_v81_1 x1 (Pipeline.arrRef spec4 2) :=
  hx0.symm.trans (update4_at_2 W₁ c x0 x1).symm

theorem hF4_update_3 (c : Dev nD) (x0 : Buf (Elt F) ((c : Thread nD τ).loc main_v81_0)) (x1 : Buf (Elt F) ((c : Thread nD τ).loc main_v81_1)) (hx1 : x1 = (dat4 (F := F) (fun c b => W₁ c b) c).arrAt 3 cfg4.N) :
    (dat4 (F := F) (fun c b => W₁ c b) c).arrAt 3 cfg4.N = Function.update (Function.update (W₁ c) main_v81_0 x0) main_v81_1 x1 (Pipeline.arrRef spec4 3) :=
  hx1.symm.trans (update4_at_3 W₁ c x0 x1).symm

/-- When the exit valuation is the entry valuation updated at the mean's buffer and at the variance's with what the
    pipeline's write-backs leave in them, every array of the region holds there what the pipeline leaves: an input's
    array is never written and is neither result's buffer; each result's array is its updated one. -/
theorem hF4_update (c : Dev nD) (x0 : Buf (Elt F) ((c : Thread nD τ).loc main_v81_0)) (x1 : Buf (Elt F) ((c : Thread nD τ).loc main_v81_1))
    (hx0 : x0 = (dat4 (F := F) (fun c b => W₁ c b) c).arrAt 2 cfg4.N) (hx1 : x1 = (dat4 (F := F) (fun c b => W₁ c b) c).arrAt 3 cfg4.N) :
    ∀ w, (dat4 (F := F) (fun c b => W₁ c b) c).arrAt w cfg4.N = Function.update (Function.update (W₁ c) main_v81_0 x0) main_v81_1 x1 (Pipeline.arrRef spec4 w)
  | ⟨0, _⟩ => hF4_update_0 W₁ c x0 x1
  | ⟨1, _⟩ => hF4_update_1 W₁ c x0 x1
  | ⟨2, _⟩ => hF4_update_2 W₁ c x0 x1 hx0
  | ⟨3, _⟩ => hF4_update_3 W₁ c x0 x1 hx1

/-- and every buffer that is no array of the region holds what it held at entry. -/
theorem hrest4_update (c : Dev nD) (x0 : Buf (Elt F) ((c : Thread nD τ).loc main_v81_0)) (x1 : Buf (Elt F) ((c : Thread nD τ).loc main_v81_1)) :
    ∀ b : Ref sig .tc, b ∉ Finset.univ.image (Pipeline.arrRef spec4) → Function.update (Function.update (W₁ c) main_v81_0 x0) main_v81_1 x1 b = W₁ c b :=
  fun b hb => update4_of_ne W₁ c x0 x1 b
    (fun e => hb (Finset.mem_image.mpr ⟨2, Finset.mem_univ _, e.symm⟩))
    (fun e => hb (Finset.mem_image.mpr ⟨3, Finset.mem_univ _, e.symm⟩))

end Update

end Cert.Kernel.Hand

end
-- ==== Proof.KB.Reg5Body.lean ====
/-
  Region 5 of the kernel's @main: the normalise + LeakyReLU kernel at width 128, over a grid of ten row
  tiles of 10000 rows. Its seven windows are the row tile of the aggregated features (fetched at every point), five
  rows of 128 entries — the bias, the batch mean, the batch variance, the scale and the shift — (whole, fetched once:
  their block index never moves), and the row tile of the result (written back at every point). The body reads the
  six input blocks whole, computes h = agg + bias, inv = rsqrt(var + eps), hn = (h − mean)·inv·scale + shift and
  stores where(hn ≥ 0, hn, slope·hn) over the whole output block, so what a point leaves in the output's staging
  buffer is a pure function of the six input blocks (`out5_6`), and the inputs' buffers are left as found.

  Stated here, at any float model `F` and at a PARAMETER `V` (the core's buffer contents when the region is
  entered): each window's block at a point (`iblk5`), the body's triple (`sound_kernel5`), the pipeline's proof
  data (`dat5`), the body obligation (`body_obligation5`), and the region as a segment record (`reg5`) for any
  family of proof data whose member 5 is `dat5`, entered from every unscoped buffer at `W₁` and left at `W₂`, where
  `W₂` holds at each of the region's arrays what the pipeline's write-backs leave and elsewhere what `W₁` held.
-/
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): where the window is not
    fetched its block index has not moved, so the block kept from the point before is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof
    data whose array is `V`'s (`hA`) and whose body leaves the block in place (`hafter`): where the window is not
    fetched its block index has not moved, so the block kept from the point before is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof
    data whose array is `V`'s (`hA`) and whose body leaves the block in place (`hafter`): where the window is not
    fetched its block index has not moved, so the block kept from the point before is this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof
    data whose array is `V`'s (`hA`) and whose body leaves the block in place (`hafter`): where the window is not
    fetched its block index has not moved, so the block kept from the point before is this point's. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for any proof
    data whose array is `V`'s (`hA`) and whose body leaves the block in place (`hafter`): where the window is not
    fetched its block index has not moved, so the block kept from the point before is this point's. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not, for any proof
    data whose array is `V`'s (`hA`) and whose body leaves the block in place (`hafter`): where the window is not
    fetched its block index has not moved, so the block kept from the point before is this point's. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_x : Rect S10000x128 := Rect.unit (s := S10000x128) ![0, 0] S10000x128.size inb_S10000x128_S10000x128_0_0
abbrev r5_r : Rect S1x128 := Rect.unit (s := S1x128) ![0, 0] S1x128.size inb_S1x128_S1x128_0_0
abbrev r5_o : Rect S10000x128 := Rect.unit (s := S10000x128) ![0, 0] S10000x128.size inb_S10000x128_S10000x128_0_0

/-! ## What the body leaves in the output window's buffer -/

/-- Window 6's staging buffer after the body, from the input windows' blocks (the row tile, the bias, the mean, the
    variance, the scale and the shift, in the windows' order): its one store, of the normalised and rectified tile
    computed from the six blocks read whole. The payload takes the variance before the mean, as the body reads them. -/
def out5_6 (x0 : Vec F S10000x128 .f32) (x1 : Vec F S1x128 .f32) (x2 : Vec F S1x128 .f32) (x3 : Vec F S1x128 .f32) (x4 : Vec F S1x128 .f32) (x5 : Vec F S1x128 .f32) : Vec F S10000x128 .f32 :=
  View.canon [⟨r5_o, k5_pay1 (View.ld x0 r5_x) (View.ld x1 r5_r) (View.ld x3 r5_r) (View.ld x2 r5_r) (View.ld x4 r5_r) (View.ld x5 r5_r)⟩]

/-- The one store is over the whole buffer, so it covers it. -/
theorem cover5_6 (p0 : Vec F S10000x128 .f32) (y : S10000x128.Idx) :
    ∃ pc ∈ ([⟨r5_o, p0⟩] : List (View.Piece (Elt F) S10000x128 .f32)), y ∈ pc.1.set :=
  View.cover_of_tiled [⟨r5_o, p0⟩] S10000x128.size (by rfl) y

/-! ## The body's triple -/

set_option maxHeartbeats 1000000 in
/-- The kernel body on whole staging memrefs, the inputs' at read contents `x0 … x5` and the output's at anything,
    runs to the continuation holding the inputs' as they were and the output's at `out5_6` of the inputs'. -/
theorem sound_kernel5 (c : Dev nD) (E : Set ℕ) (i : grid5.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole)
    (x0 : Vec F S10000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__norm_kernel i arg1 harg1 arg2 harg2 arg3 harg3 arg4 harg4 arg5 harg5 arg6 harg6 arg7 harg7) K := by
  simp only [cc5__norm_kernel_eq_skeleton]; unfold cc5__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: the arrays as the region finds them (`V`); after the body at point `t`
    each input's buffer at its block and the output's at `out5_6` of the input blocks; the invariant is the scoped
    buffers no window stages and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region

end Cert.Kernel.Hand

end
-- ==== Proof.KB.Reg5.lean ====
/-
  Region 5 of the kernel's @main (the normalise + LeakyReLU kernel at width 128) as a segment of @main:
  the record `reg5` for any family of proof data whose member 5 is `dat5`, entered from every unscoped buffer at
  `W₁` and left at `W₂`, where `W₂` holds at each of the region's arrays what the pipeline's write-backs leave and
  elsewhere what `W₁` held; and the two facts that make `W₂ := W₁` updated at the output array `main_v85` such a
  valuation (`hF5_update`, `hrest5_update`): the six input arrays are never written back, so they end as
  entered, and the output array is the only one of the region's arrays that differs.
-/
import proofs.«109725_j21638045237575_1_alg».proof.Proof.KB.Reg5Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The exit valuation: the entry valuation updated at the output array -/

section Update

variable (W₁ : Dev nD → Valuation τ sig (Elt F)) (c : Dev nD) (x : Buf (Elt F) ((c : Thread nD τ).loc main_v85))

/-- An input window's array is never written back, so after all the points it holds what the region found, and the
    update at the output array does not touch it. -/
theorem hF5_in (w : Fin cfg5.W) (hin : (cfg5.win w).isOut = false) (hne : Pipeline.arrRef spec5 w ≠ main_v85) :
    (dat5 (F := F) (fun c b => W₁ c b) c).arrAt w cfg5.N = Function.update (W₁ c) main_v85 x (Pipeline.arrRef spec5 w) :=
  ((dat5 (F := F) (fun c b => W₁ c b) c).arrAt_in w hin _).trans
    ((A_eq5 (fun c b => W₁ c b) c w).trans (Function.update_of_ne (StableHlo.devRef_ne_of_ne hne) _ _).symm)

/-- Every window but the last is an input, staged from an array other than the output array. -/
theorem in_ne5 : ∀ w : Fin cfg5.W, w ≠ 6 → (cfg5.win w).isOut = false ∧ Pipeline.arrRef spec5 w ≠ main_v85 := by decide

/-- Each of the region's arrays after all the points is what the entry valuation updated at the output array holds
    there, when the update's value `x` is what the pipeline's write-backs leave in the output array. -/
theorem hF5_update (hx : x = (dat5 (F := F) (fun c b => W₁ c b) c).arrAt 6 cfg5.N) :
    ∀ w : Fin cfg5.W, (dat5 (F := F) (fun c b => W₁ c b) c).arrAt w cfg5.N = Function.update (W₁ c) main_v85 x (Pipeline.arrRef spec5 w) := fun w => by
  by_cases h : w = 6
  · subst h hx
    exact (Function.update_self (Proc.devRef .tc main_v85 : DevRef τ sig) _ (W₁ c)).symm
  · exact hF5_in W₁ c x w (in_ne5 w h).1 (in_ne5 w h).2

/-- Every buffer that is none of the region's arrays is not the output array, so the update leaves it as entered. -/
theorem hrest5_update : ∀ b : Ref sig .tc, b ∉ Finset.univ.image (Pipeline.arrRef spec5) → Function.update (W₁ c) main_v85 x b = W₁ c b :=
  fun b hb => Function.update_of_ne (StableHlo.devRef_ne_of_ne fun e =>
    hb (Finset.mem_image.mpr ⟨6, Finset.mem_univ _, (e.symm : Pipeline.arrRef spec5 6 = b)⟩)) _ _

end Update

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest5 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 5 over the thread state "every unscoped buffer whole at a valuation, the generator register at some state,
    nothing owed": entered from the buffers at `W₁`, left at `W₂`, for any family of proof data whose member 5 is
    `dat5` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg5 (hp : ∀ c, pdats 5 c = dat5 (fun c b => W₁ c b) c)
    (hF : ∀ c w, (dat5 (F := F) (fun c b => W₁ c b) c).arrAt w cfg5.N = W₂ c (Pipeline.arrRef spec5 w))
    (hrest : ∀ c (b : Ref sig .tc), b ∉ Finset.univ.image (Pipeline.arrRef spec5) → W₂ c b = W₁ c b) :
    Pipeline.RegionSeg (pcfgs (F := F)) adm pdats () defs₀ Variants.none L lv 5 where
  win := launch5.win.to₀
  block_pos := launch5.block_pos
  stage_whole := launch5.stage_whole
  K := PEmpty
  osem k := k.elim
  ho := Pipeline.OwnSemFacts.none _
  hbody c := by rw [hp c]; exact (body_obligation5 (fun c b => W₁ c b) c).loose
  hwaits := Pipeline.hwaits_of_owed_zero _ _ _ _ L lv 5 fun c _ => by rw [hp c]; rfl
  pre c := iprop(StableHlo.held (c : Thread nD τ) (Pipeline.ucRefs τ sig) (W₁ c) ∗ rest5 c)
  post c := iprop(StableHlo.held (c : Thread nD τ) (Pipeline.ucRefs τ sig) (W₂ c) ∗ rest5 c)
  X c := iprop(∃ r, prngReg c r)
  Y c := iprop(∃ r, prngReg c r)
  Z c := Pipeline.unscopedRest (Ix := Unit) (Name := ℕ) (U := UR sig nD τ) (Lvl := ℕ) spec5 c (fun b => W₁ c b)
  hentry c := by
    rw [Pipeline.ownSems0_none]
    have hq : ∀ w, (pdats 5 c).q w = fullShare := fun w => by rw [hp c]; rfl
    have hA : ∀ w, (pdats 5 c).A w = (fun b : Ref sig .tc => W₁ c b) (Pipeline.arrRef spec5 w) := fun w => by rw [hp c]; rfl
    have hsplit := Pipeline.arrays_of_unscopedBufs (p := 5) (pcfgs (F := F)) adm pdats launch5.win launch5.arr_whole c
      ((pdats 5 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; rw [hp c]; exact fun _ _ => Or.inl trivial
      rw [show (pdats 5 c).owed 0 = 0 from by rw [hp c]; rfl]
      iexact HO
    isplitl [Hp]; · iexact Hp
    iexact Hrest
  hin c := by
    rw [show (pdats 5 c).Φ 0 = Pipeline.ΦA spec5 c from by rw [hp c]; rfl]; unfold Pipeline.ΦA
    iintro ⟨Hp, -, Hr⟩
    isplitl [Hr]; · iexact Hr
    iexact Hp
  hout c := by
    rw [Pipeline.ownSems0_none, show (pdats 5 c).Φ (Fin.last _) = Pipeline.ΦA spec5 c from by rw [hp c]; rfl]; unfold Pipeline.ΦA
    iintro ⟨Hr, Hp⟩
    isplitl [Hp]; · iexact Hp
    isplitr; · iempintro
    iexact Hr
  hexit c := by
    have hq : ∀ w, (pdats 5 c).q w = fullShare := fun w => by rw [hp c]; rfl
    have hjoin := Pipeline.unscopedBufs_of_arrays (p := 5) (pcfgs (F := F)) adm (Ix := Unit) (Name := ℕ) (U := UR sig nD τ) (Lvl := ℕ)
      launch5.win launch5.arr_whole c pdats ((pdats 5 c).share_full hq)
      (fun b => W₁ c b) (fun b => W₂ c b) ((pdats 5 c).arrAt · cfg5.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 5 c).owed (Fin.last _) = 0 from by rw [hp c]; rfl]
    iexact HO

end Record

end Cert.Kernel.Hand

end
-- ==== Proof.KB.Reg6.lean ====
/-
  Region 6 of the kernel's @main: the linear kernel y = x·W + bias at widths 128 → 128, over a grid of
  ten row tiles of 10000 rows. Its four windows are the row tile of x (fetched at every point), the weight matrix
  and the bias row (whole, fetched once: their block index never moves), and the row tile of the result (written
  back at every point). The body reads the three input blocks whole and stores one value over the whole output
  block, so what a point leaves in the output's staging buffer is a pure function of the three input blocks
  (`out6_3`), and the inputs' buffers are left as found.

  Stated here, at any float model `F` and at a PARAMETER `V` (the core's buffer contents when the region is
  entered): each window's block at a point (`iblk6`), the body's triple (`sound_kernel6`), the pipeline's proof
  data (`dat6`), the body obligation (`body_obligation6`), and the region as a segment record (`reg6`) for any
  family of proof data whose member 6 is `dat6`, entered from every unscoped buffer at `W₁` and left at `W₂`, where
  `W₂` holds at each of the region's arrays what the pipeline's write-backs leave and elsewhere what `W₁` held.
-/
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): where the window is not
    fetched its block index has not moved, so the block kept from the point before is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not, for any proof
    data whose array is `V`'s (`hA`) and whose body leaves the block in place (`hafter`): where the window is not
    fetched its block index has not moved, so the block kept from the point before is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not, for any proof
    data whose array is `V`'s (`hA`) and whose body leaves the block in place (`hafter`): where the window is not
    fetched its block index has not moved, so the block kept from the point before is this point's. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_x : Rect S10000x128 := Rect.unit (s := S10000x128) ![0, 0] S10000x128.size inb_S10000x128_S10000x128_0_0
abbrev r6_w : Rect S128x128 := Rect.unit (s := S128x128) ![0, 0] S128x128.size inb_S128x128_S128x128_0_0
abbrev r6_b : Rect S1x128 := Rect.unit (s := S1x128) ![0, 0] S1x128.size inb_S1x128_S1x128_0_0
abbrev r6_o : Rect S10000x128 := Rect.unit (s := S10000x128) ![0, 0] S10000x128.size inb_S10000x128_S10000x128_0_0

/-! ## What the body leaves in the output window's buffer -/

/-- Window 3's staging buffer after the body, from the input windows' blocks: its one store, of the payload
    x·W + bias computed from the three blocks read whole. -/
def out6_3 (x0 : Vec F S10000x128 .f32) (x1 : Vec F S128x128 .f32) (x2 : Vec F S1x128 .f32) : Vec F S10000x128 .f32 :=
  View.canon [⟨r6_o, k6_pay1 (View.ld x0 r6_x) (View.ld x1 r6_w) (View.ld x2 r6_b)⟩]

/-- The one store is over the whole buffer, so it covers it. -/
theorem cover6_3 (p0 : Vec F S10000x128 .f32) (y : S10000x128.Idx) :
    ∃ pc ∈ ([⟨r6_o, p0⟩] : List (View.Piece (Elt F) S10000x128 .f32)), y ∈ pc.1.set :=
  View.cover_of_tiled [⟨r6_o, p0⟩] S10000x128.size (by rfl) y

/-! ## The body's triple -/

set_option maxHeartbeats 1000000 in
/-- The kernel body on whole staging memrefs, the inputs' at read contents `x0 x1 x2` and the output's at anything,
    runs to the continuation holding the inputs' as they were and the output's at `out6_3` of the inputs'. -/
theorem sound_kernel6 (c : Dev nD) (E : Set ℕ) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at point `t`
    each input's buffer at its block and the output's at `out6_3` of the input blocks; the invariant is the scoped
    buffers no window stages and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest6 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 6 over the thread state "every unscoped buffer whole at a valuation, the generator register at some state,
    nothing owed": entered from the buffers at `W₁`, left at `W₂`, for any family of proof data whose member 6 is
    `dat6` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg6 (hp : ∀ c, pdats 6 c = dat6 (fun c b => W₁ c b) c)
    (hF : ∀ c w, (dat6 (F := F) (fun c b => W₁ c b) c).arrAt w cfg6.N = W₂ c (Pipeline.arrRef spec6 w))
    (hrest : ∀ c (b : Ref sig .tc), b ∉ Finset.univ.image (Pipeline.arrRef spec6) → W₂ c b = W₁ c b) :
    Pipeline.RegionSeg (pcfgs (F := F)) adm pdats () defs₀ Variants.none L lv 6 where
  win := launch6.win.to₀
  block_pos := launch6.block_pos
  stage_whole := launch6.stage_whole
  K := PEmpty
  osem k := k.elim
  ho := Pipeline.OwnSemFacts.none _
  hbody c := by rw [hp c]; exact (body_obligation6 (fun c b => W₁ c b) c).loose
  hwaits := Pipeline.hwaits_of_owed_zero _ _ _ _ L lv 6 fun c _ => by rw [hp c]; rfl
  pre c := iprop(StableHlo.held (c : Thread nD τ) (Pipeline.ucRefs τ sig) (W₁ c) ∗ rest6 c)
  post c := iprop(StableHlo.held (c : Thread nD τ) (Pipeline.ucRefs τ sig) (W₂ c) ∗ rest6 c)
  X c := iprop(∃ r, prngReg c r)
  Y c := iprop(∃ r, prngReg c r)
  Z c := Pipeline.unscopedRest (Ix := Unit) (Name := ℕ) (U := UR sig nD τ) (Lvl := ℕ) spec6 c (fun b => W₁ c b)
  hentry c := by
    rw [Pipeline.ownSems0_none]
    have hq : ∀ w, (pdats 6 c).q w = fullShare := fun w => by rw [hp c]; rfl
    have hA : ∀ w, (pdats 6 c).A w = (fun b : Ref sig .tc => W₁ c b) (Pipeline.arrRef spec6 w) := fun w => by rw [hp c]; rfl
    have hsplit := Pipeline.arrays_of_unscopedBufs (p := 6) (pcfgs (F := F)) adm pdats launch6.win launch6.arr_whole c
      ((pdats 6 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 6 c).Φ 0 = Pipeline.ΦA spec6 c from by rw [hp c]; rfl]; unfold Pipeline.ΦA
    iintro ⟨Hp, -, Hr⟩
    isplitl [Hr]; · iexact Hr
    iexact Hp
  hout c := by
    rw [Pipeline.ownSems0_none, show (pdats 6 c).Φ (Fin.last _) = Pipeline.ΦA spec6 c from by rw [hp c]; rfl]; unfold Pipeline.ΦA
    iintro ⟨Hr, Hp⟩
    isplitl [Hp]; · iexact Hp
    isplitr; · iempintro
    iexact Hr
  hexit c := by
    have hq : ∀ w, (pdats 6 c).q w = fullShare := fun w => by rw [hp c]; rfl
    have hjoin := Pipeline.unscopedBufs_of_arrays (p := 6) (pcfgs (F := F)) adm (Ix := Unit) (Name := ℕ) (U := UR sig nD τ) (Lvl := ℕ)
      launch6.win launch6.arr_whole c pdats ((pdats 6 c).share_full hq)
      (fun b => W₁ c b) (fun b => W₂ c b) ((pdats 6 c).arrAt · cfg6.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Record

/-! ## The exit valuation as an update of the entry valuation at the result's buffer -/

section Update

variable (W₁ : Dev nD → Valuation τ sig (Elt F))

/-- A property of the four windows, checked window by window. -/
private theorem fin4_cases {P : Fin 4 → Prop} (h0 : P 0) (h1 : P 1) (h2 : P 2) (h3 : P 3) : ∀ w, P w
  | ⟨0, _⟩ => h0
  | ⟨1, _⟩ => h1
  | ⟨2, _⟩ => h2
  | ⟨3, _⟩ => h3

/-- When the exit valuation is the entry valuation updated at the result's buffer `main_v88` with what the pipeline's
    write-backs leave in it, every array of the region holds there what the pipeline leaves: an input's array is never
    written and is not the result's buffer; the result's array is the updated one. -/
theorem hF6_update (c : Dev nD) (x : Buf (Elt F) ((c : Thread nD τ).loc main_v88))
    (hx : x = (dat6 (F := F) (fun c b => W₁ c b) c).arrAt 3 cfg6.N) :
    ∀ w, (dat6 (F := F) (fun c b => W₁ c b) c).arrAt w cfg6.N = Function.update (W₁ c) main_v88 x (Pipeline.arrRef spec6 w) :=
  fin4_cases (P := fun w => (dat6 (F := F) (fun c b => W₁ c b) c).arrAt w cfg6.N = Function.update (W₁ c) main_v88 x (Pipeline.arrRef spec6 w))
    (((dat6 (F := F) (fun c b => W₁ c b) c).arrAt_in 0 rfl _).trans ((A_eq6 (fun c b => W₁ c b) c 0).trans (Function.update_of_ne (StableHlo.devRef_ne_of_ne (by decide)) _ _).symm))
    (((dat6 (F := F) (fun c b => W₁ c b) c).arrAt_in 1 rfl _).trans ((A_eq6 (fun c b => W₁ c b) c 1).trans (Function.update_of_ne (StableHlo.devRef_ne_of_ne (by decide)) _ _).symm))
    (((dat6 (F := F) (fun c b => W₁ c b) c).arrAt_in 2 rfl _).trans ((A_eq6 (fun c b => W₁ c b) c 2).trans (Function.update_of_ne (StableHlo.devRef_ne_of_ne (by decide)) _ _).symm))
    (hx.symm.trans (Function.update_self (β := fun b : DevRef τ sig => b.ty.Contents (Elt F)) _ _ _).symm)

/-- and every buffer that is no array of the region holds what it held at entry. -/
theorem hrest6_update (c : Dev nD) (x : Buf (Elt F) ((c : Thread nD τ).loc main_v88)) :
    ∀ b : Ref sig .tc, b ∉ Finset.univ.image (Pipeline.arrRef spec6) → Function.update (W₁ c) main_v88 x b = W₁ c b :=
  fun b hb => Function.update_of_ne (StableHlo.devRef_ne_of_ne fun e => hb (Finset.mem_image.mpr ⟨3, Finset.mem_univ _, e.symm⟩)) _ _

end Update

end Cert.Kernel.Hand

end
-- ==== Proof.KB.Reg7Run.lean ====
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.KB.StatLib
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the third layer (128 columns): the body's three control cases

The body adds the bias row to its block of 10000 rows, adds the column sums of the result and of its square to two
carried rows, having first zeroed those rows at the first grid point, and at the last grid point divides both rows
by the number of rows and writes the mean and the mean of squares less the squared mean. -/

/-- The first conditional (zero the two carried rows): taken where the grid coordinate is 0. -/
abbrev cond7_0 (i : grid7.Coords) : Prop :=
  (Scalar.cmpi .ne (Scalar.extui (Scalar.cmpi .eq (BitVec.ofNat 32 (i 0).val) 0#32)) 0#32) = 1#1
/-- The second conditional (write the two outputs): taken where the grid coordinate is 9. -/
abbrev cond7_1 (i : grid7.Coords) : Prop := k7_cond2 i = 1#1

theorem hcond7_0 : ∀ t : Fin cfg7.N, cond7_0 (grid7.coords t) ↔ t.val = 0 :=
  (by decide +kernel : ∀ t : Fin grid7.N, cond7_0 (grid7.coords t) ↔ t.val = 0)
theorem hcond7_1 : ∀ t : Fin cfg7.N, cond7_1 (grid7.coords t) ↔ t.val = 9 :=
  (by decide +kernel : ∀ t : Fin grid7.N, cond7_1 (grid7.coords t) ↔ t.val = 9)

set_option maxHeartbeats 1000000 in
/-- A middle grid point: neither conditional is taken; the carried rows `s5`, `s6` receive the block's column sums. -/
theorem sound_kernel7_B (c : Dev nD) (E : Set ℕ) (i : grid7.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬ cond7_0 i) (hc1 : ¬ cond7_1 i)
    (x0 : Vec F S10000x128 .f32) (x1 : Vec F S1x128 .f32) (s5 s6 : Vec F S1x128 .f32) (K : PUnit → sProp 𝕄) :
    iprop(owns (c : Thread nD τ) arg1 fullShare x0 ∗ owns (c : Thread nD τ) arg2 fullShare x1 ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg5 fullShare (k7_pay4 x0 x1 s5) ∗ owns (c : Thread nD τ) arg6 fullShare (k7_pay5 x0 x1 s6)) -∗ K ⟨⟩))
      ⊢ wp frame (wpE (defs₀ (F := F)) Variants.none c none) E (cc7__reduce_kernel i arg1 harg1 arg2 harg2 arg3 harg3 arg4 harg4 arg5 harg5 arg6 harg6) K := by
  simp only [cc7__reduce_kernel_eq_skeleton]; unfold cc7__reduce_kernel_skel
  unfold owns
  iintro ⟨⟨%f0, %hf0, H0⟩, ⟨%f1, %hf1, H1⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store _ _ stat_off2_zero]
    simp only [View.readAt_eq_ld, View.ld_unit_zero (S := S10000x128) stat_off2_zero, View.ld_unit_zero (S := S1x128) stat_off2_zero]
  · iexists _; isplitr
    swap; · iexact H6
    ipureintro
    rw [stat_read_store _ _ stat_off2_zero]
    simp only [View.readAt_eq_ld, View.ld_unit_zero (S := S10000x128) stat_off2_zero, View.ld_unit_zero (S := S1x128) stat_off2_zero]

set_option maxHeartbeats 1000000 in
/-- The first grid point: the carried rows are zeroed, whatever they held, then receive the block's column sums. -/
theorem sound_kernel7_A (c : Dev nD) (E : Set ℕ) (i : grid7.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (hc1 : ¬ cond7_1 i)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg5 fullShare (k7_pay4 x0 x1 k7_pay1) ∗ owns (c : Thread nD τ) arg6 fullShare (k7_pay5 x0 x1 k7_pay2)) -∗ K ⟨⟩))
      ⊢ wp frame (wpE (defs₀ (F := F)) Variants.none c none) E (cc7__reduce_kernel i arg1 harg1 arg2 harg2 arg3 harg3 arg4 harg4 arg5 harg5 arg6 harg6) K := by
  simp only [cc7__reduce_kernel_eq_skeleton]; unfold cc7__reduce_kernel_skel
  unfold owns
  iintro ⟨⟨%f0, %hf0, H0⟩, ⟨%f1, %hf1, H1⟩, ⟨%d5, %f5, -, H5⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store_cons _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"
  · iexists _; isplitr
    swap; · iexact H6
    ipureintro
    rw [stat_read_store_cons _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"

set_option maxHeartbeats 1000000 in
/-- The last grid point: the carried rows receive the block's column sums, then the two outputs are written from them. -/
theorem sound_kernel7_C (c : Dev nD) (E : Set ℕ) (i : grid7.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬ cond7_0 i) (hc1 : cond7_1 i)
    (x0 : Vec F S10000x128 .f32) (x1 : Vec F S1x128 .f32) (s5 s6 : Vec F S1x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg3 fullShare (k7_pay6 (k7_pay4 x0 x1 s5)) ∗ owns (c : Thread nD τ) arg4 fullShare (k7_pay7 (k7_pay4 x0 x1 s5) (k7_pay5 x0 x1 s6))
            ∗ owns (c : Thread nD τ) arg5 fullShare (k7_pay4 x0 x1 s5) ∗ owns (c : Thread nD τ) arg6 fullShare (k7_pay5 x0 x1 s6)) -∗ K ⟨⟩))
      ⊢ wp frame (wpE (defs₀ (F := F)) Variants.none c none) E (cc7__reduce_kernel i arg1 harg1 arg2 harg2 arg3 harg3 arg4 harg4 arg5 harg5 arg6 harg6) K := by
  simp only [cc7__reduce_kernel_eq_skeleton]; unfold cc7__reduce_kernel_skel
  unfold owns
  iintro ⟨⟨%f0, %hf0, H0⟩, ⟨%f1, %hf1, H1⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [stat_read_store _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"
  isplitl [H4]
  · iexists _; isplitr
    swap; · iexact H4
    ipureintro
    rw [stat_read_store _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"
  isplitl [H5]
  · iexists _; isplitr
    swap; · iexact H5
    ipureintro
    sl_unfold_run_names
    rw [stat_read_store_cons _ _ stat_off2_zero]
    first | (simp only [View.readAt_eq_ld, View.readCov_unit_zero (S := S1x128) _ stat_off2_zero, View.ld_unit_zero (S := S10000x128) stat_off2_zero, View.ld_unit_zero (S := S1x128) stat_off2_zero]) | fail "simp set did not close the read-back"
  · iexists _; isplitr
    swap; · iexact H6
    ipureintro
    sl_unfold_run_names
    rw [stat_read_store_cons _ _ stat_off2_zero]
    first | (simp only [View.readAt_eq_ld, View.readCov_unit_zero (S := S1x128) _ stat_off2_zero, View.ld_unit_zero (S := S10000x128) stat_off2_zero, View.ld_unit_zero (S := S1x128) stat_off2_zero]) | fail "simp set did not close the read-back"

end Cert.Kernel.Hand

end
-- ==== Proof.KB.Reg7.lean ====
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import proofs.«109725_j21638045237575_1_alg».proof.Proof.KB.Reg7Run
import Idealize.ShloMosaic.Lib.Pipeline.Frame
import Idealize.ShloMosaic.Lib.Pipeline.FrameBody
import Idealize.ShloMosaic.Lib.Pipeline.Kit
import Idealize.ShloMosaic.Lib.Pipeline.Regions
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the third layer (128 columns) as a region of @main

Ten grid points, each a block of 10000 rows of the aggregated features. Two rows of 128 are carried from point to
point in scratch memory: the column sums of (block + bias) and of its square over the blocks seen so far. The first
point zeroes them first; the last point writes mean = sum / 100000 and var = sumsq / 100000 − mean · mean into the
two outputs' staging buffers, which are written back there and nowhere else; at the other points the body leaves
the outputs' buffers as it found them. -/

section Region

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The block of aggregated rows is in its staging buffer at every point, for any proof data over `V` whose body
    leaves it there. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The bias row is in its staging buffer at every point (fetched once: its block index never moves). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The carried rows -/

/-- The two carried rows when the accumulation of point `t` starts: both zero at the first point (after its zeroing),
    and after each point the sums of (block + bias), and of its square, down the block's columns added — a fold of the
    body's payload terms over the blocks seen so far, first component the sums, second the sums of squares. -/
def scr7 (c : Dev nD) : ℕ → Vec F S1x128 .f32 × Vec F S1x128 .f32
  | 0 => (k7_pay1, k7_pay2)
  | t + 1 =>
    if h : t < cfg7.N then
      (k7_pay4 (iblk7 V c 0 ⟨t, h⟩) (iblk7 V c 1 ⟨t, h⟩) (scr7 c t).1,
       k7_pay5 (iblk7 V c 0 ⟨t, h⟩) (iblk7 V c 1 ⟨t, h⟩) (scr7 c t).2)
    else scr7 c t

theorem scr7_zero (c : Dev nD) : scr7 V c 0 = (k7_pay1, k7_pay2) := by rw [scr7]

/-- One point's step of the fold. -/
theorem scr7_succ (c : Dev nD) (t : Fin cfg7.N) :
    scr7 V c (t.val + 1) = (k7_pay4 (iblk7 V c 0 t) (iblk7 V c 1 t) (scr7 V c t.val).1,
      k7_pay5 (iblk7 V c 0 t) (iblk7 V c 1 t) (scr7 V c t.val).2) := by
  rw [scr7, dif_pos t.isLt]

/-- The scratch rows between points, as the invariant holds them: before the first point at anything, before point
    `n > 0` at the fold's value there. -/
def scrAt7 (c : Dev nD) (n : ℕ) : sProp 𝕄 :=
  if n = 0 then
    iprop((∃ d, owns (c : Thread nD τ) (Memref.whole cc7_scratch0 : Memref sig .tc .vmem S1x128 .f32) fullShare d) ∗ (∃ d, owns (c : Thread nD τ) (Memref.whole cc7_scratch1 : Memref sig .tc .vmem S1x128 .f32) fullShare d))
  else
    iprop(owns (c : Thread nD τ) (Memref.whole cc7_scratch0 : Memref sig .tc .vmem S1x128 .f32) fullShare (scr7 V c n).1 ∗ owns (c : Thread nD τ) (Memref.whole cc7_scratch1 : Memref sig .tc .vmem S1x128 .f32) fullShare (scr7 V c n).2)

theorem scrAt7_zero (c : Dev nD) :
    scrAt7 V c 0 = iprop((∃ d, owns (c : Thread nD τ) (Memref.whole cc7_scratch0 : Memref sig .tc .vmem S1x128 .f32) fullShare d) ∗ (∃ d, owns (c : Thread nD τ) (Memref.whole cc7_scratch1 : Memref sig .tc .vmem S1x128 .f32) fullShare d)) := by
  unfold scrAt7; rw [if_pos rfl]

theorem scrAt7_pos (c : Dev nD) (n : ℕ) (h : n ≠ 0) :
    scrAt7 V c n = iprop(owns (c : Thread nD τ) (Memref.whole cc7_scratch0 : Memref sig .tc .vmem S1x128 .f32) fullShare (scr7 V c n).1 ∗ owns (c : Thread nD τ) (Memref.whole cc7_scratch1 : Memref sig .tc .vmem S1x128 .f32) fullShare (scr7 V c n).2) := by
  unfold scrAt7; rw [if_neg h]

/-! ## The pipeline's proof data -/

/-- The proof data of the pipeline on core `c`: the arrays as the region finds them; each input's buffer left at its
    block; the mean's and the variance's buffers, where the body stores them (the last point), at the body's two last
    payload terms of the carried rows after that point's accumulation; the invariant the scoped buffers other than
    the two scratch rows, the generator register, and the scratch rows at the fold's value; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => k7_pay6 (scr7 V c (t.val + 1)).1
    | ⟨3, _⟩ => k7_pay7 (scr7 V c (t.val + 1)).1 (scr7 V c (t.val + 1)).2
  Φ t := iprop(Pipeline.scopedRestBut (Ix := Unit) (Name := ℕ) (U := UR sig nD τ) (Lvl := ℕ) (Val := Elt F) spec7 c [cc7_scratch0, cc7_scratch1]
    ∗ (∃ r, prngReg c r) ∗ scrAt7 V c t.val)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = k7_pay6 (scr7 V c (t.val + 1)).1 := by dsimp only [dat7]
theorem after7_3 (c : Dev nD) (t : Fin cfg7.N) :
    (dat7 V c).after 3 t = k7_pay7 (scr7 V c (t.val + 1)).1 (scr7 V c (t.val + 1)).2 := by dsimp only [dat7]

theorem Φ7_eq (c : Dev nD) (t : Fin (cfg7.N + 1)) :
    (dat7 V c).Φ t = iprop(Pipeline.scopedRestBut (Ix := Unit) (Name := ℕ) (U := UR sig nD τ) (Lvl := ℕ) (Val := Elt F) spec7 c [cc7_scratch0, cc7_scratch1]
      ∗ (∃ r, prngReg c r) ∗ scrAt7 V c t.val) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- The two outputs' buffers are idle (the body stores nothing there) at every point but the last, -/
theorem idle7_2 : ∀ t : Fin cfg7.N, cfg7.idle 2 (cfg7.grid.coords t) = true ↔ t.val ≠ 9 :=
  (by decide +kernel : ∀ t : Fin grid7.N, cfg7.idle 2 (grid7.coords t) = true ↔ t.val ≠ 9)
theorem idle7_3 : ∀ t : Fin cfg7.N, cfg7.idle 3 (cfg7.grid.coords t) = true ↔ t.val ≠ 9 :=
  (by decide +kernel : ∀ t : Fin grid7.N, cfg7.idle 3 (grid7.coords t) = true ↔ t.val ≠ 9)

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns: the two outputs' buffers as found where they are idle, at the stated contents at the last point. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ (dat7 V c).leavesExact 2 t
    ∗ (dat7 V c).leavesExact 3 t)

set_option maxHeartbeats 1000000 in
/-- The body at any point, by the three control cases: at the first point the scratch rows are found at anything and
    left at the fold's first step; at a middle point found at the fold's value and left at its next; at the last point
    also the two outputs' buffers, found at anything, are left at the mean and the variance of the final rows. The
    rest of the invariant and the core's `owes` pass through unread; where an output's buffer is idle it is handed back
    as it was found. -/
theorem sound_body7 (c : Dev nD) (t : Fin cfg7.N) :
    bodyPre7 V c t ⊢ wp frame (wpE (defs₀ (F := F)) Variants.none c none) Set.univ (bodyAt7 t) (fun _ => bodyPost7 V c t) := by
  have hlt : t.val < 10 := by
    have h := t.isLt
    have hN : cfg7.N = 10 := N_7
    omega
  unfold bodyPre7 bodyPost7 bodyAt7
  simp only [before7_0, before7_1]
  rw [show (dat7 V c).owesAt () t.succ = (dat7 V c).owesAt () t.castSucc from rfl, after7_0, after7_1,
    Φ7_eq, Φ7_eq, Fin.val_succ, Fin.val_castSucc, scrAt7_pos V c (t.val + 1) (Nat.succ_ne_zero _), scr7_succ]
  by_cases h0 : t.val = 0
  · -- the first point
    have h9 : t.val ≠ 9 := by omega
    have hc0 : cond7_0 (grid7.coords t) := (hcond7_0 t).mpr h0
    have hc1 : ¬ cond7_1 (grid7.coords t) := fun h => h9 ((hcond7_1 t).mp h)
    rw [Dat.leavesExact_idle _ 2 t ((idle7_2 t).mpr h9) (by rw [Bool.eq_false_iff]; intro h; have := (flush7_2 t).mp h; omega),
      Dat.leavesExact_idle _ 3 t ((idle7_3 t).mpr h9) (by rw [Bool.eq_false_iff]; intro h; have := (flush7_3 t).mp h; omega),
      h0, scrAt7_zero, scr7_zero]
    iintro ⟨⟨Hrest, Hprng, H5, H6⟩, Ho, ⟨%d0, H0⟩, ⟨%d1, H1⟩, H2, H3⟩
    iapply (sound_kernel7_A c Set.univ (grid7.coords t) _ _ _ _ _ _ _ _ _ _ _ _ hc0 hc1 (iblk7 V c 0 t) (iblk7 V c 1 t) _)
    isplitl [H0]; · iexact H0
    isplitl [H1]; · iexact H1
    isplitl [H5]; · iexact H5
    isplitl [H6]; · iexact H6
    iintro ⟨H0, H1, H5, H6⟩
    isplitl [Hrest Hprng H5 H6]
    · isplitl [Hrest]; · iexact Hrest
      isplitl [Hprng]; · iexact Hprng
      isplitl [H5]; · iexact H5
      iexact H6
    isplitl [Ho]; · iexact Ho
    isplitl [H0]; · iexact H0
    isplitl [H1]; · iexact H1
    isplitl [H2]; · iexact H2
    iexact H3
  · by_cases h9 : t.val = 9
    · -- the last point
      have hc0 : ¬ cond7_0 (grid7.coords t) := fun h => h0 ((hcond7_0 t).mp h)
      have hc1 : cond7_1 (grid7.coords t) := (hcond7_1 t).mpr h9
      have hi2 : cfg7.idle 2 (cfg7.grid.coords t) = false := by
        rw [Bool.eq_false_iff]; intro h; exact (idle7_2 t).mp h h9
      have hi3 : cfg7.idle 3 (cfg7.grid.coords t) = false := by
        rw [Bool.eq_false_iff]; intro h; exact (idle7_3 t).mp h h9
      rw [scrAt7_pos V c t.val h0]
      unfold Dat.leavesExact
      rw [hi2]
      try rw [hi3]
      dsimp only
      rw [after7_2, after7_3, scr7_succ]
      iintro ⟨⟨Hrest, Hprng, H5, H6⟩, Ho, ⟨%d0, H0⟩, ⟨%d1, H1⟩, ⟨%d2, H2⟩, ⟨%d3, H3⟩⟩
      iapply (sound_kernel7_C c Set.univ (grid7.coords t) _ _ _ _ _ _ _ _ _ _ _ _ hc0 hc1 (iblk7 V c 0 t) (iblk7 V c 1 t)
        (scr7 V c t.val).1 (scr7 V c t.val).2 _)
      isplitl [H0]; · iexact H0
      isplitl [H1]; · iexact H1
      isplitl [H2]; · iexists _; iexact H2
      isplitl [H3]; · iexists _; iexact H3
      isplitl [H5]; · iexact H5
      isplitl [H6]; · iexact H6
      iintro ⟨H0, H1, H2, H3, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3
    · -- a middle point
      have hc0 : ¬ cond7_0 (grid7.coords t) := fun h => h0 ((hcond7_0 t).mp h)
      have hc1 : ¬ cond7_1 (grid7.coords t) := fun h => h9 ((hcond7_1 t).mp h)
      rw [Dat.leavesExact_idle _ 2 t ((idle7_2 t).mpr h9) (by rw [Bool.eq_false_iff]; intro h; have := (flush7_2 t).mp h; omega),
        Dat.leavesExact_idle _ 3 t ((idle7_3 t).mpr h9) (by rw [Bool.eq_false_iff]; intro h; have := (flush7_3 t).mp h; omega),
        scrAt7_pos V c t.val h0]
      iintro ⟨⟨Hrest, Hprng, H5, H6⟩, Ho, ⟨%d0, H0⟩, ⟨%d1, H1⟩, H2, H3⟩
      iapply (sound_kernel7_B c Set.univ (grid7.coords t) _ _ _ _ _ _ _ _ _ _ _ _ hc0 hc1 (iblk7 V c 0 t) (iblk7 V c 1 t)
        (scr7 V c t.val).1 (scr7 V c t.val).2 _)
      isplitl [H0]; · iexact H0
      isplitl [H1]; · iexact H1
      isplitl [H5]; · iexact H5
      isplitl [H6]; · iexact H6
      iintro ⟨H0, H1, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest7 (c : Dev nD) : sProp 𝕄 := iprop((∃ r, prngReg c r) ∗ ∃ W, owes (c : Thread nD τ) (0 : CellTallies nD τ sig Unit) W)

/-- The grid is not empty. -/
theorem N7_ne_zero : cfg7.N ≠ 0 := by
  show grid7.N ≠ 0
  rw [N_7]; decide

-- a library lemma stated over the pinned configuration unifies with the printed one only when unification may unfold
-- plain definitions in a metavariable's type
set_option backward.isDefEq.respectTransparency.types false in
/-- The region over the thread state "every unscoped buffer whole at a valuation, the generator register at some state,
    nothing owed": entered from the buffers at `W₁`, left at `W₂`, for any family of proof data whose member 7 is
    `dat7` at `W₁` (`hp`), when `W₂` has each of the region's arrays at what the pipeline leaves there (`hF`) and every
    other buffer as `W₁` (`hrest`). The arrays are split out of the unscoped buffers at entry and put back at exit; the
    generator register goes into the invariant and comes back; of the scoped buffers no window stages, the kernel's two
    scratch rows are split off into the invariant at entry (held at anything before the first point) and, at the fold's
    last value, forgotten back into them at exit; the kernel has no semaphore of its own. -/
def reg7 (hp : ∀ c, pdats 7 c = dat7 (fun c b => W₁ c b) c)
    (hF : ∀ c w, (dat7 (F := F) (fun c b => W₁ c b) c).arrAt w cfg7.N = W₂ c (Pipeline.arrRef spec7 w))
    (hrest : ∀ c (b : Ref sig .tc), b ∉ Finset.univ.image (Pipeline.arrRef spec7) → W₂ c b = W₁ c b) :
    Pipeline.RegionSeg (pcfgs (F := F)) adm pdats () defs₀ Variants.none L lv 7 where
  win := launch7.win.to₀
  block_pos := launch7.block_pos
  stage_whole := launch7.stage_whole
  K := PEmpty
  osem k := k.elim
  ho := Pipeline.OwnSemFacts.none _
  hbody c := by rw [hp c]; exact (body_obligation7 (fun c b => W₁ c b) c).loose
  hwaits := Pipeline.hwaits_of_owed_zero _ _ _ _ L lv 7 fun c _ => by rw [hp c]; rfl
  pre c := iprop(StableHlo.held (c : Thread nD τ) (Pipeline.ucRefs τ sig) (W₁ c) ∗ rest7 c)
  post c := iprop(StableHlo.held (c : Thread nD τ) (Pipeline.ucRefs τ sig) (W₂ c) ∗ rest7 c)
  X c := iprop(∃ r, prngReg c r)
  Y c := iprop(∃ r, prngReg c r)
  Z c := Pipeline.unscopedRest (Ix := Unit) (Name := ℕ) (U := UR sig nD τ) (Lvl := ℕ) spec7 c (fun b => W₁ c b)
  hentry c := by
    rw [Pipeline.ownSems0_none]
    have hq : ∀ w, (pdats 7 c).q w = fullShare := fun w => by rw [hp c]; rfl
    have hA : ∀ w, (pdats 7 c).A w = (fun b : Ref sig .tc => W₁ c b) (Pipeline.arrRef spec7 w) := fun w => by rw [hp c]; rfl
    have hsplit := Pipeline.arrays_of_unscopedBufs (p := 7) (pcfgs (F := F)) adm pdats launch7.win launch7.arr_whole c
      ((pdats 7 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; trivial)
      rw [show (pdats 7 c).owed 0 = 0 from by rw [hp c]; rfl]
      iexact HO
    isplitl [Hp]; · iexact Hp
    iexact Hrest
  hin c := by
    rw [show (pdats 7 c).Φ 0 = (dat7 (fun c b => W₁ c b) c).Φ 0 from by rw [hp c], Φ7_eq,
      show ((0 : Fin (cfg7.N + 1)).val) = 0 from rfl, scrAt7_zero,
      show (Pipeline.scopedRest (Pipeline.pin (pcfgs (F := F)) adm 7).spec c : sProp 𝕄) = _ from
        scopedRest7_split (Ix := Unit) (Val := Elt F) (Name := ℕ) (U := UR sig nD τ) (Lvl := ℕ) c]
    simp only [owns_whole]
    iintro ⟨Hp, -, ⟨H5, H6⟩, Hr⟩
    isplitl [Hr]; · iexact Hr
    isplitl [Hp]; · iexact Hp
    isplitl [H5]; · iexact H5
    iexact H6
  hout c := by
    rw [Pipeline.ownSems0_none, show (pdats 7 c).Φ (Fin.last _) = (dat7 (fun c b => W₁ c b) c).Φ (Fin.last cfg7.N) from by rw [hp c]; rfl, Φ7_eq,
      Fin.val_last, scrAt7_pos _ c cfg7.N N7_ne_zero,
      show (Pipeline.scopedRest (Pipeline.pin (pcfgs (F := F)) adm 7).spec c : sProp 𝕄) = _ from
        scopedRest7_split (Ix := Unit) (Val := Elt F) (Name := ℕ) (U := UR sig nD τ) (Lvl := ℕ) c]
    simp only [owns_whole]
    iintro ⟨Hr, Hp, H5, H6⟩
    isplitl [Hp]; · iexact Hp
    isplitr; · iempintro
    isplitl [H5 H6]
    · isplitl [H5]
      · iexists _; iexact H5
      iexists _; iexact H6
    iexact Hr
  hexit c := by
    have hq : ∀ w, (pdats 7 c).q w = fullShare := fun w => by rw [hp c]; rfl
    have hjoin := Pipeline.unscopedBufs_of_arrays (p := 7) (pcfgs (F := F)) adm (Ix := Unit) (Name := ℕ) (U := UR sig nD τ) (Lvl := ℕ)
      launch7.win launch7.arr_whole c pdats ((pdats 7 c).share_full hq)
      (fun b => W₁ c b) (fun b => W₂ c b) ((pdats 7 c).arrAt · cfg7.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 7 c).owed (Fin.last _) = 0 from by rw [hp c]; rfl]
    iexact HO

end Record

end Cert.Kernel.Hand

end
-- ==== Proof.KB.Reg7Upd.lean ====
import proofs.«109725_j21638045237575_1_alg».proof.Proof.KB.Reg7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region's exit valuation as an update of its entry valuation at the two results' buffers -/

section Update

variable (W₁ : Dev nD → Valuation τ sig (Elt F))

/-- Updating a valuation at the mean's buffer and at the variance's changes no other buffer. -/
theorem update7_of_ne (c : Dev nD) (x0 : Buf (Elt F) ((c : Thread nD τ).loc main_v108_0)) (x1 : Buf (Elt F) ((c : Thread nD τ).loc main_v108_1))
    (b : Ref sig .tc) (h0 : b ≠ main_v108_0) (h1 : b ≠ main_v108_1) :
    Function.update (Function.update (W₁ c) main_v108_0 x0) main_v108_1 x1 b = W₁ c b :=
  (Function.update_of_ne (StableHlo.devRef_ne_of_ne h1) x1 (Function.update (W₁ c) main_v108_0 x0)).trans
    (Function.update_of_ne (StableHlo.devRef_ne_of_ne h0) x0 (W₁ c))

/-- The update read at the variance's buffer, -/
theorem update7_at_3 (c : Dev nD) (x0 : Buf (Elt F) ((c : Thread nD τ).loc main_v108_0)) (x1 : Buf (Elt F) ((c : Thread nD τ).loc main_v108_1)) : Function.update (Function.update (W₁ c) main_v108_0 x0) main_v108_1 x1 main_v108_1 = x1 :=
  Function.update_self (β := fun b : DevRef τ sig => b.ty.Contents (Elt F)) (Proc.devRef .tc main_v108_1) x1 (Function.update (W₁ c) main_v108_0 x0)

/-- and at the mean's. -/
theorem update7_at_2 (c : Dev nD) (x0 : Buf (Elt F) ((c : Thread nD τ).loc main_v108_0)) (x1 : Buf (Elt F) ((c : Thread nD τ).loc main_v108_1)) : Function.update (Function.update (W₁ c) main_v108_0 x0) main_v108_1 x1 main_v108_0 = x0 :=
  (Function.update_of_ne (StableHlo.devRef_ne_of_ne (show (main_v108_0 : Ref sig .tc) ≠ main_v108_1 by decide)) x1 (Function.update (W₁ c) main_v108_0 x0)).trans
    (Function.update_self (β := fun b : DevRef τ sig => b.ty.Contents (Elt F)) (Proc.devRef .tc main_v108_0) x0 (W₁ c))

theorem hF7_update_0 (c : Dev nD) (x0 : Buf (Elt F) ((c : Thread nD τ).loc main_v108_0)) (x1 : Buf (Elt F) ((c : Thread nD τ).loc main_v108_1)) :
    (dat7 (F := F) (fun c b => W₁ c b) c).arrAt 0 cfg7.N = Function.update (Function.update (W₁ c) main_v108_0 x0) main_v108_1 x1 (Pipeline.arrRef spec7 0) :=
  ((dat7 (F := F) (fun c b => W₁ c b) c).arrAt_in 0 rfl _).trans ((A_eq7 (fun c b => W₁ c b) c 0).trans
      (update7_of_ne W₁ c x0 x1 (Pipeline.arrRef spec7 0) (by decide) (by decide)).symm)

theorem hF7_update_1 (c : Dev nD) (x0 : Buf (Elt F) ((c : Thread nD τ).loc main_v108_0)) (x1 : Buf (Elt F) ((c : Thread nD τ).loc main_v108_1)) :
    (dat7 (F := F) (fun c b => W₁ c b) c).arrAt 1 cfg7.N = Function.update (Function.update (W₁ c) main_v108_0 x0) main_v108_1 x1 (Pipeline.arrRef spec7 1) :=
  ((dat7 (F := F) (fun c b => W₁ c b) c).arrAt_in 1 rfl _).trans ((A_eq7 (fun c b => W₁ c b) c 1).trans
      (update7_of_ne W₁ c x0 x1 (Pipeline.arrRef spec7 1) (by decide) (by decide)).symm)

theorem hF7_update_2 (c : Dev nD) (x0 : Buf (Elt F) ((c : Thread nD τ).loc main_v108_0)) (x1 : Buf (Elt F) ((c : Thread nD τ).loc main_v108_1)) (hx0 : x0 = (dat7 (F := F) (fun c b => W₁ c b) c).arrAt 2 cfg7.N) :
    (dat7 (F := F) (fun c b => W₁ c b) c).arrAt 2 cfg7.N = Function.update (Function.update (W₁ c) main_v108_0 x0) main_v108_1 x1 (Pipeline.arrRef spec7 2) :=
  hx0.symm.trans (update7_at_2 W₁ c x0 x1).symm

theorem hF7_update_3 (c : Dev nD) (x0 : Buf (Elt F) ((c : Thread nD τ).loc main_v108_0)) (x1 : Buf (Elt F) ((c : Thread nD τ).loc main_v108_1)) (hx1 : x1 = (dat7 (F := F) (fun c b => W₁ c b) c).arrAt 3 cfg7.N) :
    (dat7 (F := F) (fun c b => W₁ c b) c).arrAt 3 cfg7.N = Function.update (Function.update (W₁ c) main_v108_0 x0) main_v108_1 x1 (Pipeline.arrRef spec7 3) :=
  hx1.symm.trans (update7_at_3 W₁ c x0 x1).symm

/-- When the exit valuation is the entry valuation updated at the mean's buffer and at the variance's with what the
    pipeline's write-backs leave in them, every array of the region holds there what the pipeline leaves: an input's
    array is never written and is neither result's buffer; each result's array is its updated one. -/
theorem hF7_update (c : Dev nD) (x0 : Buf (Elt F) ((c : Thread nD τ).loc main_v108_0)) (x1 : Buf (Elt F) ((c : Thread nD τ).loc main_v108_1))
    (hx0 : x0 = (dat7 (F := F) (fun c b => W₁ c b) c).arrAt 2 cfg7.N) (hx1 : x1 = (dat7 (F := F) (fun c b => W₁ c b) c).arrAt 3 cfg7.N) :
    ∀ w, (dat7 (F := F) (fun c b => W₁ c b) c).arrAt w cfg7.N = Function.update (Function.update (W₁ c) main_v108_0 x0) main_v108_1 x1 (Pipeline.arrRef spec7 w)
  | ⟨0, _⟩ => hF7_update_0 W₁ c x0 x1
  | ⟨1, _⟩ => hF7_update_1 W₁ c x0 x1
  | ⟨2, _⟩ => hF7_update_2 W₁ c x0 x1 hx0
  | ⟨3, _⟩ => hF7_update_3 W₁ c x0 x1 hx1

/-- and every buffer that is no array of the region holds what it held at entry. -/
theorem hrest7_update (c : Dev nD) (x0 : Buf (Elt F) ((c : Thread nD τ).loc main_v108_0)) (x1 : Buf (Elt F) ((c : Thread nD τ).loc main_v108_1)) :
    ∀ b : Ref sig .tc, b ∉ Finset.univ.image (Pipeline.arrRef spec7) → Function.update (Function.update (W₁ c) main_v108_0 x0) main_v108_1 x1 b = W₁ c b :=
  fun b hb => update7_of_ne W₁ c x0 x1 b
    (fun e => hb (Finset.mem_image.mpr ⟨2, Finset.mem_univ _, e.symm⟩))
    (fun e => hb (Finset.mem_image.mpr ⟨3, Finset.mem_univ _, e.symm⟩))

end Update

end Cert.Kernel.Hand

end
-- ==== Proof.KB.Reg8Body.lean ====
/-
  Region 8 of the kernel's @main: the normalise + LeakyReLU kernel at width 128, over a grid of ten row
  tiles of 10000 rows. Its seven windows are the row tile of the aggregated features (fetched at every point), five
  rows of 128 entries — the bias, the batch mean, the batch variance, the scale and the shift — (whole, fetched once:
  their block index never moves), and the row tile of the result (written back at every point). The body reads the
  six input blocks whole, computes h = agg + bias, inv = rsqrt(var + eps), hn = (h − mean)·inv·scale + shift and
  stores where(hn ≥ 0, hn, slope·hn) over the whole output block, so what a point leaves in the output's staging
  buffer is a pure function of the six input blocks (`out8_6`), and the inputs' buffers are left as found.

  Stated here, at any float model `F` and at a PARAMETER `V` (the core's buffer contents when the region is
  entered): each window's block at a point (`iblk8`), the body's triple (`sound_kernel8`), the pipeline's proof
  data (`dat8`), the body obligation (`body_obligation8`), and the region as a segment record (`reg8`) for any
  family of proof data whose member 8 is `dat8`, entered from every unscoped buffer at `W₁` and left at `W₂`, where
  `W₂` holds at each of the region's arrays what the pipeline's write-backs leave and elsewhere what `W₁` held.
-/
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): where the window is not
    fetched its block index has not moved, so the block kept from the point before is this point's. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not, for any proof
    data whose array is `V`'s (`hA`) and whose body leaves the block in place (`hafter`): where the window is not
    fetched its block index has not moved, so the block kept from the point before is this point's. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not, for any proof
    data whose array is `V`'s (`hA`) and whose body leaves the block in place (`hafter`): where the window is not
    fetched its block index has not moved, so the block kept from the point before is this point's. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's current staging buffer holds its block at every point, fetched there or not, for any proof
    data whose array is `V`'s (`hA`) and whose body leaves the block in place (`hafter`): where the window is not
    fetched its block index has not moved, so the block kept from the point before is this point's. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's current staging buffer holds its block at every point, fetched there or not, for any proof
    data whose array is `V`'s (`hA`) and whose body leaves the block in place (`hafter`): where the window is not
    fetched its block index has not moved, so the block kept from the point before is this point's. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- Input window 5's current staging buffer holds its block at every point, fetched there or not, for any proof
    data whose array is `V`'s (`hA`) and whose body leaves the block in place (`hafter`): where the window is not
    fetched its block index has not moved, so the block kept from the point before is this point's. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev r8_x : Rect S10000x128 := Rect.unit (s := S10000x128) ![0, 0] S10000x128.size inb_S10000x128_S10000x128_0_0
abbrev r8_r : Rect S1x128 := Rect.unit (s := S1x128) ![0, 0] S1x128.size inb_S1x128_S1x128_0_0
abbrev r8_o : Rect S10000x128 := Rect.unit (s := S10000x128) ![0, 0] S10000x128.size inb_S10000x128_S10000x128_0_0

/-! ## What the body leaves in the output window's buffer -/

/-- Window 6's staging buffer after the body, from the input windows' blocks (the row tile, the bias, the mean, the
    variance, the scale and the shift, in the windows' order): its one store, of the normalised and rectified tile
    computed from the six blocks read whole. The payload takes the variance before the mean, as the body reads them. -/
def out8_6 (x0 : Vec F S10000x128 .f32) (x1 : Vec F S1x128 .f32) (x2 : Vec F S1x128 .f32) (x3 : Vec F S1x128 .f32) (x4 : Vec F S1x128 .f32) (x5 : Vec F S1x128 .f32) : Vec F S10000x128 .f32 :=
  View.canon [⟨r8_o, k8_pay1 (View.ld x0 r8_x) (View.ld x1 r8_r) (View.ld x3 r8_r) (View.ld x2 r8_r) (View.ld x4 r8_r) (View.ld x5 r8_r)⟩]

/-- The one store is over the whole buffer, so it covers it. -/
theorem cover8_6 (p0 : Vec F S10000x128 .f32) (y : S10000x128.Idx) :
    ∃ pc ∈ ([⟨r8_o, p0⟩] : List (View.Piece (Elt F) S10000x128 .f32)), y ∈ pc.1.set :=
  View.cover_of_tiled [⟨r8_o, p0⟩] S10000x128.size (by rfl) y

/-! ## The body's triple -/

set_option maxHeartbeats 1000000 in
/-- The kernel body on whole staging memrefs, the inputs' at read contents `x0 … x5` and the output's at anything,
    runs to the continuation holding the inputs' as they were and the output's at `out8_6` of the inputs'. -/
theorem sound_kernel8 (c : Dev nD) (E : Set ℕ) (i : grid8.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole)
    (x0 : Vec F S10000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)) -∗ K ⟨⟩))
      ⊢ wp frame (wpE (defs₀ (F := F)) Variants.none c none) E (cc8__norm_kernel i arg1 harg1 arg2 harg2 arg3 harg3 arg4 harg4 arg5 harg5 arg6 harg6 arg7 harg7) K := by
  simp only [cc8__norm_kernel_eq_skeleton]; unfold cc8__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The proof data of pipeline 8 on core `c`: the arrays as the region finds them (`V`); after the body at point `t`
    each input's buffer at its block and the output's at `out8_6` of the input blocks; the invariant is the scoped
    buffers no window stages and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' memrefs hold their blocks, so `sound_kernel8` applies; the invariant and the
    core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ (grid8.coords t) _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Region

end Cert.Kernel.Hand

end
-- ==== Proof.KB.Reg8.lean ====
/-
  Region 8 of the kernel's @main (the normalise + LeakyReLU kernel at width 128) as a segment of @main:
  the record `reg8` for any family of proof data whose member 8 is `dat8`, entered from every unscoped buffer at
  `W₁` and left at `W₂`, where `W₂` holds at each of the region's arrays what the pipeline's write-backs leave and
  elsewhere what `W₁` held; and the two facts that make `W₂ := W₁` updated at the output array `main_v112` such a
  valuation (`hF8_update`, `hrest8_update`): the six input arrays are never written back, so they end as
  entered, and the output array is the only one of the region's arrays that differs.
-/
import proofs.«109725_j21638045237575_1_alg».proof.Proof.KB.Reg8Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The exit valuation: the entry valuation updated at the output array -/

section Update

variable (W₁ : Dev nD → Valuation τ sig (Elt F)) (c : Dev nD) (x : Buf (Elt F) ((c : Thread nD τ).loc main_v112))

/-- An input window's array is never written back, so after all the points it holds what the region found, and the
    update at the output array does not touch it. -/
theorem hF8_in (w : Fin cfg8.W) (hin : (cfg8.win w).isOut = false) (hne : Pipeline.arrRef spec8 w ≠ main_v112) :
    (dat8 (F := F) (fun c b => W₁ c b) c).arrAt w cfg8.N = Function.update (W₁ c) main_v112 x (Pipeline.arrRef spec8 w) :=
  ((dat8 (F := F) (fun c b => W₁ c b) c).arrAt_in w hin _).trans
    ((A_eq8 (fun c b => W₁ c b) c w).trans (Function.update_of_ne (StableHlo.devRef_ne_of_ne hne) _ _).symm)

/-- Every window but the last is an input, staged from an array other than the output array. -/
theorem in_ne8 : ∀ w : Fin cfg8.W, w ≠ 6 → (cfg8.win w).isOut = false ∧ Pipeline.arrRef spec8 w ≠ main_v112 := by decide

/-- Each of the region's arrays after all the points is what the entry valuation updated at the output array holds
    there, when the update's value `x` is what the pipeline's write-backs leave in the output array. -/
theorem hF8_update (hx : x = (dat8 (F := F) (fun c b => W₁ c b) c).arrAt 6 cfg8.N) :
    ∀ w : Fin cfg8.W, (dat8 (F := F) (fun c b => W₁ c b) c).arrAt w cfg8.N = Function.update (W₁ c) main_v112 x (Pipeline.arrRef spec8 w) := fun w => by
  by_cases h : w = 6
  · subst h hx
    exact (Function.update_self (Proc.devRef .tc main_v112 : DevRef τ sig) _ (W₁ c)).symm
  · exact hF8_in W₁ c x w (in_ne8 w h).1 (in_ne8 w h).2

/-- Every buffer that is none of the region's arrays is not the output array, so the update leaves it as entered. -/
theorem hrest8_update : ∀ b : Ref sig .tc, b ∉ Finset.univ.image (Pipeline.arrRef spec8) → Function.update (W₁ c) main_v112 x b = W₁ c b :=
  fun b hb => Function.update_of_ne (StableHlo.devRef_ne_of_ne fun e =>
    hb (Finset.mem_image.mpr ⟨6, Finset.mem_univ _, (e.symm : Pipeline.arrRef spec8 6 = b)⟩)) _ _

end Update

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest8 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 8 over the thread state "every unscoped buffer whole at a valuation, the generator register at some state,
    nothing owed": entered from the buffers at `W₁`, left at `W₂`, for any family of proof data whose member 8 is
    `dat8` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg8 (hp : ∀ c, pdats 8 c = dat8 (fun c b => W₁ c b) c)
    (hF : ∀ c w, (dat8 (F := F) (fun c b => W₁ c b) c).arrAt w cfg8.N = W₂ c (Pipeline.arrRef spec8 w))
    (hrest : ∀ c (b : Ref sig .tc), b ∉ Finset.univ.image (Pipeline.arrRef spec8) → W₂ c b = W₁ c b) :
    Pipeline.RegionSeg (pcfgs (F := F)) adm pdats () defs₀ Variants.none L lv 8 where
  win := launch8.win.to₀
  block_pos := launch8.block_pos
  stage_whole := launch8.stage_whole
  K := PEmpty
  osem k := k.elim
  ho := Pipeline.OwnSemFacts.none _
  hbody c := by rw [hp c]; exact (body_obligation8 (fun c b => W₁ c b) c).loose
  hwaits := Pipeline.hwaits_of_owed_zero _ _ _ _ L lv 8 fun c _ => by rw [hp c]; rfl
  pre c := iprop(StableHlo.held (c : Thread nD τ) (Pipeline.ucRefs τ sig) (W₁ c) ∗ rest8 c)
  post c := iprop(StableHlo.held (c : Thread nD τ) (Pipeline.ucRefs τ sig) (W₂ c) ∗ rest8 c)
  X c := iprop(∃ r, prngReg c r)
  Y c := iprop(∃ r, prngReg c r)
  Z c := Pipeline.unscopedRest (Ix := Unit) (Name := ℕ) (U := UR sig nD τ) (Lvl := ℕ) spec8 c (fun b => W₁ c b)
  hentry c := by
    rw [Pipeline.ownSems0_none]
    have hq : ∀ w, (pdats 8 c).q w = fullShare := fun w => by rw [hp c]; rfl
    have hA : ∀ w, (pdats 8 c).A w = (fun b : Ref sig .tc => W₁ c b) (Pipeline.arrRef spec8 w) := fun w => by rw [hp c]; rfl
    have hsplit := Pipeline.arrays_of_unscopedBufs (p := 8) (pcfgs (F := F)) adm pdats launch8.win launch8.arr_whole c
      ((pdats 8 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; rw [hp c]; exact fun _ _ => Or.inl trivial
      rw [show (pdats 8 c).owed 0 = 0 from by rw [hp c]; rfl]
      iexact HO
    isplitl [Hp]; · iexact Hp
    iexact Hrest
  hin c := by
    rw [show (pdats 8 c).Φ 0 = Pipeline.ΦA spec8 c from by rw [hp c]; rfl]; unfold Pipeline.ΦA
    iintro ⟨Hp, -, Hr⟩
    isplitl [Hr]; · iexact Hr
    iexact Hp
  hout c := by
    rw [Pipeline.ownSems0_none, show (pdats 8 c).Φ (Fin.last _) = Pipeline.ΦA spec8 c from by rw [hp c]; rfl]; unfold Pipeline.ΦA
    iintro ⟨Hr, Hp⟩
    isplitl [Hp]; · iexact Hp
    isplitr; · iempintro
    iexact Hr
  hexit c := by
    have hq : ∀ w, (pdats 8 c).q w = fullShare := fun w => by rw [hp c]; rfl
    have hjoin := Pipeline.unscopedBufs_of_arrays (p := 8) (pcfgs (F := F)) adm (Ix := Unit) (Name := ℕ) (U := UR sig nD τ) (Lvl := ℕ)
      launch8.win launch8.arr_whole c pdats ((pdats 8 c).share_full hq)
      (fun b => W₁ c b) (fun b => W₂ c b) ((pdats 8 c).arrAt · cfg8.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 8 c).owed (Fin.last _) = 0 from by rw [hp c]; rfl]
    iexact HO

end Record

end Cert.Kernel.Hand

end
-- ==== Proof.KB.Reg9.lean ====
/-
  Region 9 of the kernel's @main: the linear kernel y = x·W + bias at widths 128 → 32, over a grid of
  ten row tiles of 10000 rows. Its four windows are the row tile of x (fetched at every point), the weight matrix
  and the bias row (whole, fetched once: their block index never moves), and the row tile of the result (written
  back at every point). The body reads the three input blocks whole and stores one value over the whole output
  block, so what a point leaves in the output's staging buffer is a pure function of the three input blocks
  (`out9_3`), and the inputs' buffers are left as found.

  Stated here, at any float model `F` and at a PARAMETER `V` (the core's buffer contents when the region is
  entered): each window's block at a point (`iblk9`), the body's triple (`sound_kernel9`), the pipeline's proof
  data (`dat9`), the body obligation (`body_obligation9`), and the region as a segment record (`reg9`) for any
  family of proof data whose member 9 is `dat9`, entered from every unscoped buffer at `W₁` and left at `W₂`, where
  `W₂` holds at each of the region's arrays what the pipeline's write-backs leave and elsewhere what `W₁` held.
-/
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): where the window is not
    fetched its block index has not moved, so the block kept from the point before is this point's. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current staging buffer holds its block at every point, fetched there or not, for any proof
    data whose array is `V`'s (`hA`) and whose body leaves the block in place (`hafter`): where the window is not
    fetched its block index has not moved, so the block kept from the point before is this point's. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current staging buffer holds its block at every point, fetched there or not, for any proof
    data whose array is `V`'s (`hA`) and whose body leaves the block in place (`hafter`): where the window is not
    fetched its block index has not moved, so the block kept from the point before is this point's. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_x : Rect S10000x128 := Rect.unit (s := S10000x128) ![0, 0] S10000x128.size inb_S10000x128_S10000x128_0_0
abbrev r9_w : Rect S128x32 := Rect.unit (s := S128x32) ![0, 0] S128x32.size inb_S128x32_S128x32_0_0
abbrev r9_b : Rect S1x32 := Rect.unit (s := S1x32) ![0, 0] S1x32.size inb_S1x32_S1x32_0_0
abbrev r9_o : Rect S10000x32 := Rect.unit (s := S10000x32) ![0, 0] S10000x32.size inb_S10000x32_S10000x32_0_0

/-! ## What the body leaves in the output window's buffer -/

/-- Window 3's staging buffer after the body, from the input windows' blocks: its one store, of the payload
    x·W + bias computed from the three blocks read whole. -/
def out9_3 (x0 : Vec F S10000x128 .f32) (x1 : Vec F S128x32 .f32) (x2 : Vec F S1x32 .f32) : Vec F S10000x32 .f32 :=
  View.canon [⟨r9_o, k9_pay1 (View.ld x0 r9_x) (View.ld x1 r9_w) (View.ld x2 r9_b)⟩]

/-- The one store is over the whole buffer, so it covers it. -/
theorem cover9_3 (p0 : Vec F S10000x32 .f32) (y : S10000x32.Idx) :
    ∃ pc ∈ ([⟨r9_o, p0⟩] : List (View.Piece (Elt F) S10000x32 .f32)), y ∈ pc.1.set :=
  View.cover_of_tiled [⟨r9_o, p0⟩] S10000x32.size (by rfl) y

/-! ## The body's triple -/

set_option maxHeartbeats 1000000 in
/-- The kernel body on whole staging memrefs, the inputs' at read contents `x0 x1 x2` and the output's at anything,
    runs to the continuation holding the inputs' as they were and the output's at `out9_3` of the inputs'. -/
theorem sound_kernel9 (c : Dev nD) (E : Set ℕ) (i : grid9.Coords) (arg1 : Memref sig .tc .vmem S10000x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S10000x32 .f32) (harg4 : arg4.IsWhole)
    (x0 : Vec F S10000x128 .f32) (x1 : Vec F S128x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__linear_kernel i arg1 harg1 arg2 harg2 arg3 harg3 arg4 harg4) K := by
  simp only [cc9__linear_kernel_eq_skeleton]; unfold cc9__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them (`V`); after the body at point `t`
    each input's buffer at its block and the output's at `out9_3` of the input blocks; the invariant is the scoped
    buffers no window stages and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so `sound_kernel9` applies; the invariant and the
    core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest9 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 9 over the thread state "every unscoped buffer whole at a valuation, the generator register at some state,
    nothing owed": entered from the buffers at `W₁`, left at `W₂`, for any family of proof data whose member 9 is
    `dat9` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg9 (hp : ∀ c, pdats 9 c = dat9 (fun c b => W₁ c b) c)
    (hF : ∀ c w, (dat9 (F := F) (fun c b => W₁ c b) c).arrAt w cfg9.N = W₂ c (Pipeline.arrRef spec9 w))
    (hrest : ∀ c (b : Ref sig .tc), b ∉ Finset.univ.image (Pipeline.arrRef spec9) → W₂ c b = W₁ c b) :
    Pipeline.RegionSeg (pcfgs (F := F)) adm pdats () defs₀ Variants.none L lv 9 where
  win := launch9.win.to₀
  block_pos := launch9.block_pos
  stage_whole := launch9.stage_whole
  K := PEmpty
  osem k := k.elim
  ho := Pipeline.OwnSemFacts.none _
  hbody c := by rw [hp c]; exact (body_obligation9 (fun c b => W₁ c b) c).loose
  hwaits := Pipeline.hwaits_of_owed_zero _ _ _ _ L lv 9 fun c _ => by rw [hp c]; rfl
  pre c := iprop(StableHlo.held (c : Thread nD τ) (Pipeline.ucRefs τ sig) (W₁ c) ∗ rest9 c)
  post c := iprop(StableHlo.held (c : Thread nD τ) (Pipeline.ucRefs τ sig) (W₂ c) ∗ rest9 c)
  X c := iprop(∃ r, prngReg c r)
  Y c := iprop(∃ r, prngReg c r)
  Z c := Pipeline.unscopedRest (Ix := Unit) (Name := ℕ) (U := UR sig nD τ) (Lvl := ℕ) spec9 c (fun b => W₁ c b)
  hentry c := by
    rw [Pipeline.ownSems0_none]
    have hq : ∀ w, (pdats 9 c).q w = fullShare := fun w => by rw [hp c]; rfl
    have hA : ∀ w, (pdats 9 c).A w = (fun b : Ref sig .tc => W₁ c b) (Pipeline.arrRef spec9 w) := fun w => by rw [hp c]; rfl
    have hsplit := Pipeline.arrays_of_unscopedBufs (p := 9) (pcfgs (F := F)) adm pdats launch9.win launch9.arr_whole c
      ((pdats 9 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 9 c).Φ 0 = Pipeline.ΦA spec9 c from by rw [hp c]; rfl]; unfold Pipeline.ΦA
    iintro ⟨Hp, -, Hr⟩
    isplitl [Hr]; · iexact Hr
    iexact Hp
  hout c := by
    rw [Pipeline.ownSems0_none, show (pdats 9 c).Φ (Fin.last _) = Pipeline.ΦA spec9 c from by rw [hp c]; rfl]; unfold Pipeline.ΦA
    iintro ⟨Hr, Hp⟩
    isplitl [Hp]; · iexact Hp
    isplitr; · iempintro
    iexact Hr
  hexit c := by
    have hq : ∀ w, (pdats 9 c).q w = fullShare := fun w => by rw [hp c]; rfl
    have hjoin := Pipeline.unscopedBufs_of_arrays (p := 9) (pcfgs (F := F)) adm (Ix := Unit) (Name := ℕ) (U := UR sig nD τ) (Lvl := ℕ)
      launch9.win launch9.arr_whole c pdats ((pdats 9 c).share_full hq)
      (fun b => W₁ c b) (fun b => W₂ c b) ((pdats 9 c).arrAt · cfg9.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Record

/-! ## The exit valuation as an update of the entry valuation at the result's buffer -/

section Update

variable (W₁ : Dev nD → Valuation τ sig (Elt F))

/-- A property of the four windows, checked window by window. -/
private theorem fin4_cases {P : Fin 4 → Prop} (h0 : P 0) (h1 : P 1) (h2 : P 2) (h3 : P 3) : ∀ w, P w
  | ⟨0, _⟩ => h0
  | ⟨1, _⟩ => h1
  | ⟨2, _⟩ => h2
  | ⟨3, _⟩ => h3

/-- When the exit valuation is the entry valuation updated at the result's buffer `main_v115` with what the pipeline's
    write-backs leave in it, every array of the region holds there what the pipeline leaves: an input's array is never
    written and is not the result's buffer; the result's array is the updated one. -/
theorem hF9_update (c : Dev nD) (x : Buf (Elt F) ((c : Thread nD τ).loc main_v115))
    (hx : x = (dat9 (F := F) (fun c b => W₁ c b) c).arrAt 3 cfg9.N) :
    ∀ w, (dat9 (F := F) (fun c b => W₁ c b) c).arrAt w cfg9.N = Function.update (W₁ c) main_v115 x (Pipeline.arrRef spec9 w) :=
  fin4_cases (P := fun w => (dat9 (F := F) (fun c b => W₁ c b) c).arrAt w cfg9.N = Function.update (W₁ c) main_v115 x (Pipeline.arrRef spec9 w))
    (((dat9 (F := F) (fun c b => W₁ c b) c).arrAt_in 0 rfl _).trans ((A_eq9 (fun c b => W₁ c b) c 0).trans (Function.update_of_ne (StableHlo.devRef_ne_of_ne (by decide)) _ _).symm))
    (((dat9 (F := F) (fun c b => W₁ c b) c).arrAt_in 1 rfl _).trans ((A_eq9 (fun c b => W₁ c b) c 1).trans (Function.update_of_ne (StableHlo.devRef_ne_of_ne (by decide)) _ _).symm))
    (((dat9 (F := F) (fun c b => W₁ c b) c).arrAt_in 2 rfl _).trans ((A_eq9 (fun c b => W₁ c b) c 2).trans (Function.update_of_ne (StableHlo.devRef_ne_of_ne (by decide)) _ _).symm))
    (hx.symm.trans (Function.update_self (β := fun b : DevRef τ sig => b.ty.Contents (Elt F)) _ _ _).symm)

/-- and every buffer that is no array of the region holds what it held at entry. -/
theorem hrest9_update (c : Dev nD) (x : Buf (Elt F) ((c : Thread nD τ).loc main_v115)) :
    ∀ b : Ref sig .tc, b ∉ Finset.univ.image (Pipeline.arrRef spec9) → Function.update (W₁ c) main_v115 x b = W₁ c b :=
  fun b hb => Function.update_of_ne (StableHlo.devRef_ne_of_ne fun e => hb (Finset.mem_image.mpr ⟨3, Finset.mem_univ _, e.symm⟩)) _ _

end Update

end Cert.Kernel.Hand

end
-- ==== Proof.KB.Reg10Run.lean ====
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.KB.StatLib
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the fourth layer (32 columns): the body's three control cases

The body adds the bias row to its block of 10000 rows, adds the column sums of the result and of its square to two
carried rows, having first zeroed those rows at the first grid point, and at the last grid point divides both rows
by the number of rows and writes the mean and the mean of squares less the squared mean. -/

/-- The first conditional (zero the two carried rows): taken where the grid coordinate is 0. -/
abbrev cond10_0 (i : grid10.Coords) : Prop :=
  (Scalar.cmpi .ne (Scalar.extui (Scalar.cmpi .eq (BitVec.ofNat 32 (i 0).val) 0#32)) 0#32) = 1#1
/-- The second conditional (write the two outputs): taken where the grid coordinate is 9. -/
abbrev cond10_1 (i : grid10.Coords) : Prop := k10_cond2 i = 1#1

theorem hcond10_0 : ∀ t : Fin cfg10.N, cond10_0 (grid10.coords t) ↔ t.val = 0 :=
  (by decide +kernel : ∀ t : Fin grid10.N, cond10_0 (grid10.coords t) ↔ t.val = 0)
theorem hcond10_1 : ∀ t : Fin cfg10.N, cond10_1 (grid10.coords t) ↔ t.val = 9 :=
  (by decide +kernel : ∀ t : Fin grid10.N, cond10_1 (grid10.coords t) ↔ t.val = 9)

set_option maxHeartbeats 1000000 in
/-- A middle grid point: neither conditional is taken; the carried rows `s5`, `s6` receive the block's column sums. -/
theorem sound_kernel10_B (c : Dev nD) (E : Set ℕ) (i : grid10.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬ cond10_0 i) (hc1 : ¬ cond10_1 i)
    (x0 : Vec F S10000x32 .f32) (x1 : Vec F S1x32 .f32) (s5 s6 : Vec F S1x32 .f32) (K : PUnit → sProp 𝕄) :
    iprop(owns (c : Thread nD τ) arg1 fullShare x0 ∗ owns (c : Thread nD τ) arg2 fullShare x1 ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg5 fullShare (k10_pay4 x0 x1 s5) ∗ owns (c : Thread nD τ) arg6 fullShare (k10_pay5 x0 x1 s6)) -∗ K ⟨⟩))
      ⊢ wp frame (wpE (defs₀ (F := F)) Variants.none c none) E (cc10__reduce_kernel i arg1 harg1 arg2 harg2 arg3 harg3 arg4 harg4 arg5 harg5 arg6 harg6) K := by
  simp only [cc10__reduce_kernel_eq_skeleton]; unfold cc10__reduce_kernel_skel
  unfold owns
  iintro ⟨⟨%f0, %hf0, H0⟩, ⟨%f1, %hf1, H1⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store _ _ stat_off2_zero]
    simp only [View.readAt_eq_ld, View.ld_unit_zero (S := S10000x32) stat_off2_zero, View.ld_unit_zero (S := S1x32) stat_off2_zero]
  · iexists _; isplitr
    swap; · iexact H6
    ipureintro
    rw [stat_read_store _ _ stat_off2_zero]
    simp only [View.readAt_eq_ld, View.ld_unit_zero (S := S10000x32) stat_off2_zero, View.ld_unit_zero (S := S1x32) stat_off2_zero]

set_option maxHeartbeats 1000000 in
/-- The first grid point: the carried rows are zeroed, whatever they held, then receive the block's column sums. -/
theorem sound_kernel10_A (c : Dev nD) (E : Set ℕ) (i : grid10.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : cond10_0 i) (hc1 : ¬ cond10_1 i)
    (x0 : Vec F S10000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg5 fullShare (k10_pay4 x0 x1 k10_pay1) ∗ owns (c : Thread nD τ) arg6 fullShare (k10_pay5 x0 x1 k10_pay2)) -∗ K ⟨⟩))
      ⊢ wp frame (wpE (defs₀ (F := F)) Variants.none c none) E (cc10__reduce_kernel i arg1 harg1 arg2 harg2 arg3 harg3 arg4 harg4 arg5 harg5 arg6 harg6) K := by
  simp only [cc10__reduce_kernel_eq_skeleton]; unfold cc10__reduce_kernel_skel
  unfold owns
  iintro ⟨⟨%f0, %hf0, H0⟩, ⟨%f1, %hf1, H1⟩, ⟨%d5, %f5, -, H5⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store_cons _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"
  · iexists _; isplitr
    swap; · iexact H6
    ipureintro
    rw [stat_read_store_cons _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"

set_option maxHeartbeats 1000000 in
/-- The last grid point: the carried rows receive the block's column sums, then the two outputs are written from them. -/
theorem sound_kernel10_C (c : Dev nD) (E : Set ℕ) (i : grid10.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬ cond10_0 i) (hc1 : cond10_1 i)
    (x0 : Vec F S10000x32 .f32) (x1 : Vec F S1x32 .f32) (s5 s6 : Vec F S1x32 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg3 fullShare (k10_pay6 (k10_pay4 x0 x1 s5)) ∗ owns (c : Thread nD τ) arg4 fullShare (k10_pay7 (k10_pay4 x0 x1 s5) (k10_pay5 x0 x1 s6))
            ∗ owns (c : Thread nD τ) arg5 fullShare (k10_pay4 x0 x1 s5) ∗ owns (c : Thread nD τ) arg6 fullShare (k10_pay5 x0 x1 s6)) -∗ K ⟨⟩))
      ⊢ wp frame (wpE (defs₀ (F := F)) Variants.none c none) E (cc10__reduce_kernel i arg1 harg1 arg2 harg2 arg3 harg3 arg4 harg4 arg5 harg5 arg6 harg6) K := by
  simp only [cc10__reduce_kernel_eq_skeleton]; unfold cc10__reduce_kernel_skel
  unfold owns
  iintro ⟨⟨%f0, %hf0, H0⟩, ⟨%f1, %hf1, H1⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [stat_read_store _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"
  isplitl [H4]
  · iexists _; isplitr
    swap; · iexact H4
    ipureintro
    rw [stat_read_store _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"
  isplitl [H5]
  · iexists _; isplitr
    swap; · iexact H5
    ipureintro
    sl_unfold_run_names
    rw [stat_read_store_cons _ _ stat_off2_zero]
    first | (simp only [View.readAt_eq_ld, View.readCov_unit_zero (S := S1x32) _ stat_off2_zero, View.ld_unit_zero (S := S10000x32) stat_off2_zero, View.ld_unit_zero (S := S1x32) stat_off2_zero]) | fail "simp set did not close the read-back"
  · iexists _; isplitr
    swap; · iexact H6
    ipureintro
    sl_unfold_run_names
    rw [stat_read_store_cons _ _ stat_off2_zero]
    first | (simp only [View.readAt_eq_ld, View.readCov_unit_zero (S := S1x32) _ stat_off2_zero, View.ld_unit_zero (S := S10000x32) stat_off2_zero, View.ld_unit_zero (S := S1x32) stat_off2_zero]) | fail "simp set did not close the read-back"

end Cert.Kernel.Hand

end
-- ==== Proof.KB.Reg10.lean ====
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import proofs.«109725_j21638045237575_1_alg».proof.Proof.KB.Reg10Run
import Idealize.ShloMosaic.Lib.Pipeline.Frame
import Idealize.ShloMosaic.Lib.Pipeline.FrameBody
import Idealize.ShloMosaic.Lib.Pipeline.Kit
import Idealize.ShloMosaic.Lib.Pipeline.Regions
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the fourth layer (32 columns) as a region of @main

Ten grid points, each a block of 10000 rows of the aggregated features. Two rows of 32 are carried from point to
point in scratch memory: the column sums of (block + bias) and of its square over the blocks seen so far. The first
point zeroes them first; the last point writes mean = sum / 100000 and var = sumsq / 100000 − mean · mean into the
two outputs' staging buffers, which are written back there and nowhere else; at the other points the body leaves
the outputs' buffers as it found them. -/

section Region

variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The block of aggregated rows is in its staging buffer at every point, for any proof data over `V` whose body
    leaves it there. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The bias row is in its staging buffer at every point (fetched once: its block index never moves). -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The carried rows -/

/-- The two carried rows when the accumulation of point `t` starts: both zero at the first point (after its zeroing),
    and after each point the sums of (block + bias), and of its square, down the block's columns added — a fold of the
    body's payload terms over the blocks seen so far, first component the sums, second the sums of squares. -/
def scr10 (c : Dev nD) : ℕ → Vec F S1x32 .f32 × Vec F S1x32 .f32
  | 0 => (k10_pay1, k10_pay2)
  | t + 1 =>
    if h : t < cfg10.N then
      (k10_pay4 (iblk10 V c 0 ⟨t, h⟩) (iblk10 V c 1 ⟨t, h⟩) (scr10 c t).1,
       k10_pay5 (iblk10 V c 0 ⟨t, h⟩) (iblk10 V c 1 ⟨t, h⟩) (scr10 c t).2)
    else scr10 c t

theorem scr10_zero (c : Dev nD) : scr10 V c 0 = (k10_pay1, k10_pay2) := by rw [scr10]

/-- One point's step of the fold. -/
theorem scr10_succ (c : Dev nD) (t : Fin cfg10.N) :
    scr10 V c (t.val + 1) = (k10_pay4 (iblk10 V c 0 t) (iblk10 V c 1 t) (scr10 V c t.val).1,
      k10_pay5 (iblk10 V c 0 t) (iblk10 V c 1 t) (scr10 V c t.val).2) := by
  rw [scr10, dif_pos t.isLt]

/-- The scratch rows between points, as the invariant holds them: before the first point at anything, before point
    `n > 0` at the fold's value there. -/
def scrAt10 (c : Dev nD) (n : ℕ) : sProp 𝕄 :=
  if n = 0 then
    iprop((∃ d, owns (c : Thread nD τ) (Memref.whole cc10_scratch0 : Memref sig .tc .vmem S1x32 .f32) fullShare d) ∗ (∃ d, owns (c : Thread nD τ) (Memref.whole cc10_scratch1 : Memref sig .tc .vmem S1x32 .f32) fullShare d))
  else
    iprop(owns (c : Thread nD τ) (Memref.whole cc10_scratch0 : Memref sig .tc .vmem S1x32 .f32) fullShare (scr10 V c n).1 ∗ owns (c : Thread nD τ) (Memref.whole cc10_scratch1 : Memref sig .tc .vmem S1x32 .f32) fullShare (scr10 V c n).2)

theorem scrAt10_zero (c : Dev nD) :
    scrAt10 V c 0 = iprop((∃ d, owns (c : Thread nD τ) (Memref.whole cc10_scratch0 : Memref sig .tc .vmem S1x32 .f32) fullShare d) ∗ (∃ d, owns (c : Thread nD τ) (Memref.whole cc10_scratch1 : Memref sig .tc .vmem S1x32 .f32) fullShare d)) := by
  unfold scrAt10; rw [if_pos rfl]

theorem scrAt10_pos (c : Dev nD) (n : ℕ) (h : n ≠ 0) :
    scrAt10 V c n = iprop(owns (c : Thread nD τ) (Memref.whole cc10_scratch0 : Memref sig .tc .vmem S1x32 .f32) fullShare (scr10 V c n).1 ∗ owns (c : Thread nD τ) (Memref.whole cc10_scratch1 : Memref sig .tc .vmem S1x32 .f32) fullShare (scr10 V c n).2) := by
  unfold scrAt10; rw [if_neg h]

/-! ## The pipeline's proof data -/

/-- The proof data of the pipeline on core `c`: the arrays as the region finds them; each input's buffer left at its
    block; the mean's and the variance's buffers, where the body stores them (the last point), at the body's two last
    payload terms of the carried rows after that point's accumulation; the invariant the scoped buffers other than
    the two scratch rows, the generator register, and the scratch rows at the fold's value; nothing owed. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => k10_pay6 (scr10 V c (t.val + 1)).1
    | ⟨3, _⟩ => k10_pay7 (scr10 V c (t.val + 1)).1 (scr10 V c (t.val + 1)).2
  Φ t := iprop(Pipeline.scopedRestBut (Ix := Unit) (Name := ℕ) (U := UR sig nD τ) (Lvl := ℕ) (Val := Elt F) spec10 c [cc10_scratch0, cc10_scratch1]
    ∗ (∃ r, prngReg c r) ∗ scrAt10 V c t.val)
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = k10_pay6 (scr10 V c (t.val + 1)).1 := by dsimp only [dat10]
theorem after10_3 (c : Dev nD) (t : Fin cfg10.N) :
    (dat10 V c).after 3 t = k10_pay7 (scr10 V c (t.val + 1)).1 (scr10 V c (t.val + 1)).2 := by dsimp only [dat10]

theorem Φ10_eq (c : Dev nD) (t : Fin (cfg10.N + 1)) :
    (dat10 V c).Φ t = iprop(Pipeline.scopedRestBut (Ix := Unit) (Name := ℕ) (U := UR sig nD τ) (Lvl := ℕ) (Val := Elt F) spec10 c [cc10_scratch0, cc10_scratch1]
      ∗ (∃ r, prngReg c r) ∗ scrAt10 V c t.val) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- The two outputs' buffers are idle (the body stores nothing there) at every point but the last, -/
theorem idle10_2 : ∀ t : Fin cfg10.N, cfg10.idle 2 (cfg10.grid.coords t) = true ↔ t.val ≠ 9 :=
  (by decide +kernel : ∀ t : Fin grid10.N, cfg10.idle 2 (grid10.coords t) = true ↔ t.val ≠ 9)
theorem idle10_3 : ∀ t : Fin cfg10.N, cfg10.idle 3 (cfg10.grid.coords t) = true ↔ t.val ≠ 9 :=
  (by decide +kernel : ∀ t : Fin grid10.N, cfg10.idle 3 (grid10.coords t) = true ↔ t.val ≠ 9)

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns: the two outputs' buffers as found where they are idle, at the stated contents at the last point. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ (dat10 V c).leavesExact 2 t
    ∗ (dat10 V c).leavesExact 3 t)

set_option maxHeartbeats 1000000 in
/-- The body at any point, by the three control cases: at the first point the scratch rows are found at anything and
    left at the fold's first step; at a middle point found at the fold's value and left at its next; at the last point
    also the two outputs' buffers, found at anything, are left at the mean and the variance of the final rows. The
    rest of the invariant and the core's `owes` pass through unread; where an output's buffer is idle it is handed back
    as it was found. -/
theorem sound_body10 (c : Dev nD) (t : Fin cfg10.N) :
    bodyPre10 V c t ⊢ wp frame (wpE (defs₀ (F := F)) Variants.none c none) Set.univ (bodyAt10 t) (fun _ => bodyPost10 V c t) := by
  have hlt : t.val < 10 := by
    have h := t.isLt
    have hN : cfg10.N = 10 := N_10
    omega
  unfold bodyPre10 bodyPost10 bodyAt10
  simp only [before10_0, before10_1]
  rw [show (dat10 V c).owesAt () t.succ = (dat10 V c).owesAt () t.castSucc from rfl, after10_0, after10_1,
    Φ10_eq, Φ10_eq, Fin.val_succ, Fin.val_castSucc, scrAt10_pos V c (t.val + 1) (Nat.succ_ne_zero _), scr10_succ]
  by_cases h0 : t.val = 0
  · -- the first point
    have h9 : t.val ≠ 9 := by omega
    have hc0 : cond10_0 (grid10.coords t) := (hcond10_0 t).mpr h0
    have hc1 : ¬ cond10_1 (grid10.coords t) := fun h => h9 ((hcond10_1 t).mp h)
    rw [Dat.leavesExact_idle _ 2 t ((idle10_2 t).mpr h9) (by rw [Bool.eq_false_iff]; intro h; have := (flush10_2 t).mp h; omega),
      Dat.leavesExact_idle _ 3 t ((idle10_3 t).mpr h9) (by rw [Bool.eq_false_iff]; intro h; have := (flush10_3 t).mp h; omega),
      h0, scrAt10_zero, scr10_zero]
    iintro ⟨⟨Hrest, Hprng, H5, H6⟩, Ho, ⟨%d0, H0⟩, ⟨%d1, H1⟩, H2, H3⟩
    iapply (sound_kernel10_A c Set.univ (grid10.coords t) _ _ _ _ _ _ _ _ _ _ _ _ hc0 hc1 (iblk10 V c 0 t) (iblk10 V c 1 t) _)
    isplitl [H0]; · iexact H0
    isplitl [H1]; · iexact H1
    isplitl [H5]; · iexact H5
    isplitl [H6]; · iexact H6
    iintro ⟨H0, H1, H5, H6⟩
    isplitl [Hrest Hprng H5 H6]
    · isplitl [Hrest]; · iexact Hrest
      isplitl [Hprng]; · iexact Hprng
      isplitl [H5]; · iexact H5
      iexact H6
    isplitl [Ho]; · iexact Ho
    isplitl [H0]; · iexact H0
    isplitl [H1]; · iexact H1
    isplitl [H2]; · iexact H2
    iexact H3
  · by_cases h9 : t.val = 9
    · -- the last point
      have hc0 : ¬ cond10_0 (grid10.coords t) := fun h => h0 ((hcond10_0 t).mp h)
      have hc1 : cond10_1 (grid10.coords t) := (hcond10_1 t).mpr h9
      have hi2 : cfg10.idle 2 (cfg10.grid.coords t) = false := by
        rw [Bool.eq_false_iff]; intro h; exact (idle10_2 t).mp h h9
      have hi3 : cfg10.idle 3 (cfg10.grid.coords t) = false := by
        rw [Bool.eq_false_iff]; intro h; exact (idle10_3 t).mp h h9
      rw [scrAt10_pos V c t.val h0]
      unfold Dat.leavesExact
      rw [hi2]
      try rw [hi3]
      dsimp only
      rw [after10_2, after10_3, scr10_succ]
      iintro ⟨⟨Hrest, Hprng, H5, H6⟩, Ho, ⟨%d0, H0⟩, ⟨%d1, H1⟩, ⟨%d2, H2⟩, ⟨%d3, H3⟩⟩
      iapply (sound_kernel10_C c Set.univ (grid10.coords t) _ _ _ _ _ _ _ _ _ _ _ _ hc0 hc1 (iblk10 V c 0 t) (iblk10 V c 1 t)
        (scr10 V c t.val).1 (scr10 V c t.val).2 _)
      isplitl [H0]; · iexact H0
      isplitl [H1]; · iexact H1
      isplitl [H2]; · iexists _; iexact H2
      isplitl [H3]; · iexists _; iexact H3
      isplitl [H5]; · iexact H5
      isplitl [H6]; · iexact H6
      iintro ⟨H0, H1, H2, H3, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3
    · -- a middle point
      have hc0 : ¬ cond10_0 (grid10.coords t) := fun h => h0 ((hcond10_0 t).mp h)
      have hc1 : ¬ cond10_1 (grid10.coords t) := fun h => h9 ((hcond10_1 t).mp h)
      rw [Dat.leavesExact_idle _ 2 t ((idle10_2 t).mpr h9) (by rw [Bool.eq_false_iff]; intro h; have := (flush10_2 t).mp h; omega),
        Dat.leavesExact_idle _ 3 t ((idle10_3 t).mpr h9) (by rw [Bool.eq_false_iff]; intro h; have := (flush10_3 t).mp h; omega),
        scrAt10_pos V c t.val h0]
      iintro ⟨⟨Hrest, Hprng, H5, H6⟩, Ho, ⟨%d0, H0⟩, ⟨%d1, H1⟩, H2, H3⟩
      iapply (sound_kernel10_B c Set.univ (grid10.coords t) _ _ _ _ _ _ _ _ _ _ _ _ hc0 hc1 (iblk10 V c 0 t) (iblk10 V c 1 t)
        (scr10 V c t.val).1 (scr10 V c t.val).2 _)
      isplitl [H0]; · iexact H0
      isplitl [H1]; · iexact H1
      isplitl [H5]; · iexact H5
      isplitl [H6]; · iexact H6
      iintro ⟨H0, H1, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest10 (c : Dev nD) : sProp 𝕄 := iprop((∃ r, prngReg c r) ∗ ∃ W, owes (c : Thread nD τ) (0 : CellTallies nD τ sig Unit) W)

/-- The grid is not empty. -/
theorem N10_ne_zero : cfg10.N ≠ 0 := by
  show grid10.N ≠ 0
  rw [N_10]; decide

-- a library lemma stated over the pinned configuration unifies with the printed one only when unification may unfold
-- plain definitions in a metavariable's type
set_option backward.isDefEq.respectTransparency.types false in
/-- The region over the thread state "every unscoped buffer whole at a valuation, the generator register at some state,
    nothing owed": entered from the buffers at `W₁`, left at `W₂`, for any family of proof data whose member 10 is
    `dat10` at `W₁` (`hp`), when `W₂` has each of the region's arrays at what the pipeline leaves there (`hF`) and every
    other buffer as `W₁` (`hrest`). The arrays are split out of the unscoped buffers at entry and put back at exit; the
    generator register goes into the invariant and comes back; of the scoped buffers no window stages, the kernel's two
    scratch rows are split off into the invariant at entry (held at anything before the first point) and, at the fold's
    last value, forgotten back into them at exit; the kernel has no semaphore of its own. -/
def reg10 (hp : ∀ c, pdats 10 c = dat10 (fun c b => W₁ c b) c)
    (hF : ∀ c w, (dat10 (F := F) (fun c b => W₁ c b) c).arrAt w cfg10.N = W₂ c (Pipeline.arrRef spec10 w))
    (hrest : ∀ c (b : Ref sig .tc), b ∉ Finset.univ.image (Pipeline.arrRef spec10) → W₂ c b = W₁ c b) :
    Pipeline.RegionSeg (pcfgs (F := F)) adm pdats () defs₀ Variants.none L lv 10 where
  win := launch10.win.to₀
  block_pos := launch10.block_pos
  stage_whole := launch10.stage_whole
  K := PEmpty
  osem k := k.elim
  ho := Pipeline.OwnSemFacts.none _
  hbody c := by rw [hp c]; exact (body_obligation10 (fun c b => W₁ c b) c).loose
  hwaits := Pipeline.hwaits_of_owed_zero _ _ _ _ L lv 10 fun c _ => by rw [hp c]; rfl
  pre c := iprop(StableHlo.held (c : Thread nD τ) (Pipeline.ucRefs τ sig) (W₁ c) ∗ rest10 c)
  post c := iprop(StableHlo.held (c : Thread nD τ) (Pipeline.ucRefs τ sig) (W₂ c) ∗ rest10 c)
  X c := iprop(∃ r, prngReg c r)
  Y c := iprop(∃ r, prngReg c r)
  Z c := Pipeline.unscopedRest (Ix := Unit) (Name := ℕ) (U := UR sig nD τ) (Lvl := ℕ) spec10 c (fun b => W₁ c b)
  hentry c := by
    rw [Pipeline.ownSems0_none]
    have hq : ∀ w, (pdats 10 c).q w = fullShare := fun w => by rw [hp c]; rfl
    have hA : ∀ w, (pdats 10 c).A w = (fun b : Ref sig .tc => W₁ c b) (Pipeline.arrRef spec10 w) := fun w => by rw [hp c]; rfl
    have hsplit := Pipeline.arrays_of_unscopedBufs (p := 10) (pcfgs (F := F)) adm pdats launch10.win launch10.arr_whole c
      ((pdats 10 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; trivial)
      rw [show (pdats 10 c).owed 0 = 0 from by rw [hp c]; rfl]
      iexact HO
    isplitl [Hp]; · iexact Hp
    iexact Hrest
  hin c := by
    rw [show (pdats 10 c).Φ 0 = (dat10 (fun c b => W₁ c b) c).Φ 0 from by rw [hp c], Φ10_eq,
      show ((0 : Fin (cfg10.N + 1)).val) = 0 from rfl, scrAt10_zero,
      show (Pipeline.scopedRest (Pipeline.pin (pcfgs (F := F)) adm 10).spec c : sProp 𝕄) = _ from
        scopedRest10_split (Ix := Unit) (Val := Elt F) (Name := ℕ) (U := UR sig nD τ) (Lvl := ℕ) c]
    simp only [owns_whole]
    iintro ⟨Hp, -, ⟨H5, H6⟩, Hr⟩
    isplitl [Hr]; · iexact Hr
    isplitl [Hp]; · iexact Hp
    isplitl [H5]; · iexact H5
    iexact H6
  hout c := by
    rw [Pipeline.ownSems0_none, show (pdats 10 c).Φ (Fin.last _) = (dat10 (fun c b => W₁ c b) c).Φ (Fin.last cfg10.N) from by rw [hp c]; rfl, Φ10_eq,
      Fin.val_last, scrAt10_pos _ c cfg10.N N10_ne_zero,
      show (Pipeline.scopedRest (Pipeline.pin (pcfgs (F := F)) adm 10).spec c : sProp 𝕄) = _ from
        scopedRest10_split (Ix := Unit) (Val := Elt F) (Name := ℕ) (U := UR sig nD τ) (Lvl := ℕ) c]
    simp only [owns_whole]
    iintro ⟨Hr, Hp, H5, H6⟩
    isplitl [Hp]; · iexact Hp
    isplitr; · iempintro
    isplitl [H5 H6]
    · isplitl [H5]
      · iexists _; iexact H5
      iexists _; iexact H6
    iexact Hr
  hexit c := by
    have hq : ∀ w, (pdats 10 c).q w = fullShare := fun w => by rw [hp c]; rfl
    have hjoin := Pipeline.unscopedBufs_of_arrays (p := 10) (pcfgs (F := F)) adm (Ix := Unit) (Name := ℕ) (U := UR sig nD τ) (Lvl := ℕ)
      launch10.win launch10.arr_whole c pdats ((pdats 10 c).share_full hq)
      (fun b => W₁ c b) (fun b => W₂ c b) ((pdats 10 c).arrAt · cfg10.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 10 c).owed (Fin.last _) = 0 from by rw [hp c]; rfl]
    iexact HO

end Record

end Cert.Kernel.Hand

end
-- ==== Proof.KB.Reg10Upd.lean ====
import proofs.«109725_j21638045237575_1_alg».proof.Proof.KB.Reg10

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region's exit valuation as an update of its entry valuation at the two results' buffers -/

section Update

variable (W₁ : Dev nD → Valuation τ sig (Elt F))

/-- Updating a valuation at the mean's buffer and at the variance's changes no other buffer. -/
theorem update10_of_ne (c : Dev nD) (x0 : Buf (Elt F) ((c : Thread nD τ).loc main_v135_0)) (x1 : Buf (Elt F) ((c : Thread nD τ).loc main_v135_1))
    (b : Ref sig .tc) (h0 : b ≠ main_v135_0) (h1 : b ≠ main_v135_1) :
    Function.update (Function.update (W₁ c) main_v135_0 x0) main_v135_1 x1 b = W₁ c b :=
  (Function.update_of_ne (StableHlo.devRef_ne_of_ne h1) x1 (Function.update (W₁ c) main_v135_0 x0)).trans
    (Function.update_of_ne (StableHlo.devRef_ne_of_ne h0) x0 (W₁ c))

/-- The update read at the variance's buffer, -/
theorem update10_at_3 (c : Dev nD) (x0 : Buf (Elt F) ((c : Thread nD τ).loc main_v135_0)) (x1 : Buf (Elt F) ((c : Thread nD τ).loc main_v135_1)) : Function.update (Function.update (W₁ c) main_v135_0 x0) main_v135_1 x1 main_v135_1 = x1 :=
  Function.update_self (β := fun b : DevRef τ sig => b.ty.Contents (Elt F)) (Proc.devRef .tc main_v135_1) x1 (Function.update (W₁ c) main_v135_0 x0)

/-- and at the mean's. -/
theorem update10_at_2 (c : Dev nD) (x0 : Buf (Elt F) ((c : Thread nD τ).loc main_v135_0)) (x1 : Buf (Elt F) ((c : Thread nD τ).loc main_v135_1)) : Function.update (Function.update (W₁ c) main_v135_0 x0) main_v135_1 x1 main_v135_0 = x0 :=
  (Function.update_of_ne (StableHlo.devRef_ne_of_ne (show (main_v135_0 : Ref sig .tc) ≠ main_v135_1 by decide)) x1 (Function.update (W₁ c) main_v135_0 x0)).trans
    (Function.update_self (β := fun b : DevRef τ sig => b.ty.Contents (Elt F)) (Proc.devRef .tc main_v135_0) x0 (W₁ c))

theorem hF10_update_0 (c : Dev nD) (x0 : Buf (Elt F) ((c : Thread nD τ).loc main_v135_0)) (x1 : Buf (Elt F) ((c : Thread nD τ).loc main_v135_1)) :
    (dat10 (F := F) (fun c b => W₁ c b) c).arrAt 0 cfg10.N = Function.update (Function.update (W₁ c) main_v135_0 x0) main_v135_1 x1 (Pipeline.arrRef spec10 0) :=
  ((dat10 (F := F) (fun c b => W₁ c b) c).arrAt_in 0 rfl _).trans ((A_eq10 (fun c b => W₁ c b) c 0).trans
      (update10_of_ne W₁ c x0 x1 (Pipeline.arrRef spec10 0) (by decide) (by decide)).symm)

theorem hF10_update_1 (c : Dev nD) (x0 : Buf (Elt F) ((c : Thread nD τ).loc main_v135_0)) (x1 : Buf (Elt F) ((c : Thread nD τ).loc main_v135_1)) :
    (dat10 (F := F) (fun c b => W₁ c b) c).arrAt 1 cfg10.N = Function.update (Function.update (W₁ c) main_v135_0 x0) main_v135_1 x1 (Pipeline.arrRef spec10 1) :=
  ((dat10 (F := F) (fun c b => W₁ c b) c).arrAt_in 1 rfl _).trans ((A_eq10 (fun c b => W₁ c b) c 1).trans
      (update10_of_ne W₁ c x0 x1 (Pipeline.arrRef spec10 1) (by decide) (by decide)).symm)

theorem hF10_update_2 (c : Dev nD) (x0 : Buf (Elt F) ((c : Thread nD τ).loc main_v135_0)) (x1 : Buf (Elt F) ((c : Thread nD τ).loc main_v135_1)) (hx0 : x0 = (dat10 (F := F) (fun c b => W₁ c b) c).arrAt 2 cfg10.N) :
    (dat10 (F := F) (fun c b => W₁ c b) c).arrAt 2 cfg10.N = Function.update (Function.update (W₁ c) main_v135_0 x0) main_v135_1 x1 (Pipeline.arrRef spec10 2) :=
  hx0.symm.trans (update10_at_2 W₁ c x0 x1).symm

theorem hF10_update_3 (c : Dev nD) (x0 : Buf (Elt F) ((c : Thread nD τ).loc main_v135_0)) (x1 : Buf (Elt F) ((c : Thread nD τ).loc main_v135_1)) (hx1 : x1 = (dat10 (F := F) (fun c b => W₁ c b) c).arrAt 3 cfg10.N) :
    (dat10 (F := F) (fun c b => W₁ c b) c).arrAt 3 cfg10.N = Function.update (Function.update (W₁ c) main_v135_0 x0) main_v135_1 x1 (Pipeline.arrRef spec10 3) :=
  hx1.symm.trans (update10_at_3 W₁ c x0 x1).symm

/-- When the exit valuation is the entry valuation updated at the mean's buffer and at the variance's with what the
    pipeline's write-backs leave in them, every array of the region holds there what the pipeline leaves: an input's
    array is never written and is neither result's buffer; each result's array is its updated one. -/
theorem hF10_update (c : Dev nD) (x0 : Buf (Elt F) ((c : Thread nD τ).loc main_v135_0)) (x1 : Buf (Elt F) ((c : Thread nD τ).loc main_v135_1))
    (hx0 : x0 = (dat10 (F := F) (fun c b => W₁ c b) c).arrAt 2 cfg10.N) (hx1 : x1 = (dat10 (F := F) (fun c b => W₁ c b) c).arrAt 3 cfg10.N) :
    ∀ w, (dat10 (F := F) (fun c b => W₁ c b) c).arrAt w cfg10.N = Function.update (Function.update (W₁ c) main_v135_0 x0) main_v135_1 x1 (Pipeline.arrRef spec10 w)
  | ⟨0, _⟩ => hF10_update_0 W₁ c x0 x1
  | ⟨1, _⟩ => hF10_update_1 W₁ c x0 x1
  | ⟨2, _⟩ => hF10_update_2 W₁ c x0 x1 hx0
  | ⟨3, _⟩ => hF10_update_3 W₁ c x0 x1 hx1

/-- and every buffer that is no array of the region holds what it held at entry. -/
theorem hrest10_update (c : Dev nD) (x0 : Buf (Elt F) ((c : Thread nD τ).loc main_v135_0)) (x1 : Buf (Elt F) ((c : Thread nD τ).loc main_v135_1)) :
    ∀ b : Ref sig .tc, b ∉ Finset.univ.image (Pipeline.arrRef spec10) → Function.update (Function.update (W₁ c) main_v135_0 x0) main_v135_1 x1 b = W₁ c b :=
  fun b hb => update10_of_ne W₁ c x0 x1 b
    (fun e => hb (Finset.mem_image.mpr ⟨2, Finset.mem_univ _, e.symm⟩))
    (fun e => hb (Finset.mem_image.mpr ⟨3, Finset.mem_univ _, e.symm⟩))

end Update

end Cert.Kernel.Hand

end
-- ==== Proof.KB.Reg11Body.lean ====
/-
  Region 11 of the kernel's @main: the normalise + LeakyReLU kernel at width 32, over a grid of ten row
  tiles of 10000 rows. Its seven windows are the row tile of the aggregated features (fetched at every point), five
  rows of 32 entries — the bias, the batch mean, the batch variance, the scale and the shift — (whole, fetched once:
  their block index never moves), and the row tile of the result (written back at every point). The body reads the
  six input blocks whole, computes h = agg + bias, inv = rsqrt(var + eps), hn = (h − mean)·inv·scale + shift and
  stores where(hn ≥ 0, hn, slope·hn) over the whole output block, so what a point leaves in the output's staging
  buffer is a pure function of the six input blocks (`out11_6`), and the inputs' buffers are left as found.

  Stated here, at any float model `F` and at a PARAMETER `V` (the core's buffer contents when the region is
  entered): each window's block at a point (`iblk11`), the body's triple (`sound_kernel11`), the pipeline's proof
  data (`dat11`), the body obligation (`body_obligation11`), and the region as a segment record (`reg11`) for any
  family of proof data whose member 11 is `dat11`, entered from every unscoped buffer at `W₁` and left at `W₂`, where
  `W₂` holds at each of the region's arrays what the pipeline's write-backs leave and elsewhere what `W₁` held.
-/
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): where the window is not
    fetched its block index has not moved, so the block kept from the point before is this point's. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, fetched there or not, for any proof
    data whose array is `V`'s (`hA`) and whose body leaves the block in place (`hafter`): where the window is not
    fetched its block index has not moved, so the block kept from the point before is this point's. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, fetched there or not, for any proof
    data whose array is `V`'s (`hA`) and whose body leaves the block in place (`hafter`): where the window is not
    fetched its block index has not moved, so the block kept from the point before is this point's. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current staging buffer holds its block at every point, fetched there or not, for any proof
    data whose array is `V`'s (`hA`) and whose body leaves the block in place (`hafter`): where the window is not
    fetched its block index has not moved, so the block kept from the point before is this point's. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current staging buffer holds its block at every point, fetched there or not, for any proof
    data whose array is `V`'s (`hA`) and whose body leaves the block in place (`hafter`): where the window is not
    fetched its block index has not moved, so the block kept from the point before is this point's. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
/-- Input window 5's current staging buffer holds its block at every point, fetched there or not, for any proof
    data whose array is `V`'s (`hA`) and whose body leaves the block in place (`hafter`): where the window is not
    fetched its block index has not moved, so the block kept from the point before is this point's. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer whole -/

abbrev r11_x : Rect S10000x32 := Rect.unit (s := S10000x32) ![0, 0] S10000x32.size inb_S10000x32_S10000x32_0_0
abbrev r11_r : Rect S1x32 := Rect.unit (s := S1x32) ![0, 0] S1x32.size inb_S1x32_S1x32_0_0
abbrev r11_o : Rect S10000x32 := Rect.unit (s := S10000x32) ![0, 0] S10000x32.size inb_S10000x32_S10000x32_0_0

/-! ## What the body leaves in the output window's buffer -/

/-- Window 6's staging buffer after the body, from the input windows' blocks (the row tile, the bias, the mean, the
    variance, the scale and the shift, in the windows' order): its one store, of the normalised and rectified tile
    computed from the six blocks read whole. The payload takes the variance before the mean, as the body reads them. -/
def out11_6 (x0 : Vec F S10000x32 .f32) (x1 : Vec F S1x32 .f32) (x2 : Vec F S1x32 .f32) (x3 : Vec F S1x32 .f32) (x4 : Vec F S1x32 .f32) (x5 : Vec F S1x32 .f32) : Vec F S10000x32 .f32 :=
  View.canon [⟨r11_o, k11_pay1 (View.ld x0 r11_x) (View.ld x1 r11_r) (View.ld x3 r11_r) (View.ld x2 r11_r) (View.ld x4 r11_r) (View.ld x5 r11_r)⟩]

/-- The one store is over the whole buffer, so it covers it. -/
theorem cover11_6 (p0 : Vec F S10000x32 .f32) (y : S10000x32.Idx) :
    ∃ pc ∈ ([⟨r11_o, p0⟩] : List (View.Piece (Elt F) S10000x32 .f32)), y ∈ pc.1.set :=
  View.cover_of_tiled [⟨r11_o, p0⟩] S10000x32.size (by rfl) y

/-! ## The body's triple -/

set_option maxHeartbeats 1000000 in
/-- The kernel body on whole staging memrefs, the inputs' at read contents `x0 … x5` and the output's at anything,
    runs to the continuation holding the inputs' as they were and the output's at `out11_6` of the inputs'. -/
theorem sound_kernel11 (c : Dev nD) (E : Set ℕ) (i : grid11.Coords) (arg1 : Memref sig .tc .vmem S10000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S10000x32 .f32) (harg7 : arg7.IsWhole)
    (x0 : Vec F S10000x32 .f32) (x1 : Vec F S1x32 .f32) (x2 : Vec F S1x32 .f32) (x3 : Vec F S1x32 .f32) (x4 : Vec F S1x32 .f32) (x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5)) -∗ K ⟨⟩))
      ⊢ wp frame (wpE (defs₀ (F := F)) Variants.none c none) E (cc11__norm_kernel i arg1 harg1 arg2 harg2 arg3 harg3 arg4 harg4 arg5 harg5 arg6 harg6 arg7 harg7) K := by
  simp only [cc11__norm_kernel_eq_skeleton]; unfold cc11__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-! ## The pipeline's proof data -/

/-- The proof data of pipeline 11 on core `c`: the arrays as the region finds them (`V`); after the body at point `t`
    each input's buffer at its block and the output's at `out11_6` of the input blocks; the invariant is the scoped
    buffers no window stages and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' memrefs hold their blocks, so `sound_kernel11` applies; the invariant and the
    core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation11 (c : Dev nD) : BodyObligation (dat11 (F := F) V c) (defs₀ (F := F)) Variants.none () Set.univ := fun t => by
  rw [bigSep_W11, bigSep_W11]
  exact sound_body11 V c t

end Region

end Cert.Kernel.Hand

end
-- ==== Proof.KB.Reg11.lean ====
/-
  Region 11 of the kernel's @main (the normalise + LeakyReLU kernel at width 32) as a segment of @main:
  the record `reg11` for any family of proof data whose member 11 is `dat11`, entered from every unscoped buffer at
  `W₁` and left at `W₂`, where `W₂` holds at each of the region's arrays what the pipeline's write-backs leave and
  elsewhere what `W₁` held; and the two facts that make `W₂ := W₁` updated at the output array `main_v139` such a
  valuation (`hF11_update`, `hrest11_update`): the six input arrays are never written back, so they end as
  entered, and the output array is the only one of the region's arrays that differs.
-/
import proofs.«109725_j21638045237575_1_alg».proof.Proof.KB.Reg11Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The exit valuation: the entry valuation updated at the output array -/

section Update

variable (W₁ : Dev nD → Valuation τ sig (Elt F)) (c : Dev nD) (x : Buf (Elt F) ((c : Thread nD τ).loc main_v139))

/-- An input window's array is never written back, so after all the points it holds what the region found, and the
    update at the output array does not touch it. -/
theorem hF11_in (w : Fin cfg11.W) (hin : (cfg11.win w).isOut = false) (hne : Pipeline.arrRef spec11 w ≠ main_v139) :
    (dat11 (F := F) (fun c b => W₁ c b) c).arrAt w cfg11.N = Function.update (W₁ c) main_v139 x (Pipeline.arrRef spec11 w) :=
  ((dat11 (F := F) (fun c b => W₁ c b) c).arrAt_in w hin _).trans
    ((A_eq11 (fun c b => W₁ c b) c w).trans (Function.update_of_ne (StableHlo.devRef_ne_of_ne hne) _ _).symm)

/-- Every window but the last is an input, staged from an array other than the output array. -/
theorem in_ne11 : ∀ w : Fin cfg11.W, w ≠ 6 → (cfg11.win w).isOut = false ∧ Pipeline.arrRef spec11 w ≠ main_v139 := by decide

/-- Each of the region's arrays after all the points is what the entry valuation updated at the output array holds
    there, when the update's value `x` is what the pipeline's write-backs leave in the output array. -/
theorem hF11_update (hx : x = (dat11 (F := F) (fun c b => W₁ c b) c).arrAt 6 cfg11.N) :
    ∀ w : Fin cfg11.W, (dat11 (F := F) (fun c b => W₁ c b) c).arrAt w cfg11.N = Function.update (W₁ c) main_v139 x (Pipeline.arrRef spec11 w) := fun w => by
  by_cases h : w = 6
  · subst h hx
    exact (Function.update_self (Proc.devRef .tc main_v139 : DevRef τ sig) _ (W₁ c)).symm
  · exact hF11_in W₁ c x w (in_ne11 w h).1 (in_ne11 w h).2

/-- Every buffer that is none of the region's arrays is not the output array, so the update leaves it as entered. -/
theorem hrest11_update : ∀ b : Ref sig .tc, b ∉ Finset.univ.image (Pipeline.arrRef spec11) → Function.update (W₁ c) main_v139 x b = W₁ c b :=
  fun b hb => Function.update_of_ne (StableHlo.devRef_ne_of_ne fun e =>
    hb (Finset.mem_image.mpr ⟨6, Finset.mem_univ _, (e.symm : Pipeline.arrRef spec11 6 = b)⟩)) _ _

end Update

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest11 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 11 over the thread state "every unscoped buffer whole at a valuation, the generator register at some state,
    nothing owed": entered from the buffers at `W₁`, left at `W₂`, for any family of proof data whose member 11 is
    `dat11` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg11 (hp : ∀ c, pdats 11 c = dat11 (fun c b => W₁ c b) c)
    (hF : ∀ c w, (dat11 (F := F) (fun c b => W₁ c b) c).arrAt w cfg11.N = W₂ c (Pipeline.arrRef spec11 w))
    (hrest : ∀ c (b : Ref sig .tc), b ∉ Finset.univ.image (Pipeline.arrRef spec11) → W₂ c b = W₁ c b) :
    Pipeline.RegionSeg (pcfgs (F := F)) adm pdats () defs₀ Variants.none L lv 11 where
  win := launch11.win.to₀
  block_pos := launch11.block_pos
  stage_whole := launch11.stage_whole
  K := PEmpty
  osem k := k.elim
  ho := Pipeline.OwnSemFacts.none _
  hbody c := by rw [hp c]; exact (body_obligation11 (fun c b => W₁ c b) c).loose
  hwaits := Pipeline.hwaits_of_owed_zero _ _ _ _ L lv 11 fun c _ => by rw [hp c]; rfl
  pre c := iprop(StableHlo.held (c : Thread nD τ) (Pipeline.ucRefs τ sig) (W₁ c) ∗ rest11 c)
  post c := iprop(StableHlo.held (c : Thread nD τ) (Pipeline.ucRefs τ sig) (W₂ c) ∗ rest11 c)
  X c := iprop(∃ r, prngReg c r)
  Y c := iprop(∃ r, prngReg c r)
  Z c := Pipeline.unscopedRest (Ix := Unit) (Name := ℕ) (U := UR sig nD τ) (Lvl := ℕ) spec11 c (fun b => W₁ c b)
  hentry c := by
    rw [Pipeline.ownSems0_none]
    have hq : ∀ w, (pdats 11 c).q w = fullShare := fun w => by rw [hp c]; rfl
    have hA : ∀ w, (pdats 11 c).A w = (fun b : Ref sig .tc => W₁ c b) (Pipeline.arrRef spec11 w) := fun w => by rw [hp c]; rfl
    have hsplit := Pipeline.arrays_of_unscopedBufs (p := 11) (pcfgs (F := F)) adm pdats launch11.win launch11.arr_whole c
      ((pdats 11 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; rw [hp c]; exact fun _ _ => Or.inl trivial
      rw [show (pdats 11 c).owed 0 = 0 from by rw [hp c]; rfl]
      iexact HO
    isplitl [Hp]; · iexact Hp
    iexact Hrest
  hin c := by
    rw [show (pdats 11 c).Φ 0 = Pipeline.ΦA spec11 c from by rw [hp c]; rfl]; unfold Pipeline.ΦA
    iintro ⟨Hp, -, Hr⟩
    isplitl [Hr]; · iexact Hr
    iexact Hp
  hout c := by
    rw [Pipeline.ownSems0_none, show (pdats 11 c).Φ (Fin.last _) = Pipeline.ΦA spec11 c from by rw [hp c]; rfl]; unfold Pipeline.ΦA
    iintro ⟨Hr, Hp⟩
    isplitl [Hp]; · iexact Hp
    isplitr; · iempintro
    iexact Hr
  hexit c := by
    have hq : ∀ w, (pdats 11 c).q w = fullShare := fun w => by rw [hp c]; rfl
    have hjoin := Pipeline.unscopedBufs_of_arrays (p := 11) (pcfgs (F := F)) adm (Ix := Unit) (Name := ℕ) (U := UR sig nD τ) (Lvl := ℕ)
      launch11.win launch11.arr_whole c pdats ((pdats 11 c).share_full hq)
      (fun b => W₁ c b) (fun b => W₂ c b) ((pdats 11 c).arrAt · cfg11.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 11 c).owed (Fin.last _) = 0 from by rw [hp c]; rfl]
    iexact HO

end Record

end Cert.Kernel.Hand

end
-- ==== Proof.KB.Reg12.lean ====
/-
  Region 12 of the kernel's @main: the linear kernel y = x·W + bias at widths 32 → 16, over a grid of
  ten row tiles of 10000 rows. Its four windows are the row tile of x (fetched at every point), the weight matrix
  and the bias row (whole, fetched once: their block index never moves), and the row tile of the result (written
  back at every point). The body reads the three input blocks whole and stores one value over the whole output
  block, so what a point leaves in the output's staging buffer is a pure function of the three input blocks
  (`out12_3`), and the inputs' buffers are left as found.

  Stated here, at any float model `F` and at a PARAMETER `V` (the core's buffer contents when the region is
  entered): each window's block at a point (`iblk12`), the body's triple (`sound_kernel12`), the pipeline's proof
  data (`dat12`), the body obligation (`body_obligation12`), and the region as a segment record (`reg12`) for any
  family of proof data whose member 12 is `dat12`, entered from every unscoped buffer at `W₁` and left at `W₂`, where
  `W₂` holds at each of the region's arrays what the pipeline's write-backs leave and elsewhere what `W₁` held.
-/
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is `V`'s (`hA`) and whose body leaves the block in place (`hafter`): where the window is not
    fetched its block index has not moved, so the block kept from the point before is this point's. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1's current staging buffer holds its block at every point, fetched there or not, for any proof
    data whose array is `V`'s (`hA`) and whose body leaves the block in place (`hafter`): where the window is not
    fetched its block index has not moved, so the block kept from the point before is this point's. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- Input window 2's current staging buffer holds its block at every point, fetched there or not, for any proof
    data whose array is `V`'s (`hA`) and whose body leaves the block in place (`hafter`): where the window is not
    fetched its block index has not moved, so the block kept from the point before is this point's. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each buffer whole -/

abbrev r12_x : Rect S10000x32 := Rect.unit (s := S10000x32) ![0, 0] S10000x32.size inb_S10000x32_S10000x32_0_0
abbrev r12_w : Rect S32x16 := Rect.unit (s := S32x16) ![0, 0] S32x16.size inb_S32x16_S32x16_0_0
abbrev r12_b : Rect S1x16 := Rect.unit (s := S1x16) ![0, 0] S1x16.size inb_S1x16_S1x16_0_0
abbrev r12_o : Rect S10000x16 := Rect.unit (s := S10000x16) ![0, 0] S10000x16.size inb_S10000x16_S10000x16_0_0

/-! ## What the body leaves in the output window's buffer -/

/-- Window 3's staging buffer after the body, from the input windows' blocks: its one store, of the payload
    x·W + bias computed from the three blocks read whole. -/
def out12_3 (x0 : Vec F S10000x32 .f32) (x1 : Vec F S32x16 .f32) (x2 : Vec F S1x16 .f32) : Vec F S10000x16 .f32 :=
  View.canon [⟨r12_o, k12_pay1 (View.ld x0 r12_x) (View.ld x1 r12_w) (View.ld x2 r12_b)⟩]

/-- The one store is over the whole buffer, so it covers it. -/
theorem cover12_3 (p0 : Vec F S10000x16 .f32) (y : S10000x16.Idx) :
    ∃ pc ∈ ([⟨r12_o, p0⟩] : List (View.Piece (Elt F) S10000x16 .f32)), y ∈ pc.1.set :=
  View.cover_of_tiled [⟨r12_o, p0⟩] S10000x16.size (by rfl) y

/-! ## The body's triple -/

set_option maxHeartbeats 1000000 in
/-- The kernel body on whole staging memrefs, the inputs' at read contents `x0 x1 x2` and the output's at anything,
    runs to the continuation holding the inputs' as they were and the output's at `out12_3` of the inputs'. -/
theorem sound_kernel12 (c : Dev nD) (E : Set ℕ) (i : grid12.Coords) (arg1 : Memref sig .tc .vmem S10000x32 .f32) (harg1 : arg1.IsWhole) (arg2 : Memref sig .tc .vmem S32x16 .f32) (harg2 : arg2.IsWhole) (arg3 : Memref sig .tc .vmem S1x16 .f32) (harg3 : arg3.IsWhole) (arg4 : Memref sig .tc .vmem S10000x16 .f32) (harg4 : arg4.IsWhole)
    (x0 : Vec F S10000x32 .f32) (x1 : Vec F S32x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12_3 x0 x1 x2)) -∗ K ⟨⟩))
      ⊢ wp frame (wpE (defs₀ (F := F)) Variants.none c none) E (cc12__linear_kernel i arg1 harg1 arg2 harg2 arg3 harg3 arg4 harg4) K := by
  simp only [cc12__linear_kernel_eq_skeleton]; unfold cc12__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-! ## The pipeline's proof data -/

/-- The proof data of pipeline 12 on core `c`: the arrays as the region finds them (`V`); after the body at point `t`
    each input's buffer at its block and the output's at `out12_3` of the input blocks; the invariant is the scoped
    buffers no window stages and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' memrefs hold their blocks, so `sound_kernel12` applies; the invariant and the
    core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ (grid12.coords t) _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest12 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 12 over the thread state "every unscoped buffer whole at a valuation, the generator register at some state,
    nothing owed": entered from the buffers at `W₁`, left at `W₂`, for any family of proof data whose member 12 is
    `dat12` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg12 (hp : ∀ c, pdats 12 c = dat12 (fun c b => W₁ c b) c)
    (hF : ∀ c w, (dat12 (F := F) (fun c b => W₁ c b) c).arrAt w cfg12.N = W₂ c (Pipeline.arrRef spec12 w))
    (hrest : ∀ c (b : Ref sig .tc), b ∉ Finset.univ.image (Pipeline.arrRef spec12) → W₂ c b = W₁ c b) :
    Pipeline.RegionSeg (pcfgs (F := F)) adm pdats () defs₀ Variants.none L lv 12 where
  win := launch12.win.to₀
  block_pos := launch12.block_pos
  stage_whole := launch12.stage_whole
  K := PEmpty
  osem k := k.elim
  ho := Pipeline.OwnSemFacts.none _
  hbody c := by rw [hp c]; exact (body_obligation12 (fun c b => W₁ c b) c).loose
  hwaits := Pipeline.hwaits_of_owed_zero _ _ _ _ L lv 12 fun c _ => by rw [hp c]; rfl
  pre c := iprop(StableHlo.held (c : Thread nD τ) (Pipeline.ucRefs τ sig) (W₁ c) ∗ rest12 c)
  post c := iprop(StableHlo.held (c : Thread nD τ) (Pipeline.ucRefs τ sig) (W₂ c) ∗ rest12 c)
  X c := iprop(∃ r, prngReg c r)
  Y c := iprop(∃ r, prngReg c r)
  Z c := Pipeline.unscopedRest (Ix := Unit) (Name := ℕ) (U := UR sig nD τ) (Lvl := ℕ) spec12 c (fun b => W₁ c b)
  hentry c := by
    rw [Pipeline.ownSems0_none]
    have hq : ∀ w, (pdats 12 c).q w = fullShare := fun w => by rw [hp c]; rfl
    have hA : ∀ w, (pdats 12 c).A w = (fun b : Ref sig .tc => W₁ c b) (Pipeline.arrRef spec12 w) := fun w => by rw [hp c]; rfl
    have hsplit := Pipeline.arrays_of_unscopedBufs (p := 12) (pcfgs (F := F)) adm pdats launch12.win launch12.arr_whole c
      ((pdats 12 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 12 c).Φ 0 = Pipeline.ΦA spec12 c from by rw [hp c]; rfl]; unfold Pipeline.ΦA
    iintro ⟨Hp, -, Hr⟩
    isplitl [Hr]; · iexact Hr
    iexact Hp
  hout c := by
    rw [Pipeline.ownSems0_none, show (pdats 12 c).Φ (Fin.last _) = Pipeline.ΦA spec12 c from by rw [hp c]; rfl]; unfold Pipeline.ΦA
    iintro ⟨Hr, Hp⟩
    isplitl [Hp]; · iexact Hp
    isplitr; · iempintro
    iexact Hr
  hexit c := by
    have hq : ∀ w, (pdats 12 c).q w = fullShare := fun w => by rw [hp c]; rfl
    have hjoin := Pipeline.unscopedBufs_of_arrays (p := 12) (pcfgs (F := F)) adm (Ix := Unit) (Name := ℕ) (U := UR sig nD τ) (Lvl := ℕ)
      launch12.win launch12.arr_whole c pdats ((pdats 12 c).share_full hq)
      (fun b => W₁ c b) (fun b => W₂ c b) ((pdats 12 c).arrAt · cfg12.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Record

/-! ## The exit valuation as an update of the entry valuation at the result's buffer -/

section Update

variable (W₁ : Dev nD → Valuation τ sig (Elt F))

/-- A property of the four windows, checked window by window. -/
private theorem fin4_cases {P : Fin 4 → Prop} (h0 : P 0) (h1 : P 1) (h2 : P 2) (h3 : P 3) : ∀ w, P w
  | ⟨0, _⟩ => h0
  | ⟨1, _⟩ => h1
  | ⟨2, _⟩ => h2
  | ⟨3, _⟩ => h3

/-- When the exit valuation is the entry valuation updated at the result's buffer `main_v142` with what the pipeline's
    write-backs leave in it, every array of the region holds there what the pipeline leaves: an input's array is never
    written and is not the result's buffer; the result's array is the updated one. -/
theorem hF12_update (c : Dev nD) (x : Buf (Elt F) ((c : Thread nD τ).loc main_v142))
    (hx : x = (dat12 (F := F) (fun c b => W₁ c b) c).arrAt 3 cfg12.N) :
    ∀ w, (dat12 (F := F) (fun c b => W₁ c b) c).arrAt w cfg12.N = Function.update (W₁ c) main_v142 x (Pipeline.arrRef spec12 w) :=
  fin4_cases (P := fun w => (dat12 (F := F) (fun c b => W₁ c b) c).arrAt w cfg12.N = Function.update (W₁ c) main_v142 x (Pipeline.arrRef spec12 w))
    (((dat12 (F := F) (fun c b => W₁ c b) c).arrAt_in 0 rfl _).trans ((A_eq12 (fun c b => W₁ c b) c 0).trans (Function.update_of_ne (StableHlo.devRef_ne_of_ne (by decide)) _ _).symm))
    (((dat12 (F := F) (fun c b => W₁ c b) c).arrAt_in 1 rfl _).trans ((A_eq12 (fun c b => W₁ c b) c 1).trans (Function.update_of_ne (StableHlo.devRef_ne_of_ne (by decide)) _ _).symm))
    (((dat12 (F := F) (fun c b => W₁ c b) c).arrAt_in 2 rfl _).trans ((A_eq12 (fun c b => W₁ c b) c 2).trans (Function.update_of_ne (StableHlo.devRef_ne_of_ne (by decide)) _ _).symm))
    (hx.symm.trans (Function.update_self (β := fun b : DevRef τ sig => b.ty.Contents (Elt F)) _ _ _).symm)

/-- and every buffer that is no array of the region holds what it held at entry. -/
theorem hrest12_update (c : Dev nD) (x : Buf (Elt F) ((c : Thread nD τ).loc main_v142)) :
    ∀ b : Ref sig .tc, b ∉ Finset.univ.image (Pipeline.arrRef spec12) → Function.update (W₁ c) main_v142 x b = W₁ c b :=
  fun b hb => Function.update_of_ne (StableHlo.devRef_ne_of_ne fun e => hb (Finset.mem_image.mpr ⟨3, Finset.mem_univ _, e.symm⟩)) _ _

end Update

end Cert.Kernel.Hand

end
-- ==== Proof.KB.Reg13Run.lean ====
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.KB.StatLib
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the fifth layer (16 columns): the body's three control cases

The body adds the bias row to its block of 10000 rows, adds the column sums of the result and of its square to two
carried rows, having first zeroed those rows at the first grid point, and at the last grid point divides both rows
by the number of rows and writes the mean and the mean of squares less the squared mean. -/

/-- The first conditional (zero the two carried rows): taken where the grid coordinate is 0. -/
abbrev cond13_0 (i : grid13.Coords) : Prop :=
  (Scalar.cmpi .ne (Scalar.extui (Scalar.cmpi .eq (BitVec.ofNat 32 (i 0).val) 0#32)) 0#32) = 1#1
/-- The second conditional (write the two outputs): taken where the grid coordinate is 9. -/
abbrev cond13_1 (i : grid13.Coords) : Prop := k13_cond2 i = 1#1

theorem hcond13_0 : ∀ t : Fin cfg13.N, cond13_0 (grid13.coords t) ↔ t.val = 0 :=
  (by decide +kernel : ∀ t : Fin grid13.N, cond13_0 (grid13.coords t) ↔ t.val = 0)
theorem hcond13_1 : ∀ t : Fin cfg13.N, cond13_1 (grid13.coords t) ↔ t.val = 9 :=
  (by decide +kernel : ∀ t : Fin grid13.N, cond13_1 (grid13.coords t) ↔ t.val = 9)

set_option maxHeartbeats 1000000 in
/-- A middle grid point: neither conditional is taken; the carried rows `s5`, `s6` receive the block's column sums. -/
theorem sound_kernel13_B (c : Dev nD) (E : Set ℕ) (i : grid13.Coords)
    (arg1 : Memref sig .tc .vmem S10000x16 .f32) (harg1 : arg1.IsWhole) (arg2 : Memref sig .tc .vmem S1x16 .f32) (harg2 : arg2.IsWhole)
    (arg3 : Memref sig .tc .vmem S1x16 .f32) (harg3 : arg3.IsWhole) (arg4 : Memref sig .tc .vmem S1x16 .f32) (harg4 : arg4.IsWhole)
    (arg5 : Memref sig .tc .vmem S1x16 .f32) (harg5 : arg5.IsWhole) (arg6 : Memref sig .tc .vmem S1x16 .f32) (harg6 : arg6.IsWhole)
    (hc0 : ¬ cond13_0 i) (hc1 : ¬ cond13_1 i)
    (x0 : Vec F S10000x16 .f32) (x1 : Vec F S1x16 .f32) (s5 s6 : Vec F S1x16 .f32) (K : PUnit → sProp 𝕄) :
    iprop(owns (c : Thread nD τ) arg1 fullShare x0 ∗ owns (c : Thread nD τ) arg2 fullShare x1 ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg5 fullShare (k13_pay4 x0 x1 s5) ∗ owns (c : Thread nD τ) arg6 fullShare (k13_pay5 x0 x1 s6)) -∗ K ⟨⟩))
      ⊢ wp frame (wpE (defs₀ (F := F)) Variants.none c none) E (cc13__reduce_kernel i arg1 harg1 arg2 harg2 arg3 harg3 arg4 harg4 arg5 harg5 arg6 harg6) K := by
  simp only [cc13__reduce_kernel_eq_skeleton]; unfold cc13__reduce_kernel_skel
  unfold owns
  iintro ⟨⟨%f0, %hf0, H0⟩, ⟨%f1, %hf1, H1⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store _ _ stat_off2_zero]
    simp only [View.readAt_eq_ld, View.ld_unit_zero (S := S10000x16) stat_off2_zero, View.ld_unit_zero (S := S1x16) stat_off2_zero]
  · iexists _; isplitr
    swap; · iexact H6
    ipureintro
    rw [stat_read_store _ _ stat_off2_zero]
    simp only [View.readAt_eq_ld, View.ld_unit_zero (S := S10000x16) stat_off2_zero, View.ld_unit_zero (S := S1x16) stat_off2_zero]

set_option maxHeartbeats 1000000 in
/-- The first grid point: the carried rows are zeroed, whatever they held, then receive the block's column sums. -/
theorem sound_kernel13_A (c : Dev nD) (E : Set ℕ) (i : grid13.Coords)
    (arg1 : Memref sig .tc .vmem S10000x16 .f32) (harg1 : arg1.IsWhole) (arg2 : Memref sig .tc .vmem S1x16 .f32) (harg2 : arg2.IsWhole)
    (arg3 : Memref sig .tc .vmem S1x16 .f32) (harg3 : arg3.IsWhole) (arg4 : Memref sig .tc .vmem S1x16 .f32) (harg4 : arg4.IsWhole)
    (arg5 : Memref sig .tc .vmem S1x16 .f32) (harg5 : arg5.IsWhole) (arg6 : Memref sig .tc .vmem S1x16 .f32) (harg6 : arg6.IsWhole)
    (hc0 : cond13_0 i) (hc1 : ¬ cond13_1 i)
    (x0 : Vec F S10000x16 .f32) (x1 : Vec F S1x16 .f32) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg5 fullShare (k13_pay4 x0 x1 k13_pay1) ∗ owns (c : Thread nD τ) arg6 fullShare (k13_pay5 x0 x1 k13_pay2)) -∗ K ⟨⟩))
      ⊢ wp frame (wpE (defs₀ (F := F)) Variants.none c none) E (cc13__reduce_kernel i arg1 harg1 arg2 harg2 arg3 harg3 arg4 harg4 arg5 harg5 arg6 harg6) K := by
  simp only [cc13__reduce_kernel_eq_skeleton]; unfold cc13__reduce_kernel_skel
  unfold owns
  iintro ⟨⟨%f0, %hf0, H0⟩, ⟨%f1, %hf1, H1⟩, ⟨%d5, %f5, -, H5⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store_cons _ _ stat_off2_zero]
    sl_unfold_run_names
    first | (simp only [View.readAt_eq_ld, View.readCov_unit_zero (S := S1x16) _ stat_off2_zero, View.ld_unit_zero (S := S10000x16) stat_off2_zero, View.ld_unit_zero (S := S1x16) stat_off2_zero]) | fail "simp set did not close the read-back"
  · iexists _; isplitr
    swap; · iexact H6
    ipureintro
    rw [stat_read_store_cons _ _ stat_off2_zero]
    sl_unfold_run_names
    first | (simp only [View.readAt_eq_ld, View.readCov_unit_zero (S := S1x16) _ stat_off2_zero, View.ld_unit_zero (S := S10000x16) stat_off2_zero, View.ld_unit_zero (S := S1x16) stat_off2_zero]) | fail "simp set did not close the read-back"

set_option maxHeartbeats 1000000 in
/-- The last grid point: the carried rows receive the block's column sums, then the two outputs are written from them. -/
theorem sound_kernel13_C (c : Dev nD) (E : Set ℕ) (i : grid13.Coords)
    (arg1 : Memref sig .tc .vmem S10000x16 .f32) (harg1 : arg1.IsWhole) (arg2 : Memref sig .tc .vmem S1x16 .f32) (harg2 : arg2.IsWhole)
    (arg3 : Memref sig .tc .vmem S1x16 .f32) (harg3 : arg3.IsWhole) (arg4 : Memref sig .tc .vmem S1x16 .f32) (harg4 : arg4.IsWhole)
    (arg5 : Memref sig .tc .vmem S1x16 .f32) (harg5 : arg5.IsWhole) (arg6 : Memref sig .tc .vmem S1x16 .f32) (harg6 : arg6.IsWhole)
    (hc0 : ¬ cond13_0 i) (hc1 : cond13_1 i)
    (x0 : Vec F S10000x16 .f32) (x1 : Vec F S1x16 .f32) (s5 s6 : Vec F S1x16 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg3 fullShare (k13_pay6 (k13_pay4 x0 x1 s5)) ∗ owns (c : Thread nD τ) arg4 fullShare (k13_pay7 (k13_pay4 x0 x1 s5) (k13_pay5 x0 x1 s6))
            ∗ owns (c : Thread nD τ) arg5 fullShare (k13_pay4 x0 x1 s5) ∗ owns (c : Thread nD τ) arg6 fullShare (k13_pay5 x0 x1 s6)) -∗ K ⟨⟩))
      ⊢ wp frame (wpE (defs₀ (F := F)) Variants.none c none) E (cc13__reduce_kernel i arg1 harg1 arg2 harg2 arg3 harg3 arg4 harg4 arg5 harg5 arg6 harg6) K := by
  simp only [cc13__reduce_kernel_eq_skeleton]; unfold cc13__reduce_kernel_skel
  unfold owns
  iintro ⟨⟨%f0, %hf0, H0⟩, ⟨%f1, %hf1, H1⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [stat_read_store _ _ stat_off2_zero]
    sl_unfold_run_names
    first | (simp only [View.readAt_eq_ld, View.readCov_unit_zero (S := S1x16) _ stat_off2_zero, View.ld_unit_zero (S := S10000x16) stat_off2_zero, View.ld_unit_zero (S := S1x16) stat_off2_zero]) | fail "simp set did not close the read-back"
  isplitl [H4]
  · iexists _; isplitr
    swap; · iexact H4
    ipureintro
    rw [stat_read_store _ _ stat_off2_zero]
    sl_unfold_run_names
    first | (simp only [View.readAt_eq_ld, View.readCov_unit_zero (S := S1x16) _ stat_off2_zero, View.ld_unit_zero (S := S10000x16) stat_off2_zero, View.ld_unit_zero (S := S1x16) stat_off2_zero]) | fail "simp set did not close the read-back"
  isplitl [H5]
  · iexists _; isplitr
    swap; · iexact H5
    ipureintro
    sl_unfold_run_names
    rw [stat_read_store_cons _ _ stat_off2_zero]
    first | (simp only [View.readAt_eq_ld, View.readCov_unit_zero (S := S1x16) _ stat_off2_zero, View.ld_unit_zero (S := S10000x16) stat_off2_zero, View.ld_unit_zero (S := S1x16) stat_off2_zero]) | fail "simp set did not close the read-back"
  · iexists _; isplitr
    swap; · iexact H6
    ipureintro
    sl_unfold_run_names
    rw [stat_read_store_cons _ _ stat_off2_zero]
    first | (simp only [View.readAt_eq_ld, View.readCov_unit_zero (S := S1x16) _ stat_off2_zero, View.ld_unit_zero (S := S10000x16) stat_off2_zero, View.ld_unit_zero (S := S1x16) stat_off2_zero]) | fail "simp set did not close the read-back"

end Cert.Kernel.Hand

end
-- ==== Proof.KB.Reg13.lean ====
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import proofs.«109725_j21638045237575_1_alg».proof.Proof.KB.Reg13Run
import Idealize.ShloMosaic.Lib.Pipeline.Frame
import Idealize.ShloMosaic.Lib.Pipeline.FrameBody
import Idealize.ShloMosaic.Lib.Pipeline.Kit
import Idealize.ShloMosaic.Lib.Pipeline.Regions
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the fifth layer (16 columns) as a region of @main

Ten grid points, each a block of 10000 rows of the aggregated features. Two rows of 16 are carried from point to
point in scratch memory: the column sums of (block + bias) and of its square over the blocks seen so far. The first
point zeroes them first; the last point writes mean = sum / 100000 and var = sumsq / 100000 − mean · mean into the
two outputs' staging buffers, which are written back there and nowhere else; at the other points the body leaves
the outputs' buffers as it found them. -/

section Region

variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The block of aggregated rows is in its staging buffer at every point, for any proof data over `V` whose body
    leaves it there. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The bias row is in its staging buffer at every point (fetched once: its block index never moves). -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The carried rows -/

/-- The two carried rows when the accumulation of point `t` starts: both zero at the first point (after its zeroing),
    and after each point the sums of (block + bias), and of its square, down the block's columns added — a fold of the
    body's payload terms over the blocks seen so far, first component the sums, second the sums of squares. -/
def scr13 (c : Dev nD) : ℕ → Vec F S1x16 .f32 × Vec F S1x16 .f32
  | 0 => (k13_pay1, k13_pay2)
  | t + 1 =>
    if h : t < cfg13.N then
      (k13_pay4 (iblk13 V c 0 ⟨t, h⟩) (iblk13 V c 1 ⟨t, h⟩) (scr13 c t).1,
       k13_pay5 (iblk13 V c 0 ⟨t, h⟩) (iblk13 V c 1 ⟨t, h⟩) (scr13 c t).2)
    else scr13 c t

theorem scr13_zero (c : Dev nD) : scr13 V c 0 = (k13_pay1, k13_pay2) := by rw [scr13]

/-- One point's step of the fold. -/
theorem scr13_succ (c : Dev nD) (t : Fin cfg13.N) :
    scr13 V c (t.val + 1) = (k13_pay4 (iblk13 V c 0 t) (iblk13 V c 1 t) (scr13 V c t.val).1,
      k13_pay5 (iblk13 V c 0 t) (iblk13 V c 1 t) (scr13 V c t.val).2) := by
  rw [scr13, dif_pos t.isLt]

/-- The scratch rows between points, as the invariant holds them: before the first point at anything, before point
    `n > 0` at the fold's value there. -/
def scrAt13 (c : Dev nD) (n : ℕ) : sProp 𝕄 :=
  if n = 0 then
    iprop((∃ d, owns (c : Thread nD τ) (Memref.whole cc13_scratch0 : Memref sig .tc .vmem S1x16 .f32) fullShare d) ∗ (∃ d, owns (c : Thread nD τ) (Memref.whole cc13_scratch1 : Memref sig .tc .vmem S1x16 .f32) fullShare d))
  else
    iprop(owns (c : Thread nD τ) (Memref.whole cc13_scratch0 : Memref sig .tc .vmem S1x16 .f32) fullShare (scr13 V c n).1 ∗ owns (c : Thread nD τ) (Memref.whole cc13_scratch1 : Memref sig .tc .vmem S1x16 .f32) fullShare (scr13 V c n).2)

theorem scrAt13_zero (c : Dev nD) :
    scrAt13 V c 0 = iprop((∃ d, owns (c : Thread nD τ) (Memref.whole cc13_scratch0 : Memref sig .tc .vmem S1x16 .f32) fullShare d) ∗ (∃ d, owns (c : Thread nD τ) (Memref.whole cc13_scratch1 : Memref sig .tc .vmem S1x16 .f32) fullShare d)) := by
  unfold scrAt13; rw [if_pos rfl]

theorem scrAt13_pos (c : Dev nD) (n : ℕ) (h : n ≠ 0) :
    scrAt13 V c n = iprop(owns (c : Thread nD τ) (Memref.whole cc13_scratch0 : Memref sig .tc .vmem S1x16 .f32) fullShare (scr13 V c n).1 ∗ owns (c : Thread nD τ) (Memref.whole cc13_scratch1 : Memref sig .tc .vmem S1x16 .f32) fullShare (scr13 V c n).2) := by
  unfold scrAt13; rw [if_neg h]

/-! ## The pipeline's proof data -/

/-- The proof data of the pipeline on core `c`: the arrays as the region finds them; each input's buffer left at its
    block; the mean's and the variance's buffers, where the body stores them (the last point), at the body's two last
    payload terms of the carried rows after that point's accumulation; the invariant the scoped buffers other than
    the two scratch rows, the generator register, and the scratch rows at the fold's value; nothing owed. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => k13_pay6 (scr13 V c (t.val + 1)).1
    | ⟨3, _⟩ => k13_pay7 (scr13 V c (t.val + 1)).1 (scr13 V c (t.val + 1)).2
  Φ t := iprop(Pipeline.scopedRestBut (Ix := Unit) (Name := ℕ) (U := UR sig nD τ) (Lvl := ℕ) (Val := Elt F) spec13 c [cc13_scratch0, cc13_scratch1]
    ∗ (∃ r, prngReg c r) ∗ scrAt13 V c t.val)
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = k13_pay6 (scr13 V c (t.val + 1)).1 := by dsimp only [dat13]
theorem after13_3 (c : Dev nD) (t : Fin cfg13.N) :
    (dat13 V c).after 3 t = k13_pay7 (scr13 V c (t.val + 1)).1 (scr13 V c (t.val + 1)).2 := by dsimp only [dat13]

theorem Φ13_eq (c : Dev nD) (t : Fin (cfg13.N + 1)) :
    (dat13 V c).Φ t = iprop(Pipeline.scopedRestBut (Ix := Unit) (Name := ℕ) (U := UR sig nD τ) (Lvl := ℕ) (Val := Elt F) spec13 c [cc13_scratch0, cc13_scratch1]
      ∗ (∃ r, prngReg c r) ∗ scrAt13 V c t.val) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- The two outputs' buffers are idle (the body stores nothing there) at every point but the last, -/
theorem idle13_2 : ∀ t : Fin cfg13.N, cfg13.idle 2 (cfg13.grid.coords t) = true ↔ t.val ≠ 9 :=
  (by decide +kernel : ∀ t : Fin grid13.N, cfg13.idle 2 (grid13.coords t) = true ↔ t.val ≠ 9)
theorem idle13_3 : ∀ t : Fin cfg13.N, cfg13.idle 3 (cfg13.grid.coords t) = true ↔ t.val ≠ 9 :=
  (by decide +kernel : ∀ t : Fin grid13.N, cfg13.idle 3 (grid13.coords t) = true ↔ t.val ≠ 9)

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns: the two outputs' buffers as found where they are idle, at the stated contents at the last point. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ (dat13 V c).leavesExact 2 t
    ∗ (dat13 V c).leavesExact 3 t)

set_option maxHeartbeats 1000000 in
/-- The body at any point, by the three control cases: at the first point the scratch rows are found at anything and
    left at the fold's first step; at a middle point found at the fold's value and left at its next; at the last point
    also the two outputs' buffers, found at anything, are left at the mean and the variance of the final rows. The
    rest of the invariant and the core's `owes` pass through unread; where an output's buffer is idle it is handed back
    as it was found. -/
theorem sound_body13 (c : Dev nD) (t : Fin cfg13.N) :
    bodyPre13 V c t ⊢ wp frame (wpE (defs₀ (F := F)) Variants.none c none) Set.univ (bodyAt13 t) (fun _ => bodyPost13 V c t) := by
  have hlt : t.val < 10 := by
    have h := t.isLt
    have hN : cfg13.N = 10 := N_13
    omega
  unfold bodyPre13 bodyPost13 bodyAt13
  simp only [before13_0, before13_1]
  rw [show (dat13 V c).owesAt () t.succ = (dat13 V c).owesAt () t.castSucc from rfl, after13_0, after13_1,
    Φ13_eq, Φ13_eq, Fin.val_succ, Fin.val_castSucc, scrAt13_pos V c (t.val + 1) (Nat.succ_ne_zero _), scr13_succ]
  by_cases h0 : t.val = 0
  · -- the first point
    have h9 : t.val ≠ 9 := by omega
    have hc0 : cond13_0 (grid13.coords t) := (hcond13_0 t).mpr h0
    have hc1 : ¬ cond13_1 (grid13.coords t) := fun h => h9 ((hcond13_1 t).mp h)
    rw [Dat.leavesExact_idle _ 2 t ((idle13_2 t).mpr h9) (by rw [Bool.eq_false_iff]; intro h; have := (flush13_2 t).mp h; omega),
      Dat.leavesExact_idle _ 3 t ((idle13_3 t).mpr h9) (by rw [Bool.eq_false_iff]; intro h; have := (flush13_3 t).mp h; omega),
      h0, scrAt13_zero, scr13_zero]
    iintro ⟨⟨Hrest, Hprng, H5, H6⟩, Ho, ⟨%d0, H0⟩, ⟨%d1, H1⟩, H2, H3⟩
    iapply (sound_kernel13_A c Set.univ (grid13.coords t) _ _ _ _ _ _ _ _ _ _ _ _ hc0 hc1 (iblk13 V c 0 t) (iblk13 V c 1 t) _)
    isplitl [H0]; · iexact H0
    isplitl [H1]; · iexact H1
    isplitl [H5]; · iexact H5
    isplitl [H6]; · iexact H6
    iintro ⟨H0, H1, H5, H6⟩
    isplitl [Hrest Hprng H5 H6]
    · isplitl [Hrest]; · iexact Hrest
      isplitl [Hprng]; · iexact Hprng
      isplitl [H5]; · iexact H5
      iexact H6
    isplitl [Ho]; · iexact Ho
    isplitl [H0]; · iexact H0
    isplitl [H1]; · iexact H1
    isplitl [H2]; · iexact H2
    iexact H3
  · by_cases h9 : t.val = 9
    · -- the last point
      have hc0 : ¬ cond13_0 (grid13.coords t) := fun h => h0 ((hcond13_0 t).mp h)
      have hc1 : cond13_1 (grid13.coords t) := (hcond13_1 t).mpr h9
      have hi2 : cfg13.idle 2 (cfg13.grid.coords t) = false := by
        rw [Bool.eq_false_iff]; intro h; exact (idle13_2 t).mp h h9
      have hi3 : cfg13.idle 3 (cfg13.grid.coords t) = false := by
        rw [Bool.eq_false_iff]; intro h; exact (idle13_3 t).mp h h9
      rw [scrAt13_pos V c t.val h0]
      unfold Dat.leavesExact
      rw [hi2]
      try rw [hi3]
      dsimp only
      rw [after13_2, after13_3, scr13_succ]
      iintro ⟨⟨Hrest, Hprng, H5, H6⟩, Ho, ⟨%d0, H0⟩, ⟨%d1, H1⟩, ⟨%d2, H2⟩, ⟨%d3, H3⟩⟩
      iapply (sound_kernel13_C c Set.univ (grid13.coords t) _ _ _ _ _ _ _ _ _ _ _ _ hc0 hc1 (iblk13 V c 0 t) (iblk13 V c 1 t)
        (scr13 V c t.val).1 (scr13 V c t.val).2 _)
      isplitl [H0]; · iexact H0
      isplitl [H1]; · iexact H1
      isplitl [H2]; · iexists _; iexact H2
      isplitl [H3]; · iexists _; iexact H3
      isplitl [H5]; · iexact H5
      isplitl [H6]; · iexact H6
      iintro ⟨H0, H1, H2, H3, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3
    · -- a middle point
      have hc0 : ¬ cond13_0 (grid13.coords t) := fun h => h0 ((hcond13_0 t).mp h)
      have hc1 : ¬ cond13_1 (grid13.coords t) := fun h => h9 ((hcond13_1 t).mp h)
      rw [Dat.leavesExact_idle _ 2 t ((idle13_2 t).mpr h9) (by rw [Bool.eq_false_iff]; intro h; have := (flush13_2 t).mp h; omega),
        Dat.leavesExact_idle _ 3 t ((idle13_3 t).mpr h9) (by rw [Bool.eq_false_iff]; intro h; have := (flush13_3 t).mp h; omega),
        scrAt13_pos V c t.val h0]
      iintro ⟨⟨Hrest, Hprng, H5, H6⟩, Ho, ⟨%d0, H0⟩, ⟨%d1, H1⟩, H2, H3⟩
      iapply (sound_kernel13_B c Set.univ (grid13.coords t) _ _ _ _ _ _ _ _ _ _ _ _ hc0 hc1 (iblk13 V c 0 t) (iblk13 V c 1 t)
        (scr13 V c t.val).1 (scr13 V c t.val).2 _)
      isplitl [H0]; · iexact H0
      isplitl [H1]; · iexact H1
      isplitl [H5]; · iexact H5
      isplitl [H6]; · iexact H6
      iintro ⟨H0, H1, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest13 (c : Dev nD) : sProp 𝕄 := iprop((∃ r, prngReg c r) ∗ ∃ W, owes (c : Thread nD τ) (0 : CellTallies nD τ sig Unit) W)

/-- The grid is not empty. -/
theorem N13_ne_zero : cfg13.N ≠ 0 := by
  show grid13.N ≠ 0
  rw [N_13]; decide

-- a library lemma stated over the pinned configuration unifies with the printed one only when unification may unfold
-- plain definitions in a metavariable's type
set_option backward.isDefEq.respectTransparency.types false in
/-- The region over the thread state "every unscoped buffer whole at a valuation, the generator register at some state,
    nothing owed": entered from the buffers at `W₁`, left at `W₂`, for any family of proof data whose member 13 is
    `dat13` at `W₁` (`hp`), when `W₂` has each of the region's arrays at what the pipeline leaves there (`hF`) and every
    other buffer as `W₁` (`hrest`). The arrays are split out of the unscoped buffers at entry and put back at exit; the
    generator register goes into the invariant and comes back; of the scoped buffers no window stages, the kernel's two
    scratch rows are split off into the invariant at entry (held at anything before the first point) and, at the fold's
    last value, forgotten back into them at exit; the kernel has no semaphore of its own. -/
def reg13 (hp : ∀ c, pdats 13 c = dat13 (fun c b => W₁ c b) c)
    (hF : ∀ c w, (dat13 (F := F) (fun c b => W₁ c b) c).arrAt w cfg13.N = W₂ c (Pipeline.arrRef spec13 w))
    (hrest : ∀ c (b : Ref sig .tc), b ∉ Finset.univ.image (Pipeline.arrRef spec13) → W₂ c b = W₁ c b) :
    Pipeline.RegionSeg (pcfgs (F := F)) adm pdats () defs₀ Variants.none L lv 13 where
  win := launch13.win.to₀
  block_pos := launch13.block_pos
  stage_whole := launch13.stage_whole
  K := PEmpty
  osem k := k.elim
  ho := Pipeline.OwnSemFacts.none _
  hbody c := by rw [hp c]; exact (body_obligation13 (fun c b => W₁ c b) c).loose
  hwaits := Pipeline.hwaits_of_owed_zero _ _ _ _ L lv 13 fun c _ => by rw [hp c]; rfl
  pre c := iprop(StableHlo.held (c : Thread nD τ) (Pipeline.ucRefs τ sig) (W₁ c) ∗ rest13 c)
  post c := iprop(StableHlo.held (c : Thread nD τ) (Pipeline.ucRefs τ sig) (W₂ c) ∗ rest13 c)
  X c := iprop(∃ r, prngReg c r)
  Y c := iprop(∃ r, prngReg c r)
  Z c := Pipeline.unscopedRest (Ix := Unit) (Name := ℕ) (U := UR sig nD τ) (Lvl := ℕ) spec13 c (fun b => W₁ c b)
  hentry c := by
    rw [Pipeline.ownSems0_none]
    have hq : ∀ w, (pdats 13 c).q w = fullShare := fun w => by rw [hp c]; rfl
    have hA : ∀ w, (pdats 13 c).A w = (fun b : Ref sig .tc => W₁ c b) (Pipeline.arrRef spec13 w) := fun w => by rw [hp c]; rfl
    have hsplit := Pipeline.arrays_of_unscopedBufs (p := 13) (pcfgs (F := F)) adm pdats launch13.win launch13.arr_whole c
      ((pdats 13 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; trivial)
      rw [show (pdats 13 c).owed 0 = 0 from by rw [hp c]; rfl]
      iexact HO
    isplitl [Hp]; · iexact Hp
    iexact Hrest
  hin c := by
    rw [show (pdats 13 c).Φ 0 = (dat13 (fun c b => W₁ c b) c).Φ 0 from by rw [hp c], Φ13_eq,
      show ((0 : Fin (cfg13.N + 1)).val) = 0 from rfl, scrAt13_zero,
      show (Pipeline.scopedRest (Pipeline.pin (pcfgs (F := F)) adm 13).spec c : sProp 𝕄) = _ from
        scopedRest13_split (Ix := Unit) (Val := Elt F) (Name := ℕ) (U := UR sig nD τ) (Lvl := ℕ) c]
    simp only [owns_whole]
    iintro ⟨Hp, -, ⟨H5, H6⟩, Hr⟩
    isplitl [Hr]; · iexact Hr
    isplitl [Hp]; · iexact Hp
    isplitl [H5]; · iexact H5
    iexact H6
  hout c := by
    rw [Pipeline.ownSems0_none, show (pdats 13 c).Φ (Fin.last _) = (dat13 (fun c b => W₁ c b) c).Φ (Fin.last cfg13.N) from by rw [hp c]; rfl, Φ13_eq,
      Fin.val_last, scrAt13_pos _ c cfg13.N N13_ne_zero,
      show (Pipeline.scopedRest (Pipeline.pin (pcfgs (F := F)) adm 13).spec c : sProp 𝕄) = _ from
        scopedRest13_split (Ix := Unit) (Val := Elt F) (Name := ℕ) (U := UR sig nD τ) (Lvl := ℕ) c]
    simp only [owns_whole]
    iintro ⟨Hr, Hp, H5, H6⟩
    isplitl [Hp]; · iexact Hp
    isplitr; · iempintro
    isplitl [H5 H6]
    · isplitl [H5]
      · iexists _; iexact H5
      iexists _; iexact H6
    iexact Hr
  hexit c := by
    have hq : ∀ w, (pdats 13 c).q w = fullShare := fun w => by rw [hp c]; rfl
    have hjoin := Pipeline.unscopedBufs_of_arrays (p := 13) (pcfgs (F := F)) adm (Ix := Unit) (Name := ℕ) (U := UR sig nD τ) (Lvl := ℕ)
      launch13.win launch13.arr_whole c pdats ((pdats 13 c).share_full hq)
      (fun b => W₁ c b) (fun b => W₂ c b) ((pdats 13 c).arrAt · cfg13.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 13 c).owed (Fin.last _) = 0 from by rw [hp c]; rfl]
    iexact HO

end Record

end Cert.Kernel.Hand

end
-- ==== Proof.KB.Reg13Upd.lean ====
import proofs.«109725_j21638045237575_1_alg».proof.Proof.KB.Reg13

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region's exit valuation as an update of its entry valuation at the two results' buffers -/

section Update

variable (W₁ : Dev nD → Valuation τ sig (Elt F))

/-- Updating a valuation at the mean's buffer and at the variance's changes no other buffer. -/
theorem update13_of_ne (c : Dev nD) (x0 : Buf (Elt F) ((c : Thread nD τ).loc main_v162_0)) (x1 : Buf (Elt F) ((c : Thread nD τ).loc main_v162_1))
    (b : Ref sig .tc) (h0 : b ≠ main_v162_0) (h1 : b ≠ main_v162_1) :
    Function.update (Function.update (W₁ c) main_v162_0 x0) main_v162_1 x1 b = W₁ c b :=
  (Function.update_of_ne (StableHlo.devRef_ne_of_ne h1) x1 (Function.update (W₁ c) main_v162_0 x0)).trans
    (Function.update_of_ne (StableHlo.devRef_ne_of_ne h0) x0 (W₁ c))

/-- The update read at the variance's buffer, -/
theorem update13_at_3 (c : Dev nD) (x0 : Buf (Elt F) ((c : Thread nD τ).loc main_v162_0)) (x1 : Buf (Elt F) ((c : Thread nD τ).loc main_v162_1)) : Function.update (Function.update (W₁ c) main_v162_0 x0) main_v162_1 x1 main_v162_1 = x1 :=
  Function.update_self (β := fun b : DevRef τ sig => b.ty.Contents (Elt F)) (Proc.devRef .tc main_v162_1) x1 (Function.update (W₁ c) main_v162_0 x0)

/-- and at the mean's. -/
theorem update13_at_2 (c : Dev nD) (x0 : Buf (Elt F) ((c : Thread nD τ).loc main_v162_0)) (x1 : Buf (Elt F) ((c : Thread nD τ).loc main_v162_1)) : Function.update (Function.update (W₁ c) main_v162_0 x0) main_v162_1 x1 main_v162_0 = x0 :=
  (Function.update_of_ne (StableHlo.devRef_ne_of_ne (show (main_v162_0 : Ref sig .tc) ≠ main_v162_1 by decide)) x1 (Function.update (W₁ c) main_v162_0 x0)).trans
    (Function.update_self (β := fun b : DevRef τ sig => b.ty.Contents (Elt F)) (Proc.devRef .tc main_v162_0) x0 (W₁ c))

theorem hF13_update_0 (c : Dev nD) (x0 : Buf (Elt F) ((c : Thread nD τ).loc main_v162_0)) (x1 : Buf (Elt F) ((c : Thread nD τ).loc main_v162_1)) :
    (dat13 (F := F) (fun c b => W₁ c b) c).arrAt 0 cfg13.N = Function.update (Function.update (W₁ c) main_v162_0 x0) main_v162_1 x1 (Pipeline.arrRef spec13 0) :=
  ((dat13 (F := F) (fun c b => W₁ c b) c).arrAt_in 0 rfl _).trans ((A_eq13 (fun c b => W₁ c b) c 0).trans
      (update13_of_ne W₁ c x0 x1 (Pipeline.arrRef spec13 0) (by decide) (by decide)).symm)

theorem hF13_update_1 (c : Dev nD) (x0 : Buf (Elt F) ((c : Thread nD τ).loc main_v162_0)) (x1 : Buf (Elt F) ((c : Thread nD τ).loc main_v162_1)) :
    (dat13 (F := F) (fun c b => W₁ c b) c).arrAt 1 cfg13.N = Function.update (Function.update (W₁ c) main_v162_0 x0) main_v162_1 x1 (Pipeline.arrRef spec13 1) :=
  ((dat13 (F := F) (fun c b => W₁ c b) c).arrAt_in 1 rfl _).trans ((A_eq13 (fun c b => W₁ c b) c 1).trans
      (update13_of_ne W₁ c x0 x1 (Pipeline.arrRef spec13 1) (by decide) (by decide)).symm)

theorem hF13_update_2 (c : Dev nD) (x0 : Buf (Elt F) ((c : Thread nD τ).loc main_v162_0)) (x1 : Buf (Elt F) ((c : Thread nD τ).loc main_v162_1)) (hx0 : x0 = (dat13 (F := F) (fun c b => W₁ c b) c).arrAt 2 cfg13.N) :
    (dat13 (F := F) (fun c b => W₁ c b) c).arrAt 2 cfg13.N = Function.update (Function.update (W₁ c) main_v162_0 x0) main_v162_1 x1 (Pipeline.arrRef spec13 2) :=
  hx0.symm.trans (update13_at_2 W₁ c x0 x1).symm

theorem hF13_update_3 (c : Dev nD) (x0 : Buf (Elt F) ((c : Thread nD τ).loc main_v162_0)) (x1 : Buf (Elt F) ((c : Thread nD τ).loc main_v162_1)) (hx1 : x1 = (dat13 (F := F) (fun c b => W₁ c b) c).arrAt 3 cfg13.N) :
    (dat13 (F := F) (fun c b => W₁ c b) c).arrAt 3 cfg13.N = Function.update (Function.update (W₁ c) main_v162_0 x0) main_v162_1 x1 (Pipeline.arrRef spec13 3) :=
  hx1.symm.trans (update13_at_3 W₁ c x0 x1).symm

/-- When the exit valuation is the entry valuation updated at the mean's buffer and at the variance's with what the
    pipeline's write-backs leave in them, every array of the region holds there what the pipeline leaves: an input's
    array is never written and is neither result's buffer; each result's array is its updated one. -/
theorem hF13_update (c : Dev nD) (x0 : Buf (Elt F) ((c : Thread nD τ).loc main_v162_0)) (x1 : Buf (Elt F) ((c : Thread nD τ).loc main_v162_1))
    (hx0 : x0 = (dat13 (F := F) (fun c b => W₁ c b) c).arrAt 2 cfg13.N) (hx1 : x1 = (dat13 (F := F) (fun c b => W₁ c b) c).arrAt 3 cfg13.N) :
    ∀ w, (dat13 (F := F) (fun c b => W₁ c b) c).arrAt w cfg13.N = Function.update (Function.update (W₁ c) main_v162_0 x0) main_v162_1 x1 (Pipeline.arrRef spec13 w)
  | ⟨0, _⟩ => hF13_update_0 W₁ c x0 x1
  | ⟨1, _⟩ => hF13_update_1 W₁ c x0 x1
  | ⟨2, _⟩ => hF13_update_2 W₁ c x0 x1 hx0
  | ⟨3, _⟩ => hF13_update_3 W₁ c x0 x1 hx1

/-- and every buffer that is no array of the region holds what it held at entry. -/
theorem hrest13_update (c : Dev nD) (x0 : Buf (Elt F) ((c : Thread nD τ).loc main_v162_0)) (x1 : Buf (Elt F) ((c : Thread nD τ).loc main_v162_1)) :
    ∀ b : Ref sig .tc, b ∉ Finset.univ.image (Pipeline.arrRef spec13) → Function.update (Function.update (W₁ c) main_v162_0 x0) main_v162_1 x1 b = W₁ c b :=
  fun b hb => update13_of_ne W₁ c x0 x1 b
    (fun e => hb (Finset.mem_image.mpr ⟨2, Finset.mem_univ _, e.symm⟩))
    (fun e => hb (Finset.mem_image.mpr ⟨3, Finset.mem_univ _, e.symm⟩))

end Update

end Cert.Kernel.Hand

end
-- ==== Proof.KB.Reg14Body.lean ====
/-
  Region 14 of the kernel's @main: the normalise + LeakyReLU kernel at width 16, over a grid of ten row
  tiles of 10000 rows. Its seven windows are the row tile of the aggregated features (fetched at every point), five
  rows of 16 entries — the bias, the batch mean, the batch variance, the scale and the shift — (whole, fetched once:
  their block index never moves), and the row tile of the result (written back at every point). The body reads the
  six input blocks whole, computes h = agg + bias, inv = rsqrt(var + eps), hn = (h − mean)·inv·scale + shift and
  stores where(hn ≥ 0, hn, slope·hn) over the whole output block, so what a point leaves in the output's staging
  buffer is a pure function of the six input blocks (`out14_6`), and the inputs' buffers are left as found.

  Stated here, at any float model `F` and at a PARAMETER `V` (the core's buffer contents when the region is
  entered): each window's block at a point (`iblk14`), the body's triple (`sound_kernel14`), the pipeline's proof
  data (`dat14`), the body obligation (`body_obligation14`), and the region as a segment record (`reg14`) for any
  family of proof data whose member 14 is `dat14`, entered from every unscoped buffer at `W₁` and left at `W₂`, where
  `W₂` holds at each of the region's arrays what the pipeline's write-backs leave and elsewhere what `W₁` held.
-/
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof
    data whose array is `V`'s (`hA`) and whose body leaves the block in place (`hafter`): where the window is not
    fetched its block index has not moved, so the block kept from the point before is this point's. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- Input window 1's current staging buffer holds its block at every point, fetched there or not, for any proof
    data whose array is `V`'s (`hA`) and whose body leaves the block in place (`hafter`): where the window is not
    fetched its block index has not moved, so the block kept from the point before is this point's. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
/-- Input window 2's current staging buffer holds its block at every point, fetched there or not, for any proof
    data whose array is `V`'s (`hA`) and whose body leaves the block in place (`hafter`): where the window is not
    fetched its block index has not moved, so the block kept from the point before is this point's. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
/-- Input window 3's current staging buffer holds its block at every point, fetched there or not, for any proof
    data whose array is `V`'s (`hA`) and whose body leaves the block in place (`hafter`): where the window is not
    fetched its block index has not moved, so the block kept from the point before is this point's. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
/-- Input window 4's current staging buffer holds its block at every point, fetched there or not, for any proof
    data whose array is `V`'s (`hA`) and whose body leaves the block in place (`hafter`): where the window is not
    fetched its block index has not moved, so the block kept from the point before is this point's. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)
/-- Input window 5's current staging buffer holds its block at every point, fetched there or not, for any proof
    data whose array is `V`'s (`hA`) and whose body leaves the block in place (`hafter`): where the window is not
    fetched its block index has not moved, so the block kept from the point before is this point's. -/
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: each buffer whole -/

abbrev r14_x : Rect S10000x16 := Rect.unit (s := S10000x16) ![0, 0] S10000x16.size inb_S10000x16_S10000x16_0_0
abbrev r14_r : Rect S1x16 := Rect.unit (s := S1x16) ![0, 0] S1x16.size inb_S1x16_S1x16_0_0
abbrev r14_o : Rect S10000x16 := Rect.unit (s := S10000x16) ![0, 0] S10000x16.size inb_S10000x16_S10000x16_0_0

/-! ## What the body leaves in the output window's buffer -/

/-- Window 6's staging buffer after the body, from the input windows' blocks (the row tile, the bias, the mean, the
    variance, the scale and the shift, in the windows' order): its one store, of the normalised and rectified tile
    computed from the six blocks read whole. The payload takes the variance before the mean, as the body reads them. -/
def out14_6 (x0 : Vec F S10000x16 .f32) (x1 : Vec F S1x16 .f32) (x2 : Vec F S1x16 .f32) (x3 : Vec F S1x16 .f32) (x4 : Vec F S1x16 .f32) (x5 : Vec F S1x16 .f32) : Vec F S10000x16 .f32 :=
  View.canon [⟨r14_o, k14_pay1 (View.ld x0 r14_x) (View.ld x1 r14_r) (View.ld x3 r14_r) (View.ld x2 r14_r) (View.ld x4 r14_r) (View.ld x5 r14_r)⟩]

/-- The one store is over the whole buffer, so it covers it. -/
theorem cover14_6 (p0 : Vec F S10000x16 .f32) (y : S10000x16.Idx) :
    ∃ pc ∈ ([⟨r14_o, p0⟩] : List (View.Piece (Elt F) S10000x16 .f32)), y ∈ pc.1.set :=
  View.cover_of_tiled [⟨r14_o, p0⟩] S10000x16.size (by rfl) y

/-! ## The body's triple -/

set_option maxHeartbeats 1000000 in
/-- The kernel body on whole staging memrefs, the inputs' at read contents `x0 … x5` and the output's at anything,
    runs to the continuation holding the inputs' as they were and the output's at `out14_6` of the inputs'. -/
theorem sound_kernel14 (c : Dev nD) (E : Set ℕ) (i : grid14.Coords) (arg1 : Memref sig .tc .vmem S10000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S1x16 .f32) (harg6 : arg6.IsWhole) (arg7 : Memref sig .tc .vmem S10000x16 .f32) (harg7 : arg7.IsWhole)
    (x0 : Vec F S10000x16 .f32) (x1 : Vec F S1x16 .f32) (x2 : Vec F S1x16 .f32) (x3 : Vec F S1x16 .f32) (x4 : Vec F S1x16 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out14_6 x0 x1 x2 x3 x4 x5)) -∗ K ⟨⟩))
      ⊢ wp frame (wpE (defs₀ (F := F)) Variants.none c none) E (cc14__norm_kernel i arg1 harg1 arg2 harg2 arg3 harg3 arg4 harg4 arg5 harg5 arg6 harg6 arg7 harg7) K := by
  simp only [cc14__norm_kernel_eq_skeleton]; unfold cc14__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover14_6 _)

/-! ## The pipeline's proof data -/

/-- The proof data of pipeline 14 on core `c`: the arrays as the region finds them (`V`); after the body at point `t`
    each input's buffer at its block and the output's at `out14_6` of the input blocks; the invariant is the scoped
    buffers no window stages and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => out14_6 (iblk14 V c 0 t) (iblk14 V c 1 t) (iblk14 V c 2 t) (iblk14 V c 3 t) (iblk14 V c 4 t) (iblk14 V c 5 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = out14_6 (iblk14 V c 0 t) (iblk14 V c 1 t) (iblk14 V c 2 t) (iblk14 V c 3 t) (iblk14 V c 4 t) (iblk14 V c 5 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t))

/-- The body at any point: the inputs' memrefs hold their blocks, so `sound_kernel14` applies; the invariant and the
    core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel14 c Set.univ (grid14.coords t) _ _ _ _ _ _ _ _ _ _ _ _ _ _ (iblk14 V c 0 t) (iblk14 V c 1 t) (iblk14 V c 2 t) (iblk14 V c 3 t) (iblk14 V c 4 t) (iblk14 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation14 (c : Dev nD) : BodyObligation (dat14 (F := F) V c) (defs₀ (F := F)) Variants.none () Set.univ := fun t => by
  rw [bigSep_W14, bigSep_W14]
  exact sound_body14 V c t

end Region

end Cert.Kernel.Hand

end
-- ==== Proof.KB.Reg14.lean ====
/-
  Region 14 of the kernel's @main (the normalise + LeakyReLU kernel at width 16) as a segment of @main:
  the record `reg14` for any family of proof data whose member 14 is `dat14`, entered from every unscoped buffer at
  `W₁` and left at `W₂`, where `W₂` holds at each of the region's arrays what the pipeline's write-backs leave and
  elsewhere what `W₁` held; and the two facts that make `W₂ := W₁` updated at the output array `main_v166` such a
  valuation (`hF14_update`, `hrest14_update`): the six input arrays are never written back, so they end as
  entered, and the output array is the only one of the region's arrays that differs.
-/
import proofs.«109725_j21638045237575_1_alg».proof.Proof.KB.Reg14Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The exit valuation: the entry valuation updated at the output array -/

section Update

variable (W₁ : Dev nD → Valuation τ sig (Elt F)) (c : Dev nD) (x : Buf (Elt F) ((c : Thread nD τ).loc main_v166))

/-- An input window's array is never written back, so after all the points it holds what the region found, and the
    update at the output array does not touch it. -/
theorem hF14_in (w : Fin cfg14.W) (hin : (cfg14.win w).isOut = false) (hne : Pipeline.arrRef spec14 w ≠ main_v166) :
    (dat14 (F := F) (fun c b => W₁ c b) c).arrAt w cfg14.N = Function.update (W₁ c) main_v166 x (Pipeline.arrRef spec14 w) :=
  ((dat14 (F := F) (fun c b => W₁ c b) c).arrAt_in w hin _).trans
    ((A_eq14 (fun c b => W₁ c b) c w).trans (Function.update_of_ne (StableHlo.devRef_ne_of_ne hne) _ _).symm)

/-- Every window but the last is an input, staged from an array other than the output array. -/
theorem in_ne14 : ∀ w : Fin cfg14.W, w ≠ 6 → (cfg14.win w).isOut = false ∧ Pipeline.arrRef spec14 w ≠ main_v166 := by decide

/-- Each of the region's arrays after all the points is what the entry valuation updated at the output array holds
    there, when the update's value `x` is what the pipeline's write-backs leave in the output array. -/
theorem hF14_update (hx : x = (dat14 (F := F) (fun c b => W₁ c b) c).arrAt 6 cfg14.N) :
    ∀ w : Fin cfg14.W, (dat14 (F := F) (fun c b => W₁ c b) c).arrAt w cfg14.N = Function.update (W₁ c) main_v166 x (Pipeline.arrRef spec14 w) := fun w => by
  by_cases h : w = 6
  · subst h hx
    exact (Function.update_self (Proc.devRef .tc main_v166 : DevRef τ sig) _ (W₁ c)).symm
  · exact hF14_in W₁ c x w (in_ne14 w h).1 (in_ne14 w h).2

/-- Every buffer that is none of the region's arrays is not the output array, so the update leaves it as entered. -/
theorem hrest14_update : ∀ b : Ref sig .tc, b ∉ Finset.univ.image (Pipeline.arrRef spec14) → Function.update (W₁ c) main_v166 x b = W₁ c b :=
  fun b hb => Function.update_of_ne (StableHlo.devRef_ne_of_ne fun e =>
    hb (Finset.mem_image.mpr ⟨6, Finset.mem_univ _, (e.symm : Pipeline.arrRef spec14 6 = b)⟩)) _ _

end Update

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest14 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 14 over the thread state "every unscoped buffer whole at a valuation, the generator register at some state,
    nothing owed": entered from the buffers at `W₁`, left at `W₂`, for any family of proof data whose member 14 is
    `dat14` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg14 (hp : ∀ c, pdats 14 c = dat14 (fun c b => W₁ c b) c)
    (hF : ∀ c w, (dat14 (F := F) (fun c b => W₁ c b) c).arrAt w cfg14.N = W₂ c (Pipeline.arrRef spec14 w))
    (hrest : ∀ c (b : Ref sig .tc), b ∉ Finset.univ.image (Pipeline.arrRef spec14) → W₂ c b = W₁ c b) :
    Pipeline.RegionSeg (pcfgs (F := F)) adm pdats () defs₀ Variants.none L lv 14 where
  win := launch14.win.to₀
  block_pos := launch14.block_pos
  stage_whole := launch14.stage_whole
  K := PEmpty
  osem k := k.elim
  ho := Pipeline.OwnSemFacts.none _
  hbody c := by rw [hp c]; exact (body_obligation14 (fun c b => W₁ c b) c).loose
  hwaits := Pipeline.hwaits_of_owed_zero _ _ _ _ L lv 14 fun c _ => by rw [hp c]; rfl
  pre c := iprop(StableHlo.held (c : Thread nD τ) (Pipeline.ucRefs τ sig) (W₁ c) ∗ rest14 c)
  post c := iprop(StableHlo.held (c : Thread nD τ) (Pipeline.ucRefs τ sig) (W₂ c) ∗ rest14 c)
  X c := iprop(∃ r, prngReg c r)
  Y c := iprop(∃ r, prngReg c r)
  Z c := Pipeline.unscopedRest (Ix := Unit) (Name := ℕ) (U := UR sig nD τ) (Lvl := ℕ) spec14 c (fun b => W₁ c b)
  hentry c := by
    rw [Pipeline.ownSems0_none]
    have hq : ∀ w, (pdats 14 c).q w = fullShare := fun w => by rw [hp c]; rfl
    have hA : ∀ w, (pdats 14 c).A w = (fun b : Ref sig .tc => W₁ c b) (Pipeline.arrRef spec14 w) := fun w => by rw [hp c]; rfl
    have hsplit := Pipeline.arrays_of_unscopedBufs (p := 14) (pcfgs (F := F)) adm pdats launch14.win launch14.arr_whole c
      ((pdats 14 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; rw [hp c]; exact fun _ _ => Or.inl trivial
      rw [show (pdats 14 c).owed 0 = 0 from by rw [hp c]; rfl]
      iexact HO
    isplitl [Hp]; · iexact Hp
    iexact Hrest
  hin c := by
    rw [show (pdats 14 c).Φ 0 = Pipeline.ΦA spec14 c from by rw [hp c]; rfl]; unfold Pipeline.ΦA
    iintro ⟨Hp, -, Hr⟩
    isplitl [Hr]; · iexact Hr
    iexact Hp
  hout c := by
    rw [Pipeline.ownSems0_none, show (pdats 14 c).Φ (Fin.last _) = Pipeline.ΦA spec14 c from by rw [hp c]; rfl]; unfold Pipeline.ΦA
    iintro ⟨Hr, Hp⟩
    isplitl [Hp]; · iexact Hp
    isplitr; · iempintro
    iexact Hr
  hexit c := by
    have hq : ∀ w, (pdats 14 c).q w = fullShare := fun w => by rw [hp c]; rfl
    have hjoin := Pipeline.unscopedBufs_of_arrays (p := 14) (pcfgs (F := F)) adm (Ix := Unit) (Name := ℕ) (U := UR sig nD τ) (Lvl := ℕ)
      launch14.win launch14.arr_whole c pdats ((pdats 14 c).share_full hq)
      (fun b => W₁ c b) (fun b => W₂ c b) ((pdats 14 c).arrAt · cfg14.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 14 c).owed (Fin.last _) = 0 from by rw [hp c]; rfl]
    iexact HO

end Record

end Cert.Kernel.Hand

end
-- ==== Proof.KB.Reg15.lean ====
/-
  Region 15 of the kernel's @main: the linear kernel y = x·W + bias at widths 16 → 3, over a grid of
  ten row tiles of 10000 rows. Its four windows are the row tile of x (fetched at every point), the weight matrix
  and the bias row (whole, fetched once: their block index never moves), and the row tile of the result (written
  back at every point). The body reads the three input blocks whole and stores one value over the whole output
  block, so what a point leaves in the output's staging buffer is a pure function of the three input blocks
  (`out15_3`), and the inputs' buffers are left as found.

  Stated here, at any float model `F` and at a PARAMETER `V` (the core's buffer contents when the region is
  entered): each window's block at a point (`iblk15`), the body's triple (`sound_kernel15`), the pipeline's proof
  data (`dat15`), the body obligation (`body_obligation15`), and the region as a segment record (`reg15`) for any
  family of proof data whose member 15 is `dat15`, entered from every unscoped buffer at `W₁` and left at `W₂`, where
  `W₂` holds at each of the region's arrays what the pipeline's write-backs leave and elsewhere what `W₁` held.
-/
import proofs.«109725_j21638045237575_1_alg».proof.Proof.Gen.Kernel.Launch
import proofs.«109725_j21638045237575_1_alg».proof.Proof.Gen.Kernel.Skeleton
import proofs.«109725_j21638045237575_1_alg».proof.Proof.Gen.Kernel.Points
import proofs.«109725_j21638045237575_1_alg».proof.Proof.Gen.Kernel.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's current staging buffer holds its block at every point, fetched there or not, for any proof
    data whose array is `V`'s (`hA`) and whose body leaves the block in place (`hafter`): where the window is not
    fetched its block index has not moved, so the block kept from the point before is this point's. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- Input window 1's current staging buffer holds its block at every point, fetched there or not, for any proof
    data whose array is `V`'s (`hA`) and whose body leaves the block in place (`hafter`): where the window is not
    fetched its block index has not moved, so the block kept from the point before is this point's. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
/-- Input window 2's current staging buffer holds its block at every point, fetched there or not, for any proof
    data whose array is `V`'s (`hA`) and whose body leaves the block in place (`hafter`): where the window is not
    fetched its block index has not moved, so the block kept from the point before is this point's. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses: each buffer whole -/

abbrev r15_x : Rect S10000x16 := Rect.unit (s := S10000x16) ![0, 0] S10000x16.size inb_S10000x16_S10000x16_0_0
abbrev r15_w : Rect S16x3 := Rect.unit (s := S16x3) ![0, 0] S16x3.size inb_S16x3_S16x3_0_0
abbrev r15_b : Rect S1x3 := Rect.unit (s := S1x3) ![0, 0] S1x3.size inb_S1x3_S1x3_0_0
abbrev r15_o : Rect S10000x3 := Rect.unit (s := S10000x3) ![0, 0] S10000x3.size inb_S10000x3_S10000x3_0_0

/-! ## What the body leaves in the output window's buffer -/

/-- Window 3's staging buffer after the body, from the input windows' blocks: its one store, of the payload
    x·W + bias computed from the three blocks read whole. -/
def out15_3 (x0 : Vec F S10000x16 .f32) (x1 : Vec F S16x3 .f32) (x2 : Vec F S1x3 .f32) : Vec F S10000x3 .f32 :=
  View.canon [⟨r15_o, k15_pay1 (View.ld x0 r15_x) (View.ld x1 r15_w) (View.ld x2 r15_b)⟩]

/-- The one store is over the whole buffer, so it covers it. -/
theorem cover15_3 (p0 : Vec F S10000x3 .f32) (y : S10000x3.Idx) :
    ∃ pc ∈ ([⟨r15_o, p0⟩] : List (View.Piece (Elt F) S10000x3 .f32)), y ∈ pc.1.set :=
  View.cover_of_tiled [⟨r15_o, p0⟩] S10000x3.size (by rfl) y

/-! ## The body's triple -/

set_option maxHeartbeats 1000000 in
/-- The kernel body on whole staging memrefs, the inputs' at read contents `x0 x1 x2` and the output's at anything,
    runs to the continuation holding the inputs' as they were and the output's at `out15_3` of the inputs'. -/
theorem sound_kernel15 (c : Dev nD) (E : Set ℕ) (i : grid15.Coords) (arg1 : Memref sig .tc .vmem S10000x16 .f32) (harg1 : arg1.IsWhole) (arg2 : Memref sig .tc .vmem S16x3 .f32) (harg2 : arg2.IsWhole) (arg3 : Memref sig .tc .vmem S1x3 .f32) (harg3 : arg3.IsWhole) (arg4 : Memref sig .tc .vmem S10000x3 .f32) (harg4 : arg4.IsWhole)
    (x0 : Vec F S10000x16 .f32) (x1 : Vec F S16x3 .f32) (x2 : Vec F S1x3 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out15_3 x0 x1 x2)) -∗ K ⟨⟩))
      ⊢ wp frame (wpE (defs₀ (F := F)) Variants.none c none) E (cc15__linear_kernel i arg1 harg1 arg2 harg2 arg3 harg3 arg4 harg4) K := by
  simp only [cc15__linear_kernel_eq_skeleton]; unfold cc15__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

/-! ## The pipeline's proof data -/

/-- The proof data of pipeline 15 on core `c`: the arrays as the region finds them (`V`); after the body at point `t`
    each input's buffer at its block and the output's at `out15_3` of the input blocks; the invariant is the scoped
    buffers no window stages and the generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = out15_3 (iblk15 V c 0 t) (iblk15 V c 1 t) (iblk15 V c 2 t) := by dsimp only [dat15]

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

/-- The body at any point: the inputs' memrefs hold their blocks, so `sound_kernel15` applies; the invariant and the
    core's `owes` pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ (grid15.coords t) _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation15 (c : Dev nD) : BodyObligation (dat15 (F := F) V c) (defs₀ (F := F)) Variants.none () Set.univ := fun t => by
  rw [bigSep_W15, bigSep_W15]
  exact sound_body15 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest15 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 15 over the thread state "every unscoped buffer whole at a valuation, the generator register at some state,
    nothing owed": entered from the buffers at `W₁`, left at `W₂`, for any family of proof data whose member 15 is
    `dat15` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg15 (hp : ∀ c, pdats 15 c = dat15 (fun c b => W₁ c b) c)
    (hF : ∀ c w, (dat15 (F := F) (fun c b => W₁ c b) c).arrAt w cfg15.N = W₂ c (Pipeline.arrRef spec15 w))
    (hrest : ∀ c (b : Ref sig .tc), b ∉ Finset.univ.image (Pipeline.arrRef spec15) → W₂ c b = W₁ c b) :
    Pipeline.RegionSeg (pcfgs (F := F)) adm pdats () defs₀ Variants.none L lv 15 where
  win := launch15.win.to₀
  block_pos := launch15.block_pos
  stage_whole := launch15.stage_whole
  K := PEmpty
  osem k := k.elim
  ho := Pipeline.OwnSemFacts.none _
  hbody c := by rw [hp c]; exact (body_obligation15 (fun c b => W₁ c b) c).loose
  hwaits := Pipeline.hwaits_of_owed_zero _ _ _ _ L lv 15 fun c _ => by rw [hp c]; rfl
  pre c := iprop(StableHlo.held (c : Thread nD τ) (Pipeline.ucRefs τ sig) (W₁ c) ∗ rest15 c)
  post c := iprop(StableHlo.held (c : Thread nD τ) (Pipeline.ucRefs τ sig) (W₂ c) ∗ rest15 c)
  X c := iprop(∃ r, prngReg c r)
  Y c := iprop(∃ r, prngReg c r)
  Z c := Pipeline.unscopedRest (Ix := Unit) (Name := ℕ) (U := UR sig nD τ) (Lvl := ℕ) spec15 c (fun b => W₁ c b)
  hentry c := by
    rw [Pipeline.ownSems0_none]
    have hq : ∀ w, (pdats 15 c).q w = fullShare := fun w => by rw [hp c]; rfl
    have hA : ∀ w, (pdats 15 c).A w = (fun b : Ref sig .tc => W₁ c b) (Pipeline.arrRef spec15 w) := fun w => by rw [hp c]; rfl
    have hsplit := Pipeline.arrays_of_unscopedBufs (p := 15) (pcfgs (F := F)) adm pdats launch15.win launch15.arr_whole c
      ((pdats 15 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 15 c).Φ 0 = Pipeline.ΦA spec15 c from by rw [hp c]; rfl]; unfold Pipeline.ΦA
    iintro ⟨Hp, -, Hr⟩
    isplitl [Hr]; · iexact Hr
    iexact Hp
  hout c := by
    rw [Pipeline.ownSems0_none, show (pdats 15 c).Φ (Fin.last _) = Pipeline.ΦA spec15 c from by rw [hp c]; rfl]; unfold Pipeline.ΦA
    iintro ⟨Hr, Hp⟩
    isplitl [Hp]; · iexact Hp
    isplitr; · iempintro
    iexact Hr
  hexit c := by
    have hq : ∀ w, (pdats 15 c).q w = fullShare := fun w => by rw [hp c]; rfl
    have hjoin := Pipeline.unscopedBufs_of_arrays (p := 15) (pcfgs (F := F)) adm (Ix := Unit) (Name := ℕ) (U := UR sig nD τ) (Lvl := ℕ)
      launch15.win launch15.arr_whole c pdats ((pdats 15 c).share_full hq)
      (fun b => W₁ c b) (fun b => W₂ c b) ((pdats 15 c).arrAt · cfg15.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Record

/-! ## The exit valuation as an update of the entry valuation at the result's buffer -/

section Update

variable (W₁ : Dev nD → Valuation τ sig (Elt F))

/-- A property of the four windows, checked window by window. -/
private theorem fin4_cases {P : Fin 4 → Prop} (h0 : P 0) (h1 : P 1) (h2 : P 2) (h3 : P 3) : ∀ w, P w
  | ⟨0, _⟩ => h0
  | ⟨1, _⟩ => h1
  | ⟨2, _⟩ => h2
  | ⟨3, _⟩ => h3

/-- When the exit valuation is the entry valuation updated at the result's buffer `main_v168` with what the pipeline's
    write-backs leave in it, every array of the region holds there what the pipeline leaves: an input's array is never
    written and is not the result's buffer; the result's array is the updated one. -/
theorem hF15_update (c : Dev nD) (x : Buf (Elt F) ((c : Thread nD τ).loc main_v168))
    (hx : x = (dat15 (F := F) (fun c b => W₁ c b) c).arrAt 3 cfg15.N) :
    ∀ w, (dat15 (F := F) (fun c b => W₁ c b) c).arrAt w cfg15.N = Function.update (W₁ c) main_v168 x (Pipeline.arrRef spec15 w) :=
  fin4_cases (P := fun w => (dat15 (F := F) (fun c b => W₁ c b) c).arrAt w cfg15.N = Function.update (W₁ c) main_v168 x (Pipeline.arrRef spec15 w))
    (((dat15 (F := F) (fun c b => W₁ c b) c).arrAt_in 0 rfl _).trans ((A_eq15 (fun c b => W₁ c b) c 0).trans (Function.update_of_ne (StableHlo.devRef_ne_of_ne (by decide)) _ _).symm))
    (((dat15 (F := F) (fun c b => W₁ c b) c).arrAt_in 1 rfl _).trans ((A_eq15 (fun c b => W₁ c b) c 1).trans (Function.update_of_ne (StableHlo.devRef_ne_of_ne (by decide)) _ _).symm))
    (((dat15 (F := F) (fun c b => W₁ c b) c).arrAt_in 2 rfl _).trans ((A_eq15 (fun c b => W₁ c b) c 2).trans (Function.update_of_ne (StableHlo.devRef_ne_of_ne (by decide)) _ _).symm))
    (hx.symm.trans (Function.update_self (β := fun b : DevRef τ sig => b.ty.Contents (Elt F)) _ _ _).symm)

/-- and every buffer that is no array of the region holds what it held at entry. -/
theorem hrest15_update (c : Dev nD) (x : Buf (Elt F) ((c : Thread nD τ).loc main_v168)) :
    ∀ b : Ref sig .tc, b ∉ Finset.univ.image (Pipeline.arrRef spec15) → Function.update (W₁ c) main_v168 x b = W₁ c b :=
  fun b hb => Function.update_of_ne (StableHlo.devRef_ne_of_ne fun e => hb (Finset.mem_image.mpr ⟨3, Finset.mem_univ _, e.symm⟩)) _ _

end Update

end Cert.Kernel.Hand

end
-- ==== Proof.KB.Chain.lean ====
/-
  The kernel's @main run through its sixteen regions with every array NAMED. The contents of the buffers between two
  items are built stage by stage: what region K leaves in its result arrays is the fold of its write-backs
  (`Dat.arrAt … N`) over the contents it was entered from, and those contents only depend on the earlier regions: the
  contents before region K read the regions' results only at items before it, so they are the same whether they are
  read off the stage-K table of results or off the final one. The result array `main_v168` ends at what the last region
  (the output projection) leaves in it.
-/
import proofs.«109725_j21638045237575_1_alg».proof.Proof.KB.Top
import proofs.«109725_j21638045237575_1_alg».proof.Proof.KB.Reg0
import proofs.«109725_j21638045237575_1_alg».proof.Proof.KB.Reg1Upd
import proofs.«109725_j21638045237575_1_alg».proof.Proof.KB.Reg2
import proofs.«109725_j21638045237575_1_alg».proof.Proof.KB.Reg3
import proofs.«109725_j21638045237575_1_alg».proof.Proof.KB.Reg4Upd
import proofs.«109725_j21638045237575_1_alg».proof.Proof.KB.Reg5
import proofs.«109725_j21638045237575_1_alg».proof.Proof.KB.Reg6
import proofs.«109725_j21638045237575_1_alg».proof.Proof.KB.Reg7Upd
import proofs.«109725_j21638045237575_1_alg».proof.Proof.KB.Reg8
import proofs.«109725_j21638045237575_1_alg».proof.Proof.KB.Reg9
import proofs.«109725_j21638045237575_1_alg».proof.Proof.KB.Reg10Upd
import proofs.«109725_j21638045237575_1_alg».proof.Proof.KB.Reg11
import proofs.«109725_j21638045237575_1_alg».proof.Proof.KB.Reg12
import proofs.«109725_j21638045237575_1_alg».proof.Proof.KB.Reg13Upd
import proofs.«109725_j21638045237575_1_alg».proof.Proof.KB.Reg14
import proofs.«109725_j21638045237575_1_alg».proof.Proof.KB.Reg15

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)
open Cert.Kernel Cert.Kernel.Gen

variable {F : FTy → Type} [FloatOps F]

/-! ## The contents before a region only read the earlier regions' results -/

section Congr
variable (m : (ℓ : Loc nD τ sig) → Buf (Elt F) ℓ) (o o' : Outs (F := F))

/-- The contents at boundary 2 agree for two tables of results that agree up to item 2. -/
theorem Vc2 (h : ∀ j, j ≤ 2 → o j = o' j) : V2 m o = V2 m o' := by
  funext c
  show Function.update (V1 m c) main_v34 (o 2 main_v34 c) = Function.update (V1 m c) main_v34 (o' 2 main_v34 c)
  rw [h 2 le_rfl]

/-- The contents at boundary 3 agree for two tables of results that agree up to item 3. -/
theorem Vc3 (h : ∀ j, j ≤ 3 → o j = o' j) : V3 m o = V3 m o' := by
  funext c
  exact congrArg (StableHlo.after hostOps1) (congrFun (Vc2 m o o' (fun j hj => h j (by omega))) c)

/-- The contents at boundary 4 agree for two tables of results that agree up to item 4. -/
theorem Vc4 (h : ∀ j, j ≤ 4 → o j = o' j) : V4 m o = V4 m o' := by
  funext c
  show Function.update (Function.update (V3 m o c) main_v54_0 (o 4 main_v54_0 c)) main_v54_1 (o 4 main_v54_1 c) = Function.update (Function.update (V3 m o' c) main_v54_0 (o' 4 main_v54_0 c)) main_v54_1 (o' 4 main_v54_1 c)
  rw [Vc3 m o o' (fun j hj => h j (by omega)), h 4 le_rfl]

/-- The contents at boundary 5 agree for two tables of results that agree up to item 5. -/
theorem Vc5 (h : ∀ j, j ≤ 5 → o j = o' j) : V5 m o = V5 m o' := by
  funext c
  exact congrArg (StableHlo.after hostOps2) (congrFun (Vc4 m o o' (fun j hj => h j (by omega))) c)

/-- The contents at boundary 6 agree for two tables of results that agree up to item 6. -/
theorem Vc6 (h : ∀ j, j ≤ 6 → o j = o' j) : V6 m o = V6 m o' := by
  funext c
  show Function.update (V5 m o c) main_v58 (o 6 main_v58 c) = Function.update (V5 m o' c) main_v58 (o' 6 main_v58 c)
  rw [Vc5 m o o' (fun j hj => h j (by omega)), h 6 le_rfl]

/-- The contents at boundary 7 agree for two tables of results that agree up to item 7. -/
theorem Vc7 (h : ∀ j, j ≤ 7 → o j = o' j) : V7 m o = V7 m o' := by
  funext c
  exact congrArg (StableHlo.after hostOps3) (congrFun (Vc6 m o o' (fun j hj => h j (by omega))) c)

/-- The contents at boundary 8 agree for two tables of results that agree up to item 8. -/
theorem Vc8 (h : ∀ j, j ≤ 8 → o j = o' j) : V8 m o = V8 m o' := by
  funext c
  show Function.update (V7 m o c) main_v61 (o 8 main_v61 c) = Function.update (V7 m o' c) main_v61 (o' 8 main_v61 c)
  rw [Vc7 m o o' (fun j hj => h j (by omega)), h 8 le_rfl]

/-- The contents at boundary 9 agree for two tables of results that agree up to item 9. -/
theorem Vc9 (h : ∀ j, j ≤ 9 → o j = o' j) : V9 m o = V9 m o' := by
  funext c
  exact congrArg (StableHlo.after hostOps4) (congrFun (Vc8 m o o' (fun j hj => h j (by omega))) c)

/-- The contents at boundary 10 agree for two tables of results that agree up to item 10. -/
theorem Vc10 (h : ∀ j, j ≤ 10 → o j = o' j) : V10 m o = V10 m o' := by
  funext c
  show Function.update (Function.update (V9 m o c) main_v81_0 (o 10 main_v81_0 c)) main_v81_1 (o 10 main_v81_1 c) = Function.update (Function.update (V9 m o' c) main_v81_0 (o' 10 main_v81_0 c)) main_v81_1 (o' 10 main_v81_1 c)
  rw [Vc9 m o o' (fun j hj => h j (by omega)), h 10 le_rfl]

/-- The contents at boundary 11 agree for two tables of results that agree up to item 11. -/
theorem Vc11 (h : ∀ j, j ≤ 11 → o j = o' j) : V11 m o = V11 m o' := by
  funext c
  exact congrArg (StableHlo.after hostOps5) (congrFun (Vc10 m o o' (fun j hj => h j (by omega))) c)

/-- The contents at boundary 12 agree for two tables of results that agree up to item 12. -/
theorem Vc12 (h : ∀ j, j ≤ 12 → o j = o' j) : V12 m o = V12 m o' := by
  funext c
  show Function.update (V11 m o c) main_v85 (o 12 main_v85 c) = Function.update (V11 m o' c) main_v85 (o' 12 main_v85 c)
  rw [Vc11 m o o' (fun j hj => h j (by omega)), h 12 le_rfl]

/-- The contents at boundary 13 agree for two tables of results that agree up to item 13. -/
theorem Vc13 (h : ∀ j, j ≤ 13 → o j = o' j) : V13 m o = V13 m o' := by
  funext c
  exact congrArg (StableHlo.after hostOps6) (congrFun (Vc12 m o o' (fun j hj => h j (by omega))) c)

/-- The contents at boundary 14 agree for two tables of results that agree up to item 14. -/
theorem Vc14 (h : ∀ j, j ≤ 14 → o j = o' j) : V14 m o = V14 m o' := by
  funext c
  show Function.update (V13 m o c) main_v88 (o 14 main_v88 c) = Function.update (V13 m o' c) main_v88 (o' 14 main_v88 c)
  rw [Vc13 m o o' (fun j hj => h j (by omega)), h 14 le_rfl]

/-- The contents at boundary 15 agree for two tables of results that agree up to item 15. -/
theorem Vc15 (h : ∀ j, j ≤ 15 → o j = o' j) : V15 m o = V15 m o' := by
  funext c
  exact congrArg (StableHlo.after hostOps7) (congrFun (Vc14 m o o' (fun j hj => h j (by omega))) c)

/-- The contents at boundary 16 agree for two tables of results that agree up to item 16. -/
theorem Vc16 (h : ∀ j, j ≤ 16 → o j = o' j) : V16 m o = V16 m o' := by
  funext c
  show Function.update (Function.update (V15 m o c) main_v108_0 (o 16 main_v108_0 c)) main_v108_1 (o 16 main_v108_1 c) = Function.update (Function.update (V15 m o' c) main_v108_0 (o' 16 main_v108_0 c)) main_v108_1 (o' 16 main_v108_1 c)
  rw [Vc15 m o o' (fun j hj => h j (by omega)), h 16 le_rfl]

/-- The contents at boundary 17 agree for two tables of results that agree up to item 17. -/
theorem Vc17 (h : ∀ j, j ≤ 17 → o j = o' j) : V17 m o = V17 m o' := by
  funext c
  exact congrArg (StableHlo.after hostOps8) (congrFun (Vc16 m o o' (fun j hj => h j (by omega))) c)

/-- The contents at boundary 18 agree for two tables of results that agree up to item 18. -/
theorem Vc18 (h : ∀ j, j ≤ 18 → o j = o' j) : V18 m o = V18 m o' := by
  funext c
  show Function.update (V17 m o c) main_v112 (o 18 main_v112 c) = Function.update (V17 m o' c) main_v112 (o' 18 main_v112 c)
  rw [Vc17 m o o' (fun j hj => h j (by omega)), h 18 le_rfl]

/-- The contents at boundary 19 agree for two tables of results that agree up to item 19. -/
theorem Vc19 (h : ∀ j, j ≤ 19 → o j = o' j) : V19 m o = V19 m o' := by
  funext c
  exact congrArg (StableHlo.after hostOps9) (congrFun (Vc18 m o o' (fun j hj => h j (by omega))) c)

/-- The contents at boundary 20 agree for two tables of results that agree up to item 20. -/
theorem Vc20 (h : ∀ j, j ≤ 20 → o j = o' j) : V20 m o = V20 m o' := by
  funext c
  show Function.update (V19 m o c) main_v115 (o 20 main_v115 c) = Function.update (V19 m o' c) main_v115 (o' 20 main_v115 c)
  rw [Vc19 m o o' (fun j hj => h j (by omega)), h 20 le_rfl]

/-- The contents at boundary 21 agree for two tables of results that agree up to item 21. -/
theorem Vc21 (h : ∀ j, j ≤ 21 → o j = o' j) : V21 m o = V21 m o' := by
  funext c
  exact congrArg (StableHlo.after hostOps10) (congrFun (Vc20 m o o' (fun j hj => h j (by omega))) c)

/-- The contents at boundary 22 agree for two tables of results that agree up to item 22. -/
theorem Vc22 (h : ∀ j, j ≤ 22 → o j = o' j) : V22 m o = V22 m o' := by
  funext c
  show Function.update (Function.update (V21 m o c) main_v135_0 (o 22 main_v135_0 c)) main_v135_1 (o 22 main_v135_1 c) = Function.update (Function.update (V21 m o' c) main_v135_0 (o' 22 main_v135_0 c)) main_v135_1 (o' 22 main_v135_1 c)
  rw [Vc21 m o o' (fun j hj => h j (by omega)), h 22 le_rfl]

/-- The contents at boundary 23 agree for two tables of results that agree up to item 23. -/
theorem Vc23 (h : ∀ j, j ≤ 23 → o j = o' j) : V23 m o = V23 m o' := by
  funext c
  exact congrArg (StableHlo.after hostOps11) (congrFun (Vc22 m o o' (fun j hj => h j (by omega))) c)

/-- The contents at boundary 24 agree for two tables of results that agree up to item 24. -/
theorem Vc24 (h : ∀ j, j ≤ 24 → o j = o' j) : V24 m o = V24 m o' := by
  funext c
  show Function.update (V23 m o c) main_v139 (o 24 main_v139 c) = Function.update (V23 m o' c) main_v139 (o' 24 main_v139 c)
  rw [Vc23 m o o' (fun j hj => h j (by omega)), h 24 le_rfl]

/-- The contents at boundary 25 agree for two tables of results that agree up to item 25. -/
theorem Vc25 (h : ∀ j, j ≤ 25 → o j = o' j) : V25 m o = V25 m o' := by
  funext c
  exact congrArg (StableHlo.after hostOps12) (congrFun (Vc24 m o o' (fun j hj => h j (by omega))) c)

/-- The contents at boundary 26 agree for two tables of results that agree up to item 26. -/
theorem Vc26 (h : ∀ j, j ≤ 26 → o j = o' j) : V26 m o = V26 m o' := by
  funext c
  show Function.update (V25 m o c) main_v142 (o 26 main_v142 c) = Function.update (V25 m o' c) main_v142 (o' 26 main_v142 c)
  rw [Vc25 m o o' (fun j hj => h j (by omega)), h 26 le_rfl]

/-- The contents at boundary 27 agree for two tables of results that agree up to item 27. -/
theorem Vc27 (h : ∀ j, j ≤ 27 → o j = o' j) : V27 m o = V27 m o' := by
  funext c
  exact congrArg (StableHlo.after hostOps13) (congrFun (Vc26 m o o' (fun j hj => h j (by omega))) c)

/-- The contents at boundary 28 agree for two tables of results that agree up to item 28. -/
theorem Vc28 (h : ∀ j, j ≤ 28 → o j = o' j) : V28 m o = V28 m o' := by
  funext c
  show Function.update (Function.update (V27 m o c) main_v162_0 (o 28 main_v162_0 c)) main_v162_1 (o 28 main_v162_1 c) = Function.update (Function.update (V27 m o' c) main_v162_0 (o' 28 main_v162_0 c)) main_v162_1 (o' 28 main_v162_1 c)
  rw [Vc27 m o o' (fun j hj => h j (by omega)), h 28 le_rfl]

/-- The contents at boundary 29 agree for two tables of results that agree up to item 29. -/
theorem Vc29 (h : ∀ j, j ≤ 29 → o j = o' j) : V29 m o = V29 m o' := by
  funext c
  exact congrArg (StableHlo.after hostOps14) (congrFun (Vc28 m o o' (fun j hj => h j (by omega))) c)

/-- The contents at boundary 30 agree for two tables of results that agree up to item 30. -/
theorem Vc30 (h : ∀ j, j ≤ 30 → o j = o' j) : V30 m o = V30 m o' := by
  funext c
  show Function.update (V29 m o c) main_v166 (o 30 main_v166 c) = Function.update (V29 m o' c) main_v166 (o' 30 main_v166 c)
  rw [Vc29 m o o' (fun j hj => h j (by omega)), h 30 le_rfl]

/-- The contents at boundary 31 agree for two tables of results that agree up to item 31. -/
theorem Vc31 (h : ∀ j, j ≤ 31 → o j = o' j) : V31 m o = V31 m o' := by
  funext c
  exact congrArg (StableHlo.after hostOps15) (congrFun (Vc30 m o o' (fun j hj => h j (by omega))) c)

end Congr

variable (m : (ℓ : Loc nD τ sig) → Buf (Elt F) ℓ)

/-! ## The regions' results, stage by stage -/

/-- Before any region: nothing is read off this. -/
def outsS0 : Outs (F := F) := fun _ r c => m ((c : Thread nD τ).loc r)

/-- The buffers' contents when region 0 is left: as it was entered, with main_v34 at what the region's write-backs leave. -/
def exit0 (c : Dev nD) : Valuation τ sig (Elt F) :=
  Function.update (V1 m c) main_v34 ((dat0 (F := F) (fun c b => V1 m c b) c).arrAt 3 cfg0.N)
/-- What the regions up to region 0 leave in their result arrays. -/
def outsS1 : Outs (F := F) := fun j r c => if j = 2 then exit0 m c r else outsS0 m j r c
/-- Stage 1 only adds item 2. -/
theorem outsS1_of_ne (j : ℕ) (hj : j ≠ 2) : outsS1 m j = outsS0 m j := by
  funext r c; exact if_neg hj
/-- Stage 1 at item 2. -/
theorem outsS1_at (r : Ref sig .tc) (c : Dev nD) : outsS1 m 2 r c = exit0 m c r := if_pos rfl

/-- The buffers' contents when region 1 is left: as it was entered, with main_v54_0 and main_v54_1 at what the region's write-backs leave. -/
def exit1 (c : Dev nD) : Valuation τ sig (Elt F) :=
  Function.update (Function.update (V3 m (outsS1 m) c) main_v54_0 ((dat1 (F := F) (fun c b => V3 m (outsS1 m) c b) c).arrAt 2 cfg1.N)) main_v54_1 ((dat1 (F := F) (fun c b => V3 m (outsS1 m) c b) c).arrAt 3 cfg1.N)
/-- What the regions up to region 1 leave in their result arrays. -/
def outsS2 : Outs (F := F) := fun j r c => if j = 4 then exit1 m c r else outsS1 m j r c
/-- Stage 2 only adds item 4. -/
theorem outsS2_of_ne (j : ℕ) (hj : j ≠ 4) : outsS2 m j = outsS1 m j := by
  funext r c; exact if_neg hj
/-- Stage 2 at item 4. -/
theorem outsS2_at (r : Ref sig .tc) (c : Dev nD) : outsS2 m 4 r c = exit1 m c r := if_pos rfl

/-- The buffers' contents when region 2 is left: as it was entered, with main_v58 at what the region's write-backs leave. -/
def exit2 (c : Dev nD) : Valuation τ sig (Elt F) :=
  Function.update (V5 m (outsS2 m) c) main_v58 ((dat2 (F := F) (fun c b => V5 m (outsS2 m) c b) c).arrAt 6 cfg2.N)
/-- What the regions up to region 2 leave in their result arrays. -/
def outsS3 : Outs (F := F) := fun j r c => if j = 6 then exit2 m c r else outsS2 m j r c
/-- Stage 3 only adds item 6. -/
theorem outsS3_of_ne (j : ℕ) (hj : j ≠ 6) : outsS3 m j = outsS2 m j := by
  funext r c; exact if_neg hj
/-- Stage 3 at item 6. -/
theorem outsS3_at (r : Ref sig .tc) (c : Dev nD) : outsS3 m 6 r c = exit2 m c r := if_pos rfl

/-- The buffers' contents when region 3 is left: as it was entered, with main_v61 at what the region's write-backs leave. -/
def exit3 (c : Dev nD) : Valuation τ sig (Elt F) :=
  Function.update (V7 m (outsS3 m) c) main_v61 ((dat3 (F := F) (fun c b => V7 m (outsS3 m) c b) c).arrAt 3 cfg3.N)
/-- What the regions up to region 3 leave in their result arrays. -/
def outsS4 : Outs (F := F) := fun j r c => if j = 8 then exit3 m c r else outsS3 m j r c
/-- Stage 4 only adds item 8. -/
theorem outsS4_of_ne (j : ℕ) (hj : j ≠ 8) : outsS4 m j = outsS3 m j := by
  funext r c; exact if_neg hj
/-- Stage 4 at item 8. -/
theorem outsS4_at (r : Ref sig .tc) (c : Dev nD) : outsS4 m 8 r c = exit3 m c r := if_pos rfl

/-- The buffers' contents when region 4 is left: as it was entered, with main_v81_0 and main_v81_1 at what the region's write-backs leave. -/
def exit4 (c : Dev nD) : Valuation τ sig (Elt F) :=
  Function.update (Function.update (V9 m (outsS4 m) c) main_v81_0 ((dat4 (F := F) (fun c b => V9 m (outsS4 m) c b) c).arrAt 2 cfg4.N)) main_v81_1 ((dat4 (F := F) (fun c b => V9 m (outsS4 m) c b) c).arrAt 3 cfg4.N)
/-- What the regions up to region 4 leave in their result arrays. -/
def outsS5 : Outs (F := F) := fun j r c => if j = 10 then exit4 m c r else outsS4 m j r c
/-- Stage 5 only adds item 10. -/
theorem outsS5_of_ne (j : ℕ) (hj : j ≠ 10) : outsS5 m j = outsS4 m j := by
  funext r c; exact if_neg hj
/-- Stage 5 at item 10. -/
theorem outsS5_at (r : Ref sig .tc) (c : Dev nD) : outsS5 m 10 r c = exit4 m c r := if_pos rfl

/-- The buffers' contents when region 5 is left: as it was entered, with main_v85 at what the region's write-backs leave. -/
def exit5 (c : Dev nD) : Valuation τ sig (Elt F) :=
  Function.update (V11 m (outsS5 m) c) main_v85 ((dat5 (F := F) (fun c b => V11 m (outsS5 m) c b) c).arrAt 6 cfg5.N)
/-- What the regions up to region 5 leave in their result arrays. -/
def outsS6 : Outs (F := F) := fun j r c => if j = 12 then exit5 m c r else outsS5 m j r c
/-- Stage 6 only adds item 12. -/
theorem outsS6_of_ne (j : ℕ) (hj : j ≠ 12) : outsS6 m j = outsS5 m j := by
  funext r c; exact if_neg hj
/-- Stage 6 at item 12. -/
theorem outsS6_at (r : Ref sig .tc) (c : Dev nD) : outsS6 m 12 r c = exit5 m c r := if_pos rfl

/-- The buffers' contents when region 6 is left: as it was entered, with main_v88 at what the region's write-backs leave. -/
def exit6 (c : Dev nD) : Valuation τ sig (Elt F) :=
  Function.update (V13 m (outsS6 m) c) main_v88 ((dat6 (F := F) (fun c b => V13 m (outsS6 m) c b) c).arrAt 3 cfg6.N)
/-- What the regions up to region 6 leave in their result arrays. -/
def outsS7 : Outs (F := F) := fun j r c => if j = 14 then exit6 m c r else outsS6 m j r c
/-- Stage 7 only adds item 14. -/
theorem outsS7_of_ne (j : ℕ) (hj : j ≠ 14) : outsS7 m j = outsS6 m j := by
  funext r c; exact if_neg hj
/-- Stage 7 at item 14. -/
theorem outsS7_at (r : Ref sig .tc) (c : Dev nD) : outsS7 m 14 r c = exit6 m c r := if_pos rfl

/-- The buffers' contents when region 7 is left: as it was entered, with main_v108_0 and main_v108_1 at what the region's write-backs leave. -/
def exit7 (c : Dev nD) : Valuation τ sig (Elt F) :=
  Function.update (Function.update (V15 m (outsS7 m) c) main_v108_0 ((dat7 (F := F) (fun c b => V15 m (outsS7 m) c b) c).arrAt 2 cfg7.N)) main_v108_1 ((dat7 (F := F) (fun c b => V15 m (outsS7 m) c b) c).arrAt 3 cfg7.N)
/-- What the regions up to region 7 leave in their result arrays. -/
def outsS8 : Outs (F := F) := fun j r c => if j = 16 then exit7 m c r else outsS7 m j r c
/-- Stage 8 only adds item 16. -/
theorem outsS8_of_ne (j : ℕ) (hj : j ≠ 16) : outsS8 m j = outsS7 m j := by
  funext r c; exact if_neg hj
/-- Stage 8 at item 16. -/
theorem outsS8_at (r : Ref sig .tc) (c : Dev nD) : outsS8 m 16 r c = exit7 m c r := if_pos rfl

/-- The buffers' contents when region 8 is left: as it was entered, with main_v112 at what the region's write-backs leave. -/
def exit8 (c : Dev nD) : Valuation τ sig (Elt F) :=
  Function.update (V17 m (outsS8 m) c) main_v112 ((dat8 (F := F) (fun c b => V17 m (outsS8 m) c b) c).arrAt 6 cfg8.N)
/-- What the regions up to region 8 leave in their result arrays. -/
def outsS9 : Outs (F := F) := fun j r c => if j = 18 then exit8 m c r else outsS8 m j r c
/-- Stage 9 only adds item 18. -/
theorem outsS9_of_ne (j : ℕ) (hj : j ≠ 18) : outsS9 m j = outsS8 m j := by
  funext r c; exact if_neg hj
/-- Stage 9 at item 18. -/
theorem outsS9_at (r : Ref sig .tc) (c : Dev nD) : outsS9 m 18 r c = exit8 m c r := if_pos rfl

/-- The buffers' contents when region 9 is left: as it was entered, with main_v115 at what the region's write-backs leave. -/
def exit9 (c : Dev nD) : Valuation τ sig (Elt F) :=
  Function.update (V19 m (outsS9 m) c) main_v115 ((dat9 (F := F) (fun c b => V19 m (outsS9 m) c b) c).arrAt 3 cfg9.N)
/-- What the regions up to region 9 leave in their result arrays. -/
def outsS10 : Outs (F := F) := fun j r c => if j = 20 then exit9 m c r else outsS9 m j r c
/-- Stage 10 only adds item 20. -/
theorem outsS10_of_ne (j : ℕ) (hj : j ≠ 20) : outsS10 m j = outsS9 m j := by
  funext r c; exact if_neg hj
/-- Stage 10 at item 20. -/
theorem outsS10_at (r : Ref sig .tc) (c : Dev nD) : outsS10 m 20 r c = exit9 m c r := if_pos rfl

/-- The buffers' contents when region 10 is left: as it was entered, with main_v135_0 and main_v135_1 at what the region's write-backs leave. -/
def exit10 (c : Dev nD) : Valuation τ sig (Elt F) :=
  Function.update (Function.update (V21 m (outsS10 m) c) main_v135_0 ((dat10 (F := F) (fun c b => V21 m (outsS10 m) c b) c).arrAt 2 cfg10.N)) main_v135_1 ((dat10 (F := F) (fun c b => V21 m (outsS10 m) c b) c).arrAt 3 cfg10.N)
/-- What the regions up to region 10 leave in their result arrays. -/
def outsS11 : Outs (F := F) := fun j r c => if j = 22 then exit10 m c r else outsS10 m j r c
/-- Stage 11 only adds item 22. -/
theorem outsS11_of_ne (j : ℕ) (hj : j ≠ 22) : outsS11 m j = outsS10 m j := by
  funext r c; exact if_neg hj
/-- Stage 11 at item 22. -/
theorem outsS11_at (r : Ref sig .tc) (c : Dev nD) : outsS11 m 22 r c = exit10 m c r := if_pos rfl

/-- The buffers' contents when region 11 is left: as it was entered, with main_v139 at what the region's write-backs leave. -/
def exit11 (c : Dev nD) : Valuation τ sig (Elt F) :=
  Function.update (V23 m (outsS11 m) c) main_v139 ((dat11 (F := F) (fun c b => V23 m (outsS11 m) c b) c).arrAt 6 cfg11.N)
/-- What the regions up to region 11 leave in their result arrays. -/
def outsS12 : Outs (F := F) := fun j r c => if j = 24 then exit11 m c r else outsS11 m j r c
/-- Stage 12 only adds item 24. -/
theorem outsS12_of_ne (j : ℕ) (hj : j ≠ 24) : outsS12 m j = outsS11 m j := by
  funext r c; exact if_neg hj
/-- Stage 12 at item 24. -/
theorem outsS12_at (r : Ref sig .tc) (c : Dev nD) : outsS12 m 24 r c = exit11 m c r := if_pos rfl

/-- The buffers' contents when region 12 is left: as it was entered, with main_v142 at what the region's write-backs leave. -/
def exit12 (c : Dev nD) : Valuation τ sig (Elt F) :=
  Function.update (V25 m (outsS12 m) c) main_v142 ((dat12 (F := F) (fun c b => V25 m (outsS12 m) c b) c).arrAt 3 cfg12.N)
/-- What the regions up to region 12 leave in their result arrays. -/
def outsS13 : Outs (F := F) := fun j r c => if j = 26 then exit12 m c r else outsS12 m j r c
/-- Stage 13 only adds item 26. -/
theorem outsS13_of_ne (j : ℕ) (hj : j ≠ 26) : outsS13 m j = outsS12 m j := by
  funext r c; exact if_neg hj
/-- Stage 13 at item 26. -/
theorem outsS13_at (r : Ref sig .tc) (c : Dev nD) : outsS13 m 26 r c = exit12 m c r := if_pos rfl

/-- The buffers' contents when region 13 is left: as it was entered, with main_v162_0 and main_v162_1 at what the region's write-backs leave. -/
def exit13 (c : Dev nD) : Valuation τ sig (Elt F) :=
  Function.update (Function.update (V27 m (outsS13 m) c) main_v162_0 ((dat13 (F := F) (fun c b => V27 m (outsS13 m) c b) c).arrAt 2 cfg13.N)) main_v162_1 ((dat13 (F := F) (fun c b => V27 m (outsS13 m) c b) c).arrAt 3 cfg13.N)
/-- What the regions up to region 13 leave in their result arrays. -/
def outsS14 : Outs (F := F) := fun j r c => if j = 28 then exit13 m c r else outsS13 m j r c
/-- Stage 14 only adds item 28. -/
theorem outsS14_of_ne (j : ℕ) (hj : j ≠ 28) : outsS14 m j = outsS13 m j := by
  funext r c; exact if_neg hj
/-- Stage 14 at item 28. -/
theorem outsS14_at (r : Ref sig .tc) (c : Dev nD) : outsS14 m 28 r c = exit13 m c r := if_pos rfl

/-- The buffers' contents when region 14 is left: as it was entered, with main_v166 at what the region's write-backs leave. -/
def exit14 (c : Dev nD) : Valuation τ sig (Elt F) :=
  Function.update (V29 m (outsS14 m) c) main_v166 ((dat14 (F := F) (fun c b => V29 m (outsS14 m) c b) c).arrAt 6 cfg14.N)
/-- What the regions up to region 14 leave in their result arrays. -/
def outsS15 : Outs (F := F) := fun j r c => if j = 30 then exit14 m c r else outsS14 m j r c
/-- Stage 15 only adds item 30. -/
theorem outsS15_of_ne (j : ℕ) (hj : j ≠ 30) : outsS15 m j = outsS14 m j := by
  funext r c; exact if_neg hj
/-- Stage 15 at item 30. -/
theorem outsS15_at (r : Ref sig .tc) (c : Dev nD) : outsS15 m 30 r c = exit14 m c r := if_pos rfl

/-- The buffers' contents when region 15 is left: as it was entered, with main_v168 at what the region's write-backs leave. -/
def exit15 (c : Dev nD) : Valuation τ sig (Elt F) :=
  Function.update (V31 m (outsS15 m) c) main_v168 ((dat15 (F := F) (fun c b => V31 m (outsS15 m) c b) c).arrAt 3 cfg15.N)
/-- What the regions up to region 15 leave in their result arrays. -/
def outsS16 : Outs (F := F) := fun j r c => if j = 32 then exit15 m c r else outsS15 m j r c
/-- Stage 16 only adds item 32. -/
theorem outsS16_of_ne (j : ℕ) (hj : j ≠ 32) : outsS16 m j = outsS15 m j := by
  funext r c; exact if_neg hj
/-- Stage 16 at item 32. -/
theorem outsS16_at (r : Ref sig .tc) (c : Dev nD) : outsS16 m 32 r c = exit15 m c r := if_pos rfl

/-! ## The final table agrees with every stage on the items that stage has -/

/-- An item up to 3 is read the same off the final table and off stage 1. -/
theorem stable1 (j : ℕ) (hj : j ≤ 3) : outsS16 m j = outsS1 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)).trans
    ((outsS8_of_ne m j (by omega)).trans
    ((outsS7_of_ne m j (by omega)).trans
    ((outsS6_of_ne m j (by omega)).trans
    ((outsS5_of_ne m j (by omega)).trans
    ((outsS4_of_ne m j (by omega)).trans
    ((outsS3_of_ne m j (by omega)).trans
    ((outsS2_of_ne m j (by omega))))))))))))))))

/-- An item up to 5 is read the same off the final table and off stage 2. -/
theorem stable2 (j : ℕ) (hj : j ≤ 5) : outsS16 m j = outsS2 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)).trans
    ((outsS8_of_ne m j (by omega)).trans
    ((outsS7_of_ne m j (by omega)).trans
    ((outsS6_of_ne m j (by omega)).trans
    ((outsS5_of_ne m j (by omega)).trans
    ((outsS4_of_ne m j (by omega)).trans
    ((outsS3_of_ne m j (by omega)))))))))))))))

/-- An item up to 7 is read the same off the final table and off stage 3. -/
theorem stable3 (j : ℕ) (hj : j ≤ 7) : outsS16 m j = outsS3 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)).trans
    ((outsS8_of_ne m j (by omega)).trans
    ((outsS7_of_ne m j (by omega)).trans
    ((outsS6_of_ne m j (by omega)).trans
    ((outsS5_of_ne m j (by omega)).trans
    ((outsS4_of_ne m j (by omega))))))))))))))

/-- An item up to 9 is read the same off the final table and off stage 4. -/
theorem stable4 (j : ℕ) (hj : j ≤ 9) : outsS16 m j = outsS4 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)).trans
    ((outsS8_of_ne m j (by omega)).trans
    ((outsS7_of_ne m j (by omega)).trans
    ((outsS6_of_ne m j (by omega)).trans
    ((outsS5_of_ne m j (by omega)))))))))))))

/-- An item up to 11 is read the same off the final table and off stage 5. -/
theorem stable5 (j : ℕ) (hj : j ≤ 11) : outsS16 m j = outsS5 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)).trans
    ((outsS8_of_ne m j (by omega)).trans
    ((outsS7_of_ne m j (by omega)).trans
    ((outsS6_of_ne m j (by omega))))))))))))

/-- An item up to 13 is read the same off the final table and off stage 6. -/
theorem stable6 (j : ℕ) (hj : j ≤ 13) : outsS16 m j = outsS6 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)).trans
    ((outsS8_of_ne m j (by omega)).trans
    ((outsS7_of_ne m j (by omega)))))))))))

/-- An item up to 15 is read the same off the final table and off stage 7. -/
theorem stable7 (j : ℕ) (hj : j ≤ 15) : outsS16 m j = outsS7 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)).trans
    ((outsS8_of_ne m j (by omega))))))))))

/-- An item up to 17 is read the same off the final table and off stage 8. -/
theorem stable8 (j : ℕ) (hj : j ≤ 17) : outsS16 m j = outsS8 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)))))))))

/-- An item up to 19 is read the same off the final table and off stage 9. -/
theorem stable9 (j : ℕ) (hj : j ≤ 19) : outsS16 m j = outsS9 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega))))))))

/-- An item up to 21 is read the same off the final table and off stage 10. -/
theorem stable10 (j : ℕ) (hj : j ≤ 21) : outsS16 m j = outsS10 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)))))))

/-- An item up to 23 is read the same off the final table and off stage 11. -/
theorem stable11 (j : ℕ) (hj : j ≤ 23) : outsS16 m j = outsS11 m j :=
  (outsS16_of_ne m j (by omega)).trans
    ((outsS15_of_ne m j (by omega)).trans
    ((outsS14_of_ne m j (by omega)).trans
    ((outsS13_of_ne m j (by omega)).trans
    ((outsS12_of_ne m j (by omega))))))

/-- An item up to 25 is read the same off the final table and off stage 12. -/
theorem stable12 (j : ℕ) (hj : j ≤ 25) : outsS16 m j = outsS12 m j :=
  (outsS16_of_ne m j (by omega)).trans
    ((outsS15_of_ne m j (by omega)).trans
    ((outsS14_of_ne m j (by omega)).trans
    ((outsS13_of_ne m j (by omega)))))

/-- An item up to 27 is read the same off the final table and off stage 13. -/
theorem stable13 (j : ℕ) (hj : j ≤ 27) : outsS16 m j = outsS13 m j :=
  (outsS16_of_ne m j (by omega)).trans
    ((outsS15_of_ne m j (by omega)).trans
    ((outsS14_of_ne m j (by omega))))

/-- An item up to 29 is read the same off the final table and off stage 14. -/
theorem stable14 (j : ℕ) (hj : j ≤ 29) : outsS16 m j = outsS14 m j :=
  (outsS16_of_ne m j (by omega)).trans
    ((outsS15_of_ne m j (by omega)))

/-- An item up to 31 is read the same off the final table and off stage 15. -/
theorem stable15 (j : ℕ) (hj : j ≤ 31) : outsS16 m j = outsS15 m j :=
  (outsS16_of_ne m j (by omega))

/-! ## What the final table holds at each region's result arrays -/

/-- After region 0, `main_v34` holds the fold of the region's write-backs over the contents it was entered from. -/
theorem outs_main_v34 (c : Dev nD) : outsS16 m 2 main_v34 c = (dat0 (F := F) (fun c b => V1 m c b) c).arrAt 3 cfg0.N := by
  rw [stable1 m 2 (by omega)]
  rw [outsS1_at]
  show Function.update (V1 m c) main_v34 _ main_v34 = _
  exact Function.update_self _ _ _

/-- After region 1, `main_v54_0` holds the fold of the region's write-backs over the contents it was entered from. -/
theorem outs_main_v54_0 (c : Dev nD) : outsS16 m 4 main_v54_0 c = (dat1 (F := F) (fun c b => V3 m (outsS16 m) c b) c).arrAt 2 cfg1.N := by
  rw [stable2 m 4 (by omega)]
  rw [Vc3 m (outsS16 m) (outsS1 m) (fun j hj => stable1 m j (by omega))]
  rw [outsS2_at]
  exact update1_at_2 (V3 m (outsS1 m)) c _ _

/-- After region 1, `main_v54_1` holds the fold of the region's write-backs over the contents it was entered from. -/
theorem outs_main_v54_1 (c : Dev nD) : outsS16 m 4 main_v54_1 c = (dat1 (F := F) (fun c b => V3 m (outsS16 m) c b) c).arrAt 3 cfg1.N := by
  rw [stable2 m 4 (by omega)]
  rw [Vc3 m (outsS16 m) (outsS1 m) (fun j hj => stable1 m j (by omega))]
  rw [outsS2_at]
  exact update1_at_3 (V3 m (outsS1 m)) c _ _

/-- After region 2, `main_v58` holds the fold of the region's write-backs over the contents it was entered from. -/
theorem outs_main_v58 (c : Dev nD) : outsS16 m 6 main_v58 c = (dat2 (F := F) (fun c b => V5 m (outsS16 m) c b) c).arrAt 6 cfg2.N := by
  rw [stable3 m 6 (by omega)]
  rw [Vc5 m (outsS16 m) (outsS2 m) (fun j hj => stable2 m j (by omega))]
  rw [outsS3_at]
  show Function.update (V5 m (outsS2 m) c) main_v58 _ main_v58 = _
  exact Function.update_self _ _ _

/-- After region 3, `main_v61` holds the fold of the region's write-backs over the contents it was entered from. -/
theorem outs_main_v61 (c : Dev nD) : outsS16 m 8 main_v61 c = (dat3 (F := F) (fun c b => V7 m (outsS16 m) c b) c).arrAt 3 cfg3.N := by
  rw [stable4 m 8 (by omega)]
  rw [Vc7 m (outsS16 m) (outsS3 m) (fun j hj => stable3 m j (by omega))]
  rw [outsS4_at]
  show Function.update (V7 m (outsS3 m) c) main_v61 _ main_v61 = _
  exact Function.update_self _ _ _

/-- After region 4, `main_v81_0` holds the fold of the region's write-backs over the contents it was entered from. -/
theorem outs_main_v81_0 (c : Dev nD) : outsS16 m 10 main_v81_0 c = (dat4 (F := F) (fun c b => V9 m (outsS16 m) c b) c).arrAt 2 cfg4.N := by
  rw [stable5 m 10 (by omega)]
  rw [Vc9 m (outsS16 m) (outsS4 m) (fun j hj => stable4 m j (by omega))]
  rw [outsS5_at]
  exact update4_at_2 (V9 m (outsS4 m)) c _ _

/-- After region 4, `main_v81_1` holds the fold of the region's write-backs over the contents it was entered from. -/
theorem outs_main_v81_1 (c : Dev nD) : outsS16 m 10 main_v81_1 c = (dat4 (F := F) (fun c b => V9 m (outsS16 m) c b) c).arrAt 3 cfg4.N := by
  rw [stable5 m 10 (by omega)]
  rw [Vc9 m (outsS16 m) (outsS4 m) (fun j hj => stable4 m j (by omega))]
  rw [outsS5_at]
  exact update4_at_3 (V9 m (outsS4 m)) c _ _

/-- After region 5, `main_v85` holds the fold of the region's write-backs over the contents it was entered from. -/
theorem outs_main_v85 (c : Dev nD) : outsS16 m 12 main_v85 c = (dat5 (F := F) (fun c b => V11 m (outsS16 m) c b) c).arrAt 6 cfg5.N := by
  rw [stable6 m 12 (by omega)]
  rw [Vc11 m (outsS16 m) (outsS5 m) (fun j hj => stable5 m j (by omega))]
  rw [outsS6_at]
  show Function.update (V11 m (outsS5 m) c) main_v85 _ main_v85 = _
  exact Function.update_self _ _ _

/-- After region 6, `main_v88` holds the fold of the region's write-backs over the contents it was entered from. -/
theorem outs_main_v88 (c : Dev nD) : outsS16 m 14 main_v88 c = (dat6 (F := F) (fun c b => V13 m (outsS16 m) c b) c).arrAt 3 cfg6.N := by
  rw [stable7 m 14 (by omega)]
  rw [Vc13 m (outsS16 m) (outsS6 m) (fun j hj => stable6 m j (by omega))]
  rw [outsS7_at]
  show Function.update (V13 m (outsS6 m) c) main_v88 _ main_v88 = _
  exact Function.update_self _ _ _

/-- After region 7, `main_v108_0` holds the fold of the region's write-backs over the contents it was entered from. -/
theorem outs_main_v108_0 (c : Dev nD) : outsS16 m 16 main_v108_0 c = (dat7 (F := F) (fun c b => V15 m (outsS16 m) c b) c).arrAt 2 cfg7.N := by
  rw [stable8 m 16 (by omega)]
  rw [Vc15 m (outsS16 m) (outsS7 m) (fun j hj => stable7 m j (by omega))]
  rw [outsS8_at]
  exact update7_at_2 (V15 m (outsS7 m)) c _ _

/-- After region 7, `main_v108_1` holds the fold of the region's write-backs over the contents it was entered from. -/
theorem outs_main_v108_1 (c : Dev nD) : outsS16 m 16 main_v108_1 c = (dat7 (F := F) (fun c b => V15 m (outsS16 m) c b) c).arrAt 3 cfg7.N := by
  rw [stable8 m 16 (by omega)]
  rw [Vc15 m (outsS16 m) (outsS7 m) (fun j hj => stable7 m j (by omega))]
  rw [outsS8_at]
  exact update7_at_3 (V15 m (outsS7 m)) c _ _

/-- After region 8, `main_v112` holds the fold of the region's write-backs over the contents it was entered from. -/
theorem outs_main_v112 (c : Dev nD) : outsS16 m 18 main_v112 c = (dat8 (F := F) (fun c b => V17 m (outsS16 m) c b) c).arrAt 6 cfg8.N := by
  rw [stable9 m 18 (by omega)]
  rw [Vc17 m (outsS16 m) (outsS8 m) (fun j hj => stable8 m j (by omega))]
  rw [outsS9_at]
  show Function.update (V17 m (outsS8 m) c) main_v112 _ main_v112 = _
  exact Function.update_self _ _ _

/-- After region 9, `main_v115` holds the fold of the region's write-backs over the contents it was entered from. -/
theorem outs_main_v115 (c : Dev nD) : outsS16 m 20 main_v115 c = (dat9 (F := F) (fun c b => V19 m (outsS16 m) c b) c).arrAt 3 cfg9.N := by
  rw [stable10 m 20 (by omega)]
  rw [Vc19 m (outsS16 m) (outsS9 m) (fun j hj => stable9 m j (by omega))]
  rw [outsS10_at]
  show Function.update (V19 m (outsS9 m) c) main_v115 _ main_v115 = _
  exact Function.update_self _ _ _

/-- After region 10, `main_v135_0` holds the fold of the region's write-backs over the contents it was entered from. -/
theorem outs_main_v135_0 (c : Dev nD) : outsS16 m 22 main_v135_0 c = (dat10 (F := F) (fun c b => V21 m (outsS16 m) c b) c).arrAt 2 cfg10.N := by
  rw [stable11 m 22 (by omega)]
  rw [Vc21 m (outsS16 m) (outsS10 m) (fun j hj => stable10 m j (by omega))]
  rw [outsS11_at]
  exact update10_at_2 (V21 m (outsS10 m)) c _ _

/-- After region 10, `main_v135_1` holds the fold of the region's write-backs over the contents it was entered from. -/
theorem outs_main_v135_1 (c : Dev nD) : outsS16 m 22 main_v135_1 c = (dat10 (F := F) (fun c b => V21 m (outsS16 m) c b) c).arrAt 3 cfg10.N := by
  rw [stable11 m 22 (by omega)]
  rw [Vc21 m (outsS16 m) (outsS10 m) (fun j hj => stable10 m j (by omega))]
  rw [outsS11_at]
  exact update10_at_3 (V21 m (outsS10 m)) c _ _

/-- After region 11, `main_v139` holds the fold of the region's write-backs over the contents it was entered from. -/
theorem outs_main_v139 (c : Dev nD) : outsS16 m 24 main_v139 c = (dat11 (F := F) (fun c b => V23 m (outsS16 m) c b) c).arrAt 6 cfg11.N := by
  rw [stable12 m 24 (by omega)]
  rw [Vc23 m (outsS16 m) (outsS11 m) (fun j hj => stable11 m j (by omega))]
  rw [outsS12_at]
  show Function.update (V23 m (outsS11 m) c) main_v139 _ main_v139 = _
  exact Function.update_self _ _ _

/-- After region 12, `main_v142` holds the fold of the region's write-backs over the contents it was entered from. -/
theorem outs_main_v142 (c : Dev nD) : outsS16 m 26 main_v142 c = (dat12 (F := F) (fun c b => V25 m (outsS16 m) c b) c).arrAt 3 cfg12.N := by
  rw [stable13 m 26 (by omega)]
  rw [Vc25 m (outsS16 m) (outsS12 m) (fun j hj => stable12 m j (by omega))]
  rw [outsS13_at]
  show Function.update (V25 m (outsS12 m) c) main_v142 _ main_v142 = _
  exact Function.update_self _ _ _

/-- After region 13, `main_v162_0` holds the fold of the region's write-backs over the contents it was entered from. -/
theorem outs_main_v162_0 (c : Dev nD) : outsS16 m 28 main_v162_0 c = (dat13 (F := F) (fun c b => V27 m (outsS16 m) c b) c).arrAt 2 cfg13.N := by
  rw [stable14 m 28 (by omega)]
  rw [Vc27 m (outsS16 m) (outsS13 m) (fun j hj => stable13 m j (by omega))]
  rw [outsS14_at]
  exact update13_at_2 (V27 m (outsS13 m)) c _ _

/-- After region 13, `main_v162_1` holds the fold of the region's write-backs over the contents it was entered from. -/
theorem outs_main_v162_1 (c : Dev nD) : outsS16 m 28 main_v162_1 c = (dat13 (F := F) (fun c b => V27 m (outsS16 m) c b) c).arrAt 3 cfg13.N := by
  rw [stable14 m 28 (by omega)]
  rw [Vc27 m (outsS16 m) (outsS13 m) (fun j hj => stable13 m j (by omega))]
  rw [outsS14_at]
  exact update13_at_3 (V27 m (outsS13 m)) c _ _

/-- After region 14, `main_v166` holds the fold of the region's write-backs over the contents it was entered from. -/
theorem outs_main_v166 (c : Dev nD) : outsS16 m 30 main_v166 c = (dat14 (F := F) (fun c b => V29 m (outsS16 m) c b) c).arrAt 6 cfg14.N := by
  rw [stable15 m 30 (by omega)]
  rw [Vc29 m (outsS16 m) (outsS14 m) (fun j hj => stable14 m j (by omega))]
  rw [outsS15_at]
  show Function.update (V29 m (outsS14 m) c) main_v166 _ main_v166 = _
  exact Function.update_self _ _ _

/-- After region 15, `main_v168` holds the fold of the region's write-backs over the contents it was entered from. -/
theorem outs_main_v168 (c : Dev nD) : outsS16 m 32 main_v168 c = (dat15 (F := F) (fun c b => V31 m (outsS16 m) c b) c).arrAt 3 cfg15.N := by
  rw [Vc31 m (outsS16 m) (outsS15 m) (fun j hj => stable15 m j (by omega))]
  rw [outsS16_at]
  show Function.update (V31 m (outsS15 m) c) main_v168 _ main_v168 = _
  exact Function.update_self _ _ _

/-! ## The proof data of every region, each at the contents it is entered from -/

/-- Region K's proof data at its entry contents: a literal match on the region's number. -/
def pdats : (p : Fin 16) → (c : Dev nD) → Dat τ (Elt F) Unit ℕ (UR sig nD τ) ℕ (cfgs p) c
  | ⟨0, _⟩ => fun c => dat0 (F := F) (fun c b => V1 m c b) c
  | ⟨1, _⟩ => fun c => dat1 (F := F) (fun c b => V3 m (outsS16 m) c b) c
  | ⟨2, _⟩ => fun c => dat2 (F := F) (fun c b => V5 m (outsS16 m) c b) c
  | ⟨3, _⟩ => fun c => dat3 (F := F) (fun c b => V7 m (outsS16 m) c b) c
  | ⟨4, _⟩ => fun c => dat4 (F := F) (fun c b => V9 m (outsS16 m) c b) c
  | ⟨5, _⟩ => fun c => dat5 (F := F) (fun c b => V11 m (outsS16 m) c b) c
  | ⟨6, _⟩ => fun c => dat6 (F := F) (fun c b => V13 m (outsS16 m) c b) c
  | ⟨7, _⟩ => fun c => dat7 (F := F) (fun c b => V15 m (outsS16 m) c b) c
  | ⟨8, _⟩ => fun c => dat8 (F := F) (fun c b => V17 m (outsS16 m) c b) c
  | ⟨9, _⟩ => fun c => dat9 (F := F) (fun c b => V19 m (outsS16 m) c b) c
  | ⟨10, _⟩ => fun c => dat10 (F := F) (fun c b => V21 m (outsS16 m) c b) c
  | ⟨11, _⟩ => fun c => dat11 (F := F) (fun c b => V23 m (outsS16 m) c b) c
  | ⟨12, _⟩ => fun c => dat12 (F := F) (fun c b => V25 m (outsS16 m) c b) c
  | ⟨13, _⟩ => fun c => dat13 (F := F) (fun c b => V27 m (outsS16 m) c b) c
  | ⟨14, _⟩ => fun c => dat14 (F := F) (fun c b => V29 m (outsS16 m) c b) c
  | ⟨15, _⟩ => fun c => dat15 (F := F) (fun c b => V31 m (outsS16 m) c b) c
  | ⟨n + 16, h⟩ => absurd h (by omega)

/-! ## The regions as segments of @main -/

/-- Region 0 between the contents before it and after it. -/
def R0 : RegionSeg (pcfgs (F := F)) adm (pdats m) () defs₀ Variants.none (fun _ => (∅ : Finset Unit)) (fun _ _ => (0 : ℕ)) 0 :=
  reg0 (fun _ => (∅ : Finset Unit)) (fun _ _ => (0 : ℕ)) (pdats m) (V1 m) (V2 m (outsS16 m)) (fun _ => rfl)
    (fun c => hF0_update (V1 m) c _ (outs_main_v34 m c))
    (fun c => hrest0_update (V1 m) c _)

/-- Region 1 between the contents before it and after it. -/
def R1 : RegionSeg (pcfgs (F := F)) adm (pdats m) () defs₀ Variants.none (fun _ => (∅ : Finset Unit)) (fun _ _ => (0 : ℕ)) 1 :=
  reg1 (fun _ => (∅ : Finset Unit)) (fun _ _ => (0 : ℕ)) (pdats m) (V3 m (outsS16 m)) (V4 m (outsS16 m)) (fun _ => rfl)
    (fun c => hF1_update (V3 m (outsS16 m)) c _ _ (outs_main_v54_0 m c) (outs_main_v54_1 m c))
    (fun c => hrest1_update (V3 m (outsS16 m)) c _ _)

/-- Region 2 between the contents before it and after it. -/
def R2 : RegionSeg (pcfgs (F := F)) adm (pdats m) () defs₀ Variants.none (fun _ => (∅ : Finset Unit)) (fun _ _ => (0 : ℕ)) 2 :=
  reg2 (fun _ => (∅ : Finset Unit)) (fun _ _ => (0 : ℕ)) (pdats m) (V5 m (outsS16 m)) (V6 m (outsS16 m)) (fun _ => rfl)
    (fun c => hF2_update (V5 m (outsS16 m)) c _ (outs_main_v58 m c))
    (fun c => hrest2_update (V5 m (outsS16 m)) c _)

/-- Region 3 between the contents before it and after it. -/
def R3 : RegionSeg (pcfgs (F := F)) adm (pdats m) () defs₀ Variants.none (fun _ => (∅ : Finset Unit)) (fun _ _ => (0 : ℕ)) 3 :=
  reg3 (fun _ => (∅ : Finset Unit)) (fun _ _ => (0 : ℕ)) (pdats m) (V7 m (outsS16 m)) (V8 m (outsS16 m)) (fun _ => rfl)
    (fun c => hF3_update (V7 m (outsS16 m)) c _ (outs_main_v61 m c))
    (fun c => hrest3_update (V7 m (outsS16 m)) c _)

/-- Region 4 between the contents before it and after it. -/
def R4 : RegionSeg (pcfgs (F := F)) adm (pdats m) () defs₀ Variants.none (fun _ => (∅ : Finset Unit)) (fun _ _ => (0 : ℕ)) 4 :=
  reg4 (fun _ => (∅ : Finset Unit)) (fun _ _ => (0 : ℕ)) (pdats m) (V9 m (outsS16 m)) (V10 m (outsS16 m)) (fun _ => rfl)
    (fun c => hF4_update (V9 m (outsS16 m)) c _ _ (outs_main_v81_0 m c) (outs_main_v81_1 m c))
    (fun c => hrest4_update (V9 m (outsS16 m)) c _ _)

/-- Region 5 between the contents before it and after it. -/
def R5 : RegionSeg (pcfgs (F := F)) adm (pdats m) () defs₀ Variants.none (fun _ => (∅ : Finset Unit)) (fun _ _ => (0 : ℕ)) 5 :=
  reg5 (fun _ => (∅ : Finset Unit)) (fun _ _ => (0 : ℕ)) (pdats m) (V11 m (outsS16 m)) (V12 m (outsS16 m)) (fun _ => rfl)
    (fun c => hF5_update (V11 m (outsS16 m)) c _ (outs_main_v85 m c))
    (fun c => hrest5_update (V11 m (outsS16 m)) c _)

/-- Region 6 between the contents before it and after it. -/
def R6 : RegionSeg (pcfgs (F := F)) adm (pdats m) () defs₀ Variants.none (fun _ => (∅ : Finset Unit)) (fun _ _ => (0 : ℕ)) 6 :=
  reg6 (fun _ => (∅ : Finset Unit)) (fun _ _ => (0 : ℕ)) (pdats m) (V13 m (outsS16 m)) (V14 m (outsS16 m)) (fun _ => rfl)
    (fun c => hF6_update (V13 m (outsS16 m)) c _ (outs_main_v88 m c))
    (fun c => hrest6_update (V13 m (outsS16 m)) c _)

/-- Region 7 between the contents before it and after it. -/
def R7 : RegionSeg (pcfgs (F := F)) adm (pdats m) () defs₀ Variants.none (fun _ => (∅ : Finset Unit)) (fun _ _ => (0 : ℕ)) 7 :=
  reg7 (fun _ => (∅ : Finset Unit)) (fun _ _ => (0 : ℕ)) (pdats m) (V15 m (outsS16 m)) (V16 m (outsS16 m)) (fun _ => rfl)
    (fun c => hF7_update (V15 m (outsS16 m)) c _ _ (outs_main_v108_0 m c) (outs_main_v108_1 m c))
    (fun c => hrest7_update (V15 m (outsS16 m)) c _ _)

/-- Region 8 between the contents before it and after it. -/
def R8 : RegionSeg (pcfgs (F := F)) adm (pdats m) () defs₀ Variants.none (fun _ => (∅ : Finset Unit)) (fun _ _ => (0 : ℕ)) 8 :=
  reg8 (fun _ => (∅ : Finset Unit)) (fun _ _ => (0 : ℕ)) (pdats m) (V17 m (outsS16 m)) (V18 m (outsS16 m)) (fun _ => rfl)
    (fun c => hF8_update (V17 m (outsS16 m)) c _ (outs_main_v112 m c))
    (fun c => hrest8_update (V17 m (outsS16 m)) c _)

/-- Region 9 between the contents before it and after it. -/
def R9 : RegionSeg (pcfgs (F := F)) adm (pdats m) () defs₀ Variants.none (fun _ => (∅ : Finset Unit)) (fun _ _ => (0 : ℕ)) 9 :=
  reg9 (fun _ => (∅ : Finset Unit)) (fun _ _ => (0 : ℕ)) (pdats m) (V19 m (outsS16 m)) (V20 m (outsS16 m)) (fun _ => rfl)
    (fun c => hF9_update (V19 m (outsS16 m)) c _ (outs_main_v115 m c))
    (fun c => hrest9_update (V19 m (outsS16 m)) c _)

/-- Region 10 between the contents before it and after it. -/
def R10 : RegionSeg (pcfgs (F := F)) adm (pdats m) () defs₀ Variants.none (fun _ => (∅ : Finset Unit)) (fun _ _ => (0 : ℕ)) 10 :=
  reg10 (fun _ => (∅ : Finset Unit)) (fun _ _ => (0 : ℕ)) (pdats m) (V21 m (outsS16 m)) (V22 m (outsS16 m)) (fun _ => rfl)
    (fun c => hF10_update (V21 m (outsS16 m)) c _ _ (outs_main_v135_0 m c) (outs_main_v135_1 m c))
    (fun c => hrest10_update (V21 m (outsS16 m)) c _ _)

/-- Region 11 between the contents before it and after it. -/
def R11 : RegionSeg (pcfgs (F := F)) adm (pdats m) () defs₀ Variants.none (fun _ => (∅ : Finset Unit)) (fun _ _ => (0 : ℕ)) 11 :=
  reg11 (fun _ => (∅ : Finset Unit)) (fun _ _ => (0 : ℕ)) (pdats m) (V23 m (outsS16 m)) (V24 m (outsS16 m)) (fun _ => rfl)
    (fun c => hF11_update (V23 m (outsS16 m)) c _ (outs_main_v139 m c))
    (fun c => hrest11_update (V23 m (outsS16 m)) c _)

/-- Region 12 between the contents before it and after it. -/
def R12 : RegionSeg (pcfgs (F := F)) adm (pdats m) () defs₀ Variants.none (fun _ => (∅ : Finset Unit)) (fun _ _ => (0 : ℕ)) 12 :=
  reg12 (fun _ => (∅ : Finset Unit)) (fun _ _ => (0 : ℕ)) (pdats m) (V25 m (outsS16 m)) (V26 m (outsS16 m)) (fun _ => rfl)
    (fun c => hF12_update (V25 m (outsS16 m)) c _ (outs_main_v142 m c))
    (fun c => hrest12_update (V25 m (outsS16 m)) c _)

/-- Region 13 between the contents before it and after it. -/
def R13 : RegionSeg (pcfgs (F := F)) adm (pdats m) () defs₀ Variants.none (fun _ => (∅ : Finset Unit)) (fun _ _ => (0 : ℕ)) 13 :=
  reg13 (fun _ => (∅ : Finset Unit)) (fun _ _ => (0 : ℕ)) (pdats m) (V27 m (outsS16 m)) (V28 m (outsS16 m)) (fun _ => rfl)
    (fun c => hF13_update (V27 m (outsS16 m)) c _ _ (outs_main_v162_0 m c) (outs_main_v162_1 m c))
    (fun c => hrest13_update (V27 m (outsS16 m)) c _ _)

/-- Region 14 between the contents before it and after it. -/
def R14 : RegionSeg (pcfgs (F := F)) adm (pdats m) () defs₀ Variants.none (fun _ => (∅ : Finset Unit)) (fun _ _ => (0 : ℕ)) 14 :=
  reg14 (fun _ => (∅ : Finset Unit)) (fun _ _ => (0 : ℕ)) (pdats m) (V29 m (outsS16 m)) (V30 m (outsS16 m)) (fun _ => rfl)
    (fun c => hF14_update (V29 m (outsS16 m)) c _ (outs_main_v166 m c))
    (fun c => hrest14_update (V29 m (outsS16 m)) c _)

/-- Region 15 between the contents before it and after it. -/
def R15 : RegionSeg (pcfgs (F := F)) adm (pdats m) () defs₀ Variants.none (fun _ => (∅ : Finset Unit)) (fun _ _ => (0 : ℕ)) 15 :=
  reg15 (fun _ => (∅ : Finset Unit)) (fun _ _ => (0 : ℕ)) (pdats m) (V31 m (outsS16 m)) (V32 m (outsS16 m)) (fun _ => rfl)
    (fun c => hF15_update (V31 m (outsS16 m)) c _ (outs_main_v168 m c))
    (fun c => hrest15_update (V31 m (outsS16 m)) c _)

/-! ## The run -/

/-- Every weakly fair execution of @main terminates without a fault; the result array ends at the fold of the last
    region's write-backs and every argument array as launched. -/
theorem run (ρ : Dev nD → PrngReg) :
    θ_run defs (onTc (τ := τ) (main (F := F))) ⟨m, fun _ => 0, ρ⟩ (fun r => ∀ c : Dev nD,
      r.2.mem ((c.tc : Thread nD τ).loc main_v168) = (dat15 (F := F) (fun c b => V31 m (outsS16 m) c b) c).arrAt 3 cfg15.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine (θ_run defs _ _).mono (fun r h c => ?_)
    (run_top m ρ (outsS16 m) (pdats m)
      (R0 m) (fun _ => .rfl) (fun _ => .rfl)
      (R1 m) (fun _ => .rfl) (fun _ => .rfl)
      (R2 m) (fun _ => .rfl) (fun _ => .rfl)
      (R3 m) (fun _ => .rfl) (fun _ => .rfl)
      (R4 m) (fun _ => .rfl) (fun _ => .rfl)
      (R5 m) (fun _ => .rfl) (fun _ => .rfl)
      (R6 m) (fun _ => .rfl) (fun _ => .rfl)
      (R7 m) (fun _ => .rfl) (fun _ => .rfl)
      (R8 m) (fun _ => .rfl) (fun _ => .rfl)
      (R9 m) (fun _ => .rfl) (fun _ => .rfl)
      (R10 m) (fun _ => .rfl) (fun _ => .rfl)
      (R11 m) (fun _ => .rfl) (fun _ => .rfl)
      (R12 m) (fun _ => .rfl) (fun _ => .rfl)
      (R13 m) (fun _ => .rfl) (fun _ => .rfl)
      (R14 m) (fun _ => .rfl) (fun _ => .rfl)
      (R15 m) (fun _ => .rfl) (fun _ => .rfl))
  exact ⟨(h c).1.trans (outs_main_v168 m c), (h c).2⟩

end Cert.Kernel.Hand

end
-- ==== Proof.KI.RunCond.lean ====
/-
  The idealized kernel's @main as a chain of host stretches and sixteen kernel regions, run with its RESULT named:
  the statement and proof of the conditional frame of this program, with one more conjunct in the post — the result
  array `main_v168` read off the last valuation, where it holds what the last region (the output projection) leaves.
-/
import proofs.«109725_j21638045237575_1_alg».proof.Proof.Gen.KernelIdeal.Regions

set_option maxRecDepth 1920

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ) (outs : Outs (F := F))

/-- After the last region the result array holds what that region leaves in it. -/
theorem V32_main_v168 (c : Dev nD) : V32 m outs c main_v168 = outs 32 main_v168 c := by
  simp only [V32]; exact Function.update_self _ _ _

set_option backward.isDefEq.respectTransparency.types false in
/-- The run of @main with its result named. Given, for each of the sixteen kernel regions, a segment record entered from
    the buffer contents before it and left at the contents after it, every weakly fair execution of @main from memory `m`
    terminates without a fault; the final memory holds the result array at what the last region leaves in it
    (`outs 32 main_v168`) and every argument array as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 16) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 17 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE16 : ∀ c : Dev nD, E 16 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V27 m outs c) ∗ E 13 c) ⊢ R13.pre c)
    (hpost13 : ∀ c : Dev nD, R13.post c ⊢ iprop(StableHlo.held (c : Thread nD τ) (Pipeline.ucRefs τ sig) (V28 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V29 m outs c) ∗ E 14 c) ⊢ R14.pre c)
    (hpost14 : ∀ c : Dev nD, R14.post c ⊢ iprop(StableHlo.held (c : Thread nD τ) (Pipeline.ucRefs τ sig) (V30 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V31 m outs c) ∗ E 15 c) ⊢ R15.pre c)
    (hpost15 : ∀ c : Dev nD, R15.post c ⊢ iprop(StableHlo.held (c : Thread nD τ) (Pipeline.ucRefs τ sig) (V32 m outs c) ∗ E 16 c)) :
    θ_run defs (onTc (τ := τ) (main (F := F))) ⟨m, fun _ => 0, ρ⟩ (fun r => ∀ c : Dev nD,
      r.2.mem ((c.tc : Thread nD τ).loc main_v168) = outs 32 main_v168 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15)
    (fun c Q => by
      rewrite [main_chain c, Seg.run_eq_chain,
        show (segs m outs 𝒱₀ L lv E ι pdats R0 R1 R2 R3 R4 R5 R6 R7 R8 R9 R10 R11 R12 R13 R14 R15 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V32 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, hpre14 c, hpost14 c, hpre15 c, (hpost15 c).trans (sep_mono .rfl (hE16 c))⟩)
    (hinit := ?_) (QY := fun c s => s.mem ((c.tc : Thread nD τ).loc main_v168) = outs 32 main_v168 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V32 m outs c) s') $$ [Hh HSI]
    · isplitl [Hh] <;> iassumption
    icases Hr with ⟨%h, HSI⟩
    imodintro
    isplitr
    · ipureintro
      exact ⟨(h (Proc.devRef .tc main_v168) (Finset.mem_filter.mpr ⟨StableHlo.devRef_mem_tcRefs main_v168, by decide⟩)).trans (V32_main_v168 m outs c),
        (h (Proc.devRef .tc main_arg0) (Finset.mem_filter.mpr ⟨StableHlo.devRef_mem_tcRefs main_arg0, by decide⟩)).trans (V32_main_arg0 m outs c),
        (h (Proc.devRef .tc main_arg1) (Finset.mem_filter.mpr ⟨StableHlo.devRef_mem_tcRefs main_arg1, by decide⟩)).trans (V32_main_arg1 m outs c),
        (h (Proc.devRef .tc main_arg2) (Finset.mem_filter.mpr ⟨StableHlo.devRef_mem_tcRefs main_arg2, by decide⟩)).trans (V32_main_arg2 m outs c),
        (h (Proc.devRef .tc main_arg3) (Finset.mem_filter.mpr ⟨StableHlo.devRef_mem_tcRefs main_arg3, by decide⟩)).trans (V32_main_arg3 m outs c),
        (h (Proc.devRef .tc main_arg4) (Finset.mem_filter.mpr ⟨StableHlo.devRef_mem_tcRefs main_arg4, by decide⟩)).trans (V32_main_arg4 m outs c),
        (h (Proc.devRef .tc main_arg5) (Finset.mem_filter.mpr ⟨StableHlo.devRef_mem_tcRefs main_arg5, by decide⟩)).trans (V32_main_arg5 m outs c),
        (h (Proc.devRef .tc main_arg6) (Finset.mem_filter.mpr ⟨StableHlo.devRef_mem_tcRefs main_arg6, by decide⟩)).trans (V32_main_arg6 m outs c),
        (h (Proc.devRef .tc main_arg7) (Finset.mem_filter.mpr ⟨StableHlo.devRef_mem_tcRefs main_arg7, by decide⟩)).trans (V32_main_arg7 m outs c),
        (h (Proc.devRef .tc main_arg8) (Finset.mem_filter.mpr ⟨StableHlo.devRef_mem_tcRefs main_arg8, by decide⟩)).trans (V32_main_arg8 m outs c),
        (h (Proc.devRef .tc main_arg9) (Finset.mem_filter.mpr ⟨StableHlo.devRef_mem_tcRefs main_arg9, by decide⟩)).trans (V32_main_arg9 m outs c),
        (h (Proc.devRef .tc main_arg10) (Finset.mem_filter.mpr ⟨StableHlo.devRef_mem_tcRefs main_arg10, by decide⟩)).trans (V32_main_arg10 m outs c),
        (h (Proc.devRef .tc main_arg11) (Finset.mem_filter.mpr ⟨StableHlo.devRef_mem_tcRefs main_arg11, by decide⟩)).trans (V32_main_arg11 m outs c),
        (h (Proc.devRef .tc main_arg12) (Finset.mem_filter.mpr ⟨StableHlo.devRef_mem_tcRefs main_arg12, by decide⟩)).trans (V32_main_arg12 m outs c),
        (h (Proc.devRef .tc main_arg13) (Finset.mem_filter.mpr ⟨StableHlo.devRef_mem_tcRefs main_arg13, by decide⟩)).trans (V32_main_arg13 m outs c),
        (h (Proc.devRef .tc main_arg14) (Finset.mem_filter.mpr ⟨StableHlo.devRef_mem_tcRefs main_arg14, by decide⟩)).trans (V32_main_arg14 m outs c),
        (h (Proc.devRef .tc main_arg15) (Finset.mem_filter.mpr ⟨StableHlo.devRef_mem_tcRefs main_arg15, by decide⟩)).trans (V32_main_arg15 m outs c),
        (h (Proc.devRef .tc main_arg16) (Finset.mem_filter.mpr ⟨StableHlo.devRef_mem_tcRefs main_arg16, by decide⟩)).trans (V32_main_arg16 m outs c),
        (h (Proc.devRef .tc main_arg17) (Finset.mem_filter.mpr ⟨StableHlo.devRef_mem_tcRefs main_arg17, by decide⟩)).trans (V32_main_arg17 m outs c),
        (h (Proc.devRef .tc main_arg18) (Finset.mem_filter.mpr ⟨StableHlo.devRef_mem_tcRefs main_arg18, by decide⟩)).trans (V32_main_arg18 m outs c),
        (h (Proc.devRef .tc main_arg19) (Finset.mem_filter.mpr ⟨StableHlo.devRef_mem_tcRefs main_arg19, by decide⟩)).trans (V32_main_arg19 m outs c),
        (h (Proc.devRef .tc main_arg20) (Finset.mem_filter.mpr ⟨StableHlo.devRef_mem_tcRefs main_arg20, by decide⟩)).trans (V32_main_arg20 m outs c),
        (h (Proc.devRef .tc main_arg21) (Finset.mem_filter.mpr ⟨StableHlo.devRef_mem_tcRefs main_arg21, by decide⟩)).trans (V32_main_arg21 m outs c),
        (h (Proc.devRef .tc main_arg22) (Finset.mem_filter.mpr ⟨StableHlo.devRef_mem_tcRefs main_arg22, by decide⟩)).trans (V32_main_arg22 m outs c),
        (h (Proc.devRef .tc main_arg23) (Finset.mem_filter.mpr ⟨StableHlo.devRef_mem_tcRefs main_arg23, by decide⟩)).trans (V32_main_arg23 m outs c)⟩
    · iexact HSI

end Cert.KernelIdeal.Hand

end
-- ==== Proof.KI.Top.lean ====
/-
  The idealized kernel's run from its sixteen region records, with the launch settled: the pipeline library's own
  algebra, no level assigned, nothing owed at launch, and beside the buffers between two items only the core's
  generator register and its (empty) dues. What is left to supply is, per region, its record entered from the buffer
  contents before it and left at the contents after it.
-/
import proofs.«109725_j21638045237575_1_alg».proof.Proof.KI.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)
open Cert.KernelIdeal Cert.KernelIdeal.Gen

variable {F : FTy → Type} [FloatOps F]

local notation "𝕄" => MT nD τ sig Unit (Elt F) ℕ (UR sig nD τ) ℕ

/-- What rides beside the buffers between two items of @main: the core's generator register at some state, and its
    dues, at nothing. -/
abbrev Rr (c : Dev nD) : sProp 𝕄 :=
  iprop((∃ r, prngReg c r) ∗ ∃ W, owes (c : Thread nD τ) (0 : CellTallies nD τ sig Unit) W)

variable (m : (ℓ : Loc nD τ sig) → Buf (Elt F) ℓ) (ρ : Dev nD → PrngReg) (outs : Outs (F := F))

set_option backward.isDefEq.respectTransparency.types false in
/-- The run of @main from the sixteen region records. -/
theorem run_top
    (pdats : (p : Fin 16) → (c : Dev nD) → Dat τ (Elt F) Unit ℕ (UR sig nD τ) ℕ (cfgs p) c)
    (R0 : RegionSeg (pcfgs (F := F)) adm pdats () defs₀ Variants.none (fun _ => (∅ : Finset Unit)) (fun _ _ => (0 : ℕ)) 0)
    (hpre0 : ∀ c : Dev nD, iprop(StableHlo.held (c : Thread nD τ) (Pipeline.ucRefs τ sig) (V1 m c) ∗ Rr (F := F) c) ⊢ R0.pre c)
    (hpost0 : ∀ c : Dev nD, R0.post c ⊢ iprop(StableHlo.held (c : Thread nD τ) (Pipeline.ucRefs τ sig) (V2 m outs c) ∗ Rr (F := F) c))
    (R1 : RegionSeg (pcfgs (F := F)) adm pdats () defs₀ Variants.none (fun _ => (∅ : Finset Unit)) (fun _ _ => (0 : ℕ)) 1)
    (hpre1 : ∀ c : Dev nD, iprop(StableHlo.held (c : Thread nD τ) (Pipeline.ucRefs τ sig) (V3 m outs c) ∗ Rr (F := F) c) ⊢ R1.pre c)
    (hpost1 : ∀ c : Dev nD, R1.post c ⊢ iprop(StableHlo.held (c : Thread nD τ) (Pipeline.ucRefs τ sig) (V4 m outs c) ∗ Rr (F := F) c))
    (R2 : RegionSeg (pcfgs (F := F)) adm pdats () defs₀ Variants.none (fun _ => (∅ : Finset Unit)) (fun _ _ => (0 : ℕ)) 2)
    (hpre2 : ∀ c : Dev nD, iprop(StableHlo.held (c : Thread nD τ) (Pipeline.ucRefs τ sig) (V5 m outs c) ∗ Rr (F := F) c) ⊢ R2.pre c)
    (hpost2 : ∀ c : Dev nD, R2.post c ⊢ iprop(StableHlo.held (c : Thread nD τ) (Pipeline.ucRefs τ sig) (V6 m outs c) ∗ Rr (F := F) c))
    (R3 : RegionSeg (pcfgs (F := F)) adm pdats () defs₀ Variants.none (fun _ => (∅ : Finset Unit)) (fun _ _ => (0 : ℕ)) 3)
    (hpre3 : ∀ c : Dev nD, iprop(StableHlo.held (c : Thread nD τ) (Pipeline.ucRefs τ sig) (V7 m outs c) ∗ Rr (F := F) c) ⊢ R3.pre c)
    (hpost3 : ∀ c : Dev nD, R3.post c ⊢ iprop(StableHlo.held (c : Thread nD τ) (Pipeline.ucRefs τ sig) (V8 m outs c) ∗ Rr (F := F) c))
    (R4 : RegionSeg (pcfgs (F := F)) adm pdats () defs₀ Variants.none (fun _ => (∅ : Finset Unit)) (fun _ _ => (0 : ℕ)) 4)
    (hpre4 : ∀ c : Dev nD, iprop(StableHlo.held (c : Thread nD τ) (Pipeline.ucRefs τ sig) (V9 m outs c) ∗ Rr (F := F) c) ⊢ R4.pre c)
    (hpost4 : ∀ c : Dev nD, R4.post c ⊢ iprop(StableHlo.held (c : Thread nD τ) (Pipeline.ucRefs τ sig) (V10 m outs c) ∗ Rr (F := F) c))
    (R5 : RegionSeg (pcfgs (F := F)) adm pdats () defs₀ Variants.none (fun _ => (∅ : Finset Unit)) (fun _ _ => (0 : ℕ)) 5)
    (hpre5 : ∀ c : Dev nD, iprop(StableHlo.held (c : Thread nD τ) (Pipeline.ucRefs τ sig) (V11 m outs c) ∗ Rr (F := F) c) ⊢ R5.pre c)
    (hpost5 : ∀ c : Dev nD, R5.post c ⊢ iprop(StableHlo.held (c : Thread nD τ) (Pipeline.ucRefs τ sig) (V12 m outs c) ∗ Rr (F := F) c))
    (R6 : RegionSeg (pcfgs (F := F)) adm pdats () defs₀ Variants.none (fun _ => (∅ : Finset Unit)) (fun _ _ => (0 : ℕ)) 6)
    (hpre6 : ∀ c : Dev nD, iprop(StableHlo.held (c : Thread nD τ) (Pipeline.ucRefs τ sig) (V13 m outs c) ∗ Rr (F := F) c) ⊢ R6.pre c)
    (hpost6 : ∀ c : Dev nD, R6.post c ⊢ iprop(StableHlo.held (c : Thread nD τ) (Pipeline.ucRefs τ sig) (V14 m outs c) ∗ Rr (F := F) c))
    (R7 : RegionSeg (pcfgs (F := F)) adm pdats () defs₀ Variants.none (fun _ => (∅ : Finset Unit)) (fun _ _ => (0 : ℕ)) 7)
    (hpre7 : ∀ c : Dev nD, iprop(StableHlo.held (c : Thread nD τ) (Pipeline.ucRefs τ sig) (V15 m outs c) ∗ Rr (F := F) c) ⊢ R7.pre c)
    (hpost7 : ∀ c : Dev nD, R7.post c ⊢ iprop(StableHlo.held (c : Thread nD τ) (Pipeline.ucRefs τ sig) (V16 m outs c) ∗ Rr (F := F) c))
    (R8 : RegionSeg (pcfgs (F := F)) adm pdats () defs₀ Variants.none (fun _ => (∅ : Finset Unit)) (fun _ _ => (0 : ℕ)) 8)
    (hpre8 : ∀ c : Dev nD, iprop(StableHlo.held (c : Thread nD τ) (Pipeline.ucRefs τ sig) (V17 m outs c) ∗ Rr (F := F) c) ⊢ R8.pre c)
    (hpost8 : ∀ c : Dev nD, R8.post c ⊢ iprop(StableHlo.held (c : Thread nD τ) (Pipeline.ucRefs τ sig) (V18 m outs c) ∗ Rr (F := F) c))
    (R9 : RegionSeg (pcfgs (F := F)) adm pdats () defs₀ Variants.none (fun _ => (∅ : Finset Unit)) (fun _ _ => (0 : ℕ)) 9)
    (hpre9 : ∀ c : Dev nD, iprop(StableHlo.held (c : Thread nD τ) (Pipeline.ucRefs τ sig) (V19 m outs c) ∗ Rr (F := F) c) ⊢ R9.pre c)
    (hpost9 : ∀ c : Dev nD, R9.post c ⊢ iprop(StableHlo.held (c : Thread nD τ) (Pipeline.ucRefs τ sig) (V20 m outs c) ∗ Rr (F := F) c))
    (R10 : RegionSeg (pcfgs (F := F)) adm pdats () defs₀ Variants.none (fun _ => (∅ : Finset Unit)) (fun _ _ => (0 : ℕ)) 10)
    (hpre10 : ∀ c : Dev nD, iprop(StableHlo.held (c : Thread nD τ) (Pipeline.ucRefs τ sig) (V21 m outs c) ∗ Rr (F := F) c) ⊢ R10.pre c)
    (hpost10 : ∀ c : Dev nD, R10.post c ⊢ iprop(StableHlo.held (c : Thread nD τ) (Pipeline.ucRefs τ sig) (V22 m outs c) ∗ Rr (F := F) c))
    (R11 : RegionSeg (pcfgs (F := F)) adm pdats () defs₀ Variants.none (fun _ => (∅ : Finset Unit)) (fun _ _ => (0 : ℕ)) 11)
    (hpre11 : ∀ c : Dev nD, iprop(StableHlo.held (c : Thread nD τ) (Pipeline.ucRefs τ sig) (V23 m outs c) ∗ Rr (F := F) c) ⊢ R11.pre c)
    (hpost11 : ∀ c : Dev nD, R11.post c ⊢ iprop(StableHlo.held (c : Thread nD τ) (Pipeline.ucRefs τ sig) (V24 m outs c) ∗ Rr (F := F) c))
    (R12 : RegionSeg (pcfgs (F := F)) adm pdats () defs₀ Variants.none (fun _ => (∅ : Finset Unit)) (fun _ _ => (0 : ℕ)) 12)
    (hpre12 : ∀ c : Dev nD, iprop(StableHlo.held (c : Thread nD τ) (Pipeline.ucRefs τ sig) (V25 m outs c) ∗ Rr (F := F) c) ⊢ R12.pre c)
    (hpost12 : ∀ c : Dev nD, R12.post c ⊢ iprop(StableHlo.held (c : Thread nD τ) (Pipeline.ucRefs τ sig) (V26 m outs c) ∗ Rr (F := F) c))
    (R13 : RegionSeg (pcfgs (F := F)) adm pdats () defs₀ Variants.none (fun _ => (∅ : Finset Unit)) (fun _ _ => (0 : ℕ)) 13)
    (hpre13 : ∀ c : Dev nD, iprop(StableHlo.held (c : Thread nD τ) (Pipeline.ucRefs τ sig) (V27 m outs c) ∗ Rr (F := F) c) ⊢ R13.pre c)
    (hpost13 : ∀ c : Dev nD, R13.post c ⊢ iprop(StableHlo.held (c : Thread nD τ) (Pipeline.ucRefs τ sig) (V28 m outs c) ∗ Rr (F := F) c))
    (R14 : RegionSeg (pcfgs (F := F)) adm pdats () defs₀ Variants.none (fun _ => (∅ : Finset Unit)) (fun _ _ => (0 : ℕ)) 14)
    (hpre14 : ∀ c : Dev nD, iprop(StableHlo.held (c : Thread nD τ) (Pipeline.ucRefs τ sig) (V29 m outs c) ∗ Rr (F := F) c) ⊢ R14.pre c)
    (hpost14 : ∀ c : Dev nD, R14.post c ⊢ iprop(StableHlo.held (c : Thread nD τ) (Pipeline.ucRefs τ sig) (V30 m outs c) ∗ Rr (F := F) c))
    (R15 : RegionSeg (pcfgs (F := F)) adm pdats () defs₀ Variants.none (fun _ => (∅ : Finset Unit)) (fun _ _ => (0 : ℕ)) 15)
    (hpre15 : ∀ c : Dev nD, iprop(StableHlo.held (c : Thread nD τ) (Pipeline.ucRefs τ sig) (V31 m outs c) ∗ Rr (F := F) c) ⊢ R15.pre c)
    (hpost15 : ∀ c : Dev nD, R15.post c ⊢ iprop(StableHlo.held (c : Thread nD τ) (Pipeline.ucRefs τ sig) (V32 m outs c) ∗ Rr (F := F) c)) :
    θ_run defs (onTc (τ := τ) (main (F := F))) ⟨m, fun _ => 0, ρ⟩ (fun r => ∀ c : Dev nD,
      r.2.mem ((c.tc : Thread nD τ).loc main_v168) = outs 32 main_v168 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine run_cond m emb₁ () Variants.none (fun _ => (∅ : Finset Unit)) (fun _ _ => (0 : ℕ)) (fun _ _ => rfl) ρ outs pdats
    (O₀ := 0) (G := fun _ => iprop(emp))
    (u₀ := initOf (Pipeline.cells cfgs cellOf_inj) (Pipeline.launchToks cfgs cellOf_inj))
    (hu₀ := ?_) (E := fun _ c => Rr (F := F) c) (hE0 := ?_) (hE16 := ?_)
    R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12 R13 hpre13 hpost13 R14 hpre14 hpost14 R15 hpre15 hpost15
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have h : ∀ c : Dev nD, (iprop(unscopedSems0 c ∗ owes (c : Thread nD τ) ((0 : Dev nD → CellTallies nD τ sig Unit) c) ∅
          ∗ Pipeline.launchCred (0 : Dev nD → CellTallies nD τ sig Unit) c ∗ prngReg c (ρ c) ∗ emp) : sProp 𝕄) ⊢ Rr (F := F) c := fun c => by
      iintro ⟨-, HO, -, Hp, -⟩
      isplitl [Hp]; · iexists _; iexact Hp
      iexists ∅; iexact HO
    iintro ⟨H, -⟩
    have hm : (bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ emp) : sProp 𝕄)
        ⊢ bigSep Finset.univ fun c : Dev nD => Rr (F := F) c := bigSep_mono fun c _ => h c
    ihave H' := hm $$ H
    imodintro
    iexact H'
  · intro c
    iintro ⟨-, HO⟩
    iexact HO

end Cert.KernelIdeal.Hand

end
-- ==== Proof.KI.Reg0.lean ====
/-
  Region 0 of the idealized kernel's @main: the linear kernel y = x·W + bias at widths 6 → 32, over a grid of
  ten row tiles of 10000 rows. Its four windows are the row tile of x (fetched at every point), the weight matrix
  and the bias row (whole, fetched once: their block index never moves), and the row tile of the result (written
  back at every point). The body reads the three input blocks whole and stores one value over the whole output
  block, so what a point leaves in the output's staging buffer is a pure function of the three input blocks
  (`out0_3`), and the inputs' buffers are left as found.

  Stated here, at any float model `F` and at a PARAMETER `V` (the core's buffer contents when the region is
  entered): each window's block at a point (`iblk0`), the body's triple (`sound_kernel0`), the pipeline's proof
  data (`dat0`), the body obligation (`body_obligation0`), and the region as a segment record (`reg0`) for any
  family of proof data whose member 0 is `dat0`, entered from every unscoped buffer at `W₁` and left at `W₂`, where
  `W₂` holds at each of the region's arrays what the pipeline's write-backs leave and elsewhere what `W₁` held.
-/
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the block kept from the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): where the window is not
    fetched its block index has not moved, so the block kept from the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): where the window is not
    fetched its block index has not moved, so the block kept from the point before is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S10000x6 := Rect.unit (s := S10000x6) ![0, 0] S10000x6.size inb_S10000x6_S10000x6_0_0
abbrev r0_w : Rect S6x32 := Rect.unit (s := S6x32) ![0, 0] S6x32.size inb_S6x32_S6x32_0_0
abbrev r0_b : Rect S1x32 := Rect.unit (s := S1x32) ![0, 0] S1x32.size inb_S1x32_S1x32_0_0
abbrev r0_o : Rect S10000x32 := Rect.unit (s := S10000x32) ![0, 0] S10000x32.size inb_S10000x32_S10000x32_0_0

/-! ## What the body leaves in the output window's buffer -/

/-- Window 3's staging buffer after the body, from the input windows' blocks: its one store, of the payload
    x·W + bias computed from the three blocks read whole. -/
def out0_3 (x0 : Vec F S10000x6 .f32) (x1 : Vec F S6x32 .f32) (x2 : Vec F S1x32 .f32) : Vec F S10000x32 .f32 :=
  View.canon [⟨r0_o, k0_pay1 (View.ld x0 r0_x) (View.ld x1 r0_w) (View.ld x2 r0_b)⟩]

/-- The one store is over the whole buffer, so it covers it. -/
theorem cover0_3 (p0 : Vec F S10000x32 .f32) (y : S10000x32.Idx) :
    ∃ pc ∈ ([⟨r0_o, p0⟩] : List (View.Piece (Elt F) S10000x32 .f32)), y ∈ pc.1.set :=
  View.cover_of_tiled [⟨r0_o, p0⟩] S10000x32.size (by rfl) y

/-! ## The body's triple -/

set_option maxHeartbeats 1000000 in
/-- The kernel body on whole staging memrefs, the inputs' at read contents `x0 x1 x2` and the output's at anything,
    runs to the continuation holding the inputs' as they were and the output's at `out0_3` of the inputs'. -/
theorem sound_kernel0 (c : Dev nD) (E : Set ℕ) (i : grid0.Coords) (arg1 : Memref sig .tc .vmem S10000x6 .f32) (harg1 : arg1.IsWhole) (arg2 : Memref sig .tc .vmem S6x32 .f32) (harg2 : arg2.IsWhole) (arg3 : Memref sig .tc .vmem S1x32 .f32) (harg3 : arg3.IsWhole) (arg4 : Memref sig .tc .vmem S10000x32 .f32) (harg4 : arg4.IsWhole)
    (x0 : Vec F S10000x6 .f32) (x1 : Vec F S6x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant is the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest0 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 0 over the thread state "every unscoped buffer whole at a valuation, the generator register at some state,
    nothing owed": entered from the buffers at `W₁`, left at `W₂`, for any family of proof data whose member 0 is
    `dat0` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg0 (hp : ∀ c, pdats 0 c = dat0 (fun c b => W₁ c b) c)
    (hF : ∀ c w, (dat0 (F := F) (fun c b => W₁ c b) c).arrAt w cfg0.N = W₂ c (Pipeline.arrRef spec0 w))
    (hrest : ∀ c (b : Ref sig .tc), b ∉ Finset.univ.image (Pipeline.arrRef spec0) → W₂ c b = W₁ c b) :
    Pipeline.RegionSeg (pcfgs (F := F)) adm pdats () defs₀ Variants.none L lv 0 where
  win := launch0.win.to₀
  block_pos := launch0.block_pos
  stage_whole := launch0.stage_whole
  K := PEmpty
  osem k := k.elim
  ho := Pipeline.OwnSemFacts.none _
  hbody c := by rw [hp c]; exact (body_obligation0 (fun c b => W₁ c b) c).loose
  hwaits := Pipeline.hwaits_of_owed_zero _ _ _ _ L lv 0 fun c _ => by rw [hp c]; rfl
  pre c := iprop(StableHlo.held (c : Thread nD τ) (Pipeline.ucRefs τ sig) (W₁ c) ∗ rest0 c)
  post c := iprop(StableHlo.held (c : Thread nD τ) (Pipeline.ucRefs τ sig) (W₂ c) ∗ rest0 c)
  X c := iprop(∃ r, prngReg c r)
  Y c := iprop(∃ r, prngReg c r)
  Z c := Pipeline.unscopedRest (Ix := Unit) (Name := ℕ) (U := UR sig nD τ) (Lvl := ℕ) spec0 c (fun b => W₁ c b)
  hentry c := by
    rw [Pipeline.ownSems0_none]
    have hq : ∀ w, (pdats 0 c).q w = fullShare := fun w => by rw [hp c]; rfl
    have hA : ∀ w, (pdats 0 c).A w = (fun b : Ref sig .tc => W₁ c b) (Pipeline.arrRef spec0 w) := fun w => by rw [hp c]; rfl
    have hsplit := Pipeline.arrays_of_unscopedBufs (p := 0) (pcfgs (F := F)) adm pdats launch0.win launch0.arr_whole c
      ((pdats 0 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 0 c).Φ 0 = Pipeline.ΦA spec0 c from by rw [hp c]; rfl]; unfold Pipeline.ΦA
    iintro ⟨Hp, -, Hr⟩
    isplitl [Hr]; · iexact Hr
    iexact Hp
  hout c := by
    rw [Pipeline.ownSems0_none, show (pdats 0 c).Φ (Fin.last _) = Pipeline.ΦA spec0 c from by rw [hp c]; rfl]; unfold Pipeline.ΦA
    iintro ⟨Hr, Hp⟩
    isplitl [Hp]; · iexact Hp
    isplitr; · iempintro
    iexact Hr
  hexit c := by
    have hq : ∀ w, (pdats 0 c).q w = fullShare := fun w => by rw [hp c]; rfl
    have hjoin := Pipeline.unscopedBufs_of_arrays (p := 0) (pcfgs (F := F)) adm (Ix := Unit) (Name := ℕ) (U := UR sig nD τ) (Lvl := ℕ)
      launch0.win launch0.arr_whole c pdats ((pdats 0 c).share_full hq)
      (fun b => W₁ c b) (fun b => W₂ c b) ((pdats 0 c).arrAt · cfg0.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Record

/-! ## The exit valuation as an update of the entry valuation at the result's buffer -/

section Update

variable (W₁ : Dev nD → Valuation τ sig (Elt F))

/-- A property of the four windows, checked window by window. -/
private theorem fin4_cases {P : Fin 4 → Prop} (h0 : P 0) (h1 : P 1) (h2 : P 2) (h3 : P 3) : ∀ w, P w
  | ⟨0, _⟩ => h0
  | ⟨1, _⟩ => h1
  | ⟨2, _⟩ => h2
  | ⟨3, _⟩ => h3

/-- When the exit valuation is the entry valuation updated at the result's buffer `main_v34` with what the pipeline's
    write-backs leave in it, every array of the region holds there what the pipeline leaves: an input's array is never
    written and is not the result's buffer; the result's array is the updated one. -/
theorem hF0_update (c : Dev nD) (x : Buf (Elt F) ((c : Thread nD τ).loc main_v34))
    (hx : x = (dat0 (F := F) (fun c b => W₁ c b) c).arrAt 3 cfg0.N) :
    ∀ w, (dat0 (F := F) (fun c b => W₁ c b) c).arrAt w cfg0.N = Function.update (W₁ c) main_v34 x (Pipeline.arrRef spec0 w) :=
  fin4_cases (P := fun w => (dat0 (F := F) (fun c b => W₁ c b) c).arrAt w cfg0.N = Function.update (W₁ c) main_v34 x (Pipeline.arrRef spec0 w))
    (((dat0 (F := F) (fun c b => W₁ c b) c).arrAt_in 0 rfl _).trans ((A_eq0 (fun c b => W₁ c b) c 0).trans (Function.update_of_ne (StableHlo.devRef_ne_of_ne (by decide)) _ _).symm))
    (((dat0 (F := F) (fun c b => W₁ c b) c).arrAt_in 1 rfl _).trans ((A_eq0 (fun c b => W₁ c b) c 1).trans (Function.update_of_ne (StableHlo.devRef_ne_of_ne (by decide)) _ _).symm))
    (((dat0 (F := F) (fun c b => W₁ c b) c).arrAt_in 2 rfl _).trans ((A_eq0 (fun c b => W₁ c b) c 2).trans (Function.update_of_ne (StableHlo.devRef_ne_of_ne (by decide)) _ _).symm))
    (hx.symm.trans (Function.update_self (β := fun b : DevRef τ sig => b.ty.Contents (Elt F)) _ _ _).symm)

/-- and every buffer that is no array of the region holds what it held at entry. -/
theorem hrest0_update (c : Dev nD) (x : Buf (Elt F) ((c : Thread nD τ).loc main_v34)) :
    ∀ b : Ref sig .tc, b ∉ Finset.univ.image (Pipeline.arrRef spec0) → Function.update (W₁ c) main_v34 x b = W₁ c b :=
  fun b hb => Function.update_of_ne (StableHlo.devRef_ne_of_ne fun e => hb (Finset.mem_image.mpr ⟨3, Finset.mem_univ _, e.symm⟩)) _ _

end Update

end Cert.KernelIdeal.Hand

end
-- ==== Proof.KI.StatLib.lean ====
import Idealize.ShloMosaic.Lib.Pipeline.FrameBody
import Idealize.ShloMosaic.Lib.Pipeline.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Stores and loads through a buffer's whole rectangle

What the statistics kernels' bodies do to their two carried rows and their two outputs: every store and load is of
the whole (1, width) buffer, so a store leaves its payload whatever the buffer held. -/

/-- The zero offset of a rank-2 rectangle. -/
theorem stat_off2_zero : (![0, 0] : Fin 2 → Nat) = fun _ => 0 := by
  funext a; fin_cases a <;> rfl

/-- One store through the whole-shape rectangle leaves its payload, whatever the buffer held. -/
theorem stat_read_store {sig : RefSig} {κ : Kind} {sp : Space} {S : Shape} {e : EltTy}
    (v : View sig κ sp S e) (f : v.ty.Contents (Elt F)) {off : Fin S.rank → Nat} (hz : off = fun _ => 0)
    (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, by
    subst hz; show y ∈ (Rect.whole S).set; rw [Rect.set_whole]; exact Finset.mem_univ y⟩)).trans
    (View.canon_unit_zero hz inb w)

/-- A store through the whole-shape rectangle, made last, leaves its payload whatever the earlier stores were. -/
theorem stat_read_store_cons {sig : RefSig} {κ : Kind} {sp : Space} {S : Shape} {e : EltTy}
    (v : View sig κ sp S e) (f : v.ty.Contents (Elt F)) {off : Fin S.rank → Nat} (hz : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, by
    subst hz; show y ∈ (Rect.whole S).set; rw [Rect.set_whole]; exact Finset.mem_univ y⟩)).trans
    (View.canon_cons_unit_zero hz inb w L)

end Cert.KernelIdeal.Hand

end
-- ==== Proof.KI.Reg1Run.lean ====
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.KI.StatLib
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the first layer (32 columns): the body's three control cases

The body adds the bias row to its block of 10000 rows, adds the column sums of the result and of its square to two
carried rows, having first zeroed those rows at the first grid point, and at the last grid point divides both rows
by the number of rows and writes the mean and the mean of squares less the squared mean. -/

/-- The first conditional (zero the two carried rows): taken where the grid coordinate is 0. -/
abbrev cond1_0 (i : grid1.Coords) : Prop :=
  (Scalar.cmpi .ne (Scalar.extui (Scalar.cmpi .eq (BitVec.ofNat 32 (i 0).val) 0#32)) 0#32) = 1#1
/-- The second conditional (write the two outputs): taken where the grid coordinate is 9. -/
abbrev cond1_1 (i : grid1.Coords) : Prop := k1_cond2 i = 1#1

theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ t.val = 9 :=
  (by decide +kernel : ∀ t : Fin grid1.N, cond1_1 (grid1.coords t) ↔ t.val = 9)

set_option maxHeartbeats 1000000 in
/-- A middle grid point: neither conditional is taken; the carried rows `s5`, `s6` receive the block's column sums. -/
theorem sound_kernel1_B (c : Dev nD) (E : Set ℕ) (i : grid1.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬ cond1_0 i) (hc1 : ¬ cond1_1 i)
    (x0 : Vec F S10000x32 .f32) (x1 : Vec F S1x32 .f32) (s5 s6 : Vec F S1x32 .f32) (K : PUnit → sProp 𝕄) :
    iprop(owns (c : Thread nD τ) arg1 fullShare x0 ∗ owns (c : Thread nD τ) arg2 fullShare x1 ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg5 fullShare (k1_pay4 x0 x1 s5) ∗ owns (c : Thread nD τ) arg6 fullShare (k1_pay5 x0 x1 s6)) -∗ K ⟨⟩))
      ⊢ wp frame (wpE (defs₀ (F := F)) Variants.none c none) E (cc1__reduce_kernel i arg1 harg1 arg2 harg2 arg3 harg3 arg4 harg4 arg5 harg5 arg6 harg6) K := by
  simp only [cc1__reduce_kernel_eq_skeleton]; unfold cc1__reduce_kernel_skel
  unfold owns
  iintro ⟨⟨%f0, %hf0, H0⟩, ⟨%f1, %hf1, H1⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store _ _ stat_off2_zero]
    simp only [View.readAt_eq_ld, View.ld_unit_zero (S := S10000x32) stat_off2_zero, View.ld_unit_zero (S := S1x32) stat_off2_zero]
  · iexists _; isplitr
    swap; · iexact H6
    ipureintro
    rw [stat_read_store _ _ stat_off2_zero]
    simp only [View.readAt_eq_ld, View.ld_unit_zero (S := S10000x32) stat_off2_zero, View.ld_unit_zero (S := S1x32) stat_off2_zero]

set_option maxHeartbeats 1000000 in
/-- The first grid point: the carried rows are zeroed, whatever they held, then receive the block's column sums. -/
theorem sound_kernel1_A (c : Dev nD) (E : Set ℕ) (i : grid1.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : cond1_0 i) (hc1 : ¬ cond1_1 i)
    (x0 : Vec F S10000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg5 fullShare (k1_pay4 x0 x1 k1_pay1) ∗ owns (c : Thread nD τ) arg6 fullShare (k1_pay5 x0 x1 k1_pay2)) -∗ K ⟨⟩))
      ⊢ wp frame (wpE (defs₀ (F := F)) Variants.none c none) E (cc1__reduce_kernel i arg1 harg1 arg2 harg2 arg3 harg3 arg4 harg4 arg5 harg5 arg6 harg6) K := by
  simp only [cc1__reduce_kernel_eq_skeleton]; unfold cc1__reduce_kernel_skel
  unfold owns
  iintro ⟨⟨%f0, %hf0, H0⟩, ⟨%f1, %hf1, H1⟩, ⟨%d5, %f5, -, H5⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store_cons _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"
  · iexists _; isplitr
    swap; · iexact H6
    ipureintro
    rw [stat_read_store_cons _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"

set_option maxHeartbeats 1000000 in
/-- The last grid point: the carried rows receive the block's column sums, then the two outputs are written from them. -/
theorem sound_kernel1_C (c : Dev nD) (E : Set ℕ) (i : grid1.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬ cond1_0 i) (hc1 : cond1_1 i)
    (x0 : Vec F S10000x32 .f32) (x1 : Vec F S1x32 .f32) (s5 s6 : Vec F S1x32 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg3 fullShare (k1_pay6 (k1_pay4 x0 x1 s5)) ∗ owns (c : Thread nD τ) arg4 fullShare (k1_pay7 (k1_pay4 x0 x1 s5) (k1_pay5 x0 x1 s6))
            ∗ owns (c : Thread nD τ) arg5 fullShare (k1_pay4 x0 x1 s5) ∗ owns (c : Thread nD τ) arg6 fullShare (k1_pay5 x0 x1 s6)) -∗ K ⟨⟩))
      ⊢ wp frame (wpE (defs₀ (F := F)) Variants.none c none) E (cc1__reduce_kernel i arg1 harg1 arg2 harg2 arg3 harg3 arg4 harg4 arg5 harg5 arg6 harg6) K := by
  simp only [cc1__reduce_kernel_eq_skeleton]; unfold cc1__reduce_kernel_skel
  unfold owns
  iintro ⟨⟨%f0, %hf0, H0⟩, ⟨%f1, %hf1, H1⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [stat_read_store _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"
  isplitl [H4]
  · iexists _; isplitr
    swap; · iexact H4
    ipureintro
    rw [stat_read_store _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"
  isplitl [H5]
  · iexists _; isplitr
    swap; · iexact H5
    ipureintro
    sl_unfold_run_names
    rw [stat_read_store_cons _ _ stat_off2_zero]
    first | (simp only [View.readAt_eq_ld, View.readCov_unit_zero (S := S1x32) _ stat_off2_zero, View.ld_unit_zero (S := S10000x32) stat_off2_zero, View.ld_unit_zero (S := S1x32) stat_off2_zero]) | fail "simp set did not close the read-back"
  · iexists _; isplitr
    swap; · iexact H6
    ipureintro
    sl_unfold_run_names
    rw [stat_read_store_cons _ _ stat_off2_zero]
    first | (simp only [View.readAt_eq_ld, View.readCov_unit_zero (S := S1x32) _ stat_off2_zero, View.ld_unit_zero (S := S10000x32) stat_off2_zero, View.ld_unit_zero (S := S1x32) stat_off2_zero]) | fail "simp set did not close the read-back"

end Cert.KernelIdeal.Hand

end
-- ==== Proof.KI.Reg1.lean ====
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import proofs.«109725_j21638045237575_1_alg».proof.Proof.KI.Reg1Run
import Idealize.ShloMosaic.Lib.Pipeline.Frame
import Idealize.ShloMosaic.Lib.Pipeline.FrameBody
import Idealize.ShloMosaic.Lib.Pipeline.Kit
import Idealize.ShloMosaic.Lib.Pipeline.Regions
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the first layer (32 columns) as a region of @main

Ten grid points, each a block of 10000 rows of the aggregated features. Two rows of 32 are carried from point to
point in scratch memory: the column sums of (block + bias) and of its square over the blocks seen so far. The first
point zeroes them first; the last point writes mean = sum / 100000 and var = sumsq / 100000 − mean · mean into the
two outputs' staging buffers, which are written back there and nowhere else; at the other points the body leaves
the outputs' buffers as it found them. -/

section Region

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of aggregated rows is in its staging buffer at every point, for any proof data over `V` whose body
    leaves it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row is in its staging buffer at every point (fetched once: its block index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The carried rows -/

/-- The two carried rows when the accumulation of point `t` starts: both zero at the first point (after its zeroing),
    and after each point the sums of (block + bias), and of its square, down the block's columns added — a fold of the
    body's payload terms over the blocks seen so far, first component the sums, second the sums of squares. -/
def scr1 (c : Dev nD) : ℕ → Vec F S1x32 .f32 × Vec F S1x32 .f32
  | 0 => (k1_pay1, k1_pay2)
  | t + 1 =>
    if h : t < cfg1.N then
      (k1_pay4 (iblk1 V c 0 ⟨t, h⟩) (iblk1 V c 1 ⟨t, h⟩) (scr1 c t).1,
       k1_pay5 (iblk1 V c 0 ⟨t, h⟩) (iblk1 V c 1 ⟨t, h⟩) (scr1 c t).2)
    else scr1 c t

theorem scr1_zero (c : Dev nD) : scr1 V c 0 = (k1_pay1, k1_pay2) := by rw [scr1]

/-- One point's step of the fold. -/
theorem scr1_succ (c : Dev nD) (t : Fin cfg1.N) :
    scr1 V c (t.val + 1) = (k1_pay4 (iblk1 V c 0 t) (iblk1 V c 1 t) (scr1 V c t.val).1,
      k1_pay5 (iblk1 V c 0 t) (iblk1 V c 1 t) (scr1 V c t.val).2) := by
  rw [scr1, dif_pos t.isLt]

/-- The scratch rows between points, as the invariant holds them: before the first point at anything, before point
    `n > 0` at the fold's value there. -/
def scrAt1 (c : Dev nD) (n : ℕ) : sProp 𝕄 :=
  if n = 0 then
    iprop((∃ d, owns (c : Thread nD τ) (Memref.whole cc1_scratch0 : Memref sig .tc .vmem S1x32 .f32) fullShare d) ∗ (∃ d, owns (c : Thread nD τ) (Memref.whole cc1_scratch1 : Memref sig .tc .vmem S1x32 .f32) fullShare d))
  else
    iprop(owns (c : Thread nD τ) (Memref.whole cc1_scratch0 : Memref sig .tc .vmem S1x32 .f32) fullShare (scr1 V c n).1 ∗ owns (c : Thread nD τ) (Memref.whole cc1_scratch1 : Memref sig .tc .vmem S1x32 .f32) fullShare (scr1 V c n).2)

theorem scrAt1_zero (c : Dev nD) :
    scrAt1 V c 0 = iprop((∃ d, owns (c : Thread nD τ) (Memref.whole cc1_scratch0 : Memref sig .tc .vmem S1x32 .f32) fullShare d) ∗ (∃ d, owns (c : Thread nD τ) (Memref.whole cc1_scratch1 : Memref sig .tc .vmem S1x32 .f32) fullShare d)) := by
  unfold scrAt1; rw [if_pos rfl]

theorem scrAt1_pos (c : Dev nD) (n : ℕ) (h : n ≠ 0) :
    scrAt1 V c n = iprop(owns (c : Thread nD τ) (Memref.whole cc1_scratch0 : Memref sig .tc .vmem S1x32 .f32) fullShare (scr1 V c n).1 ∗ owns (c : Thread nD τ) (Memref.whole cc1_scratch1 : Memref sig .tc .vmem S1x32 .f32) fullShare (scr1 V c n).2) := by
  unfold scrAt1; rw [if_neg h]

/-! ## The pipeline's proof data -/

/-- The proof data of the pipeline on core `c`: the arrays as the region finds them; each input's buffer left at its
    block; the mean's and the variance's buffers, where the body stores them (the last point), at the body's two last
    payload terms of the carried rows after that point's accumulation; the invariant the scoped buffers other than
    the two scratch rows, the generator register, and the scratch rows at the fold's value; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay6 (scr1 V c (t.val + 1)).1
    | ⟨3, _⟩ => k1_pay7 (scr1 V c (t.val + 1)).1 (scr1 V c (t.val + 1)).2
  Φ t := iprop(Pipeline.scopedRestBut (Ix := Unit) (Name := ℕ) (U := UR sig nD τ) (Lvl := ℕ) (Val := Elt F) spec1 c [cc1_scratch0, cc1_scratch1]
    ∗ (∃ r, prngReg c r) ∗ scrAt1 V c t.val)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay6 (scr1 V c (t.val + 1)).1 := by dsimp only [dat1]
theorem after1_3 (c : Dev nD) (t : Fin cfg1.N) :
    (dat1 V c).after 3 t = k1_pay7 (scr1 V c (t.val + 1)).1 (scr1 V c (t.val + 1)).2 := by dsimp only [dat1]

theorem Φ1_eq (c : Dev nD) (t : Fin (cfg1.N + 1)) :
    (dat1 V c).Φ t = iprop(Pipeline.scopedRestBut (Ix := Unit) (Name := ℕ) (U := UR sig nD τ) (Lvl := ℕ) (Val := Elt F) spec1 c [cc1_scratch0, cc1_scratch1]
      ∗ (∃ r, prngReg c r) ∗ scrAt1 V c t.val) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The two outputs' buffers are idle (the body stores nothing there) at every point but the last, -/
theorem idle1_2 : ∀ t : Fin cfg1.N, cfg1.idle 2 (cfg1.grid.coords t) = true ↔ t.val ≠ 9 :=
  (by decide +kernel : ∀ t : Fin grid1.N, cfg1.idle 2 (grid1.coords t) = true ↔ t.val ≠ 9)
theorem idle1_3 : ∀ t : Fin cfg1.N, cfg1.idle 3 (cfg1.grid.coords t) = true ↔ t.val ≠ 9 :=
  (by decide +kernel : ∀ t : Fin grid1.N, cfg1.idle 3 (grid1.coords t) = true ↔ t.val ≠ 9)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the two outputs' buffers as found where they are idle, at the stated contents at the last point. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (dat1 V c).leavesExact 2 t
    ∗ (dat1 V c).leavesExact 3 t)

set_option maxHeartbeats 1000000 in
/-- The body at any point, by the three control cases: at the first point the scratch rows are found at anything and
    left at the fold's first step; at a middle point found at the fold's value and left at its next; at the last point
    also the two outputs' buffers, found at anything, are left at the mean and the variance of the final rows. The
    rest of the invariant and the core's `owes` pass through unread; where an output's buffer is idle it is handed back
    as it was found. -/
theorem sound_body1 (c : Dev nD) (t : Fin cfg1.N) :
    bodyPre1 V c t ⊢ wp frame (wpE (defs₀ (F := F)) Variants.none c none) Set.univ (bodyAt1 t) (fun _ => bodyPost1 V c t) := by
  have hlt : t.val < 10 := by
    have h := t.isLt
    have hN : cfg1.N = 10 := N_1
    omega
  unfold bodyPre1 bodyPost1 bodyAt1
  simp only [before1_0, before1_1]
  rw [show (dat1 V c).owesAt () t.succ = (dat1 V c).owesAt () t.castSucc from rfl, after1_0, after1_1,
    Φ1_eq, Φ1_eq, Fin.val_succ, Fin.val_castSucc, scrAt1_pos V c (t.val + 1) (Nat.succ_ne_zero _), scr1_succ]
  by_cases h0 : t.val = 0
  · -- the first point
    have h9 : t.val ≠ 9 := by omega
    have hc0 : cond1_0 (grid1.coords t) := (hcond1_0 t).mpr h0
    have hc1 : ¬ cond1_1 (grid1.coords t) := fun h => h9 ((hcond1_1 t).mp h)
    rw [Dat.leavesExact_idle _ 2 t ((idle1_2 t).mpr h9) (by rw [Bool.eq_false_iff]; intro h; have := (flush1_2 t).mp h; omega),
      Dat.leavesExact_idle _ 3 t ((idle1_3 t).mpr h9) (by rw [Bool.eq_false_iff]; intro h; have := (flush1_3 t).mp h; omega),
      h0, scrAt1_zero, scr1_zero]
    iintro ⟨⟨Hrest, Hprng, H5, H6⟩, Ho, ⟨%d0, H0⟩, ⟨%d1, H1⟩, H2, H3⟩
    iapply (sound_kernel1_A c Set.univ (grid1.coords t) _ _ _ _ _ _ _ _ _ _ _ _ hc0 hc1 (iblk1 V c 0 t) (iblk1 V c 1 t) _)
    isplitl [H0]; · iexact H0
    isplitl [H1]; · iexact H1
    isplitl [H5]; · iexact H5
    isplitl [H6]; · iexact H6
    iintro ⟨H0, H1, H5, H6⟩
    isplitl [Hrest Hprng H5 H6]
    · isplitl [Hrest]; · iexact Hrest
      isplitl [Hprng]; · iexact Hprng
      isplitl [H5]; · iexact H5
      iexact H6
    isplitl [Ho]; · iexact Ho
    isplitl [H0]; · iexact H0
    isplitl [H1]; · iexact H1
    isplitl [H2]; · iexact H2
    iexact H3
  · by_cases h9 : t.val = 9
    · -- the last point
      have hc0 : ¬ cond1_0 (grid1.coords t) := fun h => h0 ((hcond1_0 t).mp h)
      have hc1 : cond1_1 (grid1.coords t) := (hcond1_1 t).mpr h9
      have hi2 : cfg1.idle 2 (cfg1.grid.coords t) = false := by
        rw [Bool.eq_false_iff]; intro h; exact (idle1_2 t).mp h h9
      have hi3 : cfg1.idle 3 (cfg1.grid.coords t) = false := by
        rw [Bool.eq_false_iff]; intro h; exact (idle1_3 t).mp h h9
      rw [scrAt1_pos V c t.val h0]
      unfold Dat.leavesExact
      rw [hi2]
      try rw [hi3]
      dsimp only
      rw [after1_2, after1_3, scr1_succ]
      iintro ⟨⟨Hrest, Hprng, H5, H6⟩, Ho, ⟨%d0, H0⟩, ⟨%d1, H1⟩, ⟨%d2, H2⟩, ⟨%d3, H3⟩⟩
      iapply (sound_kernel1_C c Set.univ (grid1.coords t) _ _ _ _ _ _ _ _ _ _ _ _ hc0 hc1 (iblk1 V c 0 t) (iblk1 V c 1 t)
        (scr1 V c t.val).1 (scr1 V c t.val).2 _)
      isplitl [H0]; · iexact H0
      isplitl [H1]; · iexact H1
      isplitl [H2]; · iexists _; iexact H2
      isplitl [H3]; · iexists _; iexact H3
      isplitl [H5]; · iexact H5
      isplitl [H6]; · iexact H6
      iintro ⟨H0, H1, H2, H3, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3
    · -- a middle point
      have hc0 : ¬ cond1_0 (grid1.coords t) := fun h => h0 ((hcond1_0 t).mp h)
      have hc1 : ¬ cond1_1 (grid1.coords t) := fun h => h9 ((hcond1_1 t).mp h)
      rw [Dat.leavesExact_idle _ 2 t ((idle1_2 t).mpr h9) (by rw [Bool.eq_false_iff]; intro h; have := (flush1_2 t).mp h; omega),
        Dat.leavesExact_idle _ 3 t ((idle1_3 t).mpr h9) (by rw [Bool.eq_false_iff]; intro h; have := (flush1_3 t).mp h; omega),
        scrAt1_pos V c t.val h0]
      iintro ⟨⟨Hrest, Hprng, H5, H6⟩, Ho, ⟨%d0, H0⟩, ⟨%d1, H1⟩, H2, H3⟩
      iapply (sound_kernel1_B c Set.univ (grid1.coords t) _ _ _ _ _ _ _ _ _ _ _ _ hc0 hc1 (iblk1 V c 0 t) (iblk1 V c 1 t)
        (scr1 V c t.val).1 (scr1 V c t.val).2 _)
      isplitl [H0]; · iexact H0
      isplitl [H1]; · iexact H1
      isplitl [H5]; · iexact H5
      isplitl [H6]; · iexact H6
      iintro ⟨H0, H1, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest1 (c : Dev nD) : sProp 𝕄 := iprop((∃ r, prngReg c r) ∗ ∃ W, owes (c : Thread nD τ) (0 : CellTallies nD τ sig Unit) W)

/-- The grid is not empty. -/
theorem N1_ne_zero : cfg1.N ≠ 0 := by
  show grid1.N ≠ 0
  rw [N_1]; decide

-- a library lemma stated over the pinned configuration unifies with the printed one only when unification may unfold
-- plain definitions in a metavariable's type
set_option backward.isDefEq.respectTransparency.types false in
/-- The region over the thread state "every unscoped buffer whole at a valuation, the generator register at some state,
    nothing owed": entered from the buffers at `W₁`, left at `W₂`, for any family of proof data whose member 1 is
    `dat1` at `W₁` (`hp`), when `W₂` has each of the region's arrays at what the pipeline leaves there (`hF`) and every
    other buffer as `W₁` (`hrest`). The arrays are split out of the unscoped buffers at entry and put back at exit; the
    generator register goes into the invariant and comes back; of the scoped buffers no window stages, the kernel's two
    scratch rows are split off into the invariant at entry (held at anything before the first point) and, at the fold's
    last value, forgotten back into them at exit; the kernel has no semaphore of its own. -/
def reg1 (hp : ∀ c, pdats 1 c = dat1 (fun c b => W₁ c b) c)
    (hF : ∀ c w, (dat1 (F := F) (fun c b => W₁ c b) c).arrAt w cfg1.N = W₂ c (Pipeline.arrRef spec1 w))
    (hrest : ∀ c (b : Ref sig .tc), b ∉ Finset.univ.image (Pipeline.arrRef spec1) → W₂ c b = W₁ c b) :
    Pipeline.RegionSeg (pcfgs (F := F)) adm pdats () defs₀ Variants.none L lv 1 where
  win := launch1.win.to₀
  block_pos := launch1.block_pos
  stage_whole := launch1.stage_whole
  K := PEmpty
  osem k := k.elim
  ho := Pipeline.OwnSemFacts.none _
  hbody c := by rw [hp c]; exact (body_obligation1 (fun c b => W₁ c b) c).loose
  hwaits := Pipeline.hwaits_of_owed_zero _ _ _ _ L lv 1 fun c _ => by rw [hp c]; rfl
  pre c := iprop(StableHlo.held (c : Thread nD τ) (Pipeline.ucRefs τ sig) (W₁ c) ∗ rest1 c)
  post c := iprop(StableHlo.held (c : Thread nD τ) (Pipeline.ucRefs τ sig) (W₂ c) ∗ rest1 c)
  X c := iprop(∃ r, prngReg c r)
  Y c := iprop(∃ r, prngReg c r)
  Z c := Pipeline.unscopedRest (Ix := Unit) (Name := ℕ) (U := UR sig nD τ) (Lvl := ℕ) spec1 c (fun b => W₁ c b)
  hentry c := by
    rw [Pipeline.ownSems0_none]
    have hq : ∀ w, (pdats 1 c).q w = fullShare := fun w => by rw [hp c]; rfl
    have hA : ∀ w, (pdats 1 c).A w = (fun b : Ref sig .tc => W₁ c b) (Pipeline.arrRef spec1 w) := fun w => by rw [hp c]; rfl
    have hsplit := Pipeline.arrays_of_unscopedBufs (p := 1) (pcfgs (F := F)) adm pdats launch1.win launch1.arr_whole c
      ((pdats 1 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; trivial)
      rw [show (pdats 1 c).owed 0 = 0 from by rw [hp c]; rfl]
      iexact HO
    isplitl [Hp]; · iexact Hp
    iexact Hrest
  hin c := by
    rw [show (pdats 1 c).Φ 0 = (dat1 (fun c b => W₁ c b) c).Φ 0 from by rw [hp c], Φ1_eq,
      show ((0 : Fin (cfg1.N + 1)).val) = 0 from rfl, scrAt1_zero,
      show (Pipeline.scopedRest (Pipeline.pin (pcfgs (F := F)) adm 1).spec c : sProp 𝕄) = _ from
        scopedRest1_split (Ix := Unit) (Val := Elt F) (Name := ℕ) (U := UR sig nD τ) (Lvl := ℕ) c]
    simp only [owns_whole]
    iintro ⟨Hp, -, ⟨H5, H6⟩, Hr⟩
    isplitl [Hr]; · iexact Hr
    isplitl [Hp]; · iexact Hp
    isplitl [H5]; · iexact H5
    iexact H6
  hout c := by
    rw [Pipeline.ownSems0_none, show (pdats 1 c).Φ (Fin.last _) = (dat1 (fun c b => W₁ c b) c).Φ (Fin.last cfg1.N) from by rw [hp c]; rfl, Φ1_eq,
      Fin.val_last, scrAt1_pos _ c cfg1.N N1_ne_zero,
      show (Pipeline.scopedRest (Pipeline.pin (pcfgs (F := F)) adm 1).spec c : sProp 𝕄) = _ from
        scopedRest1_split (Ix := Unit) (Val := Elt F) (Name := ℕ) (U := UR sig nD τ) (Lvl := ℕ) c]
    simp only [owns_whole]
    iintro ⟨Hr, Hp, H5, H6⟩
    isplitl [Hp]; · iexact Hp
    isplitr; · iempintro
    isplitl [H5 H6]
    · isplitl [H5]
      · iexists _; iexact H5
      iexists _; iexact H6
    iexact Hr
  hexit c := by
    have hq : ∀ w, (pdats 1 c).q w = fullShare := fun w => by rw [hp c]; rfl
    have hjoin := Pipeline.unscopedBufs_of_arrays (p := 1) (pcfgs (F := F)) adm (Ix := Unit) (Name := ℕ) (U := UR sig nD τ) (Lvl := ℕ)
      launch1.win launch1.arr_whole c pdats ((pdats 1 c).share_full hq)
      (fun b => W₁ c b) (fun b => W₂ c b) ((pdats 1 c).arrAt · cfg1.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 1 c).owed (Fin.last _) = 0 from by rw [hp c]; rfl]
    iexact HO

end Record

end Cert.KernelIdeal.Hand

end
-- ==== Proof.KI.Reg1Upd.lean ====
import proofs.«109725_j21638045237575_1_alg».proof.Proof.KI.Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region's exit valuation as an update of its entry valuation at the two results' buffers -/

section Update

variable (W₁ : Dev nD → Valuation τ sig (Elt F))

/-- Updating a valuation at the mean's buffer and at the variance's changes no other buffer. -/
theorem update1_of_ne (c : Dev nD) (x0 : Buf (Elt F) ((c : Thread nD τ).loc main_v54_0)) (x1 : Buf (Elt F) ((c : Thread nD τ).loc main_v54_1))
    (b : Ref sig .tc) (h0 : b ≠ main_v54_0) (h1 : b ≠ main_v54_1) :
    Function.update (Function.update (W₁ c) main_v54_0 x0) main_v54_1 x1 b = W₁ c b :=
  (Function.update_of_ne (StableHlo.devRef_ne_of_ne h1) x1 (Function.update (W₁ c) main_v54_0 x0)).trans
    (Function.update_of_ne (StableHlo.devRef_ne_of_ne h0) x0 (W₁ c))

/-- The update read at the variance's buffer, -/
theorem update1_at_3 (c : Dev nD) (x0 : Buf (Elt F) ((c : Thread nD τ).loc main_v54_0)) (x1 : Buf (Elt F) ((c : Thread nD τ).loc main_v54_1)) : Function.update (Function.update (W₁ c) main_v54_0 x0) main_v54_1 x1 main_v54_1 = x1 :=
  Function.update_self (β := fun b : DevRef τ sig => b.ty.Contents (Elt F)) (Proc.devRef .tc main_v54_1) x1 (Function.update (W₁ c) main_v54_0 x0)

/-- and at the mean's. -/
theorem update1_at_2 (c : Dev nD) (x0 : Buf (Elt F) ((c : Thread nD τ).loc main_v54_0)) (x1 : Buf (Elt F) ((c : Thread nD τ).loc main_v54_1)) : Function.update (Function.update (W₁ c) main_v54_0 x0) main_v54_1 x1 main_v54_0 = x0 :=
  (Function.update_of_ne (StableHlo.devRef_ne_of_ne (show (main_v54_0 : Ref sig .tc) ≠ main_v54_1 by decide)) x1 (Function.update (W₁ c) main_v54_0 x0)).trans
    (Function.update_self (β := fun b : DevRef τ sig => b.ty.Contents (Elt F)) (Proc.devRef .tc main_v54_0) x0 (W₁ c))

theorem hF1_update_0 (c : Dev nD) (x0 : Buf (Elt F) ((c : Thread nD τ).loc main_v54_0)) (x1 : Buf (Elt F) ((c : Thread nD τ).loc main_v54_1)) :
    (dat1 (F := F) (fun c b => W₁ c b) c).arrAt 0 cfg1.N = Function.update (Function.update (W₁ c) main_v54_0 x0) main_v54_1 x1 (Pipeline.arrRef spec1 0) :=
  ((dat1 (F := F) (fun c b => W₁ c b) c).arrAt_in 0 rfl _).trans ((A_eq1 (fun c b => W₁ c b) c 0).trans
      (update1_of_ne W₁ c x0 x1 (Pipeline.arrRef spec1 0) (by decide) (by decide)).symm)

theorem hF1_update_1 (c : Dev nD) (x0 : Buf (Elt F) ((c : Thread nD τ).loc main_v54_0)) (x1 : Buf (Elt F) ((c : Thread nD τ).loc main_v54_1)) :
    (dat1 (F := F) (fun c b => W₁ c b) c).arrAt 1 cfg1.N = Function.update (Function.update (W₁ c) main_v54_0 x0) main_v54_1 x1 (Pipeline.arrRef spec1 1) :=
  ((dat1 (F := F) (fun c b => W₁ c b) c).arrAt_in 1 rfl _).trans ((A_eq1 (fun c b => W₁ c b) c 1).trans
      (update1_of_ne W₁ c x0 x1 (Pipeline.arrRef spec1 1) (by decide) (by decide)).symm)

theorem hF1_update_2 (c : Dev nD) (x0 : Buf (Elt F) ((c : Thread nD τ).loc main_v54_0)) (x1 : Buf (Elt F) ((c : Thread nD τ).loc main_v54_1)) (hx0 : x0 = (dat1 (F := F) (fun c b => W₁ c b) c).arrAt 2 cfg1.N) :
    (dat1 (F := F) (fun c b => W₁ c b) c).arrAt 2 cfg1.N = Function.update (Function.update (W₁ c) main_v54_0 x0) main_v54_1 x1 (Pipeline.arrRef spec1 2) :=
  hx0.symm.trans (update1_at_2 W₁ c x0 x1).symm

theorem hF1_update_3 (c : Dev nD) (x0 : Buf (Elt F) ((c : Thread nD τ).loc main_v54_0)) (x1 : Buf (Elt F) ((c : Thread nD τ).loc main_v54_1)) (hx1 : x1 = (dat1 (F := F) (fun c b => W₁ c b) c).arrAt 3 cfg1.N) :
    (dat1 (F := F) (fun c b => W₁ c b) c).arrAt 3 cfg1.N = Function.update (Function.update (W₁ c) main_v54_0 x0) main_v54_1 x1 (Pipeline.arrRef spec1 3) :=
  hx1.symm.trans (update1_at_3 W₁ c x0 x1).symm

/-- When the exit valuation is the entry valuation updated at the mean's buffer and at the variance's with what the
    pipeline's write-backs leave in them, every array of the region holds there what the pipeline leaves: an input's
    array is never written and is neither result's buffer; each result's array is its updated one. -/
theorem hF1_update (c : Dev nD) (x0 : Buf (Elt F) ((c : Thread nD τ).loc main_v54_0)) (x1 : Buf (Elt F) ((c : Thread nD τ).loc main_v54_1))
    (hx0 : x0 = (dat1 (F := F) (fun c b => W₁ c b) c).arrAt 2 cfg1.N) (hx1 : x1 = (dat1 (F := F) (fun c b => W₁ c b) c).arrAt 3 cfg1.N) :
    ∀ w, (dat1 (F := F) (fun c b => W₁ c b) c).arrAt w cfg1.N = Function.update (Function.update (W₁ c) main_v54_0 x0) main_v54_1 x1 (Pipeline.arrRef spec1 w)
  | ⟨0, _⟩ => hF1_update_0 W₁ c x0 x1
  | ⟨1, _⟩ => hF1_update_1 W₁ c x0 x1
  | ⟨2, _⟩ => hF1_update_2 W₁ c x0 x1 hx0
  | ⟨3, _⟩ => hF1_update_3 W₁ c x0 x1 hx1

/-- and every buffer that is no array of the region holds what it held at entry. -/
theorem hrest1_update (c : Dev nD) (x0 : Buf (Elt F) ((c : Thread nD τ).loc main_v54_0)) (x1 : Buf (Elt F) ((c : Thread nD τ).loc main_v54_1)) :
    ∀ b : Ref sig .tc, b ∉ Finset.univ.image (Pipeline.arrRef spec1) → Function.update (Function.update (W₁ c) main_v54_0 x0) main_v54_1 x1 b = W₁ c b :=
  fun b hb => update1_of_ne W₁ c x0 x1 b
    (fun e => hb (Finset.mem_image.mpr ⟨2, Finset.mem_univ _, e.symm⟩))
    (fun e => hb (Finset.mem_image.mpr ⟨3, Finset.mem_univ _, e.symm⟩))

end Update

end Cert.KernelIdeal.Hand

end
-- ==== Proof.KI.Reg2Body.lean ====
/-
  Region 2 of the idealized kernel's @main: the normalise + LeakyReLU kernel at width 32, over a grid of ten row
  tiles of 10000 rows. Its seven windows are the row tile of the aggregated features (fetched at every point), five
  rows of 32 entries — the bias, the batch mean, the batch variance, the scale and the shift — (whole, fetched once:
  their block index never moves), and the row tile of the result (written back at every point). The body reads the
  six input blocks whole, computes h = agg + bias, inv = rsqrt(var + eps), hn = (h − mean)·inv·scale + shift and
  stores where(hn ≥ 0, hn, slope·hn) over the whole output block, so what a point leaves in the output's staging
  buffer is a pure function of the six input blocks (`out2_6`), and the inputs' buffers are left as found.

  Stated here, at any float model `F` and at a PARAMETER `V` (the core's buffer contents when the region is
  entered): each window's block at a point (`iblk2`), the body's triple (`sound_kernel2`), the pipeline's proof
  data (`dat2`), the body obligation (`body_obligation2`), and the region as a segment record (`reg2`) for any
  family of proof data whose member 2 is `dat2`, entered from every unscoped buffer at `W₁` and left at `W₂`, where
  `W₂` holds at each of the region's arrays what the pipeline's write-backs leave and elsewhere what `W₁` held.
-/
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the block kept from the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): where the window is not
    fetched its block index has not moved, so the block kept from the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): where the window is not
    fetched its block index has not moved, so the block kept from the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): where the window is not
    fetched its block index has not moved, so the block kept from the point before is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): where the window is not
    fetched its block index has not moved, so the block kept from the point before is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s (`hA`) and whose body leaves the block in place (`hafter`): where the window is not
    fetched its block index has not moved, so the block kept from the point before is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S10000x32 := Rect.unit (s := S10000x32) ![0, 0] S10000x32.size inb_S10000x32_S10000x32_0_0
abbrev r2_r : Rect S1x32 := Rect.unit (s := S1x32) ![0, 0] S1x32.size inb_S1x32_S1x32_0_0
abbrev r2_o : Rect S10000x32 := Rect.unit (s := S10000x32) ![0, 0] S10000x32.size inb_S10000x32_S10000x32_0_0

/-! ## What the body leaves in the output window's buffer -/

/-- Window 6's staging buffer after the body, from the input windows' blocks (the row tile, the bias, the mean, the
    variance, the scale and the shift, in the windows' order): its one store, of the normalised and rectified tile
    computed from the six blocks read whole. The payload takes the variance before the mean, as the body reads them. -/
def out2_6 (x0 : Vec F S10000x32 .f32) (x1 : Vec F S1x32 .f32) (x2 : Vec F S1x32 .f32) (x3 : Vec F S1x32 .f32) (x4 : Vec F S1x32 .f32) (x5 : Vec F S1x32 .f32) : Vec F S10000x32 .f32 :=
  View.canon [⟨r2_o, k2_pay1 (View.ld x0 r2_x) (View.ld x1 r2_r) (View.ld x3 r2_r) (View.ld x2 r2_r) (View.ld x4 r2_r) (View.ld x5 r2_r)⟩]

/-- The one store is over the whole buffer, so it covers it. -/
theorem cover2_6 (p0 : Vec F S10000x32 .f32) (y : S10000x32.Idx) :
    ∃ pc ∈ ([⟨r2_o, p0⟩] : List (View.Piece (Elt F) S10000x32 .f32)), y ∈ pc.1.set :=
  View.cover_of_tiled [⟨r2_o, p0⟩] S10000x32.size (by rfl) y

/-! ## The body's triple -/

set_option maxHeartbeats 1000000 in
/-- The kernel body on whole staging memrefs, the inputs' at read contents `x0 … x5` and the output's at anything,
    runs to the continuation holding the inputs' as they were and the output's at `out2_6` of the inputs'. -/
theorem sound_kernel2 (c : Dev nD) (E : Set ℕ) (i : grid2.Coords) (arg1 : Memref sig .tc .vmem S10000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S10000x32 .f32) (harg7 : arg7.IsWhole)
    (x0 : Vec F S10000x32 .f32) (x1 : Vec F S1x32 .f32) (x2 : Vec F S1x32 .f32) (x3 : Vec F S1x32 .f32) (x4 : Vec F S1x32 .f32) (x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__norm_kernel i arg1 harg1 arg2 harg2 arg3 harg3 arg4 harg4 arg5 harg5 arg6 harg6 arg7 harg7) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at point `t`
    each input's buffer at its block and the output's at `out2_6` of the input blocks; the invariant is the scoped
    buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KI.Reg2.lean ====
/-
  Region 2 of the idealized kernel's @main (the normalise + LeakyReLU kernel at width 32) as a segment of @main:
  the record `reg2` for any family of proof data whose member 2 is `dat2`, entered from every unscoped buffer at
  `W₁` and left at `W₂`, where `W₂` holds at each of the region's arrays what the pipeline's write-backs leave and
  elsewhere what `W₁` held; and the two facts that make `W₂ := W₁` updated at the output array `main_v58` such a
  valuation (`hF2_update`, `hrest2_update`): the six input arrays are never written back, so they end as
  entered, and the output array is the only one of the region's arrays that differs.
-/
import proofs.«109725_j21638045237575_1_alg».proof.Proof.KI.Reg2Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The exit valuation: the entry valuation updated at the output array -/

section Update

variable (W₁ : Dev nD → Valuation τ sig (Elt F)) (c : Dev nD) (x : Buf (Elt F) ((c : Thread nD τ).loc main_v58))

/-- An input window's array is never written back, so after all the points it holds what the region found, and the
    update at the output array does not touch it. -/
theorem hF2_in (w : Fin cfg2.W) (hin : (cfg2.win w).isOut = false) (hne : Pipeline.arrRef spec2 w ≠ main_v58) :
    (dat2 (F := F) (fun c b => W₁ c b) c).arrAt w cfg2.N = Function.update (W₁ c) main_v58 x (Pipeline.arrRef spec2 w) :=
  ((dat2 (F := F) (fun c b => W₁ c b) c).arrAt_in w hin _).trans
    ((A_eq2 (fun c b => W₁ c b) c w).trans (Function.update_of_ne (StableHlo.devRef_ne_of_ne hne) _ _).symm)

/-- Every window but the last is an input, staged from an array other than the output array. -/
theorem in_ne2 : ∀ w : Fin cfg2.W, w ≠ 6 → (cfg2.win w).isOut = false ∧ Pipeline.arrRef spec2 w ≠ main_v58 := by decide

/-- Each of the region's arrays after all the points is what the entry valuation updated at the output array holds
    there, when the update's value `x` is what the pipeline's write-backs leave in the output array. -/
theorem hF2_update (hx : x = (dat2 (F := F) (fun c b => W₁ c b) c).arrAt 6 cfg2.N) :
    ∀ w : Fin cfg2.W, (dat2 (F := F) (fun c b => W₁ c b) c).arrAt w cfg2.N = Function.update (W₁ c) main_v58 x (Pipeline.arrRef spec2 w) := fun w => by
  by_cases h : w = 6
  · subst h hx
    exact (Function.update_self (Proc.devRef .tc main_v58 : DevRef τ sig) _ (W₁ c)).symm
  · exact hF2_in W₁ c x w (in_ne2 w h).1 (in_ne2 w h).2

/-- Every buffer that is none of the region's arrays is not the output array, so the update leaves it as entered. -/
theorem hrest2_update : ∀ b : Ref sig .tc, b ∉ Finset.univ.image (Pipeline.arrRef spec2) → Function.update (W₁ c) main_v58 x b = W₁ c b :=
  fun b hb => Function.update_of_ne (StableHlo.devRef_ne_of_ne fun e =>
    hb (Finset.mem_image.mpr ⟨6, Finset.mem_univ _, (e.symm : Pipeline.arrRef spec2 6 = b)⟩)) _ _

end Update

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest2 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 2 over the thread state "every unscoped buffer whole at a valuation, the generator register at some state,
    nothing owed": entered from the buffers at `W₁`, left at `W₂`, for any family of proof data whose member 2 is
    `dat2` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg2 (hp : ∀ c, pdats 2 c = dat2 (fun c b => W₁ c b) c)
    (hF : ∀ c w, (dat2 (F := F) (fun c b => W₁ c b) c).arrAt w cfg2.N = W₂ c (Pipeline.arrRef spec2 w))
    (hrest : ∀ c (b : Ref sig .tc), b ∉ Finset.univ.image (Pipeline.arrRef spec2) → W₂ c b = W₁ c b) :
    Pipeline.RegionSeg (pcfgs (F := F)) adm pdats () defs₀ Variants.none L lv 2 where
  win := launch2.win.to₀
  block_pos := launch2.block_pos
  stage_whole := launch2.stage_whole
  K := PEmpty
  osem k := k.elim
  ho := Pipeline.OwnSemFacts.none _
  hbody c := by rw [hp c]; exact (body_obligation2 (fun c b => W₁ c b) c).loose
  hwaits := Pipeline.hwaits_of_owed_zero _ _ _ _ L lv 2 fun c _ => by rw [hp c]; rfl
  pre c := iprop(StableHlo.held (c : Thread nD τ) (Pipeline.ucRefs τ sig) (W₁ c) ∗ rest2 c)
  post c := iprop(StableHlo.held (c : Thread nD τ) (Pipeline.ucRefs τ sig) (W₂ c) ∗ rest2 c)
  X c := iprop(∃ r, prngReg c r)
  Y c := iprop(∃ r, prngReg c r)
  Z c := Pipeline.unscopedRest (Ix := Unit) (Name := ℕ) (U := UR sig nD τ) (Lvl := ℕ) spec2 c (fun b => W₁ c b)
  hentry c := by
    rw [Pipeline.ownSems0_none]
    have hq : ∀ w, (pdats 2 c).q w = fullShare := fun w => by rw [hp c]; rfl
    have hA : ∀ w, (pdats 2 c).A w = (fun b : Ref sig .tc => W₁ c b) (Pipeline.arrRef spec2 w) := fun w => by rw [hp c]; rfl
    have hsplit := Pipeline.arrays_of_unscopedBufs (p := 2) (pcfgs (F := F)) adm pdats launch2.win launch2.arr_whole c
      ((pdats 2 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; rw [hp c]; exact fun _ _ => Or.inl trivial
      rw [show (pdats 2 c).owed 0 = 0 from by rw [hp c]; rfl]
      iexact HO
    isplitl [Hp]; · iexact Hp
    iexact Hrest
  hin c := by
    rw [show (pdats 2 c).Φ 0 = Pipeline.ΦA spec2 c from by rw [hp c]; rfl]; unfold Pipeline.ΦA
    iintro ⟨Hp, -, Hr⟩
    isplitl [Hr]; · iexact Hr
    iexact Hp
  hout c := by
    rw [Pipeline.ownSems0_none, show (pdats 2 c).Φ (Fin.last _) = Pipeline.ΦA spec2 c from by rw [hp c]; rfl]; unfold Pipeline.ΦA
    iintro ⟨Hr, Hp⟩
    isplitl [Hp]; · iexact Hp
    isplitr; · iempintro
    iexact Hr
  hexit c := by
    have hq : ∀ w, (pdats 2 c).q w = fullShare := fun w => by rw [hp c]; rfl
    have hjoin := Pipeline.unscopedBufs_of_arrays (p := 2) (pcfgs (F := F)) adm (Ix := Unit) (Name := ℕ) (U := UR sig nD τ) (Lvl := ℕ)
      launch2.win launch2.arr_whole c pdats ((pdats 2 c).share_full hq)
      (fun b => W₁ c b) (fun b => W₂ c b) ((pdats 2 c).arrAt · cfg2.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 2 c).owed (Fin.last _) = 0 from by rw [hp c]; rfl]
    iexact HO

end Record

end Cert.KernelIdeal.Hand

end
-- ==== Proof.KI.Reg3.lean ====
/-
  Region 3 of the idealized kernel's @main: the linear kernel y = x·W + bias at widths 32 → 128, over a grid of
  ten row tiles of 10000 rows. Its four windows are the row tile of x (fetched at every point), the weight matrix
  and the bias row (whole, fetched once: their block index never moves), and the row tile of the result (written
  back at every point). The body reads the three input blocks whole and stores one value over the whole output
  block, so what a point leaves in the output's staging buffer is a pure function of the three input blocks
  (`out3_3`), and the inputs' buffers are left as found.

  Stated here, at any float model `F` and at a PARAMETER `V` (the core's buffer contents when the region is
  entered): each window's block at a point (`iblk3`), the body's triple (`sound_kernel3`), the pipeline's proof
  data (`dat3`), the body obligation (`body_obligation3`), and the region as a segment record (`reg3`) for any
  family of proof data whose member 3 is `dat3`, entered from every unscoped buffer at `W₁` and left at `W₂`, where
  `W₂` holds at each of the region's arrays what the pipeline's write-backs leave and elsewhere what `W₁` held.
-/
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, so the block kept from the point before is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): where the window is not
    fetched its block index has not moved, so the block kept from the point before is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): where the window is not
    fetched its block index has not moved, so the block kept from the point before is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_x : Rect S10000x32 := Rect.unit (s := S10000x32) ![0, 0] S10000x32.size inb_S10000x32_S10000x32_0_0
abbrev r3_w : Rect S32x128 := Rect.unit (s := S32x128) ![0, 0] S32x128.size inb_S32x128_S32x128_0_0
abbrev r3_b : Rect S1x128 := Rect.unit (s := S1x128) ![0, 0] S1x128.size inb_S1x128_S1x128_0_0
abbrev r3_o : Rect S10000x128 := Rect.unit (s := S10000x128) ![0, 0] S10000x128.size inb_S10000x128_S10000x128_0_0

/-! ## What the body leaves in the output window's buffer -/

/-- Window 3's staging buffer after the body, from the input windows' blocks: its one store, of the payload
    x·W + bias computed from the three blocks read whole. -/
def out3_3 (x0 : Vec F S10000x32 .f32) (x1 : Vec F S32x128 .f32) (x2 : Vec F S1x128 .f32) : Vec F S10000x128 .f32 :=
  View.canon [⟨r3_o, k3_pay1 (View.ld x0 r3_x) (View.ld x1 r3_w) (View.ld x2 r3_b)⟩]

/-- The one store is over the whole buffer, so it covers it. -/
theorem cover3_3 (p0 : Vec F S10000x128 .f32) (y : S10000x128.Idx) :
    ∃ pc ∈ ([⟨r3_o, p0⟩] : List (View.Piece (Elt F) S10000x128 .f32)), y ∈ pc.1.set :=
  View.cover_of_tiled [⟨r3_o, p0⟩] S10000x128.size (by rfl) y

/-! ## The body's triple -/

set_option maxHeartbeats 1000000 in
/-- The kernel body on whole staging memrefs, the inputs' at read contents `x0 x1 x2` and the output's at anything,
    runs to the continuation holding the inputs' as they were and the output's at `out3_3` of the inputs'. -/
theorem sound_kernel3 (c : Dev nD) (E : Set ℕ) (i : grid3.Coords) (arg1 : Memref sig .tc .vmem S10000x32 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x32 .f32) (x1 : Vec F S32x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the invariant is the scoped
    buffers no window stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest3 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 3 over the thread state "every unscoped buffer whole at a valuation, the generator register at some state,
    nothing owed": entered from the buffers at `W₁`, left at `W₂`, for any family of proof data whose member 3 is
    `dat3` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg3 (hp : ∀ c, pdats 3 c = dat3 (fun c b => W₁ c b) c)
    (hF : ∀ c w, (dat3 (F := F) (fun c b => W₁ c b) c).arrAt w cfg3.N = W₂ c (Pipeline.arrRef spec3 w))
    (hrest : ∀ c (b : Ref sig .tc), b ∉ Finset.univ.image (Pipeline.arrRef spec3) → W₂ c b = W₁ c b) :
    Pipeline.RegionSeg (pcfgs (F := F)) adm pdats () defs₀ Variants.none L lv 3 where
  win := launch3.win.to₀
  block_pos := launch3.block_pos
  stage_whole := launch3.stage_whole
  K := PEmpty
  osem k := k.elim
  ho := Pipeline.OwnSemFacts.none _
  hbody c := by rw [hp c]; exact (body_obligation3 (fun c b => W₁ c b) c).loose
  hwaits := Pipeline.hwaits_of_owed_zero _ _ _ _ L lv 3 fun c _ => by rw [hp c]; rfl
  pre c := iprop(StableHlo.held (c : Thread nD τ) (Pipeline.ucRefs τ sig) (W₁ c) ∗ rest3 c)
  post c := iprop(StableHlo.held (c : Thread nD τ) (Pipeline.ucRefs τ sig) (W₂ c) ∗ rest3 c)
  X c := iprop(∃ r, prngReg c r)
  Y c := iprop(∃ r, prngReg c r)
  Z c := Pipeline.unscopedRest (Ix := Unit) (Name := ℕ) (U := UR sig nD τ) (Lvl := ℕ) spec3 c (fun b => W₁ c b)
  hentry c := by
    rw [Pipeline.ownSems0_none]
    have hq : ∀ w, (pdats 3 c).q w = fullShare := fun w => by rw [hp c]; rfl
    have hA : ∀ w, (pdats 3 c).A w = (fun b : Ref sig .tc => W₁ c b) (Pipeline.arrRef spec3 w) := fun w => by rw [hp c]; rfl
    have hsplit := Pipeline.arrays_of_unscopedBufs (p := 3) (pcfgs (F := F)) adm pdats launch3.win launch3.arr_whole c
      ((pdats 3 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 3 c).Φ 0 = Pipeline.ΦA spec3 c from by rw [hp c]; rfl]; unfold Pipeline.ΦA
    iintro ⟨Hp, -, Hr⟩
    isplitl [Hr]; · iexact Hr
    iexact Hp
  hout c := by
    rw [Pipeline.ownSems0_none, show (pdats 3 c).Φ (Fin.last _) = Pipeline.ΦA spec3 c from by rw [hp c]; rfl]; unfold Pipeline.ΦA
    iintro ⟨Hr, Hp⟩
    isplitl [Hp]; · iexact Hp
    isplitr; · iempintro
    iexact Hr
  hexit c := by
    have hq : ∀ w, (pdats 3 c).q w = fullShare := fun w => by rw [hp c]; rfl
    have hjoin := Pipeline.unscopedBufs_of_arrays (p := 3) (pcfgs (F := F)) adm (Ix := Unit) (Name := ℕ) (U := UR sig nD τ) (Lvl := ℕ)
      launch3.win launch3.arr_whole c pdats ((pdats 3 c).share_full hq)
      (fun b => W₁ c b) (fun b => W₂ c b) ((pdats 3 c).arrAt · cfg3.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Record

/-! ## The exit valuation as an update of the entry valuation at the result's buffer -/

section Update

variable (W₁ : Dev nD → Valuation τ sig (Elt F))

/-- A property of the four windows, checked window by window. -/
private theorem fin4_cases {P : Fin 4 → Prop} (h0 : P 0) (h1 : P 1) (h2 : P 2) (h3 : P 3) : ∀ w, P w
  | ⟨0, _⟩ => h0
  | ⟨1, _⟩ => h1
  | ⟨2, _⟩ => h2
  | ⟨3, _⟩ => h3

/-- When the exit valuation is the entry valuation updated at the result's buffer `main_v61` with what the pipeline's
    write-backs leave in it, every array of the region holds there what the pipeline leaves: an input's array is never
    written and is not the result's buffer; the result's array is the updated one. -/
theorem hF3_update (c : Dev nD) (x : Buf (Elt F) ((c : Thread nD τ).loc main_v61))
    (hx : x = (dat3 (F := F) (fun c b => W₁ c b) c).arrAt 3 cfg3.N) :
    ∀ w, (dat3 (F := F) (fun c b => W₁ c b) c).arrAt w cfg3.N = Function.update (W₁ c) main_v61 x (Pipeline.arrRef spec3 w) :=
  fin4_cases (P := fun w => (dat3 (F := F) (fun c b => W₁ c b) c).arrAt w cfg3.N = Function.update (W₁ c) main_v61 x (Pipeline.arrRef spec3 w))
    (((dat3 (F := F) (fun c b => W₁ c b) c).arrAt_in 0 rfl _).trans ((A_eq3 (fun c b => W₁ c b) c 0).trans (Function.update_of_ne (StableHlo.devRef_ne_of_ne (by decide)) _ _).symm))
    (((dat3 (F := F) (fun c b => W₁ c b) c).arrAt_in 1 rfl _).trans ((A_eq3 (fun c b => W₁ c b) c 1).trans (Function.update_of_ne (StableHlo.devRef_ne_of_ne (by decide)) _ _).symm))
    (((dat3 (F := F) (fun c b => W₁ c b) c).arrAt_in 2 rfl _).trans ((A_eq3 (fun c b => W₁ c b) c 2).trans (Function.update_of_ne (StableHlo.devRef_ne_of_ne (by decide)) _ _).symm))
    (hx.symm.trans (Function.update_self (β := fun b : DevRef τ sig => b.ty.Contents (Elt F)) _ _ _).symm)

/-- and every buffer that is no array of the region holds what it held at entry. -/
theorem hrest3_update (c : Dev nD) (x : Buf (Elt F) ((c : Thread nD τ).loc main_v61)) :
    ∀ b : Ref sig .tc, b ∉ Finset.univ.image (Pipeline.arrRef spec3) → Function.update (W₁ c) main_v61 x b = W₁ c b :=
  fun b hb => Function.update_of_ne (StableHlo.devRef_ne_of_ne fun e => hb (Finset.mem_image.mpr ⟨3, Finset.mem_univ _, e.symm⟩)) _ _

end Update

end Cert.KernelIdeal.Hand

end
-- ==== Proof.KI.Reg4Run.lean ====
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.KI.StatLib
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the second layer (128 columns): the body's three control cases

The body adds the bias row to its block of 10000 rows, adds the column sums of the result and of its square to two
carried rows, having first zeroed those rows at the first grid point, and at the last grid point divides both rows
by the number of rows and writes the mean and the mean of squares less the squared mean. -/

/-- The first conditional (zero the two carried rows): taken where the grid coordinate is 0. -/
abbrev cond4_0 (i : grid4.Coords) : Prop :=
  (Scalar.cmpi .ne (Scalar.extui (Scalar.cmpi .eq (BitVec.ofNat 32 (i 0).val) 0#32)) 0#32) = 1#1
/-- The second conditional (write the two outputs): taken where the grid coordinate is 9. -/
abbrev cond4_1 (i : grid4.Coords) : Prop := k4_cond2 i = 1#1

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 9 :=
  (by decide +kernel : ∀ t : Fin grid4.N, cond4_1 (grid4.coords t) ↔ t.val = 9)

set_option maxHeartbeats 1000000 in
/-- A middle grid point: neither conditional is taken; the carried rows `s5`, `s6` receive the block's column sums. -/
theorem sound_kernel4_B (c : Dev nD) (E : Set ℕ) (i : grid4.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬ cond4_0 i) (hc1 : ¬ cond4_1 i)
    (x0 : Vec F S10000x128 .f32) (x1 : Vec F S1x128 .f32) (s5 s6 : Vec F S1x128 .f32) (K : PUnit → sProp 𝕄) :
    iprop(owns (c : Thread nD τ) arg1 fullShare x0 ∗ owns (c : Thread nD τ) arg2 fullShare x1 ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg5 fullShare (k4_pay4 x0 x1 s5) ∗ owns (c : Thread nD τ) arg6 fullShare (k4_pay5 x0 x1 s6)) -∗ K ⟨⟩))
      ⊢ wp frame (wpE (defs₀ (F := F)) Variants.none c none) E (cc4__reduce_kernel i arg1 harg1 arg2 harg2 arg3 harg3 arg4 harg4 arg5 harg5 arg6 harg6) K := by
  simp only [cc4__reduce_kernel_eq_skeleton]; unfold cc4__reduce_kernel_skel
  unfold owns
  iintro ⟨⟨%f0, %hf0, H0⟩, ⟨%f1, %hf1, H1⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store _ _ stat_off2_zero]
    simp only [View.readAt_eq_ld, View.ld_unit_zero (S := S10000x128) stat_off2_zero, View.ld_unit_zero (S := S1x128) stat_off2_zero]
  · iexists _; isplitr
    swap; · iexact H6
    ipureintro
    rw [stat_read_store _ _ stat_off2_zero]
    simp only [View.readAt_eq_ld, View.ld_unit_zero (S := S10000x128) stat_off2_zero, View.ld_unit_zero (S := S1x128) stat_off2_zero]

set_option maxHeartbeats 1000000 in
/-- The first grid point: the carried rows are zeroed, whatever they held, then receive the block's column sums. -/
theorem sound_kernel4_A (c : Dev nD) (E : Set ℕ) (i : grid4.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (hc1 : ¬ cond4_1 i)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg5 fullShare (k4_pay4 x0 x1 k4_pay1) ∗ owns (c : Thread nD τ) arg6 fullShare (k4_pay5 x0 x1 k4_pay2)) -∗ K ⟨⟩))
      ⊢ wp frame (wpE (defs₀ (F := F)) Variants.none c none) E (cc4__reduce_kernel i arg1 harg1 arg2 harg2 arg3 harg3 arg4 harg4 arg5 harg5 arg6 harg6) K := by
  simp only [cc4__reduce_kernel_eq_skeleton]; unfold cc4__reduce_kernel_skel
  unfold owns
  iintro ⟨⟨%f0, %hf0, H0⟩, ⟨%f1, %hf1, H1⟩, ⟨%d5, %f5, -, H5⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store_cons _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"
  · iexists _; isplitr
    swap; · iexact H6
    ipureintro
    rw [stat_read_store_cons _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"

set_option maxHeartbeats 1000000 in
/-- The last grid point: the carried rows receive the block's column sums, then the two outputs are written from them. -/
theorem sound_kernel4_C (c : Dev nD) (E : Set ℕ) (i : grid4.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬ cond4_0 i) (hc1 : cond4_1 i)
    (x0 : Vec F S10000x128 .f32) (x1 : Vec F S1x128 .f32) (s5 s6 : Vec F S1x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg3 fullShare (k4_pay6 (k4_pay4 x0 x1 s5)) ∗ owns (c : Thread nD τ) arg4 fullShare (k4_pay7 (k4_pay4 x0 x1 s5) (k4_pay5 x0 x1 s6))
            ∗ owns (c : Thread nD τ) arg5 fullShare (k4_pay4 x0 x1 s5) ∗ owns (c : Thread nD τ) arg6 fullShare (k4_pay5 x0 x1 s6)) -∗ K ⟨⟩))
      ⊢ wp frame (wpE (defs₀ (F := F)) Variants.none c none) E (cc4__reduce_kernel i arg1 harg1 arg2 harg2 arg3 harg3 arg4 harg4 arg5 harg5 arg6 harg6) K := by
  simp only [cc4__reduce_kernel_eq_skeleton]; unfold cc4__reduce_kernel_skel
  unfold owns
  iintro ⟨⟨%f0, %hf0, H0⟩, ⟨%f1, %hf1, H1⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [stat_read_store _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"
  isplitl [H4]
  · iexists _; isplitr
    swap; · iexact H4
    ipureintro
    rw [stat_read_store _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"
  isplitl [H5]
  · iexists _; isplitr
    swap; · iexact H5
    ipureintro
    sl_unfold_run_names
    rw [stat_read_store_cons _ _ stat_off2_zero]
    first | (simp only [View.readAt_eq_ld, View.readCov_unit_zero (S := S1x128) _ stat_off2_zero, View.ld_unit_zero (S := S10000x128) stat_off2_zero, View.ld_unit_zero (S := S1x128) stat_off2_zero]) | fail "simp set did not close the read-back"
  · iexists _; isplitr
    swap; · iexact H6
    ipureintro
    sl_unfold_run_names
    rw [stat_read_store_cons _ _ stat_off2_zero]
    first | (simp only [View.readAt_eq_ld, View.readCov_unit_zero (S := S1x128) _ stat_off2_zero, View.ld_unit_zero (S := S10000x128) stat_off2_zero, View.ld_unit_zero (S := S1x128) stat_off2_zero]) | fail "simp set did not close the read-back"

end Cert.KernelIdeal.Hand

end
-- ==== Proof.KI.Reg4.lean ====
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import proofs.«109725_j21638045237575_1_alg».proof.Proof.KI.Reg4Run
import Idealize.ShloMosaic.Lib.Pipeline.Frame
import Idealize.ShloMosaic.Lib.Pipeline.FrameBody
import Idealize.ShloMosaic.Lib.Pipeline.Kit
import Idealize.ShloMosaic.Lib.Pipeline.Regions
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the second layer (128 columns) as a region of @main

Ten grid points, each a block of 10000 rows of the aggregated features. Two rows of 128 are carried from point to
point in scratch memory: the column sums of (block + bias) and of its square over the blocks seen so far. The first
point zeroes them first; the last point writes mean = sum / 100000 and var = sumsq / 100000 − mean · mean into the
two outputs' staging buffers, which are written back there and nowhere else; at the other points the body leaves
the outputs' buffers as it found them. -/

section Region

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The block of aggregated rows is in its staging buffer at every point, for any proof data over `V` whose body
    leaves it there. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The bias row is in its staging buffer at every point (fetched once: its block index never moves). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The carried rows -/

/-- The two carried rows when the accumulation of point `t` starts: both zero at the first point (after its zeroing),
    and after each point the sums of (block + bias), and of its square, down the block's columns added — a fold of the
    body's payload terms over the blocks seen so far, first component the sums, second the sums of squares. -/
def scr4 (c : Dev nD) : ℕ → Vec F S1x128 .f32 × Vec F S1x128 .f32
  | 0 => (k4_pay1, k4_pay2)
  | t + 1 =>
    if h : t < cfg4.N then
      (k4_pay4 (iblk4 V c 0 ⟨t, h⟩) (iblk4 V c 1 ⟨t, h⟩) (scr4 c t).1,
       k4_pay5 (iblk4 V c 0 ⟨t, h⟩) (iblk4 V c 1 ⟨t, h⟩) (scr4 c t).2)
    else scr4 c t

theorem scr4_zero (c : Dev nD) : scr4 V c 0 = (k4_pay1, k4_pay2) := by rw [scr4]

/-- One point's step of the fold. -/
theorem scr4_succ (c : Dev nD) (t : Fin cfg4.N) :
    scr4 V c (t.val + 1) = (k4_pay4 (iblk4 V c 0 t) (iblk4 V c 1 t) (scr4 V c t.val).1,
      k4_pay5 (iblk4 V c 0 t) (iblk4 V c 1 t) (scr4 V c t.val).2) := by
  rw [scr4, dif_pos t.isLt]

/-- The scratch rows between points, as the invariant holds them: before the first point at anything, before point
    `n > 0` at the fold's value there. -/
def scrAt4 (c : Dev nD) (n : ℕ) : sProp 𝕄 :=
  if n = 0 then
    iprop((∃ d, owns (c : Thread nD τ) (Memref.whole cc4_scratch0 : Memref sig .tc .vmem S1x128 .f32) fullShare d) ∗ (∃ d, owns (c : Thread nD τ) (Memref.whole cc4_scratch1 : Memref sig .tc .vmem S1x128 .f32) fullShare d))
  else
    iprop(owns (c : Thread nD τ) (Memref.whole cc4_scratch0 : Memref sig .tc .vmem S1x128 .f32) fullShare (scr4 V c n).1 ∗ owns (c : Thread nD τ) (Memref.whole cc4_scratch1 : Memref sig .tc .vmem S1x128 .f32) fullShare (scr4 V c n).2)

theorem scrAt4_zero (c : Dev nD) :
    scrAt4 V c 0 = iprop((∃ d, owns (c : Thread nD τ) (Memref.whole cc4_scratch0 : Memref sig .tc .vmem S1x128 .f32) fullShare d) ∗ (∃ d, owns (c : Thread nD τ) (Memref.whole cc4_scratch1 : Memref sig .tc .vmem S1x128 .f32) fullShare d)) := by
  unfold scrAt4; rw [if_pos rfl]

theorem scrAt4_pos (c : Dev nD) (n : ℕ) (h : n ≠ 0) :
    scrAt4 V c n = iprop(owns (c : Thread nD τ) (Memref.whole cc4_scratch0 : Memref sig .tc .vmem S1x128 .f32) fullShare (scr4 V c n).1 ∗ owns (c : Thread nD τ) (Memref.whole cc4_scratch1 : Memref sig .tc .vmem S1x128 .f32) fullShare (scr4 V c n).2) := by
  unfold scrAt4; rw [if_neg h]

/-! ## The pipeline's proof data -/

/-- The proof data of the pipeline on core `c`: the arrays as the region finds them; each input's buffer left at its
    block; the mean's and the variance's buffers, where the body stores them (the last point), at the body's two last
    payload terms of the carried rows after that point's accumulation; the invariant the scoped buffers other than
    the two scratch rows, the generator register, and the scratch rows at the fold's value; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay6 (scr4 V c (t.val + 1)).1
    | ⟨3, _⟩ => k4_pay7 (scr4 V c (t.val + 1)).1 (scr4 V c (t.val + 1)).2
  Φ t := iprop(Pipeline.scopedRestBut (Ix := Unit) (Name := ℕ) (U := UR sig nD τ) (Lvl := ℕ) (Val := Elt F) spec4 c [cc4_scratch0, cc4_scratch1]
    ∗ (∃ r, prngReg c r) ∗ scrAt4 V c t.val)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay6 (scr4 V c (t.val + 1)).1 := by dsimp only [dat4]
theorem after4_3 (c : Dev nD) (t : Fin cfg4.N) :
    (dat4 V c).after 3 t = k4_pay7 (scr4 V c (t.val + 1)).1 (scr4 V c (t.val + 1)).2 := by dsimp only [dat4]

theorem Φ4_eq (c : Dev nD) (t : Fin (cfg4.N + 1)) :
    (dat4 V c).Φ t = iprop(Pipeline.scopedRestBut (Ix := Unit) (Name := ℕ) (U := UR sig nD τ) (Lvl := ℕ) (Val := Elt F) spec4 c [cc4_scratch0, cc4_scratch1]
      ∗ (∃ r, prngReg c r) ∗ scrAt4 V c t.val) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The two outputs' buffers are idle (the body stores nothing there) at every point but the last, -/
theorem idle4_2 : ∀ t : Fin cfg4.N, cfg4.idle 2 (cfg4.grid.coords t) = true ↔ t.val ≠ 9 :=
  (by decide +kernel : ∀ t : Fin grid4.N, cfg4.idle 2 (grid4.coords t) = true ↔ t.val ≠ 9)
theorem idle4_3 : ∀ t : Fin cfg4.N, cfg4.idle 3 (cfg4.grid.coords t) = true ↔ t.val ≠ 9 :=
  (by decide +kernel : ∀ t : Fin grid4.N, cfg4.idle 3 (grid4.coords t) = true ↔ t.val ≠ 9)

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns: the two outputs' buffers as found where they are idle, at the stated contents at the last point. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ (dat4 V c).leavesExact 2 t
    ∗ (dat4 V c).leavesExact 3 t)

set_option maxHeartbeats 1000000 in
/-- The body at any point, by the three control cases: at the first point the scratch rows are found at anything and
    left at the fold's first step; at a middle point found at the fold's value and left at its next; at the last point
    also the two outputs' buffers, found at anything, are left at the mean and the variance of the final rows. The
    rest of the invariant and the core's `owes` pass through unread; where an output's buffer is idle it is handed back
    as it was found. -/
theorem sound_body4 (c : Dev nD) (t : Fin cfg4.N) :
    bodyPre4 V c t ⊢ wp frame (wpE (defs₀ (F := F)) Variants.none c none) Set.univ (bodyAt4 t) (fun _ => bodyPost4 V c t) := by
  have hlt : t.val < 10 := by
    have h := t.isLt
    have hN : cfg4.N = 10 := N_4
    omega
  unfold bodyPre4 bodyPost4 bodyAt4
  simp only [before4_0, before4_1]
  rw [show (dat4 V c).owesAt () t.succ = (dat4 V c).owesAt () t.castSucc from rfl, after4_0, after4_1,
    Φ4_eq, Φ4_eq, Fin.val_succ, Fin.val_castSucc, scrAt4_pos V c (t.val + 1) (Nat.succ_ne_zero _), scr4_succ]
  by_cases h0 : t.val = 0
  · -- the first point
    have h9 : t.val ≠ 9 := by omega
    have hc0 : cond4_0 (grid4.coords t) := (hcond4_0 t).mpr h0
    have hc1 : ¬ cond4_1 (grid4.coords t) := fun h => h9 ((hcond4_1 t).mp h)
    rw [Dat.leavesExact_idle _ 2 t ((idle4_2 t).mpr h9) (by rw [Bool.eq_false_iff]; intro h; have := (flush4_2 t).mp h; omega),
      Dat.leavesExact_idle _ 3 t ((idle4_3 t).mpr h9) (by rw [Bool.eq_false_iff]; intro h; have := (flush4_3 t).mp h; omega),
      h0, scrAt4_zero, scr4_zero]
    iintro ⟨⟨Hrest, Hprng, H5, H6⟩, Ho, ⟨%d0, H0⟩, ⟨%d1, H1⟩, H2, H3⟩
    iapply (sound_kernel4_A c Set.univ (grid4.coords t) _ _ _ _ _ _ _ _ _ _ _ _ hc0 hc1 (iblk4 V c 0 t) (iblk4 V c 1 t) _)
    isplitl [H0]; · iexact H0
    isplitl [H1]; · iexact H1
    isplitl [H5]; · iexact H5
    isplitl [H6]; · iexact H6
    iintro ⟨H0, H1, H5, H6⟩
    isplitl [Hrest Hprng H5 H6]
    · isplitl [Hrest]; · iexact Hrest
      isplitl [Hprng]; · iexact Hprng
      isplitl [H5]; · iexact H5
      iexact H6
    isplitl [Ho]; · iexact Ho
    isplitl [H0]; · iexact H0
    isplitl [H1]; · iexact H1
    isplitl [H2]; · iexact H2
    iexact H3
  · by_cases h9 : t.val = 9
    · -- the last point
      have hc0 : ¬ cond4_0 (grid4.coords t) := fun h => h0 ((hcond4_0 t).mp h)
      have hc1 : cond4_1 (grid4.coords t) := (hcond4_1 t).mpr h9
      have hi2 : cfg4.idle 2 (cfg4.grid.coords t) = false := by
        rw [Bool.eq_false_iff]; intro h; exact (idle4_2 t).mp h h9
      have hi3 : cfg4.idle 3 (cfg4.grid.coords t) = false := by
        rw [Bool.eq_false_iff]; intro h; exact (idle4_3 t).mp h h9
      rw [scrAt4_pos V c t.val h0]
      unfold Dat.leavesExact
      rw [hi2]
      try rw [hi3]
      dsimp only
      rw [after4_2, after4_3, scr4_succ]
      iintro ⟨⟨Hrest, Hprng, H5, H6⟩, Ho, ⟨%d0, H0⟩, ⟨%d1, H1⟩, ⟨%d2, H2⟩, ⟨%d3, H3⟩⟩
      iapply (sound_kernel4_C c Set.univ (grid4.coords t) _ _ _ _ _ _ _ _ _ _ _ _ hc0 hc1 (iblk4 V c 0 t) (iblk4 V c 1 t)
        (scr4 V c t.val).1 (scr4 V c t.val).2 _)
      isplitl [H0]; · iexact H0
      isplitl [H1]; · iexact H1
      isplitl [H2]; · iexists _; iexact H2
      isplitl [H3]; · iexists _; iexact H3
      isplitl [H5]; · iexact H5
      isplitl [H6]; · iexact H6
      iintro ⟨H0, H1, H2, H3, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3
    · -- a middle point
      have hc0 : ¬ cond4_0 (grid4.coords t) := fun h => h0 ((hcond4_0 t).mp h)
      have hc1 : ¬ cond4_1 (grid4.coords t) := fun h => h9 ((hcond4_1 t).mp h)
      rw [Dat.leavesExact_idle _ 2 t ((idle4_2 t).mpr h9) (by rw [Bool.eq_false_iff]; intro h; have := (flush4_2 t).mp h; omega),
        Dat.leavesExact_idle _ 3 t ((idle4_3 t).mpr h9) (by rw [Bool.eq_false_iff]; intro h; have := (flush4_3 t).mp h; omega),
        scrAt4_pos V c t.val h0]
      iintro ⟨⟨Hrest, Hprng, H5, H6⟩, Ho, ⟨%d0, H0⟩, ⟨%d1, H1⟩, H2, H3⟩
      iapply (sound_kernel4_B c Set.univ (grid4.coords t) _ _ _ _ _ _ _ _ _ _ _ _ hc0 hc1 (iblk4 V c 0 t) (iblk4 V c 1 t)
        (scr4 V c t.val).1 (scr4 V c t.val).2 _)
      isplitl [H0]; · iexact H0
      isplitl [H1]; · iexact H1
      isplitl [H5]; · iexact H5
      isplitl [H6]; · iexact H6
      iintro ⟨H0, H1, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest4 (c : Dev nD) : sProp 𝕄 := iprop((∃ r, prngReg c r) ∗ ∃ W, owes (c : Thread nD τ) (0 : CellTallies nD τ sig Unit) W)

/-- The grid is not empty. -/
theorem N4_ne_zero : cfg4.N ≠ 0 := by
  show grid4.N ≠ 0
  rw [N_4]; decide

-- a library lemma stated over the pinned configuration unifies with the printed one only when unification may unfold
-- plain definitions in a metavariable's type
set_option backward.isDefEq.respectTransparency.types false in
/-- The region over the thread state "every unscoped buffer whole at a valuation, the generator register at some state,
    nothing owed": entered from the buffers at `W₁`, left at `W₂`, for any family of proof data whose member 4 is
    `dat4` at `W₁` (`hp`), when `W₂` has each of the region's arrays at what the pipeline leaves there (`hF`) and every
    other buffer as `W₁` (`hrest`). The arrays are split out of the unscoped buffers at entry and put back at exit; the
    generator register goes into the invariant and comes back; of the scoped buffers no window stages, the kernel's two
    scratch rows are split off into the invariant at entry (held at anything before the first point) and, at the fold's
    last value, forgotten back into them at exit; the kernel has no semaphore of its own. -/
def reg4 (hp : ∀ c, pdats 4 c = dat4 (fun c b => W₁ c b) c)
    (hF : ∀ c w, (dat4 (F := F) (fun c b => W₁ c b) c).arrAt w cfg4.N = W₂ c (Pipeline.arrRef spec4 w))
    (hrest : ∀ c (b : Ref sig .tc), b ∉ Finset.univ.image (Pipeline.arrRef spec4) → W₂ c b = W₁ c b) :
    Pipeline.RegionSeg (pcfgs (F := F)) adm pdats () defs₀ Variants.none L lv 4 where
  win := launch4.win.to₀
  block_pos := launch4.block_pos
  stage_whole := launch4.stage_whole
  K := PEmpty
  osem k := k.elim
  ho := Pipeline.OwnSemFacts.none _
  hbody c := by rw [hp c]; exact (body_obligation4 (fun c b => W₁ c b) c).loose
  hwaits := Pipeline.hwaits_of_owed_zero _ _ _ _ L lv 4 fun c _ => by rw [hp c]; rfl
  pre c := iprop(StableHlo.held (c : Thread nD τ) (Pipeline.ucRefs τ sig) (W₁ c) ∗ rest4 c)
  post c := iprop(StableHlo.held (c : Thread nD τ) (Pipeline.ucRefs τ sig) (W₂ c) ∗ rest4 c)
  X c := iprop(∃ r, prngReg c r)
  Y c := iprop(∃ r, prngReg c r)
  Z c := Pipeline.unscopedRest (Ix := Unit) (Name := ℕ) (U := UR sig nD τ) (Lvl := ℕ) spec4 c (fun b => W₁ c b)
  hentry c := by
    rw [Pipeline.ownSems0_none]
    have hq : ∀ w, (pdats 4 c).q w = fullShare := fun w => by rw [hp c]; rfl
    have hA : ∀ w, (pdats 4 c).A w = (fun b : Ref sig .tc => W₁ c b) (Pipeline.arrRef spec4 w) := fun w => by rw [hp c]; rfl
    have hsplit := Pipeline.arrays_of_unscopedBufs (p := 4) (pcfgs (F := F)) adm pdats launch4.win launch4.arr_whole c
      ((pdats 4 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; trivial)
      rw [show (pdats 4 c).owed 0 = 0 from by rw [hp c]; rfl]
      iexact HO
    isplitl [Hp]; · iexact Hp
    iexact Hrest
  hin c := by
    rw [show (pdats 4 c).Φ 0 = (dat4 (fun c b => W₁ c b) c).Φ 0 from by rw [hp c], Φ4_eq,
      show ((0 : Fin (cfg4.N + 1)).val) = 0 from rfl, scrAt4_zero,
      show (Pipeline.scopedRest (Pipeline.pin (pcfgs (F := F)) adm 4).spec c : sProp 𝕄) = _ from
        scopedRest4_split (Ix := Unit) (Val := Elt F) (Name := ℕ) (U := UR sig nD τ) (Lvl := ℕ) c]
    simp only [owns_whole]
    iintro ⟨Hp, -, ⟨H5, H6⟩, Hr⟩
    isplitl [Hr]; · iexact Hr
    isplitl [Hp]; · iexact Hp
    isplitl [H5]; · iexact H5
    iexact H6
  hout c := by
    rw [Pipeline.ownSems0_none, show (pdats 4 c).Φ (Fin.last _) = (dat4 (fun c b => W₁ c b) c).Φ (Fin.last cfg4.N) from by rw [hp c]; rfl, Φ4_eq,
      Fin.val_last, scrAt4_pos _ c cfg4.N N4_ne_zero,
      show (Pipeline.scopedRest (Pipeline.pin (pcfgs (F := F)) adm 4).spec c : sProp 𝕄) = _ from
        scopedRest4_split (Ix := Unit) (Val := Elt F) (Name := ℕ) (U := UR sig nD τ) (Lvl := ℕ) c]
    simp only [owns_whole]
    iintro ⟨Hr, Hp, H5, H6⟩
    isplitl [Hp]; · iexact Hp
    isplitr; · iempintro
    isplitl [H5 H6]
    · isplitl [H5]
      · iexists _; iexact H5
      iexists _; iexact H6
    iexact Hr
  hexit c := by
    have hq : ∀ w, (pdats 4 c).q w = fullShare := fun w => by rw [hp c]; rfl
    have hjoin := Pipeline.unscopedBufs_of_arrays (p := 4) (pcfgs (F := F)) adm (Ix := Unit) (Name := ℕ) (U := UR sig nD τ) (Lvl := ℕ)
      launch4.win launch4.arr_whole c pdats ((pdats 4 c).share_full hq)
      (fun b => W₁ c b) (fun b => W₂ c b) ((pdats 4 c).arrAt · cfg4.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 4 c).owed (Fin.last _) = 0 from by rw [hp c]; rfl]
    iexact HO

end Record

end Cert.KernelIdeal.Hand

end
-- ==== Proof.KI.Reg4Upd.lean ====
import proofs.«109725_j21638045237575_1_alg».proof.Proof.KI.Reg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region's exit valuation as an update of its entry valuation at the two results' buffers -/

section Update

variable (W₁ : Dev nD → Valuation τ sig (Elt F))

/-- Updating a valuation at the mean's buffer and at the variance's changes no other buffer. -/
theorem update4_of_ne (c : Dev nD) (x0 : Buf (Elt F) ((c : Thread nD τ).loc main_v81_0)) (x1 : Buf (Elt F) ((c : Thread nD τ).loc main_v81_1))
    (b : Ref sig .tc) (h0 : b ≠ main_v81_0) (h1 : b ≠ main_v81_1) :
    Function.update (Function.update (W₁ c) main_v81_0 x0) main_v81_1 x1 b = W₁ c b :=
  (Function.update_of_ne (StableHlo.devRef_ne_of_ne h1) x1 (Function.update (W₁ c) main_v81_0 x0)).trans
    (Function.update_of_ne (StableHlo.devRef_ne_of_ne h0) x0 (W₁ c))

/-- The update read at the variance's buffer, -/
theorem update4_at_3 (c : Dev nD) (x0 : Buf (Elt F) ((c : Thread nD τ).loc main_v81_0)) (x1 : Buf (Elt F) ((c : Thread nD τ).loc main_v81_1)) : Function.update (Function.update (W₁ c) main_v81_0 x0) main_v81_1 x1 main_v81_1 = x1 :=
  Function.update_self (β := fun b : DevRef τ sig => b.ty.Contents (Elt F)) (Proc.devRef .tc main_v81_1) x1 (Function.update (W₁ c) main_v81_0 x0)

/-- and at the mean's. -/
theorem update4_at_2 (c : Dev nD) (x0 : Buf (Elt F) ((c : Thread nD τ).loc main_v81_0)) (x1 : Buf (Elt F) ((c : Thread nD τ).loc main_v81_1)) : Function.update (Function.update (W₁ c) main_v81_0 x0) main_v81_1 x1 main_v81_0 = x0 :=
  (Function.update_of_ne (StableHlo.devRef_ne_of_ne (show (main_v81_0 : Ref sig .tc) ≠ main_v81_1 by decide)) x1 (Function.update (W₁ c) main_v81_0 x0)).trans
    (Function.update_self (β := fun b : DevRef τ sig => b.ty.Contents (Elt F)) (Proc.devRef .tc main_v81_0) x0 (W₁ c))

theorem hF4_update_0 (c : Dev nD) (x0 : Buf (Elt F) ((c : Thread nD τ).loc main_v81_0)) (x1 : Buf (Elt F) ((c : Thread nD τ).loc main_v81_1)) :
    (dat4 (F := F) (fun c b => W₁ c b) c).arrAt 0 cfg4.N = Function.update (Function.update (W₁ c) main_v81_0 x0) main_v81_1 x1 (Pipeline.arrRef spec4 0) :=
  ((dat4 (F := F) (fun c b => W₁ c b) c).arrAt_in 0 rfl _).trans ((A_eq4 (fun c b => W₁ c b) c 0).trans
      (update4_of_ne W₁ c x0 x1 (Pipeline.arrRef spec4 0) (by decide) (by decide)).symm)

theorem hF4_update_1 (c : Dev nD) (x0 : Buf (Elt F) ((c : Thread nD τ).loc main_v81_0)) (x1 : Buf (Elt F) ((c : Thread nD τ).loc main_v81_1)) :
    (dat4 (F := F) (fun c b => W₁ c b) c).arrAt 1 cfg4.N = Function.update (Function.update (W₁ c) main_v81_0 x0) main_v81_1 x1 (Pipeline.arrRef spec4 1) :=
  ((dat4 (F := F) (fun c b => W₁ c b) c).arrAt_in 1 rfl _).trans ((A_eq4 (fun c b => W₁ c b) c 1).trans
      (update4_of_ne W₁ c x0 x1 (Pipeline.arrRef spec4 1) (by decide) (by decide)).symm)

theorem hF4_update_2 (c : Dev nD) (x0 : Buf (Elt F) ((c : Thread nD τ).loc main_v81_0)) (x1 : Buf (Elt F) ((c : Thread nD τ).loc main_v81_1)) (hx0 : x0 = (dat4 (F := F) (fun c b => W₁ c b) c).arrAt 2 cfg4.N) :
    (dat4 (F := F) (fun c b => W₁ c b) c).arrAt 2 cfg4.N = Function.update (Function.update (W₁ c) main_v81_0 x0) main_v81_1 x1 (Pipeline.arrRef spec4 2) :=
  hx0.symm.trans (update4_at_2 W₁ c x0 x1).symm

theorem hF4_update_3 (c : Dev nD) (x0 : Buf (Elt F) ((c : Thread nD τ).loc main_v81_0)) (x1 : Buf (Elt F) ((c : Thread nD τ).loc main_v81_1)) (hx1 : x1 = (dat4 (F := F) (fun c b => W₁ c b) c).arrAt 3 cfg4.N) :
    (dat4 (F := F) (fun c b => W₁ c b) c).arrAt 3 cfg4.N = Function.update (Function.update (W₁ c) main_v81_0 x0) main_v81_1 x1 (Pipeline.arrRef spec4 3) :=
  hx1.symm.trans (update4_at_3 W₁ c x0 x1).symm

/-- When the exit valuation is the entry valuation updated at the mean's buffer and at the variance's with what the
    pipeline's write-backs leave in them, every array of the region holds there what the pipeline leaves: an input's
    array is never written and is neither result's buffer; each result's array is its updated one. -/
theorem hF4_update (c : Dev nD) (x0 : Buf (Elt F) ((c : Thread nD τ).loc main_v81_0)) (x1 : Buf (Elt F) ((c : Thread nD τ).loc main_v81_1))
    (hx0 : x0 = (dat4 (F := F) (fun c b => W₁ c b) c).arrAt 2 cfg4.N) (hx1 : x1 = (dat4 (F := F) (fun c b => W₁ c b) c).arrAt 3 cfg4.N) :
    ∀ w, (dat4 (F := F) (fun c b => W₁ c b) c).arrAt w cfg4.N = Function.update (Function.update (W₁ c) main_v81_0 x0) main_v81_1 x1 (Pipeline.arrRef spec4 w)
  | ⟨0, _⟩ => hF4_update_0 W₁ c x0 x1
  | ⟨1, _⟩ => hF4_update_1 W₁ c x0 x1
  | ⟨2, _⟩ => hF4_update_2 W₁ c x0 x1 hx0
  | ⟨3, _⟩ => hF4_update_3 W₁ c x0 x1 hx1

/-- and every buffer that is no array of the region holds what it held at entry. -/
theorem hrest4_update (c : Dev nD) (x0 : Buf (Elt F) ((c : Thread nD τ).loc main_v81_0)) (x1 : Buf (Elt F) ((c : Thread nD τ).loc main_v81_1)) :
    ∀ b : Ref sig .tc, b ∉ Finset.univ.image (Pipeline.arrRef spec4) → Function.update (Function.update (W₁ c) main_v81_0 x0) main_v81_1 x1 b = W₁ c b :=
  fun b hb => update4_of_ne W₁ c x0 x1 b
    (fun e => hb (Finset.mem_image.mpr ⟨2, Finset.mem_univ _, e.symm⟩))
    (fun e => hb (Finset.mem_image.mpr ⟨3, Finset.mem_univ _, e.symm⟩))

end Update

end Cert.KernelIdeal.Hand

end
-- ==== Proof.KI.Reg5Body.lean ====
/-
  Region 5 of the idealized kernel's @main: the normalise + LeakyReLU kernel at width 128, over a grid of ten row
  tiles of 10000 rows. Its seven windows are the row tile of the aggregated features (fetched at every point), five
  rows of 128 entries — the bias, the batch mean, the batch variance, the scale and the shift — (whole, fetched once:
  their block index never moves), and the row tile of the result (written back at every point). The body reads the
  six input blocks whole, computes h = agg + bias, inv = rsqrt(var + eps), hn = (h − mean)·inv·scale + shift and
  stores where(hn ≥ 0, hn, slope·hn) over the whole output block, so what a point leaves in the output's staging
  buffer is a pure function of the six input blocks (`out5_6`), and the inputs' buffers are left as found.

  Stated here, at any float model `F` and at a PARAMETER `V` (the core's buffer contents when the region is
  entered): each window's block at a point (`iblk5`), the body's triple (`sound_kernel5`), the pipeline's proof
  data (`dat5`), the body obligation (`body_obligation5`), and the region as a segment record (`reg5`) for any
  family of proof data whose member 5 is `dat5`, entered from every unscoped buffer at `W₁` and left at `W₂`, where
  `W₂` holds at each of the region's arrays what the pipeline's write-backs leave and elsewhere what `W₁` held.
-/
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): where the window is not
    fetched its block index has not moved, so the block kept from the point before is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof
    data whose array is `V`'s (`hA`) and whose body leaves the block in place (`hafter`): where the window is not
    fetched its block index has not moved, so the block kept from the point before is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof
    data whose array is `V`'s (`hA`) and whose body leaves the block in place (`hafter`): where the window is not
    fetched its block index has not moved, so the block kept from the point before is this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof
    data whose array is `V`'s (`hA`) and whose body leaves the block in place (`hafter`): where the window is not
    fetched its block index has not moved, so the block kept from the point before is this point's. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for any proof
    data whose array is `V`'s (`hA`) and whose body leaves the block in place (`hafter`): where the window is not
    fetched its block index has not moved, so the block kept from the point before is this point's. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not, for any proof
    data whose array is `V`'s (`hA`) and whose body leaves the block in place (`hafter`): where the window is not
    fetched its block index has not moved, so the block kept from the point before is this point's. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_x : Rect S10000x128 := Rect.unit (s := S10000x128) ![0, 0] S10000x128.size inb_S10000x128_S10000x128_0_0
abbrev r5_r : Rect S1x128 := Rect.unit (s := S1x128) ![0, 0] S1x128.size inb_S1x128_S1x128_0_0
abbrev r5_o : Rect S10000x128 := Rect.unit (s := S10000x128) ![0, 0] S10000x128.size inb_S10000x128_S10000x128_0_0

/-! ## What the body leaves in the output window's buffer -/

/-- Window 6's staging buffer after the body, from the input windows' blocks (the row tile, the bias, the mean, the
    variance, the scale and the shift, in the windows' order): its one store, of the normalised and rectified tile
    computed from the six blocks read whole. The payload takes the variance before the mean, as the body reads them. -/
def out5_6 (x0 : Vec F S10000x128 .f32) (x1 : Vec F S1x128 .f32) (x2 : Vec F S1x128 .f32) (x3 : Vec F S1x128 .f32) (x4 : Vec F S1x128 .f32) (x5 : Vec F S1x128 .f32) : Vec F S10000x128 .f32 :=
  View.canon [⟨r5_o, k5_pay1 (View.ld x0 r5_x) (View.ld x1 r5_r) (View.ld x3 r5_r) (View.ld x2 r5_r) (View.ld x4 r5_r) (View.ld x5 r5_r)⟩]

/-- The one store is over the whole buffer, so it covers it. -/
theorem cover5_6 (p0 : Vec F S10000x128 .f32) (y : S10000x128.Idx) :
    ∃ pc ∈ ([⟨r5_o, p0⟩] : List (View.Piece (Elt F) S10000x128 .f32)), y ∈ pc.1.set :=
  View.cover_of_tiled [⟨r5_o, p0⟩] S10000x128.size (by rfl) y

/-! ## The body's triple -/

set_option maxHeartbeats 1000000 in
/-- The kernel body on whole staging memrefs, the inputs' at read contents `x0 … x5` and the output's at anything,
    runs to the continuation holding the inputs' as they were and the output's at `out5_6` of the inputs'. -/
theorem sound_kernel5 (c : Dev nD) (E : Set ℕ) (i : grid5.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole)
    (x0 : Vec F S10000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__norm_kernel i arg1 harg1 arg2 harg2 arg3 harg3 arg4 harg4 arg5 harg5 arg6 harg6 arg7 harg7) K := by
  simp only [cc5__norm_kernel_eq_skeleton]; unfold cc5__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: the arrays as the region finds them (`V`); after the body at point `t`
    each input's buffer at its block and the output's at `out5_6` of the input blocks; the invariant is the scoped
    buffers no window stages and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region

end Cert.KernelIdeal.Hand

end
-- ==== Proof.KI.Reg5.lean ====
/-
  Region 5 of the idealized kernel's @main (the normalise + LeakyReLU kernel at width 128) as a segment of @main:
  the record `reg5` for any family of proof data whose member 5 is `dat5`, entered from every unscoped buffer at
  `W₁` and left at `W₂`, where `W₂` holds at each of the region's arrays what the pipeline's write-backs leave and
  elsewhere what `W₁` held; and the two facts that make `W₂ := W₁` updated at the output array `main_v85` such a
  valuation (`hF5_update`, `hrest5_update`): the six input arrays are never written back, so they end as
  entered, and the output array is the only one of the region's arrays that differs.
-/
import proofs.«109725_j21638045237575_1_alg».proof.Proof.KI.Reg5Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The exit valuation: the entry valuation updated at the output array -/

section Update

variable (W₁ : Dev nD → Valuation τ sig (Elt F)) (c : Dev nD) (x : Buf (Elt F) ((c : Thread nD τ).loc main_v85))

/-- An input window's array is never written back, so after all the points it holds what the region found, and the
    update at the output array does not touch it. -/
theorem hF5_in (w : Fin cfg5.W) (hin : (cfg5.win w).isOut = false) (hne : Pipeline.arrRef spec5 w ≠ main_v85) :
    (dat5 (F := F) (fun c b => W₁ c b) c).arrAt w cfg5.N = Function.update (W₁ c) main_v85 x (Pipeline.arrRef spec5 w) :=
  ((dat5 (F := F) (fun c b => W₁ c b) c).arrAt_in w hin _).trans
    ((A_eq5 (fun c b => W₁ c b) c w).trans (Function.update_of_ne (StableHlo.devRef_ne_of_ne hne) _ _).symm)

/-- Every window but the last is an input, staged from an array other than the output array. -/
theorem in_ne5 : ∀ w : Fin cfg5.W, w ≠ 6 → (cfg5.win w).isOut = false ∧ Pipeline.arrRef spec5 w ≠ main_v85 := by decide

/-- Each of the region's arrays after all the points is what the entry valuation updated at the output array holds
    there, when the update's value `x` is what the pipeline's write-backs leave in the output array. -/
theorem hF5_update (hx : x = (dat5 (F := F) (fun c b => W₁ c b) c).arrAt 6 cfg5.N) :
    ∀ w : Fin cfg5.W, (dat5 (F := F) (fun c b => W₁ c b) c).arrAt w cfg5.N = Function.update (W₁ c) main_v85 x (Pipeline.arrRef spec5 w) := fun w => by
  by_cases h : w = 6
  · subst h hx
    exact (Function.update_self (Proc.devRef .tc main_v85 : DevRef τ sig) _ (W₁ c)).symm
  · exact hF5_in W₁ c x w (in_ne5 w h).1 (in_ne5 w h).2

/-- Every buffer that is none of the region's arrays is not the output array, so the update leaves it as entered. -/
theorem hrest5_update : ∀ b : Ref sig .tc, b ∉ Finset.univ.image (Pipeline.arrRef spec5) → Function.update (W₁ c) main_v85 x b = W₁ c b :=
  fun b hb => Function.update_of_ne (StableHlo.devRef_ne_of_ne fun e =>
    hb (Finset.mem_image.mpr ⟨6, Finset.mem_univ _, (e.symm : Pipeline.arrRef spec5 6 = b)⟩)) _ _

end Update

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest5 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 5 over the thread state "every unscoped buffer whole at a valuation, the generator register at some state,
    nothing owed": entered from the buffers at `W₁`, left at `W₂`, for any family of proof data whose member 5 is
    `dat5` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg5 (hp : ∀ c, pdats 5 c = dat5 (fun c b => W₁ c b) c)
    (hF : ∀ c w, (dat5 (F := F) (fun c b => W₁ c b) c).arrAt w cfg5.N = W₂ c (Pipeline.arrRef spec5 w))
    (hrest : ∀ c (b : Ref sig .tc), b ∉ Finset.univ.image (Pipeline.arrRef spec5) → W₂ c b = W₁ c b) :
    Pipeline.RegionSeg (pcfgs (F := F)) adm pdats () defs₀ Variants.none L lv 5 where
  win := launch5.win.to₀
  block_pos := launch5.block_pos
  stage_whole := launch5.stage_whole
  K := PEmpty
  osem k := k.elim
  ho := Pipeline.OwnSemFacts.none _
  hbody c := by rw [hp c]; exact (body_obligation5 (fun c b => W₁ c b) c).loose
  hwaits := Pipeline.hwaits_of_owed_zero _ _ _ _ L lv 5 fun c _ => by rw [hp c]; rfl
  pre c := iprop(StableHlo.held (c : Thread nD τ) (Pipeline.ucRefs τ sig) (W₁ c) ∗ rest5 c)
  post c := iprop(StableHlo.held (c : Thread nD τ) (Pipeline.ucRefs τ sig) (W₂ c) ∗ rest5 c)
  X c := iprop(∃ r, prngReg c r)
  Y c := iprop(∃ r, prngReg c r)
  Z c := Pipeline.unscopedRest (Ix := Unit) (Name := ℕ) (U := UR sig nD τ) (Lvl := ℕ) spec5 c (fun b => W₁ c b)
  hentry c := by
    rw [Pipeline.ownSems0_none]
    have hq : ∀ w, (pdats 5 c).q w = fullShare := fun w => by rw [hp c]; rfl
    have hA : ∀ w, (pdats 5 c).A w = (fun b : Ref sig .tc => W₁ c b) (Pipeline.arrRef spec5 w) := fun w => by rw [hp c]; rfl
    have hsplit := Pipeline.arrays_of_unscopedBufs (p := 5) (pcfgs (F := F)) adm pdats launch5.win launch5.arr_whole c
      ((pdats 5 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; rw [hp c]; exact fun _ _ => Or.inl trivial
      rw [show (pdats 5 c).owed 0 = 0 from by rw [hp c]; rfl]
      iexact HO
    isplitl [Hp]; · iexact Hp
    iexact Hrest
  hin c := by
    rw [show (pdats 5 c).Φ 0 = Pipeline.ΦA spec5 c from by rw [hp c]; rfl]; unfold Pipeline.ΦA
    iintro ⟨Hp, -, Hr⟩
    isplitl [Hr]; · iexact Hr
    iexact Hp
  hout c := by
    rw [Pipeline.ownSems0_none, show (pdats 5 c).Φ (Fin.last _) = Pipeline.ΦA spec5 c from by rw [hp c]; rfl]; unfold Pipeline.ΦA
    iintro ⟨Hr, Hp⟩
    isplitl [Hp]; · iexact Hp
    isplitr; · iempintro
    iexact Hr
  hexit c := by
    have hq : ∀ w, (pdats 5 c).q w = fullShare := fun w => by rw [hp c]; rfl
    have hjoin := Pipeline.unscopedBufs_of_arrays (p := 5) (pcfgs (F := F)) adm (Ix := Unit) (Name := ℕ) (U := UR sig nD τ) (Lvl := ℕ)
      launch5.win launch5.arr_whole c pdats ((pdats 5 c).share_full hq)
      (fun b => W₁ c b) (fun b => W₂ c b) ((pdats 5 c).arrAt · cfg5.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 5 c).owed (Fin.last _) = 0 from by rw [hp c]; rfl]
    iexact HO

end Record

end Cert.KernelIdeal.Hand

end
-- ==== Proof.KI.Reg6.lean ====
/-
  Region 6 of the idealized kernel's @main: the linear kernel y = x·W + bias at widths 128 → 128, over a grid of
  ten row tiles of 10000 rows. Its four windows are the row tile of x (fetched at every point), the weight matrix
  and the bias row (whole, fetched once: their block index never moves), and the row tile of the result (written
  back at every point). The body reads the three input blocks whole and stores one value over the whole output
  block, so what a point leaves in the output's staging buffer is a pure function of the three input blocks
  (`out6_3`), and the inputs' buffers are left as found.

  Stated here, at any float model `F` and at a PARAMETER `V` (the core's buffer contents when the region is
  entered): each window's block at a point (`iblk6`), the body's triple (`sound_kernel6`), the pipeline's proof
  data (`dat6`), the body obligation (`body_obligation6`), and the region as a segment record (`reg6`) for any
  family of proof data whose member 6 is `dat6`, entered from every unscoped buffer at `W₁` and left at `W₂`, where
  `W₂` holds at each of the region's arrays what the pipeline's write-backs leave and elsewhere what `W₁` held.
-/
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): where the window is not
    fetched its block index has not moved, so the block kept from the point before is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not, for any proof
    data whose array is `V`'s (`hA`) and whose body leaves the block in place (`hafter`): where the window is not
    fetched its block index has not moved, so the block kept from the point before is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not, for any proof
    data whose array is `V`'s (`hA`) and whose body leaves the block in place (`hafter`): where the window is not
    fetched its block index has not moved, so the block kept from the point before is this point's. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_x : Rect S10000x128 := Rect.unit (s := S10000x128) ![0, 0] S10000x128.size inb_S10000x128_S10000x128_0_0
abbrev r6_w : Rect S128x128 := Rect.unit (s := S128x128) ![0, 0] S128x128.size inb_S128x128_S128x128_0_0
abbrev r6_b : Rect S1x128 := Rect.unit (s := S1x128) ![0, 0] S1x128.size inb_S1x128_S1x128_0_0
abbrev r6_o : Rect S10000x128 := Rect.unit (s := S10000x128) ![0, 0] S10000x128.size inb_S10000x128_S10000x128_0_0

/-! ## What the body leaves in the output window's buffer -/

/-- Window 3's staging buffer after the body, from the input windows' blocks: its one store, of the payload
    x·W + bias computed from the three blocks read whole. -/
def out6_3 (x0 : Vec F S10000x128 .f32) (x1 : Vec F S128x128 .f32) (x2 : Vec F S1x128 .f32) : Vec F S10000x128 .f32 :=
  View.canon [⟨r6_o, k6_pay1 (View.ld x0 r6_x) (View.ld x1 r6_w) (View.ld x2 r6_b)⟩]

/-- The one store is over the whole buffer, so it covers it. -/
theorem cover6_3 (p0 : Vec F S10000x128 .f32) (y : S10000x128.Idx) :
    ∃ pc ∈ ([⟨r6_o, p0⟩] : List (View.Piece (Elt F) S10000x128 .f32)), y ∈ pc.1.set :=
  View.cover_of_tiled [⟨r6_o, p0⟩] S10000x128.size (by rfl) y

/-! ## The body's triple -/

set_option maxHeartbeats 1000000 in
/-- The kernel body on whole staging memrefs, the inputs' at read contents `x0 x1 x2` and the output's at anything,
    runs to the continuation holding the inputs' as they were and the output's at `out6_3` of the inputs'. -/
theorem sound_kernel6 (c : Dev nD) (E : Set ℕ) (i : grid6.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at point `t`
    each input's buffer at its block and the output's at `out6_3` of the input blocks; the invariant is the scoped
    buffers no window stages and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest6 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 6 over the thread state "every unscoped buffer whole at a valuation, the generator register at some state,
    nothing owed": entered from the buffers at `W₁`, left at `W₂`, for any family of proof data whose member 6 is
    `dat6` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg6 (hp : ∀ c, pdats 6 c = dat6 (fun c b => W₁ c b) c)
    (hF : ∀ c w, (dat6 (F := F) (fun c b => W₁ c b) c).arrAt w cfg6.N = W₂ c (Pipeline.arrRef spec6 w))
    (hrest : ∀ c (b : Ref sig .tc), b ∉ Finset.univ.image (Pipeline.arrRef spec6) → W₂ c b = W₁ c b) :
    Pipeline.RegionSeg (pcfgs (F := F)) adm pdats () defs₀ Variants.none L lv 6 where
  win := launch6.win.to₀
  block_pos := launch6.block_pos
  stage_whole := launch6.stage_whole
  K := PEmpty
  osem k := k.elim
  ho := Pipeline.OwnSemFacts.none _
  hbody c := by rw [hp c]; exact (body_obligation6 (fun c b => W₁ c b) c).loose
  hwaits := Pipeline.hwaits_of_owed_zero _ _ _ _ L lv 6 fun c _ => by rw [hp c]; rfl
  pre c := iprop(StableHlo.held (c : Thread nD τ) (Pipeline.ucRefs τ sig) (W₁ c) ∗ rest6 c)
  post c := iprop(StableHlo.held (c : Thread nD τ) (Pipeline.ucRefs τ sig) (W₂ c) ∗ rest6 c)
  X c := iprop(∃ r, prngReg c r)
  Y c := iprop(∃ r, prngReg c r)
  Z c := Pipeline.unscopedRest (Ix := Unit) (Name := ℕ) (U := UR sig nD τ) (Lvl := ℕ) spec6 c (fun b => W₁ c b)
  hentry c := by
    rw [Pipeline.ownSems0_none]
    have hq : ∀ w, (pdats 6 c).q w = fullShare := fun w => by rw [hp c]; rfl
    have hA : ∀ w, (pdats 6 c).A w = (fun b : Ref sig .tc => W₁ c b) (Pipeline.arrRef spec6 w) := fun w => by rw [hp c]; rfl
    have hsplit := Pipeline.arrays_of_unscopedBufs (p := 6) (pcfgs (F := F)) adm pdats launch6.win launch6.arr_whole c
      ((pdats 6 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 6 c).Φ 0 = Pipeline.ΦA spec6 c from by rw [hp c]; rfl]; unfold Pipeline.ΦA
    iintro ⟨Hp, -, Hr⟩
    isplitl [Hr]; · iexact Hr
    iexact Hp
  hout c := by
    rw [Pipeline.ownSems0_none, show (pdats 6 c).Φ (Fin.last _) = Pipeline.ΦA spec6 c from by rw [hp c]; rfl]; unfold Pipeline.ΦA
    iintro ⟨Hr, Hp⟩
    isplitl [Hp]; · iexact Hp
    isplitr; · iempintro
    iexact Hr
  hexit c := by
    have hq : ∀ w, (pdats 6 c).q w = fullShare := fun w => by rw [hp c]; rfl
    have hjoin := Pipeline.unscopedBufs_of_arrays (p := 6) (pcfgs (F := F)) adm (Ix := Unit) (Name := ℕ) (U := UR sig nD τ) (Lvl := ℕ)
      launch6.win launch6.arr_whole c pdats ((pdats 6 c).share_full hq)
      (fun b => W₁ c b) (fun b => W₂ c b) ((pdats 6 c).arrAt · cfg6.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Record

/-! ## The exit valuation as an update of the entry valuation at the result's buffer -/

section Update

variable (W₁ : Dev nD → Valuation τ sig (Elt F))

/-- A property of the four windows, checked window by window. -/
private theorem fin4_cases {P : Fin 4 → Prop} (h0 : P 0) (h1 : P 1) (h2 : P 2) (h3 : P 3) : ∀ w, P w
  | ⟨0, _⟩ => h0
  | ⟨1, _⟩ => h1
  | ⟨2, _⟩ => h2
  | ⟨3, _⟩ => h3

/-- When the exit valuation is the entry valuation updated at the result's buffer `main_v88` with what the pipeline's
    write-backs leave in it, every array of the region holds there what the pipeline leaves: an input's array is never
    written and is not the result's buffer; the result's array is the updated one. -/
theorem hF6_update (c : Dev nD) (x : Buf (Elt F) ((c : Thread nD τ).loc main_v88))
    (hx : x = (dat6 (F := F) (fun c b => W₁ c b) c).arrAt 3 cfg6.N) :
    ∀ w, (dat6 (F := F) (fun c b => W₁ c b) c).arrAt w cfg6.N = Function.update (W₁ c) main_v88 x (Pipeline.arrRef spec6 w) :=
  fin4_cases (P := fun w => (dat6 (F := F) (fun c b => W₁ c b) c).arrAt w cfg6.N = Function.update (W₁ c) main_v88 x (Pipeline.arrRef spec6 w))
    (((dat6 (F := F) (fun c b => W₁ c b) c).arrAt_in 0 rfl _).trans ((A_eq6 (fun c b => W₁ c b) c 0).trans (Function.update_of_ne (StableHlo.devRef_ne_of_ne (by decide)) _ _).symm))
    (((dat6 (F := F) (fun c b => W₁ c b) c).arrAt_in 1 rfl _).trans ((A_eq6 (fun c b => W₁ c b) c 1).trans (Function.update_of_ne (StableHlo.devRef_ne_of_ne (by decide)) _ _).symm))
    (((dat6 (F := F) (fun c b => W₁ c b) c).arrAt_in 2 rfl _).trans ((A_eq6 (fun c b => W₁ c b) c 2).trans (Function.update_of_ne (StableHlo.devRef_ne_of_ne (by decide)) _ _).symm))
    (hx.symm.trans (Function.update_self (β := fun b : DevRef τ sig => b.ty.Contents (Elt F)) _ _ _).symm)

/-- and every buffer that is no array of the region holds what it held at entry. -/
theorem hrest6_update (c : Dev nD) (x : Buf (Elt F) ((c : Thread nD τ).loc main_v88)) :
    ∀ b : Ref sig .tc, b ∉ Finset.univ.image (Pipeline.arrRef spec6) → Function.update (W₁ c) main_v88 x b = W₁ c b :=
  fun b hb => Function.update_of_ne (StableHlo.devRef_ne_of_ne fun e => hb (Finset.mem_image.mpr ⟨3, Finset.mem_univ _, e.symm⟩)) _ _

end Update

end Cert.KernelIdeal.Hand

end
-- ==== Proof.KI.Reg7Run.lean ====
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.KI.StatLib
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the third layer (128 columns): the body's three control cases

The body adds the bias row to its block of 10000 rows, adds the column sums of the result and of its square to two
carried rows, having first zeroed those rows at the first grid point, and at the last grid point divides both rows
by the number of rows and writes the mean and the mean of squares less the squared mean. -/

/-- The first conditional (zero the two carried rows): taken where the grid coordinate is 0. -/
abbrev cond7_0 (i : grid7.Coords) : Prop :=
  (Scalar.cmpi .ne (Scalar.extui (Scalar.cmpi .eq (BitVec.ofNat 32 (i 0).val) 0#32)) 0#32) = 1#1
/-- The second conditional (write the two outputs): taken where the grid coordinate is 9. -/
abbrev cond7_1 (i : grid7.Coords) : Prop := k7_cond2 i = 1#1

theorem hcond7_0 : ∀ t : Fin cfg7.N, cond7_0 (grid7.coords t) ↔ t.val = 0 :=
  (by decide +kernel : ∀ t : Fin grid7.N, cond7_0 (grid7.coords t) ↔ t.val = 0)
theorem hcond7_1 : ∀ t : Fin cfg7.N, cond7_1 (grid7.coords t) ↔ t.val = 9 :=
  (by decide +kernel : ∀ t : Fin grid7.N, cond7_1 (grid7.coords t) ↔ t.val = 9)

set_option maxHeartbeats 1000000 in
/-- A middle grid point: neither conditional is taken; the carried rows `s5`, `s6` receive the block's column sums. -/
theorem sound_kernel7_B (c : Dev nD) (E : Set ℕ) (i : grid7.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬ cond7_0 i) (hc1 : ¬ cond7_1 i)
    (x0 : Vec F S10000x128 .f32) (x1 : Vec F S1x128 .f32) (s5 s6 : Vec F S1x128 .f32) (K : PUnit → sProp 𝕄) :
    iprop(owns (c : Thread nD τ) arg1 fullShare x0 ∗ owns (c : Thread nD τ) arg2 fullShare x1 ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg5 fullShare (k7_pay4 x0 x1 s5) ∗ owns (c : Thread nD τ) arg6 fullShare (k7_pay5 x0 x1 s6)) -∗ K ⟨⟩))
      ⊢ wp frame (wpE (defs₀ (F := F)) Variants.none c none) E (cc7__reduce_kernel i arg1 harg1 arg2 harg2 arg3 harg3 arg4 harg4 arg5 harg5 arg6 harg6) K := by
  simp only [cc7__reduce_kernel_eq_skeleton]; unfold cc7__reduce_kernel_skel
  unfold owns
  iintro ⟨⟨%f0, %hf0, H0⟩, ⟨%f1, %hf1, H1⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store _ _ stat_off2_zero]
    simp only [View.readAt_eq_ld, View.ld_unit_zero (S := S10000x128) stat_off2_zero, View.ld_unit_zero (S := S1x128) stat_off2_zero]
  · iexists _; isplitr
    swap; · iexact H6
    ipureintro
    rw [stat_read_store _ _ stat_off2_zero]
    simp only [View.readAt_eq_ld, View.ld_unit_zero (S := S10000x128) stat_off2_zero, View.ld_unit_zero (S := S1x128) stat_off2_zero]

set_option maxHeartbeats 1000000 in
/-- The first grid point: the carried rows are zeroed, whatever they held, then receive the block's column sums. -/
theorem sound_kernel7_A (c : Dev nD) (E : Set ℕ) (i : grid7.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (hc1 : ¬ cond7_1 i)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg5 fullShare (k7_pay4 x0 x1 k7_pay1) ∗ owns (c : Thread nD τ) arg6 fullShare (k7_pay5 x0 x1 k7_pay2)) -∗ K ⟨⟩))
      ⊢ wp frame (wpE (defs₀ (F := F)) Variants.none c none) E (cc7__reduce_kernel i arg1 harg1 arg2 harg2 arg3 harg3 arg4 harg4 arg5 harg5 arg6 harg6) K := by
  simp only [cc7__reduce_kernel_eq_skeleton]; unfold cc7__reduce_kernel_skel
  unfold owns
  iintro ⟨⟨%f0, %hf0, H0⟩, ⟨%f1, %hf1, H1⟩, ⟨%d5, %f5, -, H5⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store_cons _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"
  · iexists _; isplitr
    swap; · iexact H6
    ipureintro
    rw [stat_read_store_cons _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"

set_option maxHeartbeats 1000000 in
/-- The last grid point: the carried rows receive the block's column sums, then the two outputs are written from them. -/
theorem sound_kernel7_C (c : Dev nD) (E : Set ℕ) (i : grid7.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬ cond7_0 i) (hc1 : cond7_1 i)
    (x0 : Vec F S10000x128 .f32) (x1 : Vec F S1x128 .f32) (s5 s6 : Vec F S1x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg3 fullShare (k7_pay6 (k7_pay4 x0 x1 s5)) ∗ owns (c : Thread nD τ) arg4 fullShare (k7_pay7 (k7_pay4 x0 x1 s5) (k7_pay5 x0 x1 s6))
            ∗ owns (c : Thread nD τ) arg5 fullShare (k7_pay4 x0 x1 s5) ∗ owns (c : Thread nD τ) arg6 fullShare (k7_pay5 x0 x1 s6)) -∗ K ⟨⟩))
      ⊢ wp frame (wpE (defs₀ (F := F)) Variants.none c none) E (cc7__reduce_kernel i arg1 harg1 arg2 harg2 arg3 harg3 arg4 harg4 arg5 harg5 arg6 harg6) K := by
  simp only [cc7__reduce_kernel_eq_skeleton]; unfold cc7__reduce_kernel_skel
  unfold owns
  iintro ⟨⟨%f0, %hf0, H0⟩, ⟨%f1, %hf1, H1⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [stat_read_store _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"
  isplitl [H4]
  · iexists _; isplitr
    swap; · iexact H4
    ipureintro
    rw [stat_read_store _ _ stat_off2_zero]
    sl_unfold_run_names
    first | (simp only [View.readAt_eq_ld, View.readCov_unit_zero (S := S1x128) _ stat_off2_zero, View.ld_unit_zero (S := S10000x128) stat_off2_zero, View.ld_unit_zero (S := S1x128) stat_off2_zero]) | fail "simp set did not close the read-back"
  isplitl [H5]
  · iexists _; isplitr
    swap; · iexact H5
    ipureintro
    sl_unfold_run_names
    rw [stat_read_store_cons _ _ stat_off2_zero]
    first | (simp only [View.readAt_eq_ld, View.readCov_unit_zero (S := S1x128) _ stat_off2_zero, View.ld_unit_zero (S := S10000x128) stat_off2_zero, View.ld_unit_zero (S := S1x128) stat_off2_zero]) | fail "simp set did not close the read-back"
  · iexists _; isplitr
    swap; · iexact H6
    ipureintro
    sl_unfold_run_names
    rw [stat_read_store_cons _ _ stat_off2_zero]
    first | (simp only [View.readAt_eq_ld, View.readCov_unit_zero (S := S1x128) _ stat_off2_zero, View.ld_unit_zero (S := S10000x128) stat_off2_zero, View.ld_unit_zero (S := S1x128) stat_off2_zero]) | fail "simp set did not close the read-back"

end Cert.KernelIdeal.Hand

end
-- ==== Proof.KI.Reg7.lean ====
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import proofs.«109725_j21638045237575_1_alg».proof.Proof.KI.Reg7Run
import Idealize.ShloMosaic.Lib.Pipeline.Frame
import Idealize.ShloMosaic.Lib.Pipeline.FrameBody
import Idealize.ShloMosaic.Lib.Pipeline.Kit
import Idealize.ShloMosaic.Lib.Pipeline.Regions
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the third layer (128 columns) as a region of @main

Ten grid points, each a block of 10000 rows of the aggregated features. Two rows of 128 are carried from point to
point in scratch memory: the column sums of (block + bias) and of its square over the blocks seen so far. The first
point zeroes them first; the last point writes mean = sum / 100000 and var = sumsq / 100000 − mean · mean into the
two outputs' staging buffers, which are written back there and nowhere else; at the other points the body leaves
the outputs' buffers as it found them. -/

section Region

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The block of aggregated rows is in its staging buffer at every point, for any proof data over `V` whose body
    leaves it there. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The bias row is in its staging buffer at every point (fetched once: its block index never moves). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The carried rows -/

/-- The two carried rows when the accumulation of point `t` starts: both zero at the first point (after its zeroing),
    and after each point the sums of (block + bias), and of its square, down the block's columns added — a fold of the
    body's payload terms over the blocks seen so far, first component the sums, second the sums of squares. -/
def scr7 (c : Dev nD) : ℕ → Vec F S1x128 .f32 × Vec F S1x128 .f32
  | 0 => (k7_pay1, k7_pay2)
  | t + 1 =>
    if h : t < cfg7.N then
      (k7_pay4 (iblk7 V c 0 ⟨t, h⟩) (iblk7 V c 1 ⟨t, h⟩) (scr7 c t).1,
       k7_pay5 (iblk7 V c 0 ⟨t, h⟩) (iblk7 V c 1 ⟨t, h⟩) (scr7 c t).2)
    else scr7 c t

theorem scr7_zero (c : Dev nD) : scr7 V c 0 = (k7_pay1, k7_pay2) := by rw [scr7]

/-- One point's step of the fold. -/
theorem scr7_succ (c : Dev nD) (t : Fin cfg7.N) :
    scr7 V c (t.val + 1) = (k7_pay4 (iblk7 V c 0 t) (iblk7 V c 1 t) (scr7 V c t.val).1,
      k7_pay5 (iblk7 V c 0 t) (iblk7 V c 1 t) (scr7 V c t.val).2) := by
  rw [scr7, dif_pos t.isLt]

/-- The scratch rows between points, as the invariant holds them: before the first point at anything, before point
    `n > 0` at the fold's value there. -/
def scrAt7 (c : Dev nD) (n : ℕ) : sProp 𝕄 :=
  if n = 0 then
    iprop((∃ d, owns (c : Thread nD τ) (Memref.whole cc7_scratch0 : Memref sig .tc .vmem S1x128 .f32) fullShare d) ∗ (∃ d, owns (c : Thread nD τ) (Memref.whole cc7_scratch1 : Memref sig .tc .vmem S1x128 .f32) fullShare d))
  else
    iprop(owns (c : Thread nD τ) (Memref.whole cc7_scratch0 : Memref sig .tc .vmem S1x128 .f32) fullShare (scr7 V c n).1 ∗ owns (c : Thread nD τ) (Memref.whole cc7_scratch1 : Memref sig .tc .vmem S1x128 .f32) fullShare (scr7 V c n).2)

theorem scrAt7_zero (c : Dev nD) :
    scrAt7 V c 0 = iprop((∃ d, owns (c : Thread nD τ) (Memref.whole cc7_scratch0 : Memref sig .tc .vmem S1x128 .f32) fullShare d) ∗ (∃ d, owns (c : Thread nD τ) (Memref.whole cc7_scratch1 : Memref sig .tc .vmem S1x128 .f32) fullShare d)) := by
  unfold scrAt7; rw [if_pos rfl]

theorem scrAt7_pos (c : Dev nD) (n : ℕ) (h : n ≠ 0) :
    scrAt7 V c n = iprop(owns (c : Thread nD τ) (Memref.whole cc7_scratch0 : Memref sig .tc .vmem S1x128 .f32) fullShare (scr7 V c n).1 ∗ owns (c : Thread nD τ) (Memref.whole cc7_scratch1 : Memref sig .tc .vmem S1x128 .f32) fullShare (scr7 V c n).2) := by
  unfold scrAt7; rw [if_neg h]

/-! ## The pipeline's proof data -/

/-- The proof data of the pipeline on core `c`: the arrays as the region finds them; each input's buffer left at its
    block; the mean's and the variance's buffers, where the body stores them (the last point), at the body's two last
    payload terms of the carried rows after that point's accumulation; the invariant the scoped buffers other than
    the two scratch rows, the generator register, and the scratch rows at the fold's value; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => k7_pay6 (scr7 V c (t.val + 1)).1
    | ⟨3, _⟩ => k7_pay7 (scr7 V c (t.val + 1)).1 (scr7 V c (t.val + 1)).2
  Φ t := iprop(Pipeline.scopedRestBut (Ix := Unit) (Name := ℕ) (U := UR sig nD τ) (Lvl := ℕ) (Val := Elt F) spec7 c [cc7_scratch0, cc7_scratch1]
    ∗ (∃ r, prngReg c r) ∗ scrAt7 V c t.val)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = k7_pay6 (scr7 V c (t.val + 1)).1 := by dsimp only [dat7]
theorem after7_3 (c : Dev nD) (t : Fin cfg7.N) :
    (dat7 V c).after 3 t = k7_pay7 (scr7 V c (t.val + 1)).1 (scr7 V c (t.val + 1)).2 := by dsimp only [dat7]

theorem Φ7_eq (c : Dev nD) (t : Fin (cfg7.N + 1)) :
    (dat7 V c).Φ t = iprop(Pipeline.scopedRestBut (Ix := Unit) (Name := ℕ) (U := UR sig nD τ) (Lvl := ℕ) (Val := Elt F) spec7 c [cc7_scratch0, cc7_scratch1]
      ∗ (∃ r, prngReg c r) ∗ scrAt7 V c t.val) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- The two outputs' buffers are idle (the body stores nothing there) at every point but the last, -/
theorem idle7_2 : ∀ t : Fin cfg7.N, cfg7.idle 2 (cfg7.grid.coords t) = true ↔ t.val ≠ 9 :=
  (by decide +kernel : ∀ t : Fin grid7.N, cfg7.idle 2 (grid7.coords t) = true ↔ t.val ≠ 9)
theorem idle7_3 : ∀ t : Fin cfg7.N, cfg7.idle 3 (cfg7.grid.coords t) = true ↔ t.val ≠ 9 :=
  (by decide +kernel : ∀ t : Fin grid7.N, cfg7.idle 3 (grid7.coords t) = true ↔ t.val ≠ 9)

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns: the two outputs' buffers as found where they are idle, at the stated contents at the last point. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ (dat7 V c).leavesExact 2 t
    ∗ (dat7 V c).leavesExact 3 t)

set_option maxHeartbeats 1000000 in
/-- The body at any point, by the three control cases: at the first point the scratch rows are found at anything and
    left at the fold's first step; at a middle point found at the fold's value and left at its next; at the last point
    also the two outputs' buffers, found at anything, are left at the mean and the variance of the final rows. The
    rest of the invariant and the core's `owes` pass through unread; where an output's buffer is idle it is handed back
    as it was found. -/
theorem sound_body7 (c : Dev nD) (t : Fin cfg7.N) :
    bodyPre7 V c t ⊢ wp frame (wpE (defs₀ (F := F)) Variants.none c none) Set.univ (bodyAt7 t) (fun _ => bodyPost7 V c t) := by
  have hlt : t.val < 10 := by
    have h := t.isLt
    have hN : cfg7.N = 10 := N_7
    omega
  unfold bodyPre7 bodyPost7 bodyAt7
  simp only [before7_0, before7_1]
  rw [show (dat7 V c).owesAt () t.succ = (dat7 V c).owesAt () t.castSucc from rfl, after7_0, after7_1,
    Φ7_eq, Φ7_eq, Fin.val_succ, Fin.val_castSucc, scrAt7_pos V c (t.val + 1) (Nat.succ_ne_zero _), scr7_succ]
  by_cases h0 : t.val = 0
  · -- the first point
    have h9 : t.val ≠ 9 := by omega
    have hc0 : cond7_0 (grid7.coords t) := (hcond7_0 t).mpr h0
    have hc1 : ¬ cond7_1 (grid7.coords t) := fun h => h9 ((hcond7_1 t).mp h)
    rw [Dat.leavesExact_idle _ 2 t ((idle7_2 t).mpr h9) (by rw [Bool.eq_false_iff]; intro h; have := (flush7_2 t).mp h; omega),
      Dat.leavesExact_idle _ 3 t ((idle7_3 t).mpr h9) (by rw [Bool.eq_false_iff]; intro h; have := (flush7_3 t).mp h; omega),
      h0, scrAt7_zero, scr7_zero]
    iintro ⟨⟨Hrest, Hprng, H5, H6⟩, Ho, ⟨%d0, H0⟩, ⟨%d1, H1⟩, H2, H3⟩
    iapply (sound_kernel7_A c Set.univ (grid7.coords t) _ _ _ _ _ _ _ _ _ _ _ _ hc0 hc1 (iblk7 V c 0 t) (iblk7 V c 1 t) _)
    isplitl [H0]; · iexact H0
    isplitl [H1]; · iexact H1
    isplitl [H5]; · iexact H5
    isplitl [H6]; · iexact H6
    iintro ⟨H0, H1, H5, H6⟩
    isplitl [Hrest Hprng H5 H6]
    · isplitl [Hrest]; · iexact Hrest
      isplitl [Hprng]; · iexact Hprng
      isplitl [H5]; · iexact H5
      iexact H6
    isplitl [Ho]; · iexact Ho
    isplitl [H0]; · iexact H0
    isplitl [H1]; · iexact H1
    isplitl [H2]; · iexact H2
    iexact H3
  · by_cases h9 : t.val = 9
    · -- the last point
      have hc0 : ¬ cond7_0 (grid7.coords t) := fun h => h0 ((hcond7_0 t).mp h)
      have hc1 : cond7_1 (grid7.coords t) := (hcond7_1 t).mpr h9
      have hi2 : cfg7.idle 2 (cfg7.grid.coords t) = false := by
        rw [Bool.eq_false_iff]; intro h; exact (idle7_2 t).mp h h9
      have hi3 : cfg7.idle 3 (cfg7.grid.coords t) = false := by
        rw [Bool.eq_false_iff]; intro h; exact (idle7_3 t).mp h h9
      rw [scrAt7_pos V c t.val h0]
      unfold Dat.leavesExact
      rw [hi2]
      try rw [hi3]
      dsimp only
      rw [after7_2, after7_3, scr7_succ]
      iintro ⟨⟨Hrest, Hprng, H5, H6⟩, Ho, ⟨%d0, H0⟩, ⟨%d1, H1⟩, ⟨%d2, H2⟩, ⟨%d3, H3⟩⟩
      iapply (sound_kernel7_C c Set.univ (grid7.coords t) _ _ _ _ _ _ _ _ _ _ _ _ hc0 hc1 (iblk7 V c 0 t) (iblk7 V c 1 t)
        (scr7 V c t.val).1 (scr7 V c t.val).2 _)
      isplitl [H0]; · iexact H0
      isplitl [H1]; · iexact H1
      isplitl [H2]; · iexists _; iexact H2
      isplitl [H3]; · iexists _; iexact H3
      isplitl [H5]; · iexact H5
      isplitl [H6]; · iexact H6
      iintro ⟨H0, H1, H2, H3, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3
    · -- a middle point
      have hc0 : ¬ cond7_0 (grid7.coords t) := fun h => h0 ((hcond7_0 t).mp h)
      have hc1 : ¬ cond7_1 (grid7.coords t) := fun h => h9 ((hcond7_1 t).mp h)
      rw [Dat.leavesExact_idle _ 2 t ((idle7_2 t).mpr h9) (by rw [Bool.eq_false_iff]; intro h; have := (flush7_2 t).mp h; omega),
        Dat.leavesExact_idle _ 3 t ((idle7_3 t).mpr h9) (by rw [Bool.eq_false_iff]; intro h; have := (flush7_3 t).mp h; omega),
        scrAt7_pos V c t.val h0]
      iintro ⟨⟨Hrest, Hprng, H5, H6⟩, Ho, ⟨%d0, H0⟩, ⟨%d1, H1⟩, H2, H3⟩
      iapply (sound_kernel7_B c Set.univ (grid7.coords t) _ _ _ _ _ _ _ _ _ _ _ _ hc0 hc1 (iblk7 V c 0 t) (iblk7 V c 1 t)
        (scr7 V c t.val).1 (scr7 V c t.val).2 _)
      isplitl [H0]; · iexact H0
      isplitl [H1]; · iexact H1
      isplitl [H5]; · iexact H5
      isplitl [H6]; · iexact H6
      iintro ⟨H0, H1, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest7 (c : Dev nD) : sProp 𝕄 := iprop((∃ r, prngReg c r) ∗ ∃ W, owes (c : Thread nD τ) (0 : CellTallies nD τ sig Unit) W)

/-- The grid is not empty. -/
theorem N7_ne_zero : cfg7.N ≠ 0 := by
  show grid7.N ≠ 0
  rw [N_7]; decide

-- a library lemma stated over the pinned configuration unifies with the printed one only when unification may unfold
-- plain definitions in a metavariable's type
set_option backward.isDefEq.respectTransparency.types false in
/-- The region over the thread state "every unscoped buffer whole at a valuation, the generator register at some state,
    nothing owed": entered from the buffers at `W₁`, left at `W₂`, for any family of proof data whose member 7 is
    `dat7` at `W₁` (`hp`), when `W₂` has each of the region's arrays at what the pipeline leaves there (`hF`) and every
    other buffer as `W₁` (`hrest`). The arrays are split out of the unscoped buffers at entry and put back at exit; the
    generator register goes into the invariant and comes back; of the scoped buffers no window stages, the kernel's two
    scratch rows are split off into the invariant at entry (held at anything before the first point) and, at the fold's
    last value, forgotten back into them at exit; the kernel has no semaphore of its own. -/
def reg7 (hp : ∀ c, pdats 7 c = dat7 (fun c b => W₁ c b) c)
    (hF : ∀ c w, (dat7 (F := F) (fun c b => W₁ c b) c).arrAt w cfg7.N = W₂ c (Pipeline.arrRef spec7 w))
    (hrest : ∀ c (b : Ref sig .tc), b ∉ Finset.univ.image (Pipeline.arrRef spec7) → W₂ c b = W₁ c b) :
    Pipeline.RegionSeg (pcfgs (F := F)) adm pdats () defs₀ Variants.none L lv 7 where
  win := launch7.win.to₀
  block_pos := launch7.block_pos
  stage_whole := launch7.stage_whole
  K := PEmpty
  osem k := k.elim
  ho := Pipeline.OwnSemFacts.none _
  hbody c := by rw [hp c]; exact (body_obligation7 (fun c b => W₁ c b) c).loose
  hwaits := Pipeline.hwaits_of_owed_zero _ _ _ _ L lv 7 fun c _ => by rw [hp c]; rfl
  pre c := iprop(StableHlo.held (c : Thread nD τ) (Pipeline.ucRefs τ sig) (W₁ c) ∗ rest7 c)
  post c := iprop(StableHlo.held (c : Thread nD τ) (Pipeline.ucRefs τ sig) (W₂ c) ∗ rest7 c)
  X c := iprop(∃ r, prngReg c r)
  Y c := iprop(∃ r, prngReg c r)
  Z c := Pipeline.unscopedRest (Ix := Unit) (Name := ℕ) (U := UR sig nD τ) (Lvl := ℕ) spec7 c (fun b => W₁ c b)
  hentry c := by
    rw [Pipeline.ownSems0_none]
    have hq : ∀ w, (pdats 7 c).q w = fullShare := fun w => by rw [hp c]; rfl
    have hA : ∀ w, (pdats 7 c).A w = (fun b : Ref sig .tc => W₁ c b) (Pipeline.arrRef spec7 w) := fun w => by rw [hp c]; rfl
    have hsplit := Pipeline.arrays_of_unscopedBufs (p := 7) (pcfgs (F := F)) adm pdats launch7.win launch7.arr_whole c
      ((pdats 7 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; trivial)
      rw [show (pdats 7 c).owed 0 = 0 from by rw [hp c]; rfl]
      iexact HO
    isplitl [Hp]; · iexact Hp
    iexact Hrest
  hin c := by
    rw [show (pdats 7 c).Φ 0 = (dat7 (fun c b => W₁ c b) c).Φ 0 from by rw [hp c], Φ7_eq,
      show ((0 : Fin (cfg7.N + 1)).val) = 0 from rfl, scrAt7_zero,
      show (Pipeline.scopedRest (Pipeline.pin (pcfgs (F := F)) adm 7).spec c : sProp 𝕄) = _ from
        scopedRest7_split (Ix := Unit) (Val := Elt F) (Name := ℕ) (U := UR sig nD τ) (Lvl := ℕ) c]
    simp only [owns_whole]
    iintro ⟨Hp, -, ⟨H5, H6⟩, Hr⟩
    isplitl [Hr]; · iexact Hr
    isplitl [Hp]; · iexact Hp
    isplitl [H5]; · iexact H5
    iexact H6
  hout c := by
    rw [Pipeline.ownSems0_none, show (pdats 7 c).Φ (Fin.last _) = (dat7 (fun c b => W₁ c b) c).Φ (Fin.last cfg7.N) from by rw [hp c]; rfl, Φ7_eq,
      Fin.val_last, scrAt7_pos _ c cfg7.N N7_ne_zero,
      show (Pipeline.scopedRest (Pipeline.pin (pcfgs (F := F)) adm 7).spec c : sProp 𝕄) = _ from
        scopedRest7_split (Ix := Unit) (Val := Elt F) (Name := ℕ) (U := UR sig nD τ) (Lvl := ℕ) c]
    simp only [owns_whole]
    iintro ⟨Hr, Hp, H5, H6⟩
    isplitl [Hp]; · iexact Hp
    isplitr; · iempintro
    isplitl [H5 H6]
    · isplitl [H5]
      · iexists _; iexact H5
      iexists _; iexact H6
    iexact Hr
  hexit c := by
    have hq : ∀ w, (pdats 7 c).q w = fullShare := fun w => by rw [hp c]; rfl
    have hjoin := Pipeline.unscopedBufs_of_arrays (p := 7) (pcfgs (F := F)) adm (Ix := Unit) (Name := ℕ) (U := UR sig nD τ) (Lvl := ℕ)
      launch7.win launch7.arr_whole c pdats ((pdats 7 c).share_full hq)
      (fun b => W₁ c b) (fun b => W₂ c b) ((pdats 7 c).arrAt · cfg7.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 7 c).owed (Fin.last _) = 0 from by rw [hp c]; rfl]
    iexact HO

end Record

end Cert.KernelIdeal.Hand

end
-- ==== Proof.KI.Reg7Upd.lean ====
import proofs.«109725_j21638045237575_1_alg».proof.Proof.KI.Reg7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region's exit valuation as an update of its entry valuation at the two results' buffers -/

section Update

variable (W₁ : Dev nD → Valuation τ sig (Elt F))

/-- Updating a valuation at the mean's buffer and at the variance's changes no other buffer. -/
theorem update7_of_ne (c : Dev nD) (x0 : Buf (Elt F) ((c : Thread nD τ).loc main_v108_0)) (x1 : Buf (Elt F) ((c : Thread nD τ).loc main_v108_1))
    (b : Ref sig .tc) (h0 : b ≠ main_v108_0) (h1 : b ≠ main_v108_1) :
    Function.update (Function.update (W₁ c) main_v108_0 x0) main_v108_1 x1 b = W₁ c b :=
  (Function.update_of_ne (StableHlo.devRef_ne_of_ne h1) x1 (Function.update (W₁ c) main_v108_0 x0)).trans
    (Function.update_of_ne (StableHlo.devRef_ne_of_ne h0) x0 (W₁ c))

/-- The update read at the variance's buffer, -/
theorem update7_at_3 (c : Dev nD) (x0 : Buf (Elt F) ((c : Thread nD τ).loc main_v108_0)) (x1 : Buf (Elt F) ((c : Thread nD τ).loc main_v108_1)) : Function.update (Function.update (W₁ c) main_v108_0 x0) main_v108_1 x1 main_v108_1 = x1 :=
  Function.update_self (β := fun b : DevRef τ sig => b.ty.Contents (Elt F)) (Proc.devRef .tc main_v108_1) x1 (Function.update (W₁ c) main_v108_0 x0)

/-- and at the mean's. -/
theorem update7_at_2 (c : Dev nD) (x0 : Buf (Elt F) ((c : Thread nD τ).loc main_v108_0)) (x1 : Buf (Elt F) ((c : Thread nD τ).loc main_v108_1)) : Function.update (Function.update (W₁ c) main_v108_0 x0) main_v108_1 x1 main_v108_0 = x0 :=
  (Function.update_of_ne (StableHlo.devRef_ne_of_ne (show (main_v108_0 : Ref sig .tc) ≠ main_v108_1 by decide)) x1 (Function.update (W₁ c) main_v108_0 x0)).trans
    (Function.update_self (β := fun b : DevRef τ sig => b.ty.Contents (Elt F)) (Proc.devRef .tc main_v108_0) x0 (W₁ c))

theorem hF7_update_0 (c : Dev nD) (x0 : Buf (Elt F) ((c : Thread nD τ).loc main_v108_0)) (x1 : Buf (Elt F) ((c : Thread nD τ).loc main_v108_1)) :
    (dat7 (F := F) (fun c b => W₁ c b) c).arrAt 0 cfg7.N = Function.update (Function.update (W₁ c) main_v108_0 x0) main_v108_1 x1 (Pipeline.arrRef spec7 0) :=
  ((dat7 (F := F) (fun c b => W₁ c b) c).arrAt_in 0 rfl _).trans ((A_eq7 (fun c b => W₁ c b) c 0).trans
      (update7_of_ne W₁ c x0 x1 (Pipeline.arrRef spec7 0) (by decide) (by decide)).symm)

theorem hF7_update_1 (c : Dev nD) (x0 : Buf (Elt F) ((c : Thread nD τ).loc main_v108_0)) (x1 : Buf (Elt F) ((c : Thread nD τ).loc main_v108_1)) :
    (dat7 (F := F) (fun c b => W₁ c b) c).arrAt 1 cfg7.N = Function.update (Function.update (W₁ c) main_v108_0 x0) main_v108_1 x1 (Pipeline.arrRef spec7 1) :=
  ((dat7 (F := F) (fun c b => W₁ c b) c).arrAt_in 1 rfl _).trans ((A_eq7 (fun c b => W₁ c b) c 1).trans
      (update7_of_ne W₁ c x0 x1 (Pipeline.arrRef spec7 1) (by decide) (by decide)).symm)

theorem hF7_update_2 (c : Dev nD) (x0 : Buf (Elt F) ((c : Thread nD τ).loc main_v108_0)) (x1 : Buf (Elt F) ((c : Thread nD τ).loc main_v108_1)) (hx0 : x0 = (dat7 (F := F) (fun c b => W₁ c b) c).arrAt 2 cfg7.N) :
    (dat7 (F := F) (fun c b => W₁ c b) c).arrAt 2 cfg7.N = Function.update (Function.update (W₁ c) main_v108_0 x0) main_v108_1 x1 (Pipeline.arrRef spec7 2) :=
  hx0.symm.trans (update7_at_2 W₁ c x0 x1).symm

theorem hF7_update_3 (c : Dev nD) (x0 : Buf (Elt F) ((c : Thread nD τ).loc main_v108_0)) (x1 : Buf (Elt F) ((c : Thread nD τ).loc main_v108_1)) (hx1 : x1 = (dat7 (F := F) (fun c b => W₁ c b) c).arrAt 3 cfg7.N) :
    (dat7 (F := F) (fun c b => W₁ c b) c).arrAt 3 cfg7.N = Function.update (Function.update (W₁ c) main_v108_0 x0) main_v108_1 x1 (Pipeline.arrRef spec7 3) :=
  hx1.symm.trans (update7_at_3 W₁ c x0 x1).symm

/-- When the exit valuation is the entry valuation updated at the mean's buffer and at the variance's with what the
    pipeline's write-backs leave in them, every array of the region holds there what the pipeline leaves: an input's
    array is never written and is neither result's buffer; each result's array is its updated one. -/
theorem hF7_update (c : Dev nD) (x0 : Buf (Elt F) ((c : Thread nD τ).loc main_v108_0)) (x1 : Buf (Elt F) ((c : Thread nD τ).loc main_v108_1))
    (hx0 : x0 = (dat7 (F := F) (fun c b => W₁ c b) c).arrAt 2 cfg7.N) (hx1 : x1 = (dat7 (F := F) (fun c b => W₁ c b) c).arrAt 3 cfg7.N) :
    ∀ w, (dat7 (F := F) (fun c b => W₁ c b) c).arrAt w cfg7.N = Function.update (Function.update (W₁ c) main_v108_0 x0) main_v108_1 x1 (Pipeline.arrRef spec7 w)
  | ⟨0, _⟩ => hF7_update_0 W₁ c x0 x1
  | ⟨1, _⟩ => hF7_update_1 W₁ c x0 x1
  | ⟨2, _⟩ => hF7_update_2 W₁ c x0 x1 hx0
  | ⟨3, _⟩ => hF7_update_3 W₁ c x0 x1 hx1

/-- and every buffer that is no array of the region holds what it held at entry. -/
theorem hrest7_update (c : Dev nD) (x0 : Buf (Elt F) ((c : Thread nD τ).loc main_v108_0)) (x1 : Buf (Elt F) ((c : Thread nD τ).loc main_v108_1)) :
    ∀ b : Ref sig .tc, b ∉ Finset.univ.image (Pipeline.arrRef spec7) → Function.update (Function.update (W₁ c) main_v108_0 x0) main_v108_1 x1 b = W₁ c b :=
  fun b hb => update7_of_ne W₁ c x0 x1 b
    (fun e => hb (Finset.mem_image.mpr ⟨2, Finset.mem_univ _, e.symm⟩))
    (fun e => hb (Finset.mem_image.mpr ⟨3, Finset.mem_univ _, e.symm⟩))

end Update

end Cert.KernelIdeal.Hand

end
-- ==== Proof.KI.Reg8Body.lean ====
/-
  Region 8 of the idealized kernel's @main: the normalise + LeakyReLU kernel at width 128, over a grid of ten row
  tiles of 10000 rows. Its seven windows are the row tile of the aggregated features (fetched at every point), five
  rows of 128 entries — the bias, the batch mean, the batch variance, the scale and the shift — (whole, fetched once:
  their block index never moves), and the row tile of the result (written back at every point). The body reads the
  six input blocks whole, computes h = agg + bias, inv = rsqrt(var + eps), hn = (h − mean)·inv·scale + shift and
  stores where(hn ≥ 0, hn, slope·hn) over the whole output block, so what a point leaves in the output's staging
  buffer is a pure function of the six input blocks (`out8_6`), and the inputs' buffers are left as found.

  Stated here, at any float model `F` and at a PARAMETER `V` (the core's buffer contents when the region is
  entered): each window's block at a point (`iblk8`), the body's triple (`sound_kernel8`), the pipeline's proof
  data (`dat8`), the body obligation (`body_obligation8`), and the region as a segment record (`reg8`) for any
  family of proof data whose member 8 is `dat8`, entered from every unscoped buffer at `W₁` and left at `W₂`, where
  `W₂` holds at each of the region's arrays what the pipeline's write-backs leave and elsewhere what `W₁` held.
-/
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): where the window is not
    fetched its block index has not moved, so the block kept from the point before is this point's. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not, for any proof
    data whose array is `V`'s (`hA`) and whose body leaves the block in place (`hafter`): where the window is not
    fetched its block index has not moved, so the block kept from the point before is this point's. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not, for any proof
    data whose array is `V`'s (`hA`) and whose body leaves the block in place (`hafter`): where the window is not
    fetched its block index has not moved, so the block kept from the point before is this point's. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's current staging buffer holds its block at every point, fetched there or not, for any proof
    data whose array is `V`'s (`hA`) and whose body leaves the block in place (`hafter`): where the window is not
    fetched its block index has not moved, so the block kept from the point before is this point's. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's current staging buffer holds its block at every point, fetched there or not, for any proof
    data whose array is `V`'s (`hA`) and whose body leaves the block in place (`hafter`): where the window is not
    fetched its block index has not moved, so the block kept from the point before is this point's. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- Input window 5's current staging buffer holds its block at every point, fetched there or not, for any proof
    data whose array is `V`'s (`hA`) and whose body leaves the block in place (`hafter`): where the window is not
    fetched its block index has not moved, so the block kept from the point before is this point's. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev r8_x : Rect S10000x128 := Rect.unit (s := S10000x128) ![0, 0] S10000x128.size inb_S10000x128_S10000x128_0_0
abbrev r8_r : Rect S1x128 := Rect.unit (s := S1x128) ![0, 0] S1x128.size inb_S1x128_S1x128_0_0
abbrev r8_o : Rect S10000x128 := Rect.unit (s := S10000x128) ![0, 0] S10000x128.size inb_S10000x128_S10000x128_0_0

/-! ## What the body leaves in the output window's buffer -/

/-- Window 6's staging buffer after the body, from the input windows' blocks (the row tile, the bias, the mean, the
    variance, the scale and the shift, in the windows' order): its one store, of the normalised and rectified tile
    computed from the six blocks read whole. The payload takes the variance before the mean, as the body reads them. -/
def out8_6 (x0 : Vec F S10000x128 .f32) (x1 : Vec F S1x128 .f32) (x2 : Vec F S1x128 .f32) (x3 : Vec F S1x128 .f32) (x4 : Vec F S1x128 .f32) (x5 : Vec F S1x128 .f32) : Vec F S10000x128 .f32 :=
  View.canon [⟨r8_o, k8_pay1 (View.ld x0 r8_x) (View.ld x1 r8_r) (View.ld x3 r8_r) (View.ld x2 r8_r) (View.ld x4 r8_r) (View.ld x5 r8_r)⟩]

/-- The one store is over the whole buffer, so it covers it. -/
theorem cover8_6 (p0 : Vec F S10000x128 .f32) (y : S10000x128.Idx) :
    ∃ pc ∈ ([⟨r8_o, p0⟩] : List (View.Piece (Elt F) S10000x128 .f32)), y ∈ pc.1.set :=
  View.cover_of_tiled [⟨r8_o, p0⟩] S10000x128.size (by rfl) y

/-! ## The body's triple -/

set_option maxHeartbeats 1000000 in
/-- The kernel body on whole staging memrefs, the inputs' at read contents `x0 … x5` and the output's at anything,
    runs to the continuation holding the inputs' as they were and the output's at `out8_6` of the inputs'. -/
theorem sound_kernel8 (c : Dev nD) (E : Set ℕ) (i : grid8.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole)
    (x0 : Vec F S10000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)) -∗ K ⟨⟩))
      ⊢ wp frame (wpE (defs₀ (F := F)) Variants.none c none) E (cc8__norm_kernel i arg1 harg1 arg2 harg2 arg3 harg3 arg4 harg4 arg5 harg5 arg6 harg6 arg7 harg7) K := by
  simp only [cc8__norm_kernel_eq_skeleton]; unfold cc8__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The proof data of pipeline 8 on core `c`: the arrays as the region finds them (`V`); after the body at point `t`
    each input's buffer at its block and the output's at `out8_6` of the input blocks; the invariant is the scoped
    buffers no window stages and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' memrefs hold their blocks, so `sound_kernel8` applies; the invariant and the
    core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ (grid8.coords t) _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Region

end Cert.KernelIdeal.Hand

end
-- ==== Proof.KI.Reg8.lean ====
/-
  Region 8 of the idealized kernel's @main (the normalise + LeakyReLU kernel at width 128) as a segment of @main:
  the record `reg8` for any family of proof data whose member 8 is `dat8`, entered from every unscoped buffer at
  `W₁` and left at `W₂`, where `W₂` holds at each of the region's arrays what the pipeline's write-backs leave and
  elsewhere what `W₁` held; and the two facts that make `W₂ := W₁` updated at the output array `main_v112` such a
  valuation (`hF8_update`, `hrest8_update`): the six input arrays are never written back, so they end as
  entered, and the output array is the only one of the region's arrays that differs.
-/
import proofs.«109725_j21638045237575_1_alg».proof.Proof.KI.Reg8Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The exit valuation: the entry valuation updated at the output array -/

section Update

variable (W₁ : Dev nD → Valuation τ sig (Elt F)) (c : Dev nD) (x : Buf (Elt F) ((c : Thread nD τ).loc main_v112))

/-- An input window's array is never written back, so after all the points it holds what the region found, and the
    update at the output array does not touch it. -/
theorem hF8_in (w : Fin cfg8.W) (hin : (cfg8.win w).isOut = false) (hne : Pipeline.arrRef spec8 w ≠ main_v112) :
    (dat8 (F := F) (fun c b => W₁ c b) c).arrAt w cfg8.N = Function.update (W₁ c) main_v112 x (Pipeline.arrRef spec8 w) :=
  ((dat8 (F := F) (fun c b => W₁ c b) c).arrAt_in w hin _).trans
    ((A_eq8 (fun c b => W₁ c b) c w).trans (Function.update_of_ne (StableHlo.devRef_ne_of_ne hne) _ _).symm)

/-- Every window but the last is an input, staged from an array other than the output array. -/
theorem in_ne8 : ∀ w : Fin cfg8.W, w ≠ 6 → (cfg8.win w).isOut = false ∧ Pipeline.arrRef spec8 w ≠ main_v112 := by decide

/-- Each of the region's arrays after all the points is what the entry valuation updated at the output array holds
    there, when the update's value `x` is what the pipeline's write-backs leave in the output array. -/
theorem hF8_update (hx : x = (dat8 (F := F) (fun c b => W₁ c b) c).arrAt 6 cfg8.N) :
    ∀ w : Fin cfg8.W, (dat8 (F := F) (fun c b => W₁ c b) c).arrAt w cfg8.N = Function.update (W₁ c) main_v112 x (Pipeline.arrRef spec8 w) := fun w => by
  by_cases h : w = 6
  · subst h hx
    exact (Function.update_self (Proc.devRef .tc main_v112 : DevRef τ sig) _ (W₁ c)).symm
  · exact hF8_in W₁ c x w (in_ne8 w h).1 (in_ne8 w h).2

/-- Every buffer that is none of the region's arrays is not the output array, so the update leaves it as entered. -/
theorem hrest8_update : ∀ b : Ref sig .tc, b ∉ Finset.univ.image (Pipeline.arrRef spec8) → Function.update (W₁ c) main_v112 x b = W₁ c b :=
  fun b hb => Function.update_of_ne (StableHlo.devRef_ne_of_ne fun e =>
    hb (Finset.mem_image.mpr ⟨6, Finset.mem_univ _, (e.symm : Pipeline.arrRef spec8 6 = b)⟩)) _ _

end Update

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest8 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 8 over the thread state "every unscoped buffer whole at a valuation, the generator register at some state,
    nothing owed": entered from the buffers at `W₁`, left at `W₂`, for any family of proof data whose member 8 is
    `dat8` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg8 (hp : ∀ c, pdats 8 c = dat8 (fun c b => W₁ c b) c)
    (hF : ∀ c w, (dat8 (F := F) (fun c b => W₁ c b) c).arrAt w cfg8.N = W₂ c (Pipeline.arrRef spec8 w))
    (hrest : ∀ c (b : Ref sig .tc), b ∉ Finset.univ.image (Pipeline.arrRef spec8) → W₂ c b = W₁ c b) :
    Pipeline.RegionSeg (pcfgs (F := F)) adm pdats () defs₀ Variants.none L lv 8 where
  win := launch8.win.to₀
  block_pos := launch8.block_pos
  stage_whole := launch8.stage_whole
  K := PEmpty
  osem k := k.elim
  ho := Pipeline.OwnSemFacts.none _
  hbody c := by rw [hp c]; exact (body_obligation8 (fun c b => W₁ c b) c).loose
  hwaits := Pipeline.hwaits_of_owed_zero _ _ _ _ L lv 8 fun c _ => by rw [hp c]; rfl
  pre c := iprop(StableHlo.held (c : Thread nD τ) (Pipeline.ucRefs τ sig) (W₁ c) ∗ rest8 c)
  post c := iprop(StableHlo.held (c : Thread nD τ) (Pipeline.ucRefs τ sig) (W₂ c) ∗ rest8 c)
  X c := iprop(∃ r, prngReg c r)
  Y c := iprop(∃ r, prngReg c r)
  Z c := Pipeline.unscopedRest (Ix := Unit) (Name := ℕ) (U := UR sig nD τ) (Lvl := ℕ) spec8 c (fun b => W₁ c b)
  hentry c := by
    rw [Pipeline.ownSems0_none]
    have hq : ∀ w, (pdats 8 c).q w = fullShare := fun w => by rw [hp c]; rfl
    have hA : ∀ w, (pdats 8 c).A w = (fun b : Ref sig .tc => W₁ c b) (Pipeline.arrRef spec8 w) := fun w => by rw [hp c]; rfl
    have hsplit := Pipeline.arrays_of_unscopedBufs (p := 8) (pcfgs (F := F)) adm pdats launch8.win launch8.arr_whole c
      ((pdats 8 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; rw [hp c]; exact fun _ _ => Or.inl trivial
      rw [show (pdats 8 c).owed 0 = 0 from by rw [hp c]; rfl]
      iexact HO
    isplitl [Hp]; · iexact Hp
    iexact Hrest
  hin c := by
    rw [show (pdats 8 c).Φ 0 = Pipeline.ΦA spec8 c from by rw [hp c]; rfl]; unfold Pipeline.ΦA
    iintro ⟨Hp, -, Hr⟩
    isplitl [Hr]; · iexact Hr
    iexact Hp
  hout c := by
    rw [Pipeline.ownSems0_none, show (pdats 8 c).Φ (Fin.last _) = Pipeline.ΦA spec8 c from by rw [hp c]; rfl]; unfold Pipeline.ΦA
    iintro ⟨Hr, Hp⟩
    isplitl [Hp]; · iexact Hp
    isplitr; · iempintro
    iexact Hr
  hexit c := by
    have hq : ∀ w, (pdats 8 c).q w = fullShare := fun w => by rw [hp c]; rfl
    have hjoin := Pipeline.unscopedBufs_of_arrays (p := 8) (pcfgs (F := F)) adm (Ix := Unit) (Name := ℕ) (U := UR sig nD τ) (Lvl := ℕ)
      launch8.win launch8.arr_whole c pdats ((pdats 8 c).share_full hq)
      (fun b => W₁ c b) (fun b => W₂ c b) ((pdats 8 c).arrAt · cfg8.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 8 c).owed (Fin.last _) = 0 from by rw [hp c]; rfl]
    iexact HO

end Record

end Cert.KernelIdeal.Hand

end
-- ==== Proof.KI.Reg9.lean ====
/-
  Region 9 of the idealized kernel's @main: the linear kernel y = x·W + bias at widths 128 → 32, over a grid of
  ten row tiles of 10000 rows. Its four windows are the row tile of x (fetched at every point), the weight matrix
  and the bias row (whole, fetched once: their block index never moves), and the row tile of the result (written
  back at every point). The body reads the three input blocks whole and stores one value over the whole output
  block, so what a point leaves in the output's staging buffer is a pure function of the three input blocks
  (`out9_3`), and the inputs' buffers are left as found.

  Stated here, at any float model `F` and at a PARAMETER `V` (the core's buffer contents when the region is
  entered): each window's block at a point (`iblk9`), the body's triple (`sound_kernel9`), the pipeline's proof
  data (`dat9`), the body obligation (`body_obligation9`), and the region as a segment record (`reg9`) for any
  family of proof data whose member 9 is `dat9`, entered from every unscoped buffer at `W₁` and left at `W₂`, where
  `W₂` holds at each of the region's arrays what the pipeline's write-backs leave and elsewhere what `W₁` held.
-/
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): where the window is not
    fetched its block index has not moved, so the block kept from the point before is this point's. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current staging buffer holds its block at every point, fetched there or not, for any proof
    data whose array is `V`'s (`hA`) and whose body leaves the block in place (`hafter`): where the window is not
    fetched its block index has not moved, so the block kept from the point before is this point's. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current staging buffer holds its block at every point, fetched there or not, for any proof
    data whose array is `V`'s (`hA`) and whose body leaves the block in place (`hafter`): where the window is not
    fetched its block index has not moved, so the block kept from the point before is this point's. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_x : Rect S10000x128 := Rect.unit (s := S10000x128) ![0, 0] S10000x128.size inb_S10000x128_S10000x128_0_0
abbrev r9_w : Rect S128x32 := Rect.unit (s := S128x32) ![0, 0] S128x32.size inb_S128x32_S128x32_0_0
abbrev r9_b : Rect S1x32 := Rect.unit (s := S1x32) ![0, 0] S1x32.size inb_S1x32_S1x32_0_0
abbrev r9_o : Rect S10000x32 := Rect.unit (s := S10000x32) ![0, 0] S10000x32.size inb_S10000x32_S10000x32_0_0

/-! ## What the body leaves in the output window's buffer -/

/-- Window 3's staging buffer after the body, from the input windows' blocks: its one store, of the payload
    x·W + bias computed from the three blocks read whole. -/
def out9_3 (x0 : Vec F S10000x128 .f32) (x1 : Vec F S128x32 .f32) (x2 : Vec F S1x32 .f32) : Vec F S10000x32 .f32 :=
  View.canon [⟨r9_o, k9_pay1 (View.ld x0 r9_x) (View.ld x1 r9_w) (View.ld x2 r9_b)⟩]

/-- The one store is over the whole buffer, so it covers it. -/
theorem cover9_3 (p0 : Vec F S10000x32 .f32) (y : S10000x32.Idx) :
    ∃ pc ∈ ([⟨r9_o, p0⟩] : List (View.Piece (Elt F) S10000x32 .f32)), y ∈ pc.1.set :=
  View.cover_of_tiled [⟨r9_o, p0⟩] S10000x32.size (by rfl) y

/-! ## The body's triple -/

set_option maxHeartbeats 1000000 in
/-- The kernel body on whole staging memrefs, the inputs' at read contents `x0 x1 x2` and the output's at anything,
    runs to the continuation holding the inputs' as they were and the output's at `out9_3` of the inputs'. -/
theorem sound_kernel9 (c : Dev nD) (E : Set ℕ) (i : grid9.Coords) (arg1 : Memref sig .tc .vmem S10000x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S10000x32 .f32) (harg4 : arg4.IsWhole)
    (x0 : Vec F S10000x128 .f32) (x1 : Vec F S128x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__linear_kernel i arg1 harg1 arg2 harg2 arg3 harg3 arg4 harg4) K := by
  simp only [cc9__linear_kernel_eq_skeleton]; unfold cc9__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them (`V`); after the body at point `t`
    each input's buffer at its block and the output's at `out9_3` of the input blocks; the invariant is the scoped
    buffers no window stages and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so `sound_kernel9` applies; the invariant and the
    core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest9 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 9 over the thread state "every unscoped buffer whole at a valuation, the generator register at some state,
    nothing owed": entered from the buffers at `W₁`, left at `W₂`, for any family of proof data whose member 9 is
    `dat9` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg9 (hp : ∀ c, pdats 9 c = dat9 (fun c b => W₁ c b) c)
    (hF : ∀ c w, (dat9 (F := F) (fun c b => W₁ c b) c).arrAt w cfg9.N = W₂ c (Pipeline.arrRef spec9 w))
    (hrest : ∀ c (b : Ref sig .tc), b ∉ Finset.univ.image (Pipeline.arrRef spec9) → W₂ c b = W₁ c b) :
    Pipeline.RegionSeg (pcfgs (F := F)) adm pdats () defs₀ Variants.none L lv 9 where
  win := launch9.win.to₀
  block_pos := launch9.block_pos
  stage_whole := launch9.stage_whole
  K := PEmpty
  osem k := k.elim
  ho := Pipeline.OwnSemFacts.none _
  hbody c := by rw [hp c]; exact (body_obligation9 (fun c b => W₁ c b) c).loose
  hwaits := Pipeline.hwaits_of_owed_zero _ _ _ _ L lv 9 fun c _ => by rw [hp c]; rfl
  pre c := iprop(StableHlo.held (c : Thread nD τ) (Pipeline.ucRefs τ sig) (W₁ c) ∗ rest9 c)
  post c := iprop(StableHlo.held (c : Thread nD τ) (Pipeline.ucRefs τ sig) (W₂ c) ∗ rest9 c)
  X c := iprop(∃ r, prngReg c r)
  Y c := iprop(∃ r, prngReg c r)
  Z c := Pipeline.unscopedRest (Ix := Unit) (Name := ℕ) (U := UR sig nD τ) (Lvl := ℕ) spec9 c (fun b => W₁ c b)
  hentry c := by
    rw [Pipeline.ownSems0_none]
    have hq : ∀ w, (pdats 9 c).q w = fullShare := fun w => by rw [hp c]; rfl
    have hA : ∀ w, (pdats 9 c).A w = (fun b : Ref sig .tc => W₁ c b) (Pipeline.arrRef spec9 w) := fun w => by rw [hp c]; rfl
    have hsplit := Pipeline.arrays_of_unscopedBufs (p := 9) (pcfgs (F := F)) adm pdats launch9.win launch9.arr_whole c
      ((pdats 9 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 9 c).Φ 0 = Pipeline.ΦA spec9 c from by rw [hp c]; rfl]; unfold Pipeline.ΦA
    iintro ⟨Hp, -, Hr⟩
    isplitl [Hr]; · iexact Hr
    iexact Hp
  hout c := by
    rw [Pipeline.ownSems0_none, show (pdats 9 c).Φ (Fin.last _) = Pipeline.ΦA spec9 c from by rw [hp c]; rfl]; unfold Pipeline.ΦA
    iintro ⟨Hr, Hp⟩
    isplitl [Hp]; · iexact Hp
    isplitr; · iempintro
    iexact Hr
  hexit c := by
    have hq : ∀ w, (pdats 9 c).q w = fullShare := fun w => by rw [hp c]; rfl
    have hjoin := Pipeline.unscopedBufs_of_arrays (p := 9) (pcfgs (F := F)) adm (Ix := Unit) (Name := ℕ) (U := UR sig nD τ) (Lvl := ℕ)
      launch9.win launch9.arr_whole c pdats ((pdats 9 c).share_full hq)
      (fun b => W₁ c b) (fun b => W₂ c b) ((pdats 9 c).arrAt · cfg9.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Record

/-! ## The exit valuation as an update of the entry valuation at the result's buffer -/

section Update

variable (W₁ : Dev nD → Valuation τ sig (Elt F))

/-- A property of the four windows, checked window by window. -/
private theorem fin4_cases {P : Fin 4 → Prop} (h0 : P 0) (h1 : P 1) (h2 : P 2) (h3 : P 3) : ∀ w, P w
  | ⟨0, _⟩ => h0
  | ⟨1, _⟩ => h1
  | ⟨2, _⟩ => h2
  | ⟨3, _⟩ => h3

/-- When the exit valuation is the entry valuation updated at the result's buffer `main_v115` with what the pipeline's
    write-backs leave in it, every array of the region holds there what the pipeline leaves: an input's array is never
    written and is not the result's buffer; the result's array is the updated one. -/
theorem hF9_update (c : Dev nD) (x : Buf (Elt F) ((c : Thread nD τ).loc main_v115))
    (hx : x = (dat9 (F := F) (fun c b => W₁ c b) c).arrAt 3 cfg9.N) :
    ∀ w, (dat9 (F := F) (fun c b => W₁ c b) c).arrAt w cfg9.N = Function.update (W₁ c) main_v115 x (Pipeline.arrRef spec9 w) :=
  fin4_cases (P := fun w => (dat9 (F := F) (fun c b => W₁ c b) c).arrAt w cfg9.N = Function.update (W₁ c) main_v115 x (Pipeline.arrRef spec9 w))
    (((dat9 (F := F) (fun c b => W₁ c b) c).arrAt_in 0 rfl _).trans ((A_eq9 (fun c b => W₁ c b) c 0).trans (Function.update_of_ne (StableHlo.devRef_ne_of_ne (by decide)) _ _).symm))
    (((dat9 (F := F) (fun c b => W₁ c b) c).arrAt_in 1 rfl _).trans ((A_eq9 (fun c b => W₁ c b) c 1).trans (Function.update_of_ne (StableHlo.devRef_ne_of_ne (by decide)) _ _).symm))
    (((dat9 (F := F) (fun c b => W₁ c b) c).arrAt_in 2 rfl _).trans ((A_eq9 (fun c b => W₁ c b) c 2).trans (Function.update_of_ne (StableHlo.devRef_ne_of_ne (by decide)) _ _).symm))
    (hx.symm.trans (Function.update_self (β := fun b : DevRef τ sig => b.ty.Contents (Elt F)) _ _ _).symm)

/-- and every buffer that is no array of the region holds what it held at entry. -/
theorem hrest9_update (c : Dev nD) (x : Buf (Elt F) ((c : Thread nD τ).loc main_v115)) :
    ∀ b : Ref sig .tc, b ∉ Finset.univ.image (Pipeline.arrRef spec9) → Function.update (W₁ c) main_v115 x b = W₁ c b :=
  fun b hb => Function.update_of_ne (StableHlo.devRef_ne_of_ne fun e => hb (Finset.mem_image.mpr ⟨3, Finset.mem_univ _, e.symm⟩)) _ _

end Update

end Cert.KernelIdeal.Hand

end
-- ==== Proof.KI.Reg10Run.lean ====
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.KI.StatLib
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the fourth layer (32 columns): the body's three control cases

The body adds the bias row to its block of 10000 rows, adds the column sums of the result and of its square to two
carried rows, having first zeroed those rows at the first grid point, and at the last grid point divides both rows
by the number of rows and writes the mean and the mean of squares less the squared mean. -/

/-- The first conditional (zero the two carried rows): taken where the grid coordinate is 0. -/
abbrev cond10_0 (i : grid10.Coords) : Prop :=
  (Scalar.cmpi .ne (Scalar.extui (Scalar.cmpi .eq (BitVec.ofNat 32 (i 0).val) 0#32)) 0#32) = 1#1
/-- The second conditional (write the two outputs): taken where the grid coordinate is 9. -/
abbrev cond10_1 (i : grid10.Coords) : Prop := k10_cond2 i = 1#1

theorem hcond10_0 : ∀ t : Fin cfg10.N, cond10_0 (grid10.coords t) ↔ t.val = 0 :=
  (by decide +kernel : ∀ t : Fin grid10.N, cond10_0 (grid10.coords t) ↔ t.val = 0)
theorem hcond10_1 : ∀ t : Fin cfg10.N, cond10_1 (grid10.coords t) ↔ t.val = 9 :=
  (by decide +kernel : ∀ t : Fin grid10.N, cond10_1 (grid10.coords t) ↔ t.val = 9)

set_option maxHeartbeats 1000000 in
/-- A middle grid point: neither conditional is taken; the carried rows `s5`, `s6` receive the block's column sums. -/
theorem sound_kernel10_B (c : Dev nD) (E : Set ℕ) (i : grid10.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬ cond10_0 i) (hc1 : ¬ cond10_1 i)
    (x0 : Vec F S10000x32 .f32) (x1 : Vec F S1x32 .f32) (s5 s6 : Vec F S1x32 .f32) (K : PUnit → sProp 𝕄) :
    iprop(owns (c : Thread nD τ) arg1 fullShare x0 ∗ owns (c : Thread nD τ) arg2 fullShare x1 ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg5 fullShare (k10_pay4 x0 x1 s5) ∗ owns (c : Thread nD τ) arg6 fullShare (k10_pay5 x0 x1 s6)) -∗ K ⟨⟩))
      ⊢ wp frame (wpE (defs₀ (F := F)) Variants.none c none) E (cc10__reduce_kernel i arg1 harg1 arg2 harg2 arg3 harg3 arg4 harg4 arg5 harg5 arg6 harg6) K := by
  simp only [cc10__reduce_kernel_eq_skeleton]; unfold cc10__reduce_kernel_skel
  unfold owns
  iintro ⟨⟨%f0, %hf0, H0⟩, ⟨%f1, %hf1, H1⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store _ _ stat_off2_zero]
    simp only [View.readAt_eq_ld, View.ld_unit_zero (S := S10000x32) stat_off2_zero, View.ld_unit_zero (S := S1x32) stat_off2_zero]
  · iexists _; isplitr
    swap; · iexact H6
    ipureintro
    rw [stat_read_store _ _ stat_off2_zero]
    simp only [View.readAt_eq_ld, View.ld_unit_zero (S := S10000x32) stat_off2_zero, View.ld_unit_zero (S := S1x32) stat_off2_zero]

set_option maxHeartbeats 1000000 in
/-- The first grid point: the carried rows are zeroed, whatever they held, then receive the block's column sums. -/
theorem sound_kernel10_A (c : Dev nD) (E : Set ℕ) (i : grid10.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : cond10_0 i) (hc1 : ¬ cond10_1 i)
    (x0 : Vec F S10000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg5 fullShare (k10_pay4 x0 x1 k10_pay1) ∗ owns (c : Thread nD τ) arg6 fullShare (k10_pay5 x0 x1 k10_pay2)) -∗ K ⟨⟩))
      ⊢ wp frame (wpE (defs₀ (F := F)) Variants.none c none) E (cc10__reduce_kernel i arg1 harg1 arg2 harg2 arg3 harg3 arg4 harg4 arg5 harg5 arg6 harg6) K := by
  simp only [cc10__reduce_kernel_eq_skeleton]; unfold cc10__reduce_kernel_skel
  unfold owns
  iintro ⟨⟨%f0, %hf0, H0⟩, ⟨%f1, %hf1, H1⟩, ⟨%d5, %f5, -, H5⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store_cons _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"
  · iexists _; isplitr
    swap; · iexact H6
    ipureintro
    rw [stat_read_store_cons _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"

set_option maxHeartbeats 1000000 in
/-- The last grid point: the carried rows receive the block's column sums, then the two outputs are written from them. -/
theorem sound_kernel10_C (c : Dev nD) (E : Set ℕ) (i : grid10.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬ cond10_0 i) (hc1 : cond10_1 i)
    (x0 : Vec F S10000x32 .f32) (x1 : Vec F S1x32 .f32) (s5 s6 : Vec F S1x32 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg3 fullShare (k10_pay6 (k10_pay4 x0 x1 s5)) ∗ owns (c : Thread nD τ) arg4 fullShare (k10_pay7 (k10_pay4 x0 x1 s5) (k10_pay5 x0 x1 s6))
            ∗ owns (c : Thread nD τ) arg5 fullShare (k10_pay4 x0 x1 s5) ∗ owns (c : Thread nD τ) arg6 fullShare (k10_pay5 x0 x1 s6)) -∗ K ⟨⟩))
      ⊢ wp frame (wpE (defs₀ (F := F)) Variants.none c none) E (cc10__reduce_kernel i arg1 harg1 arg2 harg2 arg3 harg3 arg4 harg4 arg5 harg5 arg6 harg6) K := by
  simp only [cc10__reduce_kernel_eq_skeleton]; unfold cc10__reduce_kernel_skel
  unfold owns
  iintro ⟨⟨%f0, %hf0, H0⟩, ⟨%f1, %hf1, H1⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [stat_read_store _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"
  isplitl [H4]
  · iexists _; isplitr
    swap; · iexact H4
    ipureintro
    rw [stat_read_store _ _ stat_off2_zero]
    sl_unfold_run_names
    first | (simp only [View.readAt_eq_ld, View.readCov_unit_zero (S := S1x32) _ stat_off2_zero, View.ld_unit_zero (S := S10000x32) stat_off2_zero, View.ld_unit_zero (S := S1x32) stat_off2_zero]) | fail "simp set did not close the read-back"
  isplitl [H5]
  · iexists _; isplitr
    swap; · iexact H5
    ipureintro
    sl_unfold_run_names
    rw [stat_read_store_cons _ _ stat_off2_zero]
    first | (simp only [View.readAt_eq_ld, View.readCov_unit_zero (S := S1x32) _ stat_off2_zero, View.ld_unit_zero (S := S10000x32) stat_off2_zero, View.ld_unit_zero (S := S1x32) stat_off2_zero]) | fail "simp set did not close the read-back"
  · iexists _; isplitr
    swap; · iexact H6
    ipureintro
    sl_unfold_run_names
    rw [stat_read_store_cons _ _ stat_off2_zero]
    first | (simp only [View.readAt_eq_ld, View.readCov_unit_zero (S := S1x32) _ stat_off2_zero, View.ld_unit_zero (S := S10000x32) stat_off2_zero, View.ld_unit_zero (S := S1x32) stat_off2_zero]) | fail "simp set did not close the read-back"

end Cert.KernelIdeal.Hand

end
-- ==== Proof.KI.Reg10.lean ====
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import proofs.«109725_j21638045237575_1_alg».proof.Proof.KI.Reg10Run
import Idealize.ShloMosaic.Lib.Pipeline.Frame
import Idealize.ShloMosaic.Lib.Pipeline.FrameBody
import Idealize.ShloMosaic.Lib.Pipeline.Kit
import Idealize.ShloMosaic.Lib.Pipeline.Regions
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the fourth layer (32 columns) as a region of @main

Ten grid points, each a block of 10000 rows of the aggregated features. Two rows of 32 are carried from point to
point in scratch memory: the column sums of (block + bias) and of its square over the blocks seen so far. The first
point zeroes them first; the last point writes mean = sum / 100000 and var = sumsq / 100000 − mean · mean into the
two outputs' staging buffers, which are written back there and nowhere else; at the other points the body leaves
the outputs' buffers as it found them. -/

section Region

variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The block of aggregated rows is in its staging buffer at every point, for any proof data over `V` whose body
    leaves it there. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The bias row is in its staging buffer at every point (fetched once: its block index never moves). -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The carried rows -/

/-- The two carried rows when the accumulation of point `t` starts: both zero at the first point (after its zeroing),
    and after each point the sums of (block + bias), and of its square, down the block's columns added — a fold of the
    body's payload terms over the blocks seen so far, first component the sums, second the sums of squares. -/
def scr10 (c : Dev nD) : ℕ → Vec F S1x32 .f32 × Vec F S1x32 .f32
  | 0 => (k10_pay1, k10_pay2)
  | t + 1 =>
    if h : t < cfg10.N then
      (k10_pay4 (iblk10 V c 0 ⟨t, h⟩) (iblk10 V c 1 ⟨t, h⟩) (scr10 c t).1,
       k10_pay5 (iblk10 V c 0 ⟨t, h⟩) (iblk10 V c 1 ⟨t, h⟩) (scr10 c t).2)
    else scr10 c t

theorem scr10_zero (c : Dev nD) : scr10 V c 0 = (k10_pay1, k10_pay2) := by rw [scr10]

/-- One point's step of the fold. -/
theorem scr10_succ (c : Dev nD) (t : Fin cfg10.N) :
    scr10 V c (t.val + 1) = (k10_pay4 (iblk10 V c 0 t) (iblk10 V c 1 t) (scr10 V c t.val).1,
      k10_pay5 (iblk10 V c 0 t) (iblk10 V c 1 t) (scr10 V c t.val).2) := by
  rw [scr10, dif_pos t.isLt]

/-- The scratch rows between points, as the invariant holds them: before the first point at anything, before point
    `n > 0` at the fold's value there. -/
def scrAt10 (c : Dev nD) (n : ℕ) : sProp 𝕄 :=
  if n = 0 then
    iprop((∃ d, owns (c : Thread nD τ) (Memref.whole cc10_scratch0 : Memref sig .tc .vmem S1x32 .f32) fullShare d) ∗ (∃ d, owns (c : Thread nD τ) (Memref.whole cc10_scratch1 : Memref sig .tc .vmem S1x32 .f32) fullShare d))
  else
    iprop(owns (c : Thread nD τ) (Memref.whole cc10_scratch0 : Memref sig .tc .vmem S1x32 .f32) fullShare (scr10 V c n).1 ∗ owns (c : Thread nD τ) (Memref.whole cc10_scratch1 : Memref sig .tc .vmem S1x32 .f32) fullShare (scr10 V c n).2)

theorem scrAt10_zero (c : Dev nD) :
    scrAt10 V c 0 = iprop((∃ d, owns (c : Thread nD τ) (Memref.whole cc10_scratch0 : Memref sig .tc .vmem S1x32 .f32) fullShare d) ∗ (∃ d, owns (c : Thread nD τ) (Memref.whole cc10_scratch1 : Memref sig .tc .vmem S1x32 .f32) fullShare d)) := by
  unfold scrAt10; rw [if_pos rfl]

theorem scrAt10_pos (c : Dev nD) (n : ℕ) (h : n ≠ 0) :
    scrAt10 V c n = iprop(owns (c : Thread nD τ) (Memref.whole cc10_scratch0 : Memref sig .tc .vmem S1x32 .f32) fullShare (scr10 V c n).1 ∗ owns (c : Thread nD τ) (Memref.whole cc10_scratch1 : Memref sig .tc .vmem S1x32 .f32) fullShare (scr10 V c n).2) := by
  unfold scrAt10; rw [if_neg h]

/-! ## The pipeline's proof data -/

/-- The proof data of the pipeline on core `c`: the arrays as the region finds them; each input's buffer left at its
    block; the mean's and the variance's buffers, where the body stores them (the last point), at the body's two last
    payload terms of the carried rows after that point's accumulation; the invariant the scoped buffers other than
    the two scratch rows, the generator register, and the scratch rows at the fold's value; nothing owed. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => k10_pay6 (scr10 V c (t.val + 1)).1
    | ⟨3, _⟩ => k10_pay7 (scr10 V c (t.val + 1)).1 (scr10 V c (t.val + 1)).2
  Φ t := iprop(Pipeline.scopedRestBut (Ix := Unit) (Name := ℕ) (U := UR sig nD τ) (Lvl := ℕ) (Val := Elt F) spec10 c [cc10_scratch0, cc10_scratch1]
    ∗ (∃ r, prngReg c r) ∗ scrAt10 V c t.val)
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = k10_pay6 (scr10 V c (t.val + 1)).1 := by dsimp only [dat10]
theorem after10_3 (c : Dev nD) (t : Fin cfg10.N) :
    (dat10 V c).after 3 t = k10_pay7 (scr10 V c (t.val + 1)).1 (scr10 V c (t.val + 1)).2 := by dsimp only [dat10]

theorem Φ10_eq (c : Dev nD) (t : Fin (cfg10.N + 1)) :
    (dat10 V c).Φ t = iprop(Pipeline.scopedRestBut (Ix := Unit) (Name := ℕ) (U := UR sig nD τ) (Lvl := ℕ) (Val := Elt F) spec10 c [cc10_scratch0, cc10_scratch1]
      ∗ (∃ r, prngReg c r) ∗ scrAt10 V c t.val) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- The two outputs' buffers are idle (the body stores nothing there) at every point but the last, -/
theorem idle10_2 : ∀ t : Fin cfg10.N, cfg10.idle 2 (cfg10.grid.coords t) = true ↔ t.val ≠ 9 :=
  (by decide +kernel : ∀ t : Fin grid10.N, cfg10.idle 2 (grid10.coords t) = true ↔ t.val ≠ 9)
theorem idle10_3 : ∀ t : Fin cfg10.N, cfg10.idle 3 (cfg10.grid.coords t) = true ↔ t.val ≠ 9 :=
  (by decide +kernel : ∀ t : Fin grid10.N, cfg10.idle 3 (grid10.coords t) = true ↔ t.val ≠ 9)

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns: the two outputs' buffers as found where they are idle, at the stated contents at the last point. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ (dat10 V c).leavesExact 2 t
    ∗ (dat10 V c).leavesExact 3 t)

set_option maxHeartbeats 1000000 in
/-- The body at any point, by the three control cases: at the first point the scratch rows are found at anything and
    left at the fold's first step; at a middle point found at the fold's value and left at its next; at the last point
    also the two outputs' buffers, found at anything, are left at the mean and the variance of the final rows. The
    rest of the invariant and the core's `owes` pass through unread; where an output's buffer is idle it is handed back
    as it was found. -/
theorem sound_body10 (c : Dev nD) (t : Fin cfg10.N) :
    bodyPre10 V c t ⊢ wp frame (wpE (defs₀ (F := F)) Variants.none c none) Set.univ (bodyAt10 t) (fun _ => bodyPost10 V c t) := by
  have hlt : t.val < 10 := by
    have h := t.isLt
    have hN : cfg10.N = 10 := N_10
    omega
  unfold bodyPre10 bodyPost10 bodyAt10
  simp only [before10_0, before10_1]
  rw [show (dat10 V c).owesAt () t.succ = (dat10 V c).owesAt () t.castSucc from rfl, after10_0, after10_1,
    Φ10_eq, Φ10_eq, Fin.val_succ, Fin.val_castSucc, scrAt10_pos V c (t.val + 1) (Nat.succ_ne_zero _), scr10_succ]
  by_cases h0 : t.val = 0
  · -- the first point
    have h9 : t.val ≠ 9 := by omega
    have hc0 : cond10_0 (grid10.coords t) := (hcond10_0 t).mpr h0
    have hc1 : ¬ cond10_1 (grid10.coords t) := fun h => h9 ((hcond10_1 t).mp h)
    rw [Dat.leavesExact_idle _ 2 t ((idle10_2 t).mpr h9) (by rw [Bool.eq_false_iff]; intro h; have := (flush10_2 t).mp h; omega),
      Dat.leavesExact_idle _ 3 t ((idle10_3 t).mpr h9) (by rw [Bool.eq_false_iff]; intro h; have := (flush10_3 t).mp h; omega),
      h0, scrAt10_zero, scr10_zero]
    iintro ⟨⟨Hrest, Hprng, H5, H6⟩, Ho, ⟨%d0, H0⟩, ⟨%d1, H1⟩, H2, H3⟩
    iapply (sound_kernel10_A c Set.univ (grid10.coords t) _ _ _ _ _ _ _ _ _ _ _ _ hc0 hc1 (iblk10 V c 0 t) (iblk10 V c 1 t) _)
    isplitl [H0]; · iexact H0
    isplitl [H1]; · iexact H1
    isplitl [H5]; · iexact H5
    isplitl [H6]; · iexact H6
    iintro ⟨H0, H1, H5, H6⟩
    isplitl [Hrest Hprng H5 H6]
    · isplitl [Hrest]; · iexact Hrest
      isplitl [Hprng]; · iexact Hprng
      isplitl [H5]; · iexact H5
      iexact H6
    isplitl [Ho]; · iexact Ho
    isplitl [H0]; · iexact H0
    isplitl [H1]; · iexact H1
    isplitl [H2]; · iexact H2
    iexact H3
  · by_cases h9 : t.val = 9
    · -- the last point
      have hc0 : ¬ cond10_0 (grid10.coords t) := fun h => h0 ((hcond10_0 t).mp h)
      have hc1 : cond10_1 (grid10.coords t) := (hcond10_1 t).mpr h9
      have hi2 : cfg10.idle 2 (cfg10.grid.coords t) = false := by
        rw [Bool.eq_false_iff]; intro h; exact (idle10_2 t).mp h h9
      have hi3 : cfg10.idle 3 (cfg10.grid.coords t) = false := by
        rw [Bool.eq_false_iff]; intro h; exact (idle10_3 t).mp h h9
      rw [scrAt10_pos V c t.val h0]
      unfold Dat.leavesExact
      rw [hi2]
      try rw [hi3]
      dsimp only
      rw [after10_2, after10_3, scr10_succ]
      iintro ⟨⟨Hrest, Hprng, H5, H6⟩, Ho, ⟨%d0, H0⟩, ⟨%d1, H1⟩, ⟨%d2, H2⟩, ⟨%d3, H3⟩⟩
      iapply (sound_kernel10_C c Set.univ (grid10.coords t) _ _ _ _ _ _ _ _ _ _ _ _ hc0 hc1 (iblk10 V c 0 t) (iblk10 V c 1 t)
        (scr10 V c t.val).1 (scr10 V c t.val).2 _)
      isplitl [H0]; · iexact H0
      isplitl [H1]; · iexact H1
      isplitl [H2]; · iexists _; iexact H2
      isplitl [H3]; · iexists _; iexact H3
      isplitl [H5]; · iexact H5
      isplitl [H6]; · iexact H6
      iintro ⟨H0, H1, H2, H3, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3
    · -- a middle point
      have hc0 : ¬ cond10_0 (grid10.coords t) := fun h => h0 ((hcond10_0 t).mp h)
      have hc1 : ¬ cond10_1 (grid10.coords t) := fun h => h9 ((hcond10_1 t).mp h)
      rw [Dat.leavesExact_idle _ 2 t ((idle10_2 t).mpr h9) (by rw [Bool.eq_false_iff]; intro h; have := (flush10_2 t).mp h; omega),
        Dat.leavesExact_idle _ 3 t ((idle10_3 t).mpr h9) (by rw [Bool.eq_false_iff]; intro h; have := (flush10_3 t).mp h; omega),
        scrAt10_pos V c t.val h0]
      iintro ⟨⟨Hrest, Hprng, H5, H6⟩, Ho, ⟨%d0, H0⟩, ⟨%d1, H1⟩, H2, H3⟩
      iapply (sound_kernel10_B c Set.univ (grid10.coords t) _ _ _ _ _ _ _ _ _ _ _ _ hc0 hc1 (iblk10 V c 0 t) (iblk10 V c 1 t)
        (scr10 V c t.val).1 (scr10 V c t.val).2 _)
      isplitl [H0]; · iexact H0
      isplitl [H1]; · iexact H1
      isplitl [H5]; · iexact H5
      isplitl [H6]; · iexact H6
      iintro ⟨H0, H1, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest10 (c : Dev nD) : sProp 𝕄 := iprop((∃ r, prngReg c r) ∗ ∃ W, owes (c : Thread nD τ) (0 : CellTallies nD τ sig Unit) W)

/-- The grid is not empty. -/
theorem N10_ne_zero : cfg10.N ≠ 0 := by
  show grid10.N ≠ 0
  rw [N_10]; decide

-- a library lemma stated over the pinned configuration unifies with the printed one only when unification may unfold
-- plain definitions in a metavariable's type
set_option backward.isDefEq.respectTransparency.types false in
/-- The region over the thread state "every unscoped buffer whole at a valuation, the generator register at some state,
    nothing owed": entered from the buffers at `W₁`, left at `W₂`, for any family of proof data whose member 10 is
    `dat10` at `W₁` (`hp`), when `W₂` has each of the region's arrays at what the pipeline leaves there (`hF`) and every
    other buffer as `W₁` (`hrest`). The arrays are split out of the unscoped buffers at entry and put back at exit; the
    generator register goes into the invariant and comes back; of the scoped buffers no window stages, the kernel's two
    scratch rows are split off into the invariant at entry (held at anything before the first point) and, at the fold's
    last value, forgotten back into them at exit; the kernel has no semaphore of its own. -/
def reg10 (hp : ∀ c, pdats 10 c = dat10 (fun c b => W₁ c b) c)
    (hF : ∀ c w, (dat10 (F := F) (fun c b => W₁ c b) c).arrAt w cfg10.N = W₂ c (Pipeline.arrRef spec10 w))
    (hrest : ∀ c (b : Ref sig .tc), b ∉ Finset.univ.image (Pipeline.arrRef spec10) → W₂ c b = W₁ c b) :
    Pipeline.RegionSeg (pcfgs (F := F)) adm pdats () defs₀ Variants.none L lv 10 where
  win := launch10.win.to₀
  block_pos := launch10.block_pos
  stage_whole := launch10.stage_whole
  K := PEmpty
  osem k := k.elim
  ho := Pipeline.OwnSemFacts.none _
  hbody c := by rw [hp c]; exact (body_obligation10 (fun c b => W₁ c b) c).loose
  hwaits := Pipeline.hwaits_of_owed_zero _ _ _ _ L lv 10 fun c _ => by rw [hp c]; rfl
  pre c := iprop(StableHlo.held (c : Thread nD τ) (Pipeline.ucRefs τ sig) (W₁ c) ∗ rest10 c)
  post c := iprop(StableHlo.held (c : Thread nD τ) (Pipeline.ucRefs τ sig) (W₂ c) ∗ rest10 c)
  X c := iprop(∃ r, prngReg c r)
  Y c := iprop(∃ r, prngReg c r)
  Z c := Pipeline.unscopedRest (Ix := Unit) (Name := ℕ) (U := UR sig nD τ) (Lvl := ℕ) spec10 c (fun b => W₁ c b)
  hentry c := by
    rw [Pipeline.ownSems0_none]
    have hq : ∀ w, (pdats 10 c).q w = fullShare := fun w => by rw [hp c]; rfl
    have hA : ∀ w, (pdats 10 c).A w = (fun b : Ref sig .tc => W₁ c b) (Pipeline.arrRef spec10 w) := fun w => by rw [hp c]; rfl
    have hsplit := Pipeline.arrays_of_unscopedBufs (p := 10) (pcfgs (F := F)) adm pdats launch10.win launch10.arr_whole c
      ((pdats 10 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; trivial)
      rw [show (pdats 10 c).owed 0 = 0 from by rw [hp c]; rfl]
      iexact HO
    isplitl [Hp]; · iexact Hp
    iexact Hrest
  hin c := by
    rw [show (pdats 10 c).Φ 0 = (dat10 (fun c b => W₁ c b) c).Φ 0 from by rw [hp c], Φ10_eq,
      show ((0 : Fin (cfg10.N + 1)).val) = 0 from rfl, scrAt10_zero,
      show (Pipeline.scopedRest (Pipeline.pin (pcfgs (F := F)) adm 10).spec c : sProp 𝕄) = _ from
        scopedRest10_split (Ix := Unit) (Val := Elt F) (Name := ℕ) (U := UR sig nD τ) (Lvl := ℕ) c]
    simp only [owns_whole]
    iintro ⟨Hp, -, ⟨H5, H6⟩, Hr⟩
    isplitl [Hr]; · iexact Hr
    isplitl [Hp]; · iexact Hp
    isplitl [H5]; · iexact H5
    iexact H6
  hout c := by
    rw [Pipeline.ownSems0_none, show (pdats 10 c).Φ (Fin.last _) = (dat10 (fun c b => W₁ c b) c).Φ (Fin.last cfg10.N) from by rw [hp c]; rfl, Φ10_eq,
      Fin.val_last, scrAt10_pos _ c cfg10.N N10_ne_zero,
      show (Pipeline.scopedRest (Pipeline.pin (pcfgs (F := F)) adm 10).spec c : sProp 𝕄) = _ from
        scopedRest10_split (Ix := Unit) (Val := Elt F) (Name := ℕ) (U := UR sig nD τ) (Lvl := ℕ) c]
    simp only [owns_whole]
    iintro ⟨Hr, Hp, H5, H6⟩
    isplitl [Hp]; · iexact Hp
    isplitr; · iempintro
    isplitl [H5 H6]
    · isplitl [H5]
      · iexists _; iexact H5
      iexists _; iexact H6
    iexact Hr
  hexit c := by
    have hq : ∀ w, (pdats 10 c).q w = fullShare := fun w => by rw [hp c]; rfl
    have hjoin := Pipeline.unscopedBufs_of_arrays (p := 10) (pcfgs (F := F)) adm (Ix := Unit) (Name := ℕ) (U := UR sig nD τ) (Lvl := ℕ)
      launch10.win launch10.arr_whole c pdats ((pdats 10 c).share_full hq)
      (fun b => W₁ c b) (fun b => W₂ c b) ((pdats 10 c).arrAt · cfg10.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 10 c).owed (Fin.last _) = 0 from by rw [hp c]; rfl]
    iexact HO

end Record

end Cert.KernelIdeal.Hand

end
-- ==== Proof.KI.Reg10Upd.lean ====
import proofs.«109725_j21638045237575_1_alg».proof.Proof.KI.Reg10

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region's exit valuation as an update of its entry valuation at the two results' buffers -/

section Update

variable (W₁ : Dev nD → Valuation τ sig (Elt F))

/-- Updating a valuation at the mean's buffer and at the variance's changes no other buffer. -/
theorem update10_of_ne (c : Dev nD) (x0 : Buf (Elt F) ((c : Thread nD τ).loc main_v135_0)) (x1 : Buf (Elt F) ((c : Thread nD τ).loc main_v135_1))
    (b : Ref sig .tc) (h0 : b ≠ main_v135_0) (h1 : b ≠ main_v135_1) :
    Function.update (Function.update (W₁ c) main_v135_0 x0) main_v135_1 x1 b = W₁ c b :=
  (Function.update_of_ne (StableHlo.devRef_ne_of_ne h1) x1 (Function.update (W₁ c) main_v135_0 x0)).trans
    (Function.update_of_ne (StableHlo.devRef_ne_of_ne h0) x0 (W₁ c))

/-- The update read at the variance's buffer, -/
theorem update10_at_3 (c : Dev nD) (x0 : Buf (Elt F) ((c : Thread nD τ).loc main_v135_0)) (x1 : Buf (Elt F) ((c : Thread nD τ).loc main_v135_1)) : Function.update (Function.update (W₁ c) main_v135_0 x0) main_v135_1 x1 main_v135_1 = x1 :=
  Function.update_self (β := fun b : DevRef τ sig => b.ty.Contents (Elt F)) (Proc.devRef .tc main_v135_1) x1 (Function.update (W₁ c) main_v135_0 x0)

/-- and at the mean's. -/
theorem update10_at_2 (c : Dev nD) (x0 : Buf (Elt F) ((c : Thread nD τ).loc main_v135_0)) (x1 : Buf (Elt F) ((c : Thread nD τ).loc main_v135_1)) : Function.update (Function.update (W₁ c) main_v135_0 x0) main_v135_1 x1 main_v135_0 = x0 :=
  (Function.update_of_ne (StableHlo.devRef_ne_of_ne (show (main_v135_0 : Ref sig .tc) ≠ main_v135_1 by decide)) x1 (Function.update (W₁ c) main_v135_0 x0)).trans
    (Function.update_self (β := fun b : DevRef τ sig => b.ty.Contents (Elt F)) (Proc.devRef .tc main_v135_0) x0 (W₁ c))

theorem hF10_update_0 (c : Dev nD) (x0 : Buf (Elt F) ((c : Thread nD τ).loc main_v135_0)) (x1 : Buf (Elt F) ((c : Thread nD τ).loc main_v135_1)) :
    (dat10 (F := F) (fun c b => W₁ c b) c).arrAt 0 cfg10.N = Function.update (Function.update (W₁ c) main_v135_0 x0) main_v135_1 x1 (Pipeline.arrRef spec10 0) :=
  ((dat10 (F := F) (fun c b => W₁ c b) c).arrAt_in 0 rfl _).trans ((A_eq10 (fun c b => W₁ c b) c 0).trans
      (update10_of_ne W₁ c x0 x1 (Pipeline.arrRef spec10 0) (by decide) (by decide)).symm)

theorem hF10_update_1 (c : Dev nD) (x0 : Buf (Elt F) ((c : Thread nD τ).loc main_v135_0)) (x1 : Buf (Elt F) ((c : Thread nD τ).loc main_v135_1)) :
    (dat10 (F := F) (fun c b => W₁ c b) c).arrAt 1 cfg10.N = Function.update (Function.update (W₁ c) main_v135_0 x0) main_v135_1 x1 (Pipeline.arrRef spec10 1) :=
  ((dat10 (F := F) (fun c b => W₁ c b) c).arrAt_in 1 rfl _).trans ((A_eq10 (fun c b => W₁ c b) c 1).trans
      (update10_of_ne W₁ c x0 x1 (Pipeline.arrRef spec10 1) (by decide) (by decide)).symm)

theorem hF10_update_2 (c : Dev nD) (x0 : Buf (Elt F) ((c : Thread nD τ).loc main_v135_0)) (x1 : Buf (Elt F) ((c : Thread nD τ).loc main_v135_1)) (hx0 : x0 = (dat10 (F := F) (fun c b => W₁ c b) c).arrAt 2 cfg10.N) :
    (dat10 (F := F) (fun c b => W₁ c b) c).arrAt 2 cfg10.N = Function.update (Function.update (W₁ c) main_v135_0 x0) main_v135_1 x1 (Pipeline.arrRef spec10 2) :=
  hx0.symm.trans (update10_at_2 W₁ c x0 x1).symm

theorem hF10_update_3 (c : Dev nD) (x0 : Buf (Elt F) ((c : Thread nD τ).loc main_v135_0)) (x1 : Buf (Elt F) ((c : Thread nD τ).loc main_v135_1)) (hx1 : x1 = (dat10 (F := F) (fun c b => W₁ c b) c).arrAt 3 cfg10.N) :
    (dat10 (F := F) (fun c b => W₁ c b) c).arrAt 3 cfg10.N = Function.update (Function.update (W₁ c) main_v135_0 x0) main_v135_1 x1 (Pipeline.arrRef spec10 3) :=
  hx1.symm.trans (update10_at_3 W₁ c x0 x1).symm

/-- When the exit valuation is the entry valuation updated at the mean's buffer and at the variance's with what the
    pipeline's write-backs leave in them, every array of the region holds there what the pipeline leaves: an input's
    array is never written and is neither result's buffer; each result's array is its updated one. -/
theorem hF10_update (c : Dev nD) (x0 : Buf (Elt F) ((c : Thread nD τ).loc main_v135_0)) (x1 : Buf (Elt F) ((c : Thread nD τ).loc main_v135_1))
    (hx0 : x0 = (dat10 (F := F) (fun c b => W₁ c b) c).arrAt 2 cfg10.N) (hx1 : x1 = (dat10 (F := F) (fun c b => W₁ c b) c).arrAt 3 cfg10.N) :
    ∀ w, (dat10 (F := F) (fun c b => W₁ c b) c).arrAt w cfg10.N = Function.update (Function.update (W₁ c) main_v135_0 x0) main_v135_1 x1 (Pipeline.arrRef spec10 w)
  | ⟨0, _⟩ => hF10_update_0 W₁ c x0 x1
  | ⟨1, _⟩ => hF10_update_1 W₁ c x0 x1
  | ⟨2, _⟩ => hF10_update_2 W₁ c x0 x1 hx0
  | ⟨3, _⟩ => hF10_update_3 W₁ c x0 x1 hx1

/-- and every buffer that is no array of the region holds what it held at entry. -/
theorem hrest10_update (c : Dev nD) (x0 : Buf (Elt F) ((c : Thread nD τ).loc main_v135_0)) (x1 : Buf (Elt F) ((c : Thread nD τ).loc main_v135_1)) :
    ∀ b : Ref sig .tc, b ∉ Finset.univ.image (Pipeline.arrRef spec10) → Function.update (Function.update (W₁ c) main_v135_0 x0) main_v135_1 x1 b = W₁ c b :=
  fun b hb => update10_of_ne W₁ c x0 x1 b
    (fun e => hb (Finset.mem_image.mpr ⟨2, Finset.mem_univ _, e.symm⟩))
    (fun e => hb (Finset.mem_image.mpr ⟨3, Finset.mem_univ _, e.symm⟩))

end Update

end Cert.KernelIdeal.Hand

end
-- ==== Proof.KI.Reg11Body.lean ====
/-
  Region 11 of the idealized kernel's @main: the normalise + LeakyReLU kernel at width 32, over a grid of ten row
  tiles of 10000 rows. Its seven windows are the row tile of the aggregated features (fetched at every point), five
  rows of 32 entries — the bias, the batch mean, the batch variance, the scale and the shift — (whole, fetched once:
  their block index never moves), and the row tile of the result (written back at every point). The body reads the
  six input blocks whole, computes h = agg + bias, inv = rsqrt(var + eps), hn = (h − mean)·inv·scale + shift and
  stores where(hn ≥ 0, hn, slope·hn) over the whole output block, so what a point leaves in the output's staging
  buffer is a pure function of the six input blocks (`out11_6`), and the inputs' buffers are left as found.

  Stated here, at any float model `F` and at a PARAMETER `V` (the core's buffer contents when the region is
  entered): each window's block at a point (`iblk11`), the body's triple (`sound_kernel11`), the pipeline's proof
  data (`dat11`), the body obligation (`body_obligation11`), and the region as a segment record (`reg11`) for any
  family of proof data whose member 11 is `dat11`, entered from every unscoped buffer at `W₁` and left at `W₂`, where
  `W₂` holds at each of the region's arrays what the pipeline's write-backs leave and elsewhere what `W₁` held.
-/
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): where the window is not
    fetched its block index has not moved, so the block kept from the point before is this point's. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, fetched there or not, for any proof
    data whose array is `V`'s (`hA`) and whose body leaves the block in place (`hafter`): where the window is not
    fetched its block index has not moved, so the block kept from the point before is this point's. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, fetched there or not, for any proof
    data whose array is `V`'s (`hA`) and whose body leaves the block in place (`hafter`): where the window is not
    fetched its block index has not moved, so the block kept from the point before is this point's. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current staging buffer holds its block at every point, fetched there or not, for any proof
    data whose array is `V`'s (`hA`) and whose body leaves the block in place (`hafter`): where the window is not
    fetched its block index has not moved, so the block kept from the point before is this point's. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current staging buffer holds its block at every point, fetched there or not, for any proof
    data whose array is `V`'s (`hA`) and whose body leaves the block in place (`hafter`): where the window is not
    fetched its block index has not moved, so the block kept from the point before is this point's. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
/-- Input window 5's current staging buffer holds its block at every point, fetched there or not, for any proof
    data whose array is `V`'s (`hA`) and whose body leaves the block in place (`hafter`): where the window is not
    fetched its block index has not moved, so the block kept from the point before is this point's. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer whole -/

abbrev r11_x : Rect S10000x32 := Rect.unit (s := S10000x32) ![0, 0] S10000x32.size inb_S10000x32_S10000x32_0_0
abbrev r11_r : Rect S1x32 := Rect.unit (s := S1x32) ![0, 0] S1x32.size inb_S1x32_S1x32_0_0
abbrev r11_o : Rect S10000x32 := Rect.unit (s := S10000x32) ![0, 0] S10000x32.size inb_S10000x32_S10000x32_0_0

/-! ## What the body leaves in the output window's buffer -/

/-- Window 6's staging buffer after the body, from the input windows' blocks (the row tile, the bias, the mean, the
    variance, the scale and the shift, in the windows' order): its one store, of the normalised and rectified tile
    computed from the six blocks read whole. The payload takes the variance before the mean, as the body reads them. -/
def out11_6 (x0 : Vec F S10000x32 .f32) (x1 : Vec F S1x32 .f32) (x2 : Vec F S1x32 .f32) (x3 : Vec F S1x32 .f32) (x4 : Vec F S1x32 .f32) (x5 : Vec F S1x32 .f32) : Vec F S10000x32 .f32 :=
  View.canon [⟨r11_o, k11_pay1 (View.ld x0 r11_x) (View.ld x1 r11_r) (View.ld x3 r11_r) (View.ld x2 r11_r) (View.ld x4 r11_r) (View.ld x5 r11_r)⟩]

/-- The one store is over the whole buffer, so it covers it. -/
theorem cover11_6 (p0 : Vec F S10000x32 .f32) (y : S10000x32.Idx) :
    ∃ pc ∈ ([⟨r11_o, p0⟩] : List (View.Piece (Elt F) S10000x32 .f32)), y ∈ pc.1.set :=
  View.cover_of_tiled [⟨r11_o, p0⟩] S10000x32.size (by rfl) y

/-! ## The body's triple -/

set_option maxHeartbeats 1000000 in
/-- The kernel body on whole staging memrefs, the inputs' at read contents `x0 … x5` and the output's at anything,
    runs to the continuation holding the inputs' as they were and the output's at `out11_6` of the inputs'. -/
theorem sound_kernel11 (c : Dev nD) (E : Set ℕ) (i : grid11.Coords) (arg1 : Memref sig .tc .vmem S10000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S10000x32 .f32) (harg7 : arg7.IsWhole)
    (x0 : Vec F S10000x32 .f32) (x1 : Vec F S1x32 .f32) (x2 : Vec F S1x32 .f32) (x3 : Vec F S1x32 .f32) (x4 : Vec F S1x32 .f32) (x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5)) -∗ K ⟨⟩))
      ⊢ wp frame (wpE (defs₀ (F := F)) Variants.none c none) E (cc11__norm_kernel i arg1 harg1 arg2 harg2 arg3 harg3 arg4 harg4 arg5 harg5 arg6 harg6 arg7 harg7) K := by
  simp only [cc11__norm_kernel_eq_skeleton]; unfold cc11__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-! ## The pipeline's proof data -/

/-- The proof data of pipeline 11 on core `c`: the arrays as the region finds them (`V`); after the body at point `t`
    each input's buffer at its block and the output's at `out11_6` of the input blocks; the invariant is the scoped
    buffers no window stages and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' memrefs hold their blocks, so `sound_kernel11` applies; the invariant and the
    core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation11 (c : Dev nD) : BodyObligation (dat11 (F := F) V c) (defs₀ (F := F)) Variants.none () Set.univ := fun t => by
  rw [bigSep_W11, bigSep_W11]
  exact sound_body11 V c t

end Region

end Cert.KernelIdeal.Hand

end
-- ==== Proof.KI.Reg11.lean ====
/-
  Region 11 of the idealized kernel's @main (the normalise + LeakyReLU kernel at width 32) as a segment of @main:
  the record `reg11` for any family of proof data whose member 11 is `dat11`, entered from every unscoped buffer at
  `W₁` and left at `W₂`, where `W₂` holds at each of the region's arrays what the pipeline's write-backs leave and
  elsewhere what `W₁` held; and the two facts that make `W₂ := W₁` updated at the output array `main_v139` such a
  valuation (`hF11_update`, `hrest11_update`): the six input arrays are never written back, so they end as
  entered, and the output array is the only one of the region's arrays that differs.
-/
import proofs.«109725_j21638045237575_1_alg».proof.Proof.KI.Reg11Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The exit valuation: the entry valuation updated at the output array -/

section Update

variable (W₁ : Dev nD → Valuation τ sig (Elt F)) (c : Dev nD) (x : Buf (Elt F) ((c : Thread nD τ).loc main_v139))

/-- An input window's array is never written back, so after all the points it holds what the region found, and the
    update at the output array does not touch it. -/
theorem hF11_in (w : Fin cfg11.W) (hin : (cfg11.win w).isOut = false) (hne : Pipeline.arrRef spec11 w ≠ main_v139) :
    (dat11 (F := F) (fun c b => W₁ c b) c).arrAt w cfg11.N = Function.update (W₁ c) main_v139 x (Pipeline.arrRef spec11 w) :=
  ((dat11 (F := F) (fun c b => W₁ c b) c).arrAt_in w hin _).trans
    ((A_eq11 (fun c b => W₁ c b) c w).trans (Function.update_of_ne (StableHlo.devRef_ne_of_ne hne) _ _).symm)

/-- Every window but the last is an input, staged from an array other than the output array. -/
theorem in_ne11 : ∀ w : Fin cfg11.W, w ≠ 6 → (cfg11.win w).isOut = false ∧ Pipeline.arrRef spec11 w ≠ main_v139 := by decide

/-- Each of the region's arrays after all the points is what the entry valuation updated at the output array holds
    there, when the update's value `x` is what the pipeline's write-backs leave in the output array. -/
theorem hF11_update (hx : x = (dat11 (F := F) (fun c b => W₁ c b) c).arrAt 6 cfg11.N) :
    ∀ w : Fin cfg11.W, (dat11 (F := F) (fun c b => W₁ c b) c).arrAt w cfg11.N = Function.update (W₁ c) main_v139 x (Pipeline.arrRef spec11 w) := fun w => by
  by_cases h : w = 6
  · subst h hx
    exact (Function.update_self (Proc.devRef .tc main_v139 : DevRef τ sig) _ (W₁ c)).symm
  · exact hF11_in W₁ c x w (in_ne11 w h).1 (in_ne11 w h).2

/-- Every buffer that is none of the region's arrays is not the output array, so the update leaves it as entered. -/
theorem hrest11_update : ∀ b : Ref sig .tc, b ∉ Finset.univ.image (Pipeline.arrRef spec11) → Function.update (W₁ c) main_v139 x b = W₁ c b :=
  fun b hb => Function.update_of_ne (StableHlo.devRef_ne_of_ne fun e =>
    hb (Finset.mem_image.mpr ⟨6, Finset.mem_univ _, (e.symm : Pipeline.arrRef spec11 6 = b)⟩)) _ _

end Update

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest11 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 11 over the thread state "every unscoped buffer whole at a valuation, the generator register at some state,
    nothing owed": entered from the buffers at `W₁`, left at `W₂`, for any family of proof data whose member 11 is
    `dat11` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg11 (hp : ∀ c, pdats 11 c = dat11 (fun c b => W₁ c b) c)
    (hF : ∀ c w, (dat11 (F := F) (fun c b => W₁ c b) c).arrAt w cfg11.N = W₂ c (Pipeline.arrRef spec11 w))
    (hrest : ∀ c (b : Ref sig .tc), b ∉ Finset.univ.image (Pipeline.arrRef spec11) → W₂ c b = W₁ c b) :
    Pipeline.RegionSeg (pcfgs (F := F)) adm pdats () defs₀ Variants.none L lv 11 where
  win := launch11.win.to₀
  block_pos := launch11.block_pos
  stage_whole := launch11.stage_whole
  K := PEmpty
  osem k := k.elim
  ho := Pipeline.OwnSemFacts.none _
  hbody c := by rw [hp c]; exact (body_obligation11 (fun c b => W₁ c b) c).loose
  hwaits := Pipeline.hwaits_of_owed_zero _ _ _ _ L lv 11 fun c _ => by rw [hp c]; rfl
  pre c := iprop(StableHlo.held (c : Thread nD τ) (Pipeline.ucRefs τ sig) (W₁ c) ∗ rest11 c)
  post c := iprop(StableHlo.held (c : Thread nD τ) (Pipeline.ucRefs τ sig) (W₂ c) ∗ rest11 c)
  X c := iprop(∃ r, prngReg c r)
  Y c := iprop(∃ r, prngReg c r)
  Z c := Pipeline.unscopedRest (Ix := Unit) (Name := ℕ) (U := UR sig nD τ) (Lvl := ℕ) spec11 c (fun b => W₁ c b)
  hentry c := by
    rw [Pipeline.ownSems0_none]
    have hq : ∀ w, (pdats 11 c).q w = fullShare := fun w => by rw [hp c]; rfl
    have hA : ∀ w, (pdats 11 c).A w = (fun b : Ref sig .tc => W₁ c b) (Pipeline.arrRef spec11 w) := fun w => by rw [hp c]; rfl
    have hsplit := Pipeline.arrays_of_unscopedBufs (p := 11) (pcfgs (F := F)) adm pdats launch11.win launch11.arr_whole c
      ((pdats 11 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; rw [hp c]; exact fun _ _ => Or.inl trivial
      rw [show (pdats 11 c).owed 0 = 0 from by rw [hp c]; rfl]
      iexact HO
    isplitl [Hp]; · iexact Hp
    iexact Hrest
  hin c := by
    rw [show (pdats 11 c).Φ 0 = Pipeline.ΦA spec11 c from by rw [hp c]; rfl]; unfold Pipeline.ΦA
    iintro ⟨Hp, -, Hr⟩
    isplitl [Hr]; · iexact Hr
    iexact Hp
  hout c := by
    rw [Pipeline.ownSems0_none, show (pdats 11 c).Φ (Fin.last _) = Pipeline.ΦA spec11 c from by rw [hp c]; rfl]; unfold Pipeline.ΦA
    iintro ⟨Hr, Hp⟩
    isplitl [Hp]; · iexact Hp
    isplitr; · iempintro
    iexact Hr
  hexit c := by
    have hq : ∀ w, (pdats 11 c).q w = fullShare := fun w => by rw [hp c]; rfl
    have hjoin := Pipeline.unscopedBufs_of_arrays (p := 11) (pcfgs (F := F)) adm (Ix := Unit) (Name := ℕ) (U := UR sig nD τ) (Lvl := ℕ)
      launch11.win launch11.arr_whole c pdats ((pdats 11 c).share_full hq)
      (fun b => W₁ c b) (fun b => W₂ c b) ((pdats 11 c).arrAt · cfg11.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 11 c).owed (Fin.last _) = 0 from by rw [hp c]; rfl]
    iexact HO

end Record

end Cert.KernelIdeal.Hand

end
-- ==== Proof.KI.Reg12.lean ====
/-
  Region 12 of the idealized kernel's @main: the linear kernel y = x·W + bias at widths 32 → 16, over a grid of
  ten row tiles of 10000 rows. Its four windows are the row tile of x (fetched at every point), the weight matrix
  and the bias row (whole, fetched once: their block index never moves), and the row tile of the result (written
  back at every point). The body reads the three input blocks whole and stores one value over the whole output
  block, so what a point leaves in the output's staging buffer is a pure function of the three input blocks
  (`out12_3`), and the inputs' buffers are left as found.

  Stated here, at any float model `F` and at a PARAMETER `V` (the core's buffer contents when the region is
  entered): each window's block at a point (`iblk12`), the body's triple (`sound_kernel12`), the pipeline's proof
  data (`dat12`), the body obligation (`body_obligation12`), and the region as a segment record (`reg12`) for any
  family of proof data whose member 12 is `dat12`, entered from every unscoped buffer at `W₁` and left at `W₂`, where
  `W₂` holds at each of the region's arrays what the pipeline's write-backs leave and elsewhere what `W₁` held.
-/
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is `V`'s (`hA`) and whose body leaves the block in place (`hafter`): where the window is not
    fetched its block index has not moved, so the block kept from the point before is this point's. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1's current staging buffer holds its block at every point, fetched there or not, for any proof
    data whose array is `V`'s (`hA`) and whose body leaves the block in place (`hafter`): where the window is not
    fetched its block index has not moved, so the block kept from the point before is this point's. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- Input window 2's current staging buffer holds its block at every point, fetched there or not, for any proof
    data whose array is `V`'s (`hA`) and whose body leaves the block in place (`hafter`): where the window is not
    fetched its block index has not moved, so the block kept from the point before is this point's. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each buffer whole -/

abbrev r12_x : Rect S10000x32 := Rect.unit (s := S10000x32) ![0, 0] S10000x32.size inb_S10000x32_S10000x32_0_0
abbrev r12_w : Rect S32x16 := Rect.unit (s := S32x16) ![0, 0] S32x16.size inb_S32x16_S32x16_0_0
abbrev r12_b : Rect S1x16 := Rect.unit (s := S1x16) ![0, 0] S1x16.size inb_S1x16_S1x16_0_0
abbrev r12_o : Rect S10000x16 := Rect.unit (s := S10000x16) ![0, 0] S10000x16.size inb_S10000x16_S10000x16_0_0

/-! ## What the body leaves in the output window's buffer -/

/-- Window 3's staging buffer after the body, from the input windows' blocks: its one store, of the payload
    x·W + bias computed from the three blocks read whole. -/
def out12_3 (x0 : Vec F S10000x32 .f32) (x1 : Vec F S32x16 .f32) (x2 : Vec F S1x16 .f32) : Vec F S10000x16 .f32 :=
  View.canon [⟨r12_o, k12_pay1 (View.ld x0 r12_x) (View.ld x1 r12_w) (View.ld x2 r12_b)⟩]

/-- The one store is over the whole buffer, so it covers it. -/
theorem cover12_3 (p0 : Vec F S10000x16 .f32) (y : S10000x16.Idx) :
    ∃ pc ∈ ([⟨r12_o, p0⟩] : List (View.Piece (Elt F) S10000x16 .f32)), y ∈ pc.1.set :=
  View.cover_of_tiled [⟨r12_o, p0⟩] S10000x16.size (by rfl) y

/-! ## The body's triple -/

set_option maxHeartbeats 1000000 in
/-- The kernel body on whole staging memrefs, the inputs' at read contents `x0 x1 x2` and the output's at anything,
    runs to the continuation holding the inputs' as they were and the output's at `out12_3` of the inputs'. -/
theorem sound_kernel12 (c : Dev nD) (E : Set ℕ) (i : grid12.Coords) (arg1 : Memref sig .tc .vmem S10000x32 .f32) (harg1 : arg1.IsWhole) (arg2 : Memref sig .tc .vmem S32x16 .f32) (harg2 : arg2.IsWhole) (arg3 : Memref sig .tc .vmem S1x16 .f32) (harg3 : arg3.IsWhole) (arg4 : Memref sig .tc .vmem S10000x16 .f32) (harg4 : arg4.IsWhole)
    (x0 : Vec F S10000x32 .f32) (x1 : Vec F S32x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12_3 x0 x1 x2)) -∗ K ⟨⟩))
      ⊢ wp frame (wpE (defs₀ (F := F)) Variants.none c none) E (cc12__linear_kernel i arg1 harg1 arg2 harg2 arg3 harg3 arg4 harg4) K := by
  simp only [cc12__linear_kernel_eq_skeleton]; unfold cc12__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-! ## The pipeline's proof data -/

/-- The proof data of pipeline 12 on core `c`: the arrays as the region finds them (`V`); after the body at point `t`
    each input's buffer at its block and the output's at `out12_3` of the input blocks; the invariant is the scoped
    buffers no window stages and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' memrefs hold their blocks, so `sound_kernel12` applies; the invariant and the
    core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ (grid12.coords t) _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest12 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 12 over the thread state "every unscoped buffer whole at a valuation, the generator register at some state,
    nothing owed": entered from the buffers at `W₁`, left at `W₂`, for any family of proof data whose member 12 is
    `dat12` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg12 (hp : ∀ c, pdats 12 c = dat12 (fun c b => W₁ c b) c)
    (hF : ∀ c w, (dat12 (F := F) (fun c b => W₁ c b) c).arrAt w cfg12.N = W₂ c (Pipeline.arrRef spec12 w))
    (hrest : ∀ c (b : Ref sig .tc), b ∉ Finset.univ.image (Pipeline.arrRef spec12) → W₂ c b = W₁ c b) :
    Pipeline.RegionSeg (pcfgs (F := F)) adm pdats () defs₀ Variants.none L lv 12 where
  win := launch12.win.to₀
  block_pos := launch12.block_pos
  stage_whole := launch12.stage_whole
  K := PEmpty
  osem k := k.elim
  ho := Pipeline.OwnSemFacts.none _
  hbody c := by rw [hp c]; exact (body_obligation12 (fun c b => W₁ c b) c).loose
  hwaits := Pipeline.hwaits_of_owed_zero _ _ _ _ L lv 12 fun c _ => by rw [hp c]; rfl
  pre c := iprop(StableHlo.held (c : Thread nD τ) (Pipeline.ucRefs τ sig) (W₁ c) ∗ rest12 c)
  post c := iprop(StableHlo.held (c : Thread nD τ) (Pipeline.ucRefs τ sig) (W₂ c) ∗ rest12 c)
  X c := iprop(∃ r, prngReg c r)
  Y c := iprop(∃ r, prngReg c r)
  Z c := Pipeline.unscopedRest (Ix := Unit) (Name := ℕ) (U := UR sig nD τ) (Lvl := ℕ) spec12 c (fun b => W₁ c b)
  hentry c := by
    rw [Pipeline.ownSems0_none]
    have hq : ∀ w, (pdats 12 c).q w = fullShare := fun w => by rw [hp c]; rfl
    have hA : ∀ w, (pdats 12 c).A w = (fun b : Ref sig .tc => W₁ c b) (Pipeline.arrRef spec12 w) := fun w => by rw [hp c]; rfl
    have hsplit := Pipeline.arrays_of_unscopedBufs (p := 12) (pcfgs (F := F)) adm pdats launch12.win launch12.arr_whole c
      ((pdats 12 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 12 c).Φ 0 = Pipeline.ΦA spec12 c from by rw [hp c]; rfl]; unfold Pipeline.ΦA
    iintro ⟨Hp, -, Hr⟩
    isplitl [Hr]; · iexact Hr
    iexact Hp
  hout c := by
    rw [Pipeline.ownSems0_none, show (pdats 12 c).Φ (Fin.last _) = Pipeline.ΦA spec12 c from by rw [hp c]; rfl]; unfold Pipeline.ΦA
    iintro ⟨Hr, Hp⟩
    isplitl [Hp]; · iexact Hp
    isplitr; · iempintro
    iexact Hr
  hexit c := by
    have hq : ∀ w, (pdats 12 c).q w = fullShare := fun w => by rw [hp c]; rfl
    have hjoin := Pipeline.unscopedBufs_of_arrays (p := 12) (pcfgs (F := F)) adm (Ix := Unit) (Name := ℕ) (U := UR sig nD τ) (Lvl := ℕ)
      launch12.win launch12.arr_whole c pdats ((pdats 12 c).share_full hq)
      (fun b => W₁ c b) (fun b => W₂ c b) ((pdats 12 c).arrAt · cfg12.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Record

/-! ## The exit valuation as an update of the entry valuation at the result's buffer -/

section Update

variable (W₁ : Dev nD → Valuation τ sig (Elt F))

/-- A property of the four windows, checked window by window. -/
private theorem fin4_cases {P : Fin 4 → Prop} (h0 : P 0) (h1 : P 1) (h2 : P 2) (h3 : P 3) : ∀ w, P w
  | ⟨0, _⟩ => h0
  | ⟨1, _⟩ => h1
  | ⟨2, _⟩ => h2
  | ⟨3, _⟩ => h3

/-- When the exit valuation is the entry valuation updated at the result's buffer `main_v142` with what the pipeline's
    write-backs leave in it, every array of the region holds there what the pipeline leaves: an input's array is never
    written and is not the result's buffer; the result's array is the updated one. -/
theorem hF12_update (c : Dev nD) (x : Buf (Elt F) ((c : Thread nD τ).loc main_v142))
    (hx : x = (dat12 (F := F) (fun c b => W₁ c b) c).arrAt 3 cfg12.N) :
    ∀ w, (dat12 (F := F) (fun c b => W₁ c b) c).arrAt w cfg12.N = Function.update (W₁ c) main_v142 x (Pipeline.arrRef spec12 w) :=
  fin4_cases (P := fun w => (dat12 (F := F) (fun c b => W₁ c b) c).arrAt w cfg12.N = Function.update (W₁ c) main_v142 x (Pipeline.arrRef spec12 w))
    (((dat12 (F := F) (fun c b => W₁ c b) c).arrAt_in 0 rfl _).trans ((A_eq12 (fun c b => W₁ c b) c 0).trans (Function.update_of_ne (StableHlo.devRef_ne_of_ne (by decide)) _ _).symm))
    (((dat12 (F := F) (fun c b => W₁ c b) c).arrAt_in 1 rfl _).trans ((A_eq12 (fun c b => W₁ c b) c 1).trans (Function.update_of_ne (StableHlo.devRef_ne_of_ne (by decide)) _ _).symm))
    (((dat12 (F := F) (fun c b => W₁ c b) c).arrAt_in 2 rfl _).trans ((A_eq12 (fun c b => W₁ c b) c 2).trans (Function.update_of_ne (StableHlo.devRef_ne_of_ne (by decide)) _ _).symm))
    (hx.symm.trans (Function.update_self (β := fun b : DevRef τ sig => b.ty.Contents (Elt F)) _ _ _).symm)

/-- and every buffer that is no array of the region holds what it held at entry. -/
theorem hrest12_update (c : Dev nD) (x : Buf (Elt F) ((c : Thread nD τ).loc main_v142)) :
    ∀ b : Ref sig .tc, b ∉ Finset.univ.image (Pipeline.arrRef spec12) → Function.update (W₁ c) main_v142 x b = W₁ c b :=
  fun b hb => Function.update_of_ne (StableHlo.devRef_ne_of_ne fun e => hb (Finset.mem_image.mpr ⟨3, Finset.mem_univ _, e.symm⟩)) _ _

end Update

end Cert.KernelIdeal.Hand

end
-- ==== Proof.KI.Reg13Run.lean ====
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.KI.StatLib
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the fifth layer (16 columns): the body's three control cases

The body adds the bias row to its block of 10000 rows, adds the column sums of the result and of its square to two
carried rows, having first zeroed those rows at the first grid point, and at the last grid point divides both rows
by the number of rows and writes the mean and the mean of squares less the squared mean. -/

/-- The first conditional (zero the two carried rows): taken where the grid coordinate is 0. -/
abbrev cond13_0 (i : grid13.Coords) : Prop :=
  (Scalar.cmpi .ne (Scalar.extui (Scalar.cmpi .eq (BitVec.ofNat 32 (i 0).val) 0#32)) 0#32) = 1#1
/-- The second conditional (write the two outputs): taken where the grid coordinate is 9. -/
abbrev cond13_1 (i : grid13.Coords) : Prop := k13_cond2 i = 1#1

theorem hcond13_0 : ∀ t : Fin cfg13.N, cond13_0 (grid13.coords t) ↔ t.val = 0 :=
  (by decide +kernel : ∀ t : Fin grid13.N, cond13_0 (grid13.coords t) ↔ t.val = 0)
theorem hcond13_1 : ∀ t : Fin cfg13.N, cond13_1 (grid13.coords t) ↔ t.val = 9 :=
  (by decide +kernel : ∀ t : Fin grid13.N, cond13_1 (grid13.coords t) ↔ t.val = 9)

set_option maxHeartbeats 1000000 in
/-- A middle grid point: neither conditional is taken; the carried rows `s5`, `s6` receive the block's column sums. -/
theorem sound_kernel13_B (c : Dev nD) (E : Set ℕ) (i : grid13.Coords)
    (arg1 : Memref sig .tc .vmem S10000x16 .f32) (harg1 : arg1.IsWhole) (arg2 : Memref sig .tc .vmem S1x16 .f32) (harg2 : arg2.IsWhole)
    (arg3 : Memref sig .tc .vmem S1x16 .f32) (harg3 : arg3.IsWhole) (arg4 : Memref sig .tc .vmem S1x16 .f32) (harg4 : arg4.IsWhole)
    (arg5 : Memref sig .tc .vmem S1x16 .f32) (harg5 : arg5.IsWhole) (arg6 : Memref sig .tc .vmem S1x16 .f32) (harg6 : arg6.IsWhole)
    (hc0 : ¬ cond13_0 i) (hc1 : ¬ cond13_1 i)
    (x0 : Vec F S10000x16 .f32) (x1 : Vec F S1x16 .f32) (s5 s6 : Vec F S1x16 .f32) (K : PUnit → sProp 𝕄) :
    iprop(owns (c : Thread nD τ) arg1 fullShare x0 ∗ owns (c : Thread nD τ) arg2 fullShare x1 ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg5 fullShare (k13_pay4 x0 x1 s5) ∗ owns (c : Thread nD τ) arg6 fullShare (k13_pay5 x0 x1 s6)) -∗ K ⟨⟩))
      ⊢ wp frame (wpE (defs₀ (F := F)) Variants.none c none) E (cc13__reduce_kernel i arg1 harg1 arg2 harg2 arg3 harg3 arg4 harg4 arg5 harg5 arg6 harg6) K := by
  simp only [cc13__reduce_kernel_eq_skeleton]; unfold cc13__reduce_kernel_skel
  unfold owns
  iintro ⟨⟨%f0, %hf0, H0⟩, ⟨%f1, %hf1, H1⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store _ _ stat_off2_zero]
    simp only [View.readAt_eq_ld, View.ld_unit_zero (S := S10000x16) stat_off2_zero, View.ld_unit_zero (S := S1x16) stat_off2_zero]
  · iexists _; isplitr
    swap; · iexact H6
    ipureintro
    rw [stat_read_store _ _ stat_off2_zero]
    simp only [View.readAt_eq_ld, View.ld_unit_zero (S := S10000x16) stat_off2_zero, View.ld_unit_zero (S := S1x16) stat_off2_zero]

set_option maxHeartbeats 1000000 in
/-- The first grid point: the carried rows are zeroed, whatever they held, then receive the block's column sums. -/
theorem sound_kernel13_A (c : Dev nD) (E : Set ℕ) (i : grid13.Coords)
    (arg1 : Memref sig .tc .vmem S10000x16 .f32) (harg1 : arg1.IsWhole) (arg2 : Memref sig .tc .vmem S1x16 .f32) (harg2 : arg2.IsWhole)
    (arg3 : Memref sig .tc .vmem S1x16 .f32) (harg3 : arg3.IsWhole) (arg4 : Memref sig .tc .vmem S1x16 .f32) (harg4 : arg4.IsWhole)
    (arg5 : Memref sig .tc .vmem S1x16 .f32) (harg5 : arg5.IsWhole) (arg6 : Memref sig .tc .vmem S1x16 .f32) (harg6 : arg6.IsWhole)
    (hc0 : cond13_0 i) (hc1 : ¬ cond13_1 i)
    (x0 : Vec F S10000x16 .f32) (x1 : Vec F S1x16 .f32) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg5 fullShare (k13_pay4 x0 x1 k13_pay1) ∗ owns (c : Thread nD τ) arg6 fullShare (k13_pay5 x0 x1 k13_pay2)) -∗ K ⟨⟩))
      ⊢ wp frame (wpE (defs₀ (F := F)) Variants.none c none) E (cc13__reduce_kernel i arg1 harg1 arg2 harg2 arg3 harg3 arg4 harg4 arg5 harg5 arg6 harg6) K := by
  simp only [cc13__reduce_kernel_eq_skeleton]; unfold cc13__reduce_kernel_skel
  unfold owns
  iintro ⟨⟨%f0, %hf0, H0⟩, ⟨%f1, %hf1, H1⟩, ⟨%d5, %f5, -, H5⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [stat_read_store_cons _ _ stat_off2_zero]
    sl_unfold_run_names
    first | (simp only [View.readAt_eq_ld, View.readCov_unit_zero (S := S1x16) _ stat_off2_zero, View.ld_unit_zero (S := S10000x16) stat_off2_zero, View.ld_unit_zero (S := S1x16) stat_off2_zero]) | fail "simp set did not close the read-back"
  · iexists _; isplitr
    swap; · iexact H6
    ipureintro
    rw [stat_read_store_cons _ _ stat_off2_zero]
    sl_unfold_run_names
    first | (simp only [View.readAt_eq_ld, View.readCov_unit_zero (S := S1x16) _ stat_off2_zero, View.ld_unit_zero (S := S10000x16) stat_off2_zero, View.ld_unit_zero (S := S1x16) stat_off2_zero]) | fail "simp set did not close the read-back"

set_option maxHeartbeats 1000000 in
/-- The last grid point: the carried rows receive the block's column sums, then the two outputs are written from them. -/
theorem sound_kernel13_C (c : Dev nD) (E : Set ℕ) (i : grid13.Coords)
    (arg1 : Memref sig .tc .vmem S10000x16 .f32) (harg1 : arg1.IsWhole) (arg2 : Memref sig .tc .vmem S1x16 .f32) (harg2 : arg2.IsWhole)
    (arg3 : Memref sig .tc .vmem S1x16 .f32) (harg3 : arg3.IsWhole) (arg4 : Memref sig .tc .vmem S1x16 .f32) (harg4 : arg4.IsWhole)
    (arg5 : Memref sig .tc .vmem S1x16 .f32) (harg5 : arg5.IsWhole) (arg6 : Memref sig .tc .vmem S1x16 .f32) (harg6 : arg6.IsWhole)
    (hc0 : ¬ cond13_0 i) (hc1 : cond13_1 i)
    (x0 : Vec F S10000x16 .f32) (x1 : Vec F S1x16 .f32) (s5 s6 : Vec F S1x16 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg3 fullShare (k13_pay6 (k13_pay4 x0 x1 s5)) ∗ owns (c : Thread nD τ) arg4 fullShare (k13_pay7 (k13_pay4 x0 x1 s5) (k13_pay5 x0 x1 s6))
            ∗ owns (c : Thread nD τ) arg5 fullShare (k13_pay4 x0 x1 s5) ∗ owns (c : Thread nD τ) arg6 fullShare (k13_pay5 x0 x1 s6)) -∗ K ⟨⟩))
      ⊢ wp frame (wpE (defs₀ (F := F)) Variants.none c none) E (cc13__reduce_kernel i arg1 harg1 arg2 harg2 arg3 harg3 arg4 harg4 arg5 harg5 arg6 harg6) K := by
  simp only [cc13__reduce_kernel_eq_skeleton]; unfold cc13__reduce_kernel_skel
  unfold owns
  iintro ⟨⟨%f0, %hf0, H0⟩, ⟨%f1, %hf1, H1⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [stat_read_store _ _ stat_off2_zero]
    sl_unfold_run_names
    first | (simp only [View.readAt_eq_ld, View.readCov_unit_zero (S := S1x16) _ stat_off2_zero, View.ld_unit_zero (S := S10000x16) stat_off2_zero, View.ld_unit_zero (S := S1x16) stat_off2_zero]) | fail "simp set did not close the read-back"
  isplitl [H4]
  · iexists _; isplitr
    swap; · iexact H4
    ipureintro
    rw [stat_read_store _ _ stat_off2_zero]
    sl_unfold_run_names
    first | (simp only [View.readAt_eq_ld, View.readCov_unit_zero (S := S1x16) _ stat_off2_zero, View.ld_unit_zero (S := S10000x16) stat_off2_zero, View.ld_unit_zero (S := S1x16) stat_off2_zero]) | fail "simp set did not close the read-back"
  isplitl [H5]
  · iexists _; isplitr
    swap; · iexact H5
    ipureintro
    sl_unfold_run_names
    rw [stat_read_store_cons _ _ stat_off2_zero]
    first | (simp only [View.readAt_eq_ld, View.readCov_unit_zero (S := S1x16) _ stat_off2_zero, View.ld_unit_zero (S := S10000x16) stat_off2_zero, View.ld_unit_zero (S := S1x16) stat_off2_zero]) | fail "simp set did not close the read-back"
  · iexists _; isplitr
    swap; · iexact H6
    ipureintro
    sl_unfold_run_names
    rw [stat_read_store_cons _ _ stat_off2_zero]
    first | (simp only [View.readAt_eq_ld, View.readCov_unit_zero (S := S1x16) _ stat_off2_zero, View.ld_unit_zero (S := S10000x16) stat_off2_zero, View.ld_unit_zero (S := S1x16) stat_off2_zero]) | fail "simp set did not close the read-back"

end Cert.KernelIdeal.Hand

end
-- ==== Proof.KI.Reg13.lean ====
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import proofs.«109725_j21638045237575_1_alg».proof.Proof.KI.Reg13Run
import Idealize.ShloMosaic.Lib.Pipeline.Frame
import Idealize.ShloMosaic.Lib.Pipeline.FrameBody
import Idealize.ShloMosaic.Lib.Pipeline.Kit
import Idealize.ShloMosaic.Lib.Pipeline.Regions
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of the fifth layer (16 columns) as a region of @main

Ten grid points, each a block of 10000 rows of the aggregated features. Two rows of 16 are carried from point to
point in scratch memory: the column sums of (block + bias) and of its square over the blocks seen so far. The first
point zeroes them first; the last point writes mean = sum / 100000 and var = sumsq / 100000 − mean · mean into the
two outputs' staging buffers, which are written back there and nowhere else; at the other points the body leaves
the outputs' buffers as it found them. -/

section Region

variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The block of aggregated rows is in its staging buffer at every point, for any proof data over `V` whose body
    leaves it there. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The bias row is in its staging buffer at every point (fetched once: its block index never moves). -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The carried rows -/

/-- The two carried rows when the accumulation of point `t` starts: both zero at the first point (after its zeroing),
    and after each point the sums of (block + bias), and of its square, down the block's columns added — a fold of the
    body's payload terms over the blocks seen so far, first component the sums, second the sums of squares. -/
def scr13 (c : Dev nD) : ℕ → Vec F S1x16 .f32 × Vec F S1x16 .f32
  | 0 => (k13_pay1, k13_pay2)
  | t + 1 =>
    if h : t < cfg13.N then
      (k13_pay4 (iblk13 V c 0 ⟨t, h⟩) (iblk13 V c 1 ⟨t, h⟩) (scr13 c t).1,
       k13_pay5 (iblk13 V c 0 ⟨t, h⟩) (iblk13 V c 1 ⟨t, h⟩) (scr13 c t).2)
    else scr13 c t

theorem scr13_zero (c : Dev nD) : scr13 V c 0 = (k13_pay1, k13_pay2) := by rw [scr13]

/-- One point's step of the fold. -/
theorem scr13_succ (c : Dev nD) (t : Fin cfg13.N) :
    scr13 V c (t.val + 1) = (k13_pay4 (iblk13 V c 0 t) (iblk13 V c 1 t) (scr13 V c t.val).1,
      k13_pay5 (iblk13 V c 0 t) (iblk13 V c 1 t) (scr13 V c t.val).2) := by
  rw [scr13, dif_pos t.isLt]

/-- The scratch rows between points, as the invariant holds them: before the first point at anything, before point
    `n > 0` at the fold's value there. -/
def scrAt13 (c : Dev nD) (n : ℕ) : sProp 𝕄 :=
  if n = 0 then
    iprop((∃ d, owns (c : Thread nD τ) (Memref.whole cc13_scratch0 : Memref sig .tc .vmem S1x16 .f32) fullShare d) ∗ (∃ d, owns (c : Thread nD τ) (Memref.whole cc13_scratch1 : Memref sig .tc .vmem S1x16 .f32) fullShare d))
  else
    iprop(owns (c : Thread nD τ) (Memref.whole cc13_scratch0 : Memref sig .tc .vmem S1x16 .f32) fullShare (scr13 V c n).1 ∗ owns (c : Thread nD τ) (Memref.whole cc13_scratch1 : Memref sig .tc .vmem S1x16 .f32) fullShare (scr13 V c n).2)

theorem scrAt13_zero (c : Dev nD) :
    scrAt13 V c 0 = iprop((∃ d, owns (c : Thread nD τ) (Memref.whole cc13_scratch0 : Memref sig .tc .vmem S1x16 .f32) fullShare d) ∗ (∃ d, owns (c : Thread nD τ) (Memref.whole cc13_scratch1 : Memref sig .tc .vmem S1x16 .f32) fullShare d)) := by
  unfold scrAt13; rw [if_pos rfl]

theorem scrAt13_pos (c : Dev nD) (n : ℕ) (h : n ≠ 0) :
    scrAt13 V c n = iprop(owns (c : Thread nD τ) (Memref.whole cc13_scratch0 : Memref sig .tc .vmem S1x16 .f32) fullShare (scr13 V c n).1 ∗ owns (c : Thread nD τ) (Memref.whole cc13_scratch1 : Memref sig .tc .vmem S1x16 .f32) fullShare (scr13 V c n).2) := by
  unfold scrAt13; rw [if_neg h]

/-! ## The pipeline's proof data -/

/-- The proof data of the pipeline on core `c`: the arrays as the region finds them; each input's buffer left at its
    block; the mean's and the variance's buffers, where the body stores them (the last point), at the body's two last
    payload terms of the carried rows after that point's accumulation; the invariant the scoped buffers other than
    the two scratch rows, the generator register, and the scratch rows at the fold's value; nothing owed. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => k13_pay6 (scr13 V c (t.val + 1)).1
    | ⟨3, _⟩ => k13_pay7 (scr13 V c (t.val + 1)).1 (scr13 V c (t.val + 1)).2
  Φ t := iprop(Pipeline.scopedRestBut (Ix := Unit) (Name := ℕ) (U := UR sig nD τ) (Lvl := ℕ) (Val := Elt F) spec13 c [cc13_scratch0, cc13_scratch1]
    ∗ (∃ r, prngReg c r) ∗ scrAt13 V c t.val)
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = k13_pay6 (scr13 V c (t.val + 1)).1 := by dsimp only [dat13]
theorem after13_3 (c : Dev nD) (t : Fin cfg13.N) :
    (dat13 V c).after 3 t = k13_pay7 (scr13 V c (t.val + 1)).1 (scr13 V c (t.val + 1)).2 := by dsimp only [dat13]

theorem Φ13_eq (c : Dev nD) (t : Fin (cfg13.N + 1)) :
    (dat13 V c).Φ t = iprop(Pipeline.scopedRestBut (Ix := Unit) (Name := ℕ) (U := UR sig nD τ) (Lvl := ℕ) (Val := Elt F) spec13 c [cc13_scratch0, cc13_scratch1]
      ∗ (∃ r, prngReg c r) ∗ scrAt13 V c t.val) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- The two outputs' buffers are idle (the body stores nothing there) at every point but the last, -/
theorem idle13_2 : ∀ t : Fin cfg13.N, cfg13.idle 2 (cfg13.grid.coords t) = true ↔ t.val ≠ 9 :=
  (by decide +kernel : ∀ t : Fin grid13.N, cfg13.idle 2 (grid13.coords t) = true ↔ t.val ≠ 9)
theorem idle13_3 : ∀ t : Fin cfg13.N, cfg13.idle 3 (cfg13.grid.coords t) = true ↔ t.val ≠ 9 :=
  (by decide +kernel : ∀ t : Fin grid13.N, cfg13.idle 3 (grid13.coords t) = true ↔ t.val ≠ 9)

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns: the two outputs' buffers as found where they are idle, at the stated contents at the last point. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ (dat13 V c).leavesExact 2 t
    ∗ (dat13 V c).leavesExact 3 t)

set_option maxHeartbeats 1000000 in
/-- The body at any point, by the three control cases: at the first point the scratch rows are found at anything and
    left at the fold's first step; at a middle point found at the fold's value and left at its next; at the last point
    also the two outputs' buffers, found at anything, are left at the mean and the variance of the final rows. The
    rest of the invariant and the core's `owes` pass through unread; where an output's buffer is idle it is handed back
    as it was found. -/
theorem sound_body13 (c : Dev nD) (t : Fin cfg13.N) :
    bodyPre13 V c t ⊢ wp frame (wpE (defs₀ (F := F)) Variants.none c none) Set.univ (bodyAt13 t) (fun _ => bodyPost13 V c t) := by
  have hlt : t.val < 10 := by
    have h := t.isLt
    have hN : cfg13.N = 10 := N_13
    omega
  unfold bodyPre13 bodyPost13 bodyAt13
  simp only [before13_0, before13_1]
  rw [show (dat13 V c).owesAt () t.succ = (dat13 V c).owesAt () t.castSucc from rfl, after13_0, after13_1,
    Φ13_eq, Φ13_eq, Fin.val_succ, Fin.val_castSucc, scrAt13_pos V c (t.val + 1) (Nat.succ_ne_zero _), scr13_succ]
  by_cases h0 : t.val = 0
  · -- the first point
    have h9 : t.val ≠ 9 := by omega
    have hc0 : cond13_0 (grid13.coords t) := (hcond13_0 t).mpr h0
    have hc1 : ¬ cond13_1 (grid13.coords t) := fun h => h9 ((hcond13_1 t).mp h)
    rw [Dat.leavesExact_idle _ 2 t ((idle13_2 t).mpr h9) (by rw [Bool.eq_false_iff]; intro h; have := (flush13_2 t).mp h; omega),
      Dat.leavesExact_idle _ 3 t ((idle13_3 t).mpr h9) (by rw [Bool.eq_false_iff]; intro h; have := (flush13_3 t).mp h; omega),
      h0, scrAt13_zero, scr13_zero]
    iintro ⟨⟨Hrest, Hprng, H5, H6⟩, Ho, ⟨%d0, H0⟩, ⟨%d1, H1⟩, H2, H3⟩
    iapply (sound_kernel13_A c Set.univ (grid13.coords t) _ _ _ _ _ _ _ _ _ _ _ _ hc0 hc1 (iblk13 V c 0 t) (iblk13 V c 1 t) _)
    isplitl [H0]; · iexact H0
    isplitl [H1]; · iexact H1
    isplitl [H5]; · iexact H5
    isplitl [H6]; · iexact H6
    iintro ⟨H0, H1, H5, H6⟩
    isplitl [Hrest Hprng H5 H6]
    · isplitl [Hrest]; · iexact Hrest
      isplitl [Hprng]; · iexact Hprng
      isplitl [H5]; · iexact H5
      iexact H6
    isplitl [Ho]; · iexact Ho
    isplitl [H0]; · iexact H0
    isplitl [H1]; · iexact H1
    isplitl [H2]; · iexact H2
    iexact H3
  · by_cases h9 : t.val = 9
    · -- the last point
      have hc0 : ¬ cond13_0 (grid13.coords t) := fun h => h0 ((hcond13_0 t).mp h)
      have hc1 : cond13_1 (grid13.coords t) := (hcond13_1 t).mpr h9
      have hi2 : cfg13.idle 2 (cfg13.grid.coords t) = false := by
        rw [Bool.eq_false_iff]; intro h; exact (idle13_2 t).mp h h9
      have hi3 : cfg13.idle 3 (cfg13.grid.coords t) = false := by
        rw [Bool.eq_false_iff]; intro h; exact (idle13_3 t).mp h h9
      rw [scrAt13_pos V c t.val h0]
      unfold Dat.leavesExact
      rw [hi2]
      try rw [hi3]
      dsimp only
      rw [after13_2, after13_3, scr13_succ]
      iintro ⟨⟨Hrest, Hprng, H5, H6⟩, Ho, ⟨%d0, H0⟩, ⟨%d1, H1⟩, ⟨%d2, H2⟩, ⟨%d3, H3⟩⟩
      iapply (sound_kernel13_C c Set.univ (grid13.coords t) _ _ _ _ _ _ _ _ _ _ _ _ hc0 hc1 (iblk13 V c 0 t) (iblk13 V c 1 t)
        (scr13 V c t.val).1 (scr13 V c t.val).2 _)
      isplitl [H0]; · iexact H0
      isplitl [H1]; · iexact H1
      isplitl [H2]; · iexists _; iexact H2
      isplitl [H3]; · iexists _; iexact H3
      isplitl [H5]; · iexact H5
      isplitl [H6]; · iexact H6
      iintro ⟨H0, H1, H2, H3, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3
    · -- a middle point
      have hc0 : ¬ cond13_0 (grid13.coords t) := fun h => h0 ((hcond13_0 t).mp h)
      have hc1 : ¬ cond13_1 (grid13.coords t) := fun h => h9 ((hcond13_1 t).mp h)
      rw [Dat.leavesExact_idle _ 2 t ((idle13_2 t).mpr h9) (by rw [Bool.eq_false_iff]; intro h; have := (flush13_2 t).mp h; omega),
        Dat.leavesExact_idle _ 3 t ((idle13_3 t).mpr h9) (by rw [Bool.eq_false_iff]; intro h; have := (flush13_3 t).mp h; omega),
        scrAt13_pos V c t.val h0]
      iintro ⟨⟨Hrest, Hprng, H5, H6⟩, Ho, ⟨%d0, H0⟩, ⟨%d1, H1⟩, H2, H3⟩
      iapply (sound_kernel13_B c Set.univ (grid13.coords t) _ _ _ _ _ _ _ _ _ _ _ _ hc0 hc1 (iblk13 V c 0 t) (iblk13 V c 1 t)
        (scr13 V c t.val).1 (scr13 V c t.val).2 _)
      isplitl [H0]; · iexact H0
      isplitl [H1]; · iexact H1
      isplitl [H5]; · iexact H5
      isplitl [H6]; · iexact H6
      iintro ⟨H0, H1, H5, H6⟩
      isplitl [Hrest Hprng H5 H6]
      · isplitl [Hrest]; · iexact Hrest
        isplitl [Hprng]; · iexact Hprng
        isplitl [H5]; · iexact H5
        iexact H6
      isplitl [Ho]; · iexact Ho
      isplitl [H0]; · iexact H0
      isplitl [H1]; · iexact H1
      isplitl [H2]; · iexact H2
      iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest13 (c : Dev nD) : sProp 𝕄 := iprop((∃ r, prngReg c r) ∗ ∃ W, owes (c : Thread nD τ) (0 : CellTallies nD τ sig Unit) W)

/-- The grid is not empty. -/
theorem N13_ne_zero : cfg13.N ≠ 0 := by
  show grid13.N ≠ 0
  rw [N_13]; decide

-- a library lemma stated over the pinned configuration unifies with the printed one only when unification may unfold
-- plain definitions in a metavariable's type
set_option backward.isDefEq.respectTransparency.types false in
/-- The region over the thread state "every unscoped buffer whole at a valuation, the generator register at some state,
    nothing owed": entered from the buffers at `W₁`, left at `W₂`, for any family of proof data whose member 13 is
    `dat13` at `W₁` (`hp`), when `W₂` has each of the region's arrays at what the pipeline leaves there (`hF`) and every
    other buffer as `W₁` (`hrest`). The arrays are split out of the unscoped buffers at entry and put back at exit; the
    generator register goes into the invariant and comes back; of the scoped buffers no window stages, the kernel's two
    scratch rows are split off into the invariant at entry (held at anything before the first point) and, at the fold's
    last value, forgotten back into them at exit; the kernel has no semaphore of its own. -/
def reg13 (hp : ∀ c, pdats 13 c = dat13 (fun c b => W₁ c b) c)
    (hF : ∀ c w, (dat13 (F := F) (fun c b => W₁ c b) c).arrAt w cfg13.N = W₂ c (Pipeline.arrRef spec13 w))
    (hrest : ∀ c (b : Ref sig .tc), b ∉ Finset.univ.image (Pipeline.arrRef spec13) → W₂ c b = W₁ c b) :
    Pipeline.RegionSeg (pcfgs (F := F)) adm pdats () defs₀ Variants.none L lv 13 where
  win := launch13.win.to₀
  block_pos := launch13.block_pos
  stage_whole := launch13.stage_whole
  K := PEmpty
  osem k := k.elim
  ho := Pipeline.OwnSemFacts.none _
  hbody c := by rw [hp c]; exact (body_obligation13 (fun c b => W₁ c b) c).loose
  hwaits := Pipeline.hwaits_of_owed_zero _ _ _ _ L lv 13 fun c _ => by rw [hp c]; rfl
  pre c := iprop(StableHlo.held (c : Thread nD τ) (Pipeline.ucRefs τ sig) (W₁ c) ∗ rest13 c)
  post c := iprop(StableHlo.held (c : Thread nD τ) (Pipeline.ucRefs τ sig) (W₂ c) ∗ rest13 c)
  X c := iprop(∃ r, prngReg c r)
  Y c := iprop(∃ r, prngReg c r)
  Z c := Pipeline.unscopedRest (Ix := Unit) (Name := ℕ) (U := UR sig nD τ) (Lvl := ℕ) spec13 c (fun b => W₁ c b)
  hentry c := by
    rw [Pipeline.ownSems0_none]
    have hq : ∀ w, (pdats 13 c).q w = fullShare := fun w => by rw [hp c]; rfl
    have hA : ∀ w, (pdats 13 c).A w = (fun b : Ref sig .tc => W₁ c b) (Pipeline.arrRef spec13 w) := fun w => by rw [hp c]; rfl
    have hsplit := Pipeline.arrays_of_unscopedBufs (p := 13) (pcfgs (F := F)) adm pdats launch13.win launch13.arr_whole c
      ((pdats 13 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hp c]; trivial)
      rw [show (pdats 13 c).owed 0 = 0 from by rw [hp c]; rfl]
      iexact HO
    isplitl [Hp]; · iexact Hp
    iexact Hrest
  hin c := by
    rw [show (pdats 13 c).Φ 0 = (dat13 (fun c b => W₁ c b) c).Φ 0 from by rw [hp c], Φ13_eq,
      show ((0 : Fin (cfg13.N + 1)).val) = 0 from rfl, scrAt13_zero,
      show (Pipeline.scopedRest (Pipeline.pin (pcfgs (F := F)) adm 13).spec c : sProp 𝕄) = _ from
        scopedRest13_split (Ix := Unit) (Val := Elt F) (Name := ℕ) (U := UR sig nD τ) (Lvl := ℕ) c]
    simp only [owns_whole]
    iintro ⟨Hp, -, ⟨H5, H6⟩, Hr⟩
    isplitl [Hr]; · iexact Hr
    isplitl [Hp]; · iexact Hp
    isplitl [H5]; · iexact H5
    iexact H6
  hout c := by
    rw [Pipeline.ownSems0_none, show (pdats 13 c).Φ (Fin.last _) = (dat13 (fun c b => W₁ c b) c).Φ (Fin.last cfg13.N) from by rw [hp c]; rfl, Φ13_eq,
      Fin.val_last, scrAt13_pos _ c cfg13.N N13_ne_zero,
      show (Pipeline.scopedRest (Pipeline.pin (pcfgs (F := F)) adm 13).spec c : sProp 𝕄) = _ from
        scopedRest13_split (Ix := Unit) (Val := Elt F) (Name := ℕ) (U := UR sig nD τ) (Lvl := ℕ) c]
    simp only [owns_whole]
    iintro ⟨Hr, Hp, H5, H6⟩
    isplitl [Hp]; · iexact Hp
    isplitr; · iempintro
    isplitl [H5 H6]
    · isplitl [H5]
      · iexists _; iexact H5
      iexists _; iexact H6
    iexact Hr
  hexit c := by
    have hq : ∀ w, (pdats 13 c).q w = fullShare := fun w => by rw [hp c]; rfl
    have hjoin := Pipeline.unscopedBufs_of_arrays (p := 13) (pcfgs (F := F)) adm (Ix := Unit) (Name := ℕ) (U := UR sig nD τ) (Lvl := ℕ)
      launch13.win launch13.arr_whole c pdats ((pdats 13 c).share_full hq)
      (fun b => W₁ c b) (fun b => W₂ c b) ((pdats 13 c).arrAt · cfg13.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 13 c).owed (Fin.last _) = 0 from by rw [hp c]; rfl]
    iexact HO

end Record

end Cert.KernelIdeal.Hand

end
-- ==== Proof.KI.Reg13Upd.lean ====
import proofs.«109725_j21638045237575_1_alg».proof.Proof.KI.Reg13

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region's exit valuation as an update of its entry valuation at the two results' buffers -/

section Update

variable (W₁ : Dev nD → Valuation τ sig (Elt F))

/-- Updating a valuation at the mean's buffer and at the variance's changes no other buffer. -/
theorem update13_of_ne (c : Dev nD) (x0 : Buf (Elt F) ((c : Thread nD τ).loc main_v162_0)) (x1 : Buf (Elt F) ((c : Thread nD τ).loc main_v162_1))
    (b : Ref sig .tc) (h0 : b ≠ main_v162_0) (h1 : b ≠ main_v162_1) :
    Function.update (Function.update (W₁ c) main_v162_0 x0) main_v162_1 x1 b = W₁ c b :=
  (Function.update_of_ne (StableHlo.devRef_ne_of_ne h1) x1 (Function.update (W₁ c) main_v162_0 x0)).trans
    (Function.update_of_ne (StableHlo.devRef_ne_of_ne h0) x0 (W₁ c))

/-- The update read at the variance's buffer, -/
theorem update13_at_3 (c : Dev nD) (x0 : Buf (Elt F) ((c : Thread nD τ).loc main_v162_0)) (x1 : Buf (Elt F) ((c : Thread nD τ).loc main_v162_1)) : Function.update (Function.update (W₁ c) main_v162_0 x0) main_v162_1 x1 main_v162_1 = x1 :=
  Function.update_self (β := fun b : DevRef τ sig => b.ty.Contents (Elt F)) (Proc.devRef .tc main_v162_1) x1 (Function.update (W₁ c) main_v162_0 x0)

/-- and at the mean's. -/
theorem update13_at_2 (c : Dev nD) (x0 : Buf (Elt F) ((c : Thread nD τ).loc main_v162_0)) (x1 : Buf (Elt F) ((c : Thread nD τ).loc main_v162_1)) : Function.update (Function.update (W₁ c) main_v162_0 x0) main_v162_1 x1 main_v162_0 = x0 :=
  (Function.update_of_ne (StableHlo.devRef_ne_of_ne (show (main_v162_0 : Ref sig .tc) ≠ main_v162_1 by decide)) x1 (Function.update (W₁ c) main_v162_0 x0)).trans
    (Function.update_self (β := fun b : DevRef τ sig => b.ty.Contents (Elt F)) (Proc.devRef .tc main_v162_0) x0 (W₁ c))

theorem hF13_update_0 (c : Dev nD) (x0 : Buf (Elt F) ((c : Thread nD τ).loc main_v162_0)) (x1 : Buf (Elt F) ((c : Thread nD τ).loc main_v162_1)) :
    (dat13 (F := F) (fun c b => W₁ c b) c).arrAt 0 cfg13.N = Function.update (Function.update (W₁ c) main_v162_0 x0) main_v162_1 x1 (Pipeline.arrRef spec13 0) :=
  ((dat13 (F := F) (fun c b => W₁ c b) c).arrAt_in 0 rfl _).trans ((A_eq13 (fun c b => W₁ c b) c 0).trans
      (update13_of_ne W₁ c x0 x1 (Pipeline.arrRef spec13 0) (by decide) (by decide)).symm)

theorem hF13_update_1 (c : Dev nD) (x0 : Buf (Elt F) ((c : Thread nD τ).loc main_v162_0)) (x1 : Buf (Elt F) ((c : Thread nD τ).loc main_v162_1)) :
    (dat13 (F := F) (fun c b => W₁ c b) c).arrAt 1 cfg13.N = Function.update (Function.update (W₁ c) main_v162_0 x0) main_v162_1 x1 (Pipeline.arrRef spec13 1) :=
  ((dat13 (F := F) (fun c b => W₁ c b) c).arrAt_in 1 rfl _).trans ((A_eq13 (fun c b => W₁ c b) c 1).trans
      (update13_of_ne W₁ c x0 x1 (Pipeline.arrRef spec13 1) (by decide) (by decide)).symm)

theorem hF13_update_2 (c : Dev nD) (x0 : Buf (Elt F) ((c : Thread nD τ).loc main_v162_0)) (x1 : Buf (Elt F) ((c : Thread nD τ).loc main_v162_1)) (hx0 : x0 = (dat13 (F := F) (fun c b => W₁ c b) c).arrAt 2 cfg13.N) :
    (dat13 (F := F) (fun c b => W₁ c b) c).arrAt 2 cfg13.N = Function.update (Function.update (W₁ c) main_v162_0 x0) main_v162_1 x1 (Pipeline.arrRef spec13 2) :=
  hx0.symm.trans (update13_at_2 W₁ c x0 x1).symm

theorem hF13_update_3 (c : Dev nD) (x0 : Buf (Elt F) ((c : Thread nD τ).loc main_v162_0)) (x1 : Buf (Elt F) ((c : Thread nD τ).loc main_v162_1)) (hx1 : x1 = (dat13 (F := F) (fun c b => W₁ c b) c).arrAt 3 cfg13.N) :
    (dat13 (F := F) (fun c b => W₁ c b) c).arrAt 3 cfg13.N = Function.update (Function.update (W₁ c) main_v162_0 x0) main_v162_1 x1 (Pipeline.arrRef spec13 3) :=
  hx1.symm.trans (update13_at_3 W₁ c x0 x1).symm

/-- When the exit valuation is the entry valuation updated at the mean's buffer and at the variance's with what the
    pipeline's write-backs leave in them, every array of the region holds there what the pipeline leaves: an input's
    array is never written and is neither result's buffer; each result's array is its updated one. -/
theorem hF13_update (c : Dev nD) (x0 : Buf (Elt F) ((c : Thread nD τ).loc main_v162_0)) (x1 : Buf (Elt F) ((c : Thread nD τ).loc main_v162_1))
    (hx0 : x0 = (dat13 (F := F) (fun c b => W₁ c b) c).arrAt 2 cfg13.N) (hx1 : x1 = (dat13 (F := F) (fun c b => W₁ c b) c).arrAt 3 cfg13.N) :
    ∀ w, (dat13 (F := F) (fun c b => W₁ c b) c).arrAt w cfg13.N = Function.update (Function.update (W₁ c) main_v162_0 x0) main_v162_1 x1 (Pipeline.arrRef spec13 w)
  | ⟨0, _⟩ => hF13_update_0 W₁ c x0 x1
  | ⟨1, _⟩ => hF13_update_1 W₁ c x0 x1
  | ⟨2, _⟩ => hF13_update_2 W₁ c x0 x1 hx0
  | ⟨3, _⟩ => hF13_update_3 W₁ c x0 x1 hx1

/-- and every buffer that is no array of the region holds what it held at entry. -/
theorem hrest13_update (c : Dev nD) (x0 : Buf (Elt F) ((c : Thread nD τ).loc main_v162_0)) (x1 : Buf (Elt F) ((c : Thread nD τ).loc main_v162_1)) :
    ∀ b : Ref sig .tc, b ∉ Finset.univ.image (Pipeline.arrRef spec13) → Function.update (Function.update (W₁ c) main_v162_0 x0) main_v162_1 x1 b = W₁ c b :=
  fun b hb => update13_of_ne W₁ c x0 x1 b
    (fun e => hb (Finset.mem_image.mpr ⟨2, Finset.mem_univ _, e.symm⟩))
    (fun e => hb (Finset.mem_image.mpr ⟨3, Finset.mem_univ _, e.symm⟩))

end Update

end Cert.KernelIdeal.Hand

end
-- ==== Proof.KI.Reg14Body.lean ====
/-
  Region 14 of the idealized kernel's @main: the normalise + LeakyReLU kernel at width 16, over a grid of ten row
  tiles of 10000 rows. Its seven windows are the row tile of the aggregated features (fetched at every point), five
  rows of 16 entries — the bias, the batch mean, the batch variance, the scale and the shift — (whole, fetched once:
  their block index never moves), and the row tile of the result (written back at every point). The body reads the
  six input blocks whole, computes h = agg + bias, inv = rsqrt(var + eps), hn = (h − mean)·inv·scale + shift and
  stores where(hn ≥ 0, hn, slope·hn) over the whole output block, so what a point leaves in the output's staging
  buffer is a pure function of the six input blocks (`out14_6`), and the inputs' buffers are left as found.

  Stated here, at any float model `F` and at a PARAMETER `V` (the core's buffer contents when the region is
  entered): each window's block at a point (`iblk14`), the body's triple (`sound_kernel14`), the pipeline's proof
  data (`dat14`), the body obligation (`body_obligation14`), and the region as a segment record (`reg14`) for any
  family of proof data whose member 14 is `dat14`, entered from every unscoped buffer at `W₁` and left at `W₂`, where
  `W₂` holds at each of the region's arrays what the pipeline's write-backs leave and elsewhere what `W₁` held.
-/
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof
    data whose array is `V`'s (`hA`) and whose body leaves the block in place (`hafter`): where the window is not
    fetched its block index has not moved, so the block kept from the point before is this point's. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- Input window 1's current staging buffer holds its block at every point, fetched there or not, for any proof
    data whose array is `V`'s (`hA`) and whose body leaves the block in place (`hafter`): where the window is not
    fetched its block index has not moved, so the block kept from the point before is this point's. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
/-- Input window 2's current staging buffer holds its block at every point, fetched there or not, for any proof
    data whose array is `V`'s (`hA`) and whose body leaves the block in place (`hafter`): where the window is not
    fetched its block index has not moved, so the block kept from the point before is this point's. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
/-- Input window 3's current staging buffer holds its block at every point, fetched there or not, for any proof
    data whose array is `V`'s (`hA`) and whose body leaves the block in place (`hafter`): where the window is not
    fetched its block index has not moved, so the block kept from the point before is this point's. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
/-- Input window 4's current staging buffer holds its block at every point, fetched there or not, for any proof
    data whose array is `V`'s (`hA`) and whose body leaves the block in place (`hafter`): where the window is not
    fetched its block index has not moved, so the block kept from the point before is this point's. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)
/-- Input window 5's current staging buffer holds its block at every point, fetched there or not, for any proof
    data whose array is `V`'s (`hA`) and whose body leaves the block in place (`hafter`): where the window is not
    fetched its block index has not moved, so the block kept from the point before is this point's. -/
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: each buffer whole -/

abbrev r14_x : Rect S10000x16 := Rect.unit (s := S10000x16) ![0, 0] S10000x16.size inb_S10000x16_S10000x16_0_0
abbrev r14_r : Rect S1x16 := Rect.unit (s := S1x16) ![0, 0] S1x16.size inb_S1x16_S1x16_0_0
abbrev r14_o : Rect S10000x16 := Rect.unit (s := S10000x16) ![0, 0] S10000x16.size inb_S10000x16_S10000x16_0_0

/-! ## What the body leaves in the output window's buffer -/

/-- Window 6's staging buffer after the body, from the input windows' blocks (the row tile, the bias, the mean, the
    variance, the scale and the shift, in the windows' order): its one store, of the normalised and rectified tile
    computed from the six blocks read whole. The payload takes the variance before the mean, as the body reads them. -/
def out14_6 (x0 : Vec F S10000x16 .f32) (x1 : Vec F S1x16 .f32) (x2 : Vec F S1x16 .f32) (x3 : Vec F S1x16 .f32) (x4 : Vec F S1x16 .f32) (x5 : Vec F S1x16 .f32) : Vec F S10000x16 .f32 :=
  View.canon [⟨r14_o, k14_pay1 (View.ld x0 r14_x) (View.ld x1 r14_r) (View.ld x3 r14_r) (View.ld x2 r14_r) (View.ld x4 r14_r) (View.ld x5 r14_r)⟩]

/-- The one store is over the whole buffer, so it covers it. -/
theorem cover14_6 (p0 : Vec F S10000x16 .f32) (y : S10000x16.Idx) :
    ∃ pc ∈ ([⟨r14_o, p0⟩] : List (View.Piece (Elt F) S10000x16 .f32)), y ∈ pc.1.set :=
  View.cover_of_tiled [⟨r14_o, p0⟩] S10000x16.size (by rfl) y

/-! ## The body's triple -/

set_option maxHeartbeats 1000000 in
/-- The kernel body on whole staging memrefs, the inputs' at read contents `x0 … x5` and the output's at anything,
    runs to the continuation holding the inputs' as they were and the output's at `out14_6` of the inputs'. -/
theorem sound_kernel14 (c : Dev nD) (E : Set ℕ) (i : grid14.Coords) (arg1 : Memref sig .tc .vmem S10000x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S1x16 .f32) (harg6 : arg6.IsWhole) (arg7 : Memref sig .tc .vmem S10000x16 .f32) (harg7 : arg7.IsWhole)
    (x0 : Vec F S10000x16 .f32) (x1 : Vec F S1x16 .f32) (x2 : Vec F S1x16 .f32) (x3 : Vec F S1x16 .f32) (x4 : Vec F S1x16 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out14_6 x0 x1 x2 x3 x4 x5)) -∗ K ⟨⟩))
      ⊢ wp frame (wpE (defs₀ (F := F)) Variants.none c none) E (cc14__norm_kernel i arg1 harg1 arg2 harg2 arg3 harg3 arg4 harg4 arg5 harg5 arg6 harg6 arg7 harg7) K := by
  simp only [cc14__norm_kernel_eq_skeleton]; unfold cc14__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover14_6 _)

/-! ## The pipeline's proof data -/

/-- The proof data of pipeline 14 on core `c`: the arrays as the region finds them (`V`); after the body at point `t`
    each input's buffer at its block and the output's at `out14_6` of the input blocks; the invariant is the scoped
    buffers no window stages and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => out14_6 (iblk14 V c 0 t) (iblk14 V c 1 t) (iblk14 V c 2 t) (iblk14 V c 3 t) (iblk14 V c 4 t) (iblk14 V c 5 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = out14_6 (iblk14 V c 0 t) (iblk14 V c 1 t) (iblk14 V c 2 t) (iblk14 V c 3 t) (iblk14 V c 4 t) (iblk14 V c 5 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t))

/-- The body at any point: the inputs' memrefs hold their blocks, so `sound_kernel14` applies; the invariant and the
    core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel14 c Set.univ (grid14.coords t) _ _ _ _ _ _ _ _ _ _ _ _ _ _ (iblk14 V c 0 t) (iblk14 V c 1 t) (iblk14 V c 2 t) (iblk14 V c 3 t) (iblk14 V c 4 t) (iblk14 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation14 (c : Dev nD) : BodyObligation (dat14 (F := F) V c) (defs₀ (F := F)) Variants.none () Set.univ := fun t => by
  rw [bigSep_W14, bigSep_W14]
  exact sound_body14 V c t

end Region

end Cert.KernelIdeal.Hand

end
-- ==== Proof.KI.Reg14.lean ====
/-
  Region 14 of the idealized kernel's @main (the normalise + LeakyReLU kernel at width 16) as a segment of @main:
  the record `reg14` for any family of proof data whose member 14 is `dat14`, entered from every unscoped buffer at
  `W₁` and left at `W₂`, where `W₂` holds at each of the region's arrays what the pipeline's write-backs leave and
  elsewhere what `W₁` held; and the two facts that make `W₂ := W₁` updated at the output array `main_v166` such a
  valuation (`hF14_update`, `hrest14_update`): the six input arrays are never written back, so they end as
  entered, and the output array is the only one of the region's arrays that differs.
-/
import proofs.«109725_j21638045237575_1_alg».proof.Proof.KI.Reg14Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The exit valuation: the entry valuation updated at the output array -/

section Update

variable (W₁ : Dev nD → Valuation τ sig (Elt F)) (c : Dev nD) (x : Buf (Elt F) ((c : Thread nD τ).loc main_v166))

/-- An input window's array is never written back, so after all the points it holds what the region found, and the
    update at the output array does not touch it. -/
theorem hF14_in (w : Fin cfg14.W) (hin : (cfg14.win w).isOut = false) (hne : Pipeline.arrRef spec14 w ≠ main_v166) :
    (dat14 (F := F) (fun c b => W₁ c b) c).arrAt w cfg14.N = Function.update (W₁ c) main_v166 x (Pipeline.arrRef spec14 w) :=
  ((dat14 (F := F) (fun c b => W₁ c b) c).arrAt_in w hin _).trans
    ((A_eq14 (fun c b => W₁ c b) c w).trans (Function.update_of_ne (StableHlo.devRef_ne_of_ne hne) _ _).symm)

/-- Every window but the last is an input, staged from an array other than the output array. -/
theorem in_ne14 : ∀ w : Fin cfg14.W, w ≠ 6 → (cfg14.win w).isOut = false ∧ Pipeline.arrRef spec14 w ≠ main_v166 := by decide

/-- Each of the region's arrays after all the points is what the entry valuation updated at the output array holds
    there, when the update's value `x` is what the pipeline's write-backs leave in the output array. -/
theorem hF14_update (hx : x = (dat14 (F := F) (fun c b => W₁ c b) c).arrAt 6 cfg14.N) :
    ∀ w : Fin cfg14.W, (dat14 (F := F) (fun c b => W₁ c b) c).arrAt w cfg14.N = Function.update (W₁ c) main_v166 x (Pipeline.arrRef spec14 w) := fun w => by
  by_cases h : w = 6
  · subst h hx
    exact (Function.update_self (Proc.devRef .tc main_v166 : DevRef τ sig) _ (W₁ c)).symm
  · exact hF14_in W₁ c x w (in_ne14 w h).1 (in_ne14 w h).2

/-- Every buffer that is none of the region's arrays is not the output array, so the update leaves it as entered. -/
theorem hrest14_update : ∀ b : Ref sig .tc, b ∉ Finset.univ.image (Pipeline.arrRef spec14) → Function.update (W₁ c) main_v166 x b = W₁ c b :=
  fun b hb => Function.update_of_ne (StableHlo.devRef_ne_of_ne fun e =>
    hb (Finset.mem_image.mpr ⟨6, Finset.mem_univ _, (e.symm : Pipeline.arrRef spec14 6 = b)⟩)) _ _

end Update

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest14 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 14 over the thread state "every unscoped buffer whole at a valuation, the generator register at some state,
    nothing owed": entered from the buffers at `W₁`, left at `W₂`, for any family of proof data whose member 14 is
    `dat14` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg14 (hp : ∀ c, pdats 14 c = dat14 (fun c b => W₁ c b) c)
    (hF : ∀ c w, (dat14 (F := F) (fun c b => W₁ c b) c).arrAt w cfg14.N = W₂ c (Pipeline.arrRef spec14 w))
    (hrest : ∀ c (b : Ref sig .tc), b ∉ Finset.univ.image (Pipeline.arrRef spec14) → W₂ c b = W₁ c b) :
    Pipeline.RegionSeg (pcfgs (F := F)) adm pdats () defs₀ Variants.none L lv 14 where
  win := launch14.win.to₀
  block_pos := launch14.block_pos
  stage_whole := launch14.stage_whole
  K := PEmpty
  osem k := k.elim
  ho := Pipeline.OwnSemFacts.none _
  hbody c := by rw [hp c]; exact (body_obligation14 (fun c b => W₁ c b) c).loose
  hwaits := Pipeline.hwaits_of_owed_zero _ _ _ _ L lv 14 fun c _ => by rw [hp c]; rfl
  pre c := iprop(StableHlo.held (c : Thread nD τ) (Pipeline.ucRefs τ sig) (W₁ c) ∗ rest14 c)
  post c := iprop(StableHlo.held (c : Thread nD τ) (Pipeline.ucRefs τ sig) (W₂ c) ∗ rest14 c)
  X c := iprop(∃ r, prngReg c r)
  Y c := iprop(∃ r, prngReg c r)
  Z c := Pipeline.unscopedRest (Ix := Unit) (Name := ℕ) (U := UR sig nD τ) (Lvl := ℕ) spec14 c (fun b => W₁ c b)
  hentry c := by
    rw [Pipeline.ownSems0_none]
    have hq : ∀ w, (pdats 14 c).q w = fullShare := fun w => by rw [hp c]; rfl
    have hA : ∀ w, (pdats 14 c).A w = (fun b : Ref sig .tc => W₁ c b) (Pipeline.arrRef spec14 w) := fun w => by rw [hp c]; rfl
    have hsplit := Pipeline.arrays_of_unscopedBufs (p := 14) (pcfgs (F := F)) adm pdats launch14.win launch14.arr_whole c
      ((pdats 14 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; rw [hp c]; exact fun _ _ => Or.inl trivial
      rw [show (pdats 14 c).owed 0 = 0 from by rw [hp c]; rfl]
      iexact HO
    isplitl [Hp]; · iexact Hp
    iexact Hrest
  hin c := by
    rw [show (pdats 14 c).Φ 0 = Pipeline.ΦA spec14 c from by rw [hp c]; rfl]; unfold Pipeline.ΦA
    iintro ⟨Hp, -, Hr⟩
    isplitl [Hr]; · iexact Hr
    iexact Hp
  hout c := by
    rw [Pipeline.ownSems0_none, show (pdats 14 c).Φ (Fin.last _) = Pipeline.ΦA spec14 c from by rw [hp c]; rfl]; unfold Pipeline.ΦA
    iintro ⟨Hr, Hp⟩
    isplitl [Hp]; · iexact Hp
    isplitr; · iempintro
    iexact Hr
  hexit c := by
    have hq : ∀ w, (pdats 14 c).q w = fullShare := fun w => by rw [hp c]; rfl
    have hjoin := Pipeline.unscopedBufs_of_arrays (p := 14) (pcfgs (F := F)) adm (Ix := Unit) (Name := ℕ) (U := UR sig nD τ) (Lvl := ℕ)
      launch14.win launch14.arr_whole c pdats ((pdats 14 c).share_full hq)
      (fun b => W₁ c b) (fun b => W₂ c b) ((pdats 14 c).arrAt · cfg14.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats 14 c).owed (Fin.last _) = 0 from by rw [hp c]; rfl]
    iexact HO

end Record

end Cert.KernelIdeal.Hand

end
-- ==== Proof.KI.Reg15.lean ====
/-
  Region 15 of the idealized kernel's @main: the linear kernel y = x·W + bias at widths 16 → 3, over a grid of
  ten row tiles of 10000 rows. Its four windows are the row tile of x (fetched at every point), the weight matrix
  and the bias row (whole, fetched once: their block index never moves), and the row tile of the result (written
  back at every point). The body reads the three input blocks whole and stores one value over the whole output
  block, so what a point leaves in the output's staging buffer is a pure function of the three input blocks
  (`out15_3`), and the inputs' buffers are left as found.

  Stated here, at any float model `F` and at a PARAMETER `V` (the core's buffer contents when the region is
  entered): each window's block at a point (`iblk15`), the body's triple (`sound_kernel15`), the pipeline's proof
  data (`dat15`), the body obligation (`body_obligation15`), and the region as a segment record (`reg15`) for any
  family of proof data whose member 15 is `dat15`, entered from every unscoped buffer at `W₁` and left at `W₂`, where
  `W₂` holds at each of the region's arrays what the pipeline's write-backs leave and elsewhere what `W₁` held.
-/
import proofs.«109725_j21638045237575_1_alg».proof.Proof.Gen.KernelIdeal.Launch
import proofs.«109725_j21638045237575_1_alg».proof.Proof.Gen.KernelIdeal.Skeleton
import proofs.«109725_j21638045237575_1_alg».proof.Proof.Gen.KernelIdeal.Points
import proofs.«109725_j21638045237575_1_alg».proof.Proof.Gen.KernelIdeal.Regions
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

-- membership in a rectangle of 10000 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's current staging buffer holds its block at every point, fetched there or not, for any proof
    data whose array is `V`'s (`hA`) and whose body leaves the block in place (`hafter`): where the window is not
    fetched its block index has not moved, so the block kept from the point before is this point's. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- Input window 1's current staging buffer holds its block at every point, fetched there or not, for any proof
    data whose array is `V`'s (`hA`) and whose body leaves the block in place (`hafter`): where the window is not
    fetched its block index has not moved, so the block kept from the point before is this point's. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
/-- Input window 2's current staging buffer holds its block at every point, fetched there or not, for any proof
    data whose array is `V`'s (`hA`) and whose body leaves the block in place (`hafter`): where the window is not
    fetched its block index has not moved, so the block kept from the point before is this point's. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses: each buffer whole -/

abbrev r15_x : Rect S10000x16 := Rect.unit (s := S10000x16) ![0, 0] S10000x16.size inb_S10000x16_S10000x16_0_0
abbrev r15_w : Rect S16x3 := Rect.unit (s := S16x3) ![0, 0] S16x3.size inb_S16x3_S16x3_0_0
abbrev r15_b : Rect S1x3 := Rect.unit (s := S1x3) ![0, 0] S1x3.size inb_S1x3_S1x3_0_0
abbrev r15_o : Rect S10000x3 := Rect.unit (s := S10000x3) ![0, 0] S10000x3.size inb_S10000x3_S10000x3_0_0

/-! ## What the body leaves in the output window's buffer -/

/-- Window 3's staging buffer after the body, from the input windows' blocks: its one store, of the payload
    x·W + bias computed from the three blocks read whole. -/
def out15_3 (x0 : Vec F S10000x16 .f32) (x1 : Vec F S16x3 .f32) (x2 : Vec F S1x3 .f32) : Vec F S10000x3 .f32 :=
  View.canon [⟨r15_o, k15_pay1 (View.ld x0 r15_x) (View.ld x1 r15_w) (View.ld x2 r15_b)⟩]

/-- The one store is over the whole buffer, so it covers it. -/
theorem cover15_3 (p0 : Vec F S10000x3 .f32) (y : S10000x3.Idx) :
    ∃ pc ∈ ([⟨r15_o, p0⟩] : List (View.Piece (Elt F) S10000x3 .f32)), y ∈ pc.1.set :=
  View.cover_of_tiled [⟨r15_o, p0⟩] S10000x3.size (by rfl) y

/-! ## The body's triple -/

set_option maxHeartbeats 1000000 in
/-- The kernel body on whole staging memrefs, the inputs' at read contents `x0 x1 x2` and the output's at anything,
    runs to the continuation holding the inputs' as they were and the output's at `out15_3` of the inputs'. -/
theorem sound_kernel15 (c : Dev nD) (E : Set ℕ) (i : grid15.Coords) (arg1 : Memref sig .tc .vmem S10000x16 .f32) (harg1 : arg1.IsWhole) (arg2 : Memref sig .tc .vmem S16x3 .f32) (harg2 : arg2.IsWhole) (arg3 : Memref sig .tc .vmem S1x3 .f32) (harg3 : arg3.IsWhole) (arg4 : Memref sig .tc .vmem S10000x3 .f32) (harg4 : arg4.IsWhole)
    (x0 : Vec F S10000x16 .f32) (x1 : Vec F S16x3 .f32) (x2 : Vec F S1x3 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out15_3 x0 x1 x2)) -∗ K ⟨⟩))
      ⊢ wp frame (wpE (defs₀ (F := F)) Variants.none c none) E (cc15__linear_kernel i arg1 harg1 arg2 harg2 arg3 harg3 arg4 harg4) K := by
  simp only [cc15__linear_kernel_eq_skeleton]; unfold cc15__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

/-! ## The pipeline's proof data -/

/-- The proof data of pipeline 15 on core `c`: the arrays as the region finds them (`V`); after the body at point `t`
    each input's buffer at its block and the output's at `out15_3` of the input blocks; the invariant is the scoped
    buffers no window stages and the generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = out15_3 (iblk15 V c 0 t) (iblk15 V c 1 t) (iblk15 V c 2 t) := by dsimp only [dat15]

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

/-- The body at any point: the inputs' memrefs hold their blocks, so `sound_kernel15` applies; the invariant and the
    core's `owes` pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ (grid15.coords t) _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation15 (c : Dev nD) : BodyObligation (dat15 (F := F) V c) (defs₀ (F := F)) Variants.none () Set.univ := fun t => by
  rw [bigSep_W15, bigSep_W15]
  exact sound_body15 V c t

end Region

/-! ## The region as a segment of @main -/

section Record

variable (L : GSem nD τ sig → Finset Unit) (lv : GSem nD τ sig → Unit → ℕ)
  (pdats : (p : Fin 16) → (c : Dev nD) → Dat τ (Elt F) Unit ℕ (UR sig nD τ) ℕ (cfgs p) c)
  (W₁ W₂ : Dev nD → Valuation τ sig (Elt F))

/-- What rides beside the buffers through the region: the core's generator register at some state (the invariant
    takes it in and gives it back) and its `owes`, at nothing. -/
abbrev rest15 (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 15 over the thread state "every unscoped buffer whole at a valuation, the generator register at some state,
    nothing owed": entered from the buffers at `W₁`, left at `W₂`, for any family of proof data whose member 15 is
    `dat15` at `W₁` (`hp`), when `W₂` has each of the region's arrays at what the pipeline leaves there (`hF`) and every
    other buffer as `W₁` (`hrest`). The arrays are split out of the unscoped buffers at entry and put back at exit; the
    generator register goes into the invariant and comes back; the kernel has no semaphore of its own. -/
def reg15 (hp : ∀ c, pdats 15 c = dat15 (fun c b => W₁ c b) c)
    (hF : ∀ c w, (dat15 (F := F) (fun c b => W₁ c b) c).arrAt w cfg15.N = W₂ c (Pipeline.arrRef spec15 w))
    (hrest : ∀ c (b : Ref sig .tc), b ∉ Finset.univ.image (Pipeline.arrRef spec15) → W₂ c b = W₁ c b) :
    Pipeline.RegionSeg (pcfgs (F := F)) adm pdats () defs₀ Variants.none L lv 15 where
  win := launch15.win.to₀
  block_pos := launch15.block_pos
  stage_whole := launch15.stage_whole
  K := PEmpty
  osem k := k.elim
  ho := Pipeline.OwnSemFacts.none _
  hbody c := by rw [hp c]; exact (body_obligation15 (fun c b => W₁ c b) c).loose
  hwaits := Pipeline.hwaits_of_owed_zero _ _ _ _ L lv 15 fun c _ => by rw [hp c]; rfl
  pre c := iprop(StableHlo.held (c : Thread nD τ) (Pipeline.ucRefs τ sig) (W₁ c) ∗ rest15 c)
  post c := iprop(StableHlo.held (c : Thread nD τ) (Pipeline.ucRefs τ sig) (W₂ c) ∗ rest15 c)
  X c := iprop(∃ r, prngReg c r)
  Y c := iprop(∃ r, prngReg c r)
  Z c := Pipeline.unscopedRest (Ix := Unit) (Name := ℕ) (U := UR sig nD τ) (Lvl := ℕ) spec15 c (fun b => W₁ c b)
  hentry c := by
    rw [Pipeline.ownSems0_none]
    have hq : ∀ w, (pdats 15 c).q w = fullShare := fun w => by rw [hp c]; rfl
    have hA : ∀ w, (pdats 15 c).A w = (fun b : Ref sig .tc => W₁ c b) (Pipeline.arrRef spec15 w) := fun w => by rw [hp c]; rfl
    have hsplit := Pipeline.arrays_of_unscopedBufs (p := 15) (pcfgs (F := F)) adm pdats launch15.win launch15.arr_whole c
      ((pdats 15 c).share_full hq) (fun b => W₁ c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 15 c).Φ 0 = Pipeline.ΦA spec15 c from by rw [hp c]; rfl]; unfold Pipeline.ΦA
    iintro ⟨Hp, -, Hr⟩
    isplitl [Hr]; · iexact Hr
    iexact Hp
  hout c := by
    rw [Pipeline.ownSems0_none, show (pdats 15 c).Φ (Fin.last _) = Pipeline.ΦA spec15 c from by rw [hp c]; rfl]; unfold Pipeline.ΦA
    iintro ⟨Hr, Hp⟩
    isplitl [Hp]; · iexact Hp
    isplitr; · iempintro
    iexact Hr
  hexit c := by
    have hq : ∀ w, (pdats 15 c).q w = fullShare := fun w => by rw [hp c]; rfl
    have hjoin := Pipeline.unscopedBufs_of_arrays (p := 15) (pcfgs (F := F)) adm (Ix := Unit) (Name := ℕ) (U := UR sig nD τ) (Lvl := ℕ)
      launch15.win launch15.arr_whole c pdats ((pdats 15 c).share_full hq)
      (fun b => W₁ c b) (fun b => W₂ c b) ((pdats 15 c).arrAt · cfg15.N) (fun w => by rw [hp c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Record

/-! ## The exit valuation as an update of the entry valuation at the result's buffer -/

section Update

variable (W₁ : Dev nD → Valuation τ sig (Elt F))

/-- A property of the four windows, checked window by window. -/
private theorem fin4_cases {P : Fin 4 → Prop} (h0 : P 0) (h1 : P 1) (h2 : P 2) (h3 : P 3) : ∀ w, P w
  | ⟨0, _⟩ => h0
  | ⟨1, _⟩ => h1
  | ⟨2, _⟩ => h2
  | ⟨3, _⟩ => h3

/-- When the exit valuation is the entry valuation updated at the result's buffer `main_v168` with what the pipeline's
    write-backs leave in it, every array of the region holds there what the pipeline leaves: an input's array is never
    written and is not the result's buffer; the result's array is the updated one. -/
theorem hF15_update (c : Dev nD) (x : Buf (Elt F) ((c : Thread nD τ).loc main_v168))
    (hx : x = (dat15 (F := F) (fun c b => W₁ c b) c).arrAt 3 cfg15.N) :
    ∀ w, (dat15 (F := F) (fun c b => W₁ c b) c).arrAt w cfg15.N = Function.update (W₁ c) main_v168 x (Pipeline.arrRef spec15 w) :=
  fin4_cases (P := fun w => (dat15 (F := F) (fun c b => W₁ c b) c).arrAt w cfg15.N = Function.update (W₁ c) main_v168 x (Pipeline.arrRef spec15 w))
    (((dat15 (F := F) (fun c b => W₁ c b) c).arrAt_in 0 rfl _).trans ((A_eq15 (fun c b => W₁ c b) c 0).trans (Function.update_of_ne (StableHlo.devRef_ne_of_ne (by decide)) _ _).symm))
    (((dat15 (F := F) (fun c b => W₁ c b) c).arrAt_in 1 rfl _).trans ((A_eq15 (fun c b => W₁ c b) c 1).trans (Function.update_of_ne (StableHlo.devRef_ne_of_ne (by decide)) _ _).symm))
    (((dat15 (F := F) (fun c b => W₁ c b) c).arrAt_in 2 rfl _).trans ((A_eq15 (fun c b => W₁ c b) c 2).trans (Function.update_of_ne (StableHlo.devRef_ne_of_ne (by decide)) _ _).symm))
    (hx.symm.trans (Function.update_self (β := fun b : DevRef τ sig => b.ty.Contents (Elt F)) _ _ _).symm)

/-- and every buffer that is no array of the region holds what it held at entry. -/
theorem hrest15_update (c : Dev nD) (x : Buf (Elt F) ((c : Thread nD τ).loc main_v168)) :
    ∀ b : Ref sig .tc, b ∉ Finset.univ.image (Pipeline.arrRef spec15) → Function.update (W₁ c) main_v168 x b = W₁ c b :=
  fun b hb => Function.update_of_ne (StableHlo.devRef_ne_of_ne fun e => hb (Finset.mem_image.mpr ⟨3, Finset.mem_univ _, e.symm⟩)) _ _

end Update

end Cert.KernelIdeal.Hand

end
-- ==== Proof.KI.Chain.lean ====
/-
  The kernel's @main run through its sixteen regions with every array NAMED. The contents of the buffers between two
  items are built stage by stage: what region K leaves in its result arrays is the fold of its write-backs
  (`Dat.arrAt … N`) over the contents it was entered from, and those contents only depend on the earlier regions: the
  contents before region K read the regions' results only at items before it, so they are the same whether they are
  read off the stage-K table of results or off the final one. The result array `main_v168` ends at what the last region
  (the output projection) leaves in it.
-/
import proofs.«109725_j21638045237575_1_alg».proof.Proof.KI.Top
import proofs.«109725_j21638045237575_1_alg».proof.Proof.KI.Reg0
import proofs.«109725_j21638045237575_1_alg».proof.Proof.KI.Reg1Upd
import proofs.«109725_j21638045237575_1_alg».proof.Proof.KI.Reg2
import proofs.«109725_j21638045237575_1_alg».proof.Proof.KI.Reg3
import proofs.«109725_j21638045237575_1_alg».proof.Proof.KI.Reg4Upd
import proofs.«109725_j21638045237575_1_alg».proof.Proof.KI.Reg5
import proofs.«109725_j21638045237575_1_alg».proof.Proof.KI.Reg6
import proofs.«109725_j21638045237575_1_alg».proof.Proof.KI.Reg7Upd
import proofs.«109725_j21638045237575_1_alg».proof.Proof.KI.Reg8
import proofs.«109725_j21638045237575_1_alg».proof.Proof.KI.Reg9
import proofs.«109725_j21638045237575_1_alg».proof.Proof.KI.Reg10Upd
import proofs.«109725_j21638045237575_1_alg».proof.Proof.KI.Reg11
import proofs.«109725_j21638045237575_1_alg».proof.Proof.KI.Reg12
import proofs.«109725_j21638045237575_1_alg».proof.Proof.KI.Reg13Upd
import proofs.«109725_j21638045237575_1_alg».proof.Proof.KI.Reg14
import proofs.«109725_j21638045237575_1_alg».proof.Proof.KI.Reg15

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)
open Cert.KernelIdeal Cert.KernelIdeal.Gen

variable {F : FTy → Type} [FloatOps F]

/-! ## The contents before a region only read the earlier regions' results -/

section Congr
variable (m : (ℓ : Loc nD τ sig) → Buf (Elt F) ℓ) (o o' : Outs (F := F))

/-- The contents at boundary 2 agree for two tables of results that agree up to item 2. -/
theorem Vc2 (h : ∀ j, j ≤ 2 → o j = o' j) : V2 m o = V2 m o' := by
  funext c
  show Function.update (V1 m c) main_v34 (o 2 main_v34 c) = Function.update (V1 m c) main_v34 (o' 2 main_v34 c)
  rw [h 2 le_rfl]

/-- The contents at boundary 3 agree for two tables of results that agree up to item 3. -/
theorem Vc3 (h : ∀ j, j ≤ 3 → o j = o' j) : V3 m o = V3 m o' := by
  funext c
  exact congrArg (StableHlo.after hostOps1) (congrFun (Vc2 m o o' (fun j hj => h j (by omega))) c)

/-- The contents at boundary 4 agree for two tables of results that agree up to item 4. -/
theorem Vc4 (h : ∀ j, j ≤ 4 → o j = o' j) : V4 m o = V4 m o' := by
  funext c
  show Function.update (Function.update (V3 m o c) main_v54_0 (o 4 main_v54_0 c)) main_v54_1 (o 4 main_v54_1 c) = Function.update (Function.update (V3 m o' c) main_v54_0 (o' 4 main_v54_0 c)) main_v54_1 (o' 4 main_v54_1 c)
  rw [Vc3 m o o' (fun j hj => h j (by omega)), h 4 le_rfl]

/-- The contents at boundary 5 agree for two tables of results that agree up to item 5. -/
theorem Vc5 (h : ∀ j, j ≤ 5 → o j = o' j) : V5 m o = V5 m o' := by
  funext c
  exact congrArg (StableHlo.after hostOps2) (congrFun (Vc4 m o o' (fun j hj => h j (by omega))) c)

/-- The contents at boundary 6 agree for two tables of results that agree up to item 6. -/
theorem Vc6 (h : ∀ j, j ≤ 6 → o j = o' j) : V6 m o = V6 m o' := by
  funext c
  show Function.update (V5 m o c) main_v58 (o 6 main_v58 c) = Function.update (V5 m o' c) main_v58 (o' 6 main_v58 c)
  rw [Vc5 m o o' (fun j hj => h j (by omega)), h 6 le_rfl]

/-- The contents at boundary 7 agree for two tables of results that agree up to item 7. -/
theorem Vc7 (h : ∀ j, j ≤ 7 → o j = o' j) : V7 m o = V7 m o' := by
  funext c
  exact congrArg (StableHlo.after hostOps3) (congrFun (Vc6 m o o' (fun j hj => h j (by omega))) c)

/-- The contents at boundary 8 agree for two tables of results that agree up to item 8. -/
theorem Vc8 (h : ∀ j, j ≤ 8 → o j = o' j) : V8 m o = V8 m o' := by
  funext c
  show Function.update (V7 m o c) main_v61 (o 8 main_v61 c) = Function.update (V7 m o' c) main_v61 (o' 8 main_v61 c)
  rw [Vc7 m o o' (fun j hj => h j (by omega)), h 8 le_rfl]

/-- The contents at boundary 9 agree for two tables of results that agree up to item 9. -/
theorem Vc9 (h : ∀ j, j ≤ 9 → o j = o' j) : V9 m o = V9 m o' := by
  funext c
  exact congrArg (StableHlo.after hostOps4) (congrFun (Vc8 m o o' (fun j hj => h j (by omega))) c)

/-- The contents at boundary 10 agree for two tables of results that agree up to item 10. -/
theorem Vc10 (h : ∀ j, j ≤ 10 → o j = o' j) : V10 m o = V10 m o' := by
  funext c
  show Function.update (Function.update (V9 m o c) main_v81_0 (o 10 main_v81_0 c)) main_v81_1 (o 10 main_v81_1 c) = Function.update (Function.update (V9 m o' c) main_v81_0 (o' 10 main_v81_0 c)) main_v81_1 (o' 10 main_v81_1 c)
  rw [Vc9 m o o' (fun j hj => h j (by omega)), h 10 le_rfl]

/-- The contents at boundary 11 agree for two tables of results that agree up to item 11. -/
theorem Vc11 (h : ∀ j, j ≤ 11 → o j = o' j) : V11 m o = V11 m o' := by
  funext c
  exact congrArg (StableHlo.after hostOps5) (congrFun (Vc10 m o o' (fun j hj => h j (by omega))) c)

/-- The contents at boundary 12 agree for two tables of results that agree up to item 12. -/
theorem Vc12 (h : ∀ j, j ≤ 12 → o j = o' j) : V12 m o = V12 m o' := by
  funext c
  show Function.update (V11 m o c) main_v85 (o 12 main_v85 c) = Function.update (V11 m o' c) main_v85 (o' 12 main_v85 c)
  rw [Vc11 m o o' (fun j hj => h j (by omega)), h 12 le_rfl]

/-- The contents at boundary 13 agree for two tables of results that agree up to item 13. -/
theorem Vc13 (h : ∀ j, j ≤ 13 → o j = o' j) : V13 m o = V13 m o' := by
  funext c
  exact congrArg (StableHlo.after hostOps6) (congrFun (Vc12 m o o' (fun j hj => h j (by omega))) c)

/-- The contents at boundary 14 agree for two tables of results that agree up to item 14. -/
theorem Vc14 (h : ∀ j, j ≤ 14 → o j = o' j) : V14 m o = V14 m o' := by
  funext c
  show Function.update (V13 m o c) main_v88 (o 14 main_v88 c) = Function.update (V13 m o' c) main_v88 (o' 14 main_v88 c)
  rw [Vc13 m o o' (fun j hj => h j (by omega)), h 14 le_rfl]

/-- The contents at boundary 15 agree for two tables of results that agree up to item 15. -/
theorem Vc15 (h : ∀ j, j ≤ 15 → o j = o' j) : V15 m o = V15 m o' := by
  funext c
  exact congrArg (StableHlo.after hostOps7) (congrFun (Vc14 m o o' (fun j hj => h j (by omega))) c)

/-- The contents at boundary 16 agree for two tables of results that agree up to item 16. -/
theorem Vc16 (h : ∀ j, j ≤ 16 → o j = o' j) : V16 m o = V16 m o' := by
  funext c
  show Function.update (Function.update (V15 m o c) main_v108_0 (o 16 main_v108_0 c)) main_v108_1 (o 16 main_v108_1 c) = Function.update (Function.update (V15 m o' c) main_v108_0 (o' 16 main_v108_0 c)) main_v108_1 (o' 16 main_v108_1 c)
  rw [Vc15 m o o' (fun j hj => h j (by omega)), h 16 le_rfl]

/-- The contents at boundary 17 agree for two tables of results that agree up to item 17. -/
theorem Vc17 (h : ∀ j, j ≤ 17 → o j = o' j) : V17 m o = V17 m o' := by
  funext c
  exact congrArg (StableHlo.after hostOps8) (congrFun (Vc16 m o o' (fun j hj => h j (by omega))) c)

/-- The contents at boundary 18 agree for two tables of results that agree up to item 18. -/
theorem Vc18 (h : ∀ j, j ≤ 18 → o j = o' j) : V18 m o = V18 m o' := by
  funext c
  show Function.update (V17 m o c) main_v112 (o 18 main_v112 c) = Function.update (V17 m o' c) main_v112 (o' 18 main_v112 c)
  rw [Vc17 m o o' (fun j hj => h j (by omega)), h 18 le_rfl]

/-- The contents at boundary 19 agree for two tables of results that agree up to item 19. -/
theorem Vc19 (h : ∀ j, j ≤ 19 → o j = o' j) : V19 m o = V19 m o' := by
  funext c
  exact congrArg (StableHlo.after hostOps9) (congrFun (Vc18 m o o' (fun j hj => h j (by omega))) c)

/-- The contents at boundary 20 agree for two tables of results that agree up to item 20. -/
theorem Vc20 (h : ∀ j, j ≤ 20 → o j = o' j) : V20 m o = V20 m o' := by
  funext c
  show Function.update (V19 m o c) main_v115 (o 20 main_v115 c) = Function.update (V19 m o' c) main_v115 (o' 20 main_v115 c)
  rw [Vc19 m o o' (fun j hj => h j (by omega)), h 20 le_rfl]

/-- The contents at boundary 21 agree for two tables of results that agree up to item 21. -/
theorem Vc21 (h : ∀ j, j ≤ 21 → o j = o' j) : V21 m o = V21 m o' := by
  funext c
  exact congrArg (StableHlo.after hostOps10) (congrFun (Vc20 m o o' (fun j hj => h j (by omega))) c)

/-- The contents at boundary 22 agree for two tables of results that agree up to item 22. -/
theorem Vc22 (h : ∀ j, j ≤ 22 → o j = o' j) : V22 m o = V22 m o' := by
  funext c
  show Function.update (Function.update (V21 m o c) main_v135_0 (o 22 main_v135_0 c)) main_v135_1 (o 22 main_v135_1 c) = Function.update (Function.update (V21 m o' c) main_v135_0 (o' 22 main_v135_0 c)) main_v135_1 (o' 22 main_v135_1 c)
  rw [Vc21 m o o' (fun j hj => h j (by omega)), h 22 le_rfl]

/-- The contents at boundary 23 agree for two tables of results that agree up to item 23. -/
theorem Vc23 (h : ∀ j, j ≤ 23 → o j = o' j) : V23 m o = V23 m o' := by
  funext c
  exact congrArg (StableHlo.after hostOps11) (congrFun (Vc22 m o o' (fun j hj => h j (by omega))) c)

/-- The contents at boundary 24 agree for two tables of results that agree up to item 24. -/
theorem Vc24 (h : ∀ j, j ≤ 24 → o j = o' j) : V24 m o = V24 m o' := by
  funext c
  show Function.update (V23 m o c) main_v139 (o 24 main_v139 c) = Function.update (V23 m o' c) main_v139 (o' 24 main_v139 c)
  rw [Vc23 m o o' (fun j hj => h j (by omega)), h 24 le_rfl]

/-- The contents at boundary 25 agree for two tables of results that agree up to item 25. -/
theorem Vc25 (h : ∀ j, j ≤ 25 → o j = o' j) : V25 m o = V25 m o' := by
  funext c
  exact congrArg (StableHlo.after hostOps12) (congrFun (Vc24 m o o' (fun j hj => h j (by omega))) c)

/-- The contents at boundary 26 agree for two tables of results that agree up to item 26. -/
theorem Vc26 (h : ∀ j, j ≤ 26 → o j = o' j) : V26 m o = V26 m o' := by
  funext c
  show Function.update (V25 m o c) main_v142 (o 26 main_v142 c) = Function.update (V25 m o' c) main_v142 (o' 26 main_v142 c)
  rw [Vc25 m o o' (fun j hj => h j (by omega)), h 26 le_rfl]

/-- The contents at boundary 27 agree for two tables of results that agree up to item 27. -/
theorem Vc27 (h : ∀ j, j ≤ 27 → o j = o' j) : V27 m o = V27 m o' := by
  funext c
  exact congrArg (StableHlo.after hostOps13) (congrFun (Vc26 m o o' (fun j hj => h j (by omega))) c)

/-- The contents at boundary 28 agree for two tables of results that agree up to item 28. -/
theorem Vc28 (h : ∀ j, j ≤ 28 → o j = o' j) : V28 m o = V28 m o' := by
  funext c
  show Function.update (Function.update (V27 m o c) main_v162_0 (o 28 main_v162_0 c)) main_v162_1 (o 28 main_v162_1 c) = Function.update (Function.update (V27 m o' c) main_v162_0 (o' 28 main_v162_0 c)) main_v162_1 (o' 28 main_v162_1 c)
  rw [Vc27 m o o' (fun j hj => h j (by omega)), h 28 le_rfl]

/-- The contents at boundary 29 agree for two tables of results that agree up to item 29. -/
theorem Vc29 (h : ∀ j, j ≤ 29 → o j = o' j) : V29 m o = V29 m o' := by
  funext c
  exact congrArg (StableHlo.after hostOps14) (congrFun (Vc28 m o o' (fun j hj => h j (by omega))) c)

/-- The contents at boundary 30 agree for two tables of results that agree up to item 30. -/
theorem Vc30 (h : ∀ j, j ≤ 30 → o j = o' j) : V30 m o = V30 m o' := by
  funext c
  show Function.update (V29 m o c) main_v166 (o 30 main_v166 c) = Function.update (V29 m o' c) main_v166 (o' 30 main_v166 c)
  rw [Vc29 m o o' (fun j hj => h j (by omega)), h 30 le_rfl]

/-- The contents at boundary 31 agree for two tables of results that agree up to item 31. -/
theorem Vc31 (h : ∀ j, j ≤ 31 → o j = o' j) : V31 m o = V31 m o' := by
  funext c
  exact congrArg (StableHlo.after hostOps15) (congrFun (Vc30 m o o' (fun j hj => h j (by omega))) c)

end Congr

variable (m : (ℓ : Loc nD τ sig) → Buf (Elt F) ℓ)

/-! ## The regions' results, stage by stage -/

/-- Before any region: nothing is read off this. -/
def outsS0 : Outs (F := F) := fun _ r c => m ((c : Thread nD τ).loc r)

/-- The buffers' contents when region 0 is left: as it was entered, with main_v34 at what the region's write-backs leave. -/
def exit0 (c : Dev nD) : Valuation τ sig (Elt F) :=
  Function.update (V1 m c) main_v34 ((dat0 (F := F) (fun c b => V1 m c b) c).arrAt 3 cfg0.N)
/-- What the regions up to region 0 leave in their result arrays. -/
def outsS1 : Outs (F := F) := fun j r c => if j = 2 then exit0 m c r else outsS0 m j r c
/-- Stage 1 only adds item 2. -/
theorem outsS1_of_ne (j : ℕ) (hj : j ≠ 2) : outsS1 m j = outsS0 m j := by
  funext r c; exact if_neg hj
/-- Stage 1 at item 2. -/
theorem outsS1_at (r : Ref sig .tc) (c : Dev nD) : outsS1 m 2 r c = exit0 m c r := if_pos rfl

/-- The buffers' contents when region 1 is left: as it was entered, with main_v54_0 and main_v54_1 at what the region's write-backs leave. -/
def exit1 (c : Dev nD) : Valuation τ sig (Elt F) :=
  Function.update (Function.update (V3 m (outsS1 m) c) main_v54_0 ((dat1 (F := F) (fun c b => V3 m (outsS1 m) c b) c).arrAt 2 cfg1.N)) main_v54_1 ((dat1 (F := F) (fun c b => V3 m (outsS1 m) c b) c).arrAt 3 cfg1.N)
/-- What the regions up to region 1 leave in their result arrays. -/
def outsS2 : Outs (F := F) := fun j r c => if j = 4 then exit1 m c r else outsS1 m j r c
/-- Stage 2 only adds item 4. -/
theorem outsS2_of_ne (j : ℕ) (hj : j ≠ 4) : outsS2 m j = outsS1 m j := by
  funext r c; exact if_neg hj
/-- Stage 2 at item 4. -/
theorem outsS2_at (r : Ref sig .tc) (c : Dev nD) : outsS2 m 4 r c = exit1 m c r := if_pos rfl

/-- The buffers' contents when region 2 is left: as it was entered, with main_v58 at what the region's write-backs leave. -/
def exit2 (c : Dev nD) : Valuation τ sig (Elt F) :=
  Function.update (V5 m (outsS2 m) c) main_v58 ((dat2 (F := F) (fun c b => V5 m (outsS2 m) c b) c).arrAt 6 cfg2.N)
/-- What the regions up to region 2 leave in their result arrays. -/
def outsS3 : Outs (F := F) := fun j r c => if j = 6 then exit2 m c r else outsS2 m j r c
/-- Stage 3 only adds item 6. -/
theorem outsS3_of_ne (j : ℕ) (hj : j ≠ 6) : outsS3 m j = outsS2 m j := by
  funext r c; exact if_neg hj
/-- Stage 3 at item 6. -/
theorem outsS3_at (r : Ref sig .tc) (c : Dev nD) : outsS3 m 6 r c = exit2 m c r := if_pos rfl

/-- The buffers' contents when region 3 is left: as it was entered, with main_v61 at what the region's write-backs leave. -/
def exit3 (c : Dev nD) : Valuation τ sig (Elt F) :=
  Function.update (V7 m (outsS3 m) c) main_v61 ((dat3 (F := F) (fun c b => V7 m (outsS3 m) c b) c).arrAt 3 cfg3.N)
/-- What the regions up to region 3 leave in their result arrays. -/
def outsS4 : Outs (F := F) := fun j r c => if j = 8 then exit3 m c r else outsS3 m j r c
/-- Stage 4 only adds item 8. -/
theorem outsS4_of_ne (j : ℕ) (hj : j ≠ 8) : outsS4 m j = outsS3 m j := by
  funext r c; exact if_neg hj
/-- Stage 4 at item 8. -/
theorem outsS4_at (r : Ref sig .tc) (c : Dev nD) : outsS4 m 8 r c = exit3 m c r := if_pos rfl

/-- The buffers' contents when region 4 is left: as it was entered, with main_v81_0 and main_v81_1 at what the region's write-backs leave. -/
def exit4 (c : Dev nD) : Valuation τ sig (Elt F) :=
  Function.update (Function.update (V9 m (outsS4 m) c) main_v81_0 ((dat4 (F := F) (fun c b => V9 m (outsS4 m) c b) c).arrAt 2 cfg4.N)) main_v81_1 ((dat4 (F := F) (fun c b => V9 m (outsS4 m) c b) c).arrAt 3 cfg4.N)
/-- What the regions up to region 4 leave in their result arrays. -/
def outsS5 : Outs (F := F) := fun j r c => if j = 10 then exit4 m c r else outsS4 m j r c
/-- Stage 5 only adds item 10. -/
theorem outsS5_of_ne (j : ℕ) (hj : j ≠ 10) : outsS5 m j = outsS4 m j := by
  funext r c; exact if_neg hj
/-- Stage 5 at item 10. -/
theorem outsS5_at (r : Ref sig .tc) (c : Dev nD) : outsS5 m 10 r c = exit4 m c r := if_pos rfl

/-- The buffers' contents when region 5 is left: as it was entered, with main_v85 at what the region's write-backs leave. -/
def exit5 (c : Dev nD) : Valuation τ sig (Elt F) :=
  Function.update (V11 m (outsS5 m) c) main_v85 ((dat5 (F := F) (fun c b => V11 m (outsS5 m) c b) c).arrAt 6 cfg5.N)
/-- What the regions up to region 5 leave in their result arrays. -/
def outsS6 : Outs (F := F) := fun j r c => if j = 12 then exit5 m c r else outsS5 m j r c
/-- Stage 6 only adds item 12. -/
theorem outsS6_of_ne (j : ℕ) (hj : j ≠ 12) : outsS6 m j = outsS5 m j := by
  funext r c; exact if_neg hj
/-- Stage 6 at item 12. -/
theorem outsS6_at (r : Ref sig .tc) (c : Dev nD) : outsS6 m 12 r c = exit5 m c r := if_pos rfl

/-- The buffers' contents when region 6 is left: as it was entered, with main_v88 at what the region's write-backs leave. -/
def exit6 (c : Dev nD) : Valuation τ sig (Elt F) :=
  Function.update (V13 m (outsS6 m) c) main_v88 ((dat6 (F := F) (fun c b => V13 m (outsS6 m) c b) c).arrAt 3 cfg6.N)
/-- What the regions up to region 6 leave in their result arrays. -/
def outsS7 : Outs (F := F) := fun j r c => if j = 14 then exit6 m c r else outsS6 m j r c
/-- Stage 7 only adds item 14. -/
theorem outsS7_of_ne (j : ℕ) (hj : j ≠ 14) : outsS7 m j = outsS6 m j := by
  funext r c; exact if_neg hj
/-- Stage 7 at item 14. -/
theorem outsS7_at (r : Ref sig .tc) (c : Dev nD) : outsS7 m 14 r c = exit6 m c r := if_pos rfl

/-- The buffers' contents when region 7 is left: as it was entered, with main_v108_0 and main_v108_1 at what the region's write-backs leave. -/
def exit7 (c : Dev nD) : Valuation τ sig (Elt F) :=
  Function.update (Function.update (V15 m (outsS7 m) c) main_v108_0 ((dat7 (F := F) (fun c b => V15 m (outsS7 m) c b) c).arrAt 2 cfg7.N)) main_v108_1 ((dat7 (F := F) (fun c b => V15 m (outsS7 m) c b) c).arrAt 3 cfg7.N)
/-- What the regions up to region 7 leave in their result arrays. -/
def outsS8 : Outs (F := F) := fun j r c => if j = 16 then exit7 m c r else outsS7 m j r c
/-- Stage 8 only adds item 16. -/
theorem outsS8_of_ne (j : ℕ) (hj : j ≠ 16) : outsS8 m j = outsS7 m j := by
  funext r c; exact if_neg hj
/-- Stage 8 at item 16. -/
theorem outsS8_at (r : Ref sig .tc) (c : Dev nD) : outsS8 m 16 r c = exit7 m c r := if_pos rfl

/-- The buffers' contents when region 8 is left: as it was entered, with main_v112 at what the region's write-backs leave. -/
def exit8 (c : Dev nD) : Valuation τ sig (Elt F) :=
  Function.update (V17 m (outsS8 m) c) main_v112 ((dat8 (F := F) (fun c b => V17 m (outsS8 m) c b) c).arrAt 6 cfg8.N)
/-- What the regions up to region 8 leave in their result arrays. -/
def outsS9 : Outs (F := F) := fun j r c => if j = 18 then exit8 m c r else outsS8 m j r c
/-- Stage 9 only adds item 18. -/
theorem outsS9_of_ne (j : ℕ) (hj : j ≠ 18) : outsS9 m j = outsS8 m j := by
  funext r c; exact if_neg hj
/-- Stage 9 at item 18. -/
theorem outsS9_at (r : Ref sig .tc) (c : Dev nD) : outsS9 m 18 r c = exit8 m c r := if_pos rfl

/-- The buffers' contents when region 9 is left: as it was entered, with main_v115 at what the region's write-backs leave. -/
def exit9 (c : Dev nD) : Valuation τ sig (Elt F) :=
  Function.update (V19 m (outsS9 m) c) main_v115 ((dat9 (F := F) (fun c b => V19 m (outsS9 m) c b) c).arrAt 3 cfg9.N)
/-- What the regions up to region 9 leave in their result arrays. -/
def outsS10 : Outs (F := F) := fun j r c => if j = 20 then exit9 m c r else outsS9 m j r c
/-- Stage 10 only adds item 20. -/
theorem outsS10_of_ne (j : ℕ) (hj : j ≠ 20) : outsS10 m j = outsS9 m j := by
  funext r c; exact if_neg hj
/-- Stage 10 at item 20. -/
theorem outsS10_at (r : Ref sig .tc) (c : Dev nD) : outsS10 m 20 r c = exit9 m c r := if_pos rfl

/-- The buffers' contents when region 10 is left: as it was entered, with main_v135_0 and main_v135_1 at what the region's write-backs leave. -/
def exit10 (c : Dev nD) : Valuation τ sig (Elt F) :=
  Function.update (Function.update (V21 m (outsS10 m) c) main_v135_0 ((dat10 (F := F) (fun c b => V21 m (outsS10 m) c b) c).arrAt 2 cfg10.N)) main_v135_1 ((dat10 (F := F) (fun c b => V21 m (outsS10 m) c b) c).arrAt 3 cfg10.N)
/-- What the regions up to region 10 leave in their result arrays. -/
def outsS11 : Outs (F := F) := fun j r c => if j = 22 then exit10 m c r else outsS10 m j r c
/-- Stage 11 only adds item 22. -/
theorem outsS11_of_ne (j : ℕ) (hj : j ≠ 22) : outsS11 m j = outsS10 m j := by
  funext r c; exact if_neg hj
/-- Stage 11 at item 22. -/
theorem outsS11_at (r : Ref sig .tc) (c : Dev nD) : outsS11 m 22 r c = exit10 m c r := if_pos rfl

/-- The buffers' contents when region 11 is left: as it was entered, with main_v139 at what the region's write-backs leave. -/
def exit11 (c : Dev nD) : Valuation τ sig (Elt F) :=
  Function.update (V23 m (outsS11 m) c) main_v139 ((dat11 (F := F) (fun c b => V23 m (outsS11 m) c b) c).arrAt 6 cfg11.N)
/-- What the regions up to region 11 leave in their result arrays. -/
def outsS12 : Outs (F := F) := fun j r c => if j = 24 then exit11 m c r else outsS11 m j r c
/-- Stage 12 only adds item 24. -/
theorem outsS12_of_ne (j : ℕ) (hj : j ≠ 24) : outsS12 m j = outsS11 m j := by
  funext r c; exact if_neg hj
/-- Stage 12 at item 24. -/
theorem outsS12_at (r : Ref sig .tc) (c : Dev nD) : outsS12 m 24 r c = exit11 m c r := if_pos rfl

/-- The buffers' contents when region 12 is left: as it was entered, with main_v142 at what the region's write-backs leave. -/
def exit12 (c : Dev nD) : Valuation τ sig (Elt F) :=
  Function.update (V25 m (outsS12 m) c) main_v142 ((dat12 (F := F) (fun c b => V25 m (outsS12 m) c b) c).arrAt 3 cfg12.N)
/-- What the regions up to region 12 leave in their result arrays. -/
def outsS13 : Outs (F := F) := fun j r c => if j = 26 then exit12 m c r else outsS12 m j r c
/-- Stage 13 only adds item 26. -/
theorem outsS13_of_ne (j : ℕ) (hj : j ≠ 26) : outsS13 m j = outsS12 m j := by
  funext r c; exact if_neg hj
/-- Stage 13 at item 26. -/
theorem outsS13_at (r : Ref sig .tc) (c : Dev nD) : outsS13 m 26 r c = exit12 m c r := if_pos rfl

/-- The buffers' contents when region 13 is left: as it was entered, with main_v162_0 and main_v162_1 at what the region's write-backs leave. -/
def exit13 (c : Dev nD) : Valuation τ sig (Elt F) :=
  Function.update (Function.update (V27 m (outsS13 m) c) main_v162_0 ((dat13 (F := F) (fun c b => V27 m (outsS13 m) c b) c).arrAt 2 cfg13.N)) main_v162_1 ((dat13 (F := F) (fun c b => V27 m (outsS13 m) c b) c).arrAt 3 cfg13.N)
/-- What the regions up to region 13 leave in their result arrays. -/
def outsS14 : Outs (F := F) := fun j r c => if j = 28 then exit13 m c r else outsS13 m j r c
/-- Stage 14 only adds item 28. -/
theorem outsS14_of_ne (j : ℕ) (hj : j ≠ 28) : outsS14 m j = outsS13 m j := by
  funext r c; exact if_neg hj
/-- Stage 14 at item 28. -/
theorem outsS14_at (r : Ref sig .tc) (c : Dev nD) : outsS14 m 28 r c = exit13 m c r := if_pos rfl

/-- The buffers' contents when region 14 is left: as it was entered, with main_v166 at what the region's write-backs leave. -/
def exit14 (c : Dev nD) : Valuation τ sig (Elt F) :=
  Function.update (V29 m (outsS14 m) c) main_v166 ((dat14 (F := F) (fun c b => V29 m (outsS14 m) c b) c).arrAt 6 cfg14.N)
/-- What the regions up to region 14 leave in their result arrays. -/
def outsS15 : Outs (F := F) := fun j r c => if j = 30 then exit14 m c r else outsS14 m j r c
/-- Stage 15 only adds item 30. -/
theorem outsS15_of_ne (j : ℕ) (hj : j ≠ 30) : outsS15 m j = outsS14 m j := by
  funext r c; exact if_neg hj
/-- Stage 15 at item 30. -/
theorem outsS15_at (r : Ref sig .tc) (c : Dev nD) : outsS15 m 30 r c = exit14 m c r := if_pos rfl

/-- The buffers' contents when region 15 is left: as it was entered, with main_v168 at what the region's write-backs leave. -/
def exit15 (c : Dev nD) : Valuation τ sig (Elt F) :=
  Function.update (V31 m (outsS15 m) c) main_v168 ((dat15 (F := F) (fun c b => V31 m (outsS15 m) c b) c).arrAt 3 cfg15.N)
/-- What the regions up to region 15 leave in their result arrays. -/
def outsS16 : Outs (F := F) := fun j r c => if j = 32 then exit15 m c r else outsS15 m j r c
/-- Stage 16 only adds item 32. -/
theorem outsS16_of_ne (j : ℕ) (hj : j ≠ 32) : outsS16 m j = outsS15 m j := by
  funext r c; exact if_neg hj
/-- Stage 16 at item 32. -/
theorem outsS16_at (r : Ref sig .tc) (c : Dev nD) : outsS16 m 32 r c = exit15 m c r := if_pos rfl

/-! ## The final table agrees with every stage on the items that stage has -/

/-- An item up to 3 is read the same off the final table and off stage 1. -/
theorem stable1 (j : ℕ) (hj : j ≤ 3) : outsS16 m j = outsS1 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)).trans
    ((outsS8_of_ne m j (by omega)).trans
    ((outsS7_of_ne m j (by omega)).trans
    ((outsS6_of_ne m j (by omega)).trans
    ((outsS5_of_ne m j (by omega)).trans
    ((outsS4_of_ne m j (by omega)).trans
    ((outsS3_of_ne m j (by omega)).trans
    ((outsS2_of_ne m j (by omega))))))))))))))))

/-- An item up to 5 is read the same off the final table and off stage 2. -/
theorem stable2 (j : ℕ) (hj : j ≤ 5) : outsS16 m j = outsS2 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)).trans
    ((outsS8_of_ne m j (by omega)).trans
    ((outsS7_of_ne m j (by omega)).trans
    ((outsS6_of_ne m j (by omega)).trans
    ((outsS5_of_ne m j (by omega)).trans
    ((outsS4_of_ne m j (by omega)).trans
    ((outsS3_of_ne m j (by omega)))))))))))))))

/-- An item up to 7 is read the same off the final table and off stage 3. -/
theorem stable3 (j : ℕ) (hj : j ≤ 7) : outsS16 m j = outsS3 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)).trans
    ((outsS8_of_ne m j (by omega)).trans
    ((outsS7_of_ne m j (by omega)).trans
    ((outsS6_of_ne m j (by omega)).trans
    ((outsS5_of_ne m j (by omega)).trans
    ((outsS4_of_ne m j (by omega))))))))))))))

/-- An item up to 9 is read the same off the final table and off stage 4. -/
theorem stable4 (j : ℕ) (hj : j ≤ 9) : outsS16 m j = outsS4 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)).trans
    ((outsS8_of_ne m j (by omega)).trans
    ((outsS7_of_ne m j (by omega)).trans
    ((outsS6_of_ne m j (by omega)).trans
    ((outsS5_of_ne m j (by omega)))))))))))))

/-- An item up to 11 is read the same off the final table and off stage 5. -/
theorem stable5 (j : ℕ) (hj : j ≤ 11) : outsS16 m j = outsS5 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)).trans
    ((outsS8_of_ne m j (by omega)).trans
    ((outsS7_of_ne m j (by omega)).trans
    ((outsS6_of_ne m j (by omega))))))))))))

/-- An item up to 13 is read the same off the final table and off stage 6. -/
theorem stable6 (j : ℕ) (hj : j ≤ 13) : outsS16 m j = outsS6 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)).trans
    ((outsS8_of_ne m j (by omega)).trans
    ((outsS7_of_ne m j (by omega)))))))))))

/-- An item up to 15 is read the same off the final table and off stage 7. -/
theorem stable7 (j : ℕ) (hj : j ≤ 15) : outsS16 m j = outsS7 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)).trans
    ((outsS8_of_ne m j (by omega))))))))))

/-- An item up to 17 is read the same off the final table and off stage 8. -/
theorem stable8 (j : ℕ) (hj : j ≤ 17) : outsS16 m j = outsS8 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega)).trans
    ((outsS9_of_ne m j (by omega)))))))))

/-- An item up to 19 is read the same off the final table and off stage 9. -/
theorem stable9 (j : ℕ) (hj : j ≤ 19) : outsS16 m j = outsS9 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)).trans
    ((outsS10_of_ne m j (by omega))))))))

/-- An item up to 21 is read the same off the final table and off stage 10. -/
theorem stable10 (j : ℕ) (hj : j ≤ 21) : outsS16 m j = outsS10 m j :=
  (outsS16_of_ne m j (by omega)).trans
    ((outsS15_of_ne m j (by omega)).trans
    ((outsS14_of_ne m j (by omega)).trans
    ((outsS13_of_ne m j (by omega)).trans
    ((outsS12_of_ne m j (by omega)).trans
    ((outsS11_of_ne m j (by omega)))))))

/-- An item up to 23 is read the same off the final table and off stage 11. -/
theorem stable11 (j : ℕ) (hj : j ≤ 23) : outsS16 m j = outsS11 m j :=
  (outsS16_of_ne m j (by omega)).trans
    ((outsS15_of_ne m j (by omega)).trans
    ((outsS14_of_ne m j (by omega)).trans
    ((outsS13_of_ne m j (by omega)).trans
    ((outsS12_of_ne m j (by omega))))))

/-- An item up to 25 is read the same off the final table and off stage 12. -/
theorem stable12 (j : ℕ) (hj : j ≤ 25) : outsS16 m j = outsS12 m j :=
  (outsS16_of_ne m j (by omega)).trans
    ((outsS15_of_ne m j (by omega)).trans
    ((outsS14_of_ne m j (by omega)).trans
    ((outsS13_of_ne m j (by omega)))))

/-- An item up to 27 is read the same off the final table and off stage 13. -/
theorem stable13 (j : ℕ) (hj : j ≤ 27) : outsS16 m j = outsS13 m j :=
  (outsS16_of_ne m j (by omega)).trans
    ((outsS15_of_ne m j (by omega)).trans
    ((outsS14_of_ne m j (by omega))))

/-- An item up to 29 is read the same off the final table and off stage 14. -/
theorem stable14 (j : ℕ) (hj : j ≤ 29) : outsS16 m j = outsS14 m j :=
  (outsS16_of_ne m j (by omega)).trans
    ((outsS15_of_ne m j (by omega)))

/-- An item up to 31 is read the same off the final table and off stage 15. -/
theorem stable15 (j : ℕ) (hj : j ≤ 31) : outsS16 m j = outsS15 m j :=
  (outsS16_of_ne m j (by omega))

/-! ## What the final table holds at each region's result arrays -/

/-- After region 0, `main_v34` holds the fold of the region's write-backs over the contents it was entered from. -/
theorem outs_main_v34 (c : Dev nD) : outsS16 m 2 main_v34 c = (dat0 (F := F) (fun c b => V1 m c b) c).arrAt 3 cfg0.N := by
  rw [stable1 m 2 (by omega)]
  rw [outsS1_at]
  show Function.update (V1 m c) main_v34 _ main_v34 = _
  exact Function.update_self _ _ _

/-- After region 1, `main_v54_0` holds the fold of the region's write-backs over the contents it was entered from. -/
theorem outs_main_v54_0 (c : Dev nD) : outsS16 m 4 main_v54_0 c = (dat1 (F := F) (fun c b => V3 m (outsS16 m) c b) c).arrAt 2 cfg1.N := by
  rw [stable2 m 4 (by omega)]
  rw [Vc3 m (outsS16 m) (outsS1 m) (fun j hj => stable1 m j (by omega))]
  rw [outsS2_at]
  exact update1_at_2 (V3 m (outsS1 m)) c _ _

/-- After region 1, `main_v54_1` holds the fold of the region's write-backs over the contents it was entered from. -/
theorem outs_main_v54_1 (c : Dev nD) : outsS16 m 4 main_v54_1 c = (dat1 (F := F) (fun c b => V3 m (outsS16 m) c b) c).arrAt 3 cfg1.N := by
  rw [stable2 m 4 (by omega)]
  rw [Vc3 m (outsS16 m) (outsS1 m) (fun j hj => stable1 m j (by omega))]
  rw [outsS2_at]
  exact update1_at_3 (V3 m (outsS1 m)) c _ _

/-- After region 2, `main_v58` holds the fold of the region's write-backs over the contents it was entered from. -/
theorem outs_main_v58 (c : Dev nD) : outsS16 m 6 main_v58 c = (dat2 (F := F) (fun c b => V5 m (outsS16 m) c b) c).arrAt 6 cfg2.N := by
  rw [stable3 m 6 (by omega)]
  rw [Vc5 m (outsS16 m) (outsS2 m) (fun j hj => stable2 m j (by omega))]
  rw [outsS3_at]
  show Function.update (V5 m (outsS2 m) c) main_v58 _ main_v58 = _
  exact Function.update_self _ _ _

/-- After region 3, `main_v61` holds the fold of the region's write-backs over the contents it was entered from. -/
theorem outs_main_v61 (c : Dev nD) : outsS16 m 8 main_v61 c = (dat3 (F := F) (fun c b => V7 m (outsS16 m) c b) c).arrAt 3 cfg3.N := by
  rw [stable4 m 8 (by omega)]
  rw [Vc7 m (outsS16 m) (outsS3 m) (fun j hj => stable3 m j (by omega))]
  rw [outsS4_at]
  show Function.update (V7 m (outsS3 m) c) main_v61 _ main_v61 = _
  exact Function.update_self _ _ _

/-- After region 4, `main_v81_0` holds the fold of the region's write-backs over the contents it was entered from. -/
theorem outs_main_v81_0 (c : Dev nD) : outsS16 m 10 main_v81_0 c = (dat4 (F := F) (fun c b => V9 m (outsS16 m) c b) c).arrAt 2 cfg4.N := by
  rw [stable5 m 10 (by omega)]
  rw [Vc9 m (outsS16 m) (outsS4 m) (fun j hj => stable4 m j (by omega))]
  rw [outsS5_at]
  exact update4_at_2 (V9 m (outsS4 m)) c _ _

/-- After region 4, `main_v81_1` holds the fold of the region's write-backs over the contents it was entered from. -/
theorem outs_main_v81_1 (c : Dev nD) : outsS16 m 10 main_v81_1 c = (dat4 (F := F) (fun c b => V9 m (outsS16 m) c b) c).arrAt 3 cfg4.N := by
  rw [stable5 m 10 (by omega)]
  rw [Vc9 m (outsS16 m) (outsS4 m) (fun j hj => stable4 m j (by omega))]
  rw [outsS5_at]
  exact update4_at_3 (V9 m (outsS4 m)) c _ _

/-- After region 5, `main_v85` holds the fold of the region's write-backs over the contents it was entered from. -/
theorem outs_main_v85 (c : Dev nD) : outsS16 m 12 main_v85 c = (dat5 (F := F) (fun c b => V11 m (outsS16 m) c b) c).arrAt 6 cfg5.N := by
  rw [stable6 m 12 (by omega)]
  rw [Vc11 m (outsS16 m) (outsS5 m) (fun j hj => stable5 m j (by omega))]
  rw [outsS6_at]
  show Function.update (V11 m (outsS5 m) c) main_v85 _ main_v85 = _
  exact Function.update_self _ _ _

/-- After region 6, `main_v88` holds the fold of the region's write-backs over the contents it was entered from. -/
theorem outs_main_v88 (c : Dev nD) : outsS16 m 14 main_v88 c = (dat6 (F := F) (fun c b => V13 m (outsS16 m) c b) c).arrAt 3 cfg6.N := by
  rw [stable7 m 14 (by omega)]
  rw [Vc13 m (outsS16 m) (outsS6 m) (fun j hj => stable6 m j (by omega))]
  rw [outsS7_at]
  show Function.update (V13 m (outsS6 m) c) main_v88 _ main_v88 = _
  exact Function.update_self _ _ _

/-- After region 7, `main_v108_0` holds the fold of the region's write-backs over the contents it was entered from. -/
theorem outs_main_v108_0 (c : Dev nD) : outsS16 m 16 main_v108_0 c = (dat7 (F := F) (fun c b => V15 m (outsS16 m) c b) c).arrAt 2 cfg7.N := by
  rw [stable8 m 16 (by omega)]
  rw [Vc15 m (outsS16 m) (outsS7 m) (fun j hj => stable7 m j (by omega))]
  rw [outsS8_at]
  exact update7_at_2 (V15 m (outsS7 m)) c _ _

/-- After region 7, `main_v108_1` holds the fold of the region's write-backs over the contents it was entered from. -/
theorem outs_main_v108_1 (c : Dev nD) : outsS16 m 16 main_v108_1 c = (dat7 (F := F) (fun c b => V15 m (outsS16 m) c b) c).arrAt 3 cfg7.N := by
  rw [stable8 m 16 (by omega)]
  rw [Vc15 m (outsS16 m) (outsS7 m) (fun j hj => stable7 m j (by omega))]
  rw [outsS8_at]
  exact update7_at_3 (V15 m (outsS7 m)) c _ _

/-- After region 8, `main_v112` holds the fold of the region's write-backs over the contents it was entered from. -/
theorem outs_main_v112 (c : Dev nD) : outsS16 m 18 main_v112 c = (dat8 (F := F) (fun c b => V17 m (outsS16 m) c b) c).arrAt 6 cfg8.N := by
  rw [stable9 m 18 (by omega)]
  rw [Vc17 m (outsS16 m) (outsS8 m) (fun j hj => stable8 m j (by omega))]
  rw [outsS9_at]
  show Function.update (V17 m (outsS8 m) c) main_v112 _ main_v112 = _
  exact Function.update_self _ _ _

/-- After region 9, `main_v115` holds the fold of the region's write-backs over the contents it was entered from. -/
theorem outs_main_v115 (c : Dev nD) : outsS16 m 20 main_v115 c = (dat9 (F := F) (fun c b => V19 m (outsS16 m) c b) c).arrAt 3 cfg9.N := by
  rw [stable10 m 20 (by omega)]
  rw [Vc19 m (outsS16 m) (outsS9 m) (fun j hj => stable9 m j (by omega))]
  rw [outsS10_at]
  show Function.update (V19 m (outsS9 m) c) main_v115 _ main_v115 = _
  exact Function.update_self _ _ _

/-- After region 10, `main_v135_0` holds the fold of the region's write-backs over the contents it was entered from. -/
theorem outs_main_v135_0 (c : Dev nD) : outsS16 m 22 main_v135_0 c = (dat10 (F := F) (fun c b => V21 m (outsS16 m) c b) c).arrAt 2 cfg10.N := by
  rw [stable11 m 22 (by omega)]
  rw [Vc21 m (outsS16 m) (outsS10 m) (fun j hj => stable10 m j (by omega))]
  rw [outsS11_at]
  exact update10_at_2 (V21 m (outsS10 m)) c _ _

/-- After region 10, `main_v135_1` holds the fold of the region's write-backs over the contents it was entered from. -/
theorem outs_main_v135_1 (c : Dev nD) : outsS16 m 22 main_v135_1 c = (dat10 (F := F) (fun c b => V21 m (outsS16 m) c b) c).arrAt 3 cfg10.N := by
  rw [stable11 m 22 (by omega)]
  rw [Vc21 m (outsS16 m) (outsS10 m) (fun j hj => stable10 m j (by omega))]
  rw [outsS11_at]
  exact update10_at_3 (V21 m (outsS10 m)) c _ _

/-- After region 11, `main_v139` holds the fold of the region's write-backs over the contents it was entered from. -/
theorem outs_main_v139 (c : Dev nD) : outsS16 m 24 main_v139 c = (dat11 (F := F) (fun c b => V23 m (outsS16 m) c b) c).arrAt 6 cfg11.N := by
  rw [stable12 m 24 (by omega)]
  rw [Vc23 m (outsS16 m) (outsS11 m) (fun j hj => stable11 m j (by omega))]
  rw [outsS12_at]
  show Function.update (V23 m (outsS11 m) c) main_v139 _ main_v139 = _
  exact Function.update_self _ _ _

/-- After region 12, `main_v142` holds the fold of the region's write-backs over the contents it was entered from. -/
theorem outs_main_v142 (c : Dev nD) : outsS16 m 26 main_v142 c = (dat12 (F := F) (fun c b => V25 m (outsS16 m) c b) c).arrAt 3 cfg12.N := by
  rw [stable13 m 26 (by omega)]
  rw [Vc25 m (outsS16 m) (outsS12 m) (fun j hj => stable12 m j (by omega))]
  rw [outsS13_at]
  show Function.update (V25 m (outsS12 m) c) main_v142 _ main_v142 = _
  exact Function.update_self _ _ _

/-- After region 13, `main_v162_0` holds the fold of the region's write-backs over the contents it was entered from. -/
theorem outs_main_v162_0 (c : Dev nD) : outsS16 m 28 main_v162_0 c = (dat13 (F := F) (fun c b => V27 m (outsS16 m) c b) c).arrAt 2 cfg13.N := by
  rw [stable14 m 28 (by omega)]
  rw [Vc27 m (outsS16 m) (outsS13 m) (fun j hj => stable13 m j (by omega))]
  rw [outsS14_at]
  exact update13_at_2 (V27 m (outsS13 m)) c _ _

/-- After region 13, `main_v162_1` holds the fold of the region's write-backs over the contents it was entered from. -/
theorem outs_main_v162_1 (c : Dev nD) : outsS16 m 28 main_v162_1 c = (dat13 (F := F) (fun c b => V27 m (outsS16 m) c b) c).arrAt 3 cfg13.N := by
  rw [stable14 m 28 (by omega)]
  rw [Vc27 m (outsS16 m) (outsS13 m) (fun j hj => stable13 m j (by omega))]
  rw [outsS14_at]
  exact update13_at_3 (V27 m (outsS13 m)) c _ _

/-- After region 14, `main_v166` holds the fold of the region's write-backs over the contents it was entered from. -/
theorem outs_main_v166 (c : Dev nD) : outsS16 m 30 main_v166 c = (dat14 (F := F) (fun c b => V29 m (outsS16 m) c b) c).arrAt 6 cfg14.N := by
  rw [stable15 m 30 (by omega)]
  rw [Vc29 m (outsS16 m) (outsS14 m) (fun j hj => stable14 m j (by omega))]
  rw [outsS15_at]
  show Function.update (V29 m (outsS14 m) c) main_v166 _ main_v166 = _
  exact Function.update_self _ _ _

/-- After region 15, `main_v168` holds the fold of the region's write-backs over the contents it was entered from. -/
theorem outs_main_v168 (c : Dev nD) : outsS16 m 32 main_v168 c = (dat15 (F := F) (fun c b => V31 m (outsS16 m) c b) c).arrAt 3 cfg15.N := by
  rw [Vc31 m (outsS16 m) (outsS15 m) (fun j hj => stable15 m j (by omega))]
  rw [outsS16_at]
  show Function.update (V31 m (outsS15 m) c) main_v168 _ main_v168 = _
  exact Function.update_self _ _ _

/-! ## The proof data of every region, each at the contents it is entered from -/

/-- Region K's proof data at its entry contents: a literal match on the region's number. -/
def pdats : (p : Fin 16) → (c : Dev nD) → Dat τ (Elt F) Unit ℕ (UR sig nD τ) ℕ (cfgs p) c
  | ⟨0, _⟩ => fun c => dat0 (F := F) (fun c b => V1 m c b) c
  | ⟨1, _⟩ => fun c => dat1 (F := F) (fun c b => V3 m (outsS16 m) c b) c
  | ⟨2, _⟩ => fun c => dat2 (F := F) (fun c b => V5 m (outsS16 m) c b) c
  | ⟨3, _⟩ => fun c => dat3 (F := F) (fun c b => V7 m (outsS16 m) c b) c
  | ⟨4, _⟩ => fun c => dat4 (F := F) (fun c b => V9 m (outsS16 m) c b) c
  | ⟨5, _⟩ => fun c => dat5 (F := F) (fun c b => V11 m (outsS16 m) c b) c
  | ⟨6, _⟩ => fun c => dat6 (F := F) (fun c b => V13 m (outsS16 m) c b) c
  | ⟨7, _⟩ => fun c => dat7 (F := F) (fun c b => V15 m (outsS16 m) c b) c
  | ⟨8, _⟩ => fun c => dat8 (F := F) (fun c b => V17 m (outsS16 m) c b) c
  | ⟨9, _⟩ => fun c => dat9 (F := F) (fun c b => V19 m (outsS16 m) c b) c
  | ⟨10, _⟩ => fun c => dat10 (F := F) (fun c b => V21 m (outsS16 m) c b) c
  | ⟨11, _⟩ => fun c => dat11 (F := F) (fun c b => V23 m (outsS16 m) c b) c
  | ⟨12, _⟩ => fun c => dat12 (F := F) (fun c b => V25 m (outsS16 m) c b) c
  | ⟨13, _⟩ => fun c => dat13 (F := F) (fun c b => V27 m (outsS16 m) c b) c
  | ⟨14, _⟩ => fun c => dat14 (F := F) (fun c b => V29 m (outsS16 m) c b) c
  | ⟨15, _⟩ => fun c => dat15 (F := F) (fun c b => V31 m (outsS16 m) c b) c
  | ⟨n + 16, h⟩ => absurd h (by omega)

/-! ## The regions as segments of @main -/

/-- Region 0 between the contents before it and after it. -/
def R0 : RegionSeg (pcfgs (F := F)) adm (pdats m) () defs₀ Variants.none (fun _ => (∅ : Finset Unit)) (fun _ _ => (0 : ℕ)) 0 :=
  reg0 (fun _ => (∅ : Finset Unit)) (fun _ _ => (0 : ℕ)) (pdats m) (V1 m) (V2 m (outsS16 m)) (fun _ => rfl)
    (fun c => hF0_update (V1 m) c _ (outs_main_v34 m c))
    (fun c => hrest0_update (V1 m) c _)

/-- Region 1 between the contents before it and after it. -/
def R1 : RegionSeg (pcfgs (F := F)) adm (pdats m) () defs₀ Variants.none (fun _ => (∅ : Finset Unit)) (fun _ _ => (0 : ℕ)) 1 :=
  reg1 (fun _ => (∅ : Finset Unit)) (fun _ _ => (0 : ℕ)) (pdats m) (V3 m (outsS16 m)) (V4 m (outsS16 m)) (fun _ => rfl)
    (fun c => hF1_update (V3 m (outsS16 m)) c _ _ (outs_main_v54_0 m c) (outs_main_v54_1 m c))
    (fun c => hrest1_update (V3 m (outsS16 m)) c _ _)

/-- Region 2 between the contents before it and after it. -/
def R2 : RegionSeg (pcfgs (F := F)) adm (pdats m) () defs₀ Variants.none (fun _ => (∅ : Finset Unit)) (fun _ _ => (0 : ℕ)) 2 :=
  reg2 (fun _ => (∅ : Finset Unit)) (fun _ _ => (0 : ℕ)) (pdats m) (V5 m (outsS16 m)) (V6 m (outsS16 m)) (fun _ => rfl)
    (fun c => hF2_update (V5 m (outsS16 m)) c _ (outs_main_v58 m c))
    (fun c => hrest2_update (V5 m (outsS16 m)) c _)

/-- Region 3 between the contents before it and after it. -/
def R3 : RegionSeg (pcfgs (F := F)) adm (pdats m) () defs₀ Variants.none (fun _ => (∅ : Finset Unit)) (fun _ _ => (0 : ℕ)) 3 :=
  reg3 (fun _ => (∅ : Finset Unit)) (fun _ _ => (0 : ℕ)) (pdats m) (V7 m (outsS16 m)) (V8 m (outsS16 m)) (fun _ => rfl)
    (fun c => hF3_update (V7 m (outsS16 m)) c _ (outs_main_v61 m c))
    (fun c => hrest3_update (V7 m (outsS16 m)) c _)

/-- Region 4 between the contents before it and after it. -/
def R4 : RegionSeg (pcfgs (F := F)) adm (pdats m) () defs₀ Variants.none (fun _ => (∅ : Finset Unit)) (fun _ _ => (0 : ℕ)) 4 :=
  reg4 (fun _ => (∅ : Finset Unit)) (fun _ _ => (0 : ℕ)) (pdats m) (V9 m (outsS16 m)) (V10 m (outsS16 m)) (fun _ => rfl)
    (fun c => hF4_update (V9 m (outsS16 m)) c _ _ (outs_main_v81_0 m c) (outs_main_v81_1 m c))
    (fun c => hrest4_update (V9 m (outsS16 m)) c _ _)

/-- Region 5 between the contents before it and after it. -/
def R5 : RegionSeg (pcfgs (F := F)) adm (pdats m) () defs₀ Variants.none (fun _ => (∅ : Finset Unit)) (fun _ _ => (0 : ℕ)) 5 :=
  reg5 (fun _ => (∅ : Finset Unit)) (fun _ _ => (0 : ℕ)) (pdats m) (V11 m (outsS16 m)) (V12 m (outsS16 m)) (fun _ => rfl)
    (fun c => hF5_update (V11 m (outsS16 m)) c _ (outs_main_v85 m c))
    (fun c => hrest5_update (V11 m (outsS16 m)) c _)

/-- Region 6 between the contents before it and after it. -/
def R6 : RegionSeg (pcfgs (F := F)) adm (pdats m) () defs₀ Variants.none (fun _ => (∅ : Finset Unit)) (fun _ _ => (0 : ℕ)) 6 :=
  reg6 (fun _ => (∅ : Finset Unit)) (fun _ _ => (0 : ℕ)) (pdats m) (V13 m (outsS16 m)) (V14 m (outsS16 m)) (fun _ => rfl)
    (fun c => hF6_update (V13 m (outsS16 m)) c _ (outs_main_v88 m c))
    (fun c => hrest6_update (V13 m (outsS16 m)) c _)

/-- Region 7 between the contents before it and after it. -/
def R7 : RegionSeg (pcfgs (F := F)) adm (pdats m) () defs₀ Variants.none (fun _ => (∅ : Finset Unit)) (fun _ _ => (0 : ℕ)) 7 :=
  reg7 (fun _ => (∅ : Finset Unit)) (fun _ _ => (0 : ℕ)) (pdats m) (V15 m (outsS16 m)) (V16 m (outsS16 m)) (fun _ => rfl)
    (fun c => hF7_update (V15 m (outsS16 m)) c _ _ (outs_main_v108_0 m c) (outs_main_v108_1 m c))
    (fun c => hrest7_update (V15 m (outsS16 m)) c _ _)

/-- Region 8 between the contents before it and after it. -/
def R8 : RegionSeg (pcfgs (F := F)) adm (pdats m) () defs₀ Variants.none (fun _ => (∅ : Finset Unit)) (fun _ _ => (0 : ℕ)) 8 :=
  reg8 (fun _ => (∅ : Finset Unit)) (fun _ _ => (0 : ℕ)) (pdats m) (V17 m (outsS16 m)) (V18 m (outsS16 m)) (fun _ => rfl)
    (fun c => hF8_update (V17 m (outsS16 m)) c _ (outs_main_v112 m c))
    (fun c => hrest8_update (V17 m (outsS16 m)) c _)

/-- Region 9 between the contents before it and after it. -/
def R9 : RegionSeg (pcfgs (F := F)) adm (pdats m) () defs₀ Variants.none (fun _ => (∅ : Finset Unit)) (fun _ _ => (0 : ℕ)) 9 :=
  reg9 (fun _ => (∅ : Finset Unit)) (fun _ _ => (0 : ℕ)) (pdats m) (V19 m (outsS16 m)) (V20 m (outsS16 m)) (fun _ => rfl)
    (fun c => hF9_update (V19 m (outsS16 m)) c _ (outs_main_v115 m c))
    (fun c => hrest9_update (V19 m (outsS16 m)) c _)

/-- Region 10 between the contents before it and after it. -/
def R10 : RegionSeg (pcfgs (F := F)) adm (pdats m) () defs₀ Variants.none (fun _ => (∅ : Finset Unit)) (fun _ _ => (0 : ℕ)) 10 :=
  reg10 (fun _ => (∅ : Finset Unit)) (fun _ _ => (0 : ℕ)) (pdats m) (V21 m (outsS16 m)) (V22 m (outsS16 m)) (fun _ => rfl)
    (fun c => hF10_update (V21 m (outsS16 m)) c _ _ (outs_main_v135_0 m c) (outs_main_v135_1 m c))
    (fun c => hrest10_update (V21 m (outsS16 m)) c _ _)

/-- Region 11 between the contents before it and after it. -/
def R11 : RegionSeg (pcfgs (F := F)) adm (pdats m) () defs₀ Variants.none (fun _ => (∅ : Finset Unit)) (fun _ _ => (0 : ℕ)) 11 :=
  reg11 (fun _ => (∅ : Finset Unit)) (fun _ _ => (0 : ℕ)) (pdats m) (V23 m (outsS16 m)) (V24 m (outsS16 m)) (fun _ => rfl)
    (fun c => hF11_update (V23 m (outsS16 m)) c _ (outs_main_v139 m c))
    (fun c => hrest11_update (V23 m (outsS16 m)) c _)

/-- Region 12 between the contents before it and after it. -/
def R12 : RegionSeg (pcfgs (F := F)) adm (pdats m) () defs₀ Variants.none (fun _ => (∅ : Finset Unit)) (fun _ _ => (0 : ℕ)) 12 :=
  reg12 (fun _ => (∅ : Finset Unit)) (fun _ _ => (0 : ℕ)) (pdats m) (V25 m (outsS16 m)) (V26 m (outsS16 m)) (fun _ => rfl)
    (fun c => hF12_update (V25 m (outsS16 m)) c _ (outs_main_v142 m c))
    (fun c => hrest12_update (V25 m (outsS16 m)) c _)

/-- Region 13 between the contents before it and after it. -/
def R13 : RegionSeg (pcfgs (F := F)) adm (pdats m) () defs₀ Variants.none (fun _ => (∅ : Finset Unit)) (fun _ _ => (0 : ℕ)) 13 :=
  reg13 (fun _ => (∅ : Finset Unit)) (fun _ _ => (0 : ℕ)) (pdats m) (V27 m (outsS16 m)) (V28 m (outsS16 m)) (fun _ => rfl)
    (fun c => hF13_update (V27 m (outsS16 m)) c _ _ (outs_main_v162_0 m c) (outs_main_v162_1 m c))
    (fun c => hrest13_update (V27 m (outsS16 m)) c _ _)

/-- Region 14 between the contents before it and after it. -/
def R14 : RegionSeg (pcfgs (F := F)) adm (pdats m) () defs₀ Variants.none (fun _ => (∅ : Finset Unit)) (fun _ _ => (0 : ℕ)) 14 :=
  reg14 (fun _ => (∅ : Finset Unit)) (fun _ _ => (0 : ℕ)) (pdats m) (V29 m (outsS16 m)) (V30 m (outsS16 m)) (fun _ => rfl)
    (fun c => hF14_update (V29 m (outsS16 m)) c _ (outs_main_v166 m c))
    (fun c => hrest14_update (V29 m (outsS16 m)) c _)

/-- Region 15 between the contents before it and after it. -/
def R15 : RegionSeg (pcfgs (F := F)) adm (pdats m) () defs₀ Variants.none (fun _ => (∅ : Finset Unit)) (fun _ _ => (0 : ℕ)) 15 :=
  reg15 (fun _ => (∅ : Finset Unit)) (fun _ _ => (0 : ℕ)) (pdats m) (V31 m (outsS16 m)) (V32 m (outsS16 m)) (fun _ => rfl)
    (fun c => hF15_update (V31 m (outsS16 m)) c _ (outs_main_v168 m c))
    (fun c => hrest15_update (V31 m (outsS16 m)) c _)

/-! ## The run -/

/-- Every weakly fair execution of @main terminates without a fault; the result array ends at the fold of the last
    region's write-backs and every argument array as launched. -/
theorem run (ρ : Dev nD → PrngReg) :
    θ_run defs (onTc (τ := τ) (main (F := F))) ⟨m, fun _ => 0, ρ⟩ (fun r => ∀ c : Dev nD,
      r.2.mem ((c.tc : Thread nD τ).loc main_v168) = (dat15 (F := F) (fun c b => V31 m (outsS16 m) c b) c).arrAt 3 cfg15.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine (θ_run defs _ _).mono (fun r h c => ?_)
    (run_top m ρ (outsS16 m) (pdats m)
      (R0 m) (fun _ => .rfl) (fun _ => .rfl)
      (R1 m) (fun _ => .rfl) (fun _ => .rfl)
      (R2 m) (fun _ => .rfl) (fun _ => .rfl)
      (R3 m) (fun _ => .rfl) (fun _ => .rfl)
      (R4 m) (fun _ => .rfl) (fun _ => .rfl)
      (R5 m) (fun _ => .rfl) (fun _ => .rfl)
      (R6 m) (fun _ => .rfl) (fun _ => .rfl)
      (R7 m) (fun _ => .rfl) (fun _ => .rfl)
      (R8 m) (fun _ => .rfl) (fun _ => .rfl)
      (R9 m) (fun _ => .rfl) (fun _ => .rfl)
      (R10 m) (fun _ => .rfl) (fun _ => .rfl)
      (R11 m) (fun _ => .rfl) (fun _ => .rfl)
      (R12 m) (fun _ => .rfl) (fun _ => .rfl)
      (R13 m) (fun _ => .rfl) (fun _ => .rfl)
      (R14 m) (fun _ => .rfl) (fun _ => .rfl)
      (R15 m) (fun _ => .rfl) (fun _ => .rfl))
  exact ⟨(h c).1.trans (outs_main_v168 m c), (h c).2⟩

end Cert.KernelIdeal.Hand

end
-- ==== Proof.RefOps.lean ====
/- The reference program's @main as lists of its host operations, in program order, each outlined function's
   operations listed inline at its call site over that call's buffer record; the list is cut into consecutive chunks
   (at every printed window's end and, inside a layer, before the matrix product, after the bias addition and after
   the variance), and beside each chunk the buffers its operations write and the fact that each operation touches
   TensorCore references only. -/
import proofs.«109725_j21638045237575_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 40 of 434 (statements 1 … 40, in window main_part0). -/
abbrev ops_c00 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x00000000#32),
    StableHlo.unary main_cst main_v7 (broadcastInDim S100000 ![] bcast_S_S100000 : (⟨S_, .f32⟩ : BufTy).Contents (Elt F) → (⟨S100000, .f32⟩ : BufTy).Contents (Elt F)),
    StableHlo.nullary main_c (constantI S_ 32 0#32),
    StableHlo.unary main_c main_v8 (broadcastInDim S1700000 ![] bcast_S_S1700000 : (⟨S_, .i32⟩ : BufTy).Contents (Elt F) → (⟨S1700000, .i32⟩ : BufTy).Contents (Elt F)),
    StableHlo.binary main_v6 main_v8 main_v9 (cmpi .slt : (⟨S1700000, .i32⟩ : BufTy).Contents (Elt F) → (⟨S1700000, .i32⟩ : BufTy).Contents (Elt F) → (⟨S1700000, .i1⟩ : BufTy).Contents (Elt F)),
    StableHlo.nullary main_c_0 (constantI S_ 32 100000#32),
    StableHlo.unary main_c_0 main_v10 (broadcastInDim S1700000 ![] bcast_S_S1700000 : (⟨S_, .i32⟩ : BufTy).Contents (Elt F) → (⟨S1700000, .i32⟩ : BufTy).Contents (Elt F)),
    StableHlo.binary main_v6 main_v10 main_v11 (addi : (⟨S1700000, .i32⟩ : BufTy).Contents (Elt F) → (⟨S1700000, .i32⟩ : BufTy).Contents (Elt F) → (⟨S1700000, .i32⟩ : BufTy).Contents (Elt F)),
    StableHlo.ternary main_v9 main_v11 main_v6 main_v12 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v12 main_v13 (broadcastInDim S1700000x1 ![0] bcast_S1700000_S1700000x1_0 : (⟨S1700000, .i32⟩ : BufTy).Contents (Elt F) → (⟨S1700000x1, .i32⟩ : BufTy).Contents (Elt F)),
    StableHlo.nullary main_cst_1 (constant S_ .f32 0x3F800000#32),
    StableHlo.unary main_cst_1 main_v14 (broadcastInDim S1700000 ![] bcast_S_S1700000 : (⟨S_, .f32⟩ : BufTy).Contents (Elt F) → (⟨S1700000, .f32⟩ : BufTy).Contents (Elt F)),
    StableHlo.ternary main_v7 main_v13 main_v14 main_v15 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.unary main_v15 main_v16 (Host.rsqrt : (⟨S100000, .f32⟩ : BufTy).Contents (Elt F) → (⟨S100000, .f32⟩ : BufTy).Contents (Elt F)),
    StableHlo.nullary main_c_2 (constantI S_ 32 0#32),
    StableHlo.unary main_c_2 main_v17 (broadcastInDim S1700000 ![] bcast_S_S1700000 : (⟨S_, .i32⟩ : BufTy).Contents (Elt F) → (⟨S1700000, .i32⟩ : BufTy).Contents (Elt F)),
    StableHlo.binary main_v3 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v19 (broadcastInDim S1700000 ![] bcast_S_S1700000 : (⟨S_, .i32⟩ : BufTy).Contents (Elt F) → (⟨S1700000, .i32⟩ : BufTy).Contents (Elt F)),
    StableHlo.binary main_v3 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)) ]

/-- The buffers that chunk's operations write, in order. -/
abbrev ops_c00_W : List (Ref sig .tc) := [main_v0, main_v1, main_v2, main_v3, main_v4, main_v5, main_v6, main_cst, main_v7, main_c, main_v8, main_v9, main_c_0, main_v10, main_v11, main_v12, main_v13, main_cst_1, main_v14, main_v15, main_v16, main_c_2, main_v17, main_v18, main_c_3, main_v19, main_v20, main_v21, main_v22, main_v23, main_c_4, main_v24, main_v25, main_c_5, main_v26, main_v27, main_v28, main_v29, main_v30, main_v31]

set_option maxRecDepth 8192 in
theorem ops_c00_sub : (ops_c00 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- @main's operations 41 … 60 of 434 (statements 41 … 60, in window main_part0). -/
abbrev ops_c01 : List (HloOp τ sig (Elt F)) :=
  [ StableHlo.binary main_arg0 main_arg2 main_v32 ((fun l r => Host.dotGeneral dot_S100000x6_S6x32_S100000x32_1_0_0_1_n_n none l r) : (⟨S100000x6, .f32⟩ : BufTy).Contents (Elt F) → (⟨S6x32, .f32⟩ : BufTy).Contents (Elt F) → (⟨S100000x32, .f32⟩ : BufTy).Contents (Elt F)),
    StableHlo.nullary main_c_6 (constantI S_ 32 0#32),
    StableHlo.unary main_c_6 main_v33 (broadcastInDim S1700000 ![] bcast_S_S1700000 : (⟨S_, .i32⟩ : BufTy).Contents (Elt F) → (⟨S1700000, .i32⟩ : BufTy).Contents (Elt F)),
    StableHlo.binary main_v3 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v35 (broadcastInDim S1700000 ![] bcast_S_S1700000 : (⟨S_, .i32⟩ : BufTy).Contents (Elt F) → (⟨S1700000, .i32⟩ : BufTy).Contents (Elt F)),
    StableHlo.binary main_v3 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v32 main_v38 main_v39 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v31 main_v40 (broadcastInDim S1700000x1 ![0] bcast_S1700000_S1700000x1_0 : (⟨S1700000, .f32⟩ : BufTy).Contents (Elt F) → (⟨S1700000x1, .f32⟩ : BufTy).Contents (Elt F)),
    StableHlo.unary main_v40 main_v41 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v39 main_v41 main_v42 (mulf : (⟨S1700000x32, .f32⟩ : BufTy).Contents (Elt F) → (⟨S1700000x32, .f32⟩ : BufTy).Contents (Elt F) → (⟨S1700000x32, .f32⟩ : BufTy).Contents (Elt F)),
    StableHlo.nullary main_cst_8 (constant S_ .f32 0x00000000#32),
    StableHlo.unary main_cst_8 main_v43 (broadcastInDim S100000x32 ![] bcast_S_S100000x32 : (⟨S_, .f32⟩ : BufTy).Contents (Elt F) → (⟨S100000x32, .f32⟩ : BufTy).Contents (Elt F)),
    StableHlo.nullary main_c_9 (constantI S_ 32 0#32),
    StableHlo.unary main_c_9 main_v44 (broadcastInDim S1700000 ![] bcast_S_S1700000 : (⟨S_, .i32⟩ : BufTy).Contents (Elt F) → (⟨S1700000, .i32⟩ : BufTy).Contents (Elt F)),
    StableHlo.binary main_v6 main_v44 main_v45 (cmpi .slt : (⟨S1700000, .i32⟩ : BufTy).Contents (Elt F) → (⟨S1700000, .i32⟩ : BufTy).Contents (Elt F) → (⟨S1700000, .i1⟩ : BufTy).Contents (Elt F)),
    StableHlo.nullary main_c_10 (constantI S_ 32 100000#32),
    StableHlo.unary main_c_10 main_v46 (broadcastInDim S1700000 ![] bcast_S_S1700000 : (⟨S_, .i32⟩ : BufTy).Contents (Elt F) → (⟨S1700000, .i32⟩ : BufTy).Contents (Elt F)) ]

/-- The buffers that chunk's operations write, in order. -/
abbrev ops_c01_W : List (Ref sig .tc) := [main_v32, main_c_6, main_v33, main_v34, main_c_7, main_v35, main_v36, main_v37, main_v38, main_v39, main_v40, main_v41, main_v42, main_cst_8, main_v43, main_c_9, main_v44, main_v45, main_c_10, main_v46]

set_option maxRecDepth 8192 in
theorem ops_c01_sub : (ops_c01 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub ..⟩

/-- @main's operations 61 … 67 of 434 (statements 61 … 67, in window main_part1). -/
abbrev ops_c02 : List (HloOp τ sig (Elt F)) :=
  [ StableHlo.binary main_v6 main_v46 main_v47 (addi : (⟨S1700000, .i32⟩ : BufTy).Contents (Elt F) → (⟨S1700000, .i32⟩ : BufTy).Contents (Elt F) → (⟨S1700000, .i32⟩ : BufTy).Contents (Elt F)),
    StableHlo.ternary main_v45 main_v47 main_v6 main_v48 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v48 main_v49 (broadcastInDim S1700000x1 ![0] bcast_S1700000_S1700000x1_0 : (⟨S1700000, .i32⟩ : BufTy).Contents (Elt F) → (⟨S1700000x1, .i32⟩ : BufTy).Contents (Elt F)),
    StableHlo.ternary main_v43 main_v49 main_v42 main_v50 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    StableHlo.unary main_arg3 main_v51 (broadcastInDim S1x32 ![1] bcast_S32_S1x32_1 : (⟨S32, .f32⟩ : BufTy).Contents (Elt F) → (⟨S1x32, .f32⟩ : BufTy).Contents (Elt F)),
    StableHlo.unary main_v51 main_v52 (broadcastInDim S100000x32 ![0, 1] bcast_S1x32_S100000x32_0_1 : (⟨S1x32, .f32⟩ : BufTy).Contents (Elt F) → (⟨S100000x32, .f32⟩ : BufTy).Contents (Elt F)),
    StableHlo.binary main_v50 main_v52 main_v53 (addf : (⟨S100000x32, .f32⟩ : BufTy).Contents (Elt F) → (⟨S100000x32, .f32⟩ : BufTy).Contents (Elt F) → (⟨S100000x32, .f32⟩ : BufTy).Contents (Elt F)) ]

/-- The buffers that chunk's operations write, in order. -/
abbrev ops_c02_W : List (Ref sig .tc) := [main_v47, main_v48, main_v49, main_v50, main_v51, main_v52, main_v53]

set_option maxRecDepth 8192 in
theorem ops_c02_sub : (ops_c02 : List (HloOp τ sig (Elt F))).Forall fun op => op.bufs ⊆ tcRefs τ sig :=
  ⟨binary_bufs_sub .., ternary_bufs_sub .., unary_bufs_sub .., ternary_bufs_sub .., unary_bufs_sub .., unary_bufs_sub .., binary_bufs_sub ..⟩

/-- @main's operations 68 … 95 of 434 (statements 68 … 74, in window main_part1). -/
abbrev ops_c03 : List (HloOp τ sig (Elt F)) :=
  [ StableHlo.nullary main_cst_11 (constant S_ .f32 0x00000000#32),
    StableHlo.binary main_v53 main_cst_11 main_v54 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_12 (constant S_ .f32 0x47C35000#32),
    StableHlo.unary main_cst_12 main_v55 (broadcastInDim S32 ![] bcast_S_S32 : (⟨S_, .f32⟩ : BufTy).Contents (Elt F) → (⟨S32, .f32⟩ : BufTy).Contents (Elt F)),
    StableHlo.binary main_v54 main_v55 main_v56 (Host.divf : (⟨S32, .f32⟩ : BufTy).Contents (Elt F) → (⟨S32, .f32⟩ : BufTy).Contents (Elt F) → (⟨S32, .f32⟩ : BufTy).Contents (Elt F)),
    StableHlo.nullary main_c_13 (constantI S_ 32 0#32),
    StableHlo.TRef.nullary main_call0.cst (constant S_ .f32 0x00000000#32),
    StableHlo.TRef.binary (StableHlo.TRef.of main_v53 : StableHlo.TRef sig ⟨S100000x32, .f32⟩) main_call0.cst main_call0.v0 (fun x v => Host.reduceAdd x v reducesTo_S100000x32_S32_d0 h_S_),
    StableHlo.TRef.unary main_call0.v0 main_call0.v1 (broadcastInDim S1x32 ![1] bcast_S32_S1x32_1),
    StableHlo.TRef.nullary main_call0.cst_0 (constant S_ .f32 0x47C35000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S100000x32 ![0, 1] bcast_S1x32_S100000x32_0_1),
    StableHlo.TRef.binary (StableHlo.TRef.of main_v53 : StableHlo.TRef sig ⟨S100000x32, .f32⟩) main_call0.v4 main_call0.v5 subf,
    StableHlo.TRef.binary main_call0.v5 main_call0.v5 main_call0.v6 mulf,
    StableHlo.TRef.unary (StableHlo.TRef.of main_c_13 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b) ]

/-- The buffers that chunk's operations write, in order. -/
abbrev ops_c03_W : List (Ref sig .tc) := [main_cst_11, main_v54, main_cst_12, main_v55, main_v56, main_c_13, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v57]

set_option maxRecDepth 8192 in
theorem ops_c03_sub : (ops_c03 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- @main's operations 96 … 118 of 434 (statements 75 … 97, in window main_part1). -/
abbrev ops_c04 : List (HloOp τ sig (Elt F)) :=
  [ StableHlo.unary main_v56 main_v58 (broadcastInDim S1x32 ![1] bcast_S32_S1x32_1 : (⟨S32, .f32⟩ : BufTy).Contents (Elt F) → (⟨S1x32, .f32⟩ : BufTy).Contents (Elt F)),
    StableHlo.unary main_v58 main_v59 (broadcastInDim S100000x32 ![0, 1] bcast_S1x32_S100000x32_0_1 : (⟨S1x32, .f32⟩ : BufTy).Contents (Elt F) → (⟨S100000x32, .f32⟩ : BufTy).Contents (Elt F)),
    StableHlo.binary main_v53 main_v59 main_v60 (subf : (⟨S100000x32, .f32⟩ : BufTy).Contents (Elt F) → (⟨S100000x32, .f32⟩ : BufTy).Contents (Elt F) → (⟨S100000x32, .f32⟩ : BufTy).Contents (Elt F)),
    StableHlo.nullary main_cst_14 (constant S_ .f32 0x3727C5AC#32),
    StableHlo.unary main_cst_14 main_v61 (broadcastInDim S32 ![] bcast_S_S32 : (⟨S_, .f32⟩ : BufTy).Contents (Elt F) → (⟨S32, .f32⟩ : BufTy).Contents (Elt F)),
    StableHlo.binary main_v57 main_v61 main_v62 (addf : (⟨S32, .f32⟩ : BufTy).Contents (Elt F) → (⟨S32, .f32⟩ : BufTy).Contents (Elt F) → (⟨S32, .f32⟩ : BufTy).Contents (Elt F)),
    StableHlo.unary main_v62 main_v63 (Host.rsqrt : (⟨S32, .f32⟩ : BufTy).Contents (Elt F) → (⟨S32, .f32⟩ : BufTy).Contents (Elt F)),
    StableHlo.unary main_v63 main_v64 (broadcastInDim S1x32 ![1] bcast_S32_S1x32_1 : (⟨S32, .f32⟩ : BufTy).Contents (Elt F) → (⟨S1x32, .f32⟩ : BufTy).Contents (Elt F)),
    StableHlo.unary main_v64 main_v65 (broadcastInDim S100000x32 ![0, 1] bcast_S1x32_S100000x32_0_1 : (⟨S1x32, .f32⟩ : BufTy).Contents (Elt F) → (⟨S100000x32, .f32⟩ : BufTy).Contents (Elt F)),
    StableHlo.binary main_v60 main_v65 main_v66 (mulf : (⟨S100000x32, .f32⟩ : BufTy).Contents (Elt F) → (⟨S100000x32, .f32⟩ : BufTy).Contents (Elt F) → (⟨S100000x32, .f32⟩ : BufTy).Contents (Elt F)),
    StableHlo.unary main_arg4 main_v67 (broadcastInDim S1x32 ![1] bcast_S32_S1x32_1 : (⟨S32, .f32⟩ : BufTy).Contents (Elt F) → (⟨S1x32, .f32⟩ : BufTy).Contents (Elt F)),
    StableHlo.unary main_v67 main_v68 (broadcastInDim S100000x32 ![0, 1] bcast_S1x32_S100000x32_0_1 : (⟨S1x32, .f32⟩ : BufTy).Contents (Elt F) → (⟨S100000x32, .f32⟩ : BufTy).Contents (Elt F)),
    StableHlo.binary main_v66 main_v68 main_v69 (mulf : (⟨S100000x32, .f32⟩ : BufTy).Contents (Elt F) → (⟨S100000x32, .f32⟩ : BufTy).Contents (Elt F) → (⟨S100000x32, .f32⟩ : BufTy).Contents (Elt F)),
    StableHlo.unary main_arg5 main_v70 (broadcastInDim S1x32 ![1] bcast_S32_S1x32_1 : (⟨S32, .f32⟩ : BufTy).Contents (Elt F) → (⟨S1x32, .f32⟩ : BufTy).Contents (Elt F)),
    StableHlo.unary main_v70 main_v71 (broadcastInDim S100000x32 ![0, 1] bcast_S1x32_S100000x32_0_1 : (⟨S1x32, .f32⟩ : BufTy).Contents (Elt F) → (⟨S100000x32, .f32⟩ : BufTy).Contents (Elt F)),
    StableHlo.binary main_v69 main_v71 main_v72 (addf : (⟨S100000x32, .f32⟩ : BufTy).Contents (Elt F) → (⟨S100000x32, .f32⟩ : BufTy).Contents (Elt F) → (⟨S100000x32, .f32⟩ : BufTy).Contents (Elt F)),
    StableHlo.nullary main_cst_15 (constant S_ .f32 0x00000000#32),
    StableHlo.unary main_cst_15 main_v73 (broadcastInDim S100000x32 ![] bcast_S_S100000x32 : (⟨S_, .f32⟩ : BufTy).Contents (Elt F) → (⟨S100000x32, .f32⟩ : BufTy).Contents (Elt F)),
    StableHlo.binary main_v72 main_v73 main_v74 (cmpf .oge : (⟨S100000x32, .f32⟩ : BufTy).Contents (Elt F) → (⟨S100000x32, .f32⟩ : BufTy).Contents (Elt F) → (⟨S100000x32, .i1⟩ : BufTy).Contents (Elt F)),
    StableHlo.nullary main_cst_16 (constant S_ .f32 0x3C23D70A#32),
    StableHlo.unary main_cst_16 main_v75 (broadcastInDim S100000x32 ![] bcast_S_S100000x32 : (⟨S_, .f32⟩ : BufTy).Contents (Elt F) → (⟨S100000x32, .f32⟩ : BufTy).Contents (Elt F)),
    StableHlo.binary main_v75 main_v72 main_v76 (mulf : (⟨S100000x32, .f32⟩ : BufTy).Contents (Elt F) → (⟨S100000x32, .f32⟩ : BufTy).Contents (Elt F) → (⟨S100000x32, .f32⟩ : BufTy).Contents (Elt F)),
    StableHlo.TRef.ternary (StableHlo.TRef.of main_v74 : StableHlo.TRef sig ⟨S100000x32, .i1⟩) (StableHlo.TRef.of main_v72 : StableHlo.TRef sig ⟨S100000x32, .f32⟩) (StableHlo.TRef.of main_v76 : StableHlo.TRef sig ⟨S100000x32, .f32⟩) main_call1.v0 select ]

/-- The buffers that chunk's operations write, in order. -/
abbrev ops_c04_W : List (Ref sig .tc) := [main_v58, main_v59, main_v60, main_cst_14, main_v61, main_v62, main_v63, main_v64, main_v65, main_v66, main_v67, main_v68, main_v69, main_v70, main_v71, main_v72, main_cst_15, main_v73, main_v74, main_cst_16, main_v75, main_v76, main_v77]

set_option maxRecDepth 8192 in
theorem ops_c04_sub : (ops_c04 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- @main's operations 119 … 141 of 434 (statements 98 … 120, in window main_part1). -/
abbrev ops_c05 : List (HloOp τ sig (Elt F)) :=
  [ StableHlo.binary main_v77 main_arg6 main_v78 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    StableHlo.nullary main_c_17 (constantI S_ 32 0#32),
    StableHlo.unary main_c_17 main_v79 (broadcastInDim S1700000 ![] bcast_S_S1700000 : (⟨S_, .i32⟩ : BufTy).Contents (Elt F) → (⟨S1700000, .i32⟩ : BufTy).Contents (Elt F)),
    StableHlo.binary main_v3 main_v79 main_v80 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v81 (broadcastInDim S1700000 ![] bcast_S_S1700000 : (⟨S_, .i32⟩ : BufTy).Contents (Elt F) → (⟨S1700000, .i32⟩ : BufTy).Contents (Elt F)),
    StableHlo.binary main_v3 main_v81 main_v82 (addi : (⟨S1700000, .i32⟩ : BufTy).Contents (Elt F) → (⟨S1700000, .i32⟩ : BufTy).Contents (Elt F) → (⟨S1700000, .i32⟩ : BufTy).Contents (Elt F)),
    StableHlo.ternary main_v80 main_v82 main_v3 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v83 main_v84 (broadcastInDim S1700000x1 ![0] bcast_S1700000_S1700000x1_0 : (⟨S1700000, .i32⟩ : BufTy).Contents (Elt F) → (⟨S1700000x1, .i32⟩ : BufTy).Contents (Elt F)),
    StableHlo.binary main_v78 main_v84 main_v85 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v31 main_v86 (broadcastInDim S1700000x1 ![0] bcast_S1700000_S1700000x1_0 : (⟨S1700000, .f32⟩ : BufTy).Contents (Elt F) → (⟨S1700000x1, .f32⟩ : BufTy).Contents (Elt F)),
    StableHlo.unary main_v86 main_v87 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v85 main_v87 main_v88 (mulf : (⟨S1700000x128, .f32⟩ : BufTy).Contents (Elt F) → (⟨S1700000x128, .f32⟩ : BufTy).Contents (Elt F) → (⟨S1700000x128, .f32⟩ : BufTy).Contents (Elt F)),
    StableHlo.nullary main_cst_19 (constant S_ .f32 0x00000000#32),
    StableHlo.unary main_cst_19 main_v89 (broadcastInDim S100000x128 ![] bcast_S_S100000x128 : (⟨S_, .f32⟩ : BufTy).Contents (Elt F) → (⟨S100000x128, .f32⟩ : BufTy).Contents (Elt F)),
    StableHlo.nullary main_c_20 (constantI S_ 32 0#32),
    StableHlo.unary main_c_20 main_v90 (broadcastInDim S1700000 ![] bcast_S_S1700000 : (⟨S_, .i32⟩ : BufTy).Contents (Elt F) → (⟨S1700000, .i32⟩ : BufTy).Contents (Elt F)),
    StableHlo.binary main_v6 main_v90 main_v91 (cmpi .slt : (⟨S1700000, .i32⟩ : BufTy).Contents (Elt F) → (⟨S1700000, .i32⟩ : BufTy).Contents (Elt F) → (⟨S1700000, .i1⟩ : BufTy).Contents (Elt F)),
    StableHlo.nullary main_c_21 (constantI S_ 32 100000#32),
    StableHlo.unary main_c_21 main_v92 (broadcastInDim S1700000 ![] bcast_S_S1700000 : (⟨S_, .i32⟩ : BufTy).Contents (Elt F) → (⟨S1700000, .i32⟩ : BufTy).Contents (Elt F)),
    StableHlo.binary main_v6 main_v92 main_v93 (addi : (⟨S1700000, .i32⟩ : BufTy).Contents (Elt F) → (⟨S1700000, .i32⟩ : BufTy).Contents (Elt F) → (⟨S1700000, .i32⟩ : BufTy).Contents (Elt F)),
    StableHlo.ternary main_v91 main_v93 main_v6 main_v94 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v94 main_v95 (broadcastInDim S1700000x1 ![0] bcast_S1700000_S1700000x1_0 : (⟨S1700000, .i32⟩ : BufTy).Contents (Elt F) → (⟨S1700000x1, .i32⟩ : BufTy).Contents (Elt F)) ]

/-- The buffers that chunk's operations write, in order. -/
abbrev ops_c05_W : List (Ref sig .tc) := [main_v78, main_c_17, main_v79, main_v80, main_c_18, main_v81, main_v82, main_v83, main_v84, main_v85, main_v86, main_v87, main_v88, main_cst_19, main_v89, main_c_20, main_v90, main_v91, main_c_21, main_v92, main_v93, main_v94, main_v95]

set_option maxRecDepth 8192 in
theorem ops_c05_sub : (ops_c05 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub ..⟩

/-- @main's operations 142 … 145 of 434 (statements 121 … 124, in window main_part2). -/
abbrev ops_c06 : List (HloOp τ sig (Elt F)) :=
  [ StableHlo.ternary main_v89 main_v95 main_v88 main_v96 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg7 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v98 main_v99 (addf : (⟨S100000x128, .f32⟩ : BufTy).Contents (Elt F) → (⟨S100000x128, .f32⟩ : BufTy).Contents (Elt F) → (⟨S100000x128, .f32⟩ : BufTy).Contents (Elt F)) ]

/-- The buffers that chunk's operations write, in order. -/
abbrev ops_c06_W : List (Ref sig .tc) := [main_v96, main_v97, main_v98, main_v99]

set_option maxRecDepth 8192 in
theorem ops_c06_sub : (ops_c06 : List (HloOp τ sig (Elt F))).Forall fun op => op.bufs ⊆ tcRefs τ sig :=
  ⟨ternary_bufs_sub .., unary_bufs_sub .., unary_bufs_sub .., binary_bufs_sub ..⟩

/-- @main's operations 146 … 173 of 434 (statements 125 … 131, in window main_part2). -/
abbrev ops_c07 : List (HloOp τ sig (Elt F)) :=
  [ StableHlo.nullary main_cst_22 (constant S_ .f32 0x00000000#32),
    StableHlo.binary main_v99 main_cst_22 main_v100 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_23 (constant S_ .f32 0x47C35000#32),
    StableHlo.unary main_cst_23 main_v101 (broadcastInDim S128 ![] bcast_S_S128 : (⟨S_, .f32⟩ : BufTy).Contents (Elt F) → (⟨S128, .f32⟩ : BufTy).Contents (Elt F)),
    StableHlo.binary main_v100 main_v101 main_v102 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call2.cst (constant S_ .f32 0x00000000#32),
    StableHlo.TRef.binary (StableHlo.TRef.of main_v99 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of main_v99 : StableHlo.TRef sig ⟨S100000x128, .f32⟩) main_call2.v4 main_call2.v5 subf,
    StableHlo.TRef.binary main_call2.v5 main_call2.v5 main_call2.v6 mulf,
    StableHlo.TRef.unary (StableHlo.TRef.of main_c_24 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- The buffers that chunk's operations write, in order. -/
abbrev ops_c07_W : List (Ref sig .tc) := [main_cst_22, main_v100, main_cst_23, main_v101, main_v102, main_c_24, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v103]

set_option maxRecDepth 8192 in
theorem ops_c07_sub : (ops_c07 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- @main's operations 174 … 196 of 434 (statements 132 … 154, in window main_part2). -/
abbrev ops_c08 : List (HloOp τ sig (Elt F)) :=
  [ StableHlo.unary main_v102 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S100000x128 ![0, 1] bcast_S1x128_S100000x128_0_1 : (⟨S1x128, .f32⟩ : BufTy).Contents (Elt F) → (⟨S100000x128, .f32⟩ : BufTy).Contents (Elt F)),
    StableHlo.binary main_v99 main_v105 main_v106 (subf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3727C5AC#32),
    StableHlo.unary main_cst_25 main_v107 (broadcastInDim S128 ![] bcast_S_S128 : (⟨S_, .f32⟩ : BufTy).Contents (Elt F) → (⟨S128, .f32⟩ : BufTy).Contents (Elt F)),
    StableHlo.binary main_v103 main_v107 main_v108 (addf : (⟨S128, .f32⟩ : BufTy).Contents (Elt F) → (⟨S128, .f32⟩ : BufTy).Contents (Elt F) → (⟨S128, .f32⟩ : BufTy).Contents (Elt F)),
    StableHlo.unary main_v108 main_v109 (Host.rsqrt : (⟨S128, .f32⟩ : BufTy).Contents (Elt F) → (⟨S128, .f32⟩ : BufTy).Contents (Elt F)),
    StableHlo.unary main_v109 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S100000x128 ![0, 1] bcast_S1x128_S100000x128_0_1 : (⟨S1x128, .f32⟩ : BufTy).Contents (Elt F) → (⟨S100000x128, .f32⟩ : BufTy).Contents (Elt F)),
    StableHlo.binary main_v106 main_v111 main_v112 (mulf : (⟨S100000x128, .f32⟩ : BufTy).Contents (Elt F) → (⟨S100000x128, .f32⟩ : BufTy).Contents (Elt F) → (⟨S100000x128, .f32⟩ : BufTy).Contents (Elt F)),
    StableHlo.unary main_arg8 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S100000x128 ![0, 1] bcast_S1x128_S100000x128_0_1 : (⟨S1x128, .f32⟩ : BufTy).Contents (Elt F) → (⟨S100000x128, .f32⟩ : BufTy).Contents (Elt F)),
    StableHlo.binary main_v112 main_v114 main_v115 (mulf : (⟨S100000x128, .f32⟩ : BufTy).Contents (Elt F) → (⟨S100000x128, .f32⟩ : BufTy).Contents (Elt F) → (⟨S100000x128, .f32⟩ : BufTy).Contents (Elt F)),
    StableHlo.unary main_arg9 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v115 main_v117 main_v118 (addf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x00000000#32),
    StableHlo.unary main_cst_26 main_v119 (broadcastInDim S100000x128 ![] bcast_S_S100000x128 : (⟨S_, .f32⟩ : BufTy).Contents (Elt F) → (⟨S100000x128, .f32⟩ : BufTy).Contents (Elt F)),
    StableHlo.binary main_v118 main_v119 main_v120 (cmpf .oge : (⟨S100000x128, .f32⟩ : BufTy).Contents (Elt F) → (⟨S100000x128, .f32⟩ : BufTy).Contents (Elt F) → (⟨S100000x128, .i1⟩ : BufTy).Contents (Elt F)),
    StableHlo.nullary main_cst_27 (constant S_ .f32 0x3C23D70A#32),
    StableHlo.unary main_cst_27 main_v121 (broadcastInDim S100000x128 ![] bcast_S_S100000x128 : (⟨S_, .f32⟩ : BufTy).Contents (Elt F) → (⟨S100000x128, .f32⟩ : BufTy).Contents (Elt F)),
    StableHlo.binary main_v121 main_v118 main_v122 (mulf : (⟨S100000x128, .f32⟩ : BufTy).Contents (Elt F) → (⟨S100000x128, .f32⟩ : BufTy).Contents (Elt F) → (⟨S100000x128, .f32⟩ : BufTy).Contents (Elt F)),
    StableHlo.TRef.ternary (StableHlo.TRef.of main_v120 : StableHlo.TRef sig ⟨S100000x128, .i1⟩) (StableHlo.TRef.of main_v118 : StableHlo.TRef sig ⟨S100000x128, .f32⟩) (StableHlo.TRef.of main_v122 : StableHlo.TRef sig ⟨S100000x128, .f32⟩) main_call3.v0 select ]

/-- The buffers that chunk's operations write, in order. -/
abbrev ops_c08_W : List (Ref sig .tc) := [main_v104, main_v105, main_v106, main_cst_25, main_v107, main_v108, main_v109, main_v110, main_v111, main_v112, main_v113, main_v114, main_v115, main_v116, main_v117, main_v118, main_cst_26, main_v119, main_v120, main_cst_27, main_v121, main_v122, main_v123]

set_option maxRecDepth 8192 in
theorem ops_c08_sub : (ops_c08 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- @main's operations 197 … 222 of 434 (statements 155 … 180, in window main_part2). -/
abbrev ops_c09 : List (HloOp τ sig (Elt F)) :=
  [ StableHlo.binary main_v123 main_arg10 main_v124 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_28 (constantI S_ 32 0#32),
    StableHlo.unary main_c_28 main_v125 (broadcastInDim S1700000 ![] bcast_S_S1700000 : (⟨S_, .i32⟩ : BufTy).Contents (Elt F) → (⟨S1700000, .i32⟩ : BufTy).Contents (Elt F)),
    StableHlo.binary main_v3 main_v125 main_v126 (cmpi .slt : (⟨S1700000, .i32⟩ : BufTy).Contents (Elt F) → (⟨S1700000, .i32⟩ : BufTy).Contents (Elt F) → (⟨S1700000, .i1⟩ : BufTy).Contents (Elt F)),
    StableHlo.nullary main_c_29 (constantI S_ 32 100000#32),
    StableHlo.unary main_c_29 main_v127 (broadcastInDim S1700000 ![] bcast_S_S1700000 : (⟨S_, .i32⟩ : BufTy).Contents (Elt F) → (⟨S1700000, .i32⟩ : BufTy).Contents (Elt F)),
    StableHlo.binary main_v3 main_v127 main_v128 (addi : (⟨S1700000, .i32⟩ : BufTy).Contents (Elt F) → (⟨S1700000, .i32⟩ : BufTy).Contents (Elt F) → (⟨S1700000, .i32⟩ : BufTy).Contents (Elt F)),
    StableHlo.ternary main_v126 main_v128 main_v3 main_v129 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v129 main_v130 (broadcastInDim S1700000x1 ![0] bcast_S1700000_S1700000x1_0 : (⟨S1700000, .i32⟩ : BufTy).Contents (Elt F) → (⟨S1700000x1, .i32⟩ : BufTy).Contents (Elt F)),
    StableHlo.binary main_v124 main_v130 main_v131 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v31 main_v132 (broadcastInDim S1700000x1 ![0] bcast_S1700000_S1700000x1_0 : (⟨S1700000, .f32⟩ : BufTy).Contents (Elt F) → (⟨S1700000x1, .f32⟩ : BufTy).Contents (Elt F)),
    StableHlo.unary main_v132 main_v133 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v131 main_v133 main_v134 (mulf : (⟨S1700000x128, .f32⟩ : BufTy).Contents (Elt F) → (⟨S1700000x128, .f32⟩ : BufTy).Contents (Elt F) → (⟨S1700000x128, .f32⟩ : BufTy).Contents (Elt F)),
    StableHlo.nullary main_cst_30 (constant S_ .f32 0x00000000#32),
    StableHlo.unary main_cst_30 main_v135 (broadcastInDim S100000x128 ![] bcast_S_S100000x128 : (⟨S_, .f32⟩ : BufTy).Contents (Elt F) → (⟨S100000x128, .f32⟩ : BufTy).Contents (Elt F)),
    StableHlo.nullary main_c_31 (constantI S_ 32 0#32),
    StableHlo.unary main_c_31 main_v136 (broadcastInDim S1700000 ![] bcast_S_S1700000 : (⟨S_, .i32⟩ : BufTy).Contents (Elt F) → (⟨S1700000, .i32⟩ : BufTy).Contents (Elt F)),
    StableHlo.binary main_v6 main_v136 main_v137 (cmpi .slt : (⟨S1700000, .i32⟩ : BufTy).Contents (Elt F) → (⟨S1700000, .i32⟩ : BufTy).Contents (Elt F) → (⟨S1700000, .i1⟩ : BufTy).Contents (Elt F)),
    StableHlo.nullary main_c_32 (constantI S_ 32 100000#32),
    StableHlo.unary main_c_32 main_v138 (broadcastInDim S1700000 ![] bcast_S_S1700000 : (⟨S_, .i32⟩ : BufTy).Contents (Elt F) → (⟨S1700000, .i32⟩ : BufTy).Contents (Elt F)),
    StableHlo.binary main_v6 main_v138 main_v139 (addi : (⟨S1700000, .i32⟩ : BufTy).Contents (Elt F) → (⟨S1700000, .i32⟩ : BufTy).Contents (Elt F) → (⟨S1700000, .i32⟩ : BufTy).Contents (Elt F)),
    StableHlo.ternary main_v137 main_v139 main_v6 main_v140 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v140 main_v141 (broadcastInDim S1700000x1 ![0] bcast_S1700000_S1700000x1_0 : (⟨S1700000, .i32⟩ : BufTy).Contents (Elt F) → (⟨S1700000x1, .i32⟩ : BufTy).Contents (Elt F)),
    StableHlo.ternary main_v135 main_v141 main_v134 main_v142 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg11 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)) ]

/-- The buffers that chunk's operations write, in order. -/
abbrev ops_c09_W : List (Ref sig .tc) := [main_v124, main_c_28, main_v125, main_v126, main_c_29, main_v127, main_v128, main_v129, main_v130, main_v131, main_v132, main_v133, main_v134, main_cst_30, main_v135, main_c_31, main_v136, main_v137, main_c_32, main_v138, main_v139, main_v140, main_v141, main_v142, main_v143, main_v144]

set_option maxRecDepth 8192 in
theorem ops_c09_sub : (ops_c09 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub ..⟩

/-- @main's operations 223 … 223 of 434 (statements 181 … 181, in window main_part3). -/
abbrev ops_c10 : List (HloOp τ sig (Elt F)) :=
  [ StableHlo.binary main_v142 main_v144 main_v145 (addf : (⟨S100000x128, .f32⟩ : BufTy).Contents (Elt F) → (⟨S100000x128, .f32⟩ : BufTy).Contents (Elt F) → (⟨S100000x128, .f32⟩ : BufTy).Contents (Elt F)) ]

/-- The buffers that chunk's operations write, in order. -/
abbrev ops_c10_W : List (Ref sig .tc) := [main_v145]

set_option maxRecDepth 8192 in
theorem ops_c10_sub : (ops_c10 : List (HloOp τ sig (Elt F))).Forall fun op => op.bufs ⊆ tcRefs τ sig :=
  binary_bufs_sub ..

/-- @main's operations 224 … 251 of 434 (statements 182 … 188, in window main_part3). -/
abbrev ops_c11 : List (HloOp τ sig (Elt F)) :=
  [ StableHlo.nullary main_cst_33 (constant S_ .f32 0x00000000#32),
    StableHlo.binary main_v145 main_cst_33 main_v146 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_34 (constant S_ .f32 0x47C35000#32),
    StableHlo.unary main_cst_34 main_v147 (broadcastInDim S128 ![] bcast_S_S128 : (⟨S_, .f32⟩ : BufTy).Contents (Elt F) → (⟨S128, .f32⟩ : BufTy).Contents (Elt F)),
    StableHlo.binary main_v146 main_v147 main_v148 (Host.divf : (⟨S128, .f32⟩ : BufTy).Contents (Elt F) → (⟨S128, .f32⟩ : BufTy).Contents (Elt F) → (⟨S128, .f32⟩ : BufTy).Contents (Elt F)),
    StableHlo.nullary main_c_35 (constantI S_ 32 0#32),
    StableHlo.TRef.nullary main_call4.cst (constant S_ .f32 0x00000000#32),
    StableHlo.TRef.binary (StableHlo.TRef.of main_v145 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (StableHlo.TRef.of main_v145 : StableHlo.TRef sig ⟨S100000x128, .f32⟩) main_call4.v4 main_call4.v5 subf,
    StableHlo.TRef.binary main_call4.v5 main_call4.v5 main_call4.v6 mulf,
    StableHlo.TRef.unary (StableHlo.TRef.of main_c_35 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- The buffers that chunk's operations write, in order. -/
abbrev ops_c11_W : List (Ref sig .tc) := [main_cst_33, main_v146, main_cst_34, main_v147, main_v148, main_c_35, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v149]

set_option maxRecDepth 8192 in
theorem ops_c11_sub : (ops_c11 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- @main's operations 252 … 274 of 434 (statements 189 … 211, in window main_part3). -/
abbrev ops_c12 : List (HloOp τ sig (Elt F)) :=
  [ StableHlo.unary main_v148 main_v150 (broadcastInDim S1x128 ![1] bcast_S128_S1x128_1 : (⟨S128, .f32⟩ : BufTy).Contents (Elt F) → (⟨S1x128, .f32⟩ : BufTy).Contents (Elt F)),
    StableHlo.unary main_v150 main_v151 (broadcastInDim S100000x128 ![0, 1] bcast_S1x128_S100000x128_0_1 : (⟨S1x128, .f32⟩ : BufTy).Contents (Elt F) → (⟨S100000x128, .f32⟩ : BufTy).Contents (Elt F)),
    StableHlo.binary main_v145 main_v151 main_v152 (subf : (⟨S100000x128, .f32⟩ : BufTy).Contents (Elt F) → (⟨S100000x128, .f32⟩ : BufTy).Contents (Elt F) → (⟨S100000x128, .f32⟩ : BufTy).Contents (Elt F)),
    StableHlo.nullary main_cst_36 (constant S_ .f32 0x3727C5AC#32),
    StableHlo.unary main_cst_36 main_v153 (broadcastInDim S128 ![] bcast_S_S128 : (⟨S_, .f32⟩ : BufTy).Contents (Elt F) → (⟨S128, .f32⟩ : BufTy).Contents (Elt F)),
    StableHlo.binary main_v149 main_v153 main_v154 (addf : (⟨S128, .f32⟩ : BufTy).Contents (Elt F) → (⟨S128, .f32⟩ : BufTy).Contents (Elt F) → (⟨S128, .f32⟩ : BufTy).Contents (Elt F)),
    StableHlo.unary main_v154 main_v155 (Host.rsqrt : (⟨S128, .f32⟩ : BufTy).Contents (Elt F) → (⟨S128, .f32⟩ : BufTy).Contents (Elt F)),
    StableHlo.unary main_v155 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S100000x128 ![0, 1] bcast_S1x128_S100000x128_0_1 : (⟨S1x128, .f32⟩ : BufTy).Contents (Elt F) → (⟨S100000x128, .f32⟩ : BufTy).Contents (Elt F)),
    StableHlo.binary main_v152 main_v157 main_v158 (mulf : (⟨S100000x128, .f32⟩ : BufTy).Contents (Elt F) → (⟨S100000x128, .f32⟩ : BufTy).Contents (Elt F) → (⟨S100000x128, .f32⟩ : BufTy).Contents (Elt F)),
    StableHlo.unary main_arg12 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S100000x128 ![0, 1] bcast_S1x128_S100000x128_0_1 : (⟨S1x128, .f32⟩ : BufTy).Contents (Elt F) → (⟨S100000x128, .f32⟩ : BufTy).Contents (Elt F)),
    StableHlo.binary main_v158 main_v160 main_v161 (mulf : (⟨S100000x128, .f32⟩ : BufTy).Contents (Elt F) → (⟨S100000x128, .f32⟩ : BufTy).Contents (Elt F) → (⟨S100000x128, .f32⟩ : BufTy).Contents (Elt F)),
    StableHlo.unary main_arg13 main_v162 (broadcastInDim S1x128 ![1] bcast_S128_S1x128_1 : (⟨S128, .f32⟩ : BufTy).Contents (Elt F) → (⟨S1x128, .f32⟩ : BufTy).Contents (Elt F)),
    StableHlo.unary main_v162 main_v163 (broadcastInDim S100000x128 ![0, 1] bcast_S1x128_S100000x128_0_1 : (⟨S1x128, .f32⟩ : BufTy).Contents (Elt F) → (⟨S100000x128, .f32⟩ : BufTy).Contents (Elt F)),
    StableHlo.binary main_v161 main_v163 main_v164 (addf : (⟨S100000x128, .f32⟩ : BufTy).Contents (Elt F) → (⟨S100000x128, .f32⟩ : BufTy).Contents (Elt F) → (⟨S100000x128, .f32⟩ : BufTy).Contents (Elt F)),
    StableHlo.nullary main_cst_37 (constant S_ .f32 0x00000000#32),
    StableHlo.unary main_cst_37 main_v165 (broadcastInDim S100000x128 ![] bcast_S_S100000x128 : (⟨S_, .f32⟩ : BufTy).Contents (Elt F) → (⟨S100000x128, .f32⟩ : BufTy).Contents (Elt F)),
    StableHlo.binary main_v164 main_v165 main_v166 (cmpf .oge : (⟨S100000x128, .f32⟩ : BufTy).Contents (Elt F) → (⟨S100000x128, .f32⟩ : BufTy).Contents (Elt F) → (⟨S100000x128, .i1⟩ : BufTy).Contents (Elt F)),
    StableHlo.nullary main_cst_38 (constant S_ .f32 0x3C23D70A#32),
    StableHlo.unary main_cst_38 main_v167 (broadcastInDim S100000x128 ![] bcast_S_S100000x128 : (⟨S_, .f32⟩ : BufTy).Contents (Elt F) → (⟨S100000x128, .f32⟩ : BufTy).Contents (Elt F)),
    StableHlo.binary main_v167 main_v164 main_v168 (mulf : (⟨S100000x128, .f32⟩ : BufTy).Contents (Elt F) → (⟨S100000x128, .f32⟩ : BufTy).Contents (Elt F) → (⟨S100000x128, .f32⟩ : BufTy).Contents (Elt F)),
    StableHlo.TRef.ternary (StableHlo.TRef.of main_v166 : StableHlo.TRef sig ⟨S100000x128, .i1⟩) (StableHlo.TRef.of main_v164 : StableHlo.TRef sig ⟨S100000x128, .f32⟩) (StableHlo.TRef.of main_v168 : StableHlo.TRef sig ⟨S100000x128, .f32⟩) main_call5.v0 select ]

/-- The buffers that chunk's operations write, in order. -/
abbrev ops_c12_W : List (Ref sig .tc) := [main_v150, main_v151, main_v152, main_cst_36, main_v153, main_v154, main_v155, main_v156, main_v157, main_v158, main_v159, main_v160, main_v161, main_v162, main_v163, main_v164, main_cst_37, main_v165, main_v166, main_cst_38, main_v167, main_v168, main_v169]

set_option maxRecDepth 8192 in
theorem ops_c12_sub : (ops_c12 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- @main's operations 275 … 301 of 434 (statements 212 … 238, in window main_part3). -/
abbrev ops_c13 : List (HloOp τ sig (Elt F)) :=
  [ StableHlo.binary main_v169 main_arg14 main_v170 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.nullary main_c_39 (constantI S_ 32 0#32),
    StableHlo.unary main_c_39 main_v171 (broadcastInDim S1700000 ![] bcast_S_S1700000 : (⟨S_, .i32⟩ : BufTy).Contents (Elt F) → (⟨S1700000, .i32⟩ : BufTy).Contents (Elt F)),
    StableHlo.binary main_v3 main_v171 main_v172 (cmpi .slt : (⟨S1700000, .i32⟩ : BufTy).Contents (Elt F) → (⟨S1700000, .i32⟩ : BufTy).Contents (Elt F) → (⟨S1700000, .i1⟩ : BufTy).Contents (Elt F)),
    StableHlo.nullary main_c_40 (constantI S_ 32 100000#32),
    StableHlo.unary main_c_40 main_v173 (broadcastInDim S1700000 ![] bcast_S_S1700000 : (⟨S_, .i32⟩ : BufTy).Contents (Elt F) → (⟨S1700000, .i32⟩ : BufTy).Contents (Elt F)),
    StableHlo.binary main_v3 main_v173 main_v174 (addi : (⟨S1700000, .i32⟩ : BufTy).Contents (Elt F) → (⟨S1700000, .i32⟩ : BufTy).Contents (Elt F) → (⟨S1700000, .i32⟩ : BufTy).Contents (Elt F)),
    StableHlo.ternary main_v172 main_v174 main_v3 main_v175 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v175 main_v176 (broadcastInDim S1700000x1 ![0] bcast_S1700000_S1700000x1_0 : (⟨S1700000, .i32⟩ : BufTy).Contents (Elt F) → (⟨S1700000x1, .i32⟩ : BufTy).Contents (Elt F)),
    StableHlo.binary main_v170 main_v176 main_v177 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v31 main_v178 (broadcastInDim S1700000x1 ![0] bcast_S1700000_S1700000x1_0 : (⟨S1700000, .f32⟩ : BufTy).Contents (Elt F) → (⟨S1700000x1, .f32⟩ : BufTy).Contents (Elt F)),
    StableHlo.unary main_v178 main_v179 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v177 main_v179 main_v180 (mulf : (⟨S1700000x32, .f32⟩ : BufTy).Contents (Elt F) → (⟨S1700000x32, .f32⟩ : BufTy).Contents (Elt F) → (⟨S1700000x32, .f32⟩ : BufTy).Contents (Elt F)),
    StableHlo.nullary main_cst_41 (constant S_ .f32 0x00000000#32),
    StableHlo.unary main_cst_41 main_v181 (broadcastInDim S100000x32 ![] bcast_S_S100000x32 : (⟨S_, .f32⟩ : BufTy).Contents (Elt F) → (⟨S100000x32, .f32⟩ : BufTy).Contents (Elt F)),
    StableHlo.nullary main_c_42 (constantI S_ 32 0#32),
    StableHlo.unary main_c_42 main_v182 (broadcastInDim S1700000 ![] bcast_S_S1700000 : (⟨S_, .i32⟩ : BufTy).Contents (Elt F) → (⟨S1700000, .i32⟩ : BufTy).Contents (Elt F)),
    StableHlo.binary main_v6 main_v182 main_v183 (cmpi .slt : (⟨S1700000, .i32⟩ : BufTy).Contents (Elt F) → (⟨S1700000, .i32⟩ : BufTy).Contents (Elt F) → (⟨S1700000, .i1⟩ : BufTy).Contents (Elt F)),
    StableHlo.nullary main_c_43 (constantI S_ 32 100000#32),
    StableHlo.unary main_c_43 main_v184 (broadcastInDim S1700000 ![] bcast_S_S1700000 : (⟨S_, .i32⟩ : BufTy).Contents (Elt F) → (⟨S1700000, .i32⟩ : BufTy).Contents (Elt F)),
    StableHlo.binary main_v6 main_v184 main_v185 (addi : (⟨S1700000, .i32⟩ : BufTy).Contents (Elt F) → (⟨S1700000, .i32⟩ : BufTy).Contents (Elt F) → (⟨S1700000, .i32⟩ : BufTy).Contents (Elt F)),
    StableHlo.ternary main_v183 main_v185 main_v6 main_v186 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v186 main_v187 (broadcastInDim S1700000x1 ![0] bcast_S1700000_S1700000x1_0 : (⟨S1700000, .i32⟩ : BufTy).Contents (Elt F) → (⟨S1700000x1, .i32⟩ : BufTy).Contents (Elt F)),
    StableHlo.ternary main_v181 main_v187 main_v180 main_v188 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    StableHlo.unary main_arg15 main_v189 (broadcastInDim S1x32 ![1] bcast_S32_S1x32_1 : (⟨S32, .f32⟩ : BufTy).Contents (Elt F) → (⟨S1x32, .f32⟩ : BufTy).Contents (Elt F)),
    StableHlo.unary main_v189 main_v190 (broadcastInDim S100000x32 ![0, 1] bcast_S1x32_S100000x32_0_1 : (⟨S1x32, .f32⟩ : BufTy).Contents (Elt F) → (⟨S100000x32, .f32⟩ : BufTy).Contents (Elt F)),
    StableHlo.binary main_v188 main_v190 main_v191 (addf : (⟨S100000x32, .f32⟩ : BufTy).Contents (Elt F) → (⟨S100000x32, .f32⟩ : BufTy).Contents (Elt F) → (⟨S100000x32, .f32⟩ : BufTy).Contents (Elt F)) ]

/-- The buffers that chunk's operations write, in order. -/
abbrev ops_c13_W : List (Ref sig .tc) := [main_v170, main_c_39, main_v171, main_v172, main_c_40, main_v173, main_v174, main_v175, main_v176, main_v177, main_v178, main_v179, main_v180, main_cst_41, main_v181, main_c_42, main_v182, main_v183, main_c_43, main_v184, main_v185, main_v186, main_v187, main_v188, main_v189, main_v190, main_v191]

set_option maxRecDepth 8192 in
theorem ops_c13_sub : (ops_c13 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub ..⟩

/-- @main's operations 302 … 303 of 434 (statements 239 … 240, in window main_part3). -/
abbrev ops_c14 : List (HloOp τ sig (Elt F)) :=
  [ StableHlo.nullary main_cst_44 (constant S_ .f32 0x00000000#32),
    StableHlo.binary main_v191 main_cst_44 main_v192 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)) ]

/-- The buffers that chunk's operations write, in order. -/
abbrev ops_c14_W : List (Ref sig .tc) := [main_cst_44, main_v192]

set_option maxRecDepth 8192 in
theorem ops_c14_sub : (ops_c14 : List (HloOp τ sig (Elt F))).Forall fun op => op.bufs ⊆ tcRefs τ sig :=
  ⟨nullary_bufs_sub .., binary_bufs_sub ..⟩

/-- @main's operations 304 … 329 of 434 (statements 241 … 245, in window main_part4). -/
abbrev ops_c15 : List (HloOp τ sig (Elt F)) :=
  [ StableHlo.nullary main_cst_45 (constant S_ .f32 0x47C35000#32),
    StableHlo.unary main_cst_45 main_v193 (broadcastInDim S32 ![] bcast_S_S32 : (⟨S_, .f32⟩ : BufTy).Contents (Elt F) → (⟨S32, .f32⟩ : BufTy).Contents (Elt F)),
    StableHlo.binary main_v192 main_v193 main_v194 (Host.divf : (⟨S32, .f32⟩ : BufTy).Contents (Elt F) → (⟨S32, .f32⟩ : BufTy).Contents (Elt F) → (⟨S32, .f32⟩ : BufTy).Contents (Elt F)),
    StableHlo.nullary main_c_46 (constantI S_ 32 0#32),
    StableHlo.TRef.nullary main_call6.cst (constant S_ .f32 0x00000000#32),
    StableHlo.TRef.binary (StableHlo.TRef.of main_v191 : StableHlo.TRef sig ⟨S100000x32, .f32⟩) main_call6.cst main_call6.v0 (fun x v => Host.reduceAdd x v reducesTo_S100000x32_S32_d0 h_S_),
    StableHlo.TRef.unary main_call6.v0 main_call6.v1 (broadcastInDim S1x32 ![1] bcast_S32_S1x32_1),
    StableHlo.TRef.nullary main_call6.cst_0 (constant S_ .f32 0x47C35000#32),
    StableHlo.TRef.unary main_call6.cst_0 main_call6.v2 (broadcastInDim S1x32 ![] bcast_S_S1x32),
    StableHlo.TRef.binary main_call6.v1 main_call6.v2 main_call6.v3 Host.divf,
    StableHlo.TRef.unary main_call6.v3 main_call6.v4 (broadcastInDim S100000x32 ![0, 1] bcast_S1x32_S100000x32_0_1),
    StableHlo.TRef.binary (StableHlo.TRef.of main_v191 : StableHlo.TRef sig ⟨S100000x32, .f32⟩) main_call6.v4 main_call6.v5 subf,
    StableHlo.TRef.binary main_call6.v5 main_call6.v5 main_call6.v6 mulf,
    StableHlo.TRef.unary (StableHlo.TRef.of main_c_46 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x32_S32_d0 h_S_),
    StableHlo.TRef.unary main_call6.v8 main_call6.v10 (broadcastInDim S32 ![] bcast_S_S32),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S32 ![] bcast_S_S32),
    StableHlo.TRef.ternary main_call6.v12 main_call6.v11 main_call6.call0.v1 main_call6.call0.v2 (fun p a b => select (broadcastInDim S32 ![] bcast_S_S32 p) a b) ]

/-- The buffers that chunk's operations write, in order. -/
abbrev ops_c15_W : List (Ref sig .tc) := [main_cst_45, main_v193, main_v194, main_c_46, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v195]

set_option maxRecDepth 8192 in
theorem ops_c15_sub : (ops_c15 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- @main's operations 330 … 352 of 434 (statements 246 … 268, in window main_part4). -/
abbrev ops_c16 : List (HloOp τ sig (Elt F)) :=
  [ StableHlo.unary main_v194 main_v196 (broadcastInDim S1x32 ![1] bcast_S32_S1x32_1 : (⟨S32, .f32⟩ : BufTy).Contents (Elt F) → (⟨S1x32, .f32⟩ : BufTy).Contents (Elt F)),
    StableHlo.unary main_v196 main_v197 (broadcastInDim S100000x32 ![0, 1] bcast_S1x32_S100000x32_0_1 : (⟨S1x32, .f32⟩ : BufTy).Contents (Elt F) → (⟨S100000x32, .f32⟩ : BufTy).Contents (Elt F)),
    StableHlo.binary main_v191 main_v197 main_v198 (subf : (⟨S100000x32, .f32⟩ : BufTy).Contents (Elt F) → (⟨S100000x32, .f32⟩ : BufTy).Contents (Elt F) → (⟨S100000x32, .f32⟩ : BufTy).Contents (Elt F)),
    StableHlo.nullary main_cst_47 (constant S_ .f32 0x3727C5AC#32),
    StableHlo.unary main_cst_47 main_v199 (broadcastInDim S32 ![] bcast_S_S32 : (⟨S_, .f32⟩ : BufTy).Contents (Elt F) → (⟨S32, .f32⟩ : BufTy).Contents (Elt F)),
    StableHlo.binary main_v195 main_v199 main_v200 (addf : (⟨S32, .f32⟩ : BufTy).Contents (Elt F) → (⟨S32, .f32⟩ : BufTy).Contents (Elt F) → (⟨S32, .f32⟩ : BufTy).Contents (Elt F)),
    StableHlo.unary main_v200 main_v201 (Host.rsqrt : (⟨S32, .f32⟩ : BufTy).Contents (Elt F) → (⟨S32, .f32⟩ : BufTy).Contents (Elt F)),
    StableHlo.unary main_v201 main_v202 (broadcastInDim S1x32 ![1] bcast_S32_S1x32_1 : (⟨S32, .f32⟩ : BufTy).Contents (Elt F) → (⟨S1x32, .f32⟩ : BufTy).Contents (Elt F)),
    StableHlo.unary main_v202 main_v203 (broadcastInDim S100000x32 ![0, 1] bcast_S1x32_S100000x32_0_1 : (⟨S1x32, .f32⟩ : BufTy).Contents (Elt F) → (⟨S100000x32, .f32⟩ : BufTy).Contents (Elt F)),
    StableHlo.binary main_v198 main_v203 main_v204 (mulf : (⟨S100000x32, .f32⟩ : BufTy).Contents (Elt F) → (⟨S100000x32, .f32⟩ : BufTy).Contents (Elt F) → (⟨S100000x32, .f32⟩ : BufTy).Contents (Elt F)),
    StableHlo.unary main_arg16 main_v205 (broadcastInDim S1x32 ![1] bcast_S32_S1x32_1 : (⟨S32, .f32⟩ : BufTy).Contents (Elt F) → (⟨S1x32, .f32⟩ : BufTy).Contents (Elt F)),
    StableHlo.unary main_v205 main_v206 (broadcastInDim S100000x32 ![0, 1] bcast_S1x32_S100000x32_0_1 : (⟨S1x32, .f32⟩ : BufTy).Contents (Elt F) → (⟨S100000x32, .f32⟩ : BufTy).Contents (Elt F)),
    StableHlo.binary main_v204 main_v206 main_v207 (mulf : (⟨S100000x32, .f32⟩ : BufTy).Contents (Elt F) → (⟨S100000x32, .f32⟩ : BufTy).Contents (Elt F) → (⟨S100000x32, .f32⟩ : BufTy).Contents (Elt F)),
    StableHlo.unary main_arg17 main_v208 (broadcastInDim S1x32 ![1] bcast_S32_S1x32_1 : (⟨S32, .f32⟩ : BufTy).Contents (Elt F) → (⟨S1x32, .f32⟩ : BufTy).Contents (Elt F)),
    StableHlo.unary main_v208 main_v209 (broadcastInDim S100000x32 ![0, 1] bcast_S1x32_S100000x32_0_1 : (⟨S1x32, .f32⟩ : BufTy).Contents (Elt F) → (⟨S100000x32, .f32⟩ : BufTy).Contents (Elt F)),
    StableHlo.binary main_v207 main_v209 main_v210 (addf : (⟨S100000x32, .f32⟩ : BufTy).Contents (Elt F) → (⟨S100000x32, .f32⟩ : BufTy).Contents (Elt F) → (⟨S100000x32, .f32⟩ : BufTy).Contents (Elt F)),
    StableHlo.nullary main_cst_48 (constant S_ .f32 0x00000000#32),
    StableHlo.unary main_cst_48 main_v211 (broadcastInDim S100000x32 ![] bcast_S_S100000x32 : (⟨S_, .f32⟩ : BufTy).Contents (Elt F) → (⟨S100000x32, .f32⟩ : BufTy).Contents (Elt F)),
    StableHlo.binary main_v210 main_v211 main_v212 (cmpf .oge : (⟨S100000x32, .f32⟩ : BufTy).Contents (Elt F) → (⟨S100000x32, .f32⟩ : BufTy).Contents (Elt F) → (⟨S100000x32, .i1⟩ : BufTy).Contents (Elt F)),
    StableHlo.nullary main_cst_49 (constant S_ .f32 0x3C23D70A#32),
    StableHlo.unary main_cst_49 main_v213 (broadcastInDim S100000x32 ![] bcast_S_S100000x32 : (⟨S_, .f32⟩ : BufTy).Contents (Elt F) → (⟨S100000x32, .f32⟩ : BufTy).Contents (Elt F)),
    StableHlo.binary main_v213 main_v210 main_v214 (mulf : (⟨S100000x32, .f32⟩ : BufTy).Contents (Elt F) → (⟨S100000x32, .f32⟩ : BufTy).Contents (Elt F) → (⟨S100000x32, .f32⟩ : BufTy).Contents (Elt F)),
    StableHlo.TRef.ternary (StableHlo.TRef.of main_v212 : StableHlo.TRef sig ⟨S100000x32, .i1⟩) (StableHlo.TRef.of main_v210 : StableHlo.TRef sig ⟨S100000x32, .f32⟩) (StableHlo.TRef.of main_v214 : StableHlo.TRef sig ⟨S100000x32, .f32⟩) main_call7.v0 select ]

/-- The buffers that chunk's operations write, in order. -/
abbrev ops_c16_W : List (Ref sig .tc) := [main_v196, main_v197, main_v198, main_cst_47, main_v199, main_v200, main_v201, main_v202, main_v203, main_v204, main_v205, main_v206, main_v207, main_v208, main_v209, main_v210, main_cst_48, main_v211, main_v212, main_cst_49, main_v213, main_v214, main_v215]

set_option maxRecDepth 8192 in
theorem ops_c16_sub : (ops_c16 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- @main's operations 353 … 379 of 434 (statements 269 … 295, in window main_part4). -/
abbrev ops_c17 : List (HloOp τ sig (Elt F)) :=
  [ StableHlo.binary main_v215 main_arg18 main_v216 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.nullary main_c_50 (constantI S_ 32 0#32),
    StableHlo.unary main_c_50 main_v217 (broadcastInDim S1700000 ![] bcast_S_S1700000 : (⟨S_, .i32⟩ : BufTy).Contents (Elt F) → (⟨S1700000, .i32⟩ : BufTy).Contents (Elt F)),
    StableHlo.binary main_v3 main_v217 main_v218 (cmpi .slt : (⟨S1700000, .i32⟩ : BufTy).Contents (Elt F) → (⟨S1700000, .i32⟩ : BufTy).Contents (Elt F) → (⟨S1700000, .i1⟩ : BufTy).Contents (Elt F)),
    StableHlo.nullary main_c_51 (constantI S_ 32 100000#32),
    StableHlo.unary main_c_51 main_v219 (broadcastInDim S1700000 ![] bcast_S_S1700000 : (⟨S_, .i32⟩ : BufTy).Contents (Elt F) → (⟨S1700000, .i32⟩ : BufTy).Contents (Elt F)),
    StableHlo.binary main_v3 main_v219 main_v220 (addi : (⟨S1700000, .i32⟩ : BufTy).Contents (Elt F) → (⟨S1700000, .i32⟩ : BufTy).Contents (Elt F) → (⟨S1700000, .i32⟩ : BufTy).Contents (Elt F)),
    StableHlo.ternary main_v218 main_v220 main_v3 main_v221 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v221 main_v222 (broadcastInDim S1700000x1 ![0] bcast_S1700000_S1700000x1_0 : (⟨S1700000, .i32⟩ : BufTy).Contents (Elt F) → (⟨S1700000x1, .i32⟩ : BufTy).Contents (Elt F)),
    StableHlo.binary main_v216 main_v222 main_v223 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    StableHlo.unary main_v31 main_v224 (broadcastInDim S1700000x1 ![0] bcast_S1700000_S1700000x1_0 : (⟨S1700000, .f32⟩ : BufTy).Contents (Elt F) → (⟨S1700000x1, .f32⟩ : BufTy).Contents (Elt F)),
    StableHlo.unary main_v224 main_v225 (broadcastInDim S1700000x16 ![0, 1] bcast_S1700000x1_S1700000x16_0_1 : (⟨S1700000x1, .f32⟩ : BufTy).Contents (Elt F) → (⟨S1700000x16, .f32⟩ : BufTy).Contents (Elt F)),
    StableHlo.binary main_v223 main_v225 main_v226 (mulf : (⟨S1700000x16, .f32⟩ : BufTy).Contents (Elt F) → (⟨S1700000x16, .f32⟩ : BufTy).Contents (Elt F) → (⟨S1700000x16, .f32⟩ : BufTy).Contents (Elt F)),
    StableHlo.nullary main_cst_52 (constant S_ .f32 0x00000000#32),
    StableHlo.unary main_cst_52 main_v227 (broadcastInDim S100000x16 ![] bcast_S_S100000x16 : (⟨S_, .f32⟩ : BufTy).Contents (Elt F) → (⟨S100000x16, .f32⟩ : BufTy).Contents (Elt F)),
    StableHlo.nullary main_c_53 (constantI S_ 32 0#32),
    StableHlo.unary main_c_53 main_v228 (broadcastInDim S1700000 ![] bcast_S_S1700000 : (⟨S_, .i32⟩ : BufTy).Contents (Elt F) → (⟨S1700000, .i32⟩ : BufTy).Contents (Elt F)),
    StableHlo.binary main_v6 main_v228 main_v229 (cmpi .slt : (⟨S1700000, .i32⟩ : BufTy).Contents (Elt F) → (⟨S1700000, .i32⟩ : BufTy).Contents (Elt F) → (⟨S1700000, .i1⟩ : BufTy).Contents (Elt F)),
    StableHlo.nullary main_c_54 (constantI S_ 32 100000#32),
    StableHlo.unary main_c_54 main_v230 (broadcastInDim S1700000 ![] bcast_S_S1700000 : (⟨S_, .i32⟩ : BufTy).Contents (Elt F) → (⟨S1700000, .i32⟩ : BufTy).Contents (Elt F)),
    StableHlo.binary main_v6 main_v230 main_v231 (addi : (⟨S1700000, .i32⟩ : BufTy).Contents (Elt F) → (⟨S1700000, .i32⟩ : BufTy).Contents (Elt F) → (⟨S1700000, .i32⟩ : BufTy).Contents (Elt F)),
    StableHlo.ternary main_v229 main_v231 main_v6 main_v232 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v232 main_v233 (broadcastInDim S1700000x1 ![0] bcast_S1700000_S1700000x1_0 : (⟨S1700000, .i32⟩ : BufTy).Contents (Elt F) → (⟨S1700000x1, .i32⟩ : BufTy).Contents (Elt F)),
    StableHlo.ternary main_v227 main_v233 main_v226 main_v234 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    StableHlo.unary main_arg19 main_v235 (broadcastInDim S1x16 ![1] bcast_S16_S1x16_1 : (⟨S16, .f32⟩ : BufTy).Contents (Elt F) → (⟨S1x16, .f32⟩ : BufTy).Contents (Elt F)),
    StableHlo.unary main_v235 main_v236 (broadcastInDim S100000x16 ![0, 1] bcast_S1x16_S100000x16_0_1 : (⟨S1x16, .f32⟩ : BufTy).Contents (Elt F) → (⟨S100000x16, .f32⟩ : BufTy).Contents (Elt F)),
    StableHlo.binary main_v234 main_v236 main_v237 (addf : (⟨S100000x16, .f32⟩ : BufTy).Contents (Elt F) → (⟨S100000x16, .f32⟩ : BufTy).Contents (Elt F) → (⟨S100000x16, .f32⟩ : BufTy).Contents (Elt F)) ]

/-- The buffers that chunk's operations write, in order. -/
abbrev ops_c17_W : List (Ref sig .tc) := [main_v216, main_c_50, main_v217, main_v218, main_c_51, main_v219, main_v220, main_v221, main_v222, main_v223, main_v224, main_v225, main_v226, main_cst_52, main_v227, main_c_53, main_v228, main_v229, main_c_54, main_v230, main_v231, main_v232, main_v233, main_v234, main_v235, main_v236, main_v237]

set_option maxRecDepth 8192 in
theorem ops_c17_sub : (ops_c17 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub ..⟩

/-- @main's operations 380 … 384 of 434 (statements 296 … 300, in window main_part4). -/
abbrev ops_c18 : List (HloOp τ sig (Elt F)) :=
  [ StableHlo.nullary main_cst_55 (constant S_ .f32 0x00000000#32),
    StableHlo.binary main_v237 main_cst_55 main_v238 ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)),
    StableHlo.nullary main_cst_56 (constant S_ .f32 0x47C35000#32),
    StableHlo.unary main_cst_56 main_v239 (broadcastInDim S16 ![] bcast_S_S16 : (⟨S_, .f32⟩ : BufTy).Contents (Elt F) → (⟨S16, .f32⟩ : BufTy).Contents (Elt F)),
    StableHlo.binary main_v238 main_v239 main_v240 (Host.divf : (⟨S16, .f32⟩ : BufTy).Contents (Elt F) → (⟨S16, .f32⟩ : BufTy).Contents (Elt F) → (⟨S16, .f32⟩ : BufTy).Contents (Elt F)) ]

/-- The buffers that chunk's operations write, in order. -/
abbrev ops_c18_W : List (Ref sig .tc) := [main_cst_55, main_v238, main_cst_56, main_v239, main_v240]

set_option maxRecDepth 8192 in
theorem ops_c18_sub : (ops_c18 : List (HloOp τ sig (Elt F))).Forall fun op => op.bufs ⊆ tcRefs τ sig :=
  ⟨nullary_bufs_sub .., binary_bufs_sub .., nullary_bufs_sub .., unary_bufs_sub .., binary_bufs_sub ..⟩

/-- @main's operations 385 … 407 of 434 (statements 301 … 302, in window main_part5). -/
abbrev ops_c19 : List (HloOp τ sig (Elt F)) :=
  [ StableHlo.nullary main_c_57 (constantI S_ 32 0#32),
    StableHlo.TRef.nullary main_call8.cst (constant S_ .f32 0x00000000#32),
    StableHlo.TRef.binary (StableHlo.TRef.of main_v237 : StableHlo.TRef sig ⟨S100000x16, .f32⟩) main_call8.cst main_call8.v0 (fun x v => Host.reduceAdd x v reducesTo_S100000x16_S16_d0 h_S_),
    StableHlo.TRef.unary main_call8.v0 main_call8.v1 (broadcastInDim S1x16 ![1] bcast_S16_S1x16_1),
    StableHlo.TRef.nullary main_call8.cst_0 (constant S_ .f32 0x47C35000#32),
    StableHlo.TRef.unary main_call8.cst_0 main_call8.v2 (broadcastInDim S1x16 ![] bcast_S_S1x16),
    StableHlo.TRef.binary main_call8.v1 main_call8.v2 main_call8.v3 Host.divf,
    StableHlo.TRef.unary main_call8.v3 main_call8.v4 (broadcastInDim S100000x16 ![0, 1] bcast_S1x16_S100000x16_0_1),
    StableHlo.TRef.binary (StableHlo.TRef.of main_v237 : StableHlo.TRef sig ⟨S100000x16, .f32⟩) main_call8.v4 main_call8.v5 subf,
    StableHlo.TRef.binary main_call8.v5 main_call8.v5 main_call8.v6 mulf,
    StableHlo.TRef.unary (StableHlo.TRef.of main_c_57 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x16_S16_d0 h_S_),
    StableHlo.TRef.unary main_call8.v8 main_call8.v10 (broadcastInDim S16 ![] bcast_S_S16),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S16 ![] bcast_S_S16),
    StableHlo.TRef.ternary main_call8.v12 main_call8.v11 main_call8.call0.v1 main_call8.call0.v2 (fun p a b => select (broadcastInDim S16 ![] bcast_S_S16 p) a b) ]

/-- The buffers that chunk's operations write, in order. -/
abbrev ops_c19_W : List (Ref sig .tc) := [main_c_57, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v241]

set_option maxRecDepth 8192 in
theorem ops_c19_sub : (ops_c19 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- @main's operations 408 … 430 of 434 (statements 303 … 325, in window main_part5). -/
abbrev ops_c20 : List (HloOp τ sig (Elt F)) :=
  [ StableHlo.unary main_v240 main_v242 (broadcastInDim S1x16 ![1] bcast_S16_S1x16_1 : (⟨S16, .f32⟩ : BufTy).Contents (Elt F) → (⟨S1x16, .f32⟩ : BufTy).Contents (Elt F)),
    StableHlo.unary main_v242 main_v243 (broadcastInDim S100000x16 ![0, 1] bcast_S1x16_S100000x16_0_1 : (⟨S1x16, .f32⟩ : BufTy).Contents (Elt F) → (⟨S100000x16, .f32⟩ : BufTy).Contents (Elt F)),
    StableHlo.binary main_v237 main_v243 main_v244 (subf : (⟨S100000x16, .f32⟩ : BufTy).Contents (Elt F) → (⟨S100000x16, .f32⟩ : BufTy).Contents (Elt F) → (⟨S100000x16, .f32⟩ : BufTy).Contents (Elt F)),
    StableHlo.nullary main_cst_58 (constant S_ .f32 0x3727C5AC#32),
    StableHlo.unary main_cst_58 main_v245 (broadcastInDim S16 ![] bcast_S_S16 : (⟨S_, .f32⟩ : BufTy).Contents (Elt F) → (⟨S16, .f32⟩ : BufTy).Contents (Elt F)),
    StableHlo.binary main_v241 main_v245 main_v246 (addf : (⟨S16, .f32⟩ : BufTy).Contents (Elt F) → (⟨S16, .f32⟩ : BufTy).Contents (Elt F) → (⟨S16, .f32⟩ : BufTy).Contents (Elt F)),
    StableHlo.unary main_v246 main_v247 (Host.rsqrt : (⟨S16, .f32⟩ : BufTy).Contents (Elt F) → (⟨S16, .f32⟩ : BufTy).Contents (Elt F)),
    StableHlo.unary main_v247 main_v248 (broadcastInDim S1x16 ![1] bcast_S16_S1x16_1 : (⟨S16, .f32⟩ : BufTy).Contents (Elt F) → (⟨S1x16, .f32⟩ : BufTy).Contents (Elt F)),
    StableHlo.unary main_v248 main_v249 (broadcastInDim S100000x16 ![0, 1] bcast_S1x16_S100000x16_0_1 : (⟨S1x16, .f32⟩ : BufTy).Contents (Elt F) → (⟨S100000x16, .f32⟩ : BufTy).Contents (Elt F)),
    StableHlo.binary main_v244 main_v249 main_v250 (mulf : (⟨S100000x16, .f32⟩ : BufTy).Contents (Elt F) → (⟨S100000x16, .f32⟩ : BufTy).Contents (Elt F) → (⟨S100000x16, .f32⟩ : BufTy).Contents (Elt F)),
    StableHlo.unary main_arg20 main_v251 (broadcastInDim S1x16 ![1] bcast_S16_S1x16_1 : (⟨S16, .f32⟩ : BufTy).Contents (Elt F) → (⟨S1x16, .f32⟩ : BufTy).Contents (Elt F)),
    StableHlo.unary main_v251 main_v252 (broadcastInDim S100000x16 ![0, 1] bcast_S1x16_S100000x16_0_1 : (⟨S1x16, .f32⟩ : BufTy).Contents (Elt F) → (⟨S100000x16, .f32⟩ : BufTy).Contents (Elt F)),
    StableHlo.binary main_v250 main_v252 main_v253 (mulf : (⟨S100000x16, .f32⟩ : BufTy).Contents (Elt F) → (⟨S100000x16, .f32⟩ : BufTy).Contents (Elt F) → (⟨S100000x16, .f32⟩ : BufTy).Contents (Elt F)),
    StableHlo.unary main_arg21 main_v254 (broadcastInDim S1x16 ![1] bcast_S16_S1x16_1 : (⟨S16, .f32⟩ : BufTy).Contents (Elt F) → (⟨S1x16, .f32⟩ : BufTy).Contents (Elt F)),
    StableHlo.unary main_v254 main_v255 (broadcastInDim S100000x16 ![0, 1] bcast_S1x16_S100000x16_0_1 : (⟨S1x16, .f32⟩ : BufTy).Contents (Elt F) → (⟨S100000x16, .f32⟩ : BufTy).Contents (Elt F)),
    StableHlo.binary main_v253 main_v255 main_v256 (addf : (⟨S100000x16, .f32⟩ : BufTy).Contents (Elt F) → (⟨S100000x16, .f32⟩ : BufTy).Contents (Elt F) → (⟨S100000x16, .f32⟩ : BufTy).Contents (Elt F)),
    StableHlo.nullary main_cst_59 (constant S_ .f32 0x00000000#32),
    StableHlo.unary main_cst_59 main_v257 (broadcastInDim S100000x16 ![] bcast_S_S100000x16 : (⟨S_, .f32⟩ : BufTy).Contents (Elt F) → (⟨S100000x16, .f32⟩ : BufTy).Contents (Elt F)),
    StableHlo.binary main_v256 main_v257 main_v258 (cmpf .oge : (⟨S100000x16, .f32⟩ : BufTy).Contents (Elt F) → (⟨S100000x16, .f32⟩ : BufTy).Contents (Elt F) → (⟨S100000x16, .i1⟩ : BufTy).Contents (Elt F)),
    StableHlo.nullary main_cst_60 (constant S_ .f32 0x3C23D70A#32),
    StableHlo.unary main_cst_60 main_v259 (broadcastInDim S100000x16 ![] bcast_S_S100000x16 : (⟨S_, .f32⟩ : BufTy).Contents (Elt F) → (⟨S100000x16, .f32⟩ : BufTy).Contents (Elt F)),
    StableHlo.binary main_v259 main_v256 main_v260 (mulf : (⟨S100000x16, .f32⟩ : BufTy).Contents (Elt F) → (⟨S100000x16, .f32⟩ : BufTy).Contents (Elt F) → (⟨S100000x16, .f32⟩ : BufTy).Contents (Elt F)),
    StableHlo.TRef.ternary (StableHlo.TRef.of main_v258 : StableHlo.TRef sig ⟨S100000x16, .i1⟩) (StableHlo.TRef.of main_v256 : StableHlo.TRef sig ⟨S100000x16, .f32⟩) (StableHlo.TRef.of main_v260 : StableHlo.TRef sig ⟨S100000x16, .f32⟩) main_call9.v0 select ]

/-- The buffers that chunk's operations write, in order. -/
abbrev ops_c20_W : List (Ref sig .tc) := [main_v242, main_v243, main_v244, main_cst_58, main_v245, main_v246, main_v247, main_v248, main_v249, main_v250, main_v251, main_v252, main_v253, main_v254, main_v255, main_v256, main_cst_59, main_v257, main_v258, main_cst_60, main_v259, main_v260, main_v261]

set_option maxRecDepth 8192 in
theorem ops_c20_sub : (ops_c20 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- @main's operations 431 … 434 of 434 (statements 326 … 329, in window main_part5). -/
abbrev ops_c21 : List (HloOp τ sig (Elt F)) :=
  [ StableHlo.binary main_v261 main_arg22 main_v262 ((fun l r => Host.dotGeneral dot_S100000x16_S16x3_S100000x3_1_0_0_1_n_n none l r) : (⟨S100000x16, .f32⟩ : BufTy).Contents (Elt F) → (⟨S16x3, .f32⟩ : BufTy).Contents (Elt F) → (⟨S100000x3, .f32⟩ : BufTy).Contents (Elt F)),
    StableHlo.unary main_arg23 main_v263 (broadcastInDim S1x3 ![1] bcast_S3_S1x3_1 : (⟨S3, .f32⟩ : BufTy).Contents (Elt F) → (⟨S1x3, .f32⟩ : BufTy).Contents (Elt F)),
    StableHlo.unary main_v263 main_v264 (broadcastInDim S100000x3 ![0, 1] bcast_S1x3_S100000x3_0_1 : (⟨S1x3, .f32⟩ : BufTy).Contents (Elt F) → (⟨S100000x3, .f32⟩ : BufTy).Contents (Elt F)),
    StableHlo.binary main_v262 main_v264 main_v265 (addf : (⟨S100000x3, .f32⟩ : BufTy).Contents (Elt F) → (⟨S100000x3, .f32⟩ : BufTy).Contents (Elt F) → (⟨S100000x3, .f32⟩ : BufTy).Contents (Elt F)) ]

/-- The buffers that chunk's operations write, in order. -/
abbrev ops_c21_W : List (Ref sig .tc) := [main_v262, main_v263, main_v264, main_v265]

set_option maxRecDepth 8192 in
theorem ops_c21_sub : (ops_c21 : List (HloOp τ sig (Elt F))).Forall fun op => op.bufs ⊆ tcRefs τ sig :=
  ⟨binary_bufs_sub .., unary_bufs_sub .., unary_bufs_sub .., binary_bufs_sub ..⟩

end Cert.ReferenceIdeal.HandRun

end
-- ==== Proof.RefParts.lean ====
/-
  The reference program's @main as ONE list of host operations: the chunks of RefOps.lean concatenated in program order,
  first into the six windows the program text is printed in, then into the whole line of 434 operations.
-/
import proofs.«109725_j21638045237575_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0: operations 1 … 60 of 434. -/
abbrev ops_part0 : List (HloOp τ sig (Elt F)) := ops_c00 ++ ops_c01
/-- The operations of @main's window 1: operations 61 … 141 of 434. -/
abbrev ops_part1 : List (HloOp τ sig (Elt F)) := ops_c02 ++ (ops_c03 ++ (ops_c04 ++ ops_c05))
/-- The operations of @main's window 2: operations 142 … 222 of 434. -/
abbrev ops_part2 : List (HloOp τ sig (Elt F)) := ops_c06 ++ (ops_c07 ++ (ops_c08 ++ ops_c09))
/-- The operations of @main's window 3: operations 223 … 303 of 434. -/
abbrev ops_part3 : List (HloOp τ sig (Elt F)) := ops_c10 ++ (ops_c11 ++ (ops_c12 ++ (ops_c13 ++ ops_c14)))
/-- The operations of @main's window 4: operations 304 … 384 of 434. -/
abbrev ops_part4 : List (HloOp τ sig (Elt F)) := ops_c15 ++ (ops_c16 ++ (ops_c17 ++ ops_c18))
/-- The operations of @main's window 5: operations 385 … 434 of 434. -/
abbrev ops_part5 : List (HloOp τ sig (Elt F)) := ops_c19 ++ (ops_c20 ++ ops_c21)

/-- @main's 434 operations, in order. -/
abbrev ops : List (HloOp τ sig (Elt F)) :=
  ops_part0 ++ (ops_part1 ++ (ops_part2 ++ (ops_part3 ++ (ops_part4 ++ ops_part5))))

end Cert.ReferenceIdeal.HandRun

end
-- ==== Proof.RefWinA.lean ====
/-
  Each printed window of the reference program's @main is the sequence of its operations. A window without a call is
  so by unfolding. In a window with calls each callee's definition is unfolded at the call and sequencing is re-associated
  to the right (a callee ends in a return, which is the unit of sequencing); both sides are then one chain of the same steps.
-/
import proofs.«109725_j21638045237575_1_alg».proof.Proof.RefParts

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window 0 calls no function: it is the sequence of its operations by unfolding. -/
theorem main_part0_eq (c : Dev nD) : main_part0 (F := F) c = seq ops_part0 := rfl

set_option maxRecDepth 8192 in
set_option maxHeartbeats 4000000 in
/-- Window 1: the two callees' definitions unfolded at their calls, sequencing re-associated to the right. The window
    ends on an operation where the sequence ends in a return, the unit of sequencing: the last step is by unfolding. -/
theorem main_part1_eq (c : Dev nD) : main_part1 (F := F) c = seq ops_part1 := by
  simp only [main_part1, fn_var.body, fn_where.body, fn_where_0.body, ops_part1, ops_c02, ops_c03, ops_c04, ops_c05,
    List.cons_append, List.nil_append, seq, bind_assoc, pure_bind]
  rfl

set_option maxRecDepth 8192 in
set_option maxHeartbeats 4000000 in
/-- Window 2: the two callees' definitions unfolded at their calls, sequencing re-associated to the right. The window
    ends on an operation where the sequence ends in a return, the unit of sequencing: the last step is by unfolding. -/
theorem main_part2_eq (c : Dev nD) : main_part2 (F := F) c = seq ops_part2 := by
  simp only [main_part2, fn_var_1.body, fn_where_2.body, fn_where_3.body, ops_part2, ops_c06, ops_c07, ops_c08, ops_c09,
    List.cons_append, List.nil_append, seq, bind_assoc, pure_bind]
  rfl

end Cert.ReferenceIdeal.HandRun

end
-- ==== Proof.RefWinB.lean ====
/-
  Each printed window of the reference program's @main is the sequence of its operations. A window without a call is
  so by unfolding. In a window with calls each callee's definition is unfolded at the call and sequencing is re-associated
  to the right (a callee ends in a return, which is the unit of sequencing); both sides are then one chain of the same steps.
-/
import proofs.«109725_j21638045237575_1_alg».proof.Proof.RefParts

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window 3: the two callees' definitions unfolded at their calls, sequencing re-associated to the right. The window
    ends on an operation where the sequence ends in a return, the unit of sequencing: the last step is by unfolding. -/
theorem main_part3_eq (c : Dev nD) : main_part3 (F := F) c = seq ops_part3 := by
  simp only [main_part3, fn_var_1.body, fn_where_2.body, fn_where_3.body, ops_part3, ops_c10, ops_c11, ops_c12, ops_c13, ops_c14,
    List.cons_append, List.nil_append, seq, bind_assoc, pure_bind]
  rfl

set_option maxRecDepth 8192 in
set_option maxHeartbeats 4000000 in
/-- Window 4: the two callees' definitions unfolded at their calls, sequencing re-associated to the right. The window
    ends on an operation where the sequence ends in a return, the unit of sequencing: the last step is by unfolding. -/
theorem main_part4_eq (c : Dev nD) : main_part4 (F := F) c = seq ops_part4 := by
  simp only [main_part4, fn_var.body, fn_where.body, fn_where_0.body, ops_part4, ops_c15, ops_c16, ops_c17, ops_c18,
    List.cons_append, List.nil_append, seq, bind_assoc, pure_bind]
  rfl

set_option maxRecDepth 8192 in
set_option maxHeartbeats 4000000 in
/-- Window 5: the two callees' definitions unfolded at their calls, sequencing re-associated to the right. This window
    ends in @main's return, as a sequence of operations does, so the two sides are then the same term. -/
theorem main_part5_eq (c : Dev nD) : main_part5 (F := F) c = seq ops_part5 := by
  simp only [main_part5, fn_var_4.body, fn_where_5.body, fn_where_6.body, ops_part5, ops_c19, ops_c20, ops_c21,
    List.cons_append, List.nil_append, seq, bind_assoc, pure_bind]

end Cert.ReferenceIdeal.HandRun

end
-- ==== Proof.RefKeep.lean ====
/-
  Three facts about each chunk of the reference program's operations, each read off the literal list: no operation of it
  leaves a result undetermined; every buffer an operation writes is in the chunk's list of written buffers; hence a buffer
  outside that list holds after the chunk what it held before.
-/
import proofs.«109725_j21638045237575_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Every operation of a literal list of the builders' operations determines its results: case by case. -/
local macro "fresh_list" : tactic =>
  `(tactic| (intro _ h; (repeat (cases h with | head => rfl | tail _ h => ?_)); exact nomatch h))

/-- Every operation of a literal list writes only its result buffer, which is in the list of written buffers:
    operation by operation, membership decided over references. -/
local macro "writes_list" : tactic =>
  `(tactic| (simp only [List.Forall]
             repeat' apply And.intro
             all_goals (simp only [TRef.nullary, TRef.unary, TRef.binary, TRef.ternary, nullary_writes, unary_writes, binary_writes,
                          ternary_writes, reshape_writes, Finset.singleton_subset_iff, List.mem_toFinset]
                        exact List.mem_map_of_mem (by decide))))

set_option maxRecDepth 8192 in
theorem ops_c00_fresh : ∀ op ∈ (ops_c00 : List (HloOp τ sig (Elt F))), op.fresh = ∅ := by fresh_list
set_option maxRecDepth 8192 in
set_option maxHeartbeats 2000000 in
theorem ops_c00_writes : (ops_c00 : List (HloOp τ sig (Elt F))).Forall fun op =>
    op.writes ⊆ (ops_c00_W.map (Proc.devRef (τ := τ) .tc)).toFinset := by writes_list
/-- A buffer that chunk 0 does not write keeps its contents through it. -/
theorem keep_c00 (V : Valuation τ sig (Elt F)) (r : Ref sig .tc) (h : r ∉ ops_c00_W) :
    after ops_c00 V (Proc.devRef .tc r) = V (Proc.devRef .tc r) :=
  after_of_writes_sub ops_c00 V ops_c00_writes h

set_option maxRecDepth 8192 in
theorem ops_c01_fresh : ∀ op ∈ (ops_c01 : List (HloOp τ sig (Elt F))), op.fresh = ∅ := by fresh_list
set_option maxRecDepth 8192 in
set_option maxHeartbeats 2000000 in
theorem ops_c01_writes : (ops_c01 : List (HloOp τ sig (Elt F))).Forall fun op =>
    op.writes ⊆ (ops_c01_W.map (Proc.devRef (τ := τ) .tc)).toFinset := by writes_list
/-- A buffer that chunk 1 does not write keeps its contents through it. -/
theorem keep_c01 (V : Valuation τ sig (Elt F)) (r : Ref sig .tc) (h : r ∉ ops_c01_W) :
    after ops_c01 V (Proc.devRef .tc r) = V (Proc.devRef .tc r) :=
  after_of_writes_sub ops_c01 V ops_c01_writes h

set_option maxRecDepth 8192 in
theorem ops_c02_fresh : ∀ op ∈ (ops_c02 : List (HloOp τ sig (Elt F))), op.fresh = ∅ := by fresh_list
set_option maxRecDepth 8192 in
set_option maxHeartbeats 2000000 in
theorem ops_c02_writes : (ops_c02 : List (HloOp τ sig (Elt F))).Forall fun op =>
    op.writes ⊆ (ops_c02_W.map (Proc.devRef (τ := τ) .tc)).toFinset := by writes_list
/-- A buffer that chunk 2 does not write keeps its contents through it. -/
theorem keep_c02 (V : Valuation τ sig (Elt F)) (r : Ref sig .tc) (h : r ∉ ops_c02_W) :
    after ops_c02 V (Proc.devRef .tc r) = V (Proc.devRef .tc r) :=
  after_of_writes_sub ops_c02 V ops_c02_writes h

set_option maxRecDepth 8192 in
theorem ops_c03_fresh : ∀ op ∈ (ops_c03 : List (HloOp τ sig (Elt F))), op.fresh = ∅ := by fresh_list
set_option maxRecDepth 8192 in
set_option maxHeartbeats 2000000 in
theorem ops_c03_writes : (ops_c03 : List (HloOp τ sig (Elt F))).Forall fun op =>
    op.writes ⊆ (ops_c03_W.map (Proc.devRef (τ := τ) .tc)).toFinset := by writes_list
/-- A buffer that chunk 3 does not write keeps its contents through it. -/
theorem keep_c03 (V : Valuation τ sig (Elt F)) (r : Ref sig .tc) (h : r ∉ ops_c03_W) :
    after ops_c03 V (Proc.devRef .tc r) = V (Proc.devRef .tc r) :=
  after_of_writes_sub ops_c03 V ops_c03_writes h

set_option maxRecDepth 8192 in
theorem ops_c04_fresh : ∀ op ∈ (ops_c04 : List (HloOp τ sig (Elt F))), op.fresh = ∅ := by fresh_list
set_option maxRecDepth 8192 in
set_option maxHeartbeats 2000000 in
theorem ops_c04_writes : (ops_c04 : List (HloOp τ sig (Elt F))).Forall fun op =>
    op.writes ⊆ (ops_c04_W.map (Proc.devRef (τ := τ) .tc)).toFinset := by writes_list
/-- A buffer that chunk 4 does not write keeps its contents through it. -/
theorem keep_c04 (V : Valuation τ sig (Elt F)) (r : Ref sig .tc) (h : r ∉ ops_c04_W) :
    after ops_c04 V (Proc.devRef .tc r) = V (Proc.devRef .tc r) :=
  after_of_writes_sub ops_c04 V ops_c04_writes h

set_option maxRecDepth 8192 in
theorem ops_c05_fresh : ∀ op ∈ (ops_c05 : List (HloOp τ sig (Elt F))), op.fresh = ∅ := by fresh_list
set_option maxRecDepth 8192 in
set_option maxHeartbeats 2000000 in
theorem ops_c05_writes : (ops_c05 : List (HloOp τ sig (Elt F))).Forall fun op =>
    op.writes ⊆ (ops_c05_W.map (Proc.devRef (τ := τ) .tc)).toFinset := by writes_list
/-- A buffer that chunk 5 does not write keeps its contents through it. -/
theorem keep_c05 (V : Valuation τ sig (Elt F)) (r : Ref sig .tc) (h : r ∉ ops_c05_W) :
    after ops_c05 V (Proc.devRef .tc r) = V (Proc.devRef .tc r) :=
  after_of_writes_sub ops_c05 V ops_c05_writes h

set_option maxRecDepth 8192 in
theorem ops_c06_fresh : ∀ op ∈ (ops_c06 : List (HloOp τ sig (Elt F))), op.fresh = ∅ := by fresh_list
set_option maxRecDepth 8192 in
set_option maxHeartbeats 2000000 in
theorem ops_c06_writes : (ops_c06 : List (HloOp τ sig (Elt F))).Forall fun op =>
    op.writes ⊆ (ops_c06_W.map (Proc.devRef (τ := τ) .tc)).toFinset := by writes_list
/-- A buffer that chunk 6 does not write keeps its contents through it. -/
theorem keep_c06 (V : Valuation τ sig (Elt F)) (r : Ref sig .tc) (h : r ∉ ops_c06_W) :
    after ops_c06 V (Proc.devRef .tc r) = V (Proc.devRef .tc r) :=
  after_of_writes_sub ops_c06 V ops_c06_writes h

set_option maxRecDepth 8192 in
theorem ops_c07_fresh : ∀ op ∈ (ops_c07 : List (HloOp τ sig (Elt F))), op.fresh = ∅ := by fresh_list
set_option maxRecDepth 8192 in
set_option maxHeartbeats 2000000 in
theorem ops_c07_writes : (ops_c07 : List (HloOp τ sig (Elt F))).Forall fun op =>
    op.writes ⊆ (ops_c07_W.map (Proc.devRef (τ := τ) .tc)).toFinset := by writes_list
/-- A buffer that chunk 7 does not write keeps its contents through it. -/
theorem keep_c07 (V : Valuation τ sig (Elt F)) (r : Ref sig .tc) (h : r ∉ ops_c07_W) :
    after ops_c07 V (Proc.devRef .tc r) = V (Proc.devRef .tc r) :=
  after_of_writes_sub ops_c07 V ops_c07_writes h

set_option maxRecDepth 8192 in
theorem ops_c08_fresh : ∀ op ∈ (ops_c08 : List (HloOp τ sig (Elt F))), op.fresh = ∅ := by fresh_list
set_option maxRecDepth 8192 in
set_option maxHeartbeats 2000000 in
theorem ops_c08_writes : (ops_c08 : List (HloOp τ sig (Elt F))).Forall fun op =>
    op.writes ⊆ (ops_c08_W.map (Proc.devRef (τ := τ) .tc)).toFinset := by writes_list
/-- A buffer that chunk 8 does not write keeps its contents through it. -/
theorem keep_c08 (V : Valuation τ sig (Elt F)) (r : Ref sig .tc) (h : r ∉ ops_c08_W) :
    after ops_c08 V (Proc.devRef .tc r) = V (Proc.devRef .tc r) :=
  after_of_writes_sub ops_c08 V ops_c08_writes h

set_option maxRecDepth 8192 in
theorem ops_c09_fresh : ∀ op ∈ (ops_c09 : List (HloOp τ sig (Elt F))), op.fresh = ∅ := by fresh_list
set_option maxRecDepth 8192 in
set_option maxHeartbeats 2000000 in
theorem ops_c09_writes : (ops_c09 : List (HloOp τ sig (Elt F))).Forall fun op =>
    op.writes ⊆ (ops_c09_W.map (Proc.devRef (τ := τ) .tc)).toFinset := by writes_list
/-- A buffer that chunk 9 does not write keeps its contents through it. -/
theorem keep_c09 (V : Valuation τ sig (Elt F)) (r : Ref sig .tc) (h : r ∉ ops_c09_W) :
    after ops_c09 V (Proc.devRef .tc r) = V (Proc.devRef .tc r) :=
  after_of_writes_sub ops_c09 V ops_c09_writes h

set_option maxRecDepth 8192 in
theorem ops_c10_fresh : ∀ op ∈ (ops_c10 : List (HloOp τ sig (Elt F))), op.fresh = ∅ := by fresh_list
set_option maxRecDepth 8192 in
set_option maxHeartbeats 2000000 in
theorem ops_c10_writes : (ops_c10 : List (HloOp τ sig (Elt F))).Forall fun op =>
    op.writes ⊆ (ops_c10_W.map (Proc.devRef (τ := τ) .tc)).toFinset := by writes_list
/-- A buffer that chunk 10 does not write keeps its contents through it. -/
theorem keep_c10 (V : Valuation τ sig (Elt F)) (r : Ref sig .tc) (h : r ∉ ops_c10_W) :
    after ops_c10 V (Proc.devRef .tc r) = V (Proc.devRef .tc r) :=
  after_of_writes_sub ops_c10 V ops_c10_writes h

set_option maxRecDepth 8192 in
theorem ops_c11_fresh : ∀ op ∈ (ops_c11 : List (HloOp τ sig (Elt F))), op.fresh = ∅ := by fresh_list
set_option maxRecDepth 8192 in
set_option maxHeartbeats 2000000 in
theorem ops_c11_writes : (ops_c11 : List (HloOp τ sig (Elt F))).Forall fun op =>
    op.writes ⊆ (ops_c11_W.map (Proc.devRef (τ := τ) .tc)).toFinset := by writes_list
/-- A buffer that chunk 11 does not write keeps its contents through it. -/
theorem keep_c11 (V : Valuation τ sig (Elt F)) (r : Ref sig .tc) (h : r ∉ ops_c11_W) :
    after ops_c11 V (Proc.devRef .tc r) = V (Proc.devRef .tc r) :=
  after_of_writes_sub ops_c11 V ops_c11_writes h

set_option maxRecDepth 8192 in
theorem ops_c12_fresh : ∀ op ∈ (ops_c12 : List (HloOp τ sig (Elt F))), op.fresh = ∅ := by fresh_list
set_option maxRecDepth 8192 in
set_option maxHeartbeats 2000000 in
theorem ops_c12_writes : (ops_c12 : List (HloOp τ sig (Elt F))).Forall fun op =>
    op.writes ⊆ (ops_c12_W.map (Proc.devRef (τ := τ) .tc)).toFinset := by writes_list
/-- A buffer that chunk 12 does not write keeps its contents through it. -/
theorem keep_c12 (V : Valuation τ sig (Elt F)) (r : Ref sig .tc) (h : r ∉ ops_c12_W) :
    after ops_c12 V (Proc.devRef .tc r) = V (Proc.devRef .tc r) :=
  after_of_writes_sub ops_c12 V ops_c12_writes h

set_option maxRecDepth 8192 in
theorem ops_c13_fresh : ∀ op ∈ (ops_c13 : List (HloOp τ sig (Elt F))), op.fresh = ∅ := by fresh_list
set_option maxRecDepth 8192 in
set_option maxHeartbeats 2000000 in
theorem ops_c13_writes : (ops_c13 : List (HloOp τ sig (Elt F))).Forall fun op =>
    op.writes ⊆ (ops_c13_W.map (Proc.devRef (τ := τ) .tc)).toFinset := by writes_list
/-- A buffer that chunk 13 does not write keeps its contents through it. -/
theorem keep_c13 (V : Valuation τ sig (Elt F)) (r : Ref sig .tc) (h : r ∉ ops_c13_W) :
    after ops_c13 V (Proc.devRef .tc r) = V (Proc.devRef .tc r) :=
  after_of_writes_sub ops_c13 V ops_c13_writes h

set_option maxRecDepth 8192 in
theorem ops_c14_fresh : ∀ op ∈ (ops_c14 : List (HloOp τ sig (Elt F))), op.fresh = ∅ := by fresh_list
set_option maxRecDepth 8192 in
set_option maxHeartbeats 2000000 in
theorem ops_c14_writes : (ops_c14 : List (HloOp τ sig (Elt F))).Forall fun op =>
    op.writes ⊆ (ops_c14_W.map (Proc.devRef (τ := τ) .tc)).toFinset := by writes_list
/-- A buffer that chunk 14 does not write keeps its contents through it. -/
theorem keep_c14 (V : Valuation τ sig (Elt F)) (r : Ref sig .tc) (h : r ∉ ops_c14_W) :
    after ops_c14 V (Proc.devRef .tc r) = V (Proc.devRef .tc r) :=
  after_of_writes_sub ops_c14 V ops_c14_writes h

set_option maxRecDepth 8192 in
theorem ops_c15_fresh : ∀ op ∈ (ops_c15 : List (HloOp τ sig (Elt F))), op.fresh = ∅ := by fresh_list
set_option maxRecDepth 8192 in
set_option maxHeartbeats 2000000 in
theorem ops_c15_writes : (ops_c15 : List (HloOp τ sig (Elt F))).Forall fun op =>
    op.writes ⊆ (ops_c15_W.map (Proc.devRef (τ := τ) .tc)).toFinset := by writes_list
/-- A buffer that chunk 15 does not write keeps its contents through it. -/
theorem keep_c15 (V : Valuation τ sig (Elt F)) (r : Ref sig .tc) (h : r ∉ ops_c15_W) :
    after ops_c15 V (Proc.devRef .tc r) = V (Proc.devRef .tc r) :=
  after_of_writes_sub ops_c15 V ops_c15_writes h

set_option maxRecDepth 8192 in
theorem ops_c16_fresh : ∀ op ∈ (ops_c16 : List (HloOp τ sig (Elt F))), op.fresh = ∅ := by fresh_list
set_option maxRecDepth 8192 in
set_option maxHeartbeats 2000000 in
theorem ops_c16_writes : (ops_c16 : List (HloOp τ sig (Elt F))).Forall fun op =>
    op.writes ⊆ (ops_c16_W.map (Proc.devRef (τ := τ) .tc)).toFinset := by writes_list
/-- A buffer that chunk 16 does not write keeps its contents through it. -/
theorem keep_c16 (V : Valuation τ sig (Elt F)) (r : Ref sig .tc) (h : r ∉ ops_c16_W) :
    after ops_c16 V (Proc.devRef .tc r) = V (Proc.devRef .tc r) :=
  after_of_writes_sub ops_c16 V ops_c16_writes h

set_option maxRecDepth 8192 in
theorem ops_c17_fresh : ∀ op ∈ (ops_c17 : List (HloOp τ sig (Elt F))), op.fresh = ∅ := by fresh_list
set_option maxRecDepth 8192 in
set_option maxHeartbeats 2000000 in
theorem ops_c17_writes : (ops_c17 : List (HloOp τ sig (Elt F))).Forall fun op =>
    op.writes ⊆ (ops_c17_W.map (Proc.devRef (τ := τ) .tc)).toFinset := by writes_list
/-- A buffer that chunk 17 does not write keeps its contents through it. -/
theorem keep_c17 (V : Valuation τ sig (Elt F)) (r : Ref sig .tc) (h : r ∉ ops_c17_W) :
    after ops_c17 V (Proc.devRef .tc r) = V (Proc.devRef .tc r) :=
  after_of_writes_sub ops_c17 V ops_c17_writes h

set_option maxRecDepth 8192 in
theorem ops_c18_fresh : ∀ op ∈ (ops_c18 : List (HloOp τ sig (Elt F))), op.fresh = ∅ := by fresh_list
set_option maxRecDepth 8192 in
set_option maxHeartbeats 2000000 in
theorem ops_c18_writes : (ops_c18 : List (HloOp τ sig (Elt F))).Forall fun op =>
    op.writes ⊆ (ops_c18_W.map (Proc.devRef (τ := τ) .tc)).toFinset := by writes_list
/-- A buffer that chunk 18 does not write keeps its contents through it. -/
theorem keep_c18 (V : Valuation τ sig (Elt F)) (r : Ref sig .tc) (h : r ∉ ops_c18_W) :
    after ops_c18 V (Proc.devRef .tc r) = V (Proc.devRef .tc r) :=
  after_of_writes_sub ops_c18 V ops_c18_writes h

set_option maxRecDepth 8192 in
theorem ops_c19_fresh : ∀ op ∈ (ops_c19 : List (HloOp τ sig (Elt F))), op.fresh = ∅ := by fresh_list
set_option maxRecDepth 8192 in
set_option maxHeartbeats 2000000 in
theorem ops_c19_writes : (ops_c19 : List (HloOp τ sig (Elt F))).Forall fun op =>
    op.writes ⊆ (ops_c19_W.map (Proc.devRef (τ := τ) .tc)).toFinset := by writes_list
/-- A buffer that chunk 19 does not write keeps its contents through it. -/
theorem keep_c19 (V : Valuation τ sig (Elt F)) (r : Ref sig .tc) (h : r ∉ ops_c19_W) :
    after ops_c19 V (Proc.devRef .tc r) = V (Proc.devRef .tc r) :=
  after_of_writes_sub ops_c19 V ops_c19_writes h

set_option maxRecDepth 8192 in
theorem ops_c20_fresh : ∀ op ∈ (ops_c20 : List (HloOp τ sig (Elt F))), op.fresh = ∅ := by fresh_list
set_option maxRecDepth 8192 in
set_option maxHeartbeats 2000000 in
theorem ops_c20_writes : (ops_c20 : List (HloOp τ sig (Elt F))).Forall fun op =>
    op.writes ⊆ (ops_c20_W.map (Proc.devRef (τ := τ) .tc)).toFinset := by writes_list
/-- A buffer that chunk 20 does not write keeps its contents through it. -/
theorem keep_c20 (V : Valuation τ sig (Elt F)) (r : Ref sig .tc) (h : r ∉ ops_c20_W) :
    after ops_c20 V (Proc.devRef .tc r) = V (Proc.devRef .tc r) :=
  after_of_writes_sub ops_c20 V ops_c20_writes h

set_option maxRecDepth 8192 in
theorem ops_c21_fresh : ∀ op ∈ (ops_c21 : List (HloOp τ sig (Elt F))), op.fresh = ∅ := by fresh_list
set_option maxRecDepth 8192 in
set_option maxHeartbeats 2000000 in
theorem ops_c21_writes : (ops_c21 : List (HloOp τ sig (Elt F))).Forall fun op =>
    op.writes ⊆ (ops_c21_W.map (Proc.devRef (τ := τ) .tc)).toFinset := by writes_list
/-- A buffer that chunk 21 does not write keeps its contents through it. -/
theorem keep_c21 (V : Valuation τ sig (Elt F)) (r : Ref sig .tc) (h : r ∉ ops_c21_W) :
    after ops_c21 V (Proc.devRef .tc r) = V (Proc.devRef .tc r) :=
  after_of_writes_sub ops_c21 V ops_c21_writes h

end Cert.ReferenceIdeal.HandRun

end
-- ==== Proof.LibAfterAppend.lean ====
/-
  A general lemma on straight lines of host operations: the buffer contents after two stretches run one after the
  other are the contents after their concatenation — so a long line can be read stretch by stretch.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`, for any
    topology, buffer signature and value types. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.RefRun.lean ====
/-
  The reference program's run, read back. @main is a straight line of 434 host operations (each outlined function's
  operations at its call site): the list `ops`. This module joins the six windows' equations into `main = seq ops`, and
  from the run of a straight line concludes that every weakly fair execution of @main terminates with every buffer at the
  fold of the operations' results over the launch contents: the result buffer at that fold, and each of the 24 argument
  buffers, which no operation writes, at its launch contents. The frame conjunct of the reference is the second half.
-/
import proofs.«109725_j21638045237575_1_alg».proof.Proof.RefWinA
import proofs.«109725_j21638045237575_1_alg».proof.Proof.RefWinB
import proofs.«109725_j21638045237575_1_alg».proof.Proof.RefKeep
import proofs.«109725_j21638045237575_1_alg».proof.Proof.LibAfterAppend
import proofs.«109725_j21638045237575_1_alg».proof.Proof.Gen.Pre_finite_inputs
import proofs.«109725_j21638045237575_1_alg».proof.Defs

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.LibAfterAppend (after_append)

variable {F : FTy → Type} [FloatOps F]

/-! ## @main is the sequence of its operations -/

/-- @main runs its six windows in order, each the sequence of its own operations; a sequence of a concatenation is the
    sequences one after the other (`seq_append`). -/
theorem main_eq (c : Dev nD) : main (F := F) c = seq ops := by
  unfold main
  rw [main_part0_eq c, main_part1_eq c, main_part2_eq c, main_part3_eq c, main_part4_eq c, main_part5_eq c]
  show _ = seq (ops_part0 ++ (ops_part1 ++ (ops_part2 ++ (ops_part3 ++ (ops_part4 ++ ops_part5)))))
  rw [seq_append ops_part0, seq_append ops_part1, seq_append ops_part2, seq_append ops_part3, seq_append ops_part4]

/-- The program scopes no TensorCore buffer. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide

/-! ## Facts about every operation, assembled from the chunks -/

universe u

/-- What holds of every element of two lists holds of every element of their concatenation. -/
theorem mem_append_of {α : Type u} {p : α → Prop} {l₁ l₂ : List α} (h₁ : ∀ x ∈ l₁, p x) (h₂ : ∀ x ∈ l₂, p x) :
    ∀ x ∈ l₁ ++ l₂, p x :=
  fun x hx => (List.mem_append.mp hx).elim (h₁ x) (h₂ x)

/-- A chunk's side condition, element by element. -/
theorem sub_of {l : List (HloOp τ sig (Elt F))} (h : l.Forall fun op => op.bufs ⊆ tcRefs τ sig) :
    ∀ op ∈ l, op.bufs ⊆ tcRefs τ sig :=
  List.forall_iff_forall_mem.mp h

theorem ops_part0_sub : ∀ op ∈ (ops_part0 : List (HloOp τ sig (Elt F))), op.bufs ⊆ tcRefs τ sig :=
  mem_append_of (sub_of ops_c00_sub) (sub_of ops_c01_sub)
theorem ops_part1_sub : ∀ op ∈ (ops_part1 : List (HloOp τ sig (Elt F))), op.bufs ⊆ tcRefs τ sig :=
  mem_append_of (sub_of ops_c02_sub) (mem_append_of (sub_of ops_c03_sub) (mem_append_of (sub_of ops_c04_sub) (sub_of ops_c05_sub)))
theorem ops_part2_sub : ∀ op ∈ (ops_part2 : List (HloOp τ sig (Elt F))), op.bufs ⊆ tcRefs τ sig :=
  mem_append_of (sub_of ops_c06_sub) (mem_append_of (sub_of ops_c07_sub) (mem_append_of (sub_of ops_c08_sub) (sub_of ops_c09_sub)))
theorem ops_part3_sub : ∀ op ∈ (ops_part3 : List (HloOp τ sig (Elt F))), op.bufs ⊆ tcRefs τ sig :=
  mem_append_of (sub_of ops_c10_sub) (mem_append_of (sub_of ops_c11_sub) (mem_append_of (sub_of ops_c12_sub) (mem_append_of (sub_of ops_c13_sub) (sub_of ops_c14_sub))))
theorem ops_part4_sub : ∀ op ∈ (ops_part4 : List (HloOp τ sig (Elt F))), op.bufs ⊆ tcRefs τ sig :=
  mem_append_of (sub_of ops_c15_sub) (mem_append_of (sub_of ops_c16_sub) (mem_append_of (sub_of ops_c17_sub) (sub_of ops_c18_sub)))
theorem ops_part5_sub : ∀ op ∈ (ops_part5 : List (HloOp τ sig (Elt F))), op.bufs ⊆ tcRefs τ sig :=
  mem_append_of (sub_of ops_c19_sub) (mem_append_of (sub_of ops_c20_sub) (sub_of ops_c21_sub))

/-- Every operation of @main touches TensorCore references only. -/
theorem ops_sub : (ops : List (HloOp τ sig (Elt F))).Forall fun op => op.bufs ⊆ tcRefs τ sig :=
  List.forall_iff_forall_mem.mpr
    (mem_append_of ops_part0_sub (mem_append_of ops_part1_sub (mem_append_of ops_part2_sub (mem_append_of ops_part3_sub (mem_append_of ops_part4_sub ops_part5_sub)))))

theorem ops_part0_fresh : ∀ op ∈ (ops_part0 : List (HloOp τ sig (Elt F))), op.fresh = ∅ :=
  mem_append_of ops_c00_fresh ops_c01_fresh
theorem ops_part1_fresh : ∀ op ∈ (ops_part1 : List (HloOp τ sig (Elt F))), op.fresh = ∅ :=
  mem_append_of ops_c02_fresh (mem_append_of ops_c03_fresh (mem_append_of ops_c04_fresh ops_c05_fresh))
theorem ops_part2_fresh : ∀ op ∈ (ops_part2 : List (HloOp τ sig (Elt F))), op.fresh = ∅ :=
  mem_append_of ops_c06_fresh (mem_append_of ops_c07_fresh (mem_append_of ops_c08_fresh ops_c09_fresh))
theorem ops_part3_fresh : ∀ op ∈ (ops_part3 : List (HloOp τ sig (Elt F))), op.fresh = ∅ :=
  mem_append_of ops_c10_fresh (mem_append_of ops_c11_fresh (mem_append_of ops_c12_fresh (mem_append_of ops_c13_fresh ops_c14_fresh)))
theorem ops_part4_fresh : ∀ op ∈ (ops_part4 : List (HloOp τ sig (Elt F))), op.fresh = ∅ :=
  mem_append_of ops_c15_fresh (mem_append_of ops_c16_fresh (mem_append_of ops_c17_fresh ops_c18_fresh))
theorem ops_part5_fresh : ∀ op ∈ (ops_part5 : List (HloOp τ sig (Elt F))), op.fresh = ∅ :=
  mem_append_of ops_c19_fresh (mem_append_of ops_c20_fresh ops_c21_fresh)

/-- Every operation of @main determines its results. -/
theorem ops_fresh : ∀ op ∈ (ops : List (HloOp τ sig (Elt F))), op.fresh = ∅ :=
  mem_append_of ops_part0_fresh (mem_append_of ops_part1_fresh (mem_append_of ops_part2_fresh (mem_append_of ops_part3_fresh (mem_append_of ops_part4_fresh ops_part5_fresh))))

/-! ## The fold over @main's operations, chunk by chunk -/

/-- The contents after @main's operations are the contents after its 22 chunks in order (`after_append`). -/
theorem after_ops (V : Valuation τ sig (Elt F)) :
    after ops V
      = after ops_c21 (after ops_c20 (after ops_c19 (after ops_c18 (after ops_c17 (after ops_c16 (after ops_c15 (after ops_c14 (after ops_c13 (after ops_c12 (after ops_c11 (after ops_c10 (after ops_c09 (after ops_c08 (after ops_c07 (after ops_c06 (after ops_c05 (after ops_c04 (after ops_c03 (after ops_c02 (after ops_c01 (after ops_c00 V))))))))))))))))))))) := by
  simp only [ops, ops_part0, ops_part1, ops_part2, ops_part3, ops_part4, ops_part5, after_append]

/-- The buffers @main's operations write, chunk after chunk. -/
abbrev ops_W : List (Ref sig .tc) :=
  ops_c00_W ++ (ops_c01_W ++ (ops_c02_W ++ (ops_c03_W ++ (ops_c04_W ++ (ops_c05_W ++ (
  ops_c06_W ++ (ops_c07_W ++ (ops_c08_W ++ (ops_c09_W ++ (ops_c10_W ++ (ops_c11_W ++ (
  ops_c12_W ++ (ops_c13_W ++ (ops_c14_W ++ (ops_c15_W ++ (ops_c16_W ++ (ops_c17_W ++ (
  ops_c18_W ++ (ops_c19_W ++ (ops_c20_W ++ ops_c21_W))))))))))))))))))))

/-- A buffer that no operation writes holds after @main's operations what it held before them: it is outside every
    chunk's written buffers, and each chunk in turn keeps it. -/
theorem ops_keep (V : Valuation τ sig (Elt F)) (r : Ref sig .tc) (h : r ∉ ops_W) :
    after ops V (Proc.devRef .tc r) = V (Proc.devRef .tc r) := by
  simp only [ops_W, List.mem_append, not_or] at h
  obtain ⟨h00, h01, h02, h03, h04, h05, h06, h07, h08, h09, h10, h11, h12, h13, h14, h15, h16, h17, h18, h19, h20, h21⟩ := h
  rw [after_ops, keep_c21 _ r h21, keep_c20 _ r h20, keep_c19 _ r h19, keep_c18 _ r h18, keep_c17 _ r h17,
    keep_c16 _ r h16, keep_c15 _ r h15, keep_c14 _ r h14, keep_c13 _ r h13, keep_c12 _ r h12,
    keep_c11 _ r h11, keep_c10 _ r h10, keep_c09 _ r h09, keep_c08 _ r h08, keep_c07 _ r h07,
    keep_c06 _ r h06, keep_c05 _ r h05, keep_c04 _ r h04, keep_c03 _ r h03, keep_c02 _ r h02,
    keep_c01 _ r h01, keep_c00 _ r h00]

/-! ## The run -/

/-- On every device, for any float values, from any memory with zero counters: every weakly fair execution of @main
    terminates, with the result buffer at the fold of the 434 operations' results over the launch contents and every
    argument buffer at its launch contents (no operation writes an argument: membership in the list of written buffers,
    decided). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v265) = after ops (launchContents m c) (Proc.devRef .tc main_v265)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨h c main_v265,
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide)),
      (h c main_arg13).trans (ops_keep _ main_arg13 (by decide)),
      (h c main_arg14).trans (ops_keep _ main_arg14 (by decide)),
      (h c main_arg15).trans (ops_keep _ main_arg15 (by decide)),
      (h c main_arg16).trans (ops_keep _ main_arg16 (by decide)),
      (h c main_arg17).trans (ops_keep _ main_arg17 (by decide)),
      (h c main_arg18).trans (ops_keep _ main_arg18 (by decide)),
      (h c main_arg19).trans (ops_keep _ main_arg19 (by decide)),
      (h c main_arg20).trans (ops_keep _ main_arg20 (by decide)),
      (h c main_arg21).trans (ops_keep _ main_arg21 (by decide)),
      (h c main_arg22).trans (ops_keep _ main_arg22 (by decide)),
      (h c main_arg23).trans (ops_keep _ main_arg23 (by decide))⟩)
    (run_seq scopedRefs_eq scopedSems_eq defs main (fun _ => ops) main_eq (fun _ => ops_sub) m ρ (fun _ => ops_fresh))

/-- The reference's frame: it runs, and its argument arrays end unchanged (the run's second half, at the extended reals;
    the precondition is not needed). -/
theorem frame_ri : Cert.frame_ReferenceIdeal := fun m ρ _ =>
  (θ_run Cert.ReferenceIdeal.defs _ _).mono (fun _ h c => (h c).2) (run (F := Ideal) m ρ)

end Cert.ReferenceIdeal.HandRun

end
-- ==== Proof.RefStages.lean ====
/-
  The reference network's stages as plain functions of array contents, each written with the program's own operations:
  the edge lists with their self loops and the edge weights; per width (32, 128, 16) message passing along the edges,
  the column means, the two-pass column variances, the normalisation with scale and shift, the leaky rectifier; per layer
  the pre-normalisation activations (matrix product, message passing, bias) and the whole layer; the linear head.
  Nothing is proved here: the modules that read the program's run state its buffers in these terms.
-/
import proofs.«109725_j21638045237575_1_alg».proof.Proof.Gen.ReferenceIdeal

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The edge lists and the edge weights -/

/-- The edge sources with the self loops appended: row 0 of the edge table as a vector of 1600000, then 0 … 99999. -/
def refSrc (ei : IVec S2x1600000 32) : IVec S1700000 32 :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩]
    concatenates_S1600000_S100000_S1700000_d0

/-- The edge targets with the self loops appended: row 1 of the edge table, then 0 … 99999. -/
def refDst (ei : IVec S2x1600000 32) : IVec S1700000 32 :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩]
    concatenates_S1600000_S100000_S1700000_d0

/-- A vector of node numbers as a gather's or scatter's index column: a negative entry is moved up by 100000 first. -/
def refWrap (x : IVec S1700000 32) : IVec S1700000x1 32 :=
  broadcastInDim S1700000x1 ![0] bcast_S1700000_S1700000x1_0
    (select (cmpi .slt x (broadcastInDim S1700000 ![] bcast_S_S1700000 (constantI S_ 32 0#32)))
      (addi x (broadcastInDim S1700000 ![] bcast_S_S1700000 (constantI S_ 32 100000#32))) x)

/-- The reciprocal square root of every node's degree: a one added at each edge's target onto zeros, then rsqrt. -/
def refDinv (dst : IVec S1700000 32) : FVec F S100000 .f32 :=
  Host.rsqrt (Host.scatterAdd scatter_S100000_S1700000x1_S1700000_n_0_0_1
    (broadcastInDim S100000 ![] bcast_S_S100000 (constant S_ .f32 0x00000000#32)) (refWrap dst)
    (broadcastInDim S1700000 ![] bcast_S_S1700000 (constant S_ .f32 0x3F800000#32)))

/-- The edge weights: the product of the reciprocal root degrees of an edge's source and target. -/
def refNorm (src dst : IVec S1700000 32) : FVec F S1700000 .f32 :=
  mulf (Host.gather gather_S100000_S1700000x1_S1700000_n_0_n_n_0_1_1 (refDinv dst) (refWrap src))
    (Host.gather gather_S100000_S1700000x1_S1700000_n_0_n_n_0_1_1 (refDinv dst) (refWrap dst))

/-! ## Width 32 -/

/-- Message passing at width 32: the rows of z gathered at the edges' sources, weighted, and added up at the edges'
    targets onto zeros. -/
def refAgg32 (z : FVec F S100000x32 .f32) (src dst : IVec S1700000 32) (nrm : FVec F S1700000 .f32) : FVec F S100000x32 .f32 :=
  Host.scatterAdd scatter_S100000x32_S1700000x1_S1700000x32_1_0_0_1
    (broadcastInDim S100000x32 ![] bcast_S_S100000x32 (constant S_ .f32 0x00000000#32)) (refWrap dst)
    (mulf (Host.gather gather_S100000x32_S1700000x1_S1700000x32_1_0_n_n_0_1_132 z (refWrap src))
      (broadcastInDim S1700000x32 ![0, 1] bcast_S1700000x1_S1700000x32_0_1
        (broadcastInDim S1700000x1 ![0] bcast_S1700000_S1700000x1_0 nrm)))

/-- A row vector of width 32 repeated down the 100000 rows. -/
def refRows32 (v : FVec F S32 .f32) : FVec F S100000x32 .f32 :=
  broadcastInDim S100000x32 ![0, 1] bcast_S1x32_S100000x32_0_1 (broadcastInDim S1x32 ![1] bcast_S32_S1x32_1 v)

/-- The column means at width 32: the column sums, started from the zero word, over the word of 100000. -/
def refMean32 (a : FVec F S100000x32 .f32) : FVec F S32 .f32 :=
  Host.divf (Host.reduceAdd a (constant S_ .f32 0x00000000#32) reducesTo_S100000x32_S32_d0 h_S_)
    (broadcastInDim S32 ![] bcast_S_S32 (constant S_ .f32 0x47C35000#32))

/-- The deviations from the column means as the variance function computes them (its own column sums and quotient). -/
def refDev32 (a : FVec F S100000x32 .f32) : FVec F S100000x32 .f32 :=
  subf a (broadcastInDim S100000x32 ![0, 1] bcast_S1x32_S100000x32_0_1
    (Host.divf (broadcastInDim S1x32 ![1] bcast_S32_S1x32_1
        (Host.reduceAdd a (constant S_ .f32 0x00000000#32) reducesTo_S100000x32_S32_d0 h_S_))
      (broadcastInDim S1x32 ![] bcast_S_S1x32 (constant S_ .f32 0x47C35000#32))))

/-- The column variances at width 32, two passes: the sums of the squared deviations over 100000 minus the converted
    correction 0, guarded by the count being positive (the word 0x7FC00000 on the branch not taken). -/
def refVar32 (a : FVec F S100000x32 .f32) : FVec F S32 .f32 :=
  select
    (broadcastInDim S32 ![] bcast_S_S32
      (cmpf (F := F) .ogt (subf (constant S_ .f32 0x47C35000#32) (sitofp .f32 (constantI S_ 32 0#32))) (constant S_ .f32 0x00000000#32)))
    (Host.divf (Host.reduceAdd (mulf (refDev32 a) (refDev32 a)) (constant S_ .f32 0x00000000#32) reducesTo_S100000x32_S32_d0 h_S_)
      (broadcastInDim S32 ![] bcast_S_S32 (subf (constant S_ .f32 0x47C35000#32) (sitofp .f32 (constantI S_ 32 0#32)))))
    (broadcastInDim S32 ![] bcast_S_S32 (id (constant S_ .f32 0x7FC00000#32)))

/-- The normalised, scaled and shifted activations at width 32. -/
def refNrm32 (a : FVec F S100000x32 .f32) (mean var g b : FVec F S32 .f32) : FVec F S100000x32 .f32 :=
  addf (mulf (mulf (subf a (refRows32 mean))
      (refRows32 (Host.rsqrt (addf var (broadcastInDim S32 ![] bcast_S_S32 (constant S_ .f32 0x3727C5AC#32))))))
    (refRows32 g)) (refRows32 b)

/-- A layer's output at width 32: the leaky rectifier, slope word 0x3C23D70A, of the normalised activations. -/
def refOut32 (a : FVec F S100000x32 .f32) (mean var g b : FVec F S32 .f32) : FVec F S100000x32 .f32 :=
  select (cmpf .oge (refNrm32 a mean var g b) (broadcastInDim S100000x32 ![] bcast_S_S100000x32 (constant S_ .f32 0x00000000#32)))
    (refNrm32 a mean var g b)
    (mulf (broadcastInDim S100000x32 ![] bcast_S_S100000x32 (constant S_ .f32 0x3C23D70A#32)) (refNrm32 a mean var g b))

/-- Batch normalisation and the leaky rectifier at width 32, from the pre-normalisation activations alone. -/
def refBn32 (a : FVec F S100000x32 .f32) (g b : FVec F S32 .f32) : FVec F S100000x32 .f32 :=
  refOut32 a (refMean32 a) (refVar32 a) g b

/-! ## Width 128 -/

/-- Message passing at width 128: the rows of z gathered at the edges' sources, weighted, and added up at the edges'
    targets onto zeros. -/
def refAgg128 (z : FVec F S100000x128 .f32) (src dst : IVec S1700000 32) (nrm : FVec F S1700000 .f32) : FVec F S100000x128 .f32 :=
  Host.scatterAdd scatter_S100000x128_S1700000x1_S1700000x128_1_0_0_1
    (broadcastInDim S100000x128 ![] bcast_S_S100000x128 (constant S_ .f32 0x00000000#32)) (refWrap dst)
    (mulf (Host.gather gather_S100000x128_S1700000x1_S1700000x128_1_0_n_n_0_1_1128 z (refWrap src))
      (broadcastInDim S1700000x128 ![0, 1] bcast_S1700000x1_S1700000x128_0_1
        (broadcastInDim S1700000x1 ![0] bcast_S1700000_S1700000x1_0 nrm)))

/-- A row vector of width 128 repeated down the 100000 rows. -/
def refRows128 (v : FVec F S128 .f32) : FVec F S100000x128 .f32 :=
  broadcastInDim S100000x128 ![0, 1] bcast_S1x128_S100000x128_0_1 (broadcastInDim S1x128 ![1] bcast_S128_S1x128_1 v)

/-- The column means at width 128: the column sums, started from the zero word, over the word of 100000. -/
def refMean128 (a : FVec F S100000x128 .f32) : FVec F S128 .f32 :=
  Host.divf (Host.reduceAdd a (constant S_ .f32 0x00000000#32) reducesTo_S100000x128_S128_d0 h_S_)
    (broadcastInDim S128 ![] bcast_S_S128 (constant S_ .f32 0x47C35000#32))

/-- The deviations from the column means as the variance function computes them (its own column sums and quotient). -/
def refDev128 (a : FVec F S100000x128 .f32) : FVec F S100000x128 .f32 :=
  subf a (broadcastInDim S100000x128 ![0, 1] bcast_S1x128_S100000x128_0_1
    (Host.divf (broadcastInDim S1x128 ![1] bcast_S128_S1x128_1
        (Host.reduceAdd a (constant S_ .f32 0x00000000#32) reducesTo_S100000x128_S128_d0 h_S_))
      (broadcastInDim S1x128 ![] bcast_S_S1x128 (constant S_ .f32 0x47C35000#32))))

/-- The column variances at width 128, two passes: the sums of the squared deviations over 100000 minus the converted
    correction 0, guarded by the count being positive (the word 0x7FC00000 on the branch not taken). -/
def refVar128 (a : FVec F S100000x128 .f32) : FVec F S128 .f32 :=
  select
    (broadcastInDim S128 ![] bcast_S_S128
      (cmpf (F := F) .ogt (subf (constant S_ .f32 0x47C35000#32) (sitofp .f32 (constantI S_ 32 0#32))) (constant S_ .f32 0x00000000#32)))
    (Host.divf (Host.reduceAdd (mulf (refDev128 a) (refDev128 a)) (constant S_ .f32 0x00000000#32) reducesTo_S100000x128_S128_d0 h_S_)
      (broadcastInDim S128 ![] bcast_S_S128 (subf (constant S_ .f32 0x47C35000#32) (sitofp .f32 (constantI S_ 32 0#32)))))
    (broadcastInDim S128 ![] bcast_S_S128 (id (constant S_ .f32 0x7FC00000#32)))

/-- The normalised, scaled and shifted activations at width 128. -/
def refNrm128 (a : FVec F S100000x128 .f32) (mean var g b : FVec F S128 .f32) : FVec F S100000x128 .f32 :=
  addf (mulf (mulf (subf a (refRows128 mean))
      (refRows128 (Host.rsqrt (addf var (broadcastInDim S128 ![] bcast_S_S128 (constant S_ .f32 0x3727C5AC#32))))))
    (refRows128 g)) (refRows128 b)

/-- A layer's output at width 128: the leaky rectifier, slope word 0x3C23D70A, of the normalised activations. -/
def refOut128 (a : FVec F S100000x128 .f32) (mean var g b : FVec F S128 .f32) : FVec F S100000x128 .f32 :=
  select (cmpf .oge (refNrm128 a mean var g b) (broadcastInDim S100000x128 ![] bcast_S_S100000x128 (constant S_ .f32 0x00000000#32)))
    (refNrm128 a mean var g b)
    (mulf (broadcastInDim S100000x128 ![] bcast_S_S100000x128 (constant S_ .f32 0x3C23D70A#32)) (refNrm128 a mean var g b))

/-- Batch normalisation and the leaky rectifier at width 128, from the pre-normalisation activations alone. -/
def refBn128 (a : FVec F S100000x128 .f32) (g b : FVec F S128 .f32) : FVec F S100000x128 .f32 :=
  refOut128 a (refMean128 a) (refVar128 a) g b

/-! ## Width 16 -/

/-- Message passing at width 16: the rows of z gathered at the edges' sources, weighted, and added up at the edges'
    targets onto zeros. -/
def refAgg16 (z : FVec F S100000x16 .f32) (src dst : IVec S1700000 32) (nrm : FVec F S1700000 .f32) : FVec F S100000x16 .f32 :=
  Host.scatterAdd scatter_S100000x16_S1700000x1_S1700000x16_1_0_0_1
    (broadcastInDim S100000x16 ![] bcast_S_S100000x16 (constant S_ .f32 0x00000000#32)) (refWrap dst)
    (mulf (Host.gather gather_S100000x16_S1700000x1_S1700000x16_1_0_n_n_0_1_116 z (refWrap src))
      (broadcastInDim S1700000x16 ![0, 1] bcast_S1700000x1_S1700000x16_0_1
        (broadcastInDim S1700000x1 ![0] bcast_S1700000_S1700000x1_0 nrm)))

/-- A row vector of width 16 repeated down the 100000 rows. -/
def refRows16 (v : FVec F S16 .f32) : FVec F S100000x16 .f32 :=
  broadcastInDim S100000x16 ![0, 1] bcast_S1x16_S100000x16_0_1 (broadcastInDim S1x16 ![1] bcast_S16_S1x16_1 v)

/-- The column means at width 16: the column sums, started from the zero word, over the word of 100000. -/
def refMean16 (a : FVec F S100000x16 .f32) : FVec F S16 .f32 :=
  Host.divf (Host.reduceAdd a (constant S_ .f32 0x00000000#32) reducesTo_S100000x16_S16_d0 h_S_)
    (broadcastInDim S16 ![] bcast_S_S16 (constant S_ .f32 0x47C35000#32))

/-- The deviations from the column means as the variance function computes them (its own column sums and quotient). -/
def refDev16 (a : FVec F S100000x16 .f32) : FVec F S100000x16 .f32 :=
  subf a (broadcastInDim S100000x16 ![0, 1] bcast_S1x16_S100000x16_0_1
    (Host.divf (broadcastInDim S1x16 ![1] bcast_S16_S1x16_1
        (Host.reduceAdd a (constant S_ .f32 0x00000000#32) reducesTo_S100000x16_S16_d0 h_S_))
      (broadcastInDim S1x16 ![] bcast_S_S1x16 (constant S_ .f32 0x47C35000#32))))

/-- The column variances at width 16, two passes: the sums of the squared deviations over 100000 minus the converted
    correction 0, guarded by the count being positive (the word 0x7FC00000 on the branch not taken). -/
def refVar16 (a : FVec F S100000x16 .f32) : FVec F S16 .f32 :=
  select
    (broadcastInDim S16 ![] bcast_S_S16
      (cmpf (F := F) .ogt (subf (constant S_ .f32 0x47C35000#32) (sitofp .f32 (constantI S_ 32 0#32))) (constant S_ .f32 0x00000000#32)))
    (Host.divf (Host.reduceAdd (mulf (refDev16 a) (refDev16 a)) (constant S_ .f32 0x00000000#32) reducesTo_S100000x16_S16_d0 h_S_)
      (broadcastInDim S16 ![] bcast_S_S16 (subf (constant S_ .f32 0x47C35000#32) (sitofp .f32 (constantI S_ 32 0#32)))))
    (broadcastInDim S16 ![] bcast_S_S16 (id (constant S_ .f32 0x7FC00000#32)))

/-- The normalised, scaled and shifted activations at width 16. -/
def refNrm16 (a : FVec F S100000x16 .f32) (mean var g b : FVec F S16 .f32) : FVec F S100000x16 .f32 :=
  addf (mulf (mulf (subf a (refRows16 mean))
      (refRows16 (Host.rsqrt (addf var (broadcastInDim S16 ![] bcast_S_S16 (constant S_ .f32 0x3727C5AC#32))))))
    (refRows16 g)) (refRows16 b)

/-- A layer's output at width 16: the leaky rectifier, slope word 0x3C23D70A, of the normalised activations. -/
def refOut16 (a : FVec F S100000x16 .f32) (mean var g b : FVec F S16 .f32) : FVec F S100000x16 .f32 :=
  select (cmpf .oge (refNrm16 a mean var g b) (broadcastInDim S100000x16 ![] bcast_S_S100000x16 (constant S_ .f32 0x00000000#32)))
    (refNrm16 a mean var g b)
    (mulf (broadcastInDim S100000x16 ![] bcast_S_S100000x16 (constant S_ .f32 0x3C23D70A#32)) (refNrm16 a mean var g b))

/-- Batch normalisation and the leaky rectifier at width 16, from the pre-normalisation activations alone. -/
def refBn16 (a : FVec F S100000x16 .f32) (g b : FVec F S16 .f32) : FVec F S100000x16 .f32 :=
  refOut16 a (refMean16 a) (refVar16 a) g b

/-! ## The layers -/

/-- Layer 1's pre-normalisation activations: the input rows times the 6×32 weights, passed along the edges, plus the bias. -/
def refPre1 (h : FVec F S100000x6 .f32) (w : FVec F S6x32 .f32) (b : FVec F S32 .f32)
    (src dst : IVec S1700000 32) (nrm : FVec F S1700000 .f32) : FVec F S100000x32 .f32 :=
  addf (refAgg32 (Host.dotGeneral dot_S100000x6_S6x32_S100000x32_1_0_0_1_n_n none h w) src dst nrm) (refRows32 b)

/-- Layer 1: pre-normalisation activations, batch normalisation, leaky rectifier. -/
def refLayer1 (h : FVec F S100000x6 .f32) (w : FVec F S6x32 .f32) (b g be : FVec F S32 .f32)
    (src dst : IVec S1700000 32) (nrm : FVec F S1700000 .f32) : FVec F S100000x32 .f32 :=
  refBn32 (refPre1 h w b src dst nrm) g be

/-- Layer 2's pre-normalisation activations: the input rows times the 32×128 weights, passed along the edges, plus the bias. -/
def refPre2 (h : FVec F S100000x32 .f32) (w : FVec F S32x128 .f32) (b : FVec F S128 .f32)
    (src dst : IVec S1700000 32) (nrm : FVec F S1700000 .f32) : FVec F S100000x128 .f32 :=
  addf (refAgg128 (Host.dotGeneral dot_S100000x32_S32x128_S100000x128_1_0_0_1_n_n none h w) src dst nrm) (refRows128 b)

/-- Layer 2: pre-normalisation activations, batch normalisation, leaky rectifier. -/
def refLayer2 (h : FVec F S100000x32 .f32) (w : FVec F S32x128 .f32) (b g be : FVec F S128 .f32)
    (src dst : IVec S1700000 32) (nrm : FVec F S1700000 .f32) : FVec F S100000x128 .f32 :=
  refBn128 (refPre2 h w b src dst nrm) g be

/-- Layer 3's pre-normalisation activations: the input rows times the 128×128 weights, passed along the edges, plus the bias. -/
def refPre3 (h : FVec F S100000x128 .f32) (w : FVec F S128x128 .f32) (b : FVec F S128 .f32)
    (src dst : IVec S1700000 32) (nrm : FVec F S1700000 .f32) : FVec F S100000x128 .f32 :=
  addf (refAgg128 (Host.dotGeneral dot_S100000x128_S128x128_S100000x128_1_0_0_1_n_n none h w) src dst nrm) (refRows128 b)

/-- Layer 3: pre-normalisation activations, batch normalisation, leaky rectifier. -/
def refLayer3 (h : FVec F S100000x128 .f32) (w : FVec F S128x128 .f32) (b g be : FVec F S128 .f32)
    (src dst : IVec S1700000 32) (nrm : FVec F S1700000 .f32) : FVec F S100000x128 .f32 :=
  refBn128 (refPre3 h w b src dst nrm) g be

/-- Layer 4's pre-normalisation activations: the input rows times the 128×32 weights, passed along the edges, plus the bias. -/
def refPre4 (h : FVec F S100000x128 .f32) (w : FVec F S128x32 .f32) (b : FVec F S32 .f32)
    (src dst : IVec S1700000 32) (nrm : FVec F S1700000 .f32) : FVec F S100000x32 .f32 :=
  addf (refAgg32 (Host.dotGeneral dot_S100000x128_S128x32_S100000x32_1_0_0_1_n_n none h w) src dst nrm) (refRows32 b)

/-- Layer 4: pre-normalisation activations, batch normalisation, leaky rectifier. -/
def refLayer4 (h : FVec F S100000x128 .f32) (w : FVec F S128x32 .f32) (b g be : FVec F S32 .f32)
    (src dst : IVec S1700000 32) (nrm : FVec F S1700000 .f32) : FVec F S100000x32 .f32 :=
  refBn32 (refPre4 h w b src dst nrm) g be

/-- Layer 5's pre-normalisation activations: the input rows times the 32×16 weights, passed along the edges, plus the bias. -/
def refPre5 (h : FVec F S100000x32 .f32) (w : FVec F S32x16 .f32) (b : FVec F S16 .f32)
    (src dst : IVec S1700000 32) (nrm : FVec F S1700000 .f32) : FVec F S100000x16 .f32 :=
  addf (refAgg16 (Host.dotGeneral dot_S100000x32_S32x16_S100000x16_1_0_0_1_n_n none h w) src dst nrm) (refRows16 b)

/-- Layer 5: pre-normalisation activations, batch normalisation, leaky rectifier. -/
def refLayer5 (h : FVec F S100000x32 .f32) (w : FVec F S32x16 .f32) (b g be : FVec F S16 .f32)
    (src dst : IVec S1700000 32) (nrm : FVec F S1700000 .f32) : FVec F S100000x16 .f32 :=
  refBn16 (refPre5 h w b src dst nrm) g be

/-- The linear head: the rows times the 16×3 weights plus the bias. -/
def refHead (h : FVec F S100000x16 .f32) (w : FVec F S16x3 .f32) (b : FVec F S3 .f32) : FVec F S100000x3 .f32 :=
  addf (Host.dotGeneral dot_S100000x16_S16x3_S100000x3_1_0_0_1_n_n none h w)
    (broadcastInDim S100000x3 ![0, 1] bcast_S1x3_S100000x3_0_1 (broadcastInDim S1x3 ![1] bcast_S3_S1x3_1 b))

end Cert.ReferenceIdeal.HandRun

end
-- ==== Proof.RefFactsA.lean ====
/-
  What the stretches of the reference program's operations leave in their result buffers, each as a stage function
  (RefStages.lean) of the contents the stretch starts from: the prologue and layers 1 and 2.
  Each is the fold of the stretch's operations read off at the buffer (every operation's result at its own buffer, any
  other buffer as it was), after which the two sides agree by unfolding; the typed references that an outlined function's
  operations go through are the identity at these literal buffers.
-/
import proofs.«109725_j21638045237575_1_alg».proof.Proof.RefOps
import proofs.«109725_j21638045237575_1_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The prologue's three results -/

set_option maxRecDepth 8192 in
set_option maxHeartbeats 4000000 in
/-- The prologue leaves the edge sources, self loops appended, in their buffer. -/
theorem pro_src (V : Valuation τ sig (Elt F)) :
    after ops_c00 V (Proc.devRef .tc main_v3) = refSrc (V (Proc.devRef .tc main_arg1)) := by
  simp only [ops_c00]
  after_results_simp
  rfl

set_option maxRecDepth 8192 in
set_option maxHeartbeats 4000000 in
/-- … the edge targets in theirs … -/
theorem pro_dst (V : Valuation τ sig (Elt F)) :
    after ops_c00 V (Proc.devRef .tc main_v6) = refDst (V (Proc.devRef .tc main_arg1)) := by
  simp only [ops_c00]
  after_results_simp
  rfl

set_option maxRecDepth 8192 in
set_option maxHeartbeats 4000000 in
/-- … and the edge weights in theirs. -/
theorem pro_nrm (V : Valuation τ sig (Elt F)) :
    after ops_c00 V (Proc.devRef .tc main_v31)
      = refNorm (refSrc (V (Proc.devRef .tc main_arg1))) (refDst (V (Proc.devRef .tc main_arg1))) := by
  simp only [ops_c00]
  after_results_simp
  rfl

/-! ## Layer 1 -/

set_option maxRecDepth 8192 in
set_option maxHeartbeats 4000000 in
/-- Layer 1's first stretch leaves the pre-normalisation activations of the input rows, the weights, the bias and the
    edge data it starts from. -/
theorem L1_pre (V : Valuation τ sig (Elt F)) :
    after ops_c02 (after ops_c01 V) (Proc.devRef .tc main_v53)
      = refPre1 (V (Proc.devRef .tc main_arg0)) (V (Proc.devRef .tc main_arg2)) (V (Proc.devRef .tc main_arg3))
          (V (Proc.devRef .tc main_v3)) (V (Proc.devRef .tc main_v6)) (V (Proc.devRef .tc main_v31)) := by
  simp only [ops_c01, ops_c02]
  after_results_simp
  rfl

set_option maxRecDepth 8192 in
set_option maxHeartbeats 4000000 in
/-- Its second stretch leaves the column means of the activations it starts from … -/
theorem L1_mean (V : Valuation τ sig (Elt F)) :
    after ops_c03 V (Proc.devRef .tc main_v56) = refMean32 (V (Proc.devRef .tc main_v53)) := by
  simp only [ops_c03]
  after_results_simp
  rfl

set_option maxRecDepth 8192 in
set_option maxHeartbeats 4000000 in
/-- … and their column variances. -/
theorem L1_var (V : Valuation τ sig (Elt F)) :
    after ops_c03 V (Proc.devRef .tc main_v57) = refVar32 (V (Proc.devRef .tc main_v53)) := by
  simp only [ops_c03]
  after_results_simp
  rfl

set_option maxRecDepth 8192 in
set_option maxHeartbeats 4000000 in
/-- Its third stretch leaves the layer's output of the activations, the statistics, the scale and the shift. -/
theorem L1_out (V : Valuation τ sig (Elt F)) :
    after ops_c04 V (Proc.devRef .tc main_v77)
      = refOut32 (V (Proc.devRef .tc main_v53)) (V (Proc.devRef .tc main_v56)) (V (Proc.devRef .tc main_v57))
          (V (Proc.devRef .tc main_arg4)) (V (Proc.devRef .tc main_arg5)) := by
  simp only [ops_c04]
  after_results_simp
  rfl

/-! ## Layer 2 -/

set_option maxRecDepth 8192 in
set_option maxHeartbeats 4000000 in
/-- Layer 2's first stretch leaves the pre-normalisation activations of the input rows, the weights, the bias and the
    edge data it starts from. -/
theorem L2_pre (V : Valuation τ sig (Elt F)) :
    after ops_c06 (after ops_c05 V) (Proc.devRef .tc main_v99)
      = refPre2 (V (Proc.devRef .tc main_v77)) (V (Proc.devRef .tc main_arg6)) (V (Proc.devRef .tc main_arg7))
          (V (Proc.devRef .tc main_v3)) (V (Proc.devRef .tc main_v6)) (V (Proc.devRef .tc main_v31)) := by
  simp only [ops_c05, ops_c06]
  after_results_simp
  rfl

set_option maxRecDepth 8192 in
set_option maxHeartbeats 4000000 in
/-- Its second stretch leaves the column means of the activations it starts from … -/
theorem L2_mean (V : Valuation τ sig (Elt F)) :
    after ops_c07 V (Proc.devRef .tc main_v102) = refMean128 (V (Proc.devRef .tc main_v99)) := by
  simp only [ops_c07]
  after_results_simp
  rfl

set_option maxRecDepth 8192 in
set_option maxHeartbeats 4000000 in
/-- … and their column variances. -/
theorem L2_var (V : Valuation τ sig (Elt F)) :
    after ops_c07 V (Proc.devRef .tc main_v103) = refVar128 (V (Proc.devRef .tc main_v99)) := by
  simp only [ops_c07]
  after_results_simp
  rfl

set_option maxRecDepth 8192 in
set_option maxHeartbeats 4000000 in
/-- Its third stretch leaves the layer's output of the activations, the statistics, the scale and the shift. -/
theorem L2_out (V : Valuation τ sig (Elt F)) :
    after ops_c08 V (Proc.devRef .tc main_v123)
      = refOut128 (V (Proc.devRef .tc main_v99)) (V (Proc.devRef .tc main_v102)) (V (Proc.devRef .tc main_v103))
          (V (Proc.devRef .tc main_arg8)) (V (Proc.devRef .tc main_arg9)) := by
  simp only [ops_c08]
  after_results_simp
  rfl

end Cert.ReferenceIdeal.HandRun

end
-- ==== Proof.RefFactsB.lean ====
/-
  What the stretches of the reference program's operations leave in their result buffers, each as a stage function
  (RefStages.lean) of the contents the stretch starts from: layers 3 and 4.
  Each is the fold of the stretch's operations read off at the buffer (every operation's result at its own buffer, any
  other buffer as it was), after which the two sides agree by unfolding; the typed references that an outlined function's
  operations go through are the identity at these literal buffers.
-/
import proofs.«109725_j21638045237575_1_alg».proof.Proof.RefOps
import proofs.«109725_j21638045237575_1_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## Layer 3 -/

set_option maxRecDepth 8192 in
set_option maxHeartbeats 4000000 in
/-- Layer 3's first stretch leaves the pre-normalisation activations of the input rows, the weights, the bias and the
    edge data it starts from. -/
theorem L3_pre (V : Valuation τ sig (Elt F)) :
    after ops_c10 (after ops_c09 V) (Proc.devRef .tc main_v145)
      = refPre3 (V (Proc.devRef .tc main_v123)) (V (Proc.devRef .tc main_arg10)) (V (Proc.devRef .tc main_arg11))
          (V (Proc.devRef .tc main_v3)) (V (Proc.devRef .tc main_v6)) (V (Proc.devRef .tc main_v31)) := by
  simp only [ops_c09, ops_c10]
  after_results_simp
  rfl

set_option maxRecDepth 8192 in
set_option maxHeartbeats 4000000 in
/-- Its second stretch leaves the column means of the activations it starts from … -/
theorem L3_mean (V : Valuation τ sig (Elt F)) :
    after ops_c11 V (Proc.devRef .tc main_v148) = refMean128 (V (Proc.devRef .tc main_v145)) := by
  simp only [ops_c11]
  after_results_simp
  rfl

set_option maxRecDepth 8192 in
set_option maxHeartbeats 4000000 in
/-- … and their column variances. -/
theorem L3_var (V : Valuation τ sig (Elt F)) :
    after ops_c11 V (Proc.devRef .tc main_v149) = refVar128 (V (Proc.devRef .tc main_v145)) := by
  simp only [ops_c11]
  after_results_simp
  rfl

set_option maxRecDepth 8192 in
set_option maxHeartbeats 4000000 in
/-- Its third stretch leaves the layer's output of the activations, the statistics, the scale and the shift. -/
theorem L3_out (V : Valuation τ sig (Elt F)) :
    after ops_c12 V (Proc.devRef .tc main_v169)
      = refOut128 (V (Proc.devRef .tc main_v145)) (V (Proc.devRef .tc main_v148)) (V (Proc.devRef .tc main_v149))
          (V (Proc.devRef .tc main_arg12)) (V (Proc.devRef .tc main_arg13)) := by
  simp only [ops_c12]
  after_results_simp
  rfl

/-! ## Layer 4 -/

set_option maxRecDepth 8192 in
set_option maxHeartbeats 4000000 in
/-- Layer 4's first stretch leaves the pre-normalisation activations of the input rows, the weights, the bias and the
    edge data it starts from. -/
theorem L4_pre (V : Valuation τ sig (Elt F)) :
    after ops_c13 V (Proc.devRef .tc main_v191)
      = refPre4 (V (Proc.devRef .tc main_v169)) (V (Proc.devRef .tc main_arg14)) (V (Proc.devRef .tc main_arg15))
          (V (Proc.devRef .tc main_v3)) (V (Proc.devRef .tc main_v6)) (V (Proc.devRef .tc main_v31)) := by
  simp only [ops_c13]
  after_results_simp
  rfl

set_option maxRecDepth 8192 in
set_option maxHeartbeats 4000000 in
/-- Its second stretch leaves the column means of the activations it starts from … -/
theorem L4_mean (V : Valuation τ sig (Elt F)) :
    after ops_c15 (after ops_c14 V) (Proc.devRef .tc main_v194) = refMean32 (V (Proc.devRef .tc main_v191)) := by
  simp only [ops_c14, ops_c15]
  after_results_simp
  rfl

set_option maxRecDepth 8192 in
set_option maxHeartbeats 4000000 in
/-- … and their column variances. -/
theorem L4_var (V : Valuation τ sig (Elt F)) :
    after ops_c15 (after ops_c14 V) (Proc.devRef .tc main_v195) = refVar32 (V (Proc.devRef .tc main_v191)) := by
  simp only [ops_c14, ops_c15]
  after_results_simp
  rfl

set_option maxRecDepth 8192 in
set_option maxHeartbeats 4000000 in
/-- Its third stretch leaves the layer's output of the activations, the statistics, the scale and the shift. -/
theorem L4_out (V : Valuation τ sig (Elt F)) :
    after ops_c16 V (Proc.devRef .tc main_v215)
      = refOut32 (V (Proc.devRef .tc main_v191)) (V (Proc.devRef .tc main_v194)) (V (Proc.devRef .tc main_v195))
          (V (Proc.devRef .tc main_arg16)) (V (Proc.devRef .tc main_arg17)) := by
  simp only [ops_c16]
  after_results_simp
  rfl

end Cert.ReferenceIdeal.HandRun

end
-- ==== Proof.RefFactsC.lean ====
/-
  What the stretches of the reference program's operations leave in their result buffers, each as a stage function
  (RefStages.lean) of the contents the stretch starts from: layer 5 and the head.
  Each is the fold of the stretch's operations read off at the buffer (every operation's result at its own buffer, any
  other buffer as it was), after which the two sides agree by unfolding; the typed references that an outlined function's
  operations go through are the identity at these literal buffers.
-/
import proofs.«109725_j21638045237575_1_alg».proof.Proof.RefOps
import proofs.«109725_j21638045237575_1_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## Layer 5 -/

set_option maxRecDepth 8192 in
set_option maxHeartbeats 4000000 in
/-- Layer 5's first stretch leaves the pre-normalisation activations of the input rows, the weights, the bias and the
    edge data it starts from. -/
theorem L5_pre (V : Valuation τ sig (Elt F)) :
    after ops_c17 V (Proc.devRef .tc main_v237)
      = refPre5 (V (Proc.devRef .tc main_v215)) (V (Proc.devRef .tc main_arg18)) (V (Proc.devRef .tc main_arg19))
          (V (Proc.devRef .tc main_v3)) (V (Proc.devRef .tc main_v6)) (V (Proc.devRef .tc main_v31)) := by
  simp only [ops_c17]
  after_results_simp
  rfl

set_option maxRecDepth 8192 in
set_option maxHeartbeats 4000000 in
/-- Its second stretch leaves the column means of the activations it starts from … -/
theorem L5_mean (V : Valuation τ sig (Elt F)) :
    after ops_c19 (after ops_c18 V) (Proc.devRef .tc main_v240) = refMean16 (V (Proc.devRef .tc main_v237)) := by
  simp only [ops_c18, ops_c19]
  after_results_simp
  rfl

set_option maxRecDepth 8192 in
set_option maxHeartbeats 4000000 in
/-- … and their column variances. -/
theorem L5_var (V : Valuation τ sig (Elt F)) :
    after ops_c19 (after ops_c18 V) (Proc.devRef .tc main_v241) = refVar16 (V (Proc.devRef .tc main_v237)) := by
  simp only [ops_c18, ops_c19]
  after_results_simp
  rfl

set_option maxRecDepth 8192 in
set_option maxHeartbeats 4000000 in
/-- Its third stretch leaves the layer's output of the activations, the statistics, the scale and the shift. -/
theorem L5_out (V : Valuation τ sig (Elt F)) :
    after ops_c20 V (Proc.devRef .tc main_v261)
      = refOut16 (V (Proc.devRef .tc main_v237)) (V (Proc.devRef .tc main_v240)) (V (Proc.devRef .tc main_v241))
          (V (Proc.devRef .tc main_arg20)) (V (Proc.devRef .tc main_arg21)) := by
  simp only [ops_c20]
  after_results_simp
  rfl

/-! ## The head -/

set_option maxRecDepth 8192 in
set_option maxHeartbeats 4000000 in
/-- The last stretch leaves the linear head of the fifth layer's output. -/
theorem head_out (V : Valuation τ sig (Elt F)) :
    after ops_c21 V (Proc.devRef .tc main_v265)
      = refHead (V (Proc.devRef .tc main_v261)) (V (Proc.devRef .tc main_arg22)) (V (Proc.devRef .tc main_arg23)) := by
  simp only [ops_c21]
  after_results_simp
  rfl

end Cert.ReferenceIdeal.HandRun

end
-- ==== Proof.RefNet.lean ====
/-
  The reference's result as ONE function of its arguments. The run ends with the result buffer at the fold of the 434
  operations; that fold is read stretch by stretch. An invariant says what every later stage still holds — the edge
  sources, targets and weights the prologue computed, and the arguments, which nothing writes. From contents satisfying
  it each layer's three stretches leave the layer function of the rows they found and of the layer's parameters, and
  the invariant again; the five layers and the head compose to `refNet`.
-/
import proofs.«109725_j21638045237575_1_alg».proof.Proof.RefFactsA
import proofs.«109725_j21638045237575_1_alg».proof.Proof.RefFactsB
import proofs.«109725_j21638045237575_1_alg».proof.Proof.RefFactsC
import proofs.«109725_j21638045237575_1_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## Which buffers the operations leave alone -/

/-- A buffer outside the list of all written buffers is outside each chunk's. -/
theorem not_mem_chunks {r : Ref sig .tc} (h : r ∉ ops_W) :
    r ∉ ops_c00_W ∧ r ∉ ops_c01_W ∧ r ∉ ops_c02_W ∧ r ∉ ops_c03_W ∧ r ∉ ops_c04_W ∧ r ∉ ops_c05_W ∧ r ∉ ops_c06_W
      ∧ r ∉ ops_c07_W ∧ r ∉ ops_c08_W ∧ r ∉ ops_c09_W ∧ r ∉ ops_c10_W ∧ r ∉ ops_c11_W ∧ r ∉ ops_c12_W
      ∧ r ∉ ops_c13_W ∧ r ∉ ops_c14_W ∧ r ∉ ops_c15_W ∧ r ∉ ops_c16_W ∧ r ∉ ops_c17_W ∧ r ∉ ops_c18_W
      ∧ r ∉ ops_c19_W ∧ r ∉ ops_c20_W ∧ r ∉ ops_c21_W := by
  simpa only [ops_W, List.mem_append, not_or] using h

theorem arg0_not_written : main_arg0 ∉ ops_W := by decide
theorem arg1_not_written : main_arg1 ∉ ops_W := by decide
theorem arg2_not_written : main_arg2 ∉ ops_W := by decide
theorem arg3_not_written : main_arg3 ∉ ops_W := by decide
theorem arg4_not_written : main_arg4 ∉ ops_W := by decide
theorem arg5_not_written : main_arg5 ∉ ops_W := by decide
theorem arg6_not_written : main_arg6 ∉ ops_W := by decide
theorem arg7_not_written : main_arg7 ∉ ops_W := by decide
theorem arg8_not_written : main_arg8 ∉ ops_W := by decide
theorem arg9_not_written : main_arg9 ∉ ops_W := by decide
theorem arg10_not_written : main_arg10 ∉ ops_W := by decide
theorem arg11_not_written : main_arg11 ∉ ops_W := by decide
theorem arg12_not_written : main_arg12 ∉ ops_W := by decide
theorem arg13_not_written : main_arg13 ∉ ops_W := by decide
theorem arg14_not_written : main_arg14 ∉ ops_W := by decide
theorem arg15_not_written : main_arg15 ∉ ops_W := by decide
theorem arg16_not_written : main_arg16 ∉ ops_W := by decide
theorem arg17_not_written : main_arg17 ∉ ops_W := by decide
theorem arg18_not_written : main_arg18 ∉ ops_W := by decide
theorem arg19_not_written : main_arg19 ∉ ops_W := by decide
theorem arg20_not_written : main_arg20 ∉ ops_W := by decide
theorem arg21_not_written : main_arg21 ∉ ops_W := by decide
theorem arg22_not_written : main_arg22 ∉ ops_W := by decide
theorem arg23_not_written : main_arg23 ∉ ops_W := by decide

/-! ## What every stage still holds -/

/-- What the contents `W` at a later stage of the run from `V` still hold: the edge sources, targets and weights that the
    prologue computed from the edge table, and every buffer that no operation writes (the arguments) as at the start. -/
structure Inv (V W : Valuation τ sig (Elt F)) : Prop where
  src : W (Proc.devRef .tc main_v3) = refSrc (V (Proc.devRef .tc main_arg1))
  dst : W (Proc.devRef .tc main_v6) = refDst (V (Proc.devRef .tc main_arg1))
  nrm : W (Proc.devRef .tc main_v31) = refNorm (refSrc (V (Proc.devRef .tc main_arg1))) (refDst (V (Proc.devRef .tc main_arg1)))
  arg : ∀ r : Ref sig .tc, r ∉ ops_W → W (Proc.devRef .tc r) = V (Proc.devRef .tc r)

/-- A stretch that writes none of the three edge buffers keeps the invariant. -/
theorem Inv.step {V W : Valuation τ sig (Elt F)} (h : Inv V W) (c : List (HloOp τ sig (Elt F))) (Wc : List (Ref sig .tc))
    (keep : ∀ (U : Valuation τ sig (Elt F)) (r : Ref sig .tc), r ∉ Wc → after c U (Proc.devRef .tc r) = U (Proc.devRef .tc r))
    (h3 : main_v3 ∉ Wc) (h6 : main_v6 ∉ Wc) (h31 : main_v31 ∉ Wc) (hsub : ∀ r : Ref sig .tc, r ∉ ops_W → r ∉ Wc) :
    Inv V (after c W) :=
  ⟨(keep W _ h3).trans h.src, (keep W _ h6).trans h.dst, (keep W _ h31).trans h.nrm,
    fun r hr => (keep W r (hsub r hr)).trans (h.arg r hr)⟩

/-- The prologue establishes the invariant. -/
theorem Inv.start (V : Valuation τ sig (Elt F)) : Inv V (after ops_c00 V) :=
  ⟨pro_src V, pro_dst V, pro_nrm V, fun r hr => keep_c00 V r (not_mem_chunks hr).1⟩

theorem Inv.step01 {V W : Valuation τ sig (Elt F)} (h : Inv V W) : Inv V (after ops_c01 W) :=
  h.step ops_c01 ops_c01_W keep_c01 (by decide) (by decide) (by decide) fun _ hr => (not_mem_chunks hr).2.1
theorem Inv.step02 {V W : Valuation τ sig (Elt F)} (h : Inv V W) : Inv V (after ops_c02 W) :=
  h.step ops_c02 ops_c02_W keep_c02 (by decide) (by decide) (by decide) fun _ hr => (not_mem_chunks hr).2.2.1
theorem Inv.step03 {V W : Valuation τ sig (Elt F)} (h : Inv V W) : Inv V (after ops_c03 W) :=
  h.step ops_c03 ops_c03_W keep_c03 (by decide) (by decide) (by decide) fun _ hr => (not_mem_chunks hr).2.2.2.1
theorem Inv.step04 {V W : Valuation τ sig (Elt F)} (h : Inv V W) : Inv V (after ops_c04 W) :=
  h.step ops_c04 ops_c04_W keep_c04 (by decide) (by decide) (by decide) fun _ hr => (not_mem_chunks hr).2.2.2.2.1
theorem Inv.step05 {V W : Valuation τ sig (Elt F)} (h : Inv V W) : Inv V (after ops_c05 W) :=
  h.step ops_c05 ops_c05_W keep_c05 (by decide) (by decide) (by decide) fun _ hr => (not_mem_chunks hr).2.2.2.2.2.1
theorem Inv.step06 {V W : Valuation τ sig (Elt F)} (h : Inv V W) : Inv V (after ops_c06 W) :=
  h.step ops_c06 ops_c06_W keep_c06 (by decide) (by decide) (by decide) fun _ hr => (not_mem_chunks hr).2.2.2.2.2.2.1
theorem Inv.step07 {V W : Valuation τ sig (Elt F)} (h : Inv V W) : Inv V (after ops_c07 W) :=
  h.step ops_c07 ops_c07_W keep_c07 (by decide) (by decide) (by decide) fun _ hr => (not_mem_chunks hr).2.2.2.2.2.2.2.1
theorem Inv.step08 {V W : Valuation τ sig (Elt F)} (h : Inv V W) : Inv V (after ops_c08 W) :=
  h.step ops_c08 ops_c08_W keep_c08 (by decide) (by decide) (by decide) fun _ hr => (not_mem_chunks hr).2.2.2.2.2.2.2.2.1
theorem Inv.step09 {V W : Valuation τ sig (Elt F)} (h : Inv V W) : Inv V (after ops_c09 W) :=
  h.step ops_c09 ops_c09_W keep_c09 (by decide) (by decide) (by decide) fun _ hr => (not_mem_chunks hr).2.2.2.2.2.2.2.2.2.1
theorem Inv.step10 {V W : Valuation τ sig (Elt F)} (h : Inv V W) : Inv V (after ops_c10 W) :=
  h.step ops_c10 ops_c10_W keep_c10 (by decide) (by decide) (by decide) fun _ hr => (not_mem_chunks hr).2.2.2.2.2.2.2.2.2.2.1
theorem Inv.step11 {V W : Valuation τ sig (Elt F)} (h : Inv V W) : Inv V (after ops_c11 W) :=
  h.step ops_c11 ops_c11_W keep_c11 (by decide) (by decide) (by decide) fun _ hr => (not_mem_chunks hr).2.2.2.2.2.2.2.2.2.2.2.1
theorem Inv.step12 {V W : Valuation τ sig (Elt F)} (h : Inv V W) : Inv V (after ops_c12 W) :=
  h.step ops_c12 ops_c12_W keep_c12 (by decide) (by decide) (by decide) fun _ hr => (not_mem_chunks hr).2.2.2.2.2.2.2.2.2.2.2.2.1
theorem Inv.step13 {V W : Valuation τ sig (Elt F)} (h : Inv V W) : Inv V (after ops_c13 W) :=
  h.step ops_c13 ops_c13_W keep_c13 (by decide) (by decide) (by decide) fun _ hr => (not_mem_chunks hr).2.2.2.2.2.2.2.2.2.2.2.2.2.1
theorem Inv.step14 {V W : Valuation τ sig (Elt F)} (h : Inv V W) : Inv V (after ops_c14 W) :=
  h.step ops_c14 ops_c14_W keep_c14 (by decide) (by decide) (by decide) fun _ hr => (not_mem_chunks hr).2.2.2.2.2.2.2.2.2.2.2.2.2.2.1
theorem Inv.step15 {V W : Valuation τ sig (Elt F)} (h : Inv V W) : Inv V (after ops_c15 W) :=
  h.step ops_c15 ops_c15_W keep_c15 (by decide) (by decide) (by decide) fun _ hr => (not_mem_chunks hr).2.2.2.2.2.2.2.2.2.2.2.2.2.2.2.1
theorem Inv.step16 {V W : Valuation τ sig (Elt F)} (h : Inv V W) : Inv V (after ops_c16 W) :=
  h.step ops_c16 ops_c16_W keep_c16 (by decide) (by decide) (by decide) fun _ hr => (not_mem_chunks hr).2.2.2.2.2.2.2.2.2.2.2.2.2.2.2.2.1
theorem Inv.step17 {V W : Valuation τ sig (Elt F)} (h : Inv V W) : Inv V (after ops_c17 W) :=
  h.step ops_c17 ops_c17_W keep_c17 (by decide) (by decide) (by decide) fun _ hr => (not_mem_chunks hr).2.2.2.2.2.2.2.2.2.2.2.2.2.2.2.2.2.1
theorem Inv.step18 {V W : Valuation τ sig (Elt F)} (h : Inv V W) : Inv V (after ops_c18 W) :=
  h.step ops_c18 ops_c18_W keep_c18 (by decide) (by decide) (by decide) fun _ hr => (not_mem_chunks hr).2.2.2.2.2.2.2.2.2.2.2.2.2.2.2.2.2.2.1
theorem Inv.step19 {V W : Valuation τ sig (Elt F)} (h : Inv V W) : Inv V (after ops_c19 W) :=
  h.step ops_c19 ops_c19_W keep_c19 (by decide) (by decide) (by decide) fun _ hr => (not_mem_chunks hr).2.2.2.2.2.2.2.2.2.2.2.2.2.2.2.2.2.2.2.1
theorem Inv.step20 {V W : Valuation τ sig (Elt F)} (h : Inv V W) : Inv V (after ops_c20 W) :=
  h.step ops_c20 ops_c20_W keep_c20 (by decide) (by decide) (by decide) fun _ hr => (not_mem_chunks hr).2.2.2.2.2.2.2.2.2.2.2.2.2.2.2.2.2.2.2.2.1
theorem Inv.step21 {V W : Valuation τ sig (Elt F)} (h : Inv V W) : Inv V (after ops_c21 W) :=
  h.step ops_c21 ops_c21_W keep_c21 (by decide) (by decide) (by decide) fun _ hr => (not_mem_chunks hr).2.2.2.2.2.2.2.2.2.2.2.2.2.2.2.2.2.2.2.2.2

/-! ## One layer at a time -/

/-- Layer 1, from contents that satisfy the invariant: its three stretches leave the layer's output of the input rows
    found in `W` and the layer's parameters as at the start of the run, and the invariant holds again. -/
theorem layer1_step {V W : Valuation τ sig (Elt F)} (h : Inv V W) :
    ∃ W' : Valuation τ sig (Elt F), after ops_c04 (after ops_c03 (after ops_c02 (after ops_c01 W))) = W' ∧ Inv V W' ∧
      W' (Proc.devRef .tc main_v77)
        = refLayer1 (W (Proc.devRef .tc main_arg0)) (V (Proc.devRef .tc main_arg2)) (V (Proc.devRef .tc main_arg3)) (V (Proc.devRef .tc main_arg4)) (V (Proc.devRef .tc main_arg5))
            (refSrc (V (Proc.devRef .tc main_arg1))) (refDst (V (Proc.devRef .tc main_arg1))) (refNorm (refSrc (V (Proc.devRef .tc main_arg1))) (refDst (V (Proc.devRef .tc main_arg1)))) := by
  have i1 := h.step01
  have i2 := i1.step02
  have i3 := i2.step03
  have i4 := i3.step04
  refine ⟨_, rfl, i4, ?_⟩
  rw [L1_out, L1_mean, L1_var, keep_c03 _ main_v53 (by decide), L1_pre,
    i3.arg main_arg4 arg4_not_written, i3.arg main_arg5 arg5_not_written,
    h.arg main_arg2 arg2_not_written, h.arg main_arg3 arg3_not_written, h.src, h.dst, h.nrm]
  rfl

/-- Layer 2, from contents that satisfy the invariant: its three stretches leave the layer's output of the input rows
    found in `W` and the layer's parameters as at the start of the run, and the invariant holds again. -/
theorem layer2_step {V W : Valuation τ sig (Elt F)} (h : Inv V W) :
    ∃ W' : Valuation τ sig (Elt F), after ops_c08 (after ops_c07 (after ops_c06 (after ops_c05 W))) = W' ∧ Inv V W' ∧
      W' (Proc.devRef .tc main_v123)
        = refLayer2 (W (Proc.devRef .tc main_v77)) (V (Proc.devRef .tc main_arg6)) (V (Proc.devRef .tc main_arg7)) (V (Proc.devRef .tc main_arg8)) (V (Proc.devRef .tc main_arg9))
            (refSrc (V (Proc.devRef .tc main_arg1))) (refDst (V (Proc.devRef .tc main_arg1))) (refNorm (refSrc (V (Proc.devRef .tc main_arg1))) (refDst (V (Proc.devRef .tc main_arg1)))) := by
  have i1 := h.step05
  have i2 := i1.step06
  have i3 := i2.step07
  have i4 := i3.step08
  refine ⟨_, rfl, i4, ?_⟩
  rw [L2_out, L2_mean, L2_var, keep_c07 _ main_v99 (by decide), L2_pre,
    i3.arg main_arg8 arg8_not_written, i3.arg main_arg9 arg9_not_written,
    h.arg main_arg6 arg6_not_written, h.arg main_arg7 arg7_not_written, h.src, h.dst, h.nrm]
  rfl

/-- Layer 3, from contents that satisfy the invariant: its three stretches leave the layer's output of the input rows
    found in `W` and the layer's parameters as at the start of the run, and the invariant holds again. -/
theorem layer3_step {V W : Valuation τ sig (Elt F)} (h : Inv V W) :
    ∃ W' : Valuation τ sig (Elt F), after ops_c12 (after ops_c11 (after ops_c10 (after ops_c09 W))) = W' ∧ Inv V W' ∧
      W' (Proc.devRef .tc main_v169)
        = refLayer3 (W (Proc.devRef .tc main_v123)) (V (Proc.devRef .tc main_arg10)) (V (Proc.devRef .tc main_arg11)) (V (Proc.devRef .tc main_arg12)) (V (Proc.devRef .tc main_arg13))
            (refSrc (V (Proc.devRef .tc main_arg1))) (refDst (V (Proc.devRef .tc main_arg1))) (refNorm (refSrc (V (Proc.devRef .tc main_arg1))) (refDst (V (Proc.devRef .tc main_arg1)))) := by
  have i1 := h.step09
  have i2 := i1.step10
  have i3 := i2.step11
  have i4 := i3.step12
  refine ⟨_, rfl, i4, ?_⟩
  rw [L3_out, L3_mean, L3_var, keep_c11 _ main_v145 (by decide), L3_pre,
    i3.arg main_arg12 arg12_not_written, i3.arg main_arg13 arg13_not_written,
    h.arg main_arg10 arg10_not_written, h.arg main_arg11 arg11_not_written, h.src, h.dst, h.nrm]
  rfl

/-- Layer 4, from contents that satisfy the invariant: its three stretches leave the layer's output of the input rows
    found in `W` and the layer's parameters as at the start of the run, and the invariant holds again. -/
theorem layer4_step {V W : Valuation τ sig (Elt F)} (h : Inv V W) :
    ∃ W' : Valuation τ sig (Elt F), after ops_c16 (after ops_c15 (after ops_c14 (after ops_c13 W))) = W' ∧ Inv V W' ∧
      W' (Proc.devRef .tc main_v215)
        = refLayer4 (W (Proc.devRef .tc main_v169)) (V (Proc.devRef .tc main_arg14)) (V (Proc.devRef .tc main_arg15)) (V (Proc.devRef .tc main_arg16)) (V (Proc.devRef .tc main_arg17))
            (refSrc (V (Proc.devRef .tc main_arg1))) (refDst (V (Proc.devRef .tc main_arg1))) (refNorm (refSrc (V (Proc.devRef .tc main_arg1))) (refDst (V (Proc.devRef .tc main_arg1)))) := by
  have i1 := h.step13
  have i2 := i1.step14
  have i3 := i2.step15
  have i4 := i3.step16
  refine ⟨_, rfl, i4, ?_⟩
  rw [L4_out, L4_mean, L4_var, keep_c15 _ main_v191 (by decide), keep_c14 _ main_v191 (by decide), L4_pre,
    i3.arg main_arg16 arg16_not_written, i3.arg main_arg17 arg17_not_written,
    h.arg main_arg14 arg14_not_written, h.arg main_arg15 arg15_not_written, h.src, h.dst, h.nrm]
  rfl

/-- Layer 5, from contents that satisfy the invariant: its three stretches leave the layer's output of the input rows
    found in `W` and the layer's parameters as at the start of the run, and the invariant holds again. -/
theorem layer5_step {V W : Valuation τ sig (Elt F)} (h : Inv V W) :
    ∃ W' : Valuation τ sig (Elt F), after ops_c20 (after ops_c19 (after ops_c18 (after ops_c17 W))) = W' ∧ Inv V W' ∧
      W' (Proc.devRef .tc main_v261)
        = refLayer5 (W (Proc.devRef .tc main_v215)) (V (Proc.devRef .tc main_arg18)) (V (Proc.devRef .tc main_arg19)) (V (Proc.devRef .tc main_arg20)) (V (Proc.devRef .tc main_arg21))
            (refSrc (V (Proc.devRef .tc main_arg1))) (refDst (V (Proc.devRef .tc main_arg1))) (refNorm (refSrc (V (Proc.devRef .tc main_arg1))) (refDst (V (Proc.devRef .tc main_arg1)))) := by
  have i1 := h.step17
  have i2 := i1.step18
  have i3 := i2.step19
  have i4 := i3.step20
  refine ⟨_, rfl, i4, ?_⟩
  rw [L5_out, L5_mean, L5_var, keep_c19 _ main_v237 (by decide), keep_c18 _ main_v237 (by decide), L5_pre,
    i3.arg main_arg20 arg20_not_written, i3.arg main_arg21 arg21_not_written,
    h.arg main_arg18 arg18_not_written, h.arg main_arg19 arg19_not_written, h.src, h.dst, h.nrm]
  rfl

/-! ## The whole network -/

/-- The reference's result as a function of the contents of its 24 argument buffers: the edge lists and weights from the
    edge table, five layers one after the other, the linear head. -/
def refNet (V : Valuation τ sig (Elt F)) : FVec F S100000x3 .f32 :=
  refHead (refLayer5 (refLayer4 (refLayer3 (refLayer2 (refLayer1 (V (Proc.devRef .tc main_arg0)) (V (Proc.devRef .tc main_arg2)) (V (Proc.devRef .tc main_arg3)) (V (Proc.devRef .tc main_arg4)) (V (Proc.devRef .tc main_arg5))
      (refSrc (V (Proc.devRef .tc main_arg1))) (refDst (V (Proc.devRef .tc main_arg1))) (refNorm (refSrc (V (Proc.devRef .tc main_arg1))) (refDst (V (Proc.devRef .tc main_arg1))))) (V (Proc.devRef .tc main_arg6)) (V (Proc.devRef .tc main_arg7)) (V (Proc.devRef .tc main_arg8)) (V (Proc.devRef .tc main_arg9))
      (refSrc (V (Proc.devRef .tc main_arg1))) (refDst (V (Proc.devRef .tc main_arg1))) (refNorm (refSrc (V (Proc.devRef .tc main_arg1))) (refDst (V (Proc.devRef .tc main_arg1))))) (V (Proc.devRef .tc main_arg10)) (V (Proc.devRef .tc main_arg11)) (V (Proc.devRef .tc main_arg12)) (V (Proc.devRef .tc main_arg13))
      (refSrc (V (Proc.devRef .tc main_arg1))) (refDst (V (Proc.devRef .tc main_arg1))) (refNorm (refSrc (V (Proc.devRef .tc main_arg1))) (refDst (V (Proc.devRef .tc main_arg1))))) (V (Proc.devRef .tc main_arg14)) (V (Proc.devRef .tc main_arg15)) (V (Proc.devRef .tc main_arg16)) (V (Proc.devRef .tc main_arg17))
      (refSrc (V (Proc.devRef .tc main_arg1))) (refDst (V (Proc.devRef .tc main_arg1))) (refNorm (refSrc (V (Proc.devRef .tc main_arg1))) (refDst (V (Proc.devRef .tc main_arg1))))) (V (Proc.devRef .tc main_arg18)) (V (Proc.devRef .tc main_arg19)) (V (Proc.devRef .tc main_arg20)) (V (Proc.devRef .tc main_arg21))
      (refSrc (V (Proc.devRef .tc main_arg1))) (refDst (V (Proc.devRef .tc main_arg1))) (refNorm (refSrc (V (Proc.devRef .tc main_arg1))) (refDst (V (Proc.devRef .tc main_arg1)))))
    (V (Proc.devRef .tc main_arg22)) (V (Proc.devRef .tc main_arg23))

/-- After @main's 434 operations the result buffer holds `refNet` of the contents at the start: the prologue, then each
    layer's step from the invariant the previous one left, then the head. -/
theorem result_eq (V : Valuation τ sig (Elt F)) : after ops V (Proc.devRef .tc main_v265) = refNet V := by
  rw [after_ops]
  have i0 := Inv.start V
  obtain ⟨W1, e1, i1, o1⟩ := layer1_step i0
  rw [i0.arg main_arg0 arg0_not_written] at o1
  rw [e1]
  obtain ⟨W2, e2, i2, o2⟩ := layer2_step i1
  rw [o1] at o2
  rw [e2]
  obtain ⟨W3, e3, i3, o3⟩ := layer3_step i2
  rw [o2] at o3
  rw [e3]
  obtain ⟨W4, e4, i4, o4⟩ := layer4_step i3
  rw [o3] at o4
  rw [e4]
  obtain ⟨W5, e5, i5, o5⟩ := layer5_step i4
  rw [o4] at o5
  rw [e5, head_out, o5, i5.arg main_arg22 arg22_not_written, i5.arg main_arg23 arg23_not_written]
  rfl

/-- The run, with the result named: every weakly fair execution of @main terminates with the result buffer at `refNet` of
    the launch contents and the argument buffers unchanged. -/
theorem run_net (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v265) = refNet (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c).1.trans (result_eq _), (h c).2⟩) (run m ρ)

end Cert.ReferenceIdeal.HandRun

end
-- ==== Proof.RefIdeal.lean ====
/-
  The reference network's width-level stage functions read at an index, at the extended reals (F := Ideal), for the
  three widths 32, 128 and 16: a repeated row vector; the host's column sum as the initial value plus the sum of the
  column's 100000 entries; the column mean; the deviation from the mean as the variance function computes it; the
  two-pass variance in a plain two-pass program's spelling; the normalised, scaled and shifted activation; the leaky
  rectifier's select. Each is the stage function unfolded at the index: a broadcast reads the operand at the index with
  the repeated axes dropped, the host's quotient, reciprocal square root, comparison and sum are the exact ones.
-/
import proofs.«109725_j21638045237575_1_alg».proof.Proof.RefStages
import Idealize.ShloMosaic.PureOps.Ideal
import Idealize.ShloMosaic.PureOps.Ideal.Laws
import Idealize.ShloMosaic.Lib.ValueIdx

noncomputable section

namespace Cert.ReferenceIdeal.HandRun

open Cert.ReferenceIdeal Cert.ReferenceIdeal.Gen Idealize.ShloMosaic
open Idealize.ShloMosaic.ValueIdx

/-! ## Width 32: the stage functions read at an index, at the extended reals -/

/-- A one-row array repeated down the 100000 rows reads, at row n and column o, the row at column o. -/
theorem bc2_32 {α : Type} (u : S1x32.Idx → α) (n : Fin 100000) (o : Fin 32) :
    broadcastInDim S100000x32 ![0, 1] bcast_S1x32_S100000x32_0_1 u (ix2 n o) = u (ix2 (0 : Fin 1) o) := by
  unfold broadcastInDim
  exact congrArg u (funext fun d => Fin.ext (by match d with | ⟨0, _⟩ => rfl | ⟨1, _⟩ => rfl))

/-- A vector of width 32 as a one-row array reads, at column o, the vector at o. -/
theorem bc1_32 {α : Type} (v : S32.Idx → α) (o : Fin 32) :
    broadcastInDim S1x32 ![1] bcast_S32_S1x32_1 v (ix2 (0 : Fin 1) o) = v (ix1 o) := by
  unfold broadcastInDim
  exact congrArg v (funext fun d => Fin.ext (by match d with | ⟨0, _⟩ => rfl))

/-- A row vector repeated down the rows reads, at row n and column o, the vector at o. -/
theorem refRows32_apply (v : FVec Ideal S32 .f32) (n : Fin 100000) (o : Fin 32) :
    refRows32 (F := Ideal) v (ix2 n o) = v (ix1 o) := by
  unfold refRows32
  rw [bc2_32, bc1_32]

/-- The host's column sum of a 100000 × 32 array of extended reals, read at column o: the initial value plus the sum
    of the column's 100000 entries. -/
theorem colsum32 (x : FVec Ideal S100000x32 .f32) (init : Ideal .f32) (o : Fin 32) :
    Ideal.hostReduceAdd reducesTo_S100000x32_S32_d0 x init (ix1 o) = init + ∑ n : Fin 100000, x (ix2 n o) := by
  rw [Ideal.hostReduceAdd_single reducesTo_S100000x32_S32_d0 (by decide)]
  refine congrArg (_ + ·) (Finset.sum_congr rfl fun k _ => ?_)
  exact congrArg x (funext fun d => Fin.ext (by match d with | ⟨0, _⟩ => rfl | ⟨1, _⟩ => rfl))

/-- The column mean, read at column o: the zero word plus the column's sum, over the word of 100000. -/
theorem refMean32_apply (a : FVec Ideal S100000x32 .f32) (o : Fin 32) :
    refMean32 (F := Ideal) a (ix1 o)
      = Ideal.div (Ideal.ofBits .f32 0x00000000#32 + ∑ n : Fin 100000, a (ix2 n o)) (Ideal.ofBits .f32 0x47C35000#32) := by
  rw [← colsum32]
  rfl

/-- The deviation from the column mean as the variance function computes it, read at row n and column o. -/
theorem refDev32_apply (a : FVec Ideal S100000x32 .f32) (n : Fin 100000) (o : Fin 32) :
    refDev32 (F := Ideal) a (ix2 n o)
      = a (ix2 n o)
        - Ideal.div (Ideal.ofBits .f32 0x00000000#32 + ∑ k : Fin 100000, a (ix2 k o)) (Ideal.ofBits .f32 0x47C35000#32) := by
  unfold refDev32
  show a (ix2 n o) - broadcastInDim (s := S1x32) S100000x32 ![0, 1] bcast_S1x32_S100000x32_0_1 _ (ix2 n o) = _
  rw [bc2_32]
  show a (ix2 n o) - Ideal.div (broadcastInDim (s := S32) S1x32 ![1] bcast_S32_S1x32_1 _ (ix2 (0 : Fin 1) o)) _ = _
  rw [bc1_32]
  show a (ix2 n o) - Ideal.div (Ideal.hostReduceAdd reducesTo_S100000x32_S32_d0 a _ (ix1 o)) _ = _
  rw [colsum32]
  rfl

/-- The two-pass column variance, read at column o, in a plain two-pass program's spelling: both sums started from the
    zero word, the count 100000 less the converted correction z, the quotient guarded by the count being positive, the
    word 0x7FC00000 on the branch not taken. -/
theorem refVar32_apply (a : FVec Ideal S100000x32 .f32) (o : Fin 32) :
    refVar32 (F := Ideal) a (ix1 o)
      = Scalar.select
          (Ideal.cmp .ogt (Ideal.ofBits .f32 0x47C35000#32 - FloatOps.sitofp (F := Ideal) .f32 (0#32 : BitVec 32))
            (Ideal.ofBits .f32 0x00000000#32))
          (Ideal.div
            (Ideal.ofBits .f32 0x00000000#32
              + ∑ k : Fin 100000,
                  (a (ix2 k o) - Ideal.div (Ideal.ofBits .f32 0x00000000#32 + ∑ k : Fin 100000, a (ix2 k o)) (Ideal.ofBits .f32 0x47C35000#32))
                  * (a (ix2 k o) - Ideal.div (Ideal.ofBits .f32 0x00000000#32 + ∑ k : Fin 100000, a (ix2 k o)) (Ideal.ofBits .f32 0x47C35000#32)))
            (Ideal.ofBits .f32 0x47C35000#32 - FloatOps.sitofp (F := Ideal) .f32 (0#32 : BitVec 32)))
          (Ideal.ofBits .f32 0x7FC00000#32) := by
  have hsq : ∀ k : Fin 100000, (mulf (refDev32 (F := Ideal) a) (refDev32 (F := Ideal) a)) (ix2 k o)
      = (a (ix2 k o) - Ideal.div (Ideal.ofBits .f32 0x00000000#32 + ∑ k : Fin 100000, a (ix2 k o)) (Ideal.ofBits .f32 0x47C35000#32))
        * (a (ix2 k o) - Ideal.div (Ideal.ofBits .f32 0x00000000#32 + ∑ k : Fin 100000, a (ix2 k o)) (Ideal.ofBits .f32 0x47C35000#32)) := by
    intro k
    show refDev32 (F := Ideal) a (ix2 k o) * refDev32 (F := Ideal) a (ix2 k o) = _
    rw [refDev32_apply]
  rw [← Finset.sum_congr rfl fun k _ => hsq k, ← colsum32]
  rfl

/-- The normalised, scaled and shifted activation, read at row n and column o. -/
theorem refNrm32_apply (a : FVec Ideal S100000x32 .f32) (mean var g b : FVec Ideal S32 .f32) (n : Fin 100000) (o : Fin 32) :
    refNrm32 (F := Ideal) a mean var g b (ix2 n o)
      = (a (ix2 n o) - mean (ix1 o)) * Ideal.rsqrt (var (ix1 o) + Ideal.ofBits .f32 0x3727C5AC#32) * g (ix1 o) + b (ix1 o) := by
  unfold refNrm32
  show (a (ix2 n o) - refRows32 (F := Ideal) mean (ix2 n o)) * refRows32 (F := Ideal) _ (ix2 n o) * refRows32 (F := Ideal) g (ix2 n o)
      + refRows32 (F := Ideal) b (ix2 n o) = _
  rw [refRows32_apply, refRows32_apply, refRows32_apply, refRows32_apply]
  rfl

/-- A layer's output, read at row n and column o: the normalised activation y where it is at least zero, the slope word
    times y elsewhere. -/
theorem refOut32_apply (a : FVec Ideal S100000x32 .f32) (mean var g b : FVec Ideal S32 .f32) (n : Fin 100000) (o : Fin 32) :
    refOut32 (F := Ideal) a mean var g b (ix2 n o)
      = Scalar.select
          (Ideal.cmp .oge
            ((a (ix2 n o) - mean (ix1 o)) * Ideal.rsqrt (var (ix1 o) + Ideal.ofBits .f32 0x3727C5AC#32) * g (ix1 o) + b (ix1 o))
            (Ideal.ofBits .f32 0x00000000#32))
          ((a (ix2 n o) - mean (ix1 o)) * Ideal.rsqrt (var (ix1 o) + Ideal.ofBits .f32 0x3727C5AC#32) * g (ix1 o) + b (ix1 o))
          (Ideal.ofBits .f32 0x3C23D70A#32
            * ((a (ix2 n o) - mean (ix1 o)) * Ideal.rsqrt (var (ix1 o) + Ideal.ofBits .f32 0x3727C5AC#32) * g (ix1 o) + b (ix1 o))) := by
  rw [← refNrm32_apply]
  rfl

/-! ## Width 128: the stage functions read at an index, at the extended reals -/

/-- A one-row array repeated down the 100000 rows reads, at row n and column o, the row at column o. -/
theorem bc2_128 {α : Type} (u : S1x128.Idx → α) (n : Fin 100000) (o : Fin 128) :
    broadcastInDim S100000x128 ![0, 1] bcast_S1x128_S100000x128_0_1 u (ix2 n o) = u (ix2 (0 : Fin 1) o) := by
  unfold broadcastInDim
  exact congrArg u (funext fun d => Fin.ext (by match d with | ⟨0, _⟩ => rfl | ⟨1, _⟩ => rfl))

/-- A vector of width 128 as a one-row array reads, at column o, the vector at o. -/
theorem bc1_128 {α : Type} (v : S128.Idx → α) (o : Fin 128) :
    broadcastInDim S1x128 ![1] bcast_S128_S1x128_1 v (ix2 (0 : Fin 1) o) = v (ix1 o) := by
  unfold broadcastInDim
  exact congrArg v (funext fun d => Fin.ext (by match d with | ⟨0, _⟩ => rfl))

/-- A row vector repeated down the rows reads, at row n and column o, the vector at o. -/
theorem refRows128_apply (v : FVec Ideal S128 .f32) (n : Fin 100000) (o : Fin 128) :
    refRows128 (F := Ideal) v (ix2 n o) = v (ix1 o) := by
  unfold refRows128
  rw [bc2_128, bc1_128]

/-- The host's column sum of a 100000 × 128 array of extended reals, read at column o: the initial value plus the sum
    of the column's 100000 entries. -/
theorem colsum128 (x : FVec Ideal S100000x128 .f32) (init : Ideal .f32) (o : Fin 128) :
    Ideal.hostReduceAdd reducesTo_S100000x128_S128_d0 x init (ix1 o) = init + ∑ n : Fin 100000, x (ix2 n o) := by
  rw [Ideal.hostReduceAdd_single reducesTo_S100000x128_S128_d0 (by decide)]
  refine congrArg (_ + ·) (Finset.sum_congr rfl fun k _ => ?_)
  exact congrArg x (funext fun d => Fin.ext (by match d with | ⟨0, _⟩ => rfl | ⟨1, _⟩ => rfl))

/-- The column mean, read at column o: the zero word plus the column's sum, over the word of 100000. -/
theorem refMean128_apply (a : FVec Ideal S100000x128 .f32) (o : Fin 128) :
    refMean128 (F := Ideal) a (ix1 o)
      = Ideal.div (Ideal.ofBits .f32 0x00000000#32 + ∑ n : Fin 100000, a (ix2 n o)) (Ideal.ofBits .f32 0x47C35000#32) := by
  rw [← colsum128]
  rfl

/-- The deviation from the column mean as the variance function computes it, read at row n and column o. -/
theorem refDev128_apply (a : FVec Ideal S100000x128 .f32) (n : Fin 100000) (o : Fin 128) :
    refDev128 (F := Ideal) a (ix2 n o)
      = a (ix2 n o)
        - Ideal.div (Ideal.ofBits .f32 0x00000000#32 + ∑ k : Fin 100000, a (ix2 k o)) (Ideal.ofBits .f32 0x47C35000#32) := by
  unfold refDev128
  show a (ix2 n o) - broadcastInDim (s := S1x128) S100000x128 ![0, 1] bcast_S1x128_S100000x128_0_1 _ (ix2 n o) = _
  rw [bc2_128]
  show a (ix2 n o) - Ideal.div (broadcastInDim (s := S128) S1x128 ![1] bcast_S128_S1x128_1 _ (ix2 (0 : Fin 1) o)) _ = _
  rw [bc1_128]
  show a (ix2 n o) - Ideal.div (Ideal.hostReduceAdd reducesTo_S100000x128_S128_d0 a _ (ix1 o)) _ = _
  rw [colsum128]
  rfl

/-- The two-pass column variance, read at column o, in a plain two-pass program's spelling: both sums started from the
    zero word, the count 100000 less the converted correction z, the quotient guarded by the count being positive, the
    word 0x7FC00000 on the branch not taken. -/
theorem refVar128_apply (a : FVec Ideal S100000x128 .f32) (o : Fin 128) :
    refVar128 (F := Ideal) a (ix1 o)
      = Scalar.select
          (Ideal.cmp .ogt (Ideal.ofBits .f32 0x47C35000#32 - FloatOps.sitofp (F := Ideal) .f32 (0#32 : BitVec 32))
            (Ideal.ofBits .f32 0x00000000#32))
          (Ideal.div
            (Ideal.ofBits .f32 0x00000000#32
              + ∑ k : Fin 100000,
                  (a (ix2 k o) - Ideal.div (Ideal.ofBits .f32 0x00000000#32 + ∑ k : Fin 100000, a (ix2 k o)) (Ideal.ofBits .f32 0x47C35000#32))
                  * (a (ix2 k o) - Ideal.div (Ideal.ofBits .f32 0x00000000#32 + ∑ k : Fin 100000, a (ix2 k o)) (Ideal.ofBits .f32 0x47C35000#32)))
            (Ideal.ofBits .f32 0x47C35000#32 - FloatOps.sitofp (F := Ideal) .f32 (0#32 : BitVec 32)))
          (Ideal.ofBits .f32 0x7FC00000#32) := by
  have hsq : ∀ k : Fin 100000, (mulf (refDev128 (F := Ideal) a) (refDev128 (F := Ideal) a)) (ix2 k o)
      = (a (ix2 k o) - Ideal.div (Ideal.ofBits .f32 0x00000000#32 + ∑ k : Fin 100000, a (ix2 k o)) (Ideal.ofBits .f32 0x47C35000#32))
        * (a (ix2 k o) - Ideal.div (Ideal.ofBits .f32 0x00000000#32 + ∑ k : Fin 100000, a (ix2 k o)) (Ideal.ofBits .f32 0x47C35000#32)) := by
    intro k
    show refDev128 (F := Ideal) a (ix2 k o) * refDev128 (F := Ideal) a (ix2 k o) = _
    rw [refDev128_apply]
  rw [← Finset.sum_congr rfl fun k _ => hsq k, ← colsum128]
  rfl

/-- The normalised, scaled and shifted activation, read at row n and column o. -/
theorem refNrm128_apply (a : FVec Ideal S100000x128 .f32) (mean var g b : FVec Ideal S128 .f32) (n : Fin 100000) (o : Fin 128) :
    refNrm128 (F := Ideal) a mean var g b (ix2 n o)
      = (a (ix2 n o) - mean (ix1 o)) * Ideal.rsqrt (var (ix1 o) + Ideal.ofBits .f32 0x3727C5AC#32) * g (ix1 o) + b (ix1 o) := by
  unfold refNrm128
  show (a (ix2 n o) - refRows128 (F := Ideal) mean (ix2 n o)) * refRows128 (F := Ideal) _ (ix2 n o) * refRows128 (F := Ideal) g (ix2 n o)
      + refRows128 (F := Ideal) b (ix2 n o) = _
  rw [refRows128_apply, refRows128_apply, refRows128_apply, refRows128_apply]
  rfl

/-- A layer's output, read at row n and column o: the normalised activation y where it is at least zero, the slope word
    times y elsewhere. -/
theorem refOut128_apply (a : FVec Ideal S100000x128 .f32) (mean var g b : FVec Ideal S128 .f32) (n : Fin 100000) (o : Fin 128) :
    refOut128 (F := Ideal) a mean var g b (ix2 n o)
      = Scalar.select
          (Ideal.cmp .oge
            ((a (ix2 n o) - mean (ix1 o)) * Ideal.rsqrt (var (ix1 o) + Ideal.ofBits .f32 0x3727C5AC#32) * g (ix1 o) + b (ix1 o))
            (Ideal.ofBits .f32 0x00000000#32))
          ((a (ix2 n o) - mean (ix1 o)) * Ideal.rsqrt (var (ix1 o) + Ideal.ofBits .f32 0x3727C5AC#32) * g (ix1 o) + b (ix1 o))
          (Ideal.ofBits .f32 0x3C23D70A#32
            * ((a (ix2 n o) - mean (ix1 o)) * Ideal.rsqrt (var (ix1 o) + Ideal.ofBits .f32 0x3727C5AC#32) * g (ix1 o) + b (ix1 o))) := by
  rw [← refNrm128_apply]
  rfl

/-! ## Width 16: the stage functions read at an index, at the extended reals -/

/-- A one-row array repeated down the 100000 rows reads, at row n and column o, the row at column o. -/
theorem bc2_16 {α : Type} (u : S1x16.Idx → α) (n : Fin 100000) (o : Fin 16) :
    broadcastInDim S100000x16 ![0, 1] bcast_S1x16_S100000x16_0_1 u (ix2 n o) = u (ix2 (0 : Fin 1) o) := by
  unfold broadcastInDim
  exact congrArg u (funext fun d => Fin.ext (by match d with | ⟨0, _⟩ => rfl | ⟨1, _⟩ => rfl))

/-- A vector of width 16 as a one-row array reads, at column o, the vector at o. -/
theorem bc1_16 {α : Type} (v : S16.Idx → α) (o : Fin 16) :
    broadcastInDim S1x16 ![1] bcast_S16_S1x16_1 v (ix2 (0 : Fin 1) o) = v (ix1 o) := by
  unfold broadcastInDim
  exact congrArg v (funext fun d => Fin.ext (by match d with | ⟨0, _⟩ => rfl))

/-- A row vector repeated down the rows reads, at row n and column o, the vector at o. -/
theorem refRows16_apply (v : FVec Ideal S16 .f32) (n : Fin 100000) (o : Fin 16) :
    refRows16 (F := Ideal) v (ix2 n o) = v (ix1 o) := by
  unfold refRows16
  rw [bc2_16, bc1_16]

/-- The host's column sum of a 100000 × 16 array of extended reals, read at column o: the initial value plus the sum
    of the column's 100000 entries. -/
theorem colsum16 (x : FVec Ideal S100000x16 .f32) (init : Ideal .f32) (o : Fin 16) :
    Ideal.hostReduceAdd reducesTo_S100000x16_S16_d0 x init (ix1 o) = init + ∑ n : Fin 100000, x (ix2 n o) := by
  rw [Ideal.hostReduceAdd_single reducesTo_S100000x16_S16_d0 (by decide)]
  refine congrArg (_ + ·) (Finset.sum_congr rfl fun k _ => ?_)
  exact congrArg x (funext fun d => Fin.ext (by match d with | ⟨0, _⟩ => rfl | ⟨1, _⟩ => rfl))

/-- The column mean, read at column o: the zero word plus the column's sum, over the word of 100000. -/
theorem refMean16_apply (a : FVec Ideal S100000x16 .f32) (o : Fin 16) :
    refMean16 (F := Ideal) a (ix1 o)
      = Ideal.div (Ideal.ofBits .f32 0x00000000#32 + ∑ n : Fin 100000, a (ix2 n o)) (Ideal.ofBits .f32 0x47C35000#32) := by
  rw [← colsum16]
  rfl

/-- The deviation from the column mean as the variance function computes it, read at row n and column o. -/
theorem refDev16_apply (a : FVec Ideal S100000x16 .f32) (n : Fin 100000) (o : Fin 16) :
    refDev16 (F := Ideal) a (ix2 n o)
      = a (ix2 n o)
        - Ideal.div (Ideal.ofBits .f32 0x00000000#32 + ∑ k : Fin 100000, a (ix2 k o)) (Ideal.ofBits .f32 0x47C35000#32) := by
  unfold refDev16
  show a (ix2 n o) - broadcastInDim (s := S1x16) S100000x16 ![0, 1] bcast_S1x16_S100000x16_0_1 _ (ix2 n o) = _
  rw [bc2_16]
  show a (ix2 n o) - Ideal.div (broadcastInDim (s := S16) S1x16 ![1] bcast_S16_S1x16_1 _ (ix2 (0 : Fin 1) o)) _ = _
  rw [bc1_16]
  show a (ix2 n o) - Ideal.div (Ideal.hostReduceAdd reducesTo_S100000x16_S16_d0 a _ (ix1 o)) _ = _
  rw [colsum16]
  rfl

/-- The two-pass column variance, read at column o, in a plain two-pass program's spelling: both sums started from the
    zero word, the count 100000 less the converted correction z, the quotient guarded by the count being positive, the
    word 0x7FC00000 on the branch not taken. -/
theorem refVar16_apply (a : FVec Ideal S100000x16 .f32) (o : Fin 16) :
    refVar16 (F := Ideal) a (ix1 o)
      = Scalar.select
          (Ideal.cmp .ogt (Ideal.ofBits .f32 0x47C35000#32 - FloatOps.sitofp (F := Ideal) .f32 (0#32 : BitVec 32))
            (Ideal.ofBits .f32 0x00000000#32))
          (Ideal.div
            (Ideal.ofBits .f32 0x00000000#32
              + ∑ k : Fin 100000,
                  (a (ix2 k o) - Ideal.div (Ideal.ofBits .f32 0x00000000#32 + ∑ k : Fin 100000, a (ix2 k o)) (Ideal.ofBits .f32 0x47C35000#32))
                  * (a (ix2 k o) - Ideal.div (Ideal.ofBits .f32 0x00000000#32 + ∑ k : Fin 100000, a (ix2 k o)) (Ideal.ofBits .f32 0x47C35000#32)))
            (Ideal.ofBits .f32 0x47C35000#32 - FloatOps.sitofp (F := Ideal) .f32 (0#32 : BitVec 32)))
          (Ideal.ofBits .f32 0x7FC00000#32) := by
  have hsq : ∀ k : Fin 100000, (mulf (refDev16 (F := Ideal) a) (refDev16 (F := Ideal) a)) (ix2 k o)
      = (a (ix2 k o) - Ideal.div (Ideal.ofBits .f32 0x00000000#32 + ∑ k : Fin 100000, a (ix2 k o)) (Ideal.ofBits .f32 0x47C35000#32))
        * (a (ix2 k o) - Ideal.div (Ideal.ofBits .f32 0x00000000#32 + ∑ k : Fin 100000, a (ix2 k o)) (Ideal.ofBits .f32 0x47C35000#32)) := by
    intro k
    show refDev16 (F := Ideal) a (ix2 k o) * refDev16 (F := Ideal) a (ix2 k o) = _
    rw [refDev16_apply]
  rw [← Finset.sum_congr rfl fun k _ => hsq k, ← colsum16]
  rfl

/-- The normalised, scaled and shifted activation, read at row n and column o. -/
theorem refNrm16_apply (a : FVec Ideal S100000x16 .f32) (mean var g b : FVec Ideal S16 .f32) (n : Fin 100000) (o : Fin 16) :
    refNrm16 (F := Ideal) a mean var g b (ix2 n o)
      = (a (ix2 n o) - mean (ix1 o)) * Ideal.rsqrt (var (ix1 o) + Ideal.ofBits .f32 0x3727C5AC#32) * g (ix1 o) + b (ix1 o) := by
  unfold refNrm16
  show (a (ix2 n o) - refRows16 (F := Ideal) mean (ix2 n o)) * refRows16 (F := Ideal) _ (ix2 n o) * refRows16 (F := Ideal) g (ix2 n o)
      + refRows16 (F := Ideal) b (ix2 n o) = _
  rw [refRows16_apply, refRows16_apply, refRows16_apply, refRows16_apply]
  rfl

/-- A layer's output, read at row n and column o: the normalised activation y where it is at least zero, the slope word
    times y elsewhere. -/
theorem refOut16_apply (a : FVec Ideal S100000x16 .f32) (mean var g b : FVec Ideal S16 .f32) (n : Fin 100000) (o : Fin 16) :
    refOut16 (F := Ideal) a mean var g b (ix2 n o)
      = Scalar.select
          (Ideal.cmp .oge
            ((a (ix2 n o) - mean (ix1 o)) * Ideal.rsqrt (var (ix1 o) + Ideal.ofBits .f32 0x3727C5AC#32) * g (ix1 o) + b (ix1 o))
            (Ideal.ofBits .f32 0x00000000#32))
          ((a (ix2 n o) - mean (ix1 o)) * Ideal.rsqrt (var (ix1 o) + Ideal.ofBits .f32 0x3727C5AC#32) * g (ix1 o) + b (ix1 o))
          (Ideal.ofBits .f32 0x3C23D70A#32
            * ((a (ix2 n o) - mean (ix1 o)) * Ideal.rsqrt (var (ix1 o) + Ideal.ofBits .f32 0x3727C5AC#32) * g (ix1 o) + b (ix1 o))) := by
  rw [← refNrm16_apply]
  rfl

end Cert.ReferenceIdeal.HandRun

end
-- ==== Proof.LibFinite.lean ====
/-
  Finiteness on the extended reals, and its closure under the exact operations.

  An extended real is called REAL here when it is the image of a real number, that is, neither infinity.  This file
  proves that the real extended reals are closed under the exact operations an idealized float program is made of:
  sum, difference, product, negation, a finite sum, maximum and minimum, the quotient by a nonzero real (the ideal
  quotient is the product with the reciprocal there), the reciprocal square root of a positive real (in particular
  of a nonnegative real plus a positive one), the exponential, and the logarithm of a positive real.  It also reads
  three single-precision bit patterns as the reals they denote: the zero pattern as 0, the pattern of 100000 as
  100000, and the pattern of the single-precision number nearest to 1e-5 as the positive dyadic rational
  10995116 / 2^40; and the signed reading of the 32-bit integer zero as the real 0.
-/
import Idealize.ShloMosaic.PureOps.Ideal
import Idealize.ShloMosaic.PureOps.Ideal.Laws
import Idealize.ShloMosaic.Lib.ValueIdx

namespace Cert.LibStats

open Idealize.ShloMosaic

/-- An extended real is REAL when it is (the image of) a real number: neither of the two infinities. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal 0 := ⟨0, EReal.coe_zero.symm⟩

/-- One is real. -/
theorem isReal_one : IsReal 1 := ⟨1, EReal.coe_one.symm⟩

/-- A real extended real is not the top infinity. -/
theorem IsReal.ne_top {x : EReal} (h : IsReal x) : x ≠ ⊤ := by
  obtain ⟨r, rfl⟩ := h; exact EReal.coe_ne_top r

/-- A real extended real is not the bottom infinity. -/
theorem IsReal.ne_bot {x : EReal} (h : IsReal x) : x ≠ ⊥ := by
  obtain ⟨r, rfl⟩ := h; exact EReal.coe_ne_bot r

/-- Real means exactly: neither infinity. -/
theorem isReal_iff {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | top => exact absurd rfl ht
    | coe r => exact isReal_coe r

/-- A real extended real is the image of its own real part. -/
theorem IsReal.coe_toReal {x : EReal} (h : IsReal x) : ((x.toReal : ℝ) : EReal) = x := by
  obtain ⟨r, rfl⟩ := h; rw [EReal.toReal_coe]

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is real. -/
theorem IsReal.neg {x : EReal} (hx : IsReal x) : IsReal (-x) := by
  obtain ⟨a, rfl⟩ := hx; exact ⟨-a, (EReal.coe_neg a).symm⟩

/-- The maximum of two reals is real (it is one of them). -/
theorem IsReal.max {x y : EReal} (hx : IsReal x) (hy : IsReal y) : IsReal (max x y) := by
  rcases max_choice x y with h | h <;> rw [h] <;> assumption

/-- The minimum of two reals is real (it is one of them). -/
theorem IsReal.min {x y : EReal} (hx : IsReal x) (hy : IsReal y) : IsReal (min x y) := by
  rcases min_choice x y with h | h <;> rw [h] <;> assumption

/-- A finite sum of reals is real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum of reals over a whole finite type is real. -/
theorem IsReal.sum_univ {ι : Type*} [Fintype ι] (f : ι → EReal) (h : ∀ i, IsReal (f i)) : IsReal (∑ i, f i) :=
  IsReal.sum Finset.univ f fun i _ => h i

/-- The image of a finite sum of real numbers is the sum of the images. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The ideal quotient of a real by a nonzero real number is real: it is the product with the reciprocal. -/
theorem IsReal.div_coe {x : EReal} (hx : IsReal x) {y : ℝ} (hy : y ≠ 0) : IsReal (Ideal.div x (y : EReal)) := by
  rw [Ideal.div_coe hy]; exact hx.mul (isReal_coe _)

/-- The ideal quotient of two real numbers, the divisor not zero, is the image of their real quotient. -/
theorem div_coe_coe (a : ℝ) {y : ℝ} (hy : y ≠ 0) : Ideal.div (a : EReal) (y : EReal) = ((a / y : ℝ) : EReal) := by
  rw [Ideal.div_coe hy, ← EReal.coe_mul, mul_one_div]

/-- The ideal quotient of a real by a nonzero real is real. -/
theorem IsReal.div {x y : EReal} (hx : IsReal x) (hy : IsReal y) (hy0 : y ≠ 0) : IsReal (Ideal.div x y) := by
  obtain ⟨b, rfl⟩ := hy
  exact hx.div_coe fun h => hy0 (by rw [h, EReal.coe_zero])

/-- The ideal reciprocal square root at a positive real number: the reciprocal of the real square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is real. -/
theorem IsReal.rsqrt {x : EReal} (hx : IsReal x) (hpos : 0 < x) : IsReal (Ideal.rsqrt x) := by
  obtain ⟨r, rfl⟩ := hx
  rw [rsqrt_coe_pos (EReal.coe_pos.mp hpos)]; exact isReal_coe _

/-- A nonnegative extended real plus a positive one is positive. -/
theorem add_pos_of_nonneg_of_pos {v e : EReal} (hv0 : 0 ≤ v) (he0 : 0 < e) : 0 < v + e :=
  lt_of_lt_of_le he0 (le_add_of_nonneg_left hv0)

/-- The ideal reciprocal square root of (a nonnegative real plus a positive real) is real: the argument is a
    positive real, where the operation is the reciprocal of the square root. -/
theorem IsReal.rsqrt_add {v e : EReal} (hv : IsReal v) (he : IsReal e) (hv0 : 0 ≤ v) (he0 : 0 < e) :
    IsReal (Ideal.rsqrt (v + e)) :=
  (hv.add he).rsqrt (add_pos_of_nonneg_of_pos hv0 he0)

/-- The ideal exponential of a real is real. -/
theorem IsReal.exp {x : EReal} (hx : IsReal x) : IsReal (Ideal.exp x) := by
  obtain ⟨r, rfl⟩ := hx; rw [Ideal.exp_coe]; exact isReal_coe _

/-- The ideal exponential of a real is positive. -/
theorem exp_pos_of_isReal {x : EReal} (hx : IsReal x) : 0 < Ideal.exp x := by
  obtain ⟨r, rfl⟩ := hx; rw [Ideal.exp_coe]; exact EReal.coe_pos.mpr (Real.exp_pos r)

/-- The ideal logarithm of a positive real is real. -/
theorem IsReal.log {x : EReal} (hx : IsReal x) (hpos : 0 < x) : IsReal (Ideal.log x) := by
  obtain ⟨r, rfl⟩ := hx
  rw [Ideal.log_coe, if_neg (not_le.mpr (EReal.coe_pos.mp hpos))]; exact isReal_coe _

/-! ### Three single-precision patterns, and the integer zero -/

/-- The zero pattern denotes 0. -/
theorem ofBits_zero : Ideal.ofBits .f32 0x00000000#32 = 0 := Ideal.ofBits_zero_f32

/-- The pattern 0x47C35000 (sign 0, exponent 143, fraction 4411392) denotes 12800000 / 2^7 = 100000. -/
theorem ofBits_100000 : Ideal.ofBits .f32 0x47C35000#32 = ((100000 : ℝ) : EReal) := by
  simp [Ideal.ofBits, Ideal.ieee, -EReal.coe_mul]; norm_num

/-- The pattern 0x3727C5AC (sign 0, exponent 110, fraction 2606508), the single-precision number nearest to
    1e-5, denotes 10995116 / 2^40. -/
theorem ofBits_eps : Ideal.ofBits .f32 0x3727C5AC#32 = (((10995116 : ℝ) * (2 : ℝ) ^ (-40 : ℤ) : ℝ) : EReal) := by
  simp [Ideal.ofBits, Ideal.ieee, -EReal.coe_mul]

/-- The zero pattern is real. -/
theorem isReal_ofBits_zero : IsReal (Ideal.ofBits .f32 0x00000000#32) := by rw [ofBits_zero]; exact isReal_zero

/-- The pattern of 100000 is real. -/
theorem isReal_ofBits_100000 : IsReal (Ideal.ofBits .f32 0x47C35000#32) := by rw [ofBits_100000]; exact isReal_coe _

/-- The pattern of 100000 is not zero. -/
theorem ofBits_100000_ne_zero : Ideal.ofBits .f32 0x47C35000#32 ≠ 0 := by
  rw [ofBits_100000, ← EReal.coe_zero]; exact fun h => by have := EReal.coe_eq_coe_iff.mp h; norm_num at this

/-- The pattern nearest 1e-5 is real. -/
theorem isReal_ofBits_eps : IsReal (Ideal.ofBits .f32 0x3727C5AC#32) := by rw [ofBits_eps]; exact isReal_coe _

/-- The pattern nearest 1e-5 is positive. -/
theorem ofBits_eps_pos : 0 < Ideal.ofBits .f32 0x3727C5AC#32 := by
  rw [ofBits_eps]; exact EReal.coe_pos.mpr (by positivity)

/-- The 32-bit integer zero, read signed and exactly, is the real 0. -/
theorem sitofp_zero : (((0#32 : BitVec 32).toInt : ℝ) : EReal) = 0 := by
  simp

/-- The same through the operation's own name at the ideal values. -/
theorem sitofp_zero_f32 : FloatOps.sitofp (F := Ideal) .f32 (0#32 : BitVec 32) = 0 := sitofp_zero

end Cert.LibStats
-- ==== Proof.LibBatchStats.lean ====
/-
  The batch-statistics identity over the extended reals, and two re-groupings of a sum over tiles.

  For a column c of 100000 real entries, with S the sum of the entries, Q the sum of their squares and mean = S / 100000,
  the one-pass variance  max (Q / 100000 - mean * mean) 0  equals the two-pass variance, the sum of the squared
  deviations from the mean divided by (100000 - 0): expanding the square, the cross term is -2 * mean * S and the
  constant term is 100000 * mean * mean, and S = 100000 * mean; the common value is a sum of squares over a positive
  count, hence nonnegative, so the maximum with 0 is the identity.  The identity is proved on the real numbers and
  transported along the embedding of the reals (which respects sum, difference, product, finite sums, and the ideal
  quotient by a nonzero real); it fails at the infinities, hence the hypothesis that every entry is real.  The
  comparison "100000 - 0 is greater than 0", as the ideal comparison spells it, is the one-bit word 1.

  The re-groupings: a sum over 8 * n positions that are zero off the multiples of 8 is the sum of the n values at
  the multiples of 8; and a sum over B * n consecutive positions is the sum of the n block sums of length B.  Both
  hold in every commutative additive monoid.
-/
import proofs.«109725_j21638045237575_1_alg».proof.Proof.LibFinite

namespace Cert.LibStats

open Idealize.ShloMosaic

/-! ### The identity on the real numbers -/

/-- On the reals: for n numbers and N the real number n, not zero, the mean square deviation from the mean is the
    mean of the squares minus the square of the mean. -/
theorem real_var {n : ℕ} (r : Fin n → ℝ) (N : ℝ) (hN : (n : ℝ) = N) (hN0 : N ≠ 0) :
    (∑ k, (r k - (∑ k, r k) / N) * (r k - (∑ k, r k) / N)) / N
      = (∑ k, r k * r k) / N - (∑ k, r k) / N * ((∑ k, r k) / N) := by
  have hexp : ∀ m : ℝ, ∑ k, (r k - m) * (r k - m) = (∑ k, r k * r k) - 2 * m * (∑ k, r k) + N * (m * m) := by
    intro m
    have : ∀ k, (r k - m) * (r k - m) = r k * r k - 2 * m * r k + m * m := fun k => by ring
    rw [Finset.sum_congr rfl fun k _ => this k, Finset.sum_add_distrib, Finset.sum_sub_distrib, ← Finset.mul_sum,
      Finset.sum_const, Finset.card_univ, Fintype.card_fin, nsmul_eq_mul, hN]
  rw [hexp]
  field_simp
  ring

/-! ### The identity on the extended reals -/

/-- The mean of a real column is real. -/
theorem mean_isReal (c : Fin 100000 → EReal) (hc : ∀ k, IsReal (c k)) :
    IsReal (Ideal.div (∑ k, c k) (Ideal.ofBits .f32 0x47C35000#32)) := by
  rw [ofBits_100000]; exact (IsReal.sum_univ c hc).div_coe (by norm_num)

/-- THE BATCH-STATISTICS IDENTITY.  For a column c of 100000 real entries, S its sum, Q the sum of its squares,
    mean the ideal quotient of S by the pattern of 100000, and z = 0 (the count's correction):
    max (Q / 100000 - mean * mean) 0 is the sum of the squared deviations from the mean over (100000 - z). -/
theorem batch_var (c : Fin 100000 → EReal) (hc : ∀ k, IsReal (c k)) (S Q μ z : EReal)
    (hS : S = ∑ k, c k) (hQ : Q = ∑ k, c k * c k)
    (hμ : μ = Ideal.div S (Ideal.ofBits .f32 0x47C35000#32)) (hz : z = 0) :
    max (Ideal.div Q (Ideal.ofBits .f32 0x47C35000#32) - μ * μ) 0
      = Ideal.div (∑ k, (c k - μ) * (c k - μ)) (Ideal.ofBits .f32 0x47C35000#32 - z) := by
  choose r hr using hc
  have hN : (100000 : ℝ) ≠ 0 := by norm_num
  have hSr : S = ((∑ k, r k : ℝ) : EReal) := by
    rw [hS, coe_sum]; exact Finset.sum_congr rfl fun k _ => hr k
  have hQr : Q = ((∑ k, r k * r k : ℝ) : EReal) := by
    rw [hQ, coe_sum]; exact Finset.sum_congr rfl fun k _ => by rw [hr k, EReal.coe_mul]
  have hμr : μ = (((∑ k, r k) / 100000 : ℝ) : EReal) := by
    rw [hμ, hSr, ofBits_100000, div_coe_coe _ hN]
  have hD : ∑ k, (c k - μ) * (c k - μ)
      = ((∑ k, (r k - (∑ k, r k) / 100000) * (r k - (∑ k, r k) / 100000) : ℝ) : EReal) := by
    rw [coe_sum]; exact Finset.sum_congr rfl fun k _ => by rw [hr k, hμr, ← EReal.coe_sub, ← EReal.coe_mul]
  rw [hD, hz, sub_zero, hQr, hμr, ofBits_100000, div_coe_coe _ hN, div_coe_coe _ hN, ← EReal.coe_mul,
    ← EReal.coe_sub, ← real_var r 100000 (by norm_num) hN]
  exact max_eq_left (EReal.coe_nonneg.mpr
    (div_nonneg (Finset.sum_nonneg fun k _ => mul_self_nonneg _) (by norm_num)))

/-- The variance of a real column (either side of the identity) is real. -/
theorem batch_var_isReal (c : Fin 100000 → EReal) (hc : ∀ k, IsReal (c k)) (S Q μ : EReal)
    (hS : S = ∑ k, c k) (hQ : Q = ∑ k, c k * c k)
    (hμ : μ = Ideal.div S (Ideal.ofBits .f32 0x47C35000#32)) :
    IsReal (max (Ideal.div Q (Ideal.ofBits .f32 0x47C35000#32) - μ * μ) 0) := by
  have hμR : IsReal μ := by rw [hμ, hS]; exact mean_isReal c hc
  have hQR : IsReal (Ideal.div Q (Ideal.ofBits .f32 0x47C35000#32)) := by
    rw [hQ, ofBits_100000]
    exact (IsReal.sum_univ _ fun k => (hc k).mul (hc k)).div_coe (by norm_num)
  exact (hQR.sub (hμR.mul hμR)).max isReal_zero

/-- The variance, as a maximum with 0, is nonnegative. -/
theorem batch_var_nonneg (v : EReal) : 0 ≤ max v 0 := le_max_right v 0

/-- The count 100000 - z, z = 0, compares greater than the zero pattern: the ideal comparison answers the word 1. -/
theorem cmp_count_pos (z : EReal) (hz : z = 0) :
    Ideal.cmp .ogt (Ideal.ofBits .f32 0x47C35000#32 - z) (Ideal.ofBits .f32 0x00000000#32) = 1#1 := by
  have h : (0 : EReal) < ((100000 : ℝ) : EReal) := EReal.coe_pos.mpr (by norm_num)
  rw [hz, sub_zero, ofBits_100000, ofBits_zero]
  simp [Ideal.cmp, h]

/-- The same through the operation's own name at the ideal values. -/
theorem cmpf_count_pos (z : EReal) (hz : z = 0) :
    FloatOps.cmpf (F := Ideal) (φ := .f32) .ogt (Ideal.ofBits .f32 0x47C35000#32 - z)
      (Ideal.ofBits .f32 0x00000000#32) = 1#1 :=
  cmp_count_pos z hz

/-- The two-pass variance exactly as a plain program spells it — each sum started from the zero pattern, the
    quotient guarded by the comparison of the count with zero, any word w on the branch not taken — is the
    one-pass variance of the column's plain sums. -/
theorem two_pass_eq_one_pass (c : Fin 100000 → EReal) (hc : ∀ k, IsReal (c k)) (z w : EReal) (hz : z = 0) :
    Scalar.select (Ideal.cmp .ogt (Ideal.ofBits .f32 0x47C35000#32 - z) (Ideal.ofBits .f32 0x00000000#32))
        (Ideal.div
          (Ideal.ofBits .f32 0x00000000#32
            + ∑ k, (c k - Ideal.div (Ideal.ofBits .f32 0x00000000#32 + ∑ k, c k) (Ideal.ofBits .f32 0x47C35000#32))
                * (c k - Ideal.div (Ideal.ofBits .f32 0x00000000#32 + ∑ k, c k) (Ideal.ofBits .f32 0x47C35000#32)))
          (Ideal.ofBits .f32 0x47C35000#32 - z))
        w
      = max (Ideal.div (∑ k, c k * c k) (Ideal.ofBits .f32 0x47C35000#32)
              - Ideal.div (∑ k, c k) (Ideal.ofBits .f32 0x47C35000#32)
                * Ideal.div (∑ k, c k) (Ideal.ofBits .f32 0x47C35000#32))
          (Ideal.ofBits .f32 0x00000000#32) := by
  rw [cmp_count_pos z hz, ofBits_zero, zero_add, zero_add]
  exact (batch_var c hc _ _ _ z rfl rfl rfl hz).symm

/-! ### Sums over tiles -/

section Tiles

variable {M : Type*} [AddCommMonoid M]

/-- A sum over B * n consecutive positions is the sum of the n sums over the blocks of length B. -/
theorem sum_blocks (n B N : ℕ) (hN : N = n * B) (f : Fin N → M) :
    ∑ t : Fin n, ∑ i : Fin B, f ⟨B * t.val + i.val, by
        have := t.isLt; have := i.isLt; subst hN
        calc B * t.val + i.val < B * t.val + B := by omega
          _ = B * (t.val + 1) := by ring
          _ ≤ B * n := Nat.mul_le_mul_left B (by omega)
          _ = n * B := Nat.mul_comm B n⟩
      = ∑ k, f k := by
  subst hN
  rw [← Equiv.sum_comp finProdFinEquiv f, Fintype.sum_prod_type]
  exact Finset.sum_congr rfl fun t _ => Finset.sum_congr rfl fun i _ =>
    congrArg f (Fin.ext (by simp [finProdFinEquiv, Nat.add_comm]))

/-- The 100000 rows in 20 tiles of 5000. -/
theorem sum_tiles (f : Fin 100000 → M) :
    ∑ t : Fin 20, ∑ i : Fin 5000, f ⟨5000 * t.val + i.val, by have := t.isLt; have := i.isLt; omega⟩ = ∑ k, f k :=
  sum_blocks 20 5000 100000 (by norm_num) f

/-- A sum over n * 8 positions that vanish off the multiples of 8 is the sum of the values at the multiples of 8. -/
theorem sum_padded_of (n N : ℕ) (hN : N = n * 8) (T : Fin n → M) (P : Fin N → M)
    (h0 : ∀ (r : Fin N) (t : Fin n), r.val = 8 * t.val → P r = T t)
    (h1 : ∀ r : Fin N, r.val % 8 ≠ 0 → P r = 0) :
    ∑ r, P r = ∑ t, T t := by
  subst hN
  rw [← Equiv.sum_comp finProdFinEquiv P, Fintype.sum_prod_type]
  refine Finset.sum_congr rfl fun t _ => ?_
  rw [Finset.sum_eq_single (0 : Fin 8)]
  · exact h0 _ t (by simp [finProdFinEquiv])
  · intro i _ hi
    refine h1 _ ?_
    have : i.val ≠ 0 := fun h => hi (Fin.ext h)
    have := i.isLt
    simp only [finProdFinEquiv, Equiv.coe_fn_mk]
    omega
  · intro h; exact absurd (Finset.mem_univ _) h

/-- The 160 rows of per-tile partial sums: row 8 t holds tile t's value, every other row is zero. -/
theorem sum_padded (T : Fin 20 → M) (P : Fin 160 → M)
    (hP : ∀ r : Fin 160, P r = if r.val % 8 = 0 then T ⟨r.val / 8, by have := r.isLt; omega⟩ else 0) :
    ∑ r, P r = ∑ t, T t :=
  sum_padded_of 20 160 (by norm_num) T P
    (fun r t h => by
      rw [hP r, if_pos (by omega)]
      exact congrArg T (Fin.ext (by simp only; omega)))
    (fun r h => by rw [hP r, if_neg h])

end Tiles

/-- The kernel's column statistics from its 160 rows of partial sums agree with the plain sums over the 100000
    rows: the padded rows sum to the tile sums, and the tile sums to the whole. -/
theorem sum_padded_tiles {M : Type*} [AddCommMonoid M] (f : Fin 100000 → M) (P : Fin 160 → M)
    (hP : ∀ r : Fin 160, P r = if r.val % 8 = 0
      then ∑ i : Fin 5000, f ⟨5000 * (r.val / 8) + i.val, by have := r.isLt; have := i.isLt; omega⟩ else 0) :
    ∑ r, P r = ∑ k, f k := by
  rw [sum_padded (fun t : Fin 20 => ∑ i : Fin 5000, f ⟨5000 * t.val + i.val, by
    have := t.isLt; have := i.isLt; omega⟩) P hP]
  exact sum_tiles f

end Cert.LibStats
-- ==== Proof.LibGcnStats.lean ====
/-
  Batch-normalisation statistics of a real column, with no clamp, and sums over ten row tiles.

  For a column c of 100000 real entries (extended reals that are neither infinity), with S the sum of the entries,
  Q the sum of their squares and mean = S / 100000:

  * the one-pass variance  Q / 100000 - mean * mean  equals the two-pass variance, the sum of the squared deviations
    from the mean divided by (100000 - z) with z = 0.  Expanding the square, the cross term is -2 * mean * S and the
    constant term 100000 * mean * mean, and S = 100000 * mean.  The identity is proved on the real numbers and
    transported along the embedding of the reals; it fails at the infinities, hence the hypothesis on the entries.
    It is also stated in the spelling of a plain two-pass program: each sum started from the zero pattern and the
    quotient guarded by the comparison "count greater than zero", with any word on the branch not taken;
  * that common value is the image of a nonnegative real number (a sum of squares over a positive count), so it is
    real and nonnegative, and the reciprocal square root of (it plus a positive real) is real;
  * a sum over 100000 positions is the sum of the ten sums over consecutive blocks of 10000, and a running
    accumulator that starts at zero and adds one term per step ends at the sum of the terms.
-/
import proofs.«109725_j21638045237575_1_alg».proof.Proof.LibBatchStats

namespace Cert.LibGcn

open Idealize.ShloMosaic Cert.LibStats

/-! ### The variance of a real column -/

/-- The one-pass variance of a real column is the image of a nonnegative real number, namely of the mean square
    deviation from the mean; so is the two-pass variance, over the count 100000 - z with z = 0. -/
theorem var_real_witness (c : Fin 100000 → EReal) (hc : ∀ k, IsReal (c k)) (S Q μ z : EReal)
    (hS : S = ∑ k, c k) (hQ : Q = ∑ k, c k * c k)
    (hμ : μ = Ideal.div S (Ideal.ofBits .f32 0x47C35000#32)) (hz : z = 0) :
    ∃ v : ℝ, 0 ≤ v ∧ Ideal.div Q (Ideal.ofBits .f32 0x47C35000#32) - μ * μ = (v : EReal)
      ∧ Ideal.div (∑ k, (c k - μ) * (c k - μ)) (Ideal.ofBits .f32 0x47C35000#32 - z) = (v : EReal) := by
  choose r hr using hc
  have hN : (100000 : ℝ) ≠ 0 := by norm_num
  have hSr : S = ((∑ k, r k : ℝ) : EReal) := by
    rw [hS, coe_sum]; exact Finset.sum_congr rfl fun k _ => hr k
  have hQr : Q = ((∑ k, r k * r k : ℝ) : EReal) := by
    rw [hQ, coe_sum]; exact Finset.sum_congr rfl fun k _ => by rw [hr k, EReal.coe_mul]
  have hμr : μ = (((∑ k, r k) / 100000 : ℝ) : EReal) := by
    rw [hμ, hSr, ofBits_100000, div_coe_coe _ hN]
  have hD : ∑ k, (c k - μ) * (c k - μ)
      = ((∑ k, (r k - (∑ k, r k) / 100000) * (r k - (∑ k, r k) / 100000) : ℝ) : EReal) := by
    rw [coe_sum]; exact Finset.sum_congr rfl fun k _ => by rw [hr k, hμr, ← EReal.coe_sub, ← EReal.coe_mul]
  refine ⟨(∑ k, (r k - (∑ k, r k) / 100000) * (r k - (∑ k, r k) / 100000)) / 100000,
    div_nonneg (Finset.sum_nonneg fun k _ => mul_self_nonneg _) (by norm_num), ?_, ?_⟩
  · rw [hQr, hμr, ofBits_100000, div_coe_coe _ hN, ← EReal.coe_mul, ← EReal.coe_sub,
      ← real_var r 100000 (by norm_num) hN]
  · rw [hD, hz, sub_zero, ofBits_100000, div_coe_coe _ hN]

/-- ONE PASS IS TWO PASSES, with no clamp.  For a column c of 100000 real entries, S its sum, Q the sum of its
    squares, mean the ideal quotient of S by the pattern of 100000, and z = 0 (the count's correction):
    Q / 100000 - mean * mean is the sum of the squared deviations from the mean over (100000 - z). -/
theorem var_one_pass_eq_two_pass (c : Fin 100000 → EReal) (hc : ∀ k, IsReal (c k)) (S Q μ z : EReal)
    (hS : S = ∑ k, c k) (hQ : Q = ∑ k, c k * c k)
    (hμ : μ = Ideal.div S (Ideal.ofBits .f32 0x47C35000#32)) (hz : z = 0) :
    Ideal.div Q (Ideal.ofBits .f32 0x47C35000#32) - μ * μ
      = Ideal.div (∑ k, (c k - μ) * (c k - μ)) (Ideal.ofBits .f32 0x47C35000#32 - z) := by
  obtain ⟨v, _, h1, h2⟩ := var_real_witness c hc S Q μ z hS hQ hμ hz
  rw [h1, h2]

/-- The one-pass variance of a real column is real. -/
theorem var_one_pass_isReal (c : Fin 100000 → EReal) (hc : ∀ k, IsReal (c k)) (S Q μ : EReal)
    (hS : S = ∑ k, c k) (hQ : Q = ∑ k, c k * c k)
    (hμ : μ = Ideal.div S (Ideal.ofBits .f32 0x47C35000#32)) :
    IsReal (Ideal.div Q (Ideal.ofBits .f32 0x47C35000#32) - μ * μ) := by
  obtain ⟨v, _, h1, _⟩ := var_real_witness c hc S Q μ 0 hS hQ hμ rfl
  rw [h1]; exact isReal_coe v

/-- The one-pass variance of a real column is nonnegative. -/
theorem var_one_pass_nonneg (c : Fin 100000 → EReal) (hc : ∀ k, IsReal (c k)) (S Q μ : EReal)
    (hS : S = ∑ k, c k) (hQ : Q = ∑ k, c k * c k)
    (hμ : μ = Ideal.div S (Ideal.ofBits .f32 0x47C35000#32)) :
    0 ≤ Ideal.div Q (Ideal.ofBits .f32 0x47C35000#32) - μ * μ := by
  obtain ⟨v, hv, h1, _⟩ := var_real_witness c hc S Q μ 0 hS hQ hμ rfl
  rw [h1]; exact EReal.coe_nonneg.mpr hv

/-- The two-pass variance of a real column (count 100000 - z, z = 0) is real. -/
theorem var_two_pass_isReal (c : Fin 100000 → EReal) (hc : ∀ k, IsReal (c k)) (μ z : EReal)
    (hμ : μ = Ideal.div (∑ k, c k) (Ideal.ofBits .f32 0x47C35000#32)) (hz : z = 0) :
    IsReal (Ideal.div (∑ k, (c k - μ) * (c k - μ)) (Ideal.ofBits .f32 0x47C35000#32 - z)) := by
  obtain ⟨v, _, _, h2⟩ := var_real_witness c hc _ _ μ z rfl rfl hμ hz
  rw [h2]; exact isReal_coe v

/-- The two-pass variance of a real column (count 100000 - z, z = 0) is nonnegative. -/
theorem var_two_pass_nonneg (c : Fin 100000 → EReal) (hc : ∀ k, IsReal (c k)) (μ z : EReal)
    (hμ : μ = Ideal.div (∑ k, c k) (Ideal.ofBits .f32 0x47C35000#32)) (hz : z = 0) :
    0 ≤ Ideal.div (∑ k, (c k - μ) * (c k - μ)) (Ideal.ofBits .f32 0x47C35000#32 - z) := by
  obtain ⟨v, hv, _, h2⟩ := var_real_witness c hc _ _ μ z rfl rfl hμ hz
  rw [h2]; exact EReal.coe_nonneg.mpr hv

/-- The reciprocal standard deviation of a real column, one-pass form: the ideal reciprocal square root of the
    variance plus the pattern nearest 1e-5 is real (the argument is a positive real). -/
theorem rsqrt_var_one_pass_isReal (c : Fin 100000 → EReal) (hc : ∀ k, IsReal (c k)) (S Q μ : EReal)
    (hS : S = ∑ k, c k) (hQ : Q = ∑ k, c k * c k)
    (hμ : μ = Ideal.div S (Ideal.ofBits .f32 0x47C35000#32)) :
    IsReal (Ideal.rsqrt (Ideal.div Q (Ideal.ofBits .f32 0x47C35000#32) - μ * μ + Ideal.ofBits .f32 0x3727C5AC#32)) :=
  IsReal.rsqrt_add (var_one_pass_isReal c hc S Q μ hS hQ hμ) isReal_ofBits_eps
    (var_one_pass_nonneg c hc S Q μ hS hQ hμ) ofBits_eps_pos

/-- The reciprocal standard deviation of a real column, two-pass form. -/
theorem rsqrt_var_two_pass_isReal (c : Fin 100000 → EReal) (hc : ∀ k, IsReal (c k)) (μ z : EReal)
    (hμ : μ = Ideal.div (∑ k, c k) (Ideal.ofBits .f32 0x47C35000#32)) (hz : z = 0) :
    IsReal (Ideal.rsqrt (Ideal.div (∑ k, (c k - μ) * (c k - μ)) (Ideal.ofBits .f32 0x47C35000#32 - z)
      + Ideal.ofBits .f32 0x3727C5AC#32)) :=
  IsReal.rsqrt_add (var_two_pass_isReal c hc μ z hμ hz) isReal_ofBits_eps
    (var_two_pass_nonneg c hc μ z hμ hz) ofBits_eps_pos

/-- The two-pass variance exactly as a plain program spells it — each sum started from the zero pattern, the
    quotient guarded by the comparison of the count with zero, any word w on the branch not taken — is the
    one-pass variance of the column's plain sums, with no clamp on either side. -/
theorem two_pass_select_eq_one_pass (c : Fin 100000 → EReal) (hc : ∀ k, IsReal (c k)) (z w : EReal) (hz : z = 0) :
    Scalar.select (Ideal.cmp .ogt (Ideal.ofBits .f32 0x47C35000#32 - z) (Ideal.ofBits .f32 0x00000000#32))
        (Ideal.div
          (Ideal.ofBits .f32 0x00000000#32
            + ∑ k, (c k - Ideal.div (Ideal.ofBits .f32 0x00000000#32 + ∑ k, c k) (Ideal.ofBits .f32 0x47C35000#32))
                * (c k - Ideal.div (Ideal.ofBits .f32 0x00000000#32 + ∑ k, c k) (Ideal.ofBits .f32 0x47C35000#32)))
          (Ideal.ofBits .f32 0x47C35000#32 - z))
        w
      = Ideal.div (∑ k, c k * c k) (Ideal.ofBits .f32 0x47C35000#32)
          - Ideal.div (∑ k, c k) (Ideal.ofBits .f32 0x47C35000#32)
            * Ideal.div (∑ k, c k) (Ideal.ofBits .f32 0x47C35000#32) := by
  rw [cmp_count_pos z hz, ofBits_zero, zero_add, zero_add]
  exact (var_one_pass_eq_two_pass c hc _ _ _ z rfl rfl rfl hz).symm

/-! ### Sums over ten tiles, and a running accumulator -/

section Tiles

variable {M : Type*} [AddCommMonoid M]

/-- The 100000 rows in 10 tiles of 10000. -/
theorem sum_tiles10 (f : Fin 100000 → M) :
    ∑ t : Fin 10, ∑ i : Fin 10000, f ⟨10000 * t.val + i.val, by have := t.isLt; have := i.isLt; omega⟩ = ∑ k, f k :=
  sum_blocks 10 10000 100000 (by norm_num) f

/-- A running accumulator that starts at zero and adds the term T t at step t holds, after n steps, the sum of the
    n terms. -/
theorem acc_eq_sum (n : ℕ) (T : Fin n → M) (acc : ℕ → M) (h0 : acc 0 = 0)
    (hstep : ∀ t : Fin n, acc (t.val + 1) = acc t.val + T t) : acc n = ∑ t, T t := by
  induction n with
  | zero => rw [h0]; rfl
  | succ m ih =>
    rw [Fin.sum_univ_castSucc, ← ih (fun t => T t.castSucc) (fun t => hstep t.castSucc)]
    exact hstep (Fin.last m)

/-- Ten terms added one after the other onto zero are their sum. -/
theorem sum_ten (T : Fin 10 → M) :
    0 + T 0 + T 1 + T 2 + T 3 + T 4 + T 5 + T 6 + T 7 + T 8 + T 9 = ∑ t, T t := by
  rw [zero_add]
  simp only [Fin.sum_univ_succ, Fin.sum_univ_zero, add_zero, add_assoc]
  rfl

/-- The running column sum over ten row tiles: an accumulator that starts at zero and at step t adds tile t's
    sum of f holds, after the ten steps, the sum of f over all 100000 rows. -/
theorem acc_tiles10 (f : Fin 100000 → M) (acc : ℕ → M) (h0 : acc 0 = 0)
    (hstep : ∀ t : Fin 10, acc (t.val + 1)
      = acc t.val + ∑ i : Fin 10000, f ⟨10000 * t.val + i.val, by have := t.isLt; have := i.isLt; omega⟩) :
    acc 10 = ∑ k, f k := by
  rw [acc_eq_sum 10 _ acc h0 hstep]; exact sum_tiles10 f

end Tiles

end Cert.LibGcn
-- ==== Proof.LibGcnLayer.lean ====
/-
  Finiteness along one graph-convolution layer: every operation of the layer takes real entries to real entries.

  An extended real is REAL when it is the image of a real number (neither infinity).  This file proves, for the
  exact operations a normalised graph-convolution layer is made of, that real inputs give real outputs, whatever
  the index words are:

  * a gather selects operand entries, so every gathered entry is an operand entry, and a gathered row times a
    real weight is real;
  * an accumulating scatter (each operand entry plus the sum of the update entries that land on it) of real
    updates into a real operand is real, for any dimension numbers and any index words: the updates that land
    nowhere are dropped, the others are finitely many;
  * a matrix product (a contraction: accumulator entry plus a finite sum of products) of real operands is real,
    on the matrix unit and on the host alike; a host sum-reduction of real entries from a real initial value is
    real;
  * the normalisation  (h - mean) * inv * gamma + beta  of reals is real, in either grouping of the scale; and
    the leaky rectifier, which selects between hn and slope * hn by a comparison, is real when hn and the slope
    are, whatever the comparison answers.

  It also reads two single-precision patterns as the reals they denote: the pattern of the number nearest to 0.01
  as the positive dyadic rational 10737418 / 2^30, and the pattern of one as 1.
-/
import proofs.«109725_j21638045237575_1_alg».proof.Proof.LibFinite

namespace Cert.LibGcn

open Idealize.ShloMosaic Cert.LibStats

/-! ### Two single-precision patterns -/

/-- The pattern 0x3C23D70A (sign 0, exponent 120, fraction 2348810), the single-precision number nearest to 0.01,
    denotes 10737418 / 2^30. -/
theorem ofBits_slope : Ideal.ofBits .f32 0x3C23D70A#32 = (((10737418 : ℝ) * (2 : ℝ) ^ (-30 : ℤ) : ℝ) : EReal) := by
  simp [Ideal.ofBits, Ideal.ieee, -EReal.coe_mul]

/-- The pattern nearest 0.01 is real. -/
theorem isReal_ofBits_slope : IsReal (Ideal.ofBits .f32 0x3C23D70A#32) := by rw [ofBits_slope]; exact isReal_coe _

/-- The pattern nearest 0.01 is positive. -/
theorem ofBits_slope_pos : 0 < Ideal.ofBits .f32 0x3C23D70A#32 := by
  rw [ofBits_slope]; exact EReal.coe_pos.mpr (by positivity)

/-- The pattern 0x3F800000 (sign 0, exponent 127, fraction 0) denotes 1. -/
theorem ofBits_one : Ideal.ofBits .f32 0x3F800000#32 = 1 := by
  simp [Ideal.ofBits, Ideal.ieee, -EReal.coe_mul]; norm_num

/-- The pattern of one is real. -/
theorem isReal_ofBits_one : IsReal (Ideal.ofBits .f32 0x3F800000#32) := by rw [ofBits_one]; exact isReal_one

/-! ### Gather -/

/-- Every entry of a gather of a real table is real: it is an entry of the table, whatever the dimension numbers
    and the index words. -/
theorem gather_isReal {s si t : Shape} {w : Nat} (d : GatherDims s si t) (x : s.Idx → EReal) (idx : IVec si w)
    (hx : ∀ i, IsReal (x i)) (j : t.Idx) : IsReal (Host.gather d x idx j) :=
  hx _

/-- A message entry: a gathered entry of a real table times a real weight is real. -/
theorem gather_mul_isReal {s si t : Shape} {w : Nat} (d : GatherDims s si t) (x : s.Idx → EReal) (idx : IVec si w)
    (hx : ∀ i, IsReal (x i)) (j : t.Idx) {nrm : EReal} (hn : IsReal nrm) :
    IsReal (Host.gather d x idx j * nrm) :=
  (gather_isReal d x idx hx j).mul hn

/-! ### Accumulating scatter -/

/-- Every entry of an accumulating scatter of real updates into a real operand is real, whatever the dimension
    numbers and the index words: it is the operand's entry plus a finite sum of update entries. -/
theorem hostScatterAdd_isReal {s si su : Shape} {w : Nat} (d : ScatterDims s si su) (x : s.Idx → EReal)
    (idx : IVec si w) (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- The same through the host operation's own name at the ideal values. -/
theorem scatterAdd_isReal {φ : FTy} {s si su : Shape} {w : Nat} (d : ScatterDims s si su) (x : FVec Ideal s φ)
    (idx : IVec si w) (upd : FVec Ideal su φ) (hx : ∀ i, IsReal (x i)) (hu : ∀ j, IsReal (upd j)) (i : s.Idx) :
    IsReal (Host.scatterAdd d x idx upd i) :=
  hostScatterAdd_isReal d x idx upd hx hu i

/-! ### Contractions and sums -/

/-- A matrix product of real operands onto a real accumulator is real. -/
theorem matmul_isReal {sl sr so : Shape} {φ₁ φ₂ : FTy} (d : DotDims sl sr so) (prec : Option ContractPrecision)
    (lhs : FVec Ideal sl φ₁) (rhs : FVec Ideal sr φ₂) (acc : FVec Ideal so .f32)
    (hl : ∀ i, IsReal (lhs i)) (hr : ∀ i, IsReal (rhs i)) (ha : ∀ j, IsReal (acc j)) (j : so.Idx) :
    IsReal (matmul d prec lhs rhs acc j) := by
  show IsReal (FloatOps.matmul d prec lhs rhs acc j)
  rw [Ideal.matmul_apply]
  exact (ha j).add (IsReal.sum_univ _ fun k => (hl _).mul (hr _))

/-- A matrix product of real operands onto the zero accumulator is real. -/
theorem matmul_zero_isReal {sl sr so : Shape} {φ₁ φ₂ : FTy} (d : DotDims sl sr so) (prec : Option ContractPrecision)
    (lhs : FVec Ideal sl φ₁) (rhs : FVec Ideal sr φ₂)
    (hl : ∀ i, IsReal (lhs i)) (hr : ∀ i, IsReal (rhs i)) (j : so.Idx) :
    IsReal (matmul d prec lhs rhs (constant (F := Ideal) so .f32 0x00000000#32) j) := by
  show IsReal (FloatOps.matmul d prec lhs rhs (constant (F := Ideal) so .f32 0x00000000#32) j)
  rw [Ideal.matmul_constant_zero_apply]
  exact IsReal.sum_univ _ fun k => (hl _).mul (hr _)

/-- The host's product of real operands is real. -/
theorem dotGeneral_isReal {sl sr so : Shape} {φ₁ φ₂ : FTy} (d : DotDims sl sr so) (prec : Option ContractPrecision)
    (lhs : FVec Ideal sl φ₁) (rhs : FVec Ideal sr φ₂)
    (hl : ∀ i, IsReal (lhs i)) (hr : ∀ i, IsReal (rhs i)) (j : so.Idx) :
    IsReal (Host.dotGeneral d prec lhs rhs j) := by
  show IsReal (FloatOps.dotGeneral d prec .single lhs rhs j)
  rw [Ideal.dotGeneral_apply]
  exact IsReal.sum_univ _ fun k => (hl _).mul (hr _)

/-- The host's sum-reduction of real entries from a real initial value is real. -/
theorem hostReduceAdd_isReal {s : Shape} {axes : List (Fin s.rank)} {t : Shape} (h : s.ReducesTo axes t)
    (x : s.Idx → EReal) (init : EReal) (hx : ∀ i, IsReal (x i)) (hi : IsReal init) (j : t.Idx) :
    IsReal (Ideal.hostReduceAdd h x init j) := by
  unfold Ideal.hostReduceAdd
  exact hi.add (IsReal.sum _ _ fun i _ => hx i)

/-! ### Normalise, scale, shift, rectify -/

/-- The normalisation  (h - mean) * inv * gamma + beta  of reals is real. -/
theorem normalize_isReal {h μ inv γ β : EReal} (hh : IsReal h) (hμ : IsReal μ) (hi : IsReal inv) (hγ : IsReal γ)
    (hβ : IsReal β) : IsReal ((h - μ) * inv * γ + β) :=
  (((hh.sub hμ).mul hi).mul hγ).add hβ

/-- The same with the scale grouped first:  (h - mean) * (inv * gamma) + beta. -/
theorem normalize_isReal' {h μ inv γ β : EReal} (hh : IsReal h) (hμ : IsReal μ) (hi : IsReal inv) (hγ : IsReal γ)
    (hβ : IsReal β) : IsReal ((h - μ) * (inv * γ) + β) :=
  ((hh.sub hμ).mul (hi.mul hγ)).add hβ

/-- A selection between two reals is real, whatever the condition word. -/
theorem select_isReal (b : BitVec 1) {x y : EReal} (hx : IsReal x) (hy : IsReal y) : IsReal (Scalar.select b x y) := by
  unfold Scalar.select; split <;> assumption

/-- The leaky rectifier of a real with a real slope is real:  where(hn >= 0, hn, slope * hn). -/
theorem leaky_isReal {hn slope zero : EReal} (hh : IsReal hn) (hs : IsReal slope) :
    IsReal (Scalar.select (Ideal.cmp .oge hn zero) hn (slope * hn)) :=
  select_isReal _ hh (hs.mul hh)

/-- The leaky rectifier with the slope word nearest 0.01. -/
theorem leaky_slope_isReal {hn zero : EReal} (hh : IsReal hn) :
    IsReal (Scalar.select (Ideal.cmp .oge hn zero) hn (Ideal.ofBits .f32 0x3C23D70A#32 * hn)) :=
  leaky_isReal hh isReal_ofBits_slope

/-- The same with the product in the other order:  where(hn >= 0, hn, hn * slope). -/
theorem leaky_slope_isReal' {hn zero : EReal} (hh : IsReal hn) :
    IsReal (Scalar.select (Ideal.cmp .oge hn zero) hn (hn * Ideal.ofBits .f32 0x3C23D70A#32)) :=
  select_isReal _ hh (hh.mul isReal_ofBits_slope)

/-- The ideal reciprocal square root of a real that is at least 1 is real. -/
theorem rsqrt_isReal_of_one_le {x : EReal} (hx : IsReal x) (h1 : 1 ≤ x) : IsReal (Ideal.rsqrt x) :=
  hx.rsqrt (lt_of_lt_of_le zero_lt_one h1)

end Cert.LibGcn
-- ==== Proof.LibGcnBatchNorm.lean ====
/-
  One normalised layer, computed two ways, is one function: batch normalisation with one-pass statistics against
  batch normalisation with two-pass statistics, followed by the leaky rectifier, on a real column.

  For a column c of 100000 real entries (extended reals that are neither infinity):

  * the mean computed from a sum that starts at the zero pattern is the mean of the plain sum (zero is neutral);
  * the two-pass variance, in the spelling of a plain program (each sum started from the zero pattern, the
    quotient by the count 100000 - z, z = 0, guarded by the comparison "count greater than zero" with any word on
    the branch not taken), is the one-pass variance  Q / 100000 - mean * mean  of the plain sums;
  * hence the normalised, scaled, shifted and rectified entry
        y = (x - mean) * rsqrt (var + eps) * gamma + beta,   where (y >= 0, y, slope * y)
    is the same extended real whichever pair (mean, var) it is built from, for any x, gamma, beta;
  * and it is real when x, gamma and beta are: the variance is a nonnegative real, eps a positive real, so the
    reciprocal square root is real, and the rectifier selects between two reals.

  The same is stated for a layer given as a table  a (n, o)  of real entries plus a bias row  b (o) : column o is
  n ↦ a (n, o) + b (o).  Nothing here depends on a program: the width d is arbitrary.
-/
import proofs.«109725_j21638045237575_1_alg».proof.Proof.LibGcnStats
import proofs.«109725_j21638045237575_1_alg».proof.Proof.LibGcnLayer

noncomputable section

namespace Cert.LibGcn

open Idealize.ShloMosaic Cert.LibStats

/-! ### The two pairs of statistics -/

/-- The mean of a column: its plain sum over the pattern of 100000. -/
abbrev meanK (c : Fin 100000 → EReal) : EReal := Ideal.div (∑ k, c k) (Ideal.ofBits .f32 0x47C35000#32)

/-- The one-pass variance of a column: the sum of squares over 100000, minus the square of the mean. -/
abbrev varK (c : Fin 100000 → EReal) : EReal :=
  Ideal.div (∑ k, c k * c k) (Ideal.ofBits .f32 0x47C35000#32) - meanK c * meanK c

/-- The mean of a column whose sum starts from the zero pattern. -/
abbrev meanR (c : Fin 100000 → EReal) : EReal :=
  Ideal.div (Ideal.ofBits .f32 0x00000000#32 + ∑ k, c k) (Ideal.ofBits .f32 0x47C35000#32)

/-- The two-pass variance of a column as a plain program spells it: the squared deviations from the mean summed
    from the zero pattern, over the count 100000 - z, guarded by "count greater than zero", w otherwise. -/
abbrev varR (c : Fin 100000 → EReal) (z w : EReal) : EReal :=
  Scalar.select (Ideal.cmp .ogt (Ideal.ofBits .f32 0x47C35000#32 - z) (Ideal.ofBits .f32 0x00000000#32))
    (Ideal.div (Ideal.ofBits .f32 0x00000000#32 + ∑ k, (c k - meanR c) * (c k - meanR c))
      (Ideal.ofBits .f32 0x47C35000#32 - z))
    w

/-- Normalise, scale, shift:  (x - mean) * rsqrt (var + eps) * gamma + beta, eps the pattern nearest 1e-5. -/
abbrev bnAffine (x μ v γ β : EReal) : EReal :=
  (x - μ) * Ideal.rsqrt (v + Ideal.ofBits .f32 0x3727C5AC#32) * γ + β

/-- The leaky rectifier with the slope pattern nearest 0.01:  where (y >= 0, y, slope * y). -/
abbrev leaky (y : EReal) : EReal :=
  Scalar.select (Ideal.cmp .oge y (Ideal.ofBits .f32 0x00000000#32)) y (Ideal.ofBits .f32 0x3C23D70A#32 * y)

/-- The zero-started mean is the mean. -/
theorem meanR_eq (c : Fin 100000 → EReal) : meanR c = meanK c := by
  show Ideal.div (Ideal.ofBits .f32 0x00000000#32 + ∑ k, c k) _ = Ideal.div (∑ k, c k) _
  rw [ofBits_zero, zero_add]

/-- The two-pass variance of a real column is its one-pass variance. -/
theorem varR_eq (c : Fin 100000 → EReal) (hc : ∀ k, IsReal (c k)) (z w : EReal) (hz : z = 0) :
    varR c z w = varK c :=
  two_pass_select_eq_one_pass c hc z w hz

/-! ### One entry of the layer -/

/-- THE TWO LAYERS AGREE, entry by entry: normalising a value x by the one-pass statistics of a real column and by
    its two-pass statistics gives the same rectified entry, whatever x, gamma and beta are. -/
theorem bn_leaky_eq (c : Fin 100000 → EReal) (hc : ∀ k, IsReal (c k)) (z w : EReal) (hz : z = 0) (x γ β : EReal) :
    leaky (bnAffine x (meanK c) (varK c) γ β) = leaky (bnAffine x (meanR c) (varR c z w) γ β) := by
  rw [meanR_eq c, varR_eq c hc z w hz]

/-- The one-pass mean of a real column is real. -/
theorem meanK_isReal (c : Fin 100000 → EReal) (hc : ∀ k, IsReal (c k)) : IsReal (meanK c) :=
  mean_isReal c hc

/-- The reciprocal standard deviation of a real column is real. -/
theorem inv_std_isReal (c : Fin 100000 → EReal) (hc : ∀ k, IsReal (c k)) :
    IsReal (Ideal.rsqrt (varK c + Ideal.ofBits .f32 0x3727C5AC#32)) :=
  rsqrt_var_one_pass_isReal c hc _ _ _ rfl rfl rfl

/-- The normalised, scaled, shifted entry is real when x, gamma and beta are. -/
theorem bnAffine_isReal (c : Fin 100000 → EReal) (hc : ∀ k, IsReal (c k)) {x γ β : EReal} (hx : IsReal x)
    (hγ : IsReal γ) (hβ : IsReal β) : IsReal (bnAffine x (meanK c) (varK c) γ β) :=
  normalize_isReal hx (meanK_isReal c hc) (inv_std_isReal c hc) hγ hβ

/-- The rectified entry is real when x, gamma and beta are. -/
theorem bn_leaky_isReal (c : Fin 100000 → EReal) (hc : ∀ k, IsReal (c k)) {x γ β : EReal} (hx : IsReal x)
    (hγ : IsReal γ) (hβ : IsReal β) : IsReal (leaky (bnAffine x (meanK c) (varK c) γ β)) :=
  leaky_slope_isReal (bnAffine_isReal c hc hx hγ hβ)

/-- So is the entry built from the two-pass statistics: it is the same extended real. -/
theorem bn_leaky_isReal' (c : Fin 100000 → EReal) (hc : ∀ k, IsReal (c k)) (z w : EReal) (hz : z = 0)
    {x γ β : EReal} (hx : IsReal x) (hγ : IsReal γ) (hβ : IsReal β) :
    IsReal (leaky (bnAffine x (meanR c) (varR c z w) γ β)) := by
  rw [← bn_leaky_eq c hc z w hz]; exact bn_leaky_isReal c hc hx hγ hβ

/-! ### A layer as a table plus a bias row -/

section Table
variable {d : ℕ}

/-- Column o of the layer's pre-normalisation value: n ↦ a (n, o) + b (o). -/
abbrev col (a : Fin 100000 → Fin d → EReal) (b : Fin d → EReal) (o : Fin d) : Fin 100000 → EReal :=
  fun n => a n o + b o

/-- Every column of a real table plus a real bias row is real. -/
theorem col_isReal (a : Fin 100000 → Fin d → EReal) (b : Fin d → EReal) (ha : ∀ n o, IsReal (a n o))
    (hb : ∀ o, IsReal (b o)) (o : Fin d) (n : Fin 100000) : IsReal (col a b o n) :=
  (ha n o).add (hb o)

/-- THE LAYER, entry (n, o): one-pass statistics and two-pass statistics give the same output. -/
theorem layer_eq (a : Fin 100000 → Fin d → EReal) (b γ β : Fin d → EReal) (ha : ∀ n o, IsReal (a n o))
    (hb : ∀ o, IsReal (b o)) (z w : EReal) (hz : z = 0) (n : Fin 100000) (o : Fin d) :
    leaky (bnAffine (a n o + b o) (meanK (col a b o)) (varK (col a b o)) (γ o) (β o))
      = leaky (bnAffine (a n o + b o) (meanR (col a b o)) (varR (col a b o) z w) (γ o) (β o)) :=
  bn_leaky_eq (col a b o) (col_isReal a b ha hb o) z w hz _ _ _

/-- THE LAYER's output is real when the table, the bias, the scale and the shift are. -/
theorem layer_isReal (a : Fin 100000 → Fin d → EReal) (b γ β : Fin d → EReal) (ha : ∀ n o, IsReal (a n o))
    (hb : ∀ o, IsReal (b o)) (hγ : ∀ o, IsReal (γ o)) (hβ : ∀ o, IsReal (β o)) (n : Fin 100000) (o : Fin d) :
    IsReal (leaky (bnAffine (a n o + b o) (meanK (col a b o)) (varK (col a b o)) (γ o) (β o))) :=
  bn_leaky_isReal (col a b o) (col_isReal a b ha hb o) ((ha n o).add (hb o)) (hγ o) (hβ o)

end Table

end Cert.LibGcn

end
-- ==== Proof.LibGcnAggReal.lean ====
/-
  Finiteness of one layer's aggregation, in the shape a host program spells it.

  The aggregation of a graph-convolution layer is an accumulating scatter, into a table of zeros (the zero constant
  broadcast), of messages: rows of a table z gathered by the edges' source words, each entry multiplied by the
  edge's weight (the weight vector broadcast to one column and then over the row's width).  When every entry of z and
  every weight is real (an extended real that is neither infinity), every entry of the aggregation is real —
  whatever the dimension numbers and the index words are: a broadcast and a gather only select entries, a product
  of reals is real, and an accumulating scatter adds finitely many of them to a real.  Adding a row of real biases
  keeps every entry real.

  The pointwise operations, broadcasts, casts and constants are each closed under "every entry is real"; the
  lemmas are stated one operation at a time and then for the whole term.
-/
import proofs.«109725_j21638045237575_1_alg».proof.Proof.LibGcnLayer
import Idealize.ShloMosaic.Lib.Pipeline.Value

namespace Cert.LibGcn

open Idealize.ShloMosaic Cert.LibStats

/-! ### One operation at a time -/

/-- A `broadcast_in_dim` of a real array is real: each entry is an entry of the operand. -/
theorem broadcastInDim_isReal {s t : Shape} (dims : Fin s.rank → Fin t.rank) (h : s.BroadcastsInDim t dims)
    (x : s.Idx → EReal) (hx : ∀ i, IsReal (x i)) (j : t.Idx) : IsReal (broadcastInDim t dims h x j) := by
  unfold broadcastInDim; exact hx _

/-- A vector broadcast of a real array is real. -/
theorem broadcastTo_isReal {s t : Shape} (h : s.Broadcasts t) (x : s.Idx → EReal) (hx : ∀ i, IsReal (x i))
    (j : t.Idx) : IsReal (broadcastTo t x h j) := by
  unfold broadcastTo; exact hx _

/-- A shape cast of a real array is real. -/
theorem shapeCast_isReal {s t : Shape} (h : s.ShapeCasts t) (x : s.Idx → EReal) (hx : ∀ i, IsReal (x i))
    (j : t.Idx) : IsReal (shapeCast t x h j) := by
  unfold shapeCast; exact hx _

/-- The zero constant is real at every index. -/
theorem constant_zero_isReal {s : Shape} (j : s.Idx) : IsReal (constant (F := Ideal) s .f32 0x00000000#32 j) := by
  show IsReal (Ideal.ofBits .f32 0x00000000#32); exact isReal_ofBits_zero

/-- The zero constant broadcast to any shape is real at every index. -/
theorem bcast_zero_isReal {s t : Shape} (dims : Fin s.rank → Fin t.rank) (h : s.BroadcastsInDim t dims) (j : t.Idx) :
    IsReal (broadcastInDim t dims h (constant (F := Ideal) s .f32 0x00000000#32) j) :=
  broadcastInDim_isReal dims h _ constant_zero_isReal j

/-- A pointwise sum of real arrays is real. -/
theorem addf_isReal {s : Shape} {φ : FTy} (x y : FVec Ideal s φ) (hx : ∀ i, IsReal (x i)) (hy : ∀ i, IsReal (y i))
    (i : s.Idx) : IsReal (addf x y i) :=
  (hx i).add (hy i)

/-- A pointwise difference of real arrays is real. -/
theorem subf_isReal {s : Shape} {φ : FTy} (x y : FVec Ideal s φ) (hx : ∀ i, IsReal (x i)) (hy : ∀ i, IsReal (y i))
    (i : s.Idx) : IsReal (subf x y i) :=
  (hx i).sub (hy i)

/-- A pointwise product of real arrays is real. -/
theorem mulf_isReal {s : Shape} {φ : FTy} (x y : FVec Ideal s φ) (hx : ∀ i, IsReal (x i)) (hy : ∀ i, IsReal (y i))
    (i : s.Idx) : IsReal (mulf x y i) :=
  (hx i).mul (hy i)

/-! ### The aggregation -/

/-- The messages — gathered rows of a real table times real weights — are real, whatever the gather's dimension
    numbers and index words. -/
theorem messages_isReal {sz si sm : Shape} {w : Nat} (dg : GatherDims sz si sm) (z : FVec Ideal sz .f32)
    (idxs : IVec si w) (nb : FVec Ideal sm .f32) (hz : ∀ i, IsReal (z i)) (hn : ∀ j, IsReal (nb j)) (j : sm.Idx) :
    IsReal (mulf (Host.gather dg z idxs) nb j) :=
  (gather_isReal dg z idxs hz j).mul (hn j)

/-- THE AGGREGATION IS REAL.  An accumulating scatter, into the broadcast zero constant, of gathered rows of a real
    table z times the real weight vector nrm broadcast twice (to a column, then over the row's width): every entry
    is real, for arbitrary dimension numbers, broadcast maps and index words. -/
theorem aggregate_isReal {sa siu sm sz si se1 se s0 : Shape} {w w' : Nat}
    (ds : ScatterDims sa siu sm) (dg : GatherDims sz si sm)
    (d0 : Fin s0.rank → Fin sa.rank) (h0 : s0.BroadcastsInDim sa d0)
    (d2 : Fin se1.rank → Fin sm.rank) (h2 : se1.BroadcastsInDim sm d2)
    (d1 : Fin se.rank → Fin se1.rank) (h1 : se.BroadcastsInDim se1 d1)
    (z : FVec Ideal sz .f32) (idxd : IVec siu w) (idxs : IVec si w') (nrm : FVec Ideal se .f32)
    (hz : ∀ i, IsReal (z i)) (hn : ∀ e, IsReal (nrm e)) (i : sa.Idx) :
    IsReal (Host.scatterAdd ds (broadcastInDim sa d0 h0 (constant (F := Ideal) s0 .f32 0x00000000#32)) idxd
      (mulf (Host.gather dg z idxs) (broadcastInDim sm d2 h2 (broadcastInDim se1 d1 h1 nrm))) i) :=
  scatterAdd_isReal ds _ idxd _ (bcast_zero_isReal d0 h0)
    (messages_isReal dg z idxs _ hz
      (broadcastInDim_isReal d2 h2 _ (broadcastInDim_isReal d1 h1 nrm hn))) i

/-- The aggregation plus a real bias vector broadcast to one row and then over the rows is real. -/
theorem add_bias_rows_isReal {sa sr sb : Shape} (agg : FVec Ideal sa .f32) (b : FVec Ideal sb .f32)
    (d1 : Fin sb.rank → Fin sr.rank) (h1 : sb.BroadcastsInDim sr d1)
    (d2 : Fin sr.rank → Fin sa.rank) (h2 : sr.BroadcastsInDim sa d2)
    (ha : ∀ i, IsReal (agg i)) (hb : ∀ o, IsReal (b o)) (i : sa.Idx) :
    IsReal (addf agg (broadcastInDim sa d2 h2 (broadcastInDim sr d1 h1 b)) i) :=
  addf_isReal agg _ ha (broadcastInDim_isReal d2 h2 _ (broadcastInDim_isReal d1 h1 b hb)) i

/-- A real table entry plus the entry of a real parameter vector cast to one row is real. -/
theorem add_bias_cast_isReal {d : Nat} (x : EReal) (b : (⟨1, ![d]⟩ : Shape).Idx → EReal)
    (h : (⟨1, ![d]⟩ : Shape).ShapeCasts ⟨2, ![1, d]⟩) (hx : IsReal x) (hb : ∀ o, IsReal (b o))
    (j : (⟨2, ![1, d]⟩ : Shape).Idx) : IsReal (x + shapeCast ⟨2, ![1, d]⟩ b h j) :=
  hx.add (shapeCast_isReal h b hb j)

end Cert.LibGcn
-- ==== Proof.RefBn.lean ====
/-
  The reference's batch normalisation and leaky rectifier on a REAL table, read at an index, at the extended reals, for
  the three widths. The reference computes two-pass statistics in a plain program's spelling (sums started from the zero
  word, the count less a converted zero, a guard on the count); for a column of real entries these are the one-pass
  statistics — the plain mean, and the mean of the squares less the squared mean — so the normalised, scaled, shifted and
  rectified entry is the same extended real built from either pair, and it is real when the scale and the shift are.
  Also: message passing of a real table with real edge weights is real (sums of products of reals onto zeros).
-/
import proofs.«109725_j21638045237575_1_alg».proof.Proof.RefIdeal
import proofs.«109725_j21638045237575_1_alg».proof.Proof.LibGcnBatchNorm
import proofs.«109725_j21638045237575_1_alg».proof.Proof.LibGcnAggReal

noncomputable section

namespace Cert.ReferenceIdeal.HandRun
open Cert.ReferenceIdeal Cert.ReferenceIdeal.Gen Idealize.ShloMosaic
open Idealize.ShloMosaic.ValueIdx Cert.LibStats Cert.LibGcn

/-! ## Width 32 -/

/-- The reference's batch normalisation and rectifier at width 32, applied to a table plus a bias row and read at row n and
    column o: for a real table and a real bias row, the rectified, normalised entry built from the ONE-PASS statistics of
    column o (plain sum, plain sum of squares). The reference computes two-pass statistics; on a real column they are the
    same numbers. -/
theorem refBn32_apply (t : FVec Ideal S100000x32 .f32) (b g be : FVec Ideal S32 .f32)
    (ht : ∀ n o, IsReal (t (ix2 n o))) (hb : ∀ o, IsReal (b (ix1 o))) (n : Fin 100000) (o : Fin 32) :
    refBn32 (F := Ideal) (addf t (refRows32 b)) g be (ix2 n o)
      = leaky (bnAffine (t (ix2 n o) + b (ix1 o))
          (meanK (col (fun n o => t (ix2 n o)) (fun o => b (ix1 o)) o))
          (varK (col (fun n o => t (ix2 n o)) (fun o => b (ix1 o)) o)) (g (ix1 o)) (be (ix1 o))) := by
  have hcol : ∀ k : Fin 100000, (addf t (refRows32 (F := Ideal) b)) (ix2 k o) = t (ix2 k o) + b (ix1 o) := fun k => by
    show t (ix2 k o) + refRows32 (F := Ideal) b (ix2 k o) = _
    rw [refRows32_apply]
  rw [layer_eq (fun n o => t (ix2 n o)) (fun o => b (ix1 o)) (fun o => g (ix1 o)) (fun o => be (ix1 o)) ht hb
    (FloatOps.sitofp (F := Ideal) .f32 (0#32 : BitVec 32)) (Ideal.ofBits .f32 0x7FC00000#32) sitofp_zero_f32 n o]
  unfold refBn32
  rw [refOut32_apply, refMean32_apply, refVar32_apply]
  simp only [hcol]

/-- … and that entry is real when the scale and the shift are. -/
theorem refBn32_isReal (t : FVec Ideal S100000x32 .f32) (b g be : FVec Ideal S32 .f32)
    (ht : ∀ n o, IsReal (t (ix2 n o))) (hb : ∀ o, IsReal (b (ix1 o))) (hg : ∀ o, IsReal (g (ix1 o)))
    (hbe : ∀ o, IsReal (be (ix1 o))) (n : Fin 100000) (o : Fin 32) :
    IsReal (refBn32 (F := Ideal) (addf t (refRows32 b)) g be (ix2 n o)) := by
  rw [refBn32_apply t b g be ht hb n o]
  exact layer_isReal (fun n o => t (ix2 n o)) (fun o => b (ix1 o)) (fun o => g (ix1 o)) (fun o => be (ix1 o)) ht hb hg hbe n o

/-! ## Width 128 -/

/-- The reference's batch normalisation and rectifier at width 128, applied to a table plus a bias row and read at row n and
    column o: for a real table and a real bias row, the rectified, normalised entry built from the ONE-PASS statistics of
    column o (plain sum, plain sum of squares). The reference computes two-pass statistics; on a real column they are the
    same numbers. -/
theorem refBn128_apply (t : FVec Ideal S100000x128 .f32) (b g be : FVec Ideal S128 .f32)
    (ht : ∀ n o, IsReal (t (ix2 n o))) (hb : ∀ o, IsReal (b (ix1 o))) (n : Fin 100000) (o : Fin 128) :
    refBn128 (F := Ideal) (addf t (refRows128 b)) g be (ix2 n o)
      = leaky (bnAffine (t (ix2 n o) + b (ix1 o))
          (meanK (col (fun n o => t (ix2 n o)) (fun o => b (ix1 o)) o))
          (varK (col (fun n o => t (ix2 n o)) (fun o => b (ix1 o)) o)) (g (ix1 o)) (be (ix1 o))) := by
  have hcol : ∀ k : Fin 100000, (addf t (refRows128 (F := Ideal) b)) (ix2 k o) = t (ix2 k o) + b (ix1 o) := fun k => by
    show t (ix2 k o) + refRows128 (F := Ideal) b (ix2 k o) = _
    rw [refRows128_apply]
  rw [layer_eq (fun n o => t (ix2 n o)) (fun o => b (ix1 o)) (fun o => g (ix1 o)) (fun o => be (ix1 o)) ht hb
    (FloatOps.sitofp (F := Ideal) .f32 (0#32 : BitVec 32)) (Ideal.ofBits .f32 0x7FC00000#32) sitofp_zero_f32 n o]
  unfold refBn128
  rw [refOut128_apply, refMean128_apply, refVar128_apply]
  simp only [hcol]

/-- … and that entry is real when the scale and the shift are. -/
theorem refBn128_isReal (t : FVec Ideal S100000x128 .f32) (b g be : FVec Ideal S128 .f32)
    (ht : ∀ n o, IsReal (t (ix2 n o))) (hb : ∀ o, IsReal (b (ix1 o))) (hg : ∀ o, IsReal (g (ix1 o)))
    (hbe : ∀ o, IsReal (be (ix1 o))) (n : Fin 100000) (o : Fin 128) :
    IsReal (refBn128 (F := Ideal) (addf t (refRows128 b)) g be (ix2 n o)) := by
  rw [refBn128_apply t b g be ht hb n o]
  exact layer_isReal (fun n o => t (ix2 n o)) (fun o => b (ix1 o)) (fun o => g (ix1 o)) (fun o => be (ix1 o)) ht hb hg hbe n o

/-! ## Width 16 -/

/-- The reference's batch normalisation and rectifier at width 16, applied to a table plus a bias row and read at row n and
    column o: for a real table and a real bias row, the rectified, normalised entry built from the ONE-PASS statistics of
    column o (plain sum, plain sum of squares). The reference computes two-pass statistics; on a real column they are the
    same numbers. -/
theorem refBn16_apply (t : FVec Ideal S100000x16 .f32) (b g be : FVec Ideal S16 .f32)
    (ht : ∀ n o, IsReal (t (ix2 n o))) (hb : ∀ o, IsReal (b (ix1 o))) (n : Fin 100000) (o : Fin 16) :
    refBn16 (F := Ideal) (addf t (refRows16 b)) g be (ix2 n o)
      = leaky (bnAffine (t (ix2 n o) + b (ix1 o))
          (meanK (col (fun n o => t (ix2 n o)) (fun o => b (ix1 o)) o))
          (varK (col (fun n o => t (ix2 n o)) (fun o => b (ix1 o)) o)) (g (ix1 o)) (be (ix1 o))) := by
  have hcol : ∀ k : Fin 100000, (addf t (refRows16 (F := Ideal) b)) (ix2 k o) = t (ix2 k o) + b (ix1 o) := fun k => by
    show t (ix2 k o) + refRows16 (F := Ideal) b (ix2 k o) = _
    rw [refRows16_apply]
  rw [layer_eq (fun n o => t (ix2 n o)) (fun o => b (ix1 o)) (fun o => g (ix1 o)) (fun o => be (ix1 o)) ht hb
    (FloatOps.sitofp (F := Ideal) .f32 (0#32 : BitVec 32)) (Ideal.ofBits .f32 0x7FC00000#32) sitofp_zero_f32 n o]
  unfold refBn16
  rw [refOut16_apply, refMean16_apply, refVar16_apply]
  simp only [hcol]

/-- … and that entry is real when the scale and the shift are. -/
theorem refBn16_isReal (t : FVec Ideal S100000x16 .f32) (b g be : FVec Ideal S16 .f32)
    (ht : ∀ n o, IsReal (t (ix2 n o))) (hb : ∀ o, IsReal (b (ix1 o))) (hg : ∀ o, IsReal (g (ix1 o)))
    (hbe : ∀ o, IsReal (be (ix1 o))) (n : Fin 100000) (o : Fin 16) :
    IsReal (refBn16 (F := Ideal) (addf t (refRows16 b)) g be (ix2 n o)) := by
  rw [refBn16_apply t b g be ht hb n o]
  exact layer_isReal (fun n o => t (ix2 n o)) (fun o => b (ix1 o)) (fun o => g (ix1 o)) (fun o => be (ix1 o)) ht hb hg hbe n o

/-- Message passing of a real table with real edge weights is real, entry by entry. -/
theorem refAgg32_isReal (z : FVec Ideal S100000x32 .f32) (src dst : IVec S1700000 32) (nrm : FVec Ideal S1700000 .f32)
    (hz : ∀ i, IsReal (z i)) (hn : ∀ e, IsReal (nrm e)) (i : S100000x32.Idx) :
    IsReal (refAgg32 (F := Ideal) z src dst nrm i) := by
  unfold refAgg32
  exact aggregate_isReal _ _ _ bcast_S_S100000x32 _ bcast_S1700000x1_S1700000x32_0_1 _ bcast_S1700000_S1700000x1_0 z (refWrap dst) (refWrap src) nrm hz hn i

/-- Message passing of a real table with real edge weights is real, entry by entry. -/
theorem refAgg128_isReal (z : FVec Ideal S100000x128 .f32) (src dst : IVec S1700000 32) (nrm : FVec Ideal S1700000 .f32)
    (hz : ∀ i, IsReal (z i)) (hn : ∀ e, IsReal (nrm e)) (i : S100000x128.Idx) :
    IsReal (refAgg128 (F := Ideal) z src dst nrm i) := by
  unfold refAgg128
  exact aggregate_isReal _ _ _ bcast_S_S100000x128 _ bcast_S1700000x1_S1700000x128_0_1 _ bcast_S1700000_S1700000x1_0 z (refWrap dst) (refWrap src) nrm hz hn i

/-- Message passing of a real table with real edge weights is real, entry by entry. -/
theorem refAgg16_isReal (z : FVec Ideal S100000x16 .f32) (src dst : IVec S1700000 32) (nrm : FVec Ideal S1700000 .f32)
    (hz : ∀ i, IsReal (z i)) (hn : ∀ e, IsReal (nrm e)) (i : S100000x16.Idx) :
    IsReal (refAgg16 (F := Ideal) z src dst nrm i) := by
  unfold refAgg16
  exact aggregate_isReal _ _ _ bcast_S_S100000x16 _ bcast_S1700000x1_S1700000x16_0_1 _ bcast_S1700000_S1700000x1_0 z (refWrap dst) (refWrap src) nrm hz hn i
end Cert.ReferenceIdeal.HandRun

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibLinearTile.lean ====
/-
  A row tile of a linear layer, read at an index, at the exact instance.

  The tile's value is  x · W + b : both operands narrowed to a 16-bit format before a matrix product into the zero
  accumulator, then the bias row (one row, cast to its own shape and broadcast over the tile's rows) added.  At
  the ideal values a change of float format is the identity and the matrix product is the plain sum of products,
  so entry (p, o) of the tile is  (sum over k of x (p, k) * W (k, o)) + b (0, o).  Generic in the three extents.
  The same with the tile of x first cast to its own shape (the identity).  The whole layer's value is named as one
  function of the three arrays, index by index (`linearAt`).
-/
import Idealize.ShloMosaic.Lib.ValueIdx
import Idealize.ShloMosaic.Lib.ValueLayout
import Idealize.ShloMosaic.Lib.Pipeline.Value
import Idealize.ShloMosaic.PureOps.Ideal.Laws
import proofs.«109725_j21638045237575_1_alg».proof.Proof.LibPlainDot

noncomputable section

namespace Cert.Lib.LinearTile

open Idealize.ShloMosaic Idealize.ShloMosaic.ValueIdx Cert.Lib.PlainDot

/-- Entry (p, o) of  x · W + b  computed on one tile of M rows: the plain sum of products plus the bias entry. -/
theorem linear_tile_apply {M K N : Nat} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (b : FVec Ideal ⟨2, ![1, N]⟩ .f32)
    (hx : FTy.bits .bf16 < FTy.bits .f32)
    (hsc : (⟨2, ![1, N]⟩ : Shape).ShapeCasts ⟨2, ![1, N]⟩) (hbc : (⟨2, ![1, N]⟩ : Shape).Broadcasts ⟨2, ![M, N]⟩)
    (p : Fin M) (o : Fin N) :
    addf (matmul D prec (truncf .bf16 x hx) (truncf .bf16 w hx) (constant (F := Ideal) ⟨2, ![M, N]⟩ .f32 0x00000000#32))
        (broadcastTo ⟨2, ![M, N]⟩ (shapeCast ⟨2, ![1, N]⟩ b hsc) hbc) (ix2 p o)
      = (∑ k : Fin K, x (ix2 p k) * w (ix2 k o)) + b (ix2 (0 : Fin 1) o) := by
  subst hD
  show matmul (DotDims.plain M K N) prec (truncf .bf16 x hx) (truncf .bf16 w hx)
      (constant (F := Ideal) ⟨2, ![M, N]⟩ .f32 0x00000000#32) (ix2 p o)
    + broadcastTo ⟨2, ![M, N]⟩ (shapeCast ⟨2, ![1, N]⟩ b hsc) hbc (ix2 p o) = _
  rw [matmul_plain_zero_apply, shapeCast_self, broadcastTo_1b_ab_apply]
  rfl

/-- The same when the tile of x is first cast to its own shape. -/
theorem linear_tile_cast_apply {M K N : Nat} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (b : FVec Ideal ⟨2, ![1, N]⟩ .f32)
    (hx : FTy.bits .bf16 < FTy.bits .f32)
    (hxc : (⟨2, ![M, K]⟩ : Shape).ShapeCasts ⟨2, ![M, K]⟩)
    (hsc : (⟨2, ![1, N]⟩ : Shape).ShapeCasts ⟨2, ![1, N]⟩) (hbc : (⟨2, ![1, N]⟩ : Shape).Broadcasts ⟨2, ![M, N]⟩)
    (p : Fin M) (o : Fin N) :
    addf (matmul D prec (truncf .bf16 (shapeCast ⟨2, ![M, K]⟩ x hxc) hx) (truncf .bf16 w hx)
          (constant (F := Ideal) ⟨2, ![M, N]⟩ .f32 0x00000000#32))
        (broadcastTo ⟨2, ![M, N]⟩ (shapeCast ⟨2, ![1, N]⟩ b hsc) hbc) (ix2 p o)
      = (∑ k : Fin K, x (ix2 p k) * w (ix2 k o)) + b (ix2 (0 : Fin 1) o) := by
  rw [shapeCast_self x hxc]
  exact linear_tile_apply D hD prec x w b hx hsc hbc p o

/-- The linear layer  X · W + B  (B one row) of three arrays, index by index. -/
def linearAt {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => (∑ k : Fin K, X (ix2 (i 0) k) * W (ix2 k (i 1))) + B (ix2 (0 : Fin 1) (i 1))

/-- The linear layer at the index (n, o). -/
theorem linearAt_apply {M K N : Nat} (X : (⟨2, ![M, K]⟩ : Shape).Idx → EReal) (W : (⟨2, ![K, N]⟩ : Shape).Idx → EReal)
    (B : (⟨2, ![1, N]⟩ : Shape).Idx → EReal) (n : Fin M) (o : Fin N) :
    linearAt X W B (ix2 n o) = (∑ k : Fin K, X (ix2 n k) * W (ix2 k o)) + B (ix2 (0 : Fin 1) o) := rfl

end Cert.Lib.LinearTile

end
-- ==== Proof.LibDotLinear.lean ====
/-
  The host's plain matrix product as a linear layer, and parameter rows read at an index.

  At the ideal values — floats extended reals, every operation exact — the host's product with the plain
  dimension numbers "rows × contraction times contraction × columns", read at (n, o), is the sum over k of
  X (n, k) · W (k, o).  So it is the linear layer  X · W + B  (`linearAt`) for any bias row B that is zero at every
  entry — in particular the zero row a program builds by broadcasting the zero constant to a vector and casting it
  to one row — and the product plus a parameter vector broadcast over the rows is the linear layer whose bias row
  is that vector cast to one row.  Everything is an equality of whole arrays.

  Rows: a vector cast to one row reads, at (0, o), the vector at o; a vector broadcast to one row and then over M
  rows reads, at (n, o), the vector at o.  Generic in all extents.
-/
import Idealize.ShloMosaic.Lib.ValueIdx
import Idealize.ShloMosaic.Lib.ValueLayout
import Idealize.ShloMosaic.Lib.Pipeline.Value
import Idealize.ShloMosaic.PureOps.Ideal.Laws
import proofs.«109725_j21638045237575_1_alg».proof.Proof.LibPlainDot
import proofs.«109725_j21638045237575_1_alg».proof.Proof.LibLinearTile

noncomputable section

namespace Cert.Lib.DotLinear

open Idealize.ShloMosaic Idealize.ShloMosaic.ValueIdx Cert.Lib.PlainDot Cert.Lib.LinearTile

/-! ## Rows -/

section Rows
variable {α : Type} {M d : Nat}

/-- A vector cast to one row reads, at (0, o), the vector at o. -/
theorem row_cast_apply (v : (⟨1, ![d]⟩ : Shape).Idx → α) (h : (⟨1, ![d]⟩ : Shape).ShapeCasts ⟨2, ![1, d]⟩) (o : Fin d) :
    (fun i => shapeCast ⟨2, ![1, d]⟩ v h i) (ix2 (0 : Fin 1) o) = v (ix1 o) :=
  shapeCast_a_1a_apply v h 0 o

/-- A vector broadcast to one row reads, at (u, o), the vector at o. -/
theorem bcast_row_apply (v : (⟨1, ![d]⟩ : Shape).Idx → α) (dims : Fin 1 → Fin 2) (hd : dims 0 = 1)
    (h : (⟨1, ![d]⟩ : Shape).BroadcastsInDim ⟨2, ![1, d]⟩ dims) (u : Fin 1) (o : Fin d) :
    broadcastInDim ⟨2, ![1, d]⟩ dims h v (ix2 u o) = v (ix1 o) := by
  refine broadcastInDim_apply dims h v (ix2 u o) (ix1 o) fun a => ?_
  match a with
  | ⟨0, _⟩ =>
    show o.val = if d = 1 then 0 else ((ix2 u o) (dims 0)).val
    rw [hd]
    split
    · have := o.isLt; omega
    · rfl

/-- One row broadcast over M rows reads, at (n, o), the row at (0, o). -/
theorem bcast_rows_apply (r : (⟨2, ![1, d]⟩ : Shape).Idx → α) (dims : Fin 2 → Fin 2) (hd0 : dims 0 = 0) (hd1 : dims 1 = 1)
    (h : (⟨2, ![1, d]⟩ : Shape).BroadcastsInDim ⟨2, ![M, d]⟩ dims) (n : Fin M) (o : Fin d) :
    broadcastInDim ⟨2, ![M, d]⟩ dims h r (ix2 n o) = r (ix2 (0 : Fin 1) o) := by
  refine broadcastInDim_apply dims h r (ix2 n o) (ix2 (0 : Fin 1) o) fun a => ?_
  match a with
  | ⟨0, _⟩ => rfl
  | ⟨1, _⟩ =>
    show o.val = if d = 1 then 0 else ((ix2 n o) (dims 1)).val
    rw [hd1]
    split
    · have := o.isLt; omega
    · rfl

/-- A vector broadcast to one row and then over M rows reads, at (n, o), the vector at o. -/
theorem bcast_vec_rows_apply (v : (⟨1, ![d]⟩ : Shape).Idx → α) (dims1 : Fin 1 → Fin 2) (hd : dims1 0 = 1)
    (h1 : (⟨1, ![d]⟩ : Shape).BroadcastsInDim ⟨2, ![1, d]⟩ dims1)
    (dims2 : Fin 2 → Fin 2) (hd0 : dims2 0 = 0) (hd1 : dims2 1 = 1)
    (h2 : (⟨2, ![1, d]⟩ : Shape).BroadcastsInDim ⟨2, ![M, d]⟩ dims2) (n : Fin M) (o : Fin d) :
    broadcastInDim ⟨2, ![M, d]⟩ dims2 h2 (broadcastInDim ⟨2, ![1, d]⟩ dims1 h1 v) (ix2 n o) = v (ix1 o) := by
  rw [bcast_rows_apply _ dims2 hd0 hd1 h2 n o, bcast_row_apply v dims1 hd h1 0 o]

end Rows

/-- A broadcast of the zero constant reads 0 at every index, whatever the shapes. -/
theorem bcast_zero_apply {s t : Shape} (dims : Fin s.rank → Fin t.rank) (h : s.BroadcastsInDim t dims) (j : t.Idx) :
    broadcastInDim t dims h (constant (F := Ideal) s .f32 0x00000000#32) j = (0 : EReal) := by
  show Ideal.ofBits .f32 0x00000000#32 = 0
  exact Ideal.ofBits_zero_f32

/-- The zero row a program builds — the zero constant broadcast to a vector, cast to one row — is zero at (0, o). -/
theorem zero_row_apply {d : Nat} {s0 : Shape} (dims : Fin s0.rank → Fin 1)
    (h0 : s0.BroadcastsInDim ⟨1, ![d]⟩ dims) (h : (⟨1, ![d]⟩ : Shape).ShapeCasts ⟨2, ![1, d]⟩) (o : Fin d) :
    (fun i => shapeCast ⟨2, ![1, d]⟩
      (broadcastInDim ⟨1, ![d]⟩ dims h0 (constant (F := Ideal) s0 .f32 0x00000000#32)) h i) (ix2 (0 : Fin 1) o)
      = (0 : EReal) := by
  show shapeCast ⟨2, ![1, d]⟩
      (broadcastInDim ⟨1, ![d]⟩ dims h0 (constant (F := Ideal) s0 .f32 0x00000000#32)) h (ix2 (0 : Fin 1) o) = 0
  rw [shapeCast_a_1a_apply]
  exact bcast_zero_apply (t := ⟨1, ![d]⟩) dims h0 _

/-! ## The host's product -/

section Dot
variable {M K N : Nat}

/-- The host's plain product read at (n, o): the sum over k of X (n, k) · W (k, o). -/
theorem dotGeneral_apply {φ₁ φ₂ : FTy} (D : DotDims ⟨2, ![M, K]⟩ ⟨2, ![K, N]⟩ ⟨2, ![M, N]⟩)
    (hD : D = DotDims.plain M K N) (prec : Option ContractPrecision)
    (X : FVec Ideal ⟨2, ![M, K]⟩ φ₁) (W : FVec Ideal ⟨2, ![K, N]⟩ φ₂) (n : Fin M) (o : Fin N) :
    Host.dotGeneral D prec X W (ix2 n o) = ∑ k : Fin K, X (ix2 n k) * W (ix2 k o) := by
  subst hD
  show FloatOps.dotGeneral (DotDims.plain M K N) prec .single X W (ix2 n o) = _
  rw [Ideal.dotGeneral_apply, ← Equiv.sum_comp (contrEquiv1 (DotDims.plain M K N) K rfl rfl).symm]
  refine Finset.sum_congr rfl fun k _ => ?_
  rw [lhsIdx_plain, rhsIdx_plain]

/-- THE HOST'S PRODUCT IS THE LINEAR LAYER with any bias row that is zero at every entry. -/
theorem dotGeneral_eq_linearAt (D : DotDims ⟨2, ![M, K]⟩ ⟨2, ![K, N]⟩ ⟨2, ![M, N]⟩)
    (hD : D = DotDims.plain M K N) (prec : Option ContractPrecision)
    (X : FVec Ideal ⟨2, ![M, K]⟩ .f32) (W : FVec Ideal ⟨2, ![K, N]⟩ .f32)
    (B : (⟨2, ![1, N]⟩ : Shape).Idx → EReal) (hB : ∀ o : Fin N, B (ix2 (0 : Fin 1) o) = 0) :
    (Host.dotGeneral D prec X W : (⟨2, ![M, N]⟩ : Shape).Idx → EReal) = linearAt X W B := by
  funext i
  obtain ⟨n, o, rfl⟩ : ∃ (n : Fin M) (o : Fin N), i = ix2 n o := ⟨i 0, i 1, eq_ix2 i⟩
  rw [dotGeneral_apply D hD, linearAt_apply, hB o, add_zero]

/-- The host's product is the linear layer whose bias row is the zero constant broadcast to a vector and cast to
    one row. -/
theorem dotGeneral_eq_linearAt_zero_row (D : DotDims ⟨2, ![M, K]⟩ ⟨2, ![K, N]⟩ ⟨2, ![M, N]⟩)
    (hD : D = DotDims.plain M K N) (prec : Option ContractPrecision)
    (X : FVec Ideal ⟨2, ![M, K]⟩ .f32) (W : FVec Ideal ⟨2, ![K, N]⟩ .f32)
    {s0 : Shape} (dims : Fin s0.rank → Fin 1) (h0 : s0.BroadcastsInDim ⟨1, ![N]⟩ dims)
    (h : (⟨1, ![N]⟩ : Shape).ShapeCasts ⟨2, ![1, N]⟩) :
    (Host.dotGeneral D prec X W : (⟨2, ![M, N]⟩ : Shape).Idx → EReal)
      = linearAt X W (fun i => shapeCast ⟨2, ![1, N]⟩
          (broadcastInDim ⟨1, ![N]⟩ dims h0 (constant (F := Ideal) s0 .f32 0x00000000#32)) h i) :=
  dotGeneral_eq_linearAt D hD prec X W _ fun o => zero_row_apply dims h0 h o

/-- THE HEAD: the host's product plus a parameter vector broadcast to one row and then over the M rows is the
    linear layer whose bias row is the vector cast to one row. -/
theorem dotGeneral_add_rows_eq_linearAt (D : DotDims ⟨2, ![M, K]⟩ ⟨2, ![K, N]⟩ ⟨2, ![M, N]⟩)
    (hD : D = DotDims.plain M K N) (prec : Option ContractPrecision)
    (X : FVec Ideal ⟨2, ![M, K]⟩ .f32) (W : FVec Ideal ⟨2, ![K, N]⟩ .f32) (b : FVec Ideal ⟨1, ![N]⟩ .f32)
    (dims1 : Fin 1 → Fin 2) (hd : dims1 0 = 1) (h1 : (⟨1, ![N]⟩ : Shape).BroadcastsInDim ⟨2, ![1, N]⟩ dims1)
    (dims2 : Fin 2 → Fin 2) (hd0 : dims2 0 = 0) (hd1 : dims2 1 = 1)
    (h2 : (⟨2, ![1, N]⟩ : Shape).BroadcastsInDim ⟨2, ![M, N]⟩ dims2)
    (h : (⟨1, ![N]⟩ : Shape).ShapeCasts ⟨2, ![1, N]⟩) :
    (addf (Host.dotGeneral D prec X W)
        (broadcastInDim ⟨2, ![M, N]⟩ dims2 h2 (broadcastInDim ⟨2, ![1, N]⟩ dims1 h1 b))
      : (⟨2, ![M, N]⟩ : Shape).Idx → EReal)
      = linearAt X W (fun i => shapeCast ⟨2, ![1, N]⟩ b h i) := by
  funext i
  obtain ⟨n, o, rfl⟩ : ∃ (n : Fin M) (o : Fin N), i = ix2 n o := ⟨i 0, i 1, eq_ix2 i⟩
  show Host.dotGeneral D prec X W (ix2 n o)
      + broadcastInDim ⟨2, ![M, N]⟩ dims2 h2 (broadcastInDim ⟨2, ![1, N]⟩ dims1 h1 b) (ix2 n o) = _
  rw [dotGeneral_apply D hD, bcast_vec_rows_apply b dims1 hd h1 dims2 hd0 hd1 h2 n o, linearAt_apply,
    shapeCast_a_1a_apply b h 0 o]

end Dot

end Cert.Lib.DotLinear

end
-- ==== Proof.KI.HostFacts.lean ====
/-
  The host stretches of the idealized kernel's @main read as terms. Between two kernel regions @main runs a list of
  host operations; `StableHlo.after ops V` is the buffers' contents after the list from contents `V`. For each stretch
  and each buffer the next regions read, one lemma states that buffer's contents as the operations' composed term of
  the contents before the stretch — for ANY `V`.

  The prologue builds the edge lists with one self loop per node appended (`kerSrc`, `kerDst`), the degree of every
  node as a scatter-add of ones at the targets (`kerDeg`), and the edge weights rsqrt(deg)[src] · rsqrt(deg)[dst]
  (`kerNorm`). Each layer's stretch gathers the rows of the linear kernel's output at the sources, scales them by the
  edge weights and adds them into a zero table at the targets (`kerAgg1 … kerAgg5`); index vectors pass through
  `wrapCol` first (a negative entry is wrapped around by the number of nodes). The short stretches reshape a
  parameter vector into a row, or make a zero bias row.
-/
import proofs.«109725_j21638045237575_1_alg».proof.Proof.Gen.KernelIdeal.Launch
import Idealize.ShloMosaic.Lib.StableHlo.Run

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-! ## The terms -/

/-- An index vector with its negative entries wrapped around by the number of nodes (100000), as a one-column table:
    the form in which a gather or a scatter-add takes its row indices. -/
def wrapCol (i : (⟨S1700000, .i32⟩ : BufTy).Contents (Elt F)) : (⟨S1700000x1, .i32⟩ : BufTy).Contents (Elt F) :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- The sources of the 1700000 messages: row 0 of the edge table, then one self loop per node. -/
def kerSrc (e : (⟨S2x1600000, .i32⟩ : BufTy).Contents (Elt F)) : (⟨S1700000, .i32⟩ : BufTy).Contents (Elt F) :=
  concatenate S1700000 0 [⟨S1600000, fun i => shapeCast S1600000 (extractStridedSlice S1x1600000 ![0, 0] e slices_S2x1600000_S1x1600000_0_0) shapeCasts_S1x1600000_S1600000 i⟩, ⟨S100000, iotaInDim S100000 32 0⟩] concatenates_S1600000_S100000_S1700000_d0

/-- The targets of the messages: row 1 of the edge table, then one self loop per node. -/
def kerDst (e : (⟨S2x1600000, .i32⟩ : BufTy).Contents (Elt F)) : (⟨S1700000, .i32⟩ : BufTy).Contents (Elt F) :=
  concatenate S1700000 0 [⟨S1600000, fun i => shapeCast S1600000 (extractStridedSlice S1x1600000 ![1, 0] e slices_S2x1600000_S1x1600000_1_0) shapeCasts_S1x1600000_S1600000 i⟩, ⟨S100000, iotaInDim S100000 32 0⟩] concatenates_S1600000_S100000_S1700000_d0

/-- The degree of every node: one added at its row for every message that targets it. -/
def kerDeg (dst : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (wrapCol dst)
    (broadcastInDim S1700000 ![] bcast_S_S1700000 (constant S_ .f32 0x3F800000#32))

/-- The edge weights: rsqrt(deg) at the message's source times rsqrt(deg) at its target. -/
def kerNorm (src dst : (⟨S1700000, .i32⟩ : BufTy).Contents (Elt F)) : (⟨S1700000, .f32⟩ : BufTy).Contents (Elt F) :=
  mulf (Host.gather gather_S100000_S1700000x1_S1700000_n_0_n_n_0_1_1 (Host.rsqrt (kerDeg dst)) (wrapCol src))
    (Host.gather gather_S100000_S1700000x1_S1700000_n_0_n_n_0_1_1 (Host.rsqrt (kerDeg dst)) (wrapCol dst))

/-- Layer 1's aggregation as the host computes it from the rows `z` the linear kernel left, the edge lists `src`, `dst` and
    the edge weights `nrm`: row `src e` of `z` scaled by `nrm e`, added into row `dst e` of a zero table, over all edges. -/
def kerAgg1 (z : (⟨S100000x32, .f32⟩ : BufTy).Contents (Elt F)) (src dst : (⟨S1700000, .i32⟩ : BufTy).Contents (Elt F))
    (nrm : (⟨S1700000, .f32⟩ : BufTy).Contents (Elt F)) : (⟨S100000x32, .f32⟩ : BufTy).Contents (Elt F) :=
  Host.scatterAdd scatter_S100000x32_S1700000x1_S1700000x32_1_0_0_1
    (broadcastInDim S100000x32 ![] bcast_S_S100000x32 (constant S_ .f32 0x00000000#32))
    (wrapCol dst)
    (mulf (Host.gather gather_S100000x32_S1700000x1_S1700000x32_1_0_n_n_0_1_132 z (wrapCol src))
      (broadcastInDim S1700000x32 ![0, 1] bcast_S1700000x1_S1700000x32_0_1 (broadcastInDim S1700000x1 ![0] bcast_S1700000_S1700000x1_0 nrm)))

/-- Layer 2's aggregation as the host computes it from the rows `z` the linear kernel left, the edge lists `src`, `dst` and
    the edge weights `nrm`: row `src e` of `z` scaled by `nrm e`, added into row `dst e` of a zero table, over all edges. -/
def kerAgg2 (z : (⟨S100000x128, .f32⟩ : BufTy).Contents (Elt F)) (src dst : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (wrapCol dst)
    (mulf (Host.gather gather_S100000x128_S1700000x1_S1700000x128_1_0_n_n_0_1_1128 z (wrapCol src))
      (broadcastInDim S1700000x128 ![0, 1] bcast_S1700000x1_S1700000x128_0_1 (broadcastInDim S1700000x1 ![0] bcast_S1700000_S1700000x1_0 nrm)))

/-- Layer 3's aggregation as the host computes it from the rows `z` the linear kernel left, the edge lists `src`, `dst` and
    the edge weights `nrm`: row `src e` of `z` scaled by `nrm e`, added into row `dst e` of a zero table, over all edges. -/
def kerAgg3 (z : (⟨S100000x128, .f32⟩ : BufTy).Contents (Elt F)) (src dst : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (wrapCol dst)
    (mulf (Host.gather gather_S100000x128_S1700000x1_S1700000x128_1_0_n_n_0_1_1128 z (wrapCol src))
      (broadcastInDim S1700000x128 ![0, 1] bcast_S1700000x1_S1700000x128_0_1 (broadcastInDim S1700000x1 ![0] bcast_S1700000_S1700000x1_0 nrm)))

/-- Layer 4's aggregation as the host computes it from the rows `z` the linear kernel left, the edge lists `src`, `dst` and
    the edge weights `nrm`: row `src e` of `z` scaled by `nrm e`, added into row `dst e` of a zero table, over all edges. -/
def kerAgg4 (z : (⟨S100000x32, .f32⟩ : BufTy).Contents (Elt F)) (src dst : (⟨S1700000, .i32⟩ : BufTy).Contents (Elt F))
    (nrm : (⟨S1700000, .f32⟩ : BufTy).Contents (Elt F)) : (⟨S100000x32, .f32⟩ : BufTy).Contents (Elt F) :=
  Host.scatterAdd scatter_S100000x32_S1700000x1_S1700000x32_1_0_0_1
    (broadcastInDim S100000x32 ![] bcast_S_S100000x32 (constant S_ .f32 0x00000000#32))
    (wrapCol dst)
    (mulf (Host.gather gather_S100000x32_S1700000x1_S1700000x32_1_0_n_n_0_1_132 z (wrapCol src))
      (broadcastInDim S1700000x32 ![0, 1] bcast_S1700000x1_S1700000x32_0_1 (broadcastInDim S1700000x1 ![0] bcast_S1700000_S1700000x1_0 nrm)))

/-- Layer 5's aggregation as the host computes it from the rows `z` the linear kernel left, the edge lists `src`, `dst` and
    the edge weights `nrm`: row `src e` of `z` scaled by `nrm e`, added into row `dst e` of a zero table, over all edges. -/
def kerAgg5 (z : (⟨S100000x16, .f32⟩ : BufTy).Contents (Elt F)) (src dst : (⟨S1700000, .i32⟩ : BufTy).Contents (Elt F))
    (nrm : (⟨S1700000, .f32⟩ : BufTy).Contents (Elt F)) : (⟨S100000x16, .f32⟩ : BufTy).Contents (Elt F) :=
  Host.scatterAdd scatter_S100000x16_S1700000x1_S1700000x16_1_0_0_1
    (broadcastInDim S100000x16 ![] bcast_S_S100000x16 (constant S_ .f32 0x00000000#32))
    (wrapCol dst)
    (mulf (Host.gather gather_S100000x16_S1700000x1_S1700000x16_1_0_n_n_0_1_116 z (wrapCol src))
      (broadcastInDim S1700000x16 ![0, 1] bcast_S1700000x1_S1700000x16_0_1 (broadcastInDim S1700000x1 ![0] bcast_S1700000_S1700000x1_0 nrm)))

/-! ## The stretches -/

/-! ### The prologue (before region 0) -/

theorem after_hostOps0_v3 (V : Valuation τ sig (Elt F)) :
    StableHlo.after hostOps0 V (Proc.devRef .tc main_v3) = kerSrc (V (Proc.devRef .tc main_arg1)) := by
  unfold kerSrc
  simp only [hostOps0]
  after_results_simp
  try rfl

theorem after_hostOps0_v6 (V : Valuation τ sig (Elt F)) :
    StableHlo.after hostOps0 V (Proc.devRef .tc main_v6) = kerDst (V (Proc.devRef .tc main_arg1)) := by
  unfold kerDst
  simp only [hostOps0]
  after_results_simp
  try rfl

theorem after_hostOps0_v31 (V : Valuation τ sig (Elt F)) :
    StableHlo.after hostOps0 V (Proc.devRef .tc main_v31)
      = kerNorm (kerSrc (V (Proc.devRef .tc main_arg1))) (kerDst (V (Proc.devRef .tc main_arg1))) := by
  unfold kerNorm kerDeg kerSrc kerDst wrapCol
  simp only [hostOps0]
  after_results_simp
  try rfl

theorem after_hostOps0_v33 (V : Valuation τ sig (Elt F)) :
    StableHlo.after hostOps0 V (Proc.devRef .tc main_v33)
      = fun i => shapeCast S1x32 (broadcastInDim S32 ![] bcast_S_S32 (constant S_ .f32 0x00000000#32) : (⟨S32, .f32⟩ : BufTy).Contents (Elt F)) shapeCasts_S32_S1x32 i := by
  simp only [hostOps0]
  after_results_simp
  try rfl

/-! ### The stretch before region 1 (layer 1: aggregation and the bias row) -/

theorem after_hostOps1_v52 (V : Valuation τ sig (Elt F)) :
    StableHlo.after hostOps1 V (Proc.devRef .tc main_v52)
      = kerAgg1 (V (Proc.devRef .tc main_v34)) (V (Proc.devRef .tc main_v3)) (V (Proc.devRef .tc main_v6)) (V (Proc.devRef .tc main_v31)) := by
  unfold kerAgg1 wrapCol
  simp only [hostOps1]
  after_results_simp
  try rfl

theorem after_hostOps1_v53 (V : Valuation τ sig (Elt F)) :
    StableHlo.after hostOps1 V (Proc.devRef .tc main_v53) = fun i => shapeCast S1x32 (V (Proc.devRef .tc main_arg3)) shapeCasts_S32_S1x32 i := by
  simp only [hostOps1]
  after_results_simp
  try rfl

/-! ### The stretch before region 4 (layer 2: aggregation and the bias row) -/

theorem after_hostOps4_v79 (V : Valuation τ sig (Elt F)) :
    StableHlo.after hostOps4 V (Proc.devRef .tc main_v79)
      = kerAgg2 (V (Proc.devRef .tc main_v61)) (V (Proc.devRef .tc main_v3)) (V (Proc.devRef .tc main_v6)) (V (Proc.devRef .tc main_v31)) := by
  unfold kerAgg2 wrapCol
  simp only [hostOps4]
  after_results_simp
  try rfl

theorem after_hostOps4_v80 (V : Valuation τ sig (Elt F)) :
    StableHlo.after hostOps4 V (Proc.devRef .tc main_v80) = fun i => shapeCast S1x128 (V (Proc.devRef .tc main_arg7)) shapeCasts_S128_S1x128 i := by
  simp only [hostOps4]
  after_results_simp
  try rfl

/-! ### The stretch before region 7 (layer 3: aggregation and the bias row) -/

theorem after_hostOps7_v106 (V : Valuation τ sig (Elt F)) :
    StableHlo.after hostOps7 V (Proc.devRef .tc main_v106)
      = kerAgg3 (V (Proc.devRef .tc main_v88)) (V (Proc.devRef .tc main_v3)) (V (Proc.devRef .tc main_v6)) (V (Proc.devRef .tc main_v31)) := by
  unfold kerAgg3 wrapCol
  simp only [hostOps7]
  after_results_simp
  try rfl

theorem after_hostOps7_v107 (V : Valuation τ sig (Elt F)) :
    StableHlo.after hostOps7 V (Proc.devRef .tc main_v107) = fun i => shapeCast S1x128 (V (Proc.devRef .tc main_arg11)) shapeCasts_S128_S1x128 i := by
  simp only [hostOps7]
  after_results_simp
  try rfl

/-! ### The stretch before region 10 (layer 4: aggregation and the bias row) -/

theorem after_hostOps10_v133 (V : Valuation τ sig (Elt F)) :
    StableHlo.after hostOps10 V (Proc.devRef .tc main_v133)
      = kerAgg4 (V (Proc.devRef .tc main_v115)) (V (Proc.devRef .tc main_v3)) (V (Proc.devRef .tc main_v6)) (V (Proc.devRef .tc main_v31)) := by
  unfold kerAgg4 wrapCol
  simp only [hostOps10]
  after_results_simp
  try rfl

theorem after_hostOps10_v134 (V : Valuation τ sig (Elt F)) :
    StableHlo.after hostOps10 V (Proc.devRef .tc main_v134) = fun i => shapeCast S1x32 (V (Proc.devRef .tc main_arg15)) shapeCasts_S32_S1x32 i := by
  simp only [hostOps10]
  after_results_simp
  try rfl

/-! ### The stretch before region 13 (layer 5: aggregation and the bias row) -/

theorem after_hostOps13_v160 (V : Valuation τ sig (Elt F)) :
    StableHlo.after hostOps13 V (Proc.devRef .tc main_v160)
      = kerAgg5 (V (Proc.devRef .tc main_v142)) (V (Proc.devRef .tc main_v3)) (V (Proc.devRef .tc main_v6)) (V (Proc.devRef .tc main_v31)) := by
  unfold kerAgg5 wrapCol
  simp only [hostOps13]
  after_results_simp
  try rfl

theorem after_hostOps13_v161 (V : Valuation τ sig (Elt F)) :
    StableHlo.after hostOps13 V (Proc.devRef .tc main_v161) = fun i => shapeCast S1x16 (V (Proc.devRef .tc main_arg19)) shapeCasts_S16_S1x16 i := by
  simp only [hostOps13]
  after_results_simp
  try rfl

/-! ## The short stretches -/

/-! ### The stretch before region 2 -/

theorem after_hostOps2_v55 (V : Valuation τ sig (Elt F)) :
    StableHlo.after hostOps2 V (Proc.devRef .tc main_v55) = fun i => shapeCast S1x32 (V (Proc.devRef .tc main_arg3)) shapeCasts_S32_S1x32 i := by
  simp only [hostOps2]
  after_results_simp
  try rfl

theorem after_hostOps2_v56 (V : Valuation τ sig (Elt F)) :
    StableHlo.after hostOps2 V (Proc.devRef .tc main_v56) = fun i => shapeCast S1x32 (V (Proc.devRef .tc main_arg4)) shapeCasts_S32_S1x32 i := by
  simp only [hostOps2]
  after_results_simp
  try rfl

theorem after_hostOps2_v57 (V : Valuation τ sig (Elt F)) :
    StableHlo.after hostOps2 V (Proc.devRef .tc main_v57) = fun i => shapeCast S1x32 (V (Proc.devRef .tc main_arg5)) shapeCasts_S32_S1x32 i := by
  simp only [hostOps2]
  after_results_simp
  try rfl

/-! ### The stretch before region 3 -/

theorem after_hostOps3_v60 (V : Valuation τ sig (Elt F)) :
    StableHlo.after hostOps3 V (Proc.devRef .tc main_v60)
      = fun i => shapeCast S1x128 (broadcastInDim S128 ![] bcast_S_S128 (constant S_ .f32 0x00000000#32) : (⟨S128, .f32⟩ : BufTy).Contents (Elt F)) shapeCasts_S128_S1x128 i := by
  simp only [hostOps3]
  after_results_simp
  try rfl

/-! ### The stretch before region 5 -/

theorem after_hostOps5_v82 (V : Valuation τ sig (Elt F)) :
    StableHlo.after hostOps5 V (Proc.devRef .tc main_v82) = fun i => shapeCast S1x128 (V (Proc.devRef .tc main_arg7)) shapeCasts_S128_S1x128 i := by
  simp only [hostOps5]
  after_results_simp
  try rfl

theorem after_hostOps5_v83 (V : Valuation τ sig (Elt F)) :
    StableHlo.after hostOps5 V (Proc.devRef .tc main_v83) = fun i => shapeCast S1x128 (V (Proc.devRef .tc main_arg8)) shapeCasts_S128_S1x128 i := by
  simp only [hostOps5]
  after_results_simp
  try rfl

theorem after_hostOps5_v84 (V : Valuation τ sig (Elt F)) :
    StableHlo.after hostOps5 V (Proc.devRef .tc main_v84) = fun i => shapeCast S1x128 (V (Proc.devRef .tc main_arg9)) shapeCasts_S128_S1x128 i := by
  simp only [hostOps5]
  after_results_simp
  try rfl

/-! ### The stretch before region 6 -/

theorem after_hostOps6_v87 (V : Valuation τ sig (Elt F)) :
    StableHlo.after hostOps6 V (Proc.devRef .tc main_v87)
      = fun i => shapeCast S1x128 (broadcastInDim S128 ![] bcast_S_S128 (constant S_ .f32 0x00000000#32) : (⟨S128, .f32⟩ : BufTy).Contents (Elt F)) shapeCasts_S128_S1x128 i := by
  simp only [hostOps6]
  after_results_simp
  try rfl

/-! ### The stretch before region 8 -/

theorem after_hostOps8_v109 (V : Valuation τ sig (Elt F)) :
    StableHlo.after hostOps8 V (Proc.devRef .tc main_v109) = fun i => shapeCast S1x128 (V (Proc.devRef .tc main_arg11)) shapeCasts_S128_S1x128 i := by
  simp only [hostOps8]
  after_results_simp
  try rfl

theorem after_hostOps8_v110 (V : Valuation τ sig (Elt F)) :
    StableHlo.after hostOps8 V (Proc.devRef .tc main_v110) = fun i => shapeCast S1x128 (V (Proc.devRef .tc main_arg12)) shapeCasts_S128_S1x128 i := by
  simp only [hostOps8]
  after_results_simp
  try rfl

theorem after_hostOps8_v111 (V : Valuation τ sig (Elt F)) :
    StableHlo.after hostOps8 V (Proc.devRef .tc main_v111) = fun i => shapeCast S1x128 (V (Proc.devRef .tc main_arg13)) shapeCasts_S128_S1x128 i := by
  simp only [hostOps8]
  after_results_simp
  try rfl

/-! ### The stretch before region 9 -/

theorem after_hostOps9_v114 (V : Valuation τ sig (Elt F)) :
    StableHlo.after hostOps9 V (Proc.devRef .tc main_v114)
      = fun i => shapeCast S1x32 (broadcastInDim S32 ![] bcast_S_S32 (constant S_ .f32 0x00000000#32) : (⟨S32, .f32⟩ : BufTy).Contents (Elt F)) shapeCasts_S32_S1x32 i := by
  simp only [hostOps9]
  after_results_simp
  try rfl

/-! ### The stretch before region 11 -/

theorem after_hostOps11_v136 (V : Valuation τ sig (Elt F)) :
    StableHlo.after hostOps11 V (Proc.devRef .tc main_v136) = fun i => shapeCast S1x32 (V (Proc.devRef .tc main_arg15)) shapeCasts_S32_S1x32 i := by
  simp only [hostOps11]
  after_results_simp
  try rfl

theorem after_hostOps11_v137 (V : Valuation τ sig (Elt F)) :
    StableHlo.after hostOps11 V (Proc.devRef .tc main_v137) = fun i => shapeCast S1x32 (V (Proc.devRef .tc main_arg16)) shapeCasts_S32_S1x32 i := by
  simp only [hostOps11]
  after_results_simp
  try rfl

theorem after_hostOps11_v138 (V : Valuation τ sig (Elt F)) :
    StableHlo.after hostOps11 V (Proc.devRef .tc main_v138) = fun i => shapeCast S1x32 (V (Proc.devRef .tc main_arg17)) shapeCasts_S32_S1x32 i := by
  simp only [hostOps11]
  after_results_simp
  try rfl

/-! ### The stretch before region 12 -/

theorem after_hostOps12_v141 (V : Valuation τ sig (Elt F)) :
    StableHlo.after hostOps12 V (Proc.devRef .tc main_v141)
      = fun i => shapeCast S1x16 (broadcastInDim S16 ![] bcast_S_S16 (constant S_ .f32 0x00000000#32) : (⟨S16, .f32⟩ : BufTy).Contents (Elt F)) shapeCasts_S16_S1x16 i := by
  simp only [hostOps12]
  after_results_simp
  try rfl

/-! ### The stretch before region 14 -/

theorem after_hostOps14_v163 (V : Valuation τ sig (Elt F)) :
    StableHlo.after hostOps14 V (Proc.devRef .tc main_v163) = fun i => shapeCast S1x16 (V (Proc.devRef .tc main_arg19)) shapeCasts_S16_S1x16 i := by
  simp only [hostOps14]
  after_results_simp
  try rfl

theorem after_hostOps14_v164 (V : Valuation τ sig (Elt F)) :
    StableHlo.after hostOps14 V (Proc.devRef .tc main_v164) = fun i => shapeCast S1x16 (V (Proc.devRef .tc main_arg20)) shapeCasts_S16_S1x16 i := by
  simp only [hostOps14]
  after_results_simp
  try rfl

theorem after_hostOps14_v165 (V : Valuation τ sig (Elt F)) :
    StableHlo.after hostOps14 V (Proc.devRef .tc main_v165) = fun i => shapeCast S1x16 (V (Proc.devRef .tc main_arg21)) shapeCasts_S16_S1x16 i := by
  simp only [hostOps14]
  after_results_simp
  try rfl

/-! ### The stretch before region 15 -/

theorem after_hostOps15_v167 (V : Valuation τ sig (Elt F)) :
    StableHlo.after hostOps15 V (Proc.devRef .tc main_v167) = fun i => shapeCast S1x3 (V (Proc.devRef .tc main_arg23)) shapeCasts_S3_S1x3 i := by
  simp only [hostOps15]
  after_results_simp
  try rfl

end Cert.KernelIdeal.Hand

end
-- ==== Proof.KI.HostEntry.lean ====
/-
  What every kernel region of the idealized kernel's @main finds in its input arrays, as a term of the launch memory
  `m` and of what the earlier regions left (`outs`). The buffers' contents between two items of @main are the
  generated valuations `V0 … V32`: the launch contents, then alternately a host stretch applied and a region's
  result buffers updated. A buffer's contents at a valuation are walked back item by item — an item that does not
  write the buffer leaves it as it was; a host stretch that writes it gives the stretch's term of the contents before;
  a region that writes it gives `outs` — down to the launch memory. `atK_b` is buffer `b` at valuation `VK`;
  `entryK_w` restates it for window `w` of region `K` at the region's entry valuation `V(2K+1)`.

  The edge lists and edge weights are the same at every layer: `eSrc`, `eDst`, `eNrm` are the prologue's terms of the
  edge table argument.
-/
import proofs.«109725_j21638045237575_1_alg».proof.Proof.Gen.KernelIdeal.Regions
import proofs.«109725_j21638045237575_1_alg».proof.Proof.KI.HostFacts

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (outs : Outs (F := F))

/-- The messages' sources, targets and weights, from the edge table argument as launched. -/
def eSrc (c : Dev nD) : (⟨S1700000, .i32⟩ : BufTy).Contents (Elt F) := kerSrc (m ((c : Thread nD τ).loc main_arg1))
def eDst (c : Dev nD) : (⟨S1700000, .i32⟩ : BufTy).Contents (Elt F) := kerDst (m ((c : Thread nD τ).loc main_arg1))
def eNrm (c : Dev nD) : (⟨S1700000, .f32⟩ : BufTy).Contents (Elt F) := kerNorm (eSrc m c) (eDst m c)

/-! ## Each buffer at each valuation, walked back to the launch memory -/

theorem at0_arg0 (c : Dev nD) : V0 m c (Proc.devRef .tc main_arg0) = m ((c : Thread nD τ).loc main_arg0) :=
  rfl
theorem at1_arg0 (c : Dev nD) : V1 m c (Proc.devRef .tc main_arg0) = m ((c : Thread nD τ).loc main_arg0) :=
  (V1_of m c main_arg0 (by decide)).trans (at0_arg0 m c)
theorem at0_arg2 (c : Dev nD) : V0 m c (Proc.devRef .tc main_arg2) = m ((c : Thread nD τ).loc main_arg2) :=
  rfl
theorem at1_arg2 (c : Dev nD) : V1 m c (Proc.devRef .tc main_arg2) = m ((c : Thread nD τ).loc main_arg2) :=
  (V1_of m c main_arg2 (by decide)).trans (at0_arg2 m c)
theorem at1_v33 (c : Dev nD) : V1 m c (Proc.devRef .tc main_v33) = fun i => shapeCast S1x32 (broadcastInDim S32 ![] bcast_S_S32 (constant S_ .f32 0x00000000#32) : (⟨S32, .f32⟩ : BufTy).Contents (Elt F)) shapeCasts_S32_S1x32 i :=
  after_hostOps0_v33 (V0 m c)
theorem at2_v34 (c : Dev nD) : V2 m outs c (Proc.devRef .tc main_v34) = outs 2 main_v34 c :=
  by simp only [V2]; exact Function.update_self _ _ _
theorem at0_arg1 (c : Dev nD) : V0 m c (Proc.devRef .tc main_arg1) = m ((c : Thread nD τ).loc main_arg1) :=
  rfl
theorem at1_v3 (c : Dev nD) : V1 m c (Proc.devRef .tc main_v3) = eSrc m c :=
  (after_hostOps0_v3 (V0 m c)).trans (by unfold eSrc; rw [at0_arg1])
theorem at2_v3 (c : Dev nD) : V2 m outs c (Proc.devRef .tc main_v3) = eSrc m c :=
  (V2_of m outs c main_v3 (by decide)).trans (at1_v3 m c)
theorem at1_v6 (c : Dev nD) : V1 m c (Proc.devRef .tc main_v6) = eDst m c :=
  (after_hostOps0_v6 (V0 m c)).trans (by unfold eDst; rw [at0_arg1])
theorem at2_v6 (c : Dev nD) : V2 m outs c (Proc.devRef .tc main_v6) = eDst m c :=
  (V2_of m outs c main_v6 (by decide)).trans (at1_v6 m c)
theorem at1_v31 (c : Dev nD) : V1 m c (Proc.devRef .tc main_v31) = eNrm m c :=
  (after_hostOps0_v31 (V0 m c)).trans (by unfold eNrm eSrc eDst; rw [at0_arg1])
theorem at2_v31 (c : Dev nD) : V2 m outs c (Proc.devRef .tc main_v31) = eNrm m c :=
  (V2_of m outs c main_v31 (by decide)).trans (at1_v31 m c)
theorem at3_v52 (c : Dev nD) : V3 m outs c (Proc.devRef .tc main_v52) = kerAgg1 (outs 2 main_v34 c) (eSrc m c) (eDst m c) (eNrm m c) :=
  (after_hostOps1_v52 (V2 m outs c)).trans (by rw [at2_v34, at2_v3, at2_v6, at2_v31])
theorem at0_arg3 (c : Dev nD) : V0 m c (Proc.devRef .tc main_arg3) = m ((c : Thread nD τ).loc main_arg3) :=
  rfl
theorem at1_arg3 (c : Dev nD) : V1 m c (Proc.devRef .tc main_arg3) = m ((c : Thread nD τ).loc main_arg3) :=
  (V1_of m c main_arg3 (by decide)).trans (at0_arg3 m c)
theorem at2_arg3 (c : Dev nD) : V2 m outs c (Proc.devRef .tc main_arg3) = m ((c : Thread nD τ).loc main_arg3) :=
  (V2_of m outs c main_arg3 (by decide)).trans (at1_arg3 m c)
theorem at3_v53 (c : Dev nD) : V3 m outs c (Proc.devRef .tc main_v53) = fun i => shapeCast S1x32 (m ((c : Thread nD τ).loc main_arg3)) shapeCasts_S32_S1x32 i :=
  (after_hostOps1_v53 (V2 m outs c)).trans (by rw [at2_arg3])
theorem at4_v52 (c : Dev nD) : V4 m outs c (Proc.devRef .tc main_v52) = kerAgg1 (outs 2 main_v34 c) (eSrc m c) (eDst m c) (eNrm m c) :=
  (V4_of m outs c main_v52 (by decide)).trans (at3_v52 m outs c)
theorem at5_v52 (c : Dev nD) : V5 m outs c (Proc.devRef .tc main_v52) = kerAgg1 (outs 2 main_v34 c) (eSrc m c) (eDst m c) (eNrm m c) :=
  (V5_of m outs c main_v52 (by decide)).trans (at4_v52 m outs c)
theorem at3_arg3 (c : Dev nD) : V3 m outs c (Proc.devRef .tc main_arg3) = m ((c : Thread nD τ).loc main_arg3) :=
  (V3_of m outs c main_arg3 (by decide)).trans (at2_arg3 m outs c)
theorem at4_arg3 (c : Dev nD) : V4 m outs c (Proc.devRef .tc main_arg3) = m ((c : Thread nD τ).loc main_arg3) :=
  (V4_of m outs c main_arg3 (by decide)).trans (at3_arg3 m outs c)
theorem at5_v55 (c : Dev nD) : V5 m outs c (Proc.devRef .tc main_v55) = fun i => shapeCast S1x32 (m ((c : Thread nD τ).loc main_arg3)) shapeCasts_S32_S1x32 i :=
  (after_hostOps2_v55 (V4 m outs c)).trans (by rw [at4_arg3])
theorem at4_v54_0 (c : Dev nD) : V4 m outs c (Proc.devRef .tc main_v54_0) = outs 4 main_v54_0 c :=
  by simp only [V4]; exact (Function.update_of_ne (StableHlo.devRef_ne_of_ne (by decide)) _ _).trans (Function.update_self _ _ _)
theorem at5_v54_0 (c : Dev nD) : V5 m outs c (Proc.devRef .tc main_v54_0) = outs 4 main_v54_0 c :=
  (V5_of m outs c main_v54_0 (by decide)).trans (at4_v54_0 m outs c)
theorem at4_v54_1 (c : Dev nD) : V4 m outs c (Proc.devRef .tc main_v54_1) = outs 4 main_v54_1 c :=
  by simp only [V4]; exact Function.update_self _ _ _
theorem at5_v54_1 (c : Dev nD) : V5 m outs c (Proc.devRef .tc main_v54_1) = outs 4 main_v54_1 c :=
  (V5_of m outs c main_v54_1 (by decide)).trans (at4_v54_1 m outs c)
theorem at0_arg4 (c : Dev nD) : V0 m c (Proc.devRef .tc main_arg4) = m ((c : Thread nD τ).loc main_arg4) :=
  rfl
theorem at1_arg4 (c : Dev nD) : V1 m c (Proc.devRef .tc main_arg4) = m ((c : Thread nD τ).loc main_arg4) :=
  (V1_of m c main_arg4 (by decide)).trans (at0_arg4 m c)
theorem at2_arg4 (c : Dev nD) : V2 m outs c (Proc.devRef .tc main_arg4) = m ((c : Thread nD τ).loc main_arg4) :=
  (V2_of m outs c main_arg4 (by decide)).trans (at1_arg4 m c)
theorem at3_arg4 (c : Dev nD) : V3 m outs c (Proc.devRef .tc main_arg4) = m ((c : Thread nD τ).loc main_arg4) :=
  (V3_of m outs c main_arg4 (by decide)).trans (at2_arg4 m outs c)
theorem at4_arg4 (c : Dev nD) : V4 m outs c (Proc.devRef .tc main_arg4) = m ((c : Thread nD τ).loc main_arg4) :=
  (V4_of m outs c main_arg4 (by decide)).trans (at3_arg4 m outs c)
theorem at5_v56 (c : Dev nD) : V5 m outs c (Proc.devRef .tc main_v56) = fun i => shapeCast S1x32 (m ((c : Thread nD τ).loc main_arg4)) shapeCasts_S32_S1x32 i :=
  (after_hostOps2_v56 (V4 m outs c)).trans (by rw [at4_arg4])
theorem at0_arg5 (c : Dev nD) : V0 m c (Proc.devRef .tc main_arg5) = m ((c : Thread nD τ).loc main_arg5) :=
  rfl
theorem at1_arg5 (c : Dev nD) : V1 m c (Proc.devRef .tc main_arg5) = m ((c : Thread nD τ).loc main_arg5) :=
  (V1_of m c main_arg5 (by decide)).trans (at0_arg5 m c)
theorem at2_arg5 (c : Dev nD) : V2 m outs c (Proc.devRef .tc main_arg5) = m ((c : Thread nD τ).loc main_arg5) :=
  (V2_of m outs c main_arg5 (by decide)).trans (at1_arg5 m c)
theorem at3_arg5 (c : Dev nD) : V3 m outs c (Proc.devRef .tc main_arg5) = m ((c : Thread nD τ).loc main_arg5) :=
  (V3_of m outs c main_arg5 (by decide)).trans (at2_arg5 m outs c)
theorem at4_arg5 (c : Dev nD) : V4 m outs c (Proc.devRef .tc main_arg5) = m ((c : Thread nD τ).loc main_arg5) :=
  (V4_of m outs c main_arg5 (by decide)).trans (at3_arg5 m outs c)
theorem at5_v57 (c : Dev nD) : V5 m outs c (Proc.devRef .tc main_v57) = fun i => shapeCast S1x32 (m ((c : Thread nD τ).loc main_arg5)) shapeCasts_S32_S1x32 i :=
  (after_hostOps2_v57 (V4 m outs c)).trans (by rw [at4_arg5])
theorem at6_v58 (c : Dev nD) : V6 m outs c (Proc.devRef .tc main_v58) = outs 6 main_v58 c :=
  by simp only [V6]; exact Function.update_self _ _ _
theorem at7_v58 (c : Dev nD) : V7 m outs c (Proc.devRef .tc main_v58) = outs 6 main_v58 c :=
  (V7_of m outs c main_v58 (by decide)).trans (at6_v58 m outs c)
theorem at0_arg6 (c : Dev nD) : V0 m c (Proc.devRef .tc main_arg6) = m ((c : Thread nD τ).loc main_arg6) :=
  rfl
theorem at1_arg6 (c : Dev nD) : V1 m c (Proc.devRef .tc main_arg6) = m ((c : Thread nD τ).loc main_arg6) :=
  (V1_of m c main_arg6 (by decide)).trans (at0_arg6 m c)
theorem at2_arg6 (c : Dev nD) : V2 m outs c (Proc.devRef .tc main_arg6) = m ((c : Thread nD τ).loc main_arg6) :=
  (V2_of m outs c main_arg6 (by decide)).trans (at1_arg6 m c)
theorem at3_arg6 (c : Dev nD) : V3 m outs c (Proc.devRef .tc main_arg6) = m ((c : Thread nD τ).loc main_arg6) :=
  (V3_of m outs c main_arg6 (by decide)).trans (at2_arg6 m outs c)
theorem at4_arg6 (c : Dev nD) : V4 m outs c (Proc.devRef .tc main_arg6) = m ((c : Thread nD τ).loc main_arg6) :=
  (V4_of m outs c main_arg6 (by decide)).trans (at3_arg6 m outs c)
theorem at5_arg6 (c : Dev nD) : V5 m outs c (Proc.devRef .tc main_arg6) = m ((c : Thread nD τ).loc main_arg6) :=
  (V5_of m outs c main_arg6 (by decide)).trans (at4_arg6 m outs c)
theorem at6_arg6 (c : Dev nD) : V6 m outs c (Proc.devRef .tc main_arg6) = m ((c : Thread nD τ).loc main_arg6) :=
  (V6_of m outs c main_arg6 (by decide)).trans (at5_arg6 m outs c)
theorem at7_arg6 (c : Dev nD) : V7 m outs c (Proc.devRef .tc main_arg6) = m ((c : Thread nD τ).loc main_arg6) :=
  (V7_of m outs c main_arg6 (by decide)).trans (at6_arg6 m outs c)
theorem at7_v60 (c : Dev nD) : V7 m outs c (Proc.devRef .tc main_v60) = fun i => shapeCast S1x128 (broadcastInDim S128 ![] bcast_S_S128 (constant S_ .f32 0x00000000#32) : (⟨S128, .f32⟩ : BufTy).Contents (Elt F)) shapeCasts_S128_S1x128 i :=
  after_hostOps3_v60 (V6 m outs c)
theorem at8_v61 (c : Dev nD) : V8 m outs c (Proc.devRef .tc main_v61) = outs 8 main_v61 c :=
  by simp only [V8]; exact Function.update_self _ _ _
theorem at3_v3 (c : Dev nD) : V3 m outs c (Proc.devRef .tc main_v3) = eSrc m c :=
  (V3_of m outs c main_v3 (by decide)).trans (at2_v3 m outs c)
theorem at4_v3 (c : Dev nD) : V4 m outs c (Proc.devRef .tc main_v3) = eSrc m c :=
  (V4_of m outs c main_v3 (by decide)).trans (at3_v3 m outs c)
theorem at5_v3 (c : Dev nD) : V5 m outs c (Proc.devRef .tc main_v3) = eSrc m c :=
  (V5_of m outs c main_v3 (by decide)).trans (at4_v3 m outs c)
theorem at6_v3 (c : Dev nD) : V6 m outs c (Proc.devRef .tc main_v3) = eSrc m c :=
  (V6_of m outs c main_v3 (by decide)).trans (at5_v3 m outs c)
theorem at7_v3 (c : Dev nD) : V7 m outs c (Proc.devRef .tc main_v3) = eSrc m c :=
  (V7_of m outs c main_v3 (by decide)).trans (at6_v3 m outs c)
theorem at8_v3 (c : Dev nD) : V8 m outs c (Proc.devRef .tc main_v3) = eSrc m c :=
  (V8_of m outs c main_v3 (by decide)).trans (at7_v3 m outs c)
theorem at3_v6 (c : Dev nD) : V3 m outs c (Proc.devRef .tc main_v6) = eDst m c :=
  (V3_of m outs c main_v6 (by decide)).trans (at2_v6 m outs c)
theorem at4_v6 (c : Dev nD) : V4 m outs c (Proc.devRef .tc main_v6) = eDst m c :=
  (V4_of m outs c main_v6 (by decide)).trans (at3_v6 m outs c)
theorem at5_v6 (c : Dev nD) : V5 m outs c (Proc.devRef .tc main_v6) = eDst m c :=
  (V5_of m outs c main_v6 (by decide)).trans (at4_v6 m outs c)
theorem at6_v6 (c : Dev nD) : V6 m outs c (Proc.devRef .tc main_v6) = eDst m c :=
  (V6_of m outs c main_v6 (by decide)).trans (at5_v6 m outs c)
theorem at7_v6 (c : Dev nD) : V7 m outs c (Proc.devRef .tc main_v6) = eDst m c :=
  (V7_of m outs c main_v6 (by decide)).trans (at6_v6 m outs c)
theorem at8_v6 (c : Dev nD) : V8 m outs c (Proc.devRef .tc main_v6) = eDst m c :=
  (V8_of m outs c main_v6 (by decide)).trans (at7_v6 m outs c)
theorem at3_v31 (c : Dev nD) : V3 m outs c (Proc.devRef .tc main_v31) = eNrm m c :=
  (V3_of m outs c main_v31 (by decide)).trans (at2_v31 m outs c)
theorem at4_v31 (c : Dev nD) : V4 m outs c (Proc.devRef .tc main_v31) = eNrm m c :=
  (V4_of m outs c main_v31 (by decide)).trans (at3_v31 m outs c)
theorem at5_v31 (c : Dev nD) : V5 m outs c (Proc.devRef .tc main_v31) = eNrm m c :=
  (V5_of m outs c main_v31 (by decide)).trans (at4_v31 m outs c)
theorem at6_v31 (c : Dev nD) : V6 m outs c (Proc.devRef .tc main_v31) = eNrm m c :=
  (V6_of m outs c main_v31 (by decide)).trans (at5_v31 m outs c)
theorem at7_v31 (c : Dev nD) : V7 m outs c (Proc.devRef .tc main_v31) = eNrm m c :=
  (V7_of m outs c main_v31 (by decide)).trans (at6_v31 m outs c)
theorem at8_v31 (c : Dev nD) : V8 m outs c (Proc.devRef .tc main_v31) = eNrm m c :=
  (V8_of m outs c main_v31 (by decide)).trans (at7_v31 m outs c)
theorem at9_v79 (c : Dev nD) : V9 m outs c (Proc.devRef .tc main_v79) = kerAgg2 (outs 8 main_v61 c) (eSrc m c) (eDst m c) (eNrm m c) :=
  (after_hostOps4_v79 (V8 m outs c)).trans (by rw [at8_v61, at8_v3, at8_v6, at8_v31])
theorem at0_arg7 (c : Dev nD) : V0 m c (Proc.devRef .tc main_arg7) = m ((c : Thread nD τ).loc main_arg7) :=
  rfl
theorem at1_arg7 (c : Dev nD) : V1 m c (Proc.devRef .tc main_arg7) = m ((c : Thread nD τ).loc main_arg7) :=
  (V1_of m c main_arg7 (by decide)).trans (at0_arg7 m c)
theorem at2_arg7 (c : Dev nD) : V2 m outs c (Proc.devRef .tc main_arg7) = m ((c : Thread nD τ).loc main_arg7) :=
  (V2_of m outs c main_arg7 (by decide)).trans (at1_arg7 m c)
theorem at3_arg7 (c : Dev nD) : V3 m outs c (Proc.devRef .tc main_arg7) = m ((c : Thread nD τ).loc main_arg7) :=
  (V3_of m outs c main_arg7 (by decide)).trans (at2_arg7 m outs c)
theorem at4_arg7 (c : Dev nD) : V4 m outs c (Proc.devRef .tc main_arg7) = m ((c : Thread nD τ).loc main_arg7) :=
  (V4_of m outs c main_arg7 (by decide)).trans (at3_arg7 m outs c)
theorem at5_arg7 (c : Dev nD) : V5 m outs c (Proc.devRef .tc main_arg7) = m ((c : Thread nD τ).loc main_arg7) :=
  (V5_of m outs c main_arg7 (by decide)).trans (at4_arg7 m outs c)
theorem at6_arg7 (c : Dev nD) : V6 m outs c (Proc.devRef .tc main_arg7) = m ((c : Thread nD τ).loc main_arg7) :=
  (V6_of m outs c main_arg7 (by decide)).trans (at5_arg7 m outs c)
theorem at7_arg7 (c : Dev nD) : V7 m outs c (Proc.devRef .tc main_arg7) = m ((c : Thread nD τ).loc main_arg7) :=
  (V7_of m outs c main_arg7 (by decide)).trans (at6_arg7 m outs c)
theorem at8_arg7 (c : Dev nD) : V8 m outs c (Proc.devRef .tc main_arg7) = m ((c : Thread nD τ).loc main_arg7) :=
  (V8_of m outs c main_arg7 (by decide)).trans (at7_arg7 m outs c)
theorem at9_v80 (c : Dev nD) : V9 m outs c (Proc.devRef .tc main_v80) = fun i => shapeCast S1x128 (m ((c : Thread nD τ).loc main_arg7)) shapeCasts_S128_S1x128 i :=
  (after_hostOps4_v80 (V8 m outs c)).trans (by rw [at8_arg7])
theorem at10_v79 (c : Dev nD) : V10 m outs c (Proc.devRef .tc main_v79) = kerAgg2 (outs 8 main_v61 c) (eSrc m c) (eDst m c) (eNrm m c) :=
  (V10_of m outs c main_v79 (by decide)).trans (at9_v79 m outs c)
theorem at11_v79 (c : Dev nD) : V11 m outs c (Proc.devRef .tc main_v79) = kerAgg2 (outs 8 main_v61 c) (eSrc m c) (eDst m c) (eNrm m c) :=
  (V11_of m outs c main_v79 (by decide)).trans (at10_v79 m outs c)
theorem at9_arg7 (c : Dev nD) : V9 m outs c (Proc.devRef .tc main_arg7) = m ((c : Thread nD τ).loc main_arg7) :=
  (V9_of m outs c main_arg7 (by decide)).trans (at8_arg7 m outs c)
theorem at10_arg7 (c : Dev nD) : V10 m outs c (Proc.devRef .tc main_arg7) = m ((c : Thread nD τ).loc main_arg7) :=
  (V10_of m outs c main_arg7 (by decide)).trans (at9_arg7 m outs c)
theorem at11_v82 (c : Dev nD) : V11 m outs c (Proc.devRef .tc main_v82) = fun i => shapeCast S1x128 (m ((c : Thread nD τ).loc main_arg7)) shapeCasts_S128_S1x128 i :=
  (after_hostOps5_v82 (V10 m outs c)).trans (by rw [at10_arg7])
theorem at10_v81_0 (c : Dev nD) : V10 m outs c (Proc.devRef .tc main_v81_0) = outs 10 main_v81_0 c :=
  by simp only [V10]; exact (Function.update_of_ne (StableHlo.devRef_ne_of_ne (by decide)) _ _).trans (Function.update_self _ _ _)
theorem at11_v81_0 (c : Dev nD) : V11 m outs c (Proc.devRef .tc main_v81_0) = outs 10 main_v81_0 c :=
  (V11_of m outs c main_v81_0 (by decide)).trans (at10_v81_0 m outs c)
theorem at10_v81_1 (c : Dev nD) : V10 m outs c (Proc.devRef .tc main_v81_1) = outs 10 main_v81_1 c :=
  by simp only [V10]; exact Function.update_self _ _ _
theorem at11_v81_1 (c : Dev nD) : V11 m outs c (Proc.devRef .tc main_v81_1) = outs 10 main_v81_1 c :=
  (V11_of m outs c main_v81_1 (by decide)).trans (at10_v81_1 m outs c)
theorem at0_arg8 (c : Dev nD) : V0 m c (Proc.devRef .tc main_arg8) = m ((c : Thread nD τ).loc main_arg8) :=
  rfl
theorem at1_arg8 (c : Dev nD) : V1 m c (Proc.devRef .tc main_arg8) = m ((c : Thread nD τ).loc main_arg8) :=
  (V1_of m c main_arg8 (by decide)).trans (at0_arg8 m c)
theorem at2_arg8 (c : Dev nD) : V2 m outs c (Proc.devRef .tc main_arg8) = m ((c : Thread nD τ).loc main_arg8) :=
  (V2_of m outs c main_arg8 (by decide)).trans (at1_arg8 m c)
theorem at3_arg8 (c : Dev nD) : V3 m outs c (Proc.devRef .tc main_arg8) = m ((c : Thread nD τ).loc main_arg8) :=
  (V3_of m outs c main_arg8 (by decide)).trans (at2_arg8 m outs c)
theorem at4_arg8 (c : Dev nD) : V4 m outs c (Proc.devRef .tc main_arg8) = m ((c : Thread nD τ).loc main_arg8) :=
  (V4_of m outs c main_arg8 (by decide)).trans (at3_arg8 m outs c)
theorem at5_arg8 (c : Dev nD) : V5 m outs c (Proc.devRef .tc main_arg8) = m ((c : Thread nD τ).loc main_arg8) :=
  (V5_of m outs c main_arg8 (by decide)).trans (at4_arg8 m outs c)
theorem at6_arg8 (c : Dev nD) : V6 m outs c (Proc.devRef .tc main_arg8) = m ((c : Thread nD τ).loc main_arg8) :=
  (V6_of m outs c main_arg8 (by decide)).trans (at5_arg8 m outs c)
theorem at7_arg8 (c : Dev nD) : V7 m outs c (Proc.devRef .tc main_arg8) = m ((c : Thread nD τ).loc main_arg8) :=
  (V7_of m outs c main_arg8 (by decide)).trans (at6_arg8 m outs c)
theorem at8_arg8 (c : Dev nD) : V8 m outs c (Proc.devRef .tc main_arg8) = m ((c : Thread nD τ).loc main_arg8) :=
  (V8_of m outs c main_arg8 (by decide)).trans (at7_arg8 m outs c)
theorem at9_arg8 (c : Dev nD) : V9 m outs c (Proc.devRef .tc main_arg8) = m ((c : Thread nD τ).loc main_arg8) :=
  (V9_of m outs c main_arg8 (by decide)).trans (at8_arg8 m outs c)
theorem at10_arg8 (c : Dev nD) : V10 m outs c (Proc.devRef .tc main_arg8) = m ((c : Thread nD τ).loc main_arg8) :=
  (V10_of m outs c main_arg8 (by decide)).trans (at9_arg8 m outs c)
theorem at11_v83 (c : Dev nD) : V11 m outs c (Proc.devRef .tc main_v83) = fun i => shapeCast S1x128 (m ((c : Thread nD τ).loc main_arg8)) shapeCasts_S128_S1x128 i :=
  (after_hostOps5_v83 (V10 m outs c)).trans (by rw [at10_arg8])
theorem at0_arg9 (c : Dev nD) : V0 m c (Proc.devRef .tc main_arg9) = m ((c : Thread nD τ).loc main_arg9) :=
  rfl
theorem at1_arg9 (c : Dev nD) : V1 m c (Proc.devRef .tc main_arg9) = m ((c : Thread nD τ).loc main_arg9) :=
  (V1_of m c main_arg9 (by decide)).trans (at0_arg9 m c)
theorem at2_arg9 (c : Dev nD) : V2 m outs c (Proc.devRef .tc main_arg9) = m ((c : Thread nD τ).loc main_arg9) :=
  (V2_of m outs c main_arg9 (by decide)).trans (at1_arg9 m c)
theorem at3_arg9 (c : Dev nD) : V3 m outs c (Proc.devRef .tc main_arg9) = m ((c : Thread nD τ).loc main_arg9) :=
  (V3_of m outs c main_arg9 (by decide)).trans (at2_arg9 m outs c)
theorem at4_arg9 (c : Dev nD) : V4 m outs c (Proc.devRef .tc main_arg9) = m ((c : Thread nD τ).loc main_arg9) :=
  (V4_of m outs c main_arg9 (by decide)).trans (at3_arg9 m outs c)
theorem at5_arg9 (c : Dev nD) : V5 m outs c (Proc.devRef .tc main_arg9) = m ((c : Thread nD τ).loc main_arg9) :=
  (V5_of m outs c main_arg9 (by decide)).trans (at4_arg9 m outs c)
theorem at6_arg9 (c : Dev nD) : V6 m outs c (Proc.devRef .tc main_arg9) = m ((c : Thread nD τ).loc main_arg9) :=
  (V6_of m outs c main_arg9 (by decide)).trans (at5_arg9 m outs c)
theorem at7_arg9 (c : Dev nD) : V7 m outs c (Proc.devRef .tc main_arg9) = m ((c : Thread nD τ).loc main_arg9) :=
  (V7_of m outs c main_arg9 (by decide)).trans (at6_arg9 m outs c)
theorem at8_arg9 (c : Dev nD) : V8 m outs c (Proc.devRef .tc main_arg9) = m ((c : Thread nD τ).loc main_arg9) :=
  (V8_of m outs c main_arg9 (by decide)).trans (at7_arg9 m outs c)
theorem at9_arg9 (c : Dev nD) : V9 m outs c (Proc.devRef .tc main_arg9) = m ((c : Thread nD τ).loc main_arg9) :=
  (V9_of m outs c main_arg9 (by decide)).trans (at8_arg9 m outs c)
theorem at10_arg9 (c : Dev nD) : V10 m outs c (Proc.devRef .tc main_arg9) = m ((c : Thread nD τ).loc main_arg9) :=
  (V10_of m outs c main_arg9 (by decide)).trans (at9_arg9 m outs c)
theorem at11_v84 (c : Dev nD) : V11 m outs c (Proc.devRef .tc main_v84) = fun i => shapeCast S1x128 (m ((c : Thread nD τ).loc main_arg9)) shapeCasts_S128_S1x128 i :=
  (after_hostOps5_v84 (V10 m outs c)).trans (by rw [at10_arg9])
theorem at12_v85 (c : Dev nD) : V12 m outs c (Proc.devRef .tc main_v85) = outs 12 main_v85 c :=
  by simp only [V12]; exact Function.update_self _ _ _
theorem at13_v85 (c : Dev nD) : V13 m outs c (Proc.devRef .tc main_v85) = outs 12 main_v85 c :=
  (V13_of m outs c main_v85 (by decide)).trans (at12_v85 m outs c)
theorem at0_arg10 (c : Dev nD) : V0 m c (Proc.devRef .tc main_arg10) = m ((c : Thread nD τ).loc main_arg10) :=
  rfl
theorem at1_arg10 (c : Dev nD) : V1 m c (Proc.devRef .tc main_arg10) = m ((c : Thread nD τ).loc main_arg10) :=
  (V1_of m c main_arg10 (by decide)).trans (at0_arg10 m c)
theorem at2_arg10 (c : Dev nD) : V2 m outs c (Proc.devRef .tc main_arg10) = m ((c : Thread nD τ).loc main_arg10) :=
  (V2_of m outs c main_arg10 (by decide)).trans (at1_arg10 m c)
theorem at3_arg10 (c : Dev nD) : V3 m outs c (Proc.devRef .tc main_arg10) = m ((c : Thread nD τ).loc main_arg10) :=
  (V3_of m outs c main_arg10 (by decide)).trans (at2_arg10 m outs c)
theorem at4_arg10 (c : Dev nD) : V4 m outs c (Proc.devRef .tc main_arg10) = m ((c : Thread nD τ).loc main_arg10) :=
  (V4_of m outs c main_arg10 (by decide)).trans (at3_arg10 m outs c)
theorem at5_arg10 (c : Dev nD) : V5 m outs c (Proc.devRef .tc main_arg10) = m ((c : Thread nD τ).loc main_arg10) :=
  (V5_of m outs c main_arg10 (by decide)).trans (at4_arg10 m outs c)
theorem at6_arg10 (c : Dev nD) : V6 m outs c (Proc.devRef .tc main_arg10) = m ((c : Thread nD τ).loc main_arg10) :=
  (V6_of m outs c main_arg10 (by decide)).trans (at5_arg10 m outs c)
theorem at7_arg10 (c : Dev nD) : V7 m outs c (Proc.devRef .tc main_arg10) = m ((c : Thread nD τ).loc main_arg10) :=
  (V7_of m outs c main_arg10 (by decide)).trans (at6_arg10 m outs c)
theorem at8_arg10 (c : Dev nD) : V8 m outs c (Proc.devRef .tc main_arg10) = m ((c : Thread nD τ).loc main_arg10) :=
  (V8_of m outs c main_arg10 (by decide)).trans (at7_arg10 m outs c)
theorem at9_arg10 (c : Dev nD) : V9 m outs c (Proc.devRef .tc main_arg10) = m ((c : Thread nD τ).loc main_arg10) :=
  (V9_of m outs c main_arg10 (by decide)).trans (at8_arg10 m outs c)
theorem at10_arg10 (c : Dev nD) : V10 m outs c (Proc.devRef .tc main_arg10) = m ((c : Thread nD τ).loc main_arg10) :=
  (V10_of m outs c main_arg10 (by decide)).trans (at9_arg10 m outs c)
theorem at11_arg10 (c : Dev nD) : V11 m outs c (Proc.devRef .tc main_arg10) = m ((c : Thread nD τ).loc main_arg10) :=
  (V11_of m outs c main_arg10 (by decide)).trans (at10_arg10 m outs c)
theorem at12_arg10 (c : Dev nD) : V12 m outs c (Proc.devRef .tc main_arg10) = m ((c : Thread nD τ).loc main_arg10) :=
  (V12_of m outs c main_arg10 (by decide)).trans (at11_arg10 m outs c)
theorem at13_arg10 (c : Dev nD) : V13 m outs c (Proc.devRef .tc main_arg10) = m ((c : Thread nD τ).loc main_arg10) :=
  (V13_of m outs c main_arg10 (by decide)).trans (at12_arg10 m outs c)
theorem at13_v87 (c : Dev nD) : V13 m outs c (Proc.devRef .tc main_v87) = fun i => shapeCast S1x128 (broadcastInDim S128 ![] bcast_S_S128 (constant S_ .f32 0x00000000#32) : (⟨S128, .f32⟩ : BufTy).Contents (Elt F)) shapeCasts_S128_S1x128 i :=
  after_hostOps6_v87 (V12 m outs c)
theorem at14_v88 (c : Dev nD) : V14 m outs c (Proc.devRef .tc main_v88) = outs 14 main_v88 c :=
  by simp only [V14]; exact Function.update_self _ _ _
theorem at9_v3 (c : Dev nD) : V9 m outs c (Proc.devRef .tc main_v3) = eSrc m c :=
  (V9_of m outs c main_v3 (by decide)).trans (at8_v3 m outs c)
theorem at10_v3 (c : Dev nD) : V10 m outs c (Proc.devRef .tc main_v3) = eSrc m c :=
  (V10_of m outs c main_v3 (by decide)).trans (at9_v3 m outs c)
theorem at11_v3 (c : Dev nD) : V11 m outs c (Proc.devRef .tc main_v3) = eSrc m c :=
  (V11_of m outs c main_v3 (by decide)).trans (at10_v3 m outs c)
theorem at12_v3 (c : Dev nD) : V12 m outs c (Proc.devRef .tc main_v3) = eSrc m c :=
  (V12_of m outs c main_v3 (by decide)).trans (at11_v3 m outs c)
theorem at13_v3 (c : Dev nD) : V13 m outs c (Proc.devRef .tc main_v3) = eSrc m c :=
  (V13_of m outs c main_v3 (by decide)).trans (at12_v3 m outs c)
theorem at14_v3 (c : Dev nD) : V14 m outs c (Proc.devRef .tc main_v3) = eSrc m c :=
  (V14_of m outs c main_v3 (by decide)).trans (at13_v3 m outs c)
theorem at9_v6 (c : Dev nD) : V9 m outs c (Proc.devRef .tc main_v6) = eDst m c :=
  (V9_of m outs c main_v6 (by decide)).trans (at8_v6 m outs c)
theorem at10_v6 (c : Dev nD) : V10 m outs c (Proc.devRef .tc main_v6) = eDst m c :=
  (V10_of m outs c main_v6 (by decide)).trans (at9_v6 m outs c)
theorem at11_v6 (c : Dev nD) : V11 m outs c (Proc.devRef .tc main_v6) = eDst m c :=
  (V11_of m outs c main_v6 (by decide)).trans (at10_v6 m outs c)
theorem at12_v6 (c : Dev nD) : V12 m outs c (Proc.devRef .tc main_v6) = eDst m c :=
  (V12_of m outs c main_v6 (by decide)).trans (at11_v6 m outs c)
theorem at13_v6 (c : Dev nD) : V13 m outs c (Proc.devRef .tc main_v6) = eDst m c :=
  (V13_of m outs c main_v6 (by decide)).trans (at12_v6 m outs c)
theorem at14_v6 (c : Dev nD) : V14 m outs c (Proc.devRef .tc main_v6) = eDst m c :=
  (V14_of m outs c main_v6 (by decide)).trans (at13_v6 m outs c)
theorem at9_v31 (c : Dev nD) : V9 m outs c (Proc.devRef .tc main_v31) = eNrm m c :=
  (V9_of m outs c main_v31 (by decide)).trans (at8_v31 m outs c)
theorem at10_v31 (c : Dev nD) : V10 m outs c (Proc.devRef .tc main_v31) = eNrm m c :=
  (V10_of m outs c main_v31 (by decide)).trans (at9_v31 m outs c)
theorem at11_v31 (c : Dev nD) : V11 m outs c (Proc.devRef .tc main_v31) = eNrm m c :=
  (V11_of m outs c main_v31 (by decide)).trans (at10_v31 m outs c)
theorem at12_v31 (c : Dev nD) : V12 m outs c (Proc.devRef .tc main_v31) = eNrm m c :=
  (V12_of m outs c main_v31 (by decide)).trans (at11_v31 m outs c)
theorem at13_v31 (c : Dev nD) : V13 m outs c (Proc.devRef .tc main_v31) = eNrm m c :=
  (V13_of m outs c main_v31 (by decide)).trans (at12_v31 m outs c)
theorem at14_v31 (c : Dev nD) : V14 m outs c (Proc.devRef .tc main_v31) = eNrm m c :=
  (V14_of m outs c main_v31 (by decide)).trans (at13_v31 m outs c)
theorem at15_v106 (c : Dev nD) : V15 m outs c (Proc.devRef .tc main_v106) = kerAgg3 (outs 14 main_v88 c) (eSrc m c) (eDst m c) (eNrm m c) :=
  (after_hostOps7_v106 (V14 m outs c)).trans (by rw [at14_v88, at14_v3, at14_v6, at14_v31])
theorem at0_arg11 (c : Dev nD) : V0 m c (Proc.devRef .tc main_arg11) = m ((c : Thread nD τ).loc main_arg11) :=
  rfl
theorem at1_arg11 (c : Dev nD) : V1 m c (Proc.devRef .tc main_arg11) = m ((c : Thread nD τ).loc main_arg11) :=
  (V1_of m c main_arg11 (by decide)).trans (at0_arg11 m c)
theorem at2_arg11 (c : Dev nD) : V2 m outs c (Proc.devRef .tc main_arg11) = m ((c : Thread nD τ).loc main_arg11) :=
  (V2_of m outs c main_arg11 (by decide)).trans (at1_arg11 m c)
theorem at3_arg11 (c : Dev nD) : V3 m outs c (Proc.devRef .tc main_arg11) = m ((c : Thread nD τ).loc main_arg11) :=
  (V3_of m outs c main_arg11 (by decide)).trans (at2_arg11 m outs c)
theorem at4_arg11 (c : Dev nD) : V4 m outs c (Proc.devRef .tc main_arg11) = m ((c : Thread nD τ).loc main_arg11) :=
  (V4_of m outs c main_arg11 (by decide)).trans (at3_arg11 m outs c)
theorem at5_arg11 (c : Dev nD) : V5 m outs c (Proc.devRef .tc main_arg11) = m ((c : Thread nD τ).loc main_arg11) :=
  (V5_of m outs c main_arg11 (by decide)).trans (at4_arg11 m outs c)
theorem at6_arg11 (c : Dev nD) : V6 m outs c (Proc.devRef .tc main_arg11) = m ((c : Thread nD τ).loc main_arg11) :=
  (V6_of m outs c main_arg11 (by decide)).trans (at5_arg11 m outs c)
theorem at7_arg11 (c : Dev nD) : V7 m outs c (Proc.devRef .tc main_arg11) = m ((c : Thread nD τ).loc main_arg11) :=
  (V7_of m outs c main_arg11 (by decide)).trans (at6_arg11 m outs c)
theorem at8_arg11 (c : Dev nD) : V8 m outs c (Proc.devRef .tc main_arg11) = m ((c : Thread nD τ).loc main_arg11) :=
  (V8_of m outs c main_arg11 (by decide)).trans (at7_arg11 m outs c)
theorem at9_arg11 (c : Dev nD) : V9 m outs c (Proc.devRef .tc main_arg11) = m ((c : Thread nD τ).loc main_arg11) :=
  (V9_of m outs c main_arg11 (by decide)).trans (at8_arg11 m outs c)
theorem at10_arg11 (c : Dev nD) : V10 m outs c (Proc.devRef .tc main_arg11) = m ((c : Thread nD τ).loc main_arg11) :=
  (V10_of m outs c main_arg11 (by decide)).trans (at9_arg11 m outs c)
theorem at11_arg11 (c : Dev nD) : V11 m outs c (Proc.devRef .tc main_arg11) = m ((c : Thread nD τ).loc main_arg11) :=
  (V11_of m outs c main_arg11 (by decide)).trans (at10_arg11 m outs c)
theorem at12_arg11 (c : Dev nD) : V12 m outs c (Proc.devRef .tc main_arg11) = m ((c : Thread nD τ).loc main_arg11) :=
  (V12_of m outs c main_arg11 (by decide)).trans (at11_arg11 m outs c)
theorem at13_arg11 (c : Dev nD) : V13 m outs c (Proc.devRef .tc main_arg11) = m ((c : Thread nD τ).loc main_arg11) :=
  (V13_of m outs c main_arg11 (by decide)).trans (at12_arg11 m outs c)
theorem at14_arg11 (c : Dev nD) : V14 m outs c (Proc.devRef .tc main_arg11) = m ((c : Thread nD τ).loc main_arg11) :=
  (V14_of m outs c main_arg11 (by decide)).trans (at13_arg11 m outs c)
theorem at15_v107 (c : Dev nD) : V15 m outs c (Proc.devRef .tc main_v107) = fun i => shapeCast S1x128 (m ((c : Thread nD τ).loc main_arg11)) shapeCasts_S128_S1x128 i :=
  (after_hostOps7_v107 (V14 m outs c)).trans (by rw [at14_arg11])
theorem at16_v106 (c : Dev nD) : V16 m outs c (Proc.devRef .tc main_v106) = kerAgg3 (outs 14 main_v88 c) (eSrc m c) (eDst m c) (eNrm m c) :=
  (V16_of m outs c main_v106 (by decide)).trans (at15_v106 m outs c)
theorem at17_v106 (c : Dev nD) : V17 m outs c (Proc.devRef .tc main_v106) = kerAgg3 (outs 14 main_v88 c) (eSrc m c) (eDst m c) (eNrm m c) :=
  (V17_of m outs c main_v106 (by decide)).trans (at16_v106 m outs c)
theorem at15_arg11 (c : Dev nD) : V15 m outs c (Proc.devRef .tc main_arg11) = m ((c : Thread nD τ).loc main_arg11) :=
  (V15_of m outs c main_arg11 (by decide)).trans (at14_arg11 m outs c)
theorem at16_arg11 (c : Dev nD) : V16 m outs c (Proc.devRef .tc main_arg11) = m ((c : Thread nD τ).loc main_arg11) :=
  (V16_of m outs c main_arg11 (by decide)).trans (at15_arg11 m outs c)
theorem at17_v109 (c : Dev nD) : V17 m outs c (Proc.devRef .tc main_v109) = fun i => shapeCast S1x128 (m ((c : Thread nD τ).loc main_arg11)) shapeCasts_S128_S1x128 i :=
  (after_hostOps8_v109 (V16 m outs c)).trans (by rw [at16_arg11])
theorem at16_v108_0 (c : Dev nD) : V16 m outs c (Proc.devRef .tc main_v108_0) = outs 16 main_v108_0 c :=
  by simp only [V16]; exact (Function.update_of_ne (StableHlo.devRef_ne_of_ne (by decide)) _ _).trans (Function.update_self _ _ _)
theorem at17_v108_0 (c : Dev nD) : V17 m outs c (Proc.devRef .tc main_v108_0) = outs 16 main_v108_0 c :=
  (V17_of m outs c main_v108_0 (by decide)).trans (at16_v108_0 m outs c)
theorem at16_v108_1 (c : Dev nD) : V16 m outs c (Proc.devRef .tc main_v108_1) = outs 16 main_v108_1 c :=
  by simp only [V16]; exact Function.update_self _ _ _
theorem at17_v108_1 (c : Dev nD) : V17 m outs c (Proc.devRef .tc main_v108_1) = outs 16 main_v108_1 c :=
  (V17_of m outs c main_v108_1 (by decide)).trans (at16_v108_1 m outs c)
theorem at0_arg12 (c : Dev nD) : V0 m c (Proc.devRef .tc main_arg12) = m ((c : Thread nD τ).loc main_arg12) :=
  rfl
theorem at1_arg12 (c : Dev nD) : V1 m c (Proc.devRef .tc main_arg12) = m ((c : Thread nD τ).loc main_arg12) :=
  (V1_of m c main_arg12 (by decide)).trans (at0_arg12 m c)
theorem at2_arg12 (c : Dev nD) : V2 m outs c (Proc.devRef .tc main_arg12) = m ((c : Thread nD τ).loc main_arg12) :=
  (V2_of m outs c main_arg12 (by decide)).trans (at1_arg12 m c)
theorem at3_arg12 (c : Dev nD) : V3 m outs c (Proc.devRef .tc main_arg12) = m ((c : Thread nD τ).loc main_arg12) :=
  (V3_of m outs c main_arg12 (by decide)).trans (at2_arg12 m outs c)
theorem at4_arg12 (c : Dev nD) : V4 m outs c (Proc.devRef .tc main_arg12) = m ((c : Thread nD τ).loc main_arg12) :=
  (V4_of m outs c main_arg12 (by decide)).trans (at3_arg12 m outs c)
theorem at5_arg12 (c : Dev nD) : V5 m outs c (Proc.devRef .tc main_arg12) = m ((c : Thread nD τ).loc main_arg12) :=
  (V5_of m outs c main_arg12 (by decide)).trans (at4_arg12 m outs c)
theorem at6_arg12 (c : Dev nD) : V6 m outs c (Proc.devRef .tc main_arg12) = m ((c : Thread nD τ).loc main_arg12) :=
  (V6_of m outs c main_arg12 (by decide)).trans (at5_arg12 m outs c)
theorem at7_arg12 (c : Dev nD) : V7 m outs c (Proc.devRef .tc main_arg12) = m ((c : Thread nD τ).loc main_arg12) :=
  (V7_of m outs c main_arg12 (by decide)).trans (at6_arg12 m outs c)
theorem at8_arg12 (c : Dev nD) : V8 m outs c (Proc.devRef .tc main_arg12) = m ((c : Thread nD τ).loc main_arg12) :=
  (V8_of m outs c main_arg12 (by decide)).trans (at7_arg12 m outs c)
theorem at9_arg12 (c : Dev nD) : V9 m outs c (Proc.devRef .tc main_arg12) = m ((c : Thread nD τ).loc main_arg12) :=
  (V9_of m outs c main_arg12 (by decide)).trans (at8_arg12 m outs c)
theorem at10_arg12 (c : Dev nD) : V10 m outs c (Proc.devRef .tc main_arg12) = m ((c : Thread nD τ).loc main_arg12) :=
  (V10_of m outs c main_arg12 (by decide)).trans (at9_arg12 m outs c)
theorem at11_arg12 (c : Dev nD) : V11 m outs c (Proc.devRef .tc main_arg12) = m ((c : Thread nD τ).loc main_arg12) :=
  (V11_of m outs c main_arg12 (by decide)).trans (at10_arg12 m outs c)
theorem at12_arg12 (c : Dev nD) : V12 m outs c (Proc.devRef .tc main_arg12) = m ((c : Thread nD τ).loc main_arg12) :=
  (V12_of m outs c main_arg12 (by decide)).trans (at11_arg12 m outs c)
theorem at13_arg12 (c : Dev nD) : V13 m outs c (Proc.devRef .tc main_arg12) = m ((c : Thread nD τ).loc main_arg12) :=
  (V13_of m outs c main_arg12 (by decide)).trans (at12_arg12 m outs c)
theorem at14_arg12 (c : Dev nD) : V14 m outs c (Proc.devRef .tc main_arg12) = m ((c : Thread nD τ).loc main_arg12) :=
  (V14_of m outs c main_arg12 (by decide)).trans (at13_arg12 m outs c)
theorem at15_arg12 (c : Dev nD) : V15 m outs c (Proc.devRef .tc main_arg12) = m ((c : Thread nD τ).loc main_arg12) :=
  (V15_of m outs c main_arg12 (by decide)).trans (at14_arg12 m outs c)
theorem at16_arg12 (c : Dev nD) : V16 m outs c (Proc.devRef .tc main_arg12) = m ((c : Thread nD τ).loc main_arg12) :=
  (V16_of m outs c main_arg12 (by decide)).trans (at15_arg12 m outs c)
theorem at17_v110 (c : Dev nD) : V17 m outs c (Proc.devRef .tc main_v110) = fun i => shapeCast S1x128 (m ((c : Thread nD τ).loc main_arg12)) shapeCasts_S128_S1x128 i :=
  (after_hostOps8_v110 (V16 m outs c)).trans (by rw [at16_arg12])
theorem at0_arg13 (c : Dev nD) : V0 m c (Proc.devRef .tc main_arg13) = m ((c : Thread nD τ).loc main_arg13) :=
  rfl
theorem at1_arg13 (c : Dev nD) : V1 m c (Proc.devRef .tc main_arg13) = m ((c : Thread nD τ).loc main_arg13) :=
  (V1_of m c main_arg13 (by decide)).trans (at0_arg13 m c)
theorem at2_arg13 (c : Dev nD) : V2 m outs c (Proc.devRef .tc main_arg13) = m ((c : Thread nD τ).loc main_arg13) :=
  (V2_of m outs c main_arg13 (by decide)).trans (at1_arg13 m c)
theorem at3_arg13 (c : Dev nD) : V3 m outs c (Proc.devRef .tc main_arg13) = m ((c : Thread nD τ).loc main_arg13) :=
  (V3_of m outs c main_arg13 (by decide)).trans (at2_arg13 m outs c)
theorem at4_arg13 (c : Dev nD) : V4 m outs c (Proc.devRef .tc main_arg13) = m ((c : Thread nD τ).loc main_arg13) :=
  (V4_of m outs c main_arg13 (by decide)).trans (at3_arg13 m outs c)
theorem at5_arg13 (c : Dev nD) : V5 m outs c (Proc.devRef .tc main_arg13) = m ((c : Thread nD τ).loc main_arg13) :=
  (V5_of m outs c main_arg13 (by decide)).trans (at4_arg13 m outs c)
theorem at6_arg13 (c : Dev nD) : V6 m outs c (Proc.devRef .tc main_arg13) = m ((c : Thread nD τ).loc main_arg13) :=
  (V6_of m outs c main_arg13 (by decide)).trans (at5_arg13 m outs c)
theorem at7_arg13 (c : Dev nD) : V7 m outs c (Proc.devRef .tc main_arg13) = m ((c : Thread nD τ).loc main_arg13) :=
  (V7_of m outs c main_arg13 (by decide)).trans (at6_arg13 m outs c)
theorem at8_arg13 (c : Dev nD) : V8 m outs c (Proc.devRef .tc main_arg13) = m ((c : Thread nD τ).loc main_arg13) :=
  (V8_of m outs c main_arg13 (by decide)).trans (at7_arg13 m outs c)
theorem at9_arg13 (c : Dev nD) : V9 m outs c (Proc.devRef .tc main_arg13) = m ((c : Thread nD τ).loc main_arg13) :=
  (V9_of m outs c main_arg13 (by decide)).trans (at8_arg13 m outs c)
theorem at10_arg13 (c : Dev nD) : V10 m outs c (Proc.devRef .tc main_arg13) = m ((c : Thread nD τ).loc main_arg13) :=
  (V10_of m outs c main_arg13 (by decide)).trans (at9_arg13 m outs c)
theorem at11_arg13 (c : Dev nD) : V11 m outs c (Proc.devRef .tc main_arg13) = m ((c : Thread nD τ).loc main_arg13) :=
  (V11_of m outs c main_arg13 (by decide)).trans (at10_arg13 m outs c)
theorem at12_arg13 (c : Dev nD) : V12 m outs c (Proc.devRef .tc main_arg13) = m ((c : Thread nD τ).loc main_arg13) :=
  (V12_of m outs c main_arg13 (by decide)).trans (at11_arg13 m outs c)
theorem at13_arg13 (c : Dev nD) : V13 m outs c (Proc.devRef .tc main_arg13) = m ((c : Thread nD τ).loc main_arg13) :=
  (V13_of m outs c main_arg13 (by decide)).trans (at12_arg13 m outs c)
theorem at14_arg13 (c : Dev nD) : V14 m outs c (Proc.devRef .tc main_arg13) = m ((c : Thread nD τ).loc main_arg13) :=
  (V14_of m outs c main_arg13 (by decide)).trans (at13_arg13 m outs c)
theorem at15_arg13 (c : Dev nD) : V15 m outs c (Proc.devRef .tc main_arg13) = m ((c : Thread nD τ).loc main_arg13) :=
  (V15_of m outs c main_arg13 (by decide)).trans (at14_arg13 m outs c)
theorem at16_arg13 (c : Dev nD) : V16 m outs c (Proc.devRef .tc main_arg13) = m ((c : Thread nD τ).loc main_arg13) :=
  (V16_of m outs c main_arg13 (by decide)).trans (at15_arg13 m outs c)
theorem at17_v111 (c : Dev nD) : V17 m outs c (Proc.devRef .tc main_v111) = fun i => shapeCast S1x128 (m ((c : Thread nD τ).loc main_arg13)) shapeCasts_S128_S1x128 i :=
  (after_hostOps8_v111 (V16 m outs c)).trans (by rw [at16_arg13])
theorem at18_v112 (c : Dev nD) : V18 m outs c (Proc.devRef .tc main_v112) = outs 18 main_v112 c :=
  by simp only [V18]; exact Function.update_self _ _ _
theorem at19_v112 (c : Dev nD) : V19 m outs c (Proc.devRef .tc main_v112) = outs 18 main_v112 c :=
  (V19_of m outs c main_v112 (by decide)).trans (at18_v112 m outs c)
theorem at0_arg14 (c : Dev nD) : V0 m c (Proc.devRef .tc main_arg14) = m ((c : Thread nD τ).loc main_arg14) :=
  rfl
theorem at1_arg14 (c : Dev nD) : V1 m c (Proc.devRef .tc main_arg14) = m ((c : Thread nD τ).loc main_arg14) :=
  (V1_of m c main_arg14 (by decide)).trans (at0_arg14 m c)
theorem at2_arg14 (c : Dev nD) : V2 m outs c (Proc.devRef .tc main_arg14) = m ((c : Thread nD τ).loc main_arg14) :=
  (V2_of m outs c main_arg14 (by decide)).trans (at1_arg14 m c)
theorem at3_arg14 (c : Dev nD) : V3 m outs c (Proc.devRef .tc main_arg14) = m ((c : Thread nD τ).loc main_arg14) :=
  (V3_of m outs c main_arg14 (by decide)).trans (at2_arg14 m outs c)
theorem at4_arg14 (c : Dev nD) : V4 m outs c (Proc.devRef .tc main_arg14) = m ((c : Thread nD τ).loc main_arg14) :=
  (V4_of m outs c main_arg14 (by decide)).trans (at3_arg14 m outs c)
theorem at5_arg14 (c : Dev nD) : V5 m outs c (Proc.devRef .tc main_arg14) = m ((c : Thread nD τ).loc main_arg14) :=
  (V5_of m outs c main_arg14 (by decide)).trans (at4_arg14 m outs c)
theorem at6_arg14 (c : Dev nD) : V6 m outs c (Proc.devRef .tc main_arg14) = m ((c : Thread nD τ).loc main_arg14) :=
  (V6_of m outs c main_arg14 (by decide)).trans (at5_arg14 m outs c)
theorem at7_arg14 (c : Dev nD) : V7 m outs c (Proc.devRef .tc main_arg14) = m ((c : Thread nD τ).loc main_arg14) :=
  (V7_of m outs c main_arg14 (by decide)).trans (at6_arg14 m outs c)
theorem at8_arg14 (c : Dev nD) : V8 m outs c (Proc.devRef .tc main_arg14) = m ((c : Thread nD τ).loc main_arg14) :=
  (V8_of m outs c main_arg14 (by decide)).trans (at7_arg14 m outs c)
theorem at9_arg14 (c : Dev nD) : V9 m outs c (Proc.devRef .tc main_arg14) = m ((c : Thread nD τ).loc main_arg14) :=
  (V9_of m outs c main_arg14 (by decide)).trans (at8_arg14 m outs c)
theorem at10_arg14 (c : Dev nD) : V10 m outs c (Proc.devRef .tc main_arg14) = m ((c : Thread nD τ).loc main_arg14) :=
  (V10_of m outs c main_arg14 (by decide)).trans (at9_arg14 m outs c)
theorem at11_arg14 (c : Dev nD) : V11 m outs c (Proc.devRef .tc main_arg14) = m ((c : Thread nD τ).loc main_arg14) :=
  (V11_of m outs c main_arg14 (by decide)).trans (at10_arg14 m outs c)
theorem at12_arg14 (c : Dev nD) : V12 m outs c (Proc.devRef .tc main_arg14) = m ((c : Thread nD τ).loc main_arg14) :=
  (V12_of m outs c main_arg14 (by decide)).trans (at11_arg14 m outs c)
theorem at13_arg14 (c : Dev nD) : V13 m outs c (Proc.devRef .tc main_arg14) = m ((c : Thread nD τ).loc main_arg14) :=
  (V13_of m outs c main_arg14 (by decide)).trans (at12_arg14 m outs c)
theorem at14_arg14 (c : Dev nD) : V14 m outs c (Proc.devRef .tc main_arg14) = m ((c : Thread nD τ).loc main_arg14) :=
  (V14_of m outs c main_arg14 (by decide)).trans (at13_arg14 m outs c)
theorem at15_arg14 (c : Dev nD) : V15 m outs c (Proc.devRef .tc main_arg14) = m ((c : Thread nD τ).loc main_arg14) :=
  (V15_of m outs c main_arg14 (by decide)).trans (at14_arg14 m outs c)
theorem at16_arg14 (c : Dev nD) : V16 m outs c (Proc.devRef .tc main_arg14) = m ((c : Thread nD τ).loc main_arg14) :=
  (V16_of m outs c main_arg14 (by decide)).trans (at15_arg14 m outs c)
theorem at17_arg14 (c : Dev nD) : V17 m outs c (Proc.devRef .tc main_arg14) = m ((c : Thread nD τ).loc main_arg14) :=
  (V17_of m outs c main_arg14 (by decide)).trans (at16_arg14 m outs c)
theorem at18_arg14 (c : Dev nD) : V18 m outs c (Proc.devRef .tc main_arg14) = m ((c : Thread nD τ).loc main_arg14) :=
  (V18_of m outs c main_arg14 (by decide)).trans (at17_arg14 m outs c)
theorem at19_arg14 (c : Dev nD) : V19 m outs c (Proc.devRef .tc main_arg14) = m ((c : Thread nD τ).loc main_arg14) :=
  (V19_of m outs c main_arg14 (by decide)).trans (at18_arg14 m outs c)
theorem at19_v114 (c : Dev nD) : V19 m outs c (Proc.devRef .tc main_v114) = fun i => shapeCast S1x32 (broadcastInDim S32 ![] bcast_S_S32 (constant S_ .f32 0x00000000#32) : (⟨S32, .f32⟩ : BufTy).Contents (Elt F)) shapeCasts_S32_S1x32 i :=
  after_hostOps9_v114 (V18 m outs c)
theorem at20_v115 (c : Dev nD) : V20 m outs c (Proc.devRef .tc main_v115) = outs 20 main_v115 c :=
  by simp only [V20]; exact Function.update_self _ _ _
theorem at15_v3 (c : Dev nD) : V15 m outs c (Proc.devRef .tc main_v3) = eSrc m c :=
  (V15_of m outs c main_v3 (by decide)).trans (at14_v3 m outs c)
theorem at16_v3 (c : Dev nD) : V16 m outs c (Proc.devRef .tc main_v3) = eSrc m c :=
  (V16_of m outs c main_v3 (by decide)).trans (at15_v3 m outs c)
theorem at17_v3 (c : Dev nD) : V17 m outs c (Proc.devRef .tc main_v3) = eSrc m c :=
  (V17_of m outs c main_v3 (by decide)).trans (at16_v3 m outs c)
theorem at18_v3 (c : Dev nD) : V18 m outs c (Proc.devRef .tc main_v3) = eSrc m c :=
  (V18_of m outs c main_v3 (by decide)).trans (at17_v3 m outs c)
theorem at19_v3 (c : Dev nD) : V19 m outs c (Proc.devRef .tc main_v3) = eSrc m c :=
  (V19_of m outs c main_v3 (by decide)).trans (at18_v3 m outs c)
theorem at20_v3 (c : Dev nD) : V20 m outs c (Proc.devRef .tc main_v3) = eSrc m c :=
  (V20_of m outs c main_v3 (by decide)).trans (at19_v3 m outs c)
theorem at15_v6 (c : Dev nD) : V15 m outs c (Proc.devRef .tc main_v6) = eDst m c :=
  (V15_of m outs c main_v6 (by decide)).trans (at14_v6 m outs c)
theorem at16_v6 (c : Dev nD) : V16 m outs c (Proc.devRef .tc main_v6) = eDst m c :=
  (V16_of m outs c main_v6 (by decide)).trans (at15_v6 m outs c)
theorem at17_v6 (c : Dev nD) : V17 m outs c (Proc.devRef .tc main_v6) = eDst m c :=
  (V17_of m outs c main_v6 (by decide)).trans (at16_v6 m outs c)
theorem at18_v6 (c : Dev nD) : V18 m outs c (Proc.devRef .tc main_v6) = eDst m c :=
  (V18_of m outs c main_v6 (by decide)).trans (at17_v6 m outs c)
theorem at19_v6 (c : Dev nD) : V19 m outs c (Proc.devRef .tc main_v6) = eDst m c :=
  (V19_of m outs c main_v6 (by decide)).trans (at18_v6 m outs c)
theorem at20_v6 (c : Dev nD) : V20 m outs c (Proc.devRef .tc main_v6) = eDst m c :=
  (V20_of m outs c main_v6 (by decide)).trans (at19_v6 m outs c)
theorem at15_v31 (c : Dev nD) : V15 m outs c (Proc.devRef .tc main_v31) = eNrm m c :=
  (V15_of m outs c main_v31 (by decide)).trans (at14_v31 m outs c)
theorem at16_v31 (c : Dev nD) : V16 m outs c (Proc.devRef .tc main_v31) = eNrm m c :=
  (V16_of m outs c main_v31 (by decide)).trans (at15_v31 m outs c)
theorem at17_v31 (c : Dev nD) : V17 m outs c (Proc.devRef .tc main_v31) = eNrm m c :=
  (V17_of m outs c main_v31 (by decide)).trans (at16_v31 m outs c)
theorem at18_v31 (c : Dev nD) : V18 m outs c (Proc.devRef .tc main_v31) = eNrm m c :=
  (V18_of m outs c main_v31 (by decide)).trans (at17_v31 m outs c)
theorem at19_v31 (c : Dev nD) : V19 m outs c (Proc.devRef .tc main_v31) = eNrm m c :=
  (V19_of m outs c main_v31 (by decide)).trans (at18_v31 m outs c)
theorem at20_v31 (c : Dev nD) : V20 m outs c (Proc.devRef .tc main_v31) = eNrm m c :=
  (V20_of m outs c main_v31 (by decide)).trans (at19_v31 m outs c)
theorem at21_v133 (c : Dev nD) : V21 m outs c (Proc.devRef .tc main_v133) = kerAgg4 (outs 20 main_v115 c) (eSrc m c) (eDst m c) (eNrm m c) :=
  (after_hostOps10_v133 (V20 m outs c)).trans (by rw [at20_v115, at20_v3, at20_v6, at20_v31])
theorem at0_arg15 (c : Dev nD) : V0 m c (Proc.devRef .tc main_arg15) = m ((c : Thread nD τ).loc main_arg15) :=
  rfl
theorem at1_arg15 (c : Dev nD) : V1 m c (Proc.devRef .tc main_arg15) = m ((c : Thread nD τ).loc main_arg15) :=
  (V1_of m c main_arg15 (by decide)).trans (at0_arg15 m c)
theorem at2_arg15 (c : Dev nD) : V2 m outs c (Proc.devRef .tc main_arg15) = m ((c : Thread nD τ).loc main_arg15) :=
  (V2_of m outs c main_arg15 (by decide)).trans (at1_arg15 m c)
theorem at3_arg15 (c : Dev nD) : V3 m outs c (Proc.devRef .tc main_arg15) = m ((c : Thread nD τ).loc main_arg15) :=
  (V3_of m outs c main_arg15 (by decide)).trans (at2_arg15 m outs c)
theorem at4_arg15 (c : Dev nD) : V4 m outs c (Proc.devRef .tc main_arg15) = m ((c : Thread nD τ).loc main_arg15) :=
  (V4_of m outs c main_arg15 (by decide)).trans (at3_arg15 m outs c)
theorem at5_arg15 (c : Dev nD) : V5 m outs c (Proc.devRef .tc main_arg15) = m ((c : Thread nD τ).loc main_arg15) :=
  (V5_of m outs c main_arg15 (by decide)).trans (at4_arg15 m outs c)
theorem at6_arg15 (c : Dev nD) : V6 m outs c (Proc.devRef .tc main_arg15) = m ((c : Thread nD τ).loc main_arg15) :=
  (V6_of m outs c main_arg15 (by decide)).trans (at5_arg15 m outs c)
theorem at7_arg15 (c : Dev nD) : V7 m outs c (Proc.devRef .tc main_arg15) = m ((c : Thread nD τ).loc main_arg15) :=
  (V7_of m outs c main_arg15 (by decide)).trans (at6_arg15 m outs c)
theorem at8_arg15 (c : Dev nD) : V8 m outs c (Proc.devRef .tc main_arg15) = m ((c : Thread nD τ).loc main_arg15) :=
  (V8_of m outs c main_arg15 (by decide)).trans (at7_arg15 m outs c)
theorem at9_arg15 (c : Dev nD) : V9 m outs c (Proc.devRef .tc main_arg15) = m ((c : Thread nD τ).loc main_arg15) :=
  (V9_of m outs c main_arg15 (by decide)).trans (at8_arg15 m outs c)
theorem at10_arg15 (c : Dev nD) : V10 m outs c (Proc.devRef .tc main_arg15) = m ((c : Thread nD τ).loc main_arg15) :=
  (V10_of m outs c main_arg15 (by decide)).trans (at9_arg15 m outs c)
theorem at11_arg15 (c : Dev nD) : V11 m outs c (Proc.devRef .tc main_arg15) = m ((c : Thread nD τ).loc main_arg15) :=
  (V11_of m outs c main_arg15 (by decide)).trans (at10_arg15 m outs c)
theorem at12_arg15 (c : Dev nD) : V12 m outs c (Proc.devRef .tc main_arg15) = m ((c : Thread nD τ).loc main_arg15) :=
  (V12_of m outs c main_arg15 (by decide)).trans (at11_arg15 m outs c)
theorem at13_arg15 (c : Dev nD) : V13 m outs c (Proc.devRef .tc main_arg15) = m ((c : Thread nD τ).loc main_arg15) :=
  (V13_of m outs c main_arg15 (by decide)).trans (at12_arg15 m outs c)
theorem at14_arg15 (c : Dev nD) : V14 m outs c (Proc.devRef .tc main_arg15) = m ((c : Thread nD τ).loc main_arg15) :=
  (V14_of m outs c main_arg15 (by decide)).trans (at13_arg15 m outs c)
theorem at15_arg15 (c : Dev nD) : V15 m outs c (Proc.devRef .tc main_arg15) = m ((c : Thread nD τ).loc main_arg15) :=
  (V15_of m outs c main_arg15 (by decide)).trans (at14_arg15 m outs c)
theorem at16_arg15 (c : Dev nD) : V16 m outs c (Proc.devRef .tc main_arg15) = m ((c : Thread nD τ).loc main_arg15) :=
  (V16_of m outs c main_arg15 (by decide)).trans (at15_arg15 m outs c)
theorem at17_arg15 (c : Dev nD) : V17 m outs c (Proc.devRef .tc main_arg15) = m ((c : Thread nD τ).loc main_arg15) :=
  (V17_of m outs c main_arg15 (by decide)).trans (at16_arg15 m outs c)
theorem at18_arg15 (c : Dev nD) : V18 m outs c (Proc.devRef .tc main_arg15) = m ((c : Thread nD τ).loc main_arg15) :=
  (V18_of m outs c main_arg15 (by decide)).trans (at17_arg15 m outs c)
theorem at19_arg15 (c : Dev nD) : V19 m outs c (Proc.devRef .tc main_arg15) = m ((c : Thread nD τ).loc main_arg15) :=
  (V19_of m outs c main_arg15 (by decide)).trans (at18_arg15 m outs c)
theorem at20_arg15 (c : Dev nD) : V20 m outs c (Proc.devRef .tc main_arg15) = m ((c : Thread nD τ).loc main_arg15) :=
  (V20_of m outs c main_arg15 (by decide)).trans (at19_arg15 m outs c)
theorem at21_v134 (c : Dev nD) : V21 m outs c (Proc.devRef .tc main_v134) = fun i => shapeCast S1x32 (m ((c : Thread nD τ).loc main_arg15)) shapeCasts_S32_S1x32 i :=
  (after_hostOps10_v134 (V20 m outs c)).trans (by rw [at20_arg15])
theorem at22_v133 (c : Dev nD) : V22 m outs c (Proc.devRef .tc main_v133) = kerAgg4 (outs 20 main_v115 c) (eSrc m c) (eDst m c) (eNrm m c) :=
  (V22_of m outs c main_v133 (by decide)).trans (at21_v133 m outs c)
theorem at23_v133 (c : Dev nD) : V23 m outs c (Proc.devRef .tc main_v133) = kerAgg4 (outs 20 main_v115 c) (eSrc m c) (eDst m c) (eNrm m c) :=
  (V23_of m outs c main_v133 (by decide)).trans (at22_v133 m outs c)
theorem at21_arg15 (c : Dev nD) : V21 m outs c (Proc.devRef .tc main_arg15) = m ((c : Thread nD τ).loc main_arg15) :=
  (V21_of m outs c main_arg15 (by decide)).trans (at20_arg15 m outs c)
theorem at22_arg15 (c : Dev nD) : V22 m outs c (Proc.devRef .tc main_arg15) = m ((c : Thread nD τ).loc main_arg15) :=
  (V22_of m outs c main_arg15 (by decide)).trans (at21_arg15 m outs c)
theorem at23_v136 (c : Dev nD) : V23 m outs c (Proc.devRef .tc main_v136) = fun i => shapeCast S1x32 (m ((c : Thread nD τ).loc main_arg15)) shapeCasts_S32_S1x32 i :=
  (after_hostOps11_v136 (V22 m outs c)).trans (by rw [at22_arg15])
theorem at22_v135_0 (c : Dev nD) : V22 m outs c (Proc.devRef .tc main_v135_0) = outs 22 main_v135_0 c :=
  by simp only [V22]; exact (Function.update_of_ne (StableHlo.devRef_ne_of_ne (by decide)) _ _).trans (Function.update_self _ _ _)
theorem at23_v135_0 (c : Dev nD) : V23 m outs c (Proc.devRef .tc main_v135_0) = outs 22 main_v135_0 c :=
  (V23_of m outs c main_v135_0 (by decide)).trans (at22_v135_0 m outs c)
theorem at22_v135_1 (c : Dev nD) : V22 m outs c (Proc.devRef .tc main_v135_1) = outs 22 main_v135_1 c :=
  by simp only [V22]; exact Function.update_self _ _ _
theorem at23_v135_1 (c : Dev nD) : V23 m outs c (Proc.devRef .tc main_v135_1) = outs 22 main_v135_1 c :=
  (V23_of m outs c main_v135_1 (by decide)).trans (at22_v135_1 m outs c)
theorem at0_arg16 (c : Dev nD) : V0 m c (Proc.devRef .tc main_arg16) = m ((c : Thread nD τ).loc main_arg16) :=
  rfl
theorem at1_arg16 (c : Dev nD) : V1 m c (Proc.devRef .tc main_arg16) = m ((c : Thread nD τ).loc main_arg16) :=
  (V1_of m c main_arg16 (by decide)).trans (at0_arg16 m c)
theorem at2_arg16 (c : Dev nD) : V2 m outs c (Proc.devRef .tc main_arg16) = m ((c : Thread nD τ).loc main_arg16) :=
  (V2_of m outs c main_arg16 (by decide)).trans (at1_arg16 m c)
theorem at3_arg16 (c : Dev nD) : V3 m outs c (Proc.devRef .tc main_arg16) = m ((c : Thread nD τ).loc main_arg16) :=
  (V3_of m outs c main_arg16 (by decide)).trans (at2_arg16 m outs c)
theorem at4_arg16 (c : Dev nD) : V4 m outs c (Proc.devRef .tc main_arg16) = m ((c : Thread nD τ).loc main_arg16) :=
  (V4_of m outs c main_arg16 (by decide)).trans (at3_arg16 m outs c)
theorem at5_arg16 (c : Dev nD) : V5 m outs c (Proc.devRef .tc main_arg16) = m ((c : Thread nD τ).loc main_arg16) :=
  (V5_of m outs c main_arg16 (by decide)).trans (at4_arg16 m outs c)
theorem at6_arg16 (c : Dev nD) : V6 m outs c (Proc.devRef .tc main_arg16) = m ((c : Thread nD τ).loc main_arg16) :=
  (V6_of m outs c main_arg16 (by decide)).trans (at5_arg16 m outs c)
theorem at7_arg16 (c : Dev nD) : V7 m outs c (Proc.devRef .tc main_arg16) = m ((c : Thread nD τ).loc main_arg16) :=
  (V7_of m outs c main_arg16 (by decide)).trans (at6_arg16 m outs c)
theorem at8_arg16 (c : Dev nD) : V8 m outs c (Proc.devRef .tc main_arg16) = m ((c : Thread nD τ).loc main_arg16) :=
  (V8_of m outs c main_arg16 (by decide)).trans (at7_arg16 m outs c)
theorem at9_arg16 (c : Dev nD) : V9 m outs c (Proc.devRef .tc main_arg16) = m ((c : Thread nD τ).loc main_arg16) :=
  (V9_of m outs c main_arg16 (by decide)).trans (at8_arg16 m outs c)
theorem at10_arg16 (c : Dev nD) : V10 m outs c (Proc.devRef .tc main_arg16) = m ((c : Thread nD τ).loc main_arg16) :=
  (V10_of m outs c main_arg16 (by decide)).trans (at9_arg16 m outs c)
theorem at11_arg16 (c : Dev nD) : V11 m outs c (Proc.devRef .tc main_arg16) = m ((c : Thread nD τ).loc main_arg16) :=
  (V11_of m outs c main_arg16 (by decide)).trans (at10_arg16 m outs c)
theorem at12_arg16 (c : Dev nD) : V12 m outs c (Proc.devRef .tc main_arg16) = m ((c : Thread nD τ).loc main_arg16) :=
  (V12_of m outs c main_arg16 (by decide)).trans (at11_arg16 m outs c)
theorem at13_arg16 (c : Dev nD) : V13 m outs c (Proc.devRef .tc main_arg16) = m ((c : Thread nD τ).loc main_arg16) :=
  (V13_of m outs c main_arg16 (by decide)).trans (at12_arg16 m outs c)
theorem at14_arg16 (c : Dev nD) : V14 m outs c (Proc.devRef .tc main_arg16) = m ((c : Thread nD τ).loc main_arg16) :=
  (V14_of m outs c main_arg16 (by decide)).trans (at13_arg16 m outs c)
theorem at15_arg16 (c : Dev nD) : V15 m outs c (Proc.devRef .tc main_arg16) = m ((c : Thread nD τ).loc main_arg16) :=
  (V15_of m outs c main_arg16 (by decide)).trans (at14_arg16 m outs c)
theorem at16_arg16 (c : Dev nD) : V16 m outs c (Proc.devRef .tc main_arg16) = m ((c : Thread nD τ).loc main_arg16) :=
  (V16_of m outs c main_arg16 (by decide)).trans (at15_arg16 m outs c)
theorem at17_arg16 (c : Dev nD) : V17 m outs c (Proc.devRef .tc main_arg16) = m ((c : Thread nD τ).loc main_arg16) :=
  (V17_of m outs c main_arg16 (by decide)).trans (at16_arg16 m outs c)
theorem at18_arg16 (c : Dev nD) : V18 m outs c (Proc.devRef .tc main_arg16) = m ((c : Thread nD τ).loc main_arg16) :=
  (V18_of m outs c main_arg16 (by decide)).trans (at17_arg16 m outs c)
theorem at19_arg16 (c : Dev nD) : V19 m outs c (Proc.devRef .tc main_arg16) = m ((c : Thread nD τ).loc main_arg16) :=
  (V19_of m outs c main_arg16 (by decide)).trans (at18_arg16 m outs c)
theorem at20_arg16 (c : Dev nD) : V20 m outs c (Proc.devRef .tc main_arg16) = m ((c : Thread nD τ).loc main_arg16) :=
  (V20_of m outs c main_arg16 (by decide)).trans (at19_arg16 m outs c)
theorem at21_arg16 (c : Dev nD) : V21 m outs c (Proc.devRef .tc main_arg16) = m ((c : Thread nD τ).loc main_arg16) :=
  (V21_of m outs c main_arg16 (by decide)).trans (at20_arg16 m outs c)
theorem at22_arg16 (c : Dev nD) : V22 m outs c (Proc.devRef .tc main_arg16) = m ((c : Thread nD τ).loc main_arg16) :=
  (V22_of m outs c main_arg16 (by decide)).trans (at21_arg16 m outs c)
theorem at23_v137 (c : Dev nD) : V23 m outs c (Proc.devRef .tc main_v137) = fun i => shapeCast S1x32 (m ((c : Thread nD τ).loc main_arg16)) shapeCasts_S32_S1x32 i :=
  (after_hostOps11_v137 (V22 m outs c)).trans (by rw [at22_arg16])
theorem at0_arg17 (c : Dev nD) : V0 m c (Proc.devRef .tc main_arg17) = m ((c : Thread nD τ).loc main_arg17) :=
  rfl
theorem at1_arg17 (c : Dev nD) : V1 m c (Proc.devRef .tc main_arg17) = m ((c : Thread nD τ).loc main_arg17) :=
  (V1_of m c main_arg17 (by decide)).trans (at0_arg17 m c)
theorem at2_arg17 (c : Dev nD) : V2 m outs c (Proc.devRef .tc main_arg17) = m ((c : Thread nD τ).loc main_arg17) :=
  (V2_of m outs c main_arg17 (by decide)).trans (at1_arg17 m c)
theorem at3_arg17 (c : Dev nD) : V3 m outs c (Proc.devRef .tc main_arg17) = m ((c : Thread nD τ).loc main_arg17) :=
  (V3_of m outs c main_arg17 (by decide)).trans (at2_arg17 m outs c)
theorem at4_arg17 (c : Dev nD) : V4 m outs c (Proc.devRef .tc main_arg17) = m ((c : Thread nD τ).loc main_arg17) :=
  (V4_of m outs c main_arg17 (by decide)).trans (at3_arg17 m outs c)
theorem at5_arg17 (c : Dev nD) : V5 m outs c (Proc.devRef .tc main_arg17) = m ((c : Thread nD τ).loc main_arg17) :=
  (V5_of m outs c main_arg17 (by decide)).trans (at4_arg17 m outs c)
theorem at6_arg17 (c : Dev nD) : V6 m outs c (Proc.devRef .tc main_arg17) = m ((c : Thread nD τ).loc main_arg17) :=
  (V6_of m outs c main_arg17 (by decide)).trans (at5_arg17 m outs c)
theorem at7_arg17 (c : Dev nD) : V7 m outs c (Proc.devRef .tc main_arg17) = m ((c : Thread nD τ).loc main_arg17) :=
  (V7_of m outs c main_arg17 (by decide)).trans (at6_arg17 m outs c)
theorem at8_arg17 (c : Dev nD) : V8 m outs c (Proc.devRef .tc main_arg17) = m ((c : Thread nD τ).loc main_arg17) :=
  (V8_of m outs c main_arg17 (by decide)).trans (at7_arg17 m outs c)
theorem at9_arg17 (c : Dev nD) : V9 m outs c (Proc.devRef .tc main_arg17) = m ((c : Thread nD τ).loc main_arg17) :=
  (V9_of m outs c main_arg17 (by decide)).trans (at8_arg17 m outs c)
theorem at10_arg17 (c : Dev nD) : V10 m outs c (Proc.devRef .tc main_arg17) = m ((c : Thread nD τ).loc main_arg17) :=
  (V10_of m outs c main_arg17 (by decide)).trans (at9_arg17 m outs c)
theorem at11_arg17 (c : Dev nD) : V11 m outs c (Proc.devRef .tc main_arg17) = m ((c : Thread nD τ).loc main_arg17) :=
  (V11_of m outs c main_arg17 (by decide)).trans (at10_arg17 m outs c)
theorem at12_arg17 (c : Dev nD) : V12 m outs c (Proc.devRef .tc main_arg17) = m ((c : Thread nD τ).loc main_arg17) :=
  (V12_of m outs c main_arg17 (by decide)).trans (at11_arg17 m outs c)
theorem at13_arg17 (c : Dev nD) : V13 m outs c (Proc.devRef .tc main_arg17) = m ((c : Thread nD τ).loc main_arg17) :=
  (V13_of m outs c main_arg17 (by decide)).trans (at12_arg17 m outs c)
theorem at14_arg17 (c : Dev nD) : V14 m outs c (Proc.devRef .tc main_arg17) = m ((c : Thread nD τ).loc main_arg17) :=
  (V14_of m outs c main_arg17 (by decide)).trans (at13_arg17 m outs c)
theorem at15_arg17 (c : Dev nD) : V15 m outs c (Proc.devRef .tc main_arg17) = m ((c : Thread nD τ).loc main_arg17) :=
  (V15_of m outs c main_arg17 (by decide)).trans (at14_arg17 m outs c)
theorem at16_arg17 (c : Dev nD) : V16 m outs c (Proc.devRef .tc main_arg17) = m ((c : Thread nD τ).loc main_arg17) :=
  (V16_of m outs c main_arg17 (by decide)).trans (at15_arg17 m outs c)
theorem at17_arg17 (c : Dev nD) : V17 m outs c (Proc.devRef .tc main_arg17) = m ((c : Thread nD τ).loc main_arg17) :=
  (V17_of m outs c main_arg17 (by decide)).trans (at16_arg17 m outs c)
theorem at18_arg17 (c : Dev nD) : V18 m outs c (Proc.devRef .tc main_arg17) = m ((c : Thread nD τ).loc main_arg17) :=
  (V18_of m outs c main_arg17 (by decide)).trans (at17_arg17 m outs c)
theorem at19_arg17 (c : Dev nD) : V19 m outs c (Proc.devRef .tc main_arg17) = m ((c : Thread nD τ).loc main_arg17) :=
  (V19_of m outs c main_arg17 (by decide)).trans (at18_arg17 m outs c)
theorem at20_arg17 (c : Dev nD) : V20 m outs c (Proc.devRef .tc main_arg17) = m ((c : Thread nD τ).loc main_arg17) :=
  (V20_of m outs c main_arg17 (by decide)).trans (at19_arg17 m outs c)
theorem at21_arg17 (c : Dev nD) : V21 m outs c (Proc.devRef .tc main_arg17) = m ((c : Thread nD τ).loc main_arg17) :=
  (V21_of m outs c main_arg17 (by decide)).trans (at20_arg17 m outs c)
theorem at22_arg17 (c : Dev nD) : V22 m outs c (Proc.devRef .tc main_arg17) = m ((c : Thread nD τ).loc main_arg17) :=
  (V22_of m outs c main_arg17 (by decide)).trans (at21_arg17 m outs c)
theorem at23_v138 (c : Dev nD) : V23 m outs c (Proc.devRef .tc main_v138) = fun i => shapeCast S1x32 (m ((c : Thread nD τ).loc main_arg17)) shapeCasts_S32_S1x32 i :=
  (after_hostOps11_v138 (V22 m outs c)).trans (by rw [at22_arg17])
theorem at24_v139 (c : Dev nD) : V24 m outs c (Proc.devRef .tc main_v139) = outs 24 main_v139 c :=
  by simp only [V24]; exact Function.update_self _ _ _
theorem at25_v139 (c : Dev nD) : V25 m outs c (Proc.devRef .tc main_v139) = outs 24 main_v139 c :=
  (V25_of m outs c main_v139 (by decide)).trans (at24_v139 m outs c)
theorem at0_arg18 (c : Dev nD) : V0 m c (Proc.devRef .tc main_arg18) = m ((c : Thread nD τ).loc main_arg18) :=
  rfl
theorem at1_arg18 (c : Dev nD) : V1 m c (Proc.devRef .tc main_arg18) = m ((c : Thread nD τ).loc main_arg18) :=
  (V1_of m c main_arg18 (by decide)).trans (at0_arg18 m c)
theorem at2_arg18 (c : Dev nD) : V2 m outs c (Proc.devRef .tc main_arg18) = m ((c : Thread nD τ).loc main_arg18) :=
  (V2_of m outs c main_arg18 (by decide)).trans (at1_arg18 m c)
theorem at3_arg18 (c : Dev nD) : V3 m outs c (Proc.devRef .tc main_arg18) = m ((c : Thread nD τ).loc main_arg18) :=
  (V3_of m outs c main_arg18 (by decide)).trans (at2_arg18 m outs c)
theorem at4_arg18 (c : Dev nD) : V4 m outs c (Proc.devRef .tc main_arg18) = m ((c : Thread nD τ).loc main_arg18) :=
  (V4_of m outs c main_arg18 (by decide)).trans (at3_arg18 m outs c)
theorem at5_arg18 (c : Dev nD) : V5 m outs c (Proc.devRef .tc main_arg18) = m ((c : Thread nD τ).loc main_arg18) :=
  (V5_of m outs c main_arg18 (by decide)).trans (at4_arg18 m outs c)
theorem at6_arg18 (c : Dev nD) : V6 m outs c (Proc.devRef .tc main_arg18) = m ((c : Thread nD τ).loc main_arg18) :=
  (V6_of m outs c main_arg18 (by decide)).trans (at5_arg18 m outs c)
theorem at7_arg18 (c : Dev nD) : V7 m outs c (Proc.devRef .tc main_arg18) = m ((c : Thread nD τ).loc main_arg18) :=
  (V7_of m outs c main_arg18 (by decide)).trans (at6_arg18 m outs c)
theorem at8_arg18 (c : Dev nD) : V8 m outs c (Proc.devRef .tc main_arg18) = m ((c : Thread nD τ).loc main_arg18) :=
  (V8_of m outs c main_arg18 (by decide)).trans (at7_arg18 m outs c)
theorem at9_arg18 (c : Dev nD) : V9 m outs c (Proc.devRef .tc main_arg18) = m ((c : Thread nD τ).loc main_arg18) :=
  (V9_of m outs c main_arg18 (by decide)).trans (at8_arg18 m outs c)
theorem at10_arg18 (c : Dev nD) : V10 m outs c (Proc.devRef .tc main_arg18) = m ((c : Thread nD τ).loc main_arg18) :=
  (V10_of m outs c main_arg18 (by decide)).trans (at9_arg18 m outs c)
theorem at11_arg18 (c : Dev nD) : V11 m outs c (Proc.devRef .tc main_arg18) = m ((c : Thread nD τ).loc main_arg18) :=
  (V11_of m outs c main_arg18 (by decide)).trans (at10_arg18 m outs c)
theorem at12_arg18 (c : Dev nD) : V12 m outs c (Proc.devRef .tc main_arg18) = m ((c : Thread nD τ).loc main_arg18) :=
  (V12_of m outs c main_arg18 (by decide)).trans (at11_arg18 m outs c)
theorem at13_arg18 (c : Dev nD) : V13 m outs c (Proc.devRef .tc main_arg18) = m ((c : Thread nD τ).loc main_arg18) :=
  (V13_of m outs c main_arg18 (by decide)).trans (at12_arg18 m outs c)
theorem at14_arg18 (c : Dev nD) : V14 m outs c (Proc.devRef .tc main_arg18) = m ((c : Thread nD τ).loc main_arg18) :=
  (V14_of m outs c main_arg18 (by decide)).trans (at13_arg18 m outs c)
theorem at15_arg18 (c : Dev nD) : V15 m outs c (Proc.devRef .tc main_arg18) = m ((c : Thread nD τ).loc main_arg18) :=
  (V15_of m outs c main_arg18 (by decide)).trans (at14_arg18 m outs c)
theorem at16_arg18 (c : Dev nD) : V16 m outs c (Proc.devRef .tc main_arg18) = m ((c : Thread nD τ).loc main_arg18) :=
  (V16_of m outs c main_arg18 (by decide)).trans (at15_arg18 m outs c)
theorem at17_arg18 (c : Dev nD) : V17 m outs c (Proc.devRef .tc main_arg18) = m ((c : Thread nD τ).loc main_arg18) :=
  (V17_of m outs c main_arg18 (by decide)).trans (at16_arg18 m outs c)
theorem at18_arg18 (c : Dev nD) : V18 m outs c (Proc.devRef .tc main_arg18) = m ((c : Thread nD τ).loc main_arg18) :=
  (V18_of m outs c main_arg18 (by decide)).trans (at17_arg18 m outs c)
theorem at19_arg18 (c : Dev nD) : V19 m outs c (Proc.devRef .tc main_arg18) = m ((c : Thread nD τ).loc main_arg18) :=
  (V19_of m outs c main_arg18 (by decide)).trans (at18_arg18 m outs c)
theorem at20_arg18 (c : Dev nD) : V20 m outs c (Proc.devRef .tc main_arg18) = m ((c : Thread nD τ).loc main_arg18) :=
  (V20_of m outs c main_arg18 (by decide)).trans (at19_arg18 m outs c)
theorem at21_arg18 (c : Dev nD) : V21 m outs c (Proc.devRef .tc main_arg18) = m ((c : Thread nD τ).loc main_arg18) :=
  (V21_of m outs c main_arg18 (by decide)).trans (at20_arg18 m outs c)
theorem at22_arg18 (c : Dev nD) : V22 m outs c (Proc.devRef .tc main_arg18) = m ((c : Thread nD τ).loc main_arg18) :=
  (V22_of m outs c main_arg18 (by decide)).trans (at21_arg18 m outs c)
theorem at23_arg18 (c : Dev nD) : V23 m outs c (Proc.devRef .tc main_arg18) = m ((c : Thread nD τ).loc main_arg18) :=
  (V23_of m outs c main_arg18 (by decide)).trans (at22_arg18 m outs c)
theorem at24_arg18 (c : Dev nD) : V24 m outs c (Proc.devRef .tc main_arg18) = m ((c : Thread nD τ).loc main_arg18) :=
  (V24_of m outs c main_arg18 (by decide)).trans (at23_arg18 m outs c)
theorem at25_arg18 (c : Dev nD) : V25 m outs c (Proc.devRef .tc main_arg18) = m ((c : Thread nD τ).loc main_arg18) :=
  (V25_of m outs c main_arg18 (by decide)).trans (at24_arg18 m outs c)
theorem at25_v141 (c : Dev nD) : V25 m outs c (Proc.devRef .tc main_v141) = fun i => shapeCast S1x16 (broadcastInDim S16 ![] bcast_S_S16 (constant S_ .f32 0x00000000#32) : (⟨S16, .f32⟩ : BufTy).Contents (Elt F)) shapeCasts_S16_S1x16 i :=
  after_hostOps12_v141 (V24 m outs c)
theorem at26_v142 (c : Dev nD) : V26 m outs c (Proc.devRef .tc main_v142) = outs 26 main_v142 c :=
  by simp only [V26]; exact Function.update_self _ _ _
theorem at21_v3 (c : Dev nD) : V21 m outs c (Proc.devRef .tc main_v3) = eSrc m c :=
  (V21_of m outs c main_v3 (by decide)).trans (at20_v3 m outs c)
theorem at22_v3 (c : Dev nD) : V22 m outs c (Proc.devRef .tc main_v3) = eSrc m c :=
  (V22_of m outs c main_v3 (by decide)).trans (at21_v3 m outs c)
theorem at23_v3 (c : Dev nD) : V23 m outs c (Proc.devRef .tc main_v3) = eSrc m c :=
  (V23_of m outs c main_v3 (by decide)).trans (at22_v3 m outs c)
theorem at24_v3 (c : Dev nD) : V24 m outs c (Proc.devRef .tc main_v3) = eSrc m c :=
  (V24_of m outs c main_v3 (by decide)).trans (at23_v3 m outs c)
theorem at25_v3 (c : Dev nD) : V25 m outs c (Proc.devRef .tc main_v3) = eSrc m c :=
  (V25_of m outs c main_v3 (by decide)).trans (at24_v3 m outs c)
theorem at26_v3 (c : Dev nD) : V26 m outs c (Proc.devRef .tc main_v3) = eSrc m c :=
  (V26_of m outs c main_v3 (by decide)).trans (at25_v3 m outs c)
theorem at21_v6 (c : Dev nD) : V21 m outs c (Proc.devRef .tc main_v6) = eDst m c :=
  (V21_of m outs c main_v6 (by decide)).trans (at20_v6 m outs c)
theorem at22_v6 (c : Dev nD) : V22 m outs c (Proc.devRef .tc main_v6) = eDst m c :=
  (V22_of m outs c main_v6 (by decide)).trans (at21_v6 m outs c)
theorem at23_v6 (c : Dev nD) : V23 m outs c (Proc.devRef .tc main_v6) = eDst m c :=
  (V23_of m outs c main_v6 (by decide)).trans (at22_v6 m outs c)
theorem at24_v6 (c : Dev nD) : V24 m outs c (Proc.devRef .tc main_v6) = eDst m c :=
  (V24_of m outs c main_v6 (by decide)).trans (at23_v6 m outs c)
theorem at25_v6 (c : Dev nD) : V25 m outs c (Proc.devRef .tc main_v6) = eDst m c :=
  (V25_of m outs c main_v6 (by decide)).trans (at24_v6 m outs c)
theorem at26_v6 (c : Dev nD) : V26 m outs c (Proc.devRef .tc main_v6) = eDst m c :=
  (V26_of m outs c main_v6 (by decide)).trans (at25_v6 m outs c)
theorem at21_v31 (c : Dev nD) : V21 m outs c (Proc.devRef .tc main_v31) = eNrm m c :=
  (V21_of m outs c main_v31 (by decide)).trans (at20_v31 m outs c)
theorem at22_v31 (c : Dev nD) : V22 m outs c (Proc.devRef .tc main_v31) = eNrm m c :=
  (V22_of m outs c main_v31 (by decide)).trans (at21_v31 m outs c)
theorem at23_v31 (c : Dev nD) : V23 m outs c (Proc.devRef .tc main_v31) = eNrm m c :=
  (V23_of m outs c main_v31 (by decide)).trans (at22_v31 m outs c)
theorem at24_v31 (c : Dev nD) : V24 m outs c (Proc.devRef .tc main_v31) = eNrm m c :=
  (V24_of m outs c main_v31 (by decide)).trans (at23_v31 m outs c)
theorem at25_v31 (c : Dev nD) : V25 m outs c (Proc.devRef .tc main_v31) = eNrm m c :=
  (V25_of m outs c main_v31 (by decide)).trans (at24_v31 m outs c)
theorem at26_v31 (c : Dev nD) : V26 m outs c (Proc.devRef .tc main_v31) = eNrm m c :=
  (V26_of m outs c main_v31 (by decide)).trans (at25_v31 m outs c)
theorem at27_v160 (c : Dev nD) : V27 m outs c (Proc.devRef .tc main_v160) = kerAgg5 (outs 26 main_v142 c) (eSrc m c) (eDst m c) (eNrm m c) :=
  (after_hostOps13_v160 (V26 m outs c)).trans (by rw [at26_v142, at26_v3, at26_v6, at26_v31])
theorem at0_arg19 (c : Dev nD) : V0 m c (Proc.devRef .tc main_arg19) = m ((c : Thread nD τ).loc main_arg19) :=
  rfl
theorem at1_arg19 (c : Dev nD) : V1 m c (Proc.devRef .tc main_arg19) = m ((c : Thread nD τ).loc main_arg19) :=
  (V1_of m c main_arg19 (by decide)).trans (at0_arg19 m c)
theorem at2_arg19 (c : Dev nD) : V2 m outs c (Proc.devRef .tc main_arg19) = m ((c : Thread nD τ).loc main_arg19) :=
  (V2_of m outs c main_arg19 (by decide)).trans (at1_arg19 m c)
theorem at3_arg19 (c : Dev nD) : V3 m outs c (Proc.devRef .tc main_arg19) = m ((c : Thread nD τ).loc main_arg19) :=
  (V3_of m outs c main_arg19 (by decide)).trans (at2_arg19 m outs c)
theorem at4_arg19 (c : Dev nD) : V4 m outs c (Proc.devRef .tc main_arg19) = m ((c : Thread nD τ).loc main_arg19) :=
  (V4_of m outs c main_arg19 (by decide)).trans (at3_arg19 m outs c)
theorem at5_arg19 (c : Dev nD) : V5 m outs c (Proc.devRef .tc main_arg19) = m ((c : Thread nD τ).loc main_arg19) :=
  (V5_of m outs c main_arg19 (by decide)).trans (at4_arg19 m outs c)
theorem at6_arg19 (c : Dev nD) : V6 m outs c (Proc.devRef .tc main_arg19) = m ((c : Thread nD τ).loc main_arg19) :=
  (V6_of m outs c main_arg19 (by decide)).trans (at5_arg19 m outs c)
theorem at7_arg19 (c : Dev nD) : V7 m outs c (Proc.devRef .tc main_arg19) = m ((c : Thread nD τ).loc main_arg19) :=
  (V7_of m outs c main_arg19 (by decide)).trans (at6_arg19 m outs c)
theorem at8_arg19 (c : Dev nD) : V8 m outs c (Proc.devRef .tc main_arg19) = m ((c : Thread nD τ).loc main_arg19) :=
  (V8_of m outs c main_arg19 (by decide)).trans (at7_arg19 m outs c)
theorem at9_arg19 (c : Dev nD) : V9 m outs c (Proc.devRef .tc main_arg19) = m ((c : Thread nD τ).loc main_arg19) :=
  (V9_of m outs c main_arg19 (by decide)).trans (at8_arg19 m outs c)
theorem at10_arg19 (c : Dev nD) : V10 m outs c (Proc.devRef .tc main_arg19) = m ((c : Thread nD τ).loc main_arg19) :=
  (V10_of m outs c main_arg19 (by decide)).trans (at9_arg19 m outs c)
theorem at11_arg19 (c : Dev nD) : V11 m outs c (Proc.devRef .tc main_arg19) = m ((c : Thread nD τ).loc main_arg19) :=
  (V11_of m outs c main_arg19 (by decide)).trans (at10_arg19 m outs c)
theorem at12_arg19 (c : Dev nD) : V12 m outs c (Proc.devRef .tc main_arg19) = m ((c : Thread nD τ).loc main_arg19) :=
  (V12_of m outs c main_arg19 (by decide)).trans (at11_arg19 m outs c)
theorem at13_arg19 (c : Dev nD) : V13 m outs c (Proc.devRef .tc main_arg19) = m ((c : Thread nD τ).loc main_arg19) :=
  (V13_of m outs c main_arg19 (by decide)).trans (at12_arg19 m outs c)
theorem at14_arg19 (c : Dev nD) : V14 m outs c (Proc.devRef .tc main_arg19) = m ((c : Thread nD τ).loc main_arg19) :=
  (V14_of m outs c main_arg19 (by decide)).trans (at13_arg19 m outs c)
theorem at15_arg19 (c : Dev nD) : V15 m outs c (Proc.devRef .tc main_arg19) = m ((c : Thread nD τ).loc main_arg19) :=
  (V15_of m outs c main_arg19 (by decide)).trans (at14_arg19 m outs c)
theorem at16_arg19 (c : Dev nD) : V16 m outs c (Proc.devRef .tc main_arg19) = m ((c : Thread nD τ).loc main_arg19) :=
  (V16_of m outs c main_arg19 (by decide)).trans (at15_arg19 m outs c)
theorem at17_arg19 (c : Dev nD) : V17 m outs c (Proc.devRef .tc main_arg19) = m ((c : Thread nD τ).loc main_arg19) :=
  (V17_of m outs c main_arg19 (by decide)).trans (at16_arg19 m outs c)
theorem at18_arg19 (c : Dev nD) : V18 m outs c (Proc.devRef .tc main_arg19) = m ((c : Thread nD τ).loc main_arg19) :=
  (V18_of m outs c main_arg19 (by decide)).trans (at17_arg19 m outs c)
theorem at19_arg19 (c : Dev nD) : V19 m outs c (Proc.devRef .tc main_arg19) = m ((c : Thread nD τ).loc main_arg19) :=
  (V19_of m outs c main_arg19 (by decide)).trans (at18_arg19 m outs c)
theorem at20_arg19 (c : Dev nD) : V20 m outs c (Proc.devRef .tc main_arg19) = m ((c : Thread nD τ).loc main_arg19) :=
  (V20_of m outs c main_arg19 (by decide)).trans (at19_arg19 m outs c)
theorem at21_arg19 (c : Dev nD) : V21 m outs c (Proc.devRef .tc main_arg19) = m ((c : Thread nD τ).loc main_arg19) :=
  (V21_of m outs c main_arg19 (by decide)).trans (at20_arg19 m outs c)
theorem at22_arg19 (c : Dev nD) : V22 m outs c (Proc.devRef .tc main_arg19) = m ((c : Thread nD τ).loc main_arg19) :=
  (V22_of m outs c main_arg19 (by decide)).trans (at21_arg19 m outs c)
theorem at23_arg19 (c : Dev nD) : V23 m outs c (Proc.devRef .tc main_arg19) = m ((c : Thread nD τ).loc main_arg19) :=
  (V23_of m outs c main_arg19 (by decide)).trans (at22_arg19 m outs c)
theorem at24_arg19 (c : Dev nD) : V24 m outs c (Proc.devRef .tc main_arg19) = m ((c : Thread nD τ).loc main_arg19) :=
  (V24_of m outs c main_arg19 (by decide)).trans (at23_arg19 m outs c)
theorem at25_arg19 (c : Dev nD) : V25 m outs c (Proc.devRef .tc main_arg19) = m ((c : Thread nD τ).loc main_arg19) :=
  (V25_of m outs c main_arg19 (by decide)).trans (at24_arg19 m outs c)
theorem at26_arg19 (c : Dev nD) : V26 m outs c (Proc.devRef .tc main_arg19) = m ((c : Thread nD τ).loc main_arg19) :=
  (V26_of m outs c main_arg19 (by decide)).trans (at25_arg19 m outs c)
theorem at27_v161 (c : Dev nD) : V27 m outs c (Proc.devRef .tc main_v161) = fun i => shapeCast S1x16 (m ((c : Thread nD τ).loc main_arg19)) shapeCasts_S16_S1x16 i :=
  (after_hostOps13_v161 (V26 m outs c)).trans (by rw [at26_arg19])
theorem at28_v160 (c : Dev nD) : V28 m outs c (Proc.devRef .tc main_v160) = kerAgg5 (outs 26 main_v142 c) (eSrc m c) (eDst m c) (eNrm m c) :=
  (V28_of m outs c main_v160 (by decide)).trans (at27_v160 m outs c)
theorem at29_v160 (c : Dev nD) : V29 m outs c (Proc.devRef .tc main_v160) = kerAgg5 (outs 26 main_v142 c) (eSrc m c) (eDst m c) (eNrm m c) :=
  (V29_of m outs c main_v160 (by decide)).trans (at28_v160 m outs c)
theorem at27_arg19 (c : Dev nD) : V27 m outs c (Proc.devRef .tc main_arg19) = m ((c : Thread nD τ).loc main_arg19) :=
  (V27_of m outs c main_arg19 (by decide)).trans (at26_arg19 m outs c)
theorem at28_arg19 (c : Dev nD) : V28 m outs c (Proc.devRef .tc main_arg19) = m ((c : Thread nD τ).loc main_arg19) :=
  (V28_of m outs c main_arg19 (by decide)).trans (at27_arg19 m outs c)
theorem at29_v163 (c : Dev nD) : V29 m outs c (Proc.devRef .tc main_v163) = fun i => shapeCast S1x16 (m ((c : Thread nD τ).loc main_arg19)) shapeCasts_S16_S1x16 i :=
  (after_hostOps14_v163 (V28 m outs c)).trans (by rw [at28_arg19])
theorem at28_v162_0 (c : Dev nD) : V28 m outs c (Proc.devRef .tc main_v162_0) = outs 28 main_v162_0 c :=
  by simp only [V28]; exact (Function.update_of_ne (StableHlo.devRef_ne_of_ne (by decide)) _ _).trans (Function.update_self _ _ _)
theorem at29_v162_0 (c : Dev nD) : V29 m outs c (Proc.devRef .tc main_v162_0) = outs 28 main_v162_0 c :=
  (V29_of m outs c main_v162_0 (by decide)).trans (at28_v162_0 m outs c)
theorem at28_v162_1 (c : Dev nD) : V28 m outs c (Proc.devRef .tc main_v162_1) = outs 28 main_v162_1 c :=
  by simp only [V28]; exact Function.update_self _ _ _
theorem at29_v162_1 (c : Dev nD) : V29 m outs c (Proc.devRef .tc main_v162_1) = outs 28 main_v162_1 c :=
  (V29_of m outs c main_v162_1 (by decide)).trans (at28_v162_1 m outs c)
theorem at0_arg20 (c : Dev nD) : V0 m c (Proc.devRef .tc main_arg20) = m ((c : Thread nD τ).loc main_arg20) :=
  rfl
theorem at1_arg20 (c : Dev nD) : V1 m c (Proc.devRef .tc main_arg20) = m ((c : Thread nD τ).loc main_arg20) :=
  (V1_of m c main_arg20 (by decide)).trans (at0_arg20 m c)
theorem at2_arg20 (c : Dev nD) : V2 m outs c (Proc.devRef .tc main_arg20) = m ((c : Thread nD τ).loc main_arg20) :=
  (V2_of m outs c main_arg20 (by decide)).trans (at1_arg20 m c)
theorem at3_arg20 (c : Dev nD) : V3 m outs c (Proc.devRef .tc main_arg20) = m ((c : Thread nD τ).loc main_arg20) :=
  (V3_of m outs c main_arg20 (by decide)).trans (at2_arg20 m outs c)
theorem at4_arg20 (c : Dev nD) : V4 m outs c (Proc.devRef .tc main_arg20) = m ((c : Thread nD τ).loc main_arg20) :=
  (V4_of m outs c main_arg20 (by decide)).trans (at3_arg20 m outs c)
theorem at5_arg20 (c : Dev nD) : V5 m outs c (Proc.devRef .tc main_arg20) = m ((c : Thread nD τ).loc main_arg20) :=
  (V5_of m outs c main_arg20 (by decide)).trans (at4_arg20 m outs c)
theorem at6_arg20 (c : Dev nD) : V6 m outs c (Proc.devRef .tc main_arg20) = m ((c : Thread nD τ).loc main_arg20) :=
  (V6_of m outs c main_arg20 (by decide)).trans (at5_arg20 m outs c)
theorem at7_arg20 (c : Dev nD) : V7 m outs c (Proc.devRef .tc main_arg20) = m ((c : Thread nD τ).loc main_arg20) :=
  (V7_of m outs c main_arg20 (by decide)).trans (at6_arg20 m outs c)
theorem at8_arg20 (c : Dev nD) : V8 m outs c (Proc.devRef .tc main_arg20) = m ((c : Thread nD τ).loc main_arg20) :=
  (V8_of m outs c main_arg20 (by decide)).trans (at7_arg20 m outs c)
theorem at9_arg20 (c : Dev nD) : V9 m outs c (Proc.devRef .tc main_arg20) = m ((c : Thread nD τ).loc main_arg20) :=
  (V9_of m outs c main_arg20 (by decide)).trans (at8_arg20 m outs c)
theorem at10_arg20 (c : Dev nD) : V10 m outs c (Proc.devRef .tc main_arg20) = m ((c : Thread nD τ).loc main_arg20) :=
  (V10_of m outs c main_arg20 (by decide)).trans (at9_arg20 m outs c)
theorem at11_arg20 (c : Dev nD) : V11 m outs c (Proc.devRef .tc main_arg20) = m ((c : Thread nD τ).loc main_arg20) :=
  (V11_of m outs c main_arg20 (by decide)).trans (at10_arg20 m outs c)
theorem at12_arg20 (c : Dev nD) : V12 m outs c (Proc.devRef .tc main_arg20) = m ((c : Thread nD τ).loc main_arg20) :=
  (V12_of m outs c main_arg20 (by decide)).trans (at11_arg20 m outs c)
theorem at13_arg20 (c : Dev nD) : V13 m outs c (Proc.devRef .tc main_arg20) = m ((c : Thread nD τ).loc main_arg20) :=
  (V13_of m outs c main_arg20 (by decide)).trans (at12_arg20 m outs c)
theorem at14_arg20 (c : Dev nD) : V14 m outs c (Proc.devRef .tc main_arg20) = m ((c : Thread nD τ).loc main_arg20) :=
  (V14_of m outs c main_arg20 (by decide)).trans (at13_arg20 m outs c)
theorem at15_arg20 (c : Dev nD) : V15 m outs c (Proc.devRef .tc main_arg20) = m ((c : Thread nD τ).loc main_arg20) :=
  (V15_of m outs c main_arg20 (by decide)).trans (at14_arg20 m outs c)
theorem at16_arg20 (c : Dev nD) : V16 m outs c (Proc.devRef .tc main_arg20) = m ((c : Thread nD τ).loc main_arg20) :=
  (V16_of m outs c main_arg20 (by decide)).trans (at15_arg20 m outs c)
theorem at17_arg20 (c : Dev nD) : V17 m outs c (Proc.devRef .tc main_arg20) = m ((c : Thread nD τ).loc main_arg20) :=
  (V17_of m outs c main_arg20 (by decide)).trans (at16_arg20 m outs c)
theorem at18_arg20 (c : Dev nD) : V18 m outs c (Proc.devRef .tc main_arg20) = m ((c : Thread nD τ).loc main_arg20) :=
  (V18_of m outs c main_arg20 (by decide)).trans (at17_arg20 m outs c)
theorem at19_arg20 (c : Dev nD) : V19 m outs c (Proc.devRef .tc main_arg20) = m ((c : Thread nD τ).loc main_arg20) :=
  (V19_of m outs c main_arg20 (by decide)).trans (at18_arg20 m outs c)
theorem at20_arg20 (c : Dev nD) : V20 m outs c (Proc.devRef .tc main_arg20) = m ((c : Thread nD τ).loc main_arg20) :=
  (V20_of m outs c main_arg20 (by decide)).trans (at19_arg20 m outs c)
theorem at21_arg20 (c : Dev nD) : V21 m outs c (Proc.devRef .tc main_arg20) = m ((c : Thread nD τ).loc main_arg20) :=
  (V21_of m outs c main_arg20 (by decide)).trans (at20_arg20 m outs c)
theorem at22_arg20 (c : Dev nD) : V22 m outs c (Proc.devRef .tc main_arg20) = m ((c : Thread nD τ).loc main_arg20) :=
  (V22_of m outs c main_arg20 (by decide)).trans (at21_arg20 m outs c)
theorem at23_arg20 (c : Dev nD) : V23 m outs c (Proc.devRef .tc main_arg20) = m ((c : Thread nD τ).loc main_arg20) :=
  (V23_of m outs c main_arg20 (by decide)).trans (at22_arg20 m outs c)
theorem at24_arg20 (c : Dev nD) : V24 m outs c (Proc.devRef .tc main_arg20) = m ((c : Thread nD τ).loc main_arg20) :=
  (V24_of m outs c main_arg20 (by decide)).trans (at23_arg20 m outs c)
theorem at25_arg20 (c : Dev nD) : V25 m outs c (Proc.devRef .tc main_arg20) = m ((c : Thread nD τ).loc main_arg20) :=
  (V25_of m outs c main_arg20 (by decide)).trans (at24_arg20 m outs c)
theorem at26_arg20 (c : Dev nD) : V26 m outs c (Proc.devRef .tc main_arg20) = m ((c : Thread nD τ).loc main_arg20) :=
  (V26_of m outs c main_arg20 (by decide)).trans (at25_arg20 m outs c)
theorem at27_arg20 (c : Dev nD) : V27 m outs c (Proc.devRef .tc main_arg20) = m ((c : Thread nD τ).loc main_arg20) :=
  (V27_of m outs c main_arg20 (by decide)).trans (at26_arg20 m outs c)
theorem at28_arg20 (c : Dev nD) : V28 m outs c (Proc.devRef .tc main_arg20) = m ((c : Thread nD τ).loc main_arg20) :=
  (V28_of m outs c main_arg20 (by decide)).trans (at27_arg20 m outs c)
theorem at29_v164 (c : Dev nD) : V29 m outs c (Proc.devRef .tc main_v164) = fun i => shapeCast S1x16 (m ((c : Thread nD τ).loc main_arg20)) shapeCasts_S16_S1x16 i :=
  (after_hostOps14_v164 (V28 m outs c)).trans (by rw [at28_arg20])
theorem at0_arg21 (c : Dev nD) : V0 m c (Proc.devRef .tc main_arg21) = m ((c : Thread nD τ).loc main_arg21) :=
  rfl
theorem at1_arg21 (c : Dev nD) : V1 m c (Proc.devRef .tc main_arg21) = m ((c : Thread nD τ).loc main_arg21) :=
  (V1_of m c main_arg21 (by decide)).trans (at0_arg21 m c)
theorem at2_arg21 (c : Dev nD) : V2 m outs c (Proc.devRef .tc main_arg21) = m ((c : Thread nD τ).loc main_arg21) :=
  (V2_of m outs c main_arg21 (by decide)).trans (at1_arg21 m c)
theorem at3_arg21 (c : Dev nD) : V3 m outs c (Proc.devRef .tc main_arg21) = m ((c : Thread nD τ).loc main_arg21) :=
  (V3_of m outs c main_arg21 (by decide)).trans (at2_arg21 m outs c)
theorem at4_arg21 (c : Dev nD) : V4 m outs c (Proc.devRef .tc main_arg21) = m ((c : Thread nD τ).loc main_arg21) :=
  (V4_of m outs c main_arg21 (by decide)).trans (at3_arg21 m outs c)
theorem at5_arg21 (c : Dev nD) : V5 m outs c (Proc.devRef .tc main_arg21) = m ((c : Thread nD τ).loc main_arg21) :=
  (V5_of m outs c main_arg21 (by decide)).trans (at4_arg21 m outs c)
theorem at6_arg21 (c : Dev nD) : V6 m outs c (Proc.devRef .tc main_arg21) = m ((c : Thread nD τ).loc main_arg21) :=
  (V6_of m outs c main_arg21 (by decide)).trans (at5_arg21 m outs c)
theorem at7_arg21 (c : Dev nD) : V7 m outs c (Proc.devRef .tc main_arg21) = m ((c : Thread nD τ).loc main_arg21) :=
  (V7_of m outs c main_arg21 (by decide)).trans (at6_arg21 m outs c)
theorem at8_arg21 (c : Dev nD) : V8 m outs c (Proc.devRef .tc main_arg21) = m ((c : Thread nD τ).loc main_arg21) :=
  (V8_of m outs c main_arg21 (by decide)).trans (at7_arg21 m outs c)
theorem at9_arg21 (c : Dev nD) : V9 m outs c (Proc.devRef .tc main_arg21) = m ((c : Thread nD τ).loc main_arg21) :=
  (V9_of m outs c main_arg21 (by decide)).trans (at8_arg21 m outs c)
theorem at10_arg21 (c : Dev nD) : V10 m outs c (Proc.devRef .tc main_arg21) = m ((c : Thread nD τ).loc main_arg21) :=
  (V10_of m outs c main_arg21 (by decide)).trans (at9_arg21 m outs c)
theorem at11_arg21 (c : Dev nD) : V11 m outs c (Proc.devRef .tc main_arg21) = m ((c : Thread nD τ).loc main_arg21) :=
  (V11_of m outs c main_arg21 (by decide)).trans (at10_arg21 m outs c)
theorem at12_arg21 (c : Dev nD) : V12 m outs c (Proc.devRef .tc main_arg21) = m ((c : Thread nD τ).loc main_arg21) :=
  (V12_of m outs c main_arg21 (by decide)).trans (at11_arg21 m outs c)
theorem at13_arg21 (c : Dev nD) : V13 m outs c (Proc.devRef .tc main_arg21) = m ((c : Thread nD τ).loc main_arg21) :=
  (V13_of m outs c main_arg21 (by decide)).trans (at12_arg21 m outs c)
theorem at14_arg21 (c : Dev nD) : V14 m outs c (Proc.devRef .tc main_arg21) = m ((c : Thread nD τ).loc main_arg21) :=
  (V14_of m outs c main_arg21 (by decide)).trans (at13_arg21 m outs c)
theorem at15_arg21 (c : Dev nD) : V15 m outs c (Proc.devRef .tc main_arg21) = m ((c : Thread nD τ).loc main_arg21) :=
  (V15_of m outs c main_arg21 (by decide)).trans (at14_arg21 m outs c)
theorem at16_arg21 (c : Dev nD) : V16 m outs c (Proc.devRef .tc main_arg21) = m ((c : Thread nD τ).loc main_arg21) :=
  (V16_of m outs c main_arg21 (by decide)).trans (at15_arg21 m outs c)
theorem at17_arg21 (c : Dev nD) : V17 m outs c (Proc.devRef .tc main_arg21) = m ((c : Thread nD τ).loc main_arg21) :=
  (V17_of m outs c main_arg21 (by decide)).trans (at16_arg21 m outs c)
theorem at18_arg21 (c : Dev nD) : V18 m outs c (Proc.devRef .tc main_arg21) = m ((c : Thread nD τ).loc main_arg21) :=
  (V18_of m outs c main_arg21 (by decide)).trans (at17_arg21 m outs c)
theorem at19_arg21 (c : Dev nD) : V19 m outs c (Proc.devRef .tc main_arg21) = m ((c : Thread nD τ).loc main_arg21) :=
  (V19_of m outs c main_arg21 (by decide)).trans (at18_arg21 m outs c)
theorem at20_arg21 (c : Dev nD) : V20 m outs c (Proc.devRef .tc main_arg21) = m ((c : Thread nD τ).loc main_arg21) :=
  (V20_of m outs c main_arg21 (by decide)).trans (at19_arg21 m outs c)
theorem at21_arg21 (c : Dev nD) : V21 m outs c (Proc.devRef .tc main_arg21) = m ((c : Thread nD τ).loc main_arg21) :=
  (V21_of m outs c main_arg21 (by decide)).trans (at20_arg21 m outs c)
theorem at22_arg21 (c : Dev nD) : V22 m outs c (Proc.devRef .tc main_arg21) = m ((c : Thread nD τ).loc main_arg21) :=
  (V22_of m outs c main_arg21 (by decide)).trans (at21_arg21 m outs c)
theorem at23_arg21 (c : Dev nD) : V23 m outs c (Proc.devRef .tc main_arg21) = m ((c : Thread nD τ).loc main_arg21) :=
  (V23_of m outs c main_arg21 (by decide)).trans (at22_arg21 m outs c)
theorem at24_arg21 (c : Dev nD) : V24 m outs c (Proc.devRef .tc main_arg21) = m ((c : Thread nD τ).loc main_arg21) :=
  (V24_of m outs c main_arg21 (by decide)).trans (at23_arg21 m outs c)
theorem at25_arg21 (c : Dev nD) : V25 m outs c (Proc.devRef .tc main_arg21) = m ((c : Thread nD τ).loc main_arg21) :=
  (V25_of m outs c main_arg21 (by decide)).trans (at24_arg21 m outs c)
theorem at26_arg21 (c : Dev nD) : V26 m outs c (Proc.devRef .tc main_arg21) = m ((c : Thread nD τ).loc main_arg21) :=
  (V26_of m outs c main_arg21 (by decide)).trans (at25_arg21 m outs c)
theorem at27_arg21 (c : Dev nD) : V27 m outs c (Proc.devRef .tc main_arg21) = m ((c : Thread nD τ).loc main_arg21) :=
  (V27_of m outs c main_arg21 (by decide)).trans (at26_arg21 m outs c)
theorem at28_arg21 (c : Dev nD) : V28 m outs c (Proc.devRef .tc main_arg21) = m ((c : Thread nD τ).loc main_arg21) :=
  (V28_of m outs c main_arg21 (by decide)).trans (at27_arg21 m outs c)
theorem at29_v165 (c : Dev nD) : V29 m outs c (Proc.devRef .tc main_v165) = fun i => shapeCast S1x16 (m ((c : Thread nD τ).loc main_arg21)) shapeCasts_S16_S1x16 i :=
  (after_hostOps14_v165 (V28 m outs c)).trans (by rw [at28_arg21])
theorem at30_v166 (c : Dev nD) : V30 m outs c (Proc.devRef .tc main_v166) = outs 30 main_v166 c :=
  by simp only [V30]; exact Function.update_self _ _ _
theorem at31_v166 (c : Dev nD) : V31 m outs c (Proc.devRef .tc main_v166) = outs 30 main_v166 c :=
  (V31_of m outs c main_v166 (by decide)).trans (at30_v166 m outs c)
theorem at0_arg22 (c : Dev nD) : V0 m c (Proc.devRef .tc main_arg22) = m ((c : Thread nD τ).loc main_arg22) :=
  rfl
theorem at1_arg22 (c : Dev nD) : V1 m c (Proc.devRef .tc main_arg22) = m ((c : Thread nD τ).loc main_arg22) :=
  (V1_of m c main_arg22 (by decide)).trans (at0_arg22 m c)
theorem at2_arg22 (c : Dev nD) : V2 m outs c (Proc.devRef .tc main_arg22) = m ((c : Thread nD τ).loc main_arg22) :=
  (V2_of m outs c main_arg22 (by decide)).trans (at1_arg22 m c)
theorem at3_arg22 (c : Dev nD) : V3 m outs c (Proc.devRef .tc main_arg22) = m ((c : Thread nD τ).loc main_arg22) :=
  (V3_of m outs c main_arg22 (by decide)).trans (at2_arg22 m outs c)
theorem at4_arg22 (c : Dev nD) : V4 m outs c (Proc.devRef .tc main_arg22) = m ((c : Thread nD τ).loc main_arg22) :=
  (V4_of m outs c main_arg22 (by decide)).trans (at3_arg22 m outs c)
theorem at5_arg22 (c : Dev nD) : V5 m outs c (Proc.devRef .tc main_arg22) = m ((c : Thread nD τ).loc main_arg22) :=
  (V5_of m outs c main_arg22 (by decide)).trans (at4_arg22 m outs c)
theorem at6_arg22 (c : Dev nD) : V6 m outs c (Proc.devRef .tc main_arg22) = m ((c : Thread nD τ).loc main_arg22) :=
  (V6_of m outs c main_arg22 (by decide)).trans (at5_arg22 m outs c)
theorem at7_arg22 (c : Dev nD) : V7 m outs c (Proc.devRef .tc main_arg22) = m ((c : Thread nD τ).loc main_arg22) :=
  (V7_of m outs c main_arg22 (by decide)).trans (at6_arg22 m outs c)
theorem at8_arg22 (c : Dev nD) : V8 m outs c (Proc.devRef .tc main_arg22) = m ((c : Thread nD τ).loc main_arg22) :=
  (V8_of m outs c main_arg22 (by decide)).trans (at7_arg22 m outs c)
theorem at9_arg22 (c : Dev nD) : V9 m outs c (Proc.devRef .tc main_arg22) = m ((c : Thread nD τ).loc main_arg22) :=
  (V9_of m outs c main_arg22 (by decide)).trans (at8_arg22 m outs c)
theorem at10_arg22 (c : Dev nD) : V10 m outs c (Proc.devRef .tc main_arg22) = m ((c : Thread nD τ).loc main_arg22) :=
  (V10_of m outs c main_arg22 (by decide)).trans (at9_arg22 m outs c)
theorem at11_arg22 (c : Dev nD) : V11 m outs c (Proc.devRef .tc main_arg22) = m ((c : Thread nD τ).loc main_arg22) :=
  (V11_of m outs c main_arg22 (by decide)).trans (at10_arg22 m outs c)
theorem at12_arg22 (c : Dev nD) : V12 m outs c (Proc.devRef .tc main_arg22) = m ((c : Thread nD τ).loc main_arg22) :=
  (V12_of m outs c main_arg22 (by decide)).trans (at11_arg22 m outs c)
theorem at13_arg22 (c : Dev nD) : V13 m outs c (Proc.devRef .tc main_arg22) = m ((c : Thread nD τ).loc main_arg22) :=
  (V13_of m outs c main_arg22 (by decide)).trans (at12_arg22 m outs c)
theorem at14_arg22 (c : Dev nD) : V14 m outs c (Proc.devRef .tc main_arg22) = m ((c : Thread nD τ).loc main_arg22) :=
  (V14_of m outs c main_arg22 (by decide)).trans (at13_arg22 m outs c)
theorem at15_arg22 (c : Dev nD) : V15 m outs c (Proc.devRef .tc main_arg22) = m ((c : Thread nD τ).loc main_arg22) :=
  (V15_of m outs c main_arg22 (by decide)).trans (at14_arg22 m outs c)
theorem at16_arg22 (c : Dev nD) : V16 m outs c (Proc.devRef .tc main_arg22) = m ((c : Thread nD τ).loc main_arg22) :=
  (V16_of m outs c main_arg22 (by decide)).trans (at15_arg22 m outs c)
theorem at17_arg22 (c : Dev nD) : V17 m outs c (Proc.devRef .tc main_arg22) = m ((c : Thread nD τ).loc main_arg22) :=
  (V17_of m outs c main_arg22 (by decide)).trans (at16_arg22 m outs c)
theorem at18_arg22 (c : Dev nD) : V18 m outs c (Proc.devRef .tc main_arg22) = m ((c : Thread nD τ).loc main_arg22) :=
  (V18_of m outs c main_arg22 (by decide)).trans (at17_arg22 m outs c)
theorem at19_arg22 (c : Dev nD) : V19 m outs c (Proc.devRef .tc main_arg22) = m ((c : Thread nD τ).loc main_arg22) :=
  (V19_of m outs c main_arg22 (by decide)).trans (at18_arg22 m outs c)
theorem at20_arg22 (c : Dev nD) : V20 m outs c (Proc.devRef .tc main_arg22) = m ((c : Thread nD τ).loc main_arg22) :=
  (V20_of m outs c main_arg22 (by decide)).trans (at19_arg22 m outs c)
theorem at21_arg22 (c : Dev nD) : V21 m outs c (Proc.devRef .tc main_arg22) = m ((c : Thread nD τ).loc main_arg22) :=
  (V21_of m outs c main_arg22 (by decide)).trans (at20_arg22 m outs c)
theorem at22_arg22 (c : Dev nD) : V22 m outs c (Proc.devRef .tc main_arg22) = m ((c : Thread nD τ).loc main_arg22) :=
  (V22_of m outs c main_arg22 (by decide)).trans (at21_arg22 m outs c)
theorem at23_arg22 (c : Dev nD) : V23 m outs c (Proc.devRef .tc main_arg22) = m ((c : Thread nD τ).loc main_arg22) :=
  (V23_of m outs c main_arg22 (by decide)).trans (at22_arg22 m outs c)
theorem at24_arg22 (c : Dev nD) : V24 m outs c (Proc.devRef .tc main_arg22) = m ((c : Thread nD τ).loc main_arg22) :=
  (V24_of m outs c main_arg22 (by decide)).trans (at23_arg22 m outs c)
theorem at25_arg22 (c : Dev nD) : V25 m outs c (Proc.devRef .tc main_arg22) = m ((c : Thread nD τ).loc main_arg22) :=
  (V25_of m outs c main_arg22 (by decide)).trans (at24_arg22 m outs c)
theorem at26_arg22 (c : Dev nD) : V26 m outs c (Proc.devRef .tc main_arg22) = m ((c : Thread nD τ).loc main_arg22) :=
  (V26_of m outs c main_arg22 (by decide)).trans (at25_arg22 m outs c)
theorem at27_arg22 (c : Dev nD) : V27 m outs c (Proc.devRef .tc main_arg22) = m ((c : Thread nD τ).loc main_arg22) :=
  (V27_of m outs c main_arg22 (by decide)).trans (at26_arg22 m outs c)
theorem at28_arg22 (c : Dev nD) : V28 m outs c (Proc.devRef .tc main_arg22) = m ((c : Thread nD τ).loc main_arg22) :=
  (V28_of m outs c main_arg22 (by decide)).trans (at27_arg22 m outs c)
theorem at29_arg22 (c : Dev nD) : V29 m outs c (Proc.devRef .tc main_arg22) = m ((c : Thread nD τ).loc main_arg22) :=
  (V29_of m outs c main_arg22 (by decide)).trans (at28_arg22 m outs c)
theorem at30_arg22 (c : Dev nD) : V30 m outs c (Proc.devRef .tc main_arg22) = m ((c : Thread nD τ).loc main_arg22) :=
  (V30_of m outs c main_arg22 (by decide)).trans (at29_arg22 m outs c)
theorem at31_arg22 (c : Dev nD) : V31 m outs c (Proc.devRef .tc main_arg22) = m ((c : Thread nD τ).loc main_arg22) :=
  (V31_of m outs c main_arg22 (by decide)).trans (at30_arg22 m outs c)
theorem at0_arg23 (c : Dev nD) : V0 m c (Proc.devRef .tc main_arg23) = m ((c : Thread nD τ).loc main_arg23) :=
  rfl
theorem at1_arg23 (c : Dev nD) : V1 m c (Proc.devRef .tc main_arg23) = m ((c : Thread nD τ).loc main_arg23) :=
  (V1_of m c main_arg23 (by decide)).trans (at0_arg23 m c)
theorem at2_arg23 (c : Dev nD) : V2 m outs c (Proc.devRef .tc main_arg23) = m ((c : Thread nD τ).loc main_arg23) :=
  (V2_of m outs c main_arg23 (by decide)).trans (at1_arg23 m c)
theorem at3_arg23 (c : Dev nD) : V3 m outs c (Proc.devRef .tc main_arg23) = m ((c : Thread nD τ).loc main_arg23) :=
  (V3_of m outs c main_arg23 (by decide)).trans (at2_arg23 m outs c)
theorem at4_arg23 (c : Dev nD) : V4 m outs c (Proc.devRef .tc main_arg23) = m ((c : Thread nD τ).loc main_arg23) :=
  (V4_of m outs c main_arg23 (by decide)).trans (at3_arg23 m outs c)
theorem at5_arg23 (c : Dev nD) : V5 m outs c (Proc.devRef .tc main_arg23) = m ((c : Thread nD τ).loc main_arg23) :=
  (V5_of m outs c main_arg23 (by decide)).trans (at4_arg23 m outs c)
theorem at6_arg23 (c : Dev nD) : V6 m outs c (Proc.devRef .tc main_arg23) = m ((c : Thread nD τ).loc main_arg23) :=
  (V6_of m outs c main_arg23 (by decide)).trans (at5_arg23 m outs c)
theorem at7_arg23 (c : Dev nD) : V7 m outs c (Proc.devRef .tc main_arg23) = m ((c : Thread nD τ).loc main_arg23) :=
  (V7_of m outs c main_arg23 (by decide)).trans (at6_arg23 m outs c)
theorem at8_arg23 (c : Dev nD) : V8 m outs c (Proc.devRef .tc main_arg23) = m ((c : Thread nD τ).loc main_arg23) :=
  (V8_of m outs c main_arg23 (by decide)).trans (at7_arg23 m outs c)
theorem at9_arg23 (c : Dev nD) : V9 m outs c (Proc.devRef .tc main_arg23) = m ((c : Thread nD τ).loc main_arg23) :=
  (V9_of m outs c main_arg23 (by decide)).trans (at8_arg23 m outs c)
theorem at10_arg23 (c : Dev nD) : V10 m outs c (Proc.devRef .tc main_arg23) = m ((c : Thread nD τ).loc main_arg23) :=
  (V10_of m outs c main_arg23 (by decide)).trans (at9_arg23 m outs c)
theorem at11_arg23 (c : Dev nD) : V11 m outs c (Proc.devRef .tc main_arg23) = m ((c : Thread nD τ).loc main_arg23) :=
  (V11_of m outs c main_arg23 (by decide)).trans (at10_arg23 m outs c)
theorem at12_arg23 (c : Dev nD) : V12 m outs c (Proc.devRef .tc main_arg23) = m ((c : Thread nD τ).loc main_arg23) :=
  (V12_of m outs c main_arg23 (by decide)).trans (at11_arg23 m outs c)
theorem at13_arg23 (c : Dev nD) : V13 m outs c (Proc.devRef .tc main_arg23) = m ((c : Thread nD τ).loc main_arg23) :=
  (V13_of m outs c main_arg23 (by decide)).trans (at12_arg23 m outs c)
theorem at14_arg23 (c : Dev nD) : V14 m outs c (Proc.devRef .tc main_arg23) = m ((c : Thread nD τ).loc main_arg23) :=
  (V14_of m outs c main_arg23 (by decide)).trans (at13_arg23 m outs c)
theorem at15_arg23 (c : Dev nD) : V15 m outs c (Proc.devRef .tc main_arg23) = m ((c : Thread nD τ).loc main_arg23) :=
  (V15_of m outs c main_arg23 (by decide)).trans (at14_arg23 m outs c)
theorem at16_arg23 (c : Dev nD) : V16 m outs c (Proc.devRef .tc main_arg23) = m ((c : Thread nD τ).loc main_arg23) :=
  (V16_of m outs c main_arg23 (by decide)).trans (at15_arg23 m outs c)
theorem at17_arg23 (c : Dev nD) : V17 m outs c (Proc.devRef .tc main_arg23) = m ((c : Thread nD τ).loc main_arg23) :=
  (V17_of m outs c main_arg23 (by decide)).trans (at16_arg23 m outs c)
theorem at18_arg23 (c : Dev nD) : V18 m outs c (Proc.devRef .tc main_arg23) = m ((c : Thread nD τ).loc main_arg23) :=
  (V18_of m outs c main_arg23 (by decide)).trans (at17_arg23 m outs c)
theorem at19_arg23 (c : Dev nD) : V19 m outs c (Proc.devRef .tc main_arg23) = m ((c : Thread nD τ).loc main_arg23) :=
  (V19_of m outs c main_arg23 (by decide)).trans (at18_arg23 m outs c)
theorem at20_arg23 (c : Dev nD) : V20 m outs c (Proc.devRef .tc main_arg23) = m ((c : Thread nD τ).loc main_arg23) :=
  (V20_of m outs c main_arg23 (by decide)).trans (at19_arg23 m outs c)
theorem at21_arg23 (c : Dev nD) : V21 m outs c (Proc.devRef .tc main_arg23) = m ((c : Thread nD τ).loc main_arg23) :=
  (V21_of m outs c main_arg23 (by decide)).trans (at20_arg23 m outs c)
theorem at22_arg23 (c : Dev nD) : V22 m outs c (Proc.devRef .tc main_arg23) = m ((c : Thread nD τ).loc main_arg23) :=
  (V22_of m outs c main_arg23 (by decide)).trans (at21_arg23 m outs c)
theorem at23_arg23 (c : Dev nD) : V23 m outs c (Proc.devRef .tc main_arg23) = m ((c : Thread nD τ).loc main_arg23) :=
  (V23_of m outs c main_arg23 (by decide)).trans (at22_arg23 m outs c)
theorem at24_arg23 (c : Dev nD) : V24 m outs c (Proc.devRef .tc main_arg23) = m ((c : Thread nD τ).loc main_arg23) :=
  (V24_of m outs c main_arg23 (by decide)).trans (at23_arg23 m outs c)
theorem at25_arg23 (c : Dev nD) : V25 m outs c (Proc.devRef .tc main_arg23) = m ((c : Thread nD τ).loc main_arg23) :=
  (V25_of m outs c main_arg23 (by decide)).trans (at24_arg23 m outs c)
theorem at26_arg23 (c : Dev nD) : V26 m outs c (Proc.devRef .tc main_arg23) = m ((c : Thread nD τ).loc main_arg23) :=
  (V26_of m outs c main_arg23 (by decide)).trans (at25_arg23 m outs c)
theorem at27_arg23 (c : Dev nD) : V27 m outs c (Proc.devRef .tc main_arg23) = m ((c : Thread nD τ).loc main_arg23) :=
  (V27_of m outs c main_arg23 (by decide)).trans (at26_arg23 m outs c)
theorem at28_arg23 (c : Dev nD) : V28 m outs c (Proc.devRef .tc main_arg23) = m ((c : Thread nD τ).loc main_arg23) :=
  (V28_of m outs c main_arg23 (by decide)).trans (at27_arg23 m outs c)
theorem at29_arg23 (c : Dev nD) : V29 m outs c (Proc.devRef .tc main_arg23) = m ((c : Thread nD τ).loc main_arg23) :=
  (V29_of m outs c main_arg23 (by decide)).trans (at28_arg23 m outs c)
theorem at30_arg23 (c : Dev nD) : V30 m outs c (Proc.devRef .tc main_arg23) = m ((c : Thread nD τ).loc main_arg23) :=
  (V30_of m outs c main_arg23 (by decide)).trans (at29_arg23 m outs c)
theorem at31_v167 (c : Dev nD) : V31 m outs c (Proc.devRef .tc main_v167) = fun i => shapeCast S1x3 (m ((c : Thread nD τ).loc main_arg23)) shapeCasts_S3_S1x3 i :=
  (after_hostOps15_v167 (V30 m outs c)).trans (by rw [at30_arg23])

/-! ## The regions' input arrays at their entry valuations -/

/-! ### Region 0 -/
theorem entry0_0 (c : Dev nD) : V1 m c (Proc.devRef .tc main_arg0) = m ((c : Thread nD τ).loc main_arg0) := at1_arg0 m c
theorem entry0_1 (c : Dev nD) : V1 m c (Proc.devRef .tc main_arg2) = m ((c : Thread nD τ).loc main_arg2) := at1_arg2 m c
theorem entry0_2 (c : Dev nD) : V1 m c (Proc.devRef .tc main_v33) = fun i => shapeCast S1x32 (broadcastInDim S32 ![] bcast_S_S32 (constant S_ .f32 0x00000000#32) : (⟨S32, .f32⟩ : BufTy).Contents (Elt F)) shapeCasts_S32_S1x32 i := at1_v33 m c

/-! ### Region 1 -/
theorem entry1_0 (c : Dev nD) : V3 m outs c (Proc.devRef .tc main_v52) = kerAgg1 (outs 2 main_v34 c) (eSrc m c) (eDst m c) (eNrm m c) := at3_v52 m outs c
theorem entry1_1 (c : Dev nD) : V3 m outs c (Proc.devRef .tc main_v53) = fun i => shapeCast S1x32 (m ((c : Thread nD τ).loc main_arg3)) shapeCasts_S32_S1x32 i := at3_v53 m outs c

/-! ### Region 2 -/
theorem entry2_0 (c : Dev nD) : V5 m outs c (Proc.devRef .tc main_v52) = kerAgg1 (outs 2 main_v34 c) (eSrc m c) (eDst m c) (eNrm m c) := at5_v52 m outs c
theorem entry2_1 (c : Dev nD) : V5 m outs c (Proc.devRef .tc main_v55) = fun i => shapeCast S1x32 (m ((c : Thread nD τ).loc main_arg3)) shapeCasts_S32_S1x32 i := at5_v55 m outs c
theorem entry2_2 (c : Dev nD) : V5 m outs c (Proc.devRef .tc main_v54_0) = outs 4 main_v54_0 c := at5_v54_0 m outs c
theorem entry2_3 (c : Dev nD) : V5 m outs c (Proc.devRef .tc main_v54_1) = outs 4 main_v54_1 c := at5_v54_1 m outs c
theorem entry2_4 (c : Dev nD) : V5 m outs c (Proc.devRef .tc main_v56) = fun i => shapeCast S1x32 (m ((c : Thread nD τ).loc main_arg4)) shapeCasts_S32_S1x32 i := at5_v56 m outs c
theorem entry2_5 (c : Dev nD) : V5 m outs c (Proc.devRef .tc main_v57) = fun i => shapeCast S1x32 (m ((c : Thread nD τ).loc main_arg5)) shapeCasts_S32_S1x32 i := at5_v57 m outs c

/-! ### Region 3 -/
theorem entry3_0 (c : Dev nD) : V7 m outs c (Proc.devRef .tc main_v58) = outs 6 main_v58 c := at7_v58 m outs c
theorem entry3_1 (c : Dev nD) : V7 m outs c (Proc.devRef .tc main_arg6) = m ((c : Thread nD τ).loc main_arg6) := at7_arg6 m outs c
theorem entry3_2 (c : Dev nD) : V7 m outs c (Proc.devRef .tc main_v60) = fun i => shapeCast S1x128 (broadcastInDim S128 ![] bcast_S_S128 (constant S_ .f32 0x00000000#32) : (⟨S128, .f32⟩ : BufTy).Contents (Elt F)) shapeCasts_S128_S1x128 i := at7_v60 m outs c

/-! ### Region 4 -/
theorem entry4_0 (c : Dev nD) : V9 m outs c (Proc.devRef .tc main_v79) = kerAgg2 (outs 8 main_v61 c) (eSrc m c) (eDst m c) (eNrm m c) := at9_v79 m outs c
theorem entry4_1 (c : Dev nD) : V9 m outs c (Proc.devRef .tc main_v80) = fun i => shapeCast S1x128 (m ((c : Thread nD τ).loc main_arg7)) shapeCasts_S128_S1x128 i := at9_v80 m outs c

/-! ### Region 5 -/
theorem entry5_0 (c : Dev nD) : V11 m outs c (Proc.devRef .tc main_v79) = kerAgg2 (outs 8 main_v61 c) (eSrc m c) (eDst m c) (eNrm m c) := at11_v79 m outs c
theorem entry5_1 (c : Dev nD) : V11 m outs c (Proc.devRef .tc main_v82) = fun i => shapeCast S1x128 (m ((c : Thread nD τ).loc main_arg7)) shapeCasts_S128_S1x128 i := at11_v82 m outs c
theorem entry5_2 (c : Dev nD) : V11 m outs c (Proc.devRef .tc main_v81_0) = outs 10 main_v81_0 c := at11_v81_0 m outs c
theorem entry5_3 (c : Dev nD) : V11 m outs c (Proc.devRef .tc main_v81_1) = outs 10 main_v81_1 c := at11_v81_1 m outs c
theorem entry5_4 (c : Dev nD) : V11 m outs c (Proc.devRef .tc main_v83) = fun i => shapeCast S1x128 (m ((c : Thread nD τ).loc main_arg8)) shapeCasts_S128_S1x128 i := at11_v83 m outs c
theorem entry5_5 (c : Dev nD) : V11 m outs c (Proc.devRef .tc main_v84) = fun i => shapeCast S1x128 (m ((c : Thread nD τ).loc main_arg9)) shapeCasts_S128_S1x128 i := at11_v84 m outs c

/-! ### Region 6 -/
theorem entry6_0 (c : Dev nD) : V13 m outs c (Proc.devRef .tc main_v85) = outs 12 main_v85 c := at13_v85 m outs c
theorem entry6_1 (c : Dev nD) : V13 m outs c (Proc.devRef .tc main_arg10) = m ((c : Thread nD τ).loc main_arg10) := at13_arg10 m outs c
theorem entry6_2 (c : Dev nD) : V13 m outs c (Proc.devRef .tc main_v87) = fun i => shapeCast S1x128 (broadcastInDim S128 ![] bcast_S_S128 (constant S_ .f32 0x00000000#32) : (⟨S128, .f32⟩ : BufTy).Contents (Elt F)) shapeCasts_S128_S1x128 i := at13_v87 m outs c

/-! ### Region 7 -/
theorem entry7_0 (c : Dev nD) : V15 m outs c (Proc.devRef .tc main_v106) = kerAgg3 (outs 14 main_v88 c) (eSrc m c) (eDst m c) (eNrm m c) := at15_v106 m outs c
theorem entry7_1 (c : Dev nD) : V15 m outs c (Proc.devRef .tc main_v107) = fun i => shapeCast S1x128 (m ((c : Thread nD τ).loc main_arg11)) shapeCasts_S128_S1x128 i := at15_v107 m outs c

/-! ### Region 8 -/
theorem entry8_0 (c : Dev nD) : V17 m outs c (Proc.devRef .tc main_v106) = kerAgg3 (outs 14 main_v88 c) (eSrc m c) (eDst m c) (eNrm m c) := at17_v106 m outs c
theorem entry8_1 (c : Dev nD) : V17 m outs c (Proc.devRef .tc main_v109) = fun i => shapeCast S1x128 (m ((c : Thread nD τ).loc main_arg11)) shapeCasts_S128_S1x128 i := at17_v109 m outs c
theorem entry8_2 (c : Dev nD) : V17 m outs c (Proc.devRef .tc main_v108_0) = outs 16 main_v108_0 c := at17_v108_0 m outs c
theorem entry8_3 (c : Dev nD) : V17 m outs c (Proc.devRef .tc main_v108_1) = outs 16 main_v108_1 c := at17_v108_1 m outs c
theorem entry8_4 (c : Dev nD) : V17 m outs c (Proc.devRef .tc main_v110) = fun i => shapeCast S1x128 (m ((c : Thread nD τ).loc main_arg12)) shapeCasts_S128_S1x128 i := at17_v110 m outs c
theorem entry8_5 (c : Dev nD) : V17 m outs c (Proc.devRef .tc main_v111) = fun i => shapeCast S1x128 (m ((c : Thread nD τ).loc main_arg13)) shapeCasts_S128_S1x128 i := at17_v111 m outs c

/-! ### Region 9 -/
theorem entry9_0 (c : Dev nD) : V19 m outs c (Proc.devRef .tc main_v112) = outs 18 main_v112 c := at19_v112 m outs c
theorem entry9_1 (c : Dev nD) : V19 m outs c (Proc.devRef .tc main_arg14) = m ((c : Thread nD τ).loc main_arg14) := at19_arg14 m outs c
theorem entry9_2 (c : Dev nD) : V19 m outs c (Proc.devRef .tc main_v114) = fun i => shapeCast S1x32 (broadcastInDim S32 ![] bcast_S_S32 (constant S_ .f32 0x00000000#32) : (⟨S32, .f32⟩ : BufTy).Contents (Elt F)) shapeCasts_S32_S1x32 i := at19_v114 m outs c

/-! ### Region 10 -/
theorem entry10_0 (c : Dev nD) : V21 m outs c (Proc.devRef .tc main_v133) = kerAgg4 (outs 20 main_v115 c) (eSrc m c) (eDst m c) (eNrm m c) := at21_v133 m outs c
theorem entry10_1 (c : Dev nD) : V21 m outs c (Proc.devRef .tc main_v134) = fun i => shapeCast S1x32 (m ((c : Thread nD τ).loc main_arg15)) shapeCasts_S32_S1x32 i := at21_v134 m outs c

/-! ### Region 11 -/
theorem entry11_0 (c : Dev nD) : V23 m outs c (Proc.devRef .tc main_v133) = kerAgg4 (outs 20 main_v115 c) (eSrc m c) (eDst m c) (eNrm m c) := at23_v133 m outs c
theorem entry11_1 (c : Dev nD) : V23 m outs c (Proc.devRef .tc main_v136) = fun i => shapeCast S1x32 (m ((c : Thread nD τ).loc main_arg15)) shapeCasts_S32_S1x32 i := at23_v136 m outs c
theorem entry11_2 (c : Dev nD) : V23 m outs c (Proc.devRef .tc main_v135_0) = outs 22 main_v135_0 c := at23_v135_0 m outs c
theorem entry11_3 (c : Dev nD) : V23 m outs c (Proc.devRef .tc main_v135_1) = outs 22 main_v135_1 c := at23_v135_1 m outs c
theorem entry11_4 (c : Dev nD) : V23 m outs c (Proc.devRef .tc main_v137) = fun i => shapeCast S1x32 (m ((c : Thread nD τ).loc main_arg16)) shapeCasts_S32_S1x32 i := at23_v137 m outs c
theorem entry11_5 (c : Dev nD) : V23 m outs c (Proc.devRef .tc main_v138) = fun i => shapeCast S1x32 (m ((c : Thread nD τ).loc main_arg17)) shapeCasts_S32_S1x32 i := at23_v138 m outs c

/-! ### Region 12 -/
theorem entry12_0 (c : Dev nD) : V25 m outs c (Proc.devRef .tc main_v139) = outs 24 main_v139 c := at25_v139 m outs c
theorem entry12_1 (c : Dev nD) : V25 m outs c (Proc.devRef .tc main_arg18) = m ((c : Thread nD τ).loc main_arg18) := at25_arg18 m outs c
theorem entry12_2 (c : Dev nD) : V25 m outs c (Proc.devRef .tc main_v141) = fun i => shapeCast S1x16 (broadcastInDim S16 ![] bcast_S_S16 (constant S_ .f32 0x00000000#32) : (⟨S16, .f32⟩ : BufTy).Contents (Elt F)) shapeCasts_S16_S1x16 i := at25_v141 m outs c

/-! ### Region 13 -/
theorem entry13_0 (c : Dev nD) : V27 m outs c (Proc.devRef .tc main_v160) = kerAgg5 (outs 26 main_v142 c) (eSrc m c) (eDst m c) (eNrm m c) := at27_v160 m outs c
theorem entry13_1 (c : Dev nD) : V27 m outs c (Proc.devRef .tc main_v161) = fun i => shapeCast S1x16 (m ((c : Thread nD τ).loc main_arg19)) shapeCasts_S16_S1x16 i := at27_v161 m outs c

/-! ### Region 14 -/
theorem entry14_0 (c : Dev nD) : V29 m outs c (Proc.devRef .tc main_v160) = kerAgg5 (outs 26 main_v142 c) (eSrc m c) (eDst m c) (eNrm m c) := at29_v160 m outs c
theorem entry14_1 (c : Dev nD) : V29 m outs c (Proc.devRef .tc main_v163) = fun i => shapeCast S1x16 (m ((c : Thread nD τ).loc main_arg19)) shapeCasts_S16_S1x16 i := at29_v163 m outs c
theorem entry14_2 (c : Dev nD) : V29 m outs c (Proc.devRef .tc main_v162_0) = outs 28 main_v162_0 c := at29_v162_0 m outs c
theorem entry14_3 (c : Dev nD) : V29 m outs c (Proc.devRef .tc main_v162_1) = outs 28 main_v162_1 c := at29_v162_1 m outs c
theorem entry14_4 (c : Dev nD) : V29 m outs c (Proc.devRef .tc main_v164) = fun i => shapeCast S1x16 (m ((c : Thread nD τ).loc main_arg20)) shapeCasts_S16_S1x16 i := at29_v164 m outs c
theorem entry14_5 (c : Dev nD) : V29 m outs c (Proc.devRef .tc main_v165) = fun i => shapeCast S1x16 (m ((c : Thread nD τ).loc main_arg21)) shapeCasts_S16_S1x16 i := at29_v165 m outs c

/-! ### Region 15 -/
theorem entry15_0 (c : Dev nD) : V31 m outs c (Proc.devRef .tc main_v166) = outs 30 main_v166 c := at31_v166 m outs c
theorem entry15_1 (c : Dev nD) : V31 m outs c (Proc.devRef .tc main_arg22) = m ((c : Thread nD τ).loc main_arg22) := at31_arg22 m outs c
theorem entry15_2 (c : Dev nD) : V31 m outs c (Proc.devRef .tc main_v167) = fun i => shapeCast S1x3 (m ((c : Thread nD τ).loc main_arg23)) shapeCasts_S3_S1x3 i := at31_v167 m outs c

end Cert.KernelIdeal.Hand

end
-- ==== Proof.KI.Val1.lean ====
import proofs.«109725_j21638045237575_1_alg».proof.Proof.KI.Reg1
import proofs.«109725_j21638045237575_1_alg».proof.Proof.LibGcnStats
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! # What the statistics kernel of the first layer (32 columns) computes, at the exact reals

Read at the extended reals the two carried rows after the ten points are, column by column, the sum and the sum of
squares of (aggregated row + bias) over all 100000 rows, and the two outputs the mean and the mean of squares less
the squared mean. -/

section Value1

variable (V : (c : Dev nD) → (b : Ref sig .tc) → Buf (Elt Ideal) ((c : Thread nD τ).loc b))

/-! ## The payloads at an index -/

/-- The source index of the column reduction: row k of column o. -/
theorem lift1 (o : Fin 32) (k : Fin 10000) : reduces_S10000x32_S32.lift (ix1 o) k = ix2 k o := by
  funext c; apply Fin.ext
  show reduces_S10000x32_S32.liftVal (ix1 o) k.val c = (ix2 k o c).val
  unfold Shape.Reduces.liftVal
  match c with
  | ⟨0, _⟩ => rfl
  | ⟨1, _⟩ => rfl

/-- A reduction down the rows of a block is the column's plain sum. -/
theorem colsum1 (x : FVec Ideal S10000x32 .f32) (o : Fin 32) :
    (multiReduction (F := Ideal) .add [0] S32 x 0x00000000#32 reduces_S10000x32_S32 (.inl rfl) rfl : S32.Idx → EReal) (ix1 o)
      = ∑ r : Fin 10000, (x (ix2 r o) : EReal) :=
  (Ideal.multiReduction_add_single x 0x00000000#32 reduces_S10000x32_S32 (.inl rfl) rfl (ix1 o)).trans
    (Finset.sum_congr rfl fun k _ => congrArg x (lift1 o k))

/-- The zeroed row. -/
theorem pay1_1_apply (o : Fin 32) : (k1_pay1 (F := Ideal) : S1x32.Idx → EReal) (ix2 (0 : Fin 1) o) = 0 := by
  unfold k1_pay1
  refine (congrFun (shapeCast_self _ _) _).trans ?_
  exact Ideal.ofBits_zero_f32
theorem pay1_2_apply (o : Fin 32) : (k1_pay2 (F := Ideal) : S1x32.Idx → EReal) (ix2 (0 : Fin 1) o) = 0 := by
  unfold k1_pay2
  refine (congrFun (shapeCast_self _ _) _).trans ?_
  exact Ideal.ofBits_zero_f32

/-- Block plus bias, entry by entry. -/
theorem pay1_3_apply (x : Vec Ideal S10000x32 .f32) (b : Vec Ideal S1x32 .f32) (r : Fin 10000) (o : Fin 32) :
    (k1_pay3 x b : S10000x32.Idx → EReal) (ix2 r o) = (x (ix2 r o) : EReal) + (b (ix2 (0 : Fin 1) o) : EReal) := by
  unfold k1_pay3
  refine (addf_apply _ _ _).trans ?_
  refine congrArg₂ (fun u v : EReal => u + v) (congrFun (shapeCast_self _ _) _) ?_
  refine (broadcastTo_1b_ab_apply _ _ r o).trans ?_
  exact congrFun (shapeCast_self _ _) _

/-- The sums row after a point: what it held plus the block's column sum of (row + bias). -/
theorem pay1_4_apply (x : Vec Ideal S10000x32 .f32) (b s : Vec Ideal S1x32 .f32) (o : Fin 32) :
    (k1_pay4 x b s : S1x32.Idx → EReal) (ix2 (0 : Fin 1) o)
      = (s (ix2 (0 : Fin 1) o) : EReal) + ∑ r : Fin 10000, ((x (ix2 r o) : EReal) + (b (ix2 (0 : Fin 1) o) : EReal)) := by
  unfold k1_pay4
  refine (congrFun (shapeCast_self _ _) _).trans ?_
  refine (addf_apply _ _ _).trans ?_
  refine congrArg (fun z : EReal => (s (ix2 (0 : Fin 1) o) : EReal) + z) ?_
  refine (shapeCast_a_1a_apply _ _ (0 : Fin 1) o).trans ?_
  refine (colsum1 _ o).trans ?_
  exact Finset.sum_congr rfl fun r _ => pay1_3_apply x b r o

/-- The sums-of-squares row after a point. -/
theorem pay1_5_apply (x : Vec Ideal S10000x32 .f32) (b s : Vec Ideal S1x32 .f32) (o : Fin 32) :
    (k1_pay5 x b s : S1x32.Idx → EReal) (ix2 (0 : Fin 1) o)
      = (s (ix2 (0 : Fin 1) o) : EReal) + ∑ r : Fin 10000,
          ((x (ix2 r o) : EReal) + (b (ix2 (0 : Fin 1) o) : EReal)) * ((x (ix2 r o) : EReal) + (b (ix2 (0 : Fin 1) o) : EReal)) := by
  unfold k1_pay5
  refine (congrFun (shapeCast_self _ _) _).trans ?_
  refine (addf_apply _ _ _).trans ?_
  refine congrArg (fun z : EReal => (s (ix2 (0 : Fin 1) o) : EReal) + z) ?_
  refine (shapeCast_a_1a_apply _ _ (0 : Fin 1) o).trans ?_
  refine (colsum1 _ o).trans ?_
  refine Finset.sum_congr rfl fun r _ => ?_
  refine (mulf_apply _ _ _).trans ?_
  exact congrArg₂ (fun u v : EReal => u * v) (pay1_3_apply x b r o) (pay1_3_apply x b r o)

/-- The mean: the sums row over the number of rows. -/
theorem pay1_6_apply (s : Vec Ideal S1x32 .f32) (o : Fin 32) :
    (k1_pay6 s : S1x32.Idx → EReal) (ix2 (0 : Fin 1) o)
      = Ideal.div (s (ix2 (0 : Fin 1) o)) (Ideal.ofBits .f32 0x47C35000#32) := by
  unfold k1_pay6
  exact divf_apply _ _ _

/-- The variance: the sums-of-squares row over the number of rows, less the squared mean. -/
theorem pay1_7_apply (s q : Vec Ideal S1x32 .f32) (o : Fin 32) :
    (k1_pay7 s q : S1x32.Idx → EReal) (ix2 (0 : Fin 1) o)
      = Ideal.div (q (ix2 (0 : Fin 1) o)) (Ideal.ofBits .f32 0x47C35000#32)
        - Ideal.div (s (ix2 (0 : Fin 1) o)) (Ideal.ofBits .f32 0x47C35000#32)
          * Ideal.div (s (ix2 (0 : Fin 1) o)) (Ideal.ofBits .f32 0x47C35000#32) := by
  unfold k1_pay7
  refine (subf_apply _ _ _).trans ?_
  refine congrArg₂ (fun u v : EReal => u - v) (divf_apply _ _ _) ?_
  refine (mulf_apply _ _ _).trans ?_
  exact congrArg₂ (fun u v : EReal => u * v) (pay1_6_apply s o) (pay1_6_apply s o)

/-! ## The input blocks as entries of the arrays -/

/-- The printed index maps, decided over the ten grid points: the block of aggregated rows is at block row t, the bias
    row and the two outputs at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The block of aggregated rows at point t is rows 10000 t … 10000 t + 9999 of the array. -/
theorem iblk1_0_apply (c : Dev nD) (t : Fin cfg1.N) (y : S10000x32.Idx) (k : S100000x32.Idx)
    (hk0 : (k 0).val = 10000 * t.val + (y 0).val) (hk1 : (k 1).val = (y 1).val) :
    (iblk1 V c 0 t : Vec Ideal S10000x32 .f32) y = (V c main_v52 : S100000x32.Idx → Elt Ideal .f32) k := by
  obtain ⟨e0, e1, -⟩ := idx1 t
  unfold iblk1
  rw [View.read_apply]
  show V c main_v52 _ = V c main_v52 _
  congr 1
  funext a
  apply Fin.ext
  match a with
  | ⟨0, _⟩ => show win1_0.index t 0 * 10000 + 1 * (y 0).val = (k 0).val; rw [e0, hk0]; omega
  | ⟨1, _⟩ => show win1_0.index t 1 * 32 + 1 * (y 1).val = (k 1).val; rw [e1, hk1]; omega

/-- The bias row's block at every point is the whole row. -/
theorem iblk1_1_apply (c : Dev nD) (t : Fin cfg1.N) (y : S1x32.Idx) :
    (iblk1 V c 1 t : Vec Ideal S1x32 .f32) y = (V c main_v53 : S1x32.Idx → Elt Ideal .f32) y := by
  obtain ⟨-, -, e0, e1, -⟩ := idx1 t
  unfold iblk1
  rw [View.read_apply]
  show V c main_v53 _ = V c main_v53 _
  congr 1
  funext a
  apply Fin.ext
  match a with
  | ⟨0, _⟩ => show win1_1.index t 0 * 1 + 1 * (y 0).val = (y 0).val; rw [e0]; omega
  | ⟨1, _⟩ => show win1_1.index t 1 * 32 + 1 * (y 1).val = (y 1).val; rw [e1]; omega

/-! ## The carried rows after the ten points -/

/-- What the statistics are taken of is the aggregated row plus the bias, of the two arrays as the region finds them:
    the aggregated features, -/
def agg1 (c : Dev nD) : S100000x32.Idx → EReal := V c main_v52
/-- The bias row as the region finds it. -/
def bias1 (c : Dev nD) : S1x32.Idx → EReal := V c main_v53
/-- Their sum, entry (n, o). -/
def aggb1 (c : Dev nD) (n : Fin 100000) (o : Fin 32) : EReal :=
  agg1 V c (ix2 n o) + bias1 V c (ix2 (0 : Fin 1) o)

/-- One point's step of the sums row, read at column o: tile t's column sum is added. -/
theorem scr1_fst_step (c : Dev nD) (o : Fin 32) (t : Fin 10) :
    ((scr1 V c (t.val + 1)).1 : S1x32.Idx → EReal) (ix2 (0 : Fin 1) o)
      = ((scr1 V c t.val).1 : S1x32.Idx → EReal) (ix2 (0 : Fin 1) o)
        + ∑ i : Fin 10000, aggb1 V c ⟨10000 * t.val + i.val, by have := t.isLt; have := i.isLt; omega⟩ o := by
  have hN : cfg1.N = 10 := N_1
  have e := scr1_succ V c (⟨t.val, by have := t.isLt; omega⟩ : Fin cfg1.N)
  rw [show scr1 V c (t.val + 1) = _ from e]
  refine (pay1_4_apply _ _ _ o).trans ?_
  refine congrArg (fun z : EReal => ((scr1 V c t.val).1 : S1x32.Idx → EReal) (ix2 (0 : Fin 1) o) + z) ?_
  refine Finset.sum_congr rfl fun i _ => ?_
  exact congrArg₂ (fun u v : EReal => u + v)
    (iblk1_0_apply V c _ (ix2 i o) (ix2 ⟨10000 * t.val + i.val, by have := t.isLt; have := i.isLt; omega⟩ o) rfl rfl)
    (iblk1_1_apply V c _ (ix2 (0 : Fin 1) o))

/-- and of the sums-of-squares row. -/
theorem scr1_snd_step (c : Dev nD) (o : Fin 32) (t : Fin 10) :
    ((scr1 V c (t.val + 1)).2 : S1x32.Idx → EReal) (ix2 (0 : Fin 1) o)
      = ((scr1 V c t.val).2 : S1x32.Idx → EReal) (ix2 (0 : Fin 1) o)
        + ∑ i : Fin 10000, aggb1 V c ⟨10000 * t.val + i.val, by have := t.isLt; have := i.isLt; omega⟩ o
            * aggb1 V c ⟨10000 * t.val + i.val, by have := t.isLt; have := i.isLt; omega⟩ o := by
  have hN : cfg1.N = 10 := N_1
  have e := scr1_succ V c (⟨t.val, by have := t.isLt; omega⟩ : Fin cfg1.N)
  rw [show scr1 V c (t.val + 1) = _ from e]
  refine (pay1_5_apply _ _ _ o).trans ?_
  refine congrArg (fun z : EReal => ((scr1 V c t.val).2 : S1x32.Idx → EReal) (ix2 (0 : Fin 1) o) + z) ?_
  refine Finset.sum_congr rfl fun i _ => ?_
  have hx := congrArg₂ (fun u v : EReal => u + v)
    (iblk1_0_apply V c (⟨t.val, by have := t.isLt; omega⟩ : Fin cfg1.N) (ix2 i o) (ix2 ⟨10000 * t.val + i.val, by have := t.isLt; have := i.isLt; omega⟩ o) rfl rfl)
    (iblk1_1_apply V c (⟨t.val, by have := t.isLt; omega⟩ : Fin cfg1.N) (ix2 (0 : Fin 1) o))
  exact congrArg₂ (fun u v : EReal => u * v) hx hx

/-- AFTER THE TEN POINTS the sums row holds, column by column, the sum over all 100000 rows, -/
theorem scr1_sum (c : Dev nD) (o : Fin 32) :
    ((scr1 V c 10).1 : S1x32.Idx → EReal) (ix2 (0 : Fin 1) o) = ∑ n : Fin 100000, aggb1 V c n o :=
  Cert.LibGcn.acc_tiles10 (fun n => aggb1 V c n o) (fun t => ((scr1 V c t).1 : S1x32.Idx → EReal) (ix2 (0 : Fin 1) o))
    (by rw [scr1_zero]; exact pay1_1_apply o) (fun t => scr1_fst_step V c o t)

/-- and the sums-of-squares row the sum of squares. -/
theorem scr1_sumsq (c : Dev nD) (o : Fin 32) :
    ((scr1 V c 10).2 : S1x32.Idx → EReal) (ix2 (0 : Fin 1) o) = ∑ n : Fin 100000, aggb1 V c n o * aggb1 V c n o :=
  Cert.LibGcn.acc_tiles10 (fun n => aggb1 V c n o * aggb1 V c n o) (fun t => ((scr1 V c t).2 : S1x32.Idx → EReal) (ix2 (0 : Fin 1) o))
    (by rw [scr1_zero]; exact pay1_2_apply o) (fun t => scr1_snd_step V c o t)

/-! ## The two outputs' arrays after the region -/

/-- The one block of an output row is the whole row, and only the last point writes it back. -/
theorem emb1_2 (t : Fin cfg1.N) (j : S1x32.Idx) : ((cfg1.win 2).blk t).view.emb j = j := by
  obtain ⟨-, -, -, -, e0, e1, -⟩ := idx1 t
  funext a
  apply Fin.ext
  match a with
  | ⟨0, _⟩ => show win1_2.index t 0 * 1 + 1 * (j 0).val = (j 0).val; rw [e0]; omega
  | ⟨1, _⟩ => show win1_2.index t 1 * 32 + 1 * (j 1).val = (j 1).val; rw [e1]; omega
theorem emb1_3 (t : Fin cfg1.N) (j : S1x32.Idx) : ((cfg1.win 3).blk t).view.emb j = j := by
  obtain ⟨-, -, -, -, -, -, e0, e1⟩ := idx1 t
  funext a
  apply Fin.ext
  match a with
  | ⟨0, _⟩ => show win1_3.index t 0 * 1 + 1 * (j 0).val = (j 0).val; rw [e0]; omega
  | ⟨1, _⟩ => show win1_3.index t 1 * 32 + 1 * (j 1).val = (j 1).val; rw [e1]; omega

/-- The last point is point 9. -/
theorem last1_of_flush_2 (t : Fin cfg1.N) (h : (cfg1.win 2).flush t = true) : t.val + 1 = 10 := by
  have hN : cfg1.N = 10 := N_1
  have := (flush1_2 t).mp h; have := t.isLt; omega
theorem last1_of_flush_3 (t : Fin cfg1.N) (h : (cfg1.win 3).flush t = true) : t.val + 1 = 10 := by
  have hN : cfg1.N = 10 := N_1
  have := (flush1_3 t).mp h; have := t.isLt; omega

/-- WHAT THE LAST POINT WRITES BACK into the mean's array is the whole row of means of the final sums row, -/
theorem flushed1_2_eq (c : Dev nD) (t : Fin cfg1.N) (h : (cfg1.win 2).flush t = true) :
    (dat1 V c).flushed 2 t = ((cfg1.win 2).blk t).view.read (Elt Ideal) (k1_pay6 (scr1 V c 10).1) := by
  show (cfg1.win 2).cut (grid1.coords t) ((dat1 V c).after 2 t) = _
  rw [after1_2, last1_of_flush_2 t h]
  funext j
  rw [View.read_apply, emb1_2]
  rfl
/-- and into the variance's array the whole row of variances. -/
theorem flushed1_3_eq (c : Dev nD) (t : Fin cfg1.N) (h : (cfg1.win 3).flush t = true) :
    (dat1 V c).flushed 3 t = ((cfg1.win 3).blk t).view.read (Elt Ideal) (k1_pay7 (scr1 V c 10).1 (scr1 V c 10).2) := by
  show (cfg1.win 3).cut (grid1.coords t) ((dat1 V c).after 3 t) = _
  rw [after1_3, last1_of_flush_3 t h]
  funext j
  rw [View.read_apply, emb1_3]
  rfl

/-- The last point's block covers the whole output row. -/
theorem cover1_2 (i : S1x32.Idx) : ∃ t : Fin cfg1.N, (cfg1.win 2).flush t = true ∧ i ∈ ((cfg1.win 2).blk t).view.set := by
  have hi0 : (i 0).val < 1 := (i 0).isLt
  have hi1 : (i 1).val < 32 := (i 1).isLt
  obtain ⟨-, -, -, -, e0, e1, -⟩ := idx1 t1_9
  refine ⟨t1_9, (flush1_2 t1_9).mpr (by decide), ?_⟩
  show i ∈ ((View.whole main_v54_0).slice (win1_2.rect t1_9)).set
  rw [View.set_slice_whole, Rect.mem_set_unit]
  intro a
  match a with
  | ⟨0, _⟩ =>
    show win1_2.index t1_9 (0 : Fin 2) * 1 ≤ (i 0).val ∧ (i 0).val < win1_2.index t1_9 (0 : Fin 2) * 1 + 1
    rw [e0]; omega
  | ⟨1, _⟩ =>
    show win1_2.index t1_9 (1 : Fin 2) * 32 ≤ (i 1).val ∧ (i 1).val < win1_2.index t1_9 (1 : Fin 2) * 32 + 32
    rw [e1]; omega
theorem cover1_3 (i : S1x32.Idx) : ∃ t : Fin cfg1.N, (cfg1.win 3).flush t = true ∧ i ∈ ((cfg1.win 3).blk t).view.set := by
  have hi0 : (i 0).val < 1 := (i 0).isLt
  have hi1 : (i 1).val < 32 := (i 1).isLt
  obtain ⟨-, -, -, -, -, -, e0, e1⟩ := idx1 t1_9
  refine ⟨t1_9, (flush1_3 t1_9).mpr (by decide), ?_⟩
  show i ∈ ((View.whole main_v54_1).slice (win1_3.rect t1_9)).set
  rw [View.set_slice_whole, Rect.mem_set_unit]
  intro a
  match a with
  | ⟨0, _⟩ =>
    show win1_3.index t1_9 (0 : Fin 2) * 1 ≤ (i 0).val ∧ (i 0).val < win1_3.index t1_9 (0 : Fin 2) * 1 + 1
    rw [e0]; omega
  | ⟨1, _⟩ =>
    show win1_3.index t1_9 (1 : Fin 2) * 32 ≤ (i 1).val ∧ (i 1).val < win1_3.index t1_9 (1 : Fin 2) * 32 + 32
    rw [e1]; omega

/-- THE MEAN'S ARRAY after the region: the body's mean term of the final sums row, -/
theorem final1_2 (c : Dev nD) : (dat1 V c).arrAt 2 cfg1.N = k1_pay6 (scr1 V c 10).1 :=
  (dat1 V c).arrAt_eq_of_cover 2 (k1_pay6 (scr1 V c 10).1) (fun t h => flushed1_2_eq V c t h) cover1_2
/-- THE VARIANCE'S ARRAY after the region: the body's variance term of the two final rows. -/
theorem final1_3 (c : Dev nD) : (dat1 V c).arrAt 3 cfg1.N = k1_pay7 (scr1 V c 10).1 (scr1 V c 10).2 :=
  (dat1 V c).arrAt_eq_of_cover 3 (k1_pay7 (scr1 V c 10).1 (scr1 V c 10).2) (fun t h => flushed1_3_eq V c t h) cover1_3

/-- Entry by entry: the mean of column o over the 100000 rows, -/
theorem mean1_value (c : Dev nD) (o : Fin 32) :
    ((dat1 V c).arrAt 2 cfg1.N : S1x32.Idx → EReal) (ix2 (0 : Fin 1) o)
      = Ideal.div (∑ n : Fin 100000, aggb1 V c n o) (Ideal.ofBits .f32 0x47C35000#32) := by
  rw [final1_2]
  exact (pay1_6_apply _ o).trans (congrArg (fun z : EReal => Ideal.div z (Ideal.ofBits .f32 0x47C35000#32)) (scr1_sum V c o))

/-- and the one-pass variance: the mean of squares less the squared mean. -/
theorem var1_value (c : Dev nD) (o : Fin 32) :
    ((dat1 V c).arrAt 3 cfg1.N : S1x32.Idx → EReal) (ix2 (0 : Fin 1) o)
      = Ideal.div (∑ n : Fin 100000, aggb1 V c n o * aggb1 V c n o) (Ideal.ofBits .f32 0x47C35000#32)
        - Ideal.div (∑ n : Fin 100000, aggb1 V c n o) (Ideal.ofBits .f32 0x47C35000#32) * Ideal.div (∑ n : Fin 100000, aggb1 V c n o) (Ideal.ofBits .f32 0x47C35000#32) := by
  rw [final1_3]
  refine (pay1_7_apply _ _ o).trans ?_
  rw [scr1_sum V c o, scr1_sumsq V c o]

end Value1

end Cert.KernelIdeal.Hand

end
-- ==== Proof.KI.Val4.lean ====
import proofs.«109725_j21638045237575_1_alg».proof.Proof.KI.Reg4
import proofs.«109725_j21638045237575_1_alg».proof.Proof.LibGcnStats
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! # What the statistics kernel of the second layer (128 columns) computes, at the exact reals

Read at the extended reals the two carried rows after the ten points are, column by column, the sum and the sum of
squares of (aggregated row + bias) over all 100000 rows, and the two outputs the mean and the mean of squares less
the squared mean. -/

section Value4

variable (V : (c : Dev nD) → (b : Ref sig .tc) → Buf (Elt Ideal) ((c : Thread nD τ).loc b))

/-! ## The payloads at an index -/

/-- The source index of the column reduction: row k of column o. -/
theorem lift4 (o : Fin 128) (k : Fin 10000) : reduces_S10000x128_S128.lift (ix1 o) k = ix2 k o := by
  funext c; apply Fin.ext
  show reduces_S10000x128_S128.liftVal (ix1 o) k.val c = (ix2 k o c).val
  unfold Shape.Reduces.liftVal
  match c with
  | ⟨0, _⟩ => rfl
  | ⟨1, _⟩ => rfl

/-- A reduction down the rows of a block is the column's plain sum. -/
theorem colsum4 (x : FVec Ideal S10000x128 .f32) (o : Fin 128) :
    (multiReduction (F := Ideal) .add [0] S128 x 0x00000000#32 reduces_S10000x128_S128 (.inl rfl) rfl : S128.Idx → EReal) (ix1 o)
      = ∑ r : Fin 10000, (x (ix2 r o) : EReal) :=
  (Ideal.multiReduction_add_single x 0x00000000#32 reduces_S10000x128_S128 (.inl rfl) rfl (ix1 o)).trans
    (Finset.sum_congr rfl fun k _ => congrArg x (lift4 o k))

/-- The zeroed row. -/
theorem pay4_1_apply (o : Fin 128) : (k4_pay1 (F := Ideal) : S1x128.Idx → EReal) (ix2 (0 : Fin 1) o) = 0 := by
  unfold k4_pay1
  refine (congrFun (shapeCast_self _ _) _).trans ?_
  exact Ideal.ofBits_zero_f32
theorem pay4_2_apply (o : Fin 128) : (k4_pay2 (F := Ideal) : S1x128.Idx → EReal) (ix2 (0 : Fin 1) o) = 0 := by
  unfold k4_pay2
  refine (congrFun (shapeCast_self _ _) _).trans ?_
  exact Ideal.ofBits_zero_f32

/-- Block plus bias, entry by entry. -/
theorem pay4_3_apply (x : Vec Ideal S10000x128 .f32) (b : Vec Ideal S1x128 .f32) (r : Fin 10000) (o : Fin 128) :
    (k4_pay3 x b : S10000x128.Idx → EReal) (ix2 r o) = (x (ix2 r o) : EReal) + (b (ix2 (0 : Fin 1) o) : EReal) := by
  unfold k4_pay3
  refine (addf_apply _ _ _).trans ?_
  refine congrArg₂ (fun u v : EReal => u + v) (congrFun (shapeCast_self _ _) _) ?_
  refine (broadcastTo_1b_ab_apply _ _ r o).trans ?_
  exact congrFun (shapeCast_self _ _) _

/-- The sums row after a point: what it held plus the block's column sum of (row + bias). -/
theorem pay4_4_apply (x : Vec Ideal S10000x128 .f32) (b s : Vec Ideal S1x128 .f32) (o : Fin 128) :
    (k4_pay4 x b s : S1x128.Idx → EReal) (ix2 (0 : Fin 1) o)
      = (s (ix2 (0 : Fin 1) o) : EReal) + ∑ r : Fin 10000, ((x (ix2 r o) : EReal) + (b (ix2 (0 : Fin 1) o) : EReal)) := by
  unfold k4_pay4
  refine (congrFun (shapeCast_self _ _) _).trans ?_
  refine (addf_apply _ _ _).trans ?_
  refine congrArg (fun z : EReal => (s (ix2 (0 : Fin 1) o) : EReal) + z) ?_
  refine (shapeCast_a_1a_apply _ _ (0 : Fin 1) o).trans ?_
  refine (colsum4 _ o).trans ?_
  exact Finset.sum_congr rfl fun r _ => pay4_3_apply x b r o

/-- The sums-of-squares row after a point. -/
theorem pay4_5_apply (x : Vec Ideal S10000x128 .f32) (b s : Vec Ideal S1x128 .f32) (o : Fin 128) :
    (k4_pay5 x b s : S1x128.Idx → EReal) (ix2 (0 : Fin 1) o)
      = (s (ix2 (0 : Fin 1) o) : EReal) + ∑ r : Fin 10000,
          ((x (ix2 r o) : EReal) + (b (ix2 (0 : Fin 1) o) : EReal)) * ((x (ix2 r o) : EReal) + (b (ix2 (0 : Fin 1) o) : EReal)) := by
  unfold k4_pay5
  refine (congrFun (shapeCast_self _ _) _).trans ?_
  refine (addf_apply _ _ _).trans ?_
  refine congrArg (fun z : EReal => (s (ix2 (0 : Fin 1) o) : EReal) + z) ?_
  refine (shapeCast_a_1a_apply _ _ (0 : Fin 1) o).trans ?_
  refine (colsum4 _ o).trans ?_
  refine Finset.sum_congr rfl fun r _ => ?_
  refine (mulf_apply _ _ _).trans ?_
  exact congrArg₂ (fun u v : EReal => u * v) (pay4_3_apply x b r o) (pay4_3_apply x b r o)

/-- The mean: the sums row over the number of rows. -/
theorem pay4_6_apply (s : Vec Ideal S1x128 .f32) (o : Fin 128) :
    (k4_pay6 s : S1x128.Idx → EReal) (ix2 (0 : Fin 1) o)
      = Ideal.div (s (ix2 (0 : Fin 1) o)) (Ideal.ofBits .f32 0x47C35000#32) := by
  unfold k4_pay6
  exact divf_apply _ _ _

/-- The variance: the sums-of-squares row over the number of rows, less the squared mean. -/
theorem pay4_7_apply (s q : Vec Ideal S1x128 .f32) (o : Fin 128) :
    (k4_pay7 s q : S1x128.Idx → EReal) (ix2 (0 : Fin 1) o)
      = Ideal.div (q (ix2 (0 : Fin 1) o)) (Ideal.ofBits .f32 0x47C35000#32)
        - Ideal.div (s (ix2 (0 : Fin 1) o)) (Ideal.ofBits .f32 0x47C35000#32)
          * Ideal.div (s (ix2 (0 : Fin 1) o)) (Ideal.ofBits .f32 0x47C35000#32) := by
  unfold k4_pay7
  refine (subf_apply _ _ _).trans ?_
  refine congrArg₂ (fun u v : EReal => u - v) (divf_apply _ _ _) ?_
  refine (mulf_apply _ _ _).trans ?_
  exact congrArg₂ (fun u v : EReal => u * v) (pay4_6_apply s o) (pay4_6_apply s o)

/-! ## The input blocks as entries of the arrays -/

/-- The printed index maps, decided over the ten grid points: the block of aggregated rows is at block row t, the bias
    row and the two outputs at block (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The block of aggregated rows at point t is rows 10000 t … 10000 t + 9999 of the array. -/
theorem iblk4_0_apply (c : Dev nD) (t : Fin cfg4.N) (y : S10000x128.Idx) (k : S100000x128.Idx)
    (hk0 : (k 0).val = 10000 * t.val + (y 0).val) (hk1 : (k 1).val = (y 1).val) :
    (iblk4 V c 0 t : Vec Ideal S10000x128 .f32) y = (V c main_v79 : S100000x128.Idx → Elt Ideal .f32) k := by
  obtain ⟨e0, e1, -⟩ := idx4 t
  unfold iblk4
  rw [View.read_apply]
  show V c main_v79 _ = V c main_v79 _
  congr 1
  funext a
  apply Fin.ext
  match a with
  | ⟨0, _⟩ => show win4_0.index t 0 * 10000 + 1 * (y 0).val = (k 0).val; rw [e0, hk0]; omega
  | ⟨1, _⟩ => show win4_0.index t 1 * 128 + 1 * (y 1).val = (k 1).val; rw [e1, hk1]; omega

/-- The bias row's block at every point is the whole row. -/
theorem iblk4_1_apply (c : Dev nD) (t : Fin cfg4.N) (y : S1x128.Idx) :
    (iblk4 V c 1 t : Vec Ideal S1x128 .f32) y = (V c main_v80 : S1x128.Idx → Elt Ideal .f32) y := by
  obtain ⟨-, -, e0, e1, -⟩ := idx4 t
  unfold iblk4
  rw [View.read_apply]
  show V c main_v80 _ = V c main_v80 _
  congr 1
  funext a
  apply Fin.ext
  match a with
  | ⟨0, _⟩ => show win4_1.index t 0 * 1 + 1 * (y 0).val = (y 0).val; rw [e0]; omega
  | ⟨1, _⟩ => show win4_1.index t 1 * 128 + 1 * (y 1).val = (y 1).val; rw [e1]; omega

/-! ## The carried rows after the ten points -/

/-- What the statistics are taken of is the aggregated row plus the bias, of the two arrays as the region finds them:
    the aggregated features, -/
def agg4 (c : Dev nD) : S100000x128.Idx → EReal := V c main_v79
/-- The bias row as the region finds it. -/
def bias4 (c : Dev nD) : S1x128.Idx → EReal := V c main_v80
/-- Their sum, entry (n, o). -/
def aggb4 (c : Dev nD) (n : Fin 100000) (o : Fin 128) : EReal :=
  agg4 V c (ix2 n o) + bias4 V c (ix2 (0 : Fin 1) o)

/-- One point's step of the sums row, read at column o: tile t's column sum is added. -/
theorem scr4_fst_step (c : Dev nD) (o : Fin 128) (t : Fin 10) :
    ((scr4 V c (t.val + 1)).1 : S1x128.Idx → EReal) (ix2 (0 : Fin 1) o)
      = ((scr4 V c t.val).1 : S1x128.Idx → EReal) (ix2 (0 : Fin 1) o)
        + ∑ i : Fin 10000, aggb4 V c ⟨10000 * t.val + i.val, by have := t.isLt; have := i.isLt; omega⟩ o := by
  have hN : cfg4.N = 10 := N_4
  have e := scr4_succ V c (⟨t.val, by have := t.isLt; omega⟩ : Fin cfg4.N)
  rw [show scr4 V c (t.val + 1) = _ from e]
  refine (pay4_4_apply _ _ _ o).trans ?_
  refine congrArg (fun z : EReal => ((scr4 V c t.val).1 : S1x128.Idx → EReal) (ix2 (0 : Fin 1) o) + z) ?_
  refine Finset.sum_congr rfl fun i _ => ?_
  exact congrArg₂ (fun u v : EReal => u + v)
    (iblk4_0_apply V c _ (ix2 i o) (ix2 ⟨10000 * t.val + i.val, by have := t.isLt; have := i.isLt; omega⟩ o) rfl rfl)
    (iblk4_1_apply V c _ (ix2 (0 : Fin 1) o))

/-- and of the sums-of-squares row. -/
theorem scr4_snd_step (c : Dev nD) (o : Fin 128) (t : Fin 10) :
    ((scr4 V c (t.val + 1)).2 : S1x128.Idx → EReal) (ix2 (0 : Fin 1) o)
      = ((scr4 V c t.val).2 : S1x128.Idx → EReal) (ix2 (0 : Fin 1) o)
        + ∑ i : Fin 10000, aggb4 V c ⟨10000 * t.val + i.val, by have := t.isLt; have := i.isLt; omega⟩ o
            * aggb4 V c ⟨10000 * t.val + i.val, by have := t.isLt; have := i.isLt; omega⟩ o := by
  have hN : cfg4.N = 10 := N_4
  have e := scr4_succ V c (⟨t.val, by have := t.isLt; omega⟩ : Fin cfg4.N)
  rw [show scr4 V c (t.val + 1) = _ from e]
  refine (pay4_5_apply _ _ _ o).trans ?_
  refine congrArg (fun z : EReal => ((scr4 V c t.val).2 : S1x128.Idx → EReal) (ix2 (0 : Fin 1) o) + z) ?_
  refine Finset.sum_congr rfl fun i _ => ?_
  have hx := congrArg₂ (fun u v : EReal => u + v)
    (iblk4_0_apply V c (⟨t.val, by have := t.isLt; omega⟩ : Fin cfg4.N) (ix2 i o) (ix2 ⟨10000 * t.val + i.val, by have := t.isLt; have := i.isLt; omega⟩ o) rfl rfl)
    (iblk4_1_apply V c (⟨t.val, by have := t.isLt; omega⟩ : Fin cfg4.N) (ix2 (0 : Fin 1) o))
  exact congrArg₂ (fun u v : EReal => u * v) hx hx

/-- AFTER THE TEN POINTS the sums row holds, column by column, the sum over all 100000 rows, -/
theorem scr4_sum (c : Dev nD) (o : Fin 128) :
    ((scr4 V c 10).1 : S1x128.Idx → EReal) (ix2 (0 : Fin 1) o) = ∑ n : Fin 100000, aggb4 V c n o :=
  Cert.LibGcn.acc_tiles10 (fun n => aggb4 V c n o) (fun t => ((scr4 V c t).1 : S1x128.Idx → EReal) (ix2 (0 : Fin 1) o))
    (by rw [scr4_zero]; exact pay4_1_apply o) (fun t => scr4_fst_step V c o t)

/-- and the sums-of-squares row the sum of squares. -/
theorem scr4_sumsq (c : Dev nD) (o : Fin 128) :
    ((scr4 V c 10).2 : S1x128.Idx → EReal) (ix2 (0 : Fin 1) o) = ∑ n : Fin 100000, aggb4 V c n o * aggb4 V c n o :=
  Cert.LibGcn.acc_tiles10 (fun n => aggb4 V c n o * aggb4 V c n o) (fun t => ((scr4 V c t).2 : S1x128.Idx → EReal) (ix2 (0 : Fin 1) o))
    (by rw [scr4_zero]; exact pay4_2_apply o) (fun t => scr4_snd_step V c o t)

/-! ## The two outputs' arrays after the region -/

/-- The one block of an output row is the whole row, and only the last point writes it back. -/
theorem emb4_2 (t : Fin cfg4.N) (j : S1x128.Idx) : ((cfg4.win 2).blk t).view.emb j = j := by
  obtain ⟨-, -, -, -, e0, e1, -⟩ := idx4 t
  funext a
  apply Fin.ext
  match a with
  | ⟨0, _⟩ => show win4_2.index t 0 * 1 + 1 * (j 0).val = (j 0).val; rw [e0]; omega
  | ⟨1, _⟩ => show win4_2.index t 1 * 128 + 1 * (j 1).val = (j 1).val; rw [e1]; omega
theorem emb4_3 (t : Fin cfg4.N) (j : S1x128.Idx) : ((cfg4.win 3).blk t).view.emb j = j := by
  obtain ⟨-, -, -, -, -, -, e0, e1⟩ := idx4 t
  funext a
  apply Fin.ext
  match a with
  | ⟨0, _⟩ => show win4_3.index t 0 * 1 + 1 * (j 0).val = (j 0).val; rw [e0]; omega
  | ⟨1, _⟩ => show win4_3.index t 1 * 128 + 1 * (j 1).val = (j 1).val; rw [e1]; omega

/-- The last point is point 9. -/
theorem last4_of_flush_2 (t : Fin cfg4.N) (h : (cfg4.win 2).flush t = true) : t.val + 1 = 10 := by
  have hN : cfg4.N = 10 := N_4
  have := (flush4_2 t).mp h; have := t.isLt; omega
theorem last4_of_flush_3 (t : Fin cfg4.N) (h : (cfg4.win 3).flush t = true) : t.val + 1 = 10 := by
  have hN : cfg4.N = 10 := N_4
  have := (flush4_3 t).mp h; have := t.isLt; omega

/-- WHAT THE LAST POINT WRITES BACK into the mean's array is the whole row of means of the final sums row, -/
theorem flushed4_2_eq (c : Dev nD) (t : Fin cfg4.N) (h : (cfg4.win 2).flush t = true) :
    (dat4 V c).flushed 2 t = ((cfg4.win 2).blk t).view.read (Elt Ideal) (k4_pay6 (scr4 V c 10).1) := by
  show (cfg4.win 2).cut (grid4.coords t) ((dat4 V c).after 2 t) = _
  rw [after4_2, last4_of_flush_2 t h]
  funext j
  rw [View.read_apply, emb4_2]
  rfl
/-- and into the variance's array the whole row of variances. -/
theorem flushed4_3_eq (c : Dev nD) (t : Fin cfg4.N) (h : (cfg4.win 3).flush t = true) :
    (dat4 V c).flushed 3 t = ((cfg4.win 3).blk t).view.read (Elt Ideal) (k4_pay7 (scr4 V c 10).1 (scr4 V c 10).2) := by
  show (cfg4.win 3).cut (grid4.coords t) ((dat4 V c).after 3 t) = _
  rw [after4_3, last4_of_flush_3 t h]
  funext j
  rw [View.read_apply, emb4_3]
  rfl

/-- The last point's block covers the whole output row. -/
theorem cover4_2 (i : S1x128.Idx) : ∃ t : Fin cfg4.N, (cfg4.win 2).flush t = true ∧ i ∈ ((cfg4.win 2).blk t).view.set := by
  have hi0 : (i 0).val < 1 := (i 0).isLt
  have hi1 : (i 1).val < 128 := (i 1).isLt
  obtain ⟨-, -, -, -, e0, e1, -⟩ := idx4 t4_9
  refine ⟨t4_9, (flush4_2 t4_9).mpr (by decide), ?_⟩
  show i ∈ ((View.whole main_v81_0).slice (win4_2.rect t4_9)).set
  rw [View.set_slice_whole, Rect.mem_set_unit]
  intro a
  match a with
  | ⟨0, _⟩ =>
    show win4_2.index t4_9 (0 : Fin 2) * 1 ≤ (i 0).val ∧ (i 0).val < win4_2.index t4_9 (0 : Fin 2) * 1 + 1
    rw [e0]; omega
  | ⟨1, _⟩ =>
    show win4_2.index t4_9 (1 : Fin 2) * 128 ≤ (i 1).val ∧ (i 1).val < win4_2.index t4_9 (1 : Fin 2) * 128 + 128
    rw [e1]; omega
theorem cover4_3 (i : S1x128.Idx) : ∃ t : Fin cfg4.N, (cfg4.win 3).flush t = true ∧ i ∈ ((cfg4.win 3).blk t).view.set := by
  have hi0 : (i 0).val < 1 := (i 0).isLt
  have hi1 : (i 1).val < 128 := (i 1).isLt
  obtain ⟨-, -, -, -, -, -, e0, e1⟩ := idx4 t4_9
  refine ⟨t4_9, (flush4_3 t4_9).mpr (by decide), ?_⟩
  show i ∈ ((View.whole main_v81_1).slice (win4_3.rect t4_9)).set
  rw [View.set_slice_whole, Rect.mem_set_unit]
  intro a
  match a with
  | ⟨0, _⟩ =>
    show win4_3.index t4_9 (0 : Fin 2) * 1 ≤ (i 0).val ∧ (i 0).val < win4_3.index t4_9 (0 : Fin 2) * 1 + 1
    rw [e0]; omega
  | ⟨1, _⟩ =>
    show win4_3.index t4_9 (1 : Fin 2) * 128 ≤ (i 1).val ∧ (i 1).val < win4_3.index t4_9 (1 : Fin 2) * 128 + 128
    rw [e1]; omega

/-- THE MEAN'S ARRAY after the region: the body's mean term of the final sums row, -/
theorem final4_2 (c : Dev nD) : (dat4 V c).arrAt 2 cfg4.N = k4_pay6 (scr4 V c 10).1 :=
  (dat4 V c).arrAt_eq_of_cover 2 (k4_pay6 (scr4 V c 10).1) (fun t h => flushed4_2_eq V c t h) cover4_2
/-- THE VARIANCE'S ARRAY after the region: the body's variance term of the two final rows. -/
theorem final4_3 (c : Dev nD) : (dat4 V c).arrAt 3 cfg4.N = k4_pay7 (scr4 V c 10).1 (scr4 V c 10).2 :=
  (dat4 V c).arrAt_eq_of_cover 3 (k4_pay7 (scr4 V c 10).1 (scr4 V c 10).2) (fun t h => flushed4_3_eq V c t h) cover4_3

/-- Entry by entry: the mean of column o over the 100000 rows, -/
theorem mean4_value (c : Dev nD) (o : Fin 128) :
    ((dat4 V c).arrAt 2 cfg4.N : S1x128.Idx → EReal) (ix2 (0 : Fin 1) o)
      = Ideal.div (∑ n : Fin 100000, aggb4 V c n o) (Ideal.ofBits .f32 0x47C35000#32) := by
  rw [final4_2]
  exact (pay4_6_apply _ o).trans (congrArg (fun z : EReal => Ideal.div z (Ideal.ofBits .f32 0x47C35000#32)) (scr4_sum V c o))

/-- and the one-pass variance: the mean of squares less the squared mean. -/
theorem var4_value (c : Dev nD) (o : Fin 128) :
    ((dat4 V c).arrAt 3 cfg4.N : S1x128.Idx → EReal) (ix2 (0 : Fin 1) o)
      = Ideal.div (∑ n : Fin 100000, aggb4 V c n o * aggb4 V c n o) (Ideal.ofBits .f32 0x47C35000#32)
        - Ideal.div (∑ n : Fin 100000, aggb4 V c n o) (Ideal.ofBits .f32 0x47C35000#32) * Ideal.div (∑ n : Fin 100000, aggb4 V c n o) (Ideal.ofBits .f32 0x47C35000#32) := by
  rw [final4_3]
  refine (pay4_7_apply _ _ o).trans ?_
  rw [scr4_sum V c o, scr4_sumsq V c o]

end Value4

end Cert.KernelIdeal.Hand

end
-- ==== Proof.KI.Val7.lean ====
import proofs.«109725_j21638045237575_1_alg».proof.Proof.KI.Reg7
import proofs.«109725_j21638045237575_1_alg».proof.Proof.LibGcnStats
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! # What the statistics kernel of the third layer (128 columns) computes, at the exact reals

Read at the extended reals the two carried rows after the ten points are, column by column, the sum and the sum of
squares of (aggregated row + bias) over all 100000 rows, and the two outputs the mean and the mean of squares less
the squared mean. -/

section Value7

variable (V : (c : Dev nD) → (b : Ref sig .tc) → Buf (Elt Ideal) ((c : Thread nD τ).loc b))

/-! ## The payloads at an index -/

/-- The source index of the column reduction: row k of column o. -/
theorem lift7 (o : Fin 128) (k : Fin 10000) : reduces_S10000x128_S128.lift (ix1 o) k = ix2 k o := by
  funext c; apply Fin.ext
  show reduces_S10000x128_S128.liftVal (ix1 o) k.val c = (ix2 k o c).val
  unfold Shape.Reduces.liftVal
  match c with
  | ⟨0, _⟩ => rfl
  | ⟨1, _⟩ => rfl

/-- A reduction down the rows of a block is the column's plain sum. -/
theorem colsum7 (x : FVec Ideal S10000x128 .f32) (o : Fin 128) :
    (multiReduction (F := Ideal) .add [0] S128 x 0x00000000#32 reduces_S10000x128_S128 (.inl rfl) rfl : S128.Idx → EReal) (ix1 o)
      = ∑ r : Fin 10000, (x (ix2 r o) : EReal) :=
  (Ideal.multiReduction_add_single x 0x00000000#32 reduces_S10000x128_S128 (.inl rfl) rfl (ix1 o)).trans
    (Finset.sum_congr rfl fun k _ => congrArg x (lift7 o k))

/-- The zeroed row. -/
theorem pay7_1_apply (o : Fin 128) : (k7_pay1 (F := Ideal) : S1x128.Idx → EReal) (ix2 (0 : Fin 1) o) = 0 := by
  unfold k7_pay1
  refine (congrFun (shapeCast_self _ _) _).trans ?_
  exact Ideal.ofBits_zero_f32
theorem pay7_2_apply (o : Fin 128) : (k7_pay2 (F := Ideal) : S1x128.Idx → EReal) (ix2 (0 : Fin 1) o) = 0 := by
  unfold k7_pay2
  refine (congrFun (shapeCast_self _ _) _).trans ?_
  exact Ideal.ofBits_zero_f32

/-- Block plus bias, entry by entry. -/
theorem pay7_3_apply (x : Vec Ideal S10000x128 .f32) (b : Vec Ideal S1x128 .f32) (r : Fin 10000) (o : Fin 128) :
    (k7_pay3 x b : S10000x128.Idx → EReal) (ix2 r o) = (x (ix2 r o) : EReal) + (b (ix2 (0 : Fin 1) o) : EReal) := by
  unfold k7_pay3
  refine (addf_apply _ _ _).trans ?_
  refine congrArg₂ (fun u v : EReal => u + v) (congrFun (shapeCast_self _ _) _) ?_
  refine (broadcastTo_1b_ab_apply _ _ r o).trans ?_
  exact congrFun (shapeCast_self _ _) _

/-- The sums row after a point: what it held plus the block's column sum of (row + bias). -/
theorem pay7_4_apply (x : Vec Ideal S10000x128 .f32) (b s : Vec Ideal S1x128 .f32) (o : Fin 128) :
    (k7_pay4 x b s : S1x128.Idx → EReal) (ix2 (0 : Fin 1) o)
      = (s (ix2 (0 : Fin 1) o) : EReal) + ∑ r : Fin 10000, ((x (ix2 r o) : EReal) + (b (ix2 (0 : Fin 1) o) : EReal)) := by
  unfold k7_pay4
  refine (congrFun (shapeCast_self _ _) _).trans ?_
  refine (addf_apply _ _ _).trans ?_
  refine congrArg (fun z : EReal => (s (ix2 (0 : Fin 1) o) : EReal) + z) ?_
  refine (shapeCast_a_1a_apply _ _ (0 : Fin 1) o).trans ?_
  refine (colsum7 _ o).trans ?_
  exact Finset.sum_congr rfl fun r _ => pay7_3_apply x b r o

/-- The sums-of-squares row after a point. -/
theorem pay7_5_apply (x : Vec Ideal S10000x128 .f32) (b s : Vec Ideal S1x128 .f32) (o : Fin 128) :
    (k7_pay5 x b s : S1x128.Idx → EReal) (ix2 (0 : Fin 1) o)
      = (s (ix2 (0 : Fin 1) o) : EReal) + ∑ r : Fin 10000,
          ((x (ix2 r o) : EReal) + (b (ix2 (0 : Fin 1) o) : EReal)) * ((x (ix2 r o) : EReal) + (b (ix2 (0 : Fin 1) o) : EReal)) := by
  unfold k7_pay5
  refine (congrFun (shapeCast_self _ _) _).trans ?_
  refine (addf_apply _ _ _).trans ?_
  refine congrArg (fun z : EReal => (s (ix2 (0 : Fin 1) o) : EReal) + z) ?_
  refine (shapeCast_a_1a_apply _ _ (0 : Fin 1) o).trans ?_
  refine (colsum7 _ o).trans ?_
  refine Finset.sum_congr rfl fun r _ => ?_
  refine (mulf_apply _ _ _).trans ?_
  exact congrArg₂ (fun u v : EReal => u * v) (pay7_3_apply x b r o) (pay7_3_apply x b r o)

/-- The mean: the sums row over the number of rows. -/
theorem pay7_6_apply (s : Vec Ideal S1x128 .f32) (o : Fin 128) :
    (k7_pay6 s : S1x128.Idx → EReal) (ix2 (0 : Fin 1) o)
      = Ideal.div (s (ix2 (0 : Fin 1) o)) (Ideal.ofBits .f32 0x47C35000#32) := by
  unfold k7_pay6
  exact divf_apply _ _ _

/-- The variance: the sums-of-squares row over the number of rows, less the squared mean. -/
theorem pay7_7_apply (s q : Vec Ideal S1x128 .f32) (o : Fin 128) :
    (k7_pay7 s q : S1x128.Idx → EReal) (ix2 (0 : Fin 1) o)
      = Ideal.div (q (ix2 (0 : Fin 1) o)) (Ideal.ofBits .f32 0x47C35000#32)
        - Ideal.div (s (ix2 (0 : Fin 1) o)) (Ideal.ofBits .f32 0x47C35000#32)
          * Ideal.div (s (ix2 (0 : Fin 1) o)) (Ideal.ofBits .f32 0x47C35000#32) := by
  unfold k7_pay7
  refine (subf_apply _ _ _).trans ?_
  refine congrArg₂ (fun u v : EReal => u - v) (divf_apply _ _ _) ?_
  refine (mulf_apply _ _ _).trans ?_
  exact congrArg₂ (fun u v : EReal => u * v) (pay7_6_apply s o) (pay7_6_apply s o)

/-! ## The input blocks as entries of the arrays -/

/-- The printed index maps, decided over the ten grid points: the block of aggregated rows is at block row t, the bias
    row and the two outputs at block (0, 0). -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- The block of aggregated rows at point t is rows 10000 t … 10000 t + 9999 of the array. -/
theorem iblk7_0_apply (c : Dev nD) (t : Fin cfg7.N) (y : S10000x128.Idx) (k : S100000x128.Idx)
    (hk0 : (k 0).val = 10000 * t.val + (y 0).val) (hk1 : (k 1).val = (y 1).val) :
    (iblk7 V c 0 t : Vec Ideal S10000x128 .f32) y = (V c main_v106 : S100000x128.Idx → Elt Ideal .f32) k := by
  obtain ⟨e0, e1, -⟩ := idx7 t
  unfold iblk7
  rw [View.read_apply]
  show V c main_v106 _ = V c main_v106 _
  congr 1
  funext a
  apply Fin.ext
  match a with
  | ⟨0, _⟩ => show win7_0.index t 0 * 10000 + 1 * (y 0).val = (k 0).val; rw [e0, hk0]; omega
  | ⟨1, _⟩ => show win7_0.index t 1 * 128 + 1 * (y 1).val = (k 1).val; rw [e1, hk1]; omega

/-- The bias row's block at every point is the whole row. -/
theorem iblk7_1_apply (c : Dev nD) (t : Fin cfg7.N) (y : S1x128.Idx) :
    (iblk7 V c 1 t : Vec Ideal S1x128 .f32) y = (V c main_v107 : S1x128.Idx → Elt Ideal .f32) y := by
  obtain ⟨-, -, e0, e1, -⟩ := idx7 t
  unfold iblk7
  rw [View.read_apply]
  show V c main_v107 _ = V c main_v107 _
  congr 1
  funext a
  apply Fin.ext
  match a with
  | ⟨0, _⟩ => show win7_1.index t 0 * 1 + 1 * (y 0).val = (y 0).val; rw [e0]; omega
  | ⟨1, _⟩ => show win7_1.index t 1 * 128 + 1 * (y 1).val = (y 1).val; rw [e1]; omega

/-! ## The carried rows after the ten points -/

/-- What the statistics are taken of is the aggregated row plus the bias, of the two arrays as the region finds them:
    the aggregated features, -/
def agg7 (c : Dev nD) : S100000x128.Idx → EReal := V c main_v106
/-- The bias row as the region finds it. -/
def bias7 (c : Dev nD) : S1x128.Idx → EReal := V c main_v107
/-- Their sum, entry (n, o). -/
def aggb7 (c : Dev nD) (n : Fin 100000) (o : Fin 128) : EReal :=
  agg7 V c (ix2 n o) + bias7 V c (ix2 (0 : Fin 1) o)

/-- One point's step of the sums row, read at column o: tile t's column sum is added. -/
theorem scr7_fst_step (c : Dev nD) (o : Fin 128) (t : Fin 10) :
    ((scr7 V c (t.val + 1)).1 : S1x128.Idx → EReal) (ix2 (0 : Fin 1) o)
      = ((scr7 V c t.val).1 : S1x128.Idx → EReal) (ix2 (0 : Fin 1) o)
        + ∑ i : Fin 10000, aggb7 V c ⟨10000 * t.val + i.val, by have := t.isLt; have := i.isLt; omega⟩ o := by
  have hN : cfg7.N = 10 := N_7
  have e := scr7_succ V c (⟨t.val, by have := t.isLt; omega⟩ : Fin cfg7.N)
  rw [show scr7 V c (t.val + 1) = _ from e]
  refine (pay7_4_apply _ _ _ o).trans ?_
  refine congrArg (fun z : EReal => ((scr7 V c t.val).1 : S1x128.Idx → EReal) (ix2 (0 : Fin 1) o) + z) ?_
  refine Finset.sum_congr rfl fun i _ => ?_
  exact congrArg₂ (fun u v : EReal => u + v)
    (iblk7_0_apply V c _ (ix2 i o) (ix2 ⟨10000 * t.val + i.val, by have := t.isLt; have := i.isLt; omega⟩ o) rfl rfl)
    (iblk7_1_apply V c _ (ix2 (0 : Fin 1) o))

/-- and of the sums-of-squares row. -/
theorem scr7_snd_step (c : Dev nD) (o : Fin 128) (t : Fin 10) :
    ((scr7 V c (t.val + 1)).2 : S1x128.Idx → EReal) (ix2 (0 : Fin 1) o)
      = ((scr7 V c t.val).2 : S1x128.Idx → EReal) (ix2 (0 : Fin 1) o)
        + ∑ i : Fin 10000, aggb7 V c ⟨10000 * t.val + i.val, by have := t.isLt; have := i.isLt; omega⟩ o
            * aggb7 V c ⟨10000 * t.val + i.val, by have := t.isLt; have := i.isLt; omega⟩ o := by
  have hN : cfg7.N = 10 := N_7
  have e := scr7_succ V c (⟨t.val, by have := t.isLt; omega⟩ : Fin cfg7.N)
  rw [show scr7 V c (t.val + 1) = _ from e]
  refine (pay7_5_apply _ _ _ o).trans ?_
  refine congrArg (fun z : EReal => ((scr7 V c t.val).2 : S1x128.Idx → EReal) (ix2 (0 : Fin 1) o) + z) ?_
  refine Finset.sum_congr rfl fun i _ => ?_
  have hx := congrArg₂ (fun u v : EReal => u + v)
    (iblk7_0_apply V c (⟨t.val, by have := t.isLt; omega⟩ : Fin cfg7.N) (ix2 i o) (ix2 ⟨10000 * t.val + i.val, by have := t.isLt; have := i.isLt; omega⟩ o) rfl rfl)
    (iblk7_1_apply V c (⟨t.val, by have := t.isLt; omega⟩ : Fin cfg7.N) (ix2 (0 : Fin 1) o))
  exact congrArg₂ (fun u v : EReal => u * v) hx hx

/-- AFTER THE TEN POINTS the sums row holds, column by column, the sum over all 100000 rows, -/
theorem scr7_sum (c : Dev nD) (o : Fin 128) :
    ((scr7 V c 10).1 : S1x128.Idx → EReal) (ix2 (0 : Fin 1) o) = ∑ n : Fin 100000, aggb7 V c n o :=
  Cert.LibGcn.acc_tiles10 (fun n => aggb7 V c n o) (fun t => ((scr7 V c t).1 : S1x128.Idx → EReal) (ix2 (0 : Fin 1) o))
    (by rw [scr7_zero]; exact pay7_1_apply o) (fun t => scr7_fst_step V c o t)

/-- and the sums-of-squares row the sum of squares. -/
theorem scr7_sumsq (c : Dev nD) (o : Fin 128) :
    ((scr7 V c 10).2 : S1x128.Idx → EReal) (ix2 (0 : Fin 1) o) = ∑ n : Fin 100000, aggb7 V c n o * aggb7 V c n o :=
  Cert.LibGcn.acc_tiles10 (fun n => aggb7 V c n o * aggb7 V c n o) (fun t => ((scr7 V c t).2 : S1x128.Idx → EReal) (ix2 (0 : Fin 1) o))
    (by rw [scr7_zero]; exact pay7_2_apply o) (fun t => scr7_snd_step V c o t)

/-! ## The two outputs' arrays after the region -/

/-- The one block of an output row is the whole row, and only the last point writes it back. -/
theorem emb7_2 (t : Fin cfg7.N) (j : S1x128.Idx) : ((cfg7.win 2).blk t).view.emb j = j := by
  obtain ⟨-, -, -, -, e0, e1, -⟩ := idx7 t
  funext a
  apply Fin.ext
  match a with
  | ⟨0, _⟩ => show win7_2.index t 0 * 1 + 1 * (j 0).val = (j 0).val; rw [e0]; omega
  | ⟨1, _⟩ => show win7_2.index t 1 * 128 + 1 * (j 1).val = (j 1).val; rw [e1]; omega
theorem emb7_3 (t : Fin cfg7.N) (j : S1x128.Idx) : ((cfg7.win 3).blk t).view.emb j = j := by
  obtain ⟨-, -, -, -, -, -, e0, e1⟩ := idx7 t
  funext a
  apply Fin.ext
  match a with
  | ⟨0, _⟩ => show win7_3.index t 0 * 1 + 1 * (j 0).val = (j 0).val; rw [e0]; omega
  | ⟨1, _⟩ => show win7_3.index t 1 * 128 + 1 * (j 1).val = (j 1).val; rw [e1]; omega

/-- The last point is point 9. -/
theorem last7_of_flush_2 (t : Fin cfg7.N) (h : (cfg7.win 2).flush t = true) : t.val + 1 = 10 := by
  have hN : cfg7.N = 10 := N_7
  have := (flush7_2 t).mp h; have := t.isLt; omega
theorem last7_of_flush_3 (t : Fin cfg7.N) (h : (cfg7.win 3).flush t = true) : t.val + 1 = 10 := by
  have hN : cfg7.N = 10 := N_7
  have := (flush7_3 t).mp h; have := t.isLt; omega

/-- WHAT THE LAST POINT WRITES BACK into the mean's array is the whole row of means of the final sums row, -/
theorem flushed7_2_eq (c : Dev nD) (t : Fin cfg7.N) (h : (cfg7.win 2).flush t = true) :
    (dat7 V c).flushed 2 t = ((cfg7.win 2).blk t).view.read (Elt Ideal) (k7_pay6 (scr7 V c 10).1) := by
  show (cfg7.win 2).cut (grid7.coords t) ((dat7 V c).after 2 t) = _
  rw [after7_2, last7_of_flush_2 t h]
  funext j
  rw [View.read_apply, emb7_2]
  rfl
/-- and into the variance's array the whole row of variances. -/
theorem flushed7_3_eq (c : Dev nD) (t : Fin cfg7.N) (h : (cfg7.win 3).flush t = true) :
    (dat7 V c).flushed 3 t = ((cfg7.win 3).blk t).view.read (Elt Ideal) (k7_pay7 (scr7 V c 10).1 (scr7 V c 10).2) := by
  show (cfg7.win 3).cut (grid7.coords t) ((dat7 V c).after 3 t) = _
  rw [after7_3, last7_of_flush_3 t h]
  funext j
  rw [View.read_apply, emb7_3]
  rfl

/-- The last point's block covers the whole output row. -/
theorem cover7_2 (i : S1x128.Idx) : ∃ t : Fin cfg7.N, (cfg7.win 2).flush t = true ∧ i ∈ ((cfg7.win 2).blk t).view.set := by
  have hi0 : (i 0).val < 1 := (i 0).isLt
  have hi1 : (i 1).val < 128 := (i 1).isLt
  obtain ⟨-, -, -, -, e0, e1, -⟩ := idx7 t7_9
  refine ⟨t7_9, (flush7_2 t7_9).mpr (by decide), ?_⟩
  show i ∈ ((View.whole main_v108_0).slice (win7_2.rect t7_9)).set
  rw [View.set_slice_whole, Rect.mem_set_unit]
  intro a
  match a with
  | ⟨0, _⟩ =>
    show win7_2.index t7_9 (0 : Fin 2) * 1 ≤ (i 0).val ∧ (i 0).val < win7_2.index t7_9 (0 : Fin 2) * 1 + 1
    rw [e0]; omega
  | ⟨1, _⟩ =>
    show win7_2.index t7_9 (1 : Fin 2) * 128 ≤ (i 1).val ∧ (i 1).val < win7_2.index t7_9 (1 : Fin 2) * 128 + 128
    rw [e1]; omega
theorem cover7_3 (i : S1x128.Idx) : ∃ t : Fin cfg7.N, (cfg7.win 3).flush t = true ∧ i ∈ ((cfg7.win 3).blk t).view.set := by
  have hi0 : (i 0).val < 1 := (i 0).isLt
  have hi1 : (i 1).val < 128 := (i 1).isLt
  obtain ⟨-, -, -, -, -, -, e0, e1⟩ := idx7 t7_9
  refine ⟨t7_9, (flush7_3 t7_9).mpr (by decide), ?_⟩
  show i ∈ ((View.whole main_v108_1).slice (win7_3.rect t7_9)).set
  rw [View.set_slice_whole, Rect.mem_set_unit]
  intro a
  match a with
  | ⟨0, _⟩ =>
    show win7_3.index t7_9 (0 : Fin 2) * 1 ≤ (i 0).val ∧ (i 0).val < win7_3.index t7_9 (0 : Fin 2) * 1 + 1
    rw [e0]; omega
  | ⟨1, _⟩ =>
    show win7_3.index t7_9 (1 : Fin 2) * 128 ≤ (i 1).val ∧ (i 1).val < win7_3.index t7_9 (1 : Fin 2) * 128 + 128
    rw [e1]; omega

/-- THE MEAN'S ARRAY after the region: the body's mean term of the final sums row, -/
theorem final7_2 (c : Dev nD) : (dat7 V c).arrAt 2 cfg7.N = k7_pay6 (scr7 V c 10).1 :=
  (dat7 V c).arrAt_eq_of_cover 2 (k7_pay6 (scr7 V c 10).1) (fun t h => flushed7_2_eq V c t h) cover7_2
/-- THE VARIANCE'S ARRAY after the region: the body's variance term of the two final rows. -/
theorem final7_3 (c : Dev nD) : (dat7 V c).arrAt 3 cfg7.N = k7_pay7 (scr7 V c 10).1 (scr7 V c 10).2 :=
  (dat7 V c).arrAt_eq_of_cover 3 (k7_pay7 (scr7 V c 10).1 (scr7 V c 10).2) (fun t h => flushed7_3_eq V c t h) cover7_3

/-- Entry by entry: the mean of column o over the 100000 rows, -/
theorem mean7_value (c : Dev nD) (o : Fin 128) :
    ((dat7 V c).arrAt 2 cfg7.N : S1x128.Idx → EReal) (ix2 (0 : Fin 1) o)
      = Ideal.div (∑ n : Fin 100000, aggb7 V c n o) (Ideal.ofBits .f32 0x47C35000#32) := by
  rw [final7_2]
  exact (pay7_6_apply _ o).trans (congrArg (fun z : EReal => Ideal.div z (Ideal.ofBits .f32 0x47C35000#32)) (scr7_sum V c o))

/-- and the one-pass variance: the mean of squares less the squared mean. -/
theorem var7_value (c : Dev nD) (o : Fin 128) :
    ((dat7 V c).arrAt 3 cfg7.N : S1x128.Idx → EReal) (ix2 (0 : Fin 1) o)
      = Ideal.div (∑ n : Fin 100000, aggb7 V c n o * aggb7 V c n o) (Ideal.ofBits .f32 0x47C35000#32)
        - Ideal.div (∑ n : Fin 100000, aggb7 V c n o) (Ideal.ofBits .f32 0x47C35000#32) * Ideal.div (∑ n : Fin 100000, aggb7 V c n o) (Ideal.ofBits .f32 0x47C35000#32) := by
  rw [final7_3]
  refine (pay7_7_apply _ _ o).trans ?_
  rw [scr7_sum V c o, scr7_sumsq V c o]

end Value7

end Cert.KernelIdeal.Hand

end
-- ==== Proof.KI.Val10.lean ====
import proofs.«109725_j21638045237575_1_alg».proof.Proof.KI.Reg10
import proofs.«109725_j21638045237575_1_alg».proof.Proof.LibGcnStats
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! # What the statistics kernel of the fourth layer (32 columns) computes, at the exact reals

Read at the extended reals the two carried rows after the ten points are, column by column, the sum and the sum of
squares of (aggregated row + bias) over all 100000 rows, and the two outputs the mean and the mean of squares less
the squared mean. -/

section Value10

variable (V : (c : Dev nD) → (b : Ref sig .tc) → Buf (Elt Ideal) ((c : Thread nD τ).loc b))

/-! ## The payloads at an index -/

/-- The source index of the column reduction: row k of column o. -/
theorem lift10 (o : Fin 32) (k : Fin 10000) : reduces_S10000x32_S32.lift (ix1 o) k = ix2 k o := by
  funext c; apply Fin.ext
  show reduces_S10000x32_S32.liftVal (ix1 o) k.val c = (ix2 k o c).val
  unfold Shape.Reduces.liftVal
  match c with
  | ⟨0, _⟩ => rfl
  | ⟨1, _⟩ => rfl

/-- A reduction down the rows of a block is the column's plain sum. -/
theorem colsum10 (x : FVec Ideal S10000x32 .f32) (o : Fin 32) :
    (multiReduction (F := Ideal) .add [0] S32 x 0x00000000#32 reduces_S10000x32_S32 (.inl rfl) rfl : S32.Idx → EReal) (ix1 o)
      = ∑ r : Fin 10000, (x (ix2 r o) : EReal) :=
  (Ideal.multiReduction_add_single x 0x00000000#32 reduces_S10000x32_S32 (.inl rfl) rfl (ix1 o)).trans
    (Finset.sum_congr rfl fun k _ => congrArg x (lift10 o k))

/-- The zeroed row. -/
theorem pay10_1_apply (o : Fin 32) : (k10_pay1 (F := Ideal) : S1x32.Idx → EReal) (ix2 (0 : Fin 1) o) = 0 := by
  unfold k10_pay1
  refine (congrFun (shapeCast_self _ _) _).trans ?_
  exact Ideal.ofBits_zero_f32
theorem pay10_2_apply (o : Fin 32) : (k10_pay2 (F := Ideal) : S1x32.Idx → EReal) (ix2 (0 : Fin 1) o) = 0 := by
  unfold k10_pay2
  refine (congrFun (shapeCast_self _ _) _).trans ?_
  exact Ideal.ofBits_zero_f32

/-- Block plus bias, entry by entry. -/
theorem pay10_3_apply (x : Vec Ideal S10000x32 .f32) (b : Vec Ideal S1x32 .f32) (r : Fin 10000) (o : Fin 32) :
    (k10_pay3 x b : S10000x32.Idx → EReal) (ix2 r o) = (x (ix2 r o) : EReal) + (b (ix2 (0 : Fin 1) o) : EReal) := by
  unfold k10_pay3
  refine (addf_apply _ _ _).trans ?_
  refine congrArg₂ (fun u v : EReal => u + v) (congrFun (shapeCast_self _ _) _) ?_
  refine (broadcastTo_1b_ab_apply _ _ r o).trans ?_
  exact congrFun (shapeCast_self _ _) _

/-- The sums row after a point: what it held plus the block's column sum of (row + bias). -/
theorem pay10_4_apply (x : Vec Ideal S10000x32 .f32) (b s : Vec Ideal S1x32 .f32) (o : Fin 32) :
    (k10_pay4 x b s : S1x32.Idx → EReal) (ix2 (0 : Fin 1) o)
      = (s (ix2 (0 : Fin 1) o) : EReal) + ∑ r : Fin 10000, ((x (ix2 r o) : EReal) + (b (ix2 (0 : Fin 1) o) : EReal)) := by
  unfold k10_pay4
  refine (congrFun (shapeCast_self _ _) _).trans ?_
  refine (addf_apply _ _ _).trans ?_
  refine congrArg (fun z : EReal => (s (ix2 (0 : Fin 1) o) : EReal) + z) ?_
  refine (shapeCast_a_1a_apply _ _ (0 : Fin 1) o).trans ?_
  refine (colsum10 _ o).trans ?_
  exact Finset.sum_congr rfl fun r _ => pay10_3_apply x b r o

/-- The sums-of-squares row after a point. -/
theorem pay10_5_apply (x : Vec Ideal S10000x32 .f32) (b s : Vec Ideal S1x32 .f32) (o : Fin 32) :
    (k10_pay5 x b s : S1x32.Idx → EReal) (ix2 (0 : Fin 1) o)
      = (s (ix2 (0 : Fin 1) o) : EReal) + ∑ r : Fin 10000,
          ((x (ix2 r o) : EReal) + (b (ix2 (0 : Fin 1) o) : EReal)) * ((x (ix2 r o) : EReal) + (b (ix2 (0 : Fin 1) o) : EReal)) := by
  unfold k10_pay5
  refine (congrFun (shapeCast_self _ _) _).trans ?_
  refine (addf_apply _ _ _).trans ?_
  refine congrArg (fun z : EReal => (s (ix2 (0 : Fin 1) o) : EReal) + z) ?_
  refine (shapeCast_a_1a_apply _ _ (0 : Fin 1) o).trans ?_
  refine (colsum10 _ o).trans ?_
  refine Finset.sum_congr rfl fun r _ => ?_
  refine (mulf_apply _ _ _).trans ?_
  exact congrArg₂ (fun u v : EReal => u * v) (pay10_3_apply x b r o) (pay10_3_apply x b r o)

/-- The mean: the sums row over the number of rows. -/
theorem pay10_6_apply (s : Vec Ideal S1x32 .f32) (o : Fin 32) :
    (k10_pay6 s : S1x32.Idx → EReal) (ix2 (0 : Fin 1) o)
      = Ideal.div (s (ix2 (0 : Fin 1) o)) (Ideal.ofBits .f32 0x47C35000#32) := by
  unfold k10_pay6
  exact divf_apply _ _ _

/-- The variance: the sums-of-squares row over the number of rows, less the squared mean. -/
theorem pay10_7_apply (s q : Vec Ideal S1x32 .f32) (o : Fin 32) :
    (k10_pay7 s q : S1x32.Idx → EReal) (ix2 (0 : Fin 1) o)
      = Ideal.div (q (ix2 (0 : Fin 1) o)) (Ideal.ofBits .f32 0x47C35000#32)
        - Ideal.div (s (ix2 (0 : Fin 1) o)) (Ideal.ofBits .f32 0x47C35000#32)
          * Ideal.div (s (ix2 (0 : Fin 1) o)) (Ideal.ofBits .f32 0x47C35000#32) := by
  unfold k10_pay7
  refine (subf_apply _ _ _).trans ?_
  refine congrArg₂ (fun u v : EReal => u - v) (divf_apply _ _ _) ?_
  refine (mulf_apply _ _ _).trans ?_
  exact congrArg₂ (fun u v : EReal => u * v) (pay10_6_apply s o) (pay10_6_apply s o)

/-! ## The input blocks as entries of the arrays -/

/-- The printed index maps, decided over the ten grid points: the block of aggregated rows is at block row t, the bias
    row and the two outputs at block (0, 0). -/
theorem idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0 :=
  (by decide +kernel : ∀ t : Fin grid10.N, _)

/-- The block of aggregated rows at point t is rows 10000 t … 10000 t + 9999 of the array. -/
theorem iblk10_0_apply (c : Dev nD) (t : Fin cfg10.N) (y : S10000x32.Idx) (k : S100000x32.Idx)
    (hk0 : (k 0).val = 10000 * t.val + (y 0).val) (hk1 : (k 1).val = (y 1).val) :
    (iblk10 V c 0 t : Vec Ideal S10000x32 .f32) y = (V c main_v133 : S100000x32.Idx → Elt Ideal .f32) k := by
  obtain ⟨e0, e1, -⟩ := idx10 t
  unfold iblk10
  rw [View.read_apply]
  show V c main_v133 _ = V c main_v133 _
  congr 1
  funext a
  apply Fin.ext
  match a with
  | ⟨0, _⟩ => show win10_0.index t 0 * 10000 + 1 * (y 0).val = (k 0).val; rw [e0, hk0]; omega
  | ⟨1, _⟩ => show win10_0.index t 1 * 32 + 1 * (y 1).val = (k 1).val; rw [e1, hk1]; omega

/-- The bias row's block at every point is the whole row. -/
theorem iblk10_1_apply (c : Dev nD) (t : Fin cfg10.N) (y : S1x32.Idx) :
    (iblk10 V c 1 t : Vec Ideal S1x32 .f32) y = (V c main_v134 : S1x32.Idx → Elt Ideal .f32) y := by
  obtain ⟨-, -, e0, e1, -⟩ := idx10 t
  unfold iblk10
  rw [View.read_apply]
  show V c main_v134 _ = V c main_v134 _
  congr 1
  funext a
  apply Fin.ext
  match a with
  | ⟨0, _⟩ => show win10_1.index t 0 * 1 + 1 * (y 0).val = (y 0).val; rw [e0]; omega
  | ⟨1, _⟩ => show win10_1.index t 1 * 32 + 1 * (y 1).val = (y 1).val; rw [e1]; omega

/-! ## The carried rows after the ten points -/

/-- What the statistics are taken of is the aggregated row plus the bias, of the two arrays as the region finds them:
    the aggregated features, -/
def agg10 (c : Dev nD) : S100000x32.Idx → EReal := V c main_v133
/-- The bias row as the region finds it. -/
def bias10 (c : Dev nD) : S1x32.Idx → EReal := V c main_v134
/-- Their sum, entry (n, o). -/
def aggb10 (c : Dev nD) (n : Fin 100000) (o : Fin 32) : EReal :=
  agg10 V c (ix2 n o) + bias10 V c (ix2 (0 : Fin 1) o)

/-- One point's step of the sums row, read at column o: tile t's column sum is added. -/
theorem scr10_fst_step (c : Dev nD) (o : Fin 32) (t : Fin 10) :
    ((scr10 V c (t.val + 1)).1 : S1x32.Idx → EReal) (ix2 (0 : Fin 1) o)
      = ((scr10 V c t.val).1 : S1x32.Idx → EReal) (ix2 (0 : Fin 1) o)
        + ∑ i : Fin 10000, aggb10 V c ⟨10000 * t.val + i.val, by have := t.isLt; have := i.isLt; omega⟩ o := by
  have hN : cfg10.N = 10 := N_10
  have e := scr10_succ V c (⟨t.val, by have := t.isLt; omega⟩ : Fin cfg10.N)
  rw [show scr10 V c (t.val + 1) = _ from e]
  refine (pay10_4_apply _ _ _ o).trans ?_
  refine congrArg (fun z : EReal => ((scr10 V c t.val).1 : S1x32.Idx → EReal) (ix2 (0 : Fin 1) o) + z) ?_
  refine Finset.sum_congr rfl fun i _ => ?_
  exact congrArg₂ (fun u v : EReal => u + v)
    (iblk10_0_apply V c _ (ix2 i o) (ix2 ⟨10000 * t.val + i.val, by have := t.isLt; have := i.isLt; omega⟩ o) rfl rfl)
    (iblk10_1_apply V c _ (ix2 (0 : Fin 1) o))

/-- and of the sums-of-squares row. -/
theorem scr10_snd_step (c : Dev nD) (o : Fin 32) (t : Fin 10) :
    ((scr10 V c (t.val + 1)).2 : S1x32.Idx → EReal) (ix2 (0 : Fin 1) o)
      = ((scr10 V c t.val).2 : S1x32.Idx → EReal) (ix2 (0 : Fin 1) o)
        + ∑ i : Fin 10000, aggb10 V c ⟨10000 * t.val + i.val, by have := t.isLt; have := i.isLt; omega⟩ o
            * aggb10 V c ⟨10000 * t.val + i.val, by have := t.isLt; have := i.isLt; omega⟩ o := by
  have hN : cfg10.N = 10 := N_10
  have e := scr10_succ V c (⟨t.val, by have := t.isLt; omega⟩ : Fin cfg10.N)
  rw [show scr10 V c (t.val + 1) = _ from e]
  refine (pay10_5_apply _ _ _ o).trans ?_
  refine congrArg (fun z : EReal => ((scr10 V c t.val).2 : S1x32.Idx → EReal) (ix2 (0 : Fin 1) o) + z) ?_
  refine Finset.sum_congr rfl fun i _ => ?_
  have hx := congrArg₂ (fun u v : EReal => u + v)
    (iblk10_0_apply V c (⟨t.val, by have := t.isLt; omega⟩ : Fin cfg10.N) (ix2 i o) (ix2 ⟨10000 * t.val + i.val, by have := t.isLt; have := i.isLt; omega⟩ o) rfl rfl)
    (iblk10_1_apply V c (⟨t.val, by have := t.isLt; omega⟩ : Fin cfg10.N) (ix2 (0 : Fin 1) o))
  exact congrArg₂ (fun u v : EReal => u * v) hx hx

/-- AFTER THE TEN POINTS the sums row holds, column by column, the sum over all 100000 rows, -/
theorem scr10_sum (c : Dev nD) (o : Fin 32) :
    ((scr10 V c 10).1 : S1x32.Idx → EReal) (ix2 (0 : Fin 1) o) = ∑ n : Fin 100000, aggb10 V c n o :=
  Cert.LibGcn.acc_tiles10 (fun n => aggb10 V c n o) (fun t => ((scr10 V c t).1 : S1x32.Idx → EReal) (ix2 (0 : Fin 1) o))
    (by rw [scr10_zero]; exact pay10_1_apply o) (fun t => scr10_fst_step V c o t)

/-- and the sums-of-squares row the sum of squares. -/
theorem scr10_sumsq (c : Dev nD) (o : Fin 32) :
    ((scr10 V c 10).2 : S1x32.Idx → EReal) (ix2 (0 : Fin 1) o) = ∑ n : Fin 100000, aggb10 V c n o * aggb10 V c n o :=
  Cert.LibGcn.acc_tiles10 (fun n => aggb10 V c n o * aggb10 V c n o) (fun t => ((scr10 V c t).2 : S1x32.Idx → EReal) (ix2 (0 : Fin 1) o))
    (by rw [scr10_zero]; exact pay10_2_apply o) (fun t => scr10_snd_step V c o t)

/-! ## The two outputs' arrays after the region -/

/-- The one block of an output row is the whole row, and only the last point writes it back. -/
theorem emb10_2 (t : Fin cfg10.N) (j : S1x32.Idx) : ((cfg10.win 2).blk t).view.emb j = j := by
  obtain ⟨-, -, -, -, e0, e1, -⟩ := idx10 t
  funext a
  apply Fin.ext
  match a with
  | ⟨0, _⟩ => show win10_2.index t 0 * 1 + 1 * (j 0).val = (j 0).val; rw [e0]; omega
  | ⟨1, _⟩ => show win10_2.index t 1 * 32 + 1 * (j 1).val = (j 1).val; rw [e1]; omega
theorem emb10_3 (t : Fin cfg10.N) (j : S1x32.Idx) : ((cfg10.win 3).blk t).view.emb j = j := by
  obtain ⟨-, -, -, -, -, -, e0, e1⟩ := idx10 t
  funext a
  apply Fin.ext
  match a with
  | ⟨0, _⟩ => show win10_3.index t 0 * 1 + 1 * (j 0).val = (j 0).val; rw [e0]; omega
  | ⟨1, _⟩ => show win10_3.index t 1 * 32 + 1 * (j 1).val = (j 1).val; rw [e1]; omega

/-- The last point is point 9. -/
theorem last10_of_flush_2 (t : Fin cfg10.N) (h : (cfg10.win 2).flush t = true) : t.val + 1 = 10 := by
  have hN : cfg10.N = 10 := N_10
  have := (flush10_2 t).mp h; have := t.isLt; omega
theorem last10_of_flush_3 (t : Fin cfg10.N) (h : (cfg10.win 3).flush t = true) : t.val + 1 = 10 := by
  have hN : cfg10.N = 10 := N_10
  have := (flush10_3 t).mp h; have := t.isLt; omega

/-- WHAT THE LAST POINT WRITES BACK into the mean's array is the whole row of means of the final sums row, -/
theorem flushed10_2_eq (c : Dev nD) (t : Fin cfg10.N) (h : (cfg10.win 2).flush t = true) :
    (dat10 V c).flushed 2 t = ((cfg10.win 2).blk t).view.read (Elt Ideal) (k10_pay6 (scr10 V c 10).1) := by
  show (cfg10.win 2).cut (grid10.coords t) ((dat10 V c).after 2 t) = _
  rw [after10_2, last10_of_flush_2 t h]
  funext j
  rw [View.read_apply, emb10_2]
  rfl
/-- and into the variance's array the whole row of variances. -/
theorem flushed10_3_eq (c : Dev nD) (t : Fin cfg10.N) (h : (cfg10.win 3).flush t = true) :
    (dat10 V c).flushed 3 t = ((cfg10.win 3).blk t).view.read (Elt Ideal) (k10_pay7 (scr10 V c 10).1 (scr10 V c 10).2) := by
  show (cfg10.win 3).cut (grid10.coords t) ((dat10 V c).after 3 t) = _
  rw [after10_3, last10_of_flush_3 t h]
  funext j
  rw [View.read_apply, emb10_3]
  rfl

/-- The last point's block covers the whole output row. -/
theorem cover10_2 (i : S1x32.Idx) : ∃ t : Fin cfg10.N, (cfg10.win 2).flush t = true ∧ i ∈ ((cfg10.win 2).blk t).view.set := by
  have hi0 : (i 0).val < 1 := (i 0).isLt
  have hi1 : (i 1).val < 32 := (i 1).isLt
  obtain ⟨-, -, -, -, e0, e1, -⟩ := idx10 t10_9
  refine ⟨t10_9, (flush10_2 t10_9).mpr (by decide), ?_⟩
  show i ∈ ((View.whole main_v135_0).slice (win10_2.rect t10_9)).set
  rw [View.set_slice_whole, Rect.mem_set_unit]
  intro a
  match a with
  | ⟨0, _⟩ =>
    show win10_2.index t10_9 (0 : Fin 2) * 1 ≤ (i 0).val ∧ (i 0).val < win10_2.index t10_9 (0 : Fin 2) * 1 + 1
    rw [e0]; omega
  | ⟨1, _⟩ =>
    show win10_2.index t10_9 (1 : Fin 2) * 32 ≤ (i 1).val ∧ (i 1).val < win10_2.index t10_9 (1 : Fin 2) * 32 + 32
    rw [e1]; omega
theorem cover10_3 (i : S1x32.Idx) : ∃ t : Fin cfg10.N, (cfg10.win 3).flush t = true ∧ i ∈ ((cfg10.win 3).blk t).view.set := by
  have hi0 : (i 0).val < 1 := (i 0).isLt
  have hi1 : (i 1).val < 32 := (i 1).isLt
  obtain ⟨-, -, -, -, -, -, e0, e1⟩ := idx10 t10_9
  refine ⟨t10_9, (flush10_3 t10_9).mpr (by decide), ?_⟩
  show i ∈ ((View.whole main_v135_1).slice (win10_3.rect t10_9)).set
  rw [View.set_slice_whole, Rect.mem_set_unit]
  intro a
  match a with
  | ⟨0, _⟩ =>
    show win10_3.index t10_9 (0 : Fin 2) * 1 ≤ (i 0).val ∧ (i 0).val < win10_3.index t10_9 (0 : Fin 2) * 1 + 1
    rw [e0]; omega
  | ⟨1, _⟩ =>
    show win10_3.index t10_9 (1 : Fin 2) * 32 ≤ (i 1).val ∧ (i 1).val < win10_3.index t10_9 (1 : Fin 2) * 32 + 32
    rw [e1]; omega

/-- THE MEAN'S ARRAY after the region: the body's mean term of the final sums row, -/
theorem final10_2 (c : Dev nD) : (dat10 V c).arrAt 2 cfg10.N = k10_pay6 (scr10 V c 10).1 :=
  (dat10 V c).arrAt_eq_of_cover 2 (k10_pay6 (scr10 V c 10).1) (fun t h => flushed10_2_eq V c t h) cover10_2
/-- THE VARIANCE'S ARRAY after the region: the body's variance term of the two final rows. -/
theorem final10_3 (c : Dev nD) : (dat10 V c).arrAt 3 cfg10.N = k10_pay7 (scr10 V c 10).1 (scr10 V c 10).2 :=
  (dat10 V c).arrAt_eq_of_cover 3 (k10_pay7 (scr10 V c 10).1 (scr10 V c 10).2) (fun t h => flushed10_3_eq V c t h) cover10_3

/-- Entry by entry: the mean of column o over the 100000 rows, -/
theorem mean10_value (c : Dev nD) (o : Fin 32) :
    ((dat10 V c).arrAt 2 cfg10.N : S1x32.Idx → EReal) (ix2 (0 : Fin 1) o)
      = Ideal.div (∑ n : Fin 100000, aggb10 V c n o) (Ideal.ofBits .f32 0x47C35000#32) := by
  rw [final10_2]
  exact (pay10_6_apply _ o).trans (congrArg (fun z : EReal => Ideal.div z (Ideal.ofBits .f32 0x47C35000#32)) (scr10_sum V c o))

/-- and the one-pass variance: the mean of squares less the squared mean. -/
theorem var10_value (c : Dev nD) (o : Fin 32) :
    ((dat10 V c).arrAt 3 cfg10.N : S1x32.Idx → EReal) (ix2 (0 : Fin 1) o)
      = Ideal.div (∑ n : Fin 100000, aggb10 V c n o * aggb10 V c n o) (Ideal.ofBits .f32 0x47C35000#32)
        - Ideal.div (∑ n : Fin 100000, aggb10 V c n o) (Ideal.ofBits .f32 0x47C35000#32) * Ideal.div (∑ n : Fin 100000, aggb10 V c n o) (Ideal.ofBits .f32 0x47C35000#32) := by
  rw [final10_3]
  refine (pay10_7_apply _ _ o).trans ?_
  rw [scr10_sum V c o, scr10_sumsq V c o]

end Value10

end Cert.KernelIdeal.Hand

end
-- ==== Proof.KI.Val13.lean ====
import proofs.«109725_j21638045237575_1_alg».proof.Proof.KI.Reg13
import proofs.«109725_j21638045237575_1_alg».proof.Proof.LibGcnStats
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! # What the statistics kernel of the fifth layer (16 columns) computes, at the exact reals

Read at the extended reals the two carried rows after the ten points are, column by column, the sum and the sum of
squares of (aggregated row + bias) over all 100000 rows, and the two outputs the mean and the mean of squares less
the squared mean. -/

section Value13

variable (V : (c : Dev nD) → (b : Ref sig .tc) → Buf (Elt Ideal) ((c : Thread nD τ).loc b))

/-! ## The payloads at an index -/

/-- The source index of the column reduction: row k of column o. -/
theorem lift13 (o : Fin 16) (k : Fin 10000) : reduces_S10000x16_S16.lift (ix1 o) k = ix2 k o := by
  funext c; apply Fin.ext
  show reduces_S10000x16_S16.liftVal (ix1 o) k.val c = (ix2 k o c).val
  unfold Shape.Reduces.liftVal
  match c with
  | ⟨0, _⟩ => rfl
  | ⟨1, _⟩ => rfl

/-- A reduction down the rows of a block is the column's plain sum. -/
theorem colsum13 (x : FVec Ideal S10000x16 .f32) (o : Fin 16) :
    (multiReduction (F := Ideal) .add [0] S16 x 0x00000000#32 reduces_S10000x16_S16 (.inl rfl) rfl : S16.Idx → EReal) (ix1 o)
      = ∑ r : Fin 10000, (x (ix2 r o) : EReal) :=
  (Ideal.multiReduction_add_single x 0x00000000#32 reduces_S10000x16_S16 (.inl rfl) rfl (ix1 o)).trans
    (Finset.sum_congr rfl fun k _ => congrArg x (lift13 o k))

/-- The zeroed row. -/
theorem pay13_1_apply (o : Fin 16) : (k13_pay1 (F := Ideal) : S1x16.Idx → EReal) (ix2 (0 : Fin 1) o) = 0 := by
  unfold k13_pay1
  refine (congrFun (shapeCast_self _ _) _).trans ?_
  exact Ideal.ofBits_zero_f32
theorem pay13_2_apply (o : Fin 16) : (k13_pay2 (F := Ideal) : S1x16.Idx → EReal) (ix2 (0 : Fin 1) o) = 0 := by
  unfold k13_pay2
  refine (congrFun (shapeCast_self _ _) _).trans ?_
  exact Ideal.ofBits_zero_f32

/-- Block plus bias, entry by entry. -/
theorem pay13_3_apply (x : Vec Ideal S10000x16 .f32) (b : Vec Ideal S1x16 .f32) (r : Fin 10000) (o : Fin 16) :
    (k13_pay3 x b : S10000x16.Idx → EReal) (ix2 r o) = (x (ix2 r o) : EReal) + (b (ix2 (0 : Fin 1) o) : EReal) := by
  unfold k13_pay3
  refine (addf_apply _ _ _).trans ?_
  refine congrArg₂ (fun u v : EReal => u + v) (congrFun (shapeCast_self _ _) _) ?_
  refine (broadcastTo_1b_ab_apply _ _ r o).trans ?_
  exact congrFun (shapeCast_self _ _) _

/-- The sums row after a point: what it held plus the block's column sum of (row + bias). -/
theorem pay13_4_apply (x : Vec Ideal S10000x16 .f32) (b s : Vec Ideal S1x16 .f32) (o : Fin 16) :
    (k13_pay4 x b s : S1x16.Idx → EReal) (ix2 (0 : Fin 1) o)
      = (s (ix2 (0 : Fin 1) o) : EReal) + ∑ r : Fin 10000, ((x (ix2 r o) : EReal) + (b (ix2 (0 : Fin 1) o) : EReal)) := by
  unfold k13_pay4
  refine (congrFun (shapeCast_self _ _) _).trans ?_
  refine (addf_apply _ _ _).trans ?_
  refine congrArg (fun z : EReal => (s (ix2 (0 : Fin 1) o) : EReal) + z) ?_
  refine (shapeCast_a_1a_apply _ _ (0 : Fin 1) o).trans ?_
  refine (colsum13 _ o).trans ?_
  exact Finset.sum_congr rfl fun r _ => pay13_3_apply x b r o

/-- The sums-of-squares row after a point. -/
theorem pay13_5_apply (x : Vec Ideal S10000x16 .f32) (b s : Vec Ideal S1x16 .f32) (o : Fin 16) :
    (k13_pay5 x b s : S1x16.Idx → EReal) (ix2 (0 : Fin 1) o)
      = (s (ix2 (0 : Fin 1) o) : EReal) + ∑ r : Fin 10000,
          ((x (ix2 r o) : EReal) + (b (ix2 (0 : Fin 1) o) : EReal)) * ((x (ix2 r o) : EReal) + (b (ix2 (0 : Fin 1) o) : EReal)) := by
  unfold k13_pay5
  refine (congrFun (shapeCast_self _ _) _).trans ?_
  refine (addf_apply _ _ _).trans ?_
  refine congrArg (fun z : EReal => (s (ix2 (0 : Fin 1) o) : EReal) + z) ?_
  refine (shapeCast_a_1a_apply _ _ (0 : Fin 1) o).trans ?_
  refine (colsum13 _ o).trans ?_
  refine Finset.sum_congr rfl fun r _ => ?_
  refine (mulf_apply _ _ _).trans ?_
  exact congrArg₂ (fun u v : EReal => u * v) (pay13_3_apply x b r o) (pay13_3_apply x b r o)

/-- The mean: the sums row over the number of rows. -/
theorem pay13_6_apply (s : Vec Ideal S1x16 .f32) (o : Fin 16) :
    (k13_pay6 s : S1x16.Idx → EReal) (ix2 (0 : Fin 1) o)
      = Ideal.div (s (ix2 (0 : Fin 1) o)) (Ideal.ofBits .f32 0x47C35000#32) := by
  unfold k13_pay6
  exact divf_apply _ _ _

/-- The variance: the sums-of-squares row over the number of rows, less the squared mean. -/
theorem pay13_7_apply (s q : Vec Ideal S1x16 .f32) (o : Fin 16) :
    (k13_pay7 s q : S1x16.Idx → EReal) (ix2 (0 : Fin 1) o)
      = Ideal.div (q (ix2 (0 : Fin 1) o)) (Ideal.ofBits .f32 0x47C35000#32)
        - Ideal.div (s (ix2 (0 : Fin 1) o)) (Ideal.ofBits .f32 0x47C35000#32)
          * Ideal.div (s (ix2 (0 : Fin 1) o)) (Ideal.ofBits .f32 0x47C35000#32) := by
  unfold k13_pay7
  refine (subf_apply _ _ _).trans ?_
  refine congrArg₂ (fun u v : EReal => u - v) (divf_apply _ _ _) ?_
  refine (mulf_apply _ _ _).trans ?_
  exact congrArg₂ (fun u v : EReal => u * v) (pay13_6_apply s o) (pay13_6_apply s o)

/-! ## The input blocks as entries of the arrays -/

/-- The printed index maps, decided over the ten grid points: the block of aggregated rows is at block row t, the bias
    row and the two outputs at block (0, 0). -/
theorem idx13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0 :=
  (by decide +kernel : ∀ t : Fin grid13.N, _)

/-- The block of aggregated rows at point t is rows 10000 t … 10000 t + 9999 of the array. -/
theorem iblk13_0_apply (c : Dev nD) (t : Fin cfg13.N) (y : S10000x16.Idx) (k : S100000x16.Idx)
    (hk0 : (k 0).val = 10000 * t.val + (y 0).val) (hk1 : (k 1).val = (y 1).val) :
    (iblk13 V c 0 t : Vec Ideal S10000x16 .f32) y = (V c main_v160 : S100000x16.Idx → Elt Ideal .f32) k := by
  obtain ⟨e0, e1, -⟩ := idx13 t
  unfold iblk13
  rw [View.read_apply]
  show V c main_v160 _ = V c main_v160 _
  congr 1
  funext a
  apply Fin.ext
  match a with
  | ⟨0, _⟩ => show win13_0.index t 0 * 10000 + 1 * (y 0).val = (k 0).val; rw [e0, hk0]; omega
  | ⟨1, _⟩ => show win13_0.index t 1 * 16 + 1 * (y 1).val = (k 1).val; rw [e1, hk1]; omega

/-- The bias row's block at every point is the whole row. -/
theorem iblk13_1_apply (c : Dev nD) (t : Fin cfg13.N) (y : S1x16.Idx) :
    (iblk13 V c 1 t : Vec Ideal S1x16 .f32) y = (V c main_v161 : S1x16.Idx → Elt Ideal .f32) y := by
  obtain ⟨-, -, e0, e1, -⟩ := idx13 t
  unfold iblk13
  rw [View.read_apply]
  show V c main_v161 _ = V c main_v161 _
  congr 1
  funext a
  apply Fin.ext
  match a with
  | ⟨0, _⟩ => show win13_1.index t 0 * 1 + 1 * (y 0).val = (y 0).val; rw [e0]; omega
  | ⟨1, _⟩ => show win13_1.index t 1 * 16 + 1 * (y 1).val = (y 1).val; rw [e1]; omega

/-! ## The carried rows after the ten points -/

/-- What the statistics are taken of is the aggregated row plus the bias, of the two arrays as the region finds them:
    the aggregated features, -/
def agg13 (c : Dev nD) : S100000x16.Idx → EReal := V c main_v160
/-- The bias row as the region finds it. -/
def bias13 (c : Dev nD) : S1x16.Idx → EReal := V c main_v161
/-- Their sum, entry (n, o). -/
def aggb13 (c : Dev nD) (n : Fin 100000) (o : Fin 16) : EReal :=
  agg13 V c (ix2 n o) + bias13 V c (ix2 (0 : Fin 1) o)

/-- One point's step of the sums row, read at column o: tile t's column sum is added. -/
theorem scr13_fst_step (c : Dev nD) (o : Fin 16) (t : Fin 10) :
    ((scr13 V c (t.val + 1)).1 : S1x16.Idx → EReal) (ix2 (0 : Fin 1) o)
      = ((scr13 V c t.val).1 : S1x16.Idx → EReal) (ix2 (0 : Fin 1) o)
        + ∑ i : Fin 10000, aggb13 V c ⟨10000 * t.val + i.val, by have := t.isLt; have := i.isLt; omega⟩ o := by
  have hN : cfg13.N = 10 := N_13
  have e := scr13_succ V c (⟨t.val, by have := t.isLt; omega⟩ : Fin cfg13.N)
  rw [show scr13 V c (t.val + 1) = _ from e]
  refine (pay13_4_apply _ _ _ o).trans ?_
  refine congrArg (fun z : EReal => ((scr13 V c t.val).1 : S1x16.Idx → EReal) (ix2 (0 : Fin 1) o) + z) ?_
  refine Finset.sum_congr rfl fun i _ => ?_
  exact congrArg₂ (fun u v : EReal => u + v)
    (iblk13_0_apply V c _ (ix2 i o) (ix2 ⟨10000 * t.val + i.val, by have := t.isLt; have := i.isLt; omega⟩ o) rfl rfl)
    (iblk13_1_apply V c _ (ix2 (0 : Fin 1) o))

/-- and of the sums-of-squares row. -/
theorem scr13_snd_step (c : Dev nD) (o : Fin 16) (t : Fin 10) :
    ((scr13 V c (t.val + 1)).2 : S1x16.Idx → EReal) (ix2 (0 : Fin 1) o)
      = ((scr13 V c t.val).2 : S1x16.Idx → EReal) (ix2 (0 : Fin 1) o)
        + ∑ i : Fin 10000, aggb13 V c ⟨10000 * t.val + i.val, by have := t.isLt; have := i.isLt; omega⟩ o
            * aggb13 V c ⟨10000 * t.val + i.val, by have := t.isLt; have := i.isLt; omega⟩ o := by
  have hN : cfg13.N = 10 := N_13
  have e := scr13_succ V c (⟨t.val, by have := t.isLt; omega⟩ : Fin cfg13.N)
  rw [show scr13 V c (t.val + 1) = _ from e]
  refine (pay13_5_apply _ _ _ o).trans ?_
  refine congrArg (fun z : EReal => ((scr13 V c t.val).2 : S1x16.Idx → EReal) (ix2 (0 : Fin 1) o) + z) ?_
  refine Finset.sum_congr rfl fun i _ => ?_
  have hx := congrArg₂ (fun u v : EReal => u + v)
    (iblk13_0_apply V c (⟨t.val, by have := t.isLt; omega⟩ : Fin cfg13.N) (ix2 i o) (ix2 ⟨10000 * t.val + i.val, by have := t.isLt; have := i.isLt; omega⟩ o) rfl rfl)
    (iblk13_1_apply V c (⟨t.val, by have := t.isLt; omega⟩ : Fin cfg13.N) (ix2 (0 : Fin 1) o))
  exact congrArg₂ (fun u v : EReal => u * v) hx hx

/-- AFTER THE TEN POINTS the sums row holds, column by column, the sum over all 100000 rows, -/
theorem scr13_sum (c : Dev nD) (o : Fin 16) :
    ((scr13 V c 10).1 : S1x16.Idx → EReal) (ix2 (0 : Fin 1) o) = ∑ n : Fin 100000, aggb13 V c n o :=
  Cert.LibGcn.acc_tiles10 (fun n => aggb13 V c n o) (fun t => ((scr13 V c t).1 : S1x16.Idx → EReal) (ix2 (0 : Fin 1) o))
    (by rw [scr13_zero]; exact pay13_1_apply o) (fun t => scr13_fst_step V c o t)

/-- and the sums-of-squares row the sum of squares. -/
theorem scr13_sumsq (c : Dev nD) (o : Fin 16) :
    ((scr13 V c 10).2 : S1x16.Idx → EReal) (ix2 (0 : Fin 1) o) = ∑ n : Fin 100000, aggb13 V c n o * aggb13 V c n o :=
  Cert.LibGcn.acc_tiles10 (fun n => aggb13 V c n o * aggb13 V c n o) (fun t => ((scr13 V c t).2 : S1x16.Idx → EReal) (ix2 (0 : Fin 1) o))
    (by rw [scr13_zero]; exact pay13_2_apply o) (fun t => scr13_snd_step V c o t)

/-! ## The two outputs' arrays after the region -/

/-- The one block of an output row is the whole row, and only the last point writes it back. -/
theorem emb13_2 (t : Fin cfg13.N) (j : S1x16.Idx) : ((cfg13.win 2).blk t).view.emb j = j := by
  obtain ⟨-, -, -, -, e0, e1, -⟩ := idx13 t
  funext a
  apply Fin.ext
  match a with
  | ⟨0, _⟩ => show win13_2.index t 0 * 1 + 1 * (j 0).val = (j 0).val; rw [e0]; omega
  | ⟨1, _⟩ => show win13_2.index t 1 * 16 + 1 * (j 1).val = (j 1).val; rw [e1]; omega
theorem emb13_3 (t : Fin cfg13.N) (j : S1x16.Idx) : ((cfg13.win 3).blk t).view.emb j = j := by
  obtain ⟨-, -, -, -, -, -, e0, e1⟩ := idx13 t
  funext a
  apply Fin.ext
  match a with
  | ⟨0, _⟩ => show win13_3.index t 0 * 1 + 1 * (j 0).val = (j 0).val; rw [e0]; omega
  | ⟨1, _⟩ => show win13_3.index t 1 * 16 + 1 * (j 1).val = (j 1).val; rw [e1]; omega

/-- The last point is point 9. -/
theorem last13_of_flush_2 (t : Fin cfg13.N) (h : (cfg13.win 2).flush t = true) : t.val + 1 = 10 := by
  have hN : cfg13.N = 10 := N_13
  have := (flush13_2 t).mp h; have := t.isLt; omega
theorem last13_of_flush_3 (t : Fin cfg13.N) (h : (cfg13.win 3).flush t = true) : t.val + 1 = 10 := by
  have hN : cfg13.N = 10 := N_13
  have := (flush13_3 t).mp h; have := t.isLt; omega

/-- WHAT THE LAST POINT WRITES BACK into the mean's array is the whole row of means of the final sums row, -/
theorem flushed13_2_eq (c : Dev nD) (t : Fin cfg13.N) (h : (cfg13.win 2).flush t = true) :
    (dat13 V c).flushed 2 t = ((cfg13.win 2).blk t).view.read (Elt Ideal) (k13_pay6 (scr13 V c 10).1) := by
  show (cfg13.win 2).cut (grid13.coords t) ((dat13 V c).after 2 t) = _
  rw [after13_2, last13_of_flush_2 t h]
  funext j
  rw [View.read_apply, emb13_2]
  rfl
/-- and into the variance's array the whole row of variances. -/
theorem flushed13_3_eq (c : Dev nD) (t : Fin cfg13.N) (h : (cfg13.win 3).flush t = true) :
    (dat13 V c).flushed 3 t = ((cfg13.win 3).blk t).view.read (Elt Ideal) (k13_pay7 (scr13 V c 10).1 (scr13 V c 10).2) := by
  show (cfg13.win 3).cut (grid13.coords t) ((dat13 V c).after 3 t) = _
  rw [after13_3, last13_of_flush_3 t h]
  funext j
  rw [View.read_apply, emb13_3]
  rfl

/-- The last point's block covers the whole output row. -/
theorem cover13_2 (i : S1x16.Idx) : ∃ t : Fin cfg13.N, (cfg13.win 2).flush t = true ∧ i ∈ ((cfg13.win 2).blk t).view.set := by
  have hi0 : (i 0).val < 1 := (i 0).isLt
  have hi1 : (i 1).val < 16 := (i 1).isLt
  obtain ⟨-, -, -, -, e0, e1, -⟩ := idx13 t13_9
  refine ⟨t13_9, (flush13_2 t13_9).mpr (by decide), ?_⟩
  show i ∈ ((View.whole main_v162_0).slice (win13_2.rect t13_9)).set
  rw [View.set_slice_whole, Rect.mem_set_unit]
  intro a
  match a with
  | ⟨0, _⟩ =>
    show win13_2.index t13_9 (0 : Fin 2) * 1 ≤ (i 0).val ∧ (i 0).val < win13_2.index t13_9 (0 : Fin 2) * 1 + 1
    rw [e0]; omega
  | ⟨1, _⟩ =>
    show win13_2.index t13_9 (1 : Fin 2) * 16 ≤ (i 1).val ∧ (i 1).val < win13_2.index t13_9 (1 : Fin 2) * 16 + 16
    rw [e1]; omega
theorem cover13_3 (i : S1x16.Idx) : ∃ t : Fin cfg13.N, (cfg13.win 3).flush t = true ∧ i ∈ ((cfg13.win 3).blk t).view.set := by
  have hi0 : (i 0).val < 1 := (i 0).isLt
  have hi1 : (i 1).val < 16 := (i 1).isLt
  obtain ⟨-, -, -, -, -, -, e0, e1⟩ := idx13 t13_9
  refine ⟨t13_9, (flush13_3 t13_9).mpr (by decide), ?_⟩
  show i ∈ ((View.whole main_v162_1).slice (win13_3.rect t13_9)).set
  rw [View.set_slice_whole, Rect.mem_set_unit]
  intro a
  match a with
  | ⟨0, _⟩ =>
    show win13_3.index t13_9 (0 : Fin 2) * 1 ≤ (i 0).val ∧ (i 0).val < win13_3.index t13_9 (0 : Fin 2) * 1 + 1
    rw [e0]; omega
  | ⟨1, _⟩ =>
    show win13_3.index t13_9 (1 : Fin 2) * 16 ≤ (i 1).val ∧ (i 1).val < win13_3.index t13_9 (1 : Fin 2) * 16 + 16
    rw [e1]; omega

/-- THE MEAN'S ARRAY after the region: the body's mean term of the final sums row, -/
theorem final13_2 (c : Dev nD) : (dat13 V c).arrAt 2 cfg13.N = k13_pay6 (scr13 V c 10).1 :=
  (dat13 V c).arrAt_eq_of_cover 2 (k13_pay6 (scr13 V c 10).1) (fun t h => flushed13_2_eq V c t h) cover13_2
/-- THE VARIANCE'S ARRAY after the region: the body's variance term of the two final rows. -/
theorem final13_3 (c : Dev nD) : (dat13 V c).arrAt 3 cfg13.N = k13_pay7 (scr13 V c 10).1 (scr13 V c 10).2 :=
  (dat13 V c).arrAt_eq_of_cover 3 (k13_pay7 (scr13 V c 10).1 (scr13 V c 10).2) (fun t h => flushed13_3_eq V c t h) cover13_3

/-- Entry by entry: the mean of column o over the 100000 rows, -/
theorem mean13_value (c : Dev nD) (o : Fin 16) :
    ((dat13 V c).arrAt 2 cfg13.N : S1x16.Idx → EReal) (ix2 (0 : Fin 1) o)
      = Ideal.div (∑ n : Fin 100000, aggb13 V c n o) (Ideal.ofBits .f32 0x47C35000#32) := by
  rw [final13_2]
  exact (pay13_6_apply _ o).trans (congrArg (fun z : EReal => Ideal.div z (Ideal.ofBits .f32 0x47C35000#32)) (scr13_sum V c o))

/-- and the one-pass variance: the mean of squares less the squared mean. -/
theorem var13_value (c : Dev nD) (o : Fin 16) :
    ((dat13 V c).arrAt 3 cfg13.N : S1x16.Idx → EReal) (ix2 (0 : Fin 1) o)
      = Ideal.div (∑ n : Fin 100000, aggb13 V c n o * aggb13 V c n o) (Ideal.ofBits .f32 0x47C35000#32)
        - Ideal.div (∑ n : Fin 100000, aggb13 V c n o) (Ideal.ofBits .f32 0x47C35000#32) * Ideal.div (∑ n : Fin 100000, aggb13 V c n o) (Ideal.ofBits .f32 0x47C35000#32) := by
  rw [final13_3]
  refine (pay13_7_apply _ _ o).trans ?_
  rw [scr13_sum V c o, scr13_sumsq V c o]

end Value13

end Cert.KernelIdeal.Hand

end
-- ==== Proof.KI.KerStats.lean ====
/-
  The statistics kernels' results as plain functions of the aggregated table and the bias row, at the ideal values.

  A statistics region leaves two rows: the batch mean of column o of (aggregated row + bias) over the 100000 nodes,
  and its one-pass variance, the mean of the squares less the squared mean — both with the count as the kernel
  divides by it (the f32 word of 100000). `KerStats` is a family of such functions, one pair per layer, and
  `KerStats.Spec` says each statistics region's proof data leave exactly them, from whatever contents the region is
  entered. The concrete family `kerStats` is the two formulas; `kerStats_spec` reads them off the regions' values
  entry by entry.
-/
import proofs.«109725_j21638045237575_1_alg».proof.Proof.KI.Val1
import proofs.«109725_j21638045237575_1_alg».proof.Proof.KI.Val4
import proofs.«109725_j21638045237575_1_alg».proof.Proof.KI.Val7
import proofs.«109725_j21638045237575_1_alg».proof.Proof.KI.Val10
import proofs.«109725_j21638045237575_1_alg».proof.Proof.KI.Val13

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The statistics kernels' results, as a parameter -/

/-- Per layer, the batch mean and variance rows as functions of the aggregated table and the bias row. -/
structure KerStats where
  mean1 : (S100000x32.Idx → EReal) → (S1x32.Idx → EReal) → S1x32.Idx → EReal
  var1 : (S100000x32.Idx → EReal) → (S1x32.Idx → EReal) → S1x32.Idx → EReal
  mean2 : (S100000x128.Idx → EReal) → (S1x128.Idx → EReal) → S1x128.Idx → EReal
  var2 : (S100000x128.Idx → EReal) → (S1x128.Idx → EReal) → S1x128.Idx → EReal
  mean3 : (S100000x128.Idx → EReal) → (S1x128.Idx → EReal) → S1x128.Idx → EReal
  var3 : (S100000x128.Idx → EReal) → (S1x128.Idx → EReal) → S1x128.Idx → EReal
  mean4 : (S100000x32.Idx → EReal) → (S1x32.Idx → EReal) → S1x32.Idx → EReal
  var4 : (S100000x32.Idx → EReal) → (S1x32.Idx → EReal) → S1x32.Idx → EReal
  mean5 : (S100000x16.Idx → EReal) → (S1x16.Idx → EReal) → S1x16.Idx → EReal
  var5 : (S100000x16.Idx → EReal) → (S1x16.Idx → EReal) → S1x16.Idx → EReal

/-- Each statistics region leaves those rows, from whatever contents it is entered. -/
structure KerStats.Spec (S : KerStats) : Prop where
  m1 : ∀ (V : (c : Dev nD) → (b : Ref sig .tc) → Buf (Elt Ideal) ((c : Thread nD τ).loc b)) (c : Dev nD),
    (dat1 (F := Ideal) V c).arrAt 2 cfg1.N = S.mean1 (V c main_v52) (V c main_v53)
  v1 : ∀ (V : (c : Dev nD) → (b : Ref sig .tc) → Buf (Elt Ideal) ((c : Thread nD τ).loc b)) (c : Dev nD),
    (dat1 (F := Ideal) V c).arrAt 3 cfg1.N = S.var1 (V c main_v52) (V c main_v53)
  m2 : ∀ (V : (c : Dev nD) → (b : Ref sig .tc) → Buf (Elt Ideal) ((c : Thread nD τ).loc b)) (c : Dev nD),
    (dat4 (F := Ideal) V c).arrAt 2 cfg4.N = S.mean2 (V c main_v79) (V c main_v80)
  v2 : ∀ (V : (c : Dev nD) → (b : Ref sig .tc) → Buf (Elt Ideal) ((c : Thread nD τ).loc b)) (c : Dev nD),
    (dat4 (F := Ideal) V c).arrAt 3 cfg4.N = S.var2 (V c main_v79) (V c main_v80)
  m3 : ∀ (V : (c : Dev nD) → (b : Ref sig .tc) → Buf (Elt Ideal) ((c : Thread nD τ).loc b)) (c : Dev nD),
    (dat7 (F := Ideal) V c).arrAt 2 cfg7.N = S.mean3 (V c main_v106) (V c main_v107)
  v3 : ∀ (V : (c : Dev nD) → (b : Ref sig .tc) → Buf (Elt Ideal) ((c : Thread nD τ).loc b)) (c : Dev nD),
    (dat7 (F := Ideal) V c).arrAt 3 cfg7.N = S.var3 (V c main_v106) (V c main_v107)
  m4 : ∀ (V : (c : Dev nD) → (b : Ref sig .tc) → Buf (Elt Ideal) ((c : Thread nD τ).loc b)) (c : Dev nD),
    (dat10 (F := Ideal) V c).arrAt 2 cfg10.N = S.mean4 (V c main_v133) (V c main_v134)
  v4 : ∀ (V : (c : Dev nD) → (b : Ref sig .tc) → Buf (Elt Ideal) ((c : Thread nD τ).loc b)) (c : Dev nD),
    (dat10 (F := Ideal) V c).arrAt 3 cfg10.N = S.var4 (V c main_v133) (V c main_v134)
  m5 : ∀ (V : (c : Dev nD) → (b : Ref sig .tc) → Buf (Elt Ideal) ((c : Thread nD τ).loc b)) (c : Dev nD),
    (dat13 (F := Ideal) V c).arrAt 2 cfg13.N = S.mean5 (V c main_v160) (V c main_v161)
  v5 : ∀ (V : (c : Dev nD) → (b : Ref sig .tc) → Buf (Elt Ideal) ((c : Thread nD τ).loc b)) (c : Dev nD),
    (dat13 (F := Ideal) V c).arrAt 3 cfg13.N = S.var5 (V c main_v160) (V c main_v161)

/-! ## The two formulas -/

/-- The batch mean row: column o of (table + bias row), summed over the rows and divided by the count. -/
def statMean {R N : Nat} (A : (⟨2, ![R, N]⟩ : Shape).Idx → EReal) (B : (⟨2, ![1, N]⟩ : Shape).Idx → EReal) :
    (⟨2, ![1, N]⟩ : Shape).Idx → EReal := fun i =>
  Ideal.div (∑ n : Fin R, (A (ix2 n (i 1)) + B (ix2 (0 : Fin 1) (i 1)))) (Ideal.ofBits .f32 0x47C35000#32)

/-- The one-pass batch variance row: the mean of the squares less the squared mean. -/
def statVar {R N : Nat} (A : (⟨2, ![R, N]⟩ : Shape).Idx → EReal) (B : (⟨2, ![1, N]⟩ : Shape).Idx → EReal) :
    (⟨2, ![1, N]⟩ : Shape).Idx → EReal := fun i =>
  Ideal.div (∑ n : Fin R, (A (ix2 n (i 1)) + B (ix2 (0 : Fin 1) (i 1))) * (A (ix2 n (i 1)) + B (ix2 (0 : Fin 1) (i 1))))
      (Ideal.ofBits .f32 0x47C35000#32)
    - statMean A B i * statMean A B i

/-- The five layers' statistics. -/
def kerStats : KerStats where
  mean1 := statMean (R := 100000) (N := 32)
  var1 := statVar (R := 100000) (N := 32)
  mean2 := statMean (R := 100000) (N := 128)
  var2 := statVar (R := 100000) (N := 128)
  mean3 := statMean (R := 100000) (N := 128)
  var3 := statVar (R := 100000) (N := 128)
  mean4 := statMean (R := 100000) (N := 32)
  var4 := statVar (R := 100000) (N := 32)
  mean5 := statMean (R := 100000) (N := 16)
  var5 := statVar (R := 100000) (N := 16)

/-! ## Each statistics region leaves them: the regions' values, entry by entry (a row has the one row index 0) -/

theorem stat1_mean (V : (c : Dev nD) → (b : Ref sig .tc) → Buf (Elt Ideal) ((c : Thread nD τ).loc b)) (c : Dev nD) :
    (dat1 (F := Ideal) V c).arrAt 2 cfg1.N = statMean (R := 100000) (N := 32) (V c main_v52) (V c main_v53) := by
  show ((dat1 (F := Ideal) V c).arrAt 2 cfg1.N : S1x32.Idx → EReal) = _
  funext i
  obtain ⟨z, o, rfl⟩ : ∃ (z : Fin 1) (o : Fin 32), i = ix2 z o := ⟨i 0, i 1, eq_ix2 i⟩
  obtain rfl : z = 0 := Subsingleton.elim _ _
  exact mean1_value V c o
theorem stat1_var (V : (c : Dev nD) → (b : Ref sig .tc) → Buf (Elt Ideal) ((c : Thread nD τ).loc b)) (c : Dev nD) :
    (dat1 (F := Ideal) V c).arrAt 3 cfg1.N = statVar (R := 100000) (N := 32) (V c main_v52) (V c main_v53) := by
  show ((dat1 (F := Ideal) V c).arrAt 3 cfg1.N : S1x32.Idx → EReal) = _
  funext i
  obtain ⟨z, o, rfl⟩ : ∃ (z : Fin 1) (o : Fin 32), i = ix2 z o := ⟨i 0, i 1, eq_ix2 i⟩
  obtain rfl : z = 0 := Subsingleton.elim _ _
  exact var1_value V c o

theorem stat4_mean (V : (c : Dev nD) → (b : Ref sig .tc) → Buf (Elt Ideal) ((c : Thread nD τ).loc b)) (c : Dev nD) :
    (dat4 (F := Ideal) V c).arrAt 2 cfg4.N = statMean (R := 100000) (N := 128) (V c main_v79) (V c main_v80) := by
  show ((dat4 (F := Ideal) V c).arrAt 2 cfg4.N : S1x128.Idx → EReal) = _
  funext i
  obtain ⟨z, o, rfl⟩ : ∃ (z : Fin 1) (o : Fin 128), i = ix2 z o := ⟨i 0, i 1, eq_ix2 i⟩
  obtain rfl : z = 0 := Subsingleton.elim _ _
  exact mean4_value V c o
theorem stat4_var (V : (c : Dev nD) → (b : Ref sig .tc) → Buf (Elt Ideal) ((c : Thread nD τ).loc b)) (c : Dev nD) :
    (dat4 (F := Ideal) V c).arrAt 3 cfg4.N = statVar (R := 100000) (N := 128) (V c main_v79) (V c main_v80) := by
  show ((dat4 (F := Ideal) V c).arrAt 3 cfg4.N : S1x128.Idx → EReal) = _
  funext i
  obtain ⟨z, o, rfl⟩ : ∃ (z : Fin 1) (o : Fin 128), i = ix2 z o := ⟨i 0, i 1, eq_ix2 i⟩
  obtain rfl : z = 0 := Subsingleton.elim _ _
  exact var4_value V c o

theorem stat7_mean (V : (c : Dev nD) → (b : Ref sig .tc) → Buf (Elt Ideal) ((c : Thread nD τ).loc b)) (c : Dev nD) :
    (dat7 (F := Ideal) V c).arrAt 2 cfg7.N = statMean (R := 100000) (N := 128) (V c main_v106) (V c main_v107) := by
  show ((dat7 (F := Ideal) V c).arrAt 2 cfg7.N : S1x128.Idx → EReal) = _
  funext i
  obtain ⟨z, o, rfl⟩ : ∃ (z : Fin 1) (o : Fin 128), i = ix2 z o := ⟨i 0, i 1, eq_ix2 i⟩
  obtain rfl : z = 0 := Subsingleton.elim _ _
  exact mean7_value V c o
theorem stat7_var (V : (c : Dev nD) → (b : Ref sig .tc) → Buf (Elt Ideal) ((c : Thread nD τ).loc b)) (c : Dev nD) :
    (dat7 (F := Ideal) V c).arrAt 3 cfg7.N = statVar (R := 100000) (N := 128) (V c main_v106) (V c main_v107) := by
  show ((dat7 (F := Ideal) V c).arrAt 3 cfg7.N : S1x128.Idx → EReal) = _
  funext i
  obtain ⟨z, o, rfl⟩ : ∃ (z : Fin 1) (o : Fin 128), i = ix2 z o := ⟨i 0, i 1, eq_ix2 i⟩
  obtain rfl : z = 0 := Subsingleton.elim _ _
  exact var7_value V c o

theorem stat10_mean (V : (c : Dev nD) → (b : Ref sig .tc) → Buf (Elt Ideal) ((c : Thread nD τ).loc b)) (c : Dev nD) :
    (dat10 (F := Ideal) V c).arrAt 2 cfg10.N = statMean (R := 100000) (N := 32) (V c main_v133) (V c main_v134) := by
  show ((dat10 (F := Ideal) V c).arrAt 2 cfg10.N : S1x32.Idx → EReal) = _
  funext i
  obtain ⟨z, o, rfl⟩ : ∃ (z : Fin 1) (o : Fin 32), i = ix2 z o := ⟨i 0, i 1, eq_ix2 i⟩
  obtain rfl : z = 0 := Subsingleton.elim _ _
  exact mean10_value V c o
theorem stat10_var (V : (c : Dev nD) → (b : Ref sig .tc) → Buf (Elt Ideal) ((c : Thread nD τ).loc b)) (c : Dev nD) :
    (dat10 (F := Ideal) V c).arrAt 3 cfg10.N = statVar (R := 100000) (N := 32) (V c main_v133) (V c main_v134) := by
  show ((dat10 (F := Ideal) V c).arrAt 3 cfg10.N : S1x32.Idx → EReal) = _
  funext i
  obtain ⟨z, o, rfl⟩ : ∃ (z : Fin 1) (o : Fin 32), i = ix2 z o := ⟨i 0, i 1, eq_ix2 i⟩
  obtain rfl : z = 0 := Subsingleton.elim _ _
  exact var10_value V c o

theorem stat13_mean (V : (c : Dev nD) → (b : Ref sig .tc) → Buf (Elt Ideal) ((c : Thread nD τ).loc b)) (c : Dev nD) :
    (dat13 (F := Ideal) V c).arrAt 2 cfg13.N = statMean (R := 100000) (N := 16) (V c main_v160) (V c main_v161) := by
  show ((dat13 (F := Ideal) V c).arrAt 2 cfg13.N : S1x16.Idx → EReal) = _
  funext i
  obtain ⟨z, o, rfl⟩ : ∃ (z : Fin 1) (o : Fin 16), i = ix2 z o := ⟨i 0, i 1, eq_ix2 i⟩
  obtain rfl : z = 0 := Subsingleton.elim _ _
  exact mean13_value V c o
theorem stat13_var (V : (c : Dev nD) → (b : Ref sig .tc) → Buf (Elt Ideal) ((c : Thread nD τ).loc b)) (c : Dev nD) :
    (dat13 (F := Ideal) V c).arrAt 3 cfg13.N = statVar (R := 100000) (N := 16) (V c main_v160) (V c main_v161) := by
  show ((dat13 (F := Ideal) V c).arrAt 3 cfg13.N : S1x16.Idx → EReal) = _
  funext i
  obtain ⟨z, o, rfl⟩ : ∃ (z : Fin 1) (o : Fin 16), i = ix2 z o := ⟨i 0, i 1, eq_ix2 i⟩
  obtain rfl : z = 0 := Subsingleton.elim _ _
  exact var13_value V c o

/-- All five layers. -/
theorem kerStats_spec : kerStats.Spec where
  m1 := stat1_mean
  v1 := stat1_var
  m2 := stat4_mean
  v2 := stat4_var
  m3 := stat7_mean
  v3 := stat7_var
  m4 := stat10_mean
  v4 := stat10_var
  m5 := stat13_mean
  v5 := stat13_var

end Cert.KernelIdeal.Hand

end
-- ==== Proof.KI.Val0.lean ====
/-
  Region 0's value: the linear kernel y = x·W + bias at widths 6 → 32, read off the pipeline's proof data at the
  ideal values.

  At the ideal values a change of float format is the identity and the matrix product is the plain sum of
  products, so what a grid point leaves in the output window's staging buffer is, entry by entry, the sum over
  the 6 input features of x (row, k) · W (k, column), plus the bias row's entry.  Point t reads rows
  10000 t … 10000 t + 9999 of x and the whole of W and of the bias row, and writes back rows 10000 t … of the
  result; the ten blocks tile the 100000 rows, so after the region the result's array holds that function of the
  three arrays as the region found them, at every index.
-/
import proofs.«109725_j21638045237575_1_alg».proof.Proof.KI.Reg0
import proofs.«109725_j21638045237575_1_alg».proof.Proof.LibLinearTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

section Value0
-- the core's buffer contents when the region is entered, at the ideal values
variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the ten grid points: the row tiles of x and of the result are at block
    row t, the weight matrix and the bias row at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The payload at an index -/

/-- Entry (p, o) of the body's one stored value, from the three blocks it read: the plain sum of products plus the
    bias entry. -/
theorem pay0_apply (x0 : Vec Ideal S10000x6 .f32) (x1 : Vec Ideal S6x32 .f32) (x2 : Vec Ideal S1x32 .f32)
    (p : Fin 10000) (o : Fin 32) :
    (k0_pay1 x0 x1 x2 : S10000x32.Idx → EReal) (ix2 p o)
      = (∑ k : Fin 6, (x0 (ix2 p k) : EReal) * (x1 (ix2 k o) : EReal)) + (x2 (ix2 (0 : Fin 1) o) : EReal) := by
  unfold k0_pay1
  exact Cert.Lib.LinearTile.linear_tile_apply dot_S10000x6_S6x32_S10000x32_1_0_0_1_n_n rfl none x0 x1 x2
    bitsLt_bf16_f32 shapeCasts_S1x32_S1x32 broadcasts_S1x32_S10000x32 p o

/-! ## The input blocks as entries of the arrays -/

/-- The row tile of x at point t is rows 10000 t … 10000 t + 9999 of x. -/
theorem iblk0_0_apply (c : Dev nD) (t : Fin cfg0.N) (y : S10000x6.Idx) (k : S100000x6.Idx)
    (hk0 : (k 0).val = 10000 * t.val + (y 0).val) (hk1 : (k 1).val = (y 1).val) :
    (iblk0 V c 0 t : Vec Ideal S10000x6 .f32) y = (V c main_arg0 : S100000x6.Idx → Elt Ideal .f32) k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 10000 + 1 * (y 0).val = (k 0).val; rw [e0, hk0]; omega
  | ⟨1, _⟩ => show win0_0.index t 1 * 6 + 1 * (y 1).val = (k 1).val; rw [e1, hk1]; omega

/-- The weight matrix's block at every point is the whole matrix. -/
theorem iblk0_1_apply (c : Dev nD) (t : Fin cfg0.N) (y : S6x32.Idx) :
    (iblk0 V c 1 t : Vec Ideal S6x32 .f32) y = (V c main_arg2 : S6x32.Idx → Elt Ideal .f32) y := by
  obtain ⟨-, -, e0, e1, -⟩ := idx0 t
  unfold iblk0
  rw [View.read_apply]
  show V c main_arg2 _ = V c main_arg2 _
  congr 1
  funext a
  apply Fin.ext
  match a with
  | ⟨0, _⟩ => show win0_1.index t 0 * 6 + 1 * (y 0).val = (y 0).val; rw [e0]; omega
  | ⟨1, _⟩ => show win0_1.index t 1 * 32 + 1 * (y 1).val = (y 1).val; rw [e1]; omega

/-- The bias row's block at every point is the whole row. -/
theorem iblk0_2_apply (c : Dev nD) (t : Fin cfg0.N) (y : S1x32.Idx) :
    (iblk0 V c 2 t : Vec Ideal S1x32 .f32) y = (V c main_v33 : S1x32.Idx → Elt Ideal .f32) y := by
  obtain ⟨-, -, -, -, e0, e1, -⟩ := idx0 t
  unfold iblk0
  rw [View.read_apply]
  show V c main_v33 _ = V c main_v33 _
  congr 1
  funext a
  apply Fin.ext
  match a with
  | ⟨0, _⟩ => show win0_2.index t 0 * 1 + 1 * (y 0).val = (y 0).val; rw [e0]; omega
  | ⟨1, _⟩ => show win0_2.index t 1 * 32 + 1 * (y 1).val = (y 1).val; rw [e1]; omega

/-! ## The result as one function of the three arrays -/

/-- x·W + bias, index by index, of the three arrays as the region finds them. -/
def lin0 (c : Dev nD) : S100000x32.Idx → EReal :=
  Cert.Lib.LinearTile.linearAt (V c main_arg0) (V c main_arg2) (V c main_v33)

/-- What point t's body leaves at the block index y is that function at row 10000 t + y's row. -/
theorem point0 (c : Dev nD) (t : Fin cfg0.N) (y : S10000x32.Idx) (i : S100000x32.Idx)
    (hi0 : (i 0).val = 10000 * t.val + (y 0).val) (hi1 : (i 1).val = (y 1).val) :
    (k0_pay1 (iblk0 V c 0 t) (iblk0 V c 1 t) (iblk0 V c 2 t) : S10000x32.Idx → EReal) y = lin0 V c i := by
  obtain ⟨p, q, rfl⟩ : ∃ (p : Fin 10000) (q : Fin 32), y = ix2 p q := ⟨y 0, y 1, eq_ix2 y⟩
  obtain ⟨n, o, rfl⟩ : ∃ (n : Fin 100000) (o : Fin 32), i = ix2 n o := ⟨i 0, i 1, eq_ix2 i⟩
  obtain rfl : o = q := Fin.ext hi1
  refine (pay0_apply (iblk0 V c 0 t) (iblk0 V c 1 t) (iblk0 V c 2 t) p o).trans ?_
  unfold lin0
  rw [Cert.Lib.LinearTile.linearAt_apply]
  refine congrArg₂ (fun a b : EReal => a + b) (Finset.sum_congr rfl fun k _ => ?_) ?_
  · exact congrArg₂ (fun a b : EReal => a * b)
      (iblk0_0_apply V c t (ix2 p k) (ix2 n k) hi0 rfl) (iblk0_1_apply V c t (ix2 k o))
  · exact iblk0_2_apply V c t (ix2 (0 : Fin 1) o)

/-- WHAT POINT t WRITES BACK is block t of that function. -/
theorem flushed0_eq (c : Dev nD) (t : Fin cfg0.N) :
    (dat0 V c).flushed 3 t = ((cfg0.win 3).blk t).view.read (Elt Ideal) (lin0 V c) := by
  show (cfg0.win 3).cut (grid0.coords t) ((dat0 V c).after 3 t) = _
  rw [after0_3]
  unfold out0_3
  rw [View.canon_unit_zero hz0]
  simp only [View.ld_unit_zero (S := S10000x6) hz0, View.ld_unit_zero (S := S6x32) hz0, View.ld_unit_zero (S := S1x32) hz0]
  obtain ⟨-, -, -, -, -, -, e0, e1⟩ := idx0 t
  funext j
  refine point0 V c t j (((cfg0.win 3).blk t).view.emb j) ?_ ?_
  · show win0_3.index t 0 * 10000 + 1 * (j 0).val = 10000 * t.val + (j 0).val; rw [e0]; omega
  · show win0_3.index t 1 * 32 + 1 * (j 1).val = (j 1).val; rw [e1]; omega

/-! ## The ten blocks tile the array -/

/-- An index of the array is in point t's block iff each coordinate is in the block's range on its axis. -/
theorem mem_blk0 (t : Fin cfg0.N) (i : S100000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v34).slice (win0_3.rect t)).set ↔ _
  rw [View.set_slice_whole, Rect.mem_set_unit]
  exact Iff.rfl

/-- Every index of the result is in the block of the point its row's tile names. -/
theorem cover0 (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, -, -, e0, e1⟩ := idx0 t
  refine ⟨t, flush0_3 t, ?_⟩
  rw [mem_blk0]
  intro a
  match a with
  | ⟨0, _⟩ =>
    show win0_3.index t (0 : Fin 2) * 10000 ≤ (i 0).val ∧ (i 0).val < win0_3.index t (0 : Fin 2) * 10000 + 10000
    rw [e0, ht]; omega
  | ⟨1, _⟩ =>
    show win0_3.index t (1 : Fin 2) * 32 ≤ (i 1).val ∧ (i 1).val < win0_3.index t (1 : Fin 2) * 32 + 32
    rw [e1]; omega

/-! ## The array after the region -/

/-- THE RESULT'S ARRAY after the region is x·W + bias of the three arrays as the region found them. -/
theorem final0 (c : Dev nD) : (dat0 V c).arrAt 3 cfg0.N = lin0 V c :=
  (dat0 V c).arrAt_eq_of_cover 3 (lin0 V c) (fun t _ => flushed0_eq V c t) cover0

/-- The same, entry by entry. -/
theorem lin0_value (c : Dev nD) (n : Fin 100000) (o : Fin 32) :
    ((dat0 V c).arrAt 3 cfg0.N : S100000x32.Idx → EReal) (ix2 n o)
      = Cert.Lib.LinearTile.linearAt (V c main_arg0) (V c main_arg2) (V c main_v33) (ix2 n o) := by
  rw [final0]; rfl

/-- The same with the sum written out, over the three arrays named as functions on their literal index types. -/
theorem lin0_value_sum (c : Dev nD) (X : S100000x6.Idx → EReal) (W : S6x32.Idx → EReal) (B : S1x32.Idx → EReal)
    (hX : X = V c main_arg0) (hW : W = V c main_arg2) (hB : B = V c main_v33) (n : Fin 100000) (o : Fin 32) :
    ((dat0 V c).arrAt 3 cfg0.N : S100000x32.Idx → EReal) (ix2 n o)
      = (∑ k : Fin 6, X (ix2 n k) * W (ix2 k o)) + B (ix2 (0 : Fin 1) o) := by
  subst hX hW hB
  rw [final0]; rfl

end Value0

end Cert.KernelIdeal.Hand

end
-- ==== Proof.KI.Val3.lean ====
/-
  Region 3's value: the linear kernel y = x·W + bias at widths 32 → 128, read off the pipeline's proof data at the
  ideal values.

  At the ideal values a change of float format is the identity and the matrix product is the plain sum of
  products, so what a grid point leaves in the output window's staging buffer is, entry by entry, the sum over
  the 32 input features of x (row, k) · W (k, column), plus the bias row's entry.  Point t reads rows
  10000 t … 10000 t + 9999 of x and the whole of W and of the bias row, and writes back rows 10000 t … of the
  result; the ten blocks tile the 100000 rows, so after the region the result's array holds that function of the
  three arrays as the region found them, at every index.
-/
import proofs.«109725_j21638045237575_1_alg».proof.Proof.KI.Reg3
import proofs.«109725_j21638045237575_1_alg».proof.Proof.LibLinearTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

section Value3
-- the core's buffer contents when the region is entered, at the ideal values
variable (V : (c : Dev nD) → (b : Ref sig .tc) → Buf (Elt Ideal) ((c : Thread nD τ).loc b))

theorem hz3 : (![0, 0] : Fin 2 → Nat) = fun _ => 0 := funext fun a => by fin_cases a <;> rfl

/-- The printed index maps, decided over the ten grid points: the row tiles of x and of the result are at block
    row t, the weight matrix and the bias row at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-! ## The payload at an index -/

/-- Entry (p, o) of the body's one stored value, from the three blocks it read: the plain sum of products plus the
    bias entry. -/
theorem pay3_apply (x0 : Vec Ideal S10000x32 .f32) (x1 : Vec Ideal S32x128 .f32) (x2 : Vec Ideal S1x128 .f32)
    (p : Fin 10000) (o : Fin 128) :
    (k3_pay1 x0 x1 x2 : S10000x128.Idx → EReal) (ix2 p o)
      = (∑ k : Fin 32, (x0 (ix2 p k) : EReal) * (x1 (ix2 k o) : EReal)) + (x2 (ix2 (0 : Fin 1) o) : EReal) := by
  unfold k3_pay1
  exact Cert.Lib.LinearTile.linear_tile_cast_apply dot_S10000x32_S32x128_S10000x128_1_0_0_1_n_n rfl none x0 x1 x2
    bitsLt_bf16_f32 shapeCasts_S10000x32_S10000x32 shapeCasts_S1x128_S1x128 broadcasts_S1x128_S10000x128 p o

/-! ## The input blocks as entries of the arrays -/

/-- The row tile of x at point t is rows 10000 t … 10000 t + 9999 of x. -/
theorem iblk3_0_apply (c : Dev nD) (t : Fin cfg3.N) (y : S10000x32.Idx) (k : S100000x32.Idx)
    (hk0 : (k 0).val = 10000 * t.val + (y 0).val) (hk1 : (k 1).val = (y 1).val) :
    (iblk3 V c 0 t : Vec Ideal S10000x32 .f32) y = (V c main_v58 : S100000x32.Idx → Elt Ideal .f32) k := by
  obtain ⟨e0, e1, -⟩ := idx3 t
  unfold iblk3
  rw [View.read_apply]
  show V c main_v58 _ = V c main_v58 _
  congr 1
  funext a
  apply Fin.ext
  match a with
  | ⟨0, _⟩ => show win3_0.index t 0 * 10000 + 1 * (y 0).val = (k 0).val; rw [e0, hk0]; omega
  | ⟨1, _⟩ => show win3_0.index t 1 * 32 + 1 * (y 1).val = (k 1).val; rw [e1, hk1]; omega

/-- The weight matrix's block at every point is the whole matrix. -/
theorem iblk3_1_apply (c : Dev nD) (t : Fin cfg3.N) (y : S32x128.Idx) :
    (iblk3 V c 1 t : Vec Ideal S32x128 .f32) y = (V c main_arg6 : S32x128.Idx → Elt Ideal .f32) y := by
  obtain ⟨-, -, e0, e1, -⟩ := idx3 t
  unfold iblk3
  rw [View.read_apply]
  show V c main_arg6 _ = V c main_arg6 _
  congr 1
  funext a
  apply Fin.ext
  match a with
  | ⟨0, _⟩ => show win3_1.index t 0 * 32 + 1 * (y 0).val = (y 0).val; rw [e0]; omega
  | ⟨1, _⟩ => show win3_1.index t 1 * 128 + 1 * (y 1).val = (y 1).val; rw [e1]; omega

/-- The bias row's block at every point is the whole row. -/
theorem iblk3_2_apply (c : Dev nD) (t : Fin cfg3.N) (y : S1x128.Idx) :
    (iblk3 V c 2 t : Vec Ideal S1x128 .f32) y = (V c main_v60 : S1x128.Idx → Elt Ideal .f32) y := by
  obtain ⟨-, -, -, -, e0, e1, -⟩ := idx3 t
  unfold iblk3
  rw [View.read_apply]
  show V c main_v60 _ = V c main_v60 _
  congr 1
  funext a
  apply Fin.ext
  match a with
  | ⟨0, _⟩ => show win3_2.index t 0 * 1 + 1 * (y 0).val = (y 0).val; rw [e0]; omega
  | ⟨1, _⟩ => show win3_2.index t 1 * 128 + 1 * (y 1).val = (y 1).val; rw [e1]; omega

/-! ## The result as one function of the three arrays -/

/-- x·W + bias, index by index, of the three arrays as the region finds them. -/
def lin3 (c : Dev nD) : S100000x128.Idx → EReal :=
  Cert.Lib.LinearTile.linearAt (V c main_v58) (V c main_arg6) (V c main_v60)

/-- What point t's body leaves at the block index y is that function at row 10000 t + y's row. -/
theorem point3 (c : Dev nD) (t : Fin cfg3.N) (y : S10000x128.Idx) (i : S100000x128.Idx)
    (hi0 : (i 0).val = 10000 * t.val + (y 0).val) (hi1 : (i 1).val = (y 1).val) :
    (k3_pay1 (iblk3 V c 0 t) (iblk3 V c 1 t) (iblk3 V c 2 t) : S10000x128.Idx → EReal) y = lin3 V c i := by
  obtain ⟨p, q, rfl⟩ : ∃ (p : Fin 10000) (q : Fin 128), y = ix2 p q := ⟨y 0, y 1, eq_ix2 y⟩
  obtain ⟨n, o, rfl⟩ : ∃ (n : Fin 100000) (o : Fin 128), i = ix2 n o := ⟨i 0, i 1, eq_ix2 i⟩
  obtain rfl : o = q := Fin.ext hi1
  refine (pay3_apply (iblk3 V c 0 t) (iblk3 V c 1 t) (iblk3 V c 2 t) p o).trans ?_
  unfold lin3
  rw [Cert.Lib.LinearTile.linearAt_apply]
  refine congrArg₂ (fun a b : EReal => a + b) (Finset.sum_congr rfl fun k _ => ?_) ?_
  · exact congrArg₂ (fun a b : EReal => a * b)
      (iblk3_0_apply V c t (ix2 p k) (ix2 n k) hi0 rfl) (iblk3_1_apply V c t (ix2 k o))
  · exact iblk3_2_apply V c t (ix2 (0 : Fin 1) o)

/-- WHAT POINT t WRITES BACK is block t of that function. -/
theorem flushed3_eq (c : Dev nD) (t : Fin cfg3.N) :
    (dat3 V c).flushed 3 t = ((cfg3.win 3).blk t).view.read (Elt Ideal) (lin3 V c) := by
  show (cfg3.win 3).cut (grid3.coords t) ((dat3 V c).after 3 t) = _
  rw [after3_3]
  unfold out3_3
  rw [View.canon_unit_zero hz3]
  simp only [View.ld_unit_zero (S := S10000x32) hz3, View.ld_unit_zero (S := S32x128) hz3, View.ld_unit_zero (S := S1x128) hz3]
  obtain ⟨-, -, -, -, -, -, e0, e1⟩ := idx3 t
  funext j
  refine point3 V c t j (((cfg3.win 3).blk t).view.emb j) ?_ ?_
  · show win3_3.index t 0 * 10000 + 1 * (j 0).val = 10000 * t.val + (j 0).val; rw [e0]; omega
  · show win3_3.index t 1 * 128 + 1 * (j 1).val = (j 1).val; rw [e1]; omega

/-! ## The ten blocks tile the array -/

/-- An index of the array is in point t's block iff each coordinate is in the block's range on its axis. -/
theorem mem_blk3 (t : Fin cfg3.N) (i : S100000x128.Idx) :
    i ∈ ((cfg3.win 3).blk t).view.set ↔ ∀ a : Fin 2, win3_3.index t a * S10000x128.size a ≤ (i a).val
      ∧ (i a).val < win3_3.index t a * S10000x128.size a + S10000x128.size a := by
  show i ∈ ((View.whole main_v61).slice (win3_3.rect t)).set ↔ _
  rw [View.set_slice_whole, Rect.mem_set_unit]
  exact Iff.rfl

/-- Every index of the result is in the block of the point its row's tile names. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 10 := N_3
  obtain ⟨t, ht⟩ : ∃ t : Fin cfg3.N, t.val = (i 0).val / 10000 := ⟨⟨(i 0).val / 10000, by omega⟩, rfl⟩
  obtain ⟨-, -, -, -, -, -, e0, e1⟩ := idx3 t
  refine ⟨t, flush3_3 t, ?_⟩
  rw [mem_blk3]
  intro a
  match a with
  | ⟨0, _⟩ =>
    show win3_3.index t (0 : Fin 2) * 10000 ≤ (i 0).val ∧ (i 0).val < win3_3.index t (0 : Fin 2) * 10000 + 10000
    rw [e0, ht]; omega
  | ⟨1, _⟩ =>
    show win3_3.index t (1 : Fin 2) * 128 ≤ (i 1).val ∧ (i 1).val < win3_3.index t (1 : Fin 2) * 128 + 128
    rw [e1]; omega

/-! ## The array after the region -/

/-- THE RESULT'S ARRAY after the region is x·W + bias of the three arrays as the region found them. -/
theorem final3 (c : Dev nD) : (dat3 V c).arrAt 3 cfg3.N = lin3 V c :=
  (dat3 V c).arrAt_eq_of_cover 3 (lin3 V c) (fun t _ => flushed3_eq V c t) cover3

/-- The same, entry by entry. -/
theorem lin3_value (c : Dev nD) (n : Fin 100000) (o : Fin 128) :
    ((dat3 V c).arrAt 3 cfg3.N : S100000x128.Idx → EReal) (ix2 n o)
      = Cert.Lib.LinearTile.linearAt (V c main_v58) (V c main_arg6) (V c main_v60) (ix2 n o) := by
  rw [final3]; rfl

/-- The same with the sum written out, over the three arrays named as functions on their literal index types. -/
theorem lin3_value_sum (c : Dev nD) (X : S100000x32.Idx → EReal) (W : S32x128.Idx → EReal) (B : S1x128.Idx → EReal)
    (hX : X = V c main_v58) (hW : W = V c main_arg6) (hB : B = V c main_v60) (n : Fin 100000) (o : Fin 128) :
    ((dat3 V c).arrAt 3 cfg3.N : S100000x128.Idx → EReal) (ix2 n o)
      = (∑ k : Fin 32, X (ix2 n k) * W (ix2 k o)) + B (ix2 (0 : Fin 1) o) := by
  subst hX hW hB
  rw [final3]; rfl

end Value3

end Cert.KernelIdeal.Hand

end
-- ==== Proof.KI.Val6.lean ====
/-
  Region 6's value: the linear kernel y = x·W + bias at widths 128 → 128, read off the pipeline's proof data at the
  ideal values.

  At the ideal values a change of float format is the identity and the matrix product is the plain sum of
  products, so what a grid point leaves in the output window's staging buffer is, entry by entry, the sum over
  the 128 input features of x (row, k) · W (k, column), plus the bias row's entry.  Point t reads rows
  10000 t … 10000 t + 9999 of x and the whole of W and of the bias row, and writes back rows 10000 t … of the
  result; the ten blocks tile the 100000 rows, so after the region the result's array holds that function of the
  three arrays as the region found them, at every index.
-/
import proofs.«109725_j21638045237575_1_alg».proof.Proof.KI.Reg6
import proofs.«109725_j21638045237575_1_alg».proof.Proof.LibLinearTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

section Value6
-- the core's buffer contents when the region is entered, at the ideal values
variable (V : (c : Dev nD) → (b : Ref sig .tc) → Buf (Elt Ideal) ((c : Thread nD τ).loc b))

theorem hz6 : (![0, 0] : Fin 2 → Nat) = fun _ => 0 := funext fun a => by fin_cases a <;> rfl

/-- The printed index maps, decided over the ten grid points: the row tiles of x and of the result are at block
    row t, the weight matrix and the bias row at block (0, 0). -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-! ## The payload at an index -/

/-- Entry (p, o) of the body's one stored value, from the three blocks it read: the plain sum of products plus the
    bias entry. -/
theorem pay6_apply (x0 : Vec Ideal S10000x128 .f32) (x1 : Vec Ideal S128x128 .f32) (x2 : Vec Ideal S1x128 .f32)
    (p : Fin 10000) (o : Fin 128) :
    (k6_pay1 x0 x1 x2 : S10000x128.Idx → EReal) (ix2 p o)
      = (∑ k : Fin 128, (x0 (ix2 p k) : EReal) * (x1 (ix2 k o) : EReal)) + (x2 (ix2 (0 : Fin 1) o) : EReal) := by
  unfold k6_pay1
  exact Cert.Lib.LinearTile.linear_tile_cast_apply dot_S10000x128_S128x128_S10000x128_1_0_0_1_n_n rfl none x0 x1 x2
    bitsLt_bf16_f32 shapeCasts_S10000x128_S10000x128 shapeCasts_S1x128_S1x128 broadcasts_S1x128_S10000x128 p o

/-! ## The input blocks as entries of the arrays -/

/-- The row tile of x at point t is rows 10000 t … 10000 t + 9999 of x. -/
theorem iblk6_0_apply (c : Dev nD) (t : Fin cfg6.N) (y : S10000x128.Idx) (k : S100000x128.Idx)
    (hk0 : (k 0).val = 10000 * t.val + (y 0).val) (hk1 : (k 1).val = (y 1).val) :
    (iblk6 V c 0 t : Vec Ideal S10000x128 .f32) y = (V c main_v85 : S100000x128.Idx → Elt Ideal .f32) k := by
  obtain ⟨e0, e1, -⟩ := idx6 t
  unfold iblk6
  rw [View.read_apply]
  show V c main_v85 _ = V c main_v85 _
  congr 1
  funext a
  apply Fin.ext
  match a with
  | ⟨0, _⟩ => show win6_0.index t 0 * 10000 + 1 * (y 0).val = (k 0).val; rw [e0, hk0]; omega
  | ⟨1, _⟩ => show win6_0.index t 1 * 128 + 1 * (y 1).val = (k 1).val; rw [e1, hk1]; omega

/-- The weight matrix's block at every point is the whole matrix. -/
theorem iblk6_1_apply (c : Dev nD) (t : Fin cfg6.N) (y : S128x128.Idx) :
    (iblk6 V c 1 t : Vec Ideal S128x128 .f32) y = (V c main_arg10 : S128x128.Idx → Elt Ideal .f32) y := by
  obtain ⟨-, -, e0, e1, -⟩ := idx6 t
  unfold iblk6
  rw [View.read_apply]
  show V c main_arg10 _ = V c main_arg10 _
  congr 1
  funext a
  apply Fin.ext
  match a with
  | ⟨0, _⟩ => show win6_1.index t 0 * 128 + 1 * (y 0).val = (y 0).val; rw [e0]; omega
  | ⟨1, _⟩ => show win6_1.index t 1 * 128 + 1 * (y 1).val = (y 1).val; rw [e1]; omega

/-- The bias row's block at every point is the whole row. -/
theorem iblk6_2_apply (c : Dev nD) (t : Fin cfg6.N) (y : S1x128.Idx) :
    (iblk6 V c 2 t : Vec Ideal S1x128 .f32) y = (V c main_v87 : S1x128.Idx → Elt Ideal .f32) y := by
  obtain ⟨-, -, -, -, e0, e1, -⟩ := idx6 t
  unfold iblk6
  rw [View.read_apply]
  show V c main_v87 _ = V c main_v87 _
  congr 1
  funext a
  apply Fin.ext
  match a with
  | ⟨0, _⟩ => show win6_2.index t 0 * 1 + 1 * (y 0).val = (y 0).val; rw [e0]; omega
  | ⟨1, _⟩ => show win6_2.index t 1 * 128 + 1 * (y 1).val = (y 1).val; rw [e1]; omega

/-! ## The result as one function of the three arrays -/

/-- x·W + bias, index by index, of the three arrays as the region finds them. -/
def lin6 (c : Dev nD) : S100000x128.Idx → EReal :=
  Cert.Lib.LinearTile.linearAt (V c main_v85) (V c main_arg10) (V c main_v87)

/-- What point t's body leaves at the block index y is that function at row 10000 t + y's row. -/
theorem point6 (c : Dev nD) (t : Fin cfg6.N) (y : S10000x128.Idx) (i : S100000x128.Idx)
    (hi0 : (i 0).val = 10000 * t.val + (y 0).val) (hi1 : (i 1).val = (y 1).val) :
    (k6_pay1 (iblk6 V c 0 t) (iblk6 V c 1 t) (iblk6 V c 2 t) : S10000x128.Idx → EReal) y = lin6 V c i := by
  obtain ⟨p, q, rfl⟩ : ∃ (p : Fin 10000) (q : Fin 128), y = ix2 p q := ⟨y 0, y 1, eq_ix2 y⟩
  obtain ⟨n, o, rfl⟩ : ∃ (n : Fin 100000) (o : Fin 128), i = ix2 n o := ⟨i 0, i 1, eq_ix2 i⟩
  obtain rfl : o = q := Fin.ext hi1
  refine (pay6_apply (iblk6 V c 0 t) (iblk6 V c 1 t) (iblk6 V c 2 t) p o).trans ?_
  unfold lin6
  rw [Cert.Lib.LinearTile.linearAt_apply]
  refine congrArg₂ (fun a b : EReal => a + b) (Finset.sum_congr rfl fun k _ => ?_) ?_
  · exact congrArg₂ (fun a b : EReal => a * b)
      (iblk6_0_apply V c t (ix2 p k) (ix2 n k) hi0 rfl) (iblk6_1_apply V c t (ix2 k o))
  · exact iblk6_2_apply V c t (ix2 (0 : Fin 1) o)

/-- WHAT POINT t WRITES BACK is block t of that function. -/
theorem flushed6_eq (c : Dev nD) (t : Fin cfg6.N) :
    (dat6 V c).flushed 3 t = ((cfg6.win 3).blk t).view.read (Elt Ideal) (lin6 V c) := by
  show (cfg6.win 3).cut (grid6.coords t) ((dat6 V c).after 3 t) = _
  rw [after6_3]
  unfold out6_3
  rw [View.canon_unit_zero hz6]
  simp only [View.ld_unit_zero (S := S10000x128) hz6, View.ld_unit_zero (S := S128x128) hz6, View.ld_unit_zero (S := S1x128) hz6]
  obtain ⟨-, -, -, -, -, -, e0, e1⟩ := idx6 t
  funext j
  refine point6 V c t j (((cfg6.win 3).blk t).view.emb j) ?_ ?_
  · show win6_3.index t 0 * 10000 + 1 * (j 0).val = 10000 * t.val + (j 0).val; rw [e0]; omega
  · show win6_3.index t 1 * 128 + 1 * (j 1).val = (j 1).val; rw [e1]; omega

/-! ## The ten blocks tile the array -/

/-- An index of the array is in point t's block iff each coordinate is in the block's range on its axis. -/
theorem mem_blk6 (t : Fin cfg6.N) (i : S100000x128.Idx) :
    i ∈ ((cfg6.win 3).blk t).view.set ↔ ∀ a : Fin 2, win6_3.index t a * S10000x128.size a ≤ (i a).val
      ∧ (i a).val < win6_3.index t a * S10000x128.size a + S10000x128.size a := by
  show i ∈ ((View.whole main_v88).slice (win6_3.rect t)).set ↔ _
  rw [View.set_slice_whole, Rect.mem_set_unit]
  exact Iff.rfl

/-- Every index of the result is in the block of the point its row's tile names. -/
theorem cover6 (i : S100000x128.Idx) :
    ∃ t : Fin cfg6.N, (cfg6.win 3).flush t = true ∧ i ∈ ((cfg6.win 3).blk t).view.set := by
  have hi0 : (i 0).val < 100000 := (i 0).isLt
  have hi1 : (i 1).val < 128 := (i 1).isLt
  have hN : cfg6.N = 10 := N_6
  obtain ⟨t, ht⟩ : ∃ t : Fin cfg6.N, t.val = (i 0).val / 10000 := ⟨⟨(i 0).val / 10000, by omega⟩, rfl⟩
  obtain ⟨-, -, -, -, -, -, e0, e1⟩ := idx6 t
  refine ⟨t, flush6_3 t, ?_⟩
  rw [mem_blk6]
  intro a
  match a with
  | ⟨0, _⟩ =>
    show win6_3.index t (0 : Fin 2) * 10000 ≤ (i 0).val ∧ (i 0).val < win6_3.index t (0 : Fin 2) * 10000 + 10000
    rw [e0, ht]; omega
  | ⟨1, _⟩ =>
    show win6_3.index t (1 : Fin 2) * 128 ≤ (i 1).val ∧ (i 1).val < win6_3.index t (1 : Fin 2) * 128 + 128
    rw [e1]; omega

/-! ## The array after the region -/

/-- THE RESULT'S ARRAY after the region is x·W + bias of the three arrays as the region found them. -/
theorem final6 (c : Dev nD) : (dat6 V c).arrAt 3 cfg6.N = lin6 V c :=
  (dat6 V c).arrAt_eq_of_cover 3 (lin6 V c) (fun t _ => flushed6_eq V c t) cover6

/-- The same, entry by entry. -/
theorem lin6_value (c : Dev nD) (n : Fin 100000) (o : Fin 128) :
    ((dat6 V c).arrAt 3 cfg6.N : S100000x128.Idx → EReal) (ix2 n o)
      = Cert.Lib.LinearTile.linearAt (V c main_v85) (V c main_arg10) (V c main_v87) (ix2 n o) := by
  rw [final6]; rfl

/-- The same with the sum written out, over the three arrays named as functions on their literal index types. -/
theorem lin6_value_sum (c : Dev nD) (X : S100000x128.Idx → EReal) (W : S128x128.Idx → EReal) (B : S1x128.Idx → EReal)
    (hX : X = V c main_v85) (hW : W = V c main_arg10) (hB : B = V c main_v87) (n : Fin 100000) (o : Fin 128) :
    ((dat6 V c).arrAt 3 cfg6.N : S100000x128.Idx → EReal) (ix2 n o)
      = (∑ k : Fin 128, X (ix2 n k) * W (ix2 k o)) + B (ix2 (0 : Fin 1) o) := by
  subst hX hW hB
  rw [final6]; rfl

end Value6

end Cert.KernelIdeal.Hand

end
-- ==== Proof.KI.Val9.lean ====
/-
  Region 9's value: the linear kernel y = x·W + bias at widths 128 → 32, read off the pipeline's proof data at the
  ideal values.

  At the ideal values a change of float format is the identity and the matrix product is the plain sum of
  products, so what a grid point leaves in the output window's staging buffer is, entry by entry, the sum over
  the 128 input features of x (row, k) · W (k, column), plus the bias row's entry.  Point t reads rows
  10000 t … 10000 t + 9999 of x and the whole of W and of the bias row, and writes back rows 10000 t … of the
  result; the ten blocks tile the 100000 rows, so after the region the result's array holds that function of the
  three arrays as the region found them, at every index.
-/
import proofs.«109725_j21638045237575_1_alg».proof.Proof.KI.Reg9
import proofs.«109725_j21638045237575_1_alg».proof.Proof.LibLinearTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

section Value9
-- the core's buffer contents when the region is entered, at the ideal values
variable (V : (c : Dev nD) → (b : Ref sig .tc) → Buf (Elt Ideal) ((c : Thread nD τ).loc b))

theorem hz9 : (![0, 0] : Fin 2 → Nat) = fun _ => 0 := funext fun a => by fin_cases a <;> rfl

/-- The printed index maps, decided over the ten grid points: the row tiles of x and of the result are at block
    row t, the weight matrix and the bias row at block (0, 0). -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-! ## The payload at an index -/

/-- Entry (p, o) of the body's one stored value, from the three blocks it read: the plain sum of products plus the
    bias entry. -/
theorem pay9_apply (x0 : Vec Ideal S10000x128 .f32) (x1 : Vec Ideal S128x32 .f32) (x2 : Vec Ideal S1x32 .f32)
    (p : Fin 10000) (o : Fin 32) :
    (k9_pay1 x0 x1 x2 : S10000x32.Idx → EReal) (ix2 p o)
      = (∑ k : Fin 128, (x0 (ix2 p k) : EReal) * (x1 (ix2 k o) : EReal)) + (x2 (ix2 (0 : Fin 1) o) : EReal) := by
  unfold k9_pay1
  exact Cert.Lib.LinearTile.linear_tile_cast_apply dot_S10000x128_S128x32_S10000x32_1_0_0_1_n_n rfl none x0 x1 x2
    bitsLt_bf16_f32 shapeCasts_S10000x128_S10000x128 shapeCasts_S1x32_S1x32 broadcasts_S1x32_S10000x32 p o

/-! ## The input blocks as entries of the arrays -/

/-- The row tile of x at point t is rows 10000 t … 10000 t + 9999 of x. -/
theorem iblk9_0_apply (c : Dev nD) (t : Fin cfg9.N) (y : S10000x128.Idx) (k : S100000x128.Idx)
    (hk0 : (k 0).val = 10000 * t.val + (y 0).val) (hk1 : (k 1).val = (y 1).val) :
    (iblk9 V c 0 t : Vec Ideal S10000x128 .f32) y = (V c main_v112 : S100000x128.Idx → Elt Ideal .f32) k := by
  obtain ⟨e0, e1, -⟩ := idx9 t
  unfold iblk9
  rw [View.read_apply]
  show V c main_v112 _ = V c main_v112 _
  congr 1
  funext a
  apply Fin.ext
  match a with
  | ⟨0, _⟩ => show win9_0.index t 0 * 10000 + 1 * (y 0).val = (k 0).val; rw [e0, hk0]; omega
  | ⟨1, _⟩ => show win9_0.index t 1 * 128 + 1 * (y 1).val = (k 1).val; rw [e1, hk1]; omega

/-- The weight matrix's block at every point is the whole matrix. -/
theorem iblk9_1_apply (c : Dev nD) (t : Fin cfg9.N) (y : S128x32.Idx) :
    (iblk9 V c 1 t : Vec Ideal S128x32 .f32) y = (V c main_arg14 : S128x32.Idx → Elt Ideal .f32) y := by
  obtain ⟨-, -, e0, e1, -⟩ := idx9 t
  unfold iblk9
  rw [View.read_apply]
  show V c main_arg14 _ = V c main_arg14 _
  congr 1
  funext a
  apply Fin.ext
  match a with
  | ⟨0, _⟩ => show win9_1.index t 0 * 128 + 1 * (y 0).val = (y 0).val; rw [e0]; omega
  | ⟨1, _⟩ => show win9_1.index t 1 * 32 + 1 * (y 1).val = (y 1).val; rw [e1]; omega

/-- The bias row's block at every point is the whole row. -/
theorem iblk9_2_apply (c : Dev nD) (t : Fin cfg9.N) (y : S1x32.Idx) :
    (iblk9 V c 2 t : Vec Ideal S1x32 .f32) y = (V c main_v114 : S1x32.Idx → Elt Ideal .f32) y := by
  obtain ⟨-, -, -, -, e0, e1, -⟩ := idx9 t
  unfold iblk9
  rw [View.read_apply]
  show V c main_v114 _ = V c main_v114 _
  congr 1
  funext a
  apply Fin.ext
  match a with
  | ⟨0, _⟩ => show win9_2.index t 0 * 1 + 1 * (y 0).val = (y 0).val; rw [e0]; omega
  | ⟨1, _⟩ => show win9_2.index t 1 * 32 + 1 * (y 1).val = (y 1).val; rw [e1]; omega

/-! ## The result as one function of the three arrays -/

/-- x·W + bias, index by index, of the three arrays as the region finds them. -/
def lin9 (c : Dev nD) : S100000x32.Idx → EReal :=
  Cert.Lib.LinearTile.linearAt (V c main_v112) (V c main_arg14) (V c main_v114)

/-- What point t's body leaves at the block index y is that function at row 10000 t + y's row. -/
theorem point9 (c : Dev nD) (t : Fin cfg9.N) (y : S10000x32.Idx) (i : S100000x32.Idx)
    (hi0 : (i 0).val = 10000 * t.val + (y 0).val) (hi1 : (i 1).val = (y 1).val) :
    (k9_pay1 (iblk9 V c 0 t) (iblk9 V c 1 t) (iblk9 V c 2 t) : S10000x32.Idx → EReal) y = lin9 V c i := by
  obtain ⟨p, q, rfl⟩ : ∃ (p : Fin 10000) (q : Fin 32), y = ix2 p q := ⟨y 0, y 1, eq_ix2 y⟩
  obtain ⟨n, o, rfl⟩ : ∃ (n : Fin 100000) (o : Fin 32), i = ix2 n o := ⟨i 0, i 1, eq_ix2 i⟩
  obtain rfl : o = q := Fin.ext hi1
  refine (pay9_apply (iblk9 V c 0 t) (iblk9 V c 1 t) (iblk9 V c 2 t) p o).trans ?_
  unfold lin9
  rw [Cert.Lib.LinearTile.linearAt_apply]
  refine congrArg₂ (fun a b : EReal => a + b) (Finset.sum_congr rfl fun k _ => ?_) ?_
  · exact congrArg₂ (fun a b : EReal => a * b)
      (iblk9_0_apply V c t (ix2 p k) (ix2 n k) hi0 rfl) (iblk9_1_apply V c t (ix2 k o))
  · exact iblk9_2_apply V c t (ix2 (0 : Fin 1) o)

/-- WHAT POINT t WRITES BACK is block t of that function. -/
theorem flushed9_eq (c : Dev nD) (t : Fin cfg9.N) :
    (dat9 V c).flushed 3 t = ((cfg9.win 3).blk t).view.read (Elt Ideal) (lin9 V c) := by
  show (cfg9.win 3).cut (grid9.coords t) ((dat9 V c).after 3 t) = _
  rw [after9_3]
  unfold out9_3
  rw [View.canon_unit_zero hz9]
  simp only [View.ld_unit_zero (S := S10000x128) hz9, View.ld_unit_zero (S := S128x32) hz9, View.ld_unit_zero (S := S1x32) hz9]
  obtain ⟨-, -, -, -, -, -, e0, e1⟩ := idx9 t
  funext j
  refine point9 V c t j (((cfg9.win 3).blk t).view.emb j) ?_ ?_
  · show win9_3.index t 0 * 10000 + 1 * (j 0).val = 10000 * t.val + (j 0).val; rw [e0]; omega
  · show win9_3.index t 1 * 32 + 1 * (j 1).val = (j 1).val; rw [e1]; omega

/-! ## The ten blocks tile the array -/

/-- An index of the array is in point t's block iff each coordinate is in the block's range on its axis. -/
theorem mem_blk9 (t : Fin cfg9.N) (i : S100000x32.Idx) :
    i ∈ ((cfg9.win 3).blk t).view.set ↔ ∀ a : Fin 2, win9_3.index t a * S10000x32.size a ≤ (i a).val
      ∧ (i a).val < win9_3.index t a * S10000x32.size a + S10000x32.size a := by
  show i ∈ ((View.whole main_v115).slice (win9_3.rect t)).set ↔ _
  rw [View.set_slice_whole, Rect.mem_set_unit]
  exact Iff.rfl

/-- Every index of the result is in the block of the point its row's tile names. -/
theorem cover9 (i : S100000x32.Idx) :
    ∃ t : Fin cfg9.N, (cfg9.win 3).flush t = true ∧ i ∈ ((cfg9.win 3).blk t).view.set := by
  have hi0 : (i 0).val < 100000 := (i 0).isLt
  have hi1 : (i 1).val < 32 := (i 1).isLt
  have hN : cfg9.N = 10 := N_9
  obtain ⟨t, ht⟩ : ∃ t : Fin cfg9.N, t.val = (i 0).val / 10000 := ⟨⟨(i 0).val / 10000, by omega⟩, rfl⟩
  obtain ⟨-, -, -, -, -, -, e0, e1⟩ := idx9 t
  refine ⟨t, flush9_3 t, ?_⟩
  rw [mem_blk9]
  intro a
  match a with
  | ⟨0, _⟩ =>
    show win9_3.index t (0 : Fin 2) * 10000 ≤ (i 0).val ∧ (i 0).val < win9_3.index t (0 : Fin 2) * 10000 + 10000
    rw [e0, ht]; omega
  | ⟨1, _⟩ =>
    show win9_3.index t (1 : Fin 2) * 32 ≤ (i 1).val ∧ (i 1).val < win9_3.index t (1 : Fin 2) * 32 + 32
    rw [e1]; omega

/-! ## The array after the region -/

/-- THE RESULT'S ARRAY after the region is x·W + bias of the three arrays as the region found them. -/
theorem final9 (c : Dev nD) : (dat9 V c).arrAt 3 cfg9.N = lin9 V c :=
  (dat9 V c).arrAt_eq_of_cover 3 (lin9 V c) (fun t _ => flushed9_eq V c t) cover9

/-- The same, entry by entry. -/
theorem lin9_value (c : Dev nD) (n : Fin 100000) (o : Fin 32) :
    ((dat9 V c).arrAt 3 cfg9.N : S100000x32.Idx → EReal) (ix2 n o)
      = Cert.Lib.LinearTile.linearAt (V c main_v112) (V c main_arg14) (V c main_v114) (ix2 n o) := by
  rw [final9]; rfl

/-- The same with the sum written out, over the three arrays named as functions on their literal index types. -/
theorem lin9_value_sum (c : Dev nD) (X : S100000x128.Idx → EReal) (W : S128x32.Idx → EReal) (B : S1x32.Idx → EReal)
    (hX : X = V c main_v112) (hW : W = V c main_arg14) (hB : B = V c main_v114) (n : Fin 100000) (o : Fin 32) :
    ((dat9 V c).arrAt 3 cfg9.N : S100000x32.Idx → EReal) (ix2 n o)
      = (∑ k : Fin 128, X (ix2 n k) * W (ix2 k o)) + B (ix2 (0 : Fin 1) o) := by
  subst hX hW hB
  rw [final9]; rfl

end Value9

end Cert.KernelIdeal.Hand

end
-- ==== Proof.KI.Val12.lean ====
/-
  Region 12's value: the linear kernel y = x·W + bias at widths 32 → 16, read off the pipeline's proof data at the
  ideal values.

  At the ideal values a change of float format is the identity and the matrix product is the plain sum of
  products, so what a grid point leaves in the output window's staging buffer is, entry by entry, the sum over
  the 32 input features of x (row, k) · W (k, column), plus the bias row's entry.  Point t reads rows
  10000 t … 10000 t + 9999 of x and the whole of W and of the bias row, and writes back rows 10000 t … of the
  result; the ten blocks tile the 100000 rows, so after the region the result's array holds that function of the
  three arrays as the region found them, at every index.
-/
import proofs.«109725_j21638045237575_1_alg».proof.Proof.KI.Reg12
import proofs.«109725_j21638045237575_1_alg».proof.Proof.LibLinearTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

section Value12
-- the core's buffer contents when the region is entered, at the ideal values
variable (V : (c : Dev nD) → (b : Ref sig .tc) → Buf (Elt Ideal) ((c : Thread nD τ).loc b))

theorem hz12 : (![0, 0] : Fin 2 → Nat) = fun _ => 0 := funext fun a => by fin_cases a <;> rfl

/-- The printed index maps, decided over the ten grid points: the row tiles of x and of the result are at block
    row t, the weight matrix and the bias row at block (0, 0). -/
theorem idx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-! ## The payload at an index -/

/-- Entry (p, o) of the body's one stored value, from the three blocks it read: the plain sum of products plus the
    bias entry. -/
theorem pay12_apply (x0 : Vec Ideal S10000x32 .f32) (x1 : Vec Ideal S32x16 .f32) (x2 : Vec Ideal S1x16 .f32)
    (p : Fin 10000) (o : Fin 16) :
    (k12_pay1 x0 x1 x2 : S10000x16.Idx → EReal) (ix2 p o)
      = (∑ k : Fin 32, (x0 (ix2 p k) : EReal) * (x1 (ix2 k o) : EReal)) + (x2 (ix2 (0 : Fin 1) o) : EReal) := by
  unfold k12_pay1
  exact Cert.Lib.LinearTile.linear_tile_cast_apply dot_S10000x32_S32x16_S10000x16_1_0_0_1_n_n rfl none x0 x1 x2
    bitsLt_bf16_f32 shapeCasts_S10000x32_S10000x32 shapeCasts_S1x16_S1x16 broadcasts_S1x16_S10000x16 p o

/-! ## The input blocks as entries of the arrays -/

/-- The row tile of x at point t is rows 10000 t … 10000 t + 9999 of x. -/
theorem iblk12_0_apply (c : Dev nD) (t : Fin cfg12.N) (y : S10000x32.Idx) (k : S100000x32.Idx)
    (hk0 : (k 0).val = 10000 * t.val + (y 0).val) (hk1 : (k 1).val = (y 1).val) :
    (iblk12 V c 0 t : Vec Ideal S10000x32 .f32) y = (V c main_v139 : S100000x32.Idx → Elt Ideal .f32) k := by
  obtain ⟨e0, e1, -⟩ := idx12 t
  unfold iblk12
  rw [View.read_apply]
  show V c main_v139 _ = V c main_v139 _
  congr 1
  funext a
  apply Fin.ext
  match a with
  | ⟨0, _⟩ => show win12_0.index t 0 * 10000 + 1 * (y 0).val = (k 0).val; rw [e0, hk0]; omega
  | ⟨1, _⟩ => show win12_0.index t 1 * 32 + 1 * (y 1).val = (k 1).val; rw [e1, hk1]; omega

/-- The weight matrix's block at every point is the whole matrix. -/
theorem iblk12_1_apply (c : Dev nD) (t : Fin cfg12.N) (y : S32x16.Idx) :
    (iblk12 V c 1 t : Vec Ideal S32x16 .f32) y = (V c main_arg18 : S32x16.Idx → Elt Ideal .f32) y := by
  obtain ⟨-, -, e0, e1, -⟩ := idx12 t
  unfold iblk12
  rw [View.read_apply]
  show V c main_arg18 _ = V c main_arg18 _
  congr 1
  funext a
  apply Fin.ext
  match a with
  | ⟨0, _⟩ => show win12_1.index t 0 * 32 + 1 * (y 0).val = (y 0).val; rw [e0]; omega
  | ⟨1, _⟩ => show win12_1.index t 1 * 16 + 1 * (y 1).val = (y 1).val; rw [e1]; omega

/-- The bias row's block at every point is the whole row. -/
theorem iblk12_2_apply (c : Dev nD) (t : Fin cfg12.N) (y : S1x16.Idx) :
    (iblk12 V c 2 t : Vec Ideal S1x16 .f32) y = (V c main_v141 : S1x16.Idx → Elt Ideal .f32) y := by
  obtain ⟨-, -, -, -, e0, e1, -⟩ := idx12 t
  unfold iblk12
  rw [View.read_apply]
  show V c main_v141 _ = V c main_v141 _
  congr 1
  funext a
  apply Fin.ext
  match a with
  | ⟨0, _⟩ => show win12_2.index t 0 * 1 + 1 * (y 0).val = (y 0).val; rw [e0]; omega
  | ⟨1, _⟩ => show win12_2.index t 1 * 16 + 1 * (y 1).val = (y 1).val; rw [e1]; omega

/-! ## The result as one function of the three arrays -/

/-- x·W + bias, index by index, of the three arrays as the region finds them. -/
def lin12 (c : Dev nD) : S100000x16.Idx → EReal :=
  Cert.Lib.LinearTile.linearAt (V c main_v139) (V c main_arg18) (V c main_v141)

/-- What point t's body leaves at the block index y is that function at row 10000 t + y's row. -/
theorem point12 (c : Dev nD) (t : Fin cfg12.N) (y : S10000x16.Idx) (i : S100000x16.Idx)
    (hi0 : (i 0).val = 10000 * t.val + (y 0).val) (hi1 : (i 1).val = (y 1).val) :
    (k12_pay1 (iblk12 V c 0 t) (iblk12 V c 1 t) (iblk12 V c 2 t) : S10000x16.Idx → EReal) y = lin12 V c i := by
  obtain ⟨p, q, rfl⟩ : ∃ (p : Fin 10000) (q : Fin 16), y = ix2 p q := ⟨y 0, y 1, eq_ix2 y⟩
  obtain ⟨n, o, rfl⟩ : ∃ (n : Fin 100000) (o : Fin 16), i = ix2 n o := ⟨i 0, i 1, eq_ix2 i⟩
  obtain rfl : o = q := Fin.ext hi1
  refine (pay12_apply (iblk12 V c 0 t) (iblk12 V c 1 t) (iblk12 V c 2 t) p o).trans ?_
  unfold lin12
  rw [Cert.Lib.LinearTile.linearAt_apply]
  refine congrArg₂ (fun a b : EReal => a + b) (Finset.sum_congr rfl fun k _ => ?_) ?_
  · exact congrArg₂ (fun a b : EReal => a * b)
      (iblk12_0_apply V c t (ix2 p k) (ix2 n k) hi0 rfl) (iblk12_1_apply V c t (ix2 k o))
  · exact iblk12_2_apply V c t (ix2 (0 : Fin 1) o)

/-- WHAT POINT t WRITES BACK is block t of that function. -/
theorem flushed12_eq (c : Dev nD) (t : Fin cfg12.N) :
    (dat12 V c).flushed 3 t = ((cfg12.win 3).blk t).view.read (Elt Ideal) (lin12 V c) := by
  show (cfg12.win 3).cut (grid12.coords t) ((dat12 V c).after 3 t) = _
  rw [after12_3]
  unfold out12_3
  rw [View.canon_unit_zero hz12]
  simp only [View.ld_unit_zero (S := S10000x32) hz12, View.ld_unit_zero (S := S32x16) hz12, View.ld_unit_zero (S := S1x16) hz12]
  obtain ⟨-, -, -, -, -, -, e0, e1⟩ := idx12 t
  funext j
  refine point12 V c t j (((cfg12.win 3).blk t).view.emb j) ?_ ?_
  · show win12_3.index t 0 * 10000 + 1 * (j 0).val = 10000 * t.val + (j 0).val; rw [e0]; omega
  · show win12_3.index t 1 * 16 + 1 * (j 1).val = (j 1).val; rw [e1]; omega

/-! ## The ten blocks tile the array -/

/-- An index of the array is in point t's block iff each coordinate is in the block's range on its axis. -/
theorem mem_blk12 (t : Fin cfg12.N) (i : S100000x16.Idx) :
    i ∈ ((cfg12.win 3).blk t).view.set ↔ ∀ a : Fin 2, win12_3.index t a * S10000x16.size a ≤ (i a).val
      ∧ (i a).val < win12_3.index t a * S10000x16.size a + S10000x16.size a := by
  show i ∈ ((View.whole main_v142).slice (win12_3.rect t)).set ↔ _
  rw [View.set_slice_whole, Rect.mem_set_unit]
  exact Iff.rfl

/-- Every index of the result is in the block of the point its row's tile names. -/
theorem cover12 (i : S100000x16.Idx) :
    ∃ t : Fin cfg12.N, (cfg12.win 3).flush t = true ∧ i ∈ ((cfg12.win 3).blk t).view.set := by
  have hi0 : (i 0).val < 100000 := (i 0).isLt
  have hi1 : (i 1).val < 16 := (i 1).isLt
  have hN : cfg12.N = 10 := N_12
  obtain ⟨t, ht⟩ : ∃ t : Fin cfg12.N, t.val = (i 0).val / 10000 := ⟨⟨(i 0).val / 10000, by omega⟩, rfl⟩
  obtain ⟨-, -, -, -, -, -, e0, e1⟩ := idx12 t
  refine ⟨t, flush12_3 t, ?_⟩
  rw [mem_blk12]
  intro a
  match a with
  | ⟨0, _⟩ =>
    show win12_3.index t (0 : Fin 2) * 10000 ≤ (i 0).val ∧ (i 0).val < win12_3.index t (0 : Fin 2) * 10000 + 10000
    rw [e0, ht]; omega
  | ⟨1, _⟩ =>
    show win12_3.index t (1 : Fin 2) * 16 ≤ (i 1).val ∧ (i 1).val < win12_3.index t (1 : Fin 2) * 16 + 16
    rw [e1]; omega

/-! ## The array after the region -/

/-- THE RESULT'S ARRAY after the region is x·W + bias of the three arrays as the region found them. -/
theorem final12 (c : Dev nD) : (dat12 V c).arrAt 3 cfg12.N = lin12 V c :=
  (dat12 V c).arrAt_eq_of_cover 3 (lin12 V c) (fun t _ => flushed12_eq V c t) cover12

/-- The same, entry by entry. -/
theorem lin12_value (c : Dev nD) (n : Fin 100000) (o : Fin 16) :
    ((dat12 V c).arrAt 3 cfg12.N : S100000x16.Idx → EReal) (ix2 n o)
      = Cert.Lib.LinearTile.linearAt (V c main_v139) (V c main_arg18) (V c main_v141) (ix2 n o) := by
  rw [final12]; rfl

/-- The same with the sum written out, over the three arrays named as functions on their literal index types. -/
theorem lin12_value_sum (c : Dev nD) (X : S100000x32.Idx → EReal) (W : S32x16.Idx → EReal) (B : S1x16.Idx → EReal)
    (hX : X = V c main_v139) (hW : W = V c main_arg18) (hB : B = V c main_v141) (n : Fin 100000) (o : Fin 16) :
    ((dat12 V c).arrAt 3 cfg12.N : S100000x16.Idx → EReal) (ix2 n o)
      = (∑ k : Fin 32, X (ix2 n k) * W (ix2 k o)) + B (ix2 (0 : Fin 1) o) := by
  subst hX hW hB
  rw [final12]; rfl

end Value12

end Cert.KernelIdeal.Hand

end
-- ==== Proof.KI.Val15.lean ====
/-
  Region 15's value: the linear kernel y = x·W + bias at widths 16 → 3, read off the pipeline's proof data at the
  ideal values.

  At the ideal values a change of float format is the identity and the matrix product is the plain sum of
  products, so what a grid point leaves in the output window's staging buffer is, entry by entry, the sum over
  the 16 input features of x (row, k) · W (k, column), plus the bias row's entry.  Point t reads rows
  10000 t … 10000 t + 9999 of x and the whole of W and of the bias row, and writes back rows 10000 t … of the
  result; the ten blocks tile the 100000 rows, so after the region the result's array holds that function of the
  three arrays as the region found them, at every index.
-/
import proofs.«109725_j21638045237575_1_alg».proof.Proof.KI.Reg15
import proofs.«109725_j21638045237575_1_alg».proof.Proof.LibLinearTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

section Value15
-- the core's buffer contents when the region is entered, at the ideal values
variable (V : (c : Dev nD) → (b : Ref sig .tc) → Buf (Elt Ideal) ((c : Thread nD τ).loc b))

theorem hz15 : (![0, 0] : Fin 2 → Nat) = fun _ => 0 := funext fun a => by fin_cases a <;> rfl

/-- The printed index maps, decided over the ten grid points: the row tiles of x and of the result are at block
    row t, the weight matrix and the bias row at block (0, 0). -/
theorem idx15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 :=
  (by decide +kernel : ∀ t : Fin grid15.N, _)

/-! ## The payload at an index -/

/-- Entry (p, o) of the body's one stored value, from the three blocks it read: the plain sum of products plus the
    bias entry. -/
theorem pay15_apply (x0 : Vec Ideal S10000x16 .f32) (x1 : Vec Ideal S16x3 .f32) (x2 : Vec Ideal S1x3 .f32)
    (p : Fin 10000) (o : Fin 3) :
    (k15_pay1 x0 x1 x2 : S10000x3.Idx → EReal) (ix2 p o)
      = (∑ k : Fin 16, (x0 (ix2 p k) : EReal) * (x1 (ix2 k o) : EReal)) + (x2 (ix2 (0 : Fin 1) o) : EReal) := by
  unfold k15_pay1
  exact Cert.Lib.LinearTile.linear_tile_cast_apply dot_S10000x16_S16x3_S10000x3_1_0_0_1_n_n rfl none x0 x1 x2
    bitsLt_bf16_f32 shapeCasts_S10000x16_S10000x16 shapeCasts_S1x3_S1x3 broadcasts_S1x3_S10000x3 p o

/-! ## The input blocks as entries of the arrays -/

/-- The row tile of x at point t is rows 10000 t … 10000 t + 9999 of x. -/
theorem iblk15_0_apply (c : Dev nD) (t : Fin cfg15.N) (y : S10000x16.Idx) (k : S100000x16.Idx)
    (hk0 : (k 0).val = 10000 * t.val + (y 0).val) (hk1 : (k 1).val = (y 1).val) :
    (iblk15 V c 0 t : Vec Ideal S10000x16 .f32) y = (V c main_v166 : S100000x16.Idx → Elt Ideal .f32) k := by
  obtain ⟨e0, e1, -⟩ := idx15 t
  unfold iblk15
  rw [View.read_apply]
  show V c main_v166 _ = V c main_v166 _
  congr 1
  funext a
  apply Fin.ext
  match a with
  | ⟨0, _⟩ => show win15_0.index t 0 * 10000 + 1 * (y 0).val = (k 0).val; rw [e0, hk0]; omega
  | ⟨1, _⟩ => show win15_0.index t 1 * 16 + 1 * (y 1).val = (k 1).val; rw [e1, hk1]; omega

/-- The weight matrix's block at every point is the whole matrix. -/
theorem iblk15_1_apply (c : Dev nD) (t : Fin cfg15.N) (y : S16x3.Idx) :
    (iblk15 V c 1 t : Vec Ideal S16x3 .f32) y = (V c main_arg22 : S16x3.Idx → Elt Ideal .f32) y := by
  obtain ⟨-, -, e0, e1, -⟩ := idx15 t
  unfold iblk15
  rw [View.read_apply]
  show V c main_arg22 _ = V c main_arg22 _
  congr 1
  funext a
  apply Fin.ext
  match a with
  | ⟨0, _⟩ => show win15_1.index t 0 * 16 + 1 * (y 0).val = (y 0).val; rw [e0]; omega
  | ⟨1, _⟩ => show win15_1.index t 1 * 3 + 1 * (y 1).val = (y 1).val; rw [e1]; omega

/-- The bias row's block at every point is the whole row. -/
theorem iblk15_2_apply (c : Dev nD) (t : Fin cfg15.N) (y : S1x3.Idx) :
    (iblk15 V c 2 t : Vec Ideal S1x3 .f32) y = (V c main_v167 : S1x3.Idx → Elt Ideal .f32) y := by
  obtain ⟨-, -, -, -, e0, e1, -⟩ := idx15 t
  unfold iblk15
  rw [View.read_apply]
  show V c main_v167 _ = V c main_v167 _
  congr 1
  funext a
  apply Fin.ext
  match a with
  | ⟨0, _⟩ => show win15_2.index t 0 * 1 + 1 * (y 0).val = (y 0).val; rw [e0]; omega
  | ⟨1, _⟩ => show win15_2.index t 1 * 3 + 1 * (y 1).val = (y 1).val; rw [e1]; omega

/-! ## The result as one function of the three arrays -/

/-- x·W + bias, index by index, of the three arrays as the region finds them. -/
def lin15 (c : Dev nD) : S100000x3.Idx → EReal :=
  Cert.Lib.LinearTile.linearAt (V c main_v166) (V c main_arg22) (V c main_v167)

/-- What point t's body leaves at the block index y is that function at row 10000 t + y's row. -/
theorem point15 (c : Dev nD) (t : Fin cfg15.N) (y : S10000x3.Idx) (i : S100000x3.Idx)
    (hi0 : (i 0).val = 10000 * t.val + (y 0).val) (hi1 : (i 1).val = (y 1).val) :
    (k15_pay1 (iblk15 V c 0 t) (iblk15 V c 1 t) (iblk15 V c 2 t) : S10000x3.Idx → EReal) y = lin15 V c i := by
  obtain ⟨p, q, rfl⟩ : ∃ (p : Fin 10000) (q : Fin 3), y = ix2 p q := ⟨y 0, y 1, eq_ix2 y⟩
  obtain ⟨n, o, rfl⟩ : ∃ (n : Fin 100000) (o : Fin 3), i = ix2 n o := ⟨i 0, i 1, eq_ix2 i⟩
  obtain rfl : o = q := Fin.ext hi1
  refine (pay15_apply (iblk15 V c 0 t) (iblk15 V c 1 t) (iblk15 V c 2 t) p o).trans ?_
  unfold lin15
  rw [Cert.Lib.LinearTile.linearAt_apply]
  refine congrArg₂ (fun a b : EReal => a + b) (Finset.sum_congr rfl fun k _ => ?_) ?_
  · exact congrArg₂ (fun a b : EReal => a * b)
      (iblk15_0_apply V c t (ix2 p k) (ix2 n k) hi0 rfl) (iblk15_1_apply V c t (ix2 k o))
  · exact iblk15_2_apply V c t (ix2 (0 : Fin 1) o)

/-- WHAT POINT t WRITES BACK is block t of that function. -/
theorem flushed15_eq (c : Dev nD) (t : Fin cfg15.N) :
    (dat15 V c).flushed 3 t = ((cfg15.win 3).blk t).view.read (Elt Ideal) (lin15 V c) := by
  show (cfg15.win 3).cut (grid15.coords t) ((dat15 V c).after 3 t) = _
  rw [after15_3]
  unfold out15_3
  rw [View.canon_unit_zero hz15]
  simp only [View.ld_unit_zero (S := S10000x16) hz15, View.ld_unit_zero (S := S16x3) hz15, View.ld_unit_zero (S := S1x3) hz15]
  obtain ⟨-, -, -, -, -, -, e0, e1⟩ := idx15 t
  funext j
  refine point15 V c t j (((cfg15.win 3).blk t).view.emb j) ?_ ?_
  · show win15_3.index t 0 * 10000 + 1 * (j 0).val = 10000 * t.val + (j 0).val; rw [e0]; omega
  · show win15_3.index t 1 * 3 + 1 * (j 1).val = (j 1).val; rw [e1]; omega

/-! ## The ten blocks tile the array -/

/-- An index of the array is in point t's block iff each coordinate is in the block's range on its axis. -/
theorem mem_blk15 (t : Fin cfg15.N) (i : S100000x3.Idx) :
    i ∈ ((cfg15.win 3).blk t).view.set ↔ ∀ a : Fin 2, win15_3.index t a * S10000x3.size a ≤ (i a).val
      ∧ (i a).val < win15_3.index t a * S10000x3.size a + S10000x3.size a := by
  show i ∈ ((View.whole main_v168).slice (win15_3.rect t)).set ↔ _
  rw [View.set_slice_whole, Rect.mem_set_unit]
  exact Iff.rfl

/-- Every index of the result is in the block of the point its row's tile names. -/
theorem cover15 (i : S100000x3.Idx) :
    ∃ t : Fin cfg15.N, (cfg15.win 3).flush t = true ∧ i ∈ ((cfg15.win 3).blk t).view.set := by
  have hi0 : (i 0).val < 100000 := (i 0).isLt
  have hi1 : (i 1).val < 3 := (i 1).isLt
  have hN : cfg15.N = 10 := N_15
  obtain ⟨t, ht⟩ : ∃ t : Fin cfg15.N, t.val = (i 0).val / 10000 := ⟨⟨(i 0).val / 10000, by omega⟩, rfl⟩
  obtain ⟨-, -, -, -, -, -, e0, e1⟩ := idx15 t
  refine ⟨t, flush15_3 t, ?_⟩
  rw [mem_blk15]
  intro a
  match a with
  | ⟨0, _⟩ =>
    show win15_3.index t (0 : Fin 2) * 10000 ≤ (i 0).val ∧ (i 0).val < win15_3.index t (0 : Fin 2) * 10000 + 10000
    rw [e0, ht]; omega
  | ⟨1, _⟩ =>
    show win15_3.index t (1 : Fin 2) * 3 ≤ (i 1).val ∧ (i 1).val < win15_3.index t (1 : Fin 2) * 3 + 3
    rw [e1]; omega

/-! ## The array after the region -/

/-- THE RESULT'S ARRAY after the region is x·W + bias of the three arrays as the region found them. -/
theorem final15 (c : Dev nD) : (dat15 V c).arrAt 3 cfg15.N = lin15 V c :=
  (dat15 V c).arrAt_eq_of_cover 3 (lin15 V c) (fun t _ => flushed15_eq V c t) cover15

/-- The same, entry by entry. -/
theorem lin15_value (c : Dev nD) (n : Fin 100000) (o : Fin 3) :
    ((dat15 V c).arrAt 3 cfg15.N : S100000x3.Idx → EReal) (ix2 n o)
      = Cert.Lib.LinearTile.linearAt (V c main_v166) (V c main_arg22) (V c main_v167) (ix2 n o) := by
  rw [final15]; rfl

/-- The same with the sum written out, over the three arrays named as functions on their literal index types. -/
theorem lin15_value_sum (c : Dev nD) (X : S100000x16.Idx → EReal) (W : S16x3.Idx → EReal) (B : S1x3.Idx → EReal)
    (hX : X = V c main_v166) (hW : W = V c main_arg22) (hB : B = V c main_v167) (n : Fin 100000) (o : Fin 3) :
    ((dat15 V c).arrAt 3 cfg15.N : S100000x3.Idx → EReal) (ix2 n o)
      = (∑ k : Fin 16, X (ix2 n k) * W (ix2 k o)) + B (ix2 (0 : Fin 1) o) := by
  subst hX hW hB
  rw [final15]; rfl

end Value15

end Cert.KernelIdeal.Hand

end
-- ==== Proof.LibNormTile.lean ====
/-
  A row tile of a batch-normalisation layer followed by a leaky rectifier, read at an index, at the exact instance.

  The tile's value at (p, o) is computed from one row tile x and five rows (bias b, variance v, mean μ, scale g,
  shift β), each row cast to its own shape (the identity) and broadcast over the tile's rows:
      y = ((x (p, o) + b (0, o) − μ (0, o)) · rsqrt (v (0, o) + eps)) · g (0, o) + β (0, o),
  and the result is y where y ≥ 0 and slope · y elsewhere, the comparison and the choice made entry by entry.
  All the operations are entrywise, so the entry of the tile is that expression of the entries. Generic in the two
  extents and in the three constants' words.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib.NormTile

open Idealize.ShloMosaic Idealize.ShloMosaic.ValueIdx

/-- The normalised entry: ((x + b − μ) · rsqrt (v + eps)) · g + β. -/
def normAt (eps x b v μ g β : EReal) : EReal := ((x + b - μ) * Ideal.rsqrt (v + eps)) * g + β

/-- The leaky rectifier as the kernel writes it: y where y ≥ zero, slope · y elsewhere. -/
def leakyAt (zero slope y : EReal) : EReal := Scalar.select (Ideal.cmp .oge y zero) y (slope * y)

/-- Entry (p, o) of the normalised and rectified tile. -/
theorem norm_tile_apply {M N : Nat} (weps wzero wslope : BitVec 32)
    (x : FVec Ideal ⟨2, ![M, N]⟩ .f32) (b v μ g β : FVec Ideal ⟨2, ![1, N]⟩ .f32)
    (hxc : (⟨2, ![M, N]⟩ : Shape).ShapeCasts ⟨2, ![M, N]⟩)
    (hsc : (⟨2, ![1, N]⟩ : Shape).ShapeCasts ⟨2, ![1, N]⟩) (hbc : (⟨2, ![1, N]⟩ : Shape).Broadcasts ⟨2, ![M, N]⟩)
    (p : Fin M) (o : Fin N) :
    select
        (cmpf .oge
          (addf (mulf (mulf (subf (addf (shapeCast ⟨2, ![M, N]⟩ x hxc) (broadcastTo ⟨2, ![M, N]⟩ (shapeCast ⟨2, ![1, N]⟩ b hsc) hbc))
                (broadcastTo ⟨2, ![M, N]⟩ (shapeCast ⟨2, ![1, N]⟩ μ hsc) hbc))
              (broadcastTo ⟨2, ![M, N]⟩ (rsqrt (addf (shapeCast ⟨2, ![1, N]⟩ v hsc) (broadcast ⟨2, ![1, N]⟩ (Scalar.ofBits (F := Ideal) .f32 weps)))) hbc))
            (broadcastTo ⟨2, ![M, N]⟩ (shapeCast ⟨2, ![1, N]⟩ g hsc) hbc))
            (broadcastTo ⟨2, ![M, N]⟩ (shapeCast ⟨2, ![1, N]⟩ β hsc) hbc))
          (broadcast ⟨2, ![M, N]⟩ (Scalar.ofBits (F := Ideal) .f32 wzero)))
        (addf (mulf (mulf (subf (addf (shapeCast ⟨2, ![M, N]⟩ x hxc) (broadcastTo ⟨2, ![M, N]⟩ (shapeCast ⟨2, ![1, N]⟩ b hsc) hbc))
              (broadcastTo ⟨2, ![M, N]⟩ (shapeCast ⟨2, ![1, N]⟩ μ hsc) hbc))
            (broadcastTo ⟨2, ![M, N]⟩ (rsqrt (addf (shapeCast ⟨2, ![1, N]⟩ v hsc) (broadcast ⟨2, ![1, N]⟩ (Scalar.ofBits (F := Ideal) .f32 weps)))) hbc))
          (broadcastTo ⟨2, ![M, N]⟩ (shapeCast ⟨2, ![1, N]⟩ g hsc) hbc))
          (broadcastTo ⟨2, ![M, N]⟩ (shapeCast ⟨2, ![1, N]⟩ β hsc) hbc))
        (mulf (broadcast ⟨2, ![M, N]⟩ (Scalar.ofBits (F := Ideal) .f32 wslope))
          (addf (mulf (mulf (subf (addf (shapeCast ⟨2, ![M, N]⟩ x hxc) (broadcastTo ⟨2, ![M, N]⟩ (shapeCast ⟨2, ![1, N]⟩ b hsc) hbc))
                (broadcastTo ⟨2, ![M, N]⟩ (shapeCast ⟨2, ![1, N]⟩ μ hsc) hbc))
              (broadcastTo ⟨2, ![M, N]⟩ (rsqrt (addf (shapeCast ⟨2, ![1, N]⟩ v hsc) (broadcast ⟨2, ![1, N]⟩ (Scalar.ofBits (F := Ideal) .f32 weps)))) hbc))
            (broadcastTo ⟨2, ![M, N]⟩ (shapeCast ⟨2, ![1, N]⟩ g hsc) hbc))
            (broadcastTo ⟨2, ![M, N]⟩ (shapeCast ⟨2, ![1, N]⟩ β hsc) hbc)))
        (ix2 p o)
      = leakyAt (Ideal.ofBits .f32 wzero) (Ideal.ofBits .f32 wslope)
          (normAt (Ideal.ofBits .f32 weps) (x (ix2 p o)) (b (ix2 (0 : Fin 1) o)) (v (ix2 (0 : Fin 1) o)) (μ (ix2 (0 : Fin 1) o))
            (g (ix2 (0 : Fin 1) o)) (β (ix2 (0 : Fin 1) o))) := by
  rw [shapeCast_self x hxc, shapeCast_self b hsc, shapeCast_self v hsc, shapeCast_self μ hsc, shapeCast_self g hsc, shapeCast_self β hsc]
  have hb : broadcastTo ⟨2, ![M, N]⟩ b hbc (ix2 p o) = b (ix2 (0 : Fin 1) o) := broadcastTo_1b_ab_apply b hbc p o
  have hμ : broadcastTo ⟨2, ![M, N]⟩ μ hbc (ix2 p o) = μ (ix2 (0 : Fin 1) o) := broadcastTo_1b_ab_apply μ hbc p o
  have hg : broadcastTo ⟨2, ![M, N]⟩ g hbc (ix2 p o) = g (ix2 (0 : Fin 1) o) := broadcastTo_1b_ab_apply g hbc p o
  have hβ : broadcastTo ⟨2, ![M, N]⟩ β hbc (ix2 p o) = β (ix2 (0 : Fin 1) o) := broadcastTo_1b_ab_apply β hbc p o
  have hr : broadcastTo ⟨2, ![M, N]⟩ (rsqrt (addf v (broadcast ⟨2, ![1, N]⟩ (Scalar.ofBits (F := Ideal) .f32 weps)))) hbc (ix2 p o)
      = Ideal.rsqrt (v (ix2 (0 : Fin 1) o) + Ideal.ofBits .f32 weps) :=
    broadcastTo_1b_ab_apply _ hbc p o
  show Scalar.select (Ideal.cmp .oge
        ((((x (ix2 p o) + broadcastTo ⟨2, ![M, N]⟩ b hbc (ix2 p o)) - broadcastTo ⟨2, ![M, N]⟩ μ hbc (ix2 p o))
            * broadcastTo ⟨2, ![M, N]⟩ (rsqrt (addf v (broadcast ⟨2, ![1, N]⟩ (Scalar.ofBits (F := Ideal) .f32 weps)))) hbc (ix2 p o))
          * broadcastTo ⟨2, ![M, N]⟩ g hbc (ix2 p o) + broadcastTo ⟨2, ![M, N]⟩ β hbc (ix2 p o))
        (Ideal.ofBits .f32 wzero))
      ((((x (ix2 p o) + broadcastTo ⟨2, ![M, N]⟩ b hbc (ix2 p o)) - broadcastTo ⟨2, ![M, N]⟩ μ hbc (ix2 p o))
            * broadcastTo ⟨2, ![M, N]⟩ (rsqrt (addf v (broadcast ⟨2, ![1, N]⟩ (Scalar.ofBits (F := Ideal) .f32 weps)))) hbc (ix2 p o))
          * broadcastTo ⟨2, ![M, N]⟩ g hbc (ix2 p o) + broadcastTo ⟨2, ![M, N]⟩ β hbc (ix2 p o))
      (Ideal.ofBits .f32 wslope *
        ((((x (ix2 p o) + broadcastTo ⟨2, ![M, N]⟩ b hbc (ix2 p o)) - broadcastTo ⟨2, ![M, N]⟩ μ hbc (ix2 p o))
            * broadcastTo ⟨2, ![M, N]⟩ (rsqrt (addf v (broadcast ⟨2, ![1, N]⟩ (Scalar.ofBits (F := Ideal) .f32 weps)))) hbc (ix2 p o))
          * broadcastTo ⟨2, ![M, N]⟩ g hbc (ix2 p o) + broadcastTo ⟨2, ![M, N]⟩ β hbc (ix2 p o))) = _
  rw [hb, hμ, hg, hβ, hr]
  rfl

end Cert.Lib.NormTile

end
-- ==== Proof.KI.Val2.lean ====
/-
  Region 2's value: the normalise-and-rectify kernel at width 32, read off the pipeline's proof data at the ideal
  values.

  At the ideal values every operation of the body is the exact entrywise one, so what a grid point leaves in the
  output window's staging buffer is, entry by entry,
      y = ((agg (row, o) + bias (0, o) − mean (0, o)) · rsqrt (var (0, o) + eps)) · scale (0, o) + shift (0, o),
  kept where y ≥ 0 and multiplied by the slope elsewhere. Point t reads rows 10000 t … 10000 t + 9999 of the
  aggregated table and the five rows whole, and writes back rows 10000 t … of the result; the ten blocks tile the
  100000 rows, so after the region the result's array holds that function of the six arrays as the region found
  them, at every index.
-/
import proofs.«109725_j21638045237575_1_alg».proof.Proof.KI.Reg2Body
import proofs.«109725_j21638045237575_1_alg».proof.Proof.LibNormTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.Lib.NormTile

section Value2
-- the core's buffer contents when the region is entered, at the ideal values
variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the ten grid points: the row tiles of the aggregated table and of the
    result are at block row t, the five rows at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## The payload at an index -/

/-- Entry (p, o) of the body's one stored value, from the six blocks it read (the payload takes the variance row
    before the mean row): the normalised entry, rectified. -/
theorem pay2_apply (x : Vec Ideal S10000x32 .f32) (b v μ g β : Vec Ideal S1x32 .f32) (p : Fin 10000) (o : Fin 32) :
    (k2_pay1 x b v μ g β : S10000x32.Idx → EReal) (ix2 p o)
      = leakyAt (Ideal.ofBits .f32 0x00000000#32) (Ideal.ofBits .f32 0x3C23D70A#32)
          (normAt (Ideal.ofBits .f32 0x3727C5AC#32) (x (ix2 p o)) (b (ix2 (0 : Fin 1) o)) (v (ix2 (0 : Fin 1) o))
            (μ (ix2 (0 : Fin 1) o)) (g (ix2 (0 : Fin 1) o)) (β (ix2 (0 : Fin 1) o))) := by
  unfold k2_pay1
  exact norm_tile_apply 0x3727C5AC#32 0x00000000#32 0x3C23D70A#32 x b v μ g β
    shapeCasts_S10000x32_S10000x32 shapeCasts_S1x32_S1x32 broadcasts_S1x32_S10000x32 p o

/-! ## The input blocks as entries of the arrays -/

/-- The row tile of the aggregated table at point t is its rows 10000 t … 10000 t + 9999. -/
theorem iblk2_0_apply (c : Dev nD) (t : Fin cfg2.N) (y : S10000x32.Idx) (k : S100000x32.Idx)
    (hk0 : (k 0).val = 10000 * t.val + (y 0).val) (hk1 : (k 1).val = (y 1).val) :
    (iblk2 V c 0 t : Vec Ideal S10000x32 .f32) y = (V c main_v52 : S100000x32.Idx → Elt Ideal .f32) k := by
  obtain ⟨e0, e1, -⟩ := idx2 t
  unfold iblk2
  rw [View.read_apply]
  show V c main_v52 _ = V c main_v52 _
  congr 1
  funext a
  apply Fin.ext
  match a with
  | ⟨0, _⟩ => show win2_0.index t 0 * 10000 + 1 * (y 0).val = (k 0).val; rw [e0, hk0]; omega
  | ⟨1, _⟩ => show win2_0.index t 1 * 32 + 1 * (y 1).val = (k 1).val; rw [e1, hk1]; omega

/-- The block of the bias row at every point is the whole row. -/
theorem iblk2_1_apply (c : Dev nD) (t : Fin cfg2.N) (y : S1x32.Idx) :
    (iblk2 V c 1 t : Vec Ideal S1x32 .f32) y = (V c main_v55 : S1x32.Idx → Elt Ideal .f32) y := by
  obtain ⟨-, -, e0, e1, -⟩ := idx2 t
  unfold iblk2
  rw [View.read_apply]
  show V c main_v55 _ = V c main_v55 _
  congr 1
  funext a
  apply Fin.ext
  match a with
  | ⟨0, _⟩ => show win2_1.index t 0 * 1 + 1 * (y 0).val = (y 0).val; rw [e0]; omega
  | ⟨1, _⟩ => show win2_1.index t 1 * 32 + 1 * (y 1).val = (y 1).val; rw [e1]; omega

/-- The block of the mean row at every point is the whole row. -/
theorem iblk2_2_apply (c : Dev nD) (t : Fin cfg2.N) (y : S1x32.Idx) :
    (iblk2 V c 2 t : Vec Ideal S1x32 .f32) y = (V c main_v54_0 : S1x32.Idx → Elt Ideal .f32) y := by
  obtain ⟨-, -, -, -, e0, e1, -⟩ := idx2 t
  unfold iblk2
  rw [View.read_apply]
  show V c main_v54_0 _ = V c main_v54_0 _
  congr 1
  funext a
  apply Fin.ext
  match a with
  | ⟨0, _⟩ => show win2_2.index t 0 * 1 + 1 * (y 0).val = (y 0).val; rw [e0]; omega
  | ⟨1, _⟩ => show win2_2.index t 1 * 32 + 1 * (y 1).val = (y 1).val; rw [e1]; omega

/-- The block of the variance row at every point is the whole row. -/
theorem iblk2_3_apply (c : Dev nD) (t : Fin cfg2.N) (y : S1x32.Idx) :
    (iblk2 V c 3 t : Vec Ideal S1x32 .f32) y = (V c main_v54_1 : S1x32.Idx → Elt Ideal .f32) y := by
  obtain ⟨-, -, -, -, -, -, e0, e1, -⟩ := idx2 t
  unfold iblk2
  rw [View.read_apply]
  show V c main_v54_1 _ = V c main_v54_1 _
  congr 1
  funext a
  apply Fin.ext
  match a with
  | ⟨0, _⟩ => show win2_3.index t 0 * 1 + 1 * (y 0).val = (y 0).val; rw [e0]; omega
  | ⟨1, _⟩ => show win2_3.index t 1 * 32 + 1 * (y 1).val = (y 1).val; rw [e1]; omega

/-- The block of the scale row at every point is the whole row. -/
theorem iblk2_4_apply (c : Dev nD) (t : Fin cfg2.N) (y : S1x32.Idx) :
    (iblk2 V c 4 t : Vec Ideal S1x32 .f32) y = (V c main_v56 : S1x32.Idx → Elt Ideal .f32) y := by
  obtain ⟨-, -, -, -, -, -, -, -, e0, e1, -⟩ := idx2 t
  unfold iblk2
  rw [View.read_apply]
  show V c main_v56 _ = V c main_v56 _
  congr 1
  funext a
  apply Fin.ext
  match a with
  | ⟨0, _⟩ => show win2_4.index t 0 * 1 + 1 * (y 0).val = (y 0).val; rw [e0]; omega
  | ⟨1, _⟩ => show win2_4.index t 1 * 32 + 1 * (y 1).val = (y 1).val; rw [e1]; omega

/-- The block of the shift row at every point is the whole row. -/
theorem iblk2_5_apply (c : Dev nD) (t : Fin cfg2.N) (y : S1x32.Idx) :
    (iblk2 V c 5 t : Vec Ideal S1x32 .f32) y = (V c main_v57 : S1x32.Idx → Elt Ideal .f32) y := by
  obtain ⟨-, -, -, -, -, -, -, -, -, -, e0, e1, -⟩ := idx2 t
  unfold iblk2
  rw [View.read_apply]
  show V c main_v57 _ = V c main_v57 _
  congr 1
  funext a
  apply Fin.ext
  match a with
  | ⟨0, _⟩ => show win2_5.index t 0 * 1 + 1 * (y 0).val = (y 0).val; rw [e0]; omega
  | ⟨1, _⟩ => show win2_5.index t 1 * 32 + 1 * (y 1).val = (y 1).val; rw [e1]; omega

/-! ## The result as one function of the six arrays -/

/-- The normalised and rectified table, index by index, of the six arrays as the region finds them: the aggregated
    table, then the rows of the bias, the mean, the variance, the scale and the shift. -/
def norm2 (c : Dev nD) : S100000x32.Idx → EReal := fun i =>
  leakyAt (Ideal.ofBits .f32 0x00000000#32) (Ideal.ofBits .f32 0x3C23D70A#32)
    (normAt (Ideal.ofBits .f32 0x3727C5AC#32) ((V c main_v52 : S100000x32.Idx → EReal) i)
      ((V c main_v55 : S1x32.Idx → EReal) (ix2 (0 : Fin 1) (i 1))) ((V c main_v54_1 : S1x32.Idx → EReal) (ix2 (0 : Fin 1) (i 1)))
      ((V c main_v54_0 : S1x32.Idx → EReal) (ix2 (0 : Fin 1) (i 1))) ((V c main_v56 : S1x32.Idx → EReal) (ix2 (0 : Fin 1) (i 1)))
      ((V c main_v57 : S1x32.Idx → EReal) (ix2 (0 : Fin 1) (i 1))))

/-- What point t's body leaves at the block index y is that function at row 10000 t + y's row. -/
theorem point2 (c : Dev nD) (t : Fin cfg2.N) (y : S10000x32.Idx) (i : S100000x32.Idx)
    (hi0 : (i 0).val = 10000 * t.val + (y 0).val) (hi1 : (i 1).val = (y 1).val) :
    (k2_pay1 (iblk2 V c 0 t) (iblk2 V c 1 t) (iblk2 V c 3 t) (iblk2 V c 2 t) (iblk2 V c 4 t) (iblk2 V c 5 t) : S10000x32.Idx → EReal) y
      = norm2 V c i := by
  obtain ⟨p, q, rfl⟩ : ∃ (p : Fin 10000) (q : Fin 32), y = ix2 p q := ⟨y 0, y 1, eq_ix2 y⟩
  obtain ⟨n, o, rfl⟩ : ∃ (n : Fin 100000) (o : Fin 32), i = ix2 n o := ⟨i 0, i 1, eq_ix2 i⟩
  obtain rfl : o = q := Fin.ext hi1
  refine (pay2_apply (iblk2 V c 0 t) (iblk2 V c 1 t) (iblk2 V c 3 t) (iblk2 V c 2 t) (iblk2 V c 4 t) (iblk2 V c 5 t) p o).trans ?_
  unfold norm2
  rw [iblk2_0_apply V c t (ix2 p o) (ix2 n o) hi0 rfl, iblk2_1_apply V c t, iblk2_2_apply V c t, iblk2_3_apply V c t,
    iblk2_4_apply V c t, iblk2_5_apply V c t]

/-- WHAT POINT t WRITES BACK is block t of that function. -/
theorem flushed2_eq (c : Dev nD) (t : Fin cfg2.N) :
    (dat2 V c).flushed 6 t = ((cfg2.win 6).blk t).view.read (Elt Ideal) (norm2 V c) := by
  show (cfg2.win 6).cut (grid2.coords t) ((dat2 V c).after 6 t) = _
  rw [after2_6]
  unfold out2_6
  rw [View.canon_unit_zero hz2]
  simp only [View.ld_unit_zero (S := S10000x32) hz2, View.ld_unit_zero (S := S1x32) hz2]
  obtain ⟨-, -, -, -, -, -, -, -, -, -, -, -, e0, e1⟩ := idx2 t
  funext j
  refine point2 V c t j (((cfg2.win 6).blk t).view.emb j) ?_ ?_
  · show win2_6.index t 0 * 10000 + 1 * (j 0).val = 10000 * t.val + (j 0).val; rw [e0]; omega
  · show win2_6.index t 1 * 32 + 1 * (j 1).val = (j 1).val; rw [e1]; omega

/-! ## The ten blocks tile the array -/

/-- An index of the array is in point t's block iff each coordinate is in the block's range on its axis. -/
theorem mem_blk2 (t : Fin cfg2.N) (i : S100000x32.Idx) :
    i ∈ ((cfg2.win 6).blk t).view.set ↔ ∀ a : Fin 2, win2_6.index t a * S10000x32.size a ≤ (i a).val
      ∧ (i a).val < win2_6.index t a * S10000x32.size a + S10000x32.size a := by
  show i ∈ ((View.whole main_v58).slice (win2_6.rect t)).set ↔ _
  rw [View.set_slice_whole, Rect.mem_set_unit]
  exact Iff.rfl

/-- Every index of the result is in the block of the point its row's tile names. -/
theorem cover2 (i : S100000x32.Idx) :
    ∃ t : Fin cfg2.N, (cfg2.win 6).flush t = true ∧ i ∈ ((cfg2.win 6).blk t).view.set := by
  have hi0 : (i 0).val < 100000 := (i 0).isLt
  have hi1 : (i 1).val < 32 := (i 1).isLt
  have hN : cfg2.N = 10 := N_2
  obtain ⟨t, ht⟩ : ∃ t : Fin cfg2.N, t.val = (i 0).val / 10000 := ⟨⟨(i 0).val / 10000, by omega⟩, rfl⟩
  obtain ⟨-, -, -, -, -, -, -, -, -, -, -, -, e0, e1⟩ := idx2 t
  refine ⟨t, flush2_6 t, ?_⟩
  rw [mem_blk2]
  intro a
  match a with
  | ⟨0, _⟩ =>
    show win2_6.index t (0 : Fin 2) * 10000 ≤ (i 0).val ∧ (i 0).val < win2_6.index t (0 : Fin 2) * 10000 + 10000
    rw [e0, ht]; omega
  | ⟨1, _⟩ =>
    show win2_6.index t (1 : Fin 2) * 32 ≤ (i 1).val ∧ (i 1).val < win2_6.index t (1 : Fin 2) * 32 + 32
    rw [e1]; omega

/-! ## The array after the region -/

/-- THE RESULT'S ARRAY after the region is the normalised and rectified table of the six arrays as the region found them. -/
theorem final2 (c : Dev nD) : (dat2 V c).arrAt 6 cfg2.N = norm2 V c :=
  (dat2 V c).arrAt_eq_of_cover 6 (norm2 V c) (fun t _ => flushed2_eq V c t) cover2

/-- The same, entry by entry, over the six arrays named as functions on their literal index types. -/
theorem norm2_value (c : Dev nD) (A : S100000x32.Idx → EReal) (B Mn Vr G Bt : S1x32.Idx → EReal)
    (hA : A = V c main_v52) (hB : B = V c main_v55) (hMn : Mn = V c main_v54_0) (hVr : Vr = V c main_v54_1)
    (hG : G = V c main_v56) (hBt : Bt = V c main_v57) (n : Fin 100000) (o : Fin 32) :
    ((dat2 V c).arrAt 6 cfg2.N : S100000x32.Idx → EReal) (ix2 n o)
      = leakyAt (Ideal.ofBits .f32 0x00000000#32) (Ideal.ofBits .f32 0x3C23D70A#32)
          (normAt (Ideal.ofBits .f32 0x3727C5AC#32) (A (ix2 n o)) (B (ix2 (0 : Fin 1) o)) (Vr (ix2 (0 : Fin 1) o))
            (Mn (ix2 (0 : Fin 1) o)) (G (ix2 (0 : Fin 1) o)) (Bt (ix2 (0 : Fin 1) o))) := by
  subst hA hB hMn hVr hG hBt
  rw [final2]; rfl

end Value2

end Cert.KernelIdeal.Hand

end
-- ==== Proof.KI.Val5.lean ====
/-
  Region 5's value: the normalise-and-rectify kernel at width 128, read off the pipeline's proof data at the ideal
  values.

  At the ideal values every operation of the body is the exact entrywise one, so what a grid point leaves in the
  output window's staging buffer is, entry by entry,
      y = ((agg (row, o) + bias (0, o) − mean (0, o)) · rsqrt (var (0, o) + eps)) · scale (0, o) + shift (0, o),
  kept where y ≥ 0 and multiplied by the slope elsewhere. Point t reads rows 10000 t … 10000 t + 9999 of the
  aggregated table and the five rows whole, and writes back rows 10000 t … of the result; the ten blocks tile the
  100000 rows, so after the region the result's array holds that function of the six arrays as the region found
  them, at every index.
-/
import proofs.«109725_j21638045237575_1_alg».proof.Proof.KI.Reg5Body
import proofs.«109725_j21638045237575_1_alg».proof.Proof.LibNormTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.Lib.NormTile

section Value5
-- the core's buffer contents when the region is entered, at the ideal values
variable (V : (c : Dev nD) → (b : Ref sig .tc) → Buf (Elt Ideal) ((c : Thread nD τ).loc b))

theorem hz5 : (![0, 0] : Fin 2 → Nat) = fun _ => 0 := funext fun a => by fin_cases a <;> rfl

/-- The printed index maps, decided over the ten grid points: the row tiles of the aggregated table and of the
    result are at block row t, the five rows at block (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-! ## The payload at an index -/

/-- Entry (p, o) of the body's one stored value, from the six blocks it read (the payload takes the variance row
    before the mean row): the normalised entry, rectified. -/
theorem pay5_apply (x : Vec Ideal S10000x128 .f32) (b v μ g β : Vec Ideal S1x128 .f32) (p : Fin 10000) (o : Fin 128) :
    (k5_pay1 x b v μ g β : S10000x128.Idx → EReal) (ix2 p o)
      = leakyAt (Ideal.ofBits .f32 0x00000000#32) (Ideal.ofBits .f32 0x3C23D70A#32)
          (normAt (Ideal.ofBits .f32 0x3727C5AC#32) (x (ix2 p o)) (b (ix2 (0 : Fin 1) o)) (v (ix2 (0 : Fin 1) o))
            (μ (ix2 (0 : Fin 1) o)) (g (ix2 (0 : Fin 1) o)) (β (ix2 (0 : Fin 1) o))) := by
  unfold k5_pay1
  exact norm_tile_apply 0x3727C5AC#32 0x00000000#32 0x3C23D70A#32 x b v μ g β
    shapeCasts_S10000x128_S10000x128 shapeCasts_S1x128_S1x128 broadcasts_S1x128_S10000x128 p o

/-! ## The input blocks as entries of the arrays -/

/-- The row tile of the aggregated table at point t is its rows 10000 t … 10000 t + 9999. -/
theorem iblk5_0_apply (c : Dev nD) (t : Fin cfg5.N) (y : S10000x128.Idx) (k : S100000x128.Idx)
    (hk0 : (k 0).val = 10000 * t.val + (y 0).val) (hk1 : (k 1).val = (y 1).val) :
    (iblk5 V c 0 t : Vec Ideal S10000x128 .f32) y = (V c main_v79 : S100000x128.Idx → Elt Ideal .f32) k := by
  obtain ⟨e0, e1, -⟩ := idx5 t
  unfold iblk5
  rw [View.read_apply]
  show V c main_v79 _ = V c main_v79 _
  congr 1
  funext a
  apply Fin.ext
  match a with
  | ⟨0, _⟩ => show win5_0.index t 0 * 10000 + 1 * (y 0).val = (k 0).val; rw [e0, hk0]; omega
  | ⟨1, _⟩ => show win5_0.index t 1 * 128 + 1 * (y 1).val = (k 1).val; rw [e1, hk1]; omega

/-- The block of the bias row at every point is the whole row. -/
theorem iblk5_1_apply (c : Dev nD) (t : Fin cfg5.N) (y : S1x128.Idx) :
    (iblk5 V c 1 t : Vec Ideal S1x128 .f32) y = (V c main_v82 : S1x128.Idx → Elt Ideal .f32) y := by
  obtain ⟨-, -, e0, e1, -⟩ := idx5 t
  unfold iblk5
  rw [View.read_apply]
  show V c main_v82 _ = V c main_v82 _
  congr 1
  funext a
  apply Fin.ext
  match a with
  | ⟨0, _⟩ => show win5_1.index t 0 * 1 + 1 * (y 0).val = (y 0).val; rw [e0]; omega
  | ⟨1, _⟩ => show win5_1.index t 1 * 128 + 1 * (y 1).val = (y 1).val; rw [e1]; omega

/-- The block of the mean row at every point is the whole row. -/
theorem iblk5_2_apply (c : Dev nD) (t : Fin cfg5.N) (y : S1x128.Idx) :
    (iblk5 V c 2 t : Vec Ideal S1x128 .f32) y = (V c main_v81_0 : S1x128.Idx → Elt Ideal .f32) y := by
  obtain ⟨-, -, -, -, e0, e1, -⟩ := idx5 t
  unfold iblk5
  rw [View.read_apply]
  show V c main_v81_0 _ = V c main_v81_0 _
  congr 1
  funext a
  apply Fin.ext
  match a with
  | ⟨0, _⟩ => show win5_2.index t 0 * 1 + 1 * (y 0).val = (y 0).val; rw [e0]; omega
  | ⟨1, _⟩ => show win5_2.index t 1 * 128 + 1 * (y 1).val = (y 1).val; rw [e1]; omega

/-- The block of the variance row at every point is the whole row. -/
theorem iblk5_3_apply (c : Dev nD) (t : Fin cfg5.N) (y : S1x128.Idx) :
    (iblk5 V c 3 t : Vec Ideal S1x128 .f32) y = (V c main_v81_1 : S1x128.Idx → Elt Ideal .f32) y := by
  obtain ⟨-, -, -, -, -, -, e0, e1, -⟩ := idx5 t
  unfold iblk5
  rw [View.read_apply]
  show V c main_v81_1 _ = V c main_v81_1 _
  congr 1
  funext a
  apply Fin.ext
  match a with
  | ⟨0, _⟩ => show win5_3.index t 0 * 1 + 1 * (y 0).val = (y 0).val; rw [e0]; omega
  | ⟨1, _⟩ => show win5_3.index t 1 * 128 + 1 * (y 1).val = (y 1).val; rw [e1]; omega

/-- The block of the scale row at every point is the whole row. -/
theorem iblk5_4_apply (c : Dev nD) (t : Fin cfg5.N) (y : S1x128.Idx) :
    (iblk5 V c 4 t : Vec Ideal S1x128 .f32) y = (V c main_v83 : S1x128.Idx → Elt Ideal .f32) y := by
  obtain ⟨-, -, -, -, -, -, -, -, e0, e1, -⟩ := idx5 t
  unfold iblk5
  rw [View.read_apply]
  show V c main_v83 _ = V c main_v83 _
  congr 1
  funext a
  apply Fin.ext
  match a with
  | ⟨0, _⟩ => show win5_4.index t 0 * 1 + 1 * (y 0).val = (y 0).val; rw [e0]; omega
  | ⟨1, _⟩ => show win5_4.index t 1 * 128 + 1 * (y 1).val = (y 1).val; rw [e1]; omega

/-- The block of the shift row at every point is the whole row. -/
theorem iblk5_5_apply (c : Dev nD) (t : Fin cfg5.N) (y : S1x128.Idx) :
    (iblk5 V c 5 t : Vec Ideal S1x128 .f32) y = (V c main_v84 : S1x128.Idx → Elt Ideal .f32) y := by
  obtain ⟨-, -, -, -, -, -, -, -, -, -, e0, e1, -⟩ := idx5 t
  unfold iblk5
  rw [View.read_apply]
  show V c main_v84 _ = V c main_v84 _
  congr 1
  funext a
  apply Fin.ext
  match a with
  | ⟨0, _⟩ => show win5_5.index t 0 * 1 + 1 * (y 0).val = (y 0).val; rw [e0]; omega
  | ⟨1, _⟩ => show win5_5.index t 1 * 128 + 1 * (y 1).val = (y 1).val; rw [e1]; omega

/-! ## The result as one function of the six arrays -/

/-- The normalised and rectified table, index by index, of the six arrays as the region finds them: the aggregated
    table, then the rows of the bias, the mean, the variance, the scale and the shift. -/
def norm5 (c : Dev nD) : S100000x128.Idx → EReal := fun i =>
  leakyAt (Ideal.ofBits .f32 0x00000000#32) (Ideal.ofBits .f32 0x3C23D70A#32)
    (normAt (Ideal.ofBits .f32 0x3727C5AC#32) ((V c main_v79 : S100000x128.Idx → EReal) i)
      ((V c main_v82 : S1x128.Idx → EReal) (ix2 (0 : Fin 1) (i 1))) ((V c main_v81_1 : S1x128.Idx → EReal) (ix2 (0 : Fin 1) (i 1)))
      ((V c main_v81_0 : S1x128.Idx → EReal) (ix2 (0 : Fin 1) (i 1))) ((V c main_v83 : S1x128.Idx → EReal) (ix2 (0 : Fin 1) (i 1)))
      ((V c main_v84 : S1x128.Idx → EReal) (ix2 (0 : Fin 1) (i 1))))

/-- What point t's body leaves at the block index y is that function at row 10000 t + y's row. -/
theorem point5 (c : Dev nD) (t : Fin cfg5.N) (y : S10000x128.Idx) (i : S100000x128.Idx)
    (hi0 : (i 0).val = 10000 * t.val + (y 0).val) (hi1 : (i 1).val = (y 1).val) :
    (k5_pay1 (iblk5 V c 0 t) (iblk5 V c 1 t) (iblk5 V c 3 t) (iblk5 V c 2 t) (iblk5 V c 4 t) (iblk5 V c 5 t) : S10000x128.Idx → EReal) y
      = norm5 V c i := by
  obtain ⟨p, q, rfl⟩ : ∃ (p : Fin 10000) (q : Fin 128), y = ix2 p q := ⟨y 0, y 1, eq_ix2 y⟩
  obtain ⟨n, o, rfl⟩ : ∃ (n : Fin 100000) (o : Fin 128), i = ix2 n o := ⟨i 0, i 1, eq_ix2 i⟩
  obtain rfl : o = q := Fin.ext hi1
  refine (pay5_apply (iblk5 V c 0 t) (iblk5 V c 1 t) (iblk5 V c 3 t) (iblk5 V c 2 t) (iblk5 V c 4 t) (iblk5 V c 5 t) p o).trans ?_
  unfold norm5
  rw [iblk5_0_apply V c t (ix2 p o) (ix2 n o) hi0 rfl, iblk5_1_apply V c t, iblk5_2_apply V c t, iblk5_3_apply V c t,
    iblk5_4_apply V c t, iblk5_5_apply V c t]

/-- WHAT POINT t WRITES BACK is block t of that function. -/
theorem flushed5_eq (c : Dev nD) (t : Fin cfg5.N) :
    (dat5 V c).flushed 6 t = ((cfg5.win 6).blk t).view.read (Elt Ideal) (norm5 V c) := by
  show (cfg5.win 6).cut (grid5.coords t) ((dat5 V c).after 6 t) = _
  rw [after5_6]
  unfold out5_6
  rw [View.canon_unit_zero hz5]
  simp only [View.ld_unit_zero (S := S10000x128) hz5, View.ld_unit_zero (S := S1x128) hz5]
  obtain ⟨-, -, -, -, -, -, -, -, -, -, -, -, e0, e1⟩ := idx5 t
  funext j
  refine point5 V c t j (((cfg5.win 6).blk t).view.emb j) ?_ ?_
  · show win5_6.index t 0 * 10000 + 1 * (j 0).val = 10000 * t.val + (j 0).val; rw [e0]; omega
  · show win5_6.index t 1 * 128 + 1 * (j 1).val = (j 1).val; rw [e1]; omega

/-! ## The ten blocks tile the array -/

/-- An index of the array is in point t's block iff each coordinate is in the block's range on its axis. -/
theorem mem_blk5 (t : Fin cfg5.N) (i : S100000x128.Idx) :
    i ∈ ((cfg5.win 6).blk t).view.set ↔ ∀ a : Fin 2, win5_6.index t a * S10000x128.size a ≤ (i a).val
      ∧ (i a).val < win5_6.index t a * S10000x128.size a + S10000x128.size a := by
  show i ∈ ((View.whole main_v85).slice (win5_6.rect t)).set ↔ _
  rw [View.set_slice_whole, Rect.mem_set_unit]
  exact Iff.rfl

/-- Every index of the result is in the block of the point its row's tile names. -/
theorem cover5 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 10 := N_5
  obtain ⟨t, ht⟩ : ∃ t : Fin cfg5.N, t.val = (i 0).val / 10000 := ⟨⟨(i 0).val / 10000, by omega⟩, rfl⟩
  obtain ⟨-, -, -, -, -, -, -, -, -, -, -, -, e0, e1⟩ := idx5 t
  refine ⟨t, flush5_6 t, ?_⟩
  rw [mem_blk5]
  intro a
  match a with
  | ⟨0, _⟩ =>
    show win5_6.index t (0 : Fin 2) * 10000 ≤ (i 0).val ∧ (i 0).val < win5_6.index t (0 : Fin 2) * 10000 + 10000
    rw [e0, ht]; omega
  | ⟨1, _⟩ =>
    show win5_6.index t (1 : Fin 2) * 128 ≤ (i 1).val ∧ (i 1).val < win5_6.index t (1 : Fin 2) * 128 + 128
    rw [e1]; omega

/-! ## The array after the region -/

/-- THE RESULT'S ARRAY after the region is the normalised and rectified table of the six arrays as the region found them. -/
theorem final5 (c : Dev nD) : (dat5 V c).arrAt 6 cfg5.N = norm5 V c :=
  (dat5 V c).arrAt_eq_of_cover 6 (norm5 V c) (fun t _ => flushed5_eq V c t) cover5

/-- The same, entry by entry, over the six arrays named as functions on their literal index types. -/
theorem norm5_value (c : Dev nD) (A : S100000x128.Idx → EReal) (B Mn Vr G Bt : S1x128.Idx → EReal)
    (hA : A = V c main_v79) (hB : B = V c main_v82) (hMn : Mn = V c main_v81_0) (hVr : Vr = V c main_v81_1)
    (hG : G = V c main_v83) (hBt : Bt = V c main_v84) (n : Fin 100000) (o : Fin 128) :
    ((dat5 V c).arrAt 6 cfg5.N : S100000x128.Idx → EReal) (ix2 n o)
      = leakyAt (Ideal.ofBits .f32 0x00000000#32) (Ideal.ofBits .f32 0x3C23D70A#32)
          (normAt (Ideal.ofBits .f32 0x3727C5AC#32) (A (ix2 n o)) (B (ix2 (0 : Fin 1) o)) (Vr (ix2 (0 : Fin 1) o))
            (Mn (ix2 (0 : Fin 1) o)) (G (ix2 (0 : Fin 1) o)) (Bt (ix2 (0 : Fin 1) o))) := by
  subst hA hB hMn hVr hG hBt
  rw [final5]; rfl

end Value5

end Cert.KernelIdeal.Hand

end
-- ==== Proof.KI.Val8.lean ====
/-
  Region 8's value: the normalise-and-rectify kernel at width 128, read off the pipeline's proof data at the ideal
  values.

  At the ideal values every operation of the body is the exact entrywise one, so what a grid point leaves in the
  output window's staging buffer is, entry by entry,
      y = ((agg (row, o) + bias (0, o) − mean (0, o)) · rsqrt (var (0, o) + eps)) · scale (0, o) + shift (0, o),
  kept where y ≥ 0 and multiplied by the slope elsewhere. Point t reads rows 10000 t … 10000 t + 9999 of the
  aggregated table and the five rows whole, and writes back rows 10000 t … of the result; the ten blocks tile the
  100000 rows, so after the region the result's array holds that function of the six arrays as the region found
  them, at every index.
-/
import proofs.«109725_j21638045237575_1_alg».proof.Proof.KI.Reg8Body
import proofs.«109725_j21638045237575_1_alg».proof.Proof.LibNormTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.Lib.NormTile

section Value8
-- the core's buffer contents when the region is entered, at the ideal values
variable (V : (c : Dev nD) → (b : Ref sig .tc) → Buf (Elt Ideal) ((c : Thread nD τ).loc b))

theorem hz8 : (![0, 0] : Fin 2 → Nat) = fun _ => 0 := funext fun a => by fin_cases a <;> rfl

/-- The printed index maps, decided over the ten grid points: the row tiles of the aggregated table and of the
    result are at block row t, the five rows at block (0, 0). -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

/-! ## The payload at an index -/

/-- Entry (p, o) of the body's one stored value, from the six blocks it read (the payload takes the variance row
    before the mean row): the normalised entry, rectified. -/
theorem pay8_apply (x : Vec Ideal S10000x128 .f32) (b v μ g β : Vec Ideal S1x128 .f32) (p : Fin 10000) (o : Fin 128) :
    (k8_pay1 x b v μ g β : S10000x128.Idx → EReal) (ix2 p o)
      = leakyAt (Ideal.ofBits .f32 0x00000000#32) (Ideal.ofBits .f32 0x3C23D70A#32)
          (normAt (Ideal.ofBits .f32 0x3727C5AC#32) (x (ix2 p o)) (b (ix2 (0 : Fin 1) o)) (v (ix2 (0 : Fin 1) o))
            (μ (ix2 (0 : Fin 1) o)) (g (ix2 (0 : Fin 1) o)) (β (ix2 (0 : Fin 1) o))) := by
  unfold k8_pay1
  exact norm_tile_apply 0x3727C5AC#32 0x00000000#32 0x3C23D70A#32 x b v μ g β
    shapeCasts_S10000x128_S10000x128 shapeCasts_S1x128_S1x128 broadcasts_S1x128_S10000x128 p o

/-! ## The input blocks as entries of the arrays -/

/-- The row tile of the aggregated table at point t is its rows 10000 t … 10000 t + 9999. -/
theorem iblk8_0_apply (c : Dev nD) (t : Fin cfg8.N) (y : S10000x128.Idx) (k : S100000x128.Idx)
    (hk0 : (k 0).val = 10000 * t.val + (y 0).val) (hk1 : (k 1).val = (y 1).val) :
    (iblk8 V c 0 t : Vec Ideal S10000x128 .f32) y = (V c main_v106 : S100000x128.Idx → Elt Ideal .f32) k := by
  obtain ⟨e0, e1, -⟩ := idx8 t
  unfold iblk8
  rw [View.read_apply]
  show V c main_v106 _ = V c main_v106 _
  congr 1
  funext a
  apply Fin.ext
  match a with
  | ⟨0, _⟩ => show win8_0.index t 0 * 10000 + 1 * (y 0).val = (k 0).val; rw [e0, hk0]; omega
  | ⟨1, _⟩ => show win8_0.index t 1 * 128 + 1 * (y 1).val = (k 1).val; rw [e1, hk1]; omega

/-- The block of the bias row at every point is the whole row. -/
theorem iblk8_1_apply (c : Dev nD) (t : Fin cfg8.N) (y : S1x128.Idx) :
    (iblk8 V c 1 t : Vec Ideal S1x128 .f32) y = (V c main_v109 : S1x128.Idx → Elt Ideal .f32) y := by
  obtain ⟨-, -, e0, e1, -⟩ := idx8 t
  unfold iblk8
  rw [View.read_apply]
  show V c main_v109 _ = V c main_v109 _
  congr 1
  funext a
  apply Fin.ext
  match a with
  | ⟨0, _⟩ => show win8_1.index t 0 * 1 + 1 * (y 0).val = (y 0).val; rw [e0]; omega
  | ⟨1, _⟩ => show win8_1.index t 1 * 128 + 1 * (y 1).val = (y 1).val; rw [e1]; omega

/-- The block of the mean row at every point is the whole row. -/
theorem iblk8_2_apply (c : Dev nD) (t : Fin cfg8.N) (y : S1x128.Idx) :
    (iblk8 V c 2 t : Vec Ideal S1x128 .f32) y = (V c main_v108_0 : S1x128.Idx → Elt Ideal .f32) y := by
  obtain ⟨-, -, -, -, e0, e1, -⟩ := idx8 t
  unfold iblk8
  rw [View.read_apply]
  show V c main_v108_0 _ = V c main_v108_0 _
  congr 1
  funext a
  apply Fin.ext
  match a with
  | ⟨0, _⟩ => show win8_2.index t 0 * 1 + 1 * (y 0).val = (y 0).val; rw [e0]; omega
  | ⟨1, _⟩ => show win8_2.index t 1 * 128 + 1 * (y 1).val = (y 1).val; rw [e1]; omega

/-- The block of the variance row at every point is the whole row. -/
theorem iblk8_3_apply (c : Dev nD) (t : Fin cfg8.N) (y : S1x128.Idx) :
    (iblk8 V c 3 t : Vec Ideal S1x128 .f32) y = (V c main_v108_1 : S1x128.Idx → Elt Ideal .f32) y := by
  obtain ⟨-, -, -, -, -, -, e0, e1, -⟩ := idx8 t
  unfold iblk8
  rw [View.read_apply]
  show V c main_v108_1 _ = V c main_v108_1 _
  congr 1
  funext a
  apply Fin.ext
  match a with
  | ⟨0, _⟩ => show win8_3.index t 0 * 1 + 1 * (y 0).val = (y 0).val; rw [e0]; omega
  | ⟨1, _⟩ => show win8_3.index t 1 * 128 + 1 * (y 1).val = (y 1).val; rw [e1]; omega

/-- The block of the scale row at every point is the whole row. -/
theorem iblk8_4_apply (c : Dev nD) (t : Fin cfg8.N) (y : S1x128.Idx) :
    (iblk8 V c 4 t : Vec Ideal S1x128 .f32) y = (V c main_v110 : S1x128.Idx → Elt Ideal .f32) y := by
  obtain ⟨-, -, -, -, -, -, -, -, e0, e1, -⟩ := idx8 t
  unfold iblk8
  rw [View.read_apply]
  show V c main_v110 _ = V c main_v110 _
  congr 1
  funext a
  apply Fin.ext
  match a with
  | ⟨0, _⟩ => show win8_4.index t 0 * 1 + 1 * (y 0).val = (y 0).val; rw [e0]; omega
  | ⟨1, _⟩ => show win8_4.index t 1 * 128 + 1 * (y 1).val = (y 1).val; rw [e1]; omega

/-- The block of the shift row at every point is the whole row. -/
theorem iblk8_5_apply (c : Dev nD) (t : Fin cfg8.N) (y : S1x128.Idx) :
    (iblk8 V c 5 t : Vec Ideal S1x128 .f32) y = (V c main_v111 : S1x128.Idx → Elt Ideal .f32) y := by
  obtain ⟨-, -, -, -, -, -, -, -, -, -, e0, e1, -⟩ := idx8 t
  unfold iblk8
  rw [View.read_apply]
  show V c main_v111 _ = V c main_v111 _
  congr 1
  funext a
  apply Fin.ext
  match a with
  | ⟨0, _⟩ => show win8_5.index t 0 * 1 + 1 * (y 0).val = (y 0).val; rw [e0]; omega
  | ⟨1, _⟩ => show win8_5.index t 1 * 128 + 1 * (y 1).val = (y 1).val; rw [e1]; omega

/-! ## The result as one function of the six arrays -/

/-- The normalised and rectified table, index by index, of the six arrays as the region finds them: the aggregated
    table, then the rows of the bias, the mean, the variance, the scale and the shift. -/
def norm8 (c : Dev nD) : S100000x128.Idx → EReal := fun i =>
  leakyAt (Ideal.ofBits .f32 0x00000000#32) (Ideal.ofBits .f32 0x3C23D70A#32)
    (normAt (Ideal.ofBits .f32 0x3727C5AC#32) ((V c main_v106 : S100000x128.Idx → EReal) i)
      ((V c main_v109 : S1x128.Idx → EReal) (ix2 (0 : Fin 1) (i 1))) ((V c main_v108_1 : S1x128.Idx → EReal) (ix2 (0 : Fin 1) (i 1)))
      ((V c main_v108_0 : S1x128.Idx → EReal) (ix2 (0 : Fin 1) (i 1))) ((V c main_v110 : S1x128.Idx → EReal) (ix2 (0 : Fin 1) (i 1)))
      ((V c main_v111 : S1x128.Idx → EReal) (ix2 (0 : Fin 1) (i 1))))

/-- What point t's body leaves at the block index y is that function at row 10000 t + y's row. -/
theorem point8 (c : Dev nD) (t : Fin cfg8.N) (y : S10000x128.Idx) (i : S100000x128.Idx)
    (hi0 : (i 0).val = 10000 * t.val + (y 0).val) (hi1 : (i 1).val = (y 1).val) :
    (k8_pay1 (iblk8 V c 0 t) (iblk8 V c 1 t) (iblk8 V c 3 t) (iblk8 V c 2 t) (iblk8 V c 4 t) (iblk8 V c 5 t) : S10000x128.Idx → EReal) y
      = norm8 V c i := by
  obtain ⟨p, q, rfl⟩ : ∃ (p : Fin 10000) (q : Fin 128), y = ix2 p q := ⟨y 0, y 1, eq_ix2 y⟩
  obtain ⟨n, o, rfl⟩ : ∃ (n : Fin 100000) (o : Fin 128), i = ix2 n o := ⟨i 0, i 1, eq_ix2 i⟩
  obtain rfl : o = q := Fin.ext hi1
  refine (pay8_apply (iblk8 V c 0 t) (iblk8 V c 1 t) (iblk8 V c 3 t) (iblk8 V c 2 t) (iblk8 V c 4 t) (iblk8 V c 5 t) p o).trans ?_
  unfold norm8
  rw [iblk8_0_apply V c t (ix2 p o) (ix2 n o) hi0 rfl, iblk8_1_apply V c t, iblk8_2_apply V c t, iblk8_3_apply V c t,
    iblk8_4_apply V c t, iblk8_5_apply V c t]

/-- WHAT POINT t WRITES BACK is block t of that function. -/
theorem flushed8_eq (c : Dev nD) (t : Fin cfg8.N) :
    (dat8 V c).flushed 6 t = ((cfg8.win 6).blk t).view.read (Elt Ideal) (norm8 V c) := by
  show (cfg8.win 6).cut (grid8.coords t) ((dat8 V c).after 6 t) = _
  rw [after8_6]
  unfold out8_6
  rw [View.canon_unit_zero hz8]
  simp only [View.ld_unit_zero (S := S10000x128) hz8, View.ld_unit_zero (S := S1x128) hz8]
  obtain ⟨-, -, -, -, -, -, -, -, -, -, -, -, e0, e1⟩ := idx8 t
  funext j
  refine point8 V c t j (((cfg8.win 6).blk t).view.emb j) ?_ ?_
  · show win8_6.index t 0 * 10000 + 1 * (j 0).val = 10000 * t.val + (j 0).val; rw [e0]; omega
  · show win8_6.index t 1 * 128 + 1 * (j 1).val = (j 1).val; rw [e1]; omega

/-! ## The ten blocks tile the array -/

/-- An index of the array is in point t's block iff each coordinate is in the block's range on its axis. -/
theorem mem_blk8 (t : Fin cfg8.N) (i : S100000x128.Idx) :
    i ∈ ((cfg8.win 6).blk t).view.set ↔ ∀ a : Fin 2, win8_6.index t a * S10000x128.size a ≤ (i a).val
      ∧ (i a).val < win8_6.index t a * S10000x128.size a + S10000x128.size a := by
  show i ∈ ((View.whole main_v112).slice (win8_6.rect t)).set ↔ _
  rw [View.set_slice_whole, Rect.mem_set_unit]
  exact Iff.rfl

/-- Every index of the result is in the block of the point its row's tile names. -/
theorem cover8 (i : S100000x128.Idx) :
    ∃ t : Fin cfg8.N, (cfg8.win 6).flush t = true ∧ i ∈ ((cfg8.win 6).blk t).view.set := by
  have hi0 : (i 0).val < 100000 := (i 0).isLt
  have hi1 : (i 1).val < 128 := (i 1).isLt
  have hN : cfg8.N = 10 := N_8
  obtain ⟨t, ht⟩ : ∃ t : Fin cfg8.N, t.val = (i 0).val / 10000 := ⟨⟨(i 0).val / 10000, by omega⟩, rfl⟩
  obtain ⟨-, -, -, -, -, -, -, -, -, -, -, -, e0, e1⟩ := idx8 t
  refine ⟨t, flush8_6 t, ?_⟩
  rw [mem_blk8]
  intro a
  match a with
  | ⟨0, _⟩ =>
    show win8_6.index t (0 : Fin 2) * 10000 ≤ (i 0).val ∧ (i 0).val < win8_6.index t (0 : Fin 2) * 10000 + 10000
    rw [e0, ht]; omega
  | ⟨1, _⟩ =>
    show win8_6.index t (1 : Fin 2) * 128 ≤ (i 1).val ∧ (i 1).val < win8_6.index t (1 : Fin 2) * 128 + 128
    rw [e1]; omega

/-! ## The array after the region -/

/-- THE RESULT'S ARRAY after the region is the normalised and rectified table of the six arrays as the region found them. -/
theorem final8 (c : Dev nD) : (dat8 V c).arrAt 6 cfg8.N = norm8 V c :=
  (dat8 V c).arrAt_eq_of_cover 6 (norm8 V c) (fun t _ => flushed8_eq V c t) cover8

/-- The same, entry by entry, over the six arrays named as functions on their literal index types. -/
theorem norm8_value (c : Dev nD) (A : S100000x128.Idx → EReal) (B Mn Vr G Bt : S1x128.Idx → EReal)
    (hA : A = V c main_v106) (hB : B = V c main_v109) (hMn : Mn = V c main_v108_0) (hVr : Vr = V c main_v108_1)
    (hG : G = V c main_v110) (hBt : Bt = V c main_v111) (n : Fin 100000) (o : Fin 128) :
    ((dat8 V c).arrAt 6 cfg8.N : S100000x128.Idx → EReal) (ix2 n o)
      = leakyAt (Ideal.ofBits .f32 0x00000000#32) (Ideal.ofBits .f32 0x3C23D70A#32)
          (normAt (Ideal.ofBits .f32 0x3727C5AC#32) (A (ix2 n o)) (B (ix2 (0 : Fin 1) o)) (Vr (ix2 (0 : Fin 1) o))
            (Mn (ix2 (0 : Fin 1) o)) (G (ix2 (0 : Fin 1) o)) (Bt (ix2 (0 : Fin 1) o))) := by
  subst hA hB hMn hVr hG hBt
  rw [final8]; rfl

end Value8

end Cert.KernelIdeal.Hand

end
-- ==== Proof.KI.Val11.lean ====
/-
  Region 11's value: the normalise-and-rectify kernel at width 32, read off the pipeline's proof data at the ideal
  values.

  At the ideal values every operation of the body is the exact entrywise one, so what a grid point leaves in the
  output window's staging buffer is, entry by entry,
      y = ((agg (row, o) + bias (0, o) − mean (0, o)) · rsqrt (var (0, o) + eps)) · scale (0, o) + shift (0, o),
  kept where y ≥ 0 and multiplied by the slope elsewhere. Point t reads rows 10000 t … 10000 t + 9999 of the
  aggregated table and the five rows whole, and writes back rows 10000 t … of the result; the ten blocks tile the
  100000 rows, so after the region the result's array holds that function of the six arrays as the region found
  them, at every index.
-/
import proofs.«109725_j21638045237575_1_alg».proof.Proof.KI.Reg11Body
import proofs.«109725_j21638045237575_1_alg».proof.Proof.LibNormTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.Lib.NormTile

section Value11
-- the core's buffer contents when the region is entered, at the ideal values
variable (V : (c : Dev nD) → (b : Ref sig .tc) → Buf (Elt Ideal) ((c : Thread nD τ).loc b))

theorem hz11 : (![0, 0] : Fin 2 → Nat) = fun _ => 0 := funext fun a => by fin_cases a <;> rfl

/-- The printed index maps, decided over the ten grid points: the row tiles of the aggregated table and of the
    result are at block row t, the five rows at block (0, 0). -/
theorem idx11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = t.val ∧ win11_6.index t (1 : Fin 2) = 0 :=
  (by decide +kernel : ∀ t : Fin grid11.N, _)

/-! ## The payload at an index -/

/-- Entry (p, o) of the body's one stored value, from the six blocks it read (the payload takes the variance row
    before the mean row): the normalised entry, rectified. -/
theorem pay11_apply (x : Vec Ideal S10000x32 .f32) (b v μ g β : Vec Ideal S1x32 .f32) (p : Fin 10000) (o : Fin 32) :
    (k11_pay1 x b v μ g β : S10000x32.Idx → EReal) (ix2 p o)
      = leakyAt (Ideal.ofBits .f32 0x00000000#32) (Ideal.ofBits .f32 0x3C23D70A#32)
          (normAt (Ideal.ofBits .f32 0x3727C5AC#32) (x (ix2 p o)) (b (ix2 (0 : Fin 1) o)) (v (ix2 (0 : Fin 1) o))
            (μ (ix2 (0 : Fin 1) o)) (g (ix2 (0 : Fin 1) o)) (β (ix2 (0 : Fin 1) o))) := by
  unfold k11_pay1
  exact norm_tile_apply 0x3727C5AC#32 0x00000000#32 0x3C23D70A#32 x b v μ g β
    shapeCasts_S10000x32_S10000x32 shapeCasts_S1x32_S1x32 broadcasts_S1x32_S10000x32 p o

/-! ## The input blocks as entries of the arrays -/

/-- The row tile of the aggregated table at point t is its rows 10000 t … 10000 t + 9999. -/
theorem iblk11_0_apply (c : Dev nD) (t : Fin cfg11.N) (y : S10000x32.Idx) (k : S100000x32.Idx)
    (hk0 : (k 0).val = 10000 * t.val + (y 0).val) (hk1 : (k 1).val = (y 1).val) :
    (iblk11 V c 0 t : Vec Ideal S10000x32 .f32) y = (V c main_v133 : S100000x32.Idx → Elt Ideal .f32) k := by
  obtain ⟨e0, e1, -⟩ := idx11 t
  unfold iblk11
  rw [View.read_apply]
  show V c main_v133 _ = V c main_v133 _
  congr 1
  funext a
  apply Fin.ext
  match a with
  | ⟨0, _⟩ => show win11_0.index t 0 * 10000 + 1 * (y 0).val = (k 0).val; rw [e0, hk0]; omega
  | ⟨1, _⟩ => show win11_0.index t 1 * 32 + 1 * (y 1).val = (k 1).val; rw [e1, hk1]; omega

/-- The block of the bias row at every point is the whole row. -/
theorem iblk11_1_apply (c : Dev nD) (t : Fin cfg11.N) (y : S1x32.Idx) :
    (iblk11 V c 1 t : Vec Ideal S1x32 .f32) y = (V c main_v136 : S1x32.Idx → Elt Ideal .f32) y := by
  obtain ⟨-, -, e0, e1, -⟩ := idx11 t
  unfold iblk11
  rw [View.read_apply]
  show V c main_v136 _ = V c main_v136 _
  congr 1
  funext a
  apply Fin.ext
  match a with
  | ⟨0, _⟩ => show win11_1.index t 0 * 1 + 1 * (y 0).val = (y 0).val; rw [e0]; omega
  | ⟨1, _⟩ => show win11_1.index t 1 * 32 + 1 * (y 1).val = (y 1).val; rw [e1]; omega

/-- The block of the mean row at every point is the whole row. -/
theorem iblk11_2_apply (c : Dev nD) (t : Fin cfg11.N) (y : S1x32.Idx) :
    (iblk11 V c 2 t : Vec Ideal S1x32 .f32) y = (V c main_v135_0 : S1x32.Idx → Elt Ideal .f32) y := by
  obtain ⟨-, -, -, -, e0, e1, -⟩ := idx11 t
  unfold iblk11
  rw [View.read_apply]
  show V c main_v135_0 _ = V c main_v135_0 _
  congr 1
  funext a
  apply Fin.ext
  match a with
  | ⟨0, _⟩ => show win11_2.index t 0 * 1 + 1 * (y 0).val = (y 0).val; rw [e0]; omega
  | ⟨1, _⟩ => show win11_2.index t 1 * 32 + 1 * (y 1).val = (y 1).val; rw [e1]; omega

/-- The block of the variance row at every point is the whole row. -/
theorem iblk11_3_apply (c : Dev nD) (t : Fin cfg11.N) (y : S1x32.Idx) :
    (iblk11 V c 3 t : Vec Ideal S1x32 .f32) y = (V c main_v135_1 : S1x32.Idx → Elt Ideal .f32) y := by
  obtain ⟨-, -, -, -, -, -, e0, e1, -⟩ := idx11 t
  unfold iblk11
  rw [View.read_apply]
  show V c main_v135_1 _ = V c main_v135_1 _
  congr 1
  funext a
  apply Fin.ext
  match a with
  | ⟨0, _⟩ => show win11_3.index t 0 * 1 + 1 * (y 0).val = (y 0).val; rw [e0]; omega
  | ⟨1, _⟩ => show win11_3.index t 1 * 32 + 1 * (y 1).val = (y 1).val; rw [e1]; omega

/-- The block of the scale row at every point is the whole row. -/
theorem iblk11_4_apply (c : Dev nD) (t : Fin cfg11.N) (y : S1x32.Idx) :
    (iblk11 V c 4 t : Vec Ideal S1x32 .f32) y = (V c main_v137 : S1x32.Idx → Elt Ideal .f32) y := by
  obtain ⟨-, -, -, -, -, -, -, -, e0, e1, -⟩ := idx11 t
  unfold iblk11
  rw [View.read_apply]
  show V c main_v137 _ = V c main_v137 _
  congr 1
  funext a
  apply Fin.ext
  match a with
  | ⟨0, _⟩ => show win11_4.index t 0 * 1 + 1 * (y 0).val = (y 0).val; rw [e0]; omega
  | ⟨1, _⟩ => show win11_4.index t 1 * 32 + 1 * (y 1).val = (y 1).val; rw [e1]; omega

/-- The block of the shift row at every point is the whole row. -/
theorem iblk11_5_apply (c : Dev nD) (t : Fin cfg11.N) (y : S1x32.Idx) :
    (iblk11 V c 5 t : Vec Ideal S1x32 .f32) y = (V c main_v138 : S1x32.Idx → Elt Ideal .f32) y := by
  obtain ⟨-, -, -, -, -, -, -, -, -, -, e0, e1, -⟩ := idx11 t
  unfold iblk11
  rw [View.read_apply]
  show V c main_v138 _ = V c main_v138 _
  congr 1
  funext a
  apply Fin.ext
  match a with
  | ⟨0, _⟩ => show win11_5.index t 0 * 1 + 1 * (y 0).val = (y 0).val; rw [e0]; omega
  | ⟨1, _⟩ => show win11_5.index t 1 * 32 + 1 * (y 1).val = (y 1).val; rw [e1]; omega

/-! ## The result as one function of the six arrays -/

/-- The normalised and rectified table, index by index, of the six arrays as the region finds them: the aggregated
    table, then the rows of the bias, the mean, the variance, the scale and the shift. -/
def norm11 (c : Dev nD) : S100000x32.Idx → EReal := fun i =>
  leakyAt (Ideal.ofBits .f32 0x00000000#32) (Ideal.ofBits .f32 0x3C23D70A#32)
    (normAt (Ideal.ofBits .f32 0x3727C5AC#32) ((V c main_v133 : S100000x32.Idx → EReal) i)
      ((V c main_v136 : S1x32.Idx → EReal) (ix2 (0 : Fin 1) (i 1))) ((V c main_v135_1 : S1x32.Idx → EReal) (ix2 (0 : Fin 1) (i 1)))
      ((V c main_v135_0 : S1x32.Idx → EReal) (ix2 (0 : Fin 1) (i 1))) ((V c main_v137 : S1x32.Idx → EReal) (ix2 (0 : Fin 1) (i 1)))
      ((V c main_v138 : S1x32.Idx → EReal) (ix2 (0 : Fin 1) (i 1))))

/-- What point t's body leaves at the block index y is that function at row 10000 t + y's row. -/
theorem point11 (c : Dev nD) (t : Fin cfg11.N) (y : S10000x32.Idx) (i : S100000x32.Idx)
    (hi0 : (i 0).val = 10000 * t.val + (y 0).val) (hi1 : (i 1).val = (y 1).val) :
    (k11_pay1 (iblk11 V c 0 t) (iblk11 V c 1 t) (iblk11 V c 3 t) (iblk11 V c 2 t) (iblk11 V c 4 t) (iblk11 V c 5 t) : S10000x32.Idx → EReal) y
      = norm11 V c i := by
  obtain ⟨p, q, rfl⟩ : ∃ (p : Fin 10000) (q : Fin 32), y = ix2 p q := ⟨y 0, y 1, eq_ix2 y⟩
  obtain ⟨n, o, rfl⟩ : ∃ (n : Fin 100000) (o : Fin 32), i = ix2 n o := ⟨i 0, i 1, eq_ix2 i⟩
  obtain rfl : o = q := Fin.ext hi1
  refine (pay11_apply (iblk11 V c 0 t) (iblk11 V c 1 t) (iblk11 V c 3 t) (iblk11 V c 2 t) (iblk11 V c 4 t) (iblk11 V c 5 t) p o).trans ?_
  unfold norm11
  rw [iblk11_0_apply V c t (ix2 p o) (ix2 n o) hi0 rfl, iblk11_1_apply V c t, iblk11_2_apply V c t, iblk11_3_apply V c t,
    iblk11_4_apply V c t, iblk11_5_apply V c t]

/-- WHAT POINT t WRITES BACK is block t of that function. -/
theorem flushed11_eq (c : Dev nD) (t : Fin cfg11.N) :
    (dat11 V c).flushed 6 t = ((cfg11.win 6).blk t).view.read (Elt Ideal) (norm11 V c) := by
  show (cfg11.win 6).cut (grid11.coords t) ((dat11 V c).after 6 t) = _
  rw [after11_6]
  unfold out11_6
  rw [View.canon_unit_zero hz11]
  simp only [View.ld_unit_zero (S := S10000x32) hz11, View.ld_unit_zero (S := S1x32) hz11]
  obtain ⟨-, -, -, -, -, -, -, -, -, -, -, -, e0, e1⟩ := idx11 t
  funext j
  refine point11 V c t j (((cfg11.win 6).blk t).view.emb j) ?_ ?_
  · show win11_6.index t 0 * 10000 + 1 * (j 0).val = 10000 * t.val + (j 0).val; rw [e0]; omega
  · show win11_6.index t 1 * 32 + 1 * (j 1).val = (j 1).val; rw [e1]; omega

/-! ## The ten blocks tile the array -/

/-- An index of the array is in point t's block iff each coordinate is in the block's range on its axis. -/
theorem mem_blk11 (t : Fin cfg11.N) (i : S100000x32.Idx) :
    i ∈ ((cfg11.win 6).blk t).view.set ↔ ∀ a : Fin 2, win11_6.index t a * S10000x32.size a ≤ (i a).val
      ∧ (i a).val < win11_6.index t a * S10000x32.size a + S10000x32.size a := by
  show i ∈ ((View.whole main_v139).slice (win11_6.rect t)).set ↔ _
  rw [View.set_slice_whole, Rect.mem_set_unit]
  exact Iff.rfl

/-- Every index of the result is in the block of the point its row's tile names. -/
theorem cover11 (i : S100000x32.Idx) :
    ∃ t : Fin cfg11.N, (cfg11.win 6).flush t = true ∧ i ∈ ((cfg11.win 6).blk t).view.set := by
  have hi0 : (i 0).val < 100000 := (i 0).isLt
  have hi1 : (i 1).val < 32 := (i 1).isLt
  have hN : cfg11.N = 10 := N_11
  obtain ⟨t, ht⟩ : ∃ t : Fin cfg11.N, t.val = (i 0).val / 10000 := ⟨⟨(i 0).val / 10000, by omega⟩, rfl⟩
  obtain ⟨-, -, -, -, -, -, -, -, -, -, -, -, e0, e1⟩ := idx11 t
  refine ⟨t, flush11_6 t, ?_⟩
  rw [mem_blk11]
  intro a
  match a with
  | ⟨0, _⟩ =>
    show win11_6.index t (0 : Fin 2) * 10000 ≤ (i 0).val ∧ (i 0).val < win11_6.index t (0 : Fin 2) * 10000 + 10000
    rw [e0, ht]; omega
  | ⟨1, _⟩ =>
    show win11_6.index t (1 : Fin 2) * 32 ≤ (i 1).val ∧ (i 1).val < win11_6.index t (1 : Fin 2) * 32 + 32
    rw [e1]; omega

/-! ## The array after the region -/

/-- THE RESULT'S ARRAY after the region is the normalised and rectified table of the six arrays as the region found them. -/
theorem final11 (c : Dev nD) : (dat11 V c).arrAt 6 cfg11.N = norm11 V c :=
  (dat11 V c).arrAt_eq_of_cover 6 (norm11 V c) (fun t _ => flushed11_eq V c t) cover11

/-- The same, entry by entry, over the six arrays named as functions on their literal index types. -/
theorem norm11_value (c : Dev nD) (A : S100000x32.Idx → EReal) (B Mn Vr G Bt : S1x32.Idx → EReal)
    (hA : A = V c main_v133) (hB : B = V c main_v136) (hMn : Mn = V c main_v135_0) (hVr : Vr = V c main_v135_1)
    (hG : G = V c main_v137) (hBt : Bt = V c main_v138) (n : Fin 100000) (o : Fin 32) :
    ((dat11 V c).arrAt 6 cfg11.N : S100000x32.Idx → EReal) (ix2 n o)
      = leakyAt (Ideal.ofBits .f32 0x00000000#32) (Ideal.ofBits .f32 0x3C23D70A#32)
          (normAt (Ideal.ofBits .f32 0x3727C5AC#32) (A (ix2 n o)) (B (ix2 (0 : Fin 1) o)) (Vr (ix2 (0 : Fin 1) o))
            (Mn (ix2 (0 : Fin 1) o)) (G (ix2 (0 : Fin 1) o)) (Bt (ix2 (0 : Fin 1) o))) := by
  subst hA hB hMn hVr hG hBt
  rw [final11]; rfl

end Value11

end Cert.KernelIdeal.Hand

end
-- ==== Proof.KI.Val14.lean ====
/-
  Region 14's value: the normalise-and-rectify kernel at width 16, read off the pipeline's proof data at the ideal
  values.

  At the ideal values every operation of the body is the exact entrywise one, so what a grid point leaves in the
  output window's staging buffer is, entry by entry,
      y = ((agg (row, o) + bias (0, o) − mean (0, o)) · rsqrt (var (0, o) + eps)) · scale (0, o) + shift (0, o),
  kept where y ≥ 0 and multiplied by the slope elsewhere. Point t reads rows 10000 t … 10000 t + 9999 of the
  aggregated table and the five rows whole, and writes back rows 10000 t … of the result; the ten blocks tile the
  100000 rows, so after the region the result's array holds that function of the six arrays as the region found
  them, at every index.
-/
import proofs.«109725_j21638045237575_1_alg».proof.Proof.KI.Reg14Body
import proofs.«109725_j21638045237575_1_alg».proof.Proof.LibNormTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.Lib.NormTile

section Value14
-- the core's buffer contents when the region is entered, at the ideal values
variable (V : (c : Dev nD) → (b : Ref sig .tc) → Buf (Elt Ideal) ((c : Thread nD τ).loc b))

theorem hz14 : (![0, 0] : Fin 2 → Nat) = fun _ => 0 := funext fun a => by fin_cases a <;> rfl

/-- The printed index maps, decided over the ten grid points: the row tiles of the aggregated table and of the
    result are at block row t, the five rows at block (0, 0). -/
theorem idx14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0
    ∧ win14_6.index t (0 : Fin 2) = t.val ∧ win14_6.index t (1 : Fin 2) = 0 :=
  (by decide +kernel : ∀ t : Fin grid14.N, _)

/-! ## The payload at an index -/

/-- Entry (p, o) of the body's one stored value, from the six blocks it read (the payload takes the variance row
    before the mean row): the normalised entry, rectified. -/
theorem pay14_apply (x : Vec Ideal S10000x16 .f32) (b v μ g β : Vec Ideal S1x16 .f32) (p : Fin 10000) (o : Fin 16) :
    (k14_pay1 x b v μ g β : S10000x16.Idx → EReal) (ix2 p o)
      = leakyAt (Ideal.ofBits .f32 0x00000000#32) (Ideal.ofBits .f32 0x3C23D70A#32)
          (normAt (Ideal.ofBits .f32 0x3727C5AC#32) (x (ix2 p o)) (b (ix2 (0 : Fin 1) o)) (v (ix2 (0 : Fin 1) o))
            (μ (ix2 (0 : Fin 1) o)) (g (ix2 (0 : Fin 1) o)) (β (ix2 (0 : Fin 1) o))) := by
  unfold k14_pay1
  exact norm_tile_apply 0x3727C5AC#32 0x00000000#32 0x3C23D70A#32 x b v μ g β
    shapeCasts_S10000x16_S10000x16 shapeCasts_S1x16_S1x16 broadcasts_S1x16_S10000x16 p o

/-! ## The input blocks as entries of the arrays -/

/-- The row tile of the aggregated table at point t is its rows 10000 t … 10000 t + 9999. -/
theorem iblk14_0_apply (c : Dev nD) (t : Fin cfg14.N) (y : S10000x16.Idx) (k : S100000x16.Idx)
    (hk0 : (k 0).val = 10000 * t.val + (y 0).val) (hk1 : (k 1).val = (y 1).val) :
    (iblk14 V c 0 t : Vec Ideal S10000x16 .f32) y = (V c main_v160 : S100000x16.Idx → Elt Ideal .f32) k := by
  obtain ⟨e0, e1, -⟩ := idx14 t
  unfold iblk14
  rw [View.read_apply]
  show V c main_v160 _ = V c main_v160 _
  congr 1
  funext a
  apply Fin.ext
  match a with
  | ⟨0, _⟩ => show win14_0.index t 0 * 10000 + 1 * (y 0).val = (k 0).val; rw [e0, hk0]; omega
  | ⟨1, _⟩ => show win14_0.index t 1 * 16 + 1 * (y 1).val = (k 1).val; rw [e1, hk1]; omega

/-- The block of the bias row at every point is the whole row. -/
theorem iblk14_1_apply (c : Dev nD) (t : Fin cfg14.N) (y : S1x16.Idx) :
    (iblk14 V c 1 t : Vec Ideal S1x16 .f32) y = (V c main_v163 : S1x16.Idx → Elt Ideal .f32) y := by
  obtain ⟨-, -, e0, e1, -⟩ := idx14 t
  unfold iblk14
  rw [View.read_apply]
  show V c main_v163 _ = V c main_v163 _
  congr 1
  funext a
  apply Fin.ext
  match a with
  | ⟨0, _⟩ => show win14_1.index t 0 * 1 + 1 * (y 0).val = (y 0).val; rw [e0]; omega
  | ⟨1, _⟩ => show win14_1.index t 1 * 16 + 1 * (y 1).val = (y 1).val; rw [e1]; omega

/-- The block of the mean row at every point is the whole row. -/
theorem iblk14_2_apply (c : Dev nD) (t : Fin cfg14.N) (y : S1x16.Idx) :
    (iblk14 V c 2 t : Vec Ideal S1x16 .f32) y = (V c main_v162_0 : S1x16.Idx → Elt Ideal .f32) y := by
  obtain ⟨-, -, -, -, e0, e1, -⟩ := idx14 t
  unfold iblk14
  rw [View.read_apply]
  show V c main_v162_0 _ = V c main_v162_0 _
  congr 1
  funext a
  apply Fin.ext
  match a with
  | ⟨0, _⟩ => show win14_2.index t 0 * 1 + 1 * (y 0).val = (y 0).val; rw [e0]; omega
  | ⟨1, _⟩ => show win14_2.index t 1 * 16 + 1 * (y 1).val = (y 1).val; rw [e1]; omega

/-- The block of the variance row at every point is the whole row. -/
theorem iblk14_3_apply (c : Dev nD) (t : Fin cfg14.N) (y : S1x16.Idx) :
    (iblk14 V c 3 t : Vec Ideal S1x16 .f32) y = (V c main_v162_1 : S1x16.Idx → Elt Ideal .f32) y := by
  obtain ⟨-, -, -, -, -, -, e0, e1, -⟩ := idx14 t
  unfold iblk14
  rw [View.read_apply]
  show V c main_v162_1 _ = V c main_v162_1 _
  congr 1
  funext a
  apply Fin.ext
  match a with
  | ⟨0, _⟩ => show win14_3.index t 0 * 1 + 1 * (y 0).val = (y 0).val; rw [e0]; omega
  | ⟨1, _⟩ => show win14_3.index t 1 * 16 + 1 * (y 1).val = (y 1).val; rw [e1]; omega

/-- The block of the scale row at every point is the whole row. -/
theorem iblk14_4_apply (c : Dev nD) (t : Fin cfg14.N) (y : S1x16.Idx) :
    (iblk14 V c 4 t : Vec Ideal S1x16 .f32) y = (V c main_v164 : S1x16.Idx → Elt Ideal .f32) y := by
  obtain ⟨-, -, -, -, -, -, -, -, e0, e1, -⟩ := idx14 t
  unfold iblk14
  rw [View.read_apply]
  show V c main_v164 _ = V c main_v164 _
  congr 1
  funext a
  apply Fin.ext
  match a with
  | ⟨0, _⟩ => show win14_4.index t 0 * 1 + 1 * (y 0).val = (y 0).val; rw [e0]; omega
  | ⟨1, _⟩ => show win14_4.index t 1 * 16 + 1 * (y 1).val = (y 1).val; rw [e1]; omega

/-- The block of the shift row at every point is the whole row. -/
theorem iblk14_5_apply (c : Dev nD) (t : Fin cfg14.N) (y : S1x16.Idx) :
    (iblk14 V c 5 t : Vec Ideal S1x16 .f32) y = (V c main_v165 : S1x16.Idx → Elt Ideal .f32) y := by
  obtain ⟨-, -, -, -, -, -, -, -, -, -, e0, e1, -⟩ := idx14 t
  unfold iblk14
  rw [View.read_apply]
  show V c main_v165 _ = V c main_v165 _
  congr 1
  funext a
  apply Fin.ext
  match a with
  | ⟨0, _⟩ => show win14_5.index t 0 * 1 + 1 * (y 0).val = (y 0).val; rw [e0]; omega
  | ⟨1, _⟩ => show win14_5.index t 1 * 16 + 1 * (y 1).val = (y 1).val; rw [e1]; omega

/-! ## The result as one function of the six arrays -/

/-- The normalised and rectified table, index by index, of the six arrays as the region finds them: the aggregated
    table, then the rows of the bias, the mean, the variance, the scale and the shift. -/
def norm14 (c : Dev nD) : S100000x16.Idx → EReal := fun i =>
  leakyAt (Ideal.ofBits .f32 0x00000000#32) (Ideal.ofBits .f32 0x3C23D70A#32)
    (normAt (Ideal.ofBits .f32 0x3727C5AC#32) ((V c main_v160 : S100000x16.Idx → EReal) i)
      ((V c main_v163 : S1x16.Idx → EReal) (ix2 (0 : Fin 1) (i 1))) ((V c main_v162_1 : S1x16.Idx → EReal) (ix2 (0 : Fin 1) (i 1)))
      ((V c main_v162_0 : S1x16.Idx → EReal) (ix2 (0 : Fin 1) (i 1))) ((V c main_v164 : S1x16.Idx → EReal) (ix2 (0 : Fin 1) (i 1)))
      ((V c main_v165 : S1x16.Idx → EReal) (ix2 (0 : Fin 1) (i 1))))

/-- What point t's body leaves at the block index y is that function at row 10000 t + y's row. -/
theorem point14 (c : Dev nD) (t : Fin cfg14.N) (y : S10000x16.Idx) (i : S100000x16.Idx)
    (hi0 : (i 0).val = 10000 * t.val + (y 0).val) (hi1 : (i 1).val = (y 1).val) :
    (k14_pay1 (iblk14 V c 0 t) (iblk14 V c 1 t) (iblk14 V c 3 t) (iblk14 V c 2 t) (iblk14 V c 4 t) (iblk14 V c 5 t) : S10000x16.Idx → EReal) y
      = norm14 V c i := by
  obtain ⟨p, q, rfl⟩ : ∃ (p : Fin 10000) (q : Fin 16), y = ix2 p q := ⟨y 0, y 1, eq_ix2 y⟩
  obtain ⟨n, o, rfl⟩ : ∃ (n : Fin 100000) (o : Fin 16), i = ix2 n o := ⟨i 0, i 1, eq_ix2 i⟩
  obtain rfl : o = q := Fin.ext hi1
  refine (pay14_apply (iblk14 V c 0 t) (iblk14 V c 1 t) (iblk14 V c 3 t) (iblk14 V c 2 t) (iblk14 V c 4 t) (iblk14 V c 5 t) p o).trans ?_
  unfold norm14
  rw [iblk14_0_apply V c t (ix2 p o) (ix2 n o) hi0 rfl, iblk14_1_apply V c t, iblk14_2_apply V c t, iblk14_3_apply V c t,
    iblk14_4_apply V c t, iblk14_5_apply V c t]

/-- WHAT POINT t WRITES BACK is block t of that function. -/
theorem flushed14_eq (c : Dev nD) (t : Fin cfg14.N) :
    (dat14 V c).flushed 6 t = ((cfg14.win 6).blk t).view.read (Elt Ideal) (norm14 V c) := by
  show (cfg14.win 6).cut (grid14.coords t) ((dat14 V c).after 6 t) = _
  rw [after14_6]
  unfold out14_6
  rw [View.canon_unit_zero hz14]
  simp only [View.ld_unit_zero (S := S10000x16) hz14, View.ld_unit_zero (S := S1x16) hz14]
  obtain ⟨-, -, -, -, -, -, -, -, -, -, -, -, e0, e1⟩ := idx14 t
  funext j
  refine point14 V c t j (((cfg14.win 6).blk t).view.emb j) ?_ ?_
  · show win14_6.index t 0 * 10000 + 1 * (j 0).val = 10000 * t.val + (j 0).val; rw [e0]; omega
  · show win14_6.index t 1 * 16 + 1 * (j 1).val = (j 1).val; rw [e1]; omega

/-! ## The ten blocks tile the array -/

/-- An index of the array is in point t's block iff each coordinate is in the block's range on its axis. -/
theorem mem_blk14 (t : Fin cfg14.N) (i : S100000x16.Idx) :
    i ∈ ((cfg14.win 6).blk t).view.set ↔ ∀ a : Fin 2, win14_6.index t a * S10000x16.size a ≤ (i a).val
      ∧ (i a).val < win14_6.index t a * S10000x16.size a + S10000x16.size a := by
  show i ∈ ((View.whole main_v166).slice (win14_6.rect t)).set ↔ _
  rw [View.set_slice_whole, Rect.mem_set_unit]
  exact Iff.rfl

/-- Every index of the result is in the block of the point its row's tile names. -/
theorem cover14 (i : S100000x16.Idx) :
    ∃ t : Fin cfg14.N, (cfg14.win 6).flush t = true ∧ i ∈ ((cfg14.win 6).blk t).view.set := by
  have hi0 : (i 0).val < 100000 := (i 0).isLt
  have hi1 : (i 1).val < 16 := (i 1).isLt
  have hN : cfg14.N = 10 := N_14
  obtain ⟨t, ht⟩ : ∃ t : Fin cfg14.N, t.val = (i 0).val / 10000 := ⟨⟨(i 0).val / 10000, by omega⟩, rfl⟩
  obtain ⟨-, -, -, -, -, -, -, -, -, -, -, -, e0, e1⟩ := idx14 t
  refine ⟨t, flush14_6 t, ?_⟩
  rw [mem_blk14]
  intro a
  match a with
  | ⟨0, _⟩ =>
    show win14_6.index t (0 : Fin 2) * 10000 ≤ (i 0).val ∧ (i 0).val < win14_6.index t (0 : Fin 2) * 10000 + 10000
    rw [e0, ht]; omega
  | ⟨1, _⟩ =>
    show win14_6.index t (1 : Fin 2) * 16 ≤ (i 1).val ∧ (i 1).val < win14_6.index t (1 : Fin 2) * 16 + 16
    rw [e1]; omega

/-! ## The array after the region -/

/-- THE RESULT'S ARRAY after the region is the normalised and rectified table of the six arrays as the region found them. -/
theorem final14 (c : Dev nD) : (dat14 V c).arrAt 6 cfg14.N = norm14 V c :=
  (dat14 V c).arrAt_eq_of_cover 6 (norm14 V c) (fun t _ => flushed14_eq V c t) cover14

/-- The same, entry by entry, over the six arrays named as functions on their literal index types. -/
theorem norm14_value (c : Dev nD) (A : S100000x16.Idx → EReal) (B Mn Vr G Bt : S1x16.Idx → EReal)
    (hA : A = V c main_v160) (hB : B = V c main_v163) (hMn : Mn = V c main_v162_0) (hVr : Vr = V c main_v162_1)
    (hG : G = V c main_v164) (hBt : Bt = V c main_v165) (n : Fin 100000) (o : Fin 16) :
    ((dat14 V c).arrAt 6 cfg14.N : S100000x16.Idx → EReal) (ix2 n o)
      = leakyAt (Ideal.ofBits .f32 0x00000000#32) (Ideal.ofBits .f32 0x3C23D70A#32)
          (normAt (Ideal.ofBits .f32 0x3727C5AC#32) (A (ix2 n o)) (B (ix2 (0 : Fin 1) o)) (Vr (ix2 (0 : Fin 1) o))
            (Mn (ix2 (0 : Fin 1) o)) (G (ix2 (0 : Fin 1) o)) (Bt (ix2 (0 : Fin 1) o))) := by
  subst hA hB hMn hVr hG hBt
  rw [final14]; rfl

end Value14

end Cert.KernelIdeal.Hand

end
-- ==== Proof.KI.KerNet.lean ====
/-
  The idealized kernel's value as one composed function of its argument arrays, at the ideal values.

  The run of @main leaves in the result array what the last kernel region's write-backs leave. Region by region that
  is a plain function of the arrays the region finds: a linear kernel leaves rows · weights + bias row; the host
  stretch between gathers, scales and scatter-adds the rows over the messages; the statistics kernel leaves the batch
  mean and variance of the aggregated rows plus the bias; the normalise kernel leaves the normalised, scaled, shifted
  and rectified rows. Chaining these through the buffers' contents between the items of @main gives, layer by
  layer, the stage arrays `kZL` (linear), `kAL` (aggregated), `kML`, `kVL` (statistics), `kHL` (the layer's output),
  and at the end `kerOut`, each a function of the launch memory's argument arrays only.

  The statistics kernels' two results enter the chain as a parameter: a family `S` of functions of the aggregated
  table and the bias row, with the hypothesis `hS` that each statistics region's proof data leave exactly those
  (whatever contents the region is entered from); the chain is proved from the regions' whole-array values, the host
  stretches' terms and the staged contents. At the end the parameter is set to the concrete family `kerStats` (the
  batch mean and the one-pass variance), which the statistics regions do leave.
-/
import proofs.«109725_j21638045237575_1_alg».proof.Proof.KI.Chain
import proofs.«109725_j21638045237575_1_alg».proof.Proof.KI.HostEntry
import proofs.«109725_j21638045237575_1_alg».proof.Proof.KI.KerStats
import proofs.«109725_j21638045237575_1_alg».proof.Proof.KI.Val0
import proofs.«109725_j21638045237575_1_alg».proof.Proof.KI.Val3
import proofs.«109725_j21638045237575_1_alg».proof.Proof.KI.Val6
import proofs.«109725_j21638045237575_1_alg».proof.Proof.KI.Val9
import proofs.«109725_j21638045237575_1_alg».proof.Proof.KI.Val12
import proofs.«109725_j21638045237575_1_alg».proof.Proof.KI.Val15
import proofs.«109725_j21638045237575_1_alg».proof.Proof.KI.Val2
import proofs.«109725_j21638045237575_1_alg».proof.Proof.KI.Val5
import proofs.«109725_j21638045237575_1_alg».proof.Proof.KI.Val8
import proofs.«109725_j21638045237575_1_alg».proof.Proof.KI.Val11
import proofs.«109725_j21638045237575_1_alg».proof.Proof.KI.Val14

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.Lib.NormTile Cert.Lib.LinearTile

/-! ## The two whole-array functions of a layer's kernels -/

/-- The normalised and rectified table of an aggregated table `A` and five rows: the bias, the mean, the variance,
    the scale and the shift. -/
def normFn {M N : Nat} (A : (⟨2, ![M, N]⟩ : Shape).Idx → EReal) (B Mn Vr G Bt : (⟨2, ![1, N]⟩ : Shape).Idx → EReal) :
    (⟨2, ![M, N]⟩ : Shape).Idx → EReal := fun i =>
  leakyAt (Ideal.ofBits .f32 0x00000000#32) (Ideal.ofBits .f32 0x3C23D70A#32)
    (normAt (Ideal.ofBits .f32 0x3727C5AC#32) (A i) (B (ix2 (0 : Fin 1) (i 1))) (Vr (ix2 (0 : Fin 1) (i 1)))
      (Mn (ix2 (0 : Fin 1) (i 1))) (G (ix2 (0 : Fin 1) (i 1))) (Bt (ix2 (0 : Fin 1) (i 1))))

theorem normFn_congr {M N : Nat} {A A' : (⟨2, ![M, N]⟩ : Shape).Idx → EReal} {B B' Mn Mn' Vr Vr' G G' Bt Bt' : (⟨2, ![1, N]⟩ : Shape).Idx → EReal}
    (hA : A = A') (hB : B = B') (hMn : Mn = Mn') (hVr : Vr = Vr') (hG : G = G') (hBt : Bt = Bt') :
    normFn A B Mn Vr G Bt = normFn A' B' Mn' Vr' G' Bt' := by
  subst hA hB hMn hVr hG hBt; rfl

theorem linearAt_congr {M K N : Nat} {X X' : (⟨2, ![M, K]⟩ : Shape).Idx → EReal} {W W' : (⟨2, ![K, N]⟩ : Shape).Idx → EReal}
    {B B' : (⟨2, ![1, N]⟩ : Shape).Idx → EReal} (hX : X = X') (hW : W = W') (hB : B = B') :
    linearAt X W B = linearAt X' W' B' := by
  subst hX hW hB; rfl

variable (m : (ℓ : Loc nD τ sig) → Buf (Elt Ideal) ℓ) (S : KerStats)

/-! ## The stage arrays -/

/-! ### Layer 1 (width 6 → 32) -/

/-- The layer's parameter rows: the bias, the scale and the shift, each a vector reshaped into one row. -/
def kB1 (c : Dev nD) : S1x32.Idx → EReal := fun i => shapeCast S1x32 (m ((c : Thread nD τ).loc main_arg3)) shapeCasts_S32_S1x32 i
def kG1 (c : Dev nD) : S1x32.Idx → EReal := fun i => shapeCast S1x32 (m ((c : Thread nD τ).loc main_arg4)) shapeCasts_S32_S1x32 i
def kT1 (c : Dev nD) : S1x32.Idx → EReal := fun i => shapeCast S1x32 (m ((c : Thread nD τ).loc main_arg5)) shapeCasts_S32_S1x32 i
/-- The rows times the weight matrix (the linear kernel adds a zero bias row). -/
def kZ1 (c : Dev nD) : S100000x32.Idx → EReal :=
  linearAt (M := 100000) (K := 6) (N := 32) (m ((c : Thread nD τ).loc main_arg0) : S100000x6.Idx → EReal) (m ((c : Thread nD τ).loc main_arg2) : S6x32.Idx → EReal)
    (fun i => shapeCast S1x32 (broadcastInDim S32 ![] bcast_S_S32 (constant (F := Ideal) S_ .f32 0x00000000#32) : (⟨S32, .f32⟩ : BufTy).Contents (Elt Ideal)) shapeCasts_S32_S1x32 i)
/-- The aggregation over the messages. -/
def kA1 (c : Dev nD) : S100000x32.Idx → EReal := kerAgg1 (kZ1 m c) (eSrc m c) (eDst m c) (eNrm m c)
/-- The batch statistics of the aggregated rows plus the bias. -/
def kM1 (c : Dev nD) : S1x32.Idx → EReal := S.mean1 (kA1 m c) (kB1 m c)
def kV1 (c : Dev nD) : S1x32.Idx → EReal := S.var1 (kA1 m c) (kB1 m c)
/-- The layer's output: normalised, scaled, shifted and rectified. -/
def kH1 (c : Dev nD) : S100000x32.Idx → EReal :=
  normFn (M := 100000) (N := 32) (kA1 m c) (kB1 m c) (kM1 m S c) (kV1 m S c) (kG1 m c) (kT1 m c)

/-! ### Layer 2 (width 32 → 128) -/

/-- The layer's parameter rows: the bias, the scale and the shift, each a vector reshaped into one row. -/
def kB2 (c : Dev nD) : S1x128.Idx → EReal := fun i => shapeCast S1x128 (m ((c : Thread nD τ).loc main_arg7)) shapeCasts_S128_S1x128 i
def kG2 (c : Dev nD) : S1x128.Idx → EReal := fun i => shapeCast S1x128 (m ((c : Thread nD τ).loc main_arg8)) shapeCasts_S128_S1x128 i
def kT2 (c : Dev nD) : S1x128.Idx → EReal := fun i => shapeCast S1x128 (m ((c : Thread nD τ).loc main_arg9)) shapeCasts_S128_S1x128 i
/-- The rows times the weight matrix (the linear kernel adds a zero bias row). -/
def kZ2 (c : Dev nD) : S100000x128.Idx → EReal :=
  linearAt (M := 100000) (K := 32) (N := 128) (kH1 m S c) (m ((c : Thread nD τ).loc main_arg6) : S32x128.Idx → EReal)
    (fun i => shapeCast S1x128 (broadcastInDim S128 ![] bcast_S_S128 (constant (F := Ideal) S_ .f32 0x00000000#32) : (⟨S128, .f32⟩ : BufTy).Contents (Elt Ideal)) shapeCasts_S128_S1x128 i)
/-- The aggregation over the messages. -/
def kA2 (c : Dev nD) : S100000x128.Idx → EReal := kerAgg2 (kZ2 m S c) (eSrc m c) (eDst m c) (eNrm m c)
/-- The batch statistics of the aggregated rows plus the bias. -/
def kM2 (c : Dev nD) : S1x128.Idx → EReal := S.mean2 (kA2 m S c) (kB2 m c)
def kV2 (c : Dev nD) : S1x128.Idx → EReal := S.var2 (kA2 m S c) (kB2 m c)
/-- The layer's output: normalised, scaled, shifted and rectified. -/
def kH2 (c : Dev nD) : S100000x128.Idx → EReal :=
  normFn (M := 100000) (N := 128) (kA2 m S c) (kB2 m c) (kM2 m S c) (kV2 m S c) (kG2 m c) (kT2 m c)

/-! ### Layer 3 (width 128 → 128) -/

/-- The layer's parameter rows: the bias, the scale and the shift, each a vector reshaped into one row. -/
def kB3 (c : Dev nD) : S1x128.Idx → EReal := fun i => shapeCast S1x128 (m ((c : Thread nD τ).loc main_arg11)) shapeCasts_S128_S1x128 i
def kG3 (c : Dev nD) : S1x128.Idx → EReal := fun i => shapeCast S1x128 (m ((c : Thread nD τ).loc main_arg12)) shapeCasts_S128_S1x128 i
def kT3 (c : Dev nD) : S1x128.Idx → EReal := fun i => shapeCast S1x128 (m ((c : Thread nD τ).loc main_arg13)) shapeCasts_S128_S1x128 i
/-- The rows times the weight matrix (the linear kernel adds a zero bias row). -/
def kZ3 (c : Dev nD) : S100000x128.Idx → EReal :=
  linearAt (M := 100000) (K := 128) (N := 128) (kH2 m S c) (m ((c : Thread nD τ).loc main_arg10) : S128x128.Idx → EReal)
    (fun i => shapeCast S1x128 (broadcastInDim S128 ![] bcast_S_S128 (constant (F := Ideal) S_ .f32 0x00000000#32) : (⟨S128, .f32⟩ : BufTy).Contents (Elt Ideal)) shapeCasts_S128_S1x128 i)
/-- The aggregation over the messages. -/
def kA3 (c : Dev nD) : S100000x128.Idx → EReal := kerAgg3 (kZ3 m S c) (eSrc m c) (eDst m c) (eNrm m c)
/-- The batch statistics of the aggregated rows plus the bias. -/
def kM3 (c : Dev nD) : S1x128.Idx → EReal := S.mean3 (kA3 m S c) (kB3 m c)
def kV3 (c : Dev nD) : S1x128.Idx → EReal := S.var3 (kA3 m S c) (kB3 m c)
/-- The layer's output: normalised, scaled, shifted and rectified. -/
def kH3 (c : Dev nD) : S100000x128.Idx → EReal :=
  normFn (M := 100000) (N := 128) (kA3 m S c) (kB3 m c) (kM3 m S c) (kV3 m S c) (kG3 m c) (kT3 m c)

/-! ### Layer 4 (width 128 → 32) -/

/-- The layer's parameter rows: the bias, the scale and the shift, each a vector reshaped into one row. -/
def kB4 (c : Dev nD) : S1x32.Idx → EReal := fun i => shapeCast S1x32 (m ((c : Thread nD τ).loc main_arg15)) shapeCasts_S32_S1x32 i
def kG4 (c : Dev nD) : S1x32.Idx → EReal := fun i => shapeCast S1x32 (m ((c : Thread nD τ).loc main_arg16)) shapeCasts_S32_S1x32 i
def kT4 (c : Dev nD) : S1x32.Idx → EReal := fun i => shapeCast S1x32 (m ((c : Thread nD τ).loc main_arg17)) shapeCasts_S32_S1x32 i
/-- The rows times the weight matrix (the linear kernel adds a zero bias row). -/
def kZ4 (c : Dev nD) : S100000x32.Idx → EReal :=
  linearAt (M := 100000) (K := 128) (N := 32) (kH3 m S c) (m ((c : Thread nD τ).loc main_arg14) : S128x32.Idx → EReal)
    (fun i => shapeCast S1x32 (broadcastInDim S32 ![] bcast_S_S32 (constant (F := Ideal) S_ .f32 0x00000000#32) : (⟨S32, .f32⟩ : BufTy).Contents (Elt Ideal)) shapeCasts_S32_S1x32 i)
/-- The aggregation over the messages. -/
def kA4 (c : Dev nD) : S100000x32.Idx → EReal := kerAgg4 (kZ4 m S c) (eSrc m c) (eDst m c) (eNrm m c)
/-- The batch statistics of the aggregated rows plus the bias. -/
def kM4 (c : Dev nD) : S1x32.Idx → EReal := S.mean4 (kA4 m S c) (kB4 m c)
def kV4 (c : Dev nD) : S1x32.Idx → EReal := S.var4 (kA4 m S c) (kB4 m c)
/-- The layer's output: normalised, scaled, shifted and rectified. -/
def kH4 (c : Dev nD) : S100000x32.Idx → EReal :=
  normFn (M := 100000) (N := 32) (kA4 m S c) (kB4 m c) (kM4 m S c) (kV4 m S c) (kG4 m c) (kT4 m c)

/-! ### Layer 5 (width 32 → 16) -/

/-- The layer's parameter rows: the bias, the scale and the shift, each a vector reshaped into one row. -/
def kB5 (c : Dev nD) : S1x16.Idx → EReal := fun i => shapeCast S1x16 (m ((c : Thread nD τ).loc main_arg19)) shapeCasts_S16_S1x16 i
def kG5 (c : Dev nD) : S1x16.Idx → EReal := fun i => shapeCast S1x16 (m ((c : Thread nD τ).loc main_arg20)) shapeCasts_S16_S1x16 i
def kT5 (c : Dev nD) : S1x16.Idx → EReal := fun i => shapeCast S1x16 (m ((c : Thread nD τ).loc main_arg21)) shapeCasts_S16_S1x16 i
/-- The rows times the weight matrix (the linear kernel adds a zero bias row). -/
def kZ5 (c : Dev nD) : S100000x16.Idx → EReal :=
  linearAt (M := 100000) (K := 32) (N := 16) (kH4 m S c) (m ((c : Thread nD τ).loc main_arg18) : S32x16.Idx → EReal)
    (fun i => shapeCast S1x16 (broadcastInDim S16 ![] bcast_S_S16 (constant (F := Ideal) S_ .f32 0x00000000#32) : (⟨S16, .f32⟩ : BufTy).Contents (Elt Ideal)) shapeCasts_S16_S1x16 i)
/-- The aggregation over the messages. -/
def kA5 (c : Dev nD) : S100000x16.Idx → EReal := kerAgg5 (kZ5 m S c) (eSrc m c) (eDst m c) (eNrm m c)
/-- The batch statistics of the aggregated rows plus the bias. -/
def kM5 (c : Dev nD) : S1x16.Idx → EReal := S.mean5 (kA5 m S c) (kB5 m c)
def kV5 (c : Dev nD) : S1x16.Idx → EReal := S.var5 (kA5 m S c) (kB5 m c)
/-- The layer's output: normalised, scaled, shifted and rectified. -/
def kH5 (c : Dev nD) : S100000x16.Idx → EReal :=
  normFn (M := 100000) (N := 16) (kA5 m S c) (kB5 m c) (kM5 m S c) (kV5 m S c) (kG5 m c) (kT5 m c)

/-! ### The output projection (width 16 → 3) -/

/-- The kernel's result: the last layer's output times the head's weights, plus the head's bias row. -/
def kerOut (c : Dev nD) : S100000x3.Idx → EReal :=
  linearAt (M := 100000) (K := 16) (N := 3) (kH5 m S c) (m ((c : Thread nD τ).loc main_arg22) : S16x3.Idx → EReal)
    (fun i => shapeCast S1x3 (m ((c : Thread nD τ).loc main_arg23)) shapeCasts_S3_S1x3 i)

/-! ## The chain -/

/-! ### Layer 1 -/

/-- The linear kernel's result is the rows times the weight matrix. -/
theorem kZ1_eq (c : Dev nD) : outsS16 m 2 main_v34 c = kZ1 m c :=
  (outs_main_v34 m c).trans ((final0 _ c).trans
    (linearAt_congr (M := 100000) (K := 6) (N := 32) (entry0_0 m c) (entry0_1 m c) (entry0_2 m c)))
/-- The aggregated table, as the statistics kernel and the normalise kernel find it. -/
theorem kA1_at3 (c : Dev nD) : V3 m (outsS16 m) c (Proc.devRef .tc main_v52) = kA1 m c :=
  (entry1_0 m (outsS16 m) c).trans (congrArg (fun z => kerAgg1 z (eSrc m c) (eDst m c) (eNrm m c)) (kZ1_eq m c))
theorem kA1_at5 (c : Dev nD) : V5 m (outsS16 m) c (Proc.devRef .tc main_v52) = kA1 m c :=
  (entry2_0 m (outsS16 m) c).trans (congrArg (fun z => kerAgg1 z (eSrc m c) (eDst m c) (eNrm m c)) (kZ1_eq m c))
/-- The parameter rows, as the two kernels find them. -/
theorem kB1_at3 (c : Dev nD) : V3 m (outsS16 m) c (Proc.devRef .tc main_v53) = kB1 m c := (entry1_1 m (outsS16 m) c)
theorem kB1_at5 (c : Dev nD) : V5 m (outsS16 m) c (Proc.devRef .tc main_v55) = kB1 m c := (entry2_1 m (outsS16 m) c)
theorem kG1_at5 (c : Dev nD) : V5 m (outsS16 m) c (Proc.devRef .tc main_v56) = kG1 m c := (entry2_4 m (outsS16 m) c)
theorem kT1_at5 (c : Dev nD) : V5 m (outsS16 m) c (Proc.devRef .tc main_v57) = kT1 m c := (entry2_5 m (outsS16 m) c)
/-- The statistics kernel's two results. -/
theorem kM1_eq (hS : S.Spec) (c : Dev nD) : outsS16 m 4 main_v54_0 c = kM1 m S c :=
  (outs_main_v54_0 m c).trans ((hS.m1 _ c).trans (congrArg₂ S.mean1 (kA1_at3 m c) (kB1_at3 m c)))
theorem kV1_eq (hS : S.Spec) (c : Dev nD) : outsS16 m 4 main_v54_1 c = kV1 m S c :=
  (outs_main_v54_1 m c).trans ((hS.v1 _ c).trans (congrArg₂ S.var1 (kA1_at3 m c) (kB1_at3 m c)))
theorem kM1_at5 (hS : S.Spec) (c : Dev nD) : V5 m (outsS16 m) c (Proc.devRef .tc main_v54_0) = kM1 m S c :=
  (entry2_2 m (outsS16 m) c).trans (kM1_eq m S hS c)
theorem kV1_at5 (hS : S.Spec) (c : Dev nD) : V5 m (outsS16 m) c (Proc.devRef .tc main_v54_1) = kV1 m S c :=
  (entry2_3 m (outsS16 m) c).trans (kV1_eq m S hS c)
/-- The normalise kernel's result is the layer's output. -/
theorem kH1_eq (hS : S.Spec) (c : Dev nD) : outsS16 m 6 main_v58 c = kH1 m S c :=
  (outs_main_v58 m c).trans ((final2 _ c).trans
    (normFn_congr (M := 100000) (N := 32) (kA1_at5 m c) (kB1_at5 m c) (kM1_at5 m S hS c) (kV1_at5 m S hS c)
      (kG1_at5 m c) (kT1_at5 m c)))
/-- and the next linear kernel finds it in its first window. -/
theorem kH1_at7 (hS : S.Spec) (c : Dev nD) : V7 m (outsS16 m) c (Proc.devRef .tc main_v58) = kH1 m S c :=
  (entry3_0 m (outsS16 m) c).trans (kH1_eq m S hS c)

/-! ### Layer 2 -/

/-- The linear kernel's result is the rows times the weight matrix. -/
theorem kZ2_eq (hS : S.Spec) (c : Dev nD) : outsS16 m 8 main_v61 c = kZ2 m S c :=
  (outs_main_v61 m c).trans ((final3 _ c).trans
    (linearAt_congr (M := 100000) (K := 32) (N := 128) (kH1_at7 m S hS c) (entry3_1 m (outsS16 m) c) (entry3_2 m (outsS16 m) c)))
/-- The aggregated table, as the statistics kernel and the normalise kernel find it. -/
theorem kA2_at9 (hS : S.Spec) (c : Dev nD) : V9 m (outsS16 m) c (Proc.devRef .tc main_v79) = kA2 m S c :=
  (entry4_0 m (outsS16 m) c).trans (congrArg (fun z => kerAgg2 z (eSrc m c) (eDst m c) (eNrm m c)) (kZ2_eq m S hS c))
theorem kA2_at11 (hS : S.Spec) (c : Dev nD) : V11 m (outsS16 m) c (Proc.devRef .tc main_v79) = kA2 m S c :=
  (entry5_0 m (outsS16 m) c).trans (congrArg (fun z => kerAgg2 z (eSrc m c) (eDst m c) (eNrm m c)) (kZ2_eq m S hS c))
/-- The parameter rows, as the two kernels find them. -/
theorem kB2_at9 (c : Dev nD) : V9 m (outsS16 m) c (Proc.devRef .tc main_v80) = kB2 m c := (entry4_1 m (outsS16 m) c)
theorem kB2_at11 (c : Dev nD) : V11 m (outsS16 m) c (Proc.devRef .tc main_v82) = kB2 m c := (entry5_1 m (outsS16 m) c)
theorem kG2_at11 (c : Dev nD) : V11 m (outsS16 m) c (Proc.devRef .tc main_v83) = kG2 m c := (entry5_4 m (outsS16 m) c)
theorem kT2_at11 (c : Dev nD) : V11 m (outsS16 m) c (Proc.devRef .tc main_v84) = kT2 m c := (entry5_5 m (outsS16 m) c)
/-- The statistics kernel's two results. -/
theorem kM2_eq (hS : S.Spec) (c : Dev nD) : outsS16 m 10 main_v81_0 c = kM2 m S c :=
  (outs_main_v81_0 m c).trans ((hS.m2 _ c).trans (congrArg₂ S.mean2 (kA2_at9 m S hS c) (kB2_at9 m c)))
theorem kV2_eq (hS : S.Spec) (c : Dev nD) : outsS16 m 10 main_v81_1 c = kV2 m S c :=
  (outs_main_v81_1 m c).trans ((hS.v2 _ c).trans (congrArg₂ S.var2 (kA2_at9 m S hS c) (kB2_at9 m c)))
theorem kM2_at11 (hS : S.Spec) (c : Dev nD) : V11 m (outsS16 m) c (Proc.devRef .tc main_v81_0) = kM2 m S c :=
  (entry5_2 m (outsS16 m) c).trans (kM2_eq m S hS c)
theorem kV2_at11 (hS : S.Spec) (c : Dev nD) : V11 m (outsS16 m) c (Proc.devRef .tc main_v81_1) = kV2 m S c :=
  (entry5_3 m (outsS16 m) c).trans (kV2_eq m S hS c)
/-- The normalise kernel's result is the layer's output. -/
theorem kH2_eq (hS : S.Spec) (c : Dev nD) : outsS16 m 12 main_v85 c = kH2 m S c :=
  (outs_main_v85 m c).trans ((final5 _ c).trans
    (normFn_congr (M := 100000) (N := 128) (kA2_at11 m S hS c) (kB2_at11 m c) (kM2_at11 m S hS c) (kV2_at11 m S hS c)
      (kG2_at11 m c) (kT2_at11 m c)))
/-- and the next linear kernel finds it in its first window. -/
theorem kH2_at13 (hS : S.Spec) (c : Dev nD) : V13 m (outsS16 m) c (Proc.devRef .tc main_v85) = kH2 m S c :=
  (entry6_0 m (outsS16 m) c).trans (kH2_eq m S hS c)

/-! ### Layer 3 -/

/-- The linear kernel's result is the rows times the weight matrix. -/
theorem kZ3_eq (hS : S.Spec) (c : Dev nD) : outsS16 m 14 main_v88 c = kZ3 m S c :=
  (outs_main_v88 m c).trans ((final6 _ c).trans
    (linearAt_congr (M := 100000) (K := 128) (N := 128) (kH2_at13 m S hS c) (entry6_1 m (outsS16 m) c) (entry6_2 m (outsS16 m) c)))
/-- The aggregated table, as the statistics kernel and the normalise kernel find it. -/
theorem kA3_at15 (hS : S.Spec) (c : Dev nD) : V15 m (outsS16 m) c (Proc.devRef .tc main_v106) = kA3 m S c :=
  (entry7_0 m (outsS16 m) c).trans (congrArg (fun z => kerAgg3 z (eSrc m c) (eDst m c) (eNrm m c)) (kZ3_eq m S hS c))
theorem kA3_at17 (hS : S.Spec) (c : Dev nD) : V17 m (outsS16 m) c (Proc.devRef .tc main_v106) = kA3 m S c :=
  (entry8_0 m (outsS16 m) c).trans (congrArg (fun z => kerAgg3 z (eSrc m c) (eDst m c) (eNrm m c)) (kZ3_eq m S hS c))
/-- The parameter rows, as the two kernels find them. -/
theorem kB3_at15 (c : Dev nD) : V15 m (outsS16 m) c (Proc.devRef .tc main_v107) = kB3 m c := (entry7_1 m (outsS16 m) c)
theorem kB3_at17 (c : Dev nD) : V17 m (outsS16 m) c (Proc.devRef .tc main_v109) = kB3 m c := (entry8_1 m (outsS16 m) c)
theorem kG3_at17 (c : Dev nD) : V17 m (outsS16 m) c (Proc.devRef .tc main_v110) = kG3 m c := (entry8_4 m (outsS16 m) c)
theorem kT3_at17 (c : Dev nD) : V17 m (outsS16 m) c (Proc.devRef .tc main_v111) = kT3 m c := (entry8_5 m (outsS16 m) c)
/-- The statistics kernel's two results. -/
theorem kM3_eq (hS : S.Spec) (c : Dev nD) : outsS16 m 16 main_v108_0 c = kM3 m S c :=
  (outs_main_v108_0 m c).trans ((hS.m3 _ c).trans (congrArg₂ S.mean3 (kA3_at15 m S hS c) (kB3_at15 m c)))
theorem kV3_eq (hS : S.Spec) (c : Dev nD) : outsS16 m 16 main_v108_1 c = kV3 m S c :=
  (outs_main_v108_1 m c).trans ((hS.v3 _ c).trans (congrArg₂ S.var3 (kA3_at15 m S hS c) (kB3_at15 m c)))
theorem kM3_at17 (hS : S.Spec) (c : Dev nD) : V17 m (outsS16 m) c (Proc.devRef .tc main_v108_0) = kM3 m S c :=
  (entry8_2 m (outsS16 m) c).trans (kM3_eq m S hS c)
theorem kV3_at17 (hS : S.Spec) (c : Dev nD) : V17 m (outsS16 m) c (Proc.devRef .tc main_v108_1) = kV3 m S c :=
  (entry8_3 m (outsS16 m) c).trans (kV3_eq m S hS c)
/-- The normalise kernel's result is the layer's output. -/
theorem kH3_eq (hS : S.Spec) (c : Dev nD) : outsS16 m 18 main_v112 c = kH3 m S c :=
  (outs_main_v112 m c).trans ((final8 _ c).trans
    (normFn_congr (M := 100000) (N := 128) (kA3_at17 m S hS c) (kB3_at17 m c) (kM3_at17 m S hS c) (kV3_at17 m S hS c)
      (kG3_at17 m c) (kT3_at17 m c)))
/-- and the next linear kernel finds it in its first window. -/
theorem kH3_at19 (hS : S.Spec) (c : Dev nD) : V19 m (outsS16 m) c (Proc.devRef .tc main_v112) = kH3 m S c :=
  (entry9_0 m (outsS16 m) c).trans (kH3_eq m S hS c)

/-! ### Layer 4 -/

/-- The linear kernel's result is the rows times the weight matrix. -/
theorem kZ4_eq (hS : S.Spec) (c : Dev nD) : outsS16 m 20 main_v115 c = kZ4 m S c :=
  (outs_main_v115 m c).trans ((final9 _ c).trans
    (linearAt_congr (M := 100000) (K := 128) (N := 32) (kH3_at19 m S hS c) (entry9_1 m (outsS16 m) c) (entry9_2 m (outsS16 m) c)))
/-- The aggregated table, as the statistics kernel and the normalise kernel find it. -/
theorem kA4_at21 (hS : S.Spec) (c : Dev nD) : V21 m (outsS16 m) c (Proc.devRef .tc main_v133) = kA4 m S c :=
  (entry10_0 m (outsS16 m) c).trans (congrArg (fun z => kerAgg4 z (eSrc m c) (eDst m c) (eNrm m c)) (kZ4_eq m S hS c))
theorem kA4_at23 (hS : S.Spec) (c : Dev nD) : V23 m (outsS16 m) c (Proc.devRef .tc main_v133) = kA4 m S c :=
  (entry11_0 m (outsS16 m) c).trans (congrArg (fun z => kerAgg4 z (eSrc m c) (eDst m c) (eNrm m c)) (kZ4_eq m S hS c))
/-- The parameter rows, as the two kernels find them. -/
theorem kB4_at21 (c : Dev nD) : V21 m (outsS16 m) c (Proc.devRef .tc main_v134) = kB4 m c := (entry10_1 m (outsS16 m) c)
theorem kB4_at23 (c : Dev nD) : V23 m (outsS16 m) c (Proc.devRef .tc main_v136) = kB4 m c := (entry11_1 m (outsS16 m) c)
theorem kG4_at23 (c : Dev nD) : V23 m (outsS16 m) c (Proc.devRef .tc main_v137) = kG4 m c := (entry11_4 m (outsS16 m) c)
theorem kT4_at23 (c : Dev nD) : V23 m (outsS16 m) c (Proc.devRef .tc main_v138) = kT4 m c := (entry11_5 m (outsS16 m) c)
/-- The statistics kernel's two results. -/
theorem kM4_eq (hS : S.Spec) (c : Dev nD) : outsS16 m 22 main_v135_0 c = kM4 m S c :=
  (outs_main_v135_0 m c).trans ((hS.m4 _ c).trans (congrArg₂ S.mean4 (kA4_at21 m S hS c) (kB4_at21 m c)))
theorem kV4_eq (hS : S.Spec) (c : Dev nD) : outsS16 m 22 main_v135_1 c = kV4 m S c :=
  (outs_main_v135_1 m c).trans ((hS.v4 _ c).trans (congrArg₂ S.var4 (kA4_at21 m S hS c) (kB4_at21 m c)))
theorem kM4_at23 (hS : S.Spec) (c : Dev nD) : V23 m (outsS16 m) c (Proc.devRef .tc main_v135_0) = kM4 m S c :=
  (entry11_2 m (outsS16 m) c).trans (kM4_eq m S hS c)
theorem kV4_at23 (hS : S.Spec) (c : Dev nD) : V23 m (outsS16 m) c (Proc.devRef .tc main_v135_1) = kV4 m S c :=
  (entry11_3 m (outsS16 m) c).trans (kV4_eq m S hS c)
/-- The normalise kernel's result is the layer's output. -/
theorem kH4_eq (hS : S.Spec) (c : Dev nD) : outsS16 m 24 main_v139 c = kH4 m S c :=
  (outs_main_v139 m c).trans ((final11 _ c).trans
    (normFn_congr (M := 100000) (N := 32) (kA4_at23 m S hS c) (kB4_at23 m c) (kM4_at23 m S hS c) (kV4_at23 m S hS c)
      (kG4_at23 m c) (kT4_at23 m c)))
/-- and the next linear kernel finds it in its first window. -/
theorem kH4_at25 (hS : S.Spec) (c : Dev nD) : V25 m (outsS16 m) c (Proc.devRef .tc main_v139) = kH4 m S c :=
  (entry12_0 m (outsS16 m) c).trans (kH4_eq m S hS c)

/-! ### Layer 5 -/

/-- The linear kernel's result is the rows times the weight matrix. -/
theorem kZ5_eq (hS : S.Spec) (c : Dev nD) : outsS16 m 26 main_v142 c = kZ5 m S c :=
  (outs_main_v142 m c).trans ((final12 _ c).trans
    (linearAt_congr (M := 100000) (K := 32) (N := 16) (kH4_at25 m S hS c) (entry12_1 m (outsS16 m) c) (entry12_2 m (outsS16 m) c)))
/-- The aggregated table, as the statistics kernel and the normalise kernel find it. -/
theorem kA5_at27 (hS : S.Spec) (c : Dev nD) : V27 m (outsS16 m) c (Proc.devRef .tc main_v160) = kA5 m S c :=
  (entry13_0 m (outsS16 m) c).trans (congrArg (fun z => kerAgg5 z (eSrc m c) (eDst m c) (eNrm m c)) (kZ5_eq m S hS c))
theorem kA5_at29 (hS : S.Spec) (c : Dev nD) : V29 m (outsS16 m) c (Proc.devRef .tc main_v160) = kA5 m S c :=
  (entry14_0 m (outsS16 m) c).trans (congrArg (fun z => kerAgg5 z (eSrc m c) (eDst m c) (eNrm m c)) (kZ5_eq m S hS c))
/-- The parameter rows, as the two kernels find them. -/
theorem kB5_at27 (c : Dev nD) : V27 m (outsS16 m) c (Proc.devRef .tc main_v161) = kB5 m c := (entry13_1 m (outsS16 m) c)
theorem kB5_at29 (c : Dev nD) : V29 m (outsS16 m) c (Proc.devRef .tc main_v163) = kB5 m c := (entry14_1 m (outsS16 m) c)
theorem kG5_at29 (c : Dev nD) : V29 m (outsS16 m) c (Proc.devRef .tc main_v164) = kG5 m c := (entry14_4 m (outsS16 m) c)
theorem kT5_at29 (c : Dev nD) : V29 m (outsS16 m) c (Proc.devRef .tc main_v165) = kT5 m c := (entry14_5 m (outsS16 m) c)
/-- The statistics kernel's two results. -/
theorem kM5_eq (hS : S.Spec) (c : Dev nD) : outsS16 m 28 main_v162_0 c = kM5 m S c :=
  (outs_main_v162_0 m c).trans ((hS.m5 _ c).trans (congrArg₂ S.mean5 (kA5_at27 m S hS c) (kB5_at27 m c)))
theorem kV5_eq (hS : S.Spec) (c : Dev nD) : outsS16 m 28 main_v162_1 c = kV5 m S c :=
  (outs_main_v162_1 m c).trans ((hS.v5 _ c).trans (congrArg₂ S.var5 (kA5_at27 m S hS c) (kB5_at27 m c)))
theorem kM5_at29 (hS : S.Spec) (c : Dev nD) : V29 m (outsS16 m) c (Proc.devRef .tc main_v162_0) = kM5 m S c :=
  (entry14_2 m (outsS16 m) c).trans (kM5_eq m S hS c)
theorem kV5_at29 (hS : S.Spec) (c : Dev nD) : V29 m (outsS16 m) c (Proc.devRef .tc main_v162_1) = kV5 m S c :=
  (entry14_3 m (outsS16 m) c).trans (kV5_eq m S hS c)
/-- The normalise kernel's result is the layer's output. -/
theorem kH5_eq (hS : S.Spec) (c : Dev nD) : outsS16 m 30 main_v166 c = kH5 m S c :=
  (outs_main_v166 m c).trans ((final14 _ c).trans
    (normFn_congr (M := 100000) (N := 16) (kA5_at29 m S hS c) (kB5_at29 m c) (kM5_at29 m S hS c) (kV5_at29 m S hS c)
      (kG5_at29 m c) (kT5_at29 m c)))
/-- and the next linear kernel finds it in its first window. -/
theorem kH5_at31 (hS : S.Spec) (c : Dev nD) : V31 m (outsS16 m) c (Proc.devRef .tc main_v166) = kH5 m S c :=
  (entry15_0 m (outsS16 m) c).trans (kH5_eq m S hS c)

/-! ### The result -/

/-- THE KERNEL'S VALUE: what the last region's write-backs leave in the result array is `kerOut` of the launch memory. -/
theorem kernel_value (hS : S.Spec) (c : Dev nD) :
    (dat15 (F := Ideal) (fun c b => V31 m (outsS16 m) c b) c).arrAt 3 cfg15.N = kerOut m S c :=
  (final15 _ c).trans
    (linearAt_congr (M := 100000) (K := 16) (N := 3) (kH5_at31 m S hS c) (entry15_1 m (outsS16 m) c) (entry15_2 m (outsS16 m) c))

/-- The same at the concrete statistics: the batch mean and the one-pass variance. -/
theorem kernel_value_closed (c : Dev nD) :
    (dat15 (F := Ideal) (fun c b => V31 m (outsS16 m) c b) c).arrAt 3 cfg15.N = kerOut m kerStats c :=
  kernel_value m kerStats kerStats_spec c

end Cert.KernelIdeal.Hand

end
-- ==== Proof.LibRowScatterAdd.lean ====
/-
  A float scatter-add whose scatter indices name ROWS, read at an index, at the exact instance.

  The operand is a table of `N` rows (of `C` entries each, or of one entry), the scatter indices a column of `E`
  words, the updates `E` rows of the same width. Update row `e` lands on operand row `n` exactly when its index
  word, read as a signed integer, is `n`; an index word outside `[0, N)` names no row and its update is dropped.
  So entry `(n, c)` of the result is the operand's entry plus the sum, over the update rows `e` that land on `n`,
  of the update's entry `(e, c)`.
-/
import Idealize.ShloMosaic.PureOps.Ideal
import Idealize.ShloMosaic.Lib.ValueIdx

noncomputable section

namespace RowScatter

open Idealize.ShloMosaic Idealize.ShloMosaic.ValueIdx

/-- The update rows that land on operand row `n`: those whose index word, read signed, is `n`. -/
def landing {E w : Nat} (idx : IVec (⟨2, ![E, 1]⟩ : Shape) w) (n : Nat) : Finset (Fin E) :=
  Finset.univ.filter fun e => (idx (ix2 e (0 : Fin 1))).toInt = (n : Int)

/-- An update index lands on operand index `i` exactly when, on every operand axis, the window's start plus the window
    coordinate is `i`'s coordinate (as integers: a start may be negative or past the end, and then no `i` fits). -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      have hv : (d.start j idx a + (d.window j a : Int)).toNat = (i a).val := by rw [← hi]
      omega
    · intro hi
      funext a
      refine Fin.ext ?_
      have h1 := hi a
      show (d.start j idx a + (d.window j a : Int)).toNat = (i a).val
      omega
  · rename_i h
    constructor
    · intro hi; cases hi
    · intro hi
      refine absurd (fun a => ?_) h
      have h1 := hi a
      have h2 := (i a).isLt
      omega

/-! ## Rows of `C` entries -/

/-- The dimension numbers of a scatter of whole rows: the updates' axis 1 is the window axis, going to the operand's
    axis 1; the operand's axis 0 is the scattered (inserted) one, named by the one component of each index vector. -/
private abbrev rowsDims (N C E : Nat)
    (wf : ScatterDims.WF (⟨2, ![N, C]⟩ : Shape) (⟨2, ![E, 1]⟩ : Shape) (⟨2, ![E, C]⟩ : Shape) [1] [0] [0] 1) :
    ScatterDims (⟨2, ![N, C]⟩ : Shape) (⟨2, ![E, 1]⟩ : Shape) (⟨2, ![E, C]⟩ : Shape) where
  updateWindowDims := [1]
  insertedWindowDims := [0]
  scatterDimsToOperandDims := [0]
  indexVectorDim := 1
  wf := wf

section Rows
variable {N C E w : Nat}
  (wf : ScatterDims.WF (⟨2, ![N, C]⟩ : Shape) (⟨2, ![E, 1]⟩ : Shape) (⟨2, ![E, C]⟩ : Shape) [1] [0] [0] 1)
  (j : (⟨2, ![E, C]⟩ : Shape).Idx) (idx : IVec (⟨2, ![E, 1]⟩ : Shape) w)

/-- On the row axis the window starts at the index word of the update's row, read signed. -/
private theorem rows_start0 : (rowsDims N C E wf).start j idx 0 = (idx (ix2 (j 0) (0 : Fin 1))).toInt := by
  unfold ScatterDims.start
  rw [dif_pos (show (0 : Fin 2) ∈ (rowsDims N C E wf).scatterDimsToOperandDims from List.mem_singleton.mpr rfl)]
  have hsi : (rowsDims N C E wf).siIdx j ⟨List.idxOf (0 : Fin 2) (rowsDims N C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the entry axis the window starts at 0: no index component names it. -/
private theorem rows_start1 : (rowsDims N C E wf).start j idx 1 = 0 := by
  unfold ScatterDims.start
  have h : ¬ (1 : Fin 2) ∈ (rowsDims N C E wf).scatterDimsToOperandDims :=
    show ¬ (1 : Fin 2) ∈ ([0] : List (Fin 2)) from by decide
  rw [dif_neg h]

/-- The row axis is inserted: its window coordinate is 0. -/
private theorem rows_window0 : (rowsDims N C E wf).window j 0 = 0 := by
  unfold ScatterDims.window
  have h : ¬ (0 : Fin 2) ∈ (rowsDims N C E wf).sKept :=
    show ¬ (0 : Fin 2) ∈ ([1] : List (Fin 2)) from by decide
  rw [dif_neg h]

/-- The entry axis is the window axis: its window coordinate is the update's entry coordinate. -/
private theorem rows_window1 : (rowsDims N C E wf).window j 1 = (j 1).val := by
  unfold ScatterDims.window
  have h : (1 : Fin 2) ∈ (rowsDims N C E wf).sKept :=
    show (1 : Fin 2) ∈ ([1] : List (Fin 2)) from by decide
  rw [dif_pos h]
  rfl

end Rows

/-- An update entry `j` lands on entry `(n, c)` exactly when its row's index word is `n` and its entry coordinate is `c`. -/
private theorem rows_lands_iff {N C E w : Nat}
    (wf : ScatterDims.WF (⟨2, ![N, C]⟩ : Shape) (⟨2, ![E, 1]⟩ : Shape) (⟨2, ![E, C]⟩ : Shape) [1] [0] [0] 1)
    (j : (⟨2, ![E, C]⟩ : Shape).Idx) (idx : IVec (⟨2, ![E, 1]⟩ : Shape) w) (n : Fin N) (c : Fin C) :
    (rowsDims N C E wf).resultIdx? j idx = some (ix2 n c) ↔
      (idx (ix2 (j 0) (0 : Fin 1))).toInt = (n.val : Int) ∧ (j 1).val = c.val := by
  rw [resultIdx?_eq_some_iff]
  constructor
  · intro h
    have h0 : (rowsDims N C E wf).start j idx 0 + ((rowsDims N C E wf).window j 0 : Int) = (n.val : Int) := h 0
    have h1 : (rowsDims N C E wf).start j idx 1 + ((rowsDims N C E wf).window j 1 : Int) = (c.val : Int) := h 1
    rw [rows_start0, rows_window0] at h0
    rw [rows_start1, rows_window1] at h1
    exact ⟨by omega, by omega⟩
  · rintro ⟨h0, h1⟩ a
    match a with
    | ⟨0, _⟩ =>
      show (rowsDims N C E wf).start j idx 0 + ((rowsDims N C E wf).window j 0 : Int) = (n.val : Int)
      rw [rows_start0, rows_window0]; omega
    | ⟨1, _⟩ =>
      show (rowsDims N C E wf).start j idx 1 + ((rowsDims N C E wf).window j 1 : Int) = (c.val : Int)
      rw [rows_start1, rows_window1]; omega

private theorem rows_apply {N C E w : Nat}
    (wf : ScatterDims.WF (⟨2, ![N, C]⟩ : Shape) (⟨2, ![E, 1]⟩ : Shape) (⟨2, ![E, C]⟩ : Shape) [1] [0] [0] 1)
    (x : (⟨2, ![N, C]⟩ : Shape).Idx → EReal) (idx : IVec (⟨2, ![E, 1]⟩ : Shape) w)
    (upd : (⟨2, ![E, C]⟩ : Shape).Idx → EReal) (n : Fin N) (c : Fin C) :
    Ideal.hostScatterAdd (rowsDims N C E wf) x idx upd (ix2 n c)
      = x (ix2 n c) + ∑ e ∈ landing idx n.val, upd (ix2 e c) := by
  unfold Ideal.hostScatterAdd
  congr 1
  refine Finset.sum_nbij' (fun j => (j 0 : Fin E)) (fun e => ix2 e c) ?_ ?_ ?_ ?_ ?_
  · intro j hj
    have h := (rows_lands_iff wf j idx n c).1 (Finset.mem_filter.1 hj).2
    exact Finset.mem_filter.2 ⟨Finset.mem_univ _, h.1⟩
  · intro e he
    have h := (Finset.mem_filter.1 he).2
    exact Finset.mem_filter.2 ⟨Finset.mem_univ _, (rows_lands_iff wf (ix2 e c) idx n c).2 ⟨h, rfl⟩⟩
  · intro j hj
    have h := (rows_lands_iff wf j idx n c).1 (Finset.mem_filter.1 hj).2
    have hc : (j 1 : Fin C) = c := Fin.ext h.2
    rw [← hc]
    exact (eq_ix2 j).symm
  · intro e _
    rfl
  · intro j hj
    have h := (rows_lands_iff wf j idx n c).1 (Finset.mem_filter.1 hj).2
    have hc : (j 1 : Fin C) = c := Fin.ext h.2
    rw [← hc]
    exact congrArg upd (eq_ix2 j)

/-- Rows of `C` entries: entry `(n, c)` of the scatter-add is the operand's entry plus the sum of the entries `(e, c)`
    of the update rows `e` landing on row `n`. -/
theorem scatterAdd_rows_apply {N C E w : Nat}
    (d : ScatterDims (⟨2, ![N, C]⟩ : Shape) (⟨2, ![E, 1]⟩ : Shape) (⟨2, ![E, C]⟩ : Shape))
    (h1 : d.updateWindowDims = [1]) (h2 : d.insertedWindowDims = [0])
    (h3 : d.scatterDimsToOperandDims = [0]) (h4 : d.indexVectorDim = 1)
    (x : (⟨2, ![N, C]⟩ : Shape).Idx → EReal) (idx : IVec (⟨2, ![E, 1]⟩ : Shape) w)
    (upd : (⟨2, ![E, C]⟩ : Shape).Idx → EReal) (n : Fin N) (c : Fin C) :
    Ideal.hostScatterAdd d x idx upd (ix2 n c) = x (ix2 n c) + ∑ e ∈ landing idx n.val, upd (ix2 e c) := by
  obtain ⟨uw, iw, sd, iv, wf⟩ := d
  obtain rfl : uw = [1] := h1
  obtain rfl : iw = [0] := h2
  obtain rfl : sd = [0] := h3
  obtain rfl : iv = 1 := h4
  exact rows_apply wf x idx upd n c

/-! ## Rows of one entry -/

/-- The dimension numbers of a scatter of single entries into a vector: no window axis; the operand's one axis is the
    scattered (inserted) one, named by the one component of each index vector. -/
private abbrev vecDims (N E : Nat)
    (wf : ScatterDims.WF (⟨1, ![N]⟩ : Shape) (⟨2, ![E, 1]⟩ : Shape) (⟨1, ![E]⟩ : Shape) [] [0] [0] 1) :
    ScatterDims (⟨1, ![N]⟩ : Shape) (⟨2, ![E, 1]⟩ : Shape) (⟨1, ![E]⟩ : Shape) where
  updateWindowDims := []
  insertedWindowDims := [0]
  scatterDimsToOperandDims := [0]
  indexVectorDim := 1
  wf := wf

section Vec
variable {N E w : Nat}
  (wf : ScatterDims.WF (⟨1, ![N]⟩ : Shape) (⟨2, ![E, 1]⟩ : Shape) (⟨1, ![E]⟩ : Shape) [] [0] [0] 1)
  (j : (⟨1, ![E]⟩ : Shape).Idx) (idx : IVec (⟨2, ![E, 1]⟩ : Shape) w)

/-- On the one operand axis the window starts at the update's index word, read signed. -/
private theorem vec_start0 : (vecDims N E wf).start j idx 0 = (idx (ix2 (j 0) (0 : Fin 1))).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: its window coordinate is 0. -/
private theorem vec_window0 : (vecDims N E wf).window j 0 = 0 := by
  unfold ScatterDims.window
  have h : ¬ (0 : Fin 1) ∈ (vecDims N E wf).sKept :=
    show ¬ (0 : Fin 1) ∈ ([] : List (Fin 1)) from by decide
  rw [dif_neg h]

end Vec

/-- An update `j` lands on entry `n` exactly when its index word is `n`. -/
private theorem vec_lands_iff {N E w : Nat}
    (wf : ScatterDims.WF (⟨1, ![N]⟩ : Shape) (⟨2, ![E, 1]⟩ : Shape) (⟨1, ![E]⟩ : Shape) [] [0] [0] 1)
    (j : (⟨1, ![E]⟩ : Shape).Idx) (idx : IVec (⟨2, ![E, 1]⟩ : Shape) w) (n : Fin N) :
    (vecDims N E wf).resultIdx? j idx = some (ix1 n) ↔ (idx (ix2 (j 0) (0 : Fin 1))).toInt = (n.val : Int) := by
  rw [resultIdx?_eq_some_iff]
  constructor
  · intro h
    have h0 : (vecDims N E wf).start j idx 0 + ((vecDims N E wf).window j 0 : Int) = (n.val : Int) := h 0
    rw [vec_start0, vec_window0] at h0
    omega
  · intro h0 a
    match a with
    | ⟨0, _⟩ =>
      show (vecDims N E wf).start j idx 0 + ((vecDims N E wf).window j 0 : Int) = (n.val : Int)
      rw [vec_start0, vec_window0]; omega

private theorem vec_apply {N E w : Nat}
    (wf : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w)
    (upd : (⟨1, ![E]⟩ : Shape).Idx → EReal) (n : Fin N) :
    Ideal.hostScatterAdd (vecDims N E wf) x idx upd (ix1 n) = x (ix1 n) + ∑ e ∈ landing idx n.val, upd (ix1 e) := by
  unfold Ideal.hostScatterAdd
  congr 1
  refine Finset.sum_nbij' (fun j => (j 0 : Fin E)) (fun e => ix1 e) ?_ ?_ ?_ ?_ ?_
  · intro j hj
    have h := (vec_lands_iff wf j idx n).1 (Finset.mem_filter.1 hj).2
    exact Finset.mem_filter.2 ⟨Finset.mem_univ _, h⟩
  · intro e he
    have h := (Finset.mem_filter.1 he).2
    exact Finset.mem_filter.2 ⟨Finset.mem_univ _, (vec_lands_iff wf (ix1 e) idx n).2 h⟩
  · intro j _
    exact (eq_ix1 j).symm
  · intro e _
    rfl
  · intro j _
    exact congrArg upd (eq_ix1 j)

/-- Rows of one entry (a vector operand): entry `n` of the scatter-add is the operand's entry plus the sum of the
    updates `e` landing on `n`. -/
theorem scatterAdd_vec_apply {N E w : Nat}
    (d : ScatterDims (⟨1, ![N]⟩ : Shape) (⟨2, ![E, 1]⟩ : Shape) (⟨1, ![E]⟩ : Shape))
    (h1 : d.updateWindowDims = []) (h2 : d.insertedWindowDims = [0])
    (h3 : d.scatterDimsToOperandDims = [0]) (h4 : d.indexVectorDim = 1)
    (x : (⟨1, ![N]⟩ : Shape).Idx → EReal) (idx : IVec (⟨2, ![E, 1]⟩ : Shape) w)
    (upd : (⟨1, ![E]⟩ : Shape).Idx → EReal) (n : Fin N) :
    Ideal.hostScatterAdd d x idx upd (ix1 n) = x (ix1 n) + ∑ e ∈ landing idx n.val, upd (ix1 e) := by
  obtain ⟨uw, iw, sd, iv, wf⟩ := d
  obtain rfl : uw = [] := h1
  obtain rfl : iw = [0] := h2
  obtain rfl : sd = [0] := h3
  obtain rfl : iv = 1 := h4
  exact vec_apply wf x idx upd n

end RowScatter

end
-- ==== Proof.LibGcnDegree.lean ====
/-
  The degree vector of a graph with self loops, at the exact instance.

  The degree is an accumulating scatter of ones into a vector of zeros: position `n` ends at the number of index
  words that read (signed) as `n`; words outside `[0, N)` name no position and are dropped.  So every degree is a
  real number (a finite sum of reals), and a position that some index word names — in particular every position
  of a graph in which each node carries its own self loop — has degree at least 1; its reciprocal square root is
  then real.  The facts are stated for a real nonnegative operand and real nonnegative updates, and then for the
  zero and one patterns.

  Two facts on index words that a program needs to meet the hypothesis: the wrap of a negative index,
  `select (b < 0) (b + k) b`, leaves a word with a nonnegative signed reading alone; and the 32-bit word of a
  natural number below 2^31 reads, signed, as that number.
-/
import proofs.«109725_j21638045237575_1_alg».proof.Proof.LibFinite
import proofs.«109725_j21638045237575_1_alg».proof.Proof.LibRowScatterAdd

namespace Cert.LibGcn

open Idealize.ShloMosaic Idealize.ShloMosaic.ValueIdx Cert.LibStats RowScatter

/-! ### A scatter of nonnegative reals into a nonnegative real vector -/

section Degree
variable {N E w : Nat}
  (d : ScatterDims (⟨1, ![N]⟩ : Shape) (⟨2, ![E, 1]⟩ : Shape) (⟨1, ![E]⟩ : Shape))
  (h1 : d.updateWindowDims = []) (h2 : d.insertedWindowDims = [0])
  (h3 : d.scatterDimsToOperandDims = [0]) (h4 : d.indexVectorDim = 1)
  (x : (⟨1, ![N]⟩ : Shape).Idx → EReal) (idx : IVec (⟨2, ![E, 1]⟩ : Shape) w)
  (upd : (⟨1, ![E]⟩ : Shape).Idx → EReal)

/-- Every entry of the scatter-add of real updates into a real vector is real. -/
theorem degree_isReal (hx : ∀ i, IsReal (x i)) (hu : ∀ j, IsReal (upd j)) (n : Fin N) :
    IsReal (Ideal.hostScatterAdd d x idx upd (ix1 n)) := by
  unfold Ideal.hostScatterAdd
  exact (hx _).add (IsReal.sum _ _ fun j _ => hu j)

include h1 h2 h3 h4 in
/-- A position named by the index word of an update that is at least 1 ends at least 1, when the operand and all
    the updates are nonnegative. -/
theorem degree_ge_one (hx0 : ∀ i, 0 ≤ x i) (hu0 : ∀ j, 0 ≤ upd j) (n : Fin N) (e0 : Fin E)
    (he0 : (idx (ix2 e0 (0 : Fin 1))).toInt = (n.val : Int)) (hu1 : 1 ≤ upd (ix1 e0)) :
    1 ≤ Ideal.hostScatterAdd d x idx upd (ix1 n) := by
  rw [scatterAdd_vec_apply d h1 h2 h3 h4]
  have hmem : e0 ∈ landing idx n.val := Finset.mem_filter.2 ⟨Finset.mem_univ _, he0⟩
  have hsum : upd (ix1 e0) ≤ ∑ e ∈ landing idx n.val, upd (ix1 e) :=
    Finset.single_le_sum (f := fun e => upd (ix1 e)) (fun e _ => hu0 _) hmem
  exact le_trans (le_trans hu1 hsum) (le_add_of_nonneg_left (hx0 _))

include h1 h2 h3 h4 in
/-- The reciprocal square root of such a position is real. -/
theorem rsqrt_degree_isReal (hx : ∀ i, IsReal (x i)) (hu : ∀ j, IsReal (upd j)) (hx0 : ∀ i, 0 ≤ x i)
    (hu0 : ∀ j, 0 ≤ upd j) (n : Fin N) (e0 : Fin E)
    (he0 : (idx (ix2 e0 (0 : Fin 1))).toInt = (n.val : Int)) (hu1 : 1 ≤ upd (ix1 e0)) :
    IsReal (Ideal.rsqrt (Ideal.hostScatterAdd d x idx upd (ix1 n))) :=
  (degree_isReal d x idx upd hx hu n).rsqrt
    (lt_of_lt_of_le zero_lt_one (degree_ge_one d h1 h2 h3 h4 x idx upd hx0 hu0 n e0 he0 hu1))

end Degree

/-! ### Ones scattered into zeros -/

/-- The pattern of one denotes 1. -/
private theorem ofBits_one' : Ideal.ofBits .f32 0x3F800000#32 = 1 := by
  simp [Ideal.ofBits, Ideal.ieee, -EReal.coe_mul]; norm_num

section Ones
variable {N E w : Nat}
  (d : ScatterDims (⟨1, ![N]⟩ : Shape) (⟨2, ![E, 1]⟩ : Shape) (⟨1, ![E]⟩ : Shape))
  (h1 : d.updateWindowDims = []) (h2 : d.insertedWindowDims = [0])
  (h3 : d.scatterDimsToOperandDims = [0]) (h4 : d.indexVectorDim = 1)
  (x : (⟨1, ![N]⟩ : Shape).Idx → EReal) (idx : IVec (⟨2, ![E, 1]⟩ : Shape) w)
  (upd : (⟨1, ![E]⟩ : Shape).Idx → EReal)
  (hx : ∀ i, x i = Ideal.ofBits .f32 0x00000000#32) (hu : ∀ j, upd j = Ideal.ofBits .f32 0x3F800000#32)

include hx hu in
/-- The degree (ones scattered into zeros) is real at every position, whatever the index words. -/
theorem ones_degree_isReal (n : Fin N) : IsReal (Ideal.hostScatterAdd d x idx upd (ix1 n)) :=
  degree_isReal d x idx upd (fun i => by rw [hx i]; exact isReal_ofBits_zero)
    (fun j => by rw [hu j, ofBits_one']; exact isReal_one) n

include h1 h2 h3 h4 hx hu in
/-- The degree of a position that some index word names is at least 1. -/
theorem ones_degree_ge_one (n : Fin N) (e0 : Fin E) (he0 : (idx (ix2 e0 (0 : Fin 1))).toInt = (n.val : Int)) :
    1 ≤ Ideal.hostScatterAdd d x idx upd (ix1 n) :=
  degree_ge_one d h1 h2 h3 h4 x idx upd (fun i => by rw [hx i, ofBits_zero])
    (fun j => by rw [hu j, ofBits_one']; exact zero_le_one) n e0 he0 (by rw [hu, ofBits_one'])

include h1 h2 h3 h4 hx hu in
/-- The degree of a position that some index word names is positive. -/
theorem ones_degree_pos (n : Fin N) (e0 : Fin E) (he0 : (idx (ix2 e0 (0 : Fin 1))).toInt = (n.val : Int)) :
    0 < Ideal.hostScatterAdd d x idx upd (ix1 n) :=
  lt_of_lt_of_le zero_lt_one (ones_degree_ge_one d h1 h2 h3 h4 x idx upd hx hu n e0 he0)

include h1 h2 h3 h4 hx hu in
/-- The reciprocal square root of the degree of a position that some index word names is real. -/
theorem ones_rsqrt_degree_isReal (n : Fin N) (e0 : Fin E)
    (he0 : (idx (ix2 e0 (0 : Fin 1))).toInt = (n.val : Int)) :
    IsReal (Ideal.rsqrt (Ideal.hostScatterAdd d x idx upd (ix1 n))) :=
  (ones_degree_isReal d x idx upd hx hu n).rsqrt (ones_degree_pos d h1 h2 h3 h4 x idx upd hx hu n e0 he0)

end Ones

/-- A graph of 100000 nodes whose 1700000 index words end with the 100000 self loops (word 1600000 + n reads as n):
    the reciprocal square root of every node's degree is real, whatever the first 1600000 words are. -/
theorem self_loops_rsqrt_degree_isReal {w : Nat}
    (d : ScatterDims (⟨1, ![100000]⟩ : Shape) (⟨2, ![1700000, 1]⟩ : Shape) (⟨1, ![1700000]⟩ : Shape))
    (h1 : d.updateWindowDims = []) (h2 : d.insertedWindowDims = [0])
    (h3 : d.scatterDimsToOperandDims = [0]) (h4 : d.indexVectorDim = 1)
    (x : (⟨1, ![100000]⟩ : Shape).Idx → EReal) (idx : IVec (⟨2, ![1700000, 1]⟩ : Shape) w)
    (upd : (⟨1, ![1700000]⟩ : Shape).Idx → EReal)
    (hx : ∀ i, x i = Ideal.ofBits .f32 0x00000000#32) (hu : ∀ j, upd j = Ideal.ofBits .f32 0x3F800000#32)
    (hself : ∀ n : Fin 100000,
      (idx (ix2 (⟨1600000 + n.val, by have := n.isLt; omega⟩ : Fin 1700000) (0 : Fin 1))).toInt = (n.val : Int))
    (n : Fin 100000) :
    IsReal (Ideal.hostScatterAdd d x idx upd (ix1 n)) ∧ 1 ≤ Ideal.hostScatterAdd d x idx upd (ix1 n)
      ∧ IsReal (Ideal.rsqrt (Ideal.hostScatterAdd d x idx upd (ix1 n))) :=
  ⟨ones_degree_isReal d x idx upd hx hu n,
   ones_degree_ge_one d h1 h2 h3 h4 x idx upd hx hu n _ (hself n),
   ones_rsqrt_degree_isReal d h1 h2 h3 h4 x idx upd hx hu n _ (hself n)⟩

/-! ### Index words -/

/-- The wrap of a negative index leaves a word with a nonnegative signed reading alone. -/
theorem wrap_of_nonneg {w : Nat} (b k : BitVec w) (h : 0 ≤ b.toInt) :
    Scalar.select (IntOp.cmpi .slt b 0#w) (IntOp.addi b k) b = b := by
  have hs : b.slt 0#w = false := by
    rw [BitVec.slt, BitVec.toInt_zero]
    exact decide_eq_false (not_lt.mpr h)
  unfold Scalar.select IntOp.cmpi
  simp only [hs]
  rfl

/-- The 32-bit word of a natural number below 2^31 reads, signed, as that number. -/
theorem toInt_ofNat_of_lt (n : Nat) (h : n < 2147483648) : (BitVec.ofNat 32 n).toInt = (n : Int) := by
  rw [BitVec.toInt_eq_toNat_cond, BitVec.toNat_ofNat]
  have h2 : n % 2 ^ 32 = n := Nat.mod_eq_of_lt (by omega)
  rw [h2, if_pos (by omega)]

end Cert.LibGcn
-- ==== Proof.LibGcnNorm.lean ====
/-
  The edge weights of a normalised graph convolution are real numbers.

  The graph has 100000 nodes and 1700000 messages: 1600000 edges followed by one self loop per node. The message
  ends are 32-bit words; before they index a table, a negative word is wrapped around by the number of nodes
  (select(i < 0, i + 100000, i)) and the vector is made a one-column table. The degree of a node is the number of
  messages that target it, computed as ones scatter-added into zeros at the wrapped targets; the weight of a
  message is rsqrt(deg) at its source times rsqrt(deg) at its target, both gathered.

  The self loops make every degree at least 1: message 1600000 + n targets node n, since its word is the natural
  number n < 100000, nonnegative, which the wrap leaves alone. So every degree is a real number ≥ 1, its reciprocal
  square root is real, a gather of reals is real, and a product of two reals is real — whatever the 1600000 edge
  words are. Stated over literal extents and ARBITRARY dimension records and shape-relation proofs, so that the
  same lemmas read any program that spells these operations.
-/
import proofs.«109725_j21638045237575_1_alg».proof.Proof.LibGcnDegree
import proofs.«109725_j21638045237575_1_alg».proof.Proof.LibGcnLayer
import Idealize.ShloMosaic.Lib.Pipeline.Value
import Idealize.ShloMosaic.Lib.ValueIdx

noncomputable section

namespace Cert.LibGcn

open Idealize.ShloMosaic Idealize.ShloMosaic.ValueIdx Cert.LibStats

/-! ### Index words -/

/-- The wrapped index column read at a row: the wrap of the vector's word at that row. -/
theorem wrap_col_apply
    (hb1 : (⟨1, ![1700000]⟩ : Shape).BroadcastsInDim (⟨2, ![1700000, 1]⟩ : Shape) ![0])
    (hb0 : (⟨0, ![]⟩ : Shape).BroadcastsInDim (⟨1, ![1700000]⟩ : Shape) ![])
    (i : IVec (⟨1, ![1700000]⟩ : Shape) 32) (r : Fin 1700000) :
    broadcastInDim (⟨2, ![1700000, 1]⟩ : Shape) ![0] hb1
        (select (cmpi .slt i (broadcastInDim (⟨1, ![1700000]⟩ : Shape) ![] hb0 (constantI (⟨0, ![]⟩ : Shape) 32 0#32)))
          (addi i (broadcastInDim (⟨1, ![1700000]⟩ : Shape) ![] hb0 (constantI (⟨0, ![]⟩ : Shape) 32 100000#32))) i)
        (ix2 r (0 : Fin 1))
      = Scalar.select (IntOp.cmpi .slt (i (ix1 r)) 0#32) (IntOp.addi (i (ix1 r)) 100000#32) (i (ix1 r)) := by
  rw [broadcastInDim_apply ![0] hb1 _ (ix2 r (0 : Fin 1)) (ix1 r) (fun a => by
    match a with
    | ⟨0, _⟩ =>
      show r.val = if (1700000 : ℕ) = 1 then 0 else r.val
      rw [if_neg (by decide)])]
  rfl

/-- The message ends are the edge words followed by the node numbers 0 … 99999: word 1600000 + n is the number n. -/
theorem self_loop_word (x₁ : (⟨1, ![1600000]⟩ : Shape).Idx → BitVec 32)
    (h : Shape.Concatenates [(⟨1, ![1600000]⟩ : Shape), (⟨1, ![100000]⟩ : Shape)] (⟨1, ![1700000]⟩ : Shape) 0)
    (n : Fin 100000) :
    concatenate (⟨1, ![1700000]⟩ : Shape) 0
        [⟨(⟨1, ![1600000]⟩ : Shape), x₁⟩, ⟨(⟨1, ![100000]⟩ : Shape), iotaInDim (⟨1, ![100000]⟩ : Shape) 32 0⟩] h
        (ix1 (⟨1600000 + n.val, by have := n.isLt; omega⟩ : Fin 1700000))
      = BitVec.ofNat 32 n.val :=
  concatenate_pair_apply_right (t := (⟨1, ![1700000]⟩ : Shape)) (s₁ := (⟨1, ![1600000]⟩ : Shape)) (s₂ := (⟨1, ![100000]⟩ : Shape))
    (0 : Fin 1) x₁ (iotaInDim (⟨1, ![100000]⟩ : Shape) 32 0) h
    (ix1 (⟨1600000 + n.val, by have := n.isLt; omega⟩ : Fin 1700000)) rfl rfl (ix1 n)
    (fun b hb => (hb (Subsingleton.elim (α := Fin 1) _ _)).elim)
    (show n.val + 1600000 = 1600000 + n.val from Nat.add_comm _ _)

/-- The wrapped column of such a vector of message ends reads, at self loop n, as the number n. -/
theorem wrapped_self_loop
    (hb1 : (⟨1, ![1700000]⟩ : Shape).BroadcastsInDim (⟨2, ![1700000, 1]⟩ : Shape) ![0])
    (hb0 : (⟨0, ![]⟩ : Shape).BroadcastsInDim (⟨1, ![1700000]⟩ : Shape) ![])
    (i : IVec (⟨1, ![1700000]⟩ : Shape) 32)
    (hi : ∀ n : Fin 100000, i (ix1 (⟨1600000 + n.val, by have := n.isLt; omega⟩ : Fin 1700000)) = BitVec.ofNat 32 n.val)
    (n : Fin 100000) :
    (broadcastInDim (⟨2, ![1700000, 1]⟩ : Shape) ![0] hb1
        (select (cmpi .slt i (broadcastInDim (⟨1, ![1700000]⟩ : Shape) ![] hb0 (constantI (⟨0, ![]⟩ : Shape) 32 0#32)))
          (addi i (broadcastInDim (⟨1, ![1700000]⟩ : Shape) ![] hb0 (constantI (⟨0, ![]⟩ : Shape) 32 100000#32))) i)
        (ix2 (⟨1600000 + n.val, by have := n.isLt; omega⟩ : Fin 1700000) (0 : Fin 1))).toInt = (n.val : Int) := by
  have hn : n.val < 2147483648 := by have := n.isLt; omega
  rw [wrap_col_apply hb1 hb0 i, hi n, wrap_of_nonneg _ _ (by rw [toInt_ofNat_of_lt _ hn]; exact Int.natCast_nonneg _),
    toInt_ofNat_of_lt _ hn]

/-! ### Degrees and weights -/

section Weights
variable (dS : ScatterDims (⟨1, ![100000]⟩ : Shape) (⟨2, ![1700000, 1]⟩ : Shape) (⟨1, ![1700000]⟩ : Shape))
  (h1 : dS.updateWindowDims = []) (h2 : dS.insertedWindowDims = [0])
  (h3 : dS.scatterDimsToOperandDims = [0]) (h4 : dS.indexVectorDim = 1)
  (x : (⟨1, ![100000]⟩ : Shape).Idx → EReal) (upd : (⟨1, ![1700000]⟩ : Shape).Idx → EReal)
  (hx : ∀ i, x i = Ideal.ofBits .f32 0x00000000#32) (hu : ∀ j, upd j = Ideal.ofBits .f32 0x3F800000#32)
  (idxD : IVec (⟨2, ![1700000, 1]⟩ : Shape) 32)
  (hself : ∀ n : Fin 100000,
    (idxD (ix2 (⟨1600000 + n.val, by have := n.isLt; omega⟩ : Fin 1700000) (0 : Fin 1))).toInt = (n.val : Int))

include h1 h2 h3 h4 hx hu hself in
/-- With the self loops among the targets, every degree is a real number at least 1 and its reciprocal square root
    is real, at every index of the degree vector. -/
theorem degree_facts (i : (⟨1, ![100000]⟩ : Shape).Idx) :
    IsReal (Ideal.hostScatterAdd dS x idxD upd i) ∧ 1 ≤ Ideal.hostScatterAdd dS x idxD upd i
      ∧ IsReal (Ideal.rsqrt (Ideal.hostScatterAdd dS x idxD upd i)) := by
  rw [eq_ix1 i]
  exact self_loops_rsqrt_degree_isReal dS h1 h2 h3 h4 x idxD upd hx hu hself (i 0)

include h1 h2 h3 h4 hx hu hself in
/-- The edge weight rsqrt(deg)[source] · rsqrt(deg)[target] of every message is real, whatever the gather's
    dimension numbers and the source words are. -/
theorem weight_isReal {si t : Shape} (dG : GatherDims (⟨1, ![100000]⟩ : Shape) si t) (idxS idxT : IVec si 32) (j : t.Idx) :
    IsReal (Host.gather dG (fun i => Ideal.rsqrt (Ideal.hostScatterAdd dS x idxD upd i)) idxS j
      * Host.gather dG (fun i => Ideal.rsqrt (Ideal.hostScatterAdd dS x idxD upd i)) idxT j) :=
  (gather_isReal dG _ idxS (fun i => (degree_facts dS h1 h2 h3 h4 x upd hx hu idxD hself i).2.2) j).mul
    (gather_isReal dG _ idxT (fun i => (degree_facts dS h1 h2 h3 h4 x upd hx hu idxD hself i).2.2) j)

end Weights

/-! ### The same facts over the operations as a program spells them -/

section Printed
variable (dS : ScatterDims (⟨1, ![100000]⟩ : Shape) (⟨2, ![1700000, 1]⟩ : Shape) (⟨1, ![1700000]⟩ : Shape))
  (h1 : dS.updateWindowDims = []) (h2 : dS.insertedWindowDims = [0])
  (h3 : dS.scatterDimsToOperandDims = [0]) (h4 : dS.indexVectorDim = 1)
  (x : FVec Ideal (⟨1, ![100000]⟩ : Shape) .f32) (upd : FVec Ideal (⟨1, ![1700000]⟩ : Shape) .f32)
  (hx : ∀ i, x i = Ideal.ofBits .f32 0x00000000#32) (hu : ∀ j, upd j = Ideal.ofBits .f32 0x3F800000#32)
  (idxD : IVec (⟨2, ![1700000, 1]⟩ : Shape) 32)
  (hself : ∀ n : Fin 100000,
    (idxD (ix2 (⟨1600000 + n.val, by have := n.isLt; omega⟩ : Fin 1700000) (0 : Fin 1))).toInt = (n.val : Int))

include h1 h2 h3 h4 hx hu hself in
/-- The host's scatter-add of ones into zeros at targets that include the self loops: every entry is a real number
    at least 1, and the host's reciprocal square root of it is real. -/
theorem host_degree_facts (i : (⟨1, ![100000]⟩ : Shape).Idx) :
    IsReal (Host.scatterAdd dS x idxD upd i : EReal) ∧ 1 ≤ (Host.scatterAdd dS x idxD upd i : EReal)
      ∧ IsReal (Host.rsqrt (Host.scatterAdd dS x idxD upd) i : EReal) := by
  have h := degree_facts dS h1 h2 h3 h4 x upd hx hu idxD hself i
  show IsReal (Ideal.hostScatterAdd dS x idxD upd i) ∧ 1 ≤ Ideal.hostScatterAdd dS x idxD upd i
    ∧ IsReal (Ideal.rsqrt (Ideal.hostScatterAdd dS x idxD upd i))
  exact h

include h1 h2 h3 h4 hx hu hself in
/-- The host's edge weights, the product of two gathers of the host's reciprocal square root of that degree vector, are
    real, whatever the gather's dimension numbers and the index tables are. -/
theorem host_weight_isReal {si t : Shape} (dG : GatherDims (⟨1, ![100000]⟩ : Shape) si t) (idxS idxT : IVec si 32) (j : t.Idx) :
    IsReal (mulf (Host.gather dG (Host.rsqrt (Host.scatterAdd dS x idxD upd)) idxS)
      (Host.gather dG (Host.rsqrt (Host.scatterAdd dS x idxD upd)) idxT) j : EReal) := by
  have h := weight_isReal dS h1 h2 h3 h4 x upd hx hu idxD hself dG idxS idxT j
  show IsReal (Host.gather dG (fun i => Ideal.rsqrt (Ideal.hostScatterAdd dS x idxD upd i)) idxS j
      * Host.gather dG (fun i => Ideal.rsqrt (Ideal.hostScatterAdd dS x idxD upd i)) idxT j)
  exact h

end Printed

end Cert.LibGcn

end
-- ==== Proof.KI.NormReal.lean ====
/-
  The idealized kernel's edge weights are real numbers, for any edge table.

  The kernel's prologue appends one self loop per node to the edge table's two rows (`kerSrc`, `kerDst`), wraps
  negative words (`wrapCol`), counts the messages that target each node (`kerDeg`) and weights message j by
  rsqrt(deg)[source j] · rsqrt(deg)[target j] (`kerNorm`). Message 1600000 + n targets node n — its word is the
  number n, which the wrap leaves alone — so every degree is a real number at least 1, its reciprocal square root
  is real, and every weight, a product of two gathered such entries, is real: no hypothesis on the edge words.
-/
import proofs.«109725_j21638045237575_1_alg».proof.Proof.KI.HostFacts
import proofs.«109725_j21638045237575_1_alg».proof.Proof.LibGcnNorm

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open Cert.LibStats Cert.LibGcn

section Words
variable {F : FTy → Type} [FloatOps F]

/-- Source word 1600000 + n is the number n: the self loop of node n. -/
theorem kerSrc_self_loop (e : (⟨S2x1600000, .i32⟩ : BufTy).Contents (Elt F)) (n : Fin 100000) :
    kerSrc (F := F) e (ix1 (⟨1600000 + n.val, by have := n.isLt; omega⟩ : Fin 1700000)) = BitVec.ofNat 32 n.val := by
  unfold kerSrc
  exact self_loop_word _ _ n

/-- Target word 1600000 + n is the number n: the self loop of node n. -/
theorem kerDst_self_loop (e : (⟨S2x1600000, .i32⟩ : BufTy).Contents (Elt F)) (n : Fin 100000) :
    kerDst (F := F) e (ix1 (⟨1600000 + n.val, by have := n.isLt; omega⟩ : Fin 1700000)) = BitVec.ofNat 32 n.val := by
  unfold kerDst
  exact self_loop_word _ _ n

/-- The wrapped target column reads, at self loop n, as the number n. -/
theorem wrapCol_kerDst_self (e : (⟨S2x1600000, .i32⟩ : BufTy).Contents (Elt F)) (n : Fin 100000) :
    (wrapCol (F := F) (kerDst (F := F) e)
      (ix2 (⟨1600000 + n.val, by have := n.isLt; omega⟩ : Fin 1700000) (0 : Fin 1))).toInt = (n.val : Int) := by
  unfold wrapCol
  exact wrapped_self_loop _ _ (kerDst (F := F) e) (kerDst_self_loop e) n

end Words

/-! ## At the idealized instance -/

/-- Every node's degree is a real number at least 1, and its reciprocal square root is real. -/
theorem kerDeg_facts (e : (⟨S2x1600000, .i32⟩ : BufTy).Contents (Elt Ideal)) (i : S100000.Idx) :
    IsReal (kerDeg (F := Ideal) (kerDst (F := Ideal) e) i : EReal) ∧ 1 ≤ (kerDeg (F := Ideal) (kerDst (F := Ideal) e) i : EReal)
      ∧ IsReal (Host.rsqrt (F := Ideal) (s := S100000) (φ := .f32) (kerDeg (F := Ideal) (kerDst (F := Ideal) e)) i : EReal) := by
  unfold kerDeg
  exact host_degree_facts scatter_S100000_S1700000x1_S1700000_n_0_0_1 rfl rfl rfl rfl _ _ (fun _ => rfl) (fun _ => rfl) _
    (wrapCol_kerDst_self e) i

/-- The reciprocal square root of every node's degree is real. -/
theorem kerRsqrtDeg_isReal (e : (⟨S2x1600000, .i32⟩ : BufTy).Contents (Elt Ideal)) (i : S100000.Idx) :
    IsReal (Host.rsqrt (F := Ideal) (s := S100000) (φ := .f32) (kerDeg (F := Ideal) (kerDst (F := Ideal) e)) i : EReal) :=
  (kerDeg_facts e i).2.2

/-- Every edge weight is real. -/
theorem kerNorm_isReal (e : (⟨S2x1600000, .i32⟩ : BufTy).Contents (Elt Ideal)) (j : S1700000.Idx) :
    IsReal (kerNorm (F := Ideal) (kerSrc (F := Ideal) e) (kerDst (F := Ideal) e) j : EReal) := by
  unfold kerNorm kerDeg
  exact host_weight_isReal scatter_S100000_S1700000x1_S1700000_n_0_0_1 rfl rfl rfl rfl _ _ (fun _ => rfl) (fun _ => rfl) _
    (wrapCol_kerDst_self e) gather_S100000_S1700000x1_S1700000_n_0_n_n_0_1_1 _ _ j

end Cert.KernelIdeal.Hand

end
-- ==== Proof.PreReal.lean ====
/-
  From the precondition to real entries. The precondition `finite_inputs` of the idealized kernel is an `and` of
  23 tests, one per float argument array x: all(|x| < +inf). At the idealized instance a float is an extended real,
  |x| is max x (−x), the bound 0x7F800000 is +inf, and the comparison is the order's. So the test at an entry x says
  max x (−x) < ⊤, which excludes x = ⊤ and x = ⊥: the entry is a real number. The test over an array is a
  reduction by `and` from the constant true, which is 1 only if every entry's test is 1.
-/
import proofs.«109725_j21638045237575_1_alg».proof.Defs
import proofs.«109725_j21638045237575_1_alg».proof.Proof.LibFinite
import Idealize.ShloMosaic.Lib.ReduceAll
import Idealize.ShloMosaic.Lib.ValueIdx
import Idealize.ShloMosaic.Lib.Affine
import Idealize.ShloMosaic.PureOps.Ideal.Laws

noncomputable section

namespace Cert.PreReal

open Idealize.ShloMosaic Idealize.SL.Sem
open Cert.LibStats
open Cert.Pre_finite_inputs (S_ fn fn_part1 fn_part2 fn_part3 fn_part4 fn_part5 fn_part6)

/-- The scalar shape has one index. -/
instance : Subsingleton S_.Idx := ⟨fun a b => funext fun d => d.elim0⟩

/-- The bound of the test is +inf. -/
theorem ofBits_inf : Ideal.ofBits .f32 0x7F800000#32 = ⊤ := by simp [Ideal.ofBits, Ideal.ieee]

/-- An extended real whose absolute value is below +inf is a real number. -/
theorem isReal_of_abs_lt_inf (x : EReal) (h : Ideal.cmp .olt (max x (-x)) (Ideal.ofBits .f32 0x7F800000#32) = 1#1) : IsReal x := by
  rw [ofBits_inf] at h
  have hlt : max x (-x) < ⊤ := by
    by_contra hn
    simp [Ideal.cmp, hn] at h
  rw [isReal_iff]
  refine ⟨fun hb => ?_, fun ht => ?_⟩
  · subst hb; simp at hlt
  · subst ht; simp at hlt

/-- One argument's test: if all(|x| < +inf) over an array `x` of any shape is 1, every entry of `x` is real. -/
theorem all_real {s : Shape} {axes : List (Fin s.rank)} (x : FVec Ideal s .f32)
    (hb : S_.BroadcastsInDim s (![] : Fin 0 → Fin s.rank)) (h : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) h hu j = 1#1) (i : s.Idx) : IsReal (x i) :=
  isReal_of_abs_lt_inf (x i) (Host.reduce_andi_all _ _ h hu j e i)

variable [Cert.Pre_finite_inputs.Facts]

/-- The precondition decoded: on every core, every entry of every float argument array is a real number. -/
theorem pre_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i))
    ∧ (∀ i, IsReal (m ((c.tc : Thread Cert.KernelIdeal.nD Cert.KernelIdeal.τ).loc Cert.KernelIdeal.main_arg9) i))
    ∧ (∀ i, IsReal (m ((c.tc : Thread Cert.KernelIdeal.nD Cert.KernelIdeal.τ).loc Cert.KernelIdeal.main_arg10) i))
    ∧ (∀ i, IsReal (m ((c.tc : Thread Cert.KernelIdeal.nD Cert.KernelIdeal.τ).loc Cert.KernelIdeal.main_arg11) i))
    ∧ (∀ i, IsReal (m ((c.tc : Thread Cert.KernelIdeal.nD Cert.KernelIdeal.τ).loc Cert.KernelIdeal.main_arg12) i))
    ∧ (∀ i, IsReal (m ((c.tc : Thread Cert.KernelIdeal.nD Cert.KernelIdeal.τ).loc Cert.KernelIdeal.main_arg13) i))
    ∧ (∀ i, IsReal (m ((c.tc : Thread Cert.KernelIdeal.nD Cert.KernelIdeal.τ).loc Cert.KernelIdeal.main_arg14) i))
    ∧ (∀ i, IsReal (m ((c.tc : Thread Cert.KernelIdeal.nD Cert.KernelIdeal.τ).loc Cert.KernelIdeal.main_arg15) i))
    ∧ (∀ i, IsReal (m ((c.tc : Thread Cert.KernelIdeal.nD Cert.KernelIdeal.τ).loc Cert.KernelIdeal.main_arg16) i))
    ∧ (∀ i, IsReal (m ((c.tc : Thread Cert.KernelIdeal.nD Cert.KernelIdeal.τ).loc Cert.KernelIdeal.main_arg17) i))
    ∧ (∀ i, IsReal (m ((c.tc : Thread Cert.KernelIdeal.nD Cert.KernelIdeal.τ).loc Cert.KernelIdeal.main_arg18) i))
    ∧ (∀ i, IsReal (m ((c.tc : Thread Cert.KernelIdeal.nD Cert.KernelIdeal.τ).loc Cert.KernelIdeal.main_arg19) i))
    ∧ (∀ i, IsReal (m ((c.tc : Thread Cert.KernelIdeal.nD Cert.KernelIdeal.τ).loc Cert.KernelIdeal.main_arg20) i))
    ∧ (∀ i, IsReal (m ((c.tc : Thread Cert.KernelIdeal.nD Cert.KernelIdeal.τ).loc Cert.KernelIdeal.main_arg21) i))
    ∧ (∀ i, IsReal (m ((c.tc : Thread Cert.KernelIdeal.nD Cert.KernelIdeal.τ).loc Cert.KernelIdeal.main_arg22) i))
    ∧ (∀ i, IsReal (m ((c.tc : Thread Cert.KernelIdeal.nD Cert.KernelIdeal.τ).loc Cert.KernelIdeal.main_arg23) i)) := by
  have e := congrFun (h c) ValueIdx.ix0
  dsimp only [fn, fn_part1, fn_part2, fn_part3, fn_part4, fn_part5, fn_part6] at e
  simp only [andi, IntOp.andi_eq_one, and_assoc] at e
  obtain ⟨e0, e2, e3, e4, e5, e6, e7, e8, e9, e10, e11, e12, e13, e14, e15, e16, e17, e18, e19, e20, e21, e22, e23⟩ := e
  exact ⟨all_real _ _ _ _ _ e0, all_real _ _ _ _ _ e2, all_real _ _ _ _ _ e3, all_real _ _ _ _ _ e4, all_real _ _ _ _ _ e5, all_real _ _ _ _ _ e6, all_real _ _ _ _ _ e7, all_real _ _ _ _ _ e8, all_real _ _ _ _ _ e9, all_real _ _ _ _ _ e10, all_real _ _ _ _ _ e11, all_real _ _ _ _ _ e12, all_real _ _ _ _ _ e13, all_real _ _ _ _ _ e14, all_real _ _ _ _ _ e15, all_real _ _ _ _ _ e16, all_real _ _ _ _ _ e17, all_real _ _ _ _ _ e18, all_real _ _ _ _ _ e19, all_real _ _ _ _ _ e20, all_real _ _ _ _ _ e21, all_real _ _ _ _ _ e22, all_real _ _ _ _ _ e23⟩

theorem pre_real_arg0 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg0) i) :=
  (pre_real m h c).1
theorem pre_real_arg2 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg2) i) :=
  (pre_real m h c).2.1
theorem pre_real_arg3 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg3) i) :=
  (pre_real m h c).2.2.1
theorem pre_real_arg4 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg4) i) :=
  (pre_real m h c).2.2.2.1
theorem pre_real_arg5 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg5) i) :=
  (pre_real m h c).2.2.2.2.1
theorem pre_real_arg6 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg6) i) :=
  (pre_real m h c).2.2.2.2.2.1
theorem pre_real_arg7 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg7) i) :=
  (pre_real m h c).2.2.2.2.2.2.1
theorem pre_real_arg8 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg8) i) :=
  (pre_real m h c).2.2.2.2.2.2.2.1
theorem pre_real_arg9 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg9) i) :=
  (pre_real m h c).2.2.2.2.2.2.2.2.1
theorem pre_real_arg10 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg10) i) :=
  (pre_real m h c).2.2.2.2.2.2.2.2.2.1
theorem pre_real_arg11 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg11) i) :=
  (pre_real m h c).2.2.2.2.2.2.2.2.2.2.1
theorem pre_real_arg12 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg12) i) :=
  (pre_real m h c).2.2.2.2.2.2.2.2.2.2.2.1
theorem pre_real_arg13 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg13) i) :=
  (pre_real m h c).2.2.2.2.2.2.2.2.2.2.2.2.1
theorem pre_real_arg14 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg14) i) :=
  (pre_real m h c).2.2.2.2.2.2.2.2.2.2.2.2.2.1
theorem pre_real_arg15 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg15) i) :=
  (pre_real m h c).2.2.2.2.2.2.2.2.2.2.2.2.2.2.1
theorem pre_real_arg16 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg16) i) :=
  (pre_real m h c).2.2.2.2.2.2.2.2.2.2.2.2.2.2.2.1
theorem pre_real_arg17 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg17) i) :=
  (pre_real m h c).2.2.2.2.2.2.2.2.2.2.2.2.2.2.2.2.1
theorem pre_real_arg18 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg18) i) :=
  (pre_real m h c).2.2.2.2.2.2.2.2.2.2.2.2.2.2.2.2.2.1
theorem pre_real_arg19 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg19) i) :=
  (pre_real m h c).2.2.2.2.2.2.2.2.2.2.2.2.2.2.2.2.2.2.1
theorem pre_real_arg20 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg20) i) :=
  (pre_real m h c).2.2.2.2.2.2.2.2.2.2.2.2.2.2.2.2.2.2.2.1
theorem pre_real_arg21 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg21) i) :=
  (pre_real m h c).2.2.2.2.2.2.2.2.2.2.2.2.2.2.2.2.2.2.2.2.1
theorem pre_real_arg22 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg22) i) :=
  (pre_real m h c).2.2.2.2.2.2.2.2.2.2.2.2.2.2.2.2.2.2.2.2.2.1
theorem pre_real_arg23 (m : (ℓ : Loc Cert.KernelIdeal.nD Cert.KernelIdeal.τ Cert.KernelIdeal.sig) → Buf (Elt Ideal) ℓ)
    (h : Cert.Pre_KernelIdeal m) (c : Dev Cert.KernelIdeal.nD) : ∀ i, IsReal (m ((c.tc : Thread Cert.KernelIdeal.nD Cert.KernelIdeal.τ).loc Cert.KernelIdeal.main_arg23) i) :=
  (pre_real m h c).2.2.2.2.2.2.2.2.2.2.2.2.2.2.2.2.2.2.2.2.2.2

end Cert.PreReal

end
-- ==== Proof.Bridge.lean ====
/-
  THE BRIDGE: at the extended reals, from memories that agree on the 24 arguments and under the precondition (every
  float argument finite), the reference network's result is the kernel's value.

  Both sides are five layers and a linear head over the same edge lists and edge weights. Per layer the reference
  multiplies the rows by the weights on the host, passes them along the edges, adds the bias, and normalises with
  TWO-PASS statistics; the kernel multiplies in a kernel that adds a zero bias row, passes along the edges with literally
  the same host operations, and normalises with ONE-PASS statistics of table plus bias row. The products agree (x + 0),
  the message passing agrees by congruence, and on a table of real entries the two pairs of statistics are the same
  numbers; so the layers' outputs are the same array, whose entries are again real — which is what the next layer needs.
  Realness starts from the precondition (the arguments) and from the edge weights being real for any edge table.
-/
import proofs.«109725_j21638045237575_1_alg».proof.Proof.RefNet
import proofs.«109725_j21638045237575_1_alg».proof.Proof.RefBn
import proofs.«109725_j21638045237575_1_alg».proof.Proof.LibDotLinear
import proofs.«109725_j21638045237575_1_alg».proof.Proof.KI.KerNet
import proofs.«109725_j21638045237575_1_alg».proof.Proof.KI.NormReal
import proofs.«109725_j21638045237575_1_alg».proof.Proof.PreReal

noncomputable section

namespace Cert.Bridge

open Idealize.ShloMosaic Idealize.ShloMosaic.ValueIdx Idealize.ShloMosaic.StableHlo Idealize.SL.Sem
open Cert.ReferenceIdeal.HandRun Cert.KernelIdeal.Hand
open Cert.LibGcn Cert.LibStats Cert.Lib.NormTile Cert.Lib.LinearTile Cert.Lib.DotLinear

/-! ## What the statistics kernels' rows must be -/

/-- A mean row, as a function of a table and a bias row, is the plain column mean of table plus bias. -/
def MeanForm {d : Nat} (mean : ((⟨2, ![100000, d]⟩ : Shape).Idx → EReal) → ((⟨2, ![1, d]⟩ : Shape).Idx → EReal) → (⟨2, ![1, d]⟩ : Shape).Idx → EReal) : Prop :=
  ∀ A B (o : Fin d), mean A B (ix2 (0 : Fin 1) o)
    = Ideal.div (∑ n : Fin 100000, (A (ix2 n o) + B (ix2 (0 : Fin 1) o))) (Ideal.ofBits .f32 0x47C35000#32)

/-- A variance row is the one-pass column variance of table plus bias: the mean of the squares less the square of the
    mean row. -/
def VarForm {d : Nat} (mean var : ((⟨2, ![100000, d]⟩ : Shape).Idx → EReal) → ((⟨2, ![1, d]⟩ : Shape).Idx → EReal) → (⟨2, ![1, d]⟩ : Shape).Idx → EReal) : Prop :=
  ∀ A B (o : Fin d), var A B (ix2 (0 : Fin 1) o)
    = Ideal.div (∑ n : Fin 100000, (A (ix2 n o) + B (ix2 (0 : Fin 1) o)) * (A (ix2 n o) + B (ix2 (0 : Fin 1) o))) (Ideal.ofBits .f32 0x47C35000#32)
      - mean A B (ix2 (0 : Fin 1) o) * mean A B (ix2 (0 : Fin 1) o)

/-- The five layers' statistics rows have those forms. -/
structure StatsForm (S : KerStats) : Prop where
  m1 : MeanForm (d := 32) S.mean1
  v1 : VarForm (d := 32) S.mean1 S.var1
  m2 : MeanForm (d := 128) S.mean2
  v2 : VarForm (d := 128) S.mean2 S.var2
  m3 : MeanForm (d := 128) S.mean3
  v3 : VarForm (d := 128) S.mean3 S.var3
  m4 : MeanForm (d := 32) S.mean4
  v4 : VarForm (d := 32) S.mean4 S.var4
  m5 : MeanForm (d := 16) S.mean5
  v5 : VarForm (d := 16) S.mean5 S.var5

/-! ## Batch normalisation and rectifier: the reference's is the kernel's, on a real table -/

/-- Width 32: the reference's two-pass batch normalisation and rectifier of a real table plus a real bias row is the
    kernel's normalise function of the table, the parameter rows and one-pass statistics rows. -/
theorem bn_bridge32 (t : FVec Ideal Cert.ReferenceIdeal.S100000x32 .f32) (b g be : FVec Ideal Cert.ReferenceIdeal.S32 .f32)
    (B G T Mn Vr : (⟨2, ![1, 32]⟩ : Shape).Idx → EReal)
    (ht : ∀ n o, IsReal (t (ix2 n o))) (hb : ∀ o, IsReal (b (ix1 o)))
    (hB : ∀ o : Fin 32, B (ix2 (0 : Fin 1) o) = b (ix1 o)) (hG : ∀ o : Fin 32, G (ix2 (0 : Fin 1) o) = g (ix1 o))
    (hT : ∀ o : Fin 32, T (ix2 (0 : Fin 1) o) = be (ix1 o))
    (hM : ∀ o : Fin 32, Mn (ix2 (0 : Fin 1) o) = Ideal.div (∑ n : Fin 100000, (t (ix2 n o) + B (ix2 (0 : Fin 1) o))) (Ideal.ofBits .f32 0x47C35000#32))
    (hV : ∀ o : Fin 32, Vr (ix2 (0 : Fin 1) o)
      = Ideal.div (∑ n : Fin 100000, (t (ix2 n o) + B (ix2 (0 : Fin 1) o)) * (t (ix2 n o) + B (ix2 (0 : Fin 1) o))) (Ideal.ofBits .f32 0x47C35000#32)
        - Mn (ix2 (0 : Fin 1) o) * Mn (ix2 (0 : Fin 1) o)) :
    refBn32 (F := Ideal) (addf t (refRows32 b)) g be = normFn (M := 100000) (N := 32) t B Mn Vr G T := by
  funext i
  obtain ⟨n, o, rfl⟩ : ∃ (n : Fin 100000) (o : Fin 32), i = ix2 n o := ⟨i 0, i 1, eq_ix2 i⟩
  rw [refBn32_apply t b g be ht hb]
  show _ = leakyAt _ _ (normAt _ (t (ix2 n o)) (B (ix2 (0 : Fin 1) o)) (Vr (ix2 (0 : Fin 1) o)) (Mn (ix2 (0 : Fin 1) o))
    (G (ix2 (0 : Fin 1) o)) (T (ix2 (0 : Fin 1) o)))
  rw [hV, hM, hB, hG, hT]
  rfl

/-- Width 128: the reference's two-pass batch normalisation and rectifier of a real table plus a real bias row is the
    kernel's normalise function of the table, the parameter rows and one-pass statistics rows. -/
theorem bn_bridge128 (t : FVec Ideal Cert.ReferenceIdeal.S100000x128 .f32) (b g be : FVec Ideal Cert.ReferenceIdeal.S128 .f32)
    (B G T Mn Vr : (⟨2, ![1, 128]⟩ : Shape).Idx → EReal)
    (ht : ∀ n o, IsReal (t (ix2 n o))) (hb : ∀ o, IsReal (b (ix1 o)))
    (hB : ∀ o : Fin 128, B (ix2 (0 : Fin 1) o) = b (ix1 o)) (hG : ∀ o : Fin 128, G (ix2 (0 : Fin 1) o) = g (ix1 o))
    (hT : ∀ o : Fin 128, T (ix2 (0 : Fin 1) o) = be (ix1 o))
    (hM : ∀ o : Fin 128, Mn (ix2 (0 : Fin 1) o) = Ideal.div (∑ n : Fin 100000, (t (ix2 n o) + B (ix2 (0 : Fin 1) o))) (Ideal.ofBits .f32 0x47C35000#32))
    (hV : ∀ o : Fin 128, Vr (ix2 (0 : Fin 1) o)
      = Ideal.div (∑ n : Fin 100000, (t (ix2 n o) + B (ix2 (0 : Fin 1) o)) * (t (ix2 n o) + B (ix2 (0 : Fin 1) o))) (Ideal.ofBits .f32 0x47C35000#32)
        - Mn (ix2 (0 : Fin 1) o) * Mn (ix2 (0 : Fin 1) o)) :
    refBn128 (F := Ideal) (addf t (refRows128 b)) g be = normFn (M := 100000) (N := 128) t B Mn Vr G T := by
  funext i
  obtain ⟨n, o, rfl⟩ : ∃ (n : Fin 100000) (o : Fin 128), i = ix2 n o := ⟨i 0, i 1, eq_ix2 i⟩
  rw [refBn128_apply t b g be ht hb]
  show _ = leakyAt _ _ (normAt _ (t (ix2 n o)) (B (ix2 (0 : Fin 1) o)) (Vr (ix2 (0 : Fin 1) o)) (Mn (ix2 (0 : Fin 1) o))
    (G (ix2 (0 : Fin 1) o)) (T (ix2 (0 : Fin 1) o)))
  rw [hV, hM, hB, hG, hT]
  rfl

/-- Width 16: the reference's two-pass batch normalisation and rectifier of a real table plus a real bias row is the
    kernel's normalise function of the table, the parameter rows and one-pass statistics rows. -/
theorem bn_bridge16 (t : FVec Ideal Cert.ReferenceIdeal.S100000x16 .f32) (b g be : FVec Ideal Cert.ReferenceIdeal.S16 .f32)
    (B G T Mn Vr : (⟨2, ![1, 16]⟩ : Shape).Idx → EReal)
    (ht : ∀ n o, IsReal (t (ix2 n o))) (hb : ∀ o, IsReal (b (ix1 o)))
    (hB : ∀ o : Fin 16, B (ix2 (0 : Fin 1) o) = b (ix1 o)) (hG : ∀ o : Fin 16, G (ix2 (0 : Fin 1) o) = g (ix1 o))
    (hT : ∀ o : Fin 16, T (ix2 (0 : Fin 1) o) = be (ix1 o))
    (hM : ∀ o : Fin 16, Mn (ix2 (0 : Fin 1) o) = Ideal.div (∑ n : Fin 100000, (t (ix2 n o) + B (ix2 (0 : Fin 1) o))) (Ideal.ofBits .f32 0x47C35000#32))
    (hV : ∀ o : Fin 16, Vr (ix2 (0 : Fin 1) o)
      = Ideal.div (∑ n : Fin 100000, (t (ix2 n o) + B (ix2 (0 : Fin 1) o)) * (t (ix2 n o) + B (ix2 (0 : Fin 1) o))) (Ideal.ofBits .f32 0x47C35000#32)
        - Mn (ix2 (0 : Fin 1) o) * Mn (ix2 (0 : Fin 1) o)) :
    refBn16 (F := Ideal) (addf t (refRows16 b)) g be = normFn (M := 100000) (N := 16) t B Mn Vr G T := by
  funext i
  obtain ⟨n, o, rfl⟩ : ∃ (n : Fin 100000) (o : Fin 16), i = ix2 n o := ⟨i 0, i 1, eq_ix2 i⟩
  rw [refBn16_apply t b g be ht hb]
  show _ = leakyAt _ _ (normAt _ (t (ix2 n o)) (B (ix2 (0 : Fin 1) o)) (Vr (ix2 (0 : Fin 1) o)) (Mn (ix2 (0 : Fin 1) o))
    (G (ix2 (0 : Fin 1) o)) (T (ix2 (0 : Fin 1) o)))
  rw [hV, hM, hB, hG, hT]
  rfl

/-! ## One layer -/

/-- Layer 1 (6 → 32) over plain arrays: for real rows, weights and parameters and real edge weights, the reference's layer
    is the kernel's — the same product (the kernel adds a zero row), the same message passing, and batch normalisation with
    the kernel's one-pass statistics rows — and every entry of it is real. -/
theorem layer1_eq (h : FVec Ideal Cert.ReferenceIdeal.S100000x6 .f32) (w : FVec Ideal Cert.ReferenceIdeal.S6x32 .f32) (b g be : FVec Ideal Cert.ReferenceIdeal.S32 .f32)
    (src dst : IVec Cert.ReferenceIdeal.S1700000 32) (nrm : FVec Ideal Cert.ReferenceIdeal.S1700000 .f32)
    (mean var : ((⟨2, ![100000, 32]⟩ : Shape).Idx → EReal) → ((⟨2, ![1, 32]⟩ : Shape).Idx → EReal) → (⟨2, ![1, 32]⟩ : Shape).Idx → EReal)
    (hmean : MeanForm (d := 32) mean) (hvar : VarForm (d := 32) mean var)
    (hh : ∀ i, IsReal (h i)) (hw : ∀ i, IsReal (w i)) (hb : ∀ i, IsReal (b i)) (hg : ∀ i, IsReal (g i)) (hbe : ∀ i, IsReal (be i))
    (hn : ∀ e, IsReal (nrm e)) :
    refLayer1 (F := Ideal) h w b g be src dst nrm
        = normFn (M := 100000) (N := 32) (kerAgg1 (F := Ideal) (linearAt (M := 100000) (K := 6) (N := 32) h w (fun i => shapeCast Cert.KernelIdeal.S1x32 (broadcastInDim Cert.KernelIdeal.S32 ![] Cert.KernelIdeal.Gen.bcast_S_S32 (constant (F := Ideal) Cert.KernelIdeal.S_ .f32 0x00000000#32) : (⟨Cert.KernelIdeal.S32, .f32⟩ : BufTy).Contents (Elt Ideal)) Cert.KernelIdeal.Gen.shapeCasts_S32_S1x32 i)) src dst nrm) (fun i => shapeCast Cert.KernelIdeal.S1x32 b Cert.KernelIdeal.Gen.shapeCasts_S32_S1x32 i)
            (mean (kerAgg1 (F := Ideal) (linearAt (M := 100000) (K := 6) (N := 32) h w (fun i => shapeCast Cert.KernelIdeal.S1x32 (broadcastInDim Cert.KernelIdeal.S32 ![] Cert.KernelIdeal.Gen.bcast_S_S32 (constant (F := Ideal) Cert.KernelIdeal.S_ .f32 0x00000000#32) : (⟨Cert.KernelIdeal.S32, .f32⟩ : BufTy).Contents (Elt Ideal)) Cert.KernelIdeal.Gen.shapeCasts_S32_S1x32 i)) src dst nrm) (fun i => shapeCast Cert.KernelIdeal.S1x32 b Cert.KernelIdeal.Gen.shapeCasts_S32_S1x32 i))
            (var (kerAgg1 (F := Ideal) (linearAt (M := 100000) (K := 6) (N := 32) h w (fun i => shapeCast Cert.KernelIdeal.S1x32 (broadcastInDim Cert.KernelIdeal.S32 ![] Cert.KernelIdeal.Gen.bcast_S_S32 (constant (F := Ideal) Cert.KernelIdeal.S_ .f32 0x00000000#32) : (⟨Cert.KernelIdeal.S32, .f32⟩ : BufTy).Contents (Elt Ideal)) Cert.KernelIdeal.Gen.shapeCasts_S32_S1x32 i)) src dst nrm) (fun i => shapeCast Cert.KernelIdeal.S1x32 b Cert.KernelIdeal.Gen.shapeCasts_S32_S1x32 i)) (fun i => shapeCast Cert.KernelIdeal.S1x32 g Cert.KernelIdeal.Gen.shapeCasts_S32_S1x32 i) (fun i => shapeCast Cert.KernelIdeal.S1x32 be Cert.KernelIdeal.Gen.shapeCasts_S32_S1x32 i)
      ∧ ∀ i, IsReal (refLayer1 (F := Ideal) h w b g be src dst nrm i) := by
  have hz : (Host.dotGeneral Cert.ReferenceIdeal.dot_S100000x6_S6x32_S100000x32_1_0_0_1_n_n none h w : (⟨2, ![100000, 32]⟩ : Shape).Idx → EReal)
      = linearAt (M := 100000) (K := 6) (N := 32) h w (fun i => shapeCast Cert.KernelIdeal.S1x32 (broadcastInDim Cert.KernelIdeal.S32 ![] Cert.KernelIdeal.Gen.bcast_S_S32 (constant (F := Ideal) Cert.KernelIdeal.S_ .f32 0x00000000#32) : (⟨Cert.KernelIdeal.S32, .f32⟩ : BufTy).Contents (Elt Ideal)) Cert.KernelIdeal.Gen.shapeCasts_S32_S1x32 i) :=
    dotGeneral_eq_linearAt_zero_row _ rfl none h w _ Cert.KernelIdeal.Gen.bcast_S_S32 Cert.KernelIdeal.Gen.shapeCasts_S32_S1x32
  have hzr : ∀ i, IsReal (linearAt (M := 100000) (K := 6) (N := 32) h w (fun i => shapeCast Cert.KernelIdeal.S1x32 (broadcastInDim Cert.KernelIdeal.S32 ![] Cert.KernelIdeal.Gen.bcast_S_S32 (constant (F := Ideal) Cert.KernelIdeal.S_ .f32 0x00000000#32) : (⟨Cert.KernelIdeal.S32, .f32⟩ : BufTy).Contents (Elt Ideal)) Cert.KernelIdeal.Gen.shapeCasts_S32_S1x32 i) i) :=
    fun i => hz ▸ dotGeneral_isReal _ none h w hh hw i
  have htr : ∀ i, IsReal (refAgg32 (F := Ideal) (linearAt (M := 100000) (K := 6) (N := 32) h w (fun i => shapeCast Cert.KernelIdeal.S1x32 (broadcastInDim Cert.KernelIdeal.S32 ![] Cert.KernelIdeal.Gen.bcast_S_S32 (constant (F := Ideal) Cert.KernelIdeal.S_ .f32 0x00000000#32) : (⟨Cert.KernelIdeal.S32, .f32⟩ : BufTy).Contents (Elt Ideal)) Cert.KernelIdeal.Gen.shapeCasts_S32_S1x32 i)) src dst nrm i) :=
    fun i => refAgg32_isReal _ src dst nrm hzr hn i
  have hL : refLayer1 (F := Ideal) h w b g be src dst nrm
      = refBn32 (F := Ideal) (addf (refAgg32 (F := Ideal) (linearAt (M := 100000) (K := 6) (N := 32) h w (fun i => shapeCast Cert.KernelIdeal.S1x32 (broadcastInDim Cert.KernelIdeal.S32 ![] Cert.KernelIdeal.Gen.bcast_S_S32 (constant (F := Ideal) Cert.KernelIdeal.S_ .f32 0x00000000#32) : (⟨Cert.KernelIdeal.S32, .f32⟩ : BufTy).Contents (Elt Ideal)) Cert.KernelIdeal.Gen.shapeCasts_S32_S1x32 i)) src dst nrm) (refRows32 b)) g be := by
    unfold refLayer1 refPre1
    rw [hz]
  rw [hL]
  refine ⟨?_, fun i => ?_⟩
  · exact bn_bridge32 _ b g be _ _ _ _ _ (fun n o => htr _) (fun o => hb _)
      (fun o => row_cast_apply b Cert.KernelIdeal.Gen.shapeCasts_S32_S1x32 o) (fun o => row_cast_apply g Cert.KernelIdeal.Gen.shapeCasts_S32_S1x32 o)
      (fun o => row_cast_apply be Cert.KernelIdeal.Gen.shapeCasts_S32_S1x32 o) (fun o => hmean _ _ o) (fun o => hvar _ _ o)
  · obtain ⟨n, o, rfl⟩ : ∃ (n : Fin 100000) (o : Fin 32), i = ix2 n o := ⟨i 0, i 1, eq_ix2 i⟩
    exact refBn32_isReal _ b g be (fun n o => htr _) (fun o => hb _) (fun o => hg _) (fun o => hbe _) n o

/-- Layer 2 (32 → 128) over plain arrays: for real rows, weights and parameters and real edge weights, the reference's layer
    is the kernel's — the same product (the kernel adds a zero row), the same message passing, and batch normalisation with
    the kernel's one-pass statistics rows — and every entry of it is real. -/
theorem layer2_eq (h : FVec Ideal Cert.ReferenceIdeal.S100000x32 .f32) (w : FVec Ideal Cert.ReferenceIdeal.S32x128 .f32) (b g be : FVec Ideal Cert.ReferenceIdeal.S128 .f32)
    (src dst : IVec Cert.ReferenceIdeal.S1700000 32) (nrm : FVec Ideal Cert.ReferenceIdeal.S1700000 .f32)
    (mean var : ((⟨2, ![100000, 128]⟩ : Shape).Idx → EReal) → ((⟨2, ![1, 128]⟩ : Shape).Idx → EReal) → (⟨2, ![1, 128]⟩ : Shape).Idx → EReal)
    (hmean : MeanForm (d := 128) mean) (hvar : VarForm (d := 128) mean var)
    (hh : ∀ i, IsReal (h i)) (hw : ∀ i, IsReal (w i)) (hb : ∀ i, IsReal (b i)) (hg : ∀ i, IsReal (g i)) (hbe : ∀ i, IsReal (be i))
    (hn : ∀ e, IsReal (nrm e)) :
    refLayer2 (F := Ideal) h w b g be src dst nrm
        = normFn (M := 100000) (N := 128) (kerAgg2 (F := Ideal) (linearAt (M := 100000) (K := 32) (N := 128) h w (fun i => shapeCast Cert.KernelIdeal.S1x128 (broadcastInDim Cert.KernelIdeal.S128 ![] Cert.KernelIdeal.Gen.bcast_S_S128 (constant (F := Ideal) Cert.KernelIdeal.S_ .f32 0x00000000#32) : (⟨Cert.KernelIdeal.S128, .f32⟩ : BufTy).Contents (Elt Ideal)) Cert.KernelIdeal.Gen.shapeCasts_S128_S1x128 i)) src dst nrm) (fun i => shapeCast Cert.KernelIdeal.S1x128 b Cert.KernelIdeal.Gen.shapeCasts_S128_S1x128 i)
            (mean (kerAgg2 (F := Ideal) (linearAt (M := 100000) (K := 32) (N := 128) h w (fun i => shapeCast Cert.KernelIdeal.S1x128 (broadcastInDim Cert.KernelIdeal.S128 ![] Cert.KernelIdeal.Gen.bcast_S_S128 (constant (F := Ideal) Cert.KernelIdeal.S_ .f32 0x00000000#32) : (⟨Cert.KernelIdeal.S128, .f32⟩ : BufTy).Contents (Elt Ideal)) Cert.KernelIdeal.Gen.shapeCasts_S128_S1x128 i)) src dst nrm) (fun i => shapeCast Cert.KernelIdeal.S1x128 b Cert.KernelIdeal.Gen.shapeCasts_S128_S1x128 i))
            (var (kerAgg2 (F := Ideal) (linearAt (M := 100000) (K := 32) (N := 128) h w (fun i => shapeCast Cert.KernelIdeal.S1x128 (broadcastInDim Cert.KernelIdeal.S128 ![] Cert.KernelIdeal.Gen.bcast_S_S128 (constant (F := Ideal) Cert.KernelIdeal.S_ .f32 0x00000000#32) : (⟨Cert.KernelIdeal.S128, .f32⟩ : BufTy).Contents (Elt Ideal)) Cert.KernelIdeal.Gen.shapeCasts_S128_S1x128 i)) src dst nrm) (fun i => shapeCast Cert.KernelIdeal.S1x128 b Cert.KernelIdeal.Gen.shapeCasts_S128_S1x128 i)) (fun i => shapeCast Cert.KernelIdeal.S1x128 g Cert.KernelIdeal.Gen.shapeCasts_S128_S1x128 i) (fun i => shapeCast Cert.KernelIdeal.S1x128 be Cert.KernelIdeal.Gen.shapeCasts_S128_S1x128 i)
      ∧ ∀ i, IsReal (refLayer2 (F := Ideal) h w b g be src dst nrm i) := by
  have hz : (Host.dotGeneral Cert.ReferenceIdeal.dot_S100000x32_S32x128_S100000x128_1_0_0_1_n_n none h w : (⟨2, ![100000, 128]⟩ : Shape).Idx → EReal)
      = linearAt (M := 100000) (K := 32) (N := 128) h w (fun i => shapeCast Cert.KernelIdeal.S1x128 (broadcastInDim Cert.KernelIdeal.S128 ![] Cert.KernelIdeal.Gen.bcast_S_S128 (constant (F := Ideal) Cert.KernelIdeal.S_ .f32 0x00000000#32) : (⟨Cert.KernelIdeal.S128, .f32⟩ : BufTy).Contents (Elt Ideal)) Cert.KernelIdeal.Gen.shapeCasts_S128_S1x128 i) :=
    dotGeneral_eq_linearAt_zero_row _ rfl none h w _ Cert.KernelIdeal.Gen.bcast_S_S128 Cert.KernelIdeal.Gen.shapeCasts_S128_S1x128
  have hzr : ∀ i, IsReal (linearAt (M := 100000) (K := 32) (N := 128) h w (fun i => shapeCast Cert.KernelIdeal.S1x128 (broadcastInDim Cert.KernelIdeal.S128 ![] Cert.KernelIdeal.Gen.bcast_S_S128 (constant (F := Ideal) Cert.KernelIdeal.S_ .f32 0x00000000#32) : (⟨Cert.KernelIdeal.S128, .f32⟩ : BufTy).Contents (Elt Ideal)) Cert.KernelIdeal.Gen.shapeCasts_S128_S1x128 i) i) :=
    fun i => hz ▸ dotGeneral_isReal _ none h w hh hw i
  have htr : ∀ i, IsReal (refAgg128 (F := Ideal) (linearAt (M := 100000) (K := 32) (N := 128) h w (fun i => shapeCast Cert.KernelIdeal.S1x128 (broadcastInDim Cert.KernelIdeal.S128 ![] Cert.KernelIdeal.Gen.bcast_S_S128 (constant (F := Ideal) Cert.KernelIdeal.S_ .f32 0x00000000#32) : (⟨Cert.KernelIdeal.S128, .f32⟩ : BufTy).Contents (Elt Ideal)) Cert.KernelIdeal.Gen.shapeCasts_S128_S1x128 i)) src dst nrm i) :=
    fun i => refAgg128_isReal _ src dst nrm hzr hn i
  have hL : refLayer2 (F := Ideal) h w b g be src dst nrm
      = refBn128 (F := Ideal) (addf (refAgg128 (F := Ideal) (linearAt (M := 100000) (K := 32) (N := 128) h w (fun i => shapeCast Cert.KernelIdeal.S1x128 (broadcastInDim Cert.KernelIdeal.S128 ![] Cert.KernelIdeal.Gen.bcast_S_S128 (constant (F := Ideal) Cert.KernelIdeal.S_ .f32 0x00000000#32) : (⟨Cert.KernelIdeal.S128, .f32⟩ : BufTy).Contents (Elt Ideal)) Cert.KernelIdeal.Gen.shapeCasts_S128_S1x128 i)) src dst nrm) (refRows128 b)) g be := by
    unfold refLayer2 refPre2
    rw [hz]
  rw [hL]
  refine ⟨?_, fun i => ?_⟩
  · exact bn_bridge128 _ b g be _ _ _ _ _ (fun n o => htr _) (fun o => hb _)
      (fun o => row_cast_apply b Cert.KernelIdeal.Gen.shapeCasts_S128_S1x128 o) (fun o => row_cast_apply g Cert.KernelIdeal.Gen.shapeCasts_S128_S1x128 o)
      (fun o => row_cast_apply be Cert.KernelIdeal.Gen.shapeCasts_S128_S1x128 o) (fun o => hmean _ _ o) (fun o => hvar _ _ o)
  · obtain ⟨n, o, rfl⟩ : ∃ (n : Fin 100000) (o : Fin 128), i = ix2 n o := ⟨i 0, i 1, eq_ix2 i⟩
    exact refBn128_isReal _ b g be (fun n o => htr _) (fun o => hb _) (fun o => hg _) (fun o => hbe _) n o

/-- Layer 3 (128 → 128) over plain arrays: for real rows, weights and parameters and real edge weights, the reference's layer
    is the kernel's — the same product (the kernel adds a zero row), the same message passing, and batch normalisation with
    the kernel's one-pass statistics rows — and every entry of it is real. -/
theorem layer3_eq (h : FVec Ideal Cert.ReferenceIdeal.S100000x128 .f32) (w : FVec Ideal Cert.ReferenceIdeal.S128x128 .f32) (b g be : FVec Ideal Cert.ReferenceIdeal.S128 .f32)
    (src dst : IVec Cert.ReferenceIdeal.S1700000 32) (nrm : FVec Ideal Cert.ReferenceIdeal.S1700000 .f32)
    (mean var : ((⟨2, ![100000, 128]⟩ : Shape).Idx → EReal) → ((⟨2, ![1, 128]⟩ : Shape).Idx → EReal) → (⟨2, ![1, 128]⟩ : Shape).Idx → EReal)
    (hmean : MeanForm (d := 128) mean) (hvar : VarForm (d := 128) mean var)
    (hh : ∀ i, IsReal (h i)) (hw : ∀ i, IsReal (w i)) (hb : ∀ i, IsReal (b i)) (hg : ∀ i, IsReal (g i)) (hbe : ∀ i, IsReal (be i))
    (hn : ∀ e, IsReal (nrm e)) :
    refLayer3 (F := Ideal) h w b g be src dst nrm
        = normFn (M := 100000) (N := 128) (kerAgg3 (F := Ideal) (linearAt (M := 100000) (K := 128) (N := 128) h w (fun i => shapeCast Cert.KernelIdeal.S1x128 (broadcastInDim Cert.KernelIdeal.S128 ![] Cert.KernelIdeal.Gen.bcast_S_S128 (constant (F := Ideal) Cert.KernelIdeal.S_ .f32 0x00000000#32) : (⟨Cert.KernelIdeal.S128, .f32⟩ : BufTy).Contents (Elt Ideal)) Cert.KernelIdeal.Gen.shapeCasts_S128_S1x128 i)) src dst nrm) (fun i => shapeCast Cert.KernelIdeal.S1x128 b Cert.KernelIdeal.Gen.shapeCasts_S128_S1x128 i)
            (mean (kerAgg3 (F := Ideal) (linearAt (M := 100000) (K := 128) (N := 128) h w (fun i => shapeCast Cert.KernelIdeal.S1x128 (broadcastInDim Cert.KernelIdeal.S128 ![] Cert.KernelIdeal.Gen.bcast_S_S128 (constant (F := Ideal) Cert.KernelIdeal.S_ .f32 0x00000000#32) : (⟨Cert.KernelIdeal.S128, .f32⟩ : BufTy).Contents (Elt Ideal)) Cert.KernelIdeal.Gen.shapeCasts_S128_S1x128 i)) src dst nrm) (fun i => shapeCast Cert.KernelIdeal.S1x128 b Cert.KernelIdeal.Gen.shapeCasts_S128_S1x128 i))
            (var (kerAgg3 (F := Ideal) (linearAt (M := 100000) (K := 128) (N := 128) h w (fun i => shapeCast Cert.KernelIdeal.S1x128 (broadcastInDim Cert.KernelIdeal.S128 ![] Cert.KernelIdeal.Gen.bcast_S_S128 (constant (F := Ideal) Cert.KernelIdeal.S_ .f32 0x00000000#32) : (⟨Cert.KernelIdeal.S128, .f32⟩ : BufTy).Contents (Elt Ideal)) Cert.KernelIdeal.Gen.shapeCasts_S128_S1x128 i)) src dst nrm) (fun i => shapeCast Cert.KernelIdeal.S1x128 b Cert.KernelIdeal.Gen.shapeCasts_S128_S1x128 i)) (fun i => shapeCast Cert.KernelIdeal.S1x128 g Cert.KernelIdeal.Gen.shapeCasts_S128_S1x128 i) (fun i => shapeCast Cert.KernelIdeal.S1x128 be Cert.KernelIdeal.Gen.shapeCasts_S128_S1x128 i)
      ∧ ∀ i, IsReal (refLayer3 (F := Ideal) h w b g be src dst nrm i) := by
  have hz : (Host.dotGeneral Cert.ReferenceIdeal.dot_S100000x128_S128x128_S100000x128_1_0_0_1_n_n none h w : (⟨2, ![100000, 128]⟩ : Shape).Idx → EReal)
      = linearAt (M := 100000) (K := 128) (N := 128) h w (fun i => shapeCast Cert.KernelIdeal.S1x128 (broadcastInDim Cert.KernelIdeal.S128 ![] Cert.KernelIdeal.Gen.bcast_S_S128 (constant (F := Ideal) Cert.KernelIdeal.S_ .f32 0x00000000#32) : (⟨Cert.KernelIdeal.S128, .f32⟩ : BufTy).Contents (Elt Ideal)) Cert.KernelIdeal.Gen.shapeCasts_S128_S1x128 i) :=
    dotGeneral_eq_linearAt_zero_row _ rfl none h w _ Cert.KernelIdeal.Gen.bcast_S_S128 Cert.KernelIdeal.Gen.shapeCasts_S128_S1x128
  have hzr : ∀ i, IsReal (linearAt (M := 100000) (K := 128) (N := 128) h w (fun i => shapeCast Cert.KernelIdeal.S1x128 (broadcastInDim Cert.KernelIdeal.S128 ![] Cert.KernelIdeal.Gen.bcast_S_S128 (constant (F := Ideal) Cert.KernelIdeal.S_ .f32 0x00000000#32) : (⟨Cert.KernelIdeal.S128, .f32⟩ : BufTy).Contents (Elt Ideal)) Cert.KernelIdeal.Gen.shapeCasts_S128_S1x128 i) i) :=
    fun i => hz ▸ dotGeneral_isReal _ none h w hh hw i
  have htr : ∀ i, IsReal (refAgg128 (F := Ideal) (linearAt (M := 100000) (K := 128) (N := 128) h w (fun i => shapeCast Cert.KernelIdeal.S1x128 (broadcastInDim Cert.KernelIdeal.S128 ![] Cert.KernelIdeal.Gen.bcast_S_S128 (constant (F := Ideal) Cert.KernelIdeal.S_ .f32 0x00000000#32) : (⟨Cert.KernelIdeal.S128, .f32⟩ : BufTy).Contents (Elt Ideal)) Cert.KernelIdeal.Gen.shapeCasts_S128_S1x128 i)) src dst nrm i) :=
    fun i => refAgg128_isReal _ src dst nrm hzr hn i
  have hL : refLayer3 (F := Ideal) h w b g be src dst nrm
      = refBn128 (F := Ideal) (addf (refAgg128 (F := Ideal) (linearAt (M := 100000) (K := 128) (N := 128) h w (fun i => shapeCast Cert.KernelIdeal.S1x128 (broadcastInDim Cert.KernelIdeal.S128 ![] Cert.KernelIdeal.Gen.bcast_S_S128 (constant (F := Ideal) Cert.KernelIdeal.S_ .f32 0x00000000#32) : (⟨Cert.KernelIdeal.S128, .f32⟩ : BufTy).Contents (Elt Ideal)) Cert.KernelIdeal.Gen.shapeCasts_S128_S1x128 i)) src dst nrm) (refRows128 b)) g be := by
    unfold refLayer3 refPre3
    rw [hz]
  rw [hL]
  refine ⟨?_, fun i => ?_⟩
  · exact bn_bridge128 _ b g be _ _ _ _ _ (fun n o => htr _) (fun o => hb _)
      (fun o => row_cast_apply b Cert.KernelIdeal.Gen.shapeCasts_S128_S1x128 o) (fun o => row_cast_apply g Cert.KernelIdeal.Gen.shapeCasts_S128_S1x128 o)
      (fun o => row_cast_apply be Cert.KernelIdeal.Gen.shapeCasts_S128_S1x128 o) (fun o => hmean _ _ o) (fun o => hvar _ _ o)
  · obtain ⟨n, o, rfl⟩ : ∃ (n : Fin 100000) (o : Fin 128), i = ix2 n o := ⟨i 0, i 1, eq_ix2 i⟩
    exact refBn128_isReal _ b g be (fun n o => htr _) (fun o => hb _) (fun o => hg _) (fun o => hbe _) n o

/-- Layer 4 (128 → 32) over plain arrays: for real rows, weights and parameters and real edge weights, the reference's layer
    is the kernel's — the same product (the kernel adds a zero row), the same message passing, and batch normalisation with
    the kernel's one-pass statistics rows — and every entry of it is real. -/
theorem layer4_eq (h : FVec Ideal Cert.ReferenceIdeal.S100000x128 .f32) (w : FVec Ideal Cert.ReferenceIdeal.S128x32 .f32) (b g be : FVec Ideal Cert.ReferenceIdeal.S32 .f32)
    (src dst : IVec Cert.ReferenceIdeal.S1700000 32) (nrm : FVec Ideal Cert.ReferenceIdeal.S1700000 .f32)
    (mean var : ((⟨2, ![100000, 32]⟩ : Shape).Idx → EReal) → ((⟨2, ![1, 32]⟩ : Shape).Idx → EReal) → (⟨2, ![1, 32]⟩ : Shape).Idx → EReal)
    (hmean : MeanForm (d := 32) mean) (hvar : VarForm (d := 32) mean var)
    (hh : ∀ i, IsReal (h i)) (hw : ∀ i, IsReal (w i)) (hb : ∀ i, IsReal (b i)) (hg : ∀ i, IsReal (g i)) (hbe : ∀ i, IsReal (be i))
    (hn : ∀ e, IsReal (nrm e)) :
    refLayer4 (F := Ideal) h w b g be src dst nrm
        = normFn (M := 100000) (N := 32) (kerAgg4 (F := Ideal) (linearAt (M := 100000) (K := 128) (N := 32) h w (fun i => shapeCast Cert.KernelIdeal.S1x32 (broadcastInDim Cert.KernelIdeal.S32 ![] Cert.KernelIdeal.Gen.bcast_S_S32 (constant (F := Ideal) Cert.KernelIdeal.S_ .f32 0x00000000#32) : (⟨Cert.KernelIdeal.S32, .f32⟩ : BufTy).Contents (Elt Ideal)) Cert.KernelIdeal.Gen.shapeCasts_S32_S1x32 i)) src dst nrm) (fun i => shapeCast Cert.KernelIdeal.S1x32 b Cert.KernelIdeal.Gen.shapeCasts_S32_S1x32 i)
            (mean (kerAgg4 (F := Ideal) (linearAt (M := 100000) (K := 128) (N := 32) h w (fun i => shapeCast Cert.KernelIdeal.S1x32 (broadcastInDim Cert.KernelIdeal.S32 ![] Cert.KernelIdeal.Gen.bcast_S_S32 (constant (F := Ideal) Cert.KernelIdeal.S_ .f32 0x00000000#32) : (⟨Cert.KernelIdeal.S32, .f32⟩ : BufTy).Contents (Elt Ideal)) Cert.KernelIdeal.Gen.shapeCasts_S32_S1x32 i)) src dst nrm) (fun i => shapeCast Cert.KernelIdeal.S1x32 b Cert.KernelIdeal.Gen.shapeCasts_S32_S1x32 i))
            (var (kerAgg4 (F := Ideal) (linearAt (M := 100000) (K := 128) (N := 32) h w (fun i => shapeCast Cert.KernelIdeal.S1x32 (broadcastInDim Cert.KernelIdeal.S32 ![] Cert.KernelIdeal.Gen.bcast_S_S32 (constant (F := Ideal) Cert.KernelIdeal.S_ .f32 0x00000000#32) : (⟨Cert.KernelIdeal.S32, .f32⟩ : BufTy).Contents (Elt Ideal)) Cert.KernelIdeal.Gen.shapeCasts_S32_S1x32 i)) src dst nrm) (fun i => shapeCast Cert.KernelIdeal.S1x32 b Cert.KernelIdeal.Gen.shapeCasts_S32_S1x32 i)) (fun i => shapeCast Cert.KernelIdeal.S1x32 g Cert.KernelIdeal.Gen.shapeCasts_S32_S1x32 i) (fun i => shapeCast Cert.KernelIdeal.S1x32 be Cert.KernelIdeal.Gen.shapeCasts_S32_S1x32 i)
      ∧ ∀ i, IsReal (refLayer4 (F := Ideal) h w b g be src dst nrm i) := by
  have hz : (Host.dotGeneral Cert.ReferenceIdeal.dot_S100000x128_S128x32_S100000x32_1_0_0_1_n_n none h w : (⟨2, ![100000, 32]⟩ : Shape).Idx → EReal)
      = linearAt (M := 100000) (K := 128) (N := 32) h w (fun i => shapeCast Cert.KernelIdeal.S1x32 (broadcastInDim Cert.KernelIdeal.S32 ![] Cert.KernelIdeal.Gen.bcast_S_S32 (constant (F := Ideal) Cert.KernelIdeal.S_ .f32 0x00000000#32) : (⟨Cert.KernelIdeal.S32, .f32⟩ : BufTy).Contents (Elt Ideal)) Cert.KernelIdeal.Gen.shapeCasts_S32_S1x32 i) :=
    dotGeneral_eq_linearAt_zero_row _ rfl none h w _ Cert.KernelIdeal.Gen.bcast_S_S32 Cert.KernelIdeal.Gen.shapeCasts_S32_S1x32
  have hzr : ∀ i, IsReal (linearAt (M := 100000) (K := 128) (N := 32) h w (fun i => shapeCast Cert.KernelIdeal.S1x32 (broadcastInDim Cert.KernelIdeal.S32 ![] Cert.KernelIdeal.Gen.bcast_S_S32 (constant (F := Ideal) Cert.KernelIdeal.S_ .f32 0x00000000#32) : (⟨Cert.KernelIdeal.S32, .f32⟩ : BufTy).Contents (Elt Ideal)) Cert.KernelIdeal.Gen.shapeCasts_S32_S1x32 i) i) :=
    fun i => hz ▸ dotGeneral_isReal _ none h w hh hw i
  have htr : ∀ i, IsReal (refAgg32 (F := Ideal) (linearAt (M := 100000) (K := 128) (N := 32) h w (fun i => shapeCast Cert.KernelIdeal.S1x32 (broadcastInDim Cert.KernelIdeal.S32 ![] Cert.KernelIdeal.Gen.bcast_S_S32 (constant (F := Ideal) Cert.KernelIdeal.S_ .f32 0x00000000#32) : (⟨Cert.KernelIdeal.S32, .f32⟩ : BufTy).Contents (Elt Ideal)) Cert.KernelIdeal.Gen.shapeCasts_S32_S1x32 i)) src dst nrm i) :=
    fun i => refAgg32_isReal _ src dst nrm hzr hn i
  have hL : refLayer4 (F := Ideal) h w b g be src dst nrm
      = refBn32 (F := Ideal) (addf (refAgg32 (F := Ideal) (linearAt (M := 100000) (K := 128) (N := 32) h w (fun i => shapeCast Cert.KernelIdeal.S1x32 (broadcastInDim Cert.KernelIdeal.S32 ![] Cert.KernelIdeal.Gen.bcast_S_S32 (constant (F := Ideal) Cert.KernelIdeal.S_ .f32 0x00000000#32) : (⟨Cert.KernelIdeal.S32, .f32⟩ : BufTy).Contents (Elt Ideal)) Cert.KernelIdeal.Gen.shapeCasts_S32_S1x32 i)) src dst nrm) (refRows32 b)) g be := by
    unfold refLayer4 refPre4
    rw [hz]
  rw [hL]
  refine ⟨?_, fun i => ?_⟩
  · exact bn_bridge32 _ b g be _ _ _ _ _ (fun n o => htr _) (fun o => hb _)
      (fun o => row_cast_apply b Cert.KernelIdeal.Gen.shapeCasts_S32_S1x32 o) (fun o => row_cast_apply g Cert.KernelIdeal.Gen.shapeCasts_S32_S1x32 o)
      (fun o => row_cast_apply be Cert.KernelIdeal.Gen.shapeCasts_S32_S1x32 o) (fun o => hmean _ _ o) (fun o => hvar _ _ o)
  · obtain ⟨n, o, rfl⟩ : ∃ (n : Fin 100000) (o : Fin 32), i = ix2 n o := ⟨i 0, i 1, eq_ix2 i⟩
    exact refBn32_isReal _ b g be (fun n o => htr _) (fun o => hb _) (fun o => hg _) (fun o => hbe _) n o

/-- Layer 5 (32 → 16) over plain arrays: for real rows, weights and parameters and real edge weights, the reference's layer
    is the kernel's — the same product (the kernel adds a zero row), the same message passing, and batch normalisation with
    the kernel's one-pass statistics rows — and every entry of it is real. -/
theorem layer5_eq (h : FVec Ideal Cert.ReferenceIdeal.S100000x32 .f32) (w : FVec Ideal Cert.ReferenceIdeal.S32x16 .f32) (b g be : FVec Ideal Cert.ReferenceIdeal.S16 .f32)
    (src dst : IVec Cert.ReferenceIdeal.S1700000 32) (nrm : FVec Ideal Cert.ReferenceIdeal.S1700000 .f32)
    (mean var : ((⟨2, ![100000, 16]⟩ : Shape).Idx → EReal) → ((⟨2, ![1, 16]⟩ : Shape).Idx → EReal) → (⟨2, ![1, 16]⟩ : Shape).Idx → EReal)
    (hmean : MeanForm (d := 16) mean) (hvar : VarForm (d := 16) mean var)
    (hh : ∀ i, IsReal (h i)) (hw : ∀ i, IsReal (w i)) (hb : ∀ i, IsReal (b i)) (hg : ∀ i, IsReal (g i)) (hbe : ∀ i, IsReal (be i))
    (hn : ∀ e, IsReal (nrm e)) :
    refLayer5 (F := Ideal) h w b g be src dst nrm
        = normFn (M := 100000) (N := 16) (kerAgg5 (F := Ideal) (linearAt (M := 100000) (K := 32) (N := 16) h w (fun i => shapeCast Cert.KernelIdeal.S1x16 (broadcastInDim Cert.KernelIdeal.S16 ![] Cert.KernelIdeal.Gen.bcast_S_S16 (constant (F := Ideal) Cert.KernelIdeal.S_ .f32 0x00000000#32) : (⟨Cert.KernelIdeal.S16, .f32⟩ : BufTy).Contents (Elt Ideal)) Cert.KernelIdeal.Gen.shapeCasts_S16_S1x16 i)) src dst nrm) (fun i => shapeCast Cert.KernelIdeal.S1x16 b Cert.KernelIdeal.Gen.shapeCasts_S16_S1x16 i)
            (mean (kerAgg5 (F := Ideal) (linearAt (M := 100000) (K := 32) (N := 16) h w (fun i => shapeCast Cert.KernelIdeal.S1x16 (broadcastInDim Cert.KernelIdeal.S16 ![] Cert.KernelIdeal.Gen.bcast_S_S16 (constant (F := Ideal) Cert.KernelIdeal.S_ .f32 0x00000000#32) : (⟨Cert.KernelIdeal.S16, .f32⟩ : BufTy).Contents (Elt Ideal)) Cert.KernelIdeal.Gen.shapeCasts_S16_S1x16 i)) src dst nrm) (fun i => shapeCast Cert.KernelIdeal.S1x16 b Cert.KernelIdeal.Gen.shapeCasts_S16_S1x16 i))
            (var (kerAgg5 (F := Ideal) (linearAt (M := 100000) (K := 32) (N := 16) h w (fun i => shapeCast Cert.KernelIdeal.S1x16 (broadcastInDim Cert.KernelIdeal.S16 ![] Cert.KernelIdeal.Gen.bcast_S_S16 (constant (F := Ideal) Cert.KernelIdeal.S_ .f32 0x00000000#32) : (⟨Cert.KernelIdeal.S16, .f32⟩ : BufTy).Contents (Elt Ideal)) Cert.KernelIdeal.Gen.shapeCasts_S16_S1x16 i)) src dst nrm) (fun i => shapeCast Cert.KernelIdeal.S1x16 b Cert.KernelIdeal.Gen.shapeCasts_S16_S1x16 i)) (fun i => shapeCast Cert.KernelIdeal.S1x16 g Cert.KernelIdeal.Gen.shapeCasts_S16_S1x16 i) (fun i => shapeCast Cert.KernelIdeal.S1x16 be Cert.KernelIdeal.Gen.shapeCasts_S16_S1x16 i)
      ∧ ∀ i, IsReal (refLayer5 (F := Ideal) h w b g be src dst nrm i) := by
  have hz : (Host.dotGeneral Cert.ReferenceIdeal.dot_S100000x32_S32x16_S100000x16_1_0_0_1_n_n none h w : (⟨2, ![100000, 16]⟩ : Shape).Idx → EReal)
      = linearAt (M := 100000) (K := 32) (N := 16) h w (fun i => shapeCast Cert.KernelIdeal.S1x16 (broadcastInDim Cert.KernelIdeal.S16 ![] Cert.KernelIdeal.Gen.bcast_S_S16 (constant (F := Ideal) Cert.KernelIdeal.S_ .f32 0x00000000#32) : (⟨Cert.KernelIdeal.S16, .f32⟩ : BufTy).Contents (Elt Ideal)) Cert.KernelIdeal.Gen.shapeCasts_S16_S1x16 i) :=
    dotGeneral_eq_linearAt_zero_row _ rfl none h w _ Cert.KernelIdeal.Gen.bcast_S_S16 Cert.KernelIdeal.Gen.shapeCasts_S16_S1x16
  have hzr : ∀ i, IsReal (linearAt (M := 100000) (K := 32) (N := 16) h w (fun i => shapeCast Cert.KernelIdeal.S1x16 (broadcastInDim Cert.KernelIdeal.S16 ![] Cert.KernelIdeal.Gen.bcast_S_S16 (constant (F := Ideal) Cert.KernelIdeal.S_ .f32 0x00000000#32) : (⟨Cert.KernelIdeal.S16, .f32⟩ : BufTy).Contents (Elt Ideal)) Cert.KernelIdeal.Gen.shapeCasts_S16_S1x16 i) i) :=
    fun i => hz ▸ dotGeneral_isReal _ none h w hh hw i
  have htr : ∀ i, IsReal (refAgg16 (F := Ideal) (linearAt (M := 100000) (K := 32) (N := 16) h w (fun i => shapeCast Cert.KernelIdeal.S1x16 (broadcastInDim Cert.KernelIdeal.S16 ![] Cert.KernelIdeal.Gen.bcast_S_S16 (constant (F := Ideal) Cert.KernelIdeal.S_ .f32 0x00000000#32) : (⟨Cert.KernelIdeal.S16, .f32⟩ : BufTy).Contents (Elt Ideal)) Cert.KernelIdeal.Gen.shapeCasts_S16_S1x16 i)) src dst nrm i) :=
    fun i => refAgg16_isReal _ src dst nrm hzr hn i
  have hL : refLayer5 (F := Ideal) h w b g be src dst nrm
      = refBn16 (F := Ideal) (addf (refAgg16 (F := Ideal) (linearAt (M := 100000) (K := 32) (N := 16) h w (fun i => shapeCast Cert.KernelIdeal.S1x16 (broadcastInDim Cert.KernelIdeal.S16 ![] Cert.KernelIdeal.Gen.bcast_S_S16 (constant (F := Ideal) Cert.KernelIdeal.S_ .f32 0x00000000#32) : (⟨Cert.KernelIdeal.S16, .f32⟩ : BufTy).Contents (Elt Ideal)) Cert.KernelIdeal.Gen.shapeCasts_S16_S1x16 i)) src dst nrm) (refRows16 b)) g be := by
    unfold refLayer5 refPre5
    rw [hz]
  rw [hL]
  refine ⟨?_, fun i => ?_⟩
  · exact bn_bridge16 _ b g be _ _ _ _ _ (fun n o => htr _) (fun o => hb _)
      (fun o => row_cast_apply b Cert.KernelIdeal.Gen.shapeCasts_S16_S1x16 o) (fun o => row_cast_apply g Cert.KernelIdeal.Gen.shapeCasts_S16_S1x16 o)
      (fun o => row_cast_apply be Cert.KernelIdeal.Gen.shapeCasts_S16_S1x16 o) (fun o => hmean _ _ o) (fun o => hvar _ _ o)
  · obtain ⟨n, o, rfl⟩ : ∃ (n : Fin 100000) (o : Fin 16), i = ix2 n o := ⟨i 0, i 1, eq_ix2 i⟩
    exact refBn16_isReal _ b g be (fun n o => htr _) (fun o => hb _) (fun o => hg _) (fun o => hbe _) n o

/-! ## The head -/

/-- The reference's linear head is the kernel's: the product plus the bias vector as a row. -/
theorem head_eq (h : FVec Ideal Cert.ReferenceIdeal.S100000x16 .f32) (w : FVec Ideal Cert.ReferenceIdeal.S16x3 .f32) (b : FVec Ideal Cert.ReferenceIdeal.S3 .f32) :
    (refHead (F := Ideal) h w b : (⟨2, ![100000, 3]⟩ : Shape).Idx → EReal)
      = linearAt (M := 100000) (K := 16) (N := 3) h w (fun i => shapeCast Cert.KernelIdeal.S1x3 b Cert.KernelIdeal.Gen.shapeCasts_S3_S1x3 i) := by
  unfold refHead
  exact dotGeneral_add_rows_eq_linearAt _ rfl none h w b _ rfl Cert.ReferenceIdeal.Gen.bcast_S3_S1x3_1 _ rfl rfl Cert.ReferenceIdeal.Gen.bcast_S1x3_S100000x3_0_1
    Cert.KernelIdeal.Gen.shapeCasts_S3_S1x3

/-! ## The whole network -/

set_option maxHeartbeats 8000000 in
/-- The reference's value is the kernel's, for ANY family of statistics rows of the one-pass forms: the agreeing arguments
    are real by the precondition, the edge weights are real for any edge table, and layer by layer the two sides' arrays
    are the same array of reals; the head is the same linear map of it. -/
theorem net_eq_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (S : KerStats) (hS : StatsForm S) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (c : Dev Cert.KernelIdeal.nD) :
    refNet (F := Ideal) (launchContents m' c) = kerOut m S c := by
  obtain ⟨a0, a1, a2, a3, a4, a5, a6, a7, a8, a9, a10, a11, a12, a13, a14, a15, a16, a17, a18, a19, a20, a21, a22, a23⟩ := hagree c
  have hn : ∀ e, IsReal (eNrm (F := Ideal) m c e) := fun e => by
    unfold eNrm eSrc eDst
    exact kerNorm_isReal _ e
  obtain ⟨e1, r1⟩ := layer1_eq ((m ((c.tc : Thread Cert.KernelIdeal.nD Cert.KernelIdeal.τ).loc Cert.KernelIdeal.main_arg0)) : FVec Ideal Cert.ReferenceIdeal.S100000x6 .f32) ((m ((c.tc : Thread Cert.KernelIdeal.nD Cert.KernelIdeal.τ).loc Cert.KernelIdeal.main_arg2)) : FVec Ideal Cert.ReferenceIdeal.S6x32 .f32) ((m ((c.tc : Thread Cert.KernelIdeal.nD Cert.KernelIdeal.τ).loc Cert.KernelIdeal.main_arg3)) : FVec Ideal Cert.ReferenceIdeal.S32 .f32) ((m ((c.tc : Thread Cert.KernelIdeal.nD Cert.KernelIdeal.τ).loc Cert.KernelIdeal.main_arg4)) : FVec Ideal Cert.ReferenceIdeal.S32 .f32) ((m ((c.tc : Thread Cert.KernelIdeal.nD Cert.KernelIdeal.τ).loc Cert.KernelIdeal.main_arg5)) : FVec Ideal Cert.ReferenceIdeal.S32 .f32)
    (eSrc (F := Ideal) m c) (eDst (F := Ideal) m c) (eNrm (F := Ideal) m c) S.mean1 S.var1 hS.m1 hS.v1
    (Cert.PreReal.pre_real_arg0 m hpre c) (Cert.PreReal.pre_real_arg2 m hpre c) (Cert.PreReal.pre_real_arg3 m hpre c)
    (Cert.PreReal.pre_real_arg4 m hpre c) (Cert.PreReal.pre_real_arg5 m hpre c) hn
  replace e1 : refLayer1 (F := Ideal) ((m ((c.tc : Thread Cert.KernelIdeal.nD Cert.KernelIdeal.τ).loc Cert.KernelIdeal.main_arg0)) : FVec Ideal Cert.ReferenceIdeal.S100000x6 .f32) ((m ((c.tc : Thread Cert.KernelIdeal.nD Cert.KernelIdeal.τ).loc Cert.KernelIdeal.main_arg2)) : FVec Ideal Cert.ReferenceIdeal.S6x32 .f32) ((m ((c.tc : Thread Cert.KernelIdeal.nD Cert.KernelIdeal.τ).loc Cert.KernelIdeal.main_arg3)) : FVec Ideal Cert.ReferenceIdeal.S32 .f32) ((m ((c.tc : Thread Cert.KernelIdeal.nD Cert.KernelIdeal.τ).loc Cert.KernelIdeal.main_arg4)) : FVec Ideal Cert.ReferenceIdeal.S32 .f32) ((m ((c.tc : Thread Cert.KernelIdeal.nD Cert.KernelIdeal.τ).loc Cert.KernelIdeal.main_arg5)) : FVec Ideal Cert.ReferenceIdeal.S32 .f32)
      (eSrc (F := Ideal) m c) (eDst (F := Ideal) m c) (eNrm (F := Ideal) m c) = kH1 m S c := e1
  rw [e1] at r1
  obtain ⟨e2, r2⟩ := layer2_eq (kH1 m S c) ((m ((c.tc : Thread Cert.KernelIdeal.nD Cert.KernelIdeal.τ).loc Cert.KernelIdeal.main_arg6)) : FVec Ideal Cert.ReferenceIdeal.S32x128 .f32) ((m ((c.tc : Thread Cert.KernelIdeal.nD Cert.KernelIdeal.τ).loc Cert.KernelIdeal.main_arg7)) : FVec Ideal Cert.ReferenceIdeal.S128 .f32) ((m ((c.tc : Thread Cert.KernelIdeal.nD Cert.KernelIdeal.τ).loc Cert.KernelIdeal.main_arg8)) : FVec Ideal Cert.ReferenceIdeal.S128 .f32) ((m ((c.tc : Thread Cert.KernelIdeal.nD Cert.KernelIdeal.τ).loc Cert.KernelIdeal.main_arg9)) : FVec Ideal Cert.ReferenceIdeal.S128 .f32)
    (eSrc (F := Ideal) m c) (eDst (F := Ideal) m c) (eNrm (F := Ideal) m c) S.mean2 S.var2 hS.m2 hS.v2
    r1 (Cert.PreReal.pre_real_arg6 m hpre c) (Cert.PreReal.pre_real_arg7 m hpre c)
    (Cert.PreReal.pre_real_arg8 m hpre c) (Cert.PreReal.pre_real_arg9 m hpre c) hn
  replace e2 : refLayer2 (F := Ideal) (kH1 m S c) ((m ((c.tc : Thread Cert.KernelIdeal.nD Cert.KernelIdeal.τ).loc Cert.KernelIdeal.main_arg6)) : FVec Ideal Cert.ReferenceIdeal.S32x128 .f32) ((m ((c.tc : Thread Cert.KernelIdeal.nD Cert.KernelIdeal.τ).loc Cert.KernelIdeal.main_arg7)) : FVec Ideal Cert.ReferenceIdeal.S128 .f32) ((m ((c.tc : Thread Cert.KernelIdeal.nD Cert.KernelIdeal.τ).loc Cert.KernelIdeal.main_arg8)) : FVec Ideal Cert.ReferenceIdeal.S128 .f32) ((m ((c.tc : Thread Cert.KernelIdeal.nD Cert.KernelIdeal.τ).loc Cert.KernelIdeal.main_arg9)) : FVec Ideal Cert.ReferenceIdeal.S128 .f32)
      (eSrc (F := Ideal) m c) (eDst (F := Ideal) m c) (eNrm (F := Ideal) m c) = kH2 m S c := e2
  rw [e2] at r2
  obtain ⟨e3, r3⟩ := layer3_eq (kH2 m S c) ((m ((c.tc : Thread Cert.KernelIdeal.nD Cert.KernelIdeal.τ).loc Cert.KernelIdeal.main_arg10)) : FVec Ideal Cert.ReferenceIdeal.S128x128 .f32) ((m ((c.tc : Thread Cert.KernelIdeal.nD Cert.KernelIdeal.τ).loc Cert.KernelIdeal.main_arg11)) : FVec Ideal Cert.ReferenceIdeal.S128 .f32) ((m ((c.tc : Thread Cert.KernelIdeal.nD Cert.KernelIdeal.τ).loc Cert.KernelIdeal.main_arg12)) : FVec Ideal Cert.ReferenceIdeal.S128 .f32) ((m ((c.tc : Thread Cert.KernelIdeal.nD Cert.KernelIdeal.τ).loc Cert.KernelIdeal.main_arg13)) : FVec Ideal Cert.ReferenceIdeal.S128 .f32)
    (eSrc (F := Ideal) m c) (eDst (F := Ideal) m c) (eNrm (F := Ideal) m c) S.mean3 S.var3 hS.m3 hS.v3
    r2 (Cert.PreReal.pre_real_arg10 m hpre c) (Cert.PreReal.pre_real_arg11 m hpre c)
    (Cert.PreReal.pre_real_arg12 m hpre c) (Cert.PreReal.pre_real_arg13 m hpre c) hn
  replace e3 : refLayer3 (F := Ideal) (kH2 m S c) ((m ((c.tc : Thread Cert.KernelIdeal.nD Cert.KernelIdeal.τ).loc Cert.KernelIdeal.main_arg10)) : FVec Ideal Cert.ReferenceIdeal.S128x128 .f32) ((m ((c.tc : Thread Cert.KernelIdeal.nD Cert.KernelIdeal.τ).loc Cert.KernelIdeal.main_arg11)) : FVec Ideal Cert.ReferenceIdeal.S128 .f32) ((m ((c.tc : Thread Cert.KernelIdeal.nD Cert.KernelIdeal.τ).loc Cert.KernelIdeal.main_arg12)) : FVec Ideal Cert.ReferenceIdeal.S128 .f32) ((m ((c.tc : Thread Cert.KernelIdeal.nD Cert.KernelIdeal.τ).loc Cert.KernelIdeal.main_arg13)) : FVec Ideal Cert.ReferenceIdeal.S128 .f32)
      (eSrc (F := Ideal) m c) (eDst (F := Ideal) m c) (eNrm (F := Ideal) m c) = kH3 m S c := e3
  rw [e3] at r3
  obtain ⟨e4, r4⟩ := layer4_eq (kH3 m S c) ((m ((c.tc : Thread Cert.KernelIdeal.nD Cert.KernelIdeal.τ).loc Cert.KernelIdeal.main_arg14)) : FVec Ideal Cert.ReferenceIdeal.S128x32 .f32) ((m ((c.tc : Thread Cert.KernelIdeal.nD Cert.KernelIdeal.τ).loc Cert.KernelIdeal.main_arg15)) : FVec Ideal Cert.ReferenceIdeal.S32 .f32) ((m ((c.tc : Thread Cert.KernelIdeal.nD Cert.KernelIdeal.τ).loc Cert.KernelIdeal.main_arg16)) : FVec Ideal Cert.ReferenceIdeal.S32 .f32) ((m ((c.tc : Thread Cert.KernelIdeal.nD Cert.KernelIdeal.τ).loc Cert.KernelIdeal.main_arg17)) : FVec Ideal Cert.ReferenceIdeal.S32 .f32)
    (eSrc (F := Ideal) m c) (eDst (F := Ideal) m c) (eNrm (F := Ideal) m c) S.mean4 S.var4 hS.m4 hS.v4
    r3 (Cert.PreReal.pre_real_arg14 m hpre c) (Cert.PreReal.pre_real_arg15 m hpre c)
    (Cert.PreReal.pre_real_arg16 m hpre c) (Cert.PreReal.pre_real_arg17 m hpre c) hn
  replace e4 : refLayer4 (F := Ideal) (kH3 m S c) ((m ((c.tc : Thread Cert.KernelIdeal.nD Cert.KernelIdeal.τ).loc Cert.KernelIdeal.main_arg14)) : FVec Ideal Cert.ReferenceIdeal.S128x32 .f32) ((m ((c.tc : Thread Cert.KernelIdeal.nD Cert.KernelIdeal.τ).loc Cert.KernelIdeal.main_arg15)) : FVec Ideal Cert.ReferenceIdeal.S32 .f32) ((m ((c.tc : Thread Cert.KernelIdeal.nD Cert.KernelIdeal.τ).loc Cert.KernelIdeal.main_arg16)) : FVec Ideal Cert.ReferenceIdeal.S32 .f32) ((m ((c.tc : Thread Cert.KernelIdeal.nD Cert.KernelIdeal.τ).loc Cert.KernelIdeal.main_arg17)) : FVec Ideal Cert.ReferenceIdeal.S32 .f32)
      (eSrc (F := Ideal) m c) (eDst (F := Ideal) m c) (eNrm (F := Ideal) m c) = kH4 m S c := e4
  rw [e4] at r4
  obtain ⟨e5, r5⟩ := layer5_eq (kH4 m S c) ((m ((c.tc : Thread Cert.KernelIdeal.nD Cert.KernelIdeal.τ).loc Cert.KernelIdeal.main_arg18)) : FVec Ideal Cert.ReferenceIdeal.S32x16 .f32) ((m ((c.tc : Thread Cert.KernelIdeal.nD Cert.KernelIdeal.τ).loc Cert.KernelIdeal.main_arg19)) : FVec Ideal Cert.ReferenceIdeal.S16 .f32) ((m ((c.tc : Thread Cert.KernelIdeal.nD Cert.KernelIdeal.τ).loc Cert.KernelIdeal.main_arg20)) : FVec Ideal Cert.ReferenceIdeal.S16 .f32) ((m ((c.tc : Thread Cert.KernelIdeal.nD Cert.KernelIdeal.τ).loc Cert.KernelIdeal.main_arg21)) : FVec Ideal Cert.ReferenceIdeal.S16 .f32)
    (eSrc (F := Ideal) m c) (eDst (F := Ideal) m c) (eNrm (F := Ideal) m c) S.mean5 S.var5 hS.m5 hS.v5
    r4 (Cert.PreReal.pre_real_arg18 m hpre c) (Cert.PreReal.pre_real_arg19 m hpre c)
    (Cert.PreReal.pre_real_arg20 m hpre c) (Cert.PreReal.pre_real_arg21 m hpre c) hn
  replace e5 : refLayer5 (F := Ideal) (kH4 m S c) ((m ((c.tc : Thread Cert.KernelIdeal.nD Cert.KernelIdeal.τ).loc Cert.KernelIdeal.main_arg18)) : FVec Ideal Cert.ReferenceIdeal.S32x16 .f32) ((m ((c.tc : Thread Cert.KernelIdeal.nD Cert.KernelIdeal.τ).loc Cert.KernelIdeal.main_arg19)) : FVec Ideal Cert.ReferenceIdeal.S16 .f32) ((m ((c.tc : Thread Cert.KernelIdeal.nD Cert.KernelIdeal.τ).loc Cert.KernelIdeal.main_arg20)) : FVec Ideal Cert.ReferenceIdeal.S16 .f32) ((m ((c.tc : Thread Cert.KernelIdeal.nD Cert.KernelIdeal.τ).loc Cert.KernelIdeal.main_arg21)) : FVec Ideal Cert.ReferenceIdeal.S16 .f32)
      (eSrc (F := Ideal) m c) (eDst (F := Ideal) m c) (eNrm (F := Ideal) m c) = kH5 m S c := e5
  rw [e5] at r5
  unfold refNet
  rw [show launchContents m' c (Proc.devRef .tc Cert.ReferenceIdeal.main_arg0) = (m ((c.tc : Thread Cert.KernelIdeal.nD Cert.KernelIdeal.τ).loc Cert.KernelIdeal.main_arg0)) from a0,
    show launchContents m' c (Proc.devRef .tc Cert.ReferenceIdeal.main_arg1) = (m ((c.tc : Thread Cert.KernelIdeal.nD Cert.KernelIdeal.τ).loc Cert.KernelIdeal.main_arg1)) from a1,
    show launchContents m' c (Proc.devRef .tc Cert.ReferenceIdeal.main_arg2) = (m ((c.tc : Thread Cert.KernelIdeal.nD Cert.KernelIdeal.τ).loc Cert.KernelIdeal.main_arg2)) from a2,
    show launchContents m' c (Proc.devRef .tc Cert.ReferenceIdeal.main_arg3) = (m ((c.tc : Thread Cert.KernelIdeal.nD Cert.KernelIdeal.τ).loc Cert.KernelIdeal.main_arg3)) from a3,
    show launchContents m' c (Proc.devRef .tc Cert.ReferenceIdeal.main_arg4) = (m ((c.tc : Thread Cert.KernelIdeal.nD Cert.KernelIdeal.τ).loc Cert.KernelIdeal.main_arg4)) from a4,
    show launchContents m' c (Proc.devRef .tc Cert.ReferenceIdeal.main_arg5) = (m ((c.tc : Thread Cert.KernelIdeal.nD Cert.KernelIdeal.τ).loc Cert.KernelIdeal.main_arg5)) from a5,
    show launchContents m' c (Proc.devRef .tc Cert.ReferenceIdeal.main_arg6) = (m ((c.tc : Thread Cert.KernelIdeal.nD Cert.KernelIdeal.τ).loc Cert.KernelIdeal.main_arg6)) from a6,
    show launchContents m' c (Proc.devRef .tc Cert.ReferenceIdeal.main_arg7) = (m ((c.tc : Thread Cert.KernelIdeal.nD Cert.KernelIdeal.τ).loc Cert.KernelIdeal.main_arg7)) from a7,
    show launchContents m' c (Proc.devRef .tc Cert.ReferenceIdeal.main_arg8) = (m ((c.tc : Thread Cert.KernelIdeal.nD Cert.KernelIdeal.τ).loc Cert.KernelIdeal.main_arg8)) from a8,
    show launchContents m' c (Proc.devRef .tc Cert.ReferenceIdeal.main_arg9) = (m ((c.tc : Thread Cert.KernelIdeal.nD Cert.KernelIdeal.τ).loc Cert.KernelIdeal.main_arg9)) from a9,
    show launchContents m' c (Proc.devRef .tc Cert.ReferenceIdeal.main_arg10) = (m ((c.tc : Thread Cert.KernelIdeal.nD Cert.KernelIdeal.τ).loc Cert.KernelIdeal.main_arg10)) from a10,
    show launchContents m' c (Proc.devRef .tc Cert.ReferenceIdeal.main_arg11) = (m ((c.tc : Thread Cert.KernelIdeal.nD Cert.KernelIdeal.τ).loc Cert.KernelIdeal.main_arg11)) from a11,
    show launchContents m' c (Proc.devRef .tc Cert.ReferenceIdeal.main_arg12) = (m ((c.tc : Thread Cert.KernelIdeal.nD Cert.KernelIdeal.τ).loc Cert.KernelIdeal.main_arg12)) from a12,
    show launchContents m' c (Proc.devRef .tc Cert.ReferenceIdeal.main_arg13) = (m ((c.tc : Thread Cert.KernelIdeal.nD Cert.KernelIdeal.τ).loc Cert.KernelIdeal.main_arg13)) from a13,
    show launchContents m' c (Proc.devRef .tc Cert.ReferenceIdeal.main_arg14) = (m ((c.tc : Thread Cert.KernelIdeal.nD Cert.KernelIdeal.τ).loc Cert.KernelIdeal.main_arg14)) from a14,
    show launchContents m' c (Proc.devRef .tc Cert.ReferenceIdeal.main_arg15) = (m ((c.tc : Thread Cert.KernelIdeal.nD Cert.KernelIdeal.τ).loc Cert.KernelIdeal.main_arg15)) from a15,
    show launchContents m' c (Proc.devRef .tc Cert.ReferenceIdeal.main_arg16) = (m ((c.tc : Thread Cert.KernelIdeal.nD Cert.KernelIdeal.τ).loc Cert.KernelIdeal.main_arg16)) from a16,
    show launchContents m' c (Proc.devRef .tc Cert.ReferenceIdeal.main_arg17) = (m ((c.tc : Thread Cert.KernelIdeal.nD Cert.KernelIdeal.τ).loc Cert.KernelIdeal.main_arg17)) from a17,
    show launchContents m' c (Proc.devRef .tc Cert.ReferenceIdeal.main_arg18) = (m ((c.tc : Thread Cert.KernelIdeal.nD Cert.KernelIdeal.τ).loc Cert.KernelIdeal.main_arg18)) from a18,
    show launchContents m' c (Proc.devRef .tc Cert.ReferenceIdeal.main_arg19) = (m ((c.tc : Thread Cert.KernelIdeal.nD Cert.KernelIdeal.τ).loc Cert.KernelIdeal.main_arg19)) from a19,
    show launchContents m' c (Proc.devRef .tc Cert.ReferenceIdeal.main_arg20) = (m ((c.tc : Thread Cert.KernelIdeal.nD Cert.KernelIdeal.τ).loc Cert.KernelIdeal.main_arg20)) from a20,
    show launchContents m' c (Proc.devRef .tc Cert.ReferenceIdeal.main_arg21) = (m ((c.tc : Thread Cert.KernelIdeal.nD Cert.KernelIdeal.τ).loc Cert.KernelIdeal.main_arg21)) from a21,
    show launchContents m' c (Proc.devRef .tc Cert.ReferenceIdeal.main_arg22) = (m ((c.tc : Thread Cert.KernelIdeal.nD Cert.KernelIdeal.τ).loc Cert.KernelIdeal.main_arg22)) from a22,
    show launchContents m' c (Proc.devRef .tc Cert.ReferenceIdeal.main_arg23) = (m ((c.tc : Thread Cert.KernelIdeal.nD Cert.KernelIdeal.τ).loc Cert.KernelIdeal.main_arg23)) from a23]
  show refHead (F := Ideal) (refLayer5 (F := Ideal) (refLayer4 (F := Ideal) (refLayer3 (F := Ideal) (refLayer2 (F := Ideal) (refLayer1 (F := Ideal) ((m ((c.tc : Thread Cert.KernelIdeal.nD Cert.KernelIdeal.τ).loc Cert.KernelIdeal.main_arg0)) : FVec Ideal Cert.ReferenceIdeal.S100000x6 .f32) ((m ((c.tc : Thread Cert.KernelIdeal.nD Cert.KernelIdeal.τ).loc Cert.KernelIdeal.main_arg2)) : FVec Ideal Cert.ReferenceIdeal.S6x32 .f32) ((m ((c.tc : Thread Cert.KernelIdeal.nD Cert.KernelIdeal.τ).loc Cert.KernelIdeal.main_arg3)) : FVec Ideal Cert.ReferenceIdeal.S32 .f32) ((m ((c.tc : Thread Cert.KernelIdeal.nD Cert.KernelIdeal.τ).loc Cert.KernelIdeal.main_arg4)) : FVec Ideal Cert.ReferenceIdeal.S32 .f32) ((m ((c.tc : Thread Cert.KernelIdeal.nD Cert.KernelIdeal.τ).loc Cert.KernelIdeal.main_arg5)) : FVec Ideal Cert.ReferenceIdeal.S32 .f32)
      (eSrc (F := Ideal) m c) (eDst (F := Ideal) m c) (eNrm (F := Ideal) m c)) ((m ((c.tc : Thread Cert.KernelIdeal.nD Cert.KernelIdeal.τ).loc Cert.KernelIdeal.main_arg6)) : FVec Ideal Cert.ReferenceIdeal.S32x128 .f32) ((m ((c.tc : Thread Cert.KernelIdeal.nD Cert.KernelIdeal.τ).loc Cert.KernelIdeal.main_arg7)) : FVec Ideal Cert.ReferenceIdeal.S128 .f32) ((m ((c.tc : Thread Cert.KernelIdeal.nD Cert.KernelIdeal.τ).loc Cert.KernelIdeal.main_arg8)) : FVec Ideal Cert.ReferenceIdeal.S128 .f32) ((m ((c.tc : Thread Cert.KernelIdeal.nD Cert.KernelIdeal.τ).loc Cert.KernelIdeal.main_arg9)) : FVec Ideal Cert.ReferenceIdeal.S128 .f32)
      (eSrc (F := Ideal) m c) (eDst (F := Ideal) m c) (eNrm (F := Ideal) m c)) ((m ((c.tc : Thread Cert.KernelIdeal.nD Cert.KernelIdeal.τ).loc Cert.KernelIdeal.main_arg10)) : FVec Ideal Cert.ReferenceIdeal.S128x128 .f32) ((m ((c.tc : Thread Cert.KernelIdeal.nD Cert.KernelIdeal.τ).loc Cert.KernelIdeal.main_arg11)) : FVec Ideal Cert.ReferenceIdeal.S128 .f32) ((m ((c.tc : Thread Cert.KernelIdeal.nD Cert.KernelIdeal.τ).loc Cert.KernelIdeal.main_arg12)) : FVec Ideal Cert.ReferenceIdeal.S128 .f32) ((m ((c.tc : Thread Cert.KernelIdeal.nD Cert.KernelIdeal.τ).loc Cert.KernelIdeal.main_arg13)) : FVec Ideal Cert.ReferenceIdeal.S128 .f32)
      (eSrc (F := Ideal) m c) (eDst (F := Ideal) m c) (eNrm (F := Ideal) m c)) ((m ((c.tc : Thread Cert.KernelIdeal.nD Cert.KernelIdeal.τ).loc Cert.KernelIdeal.main_arg14)) : FVec Ideal Cert.ReferenceIdeal.S128x32 .f32) ((m ((c.tc : Thread Cert.KernelIdeal.nD Cert.KernelIdeal.τ).loc Cert.KernelIdeal.main_arg15)) : FVec Ideal Cert.ReferenceIdeal.S32 .f32) ((m ((c.tc : Thread Cert.KernelIdeal.nD Cert.KernelIdeal.τ).loc Cert.KernelIdeal.main_arg16)) : FVec Ideal Cert.ReferenceIdeal.S32 .f32) ((m ((c.tc : Thread Cert.KernelIdeal.nD Cert.KernelIdeal.τ).loc Cert.KernelIdeal.main_arg17)) : FVec Ideal Cert.ReferenceIdeal.S32 .f32)
      (eSrc (F := Ideal) m c) (eDst (F := Ideal) m c) (eNrm (F := Ideal) m c)) ((m ((c.tc : Thread Cert.KernelIdeal.nD Cert.KernelIdeal.τ).loc Cert.KernelIdeal.main_arg18)) : FVec Ideal Cert.ReferenceIdeal.S32x16 .f32) ((m ((c.tc : Thread Cert.KernelIdeal.nD Cert.KernelIdeal.τ).loc Cert.KernelIdeal.main_arg19)) : FVec Ideal Cert.ReferenceIdeal.S16 .f32) ((m ((c.tc : Thread Cert.KernelIdeal.nD Cert.KernelIdeal.τ).loc Cert.KernelIdeal.main_arg20)) : FVec Ideal Cert.ReferenceIdeal.S16 .f32) ((m ((c.tc : Thread Cert.KernelIdeal.nD Cert.KernelIdeal.τ).loc Cert.KernelIdeal.main_arg21)) : FVec Ideal Cert.ReferenceIdeal.S16 .f32)
      (eSrc (F := Ideal) m c) (eDst (F := Ideal) m c) (eNrm (F := Ideal) m c))
      ((m ((c.tc : Thread Cert.KernelIdeal.nD Cert.KernelIdeal.τ).loc Cert.KernelIdeal.main_arg22)) : FVec Ideal Cert.ReferenceIdeal.S16x3 .f32) ((m ((c.tc : Thread Cert.KernelIdeal.nD Cert.KernelIdeal.τ).loc Cert.KernelIdeal.main_arg23)) : FVec Ideal Cert.ReferenceIdeal.S3 .f32) = kerOut m S c
  rw [e1, e2, e3, e4, e5]
  exact head_eq (kH5 m S c) ((m ((c.tc : Thread Cert.KernelIdeal.nD Cert.KernelIdeal.τ).loc Cert.KernelIdeal.main_arg22)) : FVec Ideal Cert.ReferenceIdeal.S16x3 .f32) ((m ((c.tc : Thread Cert.KernelIdeal.nD Cert.KernelIdeal.τ).loc Cert.KernelIdeal.main_arg23)) : FVec Ideal Cert.ReferenceIdeal.S3 .f32)

/-- The concrete statistics — the batch mean and the one-pass variance — have the forms. -/
theorem statsForm_kerStats : StatsForm kerStats :=
  ⟨fun _ _ _ => rfl, fun _ _ _ => rfl, fun _ _ _ => rfl, fun _ _ _ => rfl, fun _ _ _ => rfl, fun _ _ _ => rfl, fun _ _ _ => rfl, fun _ _ _ => rfl, fun _ _ _ => rfl, fun _ _ _ => rfl⟩

/-- THE BRIDGE: from memories that agree on the 24 arguments, under the precondition, the reference's result is the
    kernel's value. -/
theorem net_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (c : Dev Cert.KernelIdeal.nD) :
    refNet (F := Ideal) (launchContents m' c) = kerOut m kerStats c :=
  net_eq_of m m' kerStats statsForm_kerStats hpre hagree c

/-! ## Against the kernel's run -/

section Result
open Cert.KernelIdeal Cert.KernelIdeal.Gen Idealize.ShloMosaic.TcCoe

set_option maxHeartbeats 4000000 in
/-- The reference's result is what the kernel's last region leaves in the result array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (c : Dev Cert.KernelIdeal.nD) :
    refNet (F := Ideal) (launchContents m' c)
      = (dat15 (F := Ideal) (fun c b => V31 m (outsS16 m) c b) c).arrAt 3 cfg15.N :=
  (net_eq m m' hpre hagree c).trans (kernel_value_closed m c).symm

end Result

end Cert.Bridge

end
-- ==== Proof.KI.KerRead.lean ====
/-
  The stage arrays of the idealized kernel's value read at an index, over the parameter vectors as launched.

  A parameter row is its vector reshaped, so at column o it is the vector at o; a linear stage's bias row is zero, so
  the stage at (n, o) is the plain sum of products; the statistics at column o are the batch mean and the one-pass
  variance of the aggregated column plus the bias; a layer's output at (n, o) is the normalised entry, rectified.
  A launch argument is written `@id (S.Idx → EReal) (m …)`: the launch memory at the argument's buffer, as a function on
  its literal index type.
-/
import proofs.«109725_j21638045237575_1_alg».proof.Proof.KI.KerNet

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen
open Cert.Lib.NormTile Cert.Lib.LinearTile

variable (m : (ℓ : Loc nD τ sig) → Buf (Elt Ideal) ℓ) (S : KerStats)

/-! ## The general functions at an index -/

theorem normFn_apply {M N : Nat} (A : (⟨2, ![M, N]⟩ : Shape).Idx → EReal) (B Mn Vr G Bt : (⟨2, ![1, N]⟩ : Shape).Idx → EReal)
    (n : Fin M) (o : Fin N) :
    normFn A B Mn Vr G Bt (ix2 n o)
      = leakyAt (Ideal.ofBits .f32 0x00000000#32) (Ideal.ofBits .f32 0x3C23D70A#32)
          (normAt (Ideal.ofBits .f32 0x3727C5AC#32) (A (ix2 n o)) (B (ix2 (0 : Fin 1) o)) (Vr (ix2 (0 : Fin 1) o))
            (Mn (ix2 (0 : Fin 1) o)) (G (ix2 (0 : Fin 1) o)) (Bt (ix2 (0 : Fin 1) o))) := rfl

theorem statMean_apply {R N : Nat} (A : (⟨2, ![R, N]⟩ : Shape).Idx → EReal) (B : (⟨2, ![1, N]⟩ : Shape).Idx → EReal) (o : Fin N) :
    statMean A B (ix2 (0 : Fin 1) o)
      = Ideal.div (∑ n : Fin R, (A (ix2 n o) + B (ix2 (0 : Fin 1) o))) (Ideal.ofBits .f32 0x47C35000#32) := rfl

theorem statVar_apply {R N : Nat} (A : (⟨2, ![R, N]⟩ : Shape).Idx → EReal) (B : (⟨2, ![1, N]⟩ : Shape).Idx → EReal) (o : Fin N) :
    statVar A B (ix2 (0 : Fin 1) o)
      = Ideal.div (∑ n : Fin R, (A (ix2 n o) + B (ix2 (0 : Fin 1) o)) * (A (ix2 n o) + B (ix2 (0 : Fin 1) o))) (Ideal.ofBits .f32 0x47C35000#32)
        - statMean A B (ix2 (0 : Fin 1) o) * statMean A B (ix2 (0 : Fin 1) o) := rfl

/-- The zero bias row of width 32, read at any entry: zero. -/
theorem zeroRow32_apply (o : Fin 32) :
    (fun i => shapeCast S1x32 (broadcastInDim S32 ![] bcast_S_S32 (constant (F := Ideal) S_ .f32 0x00000000#32) : (⟨S32, .f32⟩ : BufTy).Contents (Elt Ideal)) shapeCasts_S32_S1x32 i : S1x32.Idx → EReal) (ix2 (0 : Fin 1) o) = 0 :=
  (shapeCast_a_1a_apply (a := 32) _ shapeCasts_S32_S1x32 0 o).trans Ideal.ofBits_zero_f32

/-! ### Layer 1 -/

/-- The parameter rows read at column o are the parameter vectors at o. -/
theorem kB1_apply (c : Dev nD) (o : Fin 32) : kB1 m c (ix2 (0 : Fin 1) o) = (@id (S32.Idx → EReal) (m ((c : Thread nD τ).loc main_arg3))) (ix1 o) :=
  shapeCast_a_1a_apply (a := 32) _ shapeCasts_S32_S1x32 0 o
theorem kG1_apply (c : Dev nD) (o : Fin 32) : kG1 m c (ix2 (0 : Fin 1) o) = (@id (S32.Idx → EReal) (m ((c : Thread nD τ).loc main_arg4))) (ix1 o) :=
  shapeCast_a_1a_apply (a := 32) _ shapeCasts_S32_S1x32 0 o
theorem kT1_apply (c : Dev nD) (o : Fin 32) : kT1 m c (ix2 (0 : Fin 1) o) = (@id (S32.Idx → EReal) (m ((c : Thread nD τ).loc main_arg5))) (ix1 o) :=
  shapeCast_a_1a_apply (a := 32) _ shapeCasts_S32_S1x32 0 o
/-- The linear stage at (n, o): the plain sum of products (its bias row is zero). -/
theorem kZ1_apply (c : Dev nD) (n : Fin 100000) (o : Fin 32) :
    kZ1 m c (ix2 n o) = ∑ k : Fin 6, (@id (S100000x6.Idx → EReal) (m ((c : Thread nD τ).loc main_arg0))) (ix2 n k) * (@id (S6x32.Idx → EReal) (m ((c : Thread nD τ).loc main_arg2))) (ix2 k o) :=
  (linearAt_apply _ _ _ n o).trans ((congrArg (fun z : EReal => (∑ k : Fin 6, (@id (S100000x6.Idx → EReal) (m ((c : Thread nD τ).loc main_arg0))) (ix2 n k) * (@id (S6x32.Idx → EReal) (m ((c : Thread nD τ).loc main_arg2))) (ix2 k o)) + z) (zeroRow32_apply o)).trans (add_zero _))
/-- The statistics at column o, at the concrete family: the batch mean and the one-pass variance of the aggregated column plus the bias. -/
theorem kM1_apply (c : Dev nD) (o : Fin 32) :
    kM1 m kerStats c (ix2 (0 : Fin 1) o)
      = Ideal.div (∑ n : Fin 100000, (kA1 m c (ix2 n o) + (@id (S32.Idx → EReal) (m ((c : Thread nD τ).loc main_arg3))) (ix1 o))) (Ideal.ofBits .f32 0x47C35000#32) :=
  (statMean_apply (R := 100000) (N := 32) (kA1 m c) (kB1 m c) o).trans (by rw [kB1_apply])
theorem kV1_apply (c : Dev nD) (o : Fin 32) :
    kV1 m kerStats c (ix2 (0 : Fin 1) o)
      = Ideal.div (∑ n : Fin 100000, (kA1 m c (ix2 n o) + (@id (S32.Idx → EReal) (m ((c : Thread nD τ).loc main_arg3))) (ix1 o)) * (kA1 m c (ix2 n o) + (@id (S32.Idx → EReal) (m ((c : Thread nD τ).loc main_arg3))) (ix1 o))) (Ideal.ofBits .f32 0x47C35000#32)
        - kM1 m kerStats c (ix2 (0 : Fin 1) o) * kM1 m kerStats c (ix2 (0 : Fin 1) o) :=
  (statVar_apply (R := 100000) (N := 32) (kA1 m c) (kB1 m c) o).trans (by rw [kB1_apply]; rfl)
/-- The layer's output at (n, o): the normalised entry, rectified, over the parameter vectors at o. -/
theorem kH1_apply (c : Dev nD) (n : Fin 100000) (o : Fin 32) :
    kH1 m S c (ix2 n o)
      = leakyAt (Ideal.ofBits .f32 0x00000000#32) (Ideal.ofBits .f32 0x3C23D70A#32)
          (normAt (Ideal.ofBits .f32 0x3727C5AC#32) (kA1 m c (ix2 n o)) ((@id (S32.Idx → EReal) (m ((c : Thread nD τ).loc main_arg3))) (ix1 o)) (kV1 m S c (ix2 (0 : Fin 1) o))
            (kM1 m S c (ix2 (0 : Fin 1) o)) ((@id (S32.Idx → EReal) (m ((c : Thread nD τ).loc main_arg4))) (ix1 o)) ((@id (S32.Idx → EReal) (m ((c : Thread nD τ).loc main_arg5))) (ix1 o))) :=
  (normFn_apply (M := 100000) (N := 32) (kA1 m c) (kB1 m c) (kM1 m S c) (kV1 m S c) (kG1 m c) (kT1 m c) n o).trans
    (by rw [kB1_apply, kG1_apply, kT1_apply])

/-- The zero bias row of width 128, read at any entry: zero. -/
theorem zeroRow128_apply (o : Fin 128) :
    (fun i => shapeCast S1x128 (broadcastInDim S128 ![] bcast_S_S128 (constant (F := Ideal) S_ .f32 0x00000000#32) : (⟨S128, .f32⟩ : BufTy).Contents (Elt Ideal)) shapeCasts_S128_S1x128 i : S1x128.Idx → EReal) (ix2 (0 : Fin 1) o) = 0 :=
  (shapeCast_a_1a_apply (a := 128) _ shapeCasts_S128_S1x128 0 o).trans Ideal.ofBits_zero_f32

/-! ### Layer 2 -/

/-- The parameter rows read at column o are the parameter vectors at o. -/
theorem kB2_apply (c : Dev nD) (o : Fin 128) : kB2 m c (ix2 (0 : Fin 1) o) = (@id (S128.Idx → EReal) (m ((c : Thread nD τ).loc main_arg7))) (ix1 o) :=
  shapeCast_a_1a_apply (a := 128) _ shapeCasts_S128_S1x128 0 o
theorem kG2_apply (c : Dev nD) (o : Fin 128) : kG2 m c (ix2 (0 : Fin 1) o) = (@id (S128.Idx → EReal) (m ((c : Thread nD τ).loc main_arg8))) (ix1 o) :=
  shapeCast_a_1a_apply (a := 128) _ shapeCasts_S128_S1x128 0 o
theorem kT2_apply (c : Dev nD) (o : Fin 128) : kT2 m c (ix2 (0 : Fin 1) o) = (@id (S128.Idx → EReal) (m ((c : Thread nD τ).loc main_arg9))) (ix1 o) :=
  shapeCast_a_1a_apply (a := 128) _ shapeCasts_S128_S1x128 0 o
/-- The linear stage at (n, o): the plain sum of products (its bias row is zero). -/
theorem kZ2_apply (c : Dev nD) (n : Fin 100000) (o : Fin 128) :
    kZ2 m S c (ix2 n o) = ∑ k : Fin 32, kH1 m S c (ix2 n k) * (@id (S32x128.Idx → EReal) (m ((c : Thread nD τ).loc main_arg6))) (ix2 k o) :=
  (linearAt_apply _ _ _ n o).trans ((congrArg (fun z : EReal => (∑ k : Fin 32, kH1 m S c (ix2 n k) * (@id (S32x128.Idx → EReal) (m ((c : Thread nD τ).loc main_arg6))) (ix2 k o)) + z) (zeroRow128_apply o)).trans (add_zero _))
/-- The statistics at column o, at the concrete family: the batch mean and the one-pass variance of the aggregated column plus the bias. -/
theorem kM2_apply (c : Dev nD) (o : Fin 128) :
    kM2 m kerStats c (ix2 (0 : Fin 1) o)
      = Ideal.div (∑ n : Fin 100000, (kA2 m kerStats c (ix2 n o) + (@id (S128.Idx → EReal) (m ((c : Thread nD τ).loc main_arg7))) (ix1 o))) (Ideal.ofBits .f32 0x47C35000#32) :=
  (statMean_apply (R := 100000) (N := 128) (kA2 m kerStats c) (kB2 m c) o).trans (by rw [kB2_apply])
theorem kV2_apply (c : Dev nD) (o : Fin 128) :
    kV2 m kerStats c (ix2 (0 : Fin 1) o)
      = Ideal.div (∑ n : Fin 100000, (kA2 m kerStats c (ix2 n o) + (@id (S128.Idx → EReal) (m ((c : Thread nD τ).loc main_arg7))) (ix1 o)) * (kA2 m kerStats c (ix2 n o) + (@id (S128.Idx → EReal) (m ((c : Thread nD τ).loc main_arg7))) (ix1 o))) (Ideal.ofBits .f32 0x47C35000#32)
        - kM2 m kerStats c (ix2 (0 : Fin 1) o) * kM2 m kerStats c (ix2 (0 : Fin 1) o) :=
  (statVar_apply (R := 100000) (N := 128) (kA2 m kerStats c) (kB2 m c) o).trans (by rw [kB2_apply]; rfl)
/-- The layer's output at (n, o): the normalised entry, rectified, over the parameter vectors at o. -/
theorem kH2_apply (c : Dev nD) (n : Fin 100000) (o : Fin 128) :
    kH2 m S c (ix2 n o)
      = leakyAt (Ideal.ofBits .f32 0x00000000#32) (Ideal.ofBits .f32 0x3C23D70A#32)
          (normAt (Ideal.ofBits .f32 0x3727C5AC#32) (kA2 m S c (ix2 n o)) ((@id (S128.Idx → EReal) (m ((c : Thread nD τ).loc main_arg7))) (ix1 o)) (kV2 m S c (ix2 (0 : Fin 1) o))
            (kM2 m S c (ix2 (0 : Fin 1) o)) ((@id (S128.Idx → EReal) (m ((c : Thread nD τ).loc main_arg8))) (ix1 o)) ((@id (S128.Idx → EReal) (m ((c : Thread nD τ).loc main_arg9))) (ix1 o))) :=
  (normFn_apply (M := 100000) (N := 128) (kA2 m S c) (kB2 m c) (kM2 m S c) (kV2 m S c) (kG2 m c) (kT2 m c) n o).trans
    (by rw [kB2_apply, kG2_apply, kT2_apply])

/-! ### Layer 3 -/

/-- The parameter rows read at column o are the parameter vectors at o. -/
theorem kB3_apply (c : Dev nD) (o : Fin 128) : kB3 m c (ix2 (0 : Fin 1) o) = (@id (S128.Idx → EReal) (m ((c : Thread nD τ).loc main_arg11))) (ix1 o) :=
  shapeCast_a_1a_apply (a := 128) _ shapeCasts_S128_S1x128 0 o
theorem kG3_apply (c : Dev nD) (o : Fin 128) : kG3 m c (ix2 (0 : Fin 1) o) = (@id (S128.Idx → EReal) (m ((c : Thread nD τ).loc main_arg12))) (ix1 o) :=
  shapeCast_a_1a_apply (a := 128) _ shapeCasts_S128_S1x128 0 o
theorem kT3_apply (c : Dev nD) (o : Fin 128) : kT3 m c (ix2 (0 : Fin 1) o) = (@id (S128.Idx → EReal) (m ((c : Thread nD τ).loc main_arg13))) (ix1 o) :=
  shapeCast_a_1a_apply (a := 128) _ shapeCasts_S128_S1x128 0 o
/-- The linear stage at (n, o): the plain sum of products (its bias row is zero). -/
theorem kZ3_apply (c : Dev nD) (n : Fin 100000) (o : Fin 128) :
    kZ3 m S c (ix2 n o) = ∑ k : Fin 128, kH2 m S c (ix2 n k) * (@id (S128x128.Idx → EReal) (m ((c : Thread nD τ).loc main_arg10))) (ix2 k o) :=
  (linearAt_apply _ _ _ n o).trans ((congrArg (fun z : EReal => (∑ k : Fin 128, kH2 m S c (ix2 n k) * (@id (S128x128.Idx → EReal) (m ((c : Thread nD τ).loc main_arg10))) (ix2 k o)) + z) (zeroRow128_apply o)).trans (add_zero _))
/-- The statistics at column o, at the concrete family: the batch mean and the one-pass variance of the aggregated column plus the bias. -/
theorem kM3_apply (c : Dev nD) (o : Fin 128) :
    kM3 m kerStats c (ix2 (0 : Fin 1) o)
      = Ideal.div (∑ n : Fin 100000, (kA3 m kerStats c (ix2 n o) + (@id (S128.Idx → EReal) (m ((c : Thread nD τ).loc main_arg11))) (ix1 o))) (Ideal.ofBits .f32 0x47C35000#32) :=
  (statMean_apply (R := 100000) (N := 128) (kA3 m kerStats c) (kB3 m c) o).trans (by rw [kB3_apply])
theorem kV3_apply (c : Dev nD) (o : Fin 128) :
    kV3 m kerStats c (ix2 (0 : Fin 1) o)
      = Ideal.div (∑ n : Fin 100000, (kA3 m kerStats c (ix2 n o) + (@id (S128.Idx → EReal) (m ((c : Thread nD τ).loc main_arg11))) (ix1 o)) * (kA3 m kerStats c (ix2 n o) + (@id (S128.Idx → EReal) (m ((c : Thread nD τ).loc main_arg11))) (ix1 o))) (Ideal.ofBits .f32 0x47C35000#32)
        - kM3 m kerStats c (ix2 (0 : Fin 1) o) * kM3 m kerStats c (ix2 (0 : Fin 1) o) :=
  (statVar_apply (R := 100000) (N := 128) (kA3 m kerStats c) (kB3 m c) o).trans (by rw [kB3_apply]; rfl)
/-- The layer's output at (n, o): the normalised entry, rectified, over the parameter vectors at o. -/
theorem kH3_apply (c : Dev nD) (n : Fin 100000) (o : Fin 128) :
    kH3 m S c (ix2 n o)
      = leakyAt (Ideal.ofBits .f32 0x00000000#32) (Ideal.ofBits .f32 0x3C23D70A#32)
          (normAt (Ideal.ofBits .f32 0x3727C5AC#32) (kA3 m S c (ix2 n o)) ((@id (S128.Idx → EReal) (m ((c : Thread nD τ).loc main_arg11))) (ix1 o)) (kV3 m S c (ix2 (0 : Fin 1) o))
            (kM3 m S c (ix2 (0 : Fin 1) o)) ((@id (S128.Idx → EReal) (m ((c : Thread nD τ).loc main_arg12))) (ix1 o)) ((@id (S128.Idx → EReal) (m ((c : Thread nD τ).loc main_arg13))) (ix1 o))) :=
  (normFn_apply (M := 100000) (N := 128) (kA3 m S c) (kB3 m c) (kM3 m S c) (kV3 m S c) (kG3 m c) (kT3 m c) n o).trans
    (by rw [kB3_apply, kG3_apply, kT3_apply])

/-! ### Layer 4 -/

/-- The parameter rows read at column o are the parameter vectors at o. -/
theorem kB4_apply (c : Dev nD) (o : Fin 32) : kB4 m c (ix2 (0 : Fin 1) o) = (@id (S32.Idx → EReal) (m ((c : Thread nD τ).loc main_arg15))) (ix1 o) :=
  shapeCast_a_1a_apply (a := 32) _ shapeCasts_S32_S1x32 0 o
theorem kG4_apply (c : Dev nD) (o : Fin 32) : kG4 m c (ix2 (0 : Fin 1) o) = (@id (S32.Idx → EReal) (m ((c : Thread nD τ).loc main_arg16))) (ix1 o) :=
  shapeCast_a_1a_apply (a := 32) _ shapeCasts_S32_S1x32 0 o
theorem kT4_apply (c : Dev nD) (o : Fin 32) : kT4 m c (ix2 (0 : Fin 1) o) = (@id (S32.Idx → EReal) (m ((c : Thread nD τ).loc main_arg17))) (ix1 o) :=
  shapeCast_a_1a_apply (a := 32) _ shapeCasts_S32_S1x32 0 o
/-- The linear stage at (n, o): the plain sum of products (its bias row is zero). -/
theorem kZ4_apply (c : Dev nD) (n : Fin 100000) (o : Fin 32) :
    kZ4 m S c (ix2 n o) = ∑ k : Fin 128, kH3 m S c (ix2 n k) * (@id (S128x32.Idx → EReal) (m ((c : Thread nD τ).loc main_arg14))) (ix2 k o) :=
  (linearAt_apply _ _ _ n o).trans ((congrArg (fun z : EReal => (∑ k : Fin 128, kH3 m S c (ix2 n k) * (@id (S128x32.Idx → EReal) (m ((c : Thread nD τ).loc main_arg14))) (ix2 k o)) + z) (zeroRow32_apply o)).trans (add_zero _))
/-- The statistics at column o, at the concrete family: the batch mean and the one-pass variance of the aggregated column plus the bias. -/
theorem kM4_apply (c : Dev nD) (o : Fin 32) :
    kM4 m kerStats c (ix2 (0 : Fin 1) o)
      = Ideal.div (∑ n : Fin 100000, (kA4 m kerStats c (ix2 n o) + (@id (S32.Idx → EReal) (m ((c : Thread nD τ).loc main_arg15))) (ix1 o))) (Ideal.ofBits .f32 0x47C35000#32) :=
  (statMean_apply (R := 100000) (N := 32) (kA4 m kerStats c) (kB4 m c) o).trans (by rw [kB4_apply])
theorem kV4_apply (c : Dev nD) (o : Fin 32) :
    kV4 m kerStats c (ix2 (0 : Fin 1) o)
      = Ideal.div (∑ n : Fin 100000, (kA4 m kerStats c (ix2 n o) + (@id (S32.Idx → EReal) (m ((c : Thread nD τ).loc main_arg15))) (ix1 o)) * (kA4 m kerStats c (ix2 n o) + (@id (S32.Idx → EReal) (m ((c : Thread nD τ).loc main_arg15))) (ix1 o))) (Ideal.ofBits .f32 0x47C35000#32)
        - kM4 m kerStats c (ix2 (0 : Fin 1) o) * kM4 m kerStats c (ix2 (0 : Fin 1) o) :=
  (statVar_apply (R := 100000) (N := 32) (kA4 m kerStats c) (kB4 m c) o).trans (by rw [kB4_apply]; rfl)
/-- The layer's output at (n, o): the normalised entry, rectified, over the parameter vectors at o. -/
theorem kH4_apply (c : Dev nD) (n : Fin 100000) (o : Fin 32) :
    kH4 m S c (ix2 n o)
      = leakyAt (Ideal.ofBits .f32 0x00000000#32) (Ideal.ofBits .f32 0x3C23D70A#32)
          (normAt (Ideal.ofBits .f32 0x3727C5AC#32) (kA4 m S c (ix2 n o)) ((@id (S32.Idx → EReal) (m ((c : Thread nD τ).loc main_arg15))) (ix1 o)) (kV4 m S c (ix2 (0 : Fin 1) o))
            (kM4 m S c (ix2 (0 : Fin 1) o)) ((@id (S32.Idx → EReal) (m ((c : Thread nD τ).loc main_arg16))) (ix1 o)) ((@id (S32.Idx → EReal) (m ((c : Thread nD τ).loc main_arg17))) (ix1 o))) :=
  (normFn_apply (M := 100000) (N := 32) (kA4 m S c) (kB4 m c) (kM4 m S c) (kV4 m S c) (kG4 m c) (kT4 m c) n o).trans
    (by rw [kB4_apply, kG4_apply, kT4_apply])

/-- The zero bias row of width 16, read at any entry: zero. -/
theorem zeroRow16_apply (o : Fin 16) :
    (fun i => shapeCast S1x16 (broadcastInDim S16 ![] bcast_S_S16 (constant (F := Ideal) S_ .f32 0x00000000#32) : (⟨S16, .f32⟩ : BufTy).Contents (Elt Ideal)) shapeCasts_S16_S1x16 i : S1x16.Idx → EReal) (ix2 (0 : Fin 1) o) = 0 :=
  (shapeCast_a_1a_apply (a := 16) _ shapeCasts_S16_S1x16 0 o).trans Ideal.ofBits_zero_f32

/-! ### Layer 5 -/

/-- The parameter rows read at column o are the parameter vectors at o. -/
theorem kB5_apply (c : Dev nD) (o : Fin 16) : kB5 m c (ix2 (0 : Fin 1) o) = (@id (S16.Idx → EReal) (m ((c : Thread nD τ).loc main_arg19))) (ix1 o) :=
  shapeCast_a_1a_apply (a := 16) _ shapeCasts_S16_S1x16 0 o
theorem kG5_apply (c : Dev nD) (o : Fin 16) : kG5 m c (ix2 (0 : Fin 1) o) = (@id (S16.Idx → EReal) (m ((c : Thread nD τ).loc main_arg20))) (ix1 o) :=
  shapeCast_a_1a_apply (a := 16) _ shapeCasts_S16_S1x16 0 o
theorem kT5_apply (c : Dev nD) (o : Fin 16) : kT5 m c (ix2 (0 : Fin 1) o) = (@id (S16.Idx → EReal) (m ((c : Thread nD τ).loc main_arg21))) (ix1 o) :=
  shapeCast_a_1a_apply (a := 16) _ shapeCasts_S16_S1x16 0 o
/-- The linear stage at (n, o): the plain sum of products (its bias row is zero). -/
theorem kZ5_apply (c : Dev nD) (n : Fin 100000) (o : Fin 16) :
    kZ5 m S c (ix2 n o) = ∑ k : Fin 32, kH4 m S c (ix2 n k) * (@id (S32x16.Idx → EReal) (m ((c : Thread nD τ).loc main_arg18))) (ix2 k o) :=
  (linearAt_apply _ _ _ n o).trans ((congrArg (fun z : EReal => (∑ k : Fin 32, kH4 m S c (ix2 n k) * (@id (S32x16.Idx → EReal) (m ((c : Thread nD τ).loc main_arg18))) (ix2 k o)) + z) (zeroRow16_apply o)).trans (add_zero _))
/-- The statistics at column o, at the concrete family: the batch mean and the one-pass variance of the aggregated column plus the bias. -/
theorem kM5_apply (c : Dev nD) (o : Fin 16) :
    kM5 m kerStats c (ix2 (0 : Fin 1) o)
      = Ideal.div (∑ n : Fin 100000, (kA5 m kerStats c (ix2 n o) + (@id (S16.Idx → EReal) (m ((c : Thread nD τ).loc main_arg19))) (ix1 o))) (Ideal.ofBits .f32 0x47C35000#32) :=
  (statMean_apply (R := 100000) (N := 16) (kA5 m kerStats c) (kB5 m c) o).trans (by rw [kB5_apply])
theorem kV5_apply (c : Dev nD) (o : Fin 16) :
    kV5 m kerStats c (ix2 (0 : Fin 1) o)
      = Ideal.div (∑ n : Fin 100000, (kA5 m kerStats c (ix2 n o) + (@id (S16.Idx → EReal) (m ((c : Thread nD τ).loc main_arg19))) (ix1 o)) * (kA5 m kerStats c (ix2 n o) + (@id (S16.Idx → EReal) (m ((c : Thread nD τ).loc main_arg19))) (ix1 o))) (Ideal.ofBits .f32 0x47C35000#32)
        - kM5 m kerStats c (ix2 (0 : Fin 1) o) * kM5 m kerStats c (ix2 (0 : Fin 1) o) :=
  (statVar_apply (R := 100000) (N := 16) (kA5 m kerStats c) (kB5 m c) o).trans (by rw [kB5_apply]; rfl)
/-- The layer's output at (n, o): the normalised entry, rectified, over the parameter vectors at o. -/
theorem kH5_apply (c : Dev nD) (n : Fin 100000) (o : Fin 16) :
    kH5 m S c (ix2 n o)
      = leakyAt (Ideal.ofBits .f32 0x00000000#32) (Ideal.ofBits .f32 0x3C23D70A#32)
          (normAt (Ideal.ofBits .f32 0x3727C5AC#32) (kA5 m S c (ix2 n o)) ((@id (S16.Idx → EReal) (m ((c : Thread nD τ).loc main_arg19))) (ix1 o)) (kV5 m S c (ix2 (0 : Fin 1) o))
            (kM5 m S c (ix2 (0 : Fin 1) o)) ((@id (S16.Idx → EReal) (m ((c : Thread nD τ).loc main_arg20))) (ix1 o)) ((@id (S16.Idx → EReal) (m ((c : Thread nD τ).loc main_arg21))) (ix1 o))) :=
  (normFn_apply (M := 100000) (N := 16) (kA5 m S c) (kB5 m c) (kM5 m S c) (kV5 m S c) (kG5 m c) (kT5 m c) n o).trans
    (by rw [kB5_apply, kG5_apply, kT5_apply])

/-! ### The output projection -/

/-- The kernel's result at (n, o): the last layer's row times the head's weight column, plus the head's bias at o. -/
theorem kerOut_apply (c : Dev nD) (n : Fin 100000) (o : Fin 3) :
    kerOut m S c (ix2 n o) = (∑ k : Fin 16, kH5 m S c (ix2 n k) * (@id (S16x3.Idx → EReal) (m ((c : Thread nD τ).loc main_arg22))) (ix2 k o)) + (@id (S3.Idx → EReal) (m ((c : Thread nD τ).loc main_arg23))) (ix1 o) :=
  (linearAt_apply _ _ _ n o).trans (congrArg (fun z : EReal => (∑ k : Fin 16, kH5 m S c (ix2 n k) * (@id (S16x3.Idx → EReal) (m ((c : Thread nD τ).loc main_arg22))) (ix2 k o)) + z)
    (shapeCast_a_1a_apply (a := 3) _ shapeCasts_S3_S1x3 0 o))

end Cert.KernelIdeal.Hand

end
-- ==== Proof.LibRowGather.lean ====
/-
  A gather of whole ROWS (or of single entries of a vector), read at an index.

  The operand is a table of `N` rows (of `C` entries each, or of one entry), the start indices a column of `E`
  words, the result `E` rows of the same width.  Result row `e` is the operand's row named by the `e`-th index
  word: the word is read as a signed integer and clamped to `[0, N - 1]` (a negative word names row 0, a word past
  the end names the last row), so every result entry IS an operand entry.  Entry `(e, c)` of the result is the
  operand's entry `(clamped row of e, c)`.  Holds for values of any type: nothing is computed, entries are only
  selected.
-/
import Idealize.ShloMosaic.PureOps.Ideal
import Idealize.ShloMosaic.Lib.ValueIdx

noncomputable section

namespace RowGather

open Idealize.ShloMosaic Idealize.ShloMosaic.ValueIdx

/-- The operand row an index word names: the word read signed, a negative one taken to 0, at most `N - 1`. -/
def clampRow (N : Nat) {w : Nat} (b : BitVec w) : Nat := min b.toInt.toNat (N - 1)

/-- A word whose signed reading is the natural number `n`, itself at most `N - 1`, names row `n`. -/
theorem clampRow_of_toInt {N w : Nat} (b : BitVec w) (n : Nat) (hb : b.toInt = (n : Int)) (hn : n ≤ N - 1) :
    clampRow N b = n := by
  unfold clampRow; rw [hb, Int.toNat_natCast]; exact Nat.min_eq_left hn

/-! ## Rows of `C` entries -/

/-- The dimension numbers of a gather of whole rows: the result's axis 1 is the offset axis, reading the operand's
    axis 1 in full; the operand's axis 0 is collapsed (slice size 1) and named by the one component of each start
    index. -/
private abbrev rowsDims (N C E : Nat)
    (wf : GatherDims.WF (⟨2, ![N, C]⟩ : Shape) (⟨2, ![E, 1]⟩ : Shape) (⟨2, ![E, C]⟩ : Shape) [1] [0] [] [0] [] 1 ![1, C]) :
    GatherDims (⟨2, ![N, C]⟩ : Shape) (⟨2, ![E, 1]⟩ : Shape) (⟨2, ![E, C]⟩ : Shape) where
  offsetDims := [1]
  collapsedSliceDims := [0]
  operandBatchingDims := []
  startIndicesBatchingDims := []
  startIndexMap := [0]
  indexVectorDim := 1
  sliceSizes := ![1, C]
  wf := wf

section Rows
variable {N C E w : Nat}
  (wf : GatherDims.WF (⟨2, ![N, C]⟩ : Shape) (⟨2, ![E, 1]⟩ : Shape) (⟨2, ![E, C]⟩ : Shape) [1] [0] [] [0] [] 1 ![1, C])
  (j : (⟨2, ![E, C]⟩ : Shape).Idx) (idx : IVec (⟨2, ![E, 1]⟩ : Shape) w)

/-- On the row axis the slice starts at the clamped index word of the result's row. -/
private theorem rows_start0 : (rowsDims N C E wf).start j idx 0 = clampRow N (idx (ix2 (j 0) (0 : Fin 1))) := by
  unfold GatherDims.start
  rw [dif_pos (show (0 : Fin 2) ∈ (rowsDims N C E wf).startIndexMap from List.mem_singleton.mpr rfl)]
  have hsi : (rowsDims N C E wf).siIdx j ⟨List.idxOf (0 : Fin 2) (rowsDims N C E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the entry axis the slice starts at 0: no index component names it. -/
private theorem rows_start1 : (rowsDims N C E wf).start j idx 1 = 0 := by
  unfold GatherDims.start
  have h : ¬ (1 : Fin 2) ∈ (rowsDims N C E wf).startIndexMap :=
    show ¬ (1 : Fin 2) ∈ ([0] : List (Fin 2)) from by decide
  rw [dif_neg h]

/-- There is no batching axis. -/
private theorem rows_batch (a : Fin 2) : (rowsDims N C E wf).batchCoord j a = 0 :=
  (rowsDims N C E wf).batchCoord_eq_zero j a (show ¬ a ∈ ([] : List (Fin 2)) from List.not_mem_nil)

/-- The row axis is collapsed: its offset coordinate is 0. -/
private theorem rows_off0 : (rowsDims N C E wf).offCoord j 0 = 0 := by
  unfold GatherDims.offCoord
  have h : ¬ (0 : Fin 2) ∈ (rowsDims N C E wf).sKept :=
    show ¬ (0 : Fin 2) ∈ ([1] : List (Fin 2)) from by decide
  rw [dif_neg h]

/-- The entry axis is the offset axis: its offset coordinate is the result's entry coordinate. -/
private theorem rows_off1 : (rowsDims N C E wf).offCoord j 1 = (j 1).val := by
  unfold GatherDims.offCoord
  have h : (1 : Fin 2) ∈ (rowsDims N C E wf).sKept :=
    show (1 : Fin 2) ∈ ([1] : List (Fin 2)) from by decide
  rw [dif_pos h]
  rfl

/-- The operand index a result index reads: the clamped row of its index word, and its own entry coordinate. -/
private theorem rows_operandIdx :
    ((rowsDims N C E wf).operandIdx j idx 0).val = clampRow N (idx (ix2 (j 0) (0 : Fin 1)))
      ∧ ((rowsDims N C E wf).operandIdx j idx 1).val = (j 1).val := by
  constructor
  · show (rowsDims N C E wf).start j idx 0 + (rowsDims N C E wf).batchCoord j 0 + (rowsDims N C E wf).offCoord j 0 = _
    rw [rows_start0, rows_batch, rows_off0]; rfl
  · show (rowsDims N C E wf).start j idx 1 + (rowsDims N C E wf).batchCoord j 1 + (rowsDims N C E wf).offCoord j 1 = _
    rw [rows_start1, rows_batch, rows_off1]; omega

end Rows

/-- Rows of `C` entries: entry `(e, c)` of the gather is the operand's entry `(r, c)`, `r` the clamped row that the
    `e`-th index word names. -/
theorem gather_rows_apply {α : Type} {N C E w : Nat}
    (d : GatherDims (⟨2, ![N, C]⟩ : Shape) (⟨2, ![E, 1]⟩ : Shape) (⟨2, ![E, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec (⟨2, ![E, 1]⟩ : Shape) w) (e : Fin E) (c : Fin C) :
    ∃ r : Fin N, r.val = clampRow N (idx (ix2 e (0 : Fin 1))) ∧ Host.gather d x idx (ix2 e c) = x (ix2 r c) := by
  obtain ⟨od, cd, ob, sb, sm, iv, ss, wf⟩ := d
  obtain rfl : od = [1] := h1
  obtain rfl : cd = [0] := h2
  obtain rfl : ob = [] := h3
  obtain rfl : sb = [] := h4
  obtain rfl : sm = [0] := h5
  obtain rfl : iv = 1 := h6
  obtain rfl : ss = ![1, C] := h7
  have h := rows_operandIdx wf (ix2 e c) idx
  refine ⟨(rowsDims N C E wf).operandIdx (ix2 e c) idx 0, h.1, ?_⟩
  show x ((rowsDims N C E wf).operandIdx (ix2 e c) idx) = _
  refine congrArg x (funext fun a => ?_)
  match a with
  | ⟨0, _⟩ => rfl
  | ⟨1, _⟩ => exact Fin.ext h.2

/-- Rows of `C` entries, at a result row whose index word reads (signed) as the row number `n` of the operand:
    entry `(e, c)` of the gather is the operand's entry `(n, c)`. -/
theorem gather_rows_apply_of_toInt {α : Type} {N C E w : Nat}
    (d : GatherDims (⟨2, ![N, C]⟩ : Shape) (⟨2, ![E, 1]⟩ : Shape) (⟨2, ![E, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec (⟨2, ![E, 1]⟩ : Shape) w) (e : Fin E) (c : Fin C) (n : Fin N)
    (hn : (idx (ix2 e (0 : Fin 1))).toInt = (n.val : Int)) :
    Host.gather d x idx (ix2 e c) = x (ix2 n c) := by
  obtain ⟨r, hr, hg⟩ := gather_rows_apply d h1 h2 h3 h4 h5 h6 h7 x idx e c
  rw [hg]
  have : r = n := Fin.ext (by rw [hr]; exact clampRow_of_toInt _ n.val hn (by have := n.isLt; omega))
  rw [this]

/-! ## Rows of one entry -/

/-- The dimension numbers of a gather of single entries of a vector: no offset axis; the operand's one axis is
    collapsed and named by the one component of each start index. -/
private abbrev vecDims (N E : Nat)
    (wf : GatherDims.WF (⟨1, ![N]⟩ : Shape) (⟨2, ![E, 1]⟩ : Shape) (⟨1, ![E]⟩ : Shape) [] [0] [] [0] [] 1 ![1]) :
    GatherDims (⟨1, ![N]⟩ : Shape) (⟨2, ![E, 1]⟩ : Shape) (⟨1, ![E]⟩ : Shape) where
  offsetDims := []
  collapsedSliceDims := [0]
  operandBatchingDims := []
  startIndicesBatchingDims := []
  startIndexMap := [0]
  indexVectorDim := 1
  sliceSizes := ![1]
  wf := wf

section Vec
variable {N E w : Nat}
  (wf : GatherDims.WF (⟨1, ![N]⟩ : Shape) (⟨2, ![E, 1]⟩ : Shape) (⟨1, ![E]⟩ : Shape) [] [0] [] [0] [] 1 ![1])
  (j : (⟨1, ![E]⟩ : Shape).Idx) (idx : IVec (⟨2, ![E, 1]⟩ : Shape) w)

/-- On the one operand axis the slice starts at the clamped index word of the result's position. -/
private theorem vec_start0 : (vecDims N E wf).start j idx 0 = clampRow N (idx (ix2 (j 0) (0 : Fin 1))) := by
  unfold GatherDims.start
  rw [dif_pos (show (0 : Fin 1) ∈ (vecDims N E wf).startIndexMap from List.mem_singleton.mpr rfl)]
  have hsi : (vecDims N E wf).siIdx j ⟨List.idxOf (0 : Fin 1) (vecDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- There is no batching axis. -/
private theorem vec_batch (a : Fin 1) : (vecDims N E wf).batchCoord j a = 0 :=
  (vecDims N E wf).batchCoord_eq_zero j a (show ¬ a ∈ ([] : List (Fin 1)) from List.not_mem_nil)

/-- The one operand axis is collapsed: its offset coordinate is 0. -/
private theorem vec_off0 : (vecDims N E wf).offCoord j 0 = 0 := by
  unfold GatherDims.offCoord
  have h : ¬ (0 : Fin 1) ∈ (vecDims N E wf).sKept :=
    show ¬ (0 : Fin 1) ∈ ([] : List (Fin 1)) from by decide
  rw [dif_neg h]

private theorem vec_operandIdx :
    ((vecDims N E wf).operandIdx j idx 0).val = clampRow N (idx (ix2 (j 0) (0 : Fin 1))) := by
  show (vecDims N E wf).start j idx 0 + (vecDims N E wf).batchCoord j 0 + (vecDims N E wf).offCoord j 0 = _
  rw [vec_start0, vec_batch, vec_off0]; rfl

end Vec

/-- Rows of one entry (a vector operand): entry `e` of the gather is the operand's entry `r`, `r` the clamped
    position that the `e`-th index word names. -/
theorem gather_vec_apply {α : Type} {N E w : Nat}
    (d : GatherDims (⟨1, ![N]⟩ : Shape) (⟨2, ![E, 1]⟩ : Shape) (⟨1, ![E]⟩ : Shape))
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec (⟨2, ![E, 1]⟩ : Shape) w) (e : Fin E) :
    ∃ r : Fin N, r.val = clampRow N (idx (ix2 e (0 : Fin 1))) ∧ Host.gather d x idx (ix1 e) = x (ix1 r) := by
  obtain ⟨od, cd, ob, sb, sm, iv, ss, wf⟩ := d
  obtain rfl : od = [] := h1
  obtain rfl : cd = [0] := h2
  obtain rfl : ob = [] := h3
  obtain rfl : sb = [] := h4
  obtain rfl : sm = [0] := h5
  obtain rfl : iv = 1 := h6
  obtain rfl : ss = ![1] := h7
  have h := vec_operandIdx wf (ix1 e) idx
  refine ⟨(vecDims N E wf).operandIdx (ix1 e) idx 0, h, ?_⟩
  show x ((vecDims N E wf).operandIdx (ix1 e) idx) = _
  refine congrArg x (funext fun a => ?_)
  match a with
  | ⟨0, _⟩ => rfl

/-- A vector operand, at a result position whose index word reads (signed) as the position `n` of the operand:
    entry `e` of the gather is the operand's entry `n`. -/
theorem gather_vec_apply_of_toInt {α : Type} {N E w : Nat}
    (d : GatherDims (⟨1, ![N]⟩ : Shape) (⟨2, ![E, 1]⟩ : Shape) (⟨1, ![E]⟩ : Shape))
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec (⟨2, ![E, 1]⟩ : Shape) w) (e : Fin E) (n : Fin N)
    (hn : (idx (ix2 e (0 : Fin 1))).toInt = (n.val : Int)) :
    Host.gather d x idx (ix1 e) = x (ix1 n) := by
  obtain ⟨r, hr, hg⟩ := gather_vec_apply d h1 h2 h3 h4 h5 h6 h7 x idx e
  rw [hg]
  have : r = n := Fin.ext (by rw [hr]; exact clampRow_of_toInt _ n.val hn (by have := n.isLt; omega))
  rw [this]

/-! ## Every gathered entry is an operand entry -/

/-- Whatever the dimension numbers and the index words, each entry of a gather is some entry of the operand: a
    property that every operand entry has, every result entry has. -/
theorem gather_forall {α : Type} {s si t : Shape} {w : Nat} (d : GatherDims s si t) (x : s.Idx → α) (idx : IVec si w)
    (P : α → Prop) (hx : ∀ i, P (x i)) (j : t.Idx) : P (Host.gather d x idx j) :=
  hx _

end RowGather

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«109725_j21638045237575_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.lean ====
/-
  The certificate of a five-layer graph convolution network (100000 nodes, 1600000 edges and the nodes' self loops;
  widths 6, 32, 128, 128, 32, 16 and a linear head to 3) against its jnp reference, at the exact extended reals.

  Both programs compute the symmetric normalisation of the graph on the host — the degree of a node by a scatter-add
  of ones over the 1700000 messages, its inverse square root, and the product of the two gathered at a message's ends —
  and, per layer, gather the rows of h·W at the messages' sources, scale them and scatter-add them at the targets. The
  kernel then takes the batch statistics of the aggregated rows plus the bias in one pass (the column sums of the
  entries and of their squares over ten row tiles; mean = sum / n, variance = sum of squares / n − mean²) where the
  reference takes the mean and then the mean squared deviation; both normalise with the inverse square root of variance
  + ε, scale, shift and apply the leaky rectifier. Every float input being finite, every node having its self loop
  (so a degree of at least one), a gather reading an entry of its operand and a scatter-add summing finitely many
  updates, every intermediate entry is a real number, and for real entries the two variances are one number: the
  two programs end with equal results, entry by entry.

  The three frames are the programs' runs with the results forgotten; the kernel's idealization rewrote nothing.
-/
import proofs.«109725_j21638045237575_1_alg».proof.Defs
import proofs.«109725_j21638045237575_1_alg».proof.Proof.Gen.Kernel
import proofs.«109725_j21638045237575_1_alg».proof.Proof.Gen.KernelIdeal
import proofs.«109725_j21638045237575_1_alg».proof.Proof.Gen.ReferenceIdeal
import proofs.«109725_j21638045237575_1_alg».proof.Proof.Gen.Pre_finite_inputs
import proofs.«109725_j21638045237575_1_alg».proof.Proof.KB.Chain
import proofs.«109725_j21638045237575_1_alg».proof.Proof.KI.Chain
import proofs.«109725_j21638045237575_1_alg».proof.Proof.RefRun
import proofs.«109725_j21638045237575_1_alg».proof.Proof.Bridge
import proofs.«109725_j21638045237575_1_alg».proof.Proof.KI.KerRead
import proofs.«109725_j21638045237575_1_alg».proof.Proof.LibRowGather
import proofs.«109725_j21638045237575_1_alg».proof.Proof.LibRowBlocks

noncomputable section

namespace Cert.Proof

open Idealize.ShloMosaic Idealize.SL.Sem

/-- The kernel as printed runs, and leaves its arguments as launched. -/
theorem frame_k : Cert.frame_Kernel := fun m ρ _ =>
  (θ_run Cert.Kernel.defs _ _).mono (fun _ h c => (h c).2) (Cert.Kernel.Hand.run (F := Bits) m ρ)

/-- The idealized kernel runs, and leaves its arguments as launched. -/
theorem frame_ki : Cert.frame_KernelIdeal := fun m ρ _ =>
  (θ_run Cert.KernelIdeal.defs _ _).mono (fun _ h c => (h c).2) (Cert.KernelIdeal.Hand.run (F := Ideal) m ρ)

/-- The two idealized programs, from memories agreeing on the arguments, end with equal results: the kernel's result
    array is the fold of its last region's write-backs, the reference's the composed network of its operations, and the
    two are one array. -/
theorem algebraic : Cert.algebraic_KernelIdeal_ReferenceIdeal := by
  intro m ρ m' ρ' hpre hagree
  refine ⟨_, Cert.KernelIdeal.Hand.run (F := Ideal) m ρ, ?_⟩
  exact (θ_run Cert.ReferenceIdeal.defs _ _).mono
    (fun _ h c => ⟨(h c).1.trans (Cert.Bridge.result_eq m m' hpre hagree c), (h c).2⟩)
    (Cert.ReferenceIdeal.HandRun.run_net (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.HandRun.frame_ri, trivial, algebraic⟩

end Cert.Proof

end
